-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v280)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v280) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v336) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1048576 : Shape := ⟨2, ![2, 1048576]⟩
abbrev S65536 : Shape := ⟨1, ![65536]⟩
abbrev S65536x1 : Shape := ⟨2, ![65536, 1]⟩
abbrev S1x64 : Shape := ⟨2, ![1, 64]⟩
abbrev S64 : Shape := ⟨1, ![64]⟩
abbrev S4 : Shape := ⟨1, ![4]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S64x256 : Shape := ⟨2, ![64, 256]⟩
abbrev S256 : Shape := ⟨1, ![256]⟩
abbrev S_ : Shape := ⟨0, ![]⟩

class Facts : Prop where
  bcast_S_S65536x1 : S_.BroadcastsInDim S65536x1 (![] : Fin 0 → Fin S65536x1.rank)
  reducesTo_S65536x1_S_d0_1 : S65536x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S4 : S_.BroadcastsInDim S4 (![] : Fin 0 → Fin S4.rank)
  reducesTo_S4_S_d0 : S4.ReducesTo [0] S_
  bcast_S_S4x64x128 : S_.BroadcastsInDim S4x64x128 (![] : Fin 0 → Fin S4x64x128.rank)
  reducesTo_S4x64x128_S_d0_1_2 : S4x64x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S4x64 .f32) (main_arg14 : FVec F S64x256 .f32) (main_arg15 : FVec F S256 .f32) (main_v48 : IVec S_ 1) (main_v49 : FVec F S4x64 .f32) (main_v50 : FVec F S4x64 .f32) : IVec S_ 1 :=
  let main_v51 : IVec S4x64 1 := cmpf .olt main_v49 main_v50
  let main_c_19 : IVec S_ 1 := constantI S_ 1 1#1
  let main_v52 : IVec S_ 1 := (fun x v => Host.reduce IntOp.andi x v reducesTo_S4x64_S_d0_1 h_S_) main_v51 main_c_19
  let main_v53 : IVec S_ 1 := andi main_v48 main_v52
  let main_v54 : FVec F S4x64 .f32 := Host.absf main_arg13
  let main_cst_20 : FVec F S_ .f32 := constant S_ .f32 0x7F800000#32
  let main_v55 : FVec F S4x64 .f32 := broadcastInDim S4x64 ![] bcast_S_S4x64 main_cst_20
  let main_v56 : IVec S4x64 1 := cmpf .olt main_v54 main_v55
  let main_c_21 : IVec S_ 1 := constantI S_ 1 1#1
  let main_v57 : IVec S_ 1 := (fun x v => Host.reduce IntOp.andi x v reducesTo_S4x64_S_d0_1 h_S_) main_v56 main_c_21
  let main_v58 : IVec S_ 1 := andi main_v53 main_v57
  let main_v59 : FVec F S64x256 .f32 := Host.absf main_arg14
  let main_cst_22 : FVec F S_ .f32 := constant S_ .f32 0x7F800000#32
  let main_v60 : FVec F S64x256 .f32 := broadcastInDim S64x256 ![] bcast_S_S64x256 main_cst_22
  let main_v61 : IVec S64x256 1 := cmpf .olt main_v59 main_v60
  let main_c_23 : IVec S_ 1 := constantI S_ 1 1#1
  let main_v62 : IVec S_ 1 := (fun x v => Host.reduce IntOp.andi x v reducesTo_S64x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg9 : FVec F S4x128 .f32) (main_arg10 : FVec F S4x128x64 .f32) (main_arg11 : FVec F S4x64 .f32) (main_arg12 : FVec F S4x64 .f32) (main_arg13 : FVec F S4x64 .f32) (main_arg14 : FVec F S64x256 .f32) (main_arg15 : FVec F S256 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128x64 .f32 := Host.absf main_arg10
  let main_cst_14 : FVec F S_ .f32 := constant S_ .f32 0x7F800000#32
  let main_v40 : FVec F S4x128x64 .f32 := broadcastInDim S4x128x64 ![] bcast_S_S4x128x64 main_cst_14
  let main_v41 : IVec S4x128x64 1 := cmpf .olt main_v39 main_v40
  let main_c_15 : IVec S_ 1 := constantI S_ 1 1#1
  let main_v42 : IVec S_ 1 := (fun x v => Host.reduce IntOp.andi x v reducesTo_S4x128x64_S_d0_1_2 h_S_) main_v41 main_c_15
  let main_v43 : IVec S_ 1 := andi main_v38 main_v42
  let main_v44 : FVec F S4x64 .f32 := Host.absf main_arg11
  let main_cst_16 : FVec F S_ .f32 := constant S_ .f32 0x7F800000#32
  let main_v45 : FVec F S4x64 .f32 := broadcastInDim S4x64 ![] bcast_S_S4x64 main_cst_16
  let main_v46 : IVec S4x64 1 := cmpf .olt main_v44 main_v45
  let main_c_17 : IVec S_ 1 := constantI S_ 1 1#1
  let main_v47 : IVec S_ 1 := (fun x v => Host.reduce IntOp.andi x v reducesTo_S4x64_S_d0_1 h_S_) main_v46 main_c_17
  let main_v48 : IVec S_ 1 := andi main_v43 main_v47
  let main_v49 : FVec F S4x64 .f32 := Host.absf main_arg12
  let main_cst_18 : FVec F S_ .f32 := constant S_ .f32 0x7F800000#32
  let main_v50 : FVec F S4x64 .f32 := broadcastInDim S4x64 ![] bcast_S_S4x64 main_cst_18
  fn_part3 (F := F) main_arg13 main_arg14 main_arg15 main_v48 main_v49 main_v50

def fn_part1 {F : FTy → Type} [FloatOps F] (main_arg6 : FVec F S4x64x128 .f32) (main_arg7 : FVec F S4x128 .f32) (main_arg8 : FVec F S4x128 .f32) (main_arg9 : FVec F S4x128 .f32) (main_arg10 : FVec F S4x128x64 .f32) (main_arg11 : FVec F S4x64 .f32) (main_arg12 : FVec F S4x64 .f32) (main_arg13 : FVec F S4x64 .f32) (main_arg14 : FVec F S64x256 .f32) (main_arg15 : FVec F S256 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S4x64x128 .f32 := Host.absf main_arg6
  let main_cst_6 : FVec F S_ .f32 := constant S_ .f32 0x7F800000#32
  let main_v20 : FVec F S4x64x128 .f32 := broadcastInDim S4x64x128 ![] bcast_S_S4x64x128 main_cst_6
  let main_v21 : IVec S4x64x128 1 := cmpf .olt main_v19 main_v20
  let main_c_7 : IVec S_ 1 := constantI S_ 1 1#1
  let main_v22 : IVec S_ 1 := (fun x v => Host.reduce IntOp.andi x v reducesTo_S4x64x128_S_d0_1_2 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : IVec S2x1048576 32) (main_arg1 : IVec S65536 32) (main_arg2 : FVec F S65536x1 .f32) (main_arg3 : FVec F S1x64 .f32) (main_arg4 : FVec F S64 .f32) (main_arg5 : FVec F S4 .f32) (main_arg6 : FVec F S4x64x128 .f32) (main_arg7 : FVec F S4x128 .f32) (main_arg8 : FVec F S4x128 .f32) (main_arg9 : FVec F S4x128 .f32) (main_arg10 : FVec F S4x128x64 .f32) (main_arg11 : FVec F S4x64 .f32) (main_arg12 : FVec F S4x64 .f32) (main_arg13 : FVec F S4x64 .f32) (main_arg14 : FVec F S64x256 .f32) (main_arg15 : FVec F S256 .f32) : IVec S_ 1 :=
  let main_v0 : FVec F S65536x1 .f32 := Host.absf main_arg2
  let main_cst : FVec F S_ .f32 := constant S_ .f32 0x7F800000#32
  let main_v1 : FVec F S65536x1 .f32 := broadcastInDim S65536x1 ![] bcast_S_S65536x1 main_cst
  let main_v2 : IVec S65536x1 1 := cmpf .olt main_v0 main_v1
  let main_c : IVec S_ 1 := constantI S_ 1 1#1
  let main_v3 : IVec S_ 1 := (fun x v => Host.reduce IntOp.andi x v reducesTo_S65536x1_S_d0_1 h_S_) main_v2 main_c
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4 .f32 := Host.absf main_arg5
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg6 main_arg7 main_arg8 main_arg9 main_arg10 main_arg11 main_arg12 main_arg13 main_arg14 main_arg15 main_v13 main_v16
-- ==== Kernel.lean ====
abbrev S2x1048576 : Shape := ⟨2, ![2, 1048576]⟩
abbrev S65536 : Shape := ⟨1, ![65536]⟩
abbrev S65536x1 : Shape := ⟨2, ![65536, 1]⟩
abbrev S1x64 : Shape := ⟨2, ![1, 64]⟩
abbrev S64 : Shape := ⟨1, ![64]⟩
abbrev S4 : Shape := ⟨1, ![4]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S64x256 : Shape := ⟨2, ![64, 256]⟩
abbrev S256 : Shape := ⟨1, ![256]⟩
abbrev S1x1048576 : Shape := ⟨2, ![1, 1048576]⟩
abbrev S1048576 : Shape := ⟨1, ![1048576]⟩
abbrev S65536x64 : Shape := ⟨2, ![65536, 64]⟩
abbrev S8192x1 : Shape := ⟨2, ![8192, 1]⟩
abbrev S8192x64 : Shape := ⟨2, ![8192, 64]⟩
abbrev S_ : Shape := ⟨0, ![]⟩
abbrev S1048576x1 : Shape := ⟨2, ![1048576, 1]⟩
abbrev S1048576x64 : Shape := ⟨2, ![1048576, 64]⟩
abbrev S1 : Shape := ⟨1, ![1]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S1x1 : Shape := ⟨2, ![1, 1]⟩
abbrev S4096x64 : Shape := ⟨2, ![4096, 64]⟩
abbrev S4096x128 : Shape := ⟨2, ![4096, 128]⟩
abbrev S1x128x64 : Shape := ⟨3, ![1, 128, 64]⟩
abbrev S128x64 : Shape := ⟨2, ![128, 64]⟩
abbrev S1x256 : Shape := ⟨2, ![1, 256]⟩
abbrev S65536x256 : Shape := ⟨2, ![65536, 256]⟩
abbrev S4096x256 : Shape := ⟨2, ![4096, 256]⟩
abbrev S16x4096x256 : Shape := ⟨3, ![16, 4096, 256]⟩

abbrev nBuf : Space → Nat
  | .hbm => 317
  | .vmem => 200
  | .smem => 0
  | _ => 0

abbrev hbmTy0_0 (i : Nat) : BufTy := match i % 128 with
  | 0 => ⟨S2x1048576, .i32⟩
  | 1 => ⟨S65536, .i32⟩
  | 2 => ⟨S65536x1, .f32⟩
  | 3 => ⟨S1x64, .f32⟩
  | 4 => ⟨S64, .f32⟩
  | 5 => ⟨S4, .f32⟩
  | 6 => ⟨S4x64x128, .f32⟩
  | 7 => ⟨S4x128, .f32⟩
  | 8 => ⟨S4x128, .f32⟩
  | 9 => ⟨S4x128, .f32⟩
  | 10 => ⟨S4x128x64, .f32⟩
  | 11 => ⟨S4x64, .f32⟩
  | 12 => ⟨S4x64, .f32⟩
  | 13 => ⟨S4x64, .f32⟩
  | 14 => ⟨S64x256, .f32⟩
  | 15 => ⟨S256, .f32⟩
  | 16 => ⟨S1x1048576, .i32⟩
  | 17 => ⟨S1048576, .i32⟩
  | 18 => ⟨S1x1048576, .i32⟩
  | 19 => ⟨S1048576, .i32⟩
  | 20 => ⟨S1x64, .f32⟩
  | 21 => ⟨S65536x64, .f32⟩
  | 22 => ⟨S_, .i32⟩
  | 23 => ⟨S1048576, .i32⟩
  | 24 => ⟨S1048576, .i1⟩
  | 25 => ⟨S_, .i32⟩
  | 26 => ⟨S1048576, .i32⟩
  | 27 => ⟨S1048576, .i32⟩
  | 28 => ⟨S1048576, .i32⟩
  | 29 => ⟨S1048576x1, .i32⟩
  | 30 => ⟨S1048576x64, .f32⟩
  | 31 => ⟨S_, .f32⟩
  | 32 => ⟨S65536x64, .f32⟩
  | 33 => ⟨S1048576x1, .i32⟩
  | 34 => ⟨S65536x64, .f32⟩
  | 35 => ⟨S1, .f32⟩
  | 36 => ⟨S_, .f32⟩
  | 37 => ⟨S1x64x128, .f32⟩
  | 38 => ⟨S64x128, .f32⟩
  | 39 => ⟨S1x128, .f32⟩
  | 40 => ⟨S128, .f32⟩
  | 41 => ⟨S1x1, .f32⟩
  | 42 => ⟨S1x64, .f32⟩
  | 43 => ⟨S1x128, .f32⟩
  | 44 => ⟨S1x128, .f32⟩
  | 45 => ⟨S1x128, .f32⟩
  | 46 => ⟨S1, .f32⟩
  | 47 => ⟨S_, .f32⟩
  | 48 => ⟨S1x64x128, .f32⟩
  | 49 => ⟨S64x128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S1x128x64, .f32⟩
  | 57 => ⟨S128x64, .f32⟩
  | 58 => ⟨S1x64, .f32⟩
  | 59 => ⟨S64, .f32⟩
  | 60 => ⟨S1x1, .f32⟩
  | 61 => ⟨S1x64, .f32⟩
  | 62 => ⟨S1x128, .f32⟩
  | 63 => ⟨S1x128, .f32⟩
  | 64 => ⟨S1x128, .f32⟩
  | 65 => ⟨S1x64, .f32⟩
  | 66 => ⟨S1x64, .f32⟩
  | 67 => ⟨S1x64, .f32⟩
  | 68 => ⟨S1, .f32⟩
  | 69 => ⟨S_, .f32⟩
  | 70 => ⟨S1x64x128, .f32⟩
  | 71 => ⟨S64x128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128x64, .f32⟩
  | 79 => ⟨S128x64, .f32⟩
  | 80 => ⟨S1x64, .f32⟩
  | 81 => ⟨S64, .f32⟩
  | 82 => ⟨S1x64, .f32⟩
  | 83 => ⟨S64, .f32⟩
  | 84 => ⟨S1x64, .f32⟩
  | 85 => ⟨S64, .f32⟩
  | 86 => ⟨S1x1, .f32⟩
  | 87 => ⟨S1x64, .f32⟩
  | 88 => ⟨S1x128, .f32⟩
  | 89 => ⟨S1x128, .f32⟩
  | 90 => ⟨S1x128, .f32⟩
  | 91 => ⟨S1x64, .f32⟩
  | 92 => ⟨S1x64, .f32⟩
  | 93 => ⟨S1x64, .f32⟩
  | 94 => ⟨S65536x64, .f32⟩
  | 95 => ⟨S_, .i32⟩
  | 96 => ⟨S1048576, .i32⟩
  | 97 => ⟨S1048576, .i1⟩
  | 98 => ⟨S_, .i32⟩
  | 99 => ⟨S1048576, .i32⟩
  | 100 => ⟨S1048576, .i32⟩
  | 101 => ⟨S1048576, .i32⟩
  | 102 => ⟨S1048576x1, .i32⟩
  | 103 => ⟨S1048576x64, .f32⟩
  | 104 => ⟨S_, .f32⟩
  | 105 => ⟨S65536x64, .f32⟩
  | 106 => ⟨S1048576x1, .i32⟩
  | 107 => ⟨S65536x64, .f32⟩
  | 108 => ⟨S1, .f32⟩
  | 109 => ⟨S_, .f32⟩
  | 110 => ⟨S1x64x128, .f32⟩
  | 111 => ⟨S64x128, .f32⟩
  | 112 => ⟨S1x128, .f32⟩
  | 113 => ⟨S128, .f32⟩
  | 114 => ⟨S1x1, .f32⟩
  | 115 => ⟨S1x64, .f32⟩
  | 116 => ⟨S1x128, .f32⟩
  | 117 => ⟨S1x128, .f32⟩
  | 118 => ⟨S1x128, .f32⟩
  | 119 => ⟨S1, .f32⟩
  | 120 => ⟨S_, .f32⟩
  | 121 => ⟨S1x64x128, .f32⟩
  | 122 => ⟨S64x128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S2x1048576, .i32⟩

abbrev hbmTy0_1 (i : Nat) : BufTy := match i % 128 with
  | 0 => ⟨S128, .f32⟩
  | 1 => ⟨S1x128x64, .f32⟩
  | 2 => ⟨S128x64, .f32⟩
  | 3 => ⟨S1x64, .f32⟩
  | 4 => ⟨S64, .f32⟩
  | 5 => ⟨S1x1, .f32⟩
  | 6 => ⟨S1x64, .f32⟩
  | 7 => ⟨S1x128, .f32⟩
  | 8 => ⟨S1x128, .f32⟩
  | 9 => ⟨S1x128, .f32⟩
  | 10 => ⟨S1x64, .f32⟩
  | 11 => ⟨S1x64, .f32⟩
  | 12 => ⟨S1x64, .f32⟩
  | 13 => ⟨S1, .f32⟩
  | 14 => ⟨S_, .f32⟩
  | 15 => ⟨S1x64x128, .f32⟩
  | 16 => ⟨S64x128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128x64, .f32⟩
  | 24 => ⟨S128x64, .f32⟩
  | 25 => ⟨S1x64, .f32⟩
  | 26 => ⟨S64, .f32⟩
  | 27 => ⟨S1x64, .f32⟩
  | 28 => ⟨S64, .f32⟩
  | 29 => ⟨S1x64, .f32⟩
  | 30 => ⟨S64, .f32⟩
  | 31 => ⟨S1x1, .f32⟩
  | 32 => ⟨S1x64, .f32⟩
  | 33 => ⟨S1x128, .f32⟩
  | 34 => ⟨S1x128, .f32⟩
  | 35 => ⟨S1x128, .f32⟩
  | 36 => ⟨S1x64, .f32⟩
  | 37 => ⟨S1x64, .f32⟩
  | 38 => ⟨S1x64, .f32⟩
  | 39 => ⟨S65536x64, .f32⟩
  | 40 => ⟨S_, .i32⟩
  | 41 => ⟨S1048576, .i32⟩
  | 42 => ⟨S1048576, .i1⟩
  | 43 => ⟨S_, .i32⟩
  | 44 => ⟨S1048576, .i32⟩
  | 45 => ⟨S1048576, .i32⟩
  | 46 => ⟨S1048576, .i32⟩
  | 47 => ⟨S1048576x1, .i32⟩
  | 48 => ⟨S1048576x64, .f32⟩
  | 49 => ⟨S_, .f32⟩
  | 50 => ⟨S65536x64, .f32⟩
  | 51 => ⟨S1048576x1, .i32⟩
  | 52 => ⟨S65536x64, .f32⟩
  | 53 => ⟨S1, .f32⟩
  | 54 => ⟨S_, .f32⟩
  | 55 => ⟨S1x64x128, .f32⟩
  | 56 => ⟨S64x128, .f32⟩
  | 57 => ⟨S1x128, .f32⟩
  | 58 => ⟨S128, .f32⟩
  | 59 => ⟨S1x1, .f32⟩
  | 60 => ⟨S1x64, .f32⟩
  | 61 => ⟨S1x128, .f32⟩
  | 62 => ⟨S1x128, .f32⟩
  | 63 => ⟨S1x128, .f32⟩
  | 64 => ⟨S1, .f32⟩
  | 65 => ⟨S_, .f32⟩
  | 66 => ⟨S1x64x128, .f32⟩
  | 67 => ⟨S64x128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S128, .f32⟩
  | 74 => ⟨S1x128x64, .f32⟩
  | 75 => ⟨S128x64, .f32⟩
  | 76 => ⟨S1x64, .f32⟩
  | 77 => ⟨S64, .f32⟩
  | 78 => ⟨S1x1, .f32⟩
  | 79 => ⟨S1x64, .f32⟩
  | 80 => ⟨S1x128, .f32⟩
  | 81 => ⟨S1x128, .f32⟩
  | 82 => ⟨S1x128, .f32⟩
  | 83 => ⟨S1x64, .f32⟩
  | 84 => ⟨S1x64, .f32⟩
  | 85 => ⟨S1x64, .f32⟩
  | 86 => ⟨S1, .f32⟩
  | 87 => ⟨S_, .f32⟩
  | 88 => ⟨S1x64x128, .f32⟩
  | 89 => ⟨S64x128, .f32⟩
  | 90 => ⟨S1x128, .f32⟩
  | 91 => ⟨S128, .f32⟩
  | 92 => ⟨S1x128, .f32⟩
  | 93 => ⟨S128, .f32⟩
  | 94 => ⟨S1x128, .f32⟩
  | 95 => ⟨S128, .f32⟩
  | 96 => ⟨S1x128x64, .f32⟩
  | 97 => ⟨S128x64, .f32⟩
  | 98 => ⟨S1x64, .f32⟩
  | 99 => ⟨S64, .f32⟩
  | 100 => ⟨S1x64, .f32⟩
  | 101 => ⟨S64, .f32⟩
  | 102 => ⟨S1x64, .f32⟩
  | 103 => ⟨S64, .f32⟩
  | 104 => ⟨S1x1, .f32⟩
  | 105 => ⟨S1x64, .f32⟩
  | 106 => ⟨S1x128, .f32⟩
  | 107 => ⟨S1x128, .f32⟩
  | 108 => ⟨S1x128, .f32⟩
  | 109 => ⟨S1x64, .f32⟩
  | 110 => ⟨S1x64, .f32⟩
  | 111 => ⟨S1x64, .f32⟩
  | 112 => ⟨S65536x64, .f32⟩
  | 113 => ⟨S_, .i32⟩
  | 114 => ⟨S1048576, .i32⟩
  | 115 => ⟨S1048576, .i1⟩
  | 116 => ⟨S_, .i32⟩
  | 117 => ⟨S1048576, .i32⟩
  | 118 => ⟨S1048576, .i32⟩
  | 119 => ⟨S1048576, .i32⟩
  | 120 => ⟨S1048576x1, .i32⟩
  | 121 => ⟨S1048576x64, .f32⟩
  | 122 => ⟨S_, .f32⟩
  | 123 => ⟨S65536x64, .f32⟩
  | 124 => ⟨S1048576x1, .i32⟩
  | 125 => ⟨S65536x64, .f32⟩
  | 126 => ⟨S1, .f32⟩
  | 127 => ⟨S_, .f32⟩
  | _ => ⟨S2x1048576, .i32⟩

abbrev hbmTy0_2 (i : Nat) : BufTy := match i % 128 with
  | 0 => ⟨S1x64x128, .f32⟩
  | 1 => ⟨S64x128, .f32⟩
  | 2 => ⟨S1x128, .f32⟩
  | 3 => ⟨S128, .f32⟩
  | 4 => ⟨S1x1, .f32⟩
  | 5 => ⟨S1x64, .f32⟩
  | 6 => ⟨S1x128, .f32⟩
  | 7 => ⟨S1x128, .f32⟩
  | 8 => ⟨S1x128, .f32⟩
  | 9 => ⟨S1, .f32⟩
  | 10 => ⟨S_, .f32⟩
  | 11 => ⟨S1x64x128, .f32⟩
  | 12 => ⟨S64x128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S128, .f32⟩
  | 19 => ⟨S1x128x64, .f32⟩
  | 20 => ⟨S128x64, .f32⟩
  | 21 => ⟨S1x64, .f32⟩
  | 22 => ⟨S64, .f32⟩
  | 23 => ⟨S1x1, .f32⟩
  | 24 => ⟨S1x64, .f32⟩
  | 25 => ⟨S1x128, .f32⟩
  | 26 => ⟨S1x128, .f32⟩
  | 27 => ⟨S1x128, .f32⟩
  | 28 => ⟨S1x64, .f32⟩
  | 29 => ⟨S1x64, .f32⟩
  | 30 => ⟨S1x64, .f32⟩
  | 31 => ⟨S1, .f32⟩
  | 32 => ⟨S_, .f32⟩
  | 33 => ⟨S1x64x128, .f32⟩
  | 34 => ⟨S64x128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x128x64, .f32⟩
  | 42 => ⟨S128x64, .f32⟩
  | 43 => ⟨S1x64, .f32⟩
  | 44 => ⟨S64, .f32⟩
  | 45 => ⟨S1x64, .f32⟩
  | 46 => ⟨S64, .f32⟩
  | 47 => ⟨S1x64, .f32⟩
  | 48 => ⟨S64, .f32⟩
  | 49 => ⟨S1x1, .f32⟩
  | 50 => ⟨S1x64, .f32⟩
  | 51 => ⟨S1x128, .f32⟩
  | 52 => ⟨S1x128, .f32⟩
  | 53 => ⟨S1x128, .f32⟩
  | 54 => ⟨S1x64, .f32⟩
  | 55 => ⟨S1x64, .f32⟩
  | 56 => ⟨S1x64, .f32⟩
  | 57 => ⟨S65536x64, .f32⟩
  | 58 => ⟨S1x256, .f32⟩
  | 59 => ⟨S65536x256, .f32⟩
  | 60 => ⟨S16x4096x256, .f32⟩
  | _ => ⟨S2x1048576, .i32⟩

abbrev hbmTy (i : Nat) : BufTy := match i / 128 with
  | 0 => hbmTy0_0 i
  | 1 => hbmTy0_1 i
  | 2 => hbmTy0_2 i
  | _ => ⟨S2x1048576, .i32⟩

abbrev vmemTy0_0 (i : Nat) : BufTy := match i % 128 with
  | 0 => ⟨S8192x1, .f32⟩
  | 1 => ⟨S8192x1, .f32⟩
  | 2 => ⟨S1x64, .f32⟩
  | 3 => ⟨S1x64, .f32⟩
  | 4 => ⟨S8192x64, .f32⟩
  | 5 => ⟨S8192x64, .f32⟩
  | 6 => ⟨S4096x64, .f32⟩
  | 7 => ⟨S4096x64, .f32⟩
  | 8 => ⟨S4096x64, .f32⟩
  | 9 => ⟨S4096x64, .f32⟩
  | 10 => ⟨S1x64, .f32⟩
  | 11 => ⟨S64x128, .f32⟩
  | 12 => ⟨S1x128, .f32⟩
  | 13 => ⟨S1x128, .f32⟩
  | 14 => ⟨S1x128, .f32⟩
  | 15 => ⟨S1x128, .f32⟩
  | 16 => ⟨S1x128, .f32⟩
  | 17 => ⟨S4096x64, .f32⟩
  | 18 => ⟨S4096x64, .f32⟩
  | 19 => ⟨S4096x64, .f32⟩
  | 20 => ⟨S4096x64, .f32⟩
  | 21 => ⟨S1x64, .f32⟩
  | 22 => ⟨S64x128, .f32⟩
  | 23 => ⟨S1x128, .f32⟩
  | 24 => ⟨S1x128, .f32⟩
  | 25 => ⟨S1x128, .f32⟩
  | 26 => ⟨S1x128, .f32⟩
  | 27 => ⟨S1x128, .f32⟩
  | 28 => ⟨S128x64, .f32⟩
  | 29 => ⟨S1x64, .f32⟩
  | 30 => ⟨S1x64, .f32⟩
  | 31 => ⟨S1x64, .f32⟩
  | 32 => ⟨S1x64, .f32⟩
  | 33 => ⟨S1x64, .f32⟩
  | 34 => ⟨S4096x64, .f32⟩
  | 35 => ⟨S4096x64, .f32⟩
  | 36 => ⟨S4096x64, .f32⟩
  | 37 => ⟨S4096x64, .f32⟩
  | 38 => ⟨S1x64, .f32⟩
  | 39 => ⟨S64x128, .f32⟩
  | 40 => ⟨S1x128, .f32⟩
  | 41 => ⟨S1x128, .f32⟩
  | 42 => ⟨S1x128, .f32⟩
  | 43 => ⟨S1x128, .f32⟩
  | 44 => ⟨S1x128, .f32⟩
  | 45 => ⟨S128x64, .f32⟩
  | 46 => ⟨S1x64, .f32⟩
  | 47 => ⟨S1x64, .f32⟩
  | 48 => ⟨S1x64, .f32⟩
  | 49 => ⟨S1x64, .f32⟩
  | 50 => ⟨S1x64, .f32⟩
  | 51 => ⟨S4096x64, .f32⟩
  | 52 => ⟨S4096x64, .f32⟩
  | 53 => ⟨S4096x64, .f32⟩
  | 54 => ⟨S4096x64, .f32⟩
  | 55 => ⟨S4096x64, .f32⟩
  | 56 => ⟨S4096x64, .f32⟩
  | 57 => ⟨S1x64, .f32⟩
  | 58 => ⟨S64x128, .f32⟩
  | 59 => ⟨S1x128, .f32⟩
  | 60 => ⟨S1x128, .f32⟩
  | 61 => ⟨S1x128, .f32⟩
  | 62 => ⟨S1x128, .f32⟩
  | 63 => ⟨S1x128, .f32⟩
  | 64 => ⟨S4096x64, .f32⟩
  | 65 => ⟨S4096x64, .f32⟩
  | 66 => ⟨S4096x64, .f32⟩
  | 67 => ⟨S4096x64, .f32⟩
  | 68 => ⟨S1x64, .f32⟩
  | 69 => ⟨S64x128, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S128x64, .f32⟩
  | 76 => ⟨S1x64, .f32⟩
  | 77 => ⟨S1x64, .f32⟩
  | 78 => ⟨S1x64, .f32⟩
  | 79 => ⟨S1x64, .f32⟩
  | 80 => ⟨S1x64, .f32⟩
  | 81 => ⟨S4096x64, .f32⟩
  | 82 => ⟨S4096x64, .f32⟩
  | 83 => ⟨S4096x64, .f32⟩
  | 84 => ⟨S4096x64, .f32⟩
  | 85 => ⟨S1x64, .f32⟩
  | 86 => ⟨S64x128, .f32⟩
  | 87 => ⟨S1x128, .f32⟩
  | 88 => ⟨S1x128, .f32⟩
  | 89 => ⟨S1x128, .f32⟩
  | 90 => ⟨S1x128, .f32⟩
  | 91 => ⟨S1x128, .f32⟩
  | 92 => ⟨S128x64, .f32⟩
  | 93 => ⟨S1x64, .f32⟩
  | 94 => ⟨S1x64, .f32⟩
  | 95 => ⟨S1x64, .f32⟩
  | 96 => ⟨S1x64, .f32⟩
  | 97 => ⟨S1x64, .f32⟩
  | 98 => ⟨S4096x64, .f32⟩
  | 99 => ⟨S4096x64, .f32⟩
  | 100 => ⟨S4096x64, .f32⟩
  | 101 => ⟨S4096x64, .f32⟩
  | 102 => ⟨S4096x64, .f32⟩
  | 103 => ⟨S4096x64, .f32⟩
  | 104 => ⟨S1x64, .f32⟩
  | 105 => ⟨S64x128, .f32⟩
  | 106 => ⟨S1x128, .f32⟩
  | 107 => ⟨S1x128, .f32⟩
  | 108 => ⟨S1x128, .f32⟩
  | 109 => ⟨S1x128, .f32⟩
  | 110 => ⟨S1x128, .f32⟩
  | 111 => ⟨S4096x64, .f32⟩
  | 112 => ⟨S4096x64, .f32⟩
  | 113 => ⟨S4096x64, .f32⟩
  | 114 => ⟨S4096x64, .f32⟩
  | 115 => ⟨S1x64, .f32⟩
  | 116 => ⟨S64x128, .f32⟩
  | 117 => ⟨S1x128, .f32⟩
  | 118 => ⟨S1x128, .f32⟩
  | 119 => ⟨S1x128, .f32⟩
  | 120 => ⟨S1x128, .f32⟩
  | 121 => ⟨S1x128, .f32⟩
  | 122 => ⟨S128x64, .f32⟩
  | 123 => ⟨S1x64, .f32⟩
  | 124 => ⟨S1x64, .f32⟩
  | 125 => ⟨S1x64, .f32⟩
  | 126 => ⟨S1x64, .f32⟩
  | 127 => ⟨S1x64, .f32⟩
  | _ => ⟨S2x1048576, .i32⟩

abbrev vmemTy0_1 (i : Nat) : BufTy := match i % 128 with
  | 0 => ⟨S4096x64, .f32⟩
  | 1 => ⟨S4096x64, .f32⟩
  | 2 => ⟨S4096x64, .f32⟩
  | 3 => ⟨S4096x64, .f32⟩
  | 4 => ⟨S1x64, .f32⟩
  | 5 => ⟨S64x128, .f32⟩
  | 6 => ⟨S1x128, .f32⟩
  | 7 => ⟨S1x128, .f32⟩
  | 8 => ⟨S1x128, .f32⟩
  | 9 => ⟨S1x128, .f32⟩
  | 10 => ⟨S1x128, .f32⟩
  | 11 => ⟨S128x64, .f32⟩
  | 12 => ⟨S1x64, .f32⟩
  | 13 => ⟨S1x64, .f32⟩
  | 14 => ⟨S1x64, .f32⟩
  | 15 => ⟨S1x64, .f32⟩
  | 16 => ⟨S1x64, .f32⟩
  | 17 => ⟨S4096x64, .f32⟩
  | 18 => ⟨S4096x64, .f32⟩
  | 19 => ⟨S4096x64, .f32⟩
  | 20 => ⟨S4096x64, .f32⟩
  | 21 => ⟨S4096x64, .f32⟩
  | 22 => ⟨S4096x64, .f32⟩
  | 23 => ⟨S1x64, .f32⟩
  | 24 => ⟨S64x128, .f32⟩
  | 25 => ⟨S1x128, .f32⟩
  | 26 => ⟨S1x128, .f32⟩
  | 27 => ⟨S1x128, .f32⟩
  | 28 => ⟨S1x128, .f32⟩
  | 29 => ⟨S1x128, .f32⟩
  | 30 => ⟨S4096x64, .f32⟩
  | 31 => ⟨S4096x64, .f32⟩
  | 32 => ⟨S4096x64, .f32⟩
  | 33 => ⟨S4096x64, .f32⟩
  | 34 => ⟨S1x64, .f32⟩
  | 35 => ⟨S64x128, .f32⟩
  | 36 => ⟨S1x128, .f32⟩
  | 37 => ⟨S1x128, .f32⟩
  | 38 => ⟨S1x128, .f32⟩
  | 39 => ⟨S1x128, .f32⟩
  | 40 => ⟨S1x128, .f32⟩
  | 41 => ⟨S128x64, .f32⟩
  | 42 => ⟨S1x64, .f32⟩
  | 43 => ⟨S1x64, .f32⟩
  | 44 => ⟨S1x64, .f32⟩
  | 45 => ⟨S1x64, .f32⟩
  | 46 => ⟨S1x64, .f32⟩
  | 47 => ⟨S4096x64, .f32⟩
  | 48 => ⟨S4096x64, .f32⟩
  | 49 => ⟨S4096x64, .f32⟩
  | 50 => ⟨S4096x64, .f32⟩
  | 51 => ⟨S1x64, .f32⟩
  | 52 => ⟨S64x128, .f32⟩
  | 53 => ⟨S1x128, .f32⟩
  | 54 => ⟨S1x128, .f32⟩
  | 55 => ⟨S1x128, .f32⟩
  | 56 => ⟨S1x128, .f32⟩
  | 57 => ⟨S1x128, .f32⟩
  | 58 => ⟨S128x64, .f32⟩
  | 59 => ⟨S1x64, .f32⟩
  | 60 => ⟨S1x64, .f32⟩
  | 61 => ⟨S1x64, .f32⟩
  | 62 => ⟨S1x64, .f32⟩
  | 63 => ⟨S1x64, .f32⟩
  | 64 => ⟨S4096x64, .f32⟩
  | 65 => ⟨S4096x64, .f32⟩
  | 66 => ⟨S4096x64, .f32⟩
  | 67 => ⟨S4096x64, .f32⟩
  | 68 => ⟨S64x256, .f32⟩
  | 69 => ⟨S1x256, .f32⟩
  | 70 => ⟨S4096x256, .f32⟩
  | 71 => ⟨S4096x256, .f32⟩
  | _ => ⟨S2x1048576, .i32⟩

abbrev vmemTy (i : Nat) : BufTy := match i / 128 with
  | 0 => vmemTy0_0 i
  | 1 => vmemTy0_1 i
  | _ => ⟨S2x1048576, .i32⟩

abbrev bufTy : (tb : Table) → Fin (tcTables nBuf tb) → BufTy
  | .hbm, ⟨i, _⟩ => hbmTy i
  | .local _ .vmem, ⟨i, _⟩ => vmemTy i
  | _, _ => ⟨S2x1048576, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 184 → Bool
  | ⟨i, _⟩ => dmaSemScopedAt i

abbrev sig : RefSig :=
  ofTc nBuf bufTy 0 184 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25_0 : Ref sig .tc := ⟨.hbm, 44, rfl⟩
abbrev main_v25_1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46_0 : Ref sig .tc := ⟨.hbm, 66, rfl⟩
abbrev main_v46_1 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c_1 : Ref sig .tc := ⟨.hbm, 95, rfl⟩
abbrev main_v74 : Ref sig .tc := ⟨.hbm, 96, rfl⟩
abbrev main_v75 : Ref sig .tc := ⟨.hbm, 97, rfl⟩
abbrev main_c_2 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_3 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93_0 : Ref sig .tc := ⟨.hbm, 117, rfl⟩
abbrev main_v93_1 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114_0 : Ref sig .tc := ⟨.hbm, 139, rfl⟩
abbrev main_v114_1 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_c_4 : Ref sig .tc := ⟨.hbm, 168, rfl⟩
abbrev main_v142 : Ref sig .tc := ⟨.hbm, 169, rfl⟩
abbrev main_v143 : Ref sig .tc := ⟨.hbm, 170, rfl⟩
abbrev main_c_5 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_cst_6 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161_0 : Ref sig .tc := ⟨.hbm, 190, rfl⟩
abbrev main_v161_1 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182_0 : Ref sig .tc := ⟨.hbm, 212, rfl⟩
abbrev main_v182_1 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_c_7 : Ref sig .tc := ⟨.hbm, 241, rfl⟩
abbrev main_v210 : Ref sig .tc := ⟨.hbm, 242, rfl⟩
abbrev main_v211 : Ref sig .tc := ⟨.hbm, 243, rfl⟩
abbrev main_c_8 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_cst_9 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229_0 : Ref sig .tc := ⟨.hbm, 263, rfl⟩
abbrev main_v229_1 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250_0 : Ref sig .tc := ⟨.hbm, 285, rfl⟩
abbrev main_v250_1 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_v279 : Ref sig .tc := ⟨.hbm, 315, rfl⟩
abbrev main_v280 : Ref sig .tc := ⟨.hbm, 316, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_scratch0 : Ref sig .tc := ⟨.vmem, 15, rfl⟩
abbrev cc1_scratch1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg10_0 : Ref sig .tc := ⟨.vmem, 29, rfl⟩
abbrev cc2_stg11_0 : Ref sig .tc := ⟨.vmem, 30, rfl⟩
abbrev cc2_stg12_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg8_0 : Ref sig .tc := ⟨.vmem, 44, rfl⟩
abbrev cc3_stg9_0 : Ref sig .tc := ⟨.vmem, 45, rfl⟩
abbrev cc3_stg10_0 : Ref sig .tc := ⟨.vmem, 46, rfl⟩
abbrev cc3_stg11_0 : Ref sig .tc := ⟨.vmem, 47, rfl⟩
abbrev cc3_stg12_0 : Ref sig .tc := ⟨.vmem, 48, rfl⟩
abbrev cc3_stg13_0 : Ref sig .tc := ⟨.vmem, 49, rfl⟩
abbrev cc3_stg14_0 : Ref sig .tc := ⟨.vmem, 50, rfl⟩
abbrev cc3_stg15_0 : Ref sig .tc := ⟨.vmem, 51, rfl⟩
abbrev cc3_stg15_1 : Ref sig .tc := ⟨.vmem, 52, rfl⟩
abbrev cc4_stg0_0 : Ref sig .tc := ⟨.vmem, 53, rfl⟩
abbrev cc4_stg0_1 : Ref sig .tc := ⟨.vmem, 54, rfl⟩
abbrev cc4_stg1_0 : Ref sig .tc := ⟨.vmem, 55, rfl⟩
abbrev cc4_stg1_1 : Ref sig .tc := ⟨.vmem, 56, rfl⟩
abbrev cc4_stg2_0 : Ref sig .tc := ⟨.vmem, 57, rfl⟩
abbrev cc4_stg3_0 : Ref sig .tc := ⟨.vmem, 58, rfl⟩
abbrev cc4_stg4_0 : Ref sig .tc := ⟨.vmem, 59, rfl⟩
abbrev cc4_stg5_0 : Ref sig .tc := ⟨.vmem, 60, rfl⟩
abbrev cc4_stg6_0 : Ref sig .tc := ⟨.vmem, 61, rfl⟩
abbrev cc4_scratch0 : Ref sig .tc := ⟨.vmem, 62, rfl⟩
abbrev cc4_scratch1 : Ref sig .tc := ⟨.vmem, 63, rfl⟩
abbrev cc5_stg0_0 : Ref sig .tc := ⟨.vmem, 64, rfl⟩
abbrev cc5_stg0_1 : Ref sig .tc := ⟨.vmem, 65, rfl⟩
abbrev cc5_stg1_0 : Ref sig .tc := ⟨.vmem, 66, rfl⟩
abbrev cc5_stg1_1 : Ref sig .tc := ⟨.vmem, 67, rfl⟩
abbrev cc5_stg2_0 : Ref sig .tc := ⟨.vmem, 68, rfl⟩
abbrev cc5_stg3_0 : Ref sig .tc := ⟨.vmem, 69, rfl⟩
abbrev cc5_stg4_0 : Ref sig .tc := ⟨.vmem, 70, rfl⟩
abbrev cc5_stg5_0 : Ref sig .tc := ⟨.vmem, 71, rfl⟩
abbrev cc5_stg6_0 : Ref sig .tc := ⟨.vmem, 72, rfl⟩
abbrev cc5_stg7_0 : Ref sig .tc := ⟨.vmem, 73, rfl⟩
abbrev cc5_stg8_0 : Ref sig .tc := ⟨.vmem, 74, rfl⟩
abbrev cc5_stg9_0 : Ref sig .tc := ⟨.vmem, 75, rfl⟩
abbrev cc5_stg10_0 : Ref sig .tc := ⟨.vmem, 76, rfl⟩
abbrev cc5_stg11_0 : Ref sig .tc := ⟨.vmem, 77, rfl⟩
abbrev cc5_stg12_0 : Ref sig .tc := ⟨.vmem, 78, rfl⟩
abbrev cc5_scratch0 : Ref sig .tc := ⟨.vmem, 79, rfl⟩
abbrev cc5_scratch1 : Ref sig .tc := ⟨.vmem, 80, rfl⟩
abbrev cc6_stg0_0 : Ref sig .tc := ⟨.vmem, 81, rfl⟩
abbrev cc6_stg0_1 : Ref sig .tc := ⟨.vmem, 82, rfl⟩
abbrev cc6_stg1_0 : Ref sig .tc := ⟨.vmem, 83, rfl⟩
abbrev cc6_stg1_1 : Ref sig .tc := ⟨.vmem, 84, rfl⟩
abbrev cc6_stg2_0 : Ref sig .tc := ⟨.vmem, 85, rfl⟩
abbrev cc6_stg3_0 : Ref sig .tc := ⟨.vmem, 86, rfl⟩
abbrev cc6_stg4_0 : Ref sig .tc := ⟨.vmem, 87, rfl⟩
abbrev cc6_stg5_0 : Ref sig .tc := ⟨.vmem, 88, rfl⟩
abbrev cc6_stg6_0 : Ref sig .tc := ⟨.vmem, 89, rfl⟩
abbrev cc6_stg7_0 : Ref sig .tc := ⟨.vmem, 90, rfl⟩
abbrev cc6_stg8_0 : Ref sig .tc := ⟨.vmem, 91, rfl⟩
abbrev cc6_stg9_0 : Ref sig .tc := ⟨.vmem, 92, rfl⟩
abbrev cc6_stg10_0 : Ref sig .tc := ⟨.vmem, 93, rfl⟩
abbrev cc6_stg11_0 : Ref sig .tc := ⟨.vmem, 94, rfl⟩
abbrev cc6_stg12_0 : Ref sig .tc := ⟨.vmem, 95, rfl⟩
abbrev cc6_stg13_0 : Ref sig .tc := ⟨.vmem, 96, rfl⟩
abbrev cc6_stg14_0 : Ref sig .tc := ⟨.vmem, 97, rfl⟩
abbrev cc6_stg15_0 : Ref sig .tc := ⟨.vmem, 98, rfl⟩
abbrev cc6_stg15_1 : Ref sig .tc := ⟨.vmem, 99, rfl⟩
abbrev cc7_stg0_0 : Ref sig .tc := ⟨.vmem, 100, rfl⟩
abbrev cc7_stg0_1 : Ref sig .tc := ⟨.vmem, 101, rfl⟩
abbrev cc7_stg1_0 : Ref sig .tc := ⟨.vmem, 102, rfl⟩
abbrev cc7_stg1_1 : Ref sig .tc := ⟨.vmem, 103, rfl⟩
abbrev cc7_stg2_0 : Ref sig .tc := ⟨.vmem, 104, rfl⟩
abbrev cc7_stg3_0 : Ref sig .tc := ⟨.vmem, 105, rfl⟩
abbrev cc7_stg4_0 : Ref sig .tc := ⟨.vmem, 106, rfl⟩
abbrev cc7_stg5_0 : Ref sig .tc := ⟨.vmem, 107, rfl⟩
abbrev cc7_stg6_0 : Ref sig .tc := ⟨.vmem, 108, rfl⟩
abbrev cc7_scratch0 : Ref sig .tc := ⟨.vmem, 109, rfl⟩
abbrev cc7_scratch1 : Ref sig .tc := ⟨.vmem, 110, rfl⟩
abbrev cc8_stg0_0 : Ref sig .tc := ⟨.vmem, 111, rfl⟩
abbrev cc8_stg0_1 : Ref sig .tc := ⟨.vmem, 112, rfl⟩
abbrev cc8_stg1_0 : Ref sig .tc := ⟨.vmem, 113, rfl⟩
abbrev cc8_stg1_1 : Ref sig .tc := ⟨.vmem, 114, rfl⟩
abbrev cc8_stg2_0 : Ref sig .tc := ⟨.vmem, 115, rfl⟩
abbrev cc8_stg3_0 : Ref sig .tc := ⟨.vmem, 116, rfl⟩
abbrev cc8_stg4_0 : Ref sig .tc := ⟨.vmem, 117, rfl⟩
abbrev cc8_stg5_0 : Ref sig .tc := ⟨.vmem, 118, rfl⟩
abbrev cc8_stg6_0 : Ref sig .tc := ⟨.vmem, 119, rfl⟩
abbrev cc8_stg7_0 : Ref sig .tc := ⟨.vmem, 120, rfl⟩
abbrev cc8_stg8_0 : Ref sig .tc := ⟨.vmem, 121, rfl⟩
abbrev cc8_stg9_0 : Ref sig .tc := ⟨.vmem, 122, rfl⟩
abbrev cc8_stg10_0 : Ref sig .tc := ⟨.vmem, 123, rfl⟩
abbrev cc8_stg11_0 : Ref sig .tc := ⟨.vmem, 124, rfl⟩
abbrev cc8_stg12_0 : Ref sig .tc := ⟨.vmem, 125, rfl⟩
abbrev cc8_scratch0 : Ref sig .tc := ⟨.vmem, 126, rfl⟩
abbrev cc8_scratch1 : Ref sig .tc := ⟨.vmem, 127, rfl⟩
abbrev cc9_stg0_0 : Ref sig .tc := ⟨.vmem, 128, rfl⟩
abbrev cc9_stg0_1 : Ref sig .tc := ⟨.vmem, 129, rfl⟩
abbrev cc9_stg1_0 : Ref sig .tc := ⟨.vmem, 130, rfl⟩
abbrev cc9_stg1_1 : Ref sig .tc := ⟨.vmem, 131, rfl⟩
abbrev cc9_stg2_0 : Ref sig .tc := ⟨.vmem, 132, rfl⟩
abbrev cc9_stg3_0 : Ref sig .tc := ⟨.vmem, 133, rfl⟩
abbrev cc9_stg4_0 : Ref sig .tc := ⟨.vmem, 134, rfl⟩
abbrev cc9_stg5_0 : Ref sig .tc := ⟨.vmem, 135, rfl⟩
abbrev cc9_stg6_0 : Ref sig .tc := ⟨.vmem, 136, rfl⟩
abbrev cc9_stg7_0 : Ref sig .tc := ⟨.vmem, 137, rfl⟩
abbrev cc9_stg8_0 : Ref sig .tc := ⟨.vmem, 138, rfl⟩
abbrev cc9_stg9_0 : Ref sig .tc := ⟨.vmem, 139, rfl⟩
abbrev cc9_stg10_0 : Ref sig .tc := ⟨.vmem, 140, rfl⟩
abbrev cc9_stg11_0 : Ref sig .tc := ⟨.vmem, 141, rfl⟩
abbrev cc9_stg12_0 : Ref sig .tc := ⟨.vmem, 142, rfl⟩
abbrev cc9_stg13_0 : Ref sig .tc := ⟨.vmem, 143, rfl⟩
abbrev cc9_stg14_0 : Ref sig .tc := ⟨.vmem, 144, rfl⟩
abbrev cc9_stg15_0 : Ref sig .tc := ⟨.vmem, 145, rfl⟩
abbrev cc9_stg15_1 : Ref sig .tc := ⟨.vmem, 146, rfl⟩
abbrev cc10_stg0_0 : Ref sig .tc := ⟨.vmem, 147, rfl⟩
abbrev cc10_stg0_1 : Ref sig .tc := ⟨.vmem, 148, rfl⟩
abbrev cc10_stg1_0 : Ref sig .tc := ⟨.vmem, 149, rfl⟩
abbrev cc10_stg1_1 : Ref sig .tc := ⟨.vmem, 150, rfl⟩
abbrev cc10_stg2_0 : Ref sig .tc := ⟨.vmem, 151, rfl⟩
abbrev cc10_stg3_0 : Ref sig .tc := ⟨.vmem, 152, rfl⟩
abbrev cc10_stg4_0 : Ref sig .tc := ⟨.vmem, 153, rfl⟩
abbrev cc10_stg5_0 : Ref sig .tc := ⟨.vmem, 154, rfl⟩
abbrev cc10_stg6_0 : Ref sig .tc := ⟨.vmem, 155, rfl⟩
abbrev cc10_scratch0 : Ref sig .tc := ⟨.vmem, 156, rfl⟩
abbrev cc10_scratch1 : Ref sig .tc := ⟨.vmem, 157, rfl⟩
abbrev cc11_stg0_0 : Ref sig .tc := ⟨.vmem, 158, rfl⟩
abbrev cc11_stg0_1 : Ref sig .tc := ⟨.vmem, 159, rfl⟩
abbrev cc11_stg1_0 : Ref sig .tc := ⟨.vmem, 160, rfl⟩
abbrev cc11_stg1_1 : Ref sig .tc := ⟨.vmem, 161, rfl⟩
abbrev cc11_stg2_0 : Ref sig .tc := ⟨.vmem, 162, rfl⟩
abbrev cc11_stg3_0 : Ref sig .tc := ⟨.vmem, 163, rfl⟩
abbrev cc11_stg4_0 : Ref sig .tc := ⟨.vmem, 164, rfl⟩
abbrev cc11_stg5_0 : Ref sig .tc := ⟨.vmem, 165, rfl⟩
abbrev cc11_stg6_0 : Ref sig .tc := ⟨.vmem, 166, rfl⟩
abbrev cc11_stg7_0 : Ref sig .tc := ⟨.vmem, 167, rfl⟩
abbrev cc11_stg8_0 : Ref sig .tc := ⟨.vmem, 168, rfl⟩
abbrev cc11_stg9_0 : Ref sig .tc := ⟨.vmem, 169, rfl⟩
abbrev cc11_stg10_0 : Ref sig .tc := ⟨.vmem, 170, rfl⟩
abbrev cc11_stg11_0 : Ref sig .tc := ⟨.vmem, 171, rfl⟩
abbrev cc11_stg12_0 : Ref sig .tc := ⟨.vmem, 172, rfl⟩
abbrev cc11_scratch0 : Ref sig .tc := ⟨.vmem, 173, rfl⟩
abbrev cc11_scratch1 : Ref sig .tc := ⟨.vmem, 174, rfl⟩
abbrev cc12_stg0_0 : Ref sig .tc := ⟨.vmem, 175, rfl⟩
abbrev cc12_stg0_1 : Ref sig .tc := ⟨.vmem, 176, rfl⟩
abbrev cc12_stg1_0 : Ref sig .tc := ⟨.vmem, 177, rfl⟩
abbrev cc12_stg1_1 : Ref sig .tc := ⟨.vmem, 178, rfl⟩
abbrev cc12_stg2_0 : Ref sig .tc := ⟨.vmem, 179, rfl⟩
abbrev cc12_stg3_0 : Ref sig .tc := ⟨.vmem, 180, rfl⟩
abbrev cc12_stg4_0 : Ref sig .tc := ⟨.vmem, 181, rfl⟩
abbrev cc12_stg5_0 : Ref sig .tc := ⟨.vmem, 182, rfl⟩
abbrev cc12_stg6_0 : Ref sig .tc := ⟨.vmem, 183, rfl⟩
abbrev cc12_stg7_0 : Ref sig .tc := ⟨.vmem, 184, rfl⟩
abbrev cc12_stg8_0 : Ref sig .tc := ⟨.vmem, 185, rfl⟩
abbrev cc12_stg9_0 : Ref sig .tc := ⟨.vmem, 186, rfl⟩
abbrev cc12_stg10_0 : Ref sig .tc := ⟨.vmem, 187, rfl⟩
abbrev cc12_stg11_0 : Ref sig .tc := ⟨.vmem, 188, rfl⟩
abbrev cc12_stg12_0 : Ref sig .tc := ⟨.vmem, 189, rfl⟩
abbrev cc12_stg13_0 : Ref sig .tc := ⟨.vmem, 190, rfl⟩
abbrev cc12_stg14_0 : Ref sig .tc := ⟨.vmem, 191, rfl⟩
abbrev cc12_stg15_0 : Ref sig .tc := ⟨.vmem, 192, rfl⟩
abbrev cc12_stg15_1 : Ref sig .tc := ⟨.vmem, 193, rfl⟩
abbrev cc13_stg0_0 : Ref sig .tc := ⟨.vmem, 194, rfl⟩
abbrev cc13_stg0_1 : Ref sig .tc := ⟨.vmem, 195, rfl⟩
abbrev cc13_stg1_0 : Ref sig .tc := ⟨.vmem, 196, rfl⟩
abbrev cc13_stg2_0 : Ref sig .tc := ⟨.vmem, 197, rfl⟩
abbrev cc13_stg3_0 : Ref sig .tc := ⟨.vmem, 198, rfl⟩
abbrev cc13_stg3_1 : Ref sig .tc := ⟨.vmem, 199, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27
abbrev cc2_sem11_0 : DmaSem sig := 28
abbrev cc2_sem12_0 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem11_0 : DmaSem sig := 43
abbrev cc3_sem12_0 : DmaSem sig := 44
abbrev cc3_sem13_0 : DmaSem sig := 45
abbrev cc3_sem14_0 : DmaSem sig := 46
abbrev cc3_sem15_0 : DmaSem sig := 47
abbrev cc3_sem15_1 : DmaSem sig := 48
abbrev cc4_sem0_0 : DmaSem sig := 49
abbrev cc4_sem0_1 : DmaSem sig := 50
abbrev cc4_sem1_0 : DmaSem sig := 51
abbrev cc4_sem1_1 : DmaSem sig := 52
abbrev cc4_sem2_0 : DmaSem sig := 53
abbrev cc4_sem3_0 : DmaSem sig := 54
abbrev cc4_sem4_0 : DmaSem sig := 55
abbrev cc4_sem5_0 : DmaSem sig := 56
abbrev cc4_sem6_0 : DmaSem sig := 57
abbrev cc5_sem0_0 : DmaSem sig := 58
abbrev cc5_sem0_1 : DmaSem sig := 59
abbrev cc5_sem1_0 : DmaSem sig := 60
abbrev cc5_sem1_1 : DmaSem sig := 61
abbrev cc5_sem2_0 : DmaSem sig := 62
abbrev cc5_sem3_0 : DmaSem sig := 63
abbrev cc5_sem4_0 : DmaSem sig := 64
abbrev cc5_sem5_0 : DmaSem sig := 65
abbrev cc5_sem6_0 : DmaSem sig := 66
abbrev cc5_sem7_0 : DmaSem sig := 67
abbrev cc5_sem8_0 : DmaSem sig := 68
abbrev cc5_sem9_0 : DmaSem sig := 69
abbrev cc5_sem10_0 : DmaSem sig := 70
abbrev cc5_sem11_0 : DmaSem sig := 71
abbrev cc5_sem12_0 : DmaSem sig := 72
abbrev cc6_sem0_0 : DmaSem sig := 73
abbrev cc6_sem0_1 : DmaSem sig := 74
abbrev cc6_sem1_0 : DmaSem sig := 75
abbrev cc6_sem1_1 : DmaSem sig := 76
abbrev cc6_sem2_0 : DmaSem sig := 77
abbrev cc6_sem3_0 : DmaSem sig := 78
abbrev cc6_sem4_0 : DmaSem sig := 79
abbrev cc6_sem5_0 : DmaSem sig := 80
abbrev cc6_sem6_0 : DmaSem sig := 81
abbrev cc6_sem7_0 : DmaSem sig := 82
abbrev cc6_sem8_0 : DmaSem sig := 83
abbrev cc6_sem9_0 : DmaSem sig := 84
abbrev cc6_sem10_0 : DmaSem sig := 85
abbrev cc6_sem11_0 : DmaSem sig := 86
abbrev cc6_sem12_0 : DmaSem sig := 87
abbrev cc6_sem13_0 : DmaSem sig := 88
abbrev cc6_sem14_0 : DmaSem sig := 89
abbrev cc6_sem15_0 : DmaSem sig := 90
abbrev cc6_sem15_1 : DmaSem sig := 91
abbrev cc7_sem0_0 : DmaSem sig := 92
abbrev cc7_sem0_1 : DmaSem sig := 93
abbrev cc7_sem1_0 : DmaSem sig := 94
abbrev cc7_sem1_1 : DmaSem sig := 95
abbrev cc7_sem2_0 : DmaSem sig := 96
abbrev cc7_sem3_0 : DmaSem sig := 97
abbrev cc7_sem4_0 : DmaSem sig := 98
abbrev cc7_sem5_0 : DmaSem sig := 99
abbrev cc7_sem6_0 : DmaSem sig := 100
abbrev cc8_sem0_0 : DmaSem sig := 101
abbrev cc8_sem0_1 : DmaSem sig := 102
abbrev cc8_sem1_0 : DmaSem sig := 103
abbrev cc8_sem1_1 : DmaSem sig := 104
abbrev cc8_sem2_0 : DmaSem sig := 105
abbrev cc8_sem3_0 : DmaSem sig := 106
abbrev cc8_sem4_0 : DmaSem sig := 107
abbrev cc8_sem5_0 : DmaSem sig := 108
abbrev cc8_sem6_0 : DmaSem sig := 109
abbrev cc8_sem7_0 : DmaSem sig := 110
abbrev cc8_sem8_0 : DmaSem sig := 111
abbrev cc8_sem9_0 : DmaSem sig := 112
abbrev cc8_sem10_0 : DmaSem sig := 113
abbrev cc8_sem11_0 : DmaSem sig := 114
abbrev cc8_sem12_0 : DmaSem sig := 115
abbrev cc9_sem0_0 : DmaSem sig := 116
abbrev cc9_sem0_1 : DmaSem sig := 117
abbrev cc9_sem1_0 : DmaSem sig := 118
abbrev cc9_sem1_1 : DmaSem sig := 119
abbrev cc9_sem2_0 : DmaSem sig := 120
abbrev cc9_sem3_0 : DmaSem sig := 121
abbrev cc9_sem4_0 : DmaSem sig := 122
abbrev cc9_sem5_0 : DmaSem sig := 123
abbrev cc9_sem6_0 : DmaSem sig := 124
abbrev cc9_sem7_0 : DmaSem sig := 125
abbrev cc9_sem8_0 : DmaSem sig := 126
abbrev cc9_sem9_0 : DmaSem sig := 127
abbrev cc9_sem10_0 : DmaSem sig := 128
abbrev cc9_sem11_0 : DmaSem sig := 129
abbrev cc9_sem12_0 : DmaSem sig := 130
abbrev cc9_sem13_0 : DmaSem sig := 131
abbrev cc9_sem14_0 : DmaSem sig := 132
abbrev cc9_sem15_0 : DmaSem sig := 133
abbrev cc9_sem15_1 : DmaSem sig := 134
abbrev cc10_sem0_0 : DmaSem sig := 135
abbrev cc10_sem0_1 : DmaSem sig := 136
abbrev cc10_sem1_0 : DmaSem sig := 137
abbrev cc10_sem1_1 : DmaSem sig := 138
abbrev cc10_sem2_0 : DmaSem sig := 139
abbrev cc10_sem3_0 : DmaSem sig := 140
abbrev cc10_sem4_0 : DmaSem sig := 141
abbrev cc10_sem5_0 : DmaSem sig := 142
abbrev cc10_sem6_0 : DmaSem sig := 143
abbrev cc11_sem0_0 : DmaSem sig := 144
abbrev cc11_sem0_1 : DmaSem sig := 145
abbrev cc11_sem1_0 : DmaSem sig := 146
abbrev cc11_sem1_1 : DmaSem sig := 147
abbrev cc11_sem2_0 : DmaSem sig := 148
abbrev cc11_sem3_0 : DmaSem sig := 149
abbrev cc11_sem4_0 : DmaSem sig := 150
abbrev cc11_sem5_0 : DmaSem sig := 151
abbrev cc11_sem6_0 : DmaSem sig := 152
abbrev cc11_sem7_0 : DmaSem sig := 153
abbrev cc11_sem8_0 : DmaSem sig := 154
abbrev cc11_sem9_0 : DmaSem sig := 155
abbrev cc11_sem10_0 : DmaSem sig := 156
abbrev cc11_sem11_0 : DmaSem sig := 157
abbrev cc11_sem12_0 : DmaSem sig := 158
abbrev cc12_sem0_0 : DmaSem sig := 159
abbrev cc12_sem0_1 : DmaSem sig := 160
abbrev cc12_sem1_0 : DmaSem sig := 161
abbrev cc12_sem1_1 : DmaSem sig := 162
abbrev cc12_sem2_0 : DmaSem sig := 163
abbrev cc12_sem3_0 : DmaSem sig := 164
abbrev cc12_sem4_0 : DmaSem sig := 165
abbrev cc12_sem5_0 : DmaSem sig := 166
abbrev cc12_sem6_0 : DmaSem sig := 167
abbrev cc12_sem7_0 : DmaSem sig := 168
abbrev cc12_sem8_0 : DmaSem sig := 169
abbrev cc12_sem9_0 : DmaSem sig := 170
abbrev cc12_sem10_0 : DmaSem sig := 171
abbrev cc12_sem11_0 : DmaSem sig := 172
abbrev cc12_sem12_0 : DmaSem sig := 173
abbrev cc12_sem13_0 : DmaSem sig := 174
abbrev cc12_sem14_0 : DmaSem sig := 175
abbrev cc12_sem15_0 : DmaSem sig := 176
abbrev cc12_sem15_1 : DmaSem sig := 177
abbrev cc13_sem0_0 : DmaSem sig := 178
abbrev cc13_sem0_1 : DmaSem sig := 179
abbrev cc13_sem1_0 : DmaSem sig := 180
abbrev cc13_sem2_0 : DmaSem sig := 181
abbrev cc13_sem3_0 : DmaSem sig := 182
abbrev cc13_sem3_1 : DmaSem sig := 183

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v38 : BitVec 1 := Scalar.cmpi .eq arg0 c15_i32
  let v39 : BitVec 32 := Scalar.extui v38
  let c0_i32_21 : BitVec 32 := 0#32
  let v40 : BitVec 1 := Scalar.cmpi .ne v39 c0_i32_21
  v40

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![16], ![false]⟩

def k2_cond2 (i : grid2.Coords) : BitVec 1 :=
  let arg0 : BitVec 32 := BitVec.ofNat 32 (i 0).val
  let c15_i32 : BitVec 32 := 15#32
  let v68 : BitVec 1 := Scalar.cmpi .eq arg0 c15_i32
  let v69 : BitVec 32 := Scalar.extui v68
  let c0_i32_36 : BitVec 32 := 0#32
  let v70 : BitVec 1 := Scalar.cmpi .ne v69 c0_i32_36
  v70

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x64 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x64 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 2 → Memref sig .tc .vmem S4096x64 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev grid4 : Pipeline.Grid := ⟨1, ![16], ![false]⟩

def k4_cond2 (i : grid4.Coords) : BitVec 1 :=
  let arg0 : BitVec 32 := BitVec.ofNat 32 (i 0).val
  let c15_i32 : BitVec 32 := 15#32
  let v38 : BitVec 1 := Scalar.cmpi .eq arg0 c15_i32
  let v39 : BitVec 32 := Scalar.extui v38
  let c0_i32_21 : BitVec 32 := 0#32
  let v40 : BitVec 1 := Scalar.cmpi .ne v39 c0_i32_21
  v40

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![16], ![false]⟩

def k5_cond2 (i : grid5.Coords) : BitVec 1 :=
  let arg0 : BitVec 32 := BitVec.ofNat 32 (i 0).val
  let c15_i32 : BitVec 32 := 15#32
  let v68 : BitVec 1 := Scalar.cmpi .eq arg0 c15_i32
  let v69 : BitVec 32 := Scalar.extui v68
  let c0_i32_36 : BitVec 32 := 0#32
  let v70 : BitVec 1 := Scalar.cmpi .ne v69 c0_i32_36
  v70

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S4096x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4096x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S128x64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x64 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x64 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x64 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_14 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_15 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S128x64 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x64 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1x64 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S1x64 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 1 → Memref sig .tc .vmem S1x64 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false]

abbrev stage6_14 : Fin 1 → Memref sig .tc .vmem S1x64 .f32 := fun | 0 => Memref.whole cc6_stg14_0 | ⟨_ + 1, h⟩ => absurd h (Nat.not_lt.2 (Nat.le_add_left _ _))
abbrev sem6_14 : Fin 1 → DmaSem sig := fun | 0 => cc6_sem14_0 | ⟨_ + 1, h⟩ => absurd h (Nat.not_lt.2 (Nat.le_add_left _ _))
abbrev reads6_14 : Fin grid6.rank → Bool := ![false]

abbrev stage6_15 : Fin 2 → Memref sig .tc .vmem S4096x64 .f32 := fun | 0 => Memref.whole cc6_stg15_0 | 1 => Memref.whole cc6_stg15_1 | ⟨_ + 2, h⟩ => absurd h (Nat.not_lt.2 (Nat.le_add_left _ _))
abbrev sem6_15 : Fin 2 → DmaSem sig := fun | 0 => cc6_sem15_0 | 1 => cc6_sem15_1 | ⟨_ + 2, h⟩ => absurd h (Nat.not_lt.2 (Nat.le_add_left _ _))
abbrev reads6_15 : Fin grid6.rank → Bool := ![true]

abbrev grid7 : Pipeline.Grid := ⟨1, ![16], ![false]⟩

def k7_cond2 (i : grid7.Coords) : BitVec 1 :=
  let arg0 : BitVec 32 := BitVec.ofNat 32 (i 0).val
  let c15_i32 : BitVec 32 := 15#32
  let v38 : BitVec 1 := Scalar.cmpi .eq arg0 c15_i32
  let v39 : BitVec 32 := Scalar.extui v38
  let c0_i32_21 : BitVec 32 := 0#32
  let v40 : BitVec 1 := Scalar.cmpi .ne v39 c0_i32_21
  v40

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S4096x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4096x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![16], ![false]⟩

def k8_cond2 (i : grid8.Coords) : BitVec 1 :=
  let arg0 : BitVec 32 := BitVec.ofNat 32 (i 0).val
  let c15_i32 : BitVec 32 := 15#32
  let v68 : BitVec 1 := Scalar.cmpi .eq arg0 c15_i32
  let v69 : BitVec 32 := Scalar.extui v68
  let c0_i32_36 : BitVec 32 := 0#32
  let v70 : BitVec 1 := Scalar.cmpi .ne v69 c0_i32_36
  v70

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_12 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S4096x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4096x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S128x64 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S1x64 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S1x64 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

abbrev stage8_12 : Fin 1 → Memref sig .tc .vmem S1x64 .f32 := fun | 0 => Memref.whole cc8_stg12_0 | ⟨_ + 1, h⟩ => absurd h (Nat.not_lt.2 (Nat.le_add_left _ _))
abbrev sem8_12 : Fin 1 → DmaSem sig := fun | 0 => cc8_sem12_0 | ⟨_ + 1, h⟩ => absurd h (Nat.not_lt.2 (Nat.le_add_left _ _))
abbrev reads8_12 : Fin grid8.rank → Bool := ![false]

abbrev grid9 : Pipeline.Grid := ⟨1, ![16], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_11 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_12 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_13 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_14 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_15 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4096x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x128 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S128x64 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 1 → Memref sig .tc .vmem S1x64 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false]

abbrev stage9_11 : Fin 1 → Memref sig .tc .vmem S1x64 .f32 := fun | 0 => Memref.whole cc9_stg11_0 | ⟨_ + 1, h⟩ => absurd h (Nat.not_lt.2 (Nat.le_add_left _ _))
abbrev sem9_11 : Fin 1 → DmaSem sig := fun | 0 => cc9_sem11_0 | ⟨_ + 1, h⟩ => absurd h (Nat.not_lt.2 (Nat.le_add_left _ _))
abbrev reads9_11 : Fin grid9.rank → Bool := ![false]

abbrev stage9_12 : Fin 1 → Memref sig .tc .vmem S1x64 .f32 := fun | 0 => Memref.whole cc9_stg12_0 | ⟨_ + 1, h⟩ => absurd h (Nat.not_lt.2 (Nat.le_add_left _ _))
abbrev sem9_12 : Fin 1 → DmaSem sig := fun | 0 => cc9_sem12_0 | ⟨_ + 1, h⟩ => absurd h (Nat.not_lt.2 (Nat.le_add_left _ _))
abbrev reads9_12 : Fin grid9.rank → Bool := ![false]

abbrev stage9_13 : Fin 1 → Memref sig .tc .vmem S1x64 .f32 := fun | 0 => Memref.whole cc9_stg13_0 | ⟨_ + 1, h⟩ => absurd h (Nat.not_lt.2 (Nat.le_add_left _ _))
abbrev sem9_13 : Fin 1 → DmaSem sig := fun | 0 => cc9_sem13_0 | ⟨_ + 1, h⟩ => absurd h (Nat.not_lt.2 (Nat.le_add_left _ _))
abbrev reads9_13 : Fin grid9.rank → Bool := ![false]

abbrev stage9_14 : Fin 1 → Memref sig .tc .vmem S1x64 .f32 := fun | 0 => Memref.whole cc9_stg14_0 | ⟨_ + 1, h⟩ => absurd h (Nat.not_lt.2 (Nat.le_add_left _ _))
abbrev sem9_14 : Fin 1 → DmaSem sig := fun | 0 => cc9_sem14_0 | ⟨_ + 1, h⟩ => absurd h (Nat.not_lt.2 (Nat.le_add_left _ _))
abbrev reads9_14 : Fin grid9.rank → Bool := ![false]

abbrev stage9_15 : Fin 2 → Memref sig .tc .vmem S4096x64 .f32 := fun | 0 => Memref.whole cc9_stg15_0 | 1 => Memref.whole cc9_stg15_1 | ⟨_ + 2, h⟩ => absurd h (Nat.not_lt.2 (Nat.le_add_left _ _))
abbrev sem9_15 : Fin 2 → DmaSem sig := fun | 0 => cc9_sem15_0 | 1 => cc9_sem15_1 | ⟨_ + 2, h⟩ => absurd h (Nat.not_lt.2 (Nat.le_add_left _ _))
abbrev reads9_15 : Fin grid9.rank → Bool := ![true]

abbrev grid10 : Pipeline.Grid := ⟨1, ![16], ![false]⟩

def k10_cond2 (i : grid10.Coords) : BitVec 1 :=
  let arg0 : BitVec 32 := BitVec.ofNat 32 (i 0).val
  let c15_i32 : BitVec 32 := 15#32
  let v38 : BitVec 1 := Scalar.cmpi .eq arg0 c15_i32
  let v39 : BitVec 32 := Scalar.extui v38
  let c0_i32_21 : BitVec 32 := 0#32
  let v40 : BitVec 1 := Scalar.cmpi .ne v39 c0_i32_21
  v40

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S4096x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4096x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev grid11 : Pipeline.Grid := ⟨1, ![16], ![false]⟩

def k11_cond2 (i : grid11.Coords) : BitVec 1 :=
  let arg0 : BitVec 32 := BitVec.ofNat 32 (i 0).val
  let c15_i32 : BitVec 32 := 15#32
  let v68 : BitVec 1 := Scalar.cmpi .eq arg0 c15_i32
  let v69 : BitVec 32 := Scalar.extui v68
  let c0_i32_36 : BitVec 32 := 0#32
  let v70 : BitVec 1 := Scalar.cmpi .ne v69 c0_i32_36
  v70

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_9 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_10 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_11 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_12 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S4096x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S4096x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S1x128 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 1 → Memref sig .tc .vmem S1x128 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 1 → Memref sig .tc .vmem S128x64 .f32 := fun | 0 => Memref.whole cc11_stg9_0 | ⟨_ + 1, h⟩ => absurd h (Nat.not_lt.2 (Nat.le_add_left _ _))
abbrev sem11_9 : Fin 1 → DmaSem sig := fun | 0 => cc11_sem9_0 | ⟨_ + 1, h⟩ => absurd h (Nat.not_lt.2 (Nat.le_add_left _ _))
abbrev reads11_9 : Fin grid11.rank → Bool := ![false]

abbrev stage11_10 : Fin 1 → Memref sig .tc .vmem S1x64 .f32 := fun | 0 => Memref.whole cc11_stg10_0 | ⟨_ + 1, h⟩ => absurd h (Nat.not_lt.2 (Nat.le_add_left _ _))
abbrev sem11_10 : Fin 1 → DmaSem sig := fun | 0 => cc11_sem10_0 | ⟨_ + 1, h⟩ => absurd h (Nat.not_lt.2 (Nat.le_add_left _ _))
abbrev reads11_10 : Fin grid11.rank → Bool := ![false]

abbrev stage11_11 : Fin 1 → Memref sig .tc .vmem S1x64 .f32 := fun | 0 => Memref.whole cc11_stg11_0 | ⟨_ + 1, h⟩ => absurd h (Nat.not_lt.2 (Nat.le_add_left _ _))
abbrev sem11_11 : Fin 1 → DmaSem sig := fun | 0 => cc11_sem11_0 | ⟨_ + 1, h⟩ => absurd h (Nat.not_lt.2 (Nat.le_add_left _ _))
abbrev reads11_11 : Fin grid11.rank → Bool := ![false]

abbrev stage11_12 : Fin 1 → Memref sig .tc .vmem S1x64 .f32 := fun | 0 => Memref.whole cc11_stg12_0 | ⟨_ + 1, h⟩ => absurd h (Nat.not_lt.2 (Nat.le_add_left _ _))
abbrev sem11_12 : Fin 1 → DmaSem sig := fun | 0 => cc11_sem12_0 | ⟨_ + 1, h⟩ => absurd h (Nat.not_lt.2 (Nat.le_add_left _ _))
abbrev reads11_12 : Fin grid11.rank → Bool := ![false]

abbrev grid12 : Pipeline.Grid := ⟨1, ![16], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_9 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_10 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_11 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_12 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_13 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_14 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_15 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4096x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S4096x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S64x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S1x128 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S1x128 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 1 → Memref sig .tc .vmem S128x64 .f32 := fun | 0 => Memref.whole cc12_stg9_0 | ⟨_ + 1, h⟩ => absurd h (Nat.not_lt.2 (Nat.le_add_left _ _))
abbrev sem12_9 : Fin 1 → DmaSem sig := fun | 0 => cc12_sem9_0 | ⟨_ + 1, h⟩ => absurd h (Nat.not_lt.2 (Nat.le_add_left _ _))
abbrev reads12_9 : Fin grid12.rank → Bool := ![false]

abbrev stage12_10 : Fin 1 → Memref sig .tc .vmem S1x64 .f32 := fun | 0 => Memref.whole cc12_stg10_0 | ⟨_ + 1, h⟩ => absurd h (Nat.not_lt.2 (Nat.le_add_left _ _))
abbrev sem12_10 : Fin 1 → DmaSem sig := fun | 0 => cc12_sem10_0 | ⟨_ + 1, h⟩ => absurd h (Nat.not_lt.2 (Nat.le_add_left _ _))
abbrev reads12_10 : Fin grid12.rank → Bool := ![false]

abbrev stage12_11 : Fin 1 → Memref sig .tc .vmem S1x64 .f32 := fun | 0 => Memref.whole cc12_stg11_0 | ⟨_ + 1, h⟩ => absurd h (Nat.not_lt.2 (Nat.le_add_left _ _))
abbrev sem12_11 : Fin 1 → DmaSem sig := fun | 0 => cc12_sem11_0 | ⟨_ + 1, h⟩ => absurd h (Nat.not_lt.2 (Nat.le_add_left _ _))
abbrev reads12_11 : Fin grid12.rank → Bool := ![false]

abbrev stage12_12 : Fin 1 → Memref sig .tc .vmem S1x64 .f32 := fun | 0 => Memref.whole cc12_stg12_0 | ⟨_ + 1, h⟩ => absurd h (Nat.not_lt.2 (Nat.le_add_left _ _))
abbrev sem12_12 : Fin 1 → DmaSem sig := fun | 0 => cc12_sem12_0 | ⟨_ + 1, h⟩ => absurd h (Nat.not_lt.2 (Nat.le_add_left _ _))
abbrev reads12_12 : Fin grid12.rank → Bool := ![false]

abbrev stage12_13 : Fin 1 → Memref sig .tc .vmem S1x64 .f32 := fun | 0 => Memref.whole cc12_stg13_0 | ⟨_ + 1, h⟩ => absurd h (Nat.not_lt.2 (Nat.le_add_left _ _))
abbrev sem12_13 : Fin 1 → DmaSem sig := fun | 0 => cc12_sem13_0 | ⟨_ + 1, h⟩ => absurd h (Nat.not_lt.2 (Nat.le_add_left _ _))
abbrev reads12_13 : Fin grid12.rank → Bool := ![false]

abbrev stage12_14 : Fin 1 → Memref sig .tc .vmem S1x64 .f32 := fun | 0 => Memref.whole cc12_stg14_0 | ⟨_ + 1, h⟩ => absurd h (Nat.not_lt.2 (Nat.le_add_left _ _))
abbrev sem12_14 : Fin 1 → DmaSem sig := fun | 0 => cc12_sem14_0 | ⟨_ + 1, h⟩ => absurd h (Nat.not_lt.2 (Nat.le_add_left _ _))
abbrev reads12_14 : Fin grid12.rank → Bool := ![false]

abbrev stage12_15 : Fin 2 → Memref sig .tc .vmem S4096x64 .f32 := fun | 0 => Memref.whole cc12_stg15_0 | 1 => Memref.whole cc12_stg15_1 | ⟨_ + 2, h⟩ => absurd h (Nat.not_lt.2 (Nat.le_add_left _ _))
abbrev sem12_15 : Fin 2 → DmaSem sig := fun | 0 => cc12_sem15_0 | 1 => cc12_sem15_1 | ⟨_ + 2, h⟩ => absurd h (Nat.not_lt.2 (Nat.le_add_left _ _))
abbrev reads12_15 : Fin grid12.rank → Bool := ![true]

abbrev grid13 : Pipeline.Grid := ⟨1, ![16], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4096x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S64x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S4096x256 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  shapeCasts_S64_S1x64 : S64.ShapeCasts S1x64
  inb_S8192x1_S8192x1_0_0 : ∀ a, (![0, 0] : Fin 2 → Nat) a + S8192x1.size a ≤ S8192x1.size a
  h_S8192x1 : 0 < S8192x1.numel
  inb_S1x64_S1x64_0_0 : ∀ a, (![0, 0] : Fin 2 → Nat) a + S1x64.size a ≤ S1x64.size a
  h_S1x64 : 0 < S1x64.numel
  broadcasts_S8192x1_S8192x64 : S8192x1.Broadcasts S8192x64
  broadcasts_S1x64_S8192x64 : S1x64.Broadcasts S8192x64
  shapeCasts_S1x64_S1x64 : S1x64.ShapeCasts S1x64
  inb_S8192x64_S8192x64_0_0 : ∀ a, (![0, 0] : Fin 2 → Nat) a + S8192x64.size a ≤ S8192x64.size a
  h_S8192x64 : 0 < S8192x64.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x64 : S_.BroadcastsInDim S65536x64 (![] : Fin 0 → Fin S65536x64.rank)
  slices_S4_S1_0 : S4.Slices ![0] S1
  shapeCasts_S1_S_ : S1.ShapeCasts S_
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  shapeCasts_S_S1x1 : S_.ShapeCasts S1x1
  bcast_S1x1_S1x64_0_1 : S1x1.BroadcastsInDim S1x64 (![0, 1] : Fin 2 → Fin S1x64.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S1x64_S4096x64 : S1x64.Broadcasts S4096x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S4096x128 : S1x128.Broadcasts S4096x128
  reduces_S4096x128_S128 : S4096x128.Reduces [0] S128
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  reduces_S4096x64_S64 : S4096x64.Reduces [0] S64
  slices_S4_S1_1 : S4.Slices ![1] S1
  slices_S4x64x128_S1x64x128_1_0_0 : S4x64x128.Slices ![1, 0, 0] S1x64x128
  slices_S4x128_S1x128_1_0 : S4x128.Slices ![1, 0] S1x128
  slices_S4x128x64_S1x128x64_1_0_0 : S4x128x64.Slices ![1, 0, 0] S1x128x64
  slices_S4x64_S1x64_1_0 : S4x64.Slices ![1, 0] S1x64
  slices_S4_S1_2 : S4.Slices ![2] S1
  slices_S4x64x128_S1x64x128_2_0_0 : S4x64x128.Slices ![2, 0, 0] S1x64x128
  slices_S4x128_S1x128_2_0 : S4x128.Slices ![2, 0] S1x128
  slices_S4x128x64_S1x128x64_2_0_0 : S4x128x64.Slices ![2, 0, 0] S1x128x64
  slices_S4x64_S1x64_2_0 : S4x64.Slices ![2, 0] S1x64
  slices_S4_S1_3 : S4.Slices ![3] S1
  slices_S4x64x128_S1x64x128_3_0_0 : S4x64x128.Slices ![3, 0, 0] S1x64x128
  slices_S4x128_S1x128_3_0 : S4x128.Slices ![3, 0] S1x128
  slices_S4x128x64_S1x128x64_3_0_0 : S4x128x64.Slices ![3, 0, 0] S1x128x64
  slices_S4x64_S1x64_3_0 : S4x64.Slices ![3, 0] S1x64
  shapeCasts_S256_S1x256 : S256.ShapeCasts S1x256
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S65536x256_S16x4096x256 : S65536x256.ShapeCasts S16x4096x256
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S4096x64_S64x128_S4096x128_1_0_0_1_n_n_wf : DotDims.WF S4096x64 S64x128 S4096x128 [1] [0] [0] [1] [] []
  dot_S4096x128_S128x64_S4096x64_1_0_0_1_n_n_wf : DotDims.WF S4096x128 S128x64 S4096x64 [1] [0] [0] [1] [] []
  dot_S4096x64_S64x256_S4096x256_1_0_0_1_n_n_wf : DotDims.WF S4096x64 S64x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S65536x1.size a
  hwx0_0 : ∀ i : grid0.Coords, EltTy.bits .f32 = 32 ∨ (Rect.block (s := S65536x1) S8192x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S65536x64.size a
  hwx0_3 : ∀ i : grid0.Coords, EltTy.bits .f32 = 32 ∨ (Rect.block (s := S65536x64) S8192x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S65536x64.size a
  hwx1_0 : ∀ i : grid1.Coords, EltTy.bits .f32 = 32 ∨ (Rect.block (s := S65536x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S65536x64.size a
  hwx1_1 : ∀ i : grid1.Coords, EltTy.bits .f32 = 32 ∨ (Rect.block (s := S65536x64) S4096x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S65536x64.size a
  hwx2_0 : ∀ i : grid2.Coords, EltTy.bits .f32 = 32 ∨ (Rect.block (s := S65536x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S65536x64.size a
  hwx2_1 : ∀ i : grid2.Coords, EltTy.bits .f32 = 32 ∨ (Rect.block (s := S65536x64) S4096x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x64.size a ≤ S128x64.size a
  hwx2_9 : ∀ i : grid2.Coords, EltTy.bits .f32 = 32 ∨ (Rect.block (s := S128x64) S128x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .f32 = 32 ∨ (Rect.block (s := S1x64) S1x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x64.size a ≤ S1x64.size a
  hwx2_12 : ∀ i : grid2.Coords, EltTy.bits .f32 = 32 ∨ (Rect.block (s := S1x64) S1x64.size (cc2_transform_12 i) (hinb2_12 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S65536x64.size a
  hwx3_0 : ∀ i : grid3.Coords, EltTy.bits .f32 = 32 ∨ (Rect.block (s := S65536x64) S4096x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S65536x64.size a
  hwx3_1 : ∀ i : grid3.Coords, EltTy.bits .f32 = 32 ∨ (Rect.block (s := S65536x64) S4096x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x64.size a ≤ S128x64.size a
  hwx3_9 : ∀ i : grid3.Coords, EltTy.bits .f32 = 32 ∨ (Rect.block (s := S128x64) S128x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x64.size a ≤ S1x64.size a
  hwx3_10 : ∀ i : grid3.Coords, EltTy.bits .f32 = 32 ∨ (Rect.block (s := S1x64) S1x64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x64.size a ≤ S1x64.size a
  hwx3_11 : ∀ i : grid3.Coords, EltTy.bits .f32 = 32 ∨ (Rect.block (s := S1x64) S1x64.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x64.size a ≤ S1x64.size a
  hwx3_12 : ∀ i : grid3.Coords, EltTy.bits .f32 = 32 ∨ (Rect.block (s := S1x64) S1x64.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x64.size a ≤ S1x64.size a
  hwx3_13 : ∀ i : grid3.Coords, EltTy.bits .f32 = 32 ∨ (Rect.block (s := S1x64) S1x64.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x64.size a ≤ S1x64.size a
  hwx3_14 : ∀ i : grid3.Coords, EltTy.bits .f32 = 32 ∨ (Rect.block (s := S1x64) S1x64.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S4096x64.size a ≤ S65536x64.size a
  hwx3_15 : ∀ i : grid3.Coords, EltTy.bits .f32 = 32 ∨ (Rect.block (s := S65536x64) S4096x64.size (cc3_transform_15 i) (hinb3_15 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S65536x64.size a
  hwx4_0 : ∀ i : grid4.Coords, EltTy.bits .f32 = 32 ∨ (Rect.block (s := S65536x64) S4096x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x64.size a ≤ S65536x64.size a
  hwx4_1 : ∀ i : grid4.Coords, EltTy.bits .f32 = 32 ∨ (Rect.block (s := S65536x64) S4096x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x64.size a ≤ S65536x64.size a
  hwx5_0 : ∀ i : grid5.Coords, EltTy.bits .f32 = 32 ∨ (Rect.block (s := S65536x64) S4096x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x64.size a ≤ S65536x64.size a
  hwx5_1 : ∀ i : grid5.Coords, EltTy.bits .f32 = 32 ∨ (Rect.block (s := S65536x64) S4096x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x128.size a ≤ S64x128.size a
  hwx5_3 : ∀ i : grid5.Coords, EltTy.bits .f32 = 32 ∨ (Rect.block (s := S64x128) S64x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S128x64.size a ≤ S128x64.size a
  hwx5_9 : ∀ i : grid5.Coords, EltTy.bits .f32 = 32 ∨ (Rect.block (s := S128x64) S128x64.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x64.size a ≤ S1x64.size a
  hwx5_10 : ∀ i : grid5.Coords, EltTy.bits .f32 = 32 ∨ (Rect.block (s := S1x64) S1x64.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S1x64.size a ≤ S1x64.size a
  hwx5_11 : ∀ i : grid5.Coords, EltTy.bits .f32 = 32 ∨ (Rect.block (s := S1x64) S1x64.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S1x64.size a ≤ S1x64.size a
  hwx5_12 : ∀ i : grid5.Coords, EltTy.bits .f32 = 32 ∨ (Rect.block (s := S1x64) S1x64.size (cc5_transform_12 i) (hinb5_12 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x64.size a ≤ S65536x64.size a
  hwx6_0 : ∀ i : grid6.Coords, EltTy.bits .f32 = 32 ∨ (Rect.block (s := S65536x64) S4096x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x64.size a ≤ S65536x64.size a
  hwx6_1 : ∀ i : grid6.Coords, EltTy.bits .f32 = 32 ∨ (Rect.block (s := S65536x64) S4096x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x128.size a ≤ S64x128.size a
  hwx6_3 : ∀ i : grid6.Coords, EltTy.bits .f32 = 32 ∨ (Rect.block (s := S64x128) S64x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S128x64.size a ≤ S128x64.size a
  hwx6_9 : ∀ i : grid6.Coords, EltTy.bits .f32 = 32 ∨ (Rect.block (s := S128x64) S128x64.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x64.size a ≤ S1x64.size a
  hwx6_10 : ∀ i : grid6.Coords, EltTy.bits .f32 = 32 ∨ (Rect.block (s := S1x64) S1x64.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S1x64.size a ≤ S1x64.size a
  hwx6_11 : ∀ i : grid6.Coords, EltTy.bits .f32 = 32 ∨ (Rect.block (s := S1x64) S1x64.size (cc6_transform_11 i) (hinb6_11 i)).WholeWords (EltTy.packing .f32)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S1x64.size a ≤ S1x64.size a
  hwx6_12 : ∀ i : grid6.Coords, EltTy.bits .f32 = 32 ∨ (Rect.block (s := S1x64) S1x64.size (cc6_transform_12 i) (hinb6_12 i)).WholeWords (EltTy.packing .f32)
  hstage6_13 : ∀ j, (stage6_13 j).IsWhole
  nbuf6_13 : grid6.bufCount reads6_13 true = 1
  hreads6_13 : ∀ i i' : grid6.Coords, (∀ a, reads6_13 a = true → i a = i' a) → cc6_transform_13 i = cc6_transform_13 i'
  hinb6_13 : ∀ (i : grid6.Coords) a, (cc6_transform_13 i a + 1) * S1x64.size a ≤ S1x64.size a
  hwx6_13 : ∀ i : grid6.Coords, EltTy.bits .f32 = 32 ∨ (Rect.block (s := S1x64) S1x64.size (cc6_transform_13 i) (hinb6_13 i)).WholeWords (EltTy.packing .f32)
  hstage6_14 : ∀ j, (stage6_14 j).IsWhole
  nbuf6_14 : grid6.bufCount reads6_14 true = 1
  hreads6_14 : ∀ i i' : grid6.Coords, (∀ a, reads6_14 a = true → i a = i' a) → cc6_transform_14 i = cc6_transform_14 i'
  hinb6_14 : ∀ (i : grid6.Coords) a, (cc6_transform_14 i a + 1) * S1x64.size a ≤ S1x64.size a
  hwx6_14 : ∀ i : grid6.Coords, EltTy.bits .f32 = 32 ∨ (Rect.block (s := S1x64) S1x64.size (cc6_transform_14 i) (hinb6_14 i)).WholeWords (EltTy.packing .f32)
  hstage6_15 : ∀ j, (stage6_15 j).IsWhole
  nbuf6_15 : grid6.bufCount reads6_15 false = 2
  hreads6_15 : ∀ i i' : grid6.Coords, (∀ a, reads6_15 a = true → i a = i' a) → cc6_transform_15 i = cc6_transform_15 i'
  hinb6_15 : ∀ (i : grid6.Coords) a, (cc6_transform_15 i a + 1) * S4096x64.size a ≤ S65536x64.size a
  hwx6_15 : ∀ i : grid6.Coords, EltTy.bits .f32 = 32 ∨ (Rect.block (s := S65536x64) S4096x64.size (cc6_transform_15 i) (hinb6_15 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4096x64.size a ≤ S65536x64.size a
  hwx7_0 : ∀ i : grid7.Coords, EltTy.bits .f32 = 32 ∨ (Rect.block (s := S65536x64) S4096x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4096x64.size a ≤ S65536x64.size a
  hwx7_1 : ∀ i : grid7.Coords, EltTy.bits .f32 = 32 ∨ (Rect.block (s := S65536x64) S4096x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x128.size a ≤ S64x128.size a
  hwx7_3 : ∀ i : grid7.Coords, EltTy.bits .f32 = 32 ∨ (Rect.block (s := S64x128) S64x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x64.size a ≤ S65536x64.size a
  hwx8_0 : ∀ i : grid8.Coords, EltTy.bits .f32 = 32 ∨ (Rect.block (s := S65536x64) S4096x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4096x64.size a ≤ S65536x64.size a
  hwx8_1 : ∀ i : grid8.Coords, EltTy.bits .f32 = 32 ∨ (Rect.block (s := S65536x64) S4096x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x128.size a ≤ S64x128.size a
  hwx8_3 : ∀ i : grid8.Coords, EltTy.bits .f32 = 32 ∨ (Rect.block (s := S64x128) S64x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S128x64.size a ≤ S128x64.size a
  hwx8_9 : ∀ i : grid8.Coords, EltTy.bits .f32 = 32 ∨ (Rect.block (s := S128x64) S128x64.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S1x64.size a ≤ S1x64.size a
  hwx8_10 : ∀ i : grid8.Coords, EltTy.bits .f32 = 32 ∨ (Rect.block (s := S1x64) S1x64.size (cc8_transform_10 i) (hinb8_10 i)).WholeWords (EltTy.packing .f32)
  hstage8_11 : ∀ j, (stage8_11 j).IsWhole
  nbuf8_11 : grid8.bufCount reads8_11 true = 1
  hreads8_11 : ∀ i i' : grid8.Coords, (∀ a, reads8_11 a = true → i a = i' a) → cc8_transform_11 i = cc8_transform_11 i'
  hinb8_11 : ∀ (i : grid8.Coords) a, (cc8_transform_11 i a + 1) * S1x64.size a ≤ S1x64.size a
  hwx8_11 : ∀ i : grid8.Coords, EltTy.bits .f32 = 32 ∨ (Rect.block (s := S1x64) S1x64.size (cc8_transform_11 i) (hinb8_11 i)).WholeWords (EltTy.packing .f32)
  hstage8_12 : ∀ j, (stage8_12 j).IsWhole
  nbuf8_12 : grid8.bufCount reads8_12 true = 1
  hreads8_12 : ∀ i i' : grid8.Coords, (∀ a, reads8_12 a = true → i a = i' a) → cc8_transform_12 i = cc8_transform_12 i'
  hinb8_12 : ∀ (i : grid8.Coords) a, (cc8_transform_12 i a + 1) * S1x64.size a ≤ S1x64.size a
  hwx8_12 : ∀ i : grid8.Coords, EltTy.bits .f32 = 32 ∨ (Rect.block (s := S1x64) S1x64.size (cc8_transform_12 i) (hinb8_12 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x64.size a ≤ S65536x64.size a
  hwx9_0 : ∀ i : grid9.Coords, EltTy.bits .f32 = 32 ∨ (Rect.block (s := S65536x64) S4096x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4096x64.size a ≤ S65536x64.size a
  hwx9_1 : ∀ i : grid9.Coords, EltTy.bits .f32 = 32 ∨ (Rect.block (s := S65536x64) S4096x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x128.size a ≤ S64x128.size a
  hwx9_3 : ∀ i : grid9.Coords, EltTy.bits .f32 = 32 ∨ (Rect.block (s := S64x128) S64x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x128.size a ≤ S1x128.size a
  hwx9_7 : ∀ i : grid9.Coords, EltTy.bits .f32 = 32 ∨ (Rect.block (s := S1x128) S1x128.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x128.size a ≤ S1x128.size a
  hwx9_8 : ∀ i : grid9.Coords, EltTy.bits .f32 = 32 ∨ (Rect.block (s := S1x128) S1x128.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S128x64.size a ≤ S128x64.size a
  hwx9_9 : ∀ i : grid9.Coords, EltTy.bits .f32 = 32 ∨ (Rect.block (s := S128x64) S128x64.size (cc9_transform_9 i) (hinb9_9 i)).WholeWords (EltTy.packing .f32)
  hstage9_10 : ∀ j, (stage9_10 j).IsWhole
  nbuf9_10 : grid9.bufCount reads9_10 true = 1
  hreads9_10 : ∀ i i' : grid9.Coords, (∀ a, reads9_10 a = true → i a = i' a) → cc9_transform_10 i = cc9_transform_10 i'
  hinb9_10 : ∀ (i : grid9.Coords) a, (cc9_transform_10 i a + 1) * S1x64.size a ≤ S1x64.size a
  hwx9_10 : ∀ i : grid9.Coords, EltTy.bits .f32 = 32 ∨ (Rect.block (s := S1x64) S1x64.size (cc9_transform_10 i) (hinb9_10 i)).WholeWords (EltTy.packing .f32)
  hstage9_11 : ∀ j, (stage9_11 j).IsWhole
  nbuf9_11 : grid9.bufCount reads9_11 true = 1
  hreads9_11 : ∀ i i' : grid9.Coords, (∀ a, reads9_11 a = true → i a = i' a) → cc9_transform_11 i = cc9_transform_11 i'
  hinb9_11 : ∀ (i : grid9.Coords) a, (cc9_transform_11 i a + 1) * S1x64.size a ≤ S1x64.size a
  hwx9_11 : ∀ i : grid9.Coords, EltTy.bits .f32 = 32 ∨ (Rect.block (s := S1x64) S1x64.size (cc9_transform_11 i) (hinb9_11 i)).WholeWords (EltTy.packing .f32)
  hstage9_12 : ∀ j, (stage9_12 j).IsWhole
  nbuf9_12 : grid9.bufCount reads9_12 true = 1
  hreads9_12 : ∀ i i' : grid9.Coords, (∀ a, reads9_12 a = true → i a = i' a) → cc9_transform_12 i = cc9_transform_12 i'
  hinb9_12 : ∀ (i : grid9.Coords) a, (cc9_transform_12 i a + 1) * S1x64.size a ≤ S1x64.size a
  hwx9_12 : ∀ i : grid9.Coords, EltTy.bits .f32 = 32 ∨ (Rect.block (s := S1x64) S1x64.size (cc9_transform_12 i) (hinb9_12 i)).WholeWords (EltTy.packing .f32)
  hstage9_13 : ∀ j, (stage9_13 j).IsWhole
  nbuf9_13 : grid9.bufCount reads9_13 true = 1
  hreads9_13 : ∀ i i' : grid9.Coords, (∀ a, reads9_13 a = true → i a = i' a) → cc9_transform_13 i = cc9_transform_13 i'
  hinb9_13 : ∀ (i : grid9.Coords) a, (cc9_transform_13 i a + 1) * S1x64.size a ≤ S1x64.size a
  hwx9_13 : ∀ i : grid9.Coords, EltTy.bits .f32 = 32 ∨ (Rect.block (s := S1x64) S1x64.size (cc9_transform_13 i) (hinb9_13 i)).WholeWords (EltTy.packing .f32)
  hstage9_14 : ∀ j, (stage9_14 j).IsWhole
  nbuf9_14 : grid9.bufCount reads9_14 true = 1
  hreads9_14 : ∀ i i' : grid9.Coords, (∀ a, reads9_14 a = true → i a = i' a) → cc9_transform_14 i = cc9_transform_14 i'
  hinb9_14 : ∀ (i : grid9.Coords) a, (cc9_transform_14 i a + 1) * S1x64.size a ≤ S1x64.size a
  hwx9_14 : ∀ i : grid9.Coords, EltTy.bits .f32 = 32 ∨ (Rect.block (s := S1x64) S1x64.size (cc9_transform_14 i) (hinb9_14 i)).WholeWords (EltTy.packing .f32)
  hstage9_15 : ∀ j, (stage9_15 j).IsWhole
  nbuf9_15 : grid9.bufCount reads9_15 false = 2
  hreads9_15 : ∀ i i' : grid9.Coords, (∀ a, reads9_15 a = true → i a = i' a) → cc9_transform_15 i = cc9_transform_15 i'
  hinb9_15 : ∀ (i : grid9.Coords) a, (cc9_transform_15 i a + 1) * S4096x64.size a ≤ S65536x64.size a
  hwx9_15 : ∀ i : grid9.Coords, EltTy.bits .f32 = 32 ∨ (Rect.block (s := S65536x64) S4096x64.size (cc9_transform_15 i) (hinb9_15 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4096x64.size a ≤ S65536x64.size a
  hwx10_0 : ∀ i : grid10.Coords, EltTy.bits .f32 = 32 ∨ (Rect.block (s := S65536x64) S4096x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4096x64.size a ≤ S65536x64.size a
  hwx10_1 : ∀ i : grid10.Coords, EltTy.bits .f32 = 32 ∨ (Rect.block (s := S65536x64) S4096x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x128.size a ≤ S64x128.size a
  hwx10_3 : ∀ i : grid10.Coords, EltTy.bits .f32 = 32 ∨ (Rect.block (s := S64x128) S64x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4096x64.size a ≤ S65536x64.size a
  hwx11_0 : ∀ i : grid11.Coords, EltTy.bits .f32 = 32 ∨ (Rect.block (s := S65536x64) S4096x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S4096x64.size a ≤ S65536x64.size a
  hwx11_1 : ∀ i : grid11.Coords, EltTy.bits .f32 = 32 ∨ (Rect.block (s := S65536x64) S4096x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64x128.size a ≤ S64x128.size a
  hwx11_3 : ∀ i : grid11.Coords, EltTy.bits .f32 = 32 ∨ (Rect.block (s := S64x128) S64x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x128.size a ≤ S1x128.size a
  hwx11_6 : ∀ i : grid11.Coords, EltTy.bits .f32 = 32 ∨ (Rect.block (s := S1x128) S1x128.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S1x128.size a ≤ S1x128.size a
  hwx11_7 : ∀ i : grid11.Coords, EltTy.bits .f32 = 32 ∨ (Rect.block (s := S1x128) S1x128.size (cc11_transform_7 i) (hinb11_7 i)).WholeWords (EltTy.packing .f32)
  hstage11_8 : ∀ j, (stage11_8 j).IsWhole
  nbuf11_8 : grid11.bufCount reads11_8 true = 1
  hreads11_8 : ∀ i i' : grid11.Coords, (∀ a, reads11_8 a = true → i a = i' a) → cc11_transform_8 i = cc11_transform_8 i'
  hinb11_8 : ∀ (i : grid11.Coords) a, (cc11_transform_8 i a + 1) * S1x128.size a ≤ S1x128.size a
  hwx11_8 : ∀ i : grid11.Coords, EltTy.bits .f32 = 32 ∨ (Rect.block (s := S1x128) S1x128.size (cc11_transform_8 i) (hinb11_8 i)).WholeWords (EltTy.packing .f32)
  hstage11_9 : ∀ j, (stage11_9 j).IsWhole
  nbuf11_9 : grid11.bufCount reads11_9 true = 1
  hreads11_9 : ∀ i i' : grid11.Coords, (∀ a, reads11_9 a = true → i a = i' a) → cc11_transform_9 i = cc11_transform_9 i'
  hinb11_9 : ∀ (i : grid11.Coords) a, (cc11_transform_9 i a + 1) * S128x64.size a ≤ S128x64.size a
  hwx11_9 : ∀ i : grid11.Coords, EltTy.bits .f32 = 32 ∨ (Rect.block (s := S128x64) S128x64.size (cc11_transform_9 i) (hinb11_9 i)).WholeWords (EltTy.packing .f32)
  hstage11_10 : ∀ j, (stage11_10 j).IsWhole
  nbuf11_10 : grid11.bufCount reads11_10 true = 1
  hreads11_10 : ∀ i i' : grid11.Coords, (∀ a, reads11_10 a = true → i a = i' a) → cc11_transform_10 i = cc11_transform_10 i'
  hinb11_10 : ∀ (i : grid11.Coords) a, (cc11_transform_10 i a + 1) * S1x64.size a ≤ S1x64.size a
  hwx11_10 : ∀ i : grid11.Coords, EltTy.bits .f32 = 32 ∨ (Rect.block (s := S1x64) S1x64.size (cc11_transform_10 i) (hinb11_10 i)).WholeWords (EltTy.packing .f32)
  hstage11_11 : ∀ j, (stage11_11 j).IsWhole
  nbuf11_11 : grid11.bufCount reads11_11 true = 1
  hreads11_11 : ∀ i i' : grid11.Coords, (∀ a, reads11_11 a = true → i a = i' a) → cc11_transform_11 i = cc11_transform_11 i'
  hinb11_11 : ∀ (i : grid11.Coords) a, (cc11_transform_11 i a + 1) * S1x64.size a ≤ S1x64.size a
  hwx11_11 : ∀ i : grid11.Coords, EltTy.bits .f32 = 32 ∨ (Rect.block (s := S1x64) S1x64.size (cc11_transform_11 i) (hinb11_11 i)).WholeWords (EltTy.packing .f32)
  hstage11_12 : ∀ j, (stage11_12 j).IsWhole
  nbuf11_12 : grid11.bufCount reads11_12 true = 1
  hreads11_12 : ∀ i i' : grid11.Coords, (∀ a, reads11_12 a = true → i a = i' a) → cc11_transform_12 i = cc11_transform_12 i'
  hinb11_12 : ∀ (i : grid11.Coords) a, (cc11_transform_12 i a + 1) * S1x64.size a ≤ S1x64.size a
  hwx11_12 : ∀ i : grid11.Coords, EltTy.bits .f32 = 32 ∨ (Rect.block (s := S1x64) S1x64.size (cc11_transform_12 i) (hinb11_12 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4096x64.size a ≤ S65536x64.size a
  hwx12_0 : ∀ i : grid12.Coords, EltTy.bits .f32 = 32 ∨ (Rect.block (s := S65536x64) S4096x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S4096x64.size a ≤ S65536x64.size a
  hwx12_1 : ∀ i : grid12.Coords, EltTy.bits .f32 = 32 ∨ (Rect.block (s := S65536x64) S4096x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S64x128.size a ≤ S64x128.size a
  hwx12_3 : ∀ i : grid12.Coords, EltTy.bits .f32 = 32 ∨ (Rect.block (s := S64x128) S64x128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x128.size a ≤ S1x128.size a
  hwx12_4 : ∀ i : grid12.Coords, EltTy.bits .f32 = 32 ∨ (Rect.block (s := S1x128) S1x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x128.size a ≤ S1x128.size a
  hwx12_6 : ∀ i : grid12.Coords, EltTy.bits .f32 = 32 ∨ (Rect.block (s := S1x128) S1x128.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S1x128.size a ≤ S1x128.size a
  hwx12_7 : ∀ i : grid12.Coords, EltTy.bits .f32 = 32 ∨ (Rect.block (s := S1x128) S1x128.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S1x128.size a ≤ S1x128.size a
  hwx12_8 : ∀ i : grid12.Coords, EltTy.bits .f32 = 32 ∨ (Rect.block (s := S1x128) S1x128.size (cc12_transform_8 i) (hinb12_8 i)).WholeWords (EltTy.packing .f32)
  hstage12_9 : ∀ j, (stage12_9 j).IsWhole
  nbuf12_9 : grid12.bufCount reads12_9 true = 1
  hreads12_9 : ∀ i i' : grid12.Coords, (∀ a, reads12_9 a = true → i a = i' a) → cc12_transform_9 i = cc12_transform_9 i'
  hinb12_9 : ∀ (i : grid12.Coords) a, (cc12_transform_9 i a + 1) * S128x64.size a ≤ S128x64.size a
  hwx12_9 : ∀ i : grid12.Coords, EltTy.bits .f32 = 32 ∨ (Rect.block (s := S128x64) S128x64.size (cc12_transform_9 i) (hinb12_9 i)).WholeWords (EltTy.packing .f32)
  hstage12_10 : ∀ j, (stage12_10 j).IsWhole
  nbuf12_10 : grid12.bufCount reads12_10 true = 1
  hreads12_10 : ∀ i i' : grid12.Coords, (∀ a, reads12_10 a = true → i a = i' a) → cc12_transform_10 i = cc12_transform_10 i'
  hinb12_10 : ∀ (i : grid12.Coords) a, (cc12_transform_10 i a + 1) * S1x64.size a ≤ S1x64.size a
  hwx12_10 : ∀ i : grid12.Coords, EltTy.bits .f32 = 32 ∨ (Rect.block (s := S1x64) S1x64.size (cc12_transform_10 i) (hinb12_10 i)).WholeWords (EltTy.packing .f32)
  hstage12_11 : ∀ j, (stage12_11 j).IsWhole
  nbuf12_11 : grid12.bufCount reads12_11 true = 1
  hreads12_11 : ∀ i i' : grid12.Coords, (∀ a, reads12_11 a = true → i a = i' a) → cc12_transform_11 i = cc12_transform_11 i'
  hinb12_11 : ∀ (i : grid12.Coords) a, (cc12_transform_11 i a + 1) * S1x64.size a ≤ S1x64.size a
  hwx12_11 : ∀ i : grid12.Coords, EltTy.bits .f32 = 32 ∨ (Rect.block (s := S1x64) S1x64.size (cc12_transform_11 i) (hinb12_11 i)).WholeWords (EltTy.packing .f32)
  hstage12_12 : ∀ j, (stage12_12 j).IsWhole
  nbuf12_12 : grid12.bufCount reads12_12 true = 1
  hreads12_12 : ∀ i i' : grid12.Coords, (∀ a, reads12_12 a = true → i a = i' a) → cc12_transform_12 i = cc12_transform_12 i'
  hinb12_12 : ∀ (i : grid12.Coords) a, (cc12_transform_12 i a + 1) * S1x64.size a ≤ S1x64.size a
  hwx12_12 : ∀ i : grid12.Coords, EltTy.bits .f32 = 32 ∨ (Rect.block (s := S1x64) S1x64.size (cc12_transform_12 i) (hinb12_12 i)).WholeWords (EltTy.packing .f32)
  hstage12_13 : ∀ j, (stage12_13 j).IsWhole
  nbuf12_13 : grid12.bufCount reads12_13 true = 1
  hreads12_13 : ∀ i i' : grid12.Coords, (∀ a, reads12_13 a = true → i a = i' a) → cc12_transform_13 i = cc12_transform_13 i'
  hinb12_13 : ∀ (i : grid12.Coords) a, (cc12_transform_13 i a + 1) * S1x64.size a ≤ S1x64.size a
  hwx12_13 : ∀ i : grid12.Coords, EltTy.bits .f32 = 32 ∨ (Rect.block (s := S1x64) S1x64.size (cc12_transform_13 i) (hinb12_13 i)).WholeWords (EltTy.packing .f32)
  hstage12_14 : ∀ j, (stage12_14 j).IsWhole
  nbuf12_14 : grid12.bufCount reads12_14 true = 1
  hreads12_14 : ∀ i i' : grid12.Coords, (∀ a, reads12_14 a = true → i a = i' a) → cc12_transform_14 i = cc12_transform_14 i'
  hinb12_14 : ∀ (i : grid12.Coords) a, (cc12_transform_14 i a + 1) * S1x64.size a ≤ S1x64.size a
  hwx12_14 : ∀ i : grid12.Coords, EltTy.bits .f32 = 32 ∨ (Rect.block (s := S1x64) S1x64.size (cc12_transform_14 i) (hinb12_14 i)).WholeWords (EltTy.packing .f32)
  hstage12_15 : ∀ j, (stage12_15 j).IsWhole
  nbuf12_15 : grid12.bufCount reads12_15 false = 2
  hreads12_15 : ∀ i i' : grid12.Coords, (∀ a, reads12_15 a = true → i a = i' a) → cc12_transform_15 i = cc12_transform_15 i'
  hinb12_15 : ∀ (i : grid12.Coords) a, (cc12_transform_15 i a + 1) * S4096x64.size a ≤ S65536x64.size a
  hwx12_15 : ∀ i : grid12.Coords, EltTy.bits .f32 = 32 ∨ (Rect.block (s := S65536x64) S4096x64.size (cc12_transform_15 i) (hinb12_15 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4096x64.size a ≤ S65536x64.size a
  hwx13_0 : ∀ i : grid13.Coords, EltTy.bits .f32 = 32 ∨ (Rect.block (s := S65536x64) S4096x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S64x256.size a ≤ S64x256.size a
  hwx13_1 : ∀ i : grid13.Coords, EltTy.bits .f32 = 32 ∨ (Rect.block (s := S64x256) S64x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x256.size a ≤ S1x256.size a
  hwx13_2 : ∀ i : grid13.Coords, EltTy.bits .f32 = 32 ∨ (Rect.block (s := S1x256) S1x256.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S4096x256.size a ≤ S65536x256.size a
  hwx13_3 : ∀ i : grid13.Coords, EltTy.bits .f32 = 32 ∨ (Rect.block (s := S65536x256) S4096x256.size (cc13_transform_3 i) (hinb13_3 i)).WholeWords (EltTy.packing .f32)

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev win0_0 : Pipeline.Window sig grid0 :=
  Pipeline.Window.ofSpec (Memref.whole main_arg2) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_0) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25_1) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v5) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25_0) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25_1) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v43) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v44) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v37) S128x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v45) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v46_0) S1x64.size cc2_transform_11 reads2_11 true true 1 stage2_11 sem2_11
    hrank2 hreads2_11 hinb2_11 nbuf2_11 (Memref.isWhole_whole _) hwx2_11 hstage2_11

abbrev win2_12 : Pipeline.Window sig grid2 :=
  Pipeline.Window.ofSpec (Memref.whole main_v46_1) S1x64.size cc2_transform_12 reads2_12 true true 1 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev idle2 : Fin 13 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k2_cond2 i == 1#1) | 12 => fun i => !(k2_cond2 i == 1#1) | ⟨_ + 13, h⟩ => absurd h (Nat.not_lt.2 (Nat.le_add_left _ _))

abbrev win3_0 : Pipeline.Window sig grid3 :=
  Pipeline.Window.ofSpec (Memref.whole main_v5) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S4096x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v25_0) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v25_1) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v68) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v69) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v58) S128x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v70) S1x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v46_0) S1x64.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v46_1) S1x64.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v71) S1x64.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v72) S1x64.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v73) S4096x64.size cc3_transform_15 reads3_15 true false 2 stage3_15 sem3_15
    hrank3 hreads3_15 hinb3_15 nbuf3_15 (Memref.isWhole_whole _) hwx3_15 hstage3_15

abbrev win3 : Fin 16 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | ⟨_ + 16, h⟩ => absurd h (Nat.not_lt.2 (Nat.le_add_left _ _))
abbrev spec3 : Fin 16 → Pipeline.WinSpec sig grid3.rank := fun w => (win3 w).toWinSpec

abbrev win4_0 : Pipeline.Window sig grid4 :=
  Pipeline.Window.ofSpec (Memref.whole main_v73) S4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S4096x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v91) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S64x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v92) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v93_0) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v93_1) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v73) S4096x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S4096x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v109) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v97) S64x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v110) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v93_0) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v93_1) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v111) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v112) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v105) S128x64.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v113) S1x64.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v114_0) S1x64.size cc5_transform_11 reads5_11 true true 1 stage5_11 sem5_11
    hrank5 hreads5_11 hinb5_11 nbuf5_11 (Memref.isWhole_whole _) hwx5_11 hstage5_11

abbrev win5_12 : Pipeline.Window sig grid5 :=
  Pipeline.Window.ofSpec (Memref.whole main_v114_1) S1x64.size cc5_transform_12 reads5_12 true true 1 stage5_12 sem5_12
    hrank5 hreads5_12 hinb5_12 nbuf5_12 (Memref.isWhole_whole _) hwx5_12 hstage5_12

abbrev win5 : Fin 13 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | ⟨_ + 13, h⟩ => absurd h (Nat.not_lt.2 (Nat.le_add_left _ _))
abbrev spec5 : Fin 13 → Pipeline.WinSpec sig grid5.rank := fun w => (win5 w).toWinSpec

abbrev idle5 : Fin 13 → grid5.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k5_cond2 i == 1#1) | 12 => fun i => !(k5_cond2 i == 1#1) | ⟨_ + 13, h⟩ => absurd h (Nat.not_lt.2 (Nat.le_add_left _ _))

abbrev win6_0 : Pipeline.Window sig grid6 :=
  Pipeline.Window.ofSpec (Memref.whole main_v73) S4096x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v83) S4096x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v134) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v118) S64x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v135) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v93_0) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v93_1) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v136) S1x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v137) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v126) S128x64.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v138) S1x64.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v114_0) S1x64.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v114_1) S1x64.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v139) S1x64.size cc6_transform_13 reads6_13 false true 1 stage6_13 sem6_13
    hrank6 hreads6_13 hinb6_13 nbuf6_13 (Memref.isWhole_whole _) hwx6_13 hstage6_13

abbrev win6_14 : Pipeline.Window sig grid6 :=
  Pipeline.Window.ofSpec (Memref.whole main_v140) S1x64.size cc6_transform_14 reads6_14 false true 1 stage6_14 sem6_14
    hrank6 hreads6_14 hinb6_14 nbuf6_14 (Memref.isWhole_whole _) hwx6_14 hstage6_14

abbrev win6_15 : Pipeline.Window sig grid6 :=
  Pipeline.Window.ofSpec (Memref.whole main_v141) S4096x64.size cc6_transform_15 reads6_15 true false 2 stage6_15 sem6_15
    hrank6 hreads6_15 hinb6_15 nbuf6_15 (Memref.isWhole_whole _) hwx6_15 hstage6_15

abbrev win6 : Fin 16 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | 14 => win6_14 | 15 => win6_15 | ⟨_ + 16, h⟩ => absurd h (Nat.not_lt.2 (Nat.le_add_left _ _))
abbrev spec6 : Fin 16 → Pipeline.WinSpec sig grid6.rank := fun w => (win6 w).toWinSpec

abbrev win7_0 : Pipeline.Window sig grid7 :=
  Pipeline.Window.ofSpec (Memref.whole main_v141) S4096x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v151) S4096x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v159) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v155) S64x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v160) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v161_0) S1x128.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v161_1) S1x128.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev idle7 : Fin 7 → grid7.Coords → Bool := fun | 0 => fun _ => false | 1 => fun _ => false | 2 => fun _ => false | 3 => fun _ => false | 4 => fun _ => false | 5 => fun i => !(k7_cond2 i == 1#1) | 6 => fun i => !(k7_cond2 i == 1#1) | ⟨_ + 7, h⟩ => absurd h (Nat.not_lt.2 (Nat.le_add_left _ _))

abbrev win8_0 : Pipeline.Window sig grid8 :=
  Pipeline.Window.ofSpec (Memref.whole main_v141) S4096x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v151) S4096x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v177) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v165) S64x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v178) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v161_0) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v161_1) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v179) S1x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v180) S1x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v173) S128x64.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v181) S1x64.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v182_0) S1x64.size cc8_transform_11 reads8_11 true true 1 stage8_11 sem8_11
    hrank8 hreads8_11 hinb8_11 nbuf8_11 (Memref.isWhole_whole _) hwx8_11 hstage8_11

abbrev win8_12 : Pipeline.Window sig grid8 :=
  Pipeline.Window.ofSpec (Memref.whole main_v182_1) S1x64.size cc8_transform_12 reads8_12 true true 1 stage8_12 sem8_12
    hrank8 hreads8_12 hinb8_12 nbuf8_12 (Memref.isWhole_whole _) hwx8_12 hstage8_12

abbrev win8 : Fin 13 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | ⟨_ + 13, h⟩ => absurd h (Nat.not_lt.2 (Nat.le_add_left _ _))
abbrev spec8 : Fin 13 → Pipeline.WinSpec sig grid8.rank := fun w => (win8 w).toWinSpec

abbrev idle8 : Fin 13 → grid8.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k8_cond2 i == 1#1) | 12 => fun i => !(k8_cond2 i == 1#1) | ⟨_ + 13, h⟩ => absurd h (Nat.not_lt.2 (Nat.le_add_left _ _))

abbrev win9_0 : Pipeline.Window sig grid9 :=
  Pipeline.Window.ofSpec (Memref.whole main_v141) S4096x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v151) S4096x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v202) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v186) S64x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v203) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v161_0) S1x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v161_1) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v204) S1x128.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v205) S1x128.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v194) S128x64.size cc9_transform_9 reads9_9 false true 1 stage9_9 sem9_9
    hrank9 hreads9_9 hinb9_9 nbuf9_9 (Memref.isWhole_whole _) hwx9_9 hstage9_9

abbrev win9_10 : Pipeline.Window sig grid9 :=
  Pipeline.Window.ofSpec (Memref.whole main_v206) S1x64.size cc9_transform_10 reads9_10 false true 1 stage9_10 sem9_10
    hrank9 hreads9_10 hinb9_10 nbuf9_10 (Memref.isWhole_whole _) hwx9_10 hstage9_10

abbrev win9_11 : Pipeline.Window sig grid9 :=
  Pipeline.Window.ofSpec (Memref.whole main_v182_0) S1x64.size cc9_transform_11 reads9_11 false true 1 stage9_11 sem9_11
    hrank9 hreads9_11 hinb9_11 nbuf9_11 (Memref.isWhole_whole _) hwx9_11 hstage9_11

abbrev win9_12 : Pipeline.Window sig grid9 :=
  Pipeline.Window.ofSpec (Memref.whole main_v182_1) S1x64.size cc9_transform_12 reads9_12 false true 1 stage9_12 sem9_12
    hrank9 hreads9_12 hinb9_12 nbuf9_12 (Memref.isWhole_whole _) hwx9_12 hstage9_12

abbrev win9_13 : Pipeline.Window sig grid9 :=
  Pipeline.Window.ofSpec (Memref.whole main_v207) S1x64.size cc9_transform_13 reads9_13 false true 1 stage9_13 sem9_13
    hrank9 hreads9_13 hinb9_13 nbuf9_13 (Memref.isWhole_whole _) hwx9_13 hstage9_13

abbrev win9_14 : Pipeline.Window sig grid9 :=
  Pipeline.Window.ofSpec (Memref.whole main_v208) S1x64.size cc9_transform_14 reads9_14 false true 1 stage9_14 sem9_14
    hrank9 hreads9_14 hinb9_14 nbuf9_14 (Memref.isWhole_whole _) hwx9_14 hstage9_14

abbrev win9_15 : Pipeline.Window sig grid9 :=
  Pipeline.Window.ofSpec (Memref.whole main_v209) S4096x64.size cc9_transform_15 reads9_15 true false 2 stage9_15 sem9_15
    hrank9 hreads9_15 hinb9_15 nbuf9_15 (Memref.isWhole_whole _) hwx9_15 hstage9_15

abbrev win9 : Fin 16 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | 11 => win9_11 | 12 => win9_12 | 13 => win9_13 | 14 => win9_14 | 15 => win9_15 | ⟨_ + 16, h⟩ => absurd h (Nat.not_lt.2 (Nat.le_add_left _ _))
abbrev spec9 : Fin 16 → Pipeline.WinSpec sig grid9.rank := fun w => (win9 w).toWinSpec

abbrev win10_0 : Pipeline.Window sig grid10 :=
  Pipeline.Window.ofSpec (Memref.whole main_v209) S4096x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v219) S4096x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v227) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v223) S64x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v228) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v229_0) S1x128.size cc10_transform_5 reads10_5 true true 1 stage10_5 sem10_5
    hrank10 hreads10_5 hinb10_5 nbuf10_5 (Memref.isWhole_whole _) hwx10_5 hstage10_5

abbrev win10_6 : Pipeline.Window sig grid10 :=
  Pipeline.Window.ofSpec (Memref.whole main_v229_1) S1x128.size cc10_transform_6 reads10_6 true true 1 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev idle10 : Fin 7 → grid10.Coords → Bool := fun | 0 => fun _ => false | 1 => fun _ => false | 2 => fun _ => false | 3 => fun _ => false | 4 => fun _ => false | 5 => fun i => !(k10_cond2 i == 1#1) | 6 => fun i => !(k10_cond2 i == 1#1) | ⟨_ + 7, h⟩ => absurd h (Nat.not_lt.2 (Nat.le_add_left _ _))

abbrev win11_0 : Pipeline.Window sig grid11 :=
  Pipeline.Window.ofSpec (Memref.whole main_v209) S4096x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v219) S4096x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v245) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v233) S64x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v246) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v229_0) S1x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v229_1) S1x128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v247) S1x128.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_v248) S1x128.size cc11_transform_8 reads11_8 false true 1 stage11_8 sem11_8
    hrank11 hreads11_8 hinb11_8 nbuf11_8 (Memref.isWhole_whole _) hwx11_8 hstage11_8

abbrev win11_9 : Pipeline.Window sig grid11 :=
  Pipeline.Window.ofSpec (Memref.whole main_v241) S128x64.size cc11_transform_9 reads11_9 false true 1 stage11_9 sem11_9
    hrank11 hreads11_9 hinb11_9 nbuf11_9 (Memref.isWhole_whole _) hwx11_9 hstage11_9

abbrev win11_10 : Pipeline.Window sig grid11 :=
  Pipeline.Window.ofSpec (Memref.whole main_v249) S1x64.size cc11_transform_10 reads11_10 false true 1 stage11_10 sem11_10
    hrank11 hreads11_10 hinb11_10 nbuf11_10 (Memref.isWhole_whole _) hwx11_10 hstage11_10

abbrev win11_11 : Pipeline.Window sig grid11 :=
  Pipeline.Window.ofSpec (Memref.whole main_v250_0) S1x64.size cc11_transform_11 reads11_11 true true 1 stage11_11 sem11_11
    hrank11 hreads11_11 hinb11_11 nbuf11_11 (Memref.isWhole_whole _) hwx11_11 hstage11_11

abbrev win11_12 : Pipeline.Window sig grid11 :=
  Pipeline.Window.ofSpec (Memref.whole main_v250_1) S1x64.size cc11_transform_12 reads11_12 true true 1 stage11_12 sem11_12
    hrank11 hreads11_12 hinb11_12 nbuf11_12 (Memref.isWhole_whole _) hwx11_12 hstage11_12

abbrev win11 : Fin 13 → Pipeline.Window sig grid11 := fun | 0 => win11_0 | 1 => win11_1 | 2 => win11_2 | 3 => win11_3 | 4 => win11_4 | 5 => win11_5 | 6 => win11_6 | 7 => win11_7 | 8 => win11_8 | 9 => win11_9 | 10 => win11_10 | 11 => win11_11 | 12 => win11_12 | ⟨_ + 13, h⟩ => absurd h (Nat.not_lt.2 (Nat.le_add_left _ _))
abbrev spec11 : Fin 13 → Pipeline.WinSpec sig grid11.rank := fun w => (win11 w).toWinSpec

abbrev idle11 : Fin 13 → grid11.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k11_cond2 i == 1#1) | 12 => fun i => !(k11_cond2 i == 1#1) | ⟨_ + 13, h⟩ => absurd h (Nat.not_lt.2 (Nat.le_add_left _ _))

abbrev win12_0 : Pipeline.Window sig grid12 :=
  Pipeline.Window.ofSpec (Memref.whole main_v209) S4096x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v219) S4096x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v270) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v254) S64x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v271) S1x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v229_0) S1x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v229_1) S1x128.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v272) S1x128.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_v273) S1x128.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v262) S128x64.size cc12_transform_9 reads12_9 false true 1 stage12_9 sem12_9
    hrank12 hreads12_9 hinb12_9 nbuf12_9 (Memref.isWhole_whole _) hwx12_9 hstage12_9

abbrev win12_10 : Pipeline.Window sig grid12 :=
  Pipeline.Window.ofSpec (Memref.whole main_v274) S1x64.size cc12_transform_10 reads12_10 false true 1 stage12_10 sem12_10
    hrank12 hreads12_10 hinb12_10 nbuf12_10 (Memref.isWhole_whole _) hwx12_10 hstage12_10

abbrev win12_11 : Pipeline.Window sig grid12 :=
  Pipeline.Window.ofSpec (Memref.whole main_v250_0) S1x64.size cc12_transform_11 reads12_11 false true 1 stage12_11 sem12_11
    hrank12 hreads12_11 hinb12_11 nbuf12_11 (Memref.isWhole_whole _) hwx12_11 hstage12_11

abbrev win12_12 : Pipeline.Window sig grid12 :=
  Pipeline.Window.ofSpec (Memref.whole main_v250_1) S1x64.size cc12_transform_12 reads12_12 false true 1 stage12_12 sem12_12
    hrank12 hreads12_12 hinb12_12 nbuf12_12 (Memref.isWhole_whole _) hwx12_12 hstage12_12

abbrev win12_13 : Pipeline.Window sig grid12 :=
  Pipeline.Window.ofSpec (Memref.whole main_v275) S1x64.size cc12_transform_13 reads12_13 false true 1 stage12_13 sem12_13
    hrank12 hreads12_13 hinb12_13 nbuf12_13 (Memref.isWhole_whole _) hwx12_13 hstage12_13

abbrev win12_14 : Pipeline.Window sig grid12 :=
  Pipeline.Window.ofSpec (Memref.whole main_v276) S1x64.size cc12_transform_14 reads12_14 false true 1 stage12_14 sem12_14
    hrank12 hreads12_14 hinb12_14 nbuf12_14 (Memref.isWhole_whole _) hwx12_14 hstage12_14

abbrev win12_15 : Pipeline.Window sig grid12 :=
  Pipeline.Window.ofSpec (Memref.whole main_v277) S4096x64.size cc12_transform_15 reads12_15 true false 2 stage12_15 sem12_15
    hrank12 hreads12_15 hinb12_15 nbuf12_15 (Memref.isWhole_whole _) hwx12_15 hstage12_15

abbrev win12 : Fin 16 → Pipeline.Window sig grid12 := fun | 0 => win12_0 | 1 => win12_1 | 2 => win12_2 | 3 => win12_3 | 4 => win12_4 | 5 => win12_5 | 6 => win12_6 | 7 => win12_7 | 8 => win12_8 | 9 => win12_9 | 10 => win12_10 | 11 => win12_11 | 12 => win12_12 | 13 => win12_13 | 14 => win12_14 | 15 => win12_15 | ⟨_ + 16, h⟩ => absurd h (Nat.not_lt.2 (Nat.le_add_left _ _))
abbrev spec12 : Fin 16 → Pipeline.WinSpec sig grid12.rank := fun w => (win12 w).toWinSpec

abbrev win13_0 : Pipeline.Window sig grid13 :=
  Pipeline.Window.ofSpec (Memref.whole main_v277) S4096x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg14) S64x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v278) S1x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v279) S4096x256.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

class Facts : Prop extends Facts₀ where

variable [Facts]
-- ==== ReferenceIdeal.lean ====
abbrev S2x1048576 : Shape := ⟨2, ![2, 1048576]⟩
abbrev S65536 : Shape := ⟨1, ![65536]⟩
abbrev S65536x1 : Shape := ⟨2, ![65536, 1]⟩
abbrev S1x64 : Shape := ⟨2, ![1, 64]⟩
abbrev S64 : Shape := ⟨1, ![64]⟩
abbrev S4 : Shape := ⟨1, ![4]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S64x256 : Shape := ⟨2, ![64, 256]⟩
abbrev S256 : Shape := ⟨1, ![256]⟩
abbrev S1x1048576 : Shape := ⟨2, ![1, 1048576]⟩
abbrev S1048576 : Shape := ⟨1, ![1048576]⟩
abbrev S65536x64 : Shape := ⟨2, ![65536, 64]⟩
abbrev S_ : Shape := ⟨0, ![]⟩
abbrev S1048576x1 : Shape := ⟨2, ![1048576, 1]⟩
abbrev S1048576x64 : Shape := ⟨2, ![1048576, 64]⟩
abbrev S1 : Shape := ⟨1, ![1]⟩
abbrev S1x64x128 : Shape := ⟨3, ![1, 64, 128]⟩
abbrev S64x128 : Shape := ⟨2, ![64, 128]⟩
abbrev S65536x128 : Shape := ⟨2, ![65536, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S65536x256 : Shape := ⟨2, ![65536, 256]⟩
abbrev S1x256 : Shape := ⟨2, ![1, 256]⟩
abbrev S16x4096x256 : Shape := ⟨3, ![16, 4096, 256]⟩

abbrev nBuf : Space → Nat
  | .hbm => 585
  | .vmem => 0
  | .smem => 0
  | _ => 0

abbrev hbmTy0_0 (i : Nat) : BufTy := match i % 128 with
  | 0 => ⟨S2x1048576, .i32⟩
  | 1 => ⟨S65536, .i32⟩
  | 2 => ⟨S65536x1, .f32⟩
  | 3 => ⟨S1x64, .f32⟩
  | 4 => ⟨S64, .f32⟩
  | 5 => ⟨S4, .f32⟩
  | 6 => ⟨S4x64x128, .f32⟩
  | 7 => ⟨S4x128, .f32⟩
  | 8 => ⟨S4x128, .f32⟩
  | 9 => ⟨S4x128, .f32⟩
  | 10 => ⟨S4x128x64, .f32⟩
  | 11 => ⟨S4x64, .f32⟩
  | 12 => ⟨S4x64, .f32⟩
  | 13 => ⟨S4x64, .f32⟩
  | 14 => ⟨S64x256, .f32⟩
  | 15 => ⟨S256, .f32⟩
  | 16 => ⟨S1x1048576, .i32⟩
  | 17 => ⟨S1048576, .i32⟩
  | 18 => ⟨S1x1048576, .i32⟩
  | 19 => ⟨S1048576, .i32⟩
  | 20 => ⟨S65536x64, .f32⟩
  | 21 => ⟨S1x64, .f32⟩
  | 22 => ⟨S65536x64, .f32⟩
  | 23 => ⟨S65536x64, .f32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i32⟩
  | 30 => ⟨S1048576, .i32⟩
  | 31 => ⟨S1048576x1, .i32⟩
  | 32 => ⟨S1048576x64, .f32⟩
  | 33 => ⟨S_, .f32⟩
  | 34 => ⟨S65536x64, .f32⟩
  | 35 => ⟨S1048576x1, .i32⟩
  | 36 => ⟨S65536x64, .f32⟩
  | 37 => ⟨S1, .f32⟩
  | 38 => ⟨S_, .f32⟩
  | 39 => ⟨S_, .f32⟩
  | 40 => ⟨S_, .f32⟩
  | 41 => ⟨S65536x64, .f32⟩
  | 42 => ⟨S65536x64, .f32⟩
  | 43 => ⟨S65536x64, .f32⟩
  | 44 => ⟨S1x64x128, .f32⟩
  | 45 => ⟨S64x128, .f32⟩
  | 46 => ⟨S65536x128, .f32⟩
  | 47 => ⟨S1x128, .f32⟩
  | 48 => ⟨S128, .f32⟩
  | 49 => ⟨S1x128, .f32⟩
  | 50 => ⟨S65536x128, .f32⟩
  | 51 => ⟨S65536x128, .f32⟩
  | 52 => ⟨S1x128, .f32⟩
  | 53 => ⟨S128, .f32⟩
  | 54 => ⟨S1x128, .f32⟩
  | 55 => ⟨S128, .f32⟩
  | 56 => ⟨S_, .f32⟩
  | 57 => ⟨S128, .f32⟩
  | 58 => ⟨S_, .f32⟩
  | 59 => ⟨S128, .f32⟩
  | 60 => ⟨S128, .f32⟩
  | 61 => ⟨S_, .i32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S65536x128, .f32⟩
  | 69 => ⟨S65536x128, .f32⟩
  | 70 => ⟨S65536x128, .f32⟩
  | 71 => ⟨S_, .f32⟩
  | 72 => ⟨S_, .f32⟩
  | 73 => ⟨S_, .f32⟩
  | 74 => ⟨S_, .f32⟩
  | 75 => ⟨S128, .f32⟩
  | 76 => ⟨S128, .f32⟩
  | 77 => ⟨S128, .f32⟩
  | 78 => ⟨S_, .f32⟩
  | 79 => ⟨S_, .i1⟩
  | 80 => ⟨S_, .f32⟩
  | 81 => ⟨S_, .f32⟩
  | 82 => ⟨S128, .f32⟩
  | 83 => ⟨S128, .f32⟩
  | 84 => ⟨S1x128, .f32⟩
  | 85 => ⟨S65536x128, .f32⟩
  | 86 => ⟨S65536x128, .f32⟩
  | 87 => ⟨S_, .f32⟩
  | 88 => ⟨S128, .f32⟩
  | 89 => ⟨S128, .f32⟩
  | 90 => ⟨S128, .f32⟩
  | 91 => ⟨S1x128, .f32⟩
  | 92 => ⟨S65536x128, .f32⟩
  | 93 => ⟨S65536x128, .f32⟩
  | 94 => ⟨S1x128, .f32⟩
  | 95 => ⟨S65536x128, .f32⟩
  | 96 => ⟨S65536x128, .f32⟩
  | 97 => ⟨S1x128, .f32⟩
  | 98 => ⟨S65536x128, .f32⟩
  | 99 => ⟨S65536x128, .f32⟩
  | 100 => ⟨S_, .f32⟩
  | 101 => ⟨S65536x128, .f32⟩
  | 102 => ⟨S65536x128, .f32⟩
  | 103 => ⟨S1x128x64, .f32⟩
  | 104 => ⟨S128x64, .f32⟩
  | 105 => ⟨S65536x64, .f32⟩
  | 106 => ⟨S1x64, .f32⟩
  | 107 => ⟨S64, .f32⟩
  | 108 => ⟨S1x64, .f32⟩
  | 109 => ⟨S65536x64, .f32⟩
  | 110 => ⟨S65536x64, .f32⟩
  | 111 => ⟨S1x64, .f32⟩
  | 112 => ⟨S64, .f32⟩
  | 113 => ⟨S1x64, .f32⟩
  | 114 => ⟨S64, .f32⟩
  | 115 => ⟨S_, .f32⟩
  | 116 => ⟨S64, .f32⟩
  | 117 => ⟨S_, .f32⟩
  | 118 => ⟨S64, .f32⟩
  | 119 => ⟨S64, .f32⟩
  | 120 => ⟨S_, .i32⟩
  | 121 => ⟨S_, .f32⟩
  | 122 => ⟨S64, .f32⟩
  | 123 => ⟨S1x64, .f32⟩
  | 124 => ⟨S_, .f32⟩
  | 125 => ⟨S1x64, .f32⟩
  | 126 => ⟨S1x64, .f32⟩
  | 127 => ⟨S65536x64, .f32⟩
  | _ => ⟨S2x1048576, .i32⟩

abbrev hbmTy0_1 (i : Nat) : BufTy := match i % 128 with
  | 0 => ⟨S65536x64, .f32⟩
  | 1 => ⟨S65536x64, .f32⟩
  | 2 => ⟨S_, .f32⟩
  | 3 => ⟨S_, .f32⟩
  | 4 => ⟨S_, .f32⟩
  | 5 => ⟨S_, .f32⟩
  | 6 => ⟨S64, .f32⟩
  | 7 => ⟨S64, .f32⟩
  | 8 => ⟨S64, .f32⟩
  | 9 => ⟨S_, .f32⟩
  | 10 => ⟨S_, .i1⟩
  | 11 => ⟨S_, .f32⟩
  | 12 => ⟨S_, .f32⟩
  | 13 => ⟨S64, .f32⟩
  | 14 => ⟨S64, .f32⟩
  | 15 => ⟨S1x64, .f32⟩
  | 16 => ⟨S65536x64, .f32⟩
  | 17 => ⟨S65536x64, .f32⟩
  | 18 => ⟨S_, .f32⟩
  | 19 => ⟨S64, .f32⟩
  | 20 => ⟨S64, .f32⟩
  | 21 => ⟨S64, .f32⟩
  | 22 => ⟨S1x64, .f32⟩
  | 23 => ⟨S65536x64, .f32⟩
  | 24 => ⟨S65536x64, .f32⟩
  | 25 => ⟨S1x64, .f32⟩
  | 26 => ⟨S65536x64, .f32⟩
  | 27 => ⟨S65536x64, .f32⟩
  | 28 => ⟨S1x64, .f32⟩
  | 29 => ⟨S65536x64, .f32⟩
  | 30 => ⟨S65536x64, .f32⟩
  | 31 => ⟨S_, .f32⟩
  | 32 => ⟨S65536x64, .f32⟩
  | 33 => ⟨S65536x64, .f32⟩
  | 34 => ⟨S65536x64, .f32⟩
  | 35 => ⟨S_, .i32⟩
  | 36 => ⟨S1048576, .i32⟩
  | 37 => ⟨S1048576, .i1⟩
  | 38 => ⟨S_, .i32⟩
  | 39 => ⟨S1048576, .i32⟩
  | 40 => ⟨S1048576, .i32⟩
  | 41 => ⟨S1048576, .i32⟩
  | 42 => ⟨S1048576x1, .i32⟩
  | 43 => ⟨S1048576x64, .f32⟩
  | 44 => ⟨S_, .f32⟩
  | 45 => ⟨S65536x64, .f32⟩
  | 46 => ⟨S1048576x1, .i32⟩
  | 47 => ⟨S65536x64, .f32⟩
  | 48 => ⟨S1, .f32⟩
  | 49 => ⟨S_, .f32⟩
  | 50 => ⟨S_, .f32⟩
  | 51 => ⟨S_, .f32⟩
  | 52 => ⟨S65536x64, .f32⟩
  | 53 => ⟨S65536x64, .f32⟩
  | 54 => ⟨S65536x64, .f32⟩
  | 55 => ⟨S1x64x128, .f32⟩
  | 56 => ⟨S64x128, .f32⟩
  | 57 => ⟨S65536x128, .f32⟩
  | 58 => ⟨S1x128, .f32⟩
  | 59 => ⟨S128, .f32⟩
  | 60 => ⟨S1x128, .f32⟩
  | 61 => ⟨S65536x128, .f32⟩
  | 62 => ⟨S65536x128, .f32⟩
  | 63 => ⟨S1x128, .f32⟩
  | 64 => ⟨S128, .f32⟩
  | 65 => ⟨S1x128, .f32⟩
  | 66 => ⟨S128, .f32⟩
  | 67 => ⟨S_, .f32⟩
  | 68 => ⟨S128, .f32⟩
  | 69 => ⟨S_, .f32⟩
  | 70 => ⟨S128, .f32⟩
  | 71 => ⟨S128, .f32⟩
  | 72 => ⟨S_, .i32⟩
  | 73 => ⟨S_, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S65536x128, .f32⟩
  | 80 => ⟨S65536x128, .f32⟩
  | 81 => ⟨S65536x128, .f32⟩
  | 82 => ⟨S_, .f32⟩
  | 83 => ⟨S_, .f32⟩
  | 84 => ⟨S_, .f32⟩
  | 85 => ⟨S_, .f32⟩
  | 86 => ⟨S128, .f32⟩
  | 87 => ⟨S128, .f32⟩
  | 88 => ⟨S128, .f32⟩
  | 89 => ⟨S_, .f32⟩
  | 90 => ⟨S_, .i1⟩
  | 91 => ⟨S_, .f32⟩
  | 92 => ⟨S_, .f32⟩
  | 93 => ⟨S128, .f32⟩
  | 94 => ⟨S128, .f32⟩
  | 95 => ⟨S1x128, .f32⟩
  | 96 => ⟨S65536x128, .f32⟩
  | 97 => ⟨S65536x128, .f32⟩
  | 98 => ⟨S_, .f32⟩
  | 99 => ⟨S128, .f32⟩
  | 100 => ⟨S128, .f32⟩
  | 101 => ⟨S128, .f32⟩
  | 102 => ⟨S1x128, .f32⟩
  | 103 => ⟨S65536x128, .f32⟩
  | 104 => ⟨S65536x128, .f32⟩
  | 105 => ⟨S1x128, .f32⟩
  | 106 => ⟨S65536x128, .f32⟩
  | 107 => ⟨S65536x128, .f32⟩
  | 108 => ⟨S1x128, .f32⟩
  | 109 => ⟨S65536x128, .f32⟩
  | 110 => ⟨S65536x128, .f32⟩
  | 111 => ⟨S_, .f32⟩
  | 112 => ⟨S65536x128, .f32⟩
  | 113 => ⟨S65536x128, .f32⟩
  | 114 => ⟨S1x128x64, .f32⟩
  | 115 => ⟨S128x64, .f32⟩
  | 116 => ⟨S65536x64, .f32⟩
  | 117 => ⟨S1x64, .f32⟩
  | 118 => ⟨S64, .f32⟩
  | 119 => ⟨S1x64, .f32⟩
  | 120 => ⟨S65536x64, .f32⟩
  | 121 => ⟨S65536x64, .f32⟩
  | 122 => ⟨S1x64, .f32⟩
  | 123 => ⟨S64, .f32⟩
  | 124 => ⟨S1x64, .f32⟩
  | 125 => ⟨S64, .f32⟩
  | 126 => ⟨S_, .f32⟩
  | 127 => ⟨S64, .f32⟩
  | _ => ⟨S2x1048576, .i32⟩

abbrev hbmTy0_2 (i : Nat) : BufTy := match i % 128 with
  | 0 => ⟨S_, .f32⟩
  | 1 => ⟨S64, .f32⟩
  | 2 => ⟨S64, .f32⟩
  | 3 => ⟨S_, .i32⟩
  | 4 => ⟨S_, .f32⟩
  | 5 => ⟨S64, .f32⟩
  | 6 => ⟨S1x64, .f32⟩
  | 7 => ⟨S_, .f32⟩
  | 8 => ⟨S1x64, .f32⟩
  | 9 => ⟨S1x64, .f32⟩
  | 10 => ⟨S65536x64, .f32⟩
  | 11 => ⟨S65536x64, .f32⟩
  | 12 => ⟨S65536x64, .f32⟩
  | 13 => ⟨S_, .f32⟩
  | 14 => ⟨S_, .f32⟩
  | 15 => ⟨S_, .f32⟩
  | 16 => ⟨S_, .f32⟩
  | 17 => ⟨S64, .f32⟩
  | 18 => ⟨S64, .f32⟩
  | 19 => ⟨S64, .f32⟩
  | 20 => ⟨S_, .f32⟩
  | 21 => ⟨S_, .i1⟩
  | 22 => ⟨S_, .f32⟩
  | 23 => ⟨S_, .f32⟩
  | 24 => ⟨S64, .f32⟩
  | 25 => ⟨S64, .f32⟩
  | 26 => ⟨S1x64, .f32⟩
  | 27 => ⟨S65536x64, .f32⟩
  | 28 => ⟨S65536x64, .f32⟩
  | 29 => ⟨S_, .f32⟩
  | 30 => ⟨S64, .f32⟩
  | 31 => ⟨S64, .f32⟩
  | 32 => ⟨S64, .f32⟩
  | 33 => ⟨S1x64, .f32⟩
  | 34 => ⟨S65536x64, .f32⟩
  | 35 => ⟨S65536x64, .f32⟩
  | 36 => ⟨S1x64, .f32⟩
  | 37 => ⟨S65536x64, .f32⟩
  | 38 => ⟨S65536x64, .f32⟩
  | 39 => ⟨S1x64, .f32⟩
  | 40 => ⟨S65536x64, .f32⟩
  | 41 => ⟨S65536x64, .f32⟩
  | 42 => ⟨S_, .f32⟩
  | 43 => ⟨S65536x64, .f32⟩
  | 44 => ⟨S65536x64, .f32⟩
  | 45 => ⟨S65536x64, .f32⟩
  | 46 => ⟨S_, .i32⟩
  | 47 => ⟨S1048576, .i32⟩
  | 48 => ⟨S1048576, .i1⟩
  | 49 => ⟨S_, .i32⟩
  | 50 => ⟨S1048576, .i32⟩
  | 51 => ⟨S1048576, .i32⟩
  | 52 => ⟨S1048576, .i32⟩
  | 53 => ⟨S1048576x1, .i32⟩
  | 54 => ⟨S1048576x64, .f32⟩
  | 55 => ⟨S_, .f32⟩
  | 56 => ⟨S65536x64, .f32⟩
  | 57 => ⟨S1048576x1, .i32⟩
  | 58 => ⟨S65536x64, .f32⟩
  | 59 => ⟨S1, .f32⟩
  | 60 => ⟨S_, .f32⟩
  | 61 => ⟨S_, .f32⟩
  | 62 => ⟨S_, .f32⟩
  | 63 => ⟨S65536x64, .f32⟩
  | 64 => ⟨S65536x64, .f32⟩
  | 65 => ⟨S65536x64, .f32⟩
  | 66 => ⟨S1x64x128, .f32⟩
  | 67 => ⟨S64x128, .f32⟩
  | 68 => ⟨S65536x128, .f32⟩
  | 69 => ⟨S1x128, .f32⟩
  | 70 => ⟨S128, .f32⟩
  | 71 => ⟨S1x128, .f32⟩
  | 72 => ⟨S65536x128, .f32⟩
  | 73 => ⟨S65536x128, .f32⟩
  | 74 => ⟨S1x128, .f32⟩
  | 75 => ⟨S128, .f32⟩
  | 76 => ⟨S1x128, .f32⟩
  | 77 => ⟨S128, .f32⟩
  | 78 => ⟨S_, .f32⟩
  | 79 => ⟨S128, .f32⟩
  | 80 => ⟨S_, .f32⟩
  | 81 => ⟨S128, .f32⟩
  | 82 => ⟨S128, .f32⟩
  | 83 => ⟨S_, .i32⟩
  | 84 => ⟨S_, .f32⟩
  | 85 => ⟨S128, .f32⟩
  | 86 => ⟨S1x128, .f32⟩
  | 87 => ⟨S_, .f32⟩
  | 88 => ⟨S1x128, .f32⟩
  | 89 => ⟨S1x128, .f32⟩
  | 90 => ⟨S65536x128, .f32⟩
  | 91 => ⟨S65536x128, .f32⟩
  | 92 => ⟨S65536x128, .f32⟩
  | 93 => ⟨S_, .f32⟩
  | 94 => ⟨S_, .f32⟩
  | 95 => ⟨S_, .f32⟩
  | 96 => ⟨S_, .f32⟩
  | 97 => ⟨S128, .f32⟩
  | 98 => ⟨S128, .f32⟩
  | 99 => ⟨S128, .f32⟩
  | 100 => ⟨S_, .f32⟩
  | 101 => ⟨S_, .i1⟩
  | 102 => ⟨S_, .f32⟩
  | 103 => ⟨S_, .f32⟩
  | 104 => ⟨S128, .f32⟩
  | 105 => ⟨S128, .f32⟩
  | 106 => ⟨S1x128, .f32⟩
  | 107 => ⟨S65536x128, .f32⟩
  | 108 => ⟨S65536x128, .f32⟩
  | 109 => ⟨S_, .f32⟩
  | 110 => ⟨S128, .f32⟩
  | 111 => ⟨S128, .f32⟩
  | 112 => ⟨S128, .f32⟩
  | 113 => ⟨S1x128, .f32⟩
  | 114 => ⟨S65536x128, .f32⟩
  | 115 => ⟨S65536x128, .f32⟩
  | 116 => ⟨S1x128, .f32⟩
  | 117 => ⟨S65536x128, .f32⟩
  | 118 => ⟨S65536x128, .f32⟩
  | 119 => ⟨S1x128, .f32⟩
  | 120 => ⟨S65536x128, .f32⟩
  | 121 => ⟨S65536x128, .f32⟩
  | 122 => ⟨S_, .f32⟩
  | 123 => ⟨S65536x128, .f32⟩
  | 124 => ⟨S65536x128, .f32⟩
  | 125 => ⟨S1x128x64, .f32⟩
  | 126 => ⟨S128x64, .f32⟩
  | 127 => ⟨S65536x64, .f32⟩
  | _ => ⟨S2x1048576, .i32⟩

abbrev hbmTy0_3 (i : Nat) : BufTy := match i % 128 with
  | 0 => ⟨S1x64, .f32⟩
  | 1 => ⟨S64, .f32⟩
  | 2 => ⟨S1x64, .f32⟩
  | 3 => ⟨S65536x64, .f32⟩
  | 4 => ⟨S65536x64, .f32⟩
  | 5 => ⟨S1x64, .f32⟩
  | 6 => ⟨S64, .f32⟩
  | 7 => ⟨S1x64, .f32⟩
  | 8 => ⟨S64, .f32⟩
  | 9 => ⟨S_, .f32⟩
  | 10 => ⟨S64, .f32⟩
  | 11 => ⟨S_, .f32⟩
  | 12 => ⟨S64, .f32⟩
  | 13 => ⟨S64, .f32⟩
  | 14 => ⟨S_, .i32⟩
  | 15 => ⟨S_, .f32⟩
  | 16 => ⟨S64, .f32⟩
  | 17 => ⟨S1x64, .f32⟩
  | 18 => ⟨S_, .f32⟩
  | 19 => ⟨S1x64, .f32⟩
  | 20 => ⟨S1x64, .f32⟩
  | 21 => ⟨S65536x64, .f32⟩
  | 22 => ⟨S65536x64, .f32⟩
  | 23 => ⟨S65536x64, .f32⟩
  | 24 => ⟨S_, .f32⟩
  | 25 => ⟨S_, .f32⟩
  | 26 => ⟨S_, .f32⟩
  | 27 => ⟨S_, .f32⟩
  | 28 => ⟨S64, .f32⟩
  | 29 => ⟨S64, .f32⟩
  | 30 => ⟨S64, .f32⟩
  | 31 => ⟨S_, .f32⟩
  | 32 => ⟨S_, .i1⟩
  | 33 => ⟨S_, .f32⟩
  | 34 => ⟨S_, .f32⟩
  | 35 => ⟨S64, .f32⟩
  | 36 => ⟨S64, .f32⟩
  | 37 => ⟨S1x64, .f32⟩
  | 38 => ⟨S65536x64, .f32⟩
  | 39 => ⟨S65536x64, .f32⟩
  | 40 => ⟨S_, .f32⟩
  | 41 => ⟨S64, .f32⟩
  | 42 => ⟨S64, .f32⟩
  | 43 => ⟨S64, .f32⟩
  | 44 => ⟨S1x64, .f32⟩
  | 45 => ⟨S65536x64, .f32⟩
  | 46 => ⟨S65536x64, .f32⟩
  | 47 => ⟨S1x64, .f32⟩
  | 48 => ⟨S65536x64, .f32⟩
  | 49 => ⟨S65536x64, .f32⟩
  | 50 => ⟨S1x64, .f32⟩
  | 51 => ⟨S65536x64, .f32⟩
  | 52 => ⟨S65536x64, .f32⟩
  | 53 => ⟨S_, .f32⟩
  | 54 => ⟨S65536x64, .f32⟩
  | 55 => ⟨S65536x64, .f32⟩
  | 56 => ⟨S65536x64, .f32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i32⟩
  | 63 => ⟨S1048576, .i32⟩
  | 64 => ⟨S1048576x1, .i32⟩
  | 65 => ⟨S1048576x64, .f32⟩
  | 66 => ⟨S_, .f32⟩
  | 67 => ⟨S65536x64, .f32⟩
  | 68 => ⟨S1048576x1, .i32⟩
  | 69 => ⟨S65536x64, .f32⟩
  | 70 => ⟨S1, .f32⟩
  | 71 => ⟨S_, .f32⟩
  | 72 => ⟨S_, .f32⟩
  | 73 => ⟨S_, .f32⟩
  | 74 => ⟨S65536x64, .f32⟩
  | 75 => ⟨S65536x64, .f32⟩
  | 76 => ⟨S65536x64, .f32⟩
  | 77 => ⟨S1x64x128, .f32⟩
  | 78 => ⟨S64x128, .f32⟩
  | 79 => ⟨S65536x128, .f32⟩
  | 80 => ⟨S1x128, .f32⟩
  | 81 => ⟨S128, .f32⟩
  | 82 => ⟨S1x128, .f32⟩
  | 83 => ⟨S65536x128, .f32⟩
  | 84 => ⟨S65536x128, .f32⟩
  | 85 => ⟨S1x128, .f32⟩
  | 86 => ⟨S128, .f32⟩
  | 87 => ⟨S1x128, .f32⟩
  | 88 => ⟨S128, .f32⟩
  | 89 => ⟨S_, .f32⟩
  | 90 => ⟨S128, .f32⟩
  | 91 => ⟨S_, .f32⟩
  | 92 => ⟨S128, .f32⟩
  | 93 => ⟨S128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S65536x128, .f32⟩
  | 102 => ⟨S65536x128, .f32⟩
  | 103 => ⟨S65536x128, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S1x128, .f32⟩
  | 118 => ⟨S65536x128, .f32⟩
  | 119 => ⟨S65536x128, .f32⟩
  | 120 => ⟨S_, .f32⟩
  | 121 => ⟨S128, .f32⟩
  | 122 => ⟨S128, .f32⟩
  | 123 => ⟨S128, .f32⟩
  | 124 => ⟨S1x128, .f32⟩
  | 125 => ⟨S65536x128, .f32⟩
  | 126 => ⟨S65536x128, .f32⟩
  | 127 => ⟨S1x128, .f32⟩
  | _ => ⟨S2x1048576, .i32⟩

abbrev hbmTy0_4 (i : Nat) : BufTy := match i % 128 with
  | 0 => ⟨S65536x128, .f32⟩
  | 1 => ⟨S65536x128, .f32⟩
  | 2 => ⟨S1x128, .f32⟩
  | 3 => ⟨S65536x128, .f32⟩
  | 4 => ⟨S65536x128, .f32⟩
  | 5 => ⟨S_, .f32⟩
  | 6 => ⟨S65536x128, .f32⟩
  | 7 => ⟨S65536x128, .f32⟩
  | 8 => ⟨S1x128x64, .f32⟩
  | 9 => ⟨S128x64, .f32⟩
  | 10 => ⟨S65536x64, .f32⟩
  | 11 => ⟨S1x64, .f32⟩
  | 12 => ⟨S64, .f32⟩
  | 13 => ⟨S1x64, .f32⟩
  | 14 => ⟨S65536x64, .f32⟩
  | 15 => ⟨S65536x64, .f32⟩
  | 16 => ⟨S1x64, .f32⟩
  | 17 => ⟨S64, .f32⟩
  | 18 => ⟨S1x64, .f32⟩
  | 19 => ⟨S64, .f32⟩
  | 20 => ⟨S_, .f32⟩
  | 21 => ⟨S64, .f32⟩
  | 22 => ⟨S_, .f32⟩
  | 23 => ⟨S64, .f32⟩
  | 24 => ⟨S64, .f32⟩
  | 25 => ⟨S_, .i32⟩
  | 26 => ⟨S_, .f32⟩
  | 27 => ⟨S64, .f32⟩
  | 28 => ⟨S1x64, .f32⟩
  | 29 => ⟨S_, .f32⟩
  | 30 => ⟨S1x64, .f32⟩
  | 31 => ⟨S1x64, .f32⟩
  | 32 => ⟨S65536x64, .f32⟩
  | 33 => ⟨S65536x64, .f32⟩
  | 34 => ⟨S65536x64, .f32⟩
  | 35 => ⟨S_, .f32⟩
  | 36 => ⟨S_, .f32⟩
  | 37 => ⟨S_, .f32⟩
  | 38 => ⟨S_, .f32⟩
  | 39 => ⟨S64, .f32⟩
  | 40 => ⟨S64, .f32⟩
  | 41 => ⟨S64, .f32⟩
  | 42 => ⟨S_, .f32⟩
  | 43 => ⟨S_, .i1⟩
  | 44 => ⟨S_, .f32⟩
  | 45 => ⟨S_, .f32⟩
  | 46 => ⟨S64, .f32⟩
  | 47 => ⟨S64, .f32⟩
  | 48 => ⟨S1x64, .f32⟩
  | 49 => ⟨S65536x64, .f32⟩
  | 50 => ⟨S65536x64, .f32⟩
  | 51 => ⟨S_, .f32⟩
  | 52 => ⟨S64, .f32⟩
  | 53 => ⟨S64, .f32⟩
  | 54 => ⟨S64, .f32⟩
  | 55 => ⟨S1x64, .f32⟩
  | 56 => ⟨S65536x64, .f32⟩
  | 57 => ⟨S65536x64, .f32⟩
  | 58 => ⟨S1x64, .f32⟩
  | 59 => ⟨S65536x64, .f32⟩
  | 60 => ⟨S65536x64, .f32⟩
  | 61 => ⟨S1x64, .f32⟩
  | 62 => ⟨S65536x64, .f32⟩
  | 63 => ⟨S65536x64, .f32⟩
  | 64 => ⟨S_, .f32⟩
  | 65 => ⟨S65536x64, .f32⟩
  | 66 => ⟨S65536x64, .f32⟩
  | 67 => ⟨S65536x64, .f32⟩
  | 68 => ⟨S65536x256, .f32⟩
  | 69 => ⟨S1x256, .f32⟩
  | 70 => ⟨S65536x256, .f32⟩
  | 71 => ⟨S65536x256, .f32⟩
  | 72 => ⟨S16x4096x256, .f32⟩
  | _ => ⟨S2x1048576, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x1048576, .i32⟩

abbrev bufTy : (tb : Table) → Fin (tcTables nBuf tb) → BufTy
  | .hbm, ⟨i, _⟩ => hbmTy i
  | _, _ => ⟨S2x1048576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_2 : Ref sig .tc := ⟨.hbm, 56, rfl⟩
abbrev main_v36 : Ref sig .tc := ⟨.hbm, 57, rfl⟩
abbrev main_cst_3 : Ref sig .tc := ⟨.hbm, 58, rfl⟩
abbrev main_v37 : Ref sig .tc := ⟨.hbm, 59, rfl⟩
abbrev main_v38 : Ref sig .tc := ⟨.hbm, 60, rfl⟩
abbrev main_c_4 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_cst_0 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_cst_1 : Ref sig .tc := ⟨.hbm, 72, rfl⟩
abbrev main_call0_v8 : Ref sig .tc := ⟨.hbm, 73, rfl⟩
abbrev main_call0_cst_2 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_cst_3 : Ref sig .tc := ⟨.hbm, 78, rfl⟩
abbrev main_call0_v12 : Ref sig .tc := ⟨.hbm, 79, rfl⟩
abbrev main_call0_cst_4 : Ref sig .tc := ⟨.hbm, 80, rfl⟩
abbrev main_call0_call0_v0 : Ref sig .tc := ⟨.hbm, 81, rfl⟩
abbrev main_call0_call0_v1 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_5 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_call1_cst : Ref sig .tc := ⟨.hbm, 100, rfl⟩
abbrev main_call1_v0 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_6 : Ref sig .tc := ⟨.hbm, 115, rfl⟩
abbrev main_v68 : Ref sig .tc := ⟨.hbm, 116, rfl⟩
abbrev main_cst_7 : Ref sig .tc := ⟨.hbm, 117, rfl⟩
abbrev main_v69 : Ref sig .tc := ⟨.hbm, 118, rfl⟩
abbrev main_v70 : Ref sig .tc := ⟨.hbm, 119, rfl⟩
abbrev main_c_8 : Ref sig .tc := ⟨.hbm, 120, rfl⟩
abbrev main_call2_cst : Ref sig .tc := ⟨.hbm, 121, rfl⟩
abbrev main_call2_v0 : Ref sig .tc := ⟨.hbm, 122, rfl⟩
abbrev main_call2_v1 : Ref sig .tc := ⟨.hbm, 123, rfl⟩
abbrev main_call2_cst_0 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_call2_v5 : Ref sig .tc := ⟨.hbm, 128, rfl⟩
abbrev main_call2_v6 : Ref sig .tc := ⟨.hbm, 129, rfl⟩
abbrev main_call2_v7 : Ref sig .tc := ⟨.hbm, 130, rfl⟩
abbrev main_call2_cst_1 : Ref sig .tc := ⟨.hbm, 131, rfl⟩
abbrev main_call2_v8 : Ref sig .tc := ⟨.hbm, 132, rfl⟩
abbrev main_call2_cst_2 : Ref sig .tc := ⟨.hbm, 133, rfl⟩
abbrev main_call2_v9 : Ref sig .tc := ⟨.hbm, 134, rfl⟩
abbrev main_call2_v10 : Ref sig .tc := ⟨.hbm, 135, rfl⟩
abbrev main_call2_v11 : Ref sig .tc := ⟨.hbm, 136, rfl⟩
abbrev main_call2_cst_3 : Ref sig .tc := ⟨.hbm, 137, rfl⟩
abbrev main_call2_v12 : Ref sig .tc := ⟨.hbm, 138, rfl⟩
abbrev main_call2_cst_4 : Ref sig .tc := ⟨.hbm, 139, rfl⟩
abbrev main_call2_call0_v0 : Ref sig .tc := ⟨.hbm, 140, rfl⟩
abbrev main_call2_call0_v1 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_cst_9 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_call3_cst : Ref sig .tc := ⟨.hbm, 159, rfl⟩
abbrev main_call3_v0 : Ref sig .tc := ⟨.hbm, 160, rfl⟩
abbrev main_v87 : Ref sig .tc := ⟨.hbm, 161, rfl⟩
abbrev main_v88 : Ref sig .tc := ⟨.hbm, 162, rfl⟩
abbrev main_c_10 : Ref sig .tc := ⟨.hbm, 163, rfl⟩
abbrev main_v89 : Ref sig .tc := ⟨.hbm, 164, rfl⟩
abbrev main_v90 : Ref sig .tc := ⟨.hbm, 165, rfl⟩
abbrev main_c_11 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_cst_12 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_cst_13 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_cst_14 : Ref sig .tc := ⟨.hbm, 195, rfl⟩
abbrev main_v117 : Ref sig .tc := ⟨.hbm, 196, rfl⟩
abbrev main_cst_15 : Ref sig .tc := ⟨.hbm, 197, rfl⟩
abbrev main_v118 : Ref sig .tc := ⟨.hbm, 198, rfl⟩
abbrev main_v119 : Ref sig .tc := ⟨.hbm, 199, rfl⟩
abbrev main_c_16 : Ref sig .tc := ⟨.hbm, 200, rfl⟩
abbrev main_call4_cst : Ref sig .tc := ⟨.hbm, 201, rfl⟩
abbrev main_call4_v0 : Ref sig .tc := ⟨.hbm, 202, rfl⟩
abbrev main_call4_v1 : Ref sig .tc := ⟨.hbm, 203, rfl⟩
abbrev main_call4_cst_0 : Ref sig .tc := ⟨.hbm, 204, rfl⟩
abbrev main_call4_v2 : Ref sig .tc := ⟨.hbm, 205, rfl⟩
abbrev main_call4_v3 : Ref sig .tc := ⟨.hbm, 206, rfl⟩
abbrev main_call4_v4 : Ref sig .tc := ⟨.hbm, 207, rfl⟩
abbrev main_call4_v5 : Ref sig .tc := ⟨.hbm, 208, rfl⟩
abbrev main_call4_v6 : Ref sig .tc := ⟨.hbm, 209, rfl⟩
abbrev main_call4_v7 : Ref sig .tc := ⟨.hbm, 210, rfl⟩
abbrev main_call4_cst_1 : Ref sig .tc := ⟨.hbm, 211, rfl⟩
abbrev main_call4_v8 : Ref sig .tc := ⟨.hbm, 212, rfl⟩
abbrev main_call4_cst_2 : Ref sig .tc := ⟨.hbm, 213, rfl⟩
abbrev main_call4_v9 : Ref sig .tc := ⟨.hbm, 214, rfl⟩
abbrev main_call4_v10 : Ref sig .tc := ⟨.hbm, 215, rfl⟩
abbrev main_call4_v11 : Ref sig .tc := ⟨.hbm, 216, rfl⟩
abbrev main_call4_cst_3 : Ref sig .tc := ⟨.hbm, 217, rfl⟩
abbrev main_call4_v12 : Ref sig .tc := ⟨.hbm, 218, rfl⟩
abbrev main_call4_cst_4 : Ref sig .tc := ⟨.hbm, 219, rfl⟩
abbrev main_call4_call0_v0 : Ref sig .tc := ⟨.hbm, 220, rfl⟩
abbrev main_call4_call0_v1 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_v123 : Ref sig .tc := ⟨.hbm, 225, rfl⟩
abbrev main_cst_17 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_call5_cst : Ref sig .tc := ⟨.hbm, 239, rfl⟩
abbrev main_call5_v0 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_cst_18 : Ref sig .tc := ⟨.hbm, 254, rfl⟩
abbrev main_v149 : Ref sig .tc := ⟨.hbm, 255, rfl⟩
abbrev main_cst_19 : Ref sig .tc := ⟨.hbm, 256, rfl⟩
abbrev main_v150 : Ref sig .tc := ⟨.hbm, 257, rfl⟩
abbrev main_v151 : Ref sig .tc := ⟨.hbm, 258, rfl⟩
abbrev main_c_20 : Ref sig .tc := ⟨.hbm, 259, rfl⟩
abbrev main_call6_cst : Ref sig .tc := ⟨.hbm, 260, rfl⟩
abbrev main_call6_v0 : Ref sig .tc := ⟨.hbm, 261, rfl⟩
abbrev main_call6_v1 : Ref sig .tc := ⟨.hbm, 262, rfl⟩
abbrev main_call6_cst_0 : Ref sig .tc := ⟨.hbm, 263, rfl⟩
abbrev main_call6_v2 : Ref sig .tc := ⟨.hbm, 264, rfl⟩
abbrev main_call6_v3 : Ref sig .tc := ⟨.hbm, 265, rfl⟩
abbrev main_call6_v4 : Ref sig .tc := ⟨.hbm, 266, rfl⟩
abbrev main_call6_v5 : Ref sig .tc := ⟨.hbm, 267, rfl⟩
abbrev main_call6_v6 : Ref sig .tc := ⟨.hbm, 268, rfl⟩
abbrev main_call6_v7 : Ref sig .tc := ⟨.hbm, 269, rfl⟩
abbrev main_call6_cst_1 : Ref sig .tc := ⟨.hbm, 270, rfl⟩
abbrev main_call6_v8 : Ref sig .tc := ⟨.hbm, 271, rfl⟩
abbrev main_call6_cst_2 : Ref sig .tc := ⟨.hbm, 272, rfl⟩
abbrev main_call6_v9 : Ref sig .tc := ⟨.hbm, 273, rfl⟩
abbrev main_call6_v10 : Ref sig .tc := ⟨.hbm, 274, rfl⟩
abbrev main_call6_v11 : Ref sig .tc := ⟨.hbm, 275, rfl⟩
abbrev main_call6_cst_3 : Ref sig .tc := ⟨.hbm, 276, rfl⟩
abbrev main_call6_v12 : Ref sig .tc := ⟨.hbm, 277, rfl⟩
abbrev main_call6_cst_4 : Ref sig .tc := ⟨.hbm, 278, rfl⟩
abbrev main_call6_call0_v0 : Ref sig .tc := ⟨.hbm, 279, rfl⟩
abbrev main_call6_call0_v1 : Ref sig .tc := ⟨.hbm, 280, rfl⟩
abbrev main_v152 : Ref sig .tc := ⟨.hbm, 281, rfl⟩
abbrev main_v153 : Ref sig .tc := ⟨.hbm, 282, rfl⟩
abbrev main_v154 : Ref sig .tc := ⟨.hbm, 283, rfl⟩
abbrev main_v155 : Ref sig .tc := ⟨.hbm, 284, rfl⟩
abbrev main_cst_21 : Ref sig .tc := ⟨.hbm, 285, rfl⟩
abbrev main_v156 : Ref sig .tc := ⟨.hbm, 286, rfl⟩
abbrev main_v157 : Ref sig .tc := ⟨.hbm, 287, rfl⟩
abbrev main_v158 : Ref sig .tc := ⟨.hbm, 288, rfl⟩
abbrev main_v159 : Ref sig .tc := ⟨.hbm, 289, rfl⟩
abbrev main_v160 : Ref sig .tc := ⟨.hbm, 290, rfl⟩
abbrev main_v161 : Ref sig .tc := ⟨.hbm, 291, rfl⟩
abbrev main_v162 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_v167 : Ref sig .tc := ⟨.hbm, 297, rfl⟩
abbrev main_call7_cst : Ref sig .tc := ⟨.hbm, 298, rfl⟩
abbrev main_call7_v0 : Ref sig .tc := ⟨.hbm, 299, rfl⟩
abbrev main_v168 : Ref sig .tc := ⟨.hbm, 300, rfl⟩
abbrev main_v169 : Ref sig .tc := ⟨.hbm, 301, rfl⟩
abbrev main_c_22 : Ref sig .tc := ⟨.hbm, 302, rfl⟩
abbrev main_v170 : Ref sig .tc := ⟨.hbm, 303, rfl⟩
abbrev main_v171 : Ref sig .tc := ⟨.hbm, 304, rfl⟩
abbrev main_c_23 : Ref sig .tc := ⟨.hbm, 305, rfl⟩
abbrev main_v172 : Ref sig .tc := ⟨.hbm, 306, rfl⟩
abbrev main_v173 : Ref sig .tc := ⟨.hbm, 307, rfl⟩
abbrev main_v174 : Ref sig .tc := ⟨.hbm, 308, rfl⟩
abbrev main_v175 : Ref sig .tc := ⟨.hbm, 309, rfl⟩
abbrev main_v176 : Ref sig .tc := ⟨.hbm, 310, rfl⟩
abbrev main_cst_24 : Ref sig .tc := ⟨.hbm, 311, rfl⟩
abbrev main_v177 : Ref sig .tc := ⟨.hbm, 312, rfl⟩
abbrev main_v178 : Ref sig .tc := ⟨.hbm, 313, rfl⟩
abbrev main_v179 : Ref sig .tc := ⟨.hbm, 314, rfl⟩
abbrev main_v180 : Ref sig .tc := ⟨.hbm, 315, rfl⟩
abbrev main_v181 : Ref sig .tc := ⟨.hbm, 316, rfl⟩
abbrev main_cst_25 : Ref sig .tc := ⟨.hbm, 317, rfl⟩
abbrev main_v182 : Ref sig .tc := ⟨.hbm, 318, rfl⟩
abbrev main_v183 : Ref sig .tc := ⟨.hbm, 319, rfl⟩
abbrev main_v184 : Ref sig .tc := ⟨.hbm, 320, rfl⟩
abbrev main_v185 : Ref sig .tc := ⟨.hbm, 321, rfl⟩
abbrev main_v186 : Ref sig .tc := ⟨.hbm, 322, rfl⟩
abbrev main_v187 : Ref sig .tc := ⟨.hbm, 323, rfl⟩
abbrev main_v188 : Ref sig .tc := ⟨.hbm, 324, rfl⟩
abbrev main_v189 : Ref sig .tc := ⟨.hbm, 325, rfl⟩
abbrev main_v190 : Ref sig .tc := ⟨.hbm, 326, rfl⟩
abbrev main_v191 : Ref sig .tc := ⟨.hbm, 327, rfl⟩
abbrev main_v192 : Ref sig .tc := ⟨.hbm, 328, rfl⟩
abbrev main_v193 : Ref sig .tc := ⟨.hbm, 329, rfl⟩
abbrev main_v194 : Ref sig .tc := ⟨.hbm, 330, rfl⟩
abbrev main_v195 : Ref sig .tc := ⟨.hbm, 331, rfl⟩
abbrev main_v196 : Ref sig .tc := ⟨.hbm, 332, rfl⟩
abbrev main_v197 : Ref sig .tc := ⟨.hbm, 333, rfl⟩
abbrev main_cst_26 : Ref sig .tc := ⟨.hbm, 334, rfl⟩
abbrev main_v198 : Ref sig .tc := ⟨.hbm, 335, rfl⟩
abbrev main_cst_27 : Ref sig .tc := ⟨.hbm, 336, rfl⟩
abbrev main_v199 : Ref sig .tc := ⟨.hbm, 337, rfl⟩
abbrev main_v200 : Ref sig .tc := ⟨.hbm, 338, rfl⟩
abbrev main_c_28 : Ref sig .tc := ⟨.hbm, 339, rfl⟩
abbrev main_call8_cst : Ref sig .tc := ⟨.hbm, 340, rfl⟩
abbrev main_call8_v0 : Ref sig .tc := ⟨.hbm, 341, rfl⟩
abbrev main_call8_v1 : Ref sig .tc := ⟨.hbm, 342, rfl⟩
abbrev main_call8_cst_0 : Ref sig .tc := ⟨.hbm, 343, rfl⟩
abbrev main_call8_v2 : Ref sig .tc := ⟨.hbm, 344, rfl⟩
abbrev main_call8_v3 : Ref sig .tc := ⟨.hbm, 345, rfl⟩
abbrev main_call8_v4 : Ref sig .tc := ⟨.hbm, 346, rfl⟩
abbrev main_call8_v5 : Ref sig .tc := ⟨.hbm, 347, rfl⟩
abbrev main_call8_v6 : Ref sig .tc := ⟨.hbm, 348, rfl⟩
abbrev main_call8_v7 : Ref sig .tc := ⟨.hbm, 349, rfl⟩
abbrev main_call8_cst_1 : Ref sig .tc := ⟨.hbm, 350, rfl⟩
abbrev main_call8_v8 : Ref sig .tc := ⟨.hbm, 351, rfl⟩
abbrev main_call8_cst_2 : Ref sig .tc := ⟨.hbm, 352, rfl⟩
abbrev main_call8_v9 : Ref sig .tc := ⟨.hbm, 353, rfl⟩
abbrev main_call8_v10 : Ref sig .tc := ⟨.hbm, 354, rfl⟩
abbrev main_call8_v11 : Ref sig .tc := ⟨.hbm, 355, rfl⟩
abbrev main_call8_cst_3 : Ref sig .tc := ⟨.hbm, 356, rfl⟩
abbrev main_call8_v12 : Ref sig .tc := ⟨.hbm, 357, rfl⟩
abbrev main_call8_cst_4 : Ref sig .tc := ⟨.hbm, 358, rfl⟩
abbrev main_call8_call0_v0 : Ref sig .tc := ⟨.hbm, 359, rfl⟩
abbrev main_call8_call0_v1 : Ref sig .tc := ⟨.hbm, 360, rfl⟩
abbrev main_v201 : Ref sig .tc := ⟨.hbm, 361, rfl⟩
abbrev main_v202 : Ref sig .tc := ⟨.hbm, 362, rfl⟩
abbrev main_v203 : Ref sig .tc := ⟨.hbm, 363, rfl⟩
abbrev main_v204 : Ref sig .tc := ⟨.hbm, 364, rfl⟩
abbrev main_cst_29 : Ref sig .tc := ⟨.hbm, 365, rfl⟩
abbrev main_v205 : Ref sig .tc := ⟨.hbm, 366, rfl⟩
abbrev main_v206 : Ref sig .tc := ⟨.hbm, 367, rfl⟩
abbrev main_v207 : Ref sig .tc := ⟨.hbm, 368, rfl⟩
abbrev main_v208 : Ref sig .tc := ⟨.hbm, 369, rfl⟩
abbrev main_v209 : Ref sig .tc := ⟨.hbm, 370, rfl⟩
abbrev main_v210 : Ref sig .tc := ⟨.hbm, 371, rfl⟩
abbrev main_v211 : Ref sig .tc := ⟨.hbm, 372, rfl⟩
abbrev main_v212 : Ref sig .tc := ⟨.hbm, 373, rfl⟩
abbrev main_v213 : Ref sig .tc := ⟨.hbm, 374, rfl⟩
abbrev main_v214 : Ref sig .tc := ⟨.hbm, 375, rfl⟩
abbrev main_v215 : Ref sig .tc := ⟨.hbm, 376, rfl⟩
abbrev main_v216 : Ref sig .tc := ⟨.hbm, 377, rfl⟩
abbrev main_call9_cst : Ref sig .tc := ⟨.hbm, 378, rfl⟩
abbrev main_call9_v0 : Ref sig .tc := ⟨.hbm, 379, rfl⟩
abbrev main_v217 : Ref sig .tc := ⟨.hbm, 380, rfl⟩
abbrev main_v218 : Ref sig .tc := ⟨.hbm, 381, rfl⟩
abbrev main_v219 : Ref sig .tc := ⟨.hbm, 382, rfl⟩
abbrev main_v220 : Ref sig .tc := ⟨.hbm, 383, rfl⟩
abbrev main_v221 : Ref sig .tc := ⟨.hbm, 384, rfl⟩
abbrev main_v222 : Ref sig .tc := ⟨.hbm, 385, rfl⟩
abbrev main_v223 : Ref sig .tc := ⟨.hbm, 386, rfl⟩
abbrev main_v224 : Ref sig .tc := ⟨.hbm, 387, rfl⟩
abbrev main_v225 : Ref sig .tc := ⟨.hbm, 388, rfl⟩
abbrev main_v226 : Ref sig .tc := ⟨.hbm, 389, rfl⟩
abbrev main_v227 : Ref sig .tc := ⟨.hbm, 390, rfl⟩
abbrev main_v228 : Ref sig .tc := ⟨.hbm, 391, rfl⟩
abbrev main_v229 : Ref sig .tc := ⟨.hbm, 392, rfl⟩
abbrev main_cst_30 : Ref sig .tc := ⟨.hbm, 393, rfl⟩
abbrev main_v230 : Ref sig .tc := ⟨.hbm, 394, rfl⟩
abbrev main_cst_31 : Ref sig .tc := ⟨.hbm, 395, rfl⟩
abbrev main_v231 : Ref sig .tc := ⟨.hbm, 396, rfl⟩
abbrev main_v232 : Ref sig .tc := ⟨.hbm, 397, rfl⟩
abbrev main_c_32 : Ref sig .tc := ⟨.hbm, 398, rfl⟩
abbrev main_call10_cst : Ref sig .tc := ⟨.hbm, 399, rfl⟩
abbrev main_call10_v0 : Ref sig .tc := ⟨.hbm, 400, rfl⟩
abbrev main_call10_v1 : Ref sig .tc := ⟨.hbm, 401, rfl⟩
abbrev main_call10_cst_0 : Ref sig .tc := ⟨.hbm, 402, rfl⟩
abbrev main_call10_v2 : Ref sig .tc := ⟨.hbm, 403, rfl⟩
abbrev main_call10_v3 : Ref sig .tc := ⟨.hbm, 404, rfl⟩
abbrev main_call10_v4 : Ref sig .tc := ⟨.hbm, 405, rfl⟩
abbrev main_call10_v5 : Ref sig .tc := ⟨.hbm, 406, rfl⟩
abbrev main_call10_v6 : Ref sig .tc := ⟨.hbm, 407, rfl⟩
abbrev main_call10_v7 : Ref sig .tc := ⟨.hbm, 408, rfl⟩
abbrev main_call10_cst_1 : Ref sig .tc := ⟨.hbm, 409, rfl⟩
abbrev main_call10_v8 : Ref sig .tc := ⟨.hbm, 410, rfl⟩
abbrev main_call10_cst_2 : Ref sig .tc := ⟨.hbm, 411, rfl⟩
abbrev main_call10_v9 : Ref sig .tc := ⟨.hbm, 412, rfl⟩
abbrev main_call10_v10 : Ref sig .tc := ⟨.hbm, 413, rfl⟩
abbrev main_call10_v11 : Ref sig .tc := ⟨.hbm, 414, rfl⟩
abbrev main_call10_cst_3 : Ref sig .tc := ⟨.hbm, 415, rfl⟩
abbrev main_call10_v12 : Ref sig .tc := ⟨.hbm, 416, rfl⟩
abbrev main_call10_cst_4 : Ref sig .tc := ⟨.hbm, 417, rfl⟩
abbrev main_call10_call0_v0 : Ref sig .tc := ⟨.hbm, 418, rfl⟩
abbrev main_call10_call0_v1 : Ref sig .tc := ⟨.hbm, 419, rfl⟩
abbrev main_v233 : Ref sig .tc := ⟨.hbm, 420, rfl⟩
abbrev main_v234 : Ref sig .tc := ⟨.hbm, 421, rfl⟩
abbrev main_v235 : Ref sig .tc := ⟨.hbm, 422, rfl⟩
abbrev main_v236 : Ref sig .tc := ⟨.hbm, 423, rfl⟩
abbrev main_cst_33 : Ref sig .tc := ⟨.hbm, 424, rfl⟩
abbrev main_v237 : Ref sig .tc := ⟨.hbm, 425, rfl⟩
abbrev main_v238 : Ref sig .tc := ⟨.hbm, 426, rfl⟩
abbrev main_v239 : Ref sig .tc := ⟨.hbm, 427, rfl⟩
abbrev main_v240 : Ref sig .tc := ⟨.hbm, 428, rfl⟩
abbrev main_v241 : Ref sig .tc := ⟨.hbm, 429, rfl⟩
abbrev main_v242 : Ref sig .tc := ⟨.hbm, 430, rfl⟩
abbrev main_v243 : Ref sig .tc := ⟨.hbm, 431, rfl⟩
abbrev main_v244 : Ref sig .tc := ⟨.hbm, 432, rfl⟩
abbrev main_v245 : Ref sig .tc := ⟨.hbm, 433, rfl⟩
abbrev main_v246 : Ref sig .tc := ⟨.hbm, 434, rfl⟩
abbrev main_v247 : Ref sig .tc := ⟨.hbm, 435, rfl⟩
abbrev main_v248 : Ref sig .tc := ⟨.hbm, 436, rfl⟩
abbrev main_call11_cst : Ref sig .tc := ⟨.hbm, 437, rfl⟩
abbrev main_call11_v0 : Ref sig .tc := ⟨.hbm, 438, rfl⟩
abbrev main_v249 : Ref sig .tc := ⟨.hbm, 439, rfl⟩
abbrev main_v250 : Ref sig .tc := ⟨.hbm, 440, rfl⟩
abbrev main_c_34 : Ref sig .tc := ⟨.hbm, 441, rfl⟩
abbrev main_v251 : Ref sig .tc := ⟨.hbm, 442, rfl⟩
abbrev main_v252 : Ref sig .tc := ⟨.hbm, 443, rfl⟩
abbrev main_c_35 : Ref sig .tc := ⟨.hbm, 444, rfl⟩
abbrev main_v253 : Ref sig .tc := ⟨.hbm, 445, rfl⟩
abbrev main_v254 : Ref sig .tc := ⟨.hbm, 446, rfl⟩
abbrev main_v255 : Ref sig .tc := ⟨.hbm, 447, rfl⟩
abbrev main_v256 : Ref sig .tc := ⟨.hbm, 448, rfl⟩
abbrev main_v257 : Ref sig .tc := ⟨.hbm, 449, rfl⟩
abbrev main_cst_36 : Ref sig .tc := ⟨.hbm, 450, rfl⟩
abbrev main_v258 : Ref sig .tc := ⟨.hbm, 451, rfl⟩
abbrev main_v259 : Ref sig .tc := ⟨.hbm, 452, rfl⟩
abbrev main_v260 : Ref sig .tc := ⟨.hbm, 453, rfl⟩
abbrev main_v261 : Ref sig .tc := ⟨.hbm, 454, rfl⟩
abbrev main_v262 : Ref sig .tc := ⟨.hbm, 455, rfl⟩
abbrev main_cst_37 : Ref sig .tc := ⟨.hbm, 456, rfl⟩
abbrev main_v263 : Ref sig .tc := ⟨.hbm, 457, rfl⟩
abbrev main_v264 : Ref sig .tc := ⟨.hbm, 458, rfl⟩
abbrev main_v265 : Ref sig .tc := ⟨.hbm, 459, rfl⟩
abbrev main_v266 : Ref sig .tc := ⟨.hbm, 460, rfl⟩
abbrev main_v267 : Ref sig .tc := ⟨.hbm, 461, rfl⟩
abbrev main_v268 : Ref sig .tc := ⟨.hbm, 462, rfl⟩
abbrev main_v269 : Ref sig .tc := ⟨.hbm, 463, rfl⟩
abbrev main_v270 : Ref sig .tc := ⟨.hbm, 464, rfl⟩
abbrev main_v271 : Ref sig .tc := ⟨.hbm, 465, rfl⟩
abbrev main_v272 : Ref sig .tc := ⟨.hbm, 466, rfl⟩
abbrev main_v273 : Ref sig .tc := ⟨.hbm, 467, rfl⟩
abbrev main_v274 : Ref sig .tc := ⟨.hbm, 468, rfl⟩
abbrev main_v275 : Ref sig .tc := ⟨.hbm, 469, rfl⟩
abbrev main_v276 : Ref sig .tc := ⟨.hbm, 470, rfl⟩
abbrev main_v277 : Ref sig .tc := ⟨.hbm, 471, rfl⟩
abbrev main_v278 : Ref sig .tc := ⟨.hbm, 472, rfl⟩
abbrev main_cst_38 : Ref sig .tc := ⟨.hbm, 473, rfl⟩
abbrev main_v279 : Ref sig .tc := ⟨.hbm, 474, rfl⟩
abbrev main_cst_39 : Ref sig .tc := ⟨.hbm, 475, rfl⟩
abbrev main_v280 : Ref sig .tc := ⟨.hbm, 476, rfl⟩
abbrev main_v281 : Ref sig .tc := ⟨.hbm, 477, rfl⟩
abbrev main_c_40 : Ref sig .tc := ⟨.hbm, 478, rfl⟩
abbrev main_call12_cst : Ref sig .tc := ⟨.hbm, 479, rfl⟩
abbrev main_call12_v0 : Ref sig .tc := ⟨.hbm, 480, rfl⟩
abbrev main_call12_v1 : Ref sig .tc := ⟨.hbm, 481, rfl⟩
abbrev main_call12_cst_0 : Ref sig .tc := ⟨.hbm, 482, rfl⟩
abbrev main_call12_v2 : Ref sig .tc := ⟨.hbm, 483, rfl⟩
abbrev main_call12_v3 : Ref sig .tc := ⟨.hbm, 484, rfl⟩
abbrev main_call12_v4 : Ref sig .tc := ⟨.hbm, 485, rfl⟩
abbrev main_call12_v5 : Ref sig .tc := ⟨.hbm, 486, rfl⟩
abbrev main_call12_v6 : Ref sig .tc := ⟨.hbm, 487, rfl⟩
abbrev main_call12_v7 : Ref sig .tc := ⟨.hbm, 488, rfl⟩
abbrev main_call12_cst_1 : Ref sig .tc := ⟨.hbm, 489, rfl⟩
abbrev main_call12_v8 : Ref sig .tc := ⟨.hbm, 490, rfl⟩
abbrev main_call12_cst_2 : Ref sig .tc := ⟨.hbm, 491, rfl⟩
abbrev main_call12_v9 : Ref sig .tc := ⟨.hbm, 492, rfl⟩
abbrev main_call12_v10 : Ref sig .tc := ⟨.hbm, 493, rfl⟩
abbrev main_call12_v11 : Ref sig .tc := ⟨.hbm, 494, rfl⟩
abbrev main_call12_cst_3 : Ref sig .tc := ⟨.hbm, 495, rfl⟩
abbrev main_call12_v12 : Ref sig .tc := ⟨.hbm, 496, rfl⟩
abbrev main_call12_cst_4 : Ref sig .tc := ⟨.hbm, 497, rfl⟩
abbrev main_call12_call0_v0 : Ref sig .tc := ⟨.hbm, 498, rfl⟩
abbrev main_call12_call0_v1 : Ref sig .tc := ⟨.hbm, 499, rfl⟩
abbrev main_v282 : Ref sig .tc := ⟨.hbm, 500, rfl⟩
abbrev main_v283 : Ref sig .tc := ⟨.hbm, 501, rfl⟩
abbrev main_v284 : Ref sig .tc := ⟨.hbm, 502, rfl⟩
abbrev main_v285 : Ref sig .tc := ⟨.hbm, 503, rfl⟩
abbrev main_cst_41 : Ref sig .tc := ⟨.hbm, 504, rfl⟩
abbrev main_v286 : Ref sig .tc := ⟨.hbm, 505, rfl⟩
abbrev main_v287 : Ref sig .tc := ⟨.hbm, 506, rfl⟩
abbrev main_v288 : Ref sig .tc := ⟨.hbm, 507, rfl⟩
abbrev main_v289 : Ref sig .tc := ⟨.hbm, 508, rfl⟩
abbrev main_v290 : Ref sig .tc := ⟨.hbm, 509, rfl⟩
abbrev main_v291 : Ref sig .tc := ⟨.hbm, 510, rfl⟩
abbrev main_v292 : Ref sig .tc := ⟨.hbm, 511, rfl⟩
abbrev main_v293 : Ref sig .tc := ⟨.hbm, 512, rfl⟩
abbrev main_v294 : Ref sig .tc := ⟨.hbm, 513, rfl⟩
abbrev main_v295 : Ref sig .tc := ⟨.hbm, 514, rfl⟩
abbrev main_v296 : Ref sig .tc := ⟨.hbm, 515, rfl⟩
abbrev main_v297 : Ref sig .tc := ⟨.hbm, 516, rfl⟩
abbrev main_call13_cst : Ref sig .tc := ⟨.hbm, 517, rfl⟩
abbrev main_call13_v0 : Ref sig .tc := ⟨.hbm, 518, rfl⟩
abbrev main_v298 : Ref sig .tc := ⟨.hbm, 519, rfl⟩
abbrev main_v299 : Ref sig .tc := ⟨.hbm, 520, rfl⟩
abbrev main_v300 : Ref sig .tc := ⟨.hbm, 521, rfl⟩
abbrev main_v301 : Ref sig .tc := ⟨.hbm, 522, rfl⟩
abbrev main_v302 : Ref sig .tc := ⟨.hbm, 523, rfl⟩
abbrev main_v303 : Ref sig .tc := ⟨.hbm, 524, rfl⟩
abbrev main_v304 : Ref sig .tc := ⟨.hbm, 525, rfl⟩
abbrev main_v305 : Ref sig .tc := ⟨.hbm, 526, rfl⟩
abbrev main_v306 : Ref sig .tc := ⟨.hbm, 527, rfl⟩
abbrev main_v307 : Ref sig .tc := ⟨.hbm, 528, rfl⟩
abbrev main_v308 : Ref sig .tc := ⟨.hbm, 529, rfl⟩
abbrev main_v309 : Ref sig .tc := ⟨.hbm, 530, rfl⟩
abbrev main_v310 : Ref sig .tc := ⟨.hbm, 531, rfl⟩
abbrev main_cst_42 : Ref sig .tc := ⟨.hbm, 532, rfl⟩
abbrev main_v311 : Ref sig .tc := ⟨.hbm, 533, rfl⟩
abbrev main_cst_43 : Ref sig .tc := ⟨.hbm, 534, rfl⟩
abbrev main_v312 : Ref sig .tc := ⟨.hbm, 535, rfl⟩
abbrev main_v313 : Ref sig .tc := ⟨.hbm, 536, rfl⟩
abbrev main_c_44 : Ref sig .tc := ⟨.hbm, 537, rfl⟩
abbrev main_call14_cst : Ref sig .tc := ⟨.hbm, 538, rfl⟩
abbrev main_call14_v0 : Ref sig .tc := ⟨.hbm, 539, rfl⟩
abbrev main_call14_v1 : Ref sig .tc := ⟨.hbm, 540, rfl⟩
abbrev main_call14_cst_0 : Ref sig .tc := ⟨.hbm, 541, rfl⟩
abbrev main_call14_v2 : Ref sig .tc := ⟨.hbm, 542, rfl⟩
abbrev main_call14_v3 : Ref sig .tc := ⟨.hbm, 543, rfl⟩
abbrev main_call14_v4 : Ref sig .tc := ⟨.hbm, 544, rfl⟩
abbrev main_call14_v5 : Ref sig .tc := ⟨.hbm, 545, rfl⟩
abbrev main_call14_v6 : Ref sig .tc := ⟨.hbm, 546, rfl⟩
abbrev main_call14_v7 : Ref sig .tc := ⟨.hbm, 547, rfl⟩
abbrev main_call14_cst_1 : Ref sig .tc := ⟨.hbm, 548, rfl⟩
abbrev main_call14_v8 : Ref sig .tc := ⟨.hbm, 549, rfl⟩
abbrev main_call14_cst_2 : Ref sig .tc := ⟨.hbm, 550, rfl⟩
abbrev main_call14_v9 : Ref sig .tc := ⟨.hbm, 551, rfl⟩
abbrev main_call14_v10 : Ref sig .tc := ⟨.hbm, 552, rfl⟩
abbrev main_call14_v11 : Ref sig .tc := ⟨.hbm, 553, rfl⟩
abbrev main_call14_cst_3 : Ref sig .tc := ⟨.hbm, 554, rfl⟩
abbrev main_call14_v12 : Ref sig .tc := ⟨.hbm, 555, rfl⟩
abbrev main_call14_cst_4 : Ref sig .tc := ⟨.hbm, 556, rfl⟩
abbrev main_call14_call0_v0 : Ref sig .tc := ⟨.hbm, 557, rfl⟩
abbrev main_call14_call0_v1 : Ref sig .tc := ⟨.hbm, 558, rfl⟩
abbrev main_v314 : Ref sig .tc := ⟨.hbm, 559, rfl⟩
abbrev main_v315 : Ref sig .tc := ⟨.hbm, 560, rfl⟩
abbrev main_v316 : Ref sig .tc := ⟨.hbm, 561, rfl⟩
abbrev main_v317 : Ref sig .tc := ⟨.hbm, 562, rfl⟩
abbrev main_cst_45 : Ref sig .tc := ⟨.hbm, 563, rfl⟩
abbrev main_v318 : Ref sig .tc := ⟨.hbm, 564, rfl⟩
abbrev main_v319 : Ref sig .tc := ⟨.hbm, 565, rfl⟩
abbrev main_v320 : Ref sig .tc := ⟨.hbm, 566, rfl⟩
abbrev main_v321 : Ref sig .tc := ⟨.hbm, 567, rfl⟩
abbrev main_v322 : Ref sig .tc := ⟨.hbm, 568, rfl⟩
abbrev main_v323 : Ref sig .tc := ⟨.hbm, 569, rfl⟩
abbrev main_v324 : Ref sig .tc := ⟨.hbm, 570, rfl⟩
abbrev main_v325 : Ref sig .tc := ⟨.hbm, 571, rfl⟩
abbrev main_v326 : Ref sig .tc := ⟨.hbm, 572, rfl⟩
abbrev main_v327 : Ref sig .tc := ⟨.hbm, 573, rfl⟩
abbrev main_v328 : Ref sig .tc := ⟨.hbm, 574, rfl⟩
abbrev main_v329 : Ref sig .tc := ⟨.hbm, 575, rfl⟩
abbrev main_call15_cst : Ref sig .tc := ⟨.hbm, 576, rfl⟩
abbrev main_call15_v0 : Ref sig .tc := ⟨.hbm, 577, rfl⟩
abbrev main_v330 : Ref sig .tc := ⟨.hbm, 578, rfl⟩
abbrev main_v331 : Ref sig .tc := ⟨.hbm, 579, rfl⟩
abbrev main_v332 : Ref sig .tc := ⟨.hbm, 580, rfl⟩
abbrev main_v333 : Ref sig .tc := ⟨.hbm, 581, rfl⟩
abbrev main_v334 : Ref sig .tc := ⟨.hbm, 582, rfl⟩
abbrev main_v335 : Ref sig .tc := ⟨.hbm, 583, rfl⟩
abbrev main_v336 : Ref sig .tc := ⟨.hbm, 584, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x64 : S_.BroadcastsInDim S65536x64 (![] : Fin 0 → Fin S65536x64.rank)
  slices_S4_S1_0 : S4.Slices ![0] S1
  shapeCasts_S1_S_ : S1.ShapeCasts S_
  slices_S4x64x128_S1x64x128_0_0_0 : S4x64x128.Slices ![0, 0, 0] S1x64x128
  shapeCasts_S1x64x128_S64x128 : S1x64x128.ShapeCasts S64x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  reducesTo_S65536x128_S128_d0 : S65536x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S65536x128 : S_.BroadcastsInDim S65536x128 (![] : Fin 0 → Fin S65536x128.rank)
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  reducesTo_S65536x64_S64_d0 : S65536x64.ReducesTo [0] S64
  bcast_S_S64 : S_.BroadcastsInDim S64 (![] : Fin 0 → Fin S64.rank)
  bcast_S_S1x64 : S_.BroadcastsInDim S1x64 (![] : Fin 0 → Fin S1x64.rank)
  slices_S4_S1_1 : S4.Slices ![1] S1
  slices_S4x64x128_S1x64x128_1_0_0 : S4x64x128.Slices ![1, 0, 0] S1x64x128
  slices_S4x128_S1x128_1_0 : S4x128.Slices ![1, 0] S1x128
  slices_S4x128x64_S1x128x64_1_0_0 : S4x128x64.Slices ![1, 0, 0] S1x128x64
  slices_S4x64_S1x64_1_0 : S4x64.Slices ![1, 0] S1x64
  slices_S4_S1_2 : S4.Slices ![2] S1
  slices_S4x64x128_S1x64x128_2_0_0 : S4x64x128.Slices ![2, 0, 0] S1x64x128
  slices_S4x128_S1x128_2_0 : S4x128.Slices ![2, 0] S1x128
  slices_S4x128x64_S1x128x64_2_0_0 : S4x128x64.Slices ![2, 0, 0] S1x128x64
  slices_S4x64_S1x64_2_0 : S4x64.Slices ![2, 0] S1x64
  slices_S4_S1_3 : S4.Slices ![3] S1
  slices_S4x64x128_S1x64x128_3_0_0 : S4x64x128.Slices ![3, 0, 0] S1x64x128
  slices_S4x128_S1x128_3_0 : S4x128.Slices ![3, 0] S1x128
  slices_S4x128x64_S1x128x64_3_0_0 : S4x128x64.Slices ![3, 0, 0] S1x128x64
  slices_S4x64_S1x64_3_0 : S4x64.Slices ![3, 0] S1x64
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  shapeCasts_S65536x256_S16x4096x256 : S65536x256.ShapeCasts S16x4096x256
  dot_S65536x1_S1x64_S65536x64_1_0_0_1_n_n_wf : DotDims.WF S65536x1 S1x64 S65536x64 [1] [0] [0] [1] [] []
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S65536x64_S64x128_S65536x128_1_0_0_1_n_n_wf : DotDims.WF S65536x64 S64x128 S65536x128 [1] [0] [0] [1] [] []
  dot_S65536x128_S128x64_S65536x64_1_0_0_1_n_n_wf : DotDims.WF S65536x128 S128x64 S65536x64 [1] [0] [0] [1] [] []
  dot_S65536x64_S64x256_S65536x256_1_0_0_1_n_n_wf : DotDims.WF S65536x64 S64x256 S65536x256 [1] [0] [0] [1] [] []

variable [Facts₀]

def dot_S65536x1_S1x64_S65536x64_1_0_0_1_n_n : DotDims S65536x1 S1x64 S65536x64 where
  lhsContracting := [1]
  rhsContracting := [0]
  lhsNonContracting := [0]
  rhsNonContracting := [1]
  lhsBatch := []
  rhsBatch := []
  wf := dot_S65536x1_S1x64_S65536x64_1_0_0_1_n_n_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x256_S65536x256_1_0_0_1_n_n : DotDims S65536x64 S64x256 S65536x256 where
  lhsContracting := [1]
  rhsContracting := [0]
  lhsNonContracting := [0]
  rhsNonContracting := [1]
  lhsBatch := []
  rhsBatch := []
  wf := dot_S65536x64_S64x256_S65536x256_1_0_0_1_n_n_wf

class Facts : Prop extends Facts₀ where

variable [Facts]
-- ==== Proof.KB.Reg0.lean ====
import proofs.«159011_j9938554322955_1_alg».proof.Proof.Gen.Kernel.Launch
import proofs.«159011_j9938554322955_1_alg».proof.Proof.Gen.Kernel.Skeleton
import proofs.«159011_j9938554322955_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

-- membership in a rectangle of long extents: the structural check recurses once per coordinate of the long axes
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The embedding region: out = x · W + b on blocks of 8192 rows, at the entry contents V -/

/-- Window w's block at point t, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

noncomputable abbrev r0_x : Rect S8192x1 := Rect.unit (s := S8192x1) ![0, 0] S8192x1.size inb_S8192x1_S8192x1_0_0
noncomputable abbrev r0_w : Rect S1x64 := Rect.unit (s := S1x64) ![0, 0] S1x64.size inb_S1x64_S1x64_0_0
noncomputable abbrev r0_o : Rect S8192x64 := Rect.unit (s := S8192x64) ![0, 0] S8192x64.size inb_S8192x64_S8192x64_0_0

/-! ## What the body leaves in the output window's buffer -/

/-- The output block after the body, from the three input blocks: its one store, whose payload is x · W + b. -/
noncomputable def out0_3 (x0 : Vec F S8192x1 .f32) (x1 : Vec F S1x64 .f32) (x2 : Vec F S1x64 .f32) : Vec F S8192x64 .f32 :=
  View.canon [⟨r0_o, k0_pay1 (View.ld x0 r0_x) (View.ld x1 r0_w) (View.ld x2 r0_w)⟩]

/-- The one store covers the buffer. -/
theorem cover0_3 (p0 : Vec F S8192x64 .f32) (y : S8192x64.Idx) :
    ∃ pc ∈ ([⟨r0_o, p0⟩] : List (View.Piece (Elt F) S8192x64 .f32)), y ∈ pc.1.set :=
  View.cover_of_tiled [⟨r0_o, p0⟩] S8192x64.size (by rfl) y

/-! ## The body's triple -/

set_option maxHeartbeats 1000000 in
/-- The kernel body on whole staging memrefs, the inputs' at read contents and the output's at anything, runs to the
    continuation holding the inputs' as they were and the output's at out0_3 of the inputs'. -/
theorem sound_kernel0 (c : Dev nD) (E : Set ℕ) (i : grid0.Coords)
    (arg1 : Memref sig .tc .vmem S8192x1 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S8192x64 .f32) (harg4 : arg4.IsWhole)
    (x0 : Vec F S8192x1 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data on core c: the arrays as the region finds them; after the body at point t each input's buffer at its
    block and the output's at out0_3 of the input blocks; the invariant the scoped rest and the generator register,
    untouched; nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

theorem phi_in0 (c : Dev nD) :
    (iprop((∃ r, prngReg c r) ∗ Pipeline.scopedRest (Ix := Unit) (Name := ℕ) (U := UR sig nD τ) (Lvl := ℕ) (Val := Elt F) spec0 c) : sProp 𝕄)
      ⊢ (dat0 V c).Φ 0 := by
  show _ ⊢ Pipeline.ΦA spec0 c
  unfold Pipeline.ΦA
  iintro ⟨Hr, Hs⟩
  isplitl [Hs]; · iexact Hs
  iexact Hr

theorem phi_out0 (c : Dev nD) :
    (dat0 V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := by
  show Pipeline.ΦA spec0 c ⊢ _
  unfold Pipeline.ΦA
  iintro ⟨Hs, Hr⟩
  isplitl [Hr]; · iexact Hr
  iexact Hs

/-! ## The output array after the region, as one function of the entry arrays -/

open Idealize.ShloMosaic.ValueIdx

theorem hz0 : (![0, 0] : Fin 2 → Nat) = fun _ => 0 := funext fun a => by fin_cases a <;> rfl

/-- Rows 8192·q to 8192·q + 8191 of the node column, as a block. -/
noncomputable def rows0 (X : S65536x1.Idx → Elt F .f32) (q : Fin 8) : Vec F S8192x1 .f32 :=
  fun y => X (ix2 (⟨8192 * q.val + (y 0).val, by have h0 := idx2_lt0 y; have hq := q.isLt; omega⟩ : Fin 65536)
    (⟨(y 1).val, idx2_lt1 y⟩ : Fin 1))

/-- What the output array ends holding: at row r, the body's payload of the block of 8192 rows containing r and of
    the weight and bias rows, read at r's place in the block. -/
noncomputable def G0_3 (X : S65536x1.Idx → Elt F .f32) (W B : S1x64.Idx → Elt F .f32) : S65536x64.Idx → Elt F .f32 :=
  fun i => k0_pay1 (rows0 X ⟨(i 0).val / 8192, by have h0 := idx2_lt0 i; omega⟩) W B
    (ix2 (⟨(i 0).val % 8192, Nat.mod_lt _ (by decide)⟩ : Fin 8192) (⟨(i 1).val, idx2_lt1 i⟩ : Fin 64))

/-- At a row inside block q the closed form is the payload of block q. -/
theorem G0_3_block (X : S65536x1.Idx → Elt F .f32) (W B : S1x64.Idx → Elt F .f32) (q : Fin 8) (p : Fin 8192) (k : Fin 64)
    (h : 8192 * q.val + p.val < 65536) :
    G0_3 X W B (ix2 (⟨8192 * q.val + p.val, h⟩ : Fin 65536) k) = k0_pay1 (rows0 X q) W B (ix2 p k) := by
  have hq := q.isLt
  have hp := p.isLt
  have e1 : ∀ h1, (⟨(8192 * q.val + p.val) / 8192, h1⟩ : Fin 8) = q := fun _ => Fin.ext (by show (8192 * q.val + p.val) / 8192 = q.val; omega)
  have e2 : ∀ h2, (⟨(8192 * q.val + p.val) % 8192, h2⟩ : Fin 8192) = p := fun _ => Fin.ext (by show (8192 * q.val + p.val) % 8192 = p.val; omega)
  show k0_pay1 (rows0 X ⟨(8192 * q.val + p.val) / 8192, _⟩) W B (ix2 (⟨(8192 * q.val + p.val) % 8192, _⟩ : Fin 8192) (⟨k.val, _⟩ : Fin 64)) = _
  rw [e1, e2]

/-- The printed index maps, decided over the grid: the node column and the output move together, one block of 8192
    rows per point; the weight and bias rows stay at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the closed form of the entry arrays. -/
theorem flushed0_3_eq (c : Dev nD) (t : Fin cfg0.N) :
    (dat0 V c).flushed 3 t
      = ((cfg0.win 3).blk t).view.read (Elt F) (G0_3 (V c main_arg2) (V c main_arg3) (V c main_v4)) := by
  show (cfg0.win 3).cut (grid0.coords t) ((dat0 V c).after 3 t) = _
  rw [after0_3]
  unfold out0_3
  rw [View.canon_unit_zero hz0]
  simp only [View.ld_unit_zero (S := S8192x1) hz0, View.ld_unit_zero (S := S1x64) hz0]
  obtain ⟨e00, e01, e10, e11, e20, e21, e30, e31⟩ := idx_facts0 t
  have ht : t.val < 8 := lt_of_lt_of_eq t.isLt N_0
  -- the node column's block at t is rows 8192·t …; the weight and bias blocks are their whole rows
  have hx : iblk0 V c 0 t = rows0 (V c main_arg2) ⟨t.val, ht⟩ := by
    funext y
    show V c main_arg2 (((cfg0.win 0).blk t).view.emb y) = V c main_arg2 _
    congr 1
    funext a; apply Fin.ext
    match a with
    | ⟨0, _⟩ => show win0_0.index t (0 : Fin 2) * 8192 + 1 * (y 0).val = 8192 * t.val + (y 0).val; omega
    | ⟨1, _⟩ => show win0_0.index t (1 : Fin 2) * 1 + 1 * (y 1).val = (y 1).val; omega
  have hw : iblk0 V c 1 t = V c main_arg3 := by
    funext y
    show V c main_arg3 (((cfg0.win 1).blk t).view.emb y) = V c main_arg3 y
    congr 1
    funext a; apply Fin.ext
    match a with
    | ⟨0, _⟩ => show win0_1.index t (0 : Fin 2) * 1 + 1 * (y 0).val = (y 0).val; omega
    | ⟨1, _⟩ => show win0_1.index t (1 : Fin 2) * 64 + 1 * (y 1).val = (y 1).val; omega
  have hb : iblk0 V c 2 t = V c main_v4 := by
    funext y
    show V c main_v4 (((cfg0.win 2).blk t).view.emb y) = V c main_v4 y
    congr 1
    funext a; apply Fin.ext
    match a with
    | ⟨0, _⟩ => show win0_2.index t (0 : Fin 2) * 1 + 1 * (y 0).val = (y 0).val; omega
    | ⟨1, _⟩ => show win0_2.index t (1 : Fin 2) * 64 + 1 * (y 1).val = (y 1).val; omega
  rw [hx, hw, hb]
  funext j
  have hj0 : (j 0).val < 8192 := (j 0).isLt
  have hj1 : (j 1).val < 64 := (j 1).isLt
  have hrow : 8192 * t.val + (j 0).val < 65536 := by omega
  have hemb : ((cfg0.win 3).blk t).view.emb j
      = ix2 (⟨8192 * t.val + (j 0).val, hrow⟩ : Fin 65536) (⟨(j 1).val, hj1⟩ : Fin 64) := by
    funext a; apply Fin.ext
    match a with
    | ⟨0, _⟩ => show win0_3.index t (0 : Fin 2) * 8192 + 1 * (j 0).val = 8192 * t.val + (j 0).val; omega
    | ⟨1, _⟩ => show win0_3.index t (1 : Fin 2) * 64 + 1 * (j 1).val = (j 1).val; omega
  show k0_pay1 (rows0 (V c main_arg2) ⟨t.val, ht⟩) (V c main_arg3) (V c main_v4) j
      = G0_3 (V c main_arg2) (V c main_arg3) (V c main_v4) (((cfg0.win 3).blk t).view.emb j)
  rw [hemb, G0_3_block (V c main_arg2) (V c main_arg3) (V c main_v4) ⟨t.val, ht⟩ ⟨(j 0).val, hj0⟩ ⟨(j 1).val, hj1⟩ hrow]
  exact congrArg (k0_pay1 (rows0 (V c main_arg2) ⟨t.val, ht⟩) (V c main_arg3) (V c main_v4))
    (funext fun a => match a with | ⟨0, _⟩ => rfl | ⟨1, _⟩ => rfl)

/-- An index of the output array is in point t's block iff each coordinate is in the block's range on its axis. -/
theorem mem_blk0_3 (t : Fin cfg0.N) (i : S65536x64.Idx) :
    i ∈ ((cfg0.win 3).blk t).view.set ↔ ∀ a : Fin 2, win0_3.index t a * S8192x64.size a ≤ (i a).val
      ∧ (i a).val < win0_3.index t a * S8192x64.size a + S8192x64.size a := by
  show i ∈ ((View.whole main_v5).slice (win0_3.rect t)).set ↔ _
  rw [View.set_slice_whole, Rect.mem_set_unit]
  exact Iff.rfl

/-- Every row is in the block of the point numbered by its quotient by 8192. -/
theorem covered0_3 (i : S65536x64.Idx) :
    ∃ t : Fin cfg0.N, (cfg0.win 3).flush t = true ∧ i ∈ ((cfg0.win 3).blk t).view.set := by
  have hi0 := idx2_lt0 i
  have hi1 := idx2_lt1 i
  have hN : (i 0).val / 8192 < cfg0.N := by show _ < grid0.N; rw [N_0]; omega
  refine ⟨⟨(i 0).val / 8192, hN⟩, flush0_3 _, ?_⟩
  rw [mem_blk0_3]
  obtain ⟨-, -, -, -, -, -, e30, e31⟩ := idx_facts0 ⟨(i 0).val / 8192, hN⟩
  have e30' : win0_3.index ⟨(i 0).val / 8192, hN⟩ (0 : Fin 2) = (i 0).val / 8192 := e30
  intro a
  match a with
  | ⟨0, _⟩ =>
    show win0_3.index ⟨(i 0).val / 8192, hN⟩ (0 : Fin 2) * 8192 ≤ (i 0).val
      ∧ (i 0).val < win0_3.index ⟨(i 0).val / 8192, hN⟩ (0 : Fin 2) * 8192 + 8192
    omega
  | ⟨1, _⟩ =>
    show win0_3.index ⟨(i 0).val / 8192, hN⟩ (1 : Fin 2) * 64 ≤ (i 1).val
      ∧ (i 1).val < win0_3.index ⟨(i 0).val / 8192, hN⟩ (1 : Fin 2) * 64 + 64
    omega

/-- The output array after the region is the closed form of the three entry arrays. -/
theorem final0_3 (c : Dev nD) :
    (dat0 V c).arrAt ⟨3, by decide⟩ cfg0.N = G0_3 (V c main_arg2) (V c main_arg3) (V c main_v4) :=
  (dat0 V c).arrAt_eq_of_cover 3 _ (fun t _ => flushed0_3_eq V c t) covered0_3

end Cert.Kernel.Hand

end
-- ==== Proof.KB.Reg1.lean ====
import proofs.«159011_j9938554322955_1_alg».proof.Proof.Gen.Kernel.Launch
import proofs.«159011_j9938554322955_1_alg».proof.Proof.Gen.Kernel.Skeleton
import proofs.«159011_j9938554322955_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the body goes through the rectangle of a two-axis buffer's whole shape at zero offsets. -/

theorem hz2_1 : (![0, 0] : Fin 2 → ℕ) = fun _ => 0 := by funext a; fin_cases a <;> rfl

/-- A load of a whole buffer reads its contents. -/
theorem readAt_whole1 (sz : Fin 2 → ℕ) {e : EltTy} (v : View sig .tc .vmem (⟨2, sz⟩ : Shape) e)
    (inb : ∀ a, (![0, 0] : Fin 2 → ℕ) a + sz a ≤ sz a) (f : v.ty.Contents (Elt F)) :
    v.readAt (Elt F) (Rect.unit (s := (⟨2, sz⟩ : Shape)) ![0, 0] sz inb).toLoadRect f = v.read (Elt F) f :=
  (View.readAt_eq_ld v f _).trans (View.ld_unit_zero (S := (⟨2, sz⟩ : Shape)) hz2_1 inb _)

/-- The whole-shape rectangle holds every index. -/
theorem cover_whole1 (sz : Fin 2 → ℕ) {e : EltTy} (inb : ∀ a, (![0, 0] : Fin 2 → ℕ) a + sz a ≤ sz a)
    (w : (⟨2, sz⟩ : Shape).Idx → Elt F e) (L : List (View.Piece (Elt F) (⟨2, sz⟩ : Shape) e)) (y : (⟨2, sz⟩ : Shape).Idx) :
    ∃ p ∈ ((⟨Rect.unit (s := (⟨2, sz⟩ : Shape)) ![0, 0] sz inb, w⟩ : View.Piece (Elt F) (⟨2, sz⟩ : Shape) e) :: L), y ∈ p.1.set :=
  ⟨⟨Rect.unit (s := (⟨2, sz⟩ : Shape)) ![0, 0] sz inb, w⟩, List.mem_cons_self, View.mem_set_unit_zero (S := (⟨2, sz⟩ : Shape)) hz2_1 inb y⟩

/-- A store of a whole buffer, last, leaves its payload. -/
theorem read_writes_whole1 (sz : Fin 2 → ℕ) {e : EltTy} (v : View sig .tc .vmem (⟨2, sz⟩ : Shape) e)
    (inb : ∀ a, (![0, 0] : Fin 2 → ℕ) a + sz a ≤ sz a) (f : v.ty.Contents (Elt F)) (w : (⟨2, sz⟩ : Shape).Idx → Elt F e)
    (L : List (View.Piece (Elt F) (⟨2, sz⟩ : Shape) e)) :
    v.read (Elt F) (v.writes (Elt F) f ((⟨Rect.unit (s := (⟨2, sz⟩ : Shape)) ![0, 0] sz inb, w⟩ : View.Piece (Elt F) (⟨2, sz⟩ : Shape) e) :: L)) = w :=
  (View.read_writes_eq_canon v f _ (cover_whole1 sz inb w L)).trans
    (View.canon_cons_unit_zero (S := (⟨2, sz⟩ : Shape)) hz2_1 inb w L)

/-- A load of a whole buffer after a store of the whole buffer reads the payload. -/
theorem readCov_whole1 (sz : Fin 2 → ℕ) {e : EltTy} (v : View sig .tc .vmem (⟨2, sz⟩ : Shape) e)
    (inb : ∀ a, (![0, 0] : Fin 2 → ℕ) a + sz a ≤ sz a) (w : (⟨2, sz⟩ : Shape).Idx → Elt F e)
    (L : List (View.Piece (Elt F) (⟨2, sz⟩ : Shape) e)) :
    v.readCov ((⟨Rect.unit (s := (⟨2, sz⟩ : Shape)) ![0, 0] sz inb, w⟩ : View.Piece (Elt F) (⟨2, sz⟩ : Shape) e) :: L)
      (Rect.unit (s := (⟨2, sz⟩ : Shape)) ![0, 0] sz inb).toLoadRect = w :=
  (View.readCov_eq_canon_ld v _ (Rect.unit (s := (⟨2, sz⟩ : Shape)) ![0, 0] sz inb) (cover_whole1 sz inb w L)).trans
    ((congrArg (fun X => View.ld X (Rect.unit (s := (⟨2, sz⟩ : Shape)) ![0, 0] sz inb))
        (View.canon_cons_unit_zero (S := (⟨2, sz⟩ : Shape)) hz2_1 inb w L)).trans
      (View.ld_unit_zero (S := (⟨2, sz⟩ : Shape)) hz2_1 inb w))

/-! ## The body's two conditions -/

/-- The condition of the body's first `scf.if` (the scratch is zeroed), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The condition of the body's second `scf.if` (the statistics are stored). -/
abbrev cond1_1 (i : grid1.Coords) : Prop := k1_cond2 i = 1#1
/-- It holds at the last point only. -/
theorem hcond1_1 : ∀ t : Fin cfg1.N, cond1_1 (grid1.coords t) ↔ t.val = 15 :=
  (by decide +kernel : ∀ t : Fin grid1.N, cond1_1 (grid1.coords t) ↔ t.val = 15)

/-! ## What one point adds to the two running sums, and the statistics stored at the last point -/

/-- The column sums of the block's `z` added to the running sum `S`. -/
noncomputable def sS1 (x0 x1 : Vec F S4096x64 .f32) (x2 : Vec F S1x64 .f32) (x3 : Vec F S64x128 .f32) (x4 S : Vec F S1x128 .f32) : Vec F S1x128 .f32 :=
  k1_pay7 x2 x0 x1 x3 x4 S
/-- The column sums of the block's `z · z` added to the running sum `Q`. -/
noncomputable def sQ1 (x0 x1 : Vec F S4096x64 .f32) (x2 : Vec F S1x64 .f32) (x3 : Vec F S64x128 .f32) (x4 Q : Vec F S1x128 .f32) : Vec F S1x128 .f32 :=
  k1_pay1 (k1_pay8 x2 x0 x1 x3 x4 Q)
/-- The two sums as the first point resets them. -/
noncomputable def zS1 : Vec F S1x128 .f32 := k1_pay4 (F := F)
noncomputable def zQ1 : Vec F S1x128 .f32 := k1_pay5 (F := F)
/-- The mean stored from the total `S`, and the variance stored from the totals `S`, `Q`. -/
noncomputable def oM1 (S : Vec F S1x128 .f32) : Vec F S1x128 .f32 := k1_pay2 S
noncomputable def oV1 (S Q : Vec F S1x128 .f32) : Vec F S1x128 .f32 := k1_pay3 S Q

set_option maxHeartbeats 2000000 in
/-- The body on whole staging memrefs and the two scratch buffers, at the first point (the scratch is zeroed first, whatever it held). -/
theorem sound_kernel1_A (c : Dev nD) (E : Set ℕ) (i : grid1.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond1_0 i) (hc1 : ¬cond1_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS1 x0 x1 x2 x3 x4 zS1)
            ∗ owns (c : Thread nD τ) arg9 fullShare (sQ1 x0 x1 x2 x3 x4 zQ1)) -∗ K ⟨⟩))
      ⊢ wp frame (wpE (defs₀ (F := F)) Variants.none c none) E (cc1__stats1_kernel i arg1 harg1 arg2 harg2 arg3 harg3 arg4 harg4 arg5 harg5 arg6 harg6 arg7 harg7 arg8 harg8 arg9 harg9) K := by
  simp only [cc1__stats1_kernel_eq_skeleton]; unfold cc1__stats1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole1, readCov_whole1, readAt_whole1, oM1, oV1, sS1, sQ1, zS1, zQ1])
  isplitl [H6]
  · iexists _; isplitr
    swap; · iexact H6
    ipureintro
    first
      | rfl
      | (sl_unfold_run_names; (try dsimp only); simp only [read_writes_whole1, readCov_whole1, readAt_whole1, oM1, oV1, sS1, sQ1, zS1, zQ1])
  isplitl [H7]
  · iexists _; isplitr
    swap; · iexact H7
    ipureintro
    (sl_unfold_run_names; (try dsimp only); simp only [read_writes_whole1, readCov_whole1, readAt_whole1, oM1, oV1, sS1, sQ1, zS1, zQ1])
  iexists _; isplitr
  swap; · iexact H8
  ipureintro
  (sl_unfold_run_names; (try dsimp only); simp only [read_writes_whole1, readCov_whole1, readAt_whole1, oM1, oV1, sS1, sQ1, zS1, zQ1])

set_option maxHeartbeats 2000000 in
/-- The body on whole staging memrefs and the two scratch buffers, at a point that is neither the first nor the last. -/
theorem sound_kernel1_B (c : Dev nD) (E : Set ℕ) (i : grid1.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond1_0 i) (hc1 : ¬cond1_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS1 x0 x1 x2 x3 x4 S)
            ∗ owns (c : Thread nD τ) arg9 fullShare (sQ1 x0 x1 x2 x3 x4 Q)) -∗ K ⟨⟩))
      ⊢ wp frame (wpE (defs₀ (F := F)) Variants.none c none) E (cc1__stats1_kernel i arg1 harg1 arg2 harg2 arg3 harg3 arg4 harg4 arg5 harg5 arg6 harg6 arg7 harg7 arg8 harg8 arg9 harg9) K := by
  simp only [cc1__stats1_kernel_eq_skeleton]; unfold cc1__stats1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole1, readCov_whole1, readAt_whole1, oM1, oV1, sS1, sQ1, zS1, zQ1])
  isplitl [H6]
  · iexists _; isplitr
    swap; · iexact H6
    ipureintro
    first
      | rfl
      | (sl_unfold_run_names; (try dsimp only); simp only [read_writes_whole1, readCov_whole1, readAt_whole1, oM1, oV1, sS1, sQ1, zS1, zQ1])
  isplitl [H7]
  · iexists _; isplitr
    swap; · iexact H7
    ipureintro
    (sl_unfold_run_names; (try dsimp only); simp only [read_writes_whole1, readCov_whole1, readAt_whole1, oM1, oV1, sS1, sQ1, zS1, zQ1])
  iexists _; isplitr
  swap; · iexact H8
  ipureintro
  (sl_unfold_run_names; (try dsimp only); simp only [read_writes_whole1, readCov_whole1, readAt_whole1, oM1, oV1, sS1, sQ1, zS1, zQ1])

set_option maxHeartbeats 2000000 in
/-- The body on whole staging memrefs and the two scratch buffers, at the last point (the statistics are stored from the totals). -/
theorem sound_kernel1_C (c : Dev nD) (E : Set ℕ) (i : grid1.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond1_0 i) (hc1 : cond1_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (oM1 (sS1 x0 x1 x2 x3 x4 S))
            ∗ owns (c : Thread nD τ) arg7 fullShare (oV1 (sS1 x0 x1 x2 x3 x4 S) (sQ1 x0 x1 x2 x3 x4 Q)) ∗ owns (c : Thread nD τ) arg8 fullShare (sS1 x0 x1 x2 x3 x4 S)
            ∗ owns (c : Thread nD τ) arg9 fullShare (sQ1 x0 x1 x2 x3 x4 Q)) -∗ K ⟨⟩))
      ⊢ wp frame (wpE (defs₀ (F := F)) Variants.none c none) E (cc1__stats1_kernel i arg1 harg1 arg2 harg2 arg3 harg3 arg4 harg4 arg5 harg5 arg6 harg6 arg7 harg7 arg8 harg8 arg9 harg9) K := by
  simp only [cc1__stats1_kernel_eq_skeleton]; unfold cc1__stats1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole1, readCov_whole1, readAt_whole1, oM1, oV1, sS1, sQ1, zS1, zQ1])
  isplitl [H6]
  · iexists _; isplitr
    swap; · iexact H6
    ipureintro
    first
      | rfl
      | (sl_unfold_run_names; (try dsimp only); simp only [read_writes_whole1, readCov_whole1, readAt_whole1, oM1, oV1, sS1, sQ1, zS1, zQ1])
  isplitl [H7]
  · iexists _; isplitr
    swap; · iexact H7
    ipureintro
    (sl_unfold_run_names; (try dsimp only); simp only [read_writes_whole1, readCov_whole1, readAt_whole1, oM1, oV1, sS1, sQ1, zS1, zQ1])
  iexists _; isplitr
  swap; · iexact H8
  ipureintro
  (sl_unfold_run_names; (try dsimp only); simp only [read_writes_whole1, readCov_whole1, readAt_whole1, oM1, oV1, sS1, sQ1, zS1, zQ1])

variable (V : (c : Dev nD) → (b : Ref sig .tc) → Buf (Elt F) ((c : Thread nD τ).loc b))

/-! ## The windows' blocks -/

/-- Window w's block at point t, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Where the windows are idle and written back

The five inputs are never idle. The two statistics are stored at the last point only: before it their windows are
idle and are not written back; at it they are live. -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, t.val ≠ 15 → cfg1.idle 5 (grid1.coords t) = true := by decide +kernel
theorem idleAt1_6 : ∀ t : Fin cfg1.N, t.val ≠ 15 → cfg1.idle 6 (grid1.coords t) = true := by decide +kernel
theorem liveAt1_5 : ∀ t : Fin cfg1.N, t.val = 15 → cfg1.idle 5 (grid1.coords t) = false := by decide +kernel
theorem liveAt1_6 : ∀ t : Fin cfg1.N, t.val = 15 → cfg1.idle 6 (grid1.coords t) = false := by decide +kernel
theorem noFlush1_5 : ∀ t : Fin cfg1.N, t.val ≠ 15 → (cfg1.win 5).flush t = false := by decide +kernel
theorem noFlush1_6 : ∀ t : Fin cfg1.N, t.val ≠ 15 → (cfg1.win 6).flush t = false := by decide +kernel

/-! ## What an input's staging buffer holds

Each input's current staging buffer holds its block at every point, fetched there or not, for any proof data whose
array is the entry contents and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The running sums

What the two scratch buffers hold after the body at point n: the first point resets them and adds its block's column
sums of z and of z · z; every later point adds its own to what the point before left. -/

noncomputable def accS1 (c : Dev nD) : (n : ℕ) → n < cfg1.N → Vec F S1x128 .f32
  | 0, hn => sS1 (iblk1 V c 0 ⟨0, hn⟩) (iblk1 V c 1 ⟨0, hn⟩) (iblk1 V c 2 ⟨0, hn⟩) (iblk1 V c 3 ⟨0, hn⟩) (iblk1 V c 4 ⟨0, hn⟩) zS1
  | n + 1, hn => sS1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accS1 c n (Nat.lt_of_succ_lt hn))

noncomputable def accQ1 (c : Dev nD) : (n : ℕ) → n < cfg1.N → Vec F S1x128 .f32
  | 0, hn => sQ1 (iblk1 V c 0 ⟨0, hn⟩) (iblk1 V c 1 ⟨0, hn⟩) (iblk1 V c 2 ⟨0, hn⟩) (iblk1 V c 3 ⟨0, hn⟩) (iblk1 V c 4 ⟨0, hn⟩) zQ1
  | n + 1, hn => sQ1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accQ1 c n (Nat.lt_of_succ_lt hn))

theorem accS1_zero (c : Dev nD) (t : Fin cfg1.N) (h0 : t.val = 0) :
    accS1 V c t.val t.isLt = sS1 (iblk1 V c 0 t) (iblk1 V c 1 t) (iblk1 V c 2 t) (iblk1 V c 3 t) (iblk1 V c 4 t) zS1 := by
  obtain ⟨n, hn⟩ := t
  cases n with
  | zero => rfl
  | succ n => exact absurd h0 (Nat.succ_ne_zero n)

theorem accS1_pos (c : Dev nD) (t : Fin cfg1.N) (h0 : t.val ≠ 0) :
    accS1 V c t.val t.isLt = sS1 (iblk1 V c 0 t) (iblk1 V c 1 t) (iblk1 V c 2 t) (iblk1 V c 3 t) (iblk1 V c 4 t) (accS1 V c (t.val - 1) (Nat.lt_of_le_of_lt (Nat.sub_le _ _) t.isLt)) := by
  obtain ⟨n, hn⟩ := t
  cases n with
  | zero => exact absurd rfl h0
  | succ n => rfl

theorem accQ1_zero (c : Dev nD) (t : Fin cfg1.N) (h0 : t.val = 0) :
    accQ1 V c t.val t.isLt = sQ1 (iblk1 V c 0 t) (iblk1 V c 1 t) (iblk1 V c 2 t) (iblk1 V c 3 t) (iblk1 V c 4 t) zQ1 := by
  obtain ⟨n, hn⟩ := t
  cases n with
  | zero => rfl
  | succ n => exact absurd h0 (Nat.succ_ne_zero n)

theorem accQ1_pos (c : Dev nD) (t : Fin cfg1.N) (h0 : t.val ≠ 0) :
    accQ1 V c t.val t.isLt = sQ1 (iblk1 V c 0 t) (iblk1 V c 1 t) (iblk1 V c 2 t) (iblk1 V c 3 t) (iblk1 V c 4 t) (accQ1 V c (t.val - 1) (Nat.lt_of_le_of_lt (Nat.sub_le _ _) t.isLt)) := by
  obtain ⟨n, hn⟩ := t
  cases n with
  | zero => exact absurd rfl h0
  | succ n => rfl

/-! ## The invariant between points -/

/-- The scoped rest with the two scratch buffers as whole memrefs owned at some contents. -/
theorem scr1_eq (c : Dev nD) :
    (Pipeline.scopedRest (Ix := Unit) (Name := ℕ) (U := UR sig nD τ) (Lvl := ℕ) (Val := Elt F) spec1 c : sProp 𝕄)
      = iprop(iprop((∃ d, owns (c : Thread nD τ) (Memref.whole cc1_scratch0) fullShare d) ∗ (∃ d, owns (c : Thread nD τ) (Memref.whole cc1_scratch1) fullShare d))
          ∗ Pipeline.scopedRestBut (Ix := Unit) (Name := ℕ) (U := UR sig nD τ) (Lvl := ℕ) (Val := Elt F) spec1 c [cc1_scratch0, cc1_scratch1]) := by
  rw [scopedRest1_split]; simp only [owns_whole]; try rfl

/-- Before the first point: the generator register and every scoped buffer that is no staging buffer, at anything.
    Before a later point: the same with the two scratch buffers at the running sums the point before left. -/
noncomputable def Phi1 (c : Dev nD) : (n : ℕ) → n ≤ cfg1.N → sProp 𝕄
  | 0, _ => iprop((∃ r, prngReg c r) ∗ Pipeline.scopedRest (Ix := Unit) (Name := ℕ) (U := UR sig nD τ) (Lvl := ℕ) (Val := Elt F) spec1 c)
  | n + 1, hn => iprop((∃ r, prngReg c r)
      ∗ iprop(owns (c : Thread nD τ) (Memref.whole cc1_scratch0) fullShare (accS1 V c n hn) ∗ owns (c : Thread nD τ) (Memref.whole cc1_scratch1) fullShare (accQ1 V c n hn))
      ∗ Pipeline.scopedRestBut (Ix := Unit) (Name := ℕ) (U := UR sig nD τ) (Lvl := ℕ) (Val := Elt F) spec1 c [cc1_scratch0, cc1_scratch1])

theorem Phi1_zero (c : Dev nD) (n : ℕ) (h : n ≤ cfg1.N) (hz : n = 0) :
    Phi1 V c n h = iprop((∃ r, prngReg c r) ∗ Pipeline.scopedRest (Ix := Unit) (Name := ℕ) (U := UR sig nD τ) (Lvl := ℕ) (Val := Elt F) spec1 c) := by
  subst hz; rfl

theorem Phi1_succ (c : Dev nD) (n : ℕ) (hn : n < cfg1.N) :
    Phi1 V c (n + 1) hn = iprop((∃ r, prngReg c r)
      ∗ iprop(owns (c : Thread nD τ) (Memref.whole cc1_scratch0) fullShare (accS1 V c n hn) ∗ owns (c : Thread nD τ) (Memref.whole cc1_scratch1) fullShare (accQ1 V c n hn))
      ∗ Pipeline.scopedRestBut (Ix := Unit) (Name := ℕ) (U := UR sig nD τ) (Lvl := ℕ) (Val := Elt F) spec1 c [cc1_scratch0, cc1_scratch1]) := rfl

theorem Phi1_pos (c : Dev nD) (n : ℕ) (h : n ≤ cfg1.N) (hz : n ≠ 0) :
    Phi1 V c n h = iprop((∃ r, prngReg c r)
      ∗ iprop(owns (c : Thread nD τ) (Memref.whole cc1_scratch0) fullShare (accS1 V c (n - 1) (by omega)) ∗ owns (c : Thread nD τ) (Memref.whole cc1_scratch1) fullShare (accQ1 V c (n - 1) (by omega)))
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

/-! ## The pipeline's proof data -/

/-- The arrays as the region finds them; after the body at point t each input's buffer at its block, the mean's and the
    variance's at the statistics of the running sums (consulted at the last point only: before it the two windows are idle);
    the invariant above; nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => oM1 (accS1 V c t.val t.isLt)
    | ⟨6, _⟩ => oV1 (accS1 V c t.val t.isLt) (accQ1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = oM1 (accS1 V c t.val t.isLt) := by dsimp only [dat1]
theorem after1_6 (c : Dev nD) (t : Fin cfg1.N) : (dat1 V c).after 6 t = oV1 (accS1 V c t.val t.isLt) (accQ1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
noncomputable def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the point is the first, the last or neither, which
    decides the two conditions; the invariant hands the body the two scratch buffers (at anything at the first point, at
    the running sums otherwise) and takes them back at this point's sums; the mean's and the variance's buffers come back
    untouched before the last point and hold the statistics after it; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  have hN : t.val < 16 := lt_of_lt_of_eq t.isLt (show cfg1.N = 16 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  by_cases h0 : t.val = 0
  · have h1 : t.val ≠ 15 := by omega
    rw [Dat.leavesExact_idle (dat1 V c) 5 t (idleAt1_5 t h1) (noFlush1_5 t h1),
      Dat.leavesExact_idle (dat1 V c) 6 t (idleAt1_6 t h1) (noFlush1_6 t h1)]
    rw [accS1_zero V c t h0, accQ1_zero V c t h0]
    rw [Phi1_castSucc V c t, Phi1_zero V c _ _ h0, scr1_eq]
    iintro ⟨⟨Hg, ⟨⟨%dS, HS⟩, ⟨%dQ, HQ⟩⟩, Hrest⟩, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ (Memref.whole cc1_scratch0) (Memref.isWhole_whole _) (Memref.whole cc1_scratch1) (Memref.isWhole_whole _)
      ((hcond1_0 t).mpr h0) (fun h => h1 ((hcond1_1 t).mp h)) (iblk1 V c 0 t) (iblk1 V c 1 t) (iblk1 V c 2 t) (iblk1 V c 3 t) (iblk1 V c 4 t) _ _ dS dQ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HQ]; · iexact HQ
    iintro ⟨H0, H1, H2, H3, H4, H5, H6, HS, HQ⟩
    isplitl [Hg HS HQ Hrest]
    · isplitl [Hg]; · iexact Hg
      isplitl [HS HQ]
      · isplitl [HS]; · iexact HS
        iexact HQ
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 15
    · rw [show (dat1 V c).leavesExact 5 t = owns (c : Thread nD τ) (st1_5 t) fullShare ((dat1 V c).after 5 t) from by
        unfold Dat.leavesExact; rw [liveAt1_5 t h1], after1_5]
      rw [show (dat1 V c).leavesExact 6 t = owns (c : Thread nD τ) (st1_6 t) fullShare ((dat1 V c).after 6 t) from by
        unfold Dat.leavesExact; rw [liveAt1_6 t h1], after1_6]
      rw [accS1_pos V c t h0, accQ1_pos V c t h0]
      rw [Phi1_castSucc V c t, Phi1_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel1_C c Set.univ (grid1.coords t) _ _ _ _ _ _ _ _ _ _ _ _ _ _ (Memref.whole cc1_scratch0) (Memref.isWhole_whole _) (Memref.whole cc1_scratch1) (Memref.isWhole_whole _)
        (fun h => h0 ((hcond1_0 t).mp h)) ((hcond1_1 t).mpr h1) (iblk1 V c 0 t) (iblk1 V c 1 t) (iblk1 V c 2 t) (iblk1 V c 3 t) (iblk1 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 5 t (idleAt1_5 t h1) (noFlush1_5 t h1),
        Dat.leavesExact_idle (dat1 V c) 6 t (idleAt1_6 t h1) (noFlush1_6 t h1)]
      rw [accS1_pos V c t h0, accQ1_pos V c t h0]
      rw [Phi1_castSucc V c t, Phi1_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel1_B c Set.univ (grid1.coords t) _ _ _ _ _ _ _ _ _ _ _ _ _ _ (Memref.whole cc1_scratch0) (Memref.isWhole_whole _) (Memref.whole cc1_scratch1) (Memref.isWhole_whole _)
        (fun h => h0 ((hcond1_0 t).mp h)) (fun h => h1 ((hcond1_1 t).mp h)) (iblk1 V c 0 t) (iblk1 V c 1 t) (iblk1 V c 2 t) (iblk1 V c 3 t) (iblk1 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the region is handed is the invariant before the first point. -/
theorem phi_in1 (c : Dev nD) :
    (iprop((∃ r, prngReg c r) ∗ Pipeline.scopedRest (Ix := Unit) (Name := ℕ) (U := UR sig nD τ) (Lvl := ℕ) (Val := Elt F) spec1 c) : sProp 𝕄)
      ⊢ (dat1 V c).Φ 0 := by
  rw [show (dat1 V c).Φ 0 = Phi1 V c 0 (Nat.zero_le _) from rfl, Phi1_zero V c 0 _ rfl]
  try exact Idealize.SL.BI.Entails.refl _

/-- After the last point the invariant gives it back: the scratch buffers' contents are forgotten. -/
theorem phi_out1 (c : Dev nD) :
    (dat1 V c).Φ (Fin.last cfg1.N)
      ⊢ (iprop((∃ r, prngReg c r) ∗ Pipeline.scopedRest (Ix := Unit) (Name := ℕ) (U := UR sig nD τ) (Lvl := ℕ) (Val := Elt F) spec1 c) : sProp 𝕄) := by
  have ht : (Fin.last cfg1.N).val ≠ 0 := by rw [Fin.val_last]; have : cfg1.N = 16 := N_1; omega
  rw [show (dat1 V c).Φ (Fin.last cfg1.N) = Phi1 V c (Fin.last cfg1.N).val (Nat.le_of_lt_succ (Fin.last cfg1.N).isLt) from rfl,
    Phi1_pos V c _ _ ht, scr1_eq]
  iintro ⟨Hg, ⟨HS, HQ⟩, Hrest⟩
  isplitl [Hg]; · iexact Hg
  isplitl [HS HQ]
  · isplitl [HS]; · iexists _; iexact HS
    iexists _; iexact HQ
  iexact Hrest

end Cert.Kernel.Hand

end
-- ==== Proof.KB.Reg2Runs.lean ====
import proofs.«159011_j9938554322955_1_alg».proof.Proof.Gen.Kernel.Launch
import proofs.«159011_j9938554322955_1_alg».proof.Proof.Gen.Kernel.Skeleton
import proofs.«159011_j9938554322955_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second statistics kernel of a layer: what its three kinds of grid point share

The kernel visits sixteen blocks of 4096 rows. At every point it recomputes the block of the second linear
map's values z2 and adds the block's column sums of z2 and of z2 * z2 into two accumulators of 64 lanes that it
keeps from point to point; at the first point it clears the accumulators before adding; at the last point it also
stores mean = S * 2^(-16) and var = Q * 2^(-16) - mean * mean. -/

/-- The body's first test, from the grid index: the index is 0 (the accumulators are cleared). -/
noncomputable abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 16 = 0 :=
  (by decide +kernel : ∀ t : Fin grid2.N, cond2_0 (grid2.coords t) ↔ t.val % 16 = 0)

/-- The body's second test: the index is 15 (mean and variance are stored). -/
noncomputable abbrev cond2_1 (i : grid2.Coords) : Prop := k2_cond2 i = 1#1
/-- It holds at the last point only. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

/-- Input window 0 is never idle. -/
theorem liveAt2_0 : ∀ t : Fin cfg2.N, cfg2.idle 0 (grid2.coords t) = false := fun _ => rfl
/-- Input window 1 is never idle. -/
theorem liveAt2_1 : ∀ t : Fin cfg2.N, cfg2.idle 1 (grid2.coords t) = false := fun _ => rfl
/-- Input window 2 is never idle. -/
theorem liveAt2_2 : ∀ t : Fin cfg2.N, cfg2.idle 2 (grid2.coords t) = false := fun _ => rfl
/-- Input window 3 is never idle. -/
theorem liveAt2_3 : ∀ t : Fin cfg2.N, cfg2.idle 3 (grid2.coords t) = false := fun _ => rfl
/-- Input window 4 is never idle. -/
theorem liveAt2_4 : ∀ t : Fin cfg2.N, cfg2.idle 4 (grid2.coords t) = false := fun _ => rfl
/-- Input window 5 is never idle. -/
theorem liveAt2_5 : ∀ t : Fin cfg2.N, cfg2.idle 5 (grid2.coords t) = false := fun _ => rfl
/-- Input window 6 is never idle. -/
theorem liveAt2_6 : ∀ t : Fin cfg2.N, cfg2.idle 6 (grid2.coords t) = false := fun _ => rfl
/-- Input window 7 is never idle. -/
theorem liveAt2_7 : ∀ t : Fin cfg2.N, cfg2.idle 7 (grid2.coords t) = false := fun _ => rfl
/-- Input window 8 is never idle. -/
theorem liveAt2_8 : ∀ t : Fin cfg2.N, cfg2.idle 8 (grid2.coords t) = false := fun _ => rfl
/-- Input window 9 is never idle. -/
theorem liveAt2_9 : ∀ t : Fin cfg2.N, cfg2.idle 9 (grid2.coords t) = false := fun _ => rfl
/-- Input window 10 is never idle. -/
theorem liveAt2_10 : ∀ t : Fin cfg2.N, cfg2.idle 10 (grid2.coords t) = false := fun _ => rfl
/-- Away from the last point nothing is stored into output 11: the window is idle there, -/
theorem idleAt2_11 : ∀ t : Fin cfg2.N, ¬cond2_1 (grid2.coords t) → cfg2.idle 11 (grid2.coords t) = true := by decide +kernel
/-- and its block is not written back there. -/
theorem noFlush2_11 : ∀ t : Fin cfg2.N, ¬cond2_1 (grid2.coords t) → (cfg2.win 11).flush t = false := by decide +kernel
/-- At the last point output 11 is stored: the window is live. -/
theorem liveAt2_11 : ∀ t : Fin cfg2.N, cond2_1 (grid2.coords t) → cfg2.idle 11 (grid2.coords t) = false := by decide +kernel
/-- Away from the last point nothing is stored into output 12: the window is idle there, -/
theorem idleAt2_12 : ∀ t : Fin cfg2.N, ¬cond2_1 (grid2.coords t) → cfg2.idle 12 (grid2.coords t) = true := by decide +kernel
/-- and its block is not written back there. -/
theorem noFlush2_12 : ∀ t : Fin cfg2.N, ¬cond2_1 (grid2.coords t) → (cfg2.win 12).flush t = false := by decide +kernel
/-- At the last point output 12 is stored: the window is live. -/
theorem liveAt2_12 : ∀ t : Fin cfg2.N, cond2_1 (grid2.coords t) → cfg2.idle 12 (grid2.coords t) = false := by decide +kernel

/-! ## The memrefs the body is called with -/

noncomputable abbrev ms2_0 (t : Fin cfg2.N) : Memref sig .tc .vmem S4096x64 .f32 := win2_0.stage (cfg2.slots t 0)
noncomputable abbrev hs2_0 (t : Fin cfg2.N) : (ms2_0 t).IsWhole := hstage2_0 ((cfg2.slots t 0).cast nbuf2_0)
noncomputable abbrev ms2_1 (t : Fin cfg2.N) : Memref sig .tc .vmem S4096x64 .f32 := win2_1.stage (cfg2.slots t 1)
noncomputable abbrev hs2_1 (t : Fin cfg2.N) : (ms2_1 t).IsWhole := hstage2_1 ((cfg2.slots t 1).cast nbuf2_1)
noncomputable abbrev ms2_2 (t : Fin cfg2.N) : Memref sig .tc .vmem S1x64 .f32 := win2_2.stage (cfg2.slots t 2)
noncomputable abbrev hs2_2 (t : Fin cfg2.N) : (ms2_2 t).IsWhole := hstage2_2 ((cfg2.slots t 2).cast nbuf2_2)
noncomputable abbrev ms2_3 (t : Fin cfg2.N) : Memref sig .tc .vmem S64x128 .f32 := win2_3.stage (cfg2.slots t 3)
noncomputable abbrev hs2_3 (t : Fin cfg2.N) : (ms2_3 t).IsWhole := hstage2_3 ((cfg2.slots t 3).cast nbuf2_3)
noncomputable abbrev ms2_4 (t : Fin cfg2.N) : Memref sig .tc .vmem S1x128 .f32 := win2_4.stage (cfg2.slots t 4)
noncomputable abbrev hs2_4 (t : Fin cfg2.N) : (ms2_4 t).IsWhole := hstage2_4 ((cfg2.slots t 4).cast nbuf2_4)
noncomputable abbrev ms2_5 (t : Fin cfg2.N) : Memref sig .tc .vmem S1x128 .f32 := win2_5.stage (cfg2.slots t 5)
noncomputable abbrev hs2_5 (t : Fin cfg2.N) : (ms2_5 t).IsWhole := hstage2_5 ((cfg2.slots t 5).cast nbuf2_5)
noncomputable abbrev ms2_6 (t : Fin cfg2.N) : Memref sig .tc .vmem S1x128 .f32 := win2_6.stage (cfg2.slots t 6)
noncomputable abbrev hs2_6 (t : Fin cfg2.N) : (ms2_6 t).IsWhole := hstage2_6 ((cfg2.slots t 6).cast nbuf2_6)
noncomputable abbrev ms2_7 (t : Fin cfg2.N) : Memref sig .tc .vmem S1x128 .f32 := win2_7.stage (cfg2.slots t 7)
noncomputable abbrev hs2_7 (t : Fin cfg2.N) : (ms2_7 t).IsWhole := hstage2_7 ((cfg2.slots t 7).cast nbuf2_7)
noncomputable abbrev ms2_8 (t : Fin cfg2.N) : Memref sig .tc .vmem S1x128 .f32 := win2_8.stage (cfg2.slots t 8)
noncomputable abbrev hs2_8 (t : Fin cfg2.N) : (ms2_8 t).IsWhole := hstage2_8 ((cfg2.slots t 8).cast nbuf2_8)
noncomputable abbrev ms2_9 (t : Fin cfg2.N) : Memref sig .tc .vmem S128x64 .f32 := win2_9.stage (cfg2.slots t 9)
noncomputable abbrev hs2_9 (t : Fin cfg2.N) : (ms2_9 t).IsWhole := hstage2_9 ((cfg2.slots t 9).cast nbuf2_9)
noncomputable abbrev ms2_10 (t : Fin cfg2.N) : Memref sig .tc .vmem S1x64 .f32 := win2_10.stage (cfg2.slots t 10)
noncomputable abbrev hs2_10 (t : Fin cfg2.N) : (ms2_10 t).IsWhole := hstage2_10 ((cfg2.slots t 10).cast nbuf2_10)
noncomputable abbrev ms2_11 (t : Fin cfg2.N) : Memref sig .tc .vmem S1x64 .f32 := win2_11.stage (cfg2.slots t 11)
noncomputable abbrev hs2_11 (t : Fin cfg2.N) : (ms2_11 t).IsWhole := hstage2_11 ((cfg2.slots t 11).cast nbuf2_11)
noncomputable abbrev ms2_12 (t : Fin cfg2.N) : Memref sig .tc .vmem S1x64 .f32 := win2_12.stage (cfg2.slots t 12)
noncomputable abbrev hs2_12 (t : Fin cfg2.N) : (ms2_12 t).IsWhole := hstage2_12 ((cfg2.slots t 12).cast nbuf2_12)
/-- The two accumulators: whole buffers of the kernel's own, passed beside the windows. -/
noncomputable abbrev scM2_0 : Memref sig .tc .vmem S1x64 .f32 := Memref.whole cc2_scratch0
noncomputable abbrev scM2_1 : Memref sig .tc .vmem S1x64 .f32 := Memref.whole cc2_scratch1
/-- The accumulators as views: what they hold is stated through these. -/
noncomputable abbrev VS2_0 : View sig .tc .vmem S1x64 .f32 := scM2_0.view
noncomputable abbrev VS2_1 : View sig .tc .vmem S1x64 .f32 := scM2_1.view
/-- One staging buffer of each output window, through which its contents are stated (the choice does not matter). -/
noncomputable abbrev VO2_11 : View sig .tc .vmem S1x64 .f32 := (Memref.whole cc2_stg11_0 : Memref sig .tc .vmem S1x64 .f32).view
noncomputable abbrev VO2_12 : View sig .tc .vmem S1x64 .f32 := (Memref.whole cc2_stg12_0 : Memref sig .tc .vmem S1x64 .f32).view

/-- The core's scoped buffers that are no staging buffer of this call: the two accumulators, as memrefs owned at some
    contents, and every other one unopened. -/
theorem scoped2_eq (c : Dev nD) :
    (Pipeline.scopedRest (Ix := Unit) (Name := ℕ) (U := UR sig nD τ) (Lvl := ℕ) (Val := Elt F) spec2 c : sProp 𝕄)
      = iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) := by
  rw [scopedRest2_split]; simp only [scM2_0, scM2_1, owns_whole]; try rfl

end Cert.Kernel.Hand

end
-- ==== Proof.KB.Reg2RunA.lean ====
import proofs.«159011_j9938554322955_1_alg».proof.Proof.KB.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the FIRST point (the index is 0): the accumulators, found at anything, are cleared and the block's column sums of z2 and z2 * z2
    added; nothing is stored into the two outputs, whose buffers are handed back as found.
    The statement: on whole memrefs, the eleven inputs at contents x0 ... x10, the body runs to any continuation that accepts the
    inputs as they were and each buffer it stored into with its stores applied, last first (the lists are what the run finds). -/
noncomputable def kernelRun2_A (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc2__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc2__stats2_kernel_eq_skeleton]; unfold cc2__stats2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.Kernel.Hand

end
-- ==== Proof.KB.Reg2RunB.lean ====
import proofs.«159011_j9938554322955_1_alg».proof.Proof.KB.Reg2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a MIDDLE point (the index is neither 0 nor 15): the block's column sums are added into the accumulators, found at xs0, xs1;
    nothing is stored into the two outputs, whose buffers are handed back as found.
    The statement: on whole memrefs, the eleven inputs at contents x0 ... x10, the body runs to any continuation that accepts the
    inputs as they were and each buffer it stored into with its stores applied, last first (the lists are what the run finds). -/
noncomputable def kernelRun2_B (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc2__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc2__stats2_kernel_eq_skeleton]; unfold cc2__stats2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.Kernel.Hand

end
-- ==== Proof.KB.Reg2RunC.lean ====
import proofs.«159011_j9938554322955_1_alg».proof.Proof.KB.Reg2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the LAST point (the index is 15): the block's column sums are added into the accumulators, found at xs0, xs1, and then
    mean = S * 2^(-16) and var = Q * 2^(-16) - mean * mean are stored into the two outputs, found at anything.
    The statement: on whole memrefs, the eleven inputs at contents x0 ... x10, the body runs to any continuation that accepts the
    inputs as they were and each buffer it stored into with its stores applied, last first (the lists are what the run finds). -/
noncomputable def kernelRun2_C (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (L11 : List (View.Piece (Elt F) S1x64 .f32)) (L12 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc2__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc2__stats2_kernel_eq_skeleton]; unfold cc2__stats2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [HS0]; · iexists _; iexact HS0
    iexists _; iexact HS1

end Cert.Kernel.Hand

end
-- ==== Proof.KB.Reg2.lean ====
import proofs.«159011_j9938554322955_1_alg».proof.Proof.KB.Reg2RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second statistics kernel of a layer, at the contents V its region is entered with -/

/-- Window w's block at point t, read off its array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Every input's staging buffer holds its block at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-! ## What each kind of point leaves in the accumulators and in the outputs -/

/-- Case A: the stores into accumulator 0 cover it. -/
theorem scover2_A_0 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1 S1x64.size (by sl_kernel_rfl) y

/-- Case A: what the point leaves in accumulator 0: its stores read back. -/
noncomputable def sout2_A_0 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1)

/-- Case A: the stores into accumulator 1 cover it. -/
theorem scover2_A_1 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1 S1x64.size (by sl_kernel_rfl) y

/-- Case A: what the point leaves in accumulator 1: its stores read back. -/
noncomputable def sout2_A_1 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1)

/-- Case B: the stores into accumulator 0 cover it. -/
theorem scover2_B_0 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- Case B: what the point leaves in accumulator 0: its stores read back. -/
noncomputable def sout2_B_0 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- Case B: the stores into accumulator 1 cover it. -/
theorem scover2_B_1 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- Case B: what the point leaves in accumulator 1: its stores read back. -/
noncomputable def sout2_B_1 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- At the last point the stores into output 11 cover its block. -/
theorem cover2_C_11 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- What the last point leaves in output 11's staging buffer: its stores read back. -/
noncomputable def out2_C_11 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO2_11.read (Elt F) (VO2_11.writes (Elt F) VO2_11.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- At the last point the stores into output 12 cover its block. -/
theorem cover2_C_12 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- What the last point leaves in output 12's staging buffer: its stores read back. -/
noncomputable def out2_C_12 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO2_12.read (Elt F) (VO2_12.writes (Elt F) VO2_12.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- Case C: the stores into accumulator 0 cover it. -/
theorem scover2_C_0 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1 S1x64.size (by sl_kernel_rfl) y

/-- Case C: what the point leaves in accumulator 0: its stores read back. -/
noncomputable def sout2_C_0 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1)

/-- Case C: the stores into accumulator 1 cover it. -/
theorem scover2_C_1 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1 S1x64.size (by sl_kernel_rfl) y

/-- Case C: what the point leaves in accumulator 1: its stores read back. -/
noncomputable def sout2_C_1 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1)

/-! ## The running sums -/

/-- THE ACCUMULATION. What the two accumulators hold after the body at position n: at the first point the cleared
    accumulators plus the block's column sums; afterwards what position n - 1 left plus the block's column sums. -/
noncomputable def outsAt2 (c : Dev nD) : (n : ℕ) → n < cfg2.N → Vec F S1x64 .f32 × Vec F S1x64 .f32
  | 0, hn => (sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩))
  | n + 1, hn =>
    if h1 : (n + 1) % 16 = 15 then
      (sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) scM2_0 (Memref.isWhole_whole _) scM2_1 (Memref.isWhole_whole _) (fun h => (fun h => by have hN : n + 1 < 16 := lt_of_lt_of_eq hn (show cfg2.N = 16 from N_2); (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (outsAt2 c n (Nat.lt_of_succ_lt hn)).1 (outsAt2 c n (Nat.lt_of_succ_lt hn)).2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) scM2_0 (Memref.isWhole_whole _) scM2_1 (Memref.isWhole_whole _) (fun h => (fun h => by have hN : n + 1 < 16 := lt_of_lt_of_eq hn (show cfg2.N = 16 from N_2); (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (outsAt2 c n (Nat.lt_of_succ_lt hn)).1 (outsAt2 c n (Nat.lt_of_succ_lt hn)).2)
    else
      (sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) scM2_0 (Memref.isWhole_whole _) scM2_1 (Memref.isWhole_whole _) (fun h => (fun h => by have hN : n + 1 < 16 := lt_of_lt_of_eq hn (show cfg2.N = 16 from N_2); (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (outsAt2 c n (Nat.lt_of_succ_lt hn)).1 (outsAt2 c n (Nat.lt_of_succ_lt hn)).2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) scM2_0 (Memref.isWhole_whole _) scM2_1 (Memref.isWhole_whole _) (fun h => (fun h => by have hN : n + 1 < 16 := lt_of_lt_of_eq hn (show cfg2.N = 16 from N_2); (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (outsAt2 c n (Nat.lt_of_succ_lt hn)).1 (outsAt2 c n (Nat.lt_of_succ_lt hn)).2)

/-- The running sums at the first point. -/
theorem outsAt2_A (c : Dev nD) (t : Fin cfg2.N) (h0 : t.val % 16 = 0) (h1 : ¬t.val % 16 = 15) :
    outsAt2 V c t.val t.isLt = (sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)) := by
  obtain ⟨n, hn⟩ := t
  cases n with
  | zero => exact rfl
  | succ n => exact (by exfalso; have hN : n + 1 < 16 := lt_of_lt_of_eq hn (show cfg2.N = 16 from N_2); (try dsimp only at h0); omega)

/-- The running sums at a middle point: over what the point before left. -/
theorem outsAt2_B (c : Dev nD) (t : Fin cfg2.N) (h0 : ¬t.val % 16 = 0) (h1 : ¬t.val % 16 = 15) :
    outsAt2 V c t.val t.isLt = (sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- The running sums at the last point: over what the point before left. -/
theorem outsAt2_C (c : Dev nD) (t : Fin cfg2.N) (h0 : ¬t.val % 16 = 0) (h1 : t.val % 16 = 15) :
    outsAt2 V c t.val t.isLt = (sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- What the two outputs' staging buffers hold after the body at the last point: mean and variance from the running sums.
    (At every other point the windows are idle and this is not consulted.) -/
noncomputable def outs2 (c : Dev nD) (t : Fin cfg2.N) : Vec F S1x64 .f32 × Vec F S1x64 .f32 :=
  if h1 : t.val % 16 = 15 then
    (out2_C_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => (fun h => by omega) ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2, out2_C_12 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => (fun h => by omega) ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2)
  else (k2_pay6 (F := F), k2_pay7 (F := F))

theorem outs2_C (c : Dev nD) (t : Fin cfg2.N) (h0 : ¬t.val % 16 = 0) (h1 : t.val % 16 = 15) :
    outs2 V c t = (out2_C_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2, out2_C_12 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2) :=
  (dif_pos h1).trans rfl

/-! ## The invariant between points -/

/-- The region invariant before position n: the generator register at some state, the two accumulators — at anything before
    the first point, afterwards at the running sums the point before left —, and every other scoped buffer unopened. -/
noncomputable def PhiS2 (c : Dev nD) : (n : ℕ) → n ≤ cfg2.N → sProp 𝕄
  | 0, _ => iprop((∃ r, prngReg c r) ∗ iprop((∃ d, owns (c : Thread nD τ) scM2_0 fullShare d) ∗ (∃ d, owns (c : Thread nD τ) scM2_1 fullShare d)) ∗ Pipeline.scopedRestBut (Ix := Unit) (Name := ℕ) (U := UR sig nD τ) (Lvl := ℕ) (Val := Elt F) spec2 c [cc2_scratch0, cc2_scratch1])
  | n + 1, hn => iprop((∃ r, prngReg c r) ∗ iprop(owns (c : Thread nD τ) scM2_0 fullShare ((outsAt2 V c n hn).1) ∗ owns (c : Thread nD τ) scM2_1 fullShare ((outsAt2 V c n hn).2)) ∗ Pipeline.scopedRestBut (Ix := Unit) (Name := ℕ) (U := UR sig nD τ) (Lvl := ℕ) (Val := Elt F) spec2 c [cc2_scratch0, cc2_scratch1])

theorem PhiS2_zero (c : Dev nD) (n : ℕ) (h : n ≤ cfg2.N) (hz : n = 0) :
    PhiS2 V c n h = iprop((∃ r, prngReg c r) ∗ iprop((∃ d, owns (c : Thread nD τ) scM2_0 fullShare d) ∗ (∃ d, owns (c : Thread nD τ) scM2_1 fullShare d)) ∗ Pipeline.scopedRestBut (Ix := Unit) (Name := ℕ) (U := UR sig nD τ) (Lvl := ℕ) (Val := Elt F) spec2 c [cc2_scratch0, cc2_scratch1]) := by
  subst hz; rfl

theorem PhiS2_succ (c : Dev nD) (n : ℕ) (hn : n < cfg2.N) :
    PhiS2 V c (n + 1) hn = iprop((∃ r, prngReg c r) ∗ iprop(owns (c : Thread nD τ) scM2_0 fullShare ((outsAt2 V c n hn).1) ∗ owns (c : Thread nD τ) scM2_1 fullShare ((outsAt2 V c n hn).2)) ∗ Pipeline.scopedRestBut (Ix := Unit) (Name := ℕ) (U := UR sig nD τ) (Lvl := ℕ) (Val := Elt F) spec2 c [cc2_scratch0, cc2_scratch1]) := rfl

theorem PhiS2_pos (c : Dev nD) (n : ℕ) (h : n ≤ cfg2.N) (hz : n ≠ 0) :
    PhiS2 V c n h = iprop((∃ r, prngReg c r) ∗ iprop(owns (c : Thread nD τ) scM2_0 fullShare ((outsAt2 V c (n - 1) (by omega)).1) ∗ owns (c : Thread nD τ) scM2_1 fullShare ((outsAt2 V c (n - 1) (by omega)).2)) ∗ Pipeline.scopedRestBut (Ix := Unit) (Name := ℕ) (U := UR sig nD τ) (Lvl := ℕ) (Val := Elt F) spec2 c [cc2_scratch0, cc2_scratch1]) := by
  cases n with
  | zero => exact absurd rfl hz
  | succ n => rfl

/-! ## The proof data -/

/-- The proof data of the call on core c: the arrays as the region finds them; after the body each input's buffer at its
    block, the outputs' at mean and variance of the running sums; the invariant above; nothing owed; full shares. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => (outs2 V c t).1
    | ⟨12, _⟩ => (outs2 V c t).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = (outs2 V c t).1 := by dsimp only [dat2]
theorem after2_12 (c : Dev nD) (t : Fin cfg2.N) : (dat2 V c).after 12 t = (outs2 V c t).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d

/-! ## The body obligation, at a generic point -/

/-- What the body is called with at point t, -/
noncomputable def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d)))

/-- and what it returns. -/
noncomputable def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t)

set_option maxHeartbeats 8000000 in
/-- The body at any point. The inputs' memrefs hold their blocks. At the first point the invariant hands the body the
    accumulators at anything and takes them back cleared-and-added; at a later point it hands them at the running sums the
    point before left and takes them back with this block's sums added. Away from the last point the outputs' buffers are
    handed back as found (the windows are idle there); at the last point they are left at mean and variance. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  rw [show (dat2 V c).leavesExact 9 t = owns (c : Thread nD τ) (ms2_9 t) fullShare ((dat2 V c).after 9 t) from by
    unfold Dat.leavesExact; rw [liveAt2_9 t], after2_9]
  rw [show (dat2 V c).leavesExact 10 t = owns (c : Thread nD τ) (ms2_10 t) fullShare ((dat2 V c).after 10 t) from by
    unfold Dat.leavesExact; rw [liveAt2_10 t], after2_10]
  by_cases h1 : t.val % 16 = 15
  · have h0 : ¬t.val % 16 = 0 := by omega
    have hz : t.val ≠ 0 := by omega
    rw [show (dat2 V c).leavesExact 11 t = owns (c : Thread nD τ) (ms2_11 t) fullShare ((dat2 V c).after 11 t) from by
      unfold Dat.leavesExact; rw [liveAt2_11 t ((hcond2_1 t).mpr h1)], after2_11]
    rw [show (dat2 V c).leavesExact 12 t = owns (c : Thread nD τ) (ms2_12 t) fullShare ((dat2 V c).after 12 t) from by
      unfold Dat.leavesExact; rw [liveAt2_12 t ((hcond2_1 t).mpr h1)], after2_12]
    rw [outsAt2_C V c t h0 h1, outs2_C V c t h0 h1]
    unfold out2_C_11 out2_C_12 sout2_C_0 sout2_C_1; (try dsimp only)
    rw [PhiS2_castSucc V c t, PhiS2_pos V c _ _ hz]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun2_C c (grid2.coords t) _ _ _ _ _ _ _ _ _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    iintro ⟨H0, H1, H2, H3, H4, H5, H6, H7, H8, H9, H10, ⟨%e11, H11⟩, ⟨%e12, H12⟩, ⟨%es0, HS0⟩, ⟨%es1, HS1⟩⟩
    isplitl [Hg HS0 HS1 HR]
    · isplitl [Hg]; · iexact Hg
      isplitl [HS0 HS1]
      · isplitl [HS0]
        · unfold owns; iexists _; isplitr
          swap; · iexact HS0
          ipureintro; exact View.read_writes_of_cover _ _ _ _ _ (scover2_C_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover2_C_1 c _ _ _ _ _ _ _ _ _ _ _ _ _ _ _ _ _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover2_C_11 c _ _ _ _ _ _ _ _ _ _ _ _ _ _ _ _ _ _ _ _ _ _ _ _ _ _ _ _ _ _ _ _ _ _ _ _ _ _ _ _ _ _ _ _ _ _)
    · unfold owns; iexists _; isplitr
      swap; · iexact H12
      ipureintro; exact View.read_writes_of_cover _ _ _ _ _ (cover2_C_12 c _ _ _ _ _ _ _ _ _ _ _ _ _ _ _ _ _ _ _ _ _ _ _ _ _ _ _ _ _ _ _ _ _ _ _ _ _ _ _ _ _ _ _ _ _ _)
  · rw [Dat.leavesExact_idle (dat2 V c) 11 t (idleAt2_11 t (fun h => h1 ((hcond2_1 t).mp h))) (noFlush2_11 t (fun h => h1 ((hcond2_1 t).mp h)))]
    rw [Dat.leavesExact_idle (dat2 V c) 12 t (idleAt2_12 t (fun h => h1 ((hcond2_1 t).mp h))) (noFlush2_12 t (fun h => h1 ((hcond2_1 t).mp h)))]
    by_cases h0 : t.val % 16 = 0
    · have hz : t.val = 0 := by omega
      rw [outsAt2_A V c t h0 h1]
      unfold sout2_A_0 sout2_A_1; (try dsimp only)
      rw [PhiS2_castSucc V c t, PhiS2_zero V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun2_A c (grid2.coords t) _ _ _ _ _ _ _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
    · have hz : t.val ≠ 0 := by omega
      rw [outsAt2_B V c t h0 h1]
      unfold sout2_B_0 sout2_B_1; (try dsimp only)
      rw [PhiS2_castSucc V c t, PhiS2_pos V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun2_B c (grid2.coords t) _ _ _ _ _ _ _ _ _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point: the scoped rest split at the two accumulators. -/
theorem phi_in2 (c : Dev nD) :
    (iprop((∃ r, prngReg c r) ∗ Pipeline.scopedRest (Ix := Unit) (Name := ℕ) (U := UR sig nD τ) (Lvl := ℕ) (Val := Elt F) spec2 c) : sProp 𝕄)
      ⊢ (dat2 V c).Φ 0 := by
  rw [show (dat2 V c).Φ 0 = PhiS2 V c 0 (Nat.zero_le _) from rfl, PhiS2_zero V c 0 _ rfl, scoped2_eq]

/-- After the last point the invariant gives the scoped rest back: the accumulators' named contents are forgotten. -/
theorem phi_out2 (c : Dev nD) :
    (dat2 V c).Φ (Fin.last cfg2.N)
      ⊢ (iprop((∃ r, prngReg c r) ∗ Pipeline.scopedRest (Ix := Unit) (Name := ℕ) (U := UR sig nD τ) (Lvl := ℕ) (Val := Elt F) spec2 c) : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), scoped2_eq]
  iintro ⟨Hg, ⟨HS0, HS1⟩, HR⟩
  isplitl [Hg]; · iexact Hg
  isplitl [HS0 HS1]
  · isplitl [HS0]; · iexists _; iexact HS0
    iexists _; iexact HS1
  iexact HR

/-! ## The found stores read back: one point's additions, and mean and variance -/

theorem hz2 : (![0, 0] : Fin 2 → Nat) = fun _ => 0 := funext fun a => by fin_cases a <;> rfl

/-- One point's addition to the first accumulator s: s plus the column sums of the block of z2 that the eleven input blocks give. -/
noncomputable def add2_0 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k2_pay2 (k2_pay8 x2 x0 x1 x3 x4 x5 x6) (k2_pay9 x7) x8 x9 x10 s
/-- One point's addition to the second accumulator: s plus the column sums of z2 * z2 of the same block. -/
noncomputable def add2_1 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k2_pay3 (k2_pay8 x2 x0 x1 x3 x4 x5 x6) (k2_pay9 x7) x8 x9 x10 s

theorem sout2_B_0_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout2_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add2_0 x0 x1 x2 x3 x4 x5 x6 x7 x8 x9 x10 xs0 := by
  unfold sout2_B_0 add2_0
  rw [View.read_writes_eq_canon _ _ _ (scover2_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

theorem sout2_B_1_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout2_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add2_1 x0 x1 x2 x3 x4 x5 x6 x7 x8 x9 x10 xs1 := by
  unfold sout2_B_1 add2_1
  rw [View.read_writes_eq_canon _ _ _ (scover2_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

theorem sout2_A_0_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout2_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add2_0 x0 x1 x2 x3 x4 x5 x6 x7 x8 x9 x10 (k2_pay6 (F := F)) := by
  unfold sout2_A_0 add2_0
  rw [View.read_writes_eq_canon _ _ _ (scover2_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun2_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

theorem sout2_A_1_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout2_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add2_1 x0 x1 x2 x3 x4 x5 x6 x7 x8 x9 x10 (k2_pay7 (F := F)) := by
  unfold sout2_A_1 add2_1
  rw [View.read_writes_eq_canon _ _ _ (scover2_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun2_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

theorem sout2_C_0_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout2_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add2_0 x0 x1 x2 x3 x4 x5 x6 x7 x8 x9 x10 xs0 := by
  unfold sout2_C_0 add2_0
  rw [View.read_writes_eq_canon _ _ _ (scover2_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun2_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

theorem sout2_C_1_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout2_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add2_1 x0 x1 x2 x3 x4 x5 x6 x7 x8 x9 x10 xs1 := by
  unfold sout2_C_1 add2_1
  rw [View.read_writes_eq_canon _ _ _ (scover2_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun2_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

theorem out2_C_11_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out2_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k2_pay4 (add2_0 x0 x1 x2 x3 x4 x5 x6 x7 x8 x9 x10 xs0) := by
  unfold out2_C_11 add2_0
  rw [View.read_writes_eq_canon _ _ _ (cover2_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun2_C
  dsimp only
  sl_unfold_words
  rw [View.canon_unit_zero hz2]
  simp only [View.readCov_unit_zero (S := S1x64) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

theorem out2_C_12_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out2_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k2_pay5 (add2_0 x0 x1 x2 x3 x4 x5 x6 x7 x8 x9 x10 xs0) (add2_1 x0 x1 x2 x3 x4 x5 x6 x7 x8 x9 x10 xs1) := by
  unfold out2_C_12 add2_0 add2_1
  rw [View.read_writes_eq_canon _ _ _ (cover2_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun2_C
  dsimp only
  sl_unfold_words
  rw [View.canon_unit_zero hz2]
  simp only [View.readCov_unit_zero (S := S1x64) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

/-! ## The running sums in closed form -/

/-- The ORDERED running sums after position n: the cleared accumulators plus the first block's sums, then one block's sums
    more per point. -/
noncomputable def sums2 (c : Dev nD) : (n : ℕ) → n < cfg2.N → Vec F S1x64 .f32 × Vec F S1x64 .f32
  | 0, h => (add2_0 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩) (iblk2 V c 9 ⟨0, h⟩) (iblk2 V c 10 ⟨0, h⟩) (k2_pay6 (F := F)), add2_1 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩) (iblk2 V c 9 ⟨0, h⟩) (iblk2 V c 10 ⟨0, h⟩) (k2_pay7 (F := F)))
  | n + 1, h => (add2_0 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (sums2 c n (Nat.lt_of_succ_lt h)).1, add2_1 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (sums2 c n (Nat.lt_of_succ_lt h)).2)

/-- What the accumulators hold after position n IS the running sums: by induction on the point. -/
theorem outsAt2_eq (c : Dev nD) : ∀ (n : ℕ) (h : n < cfg2.N), outsAt2 V c n h = sums2 V c n h
  | 0, h => by
    rw [outsAt2_A V c ⟨0, h⟩ rfl (by show ¬(0 : ℕ) % 16 = 15; omega), sout2_A_0_eq, sout2_A_1_eq]
    rfl
  | n + 1, h => by
    have hN : cfg2.N = 16 := N_2
    have hB : ¬(⟨n + 1, h⟩ : Fin cfg2.N).val % 16 = 0 := by dsimp only; omega
    have ih := outsAt2_eq c n (Nat.lt_of_succ_lt h)
    by_cases h1 : (⟨n + 1, h⟩ : Fin cfg2.N).val % 16 = 15
    · rw [outsAt2_C V c ⟨n + 1, h⟩ hB h1, sout2_C_0_eq, sout2_C_1_eq]
      show (add2_0 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (outsAt2 V c n _).1, add2_1 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (outsAt2 V c n _).2) = (add2_0 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (sums2 V c n _).1, add2_1 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (sums2 V c n _).2)
      rw [ih]
    · rw [outsAt2_B V c ⟨n + 1, h⟩ hB h1, sout2_B_0_eq, sout2_B_1_eq]
      show (add2_0 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (outsAt2 V c n _).1, add2_1 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (outsAt2 V c n _).2) = (add2_0 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (sums2 V c n _).1, add2_1 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (sums2 V c n _).2)
      rw [ih]

/-! ## What the region leaves in its two output arrays -/

/-- The running sums after the last point. -/
noncomputable abbrev total2 (c : Dev nD) : Vec F S1x64 .f32 × Vec F S1x64 .f32 := sums2 V c 15 (by rw [show cfg2.N = 16 from N_2]; decide)

/-- The mean array the region leaves: S * 2^(-16) of the first running sum. -/
noncomputable def G2_11 (c : Dev nD) : Buf (Elt F) ((c : Thread nD τ).loc main_v46_0) := k2_pay4 (total2 V c).1
/-- The variance array the region leaves: Q * 2^(-16) - mean * mean. -/
noncomputable def G2_12 (c : Dev nD) : Buf (Elt F) ((c : Thread nD τ).loc main_v46_1) := k2_pay5 (total2 V c).1 (total2 V c).2

/-- What the last point leaves in the two outputs' staging buffers. -/
theorem outs2_last (c : Dev nD) : outs2 V c t2_15 = (k2_pay4 (total2 V c).1, k2_pay5 (total2 V c).1 (total2 V c).2) := by
  rw [outs2_C V c t2_15 (by decide) (by decide), out2_C_11_eq, out2_C_12_eq]
  have ih := outsAt2_eq V c 14 (by rw [show cfg2.N = 16 from N_2]; decide)
  show (k2_pay4 (add2_0 (iblk2 V c 0 t2_15) (iblk2 V c 1 t2_15) (iblk2 V c 2 t2_15) (iblk2 V c 3 t2_15) (iblk2 V c 4 t2_15) (iblk2 V c 5 t2_15) (iblk2 V c 6 t2_15) (iblk2 V c 7 t2_15) (iblk2 V c 8 t2_15) (iblk2 V c 9 t2_15) (iblk2 V c 10 t2_15) (outsAt2 V c 14 _).1), k2_pay5 (add2_0 (iblk2 V c 0 t2_15) (iblk2 V c 1 t2_15) (iblk2 V c 2 t2_15) (iblk2 V c 3 t2_15) (iblk2 V c 4 t2_15) (iblk2 V c 5 t2_15) (iblk2 V c 6 t2_15) (iblk2 V c 7 t2_15) (iblk2 V c 8 t2_15) (iblk2 V c 9 t2_15) (iblk2 V c 10 t2_15) (outsAt2 V c 14 _).1) (add2_1 (iblk2 V c 0 t2_15) (iblk2 V c 1 t2_15) (iblk2 V c 2 t2_15) (iblk2 V c 3 t2_15) (iblk2 V c 4 t2_15) (iblk2 V c 5 t2_15) (iblk2 V c 6 t2_15) (iblk2 V c 7 t2_15) (iblk2 V c 8 t2_15) (iblk2 V c 9 t2_15) (iblk2 V c 10 t2_15) (outsAt2 V c 14 _).2)) = _
  rw [ih]
  rfl

/-- The one write-back of window 11, at the last point, writes it: the block is the whole array. -/
theorem flushed2_11 (c : Dev nD) (t : Fin cfg2.N) (hf : (cfg2.win 11).flush t = true) :
    (dat2 V c).flushed 11 t = ((cfg2.win 11).blk t).view.read (Elt F) (G2_11 V c) := by
  have hN : cfg2.N = 16 := N_2
  have h15 : t.val = 15 := by have := (flush2_11 t).mp hf; have := t.isLt; omega
  obtain rfl : t = t2_15 := Fin.ext h15
  show (cfg2.win 11).cut (grid2.coords t2_15) ((dat2 V c).after 11 t2_15) = _
  rw [after2_11, outs2_last]
  have hz' : (fun a => win2_11.index t2_15 a * main_v46_0.ty.shape.size a) = fun _ => 0 := funext fun a => by fin_cases a <;> decide
  exact (Memref.read_access_unit_zero (Elt F) main_v46_0 hz' (fun a => by rw [congrFun hz' a]; simp) (G2_11 V c)).symm

set_option maxHeartbeats 4000000 in
/-- So the array of window 11 ends holding it: the last point's block covers the array. -/
theorem final2_11 (c : Dev nD) : (dat2 V c).arrAt ⟨11, by decide⟩ cfg2.N = G2_11 V c :=
  (dat2 V c).arrAt_eq_of_cover 11 (G2_11 V c) (flushed2_11 V c) fun i =>
    ⟨t2_15, (flush2_11 t2_15).mpr rfl, by
      show i ∈ ((View.whole main_v46_0).slice (win2_11.rect t2_15)).set
      rw [View.set_slice_whole, Rect.mem_set_unit]
      intro a
      have h0 : (i 0 : Nat) < 1 := (i 0).isLt
      have h1 : (i 1 : Nat) < 64 := (i 1).isLt
      match a with
      | ⟨0, _⟩ => show win2_11.index t2_15 0 * win2_11.size 0 ≤ (i 0 : Nat) ∧ (i 0 : Nat) < win2_11.index t2_15 0 * win2_11.size 0 + win2_11.xsize (grid2.coords t2_15) 0
                  rw [show win2_11.index t2_15 0 * win2_11.size 0 = 0 from by decide +kernel, show win2_11.xsize (grid2.coords t2_15) 0 = 1 from by decide +kernel]; omega
      | ⟨1, _⟩ => show win2_11.index t2_15 1 * win2_11.size 1 ≤ (i 1 : Nat) ∧ (i 1 : Nat) < win2_11.index t2_15 1 * win2_11.size 1 + win2_11.xsize (grid2.coords t2_15) 1
                  rw [show win2_11.index t2_15 1 * win2_11.size 1 = 0 from by decide +kernel, show win2_11.xsize (grid2.coords t2_15) 1 = 64 from by decide +kernel]; omega⟩

/-- The one write-back of window 12, at the last point, writes it: the block is the whole array. -/
theorem flushed2_12 (c : Dev nD) (t : Fin cfg2.N) (hf : (cfg2.win 12).flush t = true) :
    (dat2 V c).flushed 12 t = ((cfg2.win 12).blk t).view.read (Elt F) (G2_12 V c) := by
  have hN : cfg2.N = 16 := N_2
  have h15 : t.val = 15 := by have := (flush2_12 t).mp hf; have := t.isLt; omega
  obtain rfl : t = t2_15 := Fin.ext h15
  show (cfg2.win 12).cut (grid2.coords t2_15) ((dat2 V c).after 12 t2_15) = _
  rw [after2_12, outs2_last]
  have hz' : (fun a => win2_12.index t2_15 a * main_v46_1.ty.shape.size a) = fun _ => 0 := funext fun a => by fin_cases a <;> decide
  exact (Memref.read_access_unit_zero (Elt F) main_v46_1 hz' (fun a => by rw [congrFun hz' a]; simp) (G2_12 V c)).symm

set_option maxHeartbeats 4000000 in
/-- So the array of window 12 ends holding it: the last point's block covers the array. -/
theorem final2_12 (c : Dev nD) : (dat2 V c).arrAt ⟨12, by decide⟩ cfg2.N = G2_12 V c :=
  (dat2 V c).arrAt_eq_of_cover 12 (G2_12 V c) (flushed2_12 V c) fun i =>
    ⟨t2_15, (flush2_12 t2_15).mpr rfl, by
      show i ∈ ((View.whole main_v46_1).slice (win2_12.rect t2_15)).set
      rw [View.set_slice_whole, Rect.mem_set_unit]
      intro a
      have h0 : (i 0 : Nat) < 1 := (i 0).isLt
      have h1 : (i 1 : Nat) < 64 := (i 1).isLt
      match a with
      | ⟨0, _⟩ => show win2_12.index t2_15 0 * win2_12.size 0 ≤ (i 0 : Nat) ∧ (i 0 : Nat) < win2_12.index t2_15 0 * win2_12.size 0 + win2_12.xsize (grid2.coords t2_15) 0
                  rw [show win2_12.index t2_15 0 * win2_12.size 0 = 0 from by decide +kernel, show win2_12.xsize (grid2.coords t2_15) 0 = 1 from by decide +kernel]; omega
      | ⟨1, _⟩ => show win2_12.index t2_15 1 * win2_12.size 1 ≤ (i 1 : Nat) ∧ (i 1 : Nat) < win2_12.index t2_15 1 * win2_12.size 1 + win2_12.xsize (grid2.coords t2_15) 1
                  rw [show win2_12.index t2_15 1 * win2_12.size 1 = 0 from by decide +kernel, show win2_12.xsize (grid2.coords t2_15) 1 = 64 from by decide +kernel]; omega⟩

end Cert.Kernel.Hand

end
-- ==== Proof.KB.Reg3.lean ====
/- One of the network's four regions that finish a layer: the second half of a layer, on sixteen blocks of 4096 nodes. At each block the body
   forms (1 + e)·x + agg, maps it to 128 features, normalises by the layer's first mean and variance, clips at zero,
   maps back to 64 features, normalises by the second mean and variance, clips again and adds x. Everything the body
   reads is a block of one of fifteen arrays as the region finds them; what it writes is one block of the sixteenth.
   Stated at any entry contents V of the core's buffers and at any float model. -/
import proofs.«159011_j9938554322955_1_alg».proof.Proof.Gen.Kernel.Launch
import proofs.«159011_j9938554322955_1_alg».proof.Proof.Gen.Kernel.Skeleton
import proofs.«159011_j9938554322955_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

-- membership in a rectangle of 4096 rows is decided by a structural recursion one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window w's block at point t, read off its array as the region finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's buffer holds its block at every point, whether the block was brought in there or not: a block
    that is not brought in again has not moved, and the body leaves every input as it found it. One statement per
    input window, for any proof data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)

/-! ## What the body reads and writes: every buffer whole -/

noncomputable abbrev rRows3 : Rect S4096x64 := Rect.unit (s := S4096x64) ![0, 0] S4096x64.size inb_S4096x64_S4096x64_0_0
noncomputable abbrev rRowS3 : Rect S1x64 := Rect.unit (s := S1x64) ![0, 0] S1x64.size inb_S1x64_S1x64_0_0
noncomputable abbrev rMatA3 : Rect S64x128 := Rect.unit (s := S64x128) ![0, 0] S64x128.size inb_S64x128_S64x128_0_0
noncomputable abbrev rRowL3 : Rect S1x128 := Rect.unit (s := S1x128) ![0, 0] S1x128.size inb_S1x128_S1x128_0_0
noncomputable abbrev rMatB3 : Rect S128x64 := Rect.unit (s := S128x64) ![0, 0] S128x64.size inb_S128x64_S128x64_0_0

/-! ## What the body leaves in the output block -/

/-- The output block after the body, from the fifteen input blocks: one store over the whole block, of the second
    normalisation clipped plus x, itself computed from the first normalisation's two factors. -/
noncomputable def out3_15 (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) : Vec F S4096x64 .f32 :=
  View.canon [⟨rRows3, k3_pay1 (k3_pay2 (View.ld x_2 rRowS3) (View.ld x_0 rRows3) (View.ld x_1 rRows3) (View.ld x_3 rMatA3) (View.ld x_4 rRowL3) (View.ld x_5 rRowL3) (View.ld x_6 rRowL3) (View.ld x_7 rRowL3)) (k3_pay3 (View.ld x_8 rRowL3)) (View.ld x_9 rMatB3) (View.ld x_10 rRowS3) (View.ld x_11 rRowS3) (View.ld x_12 rRowS3) (View.ld x_13 rRowS3) (View.ld x_14 rRowS3) (View.ld x_0 rRows3)⟩]

/-- The one store covers the block. -/
theorem cover3_15 (p0 : Vec F S4096x64 .f32) (y : S4096x64.Idx) :
    ∃ pc ∈ ([⟨rRows3, p0⟩] : List (View.Piece (Elt F) S4096x64 .f32)), y ∈ pc.1.set :=
  View.cover_of_tiled [⟨rRows3, p0⟩] S4096x64.size (by rfl) y

/-! ## The body's triple -/

set_option maxHeartbeats 4000000 in
/-- The body on whole buffers, the fifteen inputs' at read contents x_0 … x_14 and the output's at anything, runs to the
    continuation holding the inputs' as they were and the output's at out3_15 of them. -/
theorem sound_kernel3 (c : Dev nD) (E : Set ℕ) (i : grid3.Coords) (a_0 : Memref sig .tc .vmem S4096x64 .f32) (h_0 : a_0.IsWhole) (a_1 : Memref sig .tc .vmem S4096x64 .f32) (h_1 : a_1.IsWhole) (a_2 : Memref sig .tc .vmem S1x64 .f32) (h_2 : a_2.IsWhole) (a_3 : Memref sig .tc .vmem S64x128 .f32) (h_3 : a_3.IsWhole) (a_4 : Memref sig .tc .vmem S1x128 .f32) (h_4 : a_4.IsWhole) (a_5 : Memref sig .tc .vmem S1x128 .f32) (h_5 : a_5.IsWhole) (a_6 : Memref sig .tc .vmem S1x128 .f32) (h_6 : a_6.IsWhole) (a_7 : Memref sig .tc .vmem S1x128 .f32) (h_7 : a_7.IsWhole) (a_8 : Memref sig .tc .vmem S1x128 .f32) (h_8 : a_8.IsWhole) (a_9 : Memref sig .tc .vmem S128x64 .f32) (h_9 : a_9.IsWhole) (a_10 : Memref sig .tc .vmem S1x64 .f32) (h_10 : a_10.IsWhole) (a_11 : Memref sig .tc .vmem S1x64 .f32) (h_11 : a_11.IsWhole) (a_12 : Memref sig .tc .vmem S1x64 .f32) (h_12 : a_12.IsWhole) (a_13 : Memref sig .tc .vmem S1x64 .f32) (h_13 : a_13.IsWhole) (a_14 : Memref sig .tc .vmem S1x64 .f32) (h_14 : a_14.IsWhole) (a_15 : Memref sig .tc .vmem S4096x64 .f32) (h_15 : a_15.IsWhole)
    (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) (K : PUnit → sProp 𝕄) :
    iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ (∃ d, owns (c : Thread nD τ) a_15 fullShare d)
        ∗ (iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ owns (c : Thread nD τ) a_15 fullShare (out3_15 x_0 x_1 x_2 x_3 x_4 x_5 x_6 x_7 x_8 x_9 x_10 x_11 x_12 x_13 x_14)) -∗ K ⟨⟩))
      ⊢ wp frame (wpE (defs₀ (F := F)) Variants.none c none) E (cc3__apply_kernel i a_0 h_0 a_1 h_1 a_2 h_2 a_3 h_3 a_4 h_4 a_5 h_5 a_6 h_6 a_7 h_7 a_8 h_8 a_9 h_9 a_10 h_10 a_11 h_11 a_12 h_12 a_13 h_13 a_14 h_14 a_15 h_15) K := by
  simp only [cc3__apply_kernel_eq_skeleton]; unfold cc3__apply_kernel_skel
  unfold owns
  iintro ⟨⟨%f_0, %hf_0, H_0⟩, ⟨%f_1, %hf_1, H_1⟩, ⟨%f_2, %hf_2, H_2⟩, ⟨%f_3, %hf_3, H_3⟩, ⟨%f_4, %hf_4, H_4⟩, ⟨%f_5, %hf_5, H_5⟩, ⟨%f_6, %hf_6, H_6⟩, ⟨%f_7, %hf_7, H_7⟩, ⟨%f_8, %hf_8, H_8⟩, ⟨%f_9, %hf_9, H_9⟩, ⟨%f_10, %hf_10, H_10⟩, ⟨%f_11, %hf_11, H_11⟩, ⟨%f_12, %hf_12, H_12⟩, ⟨%f_13, %hf_13, H_13⟩, ⟨%f_14, %hf_14, H_14⟩, ⟨%d_15, %f_15, -, H_15⟩, Hk⟩
  subst hf_0 hf_1 hf_2 hf_3 hf_4 hf_5 hf_6 hf_7 hf_8 hf_9 hf_10 hf_11 hf_12 hf_13 hf_14
  sl_exec
  sl_step
  iapply Hk
  isplitl [H_0]
  · iexists f_0; isplitr; · ipureintro; rfl
    iexact H_0
  isplitl [H_1]
  · iexists f_1; isplitr; · ipureintro; rfl
    iexact H_1
  isplitl [H_2]
  · iexists f_2; isplitr; · ipureintro; rfl
    iexact H_2
  isplitl [H_3]
  · iexists f_3; isplitr; · ipureintro; rfl
    iexact H_3
  isplitl [H_4]
  · iexists f_4; isplitr; · ipureintro; rfl
    iexact H_4
  isplitl [H_5]
  · iexists f_5; isplitr; · ipureintro; rfl
    iexact H_5
  isplitl [H_6]
  · iexists f_6; isplitr; · ipureintro; rfl
    iexact H_6
  isplitl [H_7]
  · iexists f_7; isplitr; · ipureintro; rfl
    iexact H_7
  isplitl [H_8]
  · iexists f_8; isplitr; · ipureintro; rfl
    iexact H_8
  isplitl [H_9]
  · iexists f_9; isplitr; · ipureintro; rfl
    iexact H_9
  isplitl [H_10]
  · iexists f_10; isplitr; · ipureintro; rfl
    iexact H_10
  isplitl [H_11]
  · iexists f_11; isplitr; · ipureintro; rfl
    iexact H_11
  isplitl [H_12]
  · iexists f_12; isplitr; · ipureintro; rfl
    iexact H_12
  isplitl [H_13]
  · iexists f_13; isplitr; · ipureintro; rfl
    iexact H_13
  isplitl [H_14]
  · iexists f_14; isplitr; · ipureintro; rfl
    iexact H_14
  iexists _; isplitr
  swap; · iexact H_15
  ipureintro
  exact View.read_writes_eq_canon _ _ _ (cover3_15 _)

/-! ## The proof data -/

/-- The region's proof data on core c: the arrays as the region finds them; after the body at point t each input's
    buffer at its block and the output's at out3_15 of the input blocks; the invariant the scoped rest and the
    generator register, untouched; nothing owed; full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t)
    | ⟨_ + 16, h⟩ => absurd h (Nat.not_lt.2 (Nat.le_add_left _ _))
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d

/-! ## The body obligation -/

/-- What the body is called with at point t, -/
noncomputable def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d)))

/-- and what it returns. -/
noncomputable def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t))

set_option maxHeartbeats 1000000 in
/-- The body at any point: the inputs' buffers hold their blocks, so the triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15]
  iintro ⟨HΦ, Ho, ⟨%d_0, H_0⟩, ⟨%d_1, H_1⟩, ⟨%d_2, H_2⟩, ⟨%d_3, H_3⟩, ⟨%d_4, H_4⟩, ⟨%d_5, H_5⟩, ⟨%d_6, H_6⟩, ⟨%d_7, H_7⟩, ⟨%d_8, H_8⟩, ⟨%d_9, H_9⟩, ⟨%d_10, H_10⟩, ⟨%d_11, H_11⟩, ⟨%d_12, H_12⟩, ⟨%d_13, H_13⟩, ⟨%d_14, H_14⟩, ⟨%d_15, H_15⟩⟩
  iapply (sound_kernel3 c Set.univ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) _)
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  isplitl [H_15]; · iexists _; iexact H_15
  iintro ⟨H_0, H_1, H_2, H_3, H_4, H_5, H_6, H_7, H_8, H_9, H_10, H_11, H_12, H_13, H_14, H_15⟩
  isplitl [HΦ]; · iexact HΦ
  isplitl [Ho]; · iexact Ho
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  iexact H_15

theorem body_obligation3 (c : Dev nD) : BodyObligation (dat3 (F := F) V c) (defs₀ (F := F)) Variants.none () Set.univ := fun t => by
  rw [bigSep_W3, bigSep_W3]
  exact sound_body3 V c t

/-! ## The invariant at the region's ends -/

theorem phi_in3 (c : Dev nD) :
    (iprop((∃ r, prngReg c r) ∗ Pipeline.scopedRest (Ix := Unit) (Name := ℕ) (U := UR sig nD τ) (Lvl := ℕ) (Val := Elt F) spec3 c) : sProp 𝕄)
      ⊢ (dat3 V c).Φ 0 := by
  rw [show (dat3 V c).Φ 0 = Pipeline.ΦA spec3 c from rfl]; unfold Pipeline.ΦA
  iintro ⟨Hp, Hr⟩
  isplitl [Hr]; · iexact Hr
  iexact Hp

theorem phi_out3 (c : Dev nD) :
    (dat3 V c).Φ (Fin.last cfg3.N)
      ⊢ (iprop((∃ r, prngReg c r) ∗ Pipeline.scopedRest (Ix := Unit) (Name := ℕ) (U := UR sig nD τ) (Lvl := ℕ) (Val := Elt F) spec3 c) : sProp 𝕄) := by
  rw [show (dat3 V c).Φ (Fin.last _) = Pipeline.ΦA spec3 c from rfl]; unfold Pipeline.ΦA
  iintro ⟨Hr, Hp⟩
  isplitl [Hp]; · iexact Hp
  iexact Hr

/-! ## The whole output array

    Sixteen blocks of 4096 rows tile the 65536 rows, block t holding rows 4096·t … 4096·t + 4095, so row r is written
    at point r / 4096, at place r % 4096 of the block, and what is written there depends on the inputs' blocks at that
    point only. -/

/-- The point whose block holds an index's row. -/
noncomputable def pt3 (i : S65536x64.Idx) : Fin cfg3.N :=
  ⟨(i 0).val / 4096, by have h := ValueIdx.idx2_lt0 i; show (i 0).val / 4096 < grid3.N; rw [N_3]; omega⟩

/-- Where an index of the array sits inside its block. -/
noncomputable def loc3 (i : S65536x64.Idx) : S4096x64.Idx :=
  ValueIdx.ix2 ⟨(i 0).val % 4096, Nat.mod_lt _ (by decide)⟩ (i 1)

/-- The output array as one function of the fifteen input arrays: at each index, what the body leaves at the index's
    place in its block, from the inputs' blocks at the index's point. -/
noncomputable def G3_15 (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) : S65536x64.Idx → Elt F .f32 :=
  fun i => out3_15
      (((cfg3.win 0).blk (pt3 i)).view.read (Elt F) A_0)
      (((cfg3.win 1).blk (pt3 i)).view.read (Elt F) A_1)
      (((cfg3.win 2).blk (pt3 i)).view.read (Elt F) A_2)
      (((cfg3.win 3).blk (pt3 i)).view.read (Elt F) A_3)
      (((cfg3.win 4).blk (pt3 i)).view.read (Elt F) A_4)
      (((cfg3.win 5).blk (pt3 i)).view.read (Elt F) A_5)
      (((cfg3.win 6).blk (pt3 i)).view.read (Elt F) A_6)
      (((cfg3.win 7).blk (pt3 i)).view.read (Elt F) A_7)
      (((cfg3.win 8).blk (pt3 i)).view.read (Elt F) A_8)
      (((cfg3.win 9).blk (pt3 i)).view.read (Elt F) A_9)
      (((cfg3.win 10).blk (pt3 i)).view.read (Elt F) A_10)
      (((cfg3.win 11).blk (pt3 i)).view.read (Elt F) A_11)
      (((cfg3.win 12).blk (pt3 i)).view.read (Elt F) A_12)
      (((cfg3.win 13).blk (pt3 i)).view.read (Elt F) A_13)
      (((cfg3.win 14).blk (pt3 i)).view.read (Elt F) A_14)
      (loc3 i)

/-- G3_15 at an index, one step unfolded. -/
theorem G3_15_apply (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) (i : S65536x64.Idx) :
    G3_15 A_0 A_1 A_2 A_3 A_4 A_5 A_6 A_7 A_8 A_9 A_10 A_11 A_12 A_13 A_14 i = out3_15 (((cfg3.win 0).blk (pt3 i)).view.read (Elt F) A_0) (((cfg3.win 1).blk (pt3 i)).view.read (Elt F) A_1) (((cfg3.win 2).blk (pt3 i)).view.read (Elt F) A_2) (((cfg3.win 3).blk (pt3 i)).view.read (Elt F) A_3) (((cfg3.win 4).blk (pt3 i)).view.read (Elt F) A_4) (((cfg3.win 5).blk (pt3 i)).view.read (Elt F) A_5) (((cfg3.win 6).blk (pt3 i)).view.read (Elt F) A_6) (((cfg3.win 7).blk (pt3 i)).view.read (Elt F) A_7) (((cfg3.win 8).blk (pt3 i)).view.read (Elt F) A_8) (((cfg3.win 9).blk (pt3 i)).view.read (Elt F) A_9) (((cfg3.win 10).blk (pt3 i)).view.read (Elt F) A_10) (((cfg3.win 11).blk (pt3 i)).view.read (Elt F) A_11) (((cfg3.win 12).blk (pt3 i)).view.read (Elt F) A_12) (((cfg3.win 13).blk (pt3 i)).view.read (Elt F) A_13) (((cfg3.win 14).blk (pt3 i)).view.read (Elt F) A_14) (loc3 i) := rfl

/-- The output's block index at point t is (t, 0), decided over the sixteen points. -/
theorem idx3_15 : ∀ t : Fin cfg3.N, win3_15.index t (0 : Fin 2) = t.val ∧ win3_15.index t (1 : Fin 2) = 0 :=
  (by decide +kernel : ∀ t : Fin grid3.N, _)

set_option maxHeartbeats 2000000 in
/-- What point t writes back is block t of G3_15 of the arrays as the region finds them. -/
theorem flushed3_15_eq (c : Dev nD) (t : Fin cfg3.N) :
    (dat3 V c).flushed 15 t = ((cfg3.win 15).blk t).view.read (Elt F) (G3_15 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12)) (V c (Pipeline.arrRef spec3 13)) (V c (Pipeline.arrRef spec3 14))) := by
  show (cfg3.win 15).cut (grid3.coords t) ((dat3 V c).after 15 t) = _
  rw [after3_15]
  obtain ⟨e0, e1⟩ := idx3_15 t
  funext j
  have hj0 : (j 0).val < 4096 := (j 0).isLt
  have hp : pt3 (((cfg3.win 15).blk t).view.emb j) = t := by
    apply Fin.ext
    show (win3_15.index t (0 : Fin 2) * 4096 + 1 * (j 0).val) / 4096 = t.val
    omega
  have hl : loc3 (((cfg3.win 15).blk t).view.emb j) = j := by
    funext a; apply Fin.ext
    match a with
    | ⟨0, _⟩ => show (win3_15.index t (0 : Fin 2) * 4096 + 1 * (j 0).val) % 4096 = (j 0).val; omega
    | ⟨1, _⟩ => show win3_15.index t (1 : Fin 2) * 64 + 1 * (j 1).val = (j 1).val; omega
  rw [View.read_apply]
  rw [G3_15_apply, hp, hl]
  unfold iblk3
  generalize out3_15 (F := F) _ _ _ _ _ _ _ _ _ _ _ _ _ _ _ = X
  rfl

/-- An index of the array is in point t's block iff each coordinate is in the block's range on its axis. -/
theorem mem_blk3_15 (t : Fin cfg3.N) (i : S65536x64.Idx) :
    i ∈ ((cfg3.win 15).blk t).view.set ↔ ∀ a : Fin 2, win3_15.index t a * S4096x64.size a ≤ (i a).val ∧ (i a).val < win3_15.index t a * S4096x64.size a + S4096x64.size a := by
  show i ∈ ((View.whole main_v73).slice (win3_15.rect t)).set ↔ _
  rw [View.set_slice_whole, Rect.mem_set_unit]
  exact Iff.rfl

/-- Every index of the array is in some point's block. -/
theorem covered3_15 (i : S65536x64.Idx) : ∃ t : Fin cfg3.N, (cfg3.win 15).flush t = true ∧ i ∈ ((cfg3.win 15).blk t).view.set := by
  refine ⟨pt3 i, flush3_15 _, ?_⟩
  rw [mem_blk3_15]
  obtain ⟨e0, e1⟩ := idx3_15 (pt3 i)
  have h_0 := ValueIdx.idx2_lt0 i
  have h_1 := ValueIdx.idx2_lt1 i
  have hp : (pt3 i).val = (i 0).val / 4096 := rfl
  intro a
  match a with
  | ⟨0, _⟩ => show win3_15.index (pt3 i) (0 : Fin 2) * 4096 ≤ (i 0).val ∧ (i 0).val < win3_15.index (pt3 i) (0 : Fin 2) * 4096 + 4096; omega
  | ⟨1, _⟩ => show win3_15.index (pt3 i) (1 : Fin 2) * 64 ≤ (i 1).val ∧ (i 1).val < win3_15.index (pt3 i) (1 : Fin 2) * 64 + 64; omega

/-- The output array after the region: G3_15 of the arrays as the region finds them. -/
theorem final3_15 (c : Dev nD) :
    (dat3 V c).arrAt ⟨15, by decide⟩ cfg3.N = G3_15 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12)) (V c (Pipeline.arrRef spec3 13)) (V c (Pipeline.arrRef spec3 14)) :=
  (dat3 V c).arrAt_eq_of_cover 15 _ (fun t _ => flushed3_15_eq V c t) covered3_15

end Cert.Kernel.Hand

end
-- ==== Proof.KB.Reg4.lean ====
import proofs.«159011_j9938554322955_1_alg».proof.Proof.Gen.Kernel.Launch
import proofs.«159011_j9938554322955_1_alg».proof.Proof.Gen.Kernel.Skeleton
import proofs.«159011_j9938554322955_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the body goes through the rectangle of a two-axis buffer's whole shape at zero offsets. -/

theorem hz2_4 : (![0, 0] : Fin 2 → ℕ) = fun _ => 0 := by funext a; fin_cases a <;> rfl

/-- A load of a whole buffer reads its contents. -/
theorem readAt_whole4 (sz : Fin 2 → ℕ) {e : EltTy} (v : View sig .tc .vmem (⟨2, sz⟩ : Shape) e)
    (inb : ∀ a, (![0, 0] : Fin 2 → ℕ) a + sz a ≤ sz a) (f : v.ty.Contents (Elt F)) :
    v.readAt (Elt F) (Rect.unit (s := (⟨2, sz⟩ : Shape)) ![0, 0] sz inb).toLoadRect f = v.read (Elt F) f :=
  (View.readAt_eq_ld v f _).trans (View.ld_unit_zero (S := (⟨2, sz⟩ : Shape)) hz2_4 inb _)

/-- The whole-shape rectangle holds every index. -/
theorem cover_whole4 (sz : Fin 2 → ℕ) {e : EltTy} (inb : ∀ a, (![0, 0] : Fin 2 → ℕ) a + sz a ≤ sz a)
    (w : (⟨2, sz⟩ : Shape).Idx → Elt F e) (L : List (View.Piece (Elt F) (⟨2, sz⟩ : Shape) e)) (y : (⟨2, sz⟩ : Shape).Idx) :
    ∃ p ∈ ((⟨Rect.unit (s := (⟨2, sz⟩ : Shape)) ![0, 0] sz inb, w⟩ : View.Piece (Elt F) (⟨2, sz⟩ : Shape) e) :: L), y ∈ p.1.set :=
  ⟨⟨Rect.unit (s := (⟨2, sz⟩ : Shape)) ![0, 0] sz inb, w⟩, List.mem_cons_self, View.mem_set_unit_zero (S := (⟨2, sz⟩ : Shape)) hz2_4 inb y⟩

/-- A store of a whole buffer, last, leaves its payload. -/
theorem read_writes_whole4 (sz : Fin 2 → ℕ) {e : EltTy} (v : View sig .tc .vmem (⟨2, sz⟩ : Shape) e)
    (inb : ∀ a, (![0, 0] : Fin 2 → ℕ) a + sz a ≤ sz a) (f : v.ty.Contents (Elt F)) (w : (⟨2, sz⟩ : Shape).Idx → Elt F e)
    (L : List (View.Piece (Elt F) (⟨2, sz⟩ : Shape) e)) :
    v.read (Elt F) (v.writes (Elt F) f ((⟨Rect.unit (s := (⟨2, sz⟩ : Shape)) ![0, 0] sz inb, w⟩ : View.Piece (Elt F) (⟨2, sz⟩ : Shape) e) :: L)) = w :=
  (View.read_writes_eq_canon v f _ (cover_whole4 sz inb w L)).trans
    (View.canon_cons_unit_zero (S := (⟨2, sz⟩ : Shape)) hz2_4 inb w L)

/-- A load of a whole buffer after a store of the whole buffer reads the payload. -/
theorem readCov_whole4 (sz : Fin 2 → ℕ) {e : EltTy} (v : View sig .tc .vmem (⟨2, sz⟩ : Shape) e)
    (inb : ∀ a, (![0, 0] : Fin 2 → ℕ) a + sz a ≤ sz a) (w : (⟨2, sz⟩ : Shape).Idx → Elt F e)
    (L : List (View.Piece (Elt F) (⟨2, sz⟩ : Shape) e)) :
    v.readCov ((⟨Rect.unit (s := (⟨2, sz⟩ : Shape)) ![0, 0] sz inb, w⟩ : View.Piece (Elt F) (⟨2, sz⟩ : Shape) e) :: L)
      (Rect.unit (s := (⟨2, sz⟩ : Shape)) ![0, 0] sz inb).toLoadRect = w :=
  (View.readCov_eq_canon_ld v _ (Rect.unit (s := (⟨2, sz⟩ : Shape)) ![0, 0] sz inb) (cover_whole4 sz inb w L)).trans
    ((congrArg (fun X => View.ld X (Rect.unit (s := (⟨2, sz⟩ : Shape)) ![0, 0] sz inb))
        (View.canon_cons_unit_zero (S := (⟨2, sz⟩ : Shape)) hz2_4 inb w L)).trans
      (View.ld_unit_zero (S := (⟨2, sz⟩ : Shape)) hz2_4 inb w))

/-! ## The body's two conditions -/

/-- The condition of the body's first `scf.if` (the scratch is zeroed), from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The condition of the body's second `scf.if` (the statistics are stored). -/
abbrev cond4_1 (i : grid4.Coords) : Prop := k4_cond2 i = 1#1
/-- It holds at the last point only. -/
theorem hcond4_1 : ∀ t : Fin cfg4.N, cond4_1 (grid4.coords t) ↔ t.val = 15 :=
  (by decide +kernel : ∀ t : Fin grid4.N, cond4_1 (grid4.coords t) ↔ t.val = 15)

/-! ## What one point adds to the two running sums, and the statistics stored at the last point -/

/-- The column sums of the block's `z` added to the running sum `S`. -/
noncomputable def sS4 (x0 x1 : Vec F S4096x64 .f32) (x2 : Vec F S1x64 .f32) (x3 : Vec F S64x128 .f32) (x4 S : Vec F S1x128 .f32) : Vec F S1x128 .f32 :=
  k4_pay7 x2 x0 x1 x3 x4 S
/-- The column sums of the block's `z · z` added to the running sum `Q`. -/
noncomputable def sQ4 (x0 x1 : Vec F S4096x64 .f32) (x2 : Vec F S1x64 .f32) (x3 : Vec F S64x128 .f32) (x4 Q : Vec F S1x128 .f32) : Vec F S1x128 .f32 :=
  k4_pay1 (k4_pay8 x2 x0 x1 x3 x4 Q)
/-- The two sums as the first point resets them. -/
noncomputable def zS4 : Vec F S1x128 .f32 := k4_pay4 (F := F)
noncomputable def zQ4 : Vec F S1x128 .f32 := k4_pay5 (F := F)
/-- The mean stored from the total `S`, and the variance stored from the totals `S`, `Q`. -/
noncomputable def oM4 (S : Vec F S1x128 .f32) : Vec F S1x128 .f32 := k4_pay2 S
noncomputable def oV4 (S Q : Vec F S1x128 .f32) : Vec F S1x128 .f32 := k4_pay3 S Q

set_option maxHeartbeats 2000000 in
/-- The body on whole staging memrefs and the two scratch buffers, at the first point (the scratch is zeroed first, whatever it held). -/
theorem sound_kernel4_A (c : Dev nD) (E : Set ℕ) (i : grid4.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond4_0 i) (hc1 : ¬cond4_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS4 x0 x1 x2 x3 x4 zS4)
            ∗ owns (c : Thread nD τ) arg9 fullShare (sQ4 x0 x1 x2 x3 x4 zQ4)) -∗ K ⟨⟩))
      ⊢ wp frame (wpE (defs₀ (F := F)) Variants.none c none) E (cc4__stats1_kernel i arg1 harg1 arg2 harg2 arg3 harg3 arg4 harg4 arg5 harg5 arg6 harg6 arg7 harg7 arg8 harg8 arg9 harg9) K := by
  simp only [cc4__stats1_kernel_eq_skeleton]; unfold cc4__stats1_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole4, readCov_whole4, readAt_whole4, oM4, oV4, sS4, sQ4, zS4, zQ4])
  isplitl [H6]
  · iexists _; isplitr
    swap; · iexact H6
    ipureintro
    first
      | rfl
      | (sl_unfold_run_names; (try dsimp only); simp only [read_writes_whole4, readCov_whole4, readAt_whole4, oM4, oV4, sS4, sQ4, zS4, zQ4])
  isplitl [H7]
  · iexists _; isplitr
    swap; · iexact H7
    ipureintro
    (sl_unfold_run_names; (try dsimp only); simp only [read_writes_whole4, readCov_whole4, readAt_whole4, oM4, oV4, sS4, sQ4, zS4, zQ4])
  iexists _; isplitr
  swap; · iexact H8
  ipureintro
  (sl_unfold_run_names; (try dsimp only); simp only [read_writes_whole4, readCov_whole4, readAt_whole4, oM4, oV4, sS4, sQ4, zS4, zQ4])

set_option maxHeartbeats 2000000 in
/-- The body on whole staging memrefs and the two scratch buffers, at a point that is neither the first nor the last. -/
theorem sound_kernel4_B (c : Dev nD) (E : Set ℕ) (i : grid4.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond4_0 i) (hc1 : ¬cond4_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS4 x0 x1 x2 x3 x4 S)
            ∗ owns (c : Thread nD τ) arg9 fullShare (sQ4 x0 x1 x2 x3 x4 Q)) -∗ K ⟨⟩))
      ⊢ wp frame (wpE (defs₀ (F := F)) Variants.none c none) E (cc4__stats1_kernel i arg1 harg1 arg2 harg2 arg3 harg3 arg4 harg4 arg5 harg5 arg6 harg6 arg7 harg7 arg8 harg8 arg9 harg9) K := by
  simp only [cc4__stats1_kernel_eq_skeleton]; unfold cc4__stats1_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole4, readCov_whole4, readAt_whole4, oM4, oV4, sS4, sQ4, zS4, zQ4])
  isplitl [H6]
  · iexists _; isplitr
    swap; · iexact H6
    ipureintro
    first
      | rfl
      | (sl_unfold_run_names; (try dsimp only); simp only [read_writes_whole4, readCov_whole4, readAt_whole4, oM4, oV4, sS4, sQ4, zS4, zQ4])
  isplitl [H7]
  · iexists _; isplitr
    swap; · iexact H7
    ipureintro
    (sl_unfold_run_names; (try dsimp only); simp only [read_writes_whole4, readCov_whole4, readAt_whole4, oM4, oV4, sS4, sQ4, zS4, zQ4])
  iexists _; isplitr
  swap; · iexact H8
  ipureintro
  (sl_unfold_run_names; (try dsimp only); simp only [read_writes_whole4, readCov_whole4, readAt_whole4, oM4, oV4, sS4, sQ4, zS4, zQ4])

set_option maxHeartbeats 2000000 in
/-- The body on whole staging memrefs and the two scratch buffers, at the last point (the statistics are stored from the totals). -/
theorem sound_kernel4_C (c : Dev nD) (E : Set ℕ) (i : grid4.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond4_0 i) (hc1 : cond4_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (oM4 (sS4 x0 x1 x2 x3 x4 S))
            ∗ owns (c : Thread nD τ) arg7 fullShare (oV4 (sS4 x0 x1 x2 x3 x4 S) (sQ4 x0 x1 x2 x3 x4 Q)) ∗ owns (c : Thread nD τ) arg8 fullShare (sS4 x0 x1 x2 x3 x4 S)
            ∗ owns (c : Thread nD τ) arg9 fullShare (sQ4 x0 x1 x2 x3 x4 Q)) -∗ K ⟨⟩))
      ⊢ wp frame (wpE (defs₀ (F := F)) Variants.none c none) E (cc4__stats1_kernel i arg1 harg1 arg2 harg2 arg3 harg3 arg4 harg4 arg5 harg5 arg6 harg6 arg7 harg7 arg8 harg8 arg9 harg9) K := by
  simp only [cc4__stats1_kernel_eq_skeleton]; unfold cc4__stats1_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole4, readCov_whole4, readAt_whole4, oM4, oV4, sS4, sQ4, zS4, zQ4])
  isplitl [H6]
  · iexists _; isplitr
    swap; · iexact H6
    ipureintro
    first
      | rfl
      | (sl_unfold_run_names; (try dsimp only); simp only [read_writes_whole4, readCov_whole4, readAt_whole4, oM4, oV4, sS4, sQ4, zS4, zQ4])
  isplitl [H7]
  · iexists _; isplitr
    swap; · iexact H7
    ipureintro
    (sl_unfold_run_names; (try dsimp only); simp only [read_writes_whole4, readCov_whole4, readAt_whole4, oM4, oV4, sS4, sQ4, zS4, zQ4])
  iexists _; isplitr
  swap; · iexact H8
  ipureintro
  (sl_unfold_run_names; (try dsimp only); simp only [read_writes_whole4, readCov_whole4, readAt_whole4, oM4, oV4, sS4, sQ4, zS4, zQ4])

variable (V : (c : Dev nD) → (b : Ref sig .tc) → Buf (Elt F) ((c : Thread nD τ).loc b))

/-! ## The windows' blocks -/

/-- Window w's block at point t, read off its array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## Where the windows are idle and written back

The five inputs are never idle. The two statistics are stored at the last point only: before it their windows are
idle and are not written back; at it they are live. -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem idleAt4_5 : ∀ t : Fin cfg4.N, t.val ≠ 15 → cfg4.idle 5 (grid4.coords t) = true := by decide +kernel
theorem idleAt4_6 : ∀ t : Fin cfg4.N, t.val ≠ 15 → cfg4.idle 6 (grid4.coords t) = true := by decide +kernel
theorem liveAt4_5 : ∀ t : Fin cfg4.N, t.val = 15 → cfg4.idle 5 (grid4.coords t) = false := by decide +kernel
theorem liveAt4_6 : ∀ t : Fin cfg4.N, t.val = 15 → cfg4.idle 6 (grid4.coords t) = false := by decide +kernel
theorem noFlush4_5 : ∀ t : Fin cfg4.N, t.val ≠ 15 → (cfg4.win 5).flush t = false := by decide +kernel
theorem noFlush4_6 : ∀ t : Fin cfg4.N, t.val ≠ 15 → (cfg4.win 6).flush t = false := by decide +kernel

/-! ## What an input's staging buffer holds

Each input's current staging buffer holds its block at every point, fetched there or not, for any proof data whose
array is the entry contents and whose body leaves the block in place. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The running sums

What the two scratch buffers hold after the body at point n: the first point resets them and adds its block's column
sums of z and of z · z; every later point adds its own to what the point before left. -/

noncomputable def accS4 (c : Dev nD) : (n : ℕ) → n < cfg4.N → Vec F S1x128 .f32
  | 0, hn => sS4 (iblk4 V c 0 ⟨0, hn⟩) (iblk4 V c 1 ⟨0, hn⟩) (iblk4 V c 2 ⟨0, hn⟩) (iblk4 V c 3 ⟨0, hn⟩) (iblk4 V c 4 ⟨0, hn⟩) zS4
  | n + 1, hn => sS4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accS4 c n (Nat.lt_of_succ_lt hn))

noncomputable def accQ4 (c : Dev nD) : (n : ℕ) → n < cfg4.N → Vec F S1x128 .f32
  | 0, hn => sQ4 (iblk4 V c 0 ⟨0, hn⟩) (iblk4 V c 1 ⟨0, hn⟩) (iblk4 V c 2 ⟨0, hn⟩) (iblk4 V c 3 ⟨0, hn⟩) (iblk4 V c 4 ⟨0, hn⟩) zQ4
  | n + 1, hn => sQ4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accQ4 c n (Nat.lt_of_succ_lt hn))

theorem accS4_zero (c : Dev nD) (t : Fin cfg4.N) (h0 : t.val = 0) :
    accS4 V c t.val t.isLt = sS4 (iblk4 V c 0 t) (iblk4 V c 1 t) (iblk4 V c 2 t) (iblk4 V c 3 t) (iblk4 V c 4 t) zS4 := by
  obtain ⟨n, hn⟩ := t
  cases n with
  | zero => rfl
  | succ n => exact absurd h0 (Nat.succ_ne_zero n)

theorem accS4_pos (c : Dev nD) (t : Fin cfg4.N) (h0 : t.val ≠ 0) :
    accS4 V c t.val t.isLt = sS4 (iblk4 V c 0 t) (iblk4 V c 1 t) (iblk4 V c 2 t) (iblk4 V c 3 t) (iblk4 V c 4 t) (accS4 V c (t.val - 1) (Nat.lt_of_le_of_lt (Nat.sub_le _ _) t.isLt)) := by
  obtain ⟨n, hn⟩ := t
  cases n with
  | zero => exact absurd rfl h0
  | succ n => rfl

theorem accQ4_zero (c : Dev nD) (t : Fin cfg4.N) (h0 : t.val = 0) :
    accQ4 V c t.val t.isLt = sQ4 (iblk4 V c 0 t) (iblk4 V c 1 t) (iblk4 V c 2 t) (iblk4 V c 3 t) (iblk4 V c 4 t) zQ4 := by
  obtain ⟨n, hn⟩ := t
  cases n with
  | zero => rfl
  | succ n => exact absurd h0 (Nat.succ_ne_zero n)

theorem accQ4_pos (c : Dev nD) (t : Fin cfg4.N) (h0 : t.val ≠ 0) :
    accQ4 V c t.val t.isLt = sQ4 (iblk4 V c 0 t) (iblk4 V c 1 t) (iblk4 V c 2 t) (iblk4 V c 3 t) (iblk4 V c 4 t) (accQ4 V c (t.val - 1) (Nat.lt_of_le_of_lt (Nat.sub_le _ _) t.isLt)) := by
  obtain ⟨n, hn⟩ := t
  cases n with
  | zero => exact absurd rfl h0
  | succ n => rfl

/-! ## The invariant between points -/

/-- The scoped rest with the two scratch buffers as whole memrefs owned at some contents. -/
theorem scr4_eq (c : Dev nD) :
    (Pipeline.scopedRest (Ix := Unit) (Name := ℕ) (U := UR sig nD τ) (Lvl := ℕ) (Val := Elt F) spec4 c : sProp 𝕄)
      = iprop(iprop((∃ d, owns (c : Thread nD τ) (Memref.whole cc4_scratch0) fullShare d) ∗ (∃ d, owns (c : Thread nD τ) (Memref.whole cc4_scratch1) fullShare d))
          ∗ Pipeline.scopedRestBut (Ix := Unit) (Name := ℕ) (U := UR sig nD τ) (Lvl := ℕ) (Val := Elt F) spec4 c [cc4_scratch0, cc4_scratch1]) := by
  rw [scopedRest4_split]; simp only [owns_whole]; try rfl

/-- Before the first point: the generator register and every scoped buffer that is no staging buffer, at anything.
    Before a later point: the same with the two scratch buffers at the running sums the point before left. -/
noncomputable def Phi4 (c : Dev nD) : (n : ℕ) → n ≤ cfg4.N → sProp 𝕄
  | 0, _ => iprop((∃ r, prngReg c r) ∗ Pipeline.scopedRest (Ix := Unit) (Name := ℕ) (U := UR sig nD τ) (Lvl := ℕ) (Val := Elt F) spec4 c)
  | n + 1, hn => iprop((∃ r, prngReg c r)
      ∗ iprop(owns (c : Thread nD τ) (Memref.whole cc4_scratch0) fullShare (accS4 V c n hn) ∗ owns (c : Thread nD τ) (Memref.whole cc4_scratch1) fullShare (accQ4 V c n hn))
      ∗ Pipeline.scopedRestBut (Ix := Unit) (Name := ℕ) (U := UR sig nD τ) (Lvl := ℕ) (Val := Elt F) spec4 c [cc4_scratch0, cc4_scratch1])

theorem Phi4_zero (c : Dev nD) (n : ℕ) (h : n ≤ cfg4.N) (hz : n = 0) :
    Phi4 V c n h = iprop((∃ r, prngReg c r) ∗ Pipeline.scopedRest (Ix := Unit) (Name := ℕ) (U := UR sig nD τ) (Lvl := ℕ) (Val := Elt F) spec4 c) := by
  subst hz; rfl

theorem Phi4_succ (c : Dev nD) (n : ℕ) (hn : n < cfg4.N) :
    Phi4 V c (n + 1) hn = iprop((∃ r, prngReg c r)
      ∗ iprop(owns (c : Thread nD τ) (Memref.whole cc4_scratch0) fullShare (accS4 V c n hn) ∗ owns (c : Thread nD τ) (Memref.whole cc4_scratch1) fullShare (accQ4 V c n hn))
      ∗ Pipeline.scopedRestBut (Ix := Unit) (Name := ℕ) (U := UR sig nD τ) (Lvl := ℕ) (Val := Elt F) spec4 c [cc4_scratch0, cc4_scratch1]) := rfl

theorem Phi4_pos (c : Dev nD) (n : ℕ) (h : n ≤ cfg4.N) (hz : n ≠ 0) :
    Phi4 V c n h = iprop((∃ r, prngReg c r)
      ∗ iprop(owns (c : Thread nD τ) (Memref.whole cc4_scratch0) fullShare (accS4 V c (n - 1) (by omega)) ∗ owns (c : Thread nD τ) (Memref.whole cc4_scratch1) fullShare (accQ4 V c (n - 1) (by omega)))
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-! ## The pipeline's proof data -/

/-- The arrays as the region finds them; after the body at point t each input's buffer at its block, the mean's and the
    variance's at the statistics of the running sums (consulted at the last point only: before it the two windows are idle);
    the invariant above; nothing owed; full shares. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => oM4 (accS4 V c t.val t.isLt)
    | ⟨6, _⟩ => oV4 (accS4 V c t.val t.isLt) (accQ4 V c t.val t.isLt)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = oM4 (accS4 V c t.val t.isLt) := by dsimp only [dat4]
theorem after4_6 (c : Dev nD) (t : Fin cfg4.N) : (dat4 V c).after 6 t = oV4 (accS4 V c t.val t.isLt) (accQ4 V c t.val t.isLt) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point t, the windows one by one, -/
noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; the point is the first, the last or neither, which
    decides the two conditions; the invariant hands the body the two scratch buffers (at anything at the first point, at
    the running sums otherwise) and takes them back at this point's sums; the mean's and the variance's buffers come back
    untouched before the last point and hold the statistics after it; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = Phi4 V c (t.val + 1) t.isLt from rfl, Phi4_succ]
  have hN : t.val < 16 := lt_of_lt_of_eq t.isLt (show cfg4.N = 16 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  by_cases h0 : t.val = 0
  · have h1 : t.val ≠ 15 := by omega
    rw [Dat.leavesExact_idle (dat4 V c) 5 t (idleAt4_5 t h1) (noFlush4_5 t h1),
      Dat.leavesExact_idle (dat4 V c) 6 t (idleAt4_6 t h1) (noFlush4_6 t h1)]
    rw [accS4_zero V c t h0, accQ4_zero V c t h0]
    rw [Phi4_castSucc V c t, Phi4_zero V c _ _ h0, scr4_eq]
    iintro ⟨⟨Hg, ⟨⟨%dS, HS⟩, ⟨%dQ, HQ⟩⟩, Hrest⟩, Ho, ⟨%d0, H0⟩, ⟨%d1, H1⟩, ⟨%d2, H2⟩, ⟨%d3, H3⟩, ⟨%d4, H4⟩, ⟨%d5, H5⟩, ⟨%d6, H6⟩⟩
    iapply (sound_kernel4_A c Set.univ (grid4.coords t) _ _ _ _ _ _ _ _ _ _ _ _ _ _ (Memref.whole cc4_scratch0) (Memref.isWhole_whole _) (Memref.whole cc4_scratch1) (Memref.isWhole_whole _)
      ((hcond4_0 t).mpr h0) (fun h => h1 ((hcond4_1 t).mp h)) (iblk4 V c 0 t) (iblk4 V c 1 t) (iblk4 V c 2 t) (iblk4 V c 3 t) (iblk4 V c 4 t) _ _ dS dQ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HQ]; · iexact HQ
    iintro ⟨H0, H1, H2, H3, H4, H5, H6, HS, HQ⟩
    isplitl [Hg HS HQ Hrest]
    · isplitl [Hg]; · iexact Hg
      isplitl [HS HQ]
      · isplitl [HS]; · iexact HS
        iexact HQ
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 15
    · rw [show (dat4 V c).leavesExact 5 t = owns (c : Thread nD τ) (st4_5 t) fullShare ((dat4 V c).after 5 t) from by
        unfold Dat.leavesExact; rw [liveAt4_5 t h1], after4_5]
      rw [show (dat4 V c).leavesExact 6 t = owns (c : Thread nD τ) (st4_6 t) fullShare ((dat4 V c).after 6 t) from by
        unfold Dat.leavesExact; rw [liveAt4_6 t h1], after4_6]
      rw [accS4_pos V c t h0, accQ4_pos V c t h0]
      rw [Phi4_castSucc V c t, Phi4_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel4_C c Set.univ (grid4.coords t) _ _ _ _ _ _ _ _ _ _ _ _ _ _ (Memref.whole cc4_scratch0) (Memref.isWhole_whole _) (Memref.whole cc4_scratch1) (Memref.isWhole_whole _)
        (fun h => h0 ((hcond4_0 t).mp h)) ((hcond4_1 t).mpr h1) (iblk4 V c 0 t) (iblk4 V c 1 t) (iblk4 V c 2 t) (iblk4 V c 3 t) (iblk4 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat4 V c) 5 t (idleAt4_5 t h1) (noFlush4_5 t h1),
        Dat.leavesExact_idle (dat4 V c) 6 t (idleAt4_6 t h1) (noFlush4_6 t h1)]
      rw [accS4_pos V c t h0, accQ4_pos V c t h0]
      rw [Phi4_castSucc V c t, Phi4_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel4_B c Set.univ (grid4.coords t) _ _ _ _ _ _ _ _ _ _ _ _ _ _ (Memref.whole cc4_scratch0) (Memref.isWhole_whole _) (Memref.whole cc4_scratch1) (Memref.isWhole_whole _)
        (fun h => h0 ((hcond4_0 t).mp h)) (fun h => h1 ((hcond4_1 t).mp h)) (iblk4 V c 0 t) (iblk4 V c 1 t) (iblk4 V c 2 t) (iblk4 V c 3 t) (iblk4 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the region -/

/-- What the region is handed is the invariant before the first point. -/
theorem phi_in4 (c : Dev nD) :
    (iprop((∃ r, prngReg c r) ∗ Pipeline.scopedRest (Ix := Unit) (Name := ℕ) (U := UR sig nD τ) (Lvl := ℕ) (Val := Elt F) spec4 c) : sProp 𝕄)
      ⊢ (dat4 V c).Φ 0 := by
  rw [show (dat4 V c).Φ 0 = Phi4 V c 0 (Nat.zero_le _) from rfl, Phi4_zero V c 0 _ rfl]
  try exact Idealize.SL.BI.Entails.refl _

/-- After the last point the invariant gives it back: the scratch buffers' contents are forgotten. -/
theorem phi_out4 (c : Dev nD) :
    (dat4 V c).Φ (Fin.last cfg4.N)
      ⊢ (iprop((∃ r, prngReg c r) ∗ Pipeline.scopedRest (Ix := Unit) (Name := ℕ) (U := UR sig nD τ) (Lvl := ℕ) (Val := Elt F) spec4 c) : sProp 𝕄) := by
  have ht : (Fin.last cfg4.N).val ≠ 0 := by rw [Fin.val_last]; have : cfg4.N = 16 := N_4; omega
  rw [show (dat4 V c).Φ (Fin.last cfg4.N) = Phi4 V c (Fin.last cfg4.N).val (Nat.le_of_lt_succ (Fin.last cfg4.N).isLt) from rfl,
    Phi4_pos V c _ _ ht, scr4_eq]
  iintro ⟨Hg, ⟨HS, HQ⟩, Hrest⟩
  isplitl [Hg]; · iexact Hg
  isplitl [HS HQ]
  · isplitl [HS]; · iexists _; iexact HS
    iexists _; iexact HQ
  iexact Hrest

end Cert.Kernel.Hand

end
-- ==== Proof.KB.Reg5Runs.lean ====
import proofs.«159011_j9938554322955_1_alg».proof.Proof.Gen.Kernel.Launch
import proofs.«159011_j9938554322955_1_alg».proof.Proof.Gen.Kernel.Skeleton
import proofs.«159011_j9938554322955_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second statistics kernel of a layer: what its three kinds of grid point share

The kernel visits sixteen blocks of 4096 rows. At every point it recomputes the block of the second linear
map's values z2 and adds the block's column sums of z2 and of z2 * z2 into two accumulators of 64 lanes that it
keeps from point to point; at the first point it clears the accumulators before adding; at the last point it also
stores mean = S * 2^(-16) and var = Q * 2^(-16) - mean * mean. -/

/-- The body's first test, from the grid index: the index is 0 (the accumulators are cleared). -/
noncomputable abbrev cond5_0 (i : grid5.Coords) : Prop := (Scalar.cmpi .ne (Scalar.extui (Scalar.cmpi .eq (BitVec.ofNat 32 (i 0).val) 0#32)) 0#32) = 1#1
/-- It holds at the first point only. -/
theorem hcond5_0 : ∀ t : Fin cfg5.N, cond5_0 (grid5.coords t) ↔ t.val % 16 = 0 :=
  (by decide +kernel : ∀ t : Fin grid5.N, cond5_0 (grid5.coords t) ↔ t.val % 16 = 0)

/-- The body's second test: the index is 15 (mean and variance are stored). -/
noncomputable abbrev cond5_1 (i : grid5.Coords) : Prop := k5_cond2 i = 1#1
/-- It holds at the last point only. -/
theorem hcond5_1 : ∀ t : Fin cfg5.N, cond5_1 (grid5.coords t) ↔ t.val % 16 = 15 :=
  (by decide +kernel : ∀ t : Fin grid5.N, cond5_1 (grid5.coords t) ↔ t.val % 16 = 15)

/-! ## Where the windows are idle -/

/-- Input window 0 is never idle. -/
theorem liveAt5_0 : ∀ t : Fin cfg5.N, cfg5.idle 0 (grid5.coords t) = false := fun _ => rfl
/-- Input window 1 is never idle. -/
theorem liveAt5_1 : ∀ t : Fin cfg5.N, cfg5.idle 1 (grid5.coords t) = false := fun _ => rfl
/-- Input window 2 is never idle. -/
theorem liveAt5_2 : ∀ t : Fin cfg5.N, cfg5.idle 2 (grid5.coords t) = false := fun _ => rfl
/-- Input window 3 is never idle. -/
theorem liveAt5_3 : ∀ t : Fin cfg5.N, cfg5.idle 3 (grid5.coords t) = false := fun _ => rfl
/-- Input window 4 is never idle. -/
theorem liveAt5_4 : ∀ t : Fin cfg5.N, cfg5.idle 4 (grid5.coords t) = false := fun _ => rfl
/-- Input window 5 is never idle. -/
theorem liveAt5_5 : ∀ t : Fin cfg5.N, cfg5.idle 5 (grid5.coords t) = false := fun _ => rfl
/-- Input window 6 is never idle. -/
theorem liveAt5_6 : ∀ t : Fin cfg5.N, cfg5.idle 6 (grid5.coords t) = false := fun _ => rfl
/-- Input window 7 is never idle. -/
theorem liveAt5_7 : ∀ t : Fin cfg5.N, cfg5.idle 7 (grid5.coords t) = false := fun _ => rfl
/-- Input window 8 is never idle. -/
theorem liveAt5_8 : ∀ t : Fin cfg5.N, cfg5.idle 8 (grid5.coords t) = false := fun _ => rfl
/-- Input window 9 is never idle. -/
theorem liveAt5_9 : ∀ t : Fin cfg5.N, cfg5.idle 9 (grid5.coords t) = false := fun _ => rfl
/-- Input window 10 is never idle. -/
theorem liveAt5_10 : ∀ t : Fin cfg5.N, cfg5.idle 10 (grid5.coords t) = false := fun _ => rfl
/-- Away from the last point nothing is stored into output 11: the window is idle there, -/
theorem idleAt5_11 : ∀ t : Fin cfg5.N, ¬cond5_1 (grid5.coords t) → cfg5.idle 11 (grid5.coords t) = true := by decide +kernel
/-- and its block is not written back there. -/
theorem noFlush5_11 : ∀ t : Fin cfg5.N, ¬cond5_1 (grid5.coords t) → (cfg5.win 11).flush t = false := by decide +kernel
/-- At the last point output 11 is stored: the window is live. -/
theorem liveAt5_11 : ∀ t : Fin cfg5.N, cond5_1 (grid5.coords t) → cfg5.idle 11 (grid5.coords t) = false := by decide +kernel
/-- Away from the last point nothing is stored into output 12: the window is idle there, -/
theorem idleAt5_12 : ∀ t : Fin cfg5.N, ¬cond5_1 (grid5.coords t) → cfg5.idle 12 (grid5.coords t) = true := by decide +kernel
/-- and its block is not written back there. -/
theorem noFlush5_12 : ∀ t : Fin cfg5.N, ¬cond5_1 (grid5.coords t) → (cfg5.win 12).flush t = false := by decide +kernel
/-- At the last point output 12 is stored: the window is live. -/
theorem liveAt5_12 : ∀ t : Fin cfg5.N, cond5_1 (grid5.coords t) → cfg5.idle 12 (grid5.coords t) = false := by decide +kernel

/-! ## The memrefs the body is called with -/

noncomputable abbrev ms5_0 (t : Fin cfg5.N) : Memref sig .tc .vmem S4096x64 .f32 := win5_0.stage (cfg5.slots t 0)
noncomputable abbrev hs5_0 (t : Fin cfg5.N) : (ms5_0 t).IsWhole := hstage5_0 ((cfg5.slots t 0).cast nbuf5_0)
noncomputable abbrev ms5_1 (t : Fin cfg5.N) : Memref sig .tc .vmem S4096x64 .f32 := win5_1.stage (cfg5.slots t 1)
noncomputable abbrev hs5_1 (t : Fin cfg5.N) : (ms5_1 t).IsWhole := hstage5_1 ((cfg5.slots t 1).cast nbuf5_1)
noncomputable abbrev ms5_2 (t : Fin cfg5.N) : Memref sig .tc .vmem S1x64 .f32 := win5_2.stage (cfg5.slots t 2)
noncomputable abbrev hs5_2 (t : Fin cfg5.N) : (ms5_2 t).IsWhole := hstage5_2 ((cfg5.slots t 2).cast nbuf5_2)
noncomputable abbrev ms5_3 (t : Fin cfg5.N) : Memref sig .tc .vmem S64x128 .f32 := win5_3.stage (cfg5.slots t 3)
noncomputable abbrev hs5_3 (t : Fin cfg5.N) : (ms5_3 t).IsWhole := hstage5_3 ((cfg5.slots t 3).cast nbuf5_3)
noncomputable abbrev ms5_4 (t : Fin cfg5.N) : Memref sig .tc .vmem S1x128 .f32 := win5_4.stage (cfg5.slots t 4)
noncomputable abbrev hs5_4 (t : Fin cfg5.N) : (ms5_4 t).IsWhole := hstage5_4 ((cfg5.slots t 4).cast nbuf5_4)
noncomputable abbrev ms5_5 (t : Fin cfg5.N) : Memref sig .tc .vmem S1x128 .f32 := win5_5.stage (cfg5.slots t 5)
noncomputable abbrev hs5_5 (t : Fin cfg5.N) : (ms5_5 t).IsWhole := hstage5_5 ((cfg5.slots t 5).cast nbuf5_5)
noncomputable abbrev ms5_6 (t : Fin cfg5.N) : Memref sig .tc .vmem S1x128 .f32 := win5_6.stage (cfg5.slots t 6)
noncomputable abbrev hs5_6 (t : Fin cfg5.N) : (ms5_6 t).IsWhole := hstage5_6 ((cfg5.slots t 6).cast nbuf5_6)
noncomputable abbrev ms5_7 (t : Fin cfg5.N) : Memref sig .tc .vmem S1x128 .f32 := win5_7.stage (cfg5.slots t 7)
noncomputable abbrev hs5_7 (t : Fin cfg5.N) : (ms5_7 t).IsWhole := hstage5_7 ((cfg5.slots t 7).cast nbuf5_7)
noncomputable abbrev ms5_8 (t : Fin cfg5.N) : Memref sig .tc .vmem S1x128 .f32 := win5_8.stage (cfg5.slots t 8)
noncomputable abbrev hs5_8 (t : Fin cfg5.N) : (ms5_8 t).IsWhole := hstage5_8 ((cfg5.slots t 8).cast nbuf5_8)
noncomputable abbrev ms5_9 (t : Fin cfg5.N) : Memref sig .tc .vmem S128x64 .f32 := win5_9.stage (cfg5.slots t 9)
noncomputable abbrev hs5_9 (t : Fin cfg5.N) : (ms5_9 t).IsWhole := hstage5_9 ((cfg5.slots t 9).cast nbuf5_9)
noncomputable abbrev ms5_10 (t : Fin cfg5.N) : Memref sig .tc .vmem S1x64 .f32 := win5_10.stage (cfg5.slots t 10)
noncomputable abbrev hs5_10 (t : Fin cfg5.N) : (ms5_10 t).IsWhole := hstage5_10 ((cfg5.slots t 10).cast nbuf5_10)
noncomputable abbrev ms5_11 (t : Fin cfg5.N) : Memref sig .tc .vmem S1x64 .f32 := win5_11.stage (cfg5.slots t 11)
noncomputable abbrev hs5_11 (t : Fin cfg5.N) : (ms5_11 t).IsWhole := hstage5_11 ((cfg5.slots t 11).cast nbuf5_11)
noncomputable abbrev ms5_12 (t : Fin cfg5.N) : Memref sig .tc .vmem S1x64 .f32 := win5_12.stage (cfg5.slots t 12)
noncomputable abbrev hs5_12 (t : Fin cfg5.N) : (ms5_12 t).IsWhole := hstage5_12 ((cfg5.slots t 12).cast nbuf5_12)
/-- The two accumulators: whole buffers of the kernel's own, passed beside the windows. -/
noncomputable abbrev scM5_0 : Memref sig .tc .vmem S1x64 .f32 := Memref.whole cc5_scratch0
noncomputable abbrev scM5_1 : Memref sig .tc .vmem S1x64 .f32 := Memref.whole cc5_scratch1
/-- The accumulators as views: what they hold is stated through these. -/
noncomputable abbrev VS5_0 : View sig .tc .vmem S1x64 .f32 := scM5_0.view
noncomputable abbrev VS5_1 : View sig .tc .vmem S1x64 .f32 := scM5_1.view
/-- One staging buffer of each output window, through which its contents are stated (the choice does not matter). -/
noncomputable abbrev VO5_11 : View sig .tc .vmem S1x64 .f32 := (Memref.whole cc5_stg11_0 : Memref sig .tc .vmem S1x64 .f32).view
noncomputable abbrev VO5_12 : View sig .tc .vmem S1x64 .f32 := (Memref.whole cc5_stg12_0 : Memref sig .tc .vmem S1x64 .f32).view

/-- The core's scoped buffers that are no staging buffer of this call: the two accumulators, as memrefs owned at some
    contents, and every other one unopened. -/
theorem scoped5_eq (c : Dev nD) :
    (Pipeline.scopedRest (Ix := Unit) (Name := ℕ) (U := UR sig nD τ) (Lvl := ℕ) (Val := Elt F) spec5 c : sProp 𝕄)
      = iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) := by
  rw [scopedRest5_split]; simp only [scM5_0, scM5_1, owns_whole]; try rfl

end Cert.Kernel.Hand

end
-- ==== Proof.KB.Reg5RunA.lean ====
import proofs.«159011_j9938554322955_1_alg».proof.Proof.KB.Reg5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the FIRST point (the index is 0): the accumulators, found at anything, are cleared and the block's column sums of z2 and z2 * z2
    added; nothing is stored into the two outputs, whose buffers are handed back as found.
    The statement: on whole memrefs, the eleven inputs at contents x0 ... x10, the body runs to any continuation that accepts the
    inputs as they were and each buffer it stored into with its stores applied, last first (the lists are what the run finds). -/
noncomputable def kernelRun5_A (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc5__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc5__stats2_kernel_eq_skeleton]; unfold cc5__stats2_kernel_skel
    simp only [k5_part1_eq_skeleton]; unfold k5_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.Kernel.Hand

end
-- ==== Proof.KB.Reg5RunB.lean ====
import proofs.«159011_j9938554322955_1_alg».proof.Proof.KB.Reg5RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a MIDDLE point (the index is neither 0 nor 15): the block's column sums are added into the accumulators, found at xs0, xs1;
    nothing is stored into the two outputs, whose buffers are handed back as found.
    The statement: on whole memrefs, the eleven inputs at contents x0 ... x10, the body runs to any continuation that accepts the
    inputs as they were and each buffer it stored into with its stores applied, last first (the lists are what the run finds). -/
noncomputable def kernelRun5_B (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc5__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc5__stats2_kernel_eq_skeleton]; unfold cc5__stats2_kernel_skel
    simp only [k5_part1_eq_skeleton]; unfold k5_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.Kernel.Hand

end
-- ==== Proof.KB.Reg5RunC.lean ====
import proofs.«159011_j9938554322955_1_alg».proof.Proof.KB.Reg5RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the LAST point (the index is 15): the block's column sums are added into the accumulators, found at xs0, xs1, and then
    mean = S * 2^(-16) and var = Q * 2^(-16) - mean * mean are stored into the two outputs, found at anything.
    The statement: on whole memrefs, the eleven inputs at contents x0 ... x10, the body runs to any continuation that accepts the
    inputs as they were and each buffer it stored into with its stores applied, last first (the lists are what the run finds). -/
noncomputable def kernelRun5_C (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (L11 : List (View.Piece (Elt F) S1x64 .f32)) (L12 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc5__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc5__stats2_kernel_eq_skeleton]; unfold cc5__stats2_kernel_skel
    simp only [k5_part1_eq_skeleton]; unfold k5_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [HS0]; · iexists _; iexact HS0
    iexists _; iexact HS1

end Cert.Kernel.Hand

end
-- ==== Proof.KB.Reg5.lean ====
import proofs.«159011_j9938554322955_1_alg».proof.Proof.KB.Reg5RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second statistics kernel of a layer, at the contents V its region is entered with -/

/-- Window w's block at point t, read off its array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## Every input's staging buffer holds its block at every point, fetched there or not -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)

/-! ## What each kind of point leaves in the accumulators and in the outputs -/

/-- Case A: the stores into accumulator 0 cover it. -/
theorem scover5_A_0 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun5_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1 S1x64.size (by sl_kernel_rfl) y

/-- Case A: what the point leaves in accumulator 0: its stores read back. -/
noncomputable def sout5_A_0 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS5_0.read (Elt F) (VS5_0.writes (Elt F) VS5_0.junk (kernelRun5_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1)

/-- Case A: the stores into accumulator 1 cover it. -/
theorem scover5_A_1 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun5_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1 S1x64.size (by sl_kernel_rfl) y

/-- Case A: what the point leaves in accumulator 1: its stores read back. -/
noncomputable def sout5_A_1 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS5_1.read (Elt F) (VS5_1.writes (Elt F) VS5_1.junk (kernelRun5_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1)

/-- Case B: the stores into accumulator 0 cover it. -/
theorem scover5_B_0 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun5_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- Case B: what the point leaves in accumulator 0: its stores read back. -/
noncomputable def sout5_B_0 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS5_0.read (Elt F) (VS5_0.writes (Elt F) VS5_0.junk (kernelRun5_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- Case B: the stores into accumulator 1 cover it. -/
theorem scover5_B_1 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun5_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- Case B: what the point leaves in accumulator 1: its stores read back. -/
noncomputable def sout5_B_1 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS5_1.read (Elt F) (VS5_1.writes (Elt F) VS5_1.junk (kernelRun5_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- At the last point the stores into output 11 cover its block. -/
theorem cover5_C_11 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- What the last point leaves in output 11's staging buffer: its stores read back. -/
noncomputable def out5_C_11 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO5_11.read (Elt F) (VO5_11.writes (Elt F) VO5_11.junk (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- At the last point the stores into output 12 cover its block. -/
theorem cover5_C_12 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- What the last point leaves in output 12's staging buffer: its stores read back. -/
noncomputable def out5_C_12 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO5_12.read (Elt F) (VO5_12.writes (Elt F) VO5_12.junk (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- Case C: the stores into accumulator 0 cover it. -/
theorem scover5_C_0 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1 S1x64.size (by sl_kernel_rfl) y

/-- Case C: what the point leaves in accumulator 0: its stores read back. -/
noncomputable def sout5_C_0 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS5_0.read (Elt F) (VS5_0.writes (Elt F) VS5_0.junk (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1)

/-- Case C: the stores into accumulator 1 cover it. -/
theorem scover5_C_1 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1 S1x64.size (by sl_kernel_rfl) y

/-- Case C: what the point leaves in accumulator 1: its stores read back. -/
noncomputable def sout5_C_1 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS5_1.read (Elt F) (VS5_1.writes (Elt F) VS5_1.junk (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1)

/-! ## The running sums -/

/-- THE ACCUMULATION. What the two accumulators hold after the body at position n: at the first point the cleared
    accumulators plus the block's column sums; afterwards what position n - 1 left plus the block's column sums. -/
noncomputable def outsAt5 (c : Dev nD) : (n : ℕ) → n < cfg5.N → Vec F S1x64 .f32 × Vec F S1x64 .f32
  | 0, hn => (sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) (ms5_10 ⟨0, hn⟩) (hs5_10 ⟨0, hn⟩) (ms5_11 ⟨0, hn⟩) (hs5_11 ⟨0, hn⟩) (ms5_12 ⟨0, hn⟩) (hs5_12 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩) (iblk5 V c 7 ⟨0, hn⟩) (iblk5 V c 8 ⟨0, hn⟩) (iblk5 V c 9 ⟨0, hn⟩) (iblk5 V c 10 ⟨0, hn⟩), sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) (ms5_10 ⟨0, hn⟩) (hs5_10 ⟨0, hn⟩) (ms5_11 ⟨0, hn⟩) (hs5_11 ⟨0, hn⟩) (ms5_12 ⟨0, hn⟩) (hs5_12 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩) (iblk5 V c 7 ⟨0, hn⟩) (iblk5 V c 8 ⟨0, hn⟩) (iblk5 V c 9 ⟨0, hn⟩) (iblk5 V c 10 ⟨0, hn⟩))
  | n + 1, hn =>
    if h1 : (n + 1) % 16 = 15 then
      (sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) (ms5_11 ⟨n + 1, hn⟩) (hs5_11 ⟨n + 1, hn⟩) (ms5_12 ⟨n + 1, hn⟩) (hs5_12 ⟨n + 1, hn⟩) scM5_0 (Memref.isWhole_whole _) scM5_1 (Memref.isWhole_whole _) (fun h => (fun h => by have hN : n + 1 < 16 := lt_of_lt_of_eq hn (show cfg5.N = 16 from N_5); (try dsimp only at h); omega) ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (iblk5 V c 10 ⟨n + 1, hn⟩) (outsAt5 c n (Nat.lt_of_succ_lt hn)).1 (outsAt5 c n (Nat.lt_of_succ_lt hn)).2, sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) (ms5_11 ⟨n + 1, hn⟩) (hs5_11 ⟨n + 1, hn⟩) (ms5_12 ⟨n + 1, hn⟩) (hs5_12 ⟨n + 1, hn⟩) scM5_0 (Memref.isWhole_whole _) scM5_1 (Memref.isWhole_whole _) (fun h => (fun h => by have hN : n + 1 < 16 := lt_of_lt_of_eq hn (show cfg5.N = 16 from N_5); (try dsimp only at h); omega) ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (iblk5 V c 10 ⟨n + 1, hn⟩) (outsAt5 c n (Nat.lt_of_succ_lt hn)).1 (outsAt5 c n (Nat.lt_of_succ_lt hn)).2)
    else
      (sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) (ms5_11 ⟨n + 1, hn⟩) (hs5_11 ⟨n + 1, hn⟩) (ms5_12 ⟨n + 1, hn⟩) (hs5_12 ⟨n + 1, hn⟩) scM5_0 (Memref.isWhole_whole _) scM5_1 (Memref.isWhole_whole _) (fun h => (fun h => by have hN : n + 1 < 16 := lt_of_lt_of_eq hn (show cfg5.N = 16 from N_5); (try dsimp only at h); omega) ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (iblk5 V c 10 ⟨n + 1, hn⟩) (outsAt5 c n (Nat.lt_of_succ_lt hn)).1 (outsAt5 c n (Nat.lt_of_succ_lt hn)).2, sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) (ms5_11 ⟨n + 1, hn⟩) (hs5_11 ⟨n + 1, hn⟩) (ms5_12 ⟨n + 1, hn⟩) (hs5_12 ⟨n + 1, hn⟩) scM5_0 (Memref.isWhole_whole _) scM5_1 (Memref.isWhole_whole _) (fun h => (fun h => by have hN : n + 1 < 16 := lt_of_lt_of_eq hn (show cfg5.N = 16 from N_5); (try dsimp only at h); omega) ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (iblk5 V c 10 ⟨n + 1, hn⟩) (outsAt5 c n (Nat.lt_of_succ_lt hn)).1 (outsAt5 c n (Nat.lt_of_succ_lt hn)).2)

/-- The running sums at the first point. -/
theorem outsAt5_A (c : Dev nD) (t : Fin cfg5.N) (h0 : t.val % 16 = 0) (h1 : ¬t.val % 16 = 15) :
    outsAt5 V c t.val t.isLt = (sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t), sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t)) := by
  obtain ⟨n, hn⟩ := t
  cases n with
  | zero => exact rfl
  | succ n => exact (by exfalso; have hN : n + 1 < 16 := lt_of_lt_of_eq hn (show cfg5.N = 16 from N_5); (try dsimp only at h0); omega)

/-- The running sums at a middle point: over what the point before left. -/
theorem outsAt5_B (c : Dev nD) (t : Fin cfg5.N) (h0 : ¬t.val % 16 = 0) (h1 : ¬t.val % 16 = 15) :
    outsAt5 V c t.val t.isLt = (sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2, sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- The running sums at the last point: over what the point before left. -/
theorem outsAt5_C (c : Dev nD) (t : Fin cfg5.N) (h0 : ¬t.val % 16 = 0) (h1 : t.val % 16 = 15) :
    outsAt5 V c t.val t.isLt = (sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2, sout5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- What the two outputs' staging buffers hold after the body at the last point: mean and variance from the running sums.
    (At every other point the windows are idle and this is not consulted.) -/
noncomputable def outs5 (c : Dev nD) (t : Fin cfg5.N) : Vec F S1x64 .f32 × Vec F S1x64 .f32 :=
  if h1 : t.val % 16 = 15 then
    (out5_C_11 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => (fun h => by omega) ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2, out5_C_12 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => (fun h => by omega) ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2)
  else (k5_pay6 (F := F), k5_pay7 (F := F))

theorem outs5_C (c : Dev nD) (t : Fin cfg5.N) (h0 : ¬t.val % 16 = 0) (h1 : t.val % 16 = 15) :
    outs5 V c t = (out5_C_11 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2, out5_C_12 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2) :=
  (dif_pos h1).trans rfl

/-! ## The invariant between points -/

/-- The region invariant before position n: the generator register at some state, the two accumulators — at anything before
    the first point, afterwards at the running sums the point before left —, and every other scoped buffer unopened. -/
noncomputable def PhiS5 (c : Dev nD) : (n : ℕ) → n ≤ cfg5.N → sProp 𝕄
  | 0, _ => iprop((∃ r, prngReg c r) ∗ iprop((∃ d, owns (c : Thread nD τ) scM5_0 fullShare d) ∗ (∃ d, owns (c : Thread nD τ) scM5_1 fullShare d)) ∗ Pipeline.scopedRestBut (Ix := Unit) (Name := ℕ) (U := UR sig nD τ) (Lvl := ℕ) (Val := Elt F) spec5 c [cc5_scratch0, cc5_scratch1])
  | n + 1, hn => iprop((∃ r, prngReg c r) ∗ iprop(owns (c : Thread nD τ) scM5_0 fullShare ((outsAt5 V c n hn).1) ∗ owns (c : Thread nD τ) scM5_1 fullShare ((outsAt5 V c n hn).2)) ∗ Pipeline.scopedRestBut (Ix := Unit) (Name := ℕ) (U := UR sig nD τ) (Lvl := ℕ) (Val := Elt F) spec5 c [cc5_scratch0, cc5_scratch1])

theorem PhiS5_zero (c : Dev nD) (n : ℕ) (h : n ≤ cfg5.N) (hz : n = 0) :
    PhiS5 V c n h = iprop((∃ r, prngReg c r) ∗ iprop((∃ d, owns (c : Thread nD τ) scM5_0 fullShare d) ∗ (∃ d, owns (c : Thread nD τ) scM5_1 fullShare d)) ∗ Pipeline.scopedRestBut (Ix := Unit) (Name := ℕ) (U := UR sig nD τ) (Lvl := ℕ) (Val := Elt F) spec5 c [cc5_scratch0, cc5_scratch1]) := by
  subst hz; rfl

theorem PhiS5_succ (c : Dev nD) (n : ℕ) (hn : n < cfg5.N) :
    PhiS5 V c (n + 1) hn = iprop((∃ r, prngReg c r) ∗ iprop(owns (c : Thread nD τ) scM5_0 fullShare ((outsAt5 V c n hn).1) ∗ owns (c : Thread nD τ) scM5_1 fullShare ((outsAt5 V c n hn).2)) ∗ Pipeline.scopedRestBut (Ix := Unit) (Name := ℕ) (U := UR sig nD τ) (Lvl := ℕ) (Val := Elt F) spec5 c [cc5_scratch0, cc5_scratch1]) := rfl

theorem PhiS5_pos (c : Dev nD) (n : ℕ) (h : n ≤ cfg5.N) (hz : n ≠ 0) :
    PhiS5 V c n h = iprop((∃ r, prngReg c r) ∗ iprop(owns (c : Thread nD τ) scM5_0 fullShare ((outsAt5 V c (n - 1) (by omega)).1) ∗ owns (c : Thread nD τ) scM5_1 fullShare ((outsAt5 V c (n - 1) (by omega)).2)) ∗ Pipeline.scopedRestBut (Ix := Unit) (Name := ℕ) (U := UR sig nD τ) (Lvl := ℕ) (Val := Elt F) spec5 c [cc5_scratch0, cc5_scratch1]) := by
  cases n with
  | zero => exact absurd rfl hz
  | succ n => rfl

/-! ## The proof data -/

/-- The proof data of the call on core c: the arrays as the region finds them; after the body each input's buffer at its
    block, the outputs' at mean and variance of the running sums; the invariant above; nothing owed; full shares. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => (outs5 V c t).1
    | ⟨12, _⟩ => (outs5 V c t).2
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = (outs5 V c t).1 := by dsimp only [dat5]
theorem after5_12 (c : Dev nD) (t : Fin cfg5.N) : (dat5 V c).after 12 t = (outs5 V c t).2 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d

/-! ## The body obligation, at a generic point -/

/-- What the body is called with at point t, -/
noncomputable def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d))
    ∗ (∃ d, owns (c : Thread nD τ) (ms5_9 t) fullShare ((dat5 V c).before 9 t d))
    ∗ (∃ d, owns (c : Thread nD τ) (ms5_10 t) fullShare ((dat5 V c).before 10 t d))
    ∗ (∃ d, owns (c : Thread nD τ) (ms5_11 t) fullShare ((dat5 V c).before 11 t d))
    ∗ (∃ d, owns (c : Thread nD τ) (ms5_12 t) fullShare ((dat5 V c).before 12 t d)))

/-- and what it returns. -/
noncomputable def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t
    ∗ (dat5 V c).leavesExact 9 t
    ∗ (dat5 V c).leavesExact 10 t
    ∗ (dat5 V c).leavesExact 11 t
    ∗ (dat5 V c).leavesExact 12 t)

set_option maxHeartbeats 8000000 in
/-- The body at any point. The inputs' memrefs hold their blocks. At the first point the invariant hands the body the
    accumulators at anything and takes them back cleared-and-added; at a later point it hands them at the running sums the
    point before left and takes them back with this block's sums added. Away from the last point the outputs' buffers are
    handed back as found (the windows are idle there); at the last point they are left at mean and variance. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10]
  rw [show (dat5 V c).owesAt () t.succ = (dat5 V c).owesAt () t.castSucc from rfl]
  rw [show (dat5 V c).Φ t.succ = PhiS5 V c (t.val + 1) t.isLt from rfl, PhiS5_succ]
  have hN : t.val < 16 := lt_of_lt_of_eq t.isLt (show cfg5.N = 16 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [show (dat5 V c).leavesExact 5 t = owns (c : Thread nD τ) (ms5_5 t) fullShare ((dat5 V c).after 5 t) from by
    unfold Dat.leavesExact; rw [liveAt5_5 t], after5_5]
  rw [show (dat5 V c).leavesExact 6 t = owns (c : Thread nD τ) (ms5_6 t) fullShare ((dat5 V c).after 6 t) from by
    unfold Dat.leavesExact; rw [liveAt5_6 t], after5_6]
  rw [show (dat5 V c).leavesExact 7 t = owns (c : Thread nD τ) (ms5_7 t) fullShare ((dat5 V c).after 7 t) from by
    unfold Dat.leavesExact; rw [liveAt5_7 t], after5_7]
  rw [show (dat5 V c).leavesExact 8 t = owns (c : Thread nD τ) (ms5_8 t) fullShare ((dat5 V c).after 8 t) from by
    unfold Dat.leavesExact; rw [liveAt5_8 t], after5_8]
  rw [show (dat5 V c).leavesExact 9 t = owns (c : Thread nD τ) (ms5_9 t) fullShare ((dat5 V c).after 9 t) from by
    unfold Dat.leavesExact; rw [liveAt5_9 t], after5_9]
  rw [show (dat5 V c).leavesExact 10 t = owns (c : Thread nD τ) (ms5_10 t) fullShare ((dat5 V c).after 10 t) from by
    unfold Dat.leavesExact; rw [liveAt5_10 t], after5_10]
  by_cases h1 : t.val % 16 = 15
  · have h0 : ¬t.val % 16 = 0 := by omega
    have hz : t.val ≠ 0 := by omega
    rw [show (dat5 V c).leavesExact 11 t = owns (c : Thread nD τ) (ms5_11 t) fullShare ((dat5 V c).after 11 t) from by
      unfold Dat.leavesExact; rw [liveAt5_11 t ((hcond5_1 t).mpr h1)], after5_11]
    rw [show (dat5 V c).leavesExact 12 t = owns (c : Thread nD τ) (ms5_12 t) fullShare ((dat5 V c).after 12 t) from by
      unfold Dat.leavesExact; rw [liveAt5_12 t ((hcond5_1 t).mpr h1)], after5_12]
    rw [outsAt5_C V c t h0 h1, outs5_C V c t h0 h1]
    unfold out5_C_11 out5_C_12 sout5_C_0 sout5_C_1; (try dsimp only)
    rw [PhiS5_castSucc V c t, PhiS5_pos V c _ _ hz]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun5_C c (grid5.coords t) _ _ _ _ _ _ _ _ _ _ _ _ _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    iintro ⟨H0, H1, H2, H3, H4, H5, H6, H7, H8, H9, H10, ⟨%e11, H11⟩, ⟨%e12, H12⟩, ⟨%es0, HS0⟩, ⟨%es1, HS1⟩⟩
    isplitl [Hg HS0 HS1 HR]
    · isplitl [Hg]; · iexact Hg
      isplitl [HS0 HS1]
      · isplitl [HS0]
        · unfold owns; iexists _; isplitr
          swap; · iexact HS0
          ipureintro; exact View.read_writes_of_cover _ _ _ _ _ (scover5_C_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover5_C_1 c _ _ _ _ _ _ _ _ _ _ _ _ _ _ _ _ _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover5_C_11 c _ _ _ _ _ _ _ _ _ _ _ _ _ _ _ _ _ _ _ _ _ _ _ _ _ _ _ _ _ _ _ _ _ _ _ _ _ _ _ _ _ _ _ _ _ _)
    · unfold owns; iexists _; isplitr
      swap; · iexact H12
      ipureintro; exact View.read_writes_of_cover _ _ _ _ _ (cover5_C_12 c _ _ _ _ _ _ _ _ _ _ _ _ _ _ _ _ _ _ _ _ _ _ _ _ _ _ _ _ _ _ _ _ _ _ _ _ _ _ _ _ _ _ _ _ _ _)
  · rw [Dat.leavesExact_idle (dat5 V c) 11 t (idleAt5_11 t (fun h => h1 ((hcond5_1 t).mp h))) (noFlush5_11 t (fun h => h1 ((hcond5_1 t).mp h)))]
    rw [Dat.leavesExact_idle (dat5 V c) 12 t (idleAt5_12 t (fun h => h1 ((hcond5_1 t).mp h))) (noFlush5_12 t (fun h => h1 ((hcond5_1 t).mp h)))]
    by_cases h0 : t.val % 16 = 0
    · have hz : t.val = 0 := by omega
      rw [outsAt5_A V c t h0 h1]
      unfold sout5_A_0 sout5_A_1; (try dsimp only)
      rw [PhiS5_castSucc V c t, PhiS5_zero V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun5_A c (grid5.coords t) _ _ _ _ _ _ _ _ _ _ _ _ _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover5_A_0 c _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover5_A_1 c _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
    · have hz : t.val ≠ 0 := by omega
      rw [outsAt5_B V c t h0 h1]
      unfold sout5_B_0 sout5_B_1; (try dsimp only)
      rw [PhiS5_castSucc V c t, PhiS5_pos V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun5_B c (grid5.coords t) _ _ _ _ _ _ _ _ _ _ _ _ _ _ _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover5_B_0 c _ _ _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover5_B_1 c _ _ _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the region is entered with is the invariant before the first point: the scoped rest split at the two accumulators. -/
theorem phi_in5 (c : Dev nD) :
    (iprop((∃ r, prngReg c r) ∗ Pipeline.scopedRest (Ix := Unit) (Name := ℕ) (U := UR sig nD τ) (Lvl := ℕ) (Val := Elt F) spec5 c) : sProp 𝕄)
      ⊢ (dat5 V c).Φ 0 := by
  rw [show (dat5 V c).Φ 0 = PhiS5 V c 0 (Nat.zero_le _) from rfl, PhiS5_zero V c 0 _ rfl, scoped5_eq]

/-- After the last point the invariant gives the scoped rest back: the accumulators' named contents are forgotten. -/
theorem phi_out5 (c : Dev nD) :
    (dat5 V c).Φ (Fin.last cfg5.N)
      ⊢ (iprop((∃ r, prngReg c r) ∗ Pipeline.scopedRest (Ix := Unit) (Name := ℕ) (U := UR sig nD τ) (Lvl := ℕ) (Val := Elt F) spec5 c) : sProp 𝕄) := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 16 := N_5; omega), scoped5_eq]
  iintro ⟨Hg, ⟨HS0, HS1⟩, HR⟩
  isplitl [Hg]; · iexact Hg
  isplitl [HS0 HS1]
  · isplitl [HS0]; · iexists _; iexact HS0
    iexists _; iexact HS1
  iexact HR

/-! ## The found stores read back: one point's additions, and mean and variance -/

theorem hz5 : (![0, 0] : Fin 2 → Nat) = fun _ => 0 := funext fun a => by fin_cases a <;> rfl

/-- One point's addition to the first accumulator s: s plus the column sums of the block of z2 that the eleven input blocks give. -/
noncomputable def add5_0 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k5_pay2 (k5_pay8 x2 x0 x1 x3 x4 x5 x6) (k5_pay9 x7) x8 x9 x10 s
/-- One point's addition to the second accumulator: s plus the column sums of z2 * z2 of the same block. -/
noncomputable def add5_1 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k5_pay3 (k5_pay8 x2 x0 x1 x3 x4 x5 x6) (k5_pay9 x7) x8 x9 x10 s

theorem sout5_B_0_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout5_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add5_0 x0 x1 x2 x3 x4 x5 x6 x7 x8 x9 x10 xs0 := by
  unfold sout5_B_0 add5_0
  rw [View.read_writes_eq_canon _ _ _ (scover5_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun5_B
  dsimp only
  sl_unfold_words
  rw [View.canon_unit_zero hz5]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

theorem sout5_B_1_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout5_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add5_1 x0 x1 x2 x3 x4 x5 x6 x7 x8 x9 x10 xs1 := by
  unfold sout5_B_1 add5_1
  rw [View.read_writes_eq_canon _ _ _ (scover5_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun5_B
  dsimp only
  sl_unfold_words
  rw [View.canon_unit_zero hz5]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

theorem sout5_A_0_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout5_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add5_0 x0 x1 x2 x3 x4 x5 x6 x7 x8 x9 x10 (k5_pay6 (F := F)) := by
  unfold sout5_A_0 add5_0
  rw [View.read_writes_eq_canon _ _ _ (scover5_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun5_A
  dsimp only
  sl_unfold_words
  rw [View.canon_cons_unit_zero (S := S1x64) hz5, View.readCov_unit_zero (S := S1x64) _ hz5]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

theorem sout5_A_1_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout5_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add5_1 x0 x1 x2 x3 x4 x5 x6 x7 x8 x9 x10 (k5_pay7 (F := F)) := by
  unfold sout5_A_1 add5_1
  rw [View.read_writes_eq_canon _ _ _ (scover5_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun5_A
  dsimp only
  sl_unfold_words
  rw [View.canon_cons_unit_zero (S := S1x64) hz5, View.readCov_unit_zero (S := S1x64) _ hz5]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

theorem sout5_C_0_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout5_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add5_0 x0 x1 x2 x3 x4 x5 x6 x7 x8 x9 x10 xs0 := by
  unfold sout5_C_0 add5_0
  rw [View.read_writes_eq_canon _ _ _ (scover5_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun5_C
  dsimp only
  sl_unfold_words
  rw [View.canon_unit_zero hz5]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

theorem sout5_C_1_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout5_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add5_1 x0 x1 x2 x3 x4 x5 x6 x7 x8 x9 x10 xs1 := by
  unfold sout5_C_1 add5_1
  rw [View.read_writes_eq_canon _ _ _ (scover5_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun5_C
  dsimp only
  sl_unfold_words
  rw [View.canon_unit_zero hz5]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

theorem out5_C_11_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out5_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k5_pay4 (add5_0 x0 x1 x2 x3 x4 x5 x6 x7 x8 x9 x10 xs0) := by
  unfold out5_C_11 add5_0
  rw [View.read_writes_eq_canon _ _ _ (cover5_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun5_C
  dsimp only
  sl_unfold_words
  rw [View.canon_unit_zero hz5]
  simp only [View.readCov_unit_zero (S := S1x64) _ hz5, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

theorem out5_C_12_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out5_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k5_pay5 (add5_0 x0 x1 x2 x3 x4 x5 x6 x7 x8 x9 x10 xs0) (add5_1 x0 x1 x2 x3 x4 x5 x6 x7 x8 x9 x10 xs1) := by
  unfold out5_C_12 add5_0 add5_1
  rw [View.read_writes_eq_canon _ _ _ (cover5_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun5_C
  dsimp only
  sl_unfold_words
  rw [View.canon_unit_zero hz5]
  simp only [View.readCov_unit_zero (S := S1x64) _ hz5, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

/-! ## The running sums in closed form -/

/-- The ORDERED running sums after position n: the cleared accumulators plus the first block's sums, then one block's sums
    more per point. -/
noncomputable def sums5 (c : Dev nD) : (n : ℕ) → n < cfg5.N → Vec F S1x64 .f32 × Vec F S1x64 .f32
  | 0, h => (add5_0 (iblk5 V c 0 ⟨0, h⟩) (iblk5 V c 1 ⟨0, h⟩) (iblk5 V c 2 ⟨0, h⟩) (iblk5 V c 3 ⟨0, h⟩) (iblk5 V c 4 ⟨0, h⟩) (iblk5 V c 5 ⟨0, h⟩) (iblk5 V c 6 ⟨0, h⟩) (iblk5 V c 7 ⟨0, h⟩) (iblk5 V c 8 ⟨0, h⟩) (iblk5 V c 9 ⟨0, h⟩) (iblk5 V c 10 ⟨0, h⟩) (k5_pay6 (F := F)), add5_1 (iblk5 V c 0 ⟨0, h⟩) (iblk5 V c 1 ⟨0, h⟩) (iblk5 V c 2 ⟨0, h⟩) (iblk5 V c 3 ⟨0, h⟩) (iblk5 V c 4 ⟨0, h⟩) (iblk5 V c 5 ⟨0, h⟩) (iblk5 V c 6 ⟨0, h⟩) (iblk5 V c 7 ⟨0, h⟩) (iblk5 V c 8 ⟨0, h⟩) (iblk5 V c 9 ⟨0, h⟩) (iblk5 V c 10 ⟨0, h⟩) (k5_pay7 (F := F)))
  | n + 1, h => (add5_0 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (sums5 c n (Nat.lt_of_succ_lt h)).1, add5_1 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (sums5 c n (Nat.lt_of_succ_lt h)).2)

/-- What the accumulators hold after position n IS the running sums: by induction on the point. -/
theorem outsAt5_eq (c : Dev nD) : ∀ (n : ℕ) (h : n < cfg5.N), outsAt5 V c n h = sums5 V c n h
  | 0, h => by
    rw [outsAt5_A V c ⟨0, h⟩ rfl (by show ¬(0 : ℕ) % 16 = 15; omega), sout5_A_0_eq, sout5_A_1_eq]
    rfl
  | n + 1, h => by
    have hN : cfg5.N = 16 := N_5
    have hB : ¬(⟨n + 1, h⟩ : Fin cfg5.N).val % 16 = 0 := by dsimp only; omega
    have ih := outsAt5_eq c n (Nat.lt_of_succ_lt h)
    by_cases h1 : (⟨n + 1, h⟩ : Fin cfg5.N).val % 16 = 15
    · rw [outsAt5_C V c ⟨n + 1, h⟩ hB h1, sout5_C_0_eq, sout5_C_1_eq]
      show (add5_0 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (outsAt5 V c n _).1, add5_1 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (outsAt5 V c n _).2) = (add5_0 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (sums5 V c n _).1, add5_1 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (sums5 V c n _).2)
      rw [ih]
    · rw [outsAt5_B V c ⟨n + 1, h⟩ hB h1, sout5_B_0_eq, sout5_B_1_eq]
      show (add5_0 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (outsAt5 V c n _).1, add5_1 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (outsAt5 V c n _).2) = (add5_0 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (sums5 V c n _).1, add5_1 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (sums5 V c n _).2)
      rw [ih]

/-! ## What the region leaves in its two output arrays -/

/-- The running sums after the last point. -/
noncomputable abbrev total5 (c : Dev nD) : Vec F S1x64 .f32 × Vec F S1x64 .f32 := sums5 V c 15 (by rw [show cfg5.N = 16 from N_5]; decide)

/-- The mean array the region leaves: S * 2^(-16) of the first running sum. -/
noncomputable def G5_11 (c : Dev nD) : Buf (Elt F) ((c : Thread nD τ).loc main_v114_0) := k5_pay4 (total5 V c).1
/-- The variance array the region leaves: Q * 2^(-16) - mean * mean. -/
noncomputable def G5_12 (c : Dev nD) : Buf (Elt F) ((c : Thread nD τ).loc main_v114_1) := k5_pay5 (total5 V c).1 (total5 V c).2

/-- What the last point leaves in the two outputs' staging buffers. -/
theorem outs5_last (c : Dev nD) : outs5 V c t5_15 = (k5_pay4 (total5 V c).1, k5_pay5 (total5 V c).1 (total5 V c).2) := by
  rw [outs5_C V c t5_15 (by decide) (by decide), out5_C_11_eq, out5_C_12_eq]
  have ih := outsAt5_eq V c 14 (by rw [show cfg5.N = 16 from N_5]; decide)
  show (k5_pay4 (add5_0 (iblk5 V c 0 t5_15) (iblk5 V c 1 t5_15) (iblk5 V c 2 t5_15) (iblk5 V c 3 t5_15) (iblk5 V c 4 t5_15) (iblk5 V c 5 t5_15) (iblk5 V c 6 t5_15) (iblk5 V c 7 t5_15) (iblk5 V c 8 t5_15) (iblk5 V c 9 t5_15) (iblk5 V c 10 t5_15) (outsAt5 V c 14 _).1), k5_pay5 (add5_0 (iblk5 V c 0 t5_15) (iblk5 V c 1 t5_15) (iblk5 V c 2 t5_15) (iblk5 V c 3 t5_15) (iblk5 V c 4 t5_15) (iblk5 V c 5 t5_15) (iblk5 V c 6 t5_15) (iblk5 V c 7 t5_15) (iblk5 V c 8 t5_15) (iblk5 V c 9 t5_15) (iblk5 V c 10 t5_15) (outsAt5 V c 14 _).1) (add5_1 (iblk5 V c 0 t5_15) (iblk5 V c 1 t5_15) (iblk5 V c 2 t5_15) (iblk5 V c 3 t5_15) (iblk5 V c 4 t5_15) (iblk5 V c 5 t5_15) (iblk5 V c 6 t5_15) (iblk5 V c 7 t5_15) (iblk5 V c 8 t5_15) (iblk5 V c 9 t5_15) (iblk5 V c 10 t5_15) (outsAt5 V c 14 _).2)) = _
  rw [ih]
  rfl

/-- The one write-back of window 11, at the last point, writes it: the block is the whole array. -/
theorem flushed5_11 (c : Dev nD) (t : Fin cfg5.N) (hf : (cfg5.win 11).flush t = true) :
    (dat5 V c).flushed 11 t = ((cfg5.win 11).blk t).view.read (Elt F) (G5_11 V c) := by
  have hN : cfg5.N = 16 := N_5
  have h15 : t.val = 15 := by have := (flush5_11 t).mp hf; have := t.isLt; omega
  obtain rfl : t = t5_15 := Fin.ext h15
  show (cfg5.win 11).cut (grid5.coords t5_15) ((dat5 V c).after 11 t5_15) = _
  rw [after5_11, outs5_last]
  have hz' : (fun a => win5_11.index t5_15 a * main_v114_0.ty.shape.size a) = fun _ => 0 := funext fun a => by fin_cases a <;> decide
  exact (Memref.read_access_unit_zero (Elt F) main_v114_0 hz' (fun a => by rw [congrFun hz' a]; simp) (G5_11 V c)).symm

set_option maxHeartbeats 4000000 in
/-- So the array of window 11 ends holding it: the last point's block covers the array. -/
theorem final5_11 (c : Dev nD) : (dat5 V c).arrAt ⟨11, by decide⟩ cfg5.N = G5_11 V c :=
  (dat5 V c).arrAt_eq_of_cover 11 (G5_11 V c) (flushed5_11 V c) fun i =>
    ⟨t5_15, (flush5_11 t5_15).mpr rfl, by
      show i ∈ ((View.whole main_v114_0).slice (win5_11.rect t5_15)).set
      rw [View.set_slice_whole, Rect.mem_set_unit]
      intro a
      have h0 : (i 0 : Nat) < 1 := (i 0).isLt
      have h1 : (i 1 : Nat) < 64 := (i 1).isLt
      match a with
      | ⟨0, _⟩ => show win5_11.index t5_15 0 * win5_11.size 0 ≤ (i 0 : Nat) ∧ (i 0 : Nat) < win5_11.index t5_15 0 * win5_11.size 0 + win5_11.xsize (grid5.coords t5_15) 0
                  rw [show win5_11.index t5_15 0 * win5_11.size 0 = 0 from by decide +kernel, show win5_11.xsize (grid5.coords t5_15) 0 = 1 from by decide +kernel]; omega
      | ⟨1, _⟩ => show win5_11.index t5_15 1 * win5_11.size 1 ≤ (i 1 : Nat) ∧ (i 1 : Nat) < win5_11.index t5_15 1 * win5_11.size 1 + win5_11.xsize (grid5.coords t5_15) 1
                  rw [show win5_11.index t5_15 1 * win5_11.size 1 = 0 from by decide +kernel, show win5_11.xsize (grid5.coords t5_15) 1 = 64 from by decide +kernel]; omega⟩

/-- The one write-back of window 12, at the last point, writes it: the block is the whole array. -/
theorem flushed5_12 (c : Dev nD) (t : Fin cfg5.N) (hf : (cfg5.win 12).flush t = true) :
    (dat5 V c).flushed 12 t = ((cfg5.win 12).blk t).view.read (Elt F) (G5_12 V c) := by
  have hN : cfg5.N = 16 := N_5
  have h15 : t.val = 15 := by have := (flush5_12 t).mp hf; have := t.isLt; omega
  obtain rfl : t = t5_15 := Fin.ext h15
  show (cfg5.win 12).cut (grid5.coords t5_15) ((dat5 V c).after 12 t5_15) = _
  rw [after5_12, outs5_last]
  have hz' : (fun a => win5_12.index t5_15 a * main_v114_1.ty.shape.size a) = fun _ => 0 := funext fun a => by fin_cases a <;> decide
  exact (Memref.read_access_unit_zero (Elt F) main_v114_1 hz' (fun a => by rw [congrFun hz' a]; simp) (G5_12 V c)).symm

set_option maxHeartbeats 4000000 in
/-- So the array of window 12 ends holding it: the last point's block covers the array. -/
theorem final5_12 (c : Dev nD) : (dat5 V c).arrAt ⟨12, by decide⟩ cfg5.N = G5_12 V c :=
  (dat5 V c).arrAt_eq_of_cover 12 (G5_12 V c) (flushed5_12 V c) fun i =>
    ⟨t5_15, (flush5_12 t5_15).mpr rfl, by
      show i ∈ ((View.whole main_v114_1).slice (win5_12.rect t5_15)).set
      rw [View.set_slice_whole, Rect.mem_set_unit]
      intro a
      have h0 : (i 0 : Nat) < 1 := (i 0).isLt
      have h1 : (i 1 : Nat) < 64 := (i 1).isLt
      match a with
      | ⟨0, _⟩ => show win5_12.index t5_15 0 * win5_12.size 0 ≤ (i 0 : Nat) ∧ (i 0 : Nat) < win5_12.index t5_15 0 * win5_12.size 0 + win5_12.xsize (grid5.coords t5_15) 0
                  rw [show win5_12.index t5_15 0 * win5_12.size 0 = 0 from by decide +kernel, show win5_12.xsize (grid5.coords t5_15) 0 = 1 from by decide +kernel]; omega
      | ⟨1, _⟩ => show win5_12.index t5_15 1 * win5_12.size 1 ≤ (i 1 : Nat) ∧ (i 1 : Nat) < win5_12.index t5_15 1 * win5_12.size 1 + win5_12.xsize (grid5.coords t5_15) 1
                  rw [show win5_12.index t5_15 1 * win5_12.size 1 = 0 from by decide +kernel, show win5_12.xsize (grid5.coords t5_15) 1 = 64 from by decide +kernel]; omega⟩

end Cert.Kernel.Hand

end
-- ==== Proof.KB.Reg6.lean ====
/- One of the network's four regions that finish a layer: the second half of a layer, on sixteen blocks of 4096 nodes. At each block the body
   forms (1 + e)·x + agg, maps it to 128 features, normalises by the layer's first mean and variance, clips at zero,
   maps back to 64 features, normalises by the second mean and variance, clips again and adds x. Everything the body
   reads is a block of one of fifteen arrays as the region finds them; what it writes is one block of the sixteenth.
   Stated at any entry contents V of the core's buffers and at any float model. -/
import proofs.«159011_j9938554322955_1_alg».proof.Proof.Gen.Kernel.Launch
import proofs.«159011_j9938554322955_1_alg».proof.Proof.Gen.Kernel.Skeleton
import proofs.«159011_j9938554322955_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

-- membership in a rectangle of 4096 rows is decided by a structural recursion one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window w's block at point t, read off its array as the region finds it. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's buffer holds its block at every point, whether the block was brought in there or not: a block
    that is not brought in again has not moved, and the body leaves every input as it found it. One statement per
    input window, for any proof data whose array is V's and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)
theorem before6_10_of {c : Dev nD} (dat : Dat τ (Elt F) Unit ℕ (UR sig nD τ) ℕ cfg6 c) (hA : dat.A 10 = V c (Pipeline.arrRef spec6 10))
    (hafter : ∀ t, dat.after 10 t = iblk6 V c 10 t) (t : Fin cfg6.N) (d) : dat.before 10 t d = iblk6 V c 10 t :=
  (dat.before_in_eq_fetched 10 rfl (fun _ => rfl) (fun _ _ _ => rfl) (fun t => by rw [hafter]; unfold Dat.blockOf iblk6; rw [hA]; try rfl) t d).trans
    (by unfold Dat.fetched Dat.blockOf iblk6; rw [hA]; try rfl)
theorem before6_11_of {c : Dev nD} (dat : Dat τ (Elt F) Unit ℕ (UR sig nD τ) ℕ cfg6 c) (hA : dat.A 11 = V c (Pipeline.arrRef spec6 11))
    (hafter : ∀ t, dat.after 11 t = iblk6 V c 11 t) (t : Fin cfg6.N) (d) : dat.before 11 t d = iblk6 V c 11 t :=
  (dat.before_in_eq_fetched 11 rfl (fun _ => rfl) (fun _ _ _ => rfl) (fun t => by rw [hafter]; unfold Dat.blockOf iblk6; rw [hA]; try rfl) t d).trans
    (by unfold Dat.fetched Dat.blockOf iblk6; rw [hA]; try rfl)
theorem before6_12_of {c : Dev nD} (dat : Dat τ (Elt F) Unit ℕ (UR sig nD τ) ℕ cfg6 c) (hA : dat.A 12 = V c (Pipeline.arrRef spec6 12))
    (hafter : ∀ t, dat.after 12 t = iblk6 V c 12 t) (t : Fin cfg6.N) (d) : dat.before 12 t d = iblk6 V c 12 t :=
  (dat.before_in_eq_fetched 12 rfl (fun _ => rfl) (fun _ _ _ => rfl) (fun t => by rw [hafter]; unfold Dat.blockOf iblk6; rw [hA]; try rfl) t d).trans
    (by unfold Dat.fetched Dat.blockOf iblk6; rw [hA]; try rfl)
theorem before6_13_of {c : Dev nD} (dat : Dat τ (Elt F) Unit ℕ (UR sig nD τ) ℕ cfg6 c) (hA : dat.A 13 = V c (Pipeline.arrRef spec6 13))
    (hafter : ∀ t, dat.after 13 t = iblk6 V c 13 t) (t : Fin cfg6.N) (d) : dat.before 13 t d = iblk6 V c 13 t :=
  (dat.before_in_eq_fetched 13 rfl (fun _ => rfl) (fun _ _ _ => rfl) (fun t => by rw [hafter]; unfold Dat.blockOf iblk6; rw [hA]; try rfl) t d).trans
    (by unfold Dat.fetched Dat.blockOf iblk6; rw [hA]; try rfl)
theorem before6_14_of {c : Dev nD} (dat : Dat τ (Elt F) Unit ℕ (UR sig nD τ) ℕ cfg6 c) (hA : dat.A 14 = V c (Pipeline.arrRef spec6 14))
    (hafter : ∀ t, dat.after 14 t = iblk6 V c 14 t) (t : Fin cfg6.N) (d) : dat.before 14 t d = iblk6 V c 14 t :=
  (dat.before_in_eq_fetched 14 rfl (fun _ => rfl) (fun _ _ _ => rfl) (fun t => by rw [hafter]; unfold Dat.blockOf iblk6; rw [hA]; try rfl) t d).trans
    (by unfold Dat.fetched Dat.blockOf iblk6; rw [hA]; try rfl)

/-! ## What the body reads and writes: every buffer whole -/

noncomputable abbrev rRows6 : Rect S4096x64 := Rect.unit (s := S4096x64) ![0, 0] S4096x64.size inb_S4096x64_S4096x64_0_0
noncomputable abbrev rRowS6 : Rect S1x64 := Rect.unit (s := S1x64) ![0, 0] S1x64.size inb_S1x64_S1x64_0_0
noncomputable abbrev rMatA6 : Rect S64x128 := Rect.unit (s := S64x128) ![0, 0] S64x128.size inb_S64x128_S64x128_0_0
noncomputable abbrev rRowL6 : Rect S1x128 := Rect.unit (s := S1x128) ![0, 0] S1x128.size inb_S1x128_S1x128_0_0
noncomputable abbrev rMatB6 : Rect S128x64 := Rect.unit (s := S128x64) ![0, 0] S128x64.size inb_S128x64_S128x64_0_0

/-! ## What the body leaves in the output block -/

/-- The output block after the body, from the fifteen input blocks: one store over the whole block, of the second
    normalisation clipped plus x, itself computed from the first normalisation's two factors. -/
noncomputable def out6_15 (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) : Vec F S4096x64 .f32 :=
  View.canon [⟨rRows6, k6_pay1 (k6_pay2 (View.ld x_2 rRowS6) (View.ld x_0 rRows6) (View.ld x_1 rRows6) (View.ld x_3 rMatA6) (View.ld x_4 rRowL6) (View.ld x_5 rRowL6) (View.ld x_6 rRowL6) (View.ld x_7 rRowL6)) (k6_pay3 (View.ld x_8 rRowL6)) (View.ld x_9 rMatB6) (View.ld x_10 rRowS6) (View.ld x_11 rRowS6) (View.ld x_12 rRowS6) (View.ld x_13 rRowS6) (View.ld x_14 rRowS6) (View.ld x_0 rRows6)⟩]

/-- The one store covers the block. -/
theorem cover6_15 (p0 : Vec F S4096x64 .f32) (y : S4096x64.Idx) :
    ∃ pc ∈ ([⟨rRows6, p0⟩] : List (View.Piece (Elt F) S4096x64 .f32)), y ∈ pc.1.set :=
  View.cover_of_tiled [⟨rRows6, p0⟩] S4096x64.size (by rfl) y

/-! ## The body's triple -/

set_option maxHeartbeats 4000000 in
/-- The body on whole buffers, the fifteen inputs' at read contents x_0 … x_14 and the output's at anything, runs to the
    continuation holding the inputs' as they were and the output's at out6_15 of them. -/
theorem sound_kernel6 (c : Dev nD) (E : Set ℕ) (i : grid6.Coords) (a_0 : Memref sig .tc .vmem S4096x64 .f32) (h_0 : a_0.IsWhole) (a_1 : Memref sig .tc .vmem S4096x64 .f32) (h_1 : a_1.IsWhole) (a_2 : Memref sig .tc .vmem S1x64 .f32) (h_2 : a_2.IsWhole) (a_3 : Memref sig .tc .vmem S64x128 .f32) (h_3 : a_3.IsWhole) (a_4 : Memref sig .tc .vmem S1x128 .f32) (h_4 : a_4.IsWhole) (a_5 : Memref sig .tc .vmem S1x128 .f32) (h_5 : a_5.IsWhole) (a_6 : Memref sig .tc .vmem S1x128 .f32) (h_6 : a_6.IsWhole) (a_7 : Memref sig .tc .vmem S1x128 .f32) (h_7 : a_7.IsWhole) (a_8 : Memref sig .tc .vmem S1x128 .f32) (h_8 : a_8.IsWhole) (a_9 : Memref sig .tc .vmem S128x64 .f32) (h_9 : a_9.IsWhole) (a_10 : Memref sig .tc .vmem S1x64 .f32) (h_10 : a_10.IsWhole) (a_11 : Memref sig .tc .vmem S1x64 .f32) (h_11 : a_11.IsWhole) (a_12 : Memref sig .tc .vmem S1x64 .f32) (h_12 : a_12.IsWhole) (a_13 : Memref sig .tc .vmem S1x64 .f32) (h_13 : a_13.IsWhole) (a_14 : Memref sig .tc .vmem S1x64 .f32) (h_14 : a_14.IsWhole) (a_15 : Memref sig .tc .vmem S4096x64 .f32) (h_15 : a_15.IsWhole)
    (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) (K : PUnit → sProp 𝕄) :
    iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ (∃ d, owns (c : Thread nD τ) a_15 fullShare d)
        ∗ (iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ owns (c : Thread nD τ) a_15 fullShare (out6_15 x_0 x_1 x_2 x_3 x_4 x_5 x_6 x_7 x_8 x_9 x_10 x_11 x_12 x_13 x_14)) -∗ K ⟨⟩))
      ⊢ wp frame (wpE (defs₀ (F := F)) Variants.none c none) E (cc6__apply_kernel i a_0 h_0 a_1 h_1 a_2 h_2 a_3 h_3 a_4 h_4 a_5 h_5 a_6 h_6 a_7 h_7 a_8 h_8 a_9 h_9 a_10 h_10 a_11 h_11 a_12 h_12 a_13 h_13 a_14 h_14 a_15 h_15) K := by
  simp only [cc6__apply_kernel_eq_skeleton]; unfold cc6__apply_kernel_skel
  unfold owns
  iintro ⟨⟨%f_0, %hf_0, H_0⟩, ⟨%f_1, %hf_1, H_1⟩, ⟨%f_2, %hf_2, H_2⟩, ⟨%f_3, %hf_3, H_3⟩, ⟨%f_4, %hf_4, H_4⟩, ⟨%f_5, %hf_5, H_5⟩, ⟨%f_6, %hf_6, H_6⟩, ⟨%f_7, %hf_7, H_7⟩, ⟨%f_8, %hf_8, H_8⟩, ⟨%f_9, %hf_9, H_9⟩, ⟨%f_10, %hf_10, H_10⟩, ⟨%f_11, %hf_11, H_11⟩, ⟨%f_12, %hf_12, H_12⟩, ⟨%f_13, %hf_13, H_13⟩, ⟨%f_14, %hf_14, H_14⟩, ⟨%d_15, %f_15, -, H_15⟩, Hk⟩
  subst hf_0 hf_1 hf_2 hf_3 hf_4 hf_5 hf_6 hf_7 hf_8 hf_9 hf_10 hf_11 hf_12 hf_13 hf_14
  sl_exec
  sl_step
  iapply Hk
  isplitl [H_0]
  · iexists f_0; isplitr; · ipureintro; rfl
    iexact H_0
  isplitl [H_1]
  · iexists f_1; isplitr; · ipureintro; rfl
    iexact H_1
  isplitl [H_2]
  · iexists f_2; isplitr; · ipureintro; rfl
    iexact H_2
  isplitl [H_3]
  · iexists f_3; isplitr; · ipureintro; rfl
    iexact H_3
  isplitl [H_4]
  · iexists f_4; isplitr; · ipureintro; rfl
    iexact H_4
  isplitl [H_5]
  · iexists f_5; isplitr; · ipureintro; rfl
    iexact H_5
  isplitl [H_6]
  · iexists f_6; isplitr; · ipureintro; rfl
    iexact H_6
  isplitl [H_7]
  · iexists f_7; isplitr; · ipureintro; rfl
    iexact H_7
  isplitl [H_8]
  · iexists f_8; isplitr; · ipureintro; rfl
    iexact H_8
  isplitl [H_9]
  · iexists f_9; isplitr; · ipureintro; rfl
    iexact H_9
  isplitl [H_10]
  · iexists f_10; isplitr; · ipureintro; rfl
    iexact H_10
  isplitl [H_11]
  · iexists f_11; isplitr; · ipureintro; rfl
    iexact H_11
  isplitl [H_12]
  · iexists f_12; isplitr; · ipureintro; rfl
    iexact H_12
  isplitl [H_13]
  · iexists f_13; isplitr; · ipureintro; rfl
    iexact H_13
  isplitl [H_14]
  · iexists f_14; isplitr; · ipureintro; rfl
    iexact H_14
  iexists _; isplitr
  swap; · iexact H_15
  ipureintro
  exact View.read_writes_eq_canon _ _ _ (cover6_15 _)

/-! ## The proof data -/

/-- The region's proof data on core c: the arrays as the region finds them; after the body at point t each input's
    buffer at its block and the output's at out6_15 of the input blocks; the invariant the scoped rest and the
    generator register, untouched; nothing owed; full shares. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => iblk6 V c 11 t
    | ⟨12, _⟩ => iblk6 V c 12 t
    | ⟨13, _⟩ => iblk6 V c 13 t
    | ⟨14, _⟩ => iblk6 V c 14 t
    | ⟨15, _⟩ => out6_15 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t)
    | ⟨_ + 16, h⟩ => absurd h (Nat.not_lt.2 (Nat.le_add_left _ _))
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = iblk6 V c 10 t := by dsimp only [dat6]
theorem after6_11 (c : Dev nD) (t : Fin cfg6.N) : (dat6 V c).after 11 t = iblk6 V c 11 t := by dsimp only [dat6]
theorem after6_12 (c : Dev nD) (t : Fin cfg6.N) : (dat6 V c).after 12 t = iblk6 V c 12 t := by dsimp only [dat6]
theorem after6_13 (c : Dev nD) (t : Fin cfg6.N) : (dat6 V c).after 13 t = iblk6 V c 13 t := by dsimp only [dat6]
theorem after6_14 (c : Dev nD) (t : Fin cfg6.N) : (dat6 V c).after 14 t = iblk6 V c 14 t := by dsimp only [dat6]
theorem after6_15 (c : Dev nD) (t : Fin cfg6.N) : (dat6 V c).after 15 t = out6_15 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d
theorem before6_10 (c : Dev nD) (t : Fin cfg6.N) (d) : (dat6 V c).before 10 t d = iblk6 V c 10 t :=
  before6_10_of V (dat6 V c) (A_eq6 V c 10) (after6_10 V c) t d
theorem before6_11 (c : Dev nD) (t : Fin cfg6.N) (d) : (dat6 V c).before 11 t d = iblk6 V c 11 t :=
  before6_11_of V (dat6 V c) (A_eq6 V c 11) (after6_11 V c) t d
theorem before6_12 (c : Dev nD) (t : Fin cfg6.N) (d) : (dat6 V c).before 12 t d = iblk6 V c 12 t :=
  before6_12_of V (dat6 V c) (A_eq6 V c 12) (after6_12 V c) t d
theorem before6_13 (c : Dev nD) (t : Fin cfg6.N) (d) : (dat6 V c).before 13 t d = iblk6 V c 13 t :=
  before6_13_of V (dat6 V c) (A_eq6 V c 13) (after6_13 V c) t d
theorem before6_14 (c : Dev nD) (t : Fin cfg6.N) (d) : (dat6 V c).before 14 t d = iblk6 V c 14 t :=
  before6_14_of V (dat6 V c) (A_eq6 V c 14) (after6_14 V c) t d

/-! ## The body obligation -/

/-- What the body is called with at point t, -/
noncomputable def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d))
    ∗ (∃ d, owns (c : Thread nD τ) (st6_12 t) fullShare ((dat6 V c).before 12 t d))
    ∗ (∃ d, owns (c : Thread nD τ) (st6_13 t) fullShare ((dat6 V c).before 13 t d))
    ∗ (∃ d, owns (c : Thread nD τ) (st6_14 t) fullShare ((dat6 V c).before 14 t d))
    ∗ (∃ d, owns (c : Thread nD τ) (st6_15 t) fullShare ((dat6 V c).before 15 t d)))

/-- and what it returns. -/
noncomputable def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t)
    ∗ owns (c : Thread nD τ) (st6_12 t) fullShare ((dat6 V c).after 12 t)
    ∗ owns (c : Thread nD τ) (st6_13 t) fullShare ((dat6 V c).after 13 t)
    ∗ owns (c : Thread nD τ) (st6_14 t) fullShare ((dat6 V c).after 14 t)
    ∗ owns (c : Thread nD τ) (st6_15 t) fullShare ((dat6 V c).after 15 t))

set_option maxHeartbeats 1000000 in
/-- The body at any point: the inputs' buffers hold their blocks, so the triple applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9, before6_10, before6_11, before6_12, before6_13, before6_14]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11, after6_12, after6_13, after6_14, after6_15]
  iintro ⟨HΦ, Ho, ⟨%d_0, H_0⟩, ⟨%d_1, H_1⟩, ⟨%d_2, H_2⟩, ⟨%d_3, H_3⟩, ⟨%d_4, H_4⟩, ⟨%d_5, H_5⟩, ⟨%d_6, H_6⟩, ⟨%d_7, H_7⟩, ⟨%d_8, H_8⟩, ⟨%d_9, H_9⟩, ⟨%d_10, H_10⟩, ⟨%d_11, H_11⟩, ⟨%d_12, H_12⟩, ⟨%d_13, H_13⟩, ⟨%d_14, H_14⟩, ⟨%d_15, H_15⟩⟩
  iapply (sound_kernel6 c Set.univ _ _ _ _ _ _ _ _ _ _ _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) _)
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  isplitl [H_15]; · iexists _; iexact H_15
  iintro ⟨H_0, H_1, H_2, H_3, H_4, H_5, H_6, H_7, H_8, H_9, H_10, H_11, H_12, H_13, H_14, H_15⟩
  isplitl [HΦ]; · iexact HΦ
  isplitl [Ho]; · iexact Ho
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  iexact H_15

theorem body_obligation6 (c : Dev nD) : BodyObligation (dat6 (F := F) V c) (defs₀ (F := F)) Variants.none () Set.univ := fun t => by
  rw [bigSep_W6, bigSep_W6]
  exact sound_body6 V c t

/-! ## The invariant at the region's ends -/

theorem phi_in6 (c : Dev nD) :
    (iprop((∃ r, prngReg c r) ∗ Pipeline.scopedRest (Ix := Unit) (Name := ℕ) (U := UR sig nD τ) (Lvl := ℕ) (Val := Elt F) spec6 c) : sProp 𝕄)
      ⊢ (dat6 V c).Φ 0 := by
  rw [show (dat6 V c).Φ 0 = Pipeline.ΦA spec6 c from rfl]; unfold Pipeline.ΦA
  iintro ⟨Hp, Hr⟩
  isplitl [Hr]; · iexact Hr
  iexact Hp

theorem phi_out6 (c : Dev nD) :
    (dat6 V c).Φ (Fin.last cfg6.N)
      ⊢ (iprop((∃ r, prngReg c r) ∗ Pipeline.scopedRest (Ix := Unit) (Name := ℕ) (U := UR sig nD τ) (Lvl := ℕ) (Val := Elt F) spec6 c) : sProp 𝕄) := by
  rw [show (dat6 V c).Φ (Fin.last _) = Pipeline.ΦA spec6 c from rfl]; unfold Pipeline.ΦA
  iintro ⟨Hr, Hp⟩
  isplitl [Hp]; · iexact Hp
  iexact Hr

/-! ## The whole output array

    Sixteen blocks of 4096 rows tile the 65536 rows, block t holding rows 4096·t … 4096·t + 4095, so row r is written
    at point r / 4096, at place r % 4096 of the block, and what is written there depends on the inputs' blocks at that
    point only. -/

/-- The point whose block holds an index's row. -/
noncomputable def pt6 (i : S65536x64.Idx) : Fin cfg6.N :=
  ⟨(i 0).val / 4096, by have h := ValueIdx.idx2_lt0 i; show (i 0).val / 4096 < grid6.N; rw [N_6]; omega⟩

/-- Where an index of the array sits inside its block. -/
noncomputable def loc6 (i : S65536x64.Idx) : S4096x64.Idx :=
  ValueIdx.ix2 ⟨(i 0).val % 4096, Nat.mod_lt _ (by decide)⟩ (i 1)

/-- The output array as one function of the fifteen input arrays: at each index, what the body leaves at the index's
    place in its block, from the inputs' blocks at the index's point. -/
noncomputable def G6_15 (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) : S65536x64.Idx → Elt F .f32 :=
  fun i => out6_15
      (((cfg6.win 0).blk (pt6 i)).view.read (Elt F) A_0)
      (((cfg6.win 1).blk (pt6 i)).view.read (Elt F) A_1)
      (((cfg6.win 2).blk (pt6 i)).view.read (Elt F) A_2)
      (((cfg6.win 3).blk (pt6 i)).view.read (Elt F) A_3)
      (((cfg6.win 4).blk (pt6 i)).view.read (Elt F) A_4)
      (((cfg6.win 5).blk (pt6 i)).view.read (Elt F) A_5)
      (((cfg6.win 6).blk (pt6 i)).view.read (Elt F) A_6)
      (((cfg6.win 7).blk (pt6 i)).view.read (Elt F) A_7)
      (((cfg6.win 8).blk (pt6 i)).view.read (Elt F) A_8)
      (((cfg6.win 9).blk (pt6 i)).view.read (Elt F) A_9)
      (((cfg6.win 10).blk (pt6 i)).view.read (Elt F) A_10)
      (((cfg6.win 11).blk (pt6 i)).view.read (Elt F) A_11)
      (((cfg6.win 12).blk (pt6 i)).view.read (Elt F) A_12)
      (((cfg6.win 13).blk (pt6 i)).view.read (Elt F) A_13)
      (((cfg6.win 14).blk (pt6 i)).view.read (Elt F) A_14)
      (loc6 i)

/-- G6_15 at an index, one step unfolded. -/
theorem G6_15_apply (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) (i : S65536x64.Idx) :
    G6_15 A_0 A_1 A_2 A_3 A_4 A_5 A_6 A_7 A_8 A_9 A_10 A_11 A_12 A_13 A_14 i = out6_15 (((cfg6.win 0).blk (pt6 i)).view.read (Elt F) A_0) (((cfg6.win 1).blk (pt6 i)).view.read (Elt F) A_1) (((cfg6.win 2).blk (pt6 i)).view.read (Elt F) A_2) (((cfg6.win 3).blk (pt6 i)).view.read (Elt F) A_3) (((cfg6.win 4).blk (pt6 i)).view.read (Elt F) A_4) (((cfg6.win 5).blk (pt6 i)).view.read (Elt F) A_5) (((cfg6.win 6).blk (pt6 i)).view.read (Elt F) A_6) (((cfg6.win 7).blk (pt6 i)).view.read (Elt F) A_7) (((cfg6.win 8).blk (pt6 i)).view.read (Elt F) A_8) (((cfg6.win 9).blk (pt6 i)).view.read (Elt F) A_9) (((cfg6.win 10).blk (pt6 i)).view.read (Elt F) A_10) (((cfg6.win 11).blk (pt6 i)).view.read (Elt F) A_11) (((cfg6.win 12).blk (pt6 i)).view.read (Elt F) A_12) (((cfg6.win 13).blk (pt6 i)).view.read (Elt F) A_13) (((cfg6.win 14).blk (pt6 i)).view.read (Elt F) A_14) (loc6 i) := rfl

/-- The output's block index at point t is (t, 0), decided over the sixteen points. -/
theorem idx6_15 : ∀ t : Fin cfg6.N, win6_15.index t (0 : Fin 2) = t.val ∧ win6_15.index t (1 : Fin 2) = 0 :=
  (by decide +kernel : ∀ t : Fin grid6.N, _)

set_option maxHeartbeats 2000000 in
/-- What point t writes back is block t of G6_15 of the arrays as the region finds them. -/
theorem flushed6_15_eq (c : Dev nD) (t : Fin cfg6.N) :
    (dat6 V c).flushed 15 t = ((cfg6.win 15).blk t).view.read (Elt F) (G6_15 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) (V c (Pipeline.arrRef spec6 11)) (V c (Pipeline.arrRef spec6 12)) (V c (Pipeline.arrRef spec6 13)) (V c (Pipeline.arrRef spec6 14))) := by
  show (cfg6.win 15).cut (grid6.coords t) ((dat6 V c).after 15 t) = _
  rw [after6_15]
  obtain ⟨e0, e1⟩ := idx6_15 t
  funext j
  have hj0 : (j 0).val < 4096 := (j 0).isLt
  have hp : pt6 (((cfg6.win 15).blk t).view.emb j) = t := by
    apply Fin.ext
    show (win6_15.index t (0 : Fin 2) * 4096 + 1 * (j 0).val) / 4096 = t.val
    omega
  have hl : loc6 (((cfg6.win 15).blk t).view.emb j) = j := by
    funext a; apply Fin.ext
    match a with
    | ⟨0, _⟩ => show (win6_15.index t (0 : Fin 2) * 4096 + 1 * (j 0).val) % 4096 = (j 0).val; omega
    | ⟨1, _⟩ => show win6_15.index t (1 : Fin 2) * 64 + 1 * (j 1).val = (j 1).val; omega
  rw [View.read_apply]
  rw [G6_15_apply, hp, hl]
  unfold iblk6
  generalize out6_15 (F := F) _ _ _ _ _ _ _ _ _ _ _ _ _ _ _ = X
  rfl

/-- An index of the array is in point t's block iff each coordinate is in the block's range on its axis. -/
theorem mem_blk6_15 (t : Fin cfg6.N) (i : S65536x64.Idx) :
    i ∈ ((cfg6.win 15).blk t).view.set ↔ ∀ a : Fin 2, win6_15.index t a * S4096x64.size a ≤ (i a).val ∧ (i a).val < win6_15.index t a * S4096x64.size a + S4096x64.size a := by
  show i ∈ ((View.whole main_v141).slice (win6_15.rect t)).set ↔ _
  rw [View.set_slice_whole, Rect.mem_set_unit]
  exact Iff.rfl

/-- Every index of the array is in some point's block. -/
theorem covered6_15 (i : S65536x64.Idx) : ∃ t : Fin cfg6.N, (cfg6.win 15).flush t = true ∧ i ∈ ((cfg6.win 15).blk t).view.set := by
  refine ⟨pt6 i, flush6_15 _, ?_⟩
  rw [mem_blk6_15]
  obtain ⟨e0, e1⟩ := idx6_15 (pt6 i)
  have h_0 := ValueIdx.idx2_lt0 i
  have h_1 := ValueIdx.idx2_lt1 i
  have hp : (pt6 i).val = (i 0).val / 4096 := rfl
  intro a
  match a with
  | ⟨0, _⟩ => show win6_15.index (pt6 i) (0 : Fin 2) * 4096 ≤ (i 0).val ∧ (i 0).val < win6_15.index (pt6 i) (0 : Fin 2) * 4096 + 4096; omega
  | ⟨1, _⟩ => show win6_15.index (pt6 i) (1 : Fin 2) * 64 ≤ (i 1).val ∧ (i 1).val < win6_15.index (pt6 i) (1 : Fin 2) * 64 + 64; omega

/-- The output array after the region: G6_15 of the arrays as the region finds them. -/
theorem final6_15 (c : Dev nD) :
    (dat6 V c).arrAt ⟨15, by decide⟩ cfg6.N = G6_15 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) (V c (Pipeline.arrRef spec6 11)) (V c (Pipeline.arrRef spec6 12)) (V c (Pipeline.arrRef spec6 13)) (V c (Pipeline.arrRef spec6 14)) :=
  (dat6 V c).arrAt_eq_of_cover 15 _ (fun t _ => flushed6_15_eq V c t) covered6_15

end Cert.Kernel.Hand

end
-- ==== Proof.KB.Reg7.lean ====
import proofs.«159011_j9938554322955_1_alg».proof.Proof.Gen.Kernel.Launch
import proofs.«159011_j9938554322955_1_alg».proof.Proof.Gen.Kernel.Skeleton
import proofs.«159011_j9938554322955_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the body goes through the rectangle of a two-axis buffer's whole shape at zero offsets. -/

theorem hz2_7 : (![0, 0] : Fin 2 → ℕ) = fun _ => 0 := by funext a; fin_cases a <;> rfl

/-- A load of a whole buffer reads its contents. -/
theorem readAt_whole7 (sz : Fin 2 → ℕ) {e : EltTy} (v : View sig .tc .vmem (⟨2, sz⟩ : Shape) e)
    (inb : ∀ a, (![0, 0] : Fin 2 → ℕ) a + sz a ≤ sz a) (f : v.ty.Contents (Elt F)) :
    v.readAt (Elt F) (Rect.unit (s := (⟨2, sz⟩ : Shape)) ![0, 0] sz inb).toLoadRect f = v.read (Elt F) f :=
  (View.readAt_eq_ld v f _).trans (View.ld_unit_zero (S := (⟨2, sz⟩ : Shape)) hz2_7 inb _)

/-- The whole-shape rectangle holds every index. -/
theorem cover_whole7 (sz : Fin 2 → ℕ) {e : EltTy} (inb : ∀ a, (![0, 0] : Fin 2 → ℕ) a + sz a ≤ sz a)
    (w : (⟨2, sz⟩ : Shape).Idx → Elt F e) (L : List (View.Piece (Elt F) (⟨2, sz⟩ : Shape) e)) (y : (⟨2, sz⟩ : Shape).Idx) :
    ∃ p ∈ ((⟨Rect.unit (s := (⟨2, sz⟩ : Shape)) ![0, 0] sz inb, w⟩ : View.Piece (Elt F) (⟨2, sz⟩ : Shape) e) :: L), y ∈ p.1.set :=
  ⟨⟨Rect.unit (s := (⟨2, sz⟩ : Shape)) ![0, 0] sz inb, w⟩, List.mem_cons_self, View.mem_set_unit_zero (S := (⟨2, sz⟩ : Shape)) hz2_7 inb y⟩

/-- A store of a whole buffer, last, leaves its payload. -/
theorem read_writes_whole7 (sz : Fin 2 → ℕ) {e : EltTy} (v : View sig .tc .vmem (⟨2, sz⟩ : Shape) e)
    (inb : ∀ a, (![0, 0] : Fin 2 → ℕ) a + sz a ≤ sz a) (f : v.ty.Contents (Elt F)) (w : (⟨2, sz⟩ : Shape).Idx → Elt F e)
    (L : List (View.Piece (Elt F) (⟨2, sz⟩ : Shape) e)) :
    v.read (Elt F) (v.writes (Elt F) f ((⟨Rect.unit (s := (⟨2, sz⟩ : Shape)) ![0, 0] sz inb, w⟩ : View.Piece (Elt F) (⟨2, sz⟩ : Shape) e) :: L)) = w :=
  (View.read_writes_eq_canon v f _ (cover_whole7 sz inb w L)).trans
    (View.canon_cons_unit_zero (S := (⟨2, sz⟩ : Shape)) hz2_7 inb w L)

/-- A load of a whole buffer after a store of the whole buffer reads the payload. -/
theorem readCov_whole7 (sz : Fin 2 → ℕ) {e : EltTy} (v : View sig .tc .vmem (⟨2, sz⟩ : Shape) e)
    (inb : ∀ a, (![0, 0] : Fin 2 → ℕ) a + sz a ≤ sz a) (w : (⟨2, sz⟩ : Shape).Idx → Elt F e)
    (L : List (View.Piece (Elt F) (⟨2, sz⟩ : Shape) e)) :
    v.readCov ((⟨Rect.unit (s := (⟨2, sz⟩ : Shape)) ![0, 0] sz inb, w⟩ : View.Piece (Elt F) (⟨2, sz⟩ : Shape) e) :: L)
      (Rect.unit (s := (⟨2, sz⟩ : Shape)) ![0, 0] sz inb).toLoadRect = w :=
  (View.readCov_eq_canon_ld v _ (Rect.unit (s := (⟨2, sz⟩ : Shape)) ![0, 0] sz inb) (cover_whole7 sz inb w L)).trans
    ((congrArg (fun X => View.ld X (Rect.unit (s := (⟨2, sz⟩ : Shape)) ![0, 0] sz inb))
        (View.canon_cons_unit_zero (S := (⟨2, sz⟩ : Shape)) hz2_7 inb w L)).trans
      (View.ld_unit_zero (S := (⟨2, sz⟩ : Shape)) hz2_7 inb w))

/-! ## The body's two conditions -/

/-- The condition of the body's first `scf.if` (the scratch is zeroed), from the grid coordinates. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val = 0 :=
  (by decide +kernel : ∀ t : Fin grid7.N, cond7_0 (grid7.coords t) ↔ t.val = 0)
/-- The condition of the body's second `scf.if` (the statistics are stored). -/
abbrev cond7_1 (i : grid7.Coords) : Prop := k7_cond2 i = 1#1
/-- It holds at the last point only. -/
theorem hcond7_1 : ∀ t : Fin cfg7.N, cond7_1 (grid7.coords t) ↔ t.val = 15 :=
  (by decide +kernel : ∀ t : Fin grid7.N, cond7_1 (grid7.coords t) ↔ t.val = 15)

/-! ## What one point adds to the two running sums, and the statistics stored at the last point -/

/-- The column sums of the block's `z` added to the running sum `S`. -/
noncomputable def sS7 (x0 x1 : Vec F S4096x64 .f32) (x2 : Vec F S1x64 .f32) (x3 : Vec F S64x128 .f32) (x4 S : Vec F S1x128 .f32) : Vec F S1x128 .f32 :=
  k7_pay7 x2 x0 x1 x3 x4 S
/-- The column sums of the block's `z · z` added to the running sum `Q`. -/
noncomputable def sQ7 (x0 x1 : Vec F S4096x64 .f32) (x2 : Vec F S1x64 .f32) (x3 : Vec F S64x128 .f32) (x4 Q : Vec F S1x128 .f32) : Vec F S1x128 .f32 :=
  k7_pay1 (k7_pay8 x2 x0 x1 x3 x4 Q)
/-- The two sums as the first point resets them. -/
noncomputable def zS7 : Vec F S1x128 .f32 := k7_pay4 (F := F)
noncomputable def zQ7 : Vec F S1x128 .f32 := k7_pay5 (F := F)
/-- The mean stored from the total `S`, and the variance stored from the totals `S`, `Q`. -/
noncomputable def oM7 (S : Vec F S1x128 .f32) : Vec F S1x128 .f32 := k7_pay2 S
noncomputable def oV7 (S Q : Vec F S1x128 .f32) : Vec F S1x128 .f32 := k7_pay3 S Q

set_option maxHeartbeats 2000000 in
/-- The body on whole staging memrefs and the two scratch buffers, at the first point (the scratch is zeroed first, whatever it held). -/
theorem sound_kernel7_A (c : Dev nD) (E : Set ℕ) (i : grid7.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond7_0 i) (hc1 : ¬cond7_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS7 x0 x1 x2 x3 x4 zS7)
            ∗ owns (c : Thread nD τ) arg9 fullShare (sQ7 x0 x1 x2 x3 x4 zQ7)) -∗ K ⟨⟩))
      ⊢ wp frame (wpE (defs₀ (F := F)) Variants.none c none) E (cc7__stats1_kernel i arg1 harg1 arg2 harg2 arg3 harg3 arg4 harg4 arg5 harg5 arg6 harg6 arg7 harg7 arg8 harg8 arg9 harg9) K := by
  simp only [cc7__stats1_kernel_eq_skeleton]; unfold cc7__stats1_kernel_skel
  simp only [k7_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole7, readCov_whole7, readAt_whole7, oM7, oV7, sS7, sQ7, zS7, zQ7])
  isplitl [H6]
  · iexists _; isplitr
    swap; · iexact H6
    ipureintro
    first
      | rfl
      | (sl_unfold_run_names; (try dsimp only); simp only [read_writes_whole7, readCov_whole7, readAt_whole7, oM7, oV7, sS7, sQ7, zS7, zQ7])
  isplitl [H7]
  · iexists _; isplitr
    swap; · iexact H7
    ipureintro
    (sl_unfold_run_names; (try dsimp only); simp only [read_writes_whole7, readCov_whole7, readAt_whole7, oM7, oV7, sS7, sQ7, zS7, zQ7])
  iexists _; isplitr
  swap; · iexact H8
  ipureintro
  (sl_unfold_run_names; (try dsimp only); simp only [read_writes_whole7, readCov_whole7, readAt_whole7, oM7, oV7, sS7, sQ7, zS7, zQ7])

set_option maxHeartbeats 2000000 in
/-- The body on whole staging memrefs and the two scratch buffers, at a point that is neither the first nor the last. -/
theorem sound_kernel7_B (c : Dev nD) (E : Set ℕ) (i : grid7.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond7_0 i) (hc1 : ¬cond7_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS7 x0 x1 x2 x3 x4 S)
            ∗ owns (c : Thread nD τ) arg9 fullShare (sQ7 x0 x1 x2 x3 x4 Q)) -∗ K ⟨⟩))
      ⊢ wp frame (wpE (defs₀ (F := F)) Variants.none c none) E (cc7__stats1_kernel i arg1 harg1 arg2 harg2 arg3 harg3 arg4 harg4 arg5 harg5 arg6 harg6 arg7 harg7 arg8 harg8 arg9 harg9) K := by
  simp only [cc7__stats1_kernel_eq_skeleton]; unfold cc7__stats1_kernel_skel
  simp only [k7_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole7, readCov_whole7, readAt_whole7, oM7, oV7, sS7, sQ7, zS7, zQ7])
  isplitl [H6]
  · iexists _; isplitr
    swap; · iexact H6
    ipureintro
    first
      | rfl
      | (sl_unfold_run_names; (try dsimp only); simp only [read_writes_whole7, readCov_whole7, readAt_whole7, oM7, oV7, sS7, sQ7, zS7, zQ7])
  isplitl [H7]
  · iexists _; isplitr
    swap; · iexact H7
    ipureintro
    (sl_unfold_run_names; (try dsimp only); simp only [read_writes_whole7, readCov_whole7, readAt_whole7, oM7, oV7, sS7, sQ7, zS7, zQ7])
  iexists _; isplitr
  swap; · iexact H8
  ipureintro
  (sl_unfold_run_names; (try dsimp only); simp only [read_writes_whole7, readCov_whole7, readAt_whole7, oM7, oV7, sS7, sQ7, zS7, zQ7])

set_option maxHeartbeats 2000000 in
/-- The body on whole staging memrefs and the two scratch buffers, at the last point (the statistics are stored from the totals). -/
theorem sound_kernel7_C (c : Dev nD) (E : Set ℕ) (i : grid7.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond7_0 i) (hc1 : cond7_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (oM7 (sS7 x0 x1 x2 x3 x4 S))
            ∗ owns (c : Thread nD τ) arg7 fullShare (oV7 (sS7 x0 x1 x2 x3 x4 S) (sQ7 x0 x1 x2 x3 x4 Q)) ∗ owns (c : Thread nD τ) arg8 fullShare (sS7 x0 x1 x2 x3 x4 S)
            ∗ owns (c : Thread nD τ) arg9 fullShare (sQ7 x0 x1 x2 x3 x4 Q)) -∗ K ⟨⟩))
      ⊢ wp frame (wpE (defs₀ (F := F)) Variants.none c none) E (cc7__stats1_kernel i arg1 harg1 arg2 harg2 arg3 harg3 arg4 harg4 arg5 harg5 arg6 harg6 arg7 harg7 arg8 harg8 arg9 harg9) K := by
  simp only [cc7__stats1_kernel_eq_skeleton]; unfold cc7__stats1_kernel_skel
  simp only [k7_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole7, readCov_whole7, readAt_whole7, oM7, oV7, sS7, sQ7, zS7, zQ7])
  isplitl [H6]
  · iexists _; isplitr
    swap; · iexact H6
    ipureintro
    first
      | rfl
      | (sl_unfold_run_names; (try dsimp only); simp only [read_writes_whole7, readCov_whole7, readAt_whole7, oM7, oV7, sS7, sQ7, zS7, zQ7])
  isplitl [H7]
  · iexists _; isplitr
    swap; · iexact H7
    ipureintro
    (sl_unfold_run_names; (try dsimp only); simp only [read_writes_whole7, readCov_whole7, readAt_whole7, oM7, oV7, sS7, sQ7, zS7, zQ7])
  iexists _; isplitr
  swap; · iexact H8
  ipureintro
  (sl_unfold_run_names; (try dsimp only); simp only [read_writes_whole7, readCov_whole7, readAt_whole7, oM7, oV7, sS7, sQ7, zS7, zQ7])

variable (V : (c : Dev nD) → (b : Ref sig .tc) → Buf (Elt F) ((c : Thread nD τ).loc b))

/-! ## The windows' blocks -/

/-- Window w's block at point t, read off its array as the region finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## Where the windows are idle and written back

The five inputs are never idle. The two statistics are stored at the last point only: before it their windows are
idle and are not written back; at it they are live. -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_4 : ∀ t : Fin cfg7.N, cfg7.idle 4 (grid7.coords t) = false := by decide +kernel
theorem idleAt7_5 : ∀ t : Fin cfg7.N, t.val ≠ 15 → cfg7.idle 5 (grid7.coords t) = true := by decide +kernel
theorem idleAt7_6 : ∀ t : Fin cfg7.N, t.val ≠ 15 → cfg7.idle 6 (grid7.coords t) = true := by decide +kernel
theorem liveAt7_5 : ∀ t : Fin cfg7.N, t.val = 15 → cfg7.idle 5 (grid7.coords t) = false := by decide +kernel
theorem liveAt7_6 : ∀ t : Fin cfg7.N, t.val = 15 → cfg7.idle 6 (grid7.coords t) = false := by decide +kernel
theorem noFlush7_5 : ∀ t : Fin cfg7.N, t.val ≠ 15 → (cfg7.win 5).flush t = false := by decide +kernel
theorem noFlush7_6 : ∀ t : Fin cfg7.N, t.val ≠ 15 → (cfg7.win 6).flush t = false := by decide +kernel

/-! ## What an input's staging buffer holds

Each input's current staging buffer holds its block at every point, fetched there or not, for any proof data whose
array is the entry contents and whose body leaves the block in place. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The running sums

What the two scratch buffers hold after the body at point n: the first point resets them and adds its block's column
sums of z and of z · z; every later point adds its own to what the point before left. -/

noncomputable def accS7 (c : Dev nD) : (n : ℕ) → n < cfg7.N → Vec F S1x128 .f32
  | 0, hn => sS7 (iblk7 V c 0 ⟨0, hn⟩) (iblk7 V c 1 ⟨0, hn⟩) (iblk7 V c 2 ⟨0, hn⟩) (iblk7 V c 3 ⟨0, hn⟩) (iblk7 V c 4 ⟨0, hn⟩) zS7
  | n + 1, hn => sS7 (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (accS7 c n (Nat.lt_of_succ_lt hn))

noncomputable def accQ7 (c : Dev nD) : (n : ℕ) → n < cfg7.N → Vec F S1x128 .f32
  | 0, hn => sQ7 (iblk7 V c 0 ⟨0, hn⟩) (iblk7 V c 1 ⟨0, hn⟩) (iblk7 V c 2 ⟨0, hn⟩) (iblk7 V c 3 ⟨0, hn⟩) (iblk7 V c 4 ⟨0, hn⟩) zQ7
  | n + 1, hn => sQ7 (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (accQ7 c n (Nat.lt_of_succ_lt hn))

theorem accS7_zero (c : Dev nD) (t : Fin cfg7.N) (h0 : t.val = 0) :
    accS7 V c t.val t.isLt = sS7 (iblk7 V c 0 t) (iblk7 V c 1 t) (iblk7 V c 2 t) (iblk7 V c 3 t) (iblk7 V c 4 t) zS7 := by
  obtain ⟨n, hn⟩ := t
  cases n with
  | zero => rfl
  | succ n => exact absurd h0 (Nat.succ_ne_zero n)

theorem accS7_pos (c : Dev nD) (t : Fin cfg7.N) (h0 : t.val ≠ 0) :
    accS7 V c t.val t.isLt = sS7 (iblk7 V c 0 t) (iblk7 V c 1 t) (iblk7 V c 2 t) (iblk7 V c 3 t) (iblk7 V c 4 t) (accS7 V c (t.val - 1) (Nat.lt_of_le_of_lt (Nat.sub_le _ _) t.isLt)) := by
  obtain ⟨n, hn⟩ := t
  cases n with
  | zero => exact absurd rfl h0
  | succ n => rfl

theorem accQ7_zero (c : Dev nD) (t : Fin cfg7.N) (h0 : t.val = 0) :
    accQ7 V c t.val t.isLt = sQ7 (iblk7 V c 0 t) (iblk7 V c 1 t) (iblk7 V c 2 t) (iblk7 V c 3 t) (iblk7 V c 4 t) zQ7 := by
  obtain ⟨n, hn⟩ := t
  cases n with
  | zero => rfl
  | succ n => exact absurd h0 (Nat.succ_ne_zero n)

theorem accQ7_pos (c : Dev nD) (t : Fin cfg7.N) (h0 : t.val ≠ 0) :
    accQ7 V c t.val t.isLt = sQ7 (iblk7 V c 0 t) (iblk7 V c 1 t) (iblk7 V c 2 t) (iblk7 V c 3 t) (iblk7 V c 4 t) (accQ7 V c (t.val - 1) (Nat.lt_of_le_of_lt (Nat.sub_le _ _) t.isLt)) := by
  obtain ⟨n, hn⟩ := t
  cases n with
  | zero => exact absurd rfl h0
  | succ n => rfl

/-! ## The invariant between points -/

/-- The scoped rest with the two scratch buffers as whole memrefs owned at some contents. -/
theorem scr7_eq (c : Dev nD) :
    (Pipeline.scopedRest (Ix := Unit) (Name := ℕ) (U := UR sig nD τ) (Lvl := ℕ) (Val := Elt F) spec7 c : sProp 𝕄)
      = iprop(iprop((∃ d, owns (c : Thread nD τ) (Memref.whole cc7_scratch0) fullShare d) ∗ (∃ d, owns (c : Thread nD τ) (Memref.whole cc7_scratch1) fullShare d))
          ∗ Pipeline.scopedRestBut (Ix := Unit) (Name := ℕ) (U := UR sig nD τ) (Lvl := ℕ) (Val := Elt F) spec7 c [cc7_scratch0, cc7_scratch1]) := by
  rw [scopedRest7_split]; simp only [owns_whole]; try rfl

/-- Before the first point: the generator register and every scoped buffer that is no staging buffer, at anything.
    Before a later point: the same with the two scratch buffers at the running sums the point before left. -/
noncomputable def Phi7 (c : Dev nD) : (n : ℕ) → n ≤ cfg7.N → sProp 𝕄
  | 0, _ => iprop((∃ r, prngReg c r) ∗ Pipeline.scopedRest (Ix := Unit) (Name := ℕ) (U := UR sig nD τ) (Lvl := ℕ) (Val := Elt F) spec7 c)
  | n + 1, hn => iprop((∃ r, prngReg c r)
      ∗ iprop(owns (c : Thread nD τ) (Memref.whole cc7_scratch0) fullShare (accS7 V c n hn) ∗ owns (c : Thread nD τ) (Memref.whole cc7_scratch1) fullShare (accQ7 V c n hn))
      ∗ Pipeline.scopedRestBut (Ix := Unit) (Name := ℕ) (U := UR sig nD τ) (Lvl := ℕ) (Val := Elt F) spec7 c [cc7_scratch0, cc7_scratch1])

theorem Phi7_zero (c : Dev nD) (n : ℕ) (h : n ≤ cfg7.N) (hz : n = 0) :
    Phi7 V c n h = iprop((∃ r, prngReg c r) ∗ Pipeline.scopedRest (Ix := Unit) (Name := ℕ) (U := UR sig nD τ) (Lvl := ℕ) (Val := Elt F) spec7 c) := by
  subst hz; rfl

theorem Phi7_succ (c : Dev nD) (n : ℕ) (hn : n < cfg7.N) :
    Phi7 V c (n + 1) hn = iprop((∃ r, prngReg c r)
      ∗ iprop(owns (c : Thread nD τ) (Memref.whole cc7_scratch0) fullShare (accS7 V c n hn) ∗ owns (c : Thread nD τ) (Memref.whole cc7_scratch1) fullShare (accQ7 V c n hn))
      ∗ Pipeline.scopedRestBut (Ix := Unit) (Name := ℕ) (U := UR sig nD τ) (Lvl := ℕ) (Val := Elt F) spec7 c [cc7_scratch0, cc7_scratch1]) := rfl

theorem Phi7_pos (c : Dev nD) (n : ℕ) (h : n ≤ cfg7.N) (hz : n ≠ 0) :
    Phi7 V c n h = iprop((∃ r, prngReg c r)
      ∗ iprop(owns (c : Thread nD τ) (Memref.whole cc7_scratch0) fullShare (accS7 V c (n - 1) (by omega)) ∗ owns (c : Thread nD τ) (Memref.whole cc7_scratch1) fullShare (accQ7 V c (n - 1) (by omega)))
      ∗ Pipeline.scopedRestBut (Ix := Unit) (Name := ℕ) (U := UR sig nD τ) (Lvl := ℕ) (Val := Elt F) spec7 c [cc7_scratch0, cc7_scratch1]) := by
  cases n with
  | zero => exact absurd rfl hz
  | succ n => rfl

/-! ## The pipeline's proof data -/

/-- The arrays as the region finds them; after the body at point t each input's buffer at its block, the mean's and the
    variance's at the statistics of the running sums (consulted at the last point only: before it the two windows are idle);
    the invariant above; nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => oM7 (accS7 V c t.val t.isLt)
    | ⟨6, _⟩ => oV7 (accS7 V c t.val t.isLt) (accQ7 V c t.val t.isLt)
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem Phi7_castSucc (c : Dev nD) (t : Fin cfg7.N) :
    (dat7 V c).Φ t.castSucc = Phi7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = oM7 (accS7 V c t.val t.isLt) := by dsimp only [dat7]
theorem after7_6 (c : Dev nD) (t : Fin cfg7.N) : (dat7 V c).after 6 t = oV7 (accS7 V c t.val t.isLt) (accQ7 V c t.val t.isLt) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point t, the windows one by one, -/
noncomputable def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
noncomputable def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 4800000 in
/-- The body at any point: the inputs' memrefs hold their blocks; the point is the first, the last or neither, which
    decides the two conditions; the invariant hands the body the two scratch buffers (at anything at the first point, at
    the running sums otherwise) and takes them back at this point's sums; the mean's and the variance's buffers come back
    untouched before the last point and hold the statistics after it; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [show (dat7 V c).Φ t.succ = Phi7 V c (t.val + 1) t.isLt from rfl, Phi7_succ]
  have hN : t.val < 16 := lt_of_lt_of_eq t.isLt (show cfg7.N = 16 from N_7)
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [show (dat7 V c).leavesExact 2 t = owns (c : Thread nD τ) (st7_2 t) fullShare ((dat7 V c).after 2 t) from by
    unfold Dat.leavesExact; rw [liveAt7_2 t], after7_2]
  rw [show (dat7 V c).leavesExact 3 t = owns (c : Thread nD τ) (st7_3 t) fullShare ((dat7 V c).after 3 t) from by
    unfold Dat.leavesExact; rw [liveAt7_3 t], after7_3]
  rw [show (dat7 V c).leavesExact 4 t = owns (c : Thread nD τ) (st7_4 t) fullShare ((dat7 V c).after 4 t) from by
    unfold Dat.leavesExact; rw [liveAt7_4 t], after7_4]
  by_cases h0 : t.val = 0
  · have h1 : t.val ≠ 15 := by omega
    rw [Dat.leavesExact_idle (dat7 V c) 5 t (idleAt7_5 t h1) (noFlush7_5 t h1),
      Dat.leavesExact_idle (dat7 V c) 6 t (idleAt7_6 t h1) (noFlush7_6 t h1)]
    rw [accS7_zero V c t h0, accQ7_zero V c t h0]
    rw [Phi7_castSucc V c t, Phi7_zero V c _ _ h0, scr7_eq]
    iintro ⟨⟨Hg, ⟨⟨%dS, HS⟩, ⟨%dQ, HQ⟩⟩, Hrest⟩, Ho, ⟨%d0, H0⟩, ⟨%d1, H1⟩, ⟨%d2, H2⟩, ⟨%d3, H3⟩, ⟨%d4, H4⟩, ⟨%d5, H5⟩, ⟨%d6, H6⟩⟩
    iapply (sound_kernel7_A c Set.univ (grid7.coords t) _ _ _ _ _ _ _ _ _ _ _ _ _ _ (Memref.whole cc7_scratch0) (Memref.isWhole_whole _) (Memref.whole cc7_scratch1) (Memref.isWhole_whole _)
      ((hcond7_0 t).mpr h0) (fun h => h1 ((hcond7_1 t).mp h)) (iblk7 V c 0 t) (iblk7 V c 1 t) (iblk7 V c 2 t) (iblk7 V c 3 t) (iblk7 V c 4 t) _ _ dS dQ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HQ]; · iexact HQ
    iintro ⟨H0, H1, H2, H3, H4, H5, H6, HS, HQ⟩
    isplitl [Hg HS HQ Hrest]
    · isplitl [Hg]; · iexact Hg
      isplitl [HS HQ]
      · isplitl [HS]; · iexact HS
        iexact HQ
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 15
    · rw [show (dat7 V c).leavesExact 5 t = owns (c : Thread nD τ) (st7_5 t) fullShare ((dat7 V c).after 5 t) from by
        unfold Dat.leavesExact; rw [liveAt7_5 t h1], after7_5]
      rw [show (dat7 V c).leavesExact 6 t = owns (c : Thread nD τ) (st7_6 t) fullShare ((dat7 V c).after 6 t) from by
        unfold Dat.leavesExact; rw [liveAt7_6 t h1], after7_6]
      rw [accS7_pos V c t h0, accQ7_pos V c t h0]
      rw [Phi7_castSucc V c t, Phi7_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel7_C c Set.univ (grid7.coords t) _ _ _ _ _ _ _ _ _ _ _ _ _ _ (Memref.whole cc7_scratch0) (Memref.isWhole_whole _) (Memref.whole cc7_scratch1) (Memref.isWhole_whole _)
        (fun h => h0 ((hcond7_0 t).mp h)) ((hcond7_1 t).mpr h1) (iblk7 V c 0 t) (iblk7 V c 1 t) (iblk7 V c 2 t) (iblk7 V c 3 t) (iblk7 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat7 V c) 5 t (idleAt7_5 t h1) (noFlush7_5 t h1),
        Dat.leavesExact_idle (dat7 V c) 6 t (idleAt7_6 t h1) (noFlush7_6 t h1)]
      rw [accS7_pos V c t h0, accQ7_pos V c t h0]
      rw [Phi7_castSucc V c t, Phi7_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel7_B c Set.univ (grid7.coords t) _ _ _ _ _ _ _ _ _ _ _ _ _ _ (Memref.whole cc7_scratch0) (Memref.isWhole_whole _) (Memref.whole cc7_scratch1) (Memref.isWhole_whole _)
        (fun h => h0 ((hcond7_0 t).mp h)) (fun h => h1 ((hcond7_1 t).mp h)) (iblk7 V c 0 t) (iblk7 V c 1 t) (iblk7 V c 2 t) (iblk7 V c 3 t) (iblk7 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Entering and leaving the region -/

/-- What the region is handed is the invariant before the first point. -/
theorem phi_in7 (c : Dev nD) :
    (iprop((∃ r, prngReg c r) ∗ Pipeline.scopedRest (Ix := Unit) (Name := ℕ) (U := UR sig nD τ) (Lvl := ℕ) (Val := Elt F) spec7 c) : sProp 𝕄)
      ⊢ (dat7 V c).Φ 0 := by
  rw [show (dat7 V c).Φ 0 = Phi7 V c 0 (Nat.zero_le _) from rfl, Phi7_zero V c 0 _ rfl]
  try exact Idealize.SL.BI.Entails.refl _

/-- After the last point the invariant gives it back: the scratch buffers' contents are forgotten. -/
theorem phi_out7 (c : Dev nD) :
    (dat7 V c).Φ (Fin.last cfg7.N)
      ⊢ (iprop((∃ r, prngReg c r) ∗ Pipeline.scopedRest (Ix := Unit) (Name := ℕ) (U := UR sig nD τ) (Lvl := ℕ) (Val := Elt F) spec7 c) : sProp 𝕄) := by
  have ht : (Fin.last cfg7.N).val ≠ 0 := by rw [Fin.val_last]; have : cfg7.N = 16 := N_7; omega
  rw [show (dat7 V c).Φ (Fin.last cfg7.N) = Phi7 V c (Fin.last cfg7.N).val (Nat.le_of_lt_succ (Fin.last cfg7.N).isLt) from rfl,
    Phi7_pos V c _ _ ht, scr7_eq]
  iintro ⟨Hg, ⟨HS, HQ⟩, Hrest⟩
  isplitl [Hg]; · iexact Hg
  isplitl [HS HQ]
  · isplitl [HS]; · iexists _; iexact HS
    iexists _; iexact HQ
  iexact Hrest

end Cert.Kernel.Hand

end
-- ==== Proof.KB.Reg8Runs.lean ====
import proofs.«159011_j9938554322955_1_alg».proof.Proof.Gen.Kernel.Launch
import proofs.«159011_j9938554322955_1_alg».proof.Proof.Gen.Kernel.Skeleton
import proofs.«159011_j9938554322955_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second statistics kernel of a layer: what its three kinds of grid point share

The kernel visits sixteen blocks of 4096 rows. At every point it recomputes the block of the second linear
map's values z2 and adds the block's column sums of z2 and of z2 * z2 into two accumulators of 64 lanes that it
keeps from point to point; at the first point it clears the accumulators before adding; at the last point it also
stores mean = S * 2^(-16) and var = Q * 2^(-16) - mean * mean. -/

/-- The body's first test, from the grid index: the index is 0 (the accumulators are cleared). -/
noncomputable abbrev cond8_0 (i : grid8.Coords) : Prop := (Scalar.cmpi .ne (Scalar.extui (Scalar.cmpi .eq (BitVec.ofNat 32 (i 0).val) 0#32)) 0#32) = 1#1
/-- It holds at the first point only. -/
theorem hcond8_0 : ∀ t : Fin cfg8.N, cond8_0 (grid8.coords t) ↔ t.val % 16 = 0 :=
  (by decide +kernel : ∀ t : Fin grid8.N, cond8_0 (grid8.coords t) ↔ t.val % 16 = 0)

/-- The body's second test: the index is 15 (mean and variance are stored). -/
noncomputable abbrev cond8_1 (i : grid8.Coords) : Prop := k8_cond2 i = 1#1
/-- It holds at the last point only. -/
theorem hcond8_1 : ∀ t : Fin cfg8.N, cond8_1 (grid8.coords t) ↔ t.val % 16 = 15 :=
  (by decide +kernel : ∀ t : Fin grid8.N, cond8_1 (grid8.coords t) ↔ t.val % 16 = 15)

/-! ## Where the windows are idle -/

/-- Input window 0 is never idle. -/
theorem liveAt8_0 : ∀ t : Fin cfg8.N, cfg8.idle 0 (grid8.coords t) = false := fun _ => rfl
/-- Input window 1 is never idle. -/
theorem liveAt8_1 : ∀ t : Fin cfg8.N, cfg8.idle 1 (grid8.coords t) = false := fun _ => rfl
/-- Input window 2 is never idle. -/
theorem liveAt8_2 : ∀ t : Fin cfg8.N, cfg8.idle 2 (grid8.coords t) = false := fun _ => rfl
/-- Input window 3 is never idle. -/
theorem liveAt8_3 : ∀ t : Fin cfg8.N, cfg8.idle 3 (grid8.coords t) = false := fun _ => rfl
/-- Input window 4 is never idle. -/
theorem liveAt8_4 : ∀ t : Fin cfg8.N, cfg8.idle 4 (grid8.coords t) = false := fun _ => rfl
/-- Input window 5 is never idle. -/
theorem liveAt8_5 : ∀ t : Fin cfg8.N, cfg8.idle 5 (grid8.coords t) = false := fun _ => rfl
/-- Input window 6 is never idle. -/
theorem liveAt8_6 : ∀ t : Fin cfg8.N, cfg8.idle 6 (grid8.coords t) = false := fun _ => rfl
/-- Input window 7 is never idle. -/
theorem liveAt8_7 : ∀ t : Fin cfg8.N, cfg8.idle 7 (grid8.coords t) = false := fun _ => rfl
/-- Input window 8 is never idle. -/
theorem liveAt8_8 : ∀ t : Fin cfg8.N, cfg8.idle 8 (grid8.coords t) = false := fun _ => rfl
/-- Input window 9 is never idle. -/
theorem liveAt8_9 : ∀ t : Fin cfg8.N, cfg8.idle 9 (grid8.coords t) = false := fun _ => rfl
/-- Input window 10 is never idle. -/
theorem liveAt8_10 : ∀ t : Fin cfg8.N, cfg8.idle 10 (grid8.coords t) = false := fun _ => rfl
/-- Away from the last point nothing is stored into output 11: the window is idle there, -/
theorem idleAt8_11 : ∀ t : Fin cfg8.N, ¬cond8_1 (grid8.coords t) → cfg8.idle 11 (grid8.coords t) = true := by decide +kernel
/-- and its block is not written back there. -/
theorem noFlush8_11 : ∀ t : Fin cfg8.N, ¬cond8_1 (grid8.coords t) → (cfg8.win 11).flush t = false := by decide +kernel
/-- At the last point output 11 is stored: the window is live. -/
theorem liveAt8_11 : ∀ t : Fin cfg8.N, cond8_1 (grid8.coords t) → cfg8.idle 11 (grid8.coords t) = false := by decide +kernel
/-- Away from the last point nothing is stored into output 12: the window is idle there, -/
theorem idleAt8_12 : ∀ t : Fin cfg8.N, ¬cond8_1 (grid8.coords t) → cfg8.idle 12 (grid8.coords t) = true := by decide +kernel
/-- and its block is not written back there. -/
theorem noFlush8_12 : ∀ t : Fin cfg8.N, ¬cond8_1 (grid8.coords t) → (cfg8.win 12).flush t = false := by decide +kernel
/-- At the last point output 12 is stored: the window is live. -/
theorem liveAt8_12 : ∀ t : Fin cfg8.N, cond8_1 (grid8.coords t) → cfg8.idle 12 (grid8.coords t) = false := by decide +kernel

/-! ## The memrefs the body is called with -/

noncomputable abbrev ms8_0 (t : Fin cfg8.N) : Memref sig .tc .vmem S4096x64 .f32 := win8_0.stage (cfg8.slots t 0)
noncomputable abbrev hs8_0 (t : Fin cfg8.N) : (ms8_0 t).IsWhole := hstage8_0 ((cfg8.slots t 0).cast nbuf8_0)
noncomputable abbrev ms8_1 (t : Fin cfg8.N) : Memref sig .tc .vmem S4096x64 .f32 := win8_1.stage (cfg8.slots t 1)
noncomputable abbrev hs8_1 (t : Fin cfg8.N) : (ms8_1 t).IsWhole := hstage8_1 ((cfg8.slots t 1).cast nbuf8_1)
noncomputable abbrev ms8_2 (t : Fin cfg8.N) : Memref sig .tc .vmem S1x64 .f32 := win8_2.stage (cfg8.slots t 2)
noncomputable abbrev hs8_2 (t : Fin cfg8.N) : (ms8_2 t).IsWhole := hstage8_2 ((cfg8.slots t 2).cast nbuf8_2)
noncomputable abbrev ms8_3 (t : Fin cfg8.N) : Memref sig .tc .vmem S64x128 .f32 := win8_3.stage (cfg8.slots t 3)
noncomputable abbrev hs8_3 (t : Fin cfg8.N) : (ms8_3 t).IsWhole := hstage8_3 ((cfg8.slots t 3).cast nbuf8_3)
noncomputable abbrev ms8_4 (t : Fin cfg8.N) : Memref sig .tc .vmem S1x128 .f32 := win8_4.stage (cfg8.slots t 4)
noncomputable abbrev hs8_4 (t : Fin cfg8.N) : (ms8_4 t).IsWhole := hstage8_4 ((cfg8.slots t 4).cast nbuf8_4)
noncomputable abbrev ms8_5 (t : Fin cfg8.N) : Memref sig .tc .vmem S1x128 .f32 := win8_5.stage (cfg8.slots t 5)
noncomputable abbrev hs8_5 (t : Fin cfg8.N) : (ms8_5 t).IsWhole := hstage8_5 ((cfg8.slots t 5).cast nbuf8_5)
noncomputable abbrev ms8_6 (t : Fin cfg8.N) : Memref sig .tc .vmem S1x128 .f32 := win8_6.stage (cfg8.slots t 6)
noncomputable abbrev hs8_6 (t : Fin cfg8.N) : (ms8_6 t).IsWhole := hstage8_6 ((cfg8.slots t 6).cast nbuf8_6)
noncomputable abbrev ms8_7 (t : Fin cfg8.N) : Memref sig .tc .vmem S1x128 .f32 := win8_7.stage (cfg8.slots t 7)
noncomputable abbrev hs8_7 (t : Fin cfg8.N) : (ms8_7 t).IsWhole := hstage8_7 ((cfg8.slots t 7).cast nbuf8_7)
noncomputable abbrev ms8_8 (t : Fin cfg8.N) : Memref sig .tc .vmem S1x128 .f32 := win8_8.stage (cfg8.slots t 8)
noncomputable abbrev hs8_8 (t : Fin cfg8.N) : (ms8_8 t).IsWhole := hstage8_8 ((cfg8.slots t 8).cast nbuf8_8)
noncomputable abbrev ms8_9 (t : Fin cfg8.N) : Memref sig .tc .vmem S128x64 .f32 := win8_9.stage (cfg8.slots t 9)
noncomputable abbrev hs8_9 (t : Fin cfg8.N) : (ms8_9 t).IsWhole := hstage8_9 ((cfg8.slots t 9).cast nbuf8_9)
noncomputable abbrev ms8_10 (t : Fin cfg8.N) : Memref sig .tc .vmem S1x64 .f32 := win8_10.stage (cfg8.slots t 10)
noncomputable abbrev hs8_10 (t : Fin cfg8.N) : (ms8_10 t).IsWhole := hstage8_10 ((cfg8.slots t 10).cast nbuf8_10)
noncomputable abbrev ms8_11 (t : Fin cfg8.N) : Memref sig .tc .vmem S1x64 .f32 := win8_11.stage (cfg8.slots t 11)
noncomputable abbrev hs8_11 (t : Fin cfg8.N) : (ms8_11 t).IsWhole := hstage8_11 ((cfg8.slots t 11).cast nbuf8_11)
noncomputable abbrev ms8_12 (t : Fin cfg8.N) : Memref sig .tc .vmem S1x64 .f32 := win8_12.stage (cfg8.slots t 12)
noncomputable abbrev hs8_12 (t : Fin cfg8.N) : (ms8_12 t).IsWhole := hstage8_12 ((cfg8.slots t 12).cast nbuf8_12)
/-- The two accumulators: whole buffers of the kernel's own, passed beside the windows. -/
noncomputable abbrev scM8_0 : Memref sig .tc .vmem S1x64 .f32 := Memref.whole cc8_scratch0
noncomputable abbrev scM8_1 : Memref sig .tc .vmem S1x64 .f32 := Memref.whole cc8_scratch1
/-- The accumulators as views: what they hold is stated through these. -/
noncomputable abbrev VS8_0 : View sig .tc .vmem S1x64 .f32 := scM8_0.view
noncomputable abbrev VS8_1 : View sig .tc .vmem S1x64 .f32 := scM8_1.view
/-- One staging buffer of each output window, through which its contents are stated (the choice does not matter). -/
noncomputable abbrev VO8_11 : View sig .tc .vmem S1x64 .f32 := (Memref.whole cc8_stg11_0 : Memref sig .tc .vmem S1x64 .f32).view
noncomputable abbrev VO8_12 : View sig .tc .vmem S1x64 .f32 := (Memref.whole cc8_stg12_0 : Memref sig .tc .vmem S1x64 .f32).view

/-- The core's scoped buffers that are no staging buffer of this call: the two accumulators, as memrefs owned at some
    contents, and every other one unopened. -/
theorem scoped8_eq (c : Dev nD) :
    (Pipeline.scopedRest (Ix := Unit) (Name := ℕ) (U := UR sig nD τ) (Lvl := ℕ) (Val := Elt F) spec8 c : sProp 𝕄)
      = iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) := by
  rw [scopedRest8_split]; simp only [scM8_0, scM8_1, owns_whole]; try rfl

end Cert.Kernel.Hand

end
-- ==== Proof.KB.Reg8RunA.lean ====
import proofs.«159011_j9938554322955_1_alg».proof.Proof.KB.Reg8Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the FIRST point (the index is 0): the accumulators, found at anything, are cleared and the block's column sums of z2 and z2 * z2
    added; nothing is stored into the two outputs, whose buffers are handed back as found.
    The statement: on whole memrefs, the eleven inputs at contents x0 ... x10, the body runs to any continuation that accepts the
    inputs as they were and each buffer it stored into with its stores applied, last first (the lists are what the run finds). -/
noncomputable def kernelRun8_A (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc8__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc8__stats2_kernel_eq_skeleton]; unfold cc8__stats2_kernel_skel
    simp only [k8_part1_eq_skeleton]; unfold k8_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.Kernel.Hand

end
-- ==== Proof.KB.Reg8RunB.lean ====
import proofs.«159011_j9938554322955_1_alg».proof.Proof.KB.Reg8RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a MIDDLE point (the index is neither 0 nor 15): the block's column sums are added into the accumulators, found at xs0, xs1;
    nothing is stored into the two outputs, whose buffers are handed back as found.
    The statement: on whole memrefs, the eleven inputs at contents x0 ... x10, the body runs to any continuation that accepts the
    inputs as they were and each buffer it stored into with its stores applied, last first (the lists are what the run finds). -/
noncomputable def kernelRun8_B (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc8__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc8__stats2_kernel_eq_skeleton]; unfold cc8__stats2_kernel_skel
    simp only [k8_part1_eq_skeleton]; unfold k8_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.Kernel.Hand

end
-- ==== Proof.KB.Reg8RunC.lean ====
import proofs.«159011_j9938554322955_1_alg».proof.Proof.KB.Reg8RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the LAST point (the index is 15): the block's column sums are added into the accumulators, found at xs0, xs1, and then
    mean = S * 2^(-16) and var = Q * 2^(-16) - mean * mean are stored into the two outputs, found at anything.
    The statement: on whole memrefs, the eleven inputs at contents x0 ... x10, the body runs to any continuation that accepts the
    inputs as they were and each buffer it stored into with its stores applied, last first (the lists are what the run finds). -/
noncomputable def kernelRun8_C (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (L11 : List (View.Piece (Elt F) S1x64 .f32)) (L12 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc8__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc8__stats2_kernel_eq_skeleton]; unfold cc8__stats2_kernel_skel
    simp only [k8_part1_eq_skeleton]; unfold k8_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [HS0]; · iexists _; iexact HS0
    iexists _; iexact HS1

end Cert.Kernel.Hand

end
-- ==== Proof.KB.Reg8.lean ====
import proofs.«159011_j9938554322955_1_alg».proof.Proof.KB.Reg8RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second statistics kernel of a layer, at the contents V its region is entered with -/

/-- Window w's block at point t, read off its array as the region finds it. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## Every input's staging buffer holds its block at every point, fetched there or not -/

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)
theorem before8_9_of {c : Dev nD} (dat : Dat τ (Elt F) Unit ℕ (UR sig nD τ) ℕ cfg8 c) (hA : dat.A 9 = V c (Pipeline.arrRef spec8 9))
    (hafter : ∀ t, dat.after 9 t = iblk8 V c 9 t) (t : Fin cfg8.N) (d) : dat.before 9 t d = iblk8 V c 9 t :=
  (dat.before_in_eq_fetched 9 rfl (fun _ => rfl) (fun _ _ _ => rfl) (fun t => by rw [hafter]; unfold Dat.blockOf iblk8; rw [hA]; try rfl) t d).trans
    (by unfold Dat.fetched Dat.blockOf iblk8; rw [hA]; try rfl)
theorem before8_10_of {c : Dev nD} (dat : Dat τ (Elt F) Unit ℕ (UR sig nD τ) ℕ cfg8 c) (hA : dat.A 10 = V c (Pipeline.arrRef spec8 10))
    (hafter : ∀ t, dat.after 10 t = iblk8 V c 10 t) (t : Fin cfg8.N) (d) : dat.before 10 t d = iblk8 V c 10 t :=
  (dat.before_in_eq_fetched 10 rfl (fun _ => rfl) (fun _ _ _ => rfl) (fun t => by rw [hafter]; unfold Dat.blockOf iblk8; rw [hA]; try rfl) t d).trans
    (by unfold Dat.fetched Dat.blockOf iblk8; rw [hA]; try rfl)

/-! ## What each kind of point leaves in the accumulators and in the outputs -/

/-- Case A: the stores into accumulator 0 cover it. -/
theorem scover8_A_0 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun8_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1, y ∈ pc.1.set :=
  View.cover_of_tiledL (kernelRun8_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1 S1x64.size (by sl_kernel_rfl) y

/-- Case A: what the point leaves in accumulator 0: its stores read back. -/
noncomputable def sout8_A_0 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS8_0.read (Elt F) (VS8_0.writes (Elt F) VS8_0.junk (kernelRun8_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1)

/-- Case A: the stores into accumulator 1 cover it. -/
theorem scover8_A_1 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun8_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1, y ∈ pc.1.set :=
  View.cover_of_tiledL (kernelRun8_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1 S1x64.size (by sl_kernel_rfl) y

/-- Case A: what the point leaves in accumulator 1: its stores read back. -/
noncomputable def sout8_A_1 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS8_1.read (Elt F) (VS8_1.writes (Elt F) VS8_1.junk (kernelRun8_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1)

/-- Case B: the stores into accumulator 0 cover it. -/
theorem scover8_B_0 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun8_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun8_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- Case B: what the point leaves in accumulator 0: its stores read back. -/
noncomputable def sout8_B_0 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS8_0.read (Elt F) (VS8_0.writes (Elt F) VS8_0.junk (kernelRun8_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- Case B: the stores into accumulator 1 cover it. -/
theorem scover8_B_1 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun8_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun8_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- Case B: what the point leaves in accumulator 1: its stores read back. -/
noncomputable def sout8_B_1 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS8_1.read (Elt F) (VS8_1.writes (Elt F) VS8_1.junk (kernelRun8_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- At the last point the stores into output 11 cover its block. -/
theorem cover8_C_11 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- What the last point leaves in output 11's staging buffer: its stores read back. -/
noncomputable def out8_C_11 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO8_11.read (Elt F) (VO8_11.writes (Elt F) VO8_11.junk (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- At the last point the stores into output 12 cover its block. -/
theorem cover8_C_12 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- What the last point leaves in output 12's staging buffer: its stores read back. -/
noncomputable def out8_C_12 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO8_12.read (Elt F) (VO8_12.writes (Elt F) VO8_12.junk (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- Case C: the stores into accumulator 0 cover it. -/
theorem scover8_C_0 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1 S1x64.size (by sl_kernel_rfl) y

/-- Case C: what the point leaves in accumulator 0: its stores read back. -/
noncomputable def sout8_C_0 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS8_0.read (Elt F) (VS8_0.writes (Elt F) VS8_0.junk (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1)

/-- Case C: the stores into accumulator 1 cover it. -/
theorem scover8_C_1 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1 S1x64.size (by sl_kernel_rfl) y

/-- Case C: what the point leaves in accumulator 1: its stores read back. -/
noncomputable def sout8_C_1 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS8_1.read (Elt F) (VS8_1.writes (Elt F) VS8_1.junk (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1)

/-! ## The running sums -/

/-- THE ACCUMULATION. What the two accumulators hold after the body at position n: at the first point the cleared
    accumulators plus the block's column sums; afterwards what position n - 1 left plus the block's column sums. -/
noncomputable def outsAt8 (c : Dev nD) : (n : ℕ) → n < cfg8.N → Vec F S1x64 .f32 × Vec F S1x64 .f32
  | 0, hn => (sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) (ms8_9 ⟨0, hn⟩) (hs8_9 ⟨0, hn⟩) (ms8_10 ⟨0, hn⟩) (hs8_10 ⟨0, hn⟩) (ms8_11 ⟨0, hn⟩) (hs8_11 ⟨0, hn⟩) (ms8_12 ⟨0, hn⟩) (hs8_12 ⟨0, hn⟩) scM8_0 (Memref.isWhole_whole _) scM8_1 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩) (iblk8 V c 7 ⟨0, hn⟩) (iblk8 V c 8 ⟨0, hn⟩) (iblk8 V c 9 ⟨0, hn⟩) (iblk8 V c 10 ⟨0, hn⟩), sout8_A_1 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) (ms8_9 ⟨0, hn⟩) (hs8_9 ⟨0, hn⟩) (ms8_10 ⟨0, hn⟩) (hs8_10 ⟨0, hn⟩) (ms8_11 ⟨0, hn⟩) (hs8_11 ⟨0, hn⟩) (ms8_12 ⟨0, hn⟩) (hs8_12 ⟨0, hn⟩) scM8_0 (Memref.isWhole_whole _) scM8_1 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩) (iblk8 V c 7 ⟨0, hn⟩) (iblk8 V c 8 ⟨0, hn⟩) (iblk8 V c 9 ⟨0, hn⟩) (iblk8 V c 10 ⟨0, hn⟩))
  | n + 1, hn =>
    if h1 : (n + 1) % 16 = 15 then
      (sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) (ms8_10 ⟨n + 1, hn⟩) (hs8_10 ⟨n + 1, hn⟩) (ms8_11 ⟨n + 1, hn⟩) (hs8_11 ⟨n + 1, hn⟩) (ms8_12 ⟨n + 1, hn⟩) (hs8_12 ⟨n + 1, hn⟩) scM8_0 (Memref.isWhole_whole _) scM8_1 (Memref.isWhole_whole _) (fun h => (fun h => by have hN : n + 1 < 16 := lt_of_lt_of_eq hn (show cfg8.N = 16 from N_8); (try dsimp only at h); omega) ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (iblk8 V c 9 ⟨n + 1, hn⟩) (iblk8 V c 10 ⟨n + 1, hn⟩) (outsAt8 c n (Nat.lt_of_succ_lt hn)).1 (outsAt8 c n (Nat.lt_of_succ_lt hn)).2, sout8_C_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) (ms8_10 ⟨n + 1, hn⟩) (hs8_10 ⟨n + 1, hn⟩) (ms8_11 ⟨n + 1, hn⟩) (hs8_11 ⟨n + 1, hn⟩) (ms8_12 ⟨n + 1, hn⟩) (hs8_12 ⟨n + 1, hn⟩) scM8_0 (Memref.isWhole_whole _) scM8_1 (Memref.isWhole_whole _) (fun h => (fun h => by have hN : n + 1 < 16 := lt_of_lt_of_eq hn (show cfg8.N = 16 from N_8); (try dsimp only at h); omega) ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (iblk8 V c 9 ⟨n + 1, hn⟩) (iblk8 V c 10 ⟨n + 1, hn⟩) (outsAt8 c n (Nat.lt_of_succ_lt hn)).1 (outsAt8 c n (Nat.lt_of_succ_lt hn)).2)
    else
      (sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) (ms8_10 ⟨n + 1, hn⟩) (hs8_10 ⟨n + 1, hn⟩) (ms8_11 ⟨n + 1, hn⟩) (hs8_11 ⟨n + 1, hn⟩) (ms8_12 ⟨n + 1, hn⟩) (hs8_12 ⟨n + 1, hn⟩) scM8_0 (Memref.isWhole_whole _) scM8_1 (Memref.isWhole_whole _) (fun h => (fun h => by have hN : n + 1 < 16 := lt_of_lt_of_eq hn (show cfg8.N = 16 from N_8); (try dsimp only at h); omega) ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (iblk8 V c 9 ⟨n + 1, hn⟩) (iblk8 V c 10 ⟨n + 1, hn⟩) (outsAt8 c n (Nat.lt_of_succ_lt hn)).1 (outsAt8 c n (Nat.lt_of_succ_lt hn)).2, sout8_B_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) (ms8_10 ⟨n + 1, hn⟩) (hs8_10 ⟨n + 1, hn⟩) (ms8_11 ⟨n + 1, hn⟩) (hs8_11 ⟨n + 1, hn⟩) (ms8_12 ⟨n + 1, hn⟩) (hs8_12 ⟨n + 1, hn⟩) scM8_0 (Memref.isWhole_whole _) scM8_1 (Memref.isWhole_whole _) (fun h => (fun h => by have hN : n + 1 < 16 := lt_of_lt_of_eq hn (show cfg8.N = 16 from N_8); (try dsimp only at h); omega) ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (iblk8 V c 9 ⟨n + 1, hn⟩) (iblk8 V c 10 ⟨n + 1, hn⟩) (outsAt8 c n (Nat.lt_of_succ_lt hn)).1 (outsAt8 c n (Nat.lt_of_succ_lt hn)).2)

/-- The running sums at the first point. -/
theorem outsAt8_A (c : Dev nD) (t : Fin cfg8.N) (h0 : t.val % 16 = 0) (h1 : ¬t.val % 16 = 15) :
    outsAt8 V c t.val t.isLt = (sout8_A_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t), sout8_A_1 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t)) := by
  obtain ⟨n, hn⟩ := t
  cases n with
  | zero => exact rfl
  | succ n => exact (by exfalso; have hN : n + 1 < 16 := lt_of_lt_of_eq hn (show cfg8.N = 16 from N_8); (try dsimp only at h0); omega)

/-- The running sums at a middle point: over what the point before left. -/
theorem outsAt8_B (c : Dev nD) (t : Fin cfg8.N) (h0 : ¬t.val % 16 = 0) (h1 : ¬t.val % 16 = 15) :
    outsAt8 V c t.val t.isLt = (sout8_B_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2, sout8_B_1 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- The running sums at the last point: over what the point before left. -/
theorem outsAt8_C (c : Dev nD) (t : Fin cfg8.N) (h0 : ¬t.val % 16 = 0) (h1 : t.val % 16 = 15) :
    outsAt8 V c t.val t.isLt = (sout8_C_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2, sout8_C_1 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- What the two outputs' staging buffers hold after the body at the last point: mean and variance from the running sums.
    (At every other point the windows are idle and this is not consulted.) -/
noncomputable def outs8 (c : Dev nD) (t : Fin cfg8.N) : Vec F S1x64 .f32 × Vec F S1x64 .f32 :=
  if h1 : t.val % 16 = 15 then
    (out8_C_11 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => (fun h => by omega) ((hcond8_0 t).mp h)) ((hcond8_1 t).mpr h1) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2, out8_C_12 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => (fun h => by omega) ((hcond8_0 t).mp h)) ((hcond8_1 t).mpr h1) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2)
  else (k8_pay6 (F := F), k8_pay7 (F := F))

theorem outs8_C (c : Dev nD) (t : Fin cfg8.N) (h0 : ¬t.val % 16 = 0) (h1 : t.val % 16 = 15) :
    outs8 V c t = (out8_C_11 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2, out8_C_12 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2) :=
  (dif_pos h1).trans rfl

/-! ## The invariant between points -/

/-- The region invariant before position n: the generator register at some state, the two accumulators — at anything before
    the first point, afterwards at the running sums the point before left —, and every other scoped buffer unopened. -/
noncomputable def PhiS8 (c : Dev nD) : (n : ℕ) → n ≤ cfg8.N → sProp 𝕄
  | 0, _ => iprop((∃ r, prngReg c r) ∗ iprop((∃ d, owns (c : Thread nD τ) scM8_0 fullShare d) ∗ (∃ d, owns (c : Thread nD τ) scM8_1 fullShare d)) ∗ Pipeline.scopedRestBut (Ix := Unit) (Name := ℕ) (U := UR sig nD τ) (Lvl := ℕ) (Val := Elt F) spec8 c [cc8_scratch0, cc8_scratch1])
  | n + 1, hn => iprop((∃ r, prngReg c r) ∗ iprop(owns (c : Thread nD τ) scM8_0 fullShare ((outsAt8 V c n hn).1) ∗ owns (c : Thread nD τ) scM8_1 fullShare ((outsAt8 V c n hn).2)) ∗ Pipeline.scopedRestBut (Ix := Unit) (Name := ℕ) (U := UR sig nD τ) (Lvl := ℕ) (Val := Elt F) spec8 c [cc8_scratch0, cc8_scratch1])

theorem PhiS8_zero (c : Dev nD) (n : ℕ) (h : n ≤ cfg8.N) (hz : n = 0) :
    PhiS8 V c n h = iprop((∃ r, prngReg c r) ∗ iprop((∃ d, owns (c : Thread nD τ) scM8_0 fullShare d) ∗ (∃ d, owns (c : Thread nD τ) scM8_1 fullShare d)) ∗ Pipeline.scopedRestBut (Ix := Unit) (Name := ℕ) (U := UR sig nD τ) (Lvl := ℕ) (Val := Elt F) spec8 c [cc8_scratch0, cc8_scratch1]) := by
  subst hz; rfl

theorem PhiS8_succ (c : Dev nD) (n : ℕ) (hn : n < cfg8.N) :
    PhiS8 V c (n + 1) hn = iprop((∃ r, prngReg c r) ∗ iprop(owns (c : Thread nD τ) scM8_0 fullShare ((outsAt8 V c n hn).1) ∗ owns (c : Thread nD τ) scM8_1 fullShare ((outsAt8 V c n hn).2)) ∗ Pipeline.scopedRestBut (Ix := Unit) (Name := ℕ) (U := UR sig nD τ) (Lvl := ℕ) (Val := Elt F) spec8 c [cc8_scratch0, cc8_scratch1]) := rfl

theorem PhiS8_pos (c : Dev nD) (n : ℕ) (h : n ≤ cfg8.N) (hz : n ≠ 0) :
    PhiS8 V c n h = iprop((∃ r, prngReg c r) ∗ iprop(owns (c : Thread nD τ) scM8_0 fullShare ((outsAt8 V c (n - 1) (by omega)).1) ∗ owns (c : Thread nD τ) scM8_1 fullShare ((outsAt8 V c (n - 1) (by omega)).2)) ∗ Pipeline.scopedRestBut (Ix := Unit) (Name := ℕ) (U := UR sig nD τ) (Lvl := ℕ) (Val := Elt F) spec8 c [cc8_scratch0, cc8_scratch1]) := by
  cases n with
  | zero => exact absurd rfl hz
  | succ n => rfl

/-! ## The proof data -/

/-- The proof data of the call on core c: the arrays as the region finds them; after the body each input's buffer at its
    block, the outputs' at mean and variance of the running sums; the invariant above; nothing owed; full shares. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => (outs8 V c t).1
    | ⟨12, _⟩ => (outs8 V c t).2
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = iblk8 V c 9 t := by dsimp only [dat8]
theorem after8_10 (c : Dev nD) (t : Fin cfg8.N) : (dat8 V c).after 10 t = iblk8 V c 10 t := by dsimp only [dat8]
theorem after8_11 (c : Dev nD) (t : Fin cfg8.N) : (dat8 V c).after 11 t = (outs8 V c t).1 := by dsimp only [dat8]
theorem after8_12 (c : Dev nD) (t : Fin cfg8.N) : (dat8 V c).after 12 t = (outs8 V c t).2 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d
theorem before8_9 (c : Dev nD) (t : Fin cfg8.N) (d) : (dat8 V c).before 9 t d = iblk8 V c 9 t :=
  before8_9_of V (dat8 V c) (A_eq8 V c 9) (after8_9 V c) t d
theorem before8_10 (c : Dev nD) (t : Fin cfg8.N) (d) : (dat8 V c).before 10 t d = iblk8 V c 10 t :=
  before8_10_of V (dat8 V c) (A_eq8 V c 10) (after8_10 V c) t d

/-! ## The body obligation, at a generic point -/

/-- What the body is called with at point t, -/
noncomputable def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d))
    ∗ (∃ d, owns (c : Thread nD τ) (ms8_8 t) fullShare ((dat8 V c).before 8 t d))
    ∗ (∃ d, owns (c : Thread nD τ) (ms8_9 t) fullShare ((dat8 V c).before 9 t d))
    ∗ (∃ d, owns (c : Thread nD τ) (ms8_10 t) fullShare ((dat8 V c).before 10 t d))
    ∗ (∃ d, owns (c : Thread nD τ) (ms8_11 t) fullShare ((dat8 V c).before 11 t d))
    ∗ (∃ d, owns (c : Thread nD τ) (ms8_12 t) fullShare ((dat8 V c).before 12 t d)))

/-- and what it returns. -/
noncomputable def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t
    ∗ (dat8 V c).leavesExact 8 t
    ∗ (dat8 V c).leavesExact 9 t
    ∗ (dat8 V c).leavesExact 10 t
    ∗ (dat8 V c).leavesExact 11 t
    ∗ (dat8 V c).leavesExact 12 t)

set_option maxHeartbeats 8000000 in
/-- The body at any point. The inputs' memrefs hold their blocks. At the first point the invariant hands the body the
    accumulators at anything and takes them back cleared-and-added; at a later point it hands them at the running sums the
    point before left and takes them back with this block's sums added. Away from the last point the outputs' buffers are
    handed back as found (the windows are idle there); at the last point they are left at mean and variance. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8, before8_9, before8_10]
  rw [show (dat8 V c).owesAt () t.succ = (dat8 V c).owesAt () t.castSucc from rfl]
  rw [show (dat8 V c).Φ t.succ = PhiS8 V c (t.val + 1) t.isLt from rfl, PhiS8_succ]
  have hN : t.val < 16 := lt_of_lt_of_eq t.isLt (show cfg8.N = 16 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [show (dat8 V c).leavesExact 5 t = owns (c : Thread nD τ) (ms8_5 t) fullShare ((dat8 V c).after 5 t) from by
    unfold Dat.leavesExact; rw [liveAt8_5 t], after8_5]
  rw [show (dat8 V c).leavesExact 6 t = owns (c : Thread nD τ) (ms8_6 t) fullShare ((dat8 V c).after 6 t) from by
    unfold Dat.leavesExact; rw [liveAt8_6 t], after8_6]
  rw [show (dat8 V c).leavesExact 7 t = owns (c : Thread nD τ) (ms8_7 t) fullShare ((dat8 V c).after 7 t) from by
    unfold Dat.leavesExact; rw [liveAt8_7 t], after8_7]
  rw [show (dat8 V c).leavesExact 8 t = owns (c : Thread nD τ) (ms8_8 t) fullShare ((dat8 V c).after 8 t) from by
    unfold Dat.leavesExact; rw [liveAt8_8 t], after8_8]
  rw [show (dat8 V c).leavesExact 9 t = owns (c : Thread nD τ) (ms8_9 t) fullShare ((dat8 V c).after 9 t) from by
    unfold Dat.leavesExact; rw [liveAt8_9 t], after8_9]
  rw [show (dat8 V c).leavesExact 10 t = owns (c : Thread nD τ) (ms8_10 t) fullShare ((dat8 V c).after 10 t) from by
    unfold Dat.leavesExact; rw [liveAt8_10 t], after8_10]
  by_cases h1 : t.val % 16 = 15
  · have h0 : ¬t.val % 16 = 0 := by omega
    have hz : t.val ≠ 0 := by omega
    rw [show (dat8 V c).leavesExact 11 t = owns (c : Thread nD τ) (ms8_11 t) fullShare ((dat8 V c).after 11 t) from by
      unfold Dat.leavesExact; rw [liveAt8_11 t ((hcond8_1 t).mpr h1)], after8_11]
    rw [show (dat8 V c).leavesExact 12 t = owns (c : Thread nD τ) (ms8_12 t) fullShare ((dat8 V c).after 12 t) from by
      unfold Dat.leavesExact; rw [liveAt8_12 t ((hcond8_1 t).mpr h1)], after8_12]
    rw [outsAt8_C V c t h0 h1, outs8_C V c t h0 h1]
    unfold out8_C_11 out8_C_12 sout8_C_0 sout8_C_1; (try dsimp only)
    rw [PhiS8_castSucc V c t, PhiS8_pos V c _ _ hz]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun8_C c (grid8.coords t) _ _ _ _ _ _ _ _ _ _ _ _ _ _ _ _ _ _ _ _ _ _ _ _ _ _ _ _ _ _ (fun h => h0 ((hcond8_0 t).mp h)) ((hcond8_1 t).mpr h1) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    iintro ⟨H0, H1, H2, H3, H4, H5, H6, H7, H8, H9, H10, ⟨%e11, H11⟩, ⟨%e12, H12⟩, ⟨%es0, HS0⟩, ⟨%es1, HS1⟩⟩
    isplitl [Hg HS0 HS1 HR]
    · isplitl [Hg]; · iexact Hg
      isplitl [HS0 HS1]
      · isplitl [HS0]
        · unfold owns; iexists _; isplitr
          swap; · iexact HS0
          ipureintro; exact View.read_writes_of_cover _ _ _ _ _ (scover8_C_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover8_C_1 c _ _ _ _ _ _ _ _ _ _ _ _ _ _ _ _ _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover8_C_11 c _ _ _ _ _ _ _ _ _ _ _ _ _ _ _ _ _ _ _ _ _ _ _ _ _ _ _ _ _ _ _ _ _ _ _ _ _ _ _ _ _ _ _ _ _ _)
    · unfold owns; iexists _; isplitr
      swap; · iexact H12
      ipureintro; exact View.read_writes_of_cover _ _ _ _ _ (cover8_C_12 c _ _ _ _ _ _ _ _ _ _ _ _ _ _ _ _ _ _ _ _ _ _ _ _ _ _ _ _ _ _ _ _ _ _ _ _ _ _ _ _ _ _ _ _ _ _)
  · rw [Dat.leavesExact_idle (dat8 V c) 11 t (idleAt8_11 t (fun h => h1 ((hcond8_1 t).mp h))) (noFlush8_11 t (fun h => h1 ((hcond8_1 t).mp h)))]
    rw [Dat.leavesExact_idle (dat8 V c) 12 t (idleAt8_12 t (fun h => h1 ((hcond8_1 t).mp h))) (noFlush8_12 t (fun h => h1 ((hcond8_1 t).mp h)))]
    by_cases h0 : t.val % 16 = 0
    · have hz : t.val = 0 := by omega
      rw [outsAt8_A V c t h0 h1]
      unfold sout8_A_0 sout8_A_1; (try dsimp only)
      rw [PhiS8_castSucc V c t, PhiS8_zero V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun8_A c (grid8.coords t) _ _ _ _ _ _ _ _ _ _ _ _ _ _ _ _ _ _ _ _ _ _ _ _ _ _ _ _ _ _ ((hcond8_0 t).mpr h0) (fun h => h1 ((hcond8_1 t).mp h)) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover8_A_0 c _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover8_A_1 c _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
    · have hz : t.val ≠ 0 := by omega
      rw [outsAt8_B V c t h0 h1]
      unfold sout8_B_0 sout8_B_1; (try dsimp only)
      rw [PhiS8_castSucc V c t, PhiS8_pos V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun8_B c (grid8.coords t) _ _ _ _ _ _ _ _ _ _ _ _ _ _ _ _ _ _ _ _ _ _ _ _ _ _ _ _ _ _ (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover8_B_0 c _ _ _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover8_B_1 c _ _ _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the region is entered with is the invariant before the first point: the scoped rest split at the two accumulators. -/
theorem phi_in8 (c : Dev nD) :
    (iprop((∃ r, prngReg c r) ∗ Pipeline.scopedRest (Ix := Unit) (Name := ℕ) (U := UR sig nD τ) (Lvl := ℕ) (Val := Elt F) spec8 c) : sProp 𝕄)
      ⊢ (dat8 V c).Φ 0 := by
  rw [show (dat8 V c).Φ 0 = PhiS8 V c 0 (Nat.zero_le _) from rfl, PhiS8_zero V c 0 _ rfl, scoped8_eq]

/-- After the last point the invariant gives the scoped rest back: the accumulators' named contents are forgotten. -/
theorem phi_out8 (c : Dev nD) :
    (dat8 V c).Φ (Fin.last cfg8.N)
      ⊢ (iprop((∃ r, prngReg c r) ∗ Pipeline.scopedRest (Ix := Unit) (Name := ℕ) (U := UR sig nD τ) (Lvl := ℕ) (Val := Elt F) spec8 c) : sProp 𝕄) := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 16 := N_8; omega), scoped8_eq]
  iintro ⟨Hg, ⟨HS0, HS1⟩, HR⟩
  isplitl [Hg]; · iexact Hg
  isplitl [HS0 HS1]
  · isplitl [HS0]; · iexists _; iexact HS0
    iexists _; iexact HS1
  iexact HR

/-! ## The found stores read back: one point's additions, and mean and variance -/

theorem hz8 : (![0, 0] : Fin 2 → Nat) = fun _ => 0 := funext fun a => by fin_cases a <;> rfl

/-- One point's addition to the first accumulator s: s plus the column sums of the block of z2 that the eleven input blocks give. -/
noncomputable def add8_0 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k8_pay2 (k8_pay8 x2 x0 x1 x3 x4 x5 x6) (k8_pay9 x7) x8 x9 x10 s
/-- One point's addition to the second accumulator: s plus the column sums of z2 * z2 of the same block. -/
noncomputable def add8_1 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k8_pay3 (k8_pay8 x2 x0 x1 x3 x4 x5 x6) (k8_pay9 x7) x8 x9 x10 s

theorem sout8_B_0_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout8_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add8_0 x0 x1 x2 x3 x4 x5 x6 x7 x8 x9 x10 xs0 := by
  unfold sout8_B_0 add8_0
  rw [View.read_writes_eq_canon _ _ _ (scover8_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun8_B
  dsimp only
  sl_unfold_words
  rw [View.canon_unit_zero hz8]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

theorem sout8_B_1_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout8_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add8_1 x0 x1 x2 x3 x4 x5 x6 x7 x8 x9 x10 xs1 := by
  unfold sout8_B_1 add8_1
  rw [View.read_writes_eq_canon _ _ _ (scover8_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun8_B
  dsimp only
  sl_unfold_words
  rw [View.canon_unit_zero hz8]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

theorem sout8_A_0_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout8_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add8_0 x0 x1 x2 x3 x4 x5 x6 x7 x8 x9 x10 (k8_pay6 (F := F)) := by
  unfold sout8_A_0 add8_0
  rw [View.read_writes_eq_canon _ _ _ (scover8_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun8_A
  dsimp only
  sl_unfold_words
  rw [View.canon_cons_unit_zero (S := S1x64) hz8, View.readCov_unit_zero (S := S1x64) _ hz8]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

theorem sout8_A_1_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout8_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add8_1 x0 x1 x2 x3 x4 x5 x6 x7 x8 x9 x10 (k8_pay7 (F := F)) := by
  unfold sout8_A_1 add8_1
  rw [View.read_writes_eq_canon _ _ _ (scover8_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun8_A
  dsimp only
  sl_unfold_words
  rw [View.canon_cons_unit_zero (S := S1x64) hz8, View.readCov_unit_zero (S := S1x64) _ hz8]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

theorem sout8_C_0_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout8_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add8_0 x0 x1 x2 x3 x4 x5 x6 x7 x8 x9 x10 xs0 := by
  unfold sout8_C_0 add8_0
  rw [View.read_writes_eq_canon _ _ _ (scover8_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun8_C
  dsimp only
  sl_unfold_words
  rw [View.canon_unit_zero hz8]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

theorem sout8_C_1_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout8_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add8_1 x0 x1 x2 x3 x4 x5 x6 x7 x8 x9 x10 xs1 := by
  unfold sout8_C_1 add8_1
  rw [View.read_writes_eq_canon _ _ _ (scover8_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun8_C
  dsimp only
  sl_unfold_words
  rw [View.canon_unit_zero hz8]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

theorem out8_C_11_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out8_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k8_pay4 (add8_0 x0 x1 x2 x3 x4 x5 x6 x7 x8 x9 x10 xs0) := by
  unfold out8_C_11 add8_0
  rw [View.read_writes_eq_canon _ _ _ (cover8_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun8_C
  dsimp only
  sl_unfold_words
  rw [View.canon_unit_zero hz8]
  simp only [View.readCov_unit_zero (S := S1x64) _ hz8, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

theorem out8_C_12_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out8_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k8_pay5 (add8_0 x0 x1 x2 x3 x4 x5 x6 x7 x8 x9 x10 xs0) (add8_1 x0 x1 x2 x3 x4 x5 x6 x7 x8 x9 x10 xs1) := by
  unfold out8_C_12 add8_0 add8_1
  rw [View.read_writes_eq_canon _ _ _ (cover8_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun8_C
  dsimp only
  sl_unfold_words
  rw [View.canon_unit_zero hz8]
  simp only [View.readCov_unit_zero (S := S1x64) _ hz8, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

/-! ## The running sums in closed form -/

/-- The ORDERED running sums after position n: the cleared accumulators plus the first block's sums, then one block's sums
    more per point. -/
noncomputable def sums8 (c : Dev nD) : (n : ℕ) → n < cfg8.N → Vec F S1x64 .f32 × Vec F S1x64 .f32
  | 0, h => (add8_0 (iblk8 V c 0 ⟨0, h⟩) (iblk8 V c 1 ⟨0, h⟩) (iblk8 V c 2 ⟨0, h⟩) (iblk8 V c 3 ⟨0, h⟩) (iblk8 V c 4 ⟨0, h⟩) (iblk8 V c 5 ⟨0, h⟩) (iblk8 V c 6 ⟨0, h⟩) (iblk8 V c 7 ⟨0, h⟩) (iblk8 V c 8 ⟨0, h⟩) (iblk8 V c 9 ⟨0, h⟩) (iblk8 V c 10 ⟨0, h⟩) (k8_pay6 (F := F)), add8_1 (iblk8 V c 0 ⟨0, h⟩) (iblk8 V c 1 ⟨0, h⟩) (iblk8 V c 2 ⟨0, h⟩) (iblk8 V c 3 ⟨0, h⟩) (iblk8 V c 4 ⟨0, h⟩) (iblk8 V c 5 ⟨0, h⟩) (iblk8 V c 6 ⟨0, h⟩) (iblk8 V c 7 ⟨0, h⟩) (iblk8 V c 8 ⟨0, h⟩) (iblk8 V c 9 ⟨0, h⟩) (iblk8 V c 10 ⟨0, h⟩) (k8_pay7 (F := F)))
  | n + 1, h => (add8_0 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (sums8 c n (Nat.lt_of_succ_lt h)).1, add8_1 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (sums8 c n (Nat.lt_of_succ_lt h)).2)

/-- What the accumulators hold after position n IS the running sums: by induction on the point. -/
theorem outsAt8_eq (c : Dev nD) : ∀ (n : ℕ) (h : n < cfg8.N), outsAt8 V c n h = sums8 V c n h
  | 0, h => by
    rw [outsAt8_A V c ⟨0, h⟩ rfl (by show ¬(0 : ℕ) % 16 = 15; omega), sout8_A_0_eq, sout8_A_1_eq]
    rfl
  | n + 1, h => by
    have hN : cfg8.N = 16 := N_8
    have hB : ¬(⟨n + 1, h⟩ : Fin cfg8.N).val % 16 = 0 := by dsimp only; omega
    have ih := outsAt8_eq c n (Nat.lt_of_succ_lt h)
    by_cases h1 : (⟨n + 1, h⟩ : Fin cfg8.N).val % 16 = 15
    · rw [outsAt8_C V c ⟨n + 1, h⟩ hB h1, sout8_C_0_eq, sout8_C_1_eq]
      show (add8_0 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (outsAt8 V c n _).1, add8_1 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (outsAt8 V c n _).2) = (add8_0 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (sums8 V c n _).1, add8_1 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (sums8 V c n _).2)
      rw [ih]
    · rw [outsAt8_B V c ⟨n + 1, h⟩ hB h1, sout8_B_0_eq, sout8_B_1_eq]
      show (add8_0 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (outsAt8 V c n _).1, add8_1 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (outsAt8 V c n _).2) = (add8_0 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (sums8 V c n _).1, add8_1 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (sums8 V c n _).2)
      rw [ih]

/-! ## What the region leaves in its two output arrays -/

/-- The running sums after the last point. -/
noncomputable abbrev total8 (c : Dev nD) : Vec F S1x64 .f32 × Vec F S1x64 .f32 := sums8 V c 15 (by rw [show cfg8.N = 16 from N_8]; decide)

/-- The mean array the region leaves: S * 2^(-16) of the first running sum. -/
noncomputable def G8_11 (c : Dev nD) : Buf (Elt F) ((c : Thread nD τ).loc main_v182_0) := k8_pay4 (total8 V c).1
/-- The variance array the region leaves: Q * 2^(-16) - mean * mean. -/
noncomputable def G8_12 (c : Dev nD) : Buf (Elt F) ((c : Thread nD τ).loc main_v182_1) := k8_pay5 (total8 V c).1 (total8 V c).2

/-- What the last point leaves in the two outputs' staging buffers. -/
theorem outs8_last (c : Dev nD) : outs8 V c t8_15 = (k8_pay4 (total8 V c).1, k8_pay5 (total8 V c).1 (total8 V c).2) := by
  rw [outs8_C V c t8_15 (by decide) (by decide), out8_C_11_eq, out8_C_12_eq]
  have ih := outsAt8_eq V c 14 (by rw [show cfg8.N = 16 from N_8]; decide)
  show (k8_pay4 (add8_0 (iblk8 V c 0 t8_15) (iblk8 V c 1 t8_15) (iblk8 V c 2 t8_15) (iblk8 V c 3 t8_15) (iblk8 V c 4 t8_15) (iblk8 V c 5 t8_15) (iblk8 V c 6 t8_15) (iblk8 V c 7 t8_15) (iblk8 V c 8 t8_15) (iblk8 V c 9 t8_15) (iblk8 V c 10 t8_15) (outsAt8 V c 14 _).1), k8_pay5 (add8_0 (iblk8 V c 0 t8_15) (iblk8 V c 1 t8_15) (iblk8 V c 2 t8_15) (iblk8 V c 3 t8_15) (iblk8 V c 4 t8_15) (iblk8 V c 5 t8_15) (iblk8 V c 6 t8_15) (iblk8 V c 7 t8_15) (iblk8 V c 8 t8_15) (iblk8 V c 9 t8_15) (iblk8 V c 10 t8_15) (outsAt8 V c 14 _).1) (add8_1 (iblk8 V c 0 t8_15) (iblk8 V c 1 t8_15) (iblk8 V c 2 t8_15) (iblk8 V c 3 t8_15) (iblk8 V c 4 t8_15) (iblk8 V c 5 t8_15) (iblk8 V c 6 t8_15) (iblk8 V c 7 t8_15) (iblk8 V c 8 t8_15) (iblk8 V c 9 t8_15) (iblk8 V c 10 t8_15) (outsAt8 V c 14 _).2)) = _
  rw [ih]
  rfl

/-- The one write-back of window 11, at the last point, writes it: the block is the whole array. -/
theorem flushed8_11 (c : Dev nD) (t : Fin cfg8.N) (hf : (cfg8.win 11).flush t = true) :
    (dat8 V c).flushed 11 t = ((cfg8.win 11).blk t).view.read (Elt F) (G8_11 V c) := by
  have hN : cfg8.N = 16 := N_8
  have h15 : t.val = 15 := by have := (flush8_11 t).mp hf; have := t.isLt; omega
  obtain rfl : t = t8_15 := Fin.ext h15
  show (cfg8.win 11).cut (grid8.coords t8_15) ((dat8 V c).after 11 t8_15) = _
  rw [after8_11, outs8_last]
  have hz' : (fun a => win8_11.index t8_15 a * main_v182_0.ty.shape.size a) = fun _ => 0 := funext fun a => by fin_cases a <;> decide
  exact (Memref.read_access_unit_zero (Elt F) main_v182_0 hz' (fun a => by rw [congrFun hz' a]; simp) (G8_11 V c)).symm

set_option maxHeartbeats 4000000 in
/-- So the array of window 11 ends holding it: the last point's block covers the array. -/
theorem final8_11 (c : Dev nD) : (dat8 V c).arrAt ⟨11, by decide⟩ cfg8.N = G8_11 V c :=
  (dat8 V c).arrAt_eq_of_cover 11 (G8_11 V c) (flushed8_11 V c) fun i =>
    ⟨t8_15, (flush8_11 t8_15).mpr rfl, by
      show i ∈ ((View.whole main_v182_0).slice (win8_11.rect t8_15)).set
      rw [View.set_slice_whole, Rect.mem_set_unit]
      intro a
      have h0 : (i 0 : Nat) < 1 := (i 0).isLt
      have h1 : (i 1 : Nat) < 64 := (i 1).isLt
      match a with
      | ⟨0, _⟩ => show win8_11.index t8_15 0 * win8_11.size 0 ≤ (i 0 : Nat) ∧ (i 0 : Nat) < win8_11.index t8_15 0 * win8_11.size 0 + win8_11.xsize (grid8.coords t8_15) 0
                  rw [show win8_11.index t8_15 0 * win8_11.size 0 = 0 from by decide +kernel, show win8_11.xsize (grid8.coords t8_15) 0 = 1 from by decide +kernel]; omega
      | ⟨1, _⟩ => show win8_11.index t8_15 1 * win8_11.size 1 ≤ (i 1 : Nat) ∧ (i 1 : Nat) < win8_11.index t8_15 1 * win8_11.size 1 + win8_11.xsize (grid8.coords t8_15) 1
                  rw [show win8_11.index t8_15 1 * win8_11.size 1 = 0 from by decide +kernel, show win8_11.xsize (grid8.coords t8_15) 1 = 64 from by decide +kernel]; omega⟩

/-- The one write-back of window 12, at the last point, writes it: the block is the whole array. -/
theorem flushed8_12 (c : Dev nD) (t : Fin cfg8.N) (hf : (cfg8.win 12).flush t = true) :
    (dat8 V c).flushed 12 t = ((cfg8.win 12).blk t).view.read (Elt F) (G8_12 V c) := by
  have hN : cfg8.N = 16 := N_8
  have h15 : t.val = 15 := by have := (flush8_12 t).mp hf; have := t.isLt; omega
  obtain rfl : t = t8_15 := Fin.ext h15
  show (cfg8.win 12).cut (grid8.coords t8_15) ((dat8 V c).after 12 t8_15) = _
  rw [after8_12, outs8_last]
  have hz' : (fun a => win8_12.index t8_15 a * main_v182_1.ty.shape.size a) = fun _ => 0 := funext fun a => by fin_cases a <;> decide
  exact (Memref.read_access_unit_zero (Elt F) main_v182_1 hz' (fun a => by rw [congrFun hz' a]; simp) (G8_12 V c)).symm

set_option maxHeartbeats 4000000 in
/-- So the array of window 12 ends holding it: the last point's block covers the array. -/
theorem final8_12 (c : Dev nD) : (dat8 V c).arrAt ⟨12, by decide⟩ cfg8.N = G8_12 V c :=
  (dat8 V c).arrAt_eq_of_cover 12 (G8_12 V c) (flushed8_12 V c) fun i =>
    ⟨t8_15, (flush8_12 t8_15).mpr rfl, by
      show i ∈ ((View.whole main_v182_1).slice (win8_12.rect t8_15)).set
      rw [View.set_slice_whole, Rect.mem_set_unit]
      intro a
      have h0 : (i 0 : Nat) < 1 := (i 0).isLt
      have h1 : (i 1 : Nat) < 64 := (i 1).isLt
      match a with
      | ⟨0, _⟩ => show win8_12.index t8_15 0 * win8_12.size 0 ≤ (i 0 : Nat) ∧ (i 0 : Nat) < win8_12.index t8_15 0 * win8_12.size 0 + win8_12.xsize (grid8.coords t8_15) 0
                  rw [show win8_12.index t8_15 0 * win8_12.size 0 = 0 from by decide +kernel, show win8_12.xsize (grid8.coords t8_15) 0 = 1 from by decide +kernel]; omega
      | ⟨1, _⟩ => show win8_12.index t8_15 1 * win8_12.size 1 ≤ (i 1 : Nat) ∧ (i 1 : Nat) < win8_12.index t8_15 1 * win8_12.size 1 + win8_12.xsize (grid8.coords t8_15) 1
                  rw [show win8_12.index t8_15 1 * win8_12.size 1 = 0 from by decide +kernel, show win8_12.xsize (grid8.coords t8_15) 1 = 64 from by decide +kernel]; omega⟩

end Cert.Kernel.Hand

end
-- ==== Proof.KB.Reg9.lean ====
/- One of the network's four regions that finish a layer: the second half of a layer, on sixteen blocks of 4096 nodes. At each block the body
   forms (1 + e)·x + agg, maps it to 128 features, normalises by the layer's first mean and variance, clips at zero,
   maps back to 64 features, normalises by the second mean and variance, clips again and adds x. Everything the body
   reads is a block of one of fifteen arrays as the region finds them; what it writes is one block of the sixteenth.
   Stated at any entry contents V of the core's buffers and at any float model. -/
import proofs.«159011_j9938554322955_1_alg».proof.Proof.Gen.Kernel.Launch
import proofs.«159011_j9938554322955_1_alg».proof.Proof.Gen.Kernel.Skeleton
import proofs.«159011_j9938554322955_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

-- membership in a rectangle of 4096 rows is decided by a structural recursion one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window w's block at point t, read off its array as the region finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! An input window's buffer holds its block at every point, whether the block was brought in there or not: a block
    that is not brought in again has not moved, and the body leaves every input as it found it. One statement per
    input window, for any proof data whose array is V's and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)
theorem before9_7_of {c : Dev nD} (dat : Dat τ (Elt F) Unit ℕ (UR sig nD τ) ℕ cfg9 c) (hA : dat.A 7 = V c (Pipeline.arrRef spec9 7))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)
theorem before9_8_of {c : Dev nD} (dat : Dat τ (Elt F) Unit ℕ (UR sig nD τ) ℕ cfg9 c) (hA : dat.A 8 = V c (Pipeline.arrRef spec9 8))
    (hafter : ∀ t, dat.after 8 t = iblk9 V c 8 t) (t : Fin cfg9.N) (d) : dat.before 8 t d = iblk9 V c 8 t :=
  (dat.before_in_eq_fetched 8 rfl (fun _ => rfl) (fun _ _ _ => rfl) (fun t => by rw [hafter]; unfold Dat.blockOf iblk9; rw [hA]; try rfl) t d).trans
    (by unfold Dat.fetched Dat.blockOf iblk9; rw [hA]; try rfl)
theorem before9_9_of {c : Dev nD} (dat : Dat τ (Elt F) Unit ℕ (UR sig nD τ) ℕ cfg9 c) (hA : dat.A 9 = V c (Pipeline.arrRef spec9 9))
    (hafter : ∀ t, dat.after 9 t = iblk9 V c 9 t) (t : Fin cfg9.N) (d) : dat.before 9 t d = iblk9 V c 9 t :=
  (dat.before_in_eq_fetched 9 rfl (fun _ => rfl) (fun _ _ _ => rfl) (fun t => by rw [hafter]; unfold Dat.blockOf iblk9; rw [hA]; try rfl) t d).trans
    (by unfold Dat.fetched Dat.blockOf iblk9; rw [hA]; try rfl)
theorem before9_10_of {c : Dev nD} (dat : Dat τ (Elt F) Unit ℕ (UR sig nD τ) ℕ cfg9 c) (hA : dat.A 10 = V c (Pipeline.arrRef spec9 10))
    (hafter : ∀ t, dat.after 10 t = iblk9 V c 10 t) (t : Fin cfg9.N) (d) : dat.before 10 t d = iblk9 V c 10 t :=
  (dat.before_in_eq_fetched 10 rfl (fun _ => rfl) (fun _ _ _ => rfl) (fun t => by rw [hafter]; unfold Dat.blockOf iblk9; rw [hA]; try rfl) t d).trans
    (by unfold Dat.fetched Dat.blockOf iblk9; rw [hA]; try rfl)
theorem before9_11_of {c : Dev nD} (dat : Dat τ (Elt F) Unit ℕ (UR sig nD τ) ℕ cfg9 c) (hA : dat.A 11 = V c (Pipeline.arrRef spec9 11))
    (hafter : ∀ t, dat.after 11 t = iblk9 V c 11 t) (t : Fin cfg9.N) (d) : dat.before 11 t d = iblk9 V c 11 t :=
  (dat.before_in_eq_fetched 11 rfl (fun _ => rfl) (fun _ _ _ => rfl) (fun t => by rw [hafter]; unfold Dat.blockOf iblk9; rw [hA]; try rfl) t d).trans
    (by unfold Dat.fetched Dat.blockOf iblk9; rw [hA]; try rfl)
theorem before9_12_of {c : Dev nD} (dat : Dat τ (Elt F) Unit ℕ (UR sig nD τ) ℕ cfg9 c) (hA : dat.A 12 = V c (Pipeline.arrRef spec9 12))
    (hafter : ∀ t, dat.after 12 t = iblk9 V c 12 t) (t : Fin cfg9.N) (d) : dat.before 12 t d = iblk9 V c 12 t :=
  (dat.before_in_eq_fetched 12 rfl (fun _ => rfl) (fun _ _ _ => rfl) (fun t => by rw [hafter]; unfold Dat.blockOf iblk9; rw [hA]; try rfl) t d).trans
    (by unfold Dat.fetched Dat.blockOf iblk9; rw [hA]; try rfl)
theorem before9_13_of {c : Dev nD} (dat : Dat τ (Elt F) Unit ℕ (UR sig nD τ) ℕ cfg9 c) (hA : dat.A 13 = V c (Pipeline.arrRef spec9 13))
    (hafter : ∀ t, dat.after 13 t = iblk9 V c 13 t) (t : Fin cfg9.N) (d) : dat.before 13 t d = iblk9 V c 13 t :=
  (dat.before_in_eq_fetched 13 rfl (fun _ => rfl) (fun _ _ _ => rfl) (fun t => by rw [hafter]; unfold Dat.blockOf iblk9; rw [hA]; try rfl) t d).trans
    (by unfold Dat.fetched Dat.blockOf iblk9; rw [hA]; try rfl)
theorem before9_14_of {c : Dev nD} (dat : Dat τ (Elt F) Unit ℕ (UR sig nD τ) ℕ cfg9 c) (hA : dat.A 14 = V c (Pipeline.arrRef spec9 14))
    (hafter : ∀ t, dat.after 14 t = iblk9 V c 14 t) (t : Fin cfg9.N) (d) : dat.before 14 t d = iblk9 V c 14 t :=
  (dat.before_in_eq_fetched 14 rfl (fun _ => rfl) (fun _ _ _ => rfl) (fun t => by rw [hafter]; unfold Dat.blockOf iblk9; rw [hA]; try rfl) t d).trans
    (by unfold Dat.fetched Dat.blockOf iblk9; rw [hA]; try rfl)

/-! ## What the body reads and writes: every buffer whole -/

noncomputable abbrev rRows9 : Rect S4096x64 := Rect.unit (s := S4096x64) ![0, 0] S4096x64.size inb_S4096x64_S4096x64_0_0
noncomputable abbrev rRowS9 : Rect S1x64 := Rect.unit (s := S1x64) ![0, 0] S1x64.size inb_S1x64_S1x64_0_0
noncomputable abbrev rMatA9 : Rect S64x128 := Rect.unit (s := S64x128) ![0, 0] S64x128.size inb_S64x128_S64x128_0_0
noncomputable abbrev rRowL9 : Rect S1x128 := Rect.unit (s := S1x128) ![0, 0] S1x128.size inb_S1x128_S1x128_0_0
noncomputable abbrev rMatB9 : Rect S128x64 := Rect.unit (s := S128x64) ![0, 0] S128x64.size inb_S128x64_S128x64_0_0

/-! ## What the body leaves in the output block -/

/-- The output block after the body, from the fifteen input blocks: one store over the whole block, of the second
    normalisation clipped plus x, itself computed from the first normalisation's two factors. -/
noncomputable def out9_15 (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) : Vec F S4096x64 .f32 :=
  View.canon [⟨rRows9, k9_pay1 (k9_pay2 (View.ld x_2 rRowS9) (View.ld x_0 rRows9) (View.ld x_1 rRows9) (View.ld x_3 rMatA9) (View.ld x_4 rRowL9) (View.ld x_5 rRowL9) (View.ld x_6 rRowL9) (View.ld x_7 rRowL9)) (k9_pay3 (View.ld x_8 rRowL9)) (View.ld x_9 rMatB9) (View.ld x_10 rRowS9) (View.ld x_11 rRowS9) (View.ld x_12 rRowS9) (View.ld x_13 rRowS9) (View.ld x_14 rRowS9) (View.ld x_0 rRows9)⟩]

/-- The one store covers the block. -/
theorem cover9_15 (p0 : Vec F S4096x64 .f32) (y : S4096x64.Idx) :
    ∃ pc ∈ ([⟨rRows9, p0⟩] : List (View.Piece (Elt F) S4096x64 .f32)), y ∈ pc.1.set :=
  View.cover_of_tiled [⟨rRows9, p0⟩] S4096x64.size (by rfl) y

/-! ## The body's triple -/

set_option maxHeartbeats 4000000 in
/-- The body on whole buffers, the fifteen inputs' at read contents x_0 … x_14 and the output's at anything, runs to the
    continuation holding the inputs' as they were and the output's at out9_15 of them. -/
theorem sound_kernel9 (c : Dev nD) (E : Set ℕ) (i : grid9.Coords) (a_0 : Memref sig .tc .vmem S4096x64 .f32) (h_0 : a_0.IsWhole) (a_1 : Memref sig .tc .vmem S4096x64 .f32) (h_1 : a_1.IsWhole) (a_2 : Memref sig .tc .vmem S1x64 .f32) (h_2 : a_2.IsWhole) (a_3 : Memref sig .tc .vmem S64x128 .f32) (h_3 : a_3.IsWhole) (a_4 : Memref sig .tc .vmem S1x128 .f32) (h_4 : a_4.IsWhole) (a_5 : Memref sig .tc .vmem S1x128 .f32) (h_5 : a_5.IsWhole) (a_6 : Memref sig .tc .vmem S1x128 .f32) (h_6 : a_6.IsWhole) (a_7 : Memref sig .tc .vmem S1x128 .f32) (h_7 : a_7.IsWhole) (a_8 : Memref sig .tc .vmem S1x128 .f32) (h_8 : a_8.IsWhole) (a_9 : Memref sig .tc .vmem S128x64 .f32) (h_9 : a_9.IsWhole) (a_10 : Memref sig .tc .vmem S1x64 .f32) (h_10 : a_10.IsWhole) (a_11 : Memref sig .tc .vmem S1x64 .f32) (h_11 : a_11.IsWhole) (a_12 : Memref sig .tc .vmem S1x64 .f32) (h_12 : a_12.IsWhole) (a_13 : Memref sig .tc .vmem S1x64 .f32) (h_13 : a_13.IsWhole) (a_14 : Memref sig .tc .vmem S1x64 .f32) (h_14 : a_14.IsWhole) (a_15 : Memref sig .tc .vmem S4096x64 .f32) (h_15 : a_15.IsWhole)
    (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) (K : PUnit → sProp 𝕄) :
    iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ (∃ d, owns (c : Thread nD τ) a_15 fullShare d)
        ∗ (iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ owns (c : Thread nD τ) a_15 fullShare (out9_15 x_0 x_1 x_2 x_3 x_4 x_5 x_6 x_7 x_8 x_9 x_10 x_11 x_12 x_13 x_14)) -∗ K ⟨⟩))
      ⊢ wp frame (wpE (defs₀ (F := F)) Variants.none c none) E (cc9__apply_kernel i a_0 h_0 a_1 h_1 a_2 h_2 a_3 h_3 a_4 h_4 a_5 h_5 a_6 h_6 a_7 h_7 a_8 h_8 a_9 h_9 a_10 h_10 a_11 h_11 a_12 h_12 a_13 h_13 a_14 h_14 a_15 h_15) K := by
  simp only [cc9__apply_kernel_eq_skeleton]; unfold cc9__apply_kernel_skel
  unfold owns
  iintro ⟨⟨%f_0, %hf_0, H_0⟩, ⟨%f_1, %hf_1, H_1⟩, ⟨%f_2, %hf_2, H_2⟩, ⟨%f_3, %hf_3, H_3⟩, ⟨%f_4, %hf_4, H_4⟩, ⟨%f_5, %hf_5, H_5⟩, ⟨%f_6, %hf_6, H_6⟩, ⟨%f_7, %hf_7, H_7⟩, ⟨%f_8, %hf_8, H_8⟩, ⟨%f_9, %hf_9, H_9⟩, ⟨%f_10, %hf_10, H_10⟩, ⟨%f_11, %hf_11, H_11⟩, ⟨%f_12, %hf_12, H_12⟩, ⟨%f_13, %hf_13, H_13⟩, ⟨%f_14, %hf_14, H_14⟩, ⟨%d_15, %f_15, -, H_15⟩, Hk⟩
  subst hf_0 hf_1 hf_2 hf_3 hf_4 hf_5 hf_6 hf_7 hf_8 hf_9 hf_10 hf_11 hf_12 hf_13 hf_14
  sl_exec
  sl_step
  iapply Hk
  isplitl [H_0]
  · iexists f_0; isplitr; · ipureintro; rfl
    iexact H_0
  isplitl [H_1]
  · iexists f_1; isplitr; · ipureintro; rfl
    iexact H_1
  isplitl [H_2]
  · iexists f_2; isplitr; · ipureintro; rfl
    iexact H_2
  isplitl [H_3]
  · iexists f_3; isplitr; · ipureintro; rfl
    iexact H_3
  isplitl [H_4]
  · iexists f_4; isplitr; · ipureintro; rfl
    iexact H_4
  isplitl [H_5]
  · iexists f_5; isplitr; · ipureintro; rfl
    iexact H_5
  isplitl [H_6]
  · iexists f_6; isplitr; · ipureintro; rfl
    iexact H_6
  isplitl [H_7]
  · iexists f_7; isplitr; · ipureintro; rfl
    iexact H_7
  isplitl [H_8]
  · iexists f_8; isplitr; · ipureintro; rfl
    iexact H_8
  isplitl [H_9]
  · iexists f_9; isplitr; · ipureintro; rfl
    iexact H_9
  isplitl [H_10]
  · iexists f_10; isplitr; · ipureintro; rfl
    iexact H_10
  isplitl [H_11]
  · iexists f_11; isplitr; · ipureintro; rfl
    iexact H_11
  isplitl [H_12]
  · iexists f_12; isplitr; · ipureintro; rfl
    iexact H_12
  isplitl [H_13]
  · iexists f_13; isplitr; · ipureintro; rfl
    iexact H_13
  isplitl [H_14]
  · iexists f_14; isplitr; · ipureintro; rfl
    iexact H_14
  iexists _; isplitr
  swap; · iexact H_15
  ipureintro
  exact View.read_writes_eq_canon _ _ _ (cover9_15 _)

/-! ## The proof data -/

/-- The region's proof data on core c: the arrays as the region finds them; after the body at point t each input's
    buffer at its block and the output's at out9_15 of the input blocks; the invariant the scoped rest and the
    generator register, untouched; nothing owed; full shares. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => iblk9 V c 9 t
    | ⟨10, _⟩ => iblk9 V c 10 t
    | ⟨11, _⟩ => iblk9 V c 11 t
    | ⟨12, _⟩ => iblk9 V c 12 t
    | ⟨13, _⟩ => iblk9 V c 13 t
    | ⟨14, _⟩ => iblk9 V c 14 t
    | ⟨15, _⟩ => out9_15 (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) (iblk9 V c 11 t) (iblk9 V c 12 t) (iblk9 V c 13 t) (iblk9 V c 14 t)
    | ⟨_ + 16, h⟩ => absurd h (Nat.not_lt.2 (Nat.le_add_left _ _))
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = iblk9 V c 8 t := by dsimp only [dat9]
theorem after9_9 (c : Dev nD) (t : Fin cfg9.N) : (dat9 V c).after 9 t = iblk9 V c 9 t := by dsimp only [dat9]
theorem after9_10 (c : Dev nD) (t : Fin cfg9.N) : (dat9 V c).after 10 t = iblk9 V c 10 t := by dsimp only [dat9]
theorem after9_11 (c : Dev nD) (t : Fin cfg9.N) : (dat9 V c).after 11 t = iblk9 V c 11 t := by dsimp only [dat9]
theorem after9_12 (c : Dev nD) (t : Fin cfg9.N) : (dat9 V c).after 12 t = iblk9 V c 12 t := by dsimp only [dat9]
theorem after9_13 (c : Dev nD) (t : Fin cfg9.N) : (dat9 V c).after 13 t = iblk9 V c 13 t := by dsimp only [dat9]
theorem after9_14 (c : Dev nD) (t : Fin cfg9.N) : (dat9 V c).after 14 t = iblk9 V c 14 t := by dsimp only [dat9]
theorem after9_15 (c : Dev nD) (t : Fin cfg9.N) : (dat9 V c).after 15 t = out9_15 (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) (iblk9 V c 11 t) (iblk9 V c 12 t) (iblk9 V c 13 t) (iblk9 V c 14 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d
theorem before9_7 (c : Dev nD) (t : Fin cfg9.N) (d) : (dat9 V c).before 7 t d = iblk9 V c 7 t :=
  before9_7_of V (dat9 V c) (A_eq9 V c 7) (after9_7 V c) t d
theorem before9_8 (c : Dev nD) (t : Fin cfg9.N) (d) : (dat9 V c).before 8 t d = iblk9 V c 8 t :=
  before9_8_of V (dat9 V c) (A_eq9 V c 8) (after9_8 V c) t d
theorem before9_9 (c : Dev nD) (t : Fin cfg9.N) (d) : (dat9 V c).before 9 t d = iblk9 V c 9 t :=
  before9_9_of V (dat9 V c) (A_eq9 V c 9) (after9_9 V c) t d
theorem before9_10 (c : Dev nD) (t : Fin cfg9.N) (d) : (dat9 V c).before 10 t d = iblk9 V c 10 t :=
  before9_10_of V (dat9 V c) (A_eq9 V c 10) (after9_10 V c) t d
theorem before9_11 (c : Dev nD) (t : Fin cfg9.N) (d) : (dat9 V c).before 11 t d = iblk9 V c 11 t :=
  before9_11_of V (dat9 V c) (A_eq9 V c 11) (after9_11 V c) t d
theorem before9_12 (c : Dev nD) (t : Fin cfg9.N) (d) : (dat9 V c).before 12 t d = iblk9 V c 12 t :=
  before9_12_of V (dat9 V c) (A_eq9 V c 12) (after9_12 V c) t d
theorem before9_13 (c : Dev nD) (t : Fin cfg9.N) (d) : (dat9 V c).before 13 t d = iblk9 V c 13 t :=
  before9_13_of V (dat9 V c) (A_eq9 V c 13) (after9_13 V c) t d
theorem before9_14 (c : Dev nD) (t : Fin cfg9.N) (d) : (dat9 V c).before 14 t d = iblk9 V c 14 t :=
  before9_14_of V (dat9 V c) (A_eq9 V c 14) (after9_14 V c) t d

/-! ## The body obligation -/

/-- What the body is called with at point t, -/
noncomputable def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d))
    ∗ (∃ d, owns (c : Thread nD τ) (st9_9 t) fullShare ((dat9 V c).before 9 t d))
    ∗ (∃ d, owns (c : Thread nD τ) (st9_10 t) fullShare ((dat9 V c).before 10 t d))
    ∗ (∃ d, owns (c : Thread nD τ) (st9_11 t) fullShare ((dat9 V c).before 11 t d))
    ∗ (∃ d, owns (c : Thread nD τ) (st9_12 t) fullShare ((dat9 V c).before 12 t d))
    ∗ (∃ d, owns (c : Thread nD τ) (st9_13 t) fullShare ((dat9 V c).before 13 t d))
    ∗ (∃ d, owns (c : Thread nD τ) (st9_14 t) fullShare ((dat9 V c).before 14 t d))
    ∗ (∃ d, owns (c : Thread nD τ) (st9_15 t) fullShare ((dat9 V c).before 15 t d)))

/-- and what it returns. -/
noncomputable def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t)
    ∗ owns (c : Thread nD τ) (st9_9 t) fullShare ((dat9 V c).after 9 t)
    ∗ owns (c : Thread nD τ) (st9_10 t) fullShare ((dat9 V c).after 10 t)
    ∗ owns (c : Thread nD τ) (st9_11 t) fullShare ((dat9 V c).after 11 t)
    ∗ owns (c : Thread nD τ) (st9_12 t) fullShare ((dat9 V c).after 12 t)
    ∗ owns (c : Thread nD τ) (st9_13 t) fullShare ((dat9 V c).after 13 t)
    ∗ owns (c : Thread nD τ) (st9_14 t) fullShare ((dat9 V c).after 14 t)
    ∗ owns (c : Thread nD τ) (st9_15 t) fullShare ((dat9 V c).after 15 t))

set_option maxHeartbeats 1000000 in
/-- The body at any point: the inputs' buffers hold their blocks, so the triple applies; the invariant and what the
    core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7, before9_8, before9_9, before9_10, before9_11, before9_12, before9_13, before9_14]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7, after9_8, after9_9, after9_10, after9_11, after9_12, after9_13, after9_14, after9_15]
  iintro ⟨HΦ, Ho, ⟨%d_0, H_0⟩, ⟨%d_1, H_1⟩, ⟨%d_2, H_2⟩, ⟨%d_3, H_3⟩, ⟨%d_4, H_4⟩, ⟨%d_5, H_5⟩, ⟨%d_6, H_6⟩, ⟨%d_7, H_7⟩, ⟨%d_8, H_8⟩, ⟨%d_9, H_9⟩, ⟨%d_10, H_10⟩, ⟨%d_11, H_11⟩, ⟨%d_12, H_12⟩, ⟨%d_13, H_13⟩, ⟨%d_14, H_14⟩, ⟨%d_15, H_15⟩⟩
  iapply (sound_kernel9 c Set.univ _ _ _ _ _ _ _ _ _ _ _ _ _ _ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) (iblk9 V c 11 t) (iblk9 V c 12 t) (iblk9 V c 13 t) (iblk9 V c 14 t) _)
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  isplitl [H_15]; · iexists _; iexact H_15
  iintro ⟨H_0, H_1, H_2, H_3, H_4, H_5, H_6, H_7, H_8, H_9, H_10, H_11, H_12, H_13, H_14, H_15⟩
  isplitl [HΦ]; · iexact HΦ
  isplitl [Ho]; · iexact Ho
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  iexact H_15

theorem body_obligation9 (c : Dev nD) : BodyObligation (dat9 (F := F) V c) (defs₀ (F := F)) Variants.none () Set.univ := fun t => by
  rw [bigSep_W9, bigSep_W9]
  exact sound_body9 V c t

/-! ## The invariant at the region's ends -/

theorem phi_in9 (c : Dev nD) :
    (iprop((∃ r, prngReg c r) ∗ Pipeline.scopedRest (Ix := Unit) (Name := ℕ) (U := UR sig nD τ) (Lvl := ℕ) (Val := Elt F) spec9 c) : sProp 𝕄)
      ⊢ (dat9 V c).Φ 0 := by
  rw [show (dat9 V c).Φ 0 = Pipeline.ΦA spec9 c from rfl]; unfold Pipeline.ΦA
  iintro ⟨Hp, Hr⟩
  isplitl [Hr]; · iexact Hr
  iexact Hp

theorem phi_out9 (c : Dev nD) :
    (dat9 V c).Φ (Fin.last cfg9.N)
      ⊢ (iprop((∃ r, prngReg c r) ∗ Pipeline.scopedRest (Ix := Unit) (Name := ℕ) (U := UR sig nD τ) (Lvl := ℕ) (Val := Elt F) spec9 c) : sProp 𝕄) := by
  rw [show (dat9 V c).Φ (Fin.last _) = Pipeline.ΦA spec9 c from rfl]; unfold Pipeline.ΦA
  iintro ⟨Hr, Hp⟩
  isplitl [Hp]; · iexact Hp
  iexact Hr

/-! ## The whole output array

    Sixteen blocks of 4096 rows tile the 65536 rows, block t holding rows 4096·t … 4096·t + 4095, so row r is written
    at point r / 4096, at place r % 4096 of the block, and what is written there depends on the inputs' blocks at that
    point only. -/

/-- The point whose block holds an index's row. -/
noncomputable def pt9 (i : S65536x64.Idx) : Fin cfg9.N :=
  ⟨(i 0).val / 4096, by have h := ValueIdx.idx2_lt0 i; show (i 0).val / 4096 < grid9.N; rw [N_9]; omega⟩

/-- Where an index of the array sits inside its block. -/
noncomputable def loc9 (i : S65536x64.Idx) : S4096x64.Idx :=
  ValueIdx.ix2 ⟨(i 0).val % 4096, Nat.mod_lt _ (by decide)⟩ (i 1)

/-- The output array as one function of the fifteen input arrays: at each index, what the body leaves at the index's
    place in its block, from the inputs' blocks at the index's point. -/
noncomputable def G9_15 (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) : S65536x64.Idx → Elt F .f32 :=
  fun i => out9_15
      (((cfg9.win 0).blk (pt9 i)).view.read (Elt F) A_0)
      (((cfg9.win 1).blk (pt9 i)).view.read (Elt F) A_1)
      (((cfg9.win 2).blk (pt9 i)).view.read (Elt F) A_2)
      (((cfg9.win 3).blk (pt9 i)).view.read (Elt F) A_3)
      (((cfg9.win 4).blk (pt9 i)).view.read (Elt F) A_4)
      (((cfg9.win 5).blk (pt9 i)).view.read (Elt F) A_5)
      (((cfg9.win 6).blk (pt9 i)).view.read (Elt F) A_6)
      (((cfg9.win 7).blk (pt9 i)).view.read (Elt F) A_7)
      (((cfg9.win 8).blk (pt9 i)).view.read (Elt F) A_8)
      (((cfg9.win 9).blk (pt9 i)).view.read (Elt F) A_9)
      (((cfg9.win 10).blk (pt9 i)).view.read (Elt F) A_10)
      (((cfg9.win 11).blk (pt9 i)).view.read (Elt F) A_11)
      (((cfg9.win 12).blk (pt9 i)).view.read (Elt F) A_12)
      (((cfg9.win 13).blk (pt9 i)).view.read (Elt F) A_13)
      (((cfg9.win 14).blk (pt9 i)).view.read (Elt F) A_14)
      (loc9 i)

/-- G9_15 at an index, one step unfolded. -/
theorem G9_15_apply (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) (i : S65536x64.Idx) :
    G9_15 A_0 A_1 A_2 A_3 A_4 A_5 A_6 A_7 A_8 A_9 A_10 A_11 A_12 A_13 A_14 i = out9_15 (((cfg9.win 0).blk (pt9 i)).view.read (Elt F) A_0) (((cfg9.win 1).blk (pt9 i)).view.read (Elt F) A_1) (((cfg9.win 2).blk (pt9 i)).view.read (Elt F) A_2) (((cfg9.win 3).blk (pt9 i)).view.read (Elt F) A_3) (((cfg9.win 4).blk (pt9 i)).view.read (Elt F) A_4) (((cfg9.win 5).blk (pt9 i)).view.read (Elt F) A_5) (((cfg9.win 6).blk (pt9 i)).view.read (Elt F) A_6) (((cfg9.win 7).blk (pt9 i)).view.read (Elt F) A_7) (((cfg9.win 8).blk (pt9 i)).view.read (Elt F) A_8) (((cfg9.win 9).blk (pt9 i)).view.read (Elt F) A_9) (((cfg9.win 10).blk (pt9 i)).view.read (Elt F) A_10) (((cfg9.win 11).blk (pt9 i)).view.read (Elt F) A_11) (((cfg9.win 12).blk (pt9 i)).view.read (Elt F) A_12) (((cfg9.win 13).blk (pt9 i)).view.read (Elt F) A_13) (((cfg9.win 14).blk (pt9 i)).view.read (Elt F) A_14) (loc9 i) := rfl

/-- The output's block index at point t is (t, 0), decided over the sixteen points. -/
theorem idx9_15 : ∀ t : Fin cfg9.N, win9_15.index t (0 : Fin 2) = t.val ∧ win9_15.index t (1 : Fin 2) = 0 :=
  (by decide +kernel : ∀ t : Fin grid9.N, _)

set_option maxHeartbeats 2000000 in
/-- What point t writes back is block t of G9_15 of the arrays as the region finds them. -/
theorem flushed9_15_eq (c : Dev nD) (t : Fin cfg9.N) :
    (dat9 V c).flushed 15 t = ((cfg9.win 15).blk t).view.read (Elt F) (G9_15 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (V c (Pipeline.arrRef spec9 7)) (V c (Pipeline.arrRef spec9 8)) (V c (Pipeline.arrRef spec9 9)) (V c (Pipeline.arrRef spec9 10)) (V c (Pipeline.arrRef spec9 11)) (V c (Pipeline.arrRef spec9 12)) (V c (Pipeline.arrRef spec9 13)) (V c (Pipeline.arrRef spec9 14))) := by
  show (cfg9.win 15).cut (grid9.coords t) ((dat9 V c).after 15 t) = _
  rw [after9_15]
  obtain ⟨e0, e1⟩ := idx9_15 t
  funext j
  have hj0 : (j 0).val < 4096 := (j 0).isLt
  have hp : pt9 (((cfg9.win 15).blk t).view.emb j) = t := by
    apply Fin.ext
    show (win9_15.index t (0 : Fin 2) * 4096 + 1 * (j 0).val) / 4096 = t.val
    omega
  have hl : loc9 (((cfg9.win 15).blk t).view.emb j) = j := by
    funext a; apply Fin.ext
    match a with
    | ⟨0, _⟩ => show (win9_15.index t (0 : Fin 2) * 4096 + 1 * (j 0).val) % 4096 = (j 0).val; omega
    | ⟨1, _⟩ => show win9_15.index t (1 : Fin 2) * 64 + 1 * (j 1).val = (j 1).val; omega
  rw [View.read_apply]
  rw [G9_15_apply, hp, hl]
  unfold iblk9
  generalize out9_15 (F := F) _ _ _ _ _ _ _ _ _ _ _ _ _ _ _ = X
  rfl

/-- An index of the array is in point t's block iff each coordinate is in the block's range on its axis. -/
theorem mem_blk9_15 (t : Fin cfg9.N) (i : S65536x64.Idx) :
    i ∈ ((cfg9.win 15).blk t).view.set ↔ ∀ a : Fin 2, win9_15.index t a * S4096x64.size a ≤ (i a).val ∧ (i a).val < win9_15.index t a * S4096x64.size a + S4096x64.size a := by
  show i ∈ ((View.whole main_v209).slice (win9_15.rect t)).set ↔ _
  rw [View.set_slice_whole, Rect.mem_set_unit]
  exact Iff.rfl

/-- Every index of the array is in some point's block. -/
theorem covered9_15 (i : S65536x64.Idx) : ∃ t : Fin cfg9.N, (cfg9.win 15).flush t = true ∧ i ∈ ((cfg9.win 15).blk t).view.set := by
  refine ⟨pt9 i, flush9_15 _, ?_⟩
  rw [mem_blk9_15]
  obtain ⟨e0, e1⟩ := idx9_15 (pt9 i)
  have h_0 := ValueIdx.idx2_lt0 i
  have h_1 := ValueIdx.idx2_lt1 i
  have hp : (pt9 i).val = (i 0).val / 4096 := rfl
  intro a
  match a with
  | ⟨0, _⟩ => show win9_15.index (pt9 i) (0 : Fin 2) * 4096 ≤ (i 0).val ∧ (i 0).val < win9_15.index (pt9 i) (0 : Fin 2) * 4096 + 4096; omega
  | ⟨1, _⟩ => show win9_15.index (pt9 i) (1 : Fin 2) * 64 ≤ (i 1).val ∧ (i 1).val < win9_15.index (pt9 i) (1 : Fin 2) * 64 + 64; omega

/-- The output array after the region: G9_15 of the arrays as the region finds them. -/
theorem final9_15 (c : Dev nD) :
    (dat9 V c).arrAt ⟨15, by decide⟩ cfg9.N = G9_15 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (V c (Pipeline.arrRef spec9 7)) (V c (Pipeline.arrRef spec9 8)) (V c (Pipeline.arrRef spec9 9)) (V c (Pipeline.arrRef spec9 10)) (V c (Pipeline.arrRef spec9 11)) (V c (Pipeline.arrRef spec9 12)) (V c (Pipeline.arrRef spec9 13)) (V c (Pipeline.arrRef spec9 14)) :=
  (dat9 V c).arrAt_eq_of_cover 15 _ (fun t _ => flushed9_15_eq V c t) covered9_15

end Cert.Kernel.Hand

end
-- ==== Proof.KB.Reg10.lean ====
import proofs.«159011_j9938554322955_1_alg».proof.Proof.Gen.Kernel.Launch
import proofs.«159011_j9938554322955_1_alg».proof.Proof.Gen.Kernel.Skeleton
import proofs.«159011_j9938554322955_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the body goes through the rectangle of a two-axis buffer's whole shape at zero offsets. -/

theorem hz2_10 : (![0, 0] : Fin 2 → ℕ) = fun _ => 0 := by funext a; fin_cases a <;> rfl

/-- A load of a whole buffer reads its contents. -/
theorem readAt_whole10 (sz : Fin 2 → ℕ) {e : EltTy} (v : View sig .tc .vmem (⟨2, sz⟩ : Shape) e)
    (inb : ∀ a, (![0, 0] : Fin 2 → ℕ) a + sz a ≤ sz a) (f : v.ty.Contents (Elt F)) :
    v.readAt (Elt F) (Rect.unit (s := (⟨2, sz⟩ : Shape)) ![0, 0] sz inb).toLoadRect f = v.read (Elt F) f :=
  (View.readAt_eq_ld v f _).trans (View.ld_unit_zero (S := (⟨2, sz⟩ : Shape)) hz2_10 inb _)

/-- The whole-shape rectangle holds every index. -/
theorem cover_whole10 (sz : Fin 2 → ℕ) {e : EltTy} (inb : ∀ a, (![0, 0] : Fin 2 → ℕ) a + sz a ≤ sz a)
    (w : (⟨2, sz⟩ : Shape).Idx → Elt F e) (L : List (View.Piece (Elt F) (⟨2, sz⟩ : Shape) e)) (y : (⟨2, sz⟩ : Shape).Idx) :
    ∃ p ∈ ((⟨Rect.unit (s := (⟨2, sz⟩ : Shape)) ![0, 0] sz inb, w⟩ : View.Piece (Elt F) (⟨2, sz⟩ : Shape) e) :: L), y ∈ p.1.set :=
  ⟨⟨Rect.unit (s := (⟨2, sz⟩ : Shape)) ![0, 0] sz inb, w⟩, List.mem_cons_self, View.mem_set_unit_zero (S := (⟨2, sz⟩ : Shape)) hz2_10 inb y⟩

/-- A store of a whole buffer, last, leaves its payload. -/
theorem read_writes_whole10 (sz : Fin 2 → ℕ) {e : EltTy} (v : View sig .tc .vmem (⟨2, sz⟩ : Shape) e)
    (inb : ∀ a, (![0, 0] : Fin 2 → ℕ) a + sz a ≤ sz a) (f : v.ty.Contents (Elt F)) (w : (⟨2, sz⟩ : Shape).Idx → Elt F e)
    (L : List (View.Piece (Elt F) (⟨2, sz⟩ : Shape) e)) :
    v.read (Elt F) (v.writes (Elt F) f ((⟨Rect.unit (s := (⟨2, sz⟩ : Shape)) ![0, 0] sz inb, w⟩ : View.Piece (Elt F) (⟨2, sz⟩ : Shape) e) :: L)) = w :=
  (View.read_writes_eq_canon v f _ (cover_whole10 sz inb w L)).trans
    (View.canon_cons_unit_zero (S := (⟨2, sz⟩ : Shape)) hz2_10 inb w L)

/-- A load of a whole buffer after a store of the whole buffer reads the payload. -/
theorem readCov_whole10 (sz : Fin 2 → ℕ) {e : EltTy} (v : View sig .tc .vmem (⟨2, sz⟩ : Shape) e)
    (inb : ∀ a, (![0, 0] : Fin 2 → ℕ) a + sz a ≤ sz a) (w : (⟨2, sz⟩ : Shape).Idx → Elt F e)
    (L : List (View.Piece (Elt F) (⟨2, sz⟩ : Shape) e)) :
    v.readCov ((⟨Rect.unit (s := (⟨2, sz⟩ : Shape)) ![0, 0] sz inb, w⟩ : View.Piece (Elt F) (⟨2, sz⟩ : Shape) e) :: L)
      (Rect.unit (s := (⟨2, sz⟩ : Shape)) ![0, 0] sz inb).toLoadRect = w :=
  (View.readCov_eq_canon_ld v _ (Rect.unit (s := (⟨2, sz⟩ : Shape)) ![0, 0] sz inb) (cover_whole10 sz inb w L)).trans
    ((congrArg (fun X => View.ld X (Rect.unit (s := (⟨2, sz⟩ : Shape)) ![0, 0] sz inb))
        (View.canon_cons_unit_zero (S := (⟨2, sz⟩ : Shape)) hz2_10 inb w L)).trans
      (View.ld_unit_zero (S := (⟨2, sz⟩ : Shape)) hz2_10 inb w))

/-! ## The body's two conditions -/

/-- The condition of the body's first `scf.if` (the scratch is zeroed), from the grid coordinates. -/
abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val = 0 :=
  (by decide +kernel : ∀ t : Fin grid10.N, cond10_0 (grid10.coords t) ↔ t.val = 0)
/-- The condition of the body's second `scf.if` (the statistics are stored). -/
abbrev cond10_1 (i : grid10.Coords) : Prop := k10_cond2 i = 1#1
/-- It holds at the last point only. -/
theorem hcond10_1 : ∀ t : Fin cfg10.N, cond10_1 (grid10.coords t) ↔ t.val = 15 :=
  (by decide +kernel : ∀ t : Fin grid10.N, cond10_1 (grid10.coords t) ↔ t.val = 15)

/-! ## What one point adds to the two running sums, and the statistics stored at the last point -/

/-- The column sums of the block's `z` added to the running sum `S`. -/
noncomputable def sS10 (x0 x1 : Vec F S4096x64 .f32) (x2 : Vec F S1x64 .f32) (x3 : Vec F S64x128 .f32) (x4 S : Vec F S1x128 .f32) : Vec F S1x128 .f32 :=
  k10_pay7 x2 x0 x1 x3 x4 S
/-- The column sums of the block's `z · z` added to the running sum `Q`. -/
noncomputable def sQ10 (x0 x1 : Vec F S4096x64 .f32) (x2 : Vec F S1x64 .f32) (x3 : Vec F S64x128 .f32) (x4 Q : Vec F S1x128 .f32) : Vec F S1x128 .f32 :=
  k10_pay1 (k10_pay8 x2 x0 x1 x3 x4 Q)
/-- The two sums as the first point resets them. -/
noncomputable def zS10 : Vec F S1x128 .f32 := k10_pay4 (F := F)
noncomputable def zQ10 : Vec F S1x128 .f32 := k10_pay5 (F := F)
/-- The mean stored from the total `S`, and the variance stored from the totals `S`, `Q`. -/
noncomputable def oM10 (S : Vec F S1x128 .f32) : Vec F S1x128 .f32 := k10_pay2 S
noncomputable def oV10 (S Q : Vec F S1x128 .f32) : Vec F S1x128 .f32 := k10_pay3 S Q

set_option maxHeartbeats 2000000 in
/-- The body on whole staging memrefs and the two scratch buffers, at the first point (the scratch is zeroed first, whatever it held). -/
theorem sound_kernel10_A (c : Dev nD) (E : Set ℕ) (i : grid10.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond10_0 i) (hc1 : ¬cond10_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS10 x0 x1 x2 x3 x4 zS10)
            ∗ owns (c : Thread nD τ) arg9 fullShare (sQ10 x0 x1 x2 x3 x4 zQ10)) -∗ K ⟨⟩))
      ⊢ wp frame (wpE (defs₀ (F := F)) Variants.none c none) E (cc10__stats1_kernel i arg1 harg1 arg2 harg2 arg3 harg3 arg4 harg4 arg5 harg5 arg6 harg6 arg7 harg7 arg8 harg8 arg9 harg9) K := by
  simp only [cc10__stats1_kernel_eq_skeleton]; unfold cc10__stats1_kernel_skel
  simp only [k10_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole10, readCov_whole10, readAt_whole10, oM10, oV10, sS10, sQ10, zS10, zQ10])
  isplitl [H6]
  · iexists _; isplitr
    swap; · iexact H6
    ipureintro
    first
      | rfl
      | (sl_unfold_run_names; (try dsimp only); simp only [read_writes_whole10, readCov_whole10, readAt_whole10, oM10, oV10, sS10, sQ10, zS10, zQ10])
  isplitl [H7]
  · iexists _; isplitr
    swap; · iexact H7
    ipureintro
    (sl_unfold_run_names; (try dsimp only); simp only [read_writes_whole10, readCov_whole10, readAt_whole10, oM10, oV10, sS10, sQ10, zS10, zQ10])
  iexists _; isplitr
  swap; · iexact H8
  ipureintro
  (sl_unfold_run_names; (try dsimp only); simp only [read_writes_whole10, readCov_whole10, readAt_whole10, oM10, oV10, sS10, sQ10, zS10, zQ10])

set_option maxHeartbeats 2000000 in
/-- The body on whole staging memrefs and the two scratch buffers, at a point that is neither the first nor the last. -/
theorem sound_kernel10_B (c : Dev nD) (E : Set ℕ) (i : grid10.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond10_0 i) (hc1 : ¬cond10_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS10 x0 x1 x2 x3 x4 S)
            ∗ owns (c : Thread nD τ) arg9 fullShare (sQ10 x0 x1 x2 x3 x4 Q)) -∗ K ⟨⟩))
      ⊢ wp frame (wpE (defs₀ (F := F)) Variants.none c none) E (cc10__stats1_kernel i arg1 harg1 arg2 harg2 arg3 harg3 arg4 harg4 arg5 harg5 arg6 harg6 arg7 harg7 arg8 harg8 arg9 harg9) K := by
  simp only [cc10__stats1_kernel_eq_skeleton]; unfold cc10__stats1_kernel_skel
  simp only [k10_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole10, readCov_whole10, readAt_whole10, oM10, oV10, sS10, sQ10, zS10, zQ10])
  isplitl [H6]
  · iexists _; isplitr
    swap; · iexact H6
    ipureintro
    first
      | rfl
      | (sl_unfold_run_names; (try dsimp only); simp only [read_writes_whole10, readCov_whole10, readAt_whole10, oM10, oV10, sS10, sQ10, zS10, zQ10])
  isplitl [H7]
  · iexists _; isplitr
    swap; · iexact H7
    ipureintro
    (sl_unfold_run_names; (try dsimp only); simp only [read_writes_whole10, readCov_whole10, readAt_whole10, oM10, oV10, sS10, sQ10, zS10, zQ10])
  iexists _; isplitr
  swap; · iexact H8
  ipureintro
  (sl_unfold_run_names; (try dsimp only); simp only [read_writes_whole10, readCov_whole10, readAt_whole10, oM10, oV10, sS10, sQ10, zS10, zQ10])

set_option maxHeartbeats 2000000 in
/-- The body on whole staging memrefs and the two scratch buffers, at the last point (the statistics are stored from the totals). -/
theorem sound_kernel10_C (c : Dev nD) (E : Set ℕ) (i : grid10.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond10_0 i) (hc1 : cond10_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (oM10 (sS10 x0 x1 x2 x3 x4 S))
            ∗ owns (c : Thread nD τ) arg7 fullShare (oV10 (sS10 x0 x1 x2 x3 x4 S) (sQ10 x0 x1 x2 x3 x4 Q)) ∗ owns (c : Thread nD τ) arg8 fullShare (sS10 x0 x1 x2 x3 x4 S)
            ∗ owns (c : Thread nD τ) arg9 fullShare (sQ10 x0 x1 x2 x3 x4 Q)) -∗ K ⟨⟩))
      ⊢ wp frame (wpE (defs₀ (F := F)) Variants.none c none) E (cc10__stats1_kernel i arg1 harg1 arg2 harg2 arg3 harg3 arg4 harg4 arg5 harg5 arg6 harg6 arg7 harg7 arg8 harg8 arg9 harg9) K := by
  simp only [cc10__stats1_kernel_eq_skeleton]; unfold cc10__stats1_kernel_skel
  simp only [k10_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole10, readCov_whole10, readAt_whole10, oM10, oV10, sS10, sQ10, zS10, zQ10])
  isplitl [H6]
  · iexists _; isplitr
    swap; · iexact H6
    ipureintro
    first
      | rfl
      | (sl_unfold_run_names; (try dsimp only); simp only [read_writes_whole10, readCov_whole10, readAt_whole10, oM10, oV10, sS10, sQ10, zS10, zQ10])
  isplitl [H7]
  · iexists _; isplitr
    swap; · iexact H7
    ipureintro
    (sl_unfold_run_names; (try dsimp only); simp only [read_writes_whole10, readCov_whole10, readAt_whole10, oM10, oV10, sS10, sQ10, zS10, zQ10])
  iexists _; isplitr
  swap; · iexact H8
  ipureintro
  (sl_unfold_run_names; (try dsimp only); simp only [read_writes_whole10, readCov_whole10, readAt_whole10, oM10, oV10, sS10, sQ10, zS10, zQ10])

variable (V : (c : Dev nD) → (b : Ref sig .tc) → Buf (Elt F) ((c : Thread nD τ).loc b))

/-! ## The windows' blocks -/

/-- Window w's block at point t, read off its array as the region finds it. -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## Where the windows are idle and written back

The five inputs are never idle. The two statistics are stored at the last point only: before it their windows are
idle and are not written back; at it they are live. -/

theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem liveAt10_3 : ∀ t : Fin cfg10.N, cfg10.idle 3 (grid10.coords t) = false := by decide +kernel
theorem liveAt10_4 : ∀ t : Fin cfg10.N, cfg10.idle 4 (grid10.coords t) = false := by decide +kernel
theorem idleAt10_5 : ∀ t : Fin cfg10.N, t.val ≠ 15 → cfg10.idle 5 (grid10.coords t) = true := by decide +kernel
theorem idleAt10_6 : ∀ t : Fin cfg10.N, t.val ≠ 15 → cfg10.idle 6 (grid10.coords t) = true := by decide +kernel
theorem liveAt10_5 : ∀ t : Fin cfg10.N, t.val = 15 → cfg10.idle 5 (grid10.coords t) = false := by decide +kernel
theorem liveAt10_6 : ∀ t : Fin cfg10.N, t.val = 15 → cfg10.idle 6 (grid10.coords t) = false := by decide +kernel
theorem noFlush10_5 : ∀ t : Fin cfg10.N, t.val ≠ 15 → (cfg10.win 5).flush t = false := by decide +kernel
theorem noFlush10_6 : ∀ t : Fin cfg10.N, t.val ≠ 15 → (cfg10.win 6).flush t = false := by decide +kernel

/-! ## What an input's staging buffer holds

Each input's current staging buffer holds its block at every point, fetched there or not, for any proof data whose
array is the entry contents and whose body leaves the block in place. -/

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The running sums

What the two scratch buffers hold after the body at point n: the first point resets them and adds its block's column
sums of z and of z · z; every later point adds its own to what the point before left. -/

noncomputable def accS10 (c : Dev nD) : (n : ℕ) → n < cfg10.N → Vec F S1x128 .f32
  | 0, hn => sS10 (iblk10 V c 0 ⟨0, hn⟩) (iblk10 V c 1 ⟨0, hn⟩) (iblk10 V c 2 ⟨0, hn⟩) (iblk10 V c 3 ⟨0, hn⟩) (iblk10 V c 4 ⟨0, hn⟩) zS10
  | n + 1, hn => sS10 (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (accS10 c n (Nat.lt_of_succ_lt hn))

noncomputable def accQ10 (c : Dev nD) : (n : ℕ) → n < cfg10.N → Vec F S1x128 .f32
  | 0, hn => sQ10 (iblk10 V c 0 ⟨0, hn⟩) (iblk10 V c 1 ⟨0, hn⟩) (iblk10 V c 2 ⟨0, hn⟩) (iblk10 V c 3 ⟨0, hn⟩) (iblk10 V c 4 ⟨0, hn⟩) zQ10
  | n + 1, hn => sQ10 (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (accQ10 c n (Nat.lt_of_succ_lt hn))

theorem accS10_zero (c : Dev nD) (t : Fin cfg10.N) (h0 : t.val = 0) :
    accS10 V c t.val t.isLt = sS10 (iblk10 V c 0 t) (iblk10 V c 1 t) (iblk10 V c 2 t) (iblk10 V c 3 t) (iblk10 V c 4 t) zS10 := by
  obtain ⟨n, hn⟩ := t
  cases n with
  | zero => rfl
  | succ n => exact absurd h0 (Nat.succ_ne_zero n)

theorem accS10_pos (c : Dev nD) (t : Fin cfg10.N) (h0 : t.val ≠ 0) :
    accS10 V c t.val t.isLt = sS10 (iblk10 V c 0 t) (iblk10 V c 1 t) (iblk10 V c 2 t) (iblk10 V c 3 t) (iblk10 V c 4 t) (accS10 V c (t.val - 1) (Nat.lt_of_le_of_lt (Nat.sub_le _ _) t.isLt)) := by
  obtain ⟨n, hn⟩ := t
  cases n with
  | zero => exact absurd rfl h0
  | succ n => rfl

theorem accQ10_zero (c : Dev nD) (t : Fin cfg10.N) (h0 : t.val = 0) :
    accQ10 V c t.val t.isLt = sQ10 (iblk10 V c 0 t) (iblk10 V c 1 t) (iblk10 V c 2 t) (iblk10 V c 3 t) (iblk10 V c 4 t) zQ10 := by
  obtain ⟨n, hn⟩ := t
  cases n with
  | zero => rfl
  | succ n => exact absurd h0 (Nat.succ_ne_zero n)

theorem accQ10_pos (c : Dev nD) (t : Fin cfg10.N) (h0 : t.val ≠ 0) :
    accQ10 V c t.val t.isLt = sQ10 (iblk10 V c 0 t) (iblk10 V c 1 t) (iblk10 V c 2 t) (iblk10 V c 3 t) (iblk10 V c 4 t) (accQ10 V c (t.val - 1) (Nat.lt_of_le_of_lt (Nat.sub_le _ _) t.isLt)) := by
  obtain ⟨n, hn⟩ := t
  cases n with
  | zero => exact absurd rfl h0
  | succ n => rfl

/-! ## The invariant between points -/

/-- The scoped rest with the two scratch buffers as whole memrefs owned at some contents. -/
theorem scr10_eq (c : Dev nD) :
    (Pipeline.scopedRest (Ix := Unit) (Name := ℕ) (U := UR sig nD τ) (Lvl := ℕ) (Val := Elt F) spec10 c : sProp 𝕄)
      = iprop(iprop((∃ d, owns (c : Thread nD τ) (Memref.whole cc10_scratch0) fullShare d) ∗ (∃ d, owns (c : Thread nD τ) (Memref.whole cc10_scratch1) fullShare d))
          ∗ Pipeline.scopedRestBut (Ix := Unit) (Name := ℕ) (U := UR sig nD τ) (Lvl := ℕ) (Val := Elt F) spec10 c [cc10_scratch0, cc10_scratch1]) := by
  rw [scopedRest10_split]; simp only [owns_whole]; try rfl

/-- Before the first point: the generator register and every scoped buffer that is no staging buffer, at anything.
    Before a later point: the same with the two scratch buffers at the running sums the point before left. -/
noncomputable def Phi10 (c : Dev nD) : (n : ℕ) → n ≤ cfg10.N → sProp 𝕄
  | 0, _ => iprop((∃ r, prngReg c r) ∗ Pipeline.scopedRest (Ix := Unit) (Name := ℕ) (U := UR sig nD τ) (Lvl := ℕ) (Val := Elt F) spec10 c)
  | n + 1, hn => iprop((∃ r, prngReg c r)
      ∗ iprop(owns (c : Thread nD τ) (Memref.whole cc10_scratch0) fullShare (accS10 V c n hn) ∗ owns (c : Thread nD τ) (Memref.whole cc10_scratch1) fullShare (accQ10 V c n hn))
      ∗ Pipeline.scopedRestBut (Ix := Unit) (Name := ℕ) (U := UR sig nD τ) (Lvl := ℕ) (Val := Elt F) spec10 c [cc10_scratch0, cc10_scratch1])

theorem Phi10_zero (c : Dev nD) (n : ℕ) (h : n ≤ cfg10.N) (hz : n = 0) :
    Phi10 V c n h = iprop((∃ r, prngReg c r) ∗ Pipeline.scopedRest (Ix := Unit) (Name := ℕ) (U := UR sig nD τ) (Lvl := ℕ) (Val := Elt F) spec10 c) := by
  subst hz; rfl

theorem Phi10_succ (c : Dev nD) (n : ℕ) (hn : n < cfg10.N) :
    Phi10 V c (n + 1) hn = iprop((∃ r, prngReg c r)
      ∗ iprop(owns (c : Thread nD τ) (Memref.whole cc10_scratch0) fullShare (accS10 V c n hn) ∗ owns (c : Thread nD τ) (Memref.whole cc10_scratch1) fullShare (accQ10 V c n hn))
      ∗ Pipeline.scopedRestBut (Ix := Unit) (Name := ℕ) (U := UR sig nD τ) (Lvl := ℕ) (Val := Elt F) spec10 c [cc10_scratch0, cc10_scratch1]) := rfl

theorem Phi10_pos (c : Dev nD) (n : ℕ) (h : n ≤ cfg10.N) (hz : n ≠ 0) :
    Phi10 V c n h = iprop((∃ r, prngReg c r)
      ∗ iprop(owns (c : Thread nD τ) (Memref.whole cc10_scratch0) fullShare (accS10 V c (n - 1) (by omega)) ∗ owns (c : Thread nD τ) (Memref.whole cc10_scratch1) fullShare (accQ10 V c (n - 1) (by omega)))
      ∗ Pipeline.scopedRestBut (Ix := Unit) (Name := ℕ) (U := UR sig nD τ) (Lvl := ℕ) (Val := Elt F) spec10 c [cc10_scratch0, cc10_scratch1]) := by
  cases n with
  | zero => exact absurd rfl hz
  | succ n => rfl

/-! ## The pipeline's proof data -/

/-- The arrays as the region finds them; after the body at point t each input's buffer at its block, the mean's and the
    variance's at the statistics of the running sums (consulted at the last point only: before it the two windows are idle);
    the invariant above; nothing owed; full shares. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => oM10 (accS10 V c t.val t.isLt)
    | ⟨6, _⟩ => oV10 (accS10 V c t.val t.isLt) (accQ10 V c t.val t.isLt)
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem Phi10_castSucc (c : Dev nD) (t : Fin cfg10.N) :
    (dat10 V c).Φ t.castSucc = Phi10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = oM10 (accS10 V c t.val t.isLt) := by dsimp only [dat10]
theorem after10_6 (c : Dev nD) (t : Fin cfg10.N) : (dat10 V c).after 6 t = oV10 (accS10 V c t.val t.isLt) (accQ10 V c t.val t.isLt) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation, at a generic point -/

/-- What the body is called with at point t, the windows one by one, -/
noncomputable def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
noncomputable def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t)

set_option maxHeartbeats 4800000 in
/-- The body at any point: the inputs' memrefs hold their blocks; the point is the first, the last or neither, which
    decides the two conditions; the invariant hands the body the two scratch buffers (at anything at the first point, at
    the running sums otherwise) and takes them back at this point's sums; the mean's and the variance's buffers come back
    untouched before the last point and hold the statistics after it; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).owesAt () t.succ = (dat10 V c).owesAt () t.castSucc from rfl]
  rw [show (dat10 V c).Φ t.succ = Phi10 V c (t.val + 1) t.isLt from rfl, Phi10_succ]
  have hN : t.val < 16 := lt_of_lt_of_eq t.isLt (show cfg10.N = 16 from N_10)
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  rw [show (dat10 V c).leavesExact 2 t = owns (c : Thread nD τ) (st10_2 t) fullShare ((dat10 V c).after 2 t) from by
    unfold Dat.leavesExact; rw [liveAt10_2 t], after10_2]
  rw [show (dat10 V c).leavesExact 3 t = owns (c : Thread nD τ) (st10_3 t) fullShare ((dat10 V c).after 3 t) from by
    unfold Dat.leavesExact; rw [liveAt10_3 t], after10_3]
  rw [show (dat10 V c).leavesExact 4 t = owns (c : Thread nD τ) (st10_4 t) fullShare ((dat10 V c).after 4 t) from by
    unfold Dat.leavesExact; rw [liveAt10_4 t], after10_4]
  by_cases h0 : t.val = 0
  · have h1 : t.val ≠ 15 := by omega
    rw [Dat.leavesExact_idle (dat10 V c) 5 t (idleAt10_5 t h1) (noFlush10_5 t h1),
      Dat.leavesExact_idle (dat10 V c) 6 t (idleAt10_6 t h1) (noFlush10_6 t h1)]
    rw [accS10_zero V c t h0, accQ10_zero V c t h0]
    rw [Phi10_castSucc V c t, Phi10_zero V c _ _ h0, scr10_eq]
    iintro ⟨⟨Hg, ⟨⟨%dS, HS⟩, ⟨%dQ, HQ⟩⟩, Hrest⟩, Ho, ⟨%d0, H0⟩, ⟨%d1, H1⟩, ⟨%d2, H2⟩, ⟨%d3, H3⟩, ⟨%d4, H4⟩, ⟨%d5, H5⟩, ⟨%d6, H6⟩⟩
    iapply (sound_kernel10_A c Set.univ (grid10.coords t) _ _ _ _ _ _ _ _ _ _ _ _ _ _ (Memref.whole cc10_scratch0) (Memref.isWhole_whole _) (Memref.whole cc10_scratch1) (Memref.isWhole_whole _)
      ((hcond10_0 t).mpr h0) (fun h => h1 ((hcond10_1 t).mp h)) (iblk10 V c 0 t) (iblk10 V c 1 t) (iblk10 V c 2 t) (iblk10 V c 3 t) (iblk10 V c 4 t) _ _ dS dQ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HQ]; · iexact HQ
    iintro ⟨H0, H1, H2, H3, H4, H5, H6, HS, HQ⟩
    isplitl [Hg HS HQ Hrest]
    · isplitl [Hg]; · iexact Hg
      isplitl [HS HQ]
      · isplitl [HS]; · iexact HS
        iexact HQ
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 15
    · rw [show (dat10 V c).leavesExact 5 t = owns (c : Thread nD τ) (st10_5 t) fullShare ((dat10 V c).after 5 t) from by
        unfold Dat.leavesExact; rw [liveAt10_5 t h1], after10_5]
      rw [show (dat10 V c).leavesExact 6 t = owns (c : Thread nD τ) (st10_6 t) fullShare ((dat10 V c).after 6 t) from by
        unfold Dat.leavesExact; rw [liveAt10_6 t h1], after10_6]
      rw [accS10_pos V c t h0, accQ10_pos V c t h0]
      rw [Phi10_castSucc V c t, Phi10_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel10_C c Set.univ (grid10.coords t) _ _ _ _ _ _ _ _ _ _ _ _ _ _ (Memref.whole cc10_scratch0) (Memref.isWhole_whole _) (Memref.whole cc10_scratch1) (Memref.isWhole_whole _)
        (fun h => h0 ((hcond10_0 t).mp h)) ((hcond10_1 t).mpr h1) (iblk10 V c 0 t) (iblk10 V c 1 t) (iblk10 V c 2 t) (iblk10 V c 3 t) (iblk10 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat10 V c) 5 t (idleAt10_5 t h1) (noFlush10_5 t h1),
        Dat.leavesExact_idle (dat10 V c) 6 t (idleAt10_6 t h1) (noFlush10_6 t h1)]
      rw [accS10_pos V c t h0, accQ10_pos V c t h0]
      rw [Phi10_castSucc V c t, Phi10_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel10_B c Set.univ (grid10.coords t) _ _ _ _ _ _ _ _ _ _ _ _ _ _ (Memref.whole cc10_scratch0) (Memref.isWhole_whole _) (Memref.whole cc10_scratch1) (Memref.isWhole_whole _)
        (fun h => h0 ((hcond10_0 t).mp h)) (fun h => h1 ((hcond10_1 t).mp h)) (iblk10 V c 0 t) (iblk10 V c 1 t) (iblk10 V c 2 t) (iblk10 V c 3 t) (iblk10 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Entering and leaving the region -/

/-- What the region is handed is the invariant before the first point. -/
theorem phi_in10 (c : Dev nD) :
    (iprop((∃ r, prngReg c r) ∗ Pipeline.scopedRest (Ix := Unit) (Name := ℕ) (U := UR sig nD τ) (Lvl := ℕ) (Val := Elt F) spec10 c) : sProp 𝕄)
      ⊢ (dat10 V c).Φ 0 := by
  rw [show (dat10 V c).Φ 0 = Phi10 V c 0 (Nat.zero_le _) from rfl, Phi10_zero V c 0 _ rfl]
  try exact Idealize.SL.BI.Entails.refl _

/-- After the last point the invariant gives it back: the scratch buffers' contents are forgotten. -/
theorem phi_out10 (c : Dev nD) :
    (dat10 V c).Φ (Fin.last cfg10.N)
      ⊢ (iprop((∃ r, prngReg c r) ∗ Pipeline.scopedRest (Ix := Unit) (Name := ℕ) (U := UR sig nD τ) (Lvl := ℕ) (Val := Elt F) spec10 c) : sProp 𝕄) := by
  have ht : (Fin.last cfg10.N).val ≠ 0 := by rw [Fin.val_last]; have : cfg10.N = 16 := N_10; omega
  rw [show (dat10 V c).Φ (Fin.last cfg10.N) = Phi10 V c (Fin.last cfg10.N).val (Nat.le_of_lt_succ (Fin.last cfg10.N).isLt) from rfl,
    Phi10_pos V c _ _ ht, scr10_eq]
  iintro ⟨Hg, ⟨HS, HQ⟩, Hrest⟩
  isplitl [Hg]; · iexact Hg
  isplitl [HS HQ]
  · isplitl [HS]; · iexists _; iexact HS
    iexists _; iexact HQ
  iexact Hrest

end Cert.Kernel.Hand

end
-- ==== Proof.KB.Reg11Runs.lean ====
import proofs.«159011_j9938554322955_1_alg».proof.Proof.Gen.Kernel.Launch
import proofs.«159011_j9938554322955_1_alg».proof.Proof.Gen.Kernel.Skeleton
import proofs.«159011_j9938554322955_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second statistics kernel of a layer: what its three kinds of grid point share

The kernel visits sixteen blocks of 4096 rows. At every point it recomputes the block of the second linear
map's values z2 and adds the block's column sums of z2 and of z2 * z2 into two accumulators of 64 lanes that it
keeps from point to point; at the first point it clears the accumulators before adding; at the last point it also
stores mean = S * 2^(-16) and var = Q * 2^(-16) - mean * mean. -/

/-- The body's first test, from the grid index: the index is 0 (the accumulators are cleared). -/
noncomputable abbrev cond11_0 (i : grid11.Coords) : Prop := (Scalar.cmpi .ne (Scalar.extui (Scalar.cmpi .eq (BitVec.ofNat 32 (i 0).val) 0#32)) 0#32) = 1#1
/-- It holds at the first point only. -/
theorem hcond11_0 : ∀ t : Fin cfg11.N, cond11_0 (grid11.coords t) ↔ t.val % 16 = 0 :=
  (by decide +kernel : ∀ t : Fin grid11.N, cond11_0 (grid11.coords t) ↔ t.val % 16 = 0)

/-- The body's second test: the index is 15 (mean and variance are stored). -/
noncomputable abbrev cond11_1 (i : grid11.Coords) : Prop := k11_cond2 i = 1#1
/-- It holds at the last point only. -/
theorem hcond11_1 : ∀ t : Fin cfg11.N, cond11_1 (grid11.coords t) ↔ t.val % 16 = 15 :=
  (by decide +kernel : ∀ t : Fin grid11.N, cond11_1 (grid11.coords t) ↔ t.val % 16 = 15)

/-! ## Where the windows are idle -/

/-- Input window 0 is never idle. -/
theorem liveAt11_0 : ∀ t : Fin cfg11.N, cfg11.idle 0 (grid11.coords t) = false := fun _ => rfl
/-- Input window 1 is never idle. -/
theorem liveAt11_1 : ∀ t : Fin cfg11.N, cfg11.idle 1 (grid11.coords t) = false := fun _ => rfl
/-- Input window 2 is never idle. -/
theorem liveAt11_2 : ∀ t : Fin cfg11.N, cfg11.idle 2 (grid11.coords t) = false := fun _ => rfl
/-- Input window 3 is never idle. -/
theorem liveAt11_3 : ∀ t : Fin cfg11.N, cfg11.idle 3 (grid11.coords t) = false := fun _ => rfl
/-- Input window 4 is never idle. -/
theorem liveAt11_4 : ∀ t : Fin cfg11.N, cfg11.idle 4 (grid11.coords t) = false := fun _ => rfl
/-- Input window 5 is never idle. -/
theorem liveAt11_5 : ∀ t : Fin cfg11.N, cfg11.idle 5 (grid11.coords t) = false := fun _ => rfl
/-- Input window 6 is never idle. -/
theorem liveAt11_6 : ∀ t : Fin cfg11.N, cfg11.idle 6 (grid11.coords t) = false := fun _ => rfl
/-- Input window 7 is never idle. -/
theorem liveAt11_7 : ∀ t : Fin cfg11.N, cfg11.idle 7 (grid11.coords t) = false := fun _ => rfl
/-- Input window 8 is never idle. -/
theorem liveAt11_8 : ∀ t : Fin cfg11.N, cfg11.idle 8 (grid11.coords t) = false := fun _ => rfl
/-- Input window 9 is never idle. -/
theorem liveAt11_9 : ∀ t : Fin cfg11.N, cfg11.idle 9 (grid11.coords t) = false := fun _ => rfl
/-- Input window 10 is never idle. -/
theorem liveAt11_10 : ∀ t : Fin cfg11.N, cfg11.idle 10 (grid11.coords t) = false := fun _ => rfl
/-- Away from the last point nothing is stored into output 11: the window is idle there, -/
theorem idleAt11_11 : ∀ t : Fin cfg11.N, ¬cond11_1 (grid11.coords t) → cfg11.idle 11 (grid11.coords t) = true := by decide +kernel
/-- and its block is not written back there. -/
theorem noFlush11_11 : ∀ t : Fin cfg11.N, ¬cond11_1 (grid11.coords t) → (cfg11.win 11).flush t = false := by decide +kernel
/-- At the last point output 11 is stored: the window is live. -/
theorem liveAt11_11 : ∀ t : Fin cfg11.N, cond11_1 (grid11.coords t) → cfg11.idle 11 (grid11.coords t) = false := by decide +kernel
/-- Away from the last point nothing is stored into output 12: the window is idle there, -/
theorem idleAt11_12 : ∀ t : Fin cfg11.N, ¬cond11_1 (grid11.coords t) → cfg11.idle 12 (grid11.coords t) = true := by decide +kernel
/-- and its block is not written back there. -/
theorem noFlush11_12 : ∀ t : Fin cfg11.N, ¬cond11_1 (grid11.coords t) → (cfg11.win 12).flush t = false := by decide +kernel
/-- At the last point output 12 is stored: the window is live. -/
theorem liveAt11_12 : ∀ t : Fin cfg11.N, cond11_1 (grid11.coords t) → cfg11.idle 12 (grid11.coords t) = false := by decide +kernel

/-! ## The memrefs the body is called with -/

noncomputable abbrev ms11_0 (t : Fin cfg11.N) : Memref sig .tc .vmem S4096x64 .f32 := win11_0.stage (cfg11.slots t 0)
noncomputable abbrev hs11_0 (t : Fin cfg11.N) : (ms11_0 t).IsWhole := hstage11_0 ((cfg11.slots t 0).cast nbuf11_0)
noncomputable abbrev ms11_1 (t : Fin cfg11.N) : Memref sig .tc .vmem S4096x64 .f32 := win11_1.stage (cfg11.slots t 1)
noncomputable abbrev hs11_1 (t : Fin cfg11.N) : (ms11_1 t).IsWhole := hstage11_1 ((cfg11.slots t 1).cast nbuf11_1)
noncomputable abbrev ms11_2 (t : Fin cfg11.N) : Memref sig .tc .vmem S1x64 .f32 := win11_2.stage (cfg11.slots t 2)
noncomputable abbrev hs11_2 (t : Fin cfg11.N) : (ms11_2 t).IsWhole := hstage11_2 ((cfg11.slots t 2).cast nbuf11_2)
noncomputable abbrev ms11_3 (t : Fin cfg11.N) : Memref sig .tc .vmem S64x128 .f32 := win11_3.stage (cfg11.slots t 3)
noncomputable abbrev hs11_3 (t : Fin cfg11.N) : (ms11_3 t).IsWhole := hstage11_3 ((cfg11.slots t 3).cast nbuf11_3)
noncomputable abbrev ms11_4 (t : Fin cfg11.N) : Memref sig .tc .vmem S1x128 .f32 := win11_4.stage (cfg11.slots t 4)
noncomputable abbrev hs11_4 (t : Fin cfg11.N) : (ms11_4 t).IsWhole := hstage11_4 ((cfg11.slots t 4).cast nbuf11_4)
noncomputable abbrev ms11_5 (t : Fin cfg11.N) : Memref sig .tc .vmem S1x128 .f32 := win11_5.stage (cfg11.slots t 5)
noncomputable abbrev hs11_5 (t : Fin cfg11.N) : (ms11_5 t).IsWhole := hstage11_5 ((cfg11.slots t 5).cast nbuf11_5)
noncomputable abbrev ms11_6 (t : Fin cfg11.N) : Memref sig .tc .vmem S1x128 .f32 := win11_6.stage (cfg11.slots t 6)
noncomputable abbrev hs11_6 (t : Fin cfg11.N) : (ms11_6 t).IsWhole := hstage11_6 ((cfg11.slots t 6).cast nbuf11_6)
noncomputable abbrev ms11_7 (t : Fin cfg11.N) : Memref sig .tc .vmem S1x128 .f32 := win11_7.stage (cfg11.slots t 7)
noncomputable abbrev hs11_7 (t : Fin cfg11.N) : (ms11_7 t).IsWhole := hstage11_7 ((cfg11.slots t 7).cast nbuf11_7)
noncomputable abbrev ms11_8 (t : Fin cfg11.N) : Memref sig .tc .vmem S1x128 .f32 := win11_8.stage (cfg11.slots t 8)
noncomputable abbrev hs11_8 (t : Fin cfg11.N) : (ms11_8 t).IsWhole := hstage11_8 ((cfg11.slots t 8).cast nbuf11_8)
noncomputable abbrev ms11_9 (t : Fin cfg11.N) : Memref sig .tc .vmem S128x64 .f32 := win11_9.stage (cfg11.slots t 9)
noncomputable abbrev hs11_9 (t : Fin cfg11.N) : (ms11_9 t).IsWhole := hstage11_9 ((cfg11.slots t 9).cast nbuf11_9)
noncomputable abbrev ms11_10 (t : Fin cfg11.N) : Memref sig .tc .vmem S1x64 .f32 := win11_10.stage (cfg11.slots t 10)
noncomputable abbrev hs11_10 (t : Fin cfg11.N) : (ms11_10 t).IsWhole := hstage11_10 ((cfg11.slots t 10).cast nbuf11_10)
noncomputable abbrev ms11_11 (t : Fin cfg11.N) : Memref sig .tc .vmem S1x64 .f32 := win11_11.stage (cfg11.slots t 11)
noncomputable abbrev hs11_11 (t : Fin cfg11.N) : (ms11_11 t).IsWhole := hstage11_11 ((cfg11.slots t 11).cast nbuf11_11)
noncomputable abbrev ms11_12 (t : Fin cfg11.N) : Memref sig .tc .vmem S1x64 .f32 := win11_12.stage (cfg11.slots t 12)
noncomputable abbrev hs11_12 (t : Fin cfg11.N) : (ms11_12 t).IsWhole := hstage11_12 ((cfg11.slots t 12).cast nbuf11_12)
/-- The two accumulators: whole buffers of the kernel's own, passed beside the windows. -/
noncomputable abbrev scM11_0 : Memref sig .tc .vmem S1x64 .f32 := Memref.whole cc11_scratch0
noncomputable abbrev scM11_1 : Memref sig .tc .vmem S1x64 .f32 := Memref.whole cc11_scratch1
/-- The accumulators as views: what they hold is stated through these. -/
noncomputable abbrev VS11_0 : View sig .tc .vmem S1x64 .f32 := scM11_0.view
noncomputable abbrev VS11_1 : View sig .tc .vmem S1x64 .f32 := scM11_1.view
/-- One staging buffer of each output window, through which its contents are stated (the choice does not matter). -/
noncomputable abbrev VO11_11 : View sig .tc .vmem S1x64 .f32 := (Memref.whole cc11_stg11_0 : Memref sig .tc .vmem S1x64 .f32).view
noncomputable abbrev VO11_12 : View sig .tc .vmem S1x64 .f32 := (Memref.whole cc11_stg12_0 : Memref sig .tc .vmem S1x64 .f32).view

/-- The core's scoped buffers that are no staging buffer of this call: the two accumulators, as memrefs owned at some
    contents, and every other one unopened. -/
theorem scoped11_eq (c : Dev nD) :
    (Pipeline.scopedRest (Ix := Unit) (Name := ℕ) (U := UR sig nD τ) (Lvl := ℕ) (Val := Elt F) spec11 c : sProp 𝕄)
      = iprop(iprop((∃ d, owns (c : Thread nD τ) scM11_0 fullShare d) ∗ (∃ d, owns (c : Thread nD τ) scM11_1 fullShare d))
          ∗ Pipeline.scopedRestBut (Ix := Unit) (Name := ℕ) (U := UR sig nD τ) (Lvl := ℕ) (Val := Elt F) spec11 c [cc11_scratch0, cc11_scratch1]) := by
  rw [scopedRest11_split]; simp only [scM11_0, scM11_1, owns_whole]; try rfl

end Cert.Kernel.Hand

end
-- ==== Proof.KB.Reg11RunA.lean ====
import proofs.«159011_j9938554322955_1_alg».proof.Proof.KB.Reg11Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the FIRST point (the index is 0): the accumulators, found at anything, are cleared and the block's column sums of z2 and z2 * z2
    added; nothing is stored into the two outputs, whose buffers are handed back as found.
    The statement: on whole memrefs, the eleven inputs at contents x0 ... x10, the body runs to any continuation that accepts the
    inputs as they were and each buffer it stored into with its stores applied, last first (the lists are what the run finds). -/
noncomputable def kernelRun11_A (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc11__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc11__stats2_kernel_eq_skeleton]; unfold cc11__stats2_kernel_skel
    simp only [k11_part1_eq_skeleton]; unfold k11_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.Kernel.Hand

end
-- ==== Proof.KB.Reg11RunB.lean ====
import proofs.«159011_j9938554322955_1_alg».proof.Proof.KB.Reg11RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a MIDDLE point (the index is neither 0 nor 15): the block's column sums are added into the accumulators, found at xs0, xs1;
    nothing is stored into the two outputs, whose buffers are handed back as found.
    The statement: on whole memrefs, the eleven inputs at contents x0 ... x10, the body runs to any continuation that accepts the
    inputs as they were and each buffer it stored into with its stores applied, last first (the lists are what the run finds). -/
noncomputable def kernelRun11_B (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc11__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc11__stats2_kernel_eq_skeleton]; unfold cc11__stats2_kernel_skel
    simp only [k11_part1_eq_skeleton]; unfold k11_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.Kernel.Hand

end
-- ==== Proof.KB.Reg11RunC.lean ====
import proofs.«159011_j9938554322955_1_alg».proof.Proof.KB.Reg11RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the LAST point (the index is 15): the block's column sums are added into the accumulators, found at xs0, xs1, and then
    mean = S * 2^(-16) and var = Q * 2^(-16) - mean * mean are stored into the two outputs, found at anything.
    The statement: on whole memrefs, the eleven inputs at contents x0 ... x10, the body runs to any continuation that accepts the
    inputs as they were and each buffer it stored into with its stores applied, last first (the lists are what the run finds). -/
noncomputable def kernelRun11_C (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (L11 : List (View.Piece (Elt F) S1x64 .f32)) (L12 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc11__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc11__stats2_kernel_eq_skeleton]; unfold cc11__stats2_kernel_skel
    simp only [k11_part1_eq_skeleton]; unfold k11_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [HS0]; · iexists _; iexact HS0
    iexists _; iexact HS1

end Cert.Kernel.Hand

end
-- ==== Proof.KB.Reg11.lean ====
import proofs.«159011_j9938554322955_1_alg».proof.Proof.KB.Reg11RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second statistics kernel of a layer, at the contents V its region is entered with -/

/-- Window w's block at point t, read off its array as the region finds it. -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## Every input's staging buffer holds its block at every point, fetched there or not -/

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)
theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)
theorem before11_7_of {c : Dev nD} (dat : Dat τ (Elt F) Unit ℕ (UR sig nD τ) ℕ cfg11 c) (hA : dat.A 7 = V c (Pipeline.arrRef spec11 7))
    (hafter : ∀ t, dat.after 7 t = iblk11 V c 7 t) (t : Fin cfg11.N) (d) : dat.before 7 t d = iblk11 V c 7 t :=
  (dat.before_in_eq_fetched 7 rfl (fun _ => rfl) (fun _ _ _ => rfl) (fun t => by rw [hafter]; unfold Dat.blockOf iblk11; rw [hA]; try rfl) t d).trans
    (by unfold Dat.fetched Dat.blockOf iblk11; rw [hA]; try rfl)
theorem before11_8_of {c : Dev nD} (dat : Dat τ (Elt F) Unit ℕ (UR sig nD τ) ℕ cfg11 c) (hA : dat.A 8 = V c (Pipeline.arrRef spec11 8))
    (hafter : ∀ t, dat.after 8 t = iblk11 V c 8 t) (t : Fin cfg11.N) (d) : dat.before 8 t d = iblk11 V c 8 t :=
  (dat.before_in_eq_fetched 8 rfl (fun _ => rfl) (fun _ _ _ => rfl) (fun t => by rw [hafter]; unfold Dat.blockOf iblk11; rw [hA]; try rfl) t d).trans
    (by unfold Dat.fetched Dat.blockOf iblk11; rw [hA]; try rfl)
theorem before11_9_of {c : Dev nD} (dat : Dat τ (Elt F) Unit ℕ (UR sig nD τ) ℕ cfg11 c) (hA : dat.A 9 = V c (Pipeline.arrRef spec11 9))
    (hafter : ∀ t, dat.after 9 t = iblk11 V c 9 t) (t : Fin cfg11.N) (d) : dat.before 9 t d = iblk11 V c 9 t :=
  (dat.before_in_eq_fetched 9 rfl (fun _ => rfl) (fun _ _ _ => rfl) (fun t => by rw [hafter]; unfold Dat.blockOf iblk11; rw [hA]; try rfl) t d).trans
    (by unfold Dat.fetched Dat.blockOf iblk11; rw [hA]; try rfl)
theorem before11_10_of {c : Dev nD} (dat : Dat τ (Elt F) Unit ℕ (UR sig nD τ) ℕ cfg11 c) (hA : dat.A 10 = V c (Pipeline.arrRef spec11 10))
    (hafter : ∀ t, dat.after 10 t = iblk11 V c 10 t) (t : Fin cfg11.N) (d) : dat.before 10 t d = iblk11 V c 10 t :=
  (dat.before_in_eq_fetched 10 rfl (fun _ => rfl) (fun _ _ _ => rfl) (fun t => by rw [hafter]; unfold Dat.blockOf iblk11; rw [hA]; try rfl) t d).trans
    (by unfold Dat.fetched Dat.blockOf iblk11; rw [hA]; try rfl)

/-! ## What each kind of point leaves in the accumulators and in the outputs -/

/-- Case A: the stores into accumulator 0 cover it. -/
theorem scover11_A_0 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1, y ∈ pc.1.set :=
  View.cover_of_tiledL (kernelRun11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1 S1x64.size (by sl_kernel_rfl) y

/-- Case A: what the point leaves in accumulator 0: its stores read back. -/
noncomputable def sout11_A_0 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS11_0.read (Elt F) (VS11_0.writes (Elt F) VS11_0.junk (kernelRun11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1)

/-- Case A: the stores into accumulator 1 cover it. -/
theorem scover11_A_1 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1, y ∈ pc.1.set :=
  View.cover_of_tiledL (kernelRun11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1 S1x64.size (by sl_kernel_rfl) y

/-- Case A: what the point leaves in accumulator 1: its stores read back. -/
noncomputable def sout11_A_1 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS11_1.read (Elt F) (VS11_1.writes (Elt F) VS11_1.junk (kernelRun11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1)

/-- Case B: the stores into accumulator 0 cover it. -/
theorem scover11_B_0 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- Case B: what the point leaves in accumulator 0: its stores read back. -/
noncomputable def sout11_B_0 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS11_0.read (Elt F) (VS11_0.writes (Elt F) VS11_0.junk (kernelRun11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- Case B: the stores into accumulator 1 cover it. -/
theorem scover11_B_1 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- Case B: what the point leaves in accumulator 1: its stores read back. -/
noncomputable def sout11_B_1 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS11_1.read (Elt F) (VS11_1.writes (Elt F) VS11_1.junk (kernelRun11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- At the last point the stores into output 11 cover its block. -/
theorem cover11_C_11 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- What the last point leaves in output 11's staging buffer: its stores read back. -/
noncomputable def out11_C_11 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO11_11.read (Elt F) (VO11_11.writes (Elt F) VO11_11.junk (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- At the last point the stores into output 12 cover its block. -/
theorem cover11_C_12 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- What the last point leaves in output 12's staging buffer: its stores read back. -/
noncomputable def out11_C_12 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO11_12.read (Elt F) (VO11_12.writes (Elt F) VO11_12.junk (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- Case C: the stores into accumulator 0 cover it. -/
theorem scover11_C_0 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1, y ∈ pc.1.set :=
  View.cover_of_tiledL (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1 S1x64.size (by sl_kernel_rfl) y

/-- Case C: what the point leaves in accumulator 0: its stores read back. -/
noncomputable def sout11_C_0 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS11_0.read (Elt F) (VS11_0.writes (Elt F) VS11_0.junk (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1)

/-- Case C: the stores into accumulator 1 cover it. -/
theorem scover11_C_1 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1, y ∈ pc.1.set :=
  View.cover_of_tiledL (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1 S1x64.size (by sl_kernel_rfl) y

/-- Case C: what the point leaves in accumulator 1: its stores read back. -/
noncomputable def sout11_C_1 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS11_1.read (Elt F) (VS11_1.writes (Elt F) VS11_1.junk (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1)

/-! ## The running sums -/

/-- THE ACCUMULATION. What the two accumulators hold after the body at position n: at the first point the cleared
    accumulators plus the block's column sums; afterwards what position n - 1 left plus the block's column sums. -/
noncomputable def outsAt11 (c : Dev nD) : (n : ℕ) → n < cfg11.N → Vec F S1x64 .f32 × Vec F S1x64 .f32
  | 0, hn => (sout11_A_0 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) (ms11_4 ⟨0, hn⟩) (hs11_4 ⟨0, hn⟩) (ms11_5 ⟨0, hn⟩) (hs11_5 ⟨0, hn⟩) (ms11_6 ⟨0, hn⟩) (hs11_6 ⟨0, hn⟩) (ms11_7 ⟨0, hn⟩) (hs11_7 ⟨0, hn⟩) (ms11_8 ⟨0, hn⟩) (hs11_8 ⟨0, hn⟩) (ms11_9 ⟨0, hn⟩) (hs11_9 ⟨0, hn⟩) (ms11_10 ⟨0, hn⟩) (hs11_10 ⟨0, hn⟩) (ms11_11 ⟨0, hn⟩) (hs11_11 ⟨0, hn⟩) (ms11_12 ⟨0, hn⟩) (hs11_12 ⟨0, hn⟩) scM11_0 (Memref.isWhole_whole _) scM11_1 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩) (iblk11 V c 3 ⟨0, hn⟩) (iblk11 V c 4 ⟨0, hn⟩) (iblk11 V c 5 ⟨0, hn⟩) (iblk11 V c 6 ⟨0, hn⟩) (iblk11 V c 7 ⟨0, hn⟩) (iblk11 V c 8 ⟨0, hn⟩) (iblk11 V c 9 ⟨0, hn⟩) (iblk11 V c 10 ⟨0, hn⟩), sout11_A_1 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) (ms11_4 ⟨0, hn⟩) (hs11_4 ⟨0, hn⟩) (ms11_5 ⟨0, hn⟩) (hs11_5 ⟨0, hn⟩) (ms11_6 ⟨0, hn⟩) (hs11_6 ⟨0, hn⟩) (ms11_7 ⟨0, hn⟩) (hs11_7 ⟨0, hn⟩) (ms11_8 ⟨0, hn⟩) (hs11_8 ⟨0, hn⟩) (ms11_9 ⟨0, hn⟩) (hs11_9 ⟨0, hn⟩) (ms11_10 ⟨0, hn⟩) (hs11_10 ⟨0, hn⟩) (ms11_11 ⟨0, hn⟩) (hs11_11 ⟨0, hn⟩) (ms11_12 ⟨0, hn⟩) (hs11_12 ⟨0, hn⟩) scM11_0 (Memref.isWhole_whole _) scM11_1 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩) (iblk11 V c 3 ⟨0, hn⟩) (iblk11 V c 4 ⟨0, hn⟩) (iblk11 V c 5 ⟨0, hn⟩) (iblk11 V c 6 ⟨0, hn⟩) (iblk11 V c 7 ⟨0, hn⟩) (iblk11 V c 8 ⟨0, hn⟩) (iblk11 V c 9 ⟨0, hn⟩) (iblk11 V c 10 ⟨0, hn⟩))
  | n + 1, hn =>
    if h1 : (n + 1) % 16 = 15 then
      (sout11_C_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (ms11_6 ⟨n + 1, hn⟩) (hs11_6 ⟨n + 1, hn⟩) (ms11_7 ⟨n + 1, hn⟩) (hs11_7 ⟨n + 1, hn⟩) (ms11_8 ⟨n + 1, hn⟩) (hs11_8 ⟨n + 1, hn⟩) (ms11_9 ⟨n + 1, hn⟩) (hs11_9 ⟨n + 1, hn⟩) (ms11_10 ⟨n + 1, hn⟩) (hs11_10 ⟨n + 1, hn⟩) (ms11_11 ⟨n + 1, hn⟩) (hs11_11 ⟨n + 1, hn⟩) (ms11_12 ⟨n + 1, hn⟩) (hs11_12 ⟨n + 1, hn⟩) scM11_0 (Memref.isWhole_whole _) scM11_1 (Memref.isWhole_whole _) (fun h => (fun h => by have hN : n + 1 < 16 := lt_of_lt_of_eq hn (show cfg11.N = 16 from N_11); (try dsimp only at h); omega) ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (iblk11 V c 3 ⟨n + 1, hn⟩) (iblk11 V c 4 ⟨n + 1, hn⟩) (iblk11 V c 5 ⟨n + 1, hn⟩) (iblk11 V c 6 ⟨n + 1, hn⟩) (iblk11 V c 7 ⟨n + 1, hn⟩) (iblk11 V c 8 ⟨n + 1, hn⟩) (iblk11 V c 9 ⟨n + 1, hn⟩) (iblk11 V c 10 ⟨n + 1, hn⟩) (outsAt11 c n (Nat.lt_of_succ_lt hn)).1 (outsAt11 c n (Nat.lt_of_succ_lt hn)).2, sout11_C_1 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (ms11_6 ⟨n + 1, hn⟩) (hs11_6 ⟨n + 1, hn⟩) (ms11_7 ⟨n + 1, hn⟩) (hs11_7 ⟨n + 1, hn⟩) (ms11_8 ⟨n + 1, hn⟩) (hs11_8 ⟨n + 1, hn⟩) (ms11_9 ⟨n + 1, hn⟩) (hs11_9 ⟨n + 1, hn⟩) (ms11_10 ⟨n + 1, hn⟩) (hs11_10 ⟨n + 1, hn⟩) (ms11_11 ⟨n + 1, hn⟩) (hs11_11 ⟨n + 1, hn⟩) (ms11_12 ⟨n + 1, hn⟩) (hs11_12 ⟨n + 1, hn⟩) scM11_0 (Memref.isWhole_whole _) scM11_1 (Memref.isWhole_whole _) (fun h => (fun h => by have hN : n + 1 < 16 := lt_of_lt_of_eq hn (show cfg11.N = 16 from N_11); (try dsimp only at h); omega) ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (iblk11 V c 3 ⟨n + 1, hn⟩) (iblk11 V c 4 ⟨n + 1, hn⟩) (iblk11 V c 5 ⟨n + 1, hn⟩) (iblk11 V c 6 ⟨n + 1, hn⟩) (iblk11 V c 7 ⟨n + 1, hn⟩) (iblk11 V c 8 ⟨n + 1, hn⟩) (iblk11 V c 9 ⟨n + 1, hn⟩) (iblk11 V c 10 ⟨n + 1, hn⟩) (outsAt11 c n (Nat.lt_of_succ_lt hn)).1 (outsAt11 c n (Nat.lt_of_succ_lt hn)).2)
    else
      (sout11_B_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (ms11_6 ⟨n + 1, hn⟩) (hs11_6 ⟨n + 1, hn⟩) (ms11_7 ⟨n + 1, hn⟩) (hs11_7 ⟨n + 1, hn⟩) (ms11_8 ⟨n + 1, hn⟩) (hs11_8 ⟨n + 1, hn⟩) (ms11_9 ⟨n + 1, hn⟩) (hs11_9 ⟨n + 1, hn⟩) (ms11_10 ⟨n + 1, hn⟩) (hs11_10 ⟨n + 1, hn⟩) (ms11_11 ⟨n + 1, hn⟩) (hs11_11 ⟨n + 1, hn⟩) (ms11_12 ⟨n + 1, hn⟩) (hs11_12 ⟨n + 1, hn⟩) scM11_0 (Memref.isWhole_whole _) scM11_1 (Memref.isWhole_whole _) (fun h => (fun h => by have hN : n + 1 < 16 := lt_of_lt_of_eq hn (show cfg11.N = 16 from N_11); (try dsimp only at h); omega) ((hcond11_0 ⟨n + 1, hn⟩).mp h)) (fun h => h1 ((hcond11_1 ⟨n + 1, hn⟩).mp h)) (iblk11 V c 0 ⟨n + 1, hn⟩) (iblk11 V c 1 ⟨n + 1, hn⟩) (iblk11 V c 2 ⟨n + 1, hn⟩) (iblk11 V c 3 ⟨n + 1, hn⟩) (iblk11 V c 4 ⟨n + 1, hn⟩) (iblk11 V c 5 ⟨n + 1, hn⟩) (iblk11 V c 6 ⟨n + 1, hn⟩) (iblk11 V c 7 ⟨n + 1, hn⟩) (iblk11 V c 8 ⟨n + 1, hn⟩) (iblk11 V c 9 ⟨n + 1, hn⟩) (iblk11 V c 10 ⟨n + 1, hn⟩) (outsAt11 c n (Nat.lt_of_succ_lt hn)).1 (outsAt11 c n (Nat.lt_of_succ_lt hn)).2, sout11_B_1 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (ms11_6 ⟨n + 1, hn⟩) (hs11_6 ⟨n + 1, hn⟩) (ms11_7 ⟨n + 1, hn⟩) (hs11_7 ⟨n + 1, hn⟩) (ms11_8 ⟨n + 1, hn⟩) (hs11_8 ⟨n + 1, hn⟩) (ms11_9 ⟨n + 1, hn⟩) (hs11_9 ⟨n + 1, hn⟩) (ms11_10 ⟨n + 1, hn⟩) (hs11_10 ⟨n + 1, hn⟩) (ms11_11 ⟨n + 1, hn⟩) (hs11_11 ⟨n + 1, hn⟩) (ms11_12 ⟨n + 1, hn⟩) (hs11_12 ⟨n + 1, hn⟩) scM11_0 (Memref.isWhole_whole _) scM11_1 (Memref.isWhole_whole _) (fun h => (fun h => by have hN : n + 1 < 16 := lt_of_lt_of_eq hn (show cfg11.N = 16 from N_11); (try dsimp only at h); omega) ((hcond11_0 ⟨n + 1, hn⟩).mp h)) (fun h => h1 ((hcond11_1 ⟨n + 1, hn⟩).mp h)) (iblk11 V c 0 ⟨n + 1, hn⟩) (iblk11 V c 1 ⟨n + 1, hn⟩) (iblk11 V c 2 ⟨n + 1, hn⟩) (iblk11 V c 3 ⟨n + 1, hn⟩) (iblk11 V c 4 ⟨n + 1, hn⟩) (iblk11 V c 5 ⟨n + 1, hn⟩) (iblk11 V c 6 ⟨n + 1, hn⟩) (iblk11 V c 7 ⟨n + 1, hn⟩) (iblk11 V c 8 ⟨n + 1, hn⟩) (iblk11 V c 9 ⟨n + 1, hn⟩) (iblk11 V c 10 ⟨n + 1, hn⟩) (outsAt11 c n (Nat.lt_of_succ_lt hn)).1 (outsAt11 c n (Nat.lt_of_succ_lt hn)).2)

/-- The running sums at the first point. -/
theorem outsAt11_A (c : Dev nD) (t : Fin cfg11.N) (h0 : t.val % 16 = 0) (h1 : ¬t.val % 16 = 15) :
    outsAt11 V c t.val t.isLt = (sout11_A_0 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) ((hcond11_0 t).mpr h0) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t), sout11_A_1 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) ((hcond11_0 t).mpr h0) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t)) := by
  obtain ⟨n, hn⟩ := t
  cases n with
  | zero => exact rfl
  | succ n => exact (by exfalso; have hN : n + 1 < 16 := lt_of_lt_of_eq hn (show cfg11.N = 16 from N_11); (try dsimp only at h0); omega)

/-- The running sums at a middle point: over what the point before left. -/
theorem outsAt11_B (c : Dev nD) (t : Fin cfg11.N) (h0 : ¬t.val % 16 = 0) (h1 : ¬t.val % 16 = 15) :
    outsAt11 V c t.val t.isLt = (sout11_B_0 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2, sout11_B_1 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- The running sums at the last point: over what the point before left. -/
theorem outsAt11_C (c : Dev nD) (t : Fin cfg11.N) (h0 : ¬t.val % 16 = 0) (h1 : t.val % 16 = 15) :
    outsAt11 V c t.val t.isLt = (sout11_C_0 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2, sout11_C_1 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- What the two outputs' staging buffers hold after the body at the last point: mean and variance from the running sums.
    (At every other point the windows are idle and this is not consulted.) -/
noncomputable def outs11 (c : Dev nD) (t : Fin cfg11.N) : Vec F S1x64 .f32 × Vec F S1x64 .f32 :=
  if h1 : t.val % 16 = 15 then
    (out11_C_11 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => (fun h => by omega) ((hcond11_0 t).mp h)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2, out11_C_12 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => (fun h => by omega) ((hcond11_0 t).mp h)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2)
  else (k11_pay6 (F := F), k11_pay7 (F := F))

theorem outs11_C (c : Dev nD) (t : Fin cfg11.N) (h0 : ¬t.val % 16 = 0) (h1 : t.val % 16 = 15) :
    outs11 V c t = (out11_C_11 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2, out11_C_12 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2) :=
  (dif_pos h1).trans rfl

/-! ## The invariant between points -/

/-- The region invariant before position n: the generator register at some state, the two accumulators — at anything before
    the first point, afterwards at the running sums the point before left —, and every other scoped buffer unopened. -/
noncomputable def PhiS11 (c : Dev nD) : (n : ℕ) → n ≤ cfg11.N → sProp 𝕄
  | 0, _ => iprop((∃ r, prngReg c r) ∗ iprop((∃ d, owns (c : Thread nD τ) scM11_0 fullShare d) ∗ (∃ d, owns (c : Thread nD τ) scM11_1 fullShare d)) ∗ Pipeline.scopedRestBut (Ix := Unit) (Name := ℕ) (U := UR sig nD τ) (Lvl := ℕ) (Val := Elt F) spec11 c [cc11_scratch0, cc11_scratch1])
  | n + 1, hn => iprop((∃ r, prngReg c r) ∗ iprop(owns (c : Thread nD τ) scM11_0 fullShare ((outsAt11 V c n hn).1) ∗ owns (c : Thread nD τ) scM11_1 fullShare ((outsAt11 V c n hn).2)) ∗ Pipeline.scopedRestBut (Ix := Unit) (Name := ℕ) (U := UR sig nD τ) (Lvl := ℕ) (Val := Elt F) spec11 c [cc11_scratch0, cc11_scratch1])

theorem PhiS11_zero (c : Dev nD) (n : ℕ) (h : n ≤ cfg11.N) (hz : n = 0) :
    PhiS11 V c n h = iprop((∃ r, prngReg c r) ∗ iprop((∃ d, owns (c : Thread nD τ) scM11_0 fullShare d) ∗ (∃ d, owns (c : Thread nD τ) scM11_1 fullShare d)) ∗ Pipeline.scopedRestBut (Ix := Unit) (Name := ℕ) (U := UR sig nD τ) (Lvl := ℕ) (Val := Elt F) spec11 c [cc11_scratch0, cc11_scratch1]) := by
  subst hz; rfl

theorem PhiS11_succ (c : Dev nD) (n : ℕ) (hn : n < cfg11.N) :
    PhiS11 V c (n + 1) hn = iprop((∃ r, prngReg c r) ∗ iprop(owns (c : Thread nD τ) scM11_0 fullShare ((outsAt11 V c n hn).1) ∗ owns (c : Thread nD τ) scM11_1 fullShare ((outsAt11 V c n hn).2)) ∗ Pipeline.scopedRestBut (Ix := Unit) (Name := ℕ) (U := UR sig nD τ) (Lvl := ℕ) (Val := Elt F) spec11 c [cc11_scratch0, cc11_scratch1]) := rfl

theorem PhiS11_pos (c : Dev nD) (n : ℕ) (h : n ≤ cfg11.N) (hz : n ≠ 0) :
    PhiS11 V c n h = iprop((∃ r, prngReg c r) ∗ iprop(owns (c : Thread nD τ) scM11_0 fullShare ((outsAt11 V c (n - 1) (by omega)).1) ∗ owns (c : Thread nD τ) scM11_1 fullShare ((outsAt11 V c (n - 1) (by omega)).2)) ∗ Pipeline.scopedRestBut (Ix := Unit) (Name := ℕ) (U := UR sig nD τ) (Lvl := ℕ) (Val := Elt F) spec11 c [cc11_scratch0, cc11_scratch1]) := by
  cases n with
  | zero => exact absurd rfl hz
  | succ n => rfl

/-! ## The proof data -/

/-- The proof data of the call on core c: the arrays as the region finds them; after the body each input's buffer at its
    block, the outputs' at mean and variance of the running sums; the invariant above; nothing owed; full shares. -/
noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => iblk11 V c 8 t
    | ⟨9, _⟩ => iblk11 V c 9 t
    | ⟨10, _⟩ => iblk11 V c 10 t
    | ⟨11, _⟩ => (outs11 V c t).1
    | ⟨12, _⟩ => (outs11 V c t).2
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem PhiS11_castSucc (c : Dev nD) (t : Fin cfg11.N) :
    (dat11 V c).Φ t.castSucc = PhiS11 V c t.val (Nat.le_of_lt t.isLt) := by
  dsimp only [dat11]; simp only [Fin.coe_castSucc]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t = iblk11 V c 7 t := by dsimp only [dat11]
theorem after11_8 (c : Dev nD) (t : Fin cfg11.N) : (dat11 V c).after 8 t = iblk11 V c 8 t := by dsimp only [dat11]
theorem after11_9 (c : Dev nD) (t : Fin cfg11.N) : (dat11 V c).after 9 t = iblk11 V c 9 t := by dsimp only [dat11]
theorem after11_10 (c : Dev nD) (t : Fin cfg11.N) : (dat11 V c).after 10 t = iblk11 V c 10 t := by dsimp only [dat11]
theorem after11_11 (c : Dev nD) (t : Fin cfg11.N) : (dat11 V c).after 11 t = (outs11 V c t).1 := by dsimp only [dat11]
theorem after11_12 (c : Dev nD) (t : Fin cfg11.N) : (dat11 V c).after 12 t = (outs11 V c t).2 := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d
theorem before11_7 (c : Dev nD) (t : Fin cfg11.N) (d) : (dat11 V c).before 7 t d = iblk11 V c 7 t :=
  before11_7_of V (dat11 V c) (A_eq11 V c 7) (after11_7 V c) t d
theorem before11_8 (c : Dev nD) (t : Fin cfg11.N) (d) : (dat11 V c).before 8 t d = iblk11 V c 8 t :=
  before11_8_of V (dat11 V c) (A_eq11 V c 8) (after11_8 V c) t d
theorem before11_9 (c : Dev nD) (t : Fin cfg11.N) (d) : (dat11 V c).before 9 t d = iblk11 V c 9 t :=
  before11_9_of V (dat11 V c) (A_eq11 V c 9) (after11_9 V c) t d
theorem before11_10 (c : Dev nD) (t : Fin cfg11.N) (d) : (dat11 V c).before 10 t d = iblk11 V c 10 t :=
  before11_10_of V (dat11 V c) (A_eq11 V c 10) (after11_10 V c) t d

/-! ## The body obligation, at a generic point -/

/-- What the body is called with at point t, -/
noncomputable def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d))
    ∗ (∃ d, owns (c : Thread nD τ) (ms11_5 t) fullShare ((dat11 V c).before 5 t d))
    ∗ (∃ d, owns (c : Thread nD τ) (ms11_6 t) fullShare ((dat11 V c).before 6 t d))
    ∗ (∃ d, owns (c : Thread nD τ) (ms11_7 t) fullShare ((dat11 V c).before 7 t d))
    ∗ (∃ d, owns (c : Thread nD τ) (ms11_8 t) fullShare ((dat11 V c).before 8 t d))
    ∗ (∃ d, owns (c : Thread nD τ) (ms11_9 t) fullShare ((dat11 V c).before 9 t d))
    ∗ (∃ d, owns (c : Thread nD τ) (ms11_10 t) fullShare ((dat11 V c).before 10 t d))
    ∗ (∃ d, owns (c : Thread nD τ) (ms11_11 t) fullShare ((dat11 V c).before 11 t d))
    ∗ (∃ d, owns (c : Thread nD τ) (ms11_12 t) fullShare ((dat11 V c).before 12 t d)))

/-- and what it returns. -/
noncomputable def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t
    ∗ (dat11 V c).leavesExact 4 t
    ∗ (dat11 V c).leavesExact 5 t
    ∗ (dat11 V c).leavesExact 6 t
    ∗ (dat11 V c).leavesExact 7 t
    ∗ (dat11 V c).leavesExact 8 t
    ∗ (dat11 V c).leavesExact 9 t
    ∗ (dat11 V c).leavesExact 10 t
    ∗ (dat11 V c).leavesExact 11 t
    ∗ (dat11 V c).leavesExact 12 t)

set_option maxHeartbeats 8000000 in
/-- The body at any point. The inputs' memrefs hold their blocks. At the first point the invariant hands the body the
    accumulators at anything and takes them back cleared-and-added; at a later point it hands them at the running sums the
    point before left and takes them back with this block's sums added. Away from the last point the outputs' buffers are
    handed back as found (the windows are idle there); at the last point they are left at mean and variance. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6, before11_7, before11_8, before11_9, before11_10]
  rw [show (dat11 V c).owesAt () t.succ = (dat11 V c).owesAt () t.castSucc from rfl]
  rw [show (dat11 V c).Φ t.succ = PhiS11 V c (t.val + 1) t.isLt from rfl, PhiS11_succ]
  have hN : t.val < 16 := lt_of_lt_of_eq t.isLt (show cfg11.N = 16 from N_11)
  rw [show (dat11 V c).leavesExact 0 t = owns (c : Thread nD τ) (ms11_0 t) fullShare ((dat11 V c).after 0 t) from by
    unfold Dat.leavesExact; rw [liveAt11_0 t], after11_0]
  rw [show (dat11 V c).leavesExact 1 t = owns (c : Thread nD τ) (ms11_1 t) fullShare ((dat11 V c).after 1 t) from by
    unfold Dat.leavesExact; rw [liveAt11_1 t], after11_1]
  rw [show (dat11 V c).leavesExact 2 t = owns (c : Thread nD τ) (ms11_2 t) fullShare ((dat11 V c).after 2 t) from by
    unfold Dat.leavesExact; rw [liveAt11_2 t], after11_2]
  rw [show (dat11 V c).leavesExact 3 t = owns (c : Thread nD τ) (ms11_3 t) fullShare ((dat11 V c).after 3 t) from by
    unfold Dat.leavesExact; rw [liveAt11_3 t], after11_3]
  rw [show (dat11 V c).leavesExact 4 t = owns (c : Thread nD τ) (ms11_4 t) fullShare ((dat11 V c).after 4 t) from by
    unfold Dat.leavesExact; rw [liveAt11_4 t], after11_4]
  rw [show (dat11 V c).leavesExact 5 t = owns (c : Thread nD τ) (ms11_5 t) fullShare ((dat11 V c).after 5 t) from by
    unfold Dat.leavesExact; rw [liveAt11_5 t], after11_5]
  rw [show (dat11 V c).leavesExact 6 t = owns (c : Thread nD τ) (ms11_6 t) fullShare ((dat11 V c).after 6 t) from by
    unfold Dat.leavesExact; rw [liveAt11_6 t], after11_6]
  rw [show (dat11 V c).leavesExact 7 t = owns (c : Thread nD τ) (ms11_7 t) fullShare ((dat11 V c).after 7 t) from by
    unfold Dat.leavesExact; rw [liveAt11_7 t], after11_7]
  rw [show (dat11 V c).leavesExact 8 t = owns (c : Thread nD τ) (ms11_8 t) fullShare ((dat11 V c).after 8 t) from by
    unfold Dat.leavesExact; rw [liveAt11_8 t], after11_8]
  rw [show (dat11 V c).leavesExact 9 t = owns (c : Thread nD τ) (ms11_9 t) fullShare ((dat11 V c).after 9 t) from by
    unfold Dat.leavesExact; rw [liveAt11_9 t], after11_9]
  rw [show (dat11 V c).leavesExact 10 t = owns (c : Thread nD τ) (ms11_10 t) fullShare ((dat11 V c).after 10 t) from by
    unfold Dat.leavesExact; rw [liveAt11_10 t], after11_10]
  by_cases h1 : t.val % 16 = 15
  · have h0 : ¬t.val % 16 = 0 := by omega
    have hz : t.val ≠ 0 := by omega
    rw [show (dat11 V c).leavesExact 11 t = owns (c : Thread nD τ) (ms11_11 t) fullShare ((dat11 V c).after 11 t) from by
      unfold Dat.leavesExact; rw [liveAt11_11 t ((hcond11_1 t).mpr h1)], after11_11]
    rw [show (dat11 V c).leavesExact 12 t = owns (c : Thread nD τ) (ms11_12 t) fullShare ((dat11 V c).after 12 t) from by
      unfold Dat.leavesExact; rw [liveAt11_12 t ((hcond11_1 t).mpr h1)], after11_12]
    rw [outsAt11_C V c t h0 h1, outs11_C V c t h0 h1]
    unfold out11_C_11 out11_C_12 sout11_C_0 sout11_C_1; (try dsimp only)
    rw [PhiS11_castSucc V c t, PhiS11_pos V c _ _ hz]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun11_C c (grid11.coords t) _ _ _ _ _ _ _ _ _ _ _ _ _ _ _ _ _ _ _ _ _ _ _ _ _ _ _ _ _ _ (fun h => h0 ((hcond11_0 t).mp h)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    iintro ⟨H0, H1, H2, H3, H4, H5, H6, H7, H8, H9, H10, ⟨%e11, H11⟩, ⟨%e12, H12⟩, ⟨%es0, HS0⟩, ⟨%es1, HS1⟩⟩
    isplitl [Hg HS0 HS1 HR]
    · isplitl [Hg]; · iexact Hg
      isplitl [HS0 HS1]
      · isplitl [HS0]
        · unfold owns; iexists _; isplitr
          swap; · iexact HS0
          ipureintro; exact View.read_writes_of_cover _ _ _ _ _ (scover11_C_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover11_C_1 c _ _ _ _ _ _ _ _ _ _ _ _ _ _ _ _ _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover11_C_11 c _ _ _ _ _ _ _ _ _ _ _ _ _ _ _ _ _ _ _ _ _ _ _ _ _ _ _ _ _ _ _ _ _ _ _ _ _ _ _ _ _ _ _ _ _ _)
    · unfold owns; iexists _; isplitr
      swap; · iexact H12
      ipureintro; exact View.read_writes_of_cover _ _ _ _ _ (cover11_C_12 c _ _ _ _ _ _ _ _ _ _ _ _ _ _ _ _ _ _ _ _ _ _ _ _ _ _ _ _ _ _ _ _ _ _ _ _ _ _ _ _ _ _ _ _ _ _)
  · rw [Dat.leavesExact_idle (dat11 V c) 11 t (idleAt11_11 t (fun h => h1 ((hcond11_1 t).mp h))) (noFlush11_11 t (fun h => h1 ((hcond11_1 t).mp h)))]
    rw [Dat.leavesExact_idle (dat11 V c) 12 t (idleAt11_12 t (fun h => h1 ((hcond11_1 t).mp h))) (noFlush11_12 t (fun h => h1 ((hcond11_1 t).mp h)))]
    by_cases h0 : t.val % 16 = 0
    · have hz : t.val = 0 := by omega
      rw [outsAt11_A V c t h0 h1]
      unfold sout11_A_0 sout11_A_1; (try dsimp only)
      rw [PhiS11_castSucc V c t, PhiS11_zero V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun11_A c (grid11.coords t) _ _ _ _ _ _ _ _ _ _ _ _ _ _ _ _ _ _ _ _ _ _ _ _ _ _ _ _ _ _ ((hcond11_0 t).mpr h0) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover11_A_0 c _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover11_A_1 c _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
    · have hz : t.val ≠ 0 := by omega
      rw [outsAt11_B V c t h0 h1]
      unfold sout11_B_0 sout11_B_1; (try dsimp only)
      rw [PhiS11_castSucc V c t, PhiS11_pos V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun11_B c (grid11.coords t) _ _ _ _ _ _ _ _ _ _ _ _ _ _ _ _ _ _ _ _ _ _ _ _ _ _ _ _ _ _ (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover11_B_0 c _ _ _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover11_B_1 c _ _ _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the region is entered with is the invariant before the first point: the scoped rest split at the two accumulators. -/
theorem phi_in11 (c : Dev nD) :
    (iprop((∃ r, prngReg c r) ∗ Pipeline.scopedRest (Ix := Unit) (Name := ℕ) (U := UR sig nD τ) (Lvl := ℕ) (Val := Elt F) spec11 c) : sProp 𝕄)
      ⊢ (dat11 V c).Φ 0 := by
  rw [show (dat11 V c).Φ 0 = PhiS11 V c 0 (Nat.zero_le _) from rfl, PhiS11_zero V c 0 _ rfl, scoped11_eq]

/-- After the last point the invariant gives the scoped rest back: the accumulators' named contents are forgotten. -/
theorem phi_out11 (c : Dev nD) :
    (dat11 V c).Φ (Fin.last cfg11.N)
      ⊢ (iprop((∃ r, prngReg c r) ∗ Pipeline.scopedRest (Ix := Unit) (Name := ℕ) (U := UR sig nD τ) (Lvl := ℕ) (Val := Elt F) spec11 c) : sProp 𝕄) := by
  rw [show (dat11 V c).Φ (Fin.last cfg11.N) = PhiS11 V c (Fin.last cfg11.N).val (Nat.le_of_lt_succ (Fin.last cfg11.N).isLt) from rfl,
    PhiS11_pos V c _ _ (by rw [Fin.val_last]; have : cfg11.N = 16 := N_11; omega), scoped11_eq]
  iintro ⟨Hg, ⟨HS0, HS1⟩, HR⟩
  isplitl [Hg]; · iexact Hg
  isplitl [HS0 HS1]
  · isplitl [HS0]; · iexists _; iexact HS0
    iexists _; iexact HS1
  iexact HR

/-! ## The found stores read back: one point's additions, and mean and variance -/

theorem hz11 : (![0, 0] : Fin 2 → Nat) = fun _ => 0 := funext fun a => by fin_cases a <;> rfl

/-- One point's addition to the first accumulator s: s plus the column sums of the block of z2 that the eleven input blocks give. -/
noncomputable def add11_0 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k11_pay2 (k11_pay8 x2 x0 x1 x3 x4 x5 x6) (k11_pay9 x7) x8 x9 x10 s
/-- One point's addition to the second accumulator: s plus the column sums of z2 * z2 of the same block. -/
noncomputable def add11_1 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k11_pay3 (k11_pay8 x2 x0 x1 x3 x4 x5 x6) (k11_pay9 x7) x8 x9 x10 s

theorem sout11_B_0_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout11_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add11_0 x0 x1 x2 x3 x4 x5 x6 x7 x8 x9 x10 xs0 := by
  unfold sout11_B_0 add11_0
  rw [View.read_writes_eq_canon _ _ _ (scover11_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun11_B
  dsimp only
  sl_unfold_words
  rw [View.canon_unit_zero hz11]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

theorem sout11_B_1_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout11_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add11_1 x0 x1 x2 x3 x4 x5 x6 x7 x8 x9 x10 xs1 := by
  unfold sout11_B_1 add11_1
  rw [View.read_writes_eq_canon _ _ _ (scover11_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun11_B
  dsimp only
  sl_unfold_words
  rw [View.canon_unit_zero hz11]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

theorem sout11_A_0_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout11_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add11_0 x0 x1 x2 x3 x4 x5 x6 x7 x8 x9 x10 (k11_pay6 (F := F)) := by
  unfold sout11_A_0 add11_0
  rw [View.read_writes_eq_canon _ _ _ (scover11_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun11_A
  dsimp only
  sl_unfold_words
  rw [View.canon_cons_unit_zero (S := S1x64) hz11, View.readCov_unit_zero (S := S1x64) _ hz11]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

theorem sout11_A_1_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout11_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add11_1 x0 x1 x2 x3 x4 x5 x6 x7 x8 x9 x10 (k11_pay7 (F := F)) := by
  unfold sout11_A_1 add11_1
  rw [View.read_writes_eq_canon _ _ _ (scover11_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun11_A
  dsimp only
  sl_unfold_words
  rw [View.canon_cons_unit_zero (S := S1x64) hz11, View.readCov_unit_zero (S := S1x64) _ hz11]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

theorem sout11_C_0_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout11_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add11_0 x0 x1 x2 x3 x4 x5 x6 x7 x8 x9 x10 xs0 := by
  unfold sout11_C_0 add11_0
  rw [View.read_writes_eq_canon _ _ _ (scover11_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun11_C
  dsimp only
  sl_unfold_words
  rw [View.canon_unit_zero hz11]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

theorem sout11_C_1_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout11_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add11_1 x0 x1 x2 x3 x4 x5 x6 x7 x8 x9 x10 xs1 := by
  unfold sout11_C_1 add11_1
  rw [View.read_writes_eq_canon _ _ _ (scover11_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun11_C
  dsimp only
  sl_unfold_words
  rw [View.canon_unit_zero hz11]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

theorem out11_C_11_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out11_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k11_pay4 (add11_0 x0 x1 x2 x3 x4 x5 x6 x7 x8 x9 x10 xs0) := by
  unfold out11_C_11 add11_0
  rw [View.read_writes_eq_canon _ _ _ (cover11_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun11_C
  dsimp only
  sl_unfold_words
  rw [View.canon_unit_zero hz11]
  simp only [View.readCov_unit_zero (S := S1x64) _ hz11, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

theorem out11_C_12_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out11_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k11_pay5 (add11_0 x0 x1 x2 x3 x4 x5 x6 x7 x8 x9 x10 xs0) (add11_1 x0 x1 x2 x3 x4 x5 x6 x7 x8 x9 x10 xs1) := by
  unfold out11_C_12 add11_0 add11_1
  rw [View.read_writes_eq_canon _ _ _ (cover11_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun11_C
  dsimp only
  sl_unfold_words
  rw [View.canon_unit_zero hz11]
  simp only [View.readCov_unit_zero (S := S1x64) _ hz11, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

/-! ## The running sums in closed form -/

/-- The ORDERED running sums after position n: the cleared accumulators plus the first block's sums, then one block's sums
    more per point. -/
noncomputable def sums11 (c : Dev nD) : (n : ℕ) → n < cfg11.N → Vec F S1x64 .f32 × Vec F S1x64 .f32
  | 0, h => (add11_0 (iblk11 V c 0 ⟨0, h⟩) (iblk11 V c 1 ⟨0, h⟩) (iblk11 V c 2 ⟨0, h⟩) (iblk11 V c 3 ⟨0, h⟩) (iblk11 V c 4 ⟨0, h⟩) (iblk11 V c 5 ⟨0, h⟩) (iblk11 V c 6 ⟨0, h⟩) (iblk11 V c 7 ⟨0, h⟩) (iblk11 V c 8 ⟨0, h⟩) (iblk11 V c 9 ⟨0, h⟩) (iblk11 V c 10 ⟨0, h⟩) (k11_pay6 (F := F)), add11_1 (iblk11 V c 0 ⟨0, h⟩) (iblk11 V c 1 ⟨0, h⟩) (iblk11 V c 2 ⟨0, h⟩) (iblk11 V c 3 ⟨0, h⟩) (iblk11 V c 4 ⟨0, h⟩) (iblk11 V c 5 ⟨0, h⟩) (iblk11 V c 6 ⟨0, h⟩) (iblk11 V c 7 ⟨0, h⟩) (iblk11 V c 8 ⟨0, h⟩) (iblk11 V c 9 ⟨0, h⟩) (iblk11 V c 10 ⟨0, h⟩) (k11_pay7 (F := F)))
  | n + 1, h => (add11_0 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (sums11 c n (Nat.lt_of_succ_lt h)).1, add11_1 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (sums11 c n (Nat.lt_of_succ_lt h)).2)

/-- What the accumulators hold after position n IS the running sums: by induction on the point. -/
theorem outsAt11_eq (c : Dev nD) : ∀ (n : ℕ) (h : n < cfg11.N), outsAt11 V c n h = sums11 V c n h
  | 0, h => by
    rw [outsAt11_A V c ⟨0, h⟩ rfl (by show ¬(0 : ℕ) % 16 = 15; omega), sout11_A_0_eq, sout11_A_1_eq]
    rfl
  | n + 1, h => by
    have hN : cfg11.N = 16 := N_11
    have hB : ¬(⟨n + 1, h⟩ : Fin cfg11.N).val % 16 = 0 := by dsimp only; omega
    have ih := outsAt11_eq c n (Nat.lt_of_succ_lt h)
    by_cases h1 : (⟨n + 1, h⟩ : Fin cfg11.N).val % 16 = 15
    · rw [outsAt11_C V c ⟨n + 1, h⟩ hB h1, sout11_C_0_eq, sout11_C_1_eq]
      show (add11_0 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (outsAt11 V c n _).1, add11_1 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (outsAt11 V c n _).2) = (add11_0 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (sums11 V c n _).1, add11_1 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (sums11 V c n _).2)
      rw [ih]
    · rw [outsAt11_B V c ⟨n + 1, h⟩ hB h1, sout11_B_0_eq, sout11_B_1_eq]
      show (add11_0 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (outsAt11 V c n _).1, add11_1 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (outsAt11 V c n _).2) = (add11_0 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (sums11 V c n _).1, add11_1 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (sums11 V c n _).2)
      rw [ih]

/-! ## What the region leaves in its two output arrays -/

/-- The running sums after the last point. -/
noncomputable abbrev total11 (c : Dev nD) : Vec F S1x64 .f32 × Vec F S1x64 .f32 := sums11 V c 15 (by rw [show cfg11.N = 16 from N_11]; decide)

/-- The mean array the region leaves: S * 2^(-16) of the first running sum. -/
noncomputable def G11_11 (c : Dev nD) : Buf (Elt F) ((c : Thread nD τ).loc main_v250_0) := k11_pay4 (total11 V c).1
/-- The variance array the region leaves: Q * 2^(-16) - mean * mean. -/
noncomputable def G11_12 (c : Dev nD) : Buf (Elt F) ((c : Thread nD τ).loc main_v250_1) := k11_pay5 (total11 V c).1 (total11 V c).2

/-- What the last point leaves in the two outputs' staging buffers. -/
theorem outs11_last (c : Dev nD) : outs11 V c t11_15 = (k11_pay4 (total11 V c).1, k11_pay5 (total11 V c).1 (total11 V c).2) := by
  rw [outs11_C V c t11_15 (by decide) (by decide), out11_C_11_eq, out11_C_12_eq]
  have ih := outsAt11_eq V c 14 (by rw [show cfg11.N = 16 from N_11]; decide)
  show (k11_pay4 (add11_0 (iblk11 V c 0 t11_15) (iblk11 V c 1 t11_15) (iblk11 V c 2 t11_15) (iblk11 V c 3 t11_15) (iblk11 V c 4 t11_15) (iblk11 V c 5 t11_15) (iblk11 V c 6 t11_15) (iblk11 V c 7 t11_15) (iblk11 V c 8 t11_15) (iblk11 V c 9 t11_15) (iblk11 V c 10 t11_15) (outsAt11 V c 14 _).1), k11_pay5 (add11_0 (iblk11 V c 0 t11_15) (iblk11 V c 1 t11_15) (iblk11 V c 2 t11_15) (iblk11 V c 3 t11_15) (iblk11 V c 4 t11_15) (iblk11 V c 5 t11_15) (iblk11 V c 6 t11_15) (iblk11 V c 7 t11_15) (iblk11 V c 8 t11_15) (iblk11 V c 9 t11_15) (iblk11 V c 10 t11_15) (outsAt11 V c 14 _).1) (add11_1 (iblk11 V c 0 t11_15) (iblk11 V c 1 t11_15) (iblk11 V c 2 t11_15) (iblk11 V c 3 t11_15) (iblk11 V c 4 t11_15) (iblk11 V c 5 t11_15) (iblk11 V c 6 t11_15) (iblk11 V c 7 t11_15) (iblk11 V c 8 t11_15) (iblk11 V c 9 t11_15) (iblk11 V c 10 t11_15) (outsAt11 V c 14 _).2)) = _
  rw [ih]
  rfl

/-- The one write-back of window 11, at the last point, writes it: the block is the whole array. -/
theorem flushed11_11 (c : Dev nD) (t : Fin cfg11.N) (hf : (cfg11.win 11).flush t = true) :
    (dat11 V c).flushed 11 t = ((cfg11.win 11).blk t).view.read (Elt F) (G11_11 V c) := by
  have hN : cfg11.N = 16 := N_11
  have h15 : t.val = 15 := by have := (flush11_11 t).mp hf; have := t.isLt; omega
  obtain rfl : t = t11_15 := Fin.ext h15
  show (cfg11.win 11).cut (grid11.coords t11_15) ((dat11 V c).after 11 t11_15) = _
  rw [after11_11, outs11_last]
  have hz' : (fun a => win11_11.index t11_15 a * main_v250_0.ty.shape.size a) = fun _ => 0 := funext fun a => by fin_cases a <;> decide
  exact (Memref.read_access_unit_zero (Elt F) main_v250_0 hz' (fun a => by rw [congrFun hz' a]; simp) (G11_11 V c)).symm

set_option maxHeartbeats 4000000 in
/-- So the array of window 11 ends holding it: the last point's block covers the array. -/
theorem final11_11 (c : Dev nD) : (dat11 V c).arrAt ⟨11, by decide⟩ cfg11.N = G11_11 V c :=
  (dat11 V c).arrAt_eq_of_cover 11 (G11_11 V c) (flushed11_11 V c) fun i =>
    ⟨t11_15, (flush11_11 t11_15).mpr rfl, by
      show i ∈ ((View.whole main_v250_0).slice (win11_11.rect t11_15)).set
      rw [View.set_slice_whole, Rect.mem_set_unit]
      intro a
      have h0 : (i 0 : Nat) < 1 := (i 0).isLt
      have h1 : (i 1 : Nat) < 64 := (i 1).isLt
      match a with
      | ⟨0, _⟩ => show win11_11.index t11_15 0 * win11_11.size 0 ≤ (i 0 : Nat) ∧ (i 0 : Nat) < win11_11.index t11_15 0 * win11_11.size 0 + win11_11.xsize (grid11.coords t11_15) 0
                  rw [show win11_11.index t11_15 0 * win11_11.size 0 = 0 from by decide +kernel, show win11_11.xsize (grid11.coords t11_15) 0 = 1 from by decide +kernel]; omega
      | ⟨1, _⟩ => show win11_11.index t11_15 1 * win11_11.size 1 ≤ (i 1 : Nat) ∧ (i 1 : Nat) < win11_11.index t11_15 1 * win11_11.size 1 + win11_11.xsize (grid11.coords t11_15) 1
                  rw [show win11_11.index t11_15 1 * win11_11.size 1 = 0 from by decide +kernel, show win11_11.xsize (grid11.coords t11_15) 1 = 64 from by decide +kernel]; omega⟩

/-- The one write-back of window 12, at the last point, writes it: the block is the whole array. -/
theorem flushed11_12 (c : Dev nD) (t : Fin cfg11.N) (hf : (cfg11.win 12).flush t = true) :
    (dat11 V c).flushed 12 t = ((cfg11.win 12).blk t).view.read (Elt F) (G11_12 V c) := by
  have hN : cfg11.N = 16 := N_11
  have h15 : t.val = 15 := by have := (flush11_12 t).mp hf; have := t.isLt; omega
  obtain rfl : t = t11_15 := Fin.ext h15
  show (cfg11.win 12).cut (grid11.coords t11_15) ((dat11 V c).after 12 t11_15) = _
  rw [after11_12, outs11_last]
  have hz' : (fun a => win11_12.index t11_15 a * main_v250_1.ty.shape.size a) = fun _ => 0 := funext fun a => by fin_cases a <;> decide
  exact (Memref.read_access_unit_zero (Elt F) main_v250_1 hz' (fun a => by rw [congrFun hz' a]; simp) (G11_12 V c)).symm

set_option maxHeartbeats 4000000 in
/-- So the array of window 12 ends holding it: the last point's block covers the array. -/
theorem final11_12 (c : Dev nD) : (dat11 V c).arrAt ⟨12, by decide⟩ cfg11.N = G11_12 V c :=
  (dat11 V c).arrAt_eq_of_cover 12 (G11_12 V c) (flushed11_12 V c) fun i =>
    ⟨t11_15, (flush11_12 t11_15).mpr rfl, by
      show i ∈ ((View.whole main_v250_1).slice (win11_12.rect t11_15)).set
      rw [View.set_slice_whole, Rect.mem_set_unit]
      intro a
      have h0 : (i 0 : Nat) < 1 := (i 0).isLt
      have h1 : (i 1 : Nat) < 64 := (i 1).isLt
      match a with
      | ⟨0, _⟩ => show win11_12.index t11_15 0 * win11_12.size 0 ≤ (i 0 : Nat) ∧ (i 0 : Nat) < win11_12.index t11_15 0 * win11_12.size 0 + win11_12.xsize (grid11.coords t11_15) 0
                  rw [show win11_12.index t11_15 0 * win11_12.size 0 = 0 from by decide +kernel, show win11_12.xsize (grid11.coords t11_15) 0 = 1 from by decide +kernel]; omega
      | ⟨1, _⟩ => show win11_12.index t11_15 1 * win11_12.size 1 ≤ (i 1 : Nat) ∧ (i 1 : Nat) < win11_12.index t11_15 1 * win11_12.size 1 + win11_12.xsize (grid11.coords t11_15) 1
                  rw [show win11_12.index t11_15 1 * win11_12.size 1 = 0 from by decide +kernel, show win11_12.xsize (grid11.coords t11_15) 1 = 64 from by decide +kernel]; omega⟩

end Cert.Kernel.Hand

end
-- ==== Proof.KB.Reg12.lean ====
/- One of the network's four regions that finish a layer: the second half of a layer, on sixteen blocks of 4096 nodes. At each block the body
   forms (1 + e)·x + agg, maps it to 128 features, normalises by the layer's first mean and variance, clips at zero,
   maps back to 64 features, normalises by the second mean and variance, clips again and adds x. Everything the body
   reads is a block of one of fifteen arrays as the region finds them; what it writes is one block of the sixteenth.
   Stated at any entry contents V of the core's buffers and at any float model. -/
import proofs.«159011_j9938554322955_1_alg».proof.Proof.Gen.Kernel.Launch
import proofs.«159011_j9938554322955_1_alg».proof.Proof.Gen.Kernel.Skeleton
import proofs.«159011_j9938554322955_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

-- membership in a rectangle of 4096 rows is decided by a structural recursion one step per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window w's block at point t, read off its array as the region finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! An input window's buffer holds its block at every point, whether the block was brought in there or not: a block
    that is not brought in again has not moved, and the body leaves every input as it found it. One statement per
    input window, for any proof data whose array is V's and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)
theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)
theorem before12_8_of {c : Dev nD} (dat : Dat τ (Elt F) Unit ℕ (UR sig nD τ) ℕ cfg12 c) (hA : dat.A 8 = V c (Pipeline.arrRef spec12 8))
    (hafter : ∀ t, dat.after 8 t = iblk12 V c 8 t) (t : Fin cfg12.N) (d) : dat.before 8 t d = iblk12 V c 8 t :=
  (dat.before_in_eq_fetched 8 rfl (fun _ => rfl) (fun _ _ _ => rfl) (fun t => by rw [hafter]; unfold Dat.blockOf iblk12; rw [hA]; try rfl) t d).trans
    (by unfold Dat.fetched Dat.blockOf iblk12; rw [hA]; try rfl)
theorem before12_9_of {c : Dev nD} (dat : Dat τ (Elt F) Unit ℕ (UR sig nD τ) ℕ cfg12 c) (hA : dat.A 9 = V c (Pipeline.arrRef spec12 9))
    (hafter : ∀ t, dat.after 9 t = iblk12 V c 9 t) (t : Fin cfg12.N) (d) : dat.before 9 t d = iblk12 V c 9 t :=
  (dat.before_in_eq_fetched 9 rfl (fun _ => rfl) (fun _ _ _ => rfl) (fun t => by rw [hafter]; unfold Dat.blockOf iblk12; rw [hA]; try rfl) t d).trans
    (by unfold Dat.fetched Dat.blockOf iblk12; rw [hA]; try rfl)
theorem before12_10_of {c : Dev nD} (dat : Dat τ (Elt F) Unit ℕ (UR sig nD τ) ℕ cfg12 c) (hA : dat.A 10 = V c (Pipeline.arrRef spec12 10))
    (hafter : ∀ t, dat.after 10 t = iblk12 V c 10 t) (t : Fin cfg12.N) (d) : dat.before 10 t d = iblk12 V c 10 t :=
  (dat.before_in_eq_fetched 10 rfl (fun _ => rfl) (fun _ _ _ => rfl) (fun t => by rw [hafter]; unfold Dat.blockOf iblk12; rw [hA]; try rfl) t d).trans
    (by unfold Dat.fetched Dat.blockOf iblk12; rw [hA]; try rfl)
theorem before12_11_of {c : Dev nD} (dat : Dat τ (Elt F) Unit ℕ (UR sig nD τ) ℕ cfg12 c) (hA : dat.A 11 = V c (Pipeline.arrRef spec12 11))
    (hafter : ∀ t, dat.after 11 t = iblk12 V c 11 t) (t : Fin cfg12.N) (d) : dat.before 11 t d = iblk12 V c 11 t :=
  (dat.before_in_eq_fetched 11 rfl (fun _ => rfl) (fun _ _ _ => rfl) (fun t => by rw [hafter]; unfold Dat.blockOf iblk12; rw [hA]; try rfl) t d).trans
    (by unfold Dat.fetched Dat.blockOf iblk12; rw [hA]; try rfl)
theorem before12_12_of {c : Dev nD} (dat : Dat τ (Elt F) Unit ℕ (UR sig nD τ) ℕ cfg12 c) (hA : dat.A 12 = V c (Pipeline.arrRef spec12 12))
    (hafter : ∀ t, dat.after 12 t = iblk12 V c 12 t) (t : Fin cfg12.N) (d) : dat.before 12 t d = iblk12 V c 12 t :=
  (dat.before_in_eq_fetched 12 rfl (fun _ => rfl) (fun _ _ _ => rfl) (fun t => by rw [hafter]; unfold Dat.blockOf iblk12; rw [hA]; try rfl) t d).trans
    (by unfold Dat.fetched Dat.blockOf iblk12; rw [hA]; try rfl)
theorem before12_13_of {c : Dev nD} (dat : Dat τ (Elt F) Unit ℕ (UR sig nD τ) ℕ cfg12 c) (hA : dat.A 13 = V c (Pipeline.arrRef spec12 13))
    (hafter : ∀ t, dat.after 13 t = iblk12 V c 13 t) (t : Fin cfg12.N) (d) : dat.before 13 t d = iblk12 V c 13 t :=
  (dat.before_in_eq_fetched 13 rfl (fun _ => rfl) (fun _ _ _ => rfl) (fun t => by rw [hafter]; unfold Dat.blockOf iblk12; rw [hA]; try rfl) t d).trans
    (by unfold Dat.fetched Dat.blockOf iblk12; rw [hA]; try rfl)
theorem before12_14_of {c : Dev nD} (dat : Dat τ (Elt F) Unit ℕ (UR sig nD τ) ℕ cfg12 c) (hA : dat.A 14 = V c (Pipeline.arrRef spec12 14))
    (hafter : ∀ t, dat.after 14 t = iblk12 V c 14 t) (t : Fin cfg12.N) (d) : dat.before 14 t d = iblk12 V c 14 t :=
  (dat.before_in_eq_fetched 14 rfl (fun _ => rfl) (fun _ _ _ => rfl) (fun t => by rw [hafter]; unfold Dat.blockOf iblk12; rw [hA]; try rfl) t d).trans
    (by unfold Dat.fetched Dat.blockOf iblk12; rw [hA]; try rfl)

/-! ## What the body reads and writes: every buffer whole -/

noncomputable abbrev rRows12 : Rect S4096x64 := Rect.unit (s := S4096x64) ![0, 0] S4096x64.size inb_S4096x64_S4096x64_0_0
noncomputable abbrev rRowS12 : Rect S1x64 := Rect.unit (s := S1x64) ![0, 0] S1x64.size inb_S1x64_S1x64_0_0
noncomputable abbrev rMatA12 : Rect S64x128 := Rect.unit (s := S64x128) ![0, 0] S64x128.size inb_S64x128_S64x128_0_0
noncomputable abbrev rRowL12 : Rect S1x128 := Rect.unit (s := S1x128) ![0, 0] S1x128.size inb_S1x128_S1x128_0_0
noncomputable abbrev rMatB12 : Rect S128x64 := Rect.unit (s := S128x64) ![0, 0] S128x64.size inb_S128x64_S128x64_0_0

/-! ## What the body leaves in the output block -/

/-- The output block after the body, from the fifteen input blocks: one store over the whole block, of the second
    normalisation clipped plus x, itself computed from the first normalisation's two factors. -/
noncomputable def out12_15 (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) : Vec F S4096x64 .f32 :=
  View.canon [⟨rRows12, k12_pay1 (k12_pay2 (View.ld x_2 rRowS12) (View.ld x_0 rRows12) (View.ld x_1 rRows12) (View.ld x_3 rMatA12) (View.ld x_4 rRowL12) (View.ld x_5 rRowL12) (View.ld x_6 rRowL12) (View.ld x_7 rRowL12)) (k12_pay3 (View.ld x_8 rRowL12)) (View.ld x_9 rMatB12) (View.ld x_10 rRowS12) (View.ld x_11 rRowS12) (View.ld x_12 rRowS12) (View.ld x_13 rRowS12) (View.ld x_14 rRowS12) (View.ld x_0 rRows12)⟩]

/-- The one store covers the block. -/
theorem cover12_15 (p0 : Vec F S4096x64 .f32) (y : S4096x64.Idx) :
    ∃ pc ∈ ([⟨rRows12, p0⟩] : List (View.Piece (Elt F) S4096x64 .f32)), y ∈ pc.1.set :=
  View.cover_of_tiled [⟨rRows12, p0⟩] S4096x64.size (by rfl) y

/-! ## The body's triple -/

set_option maxHeartbeats 4000000 in
/-- The body on whole buffers, the fifteen inputs' at read contents x_0 … x_14 and the output's at anything, runs to the
    continuation holding the inputs' as they were and the output's at out12_15 of them. -/
theorem sound_kernel12 (c : Dev nD) (E : Set ℕ) (i : grid12.Coords) (a_0 : Memref sig .tc .vmem S4096x64 .f32) (h_0 : a_0.IsWhole) (a_1 : Memref sig .tc .vmem S4096x64 .f32) (h_1 : a_1.IsWhole) (a_2 : Memref sig .tc .vmem S1x64 .f32) (h_2 : a_2.IsWhole) (a_3 : Memref sig .tc .vmem S64x128 .f32) (h_3 : a_3.IsWhole) (a_4 : Memref sig .tc .vmem S1x128 .f32) (h_4 : a_4.IsWhole) (a_5 : Memref sig .tc .vmem S1x128 .f32) (h_5 : a_5.IsWhole) (a_6 : Memref sig .tc .vmem S1x128 .f32) (h_6 : a_6.IsWhole) (a_7 : Memref sig .tc .vmem S1x128 .f32) (h_7 : a_7.IsWhole) (a_8 : Memref sig .tc .vmem S1x128 .f32) (h_8 : a_8.IsWhole) (a_9 : Memref sig .tc .vmem S128x64 .f32) (h_9 : a_9.IsWhole) (a_10 : Memref sig .tc .vmem S1x64 .f32) (h_10 : a_10.IsWhole) (a_11 : Memref sig .tc .vmem S1x64 .f32) (h_11 : a_11.IsWhole) (a_12 : Memref sig .tc .vmem S1x64 .f32) (h_12 : a_12.IsWhole) (a_13 : Memref sig .tc .vmem S1x64 .f32) (h_13 : a_13.IsWhole) (a_14 : Memref sig .tc .vmem S1x64 .f32) (h_14 : a_14.IsWhole) (a_15 : Memref sig .tc .vmem S4096x64 .f32) (h_15 : a_15.IsWhole)
    (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) (K : PUnit → sProp 𝕄) :
    iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ (∃ d, owns (c : Thread nD τ) a_15 fullShare d)
        ∗ (iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ owns (c : Thread nD τ) a_15 fullShare (out12_15 x_0 x_1 x_2 x_3 x_4 x_5 x_6 x_7 x_8 x_9 x_10 x_11 x_12 x_13 x_14)) -∗ K ⟨⟩))
      ⊢ wp frame (wpE (defs₀ (F := F)) Variants.none c none) E (cc12__apply_kernel i a_0 h_0 a_1 h_1 a_2 h_2 a_3 h_3 a_4 h_4 a_5 h_5 a_6 h_6 a_7 h_7 a_8 h_8 a_9 h_9 a_10 h_10 a_11 h_11 a_12 h_12 a_13 h_13 a_14 h_14 a_15 h_15) K := by
  simp only [cc12__apply_kernel_eq_skeleton]; unfold cc12__apply_kernel_skel
  unfold owns
  iintro ⟨⟨%f_0, %hf_0, H_0⟩, ⟨%f_1, %hf_1, H_1⟩, ⟨%f_2, %hf_2, H_2⟩, ⟨%f_3, %hf_3, H_3⟩, ⟨%f_4, %hf_4, H_4⟩, ⟨%f_5, %hf_5, H_5⟩, ⟨%f_6, %hf_6, H_6⟩, ⟨%f_7, %hf_7, H_7⟩, ⟨%f_8, %hf_8, H_8⟩, ⟨%f_9, %hf_9, H_9⟩, ⟨%f_10, %hf_10, H_10⟩, ⟨%f_11, %hf_11, H_11⟩, ⟨%f_12, %hf_12, H_12⟩, ⟨%f_13, %hf_13, H_13⟩, ⟨%f_14, %hf_14, H_14⟩, ⟨%d_15, %f_15, -, H_15⟩, Hk⟩
  subst hf_0 hf_1 hf_2 hf_3 hf_4 hf_5 hf_6 hf_7 hf_8 hf_9 hf_10 hf_11 hf_12 hf_13 hf_14
  sl_exec
  sl_step
  iapply Hk
  isplitl [H_0]
  · iexists f_0; isplitr; · ipureintro; rfl
    iexact H_0
  isplitl [H_1]
  · iexists f_1; isplitr; · ipureintro; rfl
    iexact H_1
  isplitl [H_2]
  · iexists f_2; isplitr; · ipureintro; rfl
    iexact H_2
  isplitl [H_3]
  · iexists f_3; isplitr; · ipureintro; rfl
    iexact H_3
  isplitl [H_4]
  · iexists f_4; isplitr; · ipureintro; rfl
    iexact H_4
  isplitl [H_5]
  · iexists f_5; isplitr; · ipureintro; rfl
    iexact H_5
  isplitl [H_6]
  · iexists f_6; isplitr; · ipureintro; rfl
    iexact H_6
  isplitl [H_7]
  · iexists f_7; isplitr; · ipureintro; rfl
    iexact H_7
  isplitl [H_8]
  · iexists f_8; isplitr; · ipureintro; rfl
    iexact H_8
  isplitl [H_9]
  · iexists f_9; isplitr; · ipureintro; rfl
    iexact H_9
  isplitl [H_10]
  · iexists f_10; isplitr; · ipureintro; rfl
    iexact H_10
  isplitl [H_11]
  · iexists f_11; isplitr; · ipureintro; rfl
    iexact H_11
  isplitl [H_12]
  · iexists f_12; isplitr; · ipureintro; rfl
    iexact H_12
  isplitl [H_13]
  · iexists f_13; isplitr; · ipureintro; rfl
    iexact H_13
  isplitl [H_14]
  · iexists f_14; isplitr; · ipureintro; rfl
    iexact H_14
  iexists _; isplitr
  swap; · iexact H_15
  ipureintro
  exact View.read_writes_eq_canon _ _ _ (cover12_15 _)

/-! ## The proof data -/

/-- The region's proof data on core c: the arrays as the region finds them; after the body at point t each input's
    buffer at its block and the output's at out12_15 of the input blocks; the invariant the scoped rest and the
    generator register, untouched; nothing owed; full shares. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => iblk12 V c 9 t
    | ⟨10, _⟩ => iblk12 V c 10 t
    | ⟨11, _⟩ => iblk12 V c 11 t
    | ⟨12, _⟩ => iblk12 V c 12 t
    | ⟨13, _⟩ => iblk12 V c 13 t
    | ⟨14, _⟩ => iblk12 V c 14 t
    | ⟨15, _⟩ => out12_15 (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t) (iblk12 V c 11 t) (iblk12 V c 12 t) (iblk12 V c 13 t) (iblk12 V c 14 t)
    | ⟨_ + 16, h⟩ => absurd h (Nat.not_lt.2 (Nat.le_add_left _ _))
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = iblk12 V c 8 t := by dsimp only [dat12]
theorem after12_9 (c : Dev nD) (t : Fin cfg12.N) : (dat12 V c).after 9 t = iblk12 V c 9 t := by dsimp only [dat12]
theorem after12_10 (c : Dev nD) (t : Fin cfg12.N) : (dat12 V c).after 10 t = iblk12 V c 10 t := by dsimp only [dat12]
theorem after12_11 (c : Dev nD) (t : Fin cfg12.N) : (dat12 V c).after 11 t = iblk12 V c 11 t := by dsimp only [dat12]
theorem after12_12 (c : Dev nD) (t : Fin cfg12.N) : (dat12 V c).after 12 t = iblk12 V c 12 t := by dsimp only [dat12]
theorem after12_13 (c : Dev nD) (t : Fin cfg12.N) : (dat12 V c).after 13 t = iblk12 V c 13 t := by dsimp only [dat12]
theorem after12_14 (c : Dev nD) (t : Fin cfg12.N) : (dat12 V c).after 14 t = iblk12 V c 14 t := by dsimp only [dat12]
theorem after12_15 (c : Dev nD) (t : Fin cfg12.N) : (dat12 V c).after 15 t = out12_15 (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t) (iblk12 V c 11 t) (iblk12 V c 12 t) (iblk12 V c 13 t) (iblk12 V c 14 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d
theorem before12_8 (c : Dev nD) (t : Fin cfg12.N) (d) : (dat12 V c).before 8 t d = iblk12 V c 8 t :=
  before12_8_of V (dat12 V c) (A_eq12 V c 8) (after12_8 V c) t d
theorem before12_9 (c : Dev nD) (t : Fin cfg12.N) (d) : (dat12 V c).before 9 t d = iblk12 V c 9 t :=
  before12_9_of V (dat12 V c) (A_eq12 V c 9) (after12_9 V c) t d
theorem before12_10 (c : Dev nD) (t : Fin cfg12.N) (d) : (dat12 V c).before 10 t d = iblk12 V c 10 t :=
  before12_10_of V (dat12 V c) (A_eq12 V c 10) (after12_10 V c) t d
theorem before12_11 (c : Dev nD) (t : Fin cfg12.N) (d) : (dat12 V c).before 11 t d = iblk12 V c 11 t :=
  before12_11_of V (dat12 V c) (A_eq12 V c 11) (after12_11 V c) t d
theorem before12_12 (c : Dev nD) (t : Fin cfg12.N) (d) : (dat12 V c).before 12 t d = iblk12 V c 12 t :=
  before12_12_of V (dat12 V c) (A_eq12 V c 12) (after12_12 V c) t d
theorem before12_13 (c : Dev nD) (t : Fin cfg12.N) (d) : (dat12 V c).before 13 t d = iblk12 V c 13 t :=
  before12_13_of V (dat12 V c) (A_eq12 V c 13) (after12_13 V c) t d
theorem before12_14 (c : Dev nD) (t : Fin cfg12.N) (d) : (dat12 V c).before 14 t d = iblk12 V c 14 t :=
  before12_14_of V (dat12 V c) (A_eq12 V c 14) (after12_14 V c) t d

/-! ## The body obligation -/

/-- What the body is called with at point t, -/
noncomputable def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d))
    ∗ (∃ d, owns (c : Thread nD τ) (st12_10 t) fullShare ((dat12 V c).before 10 t d))
    ∗ (∃ d, owns (c : Thread nD τ) (st12_11 t) fullShare ((dat12 V c).before 11 t d))
    ∗ (∃ d, owns (c : Thread nD τ) (st12_12 t) fullShare ((dat12 V c).before 12 t d))
    ∗ (∃ d, owns (c : Thread nD τ) (st12_13 t) fullShare ((dat12 V c).before 13 t d))
    ∗ (∃ d, owns (c : Thread nD τ) (st12_14 t) fullShare ((dat12 V c).before 14 t d))
    ∗ (∃ d, owns (c : Thread nD τ) (st12_15 t) fullShare ((dat12 V c).before 15 t d)))

/-- and what it returns. -/
noncomputable def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t)
    ∗ owns (c : Thread nD τ) (st12_10 t) fullShare ((dat12 V c).after 10 t)
    ∗ owns (c : Thread nD τ) (st12_11 t) fullShare ((dat12 V c).after 11 t)
    ∗ owns (c : Thread nD τ) (st12_12 t) fullShare ((dat12 V c).after 12 t)
    ∗ owns (c : Thread nD τ) (st12_13 t) fullShare ((dat12 V c).after 13 t)
    ∗ owns (c : Thread nD τ) (st12_14 t) fullShare ((dat12 V c).after 14 t)
    ∗ owns (c : Thread nD τ) (st12_15 t) fullShare ((dat12 V c).after 15 t))

set_option maxHeartbeats 1000000 in
/-- The body at any point: the inputs' buffers hold their blocks, so the triple applies; the invariant and what the
    core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7, before12_8, before12_9, before12_10, before12_11, before12_12, before12_13, before12_14]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9, after12_10, after12_11, after12_12, after12_13, after12_14, after12_15]
  iintro ⟨HΦ, Ho, ⟨%d_0, H_0⟩, ⟨%d_1, H_1⟩, ⟨%d_2, H_2⟩, ⟨%d_3, H_3⟩, ⟨%d_4, H_4⟩, ⟨%d_5, H_5⟩, ⟨%d_6, H_6⟩, ⟨%d_7, H_7⟩, ⟨%d_8, H_8⟩, ⟨%d_9, H_9⟩, ⟨%d_10, H_10⟩, ⟨%d_11, H_11⟩, ⟨%d_12, H_12⟩, ⟨%d_13, H_13⟩, ⟨%d_14, H_14⟩, ⟨%d_15, H_15⟩⟩
  iapply (sound_kernel12 c Set.univ _ _ _ _ _ _ _ _ _ _ _ _ _ _ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t) (iblk12 V c 11 t) (iblk12 V c 12 t) (iblk12 V c 13 t) (iblk12 V c 14 t) _)
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  isplitl [H_15]; · iexists _; iexact H_15
  iintro ⟨H_0, H_1, H_2, H_3, H_4, H_5, H_6, H_7, H_8, H_9, H_10, H_11, H_12, H_13, H_14, H_15⟩
  isplitl [HΦ]; · iexact HΦ
  isplitl [Ho]; · iexact Ho
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  iexact H_15

theorem body_obligation12 (c : Dev nD) : BodyObligation (dat12 (F := F) V c) (defs₀ (F := F)) Variants.none () Set.univ := fun t => by
  rw [bigSep_W12, bigSep_W12]
  exact sound_body12 V c t

/-! ## The invariant at the region's ends -/

theorem phi_in12 (c : Dev nD) :
    (iprop((∃ r, prngReg c r) ∗ Pipeline.scopedRest (Ix := Unit) (Name := ℕ) (U := UR sig nD τ) (Lvl := ℕ) (Val := Elt F) spec12 c) : sProp 𝕄)
      ⊢ (dat12 V c).Φ 0 := by
  rw [show (dat12 V c).Φ 0 = Pipeline.ΦA spec12 c from rfl]; unfold Pipeline.ΦA
  iintro ⟨Hp, Hr⟩
  isplitl [Hr]; · iexact Hr
  iexact Hp

theorem phi_out12 (c : Dev nD) :
    (dat12 V c).Φ (Fin.last cfg12.N)
      ⊢ (iprop((∃ r, prngReg c r) ∗ Pipeline.scopedRest (Ix := Unit) (Name := ℕ) (U := UR sig nD τ) (Lvl := ℕ) (Val := Elt F) spec12 c) : sProp 𝕄) := by
  rw [show (dat12 V c).Φ (Fin.last _) = Pipeline.ΦA spec12 c from rfl]; unfold Pipeline.ΦA
  iintro ⟨Hr, Hp⟩
  isplitl [Hp]; · iexact Hp
  iexact Hr

/-! ## The whole output array

    Sixteen blocks of 4096 rows tile the 65536 rows, block t holding rows 4096·t … 4096·t + 4095, so row r is written
    at point r / 4096, at place r % 4096 of the block, and what is written there depends on the inputs' blocks at that
    point only. -/

/-- The point whose block holds an index's row. -/
noncomputable def pt12 (i : S65536x64.Idx) : Fin cfg12.N :=
  ⟨(i 0).val / 4096, by have h := ValueIdx.idx2_lt0 i; show (i 0).val / 4096 < grid12.N; rw [N_12]; omega⟩

/-- Where an index of the array sits inside its block. -/
noncomputable def loc12 (i : S65536x64.Idx) : S4096x64.Idx :=
  ValueIdx.ix2 ⟨(i 0).val % 4096, Nat.mod_lt _ (by decide)⟩ (i 1)

/-- The output array as one function of the fifteen input arrays: at each index, what the body leaves at the index's
    place in its block, from the inputs' blocks at the index's point. -/
noncomputable def G12_15 (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) : S65536x64.Idx → Elt F .f32 :=
  fun i => out12_15
      (((cfg12.win 0).blk (pt12 i)).view.read (Elt F) A_0)
      (((cfg12.win 1).blk (pt12 i)).view.read (Elt F) A_1)
      (((cfg12.win 2).blk (pt12 i)).view.read (Elt F) A_2)
      (((cfg12.win 3).blk (pt12 i)).view.read (Elt F) A_3)
      (((cfg12.win 4).blk (pt12 i)).view.read (Elt F) A_4)
      (((cfg12.win 5).blk (pt12 i)).view.read (Elt F) A_5)
      (((cfg12.win 6).blk (pt12 i)).view.read (Elt F) A_6)
      (((cfg12.win 7).blk (pt12 i)).view.read (Elt F) A_7)
      (((cfg12.win 8).blk (pt12 i)).view.read (Elt F) A_8)
      (((cfg12.win 9).blk (pt12 i)).view.read (Elt F) A_9)
      (((cfg12.win 10).blk (pt12 i)).view.read (Elt F) A_10)
      (((cfg12.win 11).blk (pt12 i)).view.read (Elt F) A_11)
      (((cfg12.win 12).blk (pt12 i)).view.read (Elt F) A_12)
      (((cfg12.win 13).blk (pt12 i)).view.read (Elt F) A_13)
      (((cfg12.win 14).blk (pt12 i)).view.read (Elt F) A_14)
      (loc12 i)

/-- G12_15 at an index, one step unfolded. -/
theorem G12_15_apply (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) (i : S65536x64.Idx) :
    G12_15 A_0 A_1 A_2 A_3 A_4 A_5 A_6 A_7 A_8 A_9 A_10 A_11 A_12 A_13 A_14 i = out12_15 (((cfg12.win 0).blk (pt12 i)).view.read (Elt F) A_0) (((cfg12.win 1).blk (pt12 i)).view.read (Elt F) A_1) (((cfg12.win 2).blk (pt12 i)).view.read (Elt F) A_2) (((cfg12.win 3).blk (pt12 i)).view.read (Elt F) A_3) (((cfg12.win 4).blk (pt12 i)).view.read (Elt F) A_4) (((cfg12.win 5).blk (pt12 i)).view.read (Elt F) A_5) (((cfg12.win 6).blk (pt12 i)).view.read (Elt F) A_6) (((cfg12.win 7).blk (pt12 i)).view.read (Elt F) A_7) (((cfg12.win 8).blk (pt12 i)).view.read (Elt F) A_8) (((cfg12.win 9).blk (pt12 i)).view.read (Elt F) A_9) (((cfg12.win 10).blk (pt12 i)).view.read (Elt F) A_10) (((cfg12.win 11).blk (pt12 i)).view.read (Elt F) A_11) (((cfg12.win 12).blk (pt12 i)).view.read (Elt F) A_12) (((cfg12.win 13).blk (pt12 i)).view.read (Elt F) A_13) (((cfg12.win 14).blk (pt12 i)).view.read (Elt F) A_14) (loc12 i) := rfl

/-- The output's block index at point t is (t, 0), decided over the sixteen points. -/
theorem idx12_15 : ∀ t : Fin cfg12.N, win12_15.index t (0 : Fin 2) = t.val ∧ win12_15.index t (1 : Fin 2) = 0 :=
  (by decide +kernel : ∀ t : Fin grid12.N, _)

set_option maxHeartbeats 2000000 in
/-- What point t writes back is block t of G12_15 of the arrays as the region finds them. -/
theorem flushed12_15_eq (c : Dev nD) (t : Fin cfg12.N) :
    (dat12 V c).flushed 15 t = ((cfg12.win 15).blk t).view.read (Elt F) (G12_15 (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) (V c (Pipeline.arrRef spec12 7)) (V c (Pipeline.arrRef spec12 8)) (V c (Pipeline.arrRef spec12 9)) (V c (Pipeline.arrRef spec12 10)) (V c (Pipeline.arrRef spec12 11)) (V c (Pipeline.arrRef spec12 12)) (V c (Pipeline.arrRef spec12 13)) (V c (Pipeline.arrRef spec12 14))) := by
  show (cfg12.win 15).cut (grid12.coords t) ((dat12 V c).after 15 t) = _
  rw [after12_15]
  obtain ⟨e0, e1⟩ := idx12_15 t
  funext j
  have hj0 : (j 0).val < 4096 := (j 0).isLt
  have hp : pt12 (((cfg12.win 15).blk t).view.emb j) = t := by
    apply Fin.ext
    show (win12_15.index t (0 : Fin 2) * 4096 + 1 * (j 0).val) / 4096 = t.val
    omega
  have hl : loc12 (((cfg12.win 15).blk t).view.emb j) = j := by
    funext a; apply Fin.ext
    match a with
    | ⟨0, _⟩ => show (win12_15.index t (0 : Fin 2) * 4096 + 1 * (j 0).val) % 4096 = (j 0).val; omega
    | ⟨1, _⟩ => show win12_15.index t (1 : Fin 2) * 64 + 1 * (j 1).val = (j 1).val; omega
  rw [View.read_apply]
  rw [G12_15_apply, hp, hl]
  unfold iblk12
  generalize out12_15 (F := F) _ _ _ _ _ _ _ _ _ _ _ _ _ _ _ = X
  rfl

/-- An index of the array is in point t's block iff each coordinate is in the block's range on its axis. -/
theorem mem_blk12_15 (t : Fin cfg12.N) (i : S65536x64.Idx) :
    i ∈ ((cfg12.win 15).blk t).view.set ↔ ∀ a : Fin 2, win12_15.index t a * S4096x64.size a ≤ (i a).val ∧ (i a).val < win12_15.index t a * S4096x64.size a + S4096x64.size a := by
  show i ∈ ((View.whole main_v277).slice (win12_15.rect t)).set ↔ _
  rw [View.set_slice_whole, Rect.mem_set_unit]
  exact Iff.rfl

/-- Every index of the array is in some point's block. -/
theorem covered12_15 (i : S65536x64.Idx) : ∃ t : Fin cfg12.N, (cfg12.win 15).flush t = true ∧ i ∈ ((cfg12.win 15).blk t).view.set := by
  refine ⟨pt12 i, flush12_15 _, ?_⟩
  rw [mem_blk12_15]
  obtain ⟨e0, e1⟩ := idx12_15 (pt12 i)
  have h_0 := ValueIdx.idx2_lt0 i
  have h_1 := ValueIdx.idx2_lt1 i
  have hp : (pt12 i).val = (i 0).val / 4096 := rfl
  intro a
  match a with
  | ⟨0, _⟩ => show win12_15.index (pt12 i) (0 : Fin 2) * 4096 ≤ (i 0).val ∧ (i 0).val < win12_15.index (pt12 i) (0 : Fin 2) * 4096 + 4096; omega
  | ⟨1, _⟩ => show win12_15.index (pt12 i) (1 : Fin 2) * 64 ≤ (i 1).val ∧ (i 1).val < win12_15.index (pt12 i) (1 : Fin 2) * 64 + 64; omega

/-- The output array after the region: G12_15 of the arrays as the region finds them. -/
theorem final12_15 (c : Dev nD) :
    (dat12 V c).arrAt ⟨15, by decide⟩ cfg12.N = G12_15 (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) (V c (Pipeline.arrRef spec12 7)) (V c (Pipeline.arrRef spec12 8)) (V c (Pipeline.arrRef spec12 9)) (V c (Pipeline.arrRef spec12 10)) (V c (Pipeline.arrRef spec12 11)) (V c (Pipeline.arrRef spec12 12)) (V c (Pipeline.arrRef spec12 13)) (V c (Pipeline.arrRef spec12 14)) :=
  (dat12 V c).arrAt_eq_of_cover 15 _ (fun t _ => flushed12_15_eq V c t) covered12_15

end Cert.Kernel.Hand

end
-- ==== Proof.KB.Reg13.lean ====
import proofs.«159011_j9938554322955_1_alg».proof.Proof.Gen.Kernel.Launch
import proofs.«159011_j9938554322955_1_alg».proof.Proof.Gen.Kernel.Skeleton
import proofs.«159011_j9938554322955_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

-- membership in a rectangle of long extents: the structural check recurses once per coordinate of the long axes
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The final projection: out = x · Wf + bf on blocks of 4096 rows, at the entry contents V -/

/-- Window w's block at point t, read off its array as the region finds it. -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, fetched there or not: unfetched, the
    block index has not moved. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

noncomputable abbrev r13_x : Rect S4096x64 := Rect.unit (s := S4096x64) ![0, 0] S4096x64.size inb_S4096x64_S4096x64_0_0
noncomputable abbrev r13_w : Rect S64x256 := Rect.unit (s := S64x256) ![0, 0] S64x256.size inb_S64x256_S64x256_0_0
noncomputable abbrev r13_b : Rect S1x256 := Rect.unit (s := S1x256) ![0, 0] S1x256.size inb_S1x256_S1x256_0_0
noncomputable abbrev r13_o : Rect S4096x256 := Rect.unit (s := S4096x256) ![0, 0] S4096x256.size inb_S4096x256_S4096x256_0_0

/-! ## What the body leaves in the output window's buffer -/

/-- The output block after the body, from the three input blocks: its one store, whose payload is the product of the rows with Wf plus bf. -/
noncomputable def out13_3 (x0 : Vec F S4096x64 .f32) (x1 : Vec F S64x256 .f32) (x2 : Vec F S1x256 .f32) : Vec F S4096x256 .f32 :=
  View.canon [⟨r13_o, k13_pay1 (View.ld x0 r13_x) (View.ld x1 r13_w) (View.ld x2 r13_b)⟩]

/-- The one store covers the buffer. -/
theorem cover13_3 (p0 : Vec F S4096x256 .f32) (y : S4096x256.Idx) :
    ∃ pc ∈ ([⟨r13_o, p0⟩] : List (View.Piece (Elt F) S4096x256 .f32)), y ∈ pc.1.set :=
  View.cover_of_tiled [⟨r13_o, p0⟩] S4096x256.size (by rfl) y

/-! ## The body's triple -/

set_option maxHeartbeats 1000000 in
/-- The kernel body on whole staging memrefs, the inputs' at read contents and the output's at anything, runs to the
    continuation holding the inputs' as they were and the output's at out13_3 of the inputs'. -/
theorem sound_kernel13 (c : Dev nD) (E : Set ℕ) (i : grid13.Coords)
    (arg1 : Memref sig .tc .vmem S4096x64 .f32) (harg1 : arg1.IsWhole) (arg2 : Memref sig .tc .vmem S64x256 .f32) (harg2 : arg2.IsWhole)
    (arg3 : Memref sig .tc .vmem S1x256 .f32) (harg3 : arg3.IsWhole) (arg4 : Memref sig .tc .vmem S4096x256 .f32) (harg4 : arg4.IsWhole)
    (x0 : Vec F S4096x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out13_3 x0 x1 x2)) -∗ K ⟨⟩))
      ⊢ wp frame (wpE (defs₀ (F := F)) Variants.none c none) E (cc13__final_kernel i arg1 harg1 arg2 harg2 arg3 harg3 arg4 harg4) K := by
  simp only [cc13__final_kernel_eq_skeleton]; unfold cc13__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

/-! ## The region's proof data -/

/-- The proof data on core c: the arrays as the region finds them; after the body at point t each input's buffer at its
    block and the output's at out13_3 of the input blocks; the invariant the scoped rest and the generator register,
    untouched; nothing owed; full shares. -/
noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) :
    (dat13 V c).after 3 t = out13_3 (iblk13 V c 0 t) (iblk13 V c 1 t) (iblk13 V c 2 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation, at a generic point -/

/-- What the body is called with at point t, the windows one by one, -/
noncomputable def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
noncomputable def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

/-- The body at any point: the inputs' memrefs hold their blocks, so the body's triple applies; the invariant and the
    core's debts pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ (grid13.coords t) _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

/-! ## The invariant at the region's ends -/

theorem phi_in13 (c : Dev nD) :
    (iprop((∃ r, prngReg c r) ∗ Pipeline.scopedRest (Ix := Unit) (Name := ℕ) (U := UR sig nD τ) (Lvl := ℕ) (Val := Elt F) spec13 c) : sProp 𝕄)
      ⊢ (dat13 V c).Φ 0 := by
  show _ ⊢ Pipeline.ΦA spec13 c
  unfold Pipeline.ΦA
  iintro ⟨Hr, Hs⟩
  isplitl [Hs]; · iexact Hs
  iexact Hr

theorem phi_out13 (c : Dev nD) :
    (dat13 V c).Φ (Fin.last cfg13.N)
      ⊢ (iprop((∃ r, prngReg c r) ∗ Pipeline.scopedRest (Ix := Unit) (Name := ℕ) (U := UR sig nD τ) (Lvl := ℕ) (Val := Elt F) spec13 c) : sProp 𝕄) := by
  show Pipeline.ΦA spec13 c ⊢ _
  unfold Pipeline.ΦA
  iintro ⟨Hs, Hr⟩
  isplitl [Hr]; · iexact Hr
  iexact Hs

end Cert.Kernel.Hand

end
-- ==== Proof.KB.Fold.lean ====
import proofs.«159011_j9938554322955_1_alg».proof.Proof.Gen.Kernel.Launch
import proofs.«159011_j9938554322955_1_alg».proof.Proof.Gen.Kernel.Regions
import proofs.«159011_j9938554322955_1_alg».proof.Proof.KB.Reg0
import proofs.«159011_j9938554322955_1_alg».proof.Proof.KB.Reg1
import proofs.«159011_j9938554322955_1_alg».proof.Proof.KB.Reg2
import proofs.«159011_j9938554322955_1_alg».proof.Proof.KB.Reg3
import proofs.«159011_j9938554322955_1_alg».proof.Proof.KB.Reg4
import proofs.«159011_j9938554322955_1_alg».proof.Proof.KB.Reg5
import proofs.«159011_j9938554322955_1_alg».proof.Proof.KB.Reg6
import proofs.«159011_j9938554322955_1_alg».proof.Proof.KB.Reg7
import proofs.«159011_j9938554322955_1_alg».proof.Proof.KB.Reg8
import proofs.«159011_j9938554322955_1_alg».proof.Proof.KB.Reg9
import proofs.«159011_j9938554322955_1_alg».proof.Proof.KB.Reg10
import proofs.«159011_j9938554322955_1_alg».proof.Proof.KB.Reg11
import proofs.«159011_j9938554322955_1_alg».proof.Proof.KB.Reg12
import proofs.«159011_j9938554322955_1_alg».proof.Proof.KB.Reg13
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the decided facts over 517 references and 16 windows recurse past the default depth
set_option maxRecDepth 4628

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents at each boundary of @main: a fold from the launch memory

@main is 15 stretches of host operations around 14 kernel regions. `W0` is the launch memory read per core; an odd
index `W(2K+1)` is the contents after host stretch `K` (region `K`'s entry); an even index `W(2K+2)` is the contents at
region `K`'s exit: its window arrays at what the write-backs leave, every other buffer as entered. -/

/-- Core `c`'s buffers at launch. -/
noncomputable abbrev W0 (m : (ℓ : Loc nD τ sig) → Buf (Elt F) ℓ) (ρ : Dev nD → PrngReg) : Dev nD → Valuation τ sig (Elt F) :=
  fun c b => m ((c : Dev nD), b)

variable (m : (ℓ : Loc nD τ sig) → Buf (Elt F) ℓ) (ρ : Dev nD → PrngReg)

/-- After `hostOps0` (region 0's entry). -/
noncomputable abbrev W1 : Dev nD → Valuation τ sig (Elt F) := fun c => StableHlo.after hostOps0 (W0 m ρ c)
/-- The same read at the TensorCore's references (what region 0's proof data take). -/
noncomputable abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
noncomputable abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
noncomputable abbrev W3 : Dev nD → Valuation τ sig (Elt F) := fun c => StableHlo.after hostOps1 (W2 m ρ c)
/-- The same read at the TensorCore's references (what region 1's proof data take). -/
noncomputable abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
noncomputable abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
noncomputable abbrev W5 : Dev nD → Valuation τ sig (Elt F) := fun c => StableHlo.after hostOps2 (W4 m ρ c)
/-- The same read at the TensorCore's references (what region 2's proof data take). -/
noncomputable abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
noncomputable def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
noncomputable abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
noncomputable abbrev W7 : Dev nD → Valuation τ sig (Elt F) := fun c => StableHlo.after hostOps3 (W6 m ρ c)
/-- The same read at the TensorCore's references (what region 3's proof data take). -/
noncomputable abbrev V7 : (c : Dev nD) → (b : Ref sig .tc) → Buf (Elt F) ((c : Thread nD τ).loc b) := fun c b => W7 m ρ c b
/-- At region 3's exit: its arrays at what the pipeline leaves (the inputs as entered, each output's write-backs
    folded), every other buffer as entered. -/
noncomputable def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
noncomputable abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
noncomputable abbrev W9 : Dev nD → Valuation τ sig (Elt F) := fun c => StableHlo.after hostOps4 (W8 m ρ c)
/-- The same read at the TensorCore's references (what region 4's proof data take). -/
noncomputable abbrev V9 : (c : Dev nD) → (b : Ref sig .tc) → Buf (Elt F) ((c : Thread nD τ).loc b) := fun c b => W9 m ρ c b
/-- At region 4's exit: its arrays at what the pipeline leaves (the inputs as entered, each output's write-backs
    folded), every other buffer as entered. -/
noncomputable def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
noncomputable abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`). -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5` (region 5's entry). -/
noncomputable abbrev W11 : Dev nD → Valuation τ sig (Elt F) := fun c => StableHlo.after hostOps5 (W10 m ρ c)
/-- The same read at the TensorCore's references (what region 5's proof data take). -/
noncomputable abbrev V11 : (c : Dev nD) → (b : Ref sig .tc) → Buf (Elt F) ((c : Thread nD τ).loc b) := fun c b => W11 m ρ c b
/-- At region 5's exit: its arrays at what the pipeline leaves (the inputs as entered, each output's write-backs
    folded), every other buffer as entered. -/
noncomputable def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
noncomputable abbrev V12 : (c : Dev nD) → (b : Ref sig .tc) → Buf (Elt F) ((c : Thread nD τ).loc b) := fun c b => W12 m ρ c b
/-- At region 5's exit each of its arrays holds what the pipeline leaves (`hF5`) and every other buffer what it
    held at entry (`hrest5`). -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6` (region 6's entry). -/
noncomputable abbrev W13 : Dev nD → Valuation τ sig (Elt F) := fun c => StableHlo.after hostOps6 (W12 m ρ c)
/-- The same read at the TensorCore's references (what region 6's proof data take). -/
noncomputable abbrev V13 : (c : Dev nD) → (b : Ref sig .tc) → Buf (Elt F) ((c : Thread nD τ).loc b) := fun c b => W13 m ρ c b
/-- At region 6's exit: its arrays at what the pipeline leaves (the inputs as entered, each output's write-backs
    folded), every other buffer as entered. -/
noncomputable def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
noncomputable abbrev V14 : (c : Dev nD) → (b : Ref sig .tc) → Buf (Elt F) ((c : Thread nD τ).loc b) := fun c b => W14 m ρ c b
/-- At region 6's exit each of its arrays holds what the pipeline leaves (`hF6`) and every other buffer what it
    held at entry (`hrest6`). -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After `hostOps7` (region 7's entry). -/
noncomputable abbrev W15 : Dev nD → Valuation τ sig (Elt F) := fun c => StableHlo.after hostOps7 (W14 m ρ c)
/-- The same read at the TensorCore's references (what region 7's proof data take). -/
noncomputable abbrev V15 : (c : Dev nD) → (b : Ref sig .tc) → Buf (Elt F) ((c : Thread nD τ).loc b) := fun c b => W15 m ρ c b
/-- At region 7's exit: its arrays at what the pipeline leaves (the inputs as entered, each output's write-backs
    folded), every other buffer as entered. -/
noncomputable def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
noncomputable abbrev V16 : (c : Dev nD) → (b : Ref sig .tc) → Buf (Elt F) ((c : Thread nD τ).loc b) := fun c b => W16 m ρ c b
/-- At region 7's exit each of its arrays holds what the pipeline leaves (`hF7`) and every other buffer what it
    held at entry (`hrest7`). -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After `hostOps8` (region 8's entry). -/
noncomputable abbrev W17 : Dev nD → Valuation τ sig (Elt F) := fun c => StableHlo.after hostOps8 (W16 m ρ c)
/-- The same read at the TensorCore's references (what region 8's proof data take). -/
noncomputable abbrev V17 : (c : Dev nD) → (b : Ref sig .tc) → Buf (Elt F) ((c : Thread nD τ).loc b) := fun c b => W17 m ρ c b
/-- At region 8's exit: its arrays at what the pipeline leaves (the inputs as entered, each output's write-backs
    folded), every other buffer as entered. -/
noncomputable def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
noncomputable abbrev V18 : (c : Dev nD) → (b : Ref sig .tc) → Buf (Elt F) ((c : Thread nD τ).loc b) := fun c b => W18 m ρ c b
/-- At region 8's exit each of its arrays holds what the pipeline leaves (`hF8`) and every other buffer what it
    held at entry (`hrest8`). -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After `hostOps9` (region 9's entry). -/
noncomputable abbrev W19 : Dev nD → Valuation τ sig (Elt F) := fun c => StableHlo.after hostOps9 (W18 m ρ c)
/-- The same read at the TensorCore's references (what region 9's proof data take). -/
noncomputable abbrev V19 : (c : Dev nD) → (b : Ref sig .tc) → Buf (Elt F) ((c : Thread nD τ).loc b) := fun c b => W19 m ρ c b
/-- At region 9's exit: its arrays at what the pipeline leaves (the inputs as entered, each output's write-backs
    folded), every other buffer as entered. -/
noncomputable def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references (region 9's exit contents). -/
noncomputable abbrev V20 : (c : Dev nD) → (b : Ref sig .tc) → Buf (Elt F) ((c : Thread nD τ).loc b) := fun c b => W20 m ρ c b
/-- At region 9's exit each of its arrays holds what the pipeline leaves (`hF9`) and every other buffer what it
    held at entry (`hrest9`). -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After `hostOps10` (region 10's entry). -/
noncomputable abbrev W21 : Dev nD → Valuation τ sig (Elt F) := fun c => StableHlo.after hostOps10 (W20 m ρ c)
/-- The same read at the TensorCore's references (what region 10's proof data take). -/
noncomputable abbrev V21 : (c : Dev nD) → (b : Ref sig .tc) → Buf (Elt F) ((c : Thread nD τ).loc b) := fun c b => W21 m ρ c b
/-- At region 10's exit: its arrays at what the pipeline leaves (the inputs as entered, each output's write-backs
    folded), every other buffer as entered. -/
noncomputable def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
/-- The same read at the TensorCore's references (region 10's exit contents). -/
noncomputable abbrev V22 : (c : Dev nD) → (b : Ref sig .tc) → Buf (Elt F) ((c : Thread nD τ).loc b) := fun c b => W22 m ρ c b
/-- At region 10's exit each of its arrays holds what the pipeline leaves (`hF10`) and every other buffer what it
    held at entry (`hrest10`). -/
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After `hostOps11` (region 11's entry). -/
noncomputable abbrev W23 : Dev nD → Valuation τ sig (Elt F) := fun c => StableHlo.after hostOps11 (W22 m ρ c)
/-- The same read at the TensorCore's references (what region 11's proof data take). -/
noncomputable abbrev V23 : (c : Dev nD) → (b : Ref sig .tc) → Buf (Elt F) ((c : Thread nD τ).loc b) := fun c b => W23 m ρ c b
/-- At region 11's exit: its arrays at what the pipeline leaves (the inputs as entered, each output's write-backs
    folded), every other buffer as entered. -/
noncomputable def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
/-- The same read at the TensorCore's references (region 11's exit contents). -/
noncomputable abbrev V24 : (c : Dev nD) → (b : Ref sig .tc) → Buf (Elt F) ((c : Thread nD τ).loc b) := fun c b => W24 m ρ c b
/-- At region 11's exit each of its arrays holds what the pipeline leaves (`hF11`) and every other buffer what it
    held at entry (`hrest11`). -/
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)

/-- After `hostOps12` (region 12's entry). -/
noncomputable abbrev W25 : Dev nD → Valuation τ sig (Elt F) := fun c => StableHlo.after hostOps12 (W24 m ρ c)
/-- The same read at the TensorCore's references (what region 12's proof data take). -/
noncomputable abbrev V25 : (c : Dev nD) → (b : Ref sig .tc) → Buf (Elt F) ((c : Thread nD τ).loc b) := fun c b => W25 m ρ c b
/-- At region 12's exit: its arrays at what the pipeline leaves (the inputs as entered, each output's write-backs
    folded), every other buffer as entered. -/
noncomputable def W26 (c : Dev nD) : Valuation τ sig (Elt F) :=
  Pipeline.withArrays spec12 c (W25 m ρ c) fun w => (dat12 (V25 m ρ) c).arrAt w cfg12.N
theorem W26_arr (c : Dev nD) (w : Fin cfg12.W) :
    W26 m ρ c (Proc.devRef .tc (Pipeline.arrRef spec12 w)) = (dat12 (V25 m ρ) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m ρ c (Proc.devRef .tc b) = W25 m ρ c (Proc.devRef .tc b) := by
  unfold W26; exact Pipeline.withArrays_of_ne spec12 c _ _ b hb
/-- The same read at the TensorCore's references (region 12's exit contents). -/
noncomputable abbrev V26 : (c : Dev nD) → (b : Ref sig .tc) → Buf (Elt F) ((c : Thread nD τ).loc b) := fun c b => W26 m ρ c b
/-- At region 12's exit each of its arrays holds what the pipeline leaves (`hF12`) and every other buffer what it
    held at entry (`hrest12`). -/
theorem hF12 (c : Dev nD) (w : Fin cfg12.W) : (dat12 (V25 m ρ) c).arrAt w cfg12.N = V26 m ρ c (Pipeline.arrRef spec12 w) :=
  (W26_arr m ρ c w).symm
theorem hrest12 (c : Dev nD) : ∀ b, b ∉ Finset.univ.image (Pipeline.arrRef spec12) → V26 m ρ c b = V25 m ρ c b :=
  fun b hb => W26_of_ne m ρ c b fun w e => hb (Finset.mem_image.mpr ⟨w, Finset.mem_univ _, e⟩)

/-- After `hostOps13` (region 13's entry). -/
noncomputable abbrev W27 : Dev nD → Valuation τ sig (Elt F) := fun c => StableHlo.after hostOps13 (W26 m ρ c)
/-- The same read at the TensorCore's references (what region 13's proof data take). -/
noncomputable abbrev V27 : (c : Dev nD) → (b : Ref sig .tc) → Buf (Elt F) ((c : Thread nD τ).loc b) := fun c b => W27 m ρ c b
/-- At region 13's exit: its arrays at what the pipeline leaves (the inputs as entered, each output's write-backs
    folded), every other buffer as entered. -/
noncomputable def W28 (c : Dev nD) : Valuation τ sig (Elt F) :=
  Pipeline.withArrays spec13 c (W27 m ρ c) fun w => (dat13 (V27 m ρ) c).arrAt w cfg13.N
theorem W28_arr (c : Dev nD) (w : Fin cfg13.W) :
    W28 m ρ c (Proc.devRef .tc (Pipeline.arrRef spec13 w)) = (dat13 (V27 m ρ) c).arrAt w cfg13.N := by
  unfold W28; exact Pipeline.withArrays_arr spec13 launch13.win.arr_inj c _ _ w
theorem W28_of_ne (c : Dev nD) (b : Ref sig .tc) (hb : ∀ w, Pipeline.arrRef spec13 w ≠ b) :
    W28 m ρ c (Proc.devRef .tc b) = W27 m ρ c (Proc.devRef .tc b) := by
  unfold W28; exact Pipeline.withArrays_of_ne spec13 c _ _ b hb
/-- The same read at the TensorCore's references (region 13's exit contents). -/
noncomputable abbrev V28 : (c : Dev nD) → (b : Ref sig .tc) → Buf (Elt F) ((c : Thread nD τ).loc b) := fun c b => W28 m ρ c b
/-- At region 13's exit each of its arrays holds what the pipeline leaves (`hF13`) and every other buffer what it
    held at entry (`hrest13`). -/
theorem hF13 (c : Dev nD) (w : Fin cfg13.W) : (dat13 (V27 m ρ) c).arrAt w cfg13.N = V28 m ρ c (Pipeline.arrRef spec13 w) :=
  (W28_arr m ρ c w).symm
theorem hrest13 (c : Dev nD) : ∀ b, b ∉ Finset.univ.image (Pipeline.arrRef spec13) → V28 m ρ c b = V27 m ρ c b :=
  fun b hb => W28_of_ne m ρ c b fun w e => hb (Finset.mem_image.mpr ⟨w, Finset.mem_univ _, e⟩)

/-- After `hostOps14` (the contents @main returns with). -/
noncomputable abbrev W29 : Dev nD → Valuation τ sig (Elt F) := fun c => StableHlo.after hostOps14 (W28 m ρ c)

/-! ## The arguments end as launched

No host operation writes an argument, and a region reads an argument only through an input window (never written), so
the fold at an argument's buffer walks back to the launch memory. -/

theorem W29_main_arg0 (c : Dev nD) : W29 m ρ c (Proc.devRef .tc main_arg0) = m ((c : Thread nD τ).loc main_arg0) :=
  calc W29 m ρ c (Proc.devRef .tc main_arg0)
    _ = W28 m ρ c (Proc.devRef .tc main_arg0) := StableHlo.after_of_writes_sub hostOps14 _ hostOps14_writes (by decide)
    _ = W27 m ρ c (Proc.devRef .tc main_arg0) := W28_of_ne m ρ c main_arg0 (by decide)
    _ = W26 m ρ c (Proc.devRef .tc main_arg0) := StableHlo.after_of_writes_sub hostOps13 _ hostOps13_writes (by decide)
    _ = W25 m ρ c (Proc.devRef .tc main_arg0) := W26_of_ne m ρ c main_arg0 (by decide)
    _ = W24 m ρ c (Proc.devRef .tc main_arg0) := StableHlo.after_of_writes_sub hostOps12 _ hostOps12_writes (by decide)
    _ = W23 m ρ c (Proc.devRef .tc main_arg0) := W24_of_ne m ρ c main_arg0 (by decide)
    _ = W22 m ρ c (Proc.devRef .tc main_arg0) := StableHlo.after_of_writes_sub hostOps11 _ hostOps11_writes (by decide)
    _ = W21 m ρ c (Proc.devRef .tc main_arg0) := W22_of_ne m ρ c main_arg0 (by decide)
    _ = W20 m ρ c (Proc.devRef .tc main_arg0) := StableHlo.after_of_writes_sub hostOps10 _ hostOps10_writes (by decide)
    _ = W19 m ρ c (Proc.devRef .tc main_arg0) := W20_of_ne m ρ c main_arg0 (by decide)
    _ = W18 m ρ c (Proc.devRef .tc main_arg0) := StableHlo.after_of_writes_sub hostOps9 _ hostOps9_writes (by decide)
    _ = W17 m ρ c (Proc.devRef .tc main_arg0) := W18_of_ne m ρ c main_arg0 (by decide)
    _ = W16 m ρ c (Proc.devRef .tc main_arg0) := StableHlo.after_of_writes_sub hostOps8 _ hostOps8_writes (by decide)
    _ = W15 m ρ c (Proc.devRef .tc main_arg0) := W16_of_ne m ρ c main_arg0 (by decide)
    _ = W14 m ρ c (Proc.devRef .tc main_arg0) := StableHlo.after_of_writes_sub hostOps7 _ hostOps7_writes (by decide)
    _ = W13 m ρ c (Proc.devRef .tc main_arg0) := W14_of_ne m ρ c main_arg0 (by decide)
    _ = W12 m ρ c (Proc.devRef .tc main_arg0) := StableHlo.after_of_writes_sub hostOps6 _ hostOps6_writes (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W29_main_arg1 (c : Dev nD) : W29 m ρ c (Proc.devRef .tc main_arg1) = m ((c : Thread nD τ).loc main_arg1) :=
  calc W29 m ρ c (Proc.devRef .tc main_arg1)
    _ = W28 m ρ c (Proc.devRef .tc main_arg1) := StableHlo.after_of_writes_sub hostOps14 _ hostOps14_writes (by decide)
    _ = W27 m ρ c (Proc.devRef .tc main_arg1) := W28_of_ne m ρ c main_arg1 (by decide)
    _ = W26 m ρ c (Proc.devRef .tc main_arg1) := StableHlo.after_of_writes_sub hostOps13 _ hostOps13_writes (by decide)
    _ = W25 m ρ c (Proc.devRef .tc main_arg1) := W26_of_ne m ρ c main_arg1 (by decide)
    _ = W24 m ρ c (Proc.devRef .tc main_arg1) := StableHlo.after_of_writes_sub hostOps12 _ hostOps12_writes (by decide)
    _ = W23 m ρ c (Proc.devRef .tc main_arg1) := W24_of_ne m ρ c main_arg1 (by decide)
    _ = W22 m ρ c (Proc.devRef .tc main_arg1) := StableHlo.after_of_writes_sub hostOps11 _ hostOps11_writes (by decide)
    _ = W21 m ρ c (Proc.devRef .tc main_arg1) := W22_of_ne m ρ c main_arg1 (by decide)
    _ = W20 m ρ c (Proc.devRef .tc main_arg1) := StableHlo.after_of_writes_sub hostOps10 _ hostOps10_writes (by decide)
    _ = W19 m ρ c (Proc.devRef .tc main_arg1) := W20_of_ne m ρ c main_arg1 (by decide)
    _ = W18 m ρ c (Proc.devRef .tc main_arg1) := StableHlo.after_of_writes_sub hostOps9 _ hostOps9_writes (by decide)
    _ = W17 m ρ c (Proc.devRef .tc main_arg1) := W18_of_ne m ρ c main_arg1 (by decide)
    _ = W16 m ρ c (Proc.devRef .tc main_arg1) := StableHlo.after_of_writes_sub hostOps8 _ hostOps8_writes (by decide)
    _ = W15 m ρ c (Proc.devRef .tc main_arg1) := W16_of_ne m ρ c main_arg1 (by decide)
    _ = W14 m ρ c (Proc.devRef .tc main_arg1) := StableHlo.after_of_writes_sub hostOps7 _ hostOps7_writes (by decide)
    _ = W13 m ρ c (Proc.devRef .tc main_arg1) := W14_of_ne m ρ c main_arg1 (by decide)
    _ = W12 m ρ c (Proc.devRef .tc main_arg1) := StableHlo.after_of_writes_sub hostOps6 _ hostOps6_writes (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W29_main_arg2 (c : Dev nD) : W29 m ρ c (Proc.devRef .tc main_arg2) = m ((c : Thread nD τ).loc main_arg2) :=
  calc W29 m ρ c (Proc.devRef .tc main_arg2)
    _ = W28 m ρ c (Proc.devRef .tc main_arg2) := StableHlo.after_of_writes_sub hostOps14 _ hostOps14_writes (by decide)
    _ = W27 m ρ c (Proc.devRef .tc main_arg2) := W28_of_ne m ρ c main_arg2 (by decide)
    _ = W26 m ρ c (Proc.devRef .tc main_arg2) := StableHlo.after_of_writes_sub hostOps13 _ hostOps13_writes (by decide)
    _ = W25 m ρ c (Proc.devRef .tc main_arg2) := W26_of_ne m ρ c main_arg2 (by decide)
    _ = W24 m ρ c (Proc.devRef .tc main_arg2) := StableHlo.after_of_writes_sub hostOps12 _ hostOps12_writes (by decide)
    _ = W23 m ρ c (Proc.devRef .tc main_arg2) := W24_of_ne m ρ c main_arg2 (by decide)
    _ = W22 m ρ c (Proc.devRef .tc main_arg2) := StableHlo.after_of_writes_sub hostOps11 _ hostOps11_writes (by decide)
    _ = W21 m ρ c (Proc.devRef .tc main_arg2) := W22_of_ne m ρ c main_arg2 (by decide)
    _ = W20 m ρ c (Proc.devRef .tc main_arg2) := StableHlo.after_of_writes_sub hostOps10 _ hostOps10_writes (by decide)
    _ = W19 m ρ c (Proc.devRef .tc main_arg2) := W20_of_ne m ρ c main_arg2 (by decide)
    _ = W18 m ρ c (Proc.devRef .tc main_arg2) := StableHlo.after_of_writes_sub hostOps9 _ hostOps9_writes (by decide)
    _ = W17 m ρ c (Proc.devRef .tc main_arg2) := W18_of_ne m ρ c main_arg2 (by decide)
    _ = W16 m ρ c (Proc.devRef .tc main_arg2) := StableHlo.after_of_writes_sub hostOps8 _ hostOps8_writes (by decide)
    _ = W15 m ρ c (Proc.devRef .tc main_arg2) := W16_of_ne m ρ c main_arg2 (by decide)
    _ = W14 m ρ c (Proc.devRef .tc main_arg2) := StableHlo.after_of_writes_sub hostOps7 _ hostOps7_writes (by decide)
    _ = W13 m ρ c (Proc.devRef .tc main_arg2) := W14_of_ne m ρ c main_arg2 (by decide)
    _ = W12 m ρ c (Proc.devRef .tc main_arg2) := StableHlo.after_of_writes_sub hostOps6 _ hostOps6_writes (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := StableHlo.after_of_writes_sub hostOps0 _ hostOps0_writes (by decide)
    _ = m ((c : Thread nD τ).loc main_arg2) := rfl

theorem W29_main_arg3 (c : Dev nD) : W29 m ρ c (Proc.devRef .tc main_arg3) = m ((c : Thread nD τ).loc main_arg3) :=
  calc W29 m ρ c (Proc.devRef .tc main_arg3)
    _ = W28 m ρ c (Proc.devRef .tc main_arg3) := StableHlo.after_of_writes_sub hostOps14 _ hostOps14_writes (by decide)
    _ = W27 m ρ c (Proc.devRef .tc main_arg3) := W28_of_ne m ρ c main_arg3 (by decide)
    _ = W26 m ρ c (Proc.devRef .tc main_arg3) := StableHlo.after_of_writes_sub hostOps13 _ hostOps13_writes (by decide)
    _ = W25 m ρ c (Proc.devRef .tc main_arg3) := W26_of_ne m ρ c main_arg3 (by decide)
    _ = W24 m ρ c (Proc.devRef .tc main_arg3) := StableHlo.after_of_writes_sub hostOps12 _ hostOps12_writes (by decide)
    _ = W23 m ρ c (Proc.devRef .tc main_arg3) := W24_of_ne m ρ c main_arg3 (by decide)
    _ = W22 m ρ c (Proc.devRef .tc main_arg3) := StableHlo.after_of_writes_sub hostOps11 _ hostOps11_writes (by decide)
    _ = W21 m ρ c (Proc.devRef .tc main_arg3) := W22_of_ne m ρ c main_arg3 (by decide)
    _ = W20 m ρ c (Proc.devRef .tc main_arg3) := StableHlo.after_of_writes_sub hostOps10 _ hostOps10_writes (by decide)
    _ = W19 m ρ c (Proc.devRef .tc main_arg3) := W20_of_ne m ρ c main_arg3 (by decide)
    _ = W18 m ρ c (Proc.devRef .tc main_arg3) := StableHlo.after_of_writes_sub hostOps9 _ hostOps9_writes (by decide)
    _ = W17 m ρ c (Proc.devRef .tc main_arg3) := W18_of_ne m ρ c main_arg3 (by decide)
    _ = W16 m ρ c (Proc.devRef .tc main_arg3) := StableHlo.after_of_writes_sub hostOps8 _ hostOps8_writes (by decide)
    _ = W15 m ρ c (Proc.devRef .tc main_arg3) := W16_of_ne m ρ c main_arg3 (by decide)
    _ = W14 m ρ c (Proc.devRef .tc main_arg3) := StableHlo.after_of_writes_sub hostOps7 _ hostOps7_writes (by decide)
    _ = W13 m ρ c (Proc.devRef .tc main_arg3) := W14_of_ne m ρ c main_arg3 (by decide)
    _ = W12 m ρ c (Proc.devRef .tc main_arg3) := StableHlo.after_of_writes_sub hostOps6 _ hostOps6_writes (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_writes_sub hostOps0 _ hostOps0_writes (by decide)
    _ = m ((c : Thread nD τ).loc main_arg3) := rfl

theorem W29_main_arg4 (c : Dev nD) : W29 m ρ c (Proc.devRef .tc main_arg4) = m ((c : Thread nD τ).loc main_arg4) :=
  calc W29 m ρ c (Proc.devRef .tc main_arg4)
    _ = W28 m ρ c (Proc.devRef .tc main_arg4) := StableHlo.after_of_writes_sub hostOps14 _ hostOps14_writes (by decide)
    _ = W27 m ρ c (Proc.devRef .tc main_arg4) := W28_of_ne m ρ c main_arg4 (by decide)
    _ = W26 m ρ c (Proc.devRef .tc main_arg4) := StableHlo.after_of_writes_sub hostOps13 _ hostOps13_writes (by decide)
    _ = W25 m ρ c (Proc.devRef .tc main_arg4) := W26_of_ne m ρ c main_arg4 (by decide)
    _ = W24 m ρ c (Proc.devRef .tc main_arg4) := StableHlo.after_of_writes_sub hostOps12 _ hostOps12_writes (by decide)
    _ = W23 m ρ c (Proc.devRef .tc main_arg4) := W24_of_ne m ρ c main_arg4 (by decide)
    _ = W22 m ρ c (Proc.devRef .tc main_arg4) := StableHlo.after_of_writes_sub hostOps11 _ hostOps11_writes (by decide)
    _ = W21 m ρ c (Proc.devRef .tc main_arg4) := W22_of_ne m ρ c main_arg4 (by decide)
    _ = W20 m ρ c (Proc.devRef .tc main_arg4) := StableHlo.after_of_writes_sub hostOps10 _ hostOps10_writes (by decide)
    _ = W19 m ρ c (Proc.devRef .tc main_arg4) := W20_of_ne m ρ c main_arg4 (by decide)
    _ = W18 m ρ c (Proc.devRef .tc main_arg4) := StableHlo.after_of_writes_sub hostOps9 _ hostOps9_writes (by decide)
    _ = W17 m ρ c (Proc.devRef .tc main_arg4) := W18_of_ne m ρ c main_arg4 (by decide)
    _ = W16 m ρ c (Proc.devRef .tc main_arg4) := StableHlo.after_of_writes_sub hostOps8 _ hostOps8_writes (by decide)
    _ = W15 m ρ c (Proc.devRef .tc main_arg4) := W16_of_ne m ρ c main_arg4 (by decide)
    _ = W14 m ρ c (Proc.devRef .tc main_arg4) := StableHlo.after_of_writes_sub hostOps7 _ hostOps7_writes (by decide)
    _ = W13 m ρ c (Proc.devRef .tc main_arg4) := W14_of_ne m ρ c main_arg4 (by decide)
    _ = W12 m ρ c (Proc.devRef .tc main_arg4) := StableHlo.after_of_writes_sub hostOps6 _ hostOps6_writes (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W29_main_arg5 (c : Dev nD) : W29 m ρ c (Proc.devRef .tc main_arg5) = m ((c : Thread nD τ).loc main_arg5) :=
  calc W29 m ρ c (Proc.devRef .tc main_arg5)
    _ = W28 m ρ c (Proc.devRef .tc main_arg5) := StableHlo.after_of_writes_sub hostOps14 _ hostOps14_writes (by decide)
    _ = W27 m ρ c (Proc.devRef .tc main_arg5) := W28_of_ne m ρ c main_arg5 (by decide)
    _ = W26 m ρ c (Proc.devRef .tc main_arg5) := StableHlo.after_of_writes_sub hostOps13 _ hostOps13_writes (by decide)
    _ = W25 m ρ c (Proc.devRef .tc main_arg5) := W26_of_ne m ρ c main_arg5 (by decide)
    _ = W24 m ρ c (Proc.devRef .tc main_arg5) := StableHlo.after_of_writes_sub hostOps12 _ hostOps12_writes (by decide)
    _ = W23 m ρ c (Proc.devRef .tc main_arg5) := W24_of_ne m ρ c main_arg5 (by decide)
    _ = W22 m ρ c (Proc.devRef .tc main_arg5) := StableHlo.after_of_writes_sub hostOps11 _ hostOps11_writes (by decide)
    _ = W21 m ρ c (Proc.devRef .tc main_arg5) := W22_of_ne m ρ c main_arg5 (by decide)
    _ = W20 m ρ c (Proc.devRef .tc main_arg5) := StableHlo.after_of_writes_sub hostOps10 _ hostOps10_writes (by decide)
    _ = W19 m ρ c (Proc.devRef .tc main_arg5) := W20_of_ne m ρ c main_arg5 (by decide)
    _ = W18 m ρ c (Proc.devRef .tc main_arg5) := StableHlo.after_of_writes_sub hostOps9 _ hostOps9_writes (by decide)
    _ = W17 m ρ c (Proc.devRef .tc main_arg5) := W18_of_ne m ρ c main_arg5 (by decide)
    _ = W16 m ρ c (Proc.devRef .tc main_arg5) := StableHlo.after_of_writes_sub hostOps8 _ hostOps8_writes (by decide)
    _ = W15 m ρ c (Proc.devRef .tc main_arg5) := W16_of_ne m ρ c main_arg5 (by decide)
    _ = W14 m ρ c (Proc.devRef .tc main_arg5) := StableHlo.after_of_writes_sub hostOps7 _ hostOps7_writes (by decide)
    _ = W13 m ρ c (Proc.devRef .tc main_arg5) := W14_of_ne m ρ c main_arg5 (by decide)
    _ = W12 m ρ c (Proc.devRef .tc main_arg5) := StableHlo.after_of_writes_sub hostOps6 _ hostOps6_writes (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W29_main_arg6 (c : Dev nD) : W29 m ρ c (Proc.devRef .tc main_arg6) = m ((c : Thread nD τ).loc main_arg6) :=
  calc W29 m ρ c (Proc.devRef .tc main_arg6)
    _ = W28 m ρ c (Proc.devRef .tc main_arg6) := StableHlo.after_of_writes_sub hostOps14 _ hostOps14_writes (by decide)
    _ = W27 m ρ c (Proc.devRef .tc main_arg6) := W28_of_ne m ρ c main_arg6 (by decide)
    _ = W26 m ρ c (Proc.devRef .tc main_arg6) := StableHlo.after_of_writes_sub hostOps13 _ hostOps13_writes (by decide)
    _ = W25 m ρ c (Proc.devRef .tc main_arg6) := W26_of_ne m ρ c main_arg6 (by decide)
    _ = W24 m ρ c (Proc.devRef .tc main_arg6) := StableHlo.after_of_writes_sub hostOps12 _ hostOps12_writes (by decide)
    _ = W23 m ρ c (Proc.devRef .tc main_arg6) := W24_of_ne m ρ c main_arg6 (by decide)
    _ = W22 m ρ c (Proc.devRef .tc main_arg6) := StableHlo.after_of_writes_sub hostOps11 _ hostOps11_writes (by decide)
    _ = W21 m ρ c (Proc.devRef .tc main_arg6) := W22_of_ne m ρ c main_arg6 (by decide)
    _ = W20 m ρ c (Proc.devRef .tc main_arg6) := StableHlo.after_of_writes_sub hostOps10 _ hostOps10_writes (by decide)
    _ = W19 m ρ c (Proc.devRef .tc main_arg6) := W20_of_ne m ρ c main_arg6 (by decide)
    _ = W18 m ρ c (Proc.devRef .tc main_arg6) := StableHlo.after_of_writes_sub hostOps9 _ hostOps9_writes (by decide)
    _ = W17 m ρ c (Proc.devRef .tc main_arg6) := W18_of_ne m ρ c main_arg6 (by decide)
    _ = W16 m ρ c (Proc.devRef .tc main_arg6) := StableHlo.after_of_writes_sub hostOps8 _ hostOps8_writes (by decide)
    _ = W15 m ρ c (Proc.devRef .tc main_arg6) := W16_of_ne m ρ c main_arg6 (by decide)
    _ = W14 m ρ c (Proc.devRef .tc main_arg6) := StableHlo.after_of_writes_sub hostOps7 _ hostOps7_writes (by decide)
    _ = W13 m ρ c (Proc.devRef .tc main_arg6) := W14_of_ne m ρ c main_arg6 (by decide)
    _ = W12 m ρ c (Proc.devRef .tc main_arg6) := StableHlo.after_of_writes_sub hostOps6 _ hostOps6_writes (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W29_main_arg7 (c : Dev nD) : W29 m ρ c (Proc.devRef .tc main_arg7) = m ((c : Thread nD τ).loc main_arg7) :=
  calc W29 m ρ c (Proc.devRef .tc main_arg7)
    _ = W28 m ρ c (Proc.devRef .tc main_arg7) := StableHlo.after_of_writes_sub hostOps14 _ hostOps14_writes (by decide)
    _ = W27 m ρ c (Proc.devRef .tc main_arg7) := W28_of_ne m ρ c main_arg7 (by decide)
    _ = W26 m ρ c (Proc.devRef .tc main_arg7) := StableHlo.after_of_writes_sub hostOps13 _ hostOps13_writes (by decide)
    _ = W25 m ρ c (Proc.devRef .tc main_arg7) := W26_of_ne m ρ c main_arg7 (by decide)
    _ = W24 m ρ c (Proc.devRef .tc main_arg7) := StableHlo.after_of_writes_sub hostOps12 _ hostOps12_writes (by decide)
    _ = W23 m ρ c (Proc.devRef .tc main_arg7) := W24_of_ne m ρ c main_arg7 (by decide)
    _ = W22 m ρ c (Proc.devRef .tc main_arg7) := StableHlo.after_of_writes_sub hostOps11 _ hostOps11_writes (by decide)
    _ = W21 m ρ c (Proc.devRef .tc main_arg7) := W22_of_ne m ρ c main_arg7 (by decide)
    _ = W20 m ρ c (Proc.devRef .tc main_arg7) := StableHlo.after_of_writes_sub hostOps10 _ hostOps10_writes (by decide)
    _ = W19 m ρ c (Proc.devRef .tc main_arg7) := W20_of_ne m ρ c main_arg7 (by decide)
    _ = W18 m ρ c (Proc.devRef .tc main_arg7) := StableHlo.after_of_writes_sub hostOps9 _ hostOps9_writes (by decide)
    _ = W17 m ρ c (Proc.devRef .tc main_arg7) := W18_of_ne m ρ c main_arg7 (by decide)
    _ = W16 m ρ c (Proc.devRef .tc main_arg7) := StableHlo.after_of_writes_sub hostOps8 _ hostOps8_writes (by decide)
    _ = W15 m ρ c (Proc.devRef .tc main_arg7) := W16_of_ne m ρ c main_arg7 (by decide)
    _ = W14 m ρ c (Proc.devRef .tc main_arg7) := StableHlo.after_of_writes_sub hostOps7 _ hostOps7_writes (by decide)
    _ = W13 m ρ c (Proc.devRef .tc main_arg7) := W14_of_ne m ρ c main_arg7 (by decide)
    _ = W12 m ρ c (Proc.devRef .tc main_arg7) := StableHlo.after_of_writes_sub hostOps6 _ hostOps6_writes (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W29_main_arg8 (c : Dev nD) : W29 m ρ c (Proc.devRef .tc main_arg8) = m ((c : Thread nD τ).loc main_arg8) :=
  calc W29 m ρ c (Proc.devRef .tc main_arg8)
    _ = W28 m ρ c (Proc.devRef .tc main_arg8) := StableHlo.after_of_writes_sub hostOps14 _ hostOps14_writes (by decide)
    _ = W27 m ρ c (Proc.devRef .tc main_arg8) := W28_of_ne m ρ c main_arg8 (by decide)
    _ = W26 m ρ c (Proc.devRef .tc main_arg8) := StableHlo.after_of_writes_sub hostOps13 _ hostOps13_writes (by decide)
    _ = W25 m ρ c (Proc.devRef .tc main_arg8) := W26_of_ne m ρ c main_arg8 (by decide)
    _ = W24 m ρ c (Proc.devRef .tc main_arg8) := StableHlo.after_of_writes_sub hostOps12 _ hostOps12_writes (by decide)
    _ = W23 m ρ c (Proc.devRef .tc main_arg8) := W24_of_ne m ρ c main_arg8 (by decide)
    _ = W22 m ρ c (Proc.devRef .tc main_arg8) := StableHlo.after_of_writes_sub hostOps11 _ hostOps11_writes (by decide)
    _ = W21 m ρ c (Proc.devRef .tc main_arg8) := W22_of_ne m ρ c main_arg8 (by decide)
    _ = W20 m ρ c (Proc.devRef .tc main_arg8) := StableHlo.after_of_writes_sub hostOps10 _ hostOps10_writes (by decide)
    _ = W19 m ρ c (Proc.devRef .tc main_arg8) := W20_of_ne m ρ c main_arg8 (by decide)
    _ = W18 m ρ c (Proc.devRef .tc main_arg8) := StableHlo.after_of_writes_sub hostOps9 _ hostOps9_writes (by decide)
    _ = W17 m ρ c (Proc.devRef .tc main_arg8) := W18_of_ne m ρ c main_arg8 (by decide)
    _ = W16 m ρ c (Proc.devRef .tc main_arg8) := StableHlo.after_of_writes_sub hostOps8 _ hostOps8_writes (by decide)
    _ = W15 m ρ c (Proc.devRef .tc main_arg8) := W16_of_ne m ρ c main_arg8 (by decide)
    _ = W14 m ρ c (Proc.devRef .tc main_arg8) := StableHlo.after_of_writes_sub hostOps7 _ hostOps7_writes (by decide)
    _ = W13 m ρ c (Proc.devRef .tc main_arg8) := W14_of_ne m ρ c main_arg8 (by decide)
    _ = W12 m ρ c (Proc.devRef .tc main_arg8) := StableHlo.after_of_writes_sub hostOps6 _ hostOps6_writes (by decide)
    _ = W11 m ρ c (Proc.devRef .tc main_arg8) := W12_of_ne m ρ c main_arg8 (by decide)
    _ = W10 m ρ c (Proc.devRef .tc main_arg8) := StableHlo.after_of_writes_sub hostOps5 _ hostOps5_writes (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W29_main_arg9 (c : Dev nD) : W29 m ρ c (Proc.devRef .tc main_arg9) = m ((c : Thread nD τ).loc main_arg9) :=
  calc W29 m ρ c (Proc.devRef .tc main_arg9)
    _ = W28 m ρ c (Proc.devRef .tc main_arg9) := StableHlo.after_of_writes_sub hostOps14 _ hostOps14_writes (by decide)
    _ = W27 m ρ c (Proc.devRef .tc main_arg9) := W28_of_ne m ρ c main_arg9 (by decide)
    _ = W26 m ρ c (Proc.devRef .tc main_arg9) := StableHlo.after_of_writes_sub hostOps13 _ hostOps13_writes (by decide)
    _ = W25 m ρ c (Proc.devRef .tc main_arg9) := W26_of_ne m ρ c main_arg9 (by decide)
    _ = W24 m ρ c (Proc.devRef .tc main_arg9) := StableHlo.after_of_writes_sub hostOps12 _ hostOps12_writes (by decide)
    _ = W23 m ρ c (Proc.devRef .tc main_arg9) := W24_of_ne m ρ c main_arg9 (by decide)
    _ = W22 m ρ c (Proc.devRef .tc main_arg9) := StableHlo.after_of_writes_sub hostOps11 _ hostOps11_writes (by decide)
    _ = W21 m ρ c (Proc.devRef .tc main_arg9) := W22_of_ne m ρ c main_arg9 (by decide)
    _ = W20 m ρ c (Proc.devRef .tc main_arg9) := StableHlo.after_of_writes_sub hostOps10 _ hostOps10_writes (by decide)
    _ = W19 m ρ c (Proc.devRef .tc main_arg9) := W20_of_ne m ρ c main_arg9 (by decide)
    _ = W18 m ρ c (Proc.devRef .tc main_arg9) := StableHlo.after_of_writes_sub hostOps9 _ hostOps9_writes (by decide)
    _ = W17 m ρ c (Proc.devRef .tc main_arg9) := W18_of_ne m ρ c main_arg9 (by decide)
    _ = W16 m ρ c (Proc.devRef .tc main_arg9) := StableHlo.after_of_writes_sub hostOps8 _ hostOps8_writes (by decide)
    _ = W15 m ρ c (Proc.devRef .tc main_arg9) := W16_of_ne m ρ c main_arg9 (by decide)
    _ = W14 m ρ c (Proc.devRef .tc main_arg9) := StableHlo.after_of_writes_sub hostOps7 _ hostOps7_writes (by decide)
    _ = W13 m ρ c (Proc.devRef .tc main_arg9) := W14_of_ne m ρ c main_arg9 (by decide)
    _ = W12 m ρ c (Proc.devRef .tc main_arg9) := StableHlo.after_of_writes_sub hostOps6 _ hostOps6_writes (by decide)
    _ = W11 m ρ c (Proc.devRef .tc main_arg9) := W12_of_ne m ρ c main_arg9 (by decide)
    _ = W10 m ρ c (Proc.devRef .tc main_arg9) := StableHlo.after_of_writes_sub hostOps5 _ hostOps5_writes (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W29_main_arg10 (c : Dev nD) : W29 m ρ c (Proc.devRef .tc main_arg10) = m ((c : Thread nD τ).loc main_arg10) :=
  calc W29 m ρ c (Proc.devRef .tc main_arg10)
    _ = W28 m ρ c (Proc.devRef .tc main_arg10) := StableHlo.after_of_writes_sub hostOps14 _ hostOps14_writes (by decide)
    _ = W27 m ρ c (Proc.devRef .tc main_arg10) := W28_of_ne m ρ c main_arg10 (by decide)
    _ = W26 m ρ c (Proc.devRef .tc main_arg10) := StableHlo.after_of_writes_sub hostOps13 _ hostOps13_writes (by decide)
    _ = W25 m ρ c (Proc.devRef .tc main_arg10) := W26_of_ne m ρ c main_arg10 (by decide)
    _ = W24 m ρ c (Proc.devRef .tc main_arg10) := StableHlo.after_of_writes_sub hostOps12 _ hostOps12_writes (by decide)
    _ = W23 m ρ c (Proc.devRef .tc main_arg10) := W24_of_ne m ρ c main_arg10 (by decide)
    _ = W22 m ρ c (Proc.devRef .tc main_arg10) := StableHlo.after_of_writes_sub hostOps11 _ hostOps11_writes (by decide)
    _ = W21 m ρ c (Proc.devRef .tc main_arg10) := W22_of_ne m ρ c main_arg10 (by decide)
    _ = W20 m ρ c (Proc.devRef .tc main_arg10) := StableHlo.after_of_writes_sub hostOps10 _ hostOps10_writes (by decide)
    _ = W19 m ρ c (Proc.devRef .tc main_arg10) := W20_of_ne m ρ c main_arg10 (by decide)
    _ = W18 m ρ c (Proc.devRef .tc main_arg10) := StableHlo.after_of_writes_sub hostOps9 _ hostOps9_writes (by decide)
    _ = W17 m ρ c (Proc.devRef .tc main_arg10) := W18_of_ne m ρ c main_arg10 (by decide)
    _ = W16 m ρ c (Proc.devRef .tc main_arg10) := StableHlo.after_of_writes_sub hostOps8 _ hostOps8_writes (by decide)
    _ = W15 m ρ c (Proc.devRef .tc main_arg10) := W16_of_ne m ρ c main_arg10 (by decide)
    _ = W14 m ρ c (Proc.devRef .tc main_arg10) := StableHlo.after_of_writes_sub hostOps7 _ hostOps7_writes (by decide)
    _ = W13 m ρ c (Proc.devRef .tc main_arg10) := W14_of_ne m ρ c main_arg10 (by decide)
    _ = W12 m ρ c (Proc.devRef .tc main_arg10) := StableHlo.after_of_writes_sub hostOps6 _ hostOps6_writes (by decide)
    _ = W11 m ρ c (Proc.devRef .tc main_arg10) := W12_of_ne m ρ c main_arg10 (by decide)
    _ = W10 m ρ c (Proc.devRef .tc main_arg10) := StableHlo.after_of_writes_sub hostOps5 _ hostOps5_writes (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W29_main_arg11 (c : Dev nD) : W29 m ρ c (Proc.devRef .tc main_arg11) = m ((c : Thread nD τ).loc main_arg11) :=
  calc W29 m ρ c (Proc.devRef .tc main_arg11)
    _ = W28 m ρ c (Proc.devRef .tc main_arg11) := StableHlo.after_of_writes_sub hostOps14 _ hostOps14_writes (by decide)
    _ = W27 m ρ c (Proc.devRef .tc main_arg11) := W28_of_ne m ρ c main_arg11 (by decide)
    _ = W26 m ρ c (Proc.devRef .tc main_arg11) := StableHlo.after_of_writes_sub hostOps13 _ hostOps13_writes (by decide)
    _ = W25 m ρ c (Proc.devRef .tc main_arg11) := W26_of_ne m ρ c main_arg11 (by decide)
    _ = W24 m ρ c (Proc.devRef .tc main_arg11) := StableHlo.after_of_writes_sub hostOps12 _ hostOps12_writes (by decide)
    _ = W23 m ρ c (Proc.devRef .tc main_arg11) := W24_of_ne m ρ c main_arg11 (by decide)
    _ = W22 m ρ c (Proc.devRef .tc main_arg11) := StableHlo.after_of_writes_sub hostOps11 _ hostOps11_writes (by decide)
    _ = W21 m ρ c (Proc.devRef .tc main_arg11) := W22_of_ne m ρ c main_arg11 (by decide)
    _ = W20 m ρ c (Proc.devRef .tc main_arg11) := StableHlo.after_of_writes_sub hostOps10 _ hostOps10_writes (by decide)
    _ = W19 m ρ c (Proc.devRef .tc main_arg11) := W20_of_ne m ρ c main_arg11 (by decide)
    _ = W18 m ρ c (Proc.devRef .tc main_arg11) := StableHlo.after_of_writes_sub hostOps9 _ hostOps9_writes (by decide)
    _ = W17 m ρ c (Proc.devRef .tc main_arg11) := W18_of_ne m ρ c main_arg11 (by decide)
    _ = W16 m ρ c (Proc.devRef .tc main_arg11) := StableHlo.after_of_writes_sub hostOps8 _ hostOps8_writes (by decide)
    _ = W15 m ρ c (Proc.devRef .tc main_arg11) := W16_of_ne m ρ c main_arg11 (by decide)
    _ = W14 m ρ c (Proc.devRef .tc main_arg11) := StableHlo.after_of_writes_sub hostOps7 _ hostOps7_writes (by decide)
    _ = W13 m ρ c (Proc.devRef .tc main_arg11) := W14_of_ne m ρ c main_arg11 (by decide)
    _ = W12 m ρ c (Proc.devRef .tc main_arg11) := StableHlo.after_of_writes_sub hostOps6 _ hostOps6_writes (by decide)
    _ = W11 m ρ c (Proc.devRef .tc main_arg11) := W12_of_ne m ρ c main_arg11 (by decide)
    _ = W10 m ρ c (Proc.devRef .tc main_arg11) := StableHlo.after_of_writes_sub hostOps5 _ hostOps5_writes (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W29_main_arg12 (c : Dev nD) : W29 m ρ c (Proc.devRef .tc main_arg12) = m ((c : Thread nD τ).loc main_arg12) :=
  calc W29 m ρ c (Proc.devRef .tc main_arg12)
    _ = W28 m ρ c (Proc.devRef .tc main_arg12) := StableHlo.after_of_writes_sub hostOps14 _ hostOps14_writes (by decide)
    _ = W27 m ρ c (Proc.devRef .tc main_arg12) := W28_of_ne m ρ c main_arg12 (by decide)
    _ = W26 m ρ c (Proc.devRef .tc main_arg12) := StableHlo.after_of_writes_sub hostOps13 _ hostOps13_writes (by decide)
    _ = W25 m ρ c (Proc.devRef .tc main_arg12) := W26_of_ne m ρ c main_arg12 (by decide)
    _ = W24 m ρ c (Proc.devRef .tc main_arg12) := StableHlo.after_of_writes_sub hostOps12 _ hostOps12_writes (by decide)
    _ = W23 m ρ c (Proc.devRef .tc main_arg12) := W24_of_ne m ρ c main_arg12 (by decide)
    _ = W22 m ρ c (Proc.devRef .tc main_arg12) := StableHlo.after_of_writes_sub hostOps11 _ hostOps11_writes (by decide)
    _ = W21 m ρ c (Proc.devRef .tc main_arg12) := W22_of_ne m ρ c main_arg12 (by decide)
    _ = W20 m ρ c (Proc.devRef .tc main_arg12) := StableHlo.after_of_writes_sub hostOps10 _ hostOps10_writes (by decide)
    _ = W19 m ρ c (Proc.devRef .tc main_arg12) := W20_of_ne m ρ c main_arg12 (by decide)
    _ = W18 m ρ c (Proc.devRef .tc main_arg12) := StableHlo.after_of_writes_sub hostOps9 _ hostOps9_writes (by decide)
    _ = W17 m ρ c (Proc.devRef .tc main_arg12) := W18_of_ne m ρ c main_arg12 (by decide)
    _ = W16 m ρ c (Proc.devRef .tc main_arg12) := StableHlo.after_of_writes_sub hostOps8 _ hostOps8_writes (by decide)
    _ = W15 m ρ c (Proc.devRef .tc main_arg12) := W16_of_ne m ρ c main_arg12 (by decide)
    _ = W14 m ρ c (Proc.devRef .tc main_arg12) := StableHlo.after_of_writes_sub hostOps7 _ hostOps7_writes (by decide)
    _ = W13 m ρ c (Proc.devRef .tc main_arg12) := W14_of_ne m ρ c main_arg12 (by decide)
    _ = W12 m ρ c (Proc.devRef .tc main_arg12) := StableHlo.after_of_writes_sub hostOps6 _ hostOps6_writes (by decide)
    _ = W11 m ρ c (Proc.devRef .tc main_arg12) := W12_of_ne m ρ c main_arg12 (by decide)
    _ = W10 m ρ c (Proc.devRef .tc main_arg12) := StableHlo.after_of_writes_sub hostOps5 _ hostOps5_writes (by decide)
    _ = W9 m ρ c (Proc.devRef .tc main_arg12) := W10_of_ne m ρ c main_arg12 (by decide)
    _ = W8 m ρ c (Proc.devRef .tc main_arg12) := StableHlo.after_of_writes_sub hostOps4 _ hostOps4_writes (by decide)
    _ = W7 m ρ c (Proc.devRef .tc main_arg12) := W8_of_ne m ρ c main_arg12 (by decide)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W29_main_arg13 (c : Dev nD) : W29 m ρ c (Proc.devRef .tc main_arg13) = m ((c : Thread nD τ).loc main_arg13) :=
  calc W29 m ρ c (Proc.devRef .tc main_arg13)
    _ = W28 m ρ c (Proc.devRef .tc main_arg13) := StableHlo.after_of_writes_sub hostOps14 _ hostOps14_writes (by decide)
    _ = W27 m ρ c (Proc.devRef .tc main_arg13) := W28_of_ne m ρ c main_arg13 (by decide)
    _ = W26 m ρ c (Proc.devRef .tc main_arg13) := StableHlo.after_of_writes_sub hostOps13 _ hostOps13_writes (by decide)
    _ = W25 m ρ c (Proc.devRef .tc main_arg13) := W26_of_ne m ρ c main_arg13 (by decide)
    _ = W24 m ρ c (Proc.devRef .tc main_arg13) := StableHlo.after_of_writes_sub hostOps12 _ hostOps12_writes (by decide)
    _ = W23 m ρ c (Proc.devRef .tc main_arg13) := W24_of_ne m ρ c main_arg13 (by decide)
    _ = W22 m ρ c (Proc.devRef .tc main_arg13) := StableHlo.after_of_writes_sub hostOps11 _ hostOps11_writes (by decide)
    _ = W21 m ρ c (Proc.devRef .tc main_arg13) := W22_of_ne m ρ c main_arg13 (by decide)
    _ = W20 m ρ c (Proc.devRef .tc main_arg13) := StableHlo.after_of_writes_sub hostOps10 _ hostOps10_writes (by decide)
    _ = W19 m ρ c (Proc.devRef .tc main_arg13) := W20_of_ne m ρ c main_arg13 (by decide)
    _ = W18 m ρ c (Proc.devRef .tc main_arg13) := StableHlo.after_of_writes_sub hostOps9 _ hostOps9_writes (by decide)
    _ = W17 m ρ c (Proc.devRef .tc main_arg13) := W18_of_ne m ρ c main_arg13 (by decide)
    _ = W16 m ρ c (Proc.devRef .tc main_arg13) := StableHlo.after_of_writes_sub hostOps8 _ hostOps8_writes (by decide)
    _ = W15 m ρ c (Proc.devRef .tc main_arg13) := W16_of_ne m ρ c main_arg13 (by decide)
    _ = W14 m ρ c (Proc.devRef .tc main_arg13) := StableHlo.after_of_writes_sub hostOps7 _ hostOps7_writes (by decide)
    _ = W13 m ρ c (Proc.devRef .tc main_arg13) := W14_of_ne m ρ c main_arg13 (by decide)
    _ = W12 m ρ c (Proc.devRef .tc main_arg13) := StableHlo.after_of_writes_sub hostOps6 _ hostOps6_writes (by decide)
    _ = W11 m ρ c (Proc.devRef .tc main_arg13) := W12_of_ne m ρ c main_arg13 (by decide)
    _ = W10 m ρ c (Proc.devRef .tc main_arg13) := StableHlo.after_of_writes_sub hostOps5 _ hostOps5_writes (by decide)
    _ = W9 m ρ c (Proc.devRef .tc main_arg13) := W10_of_ne m ρ c main_arg13 (by decide)
    _ = W8 m ρ c (Proc.devRef .tc main_arg13) := StableHlo.after_of_writes_sub hostOps4 _ hostOps4_writes (by decide)
    _ = W7 m ρ c (Proc.devRef .tc main_arg13) := W8_of_ne m ρ c main_arg13 (by decide)
    _ = W6 m ρ c (Proc.devRef .tc main_arg13) := StableHlo.after_of_writes_sub hostOps3 _ hostOps3_writes (by decide)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W29_main_arg14 (c : Dev nD) : W29 m ρ c (Proc.devRef .tc main_arg14) = m ((c : Thread nD τ).loc main_arg14) :=
  calc W29 m ρ c (Proc.devRef .tc main_arg14)
    _ = W28 m ρ c (Proc.devRef .tc main_arg14) := StableHlo.after_of_writes_sub hostOps14 _ hostOps14_writes (by decide)
    _ = W27 m ρ c (Proc.devRef .tc main_arg14) := (W28_arr m ρ c 1).trans (((dat13 (V27 m ρ) c).arrAt_in 1 rfl _).trans (A_eq13 (V27 m ρ) c 1))
    _ = W26 m ρ c (Proc.devRef .tc main_arg14) := StableHlo.after_of_writes_sub hostOps13 _ hostOps13_writes (by decide)
    _ = W25 m ρ c (Proc.devRef .tc main_arg14) := W26_of_ne m ρ c main_arg14 (by decide)
    _ = W24 m ρ c (Proc.devRef .tc main_arg14) := StableHlo.after_of_writes_sub hostOps12 _ hostOps12_writes (by decide)
    _ = W23 m ρ c (Proc.devRef .tc main_arg14) := W24_of_ne m ρ c main_arg14 (by decide)
    _ = W22 m ρ c (Proc.devRef .tc main_arg14) := StableHlo.after_of_writes_sub hostOps11 _ hostOps11_writes (by decide)
    _ = W21 m ρ c (Proc.devRef .tc main_arg14) := W22_of_ne m ρ c main_arg14 (by decide)
    _ = W20 m ρ c (Proc.devRef .tc main_arg14) := StableHlo.after_of_writes_sub hostOps10 _ hostOps10_writes (by decide)
    _ = W19 m ρ c (Proc.devRef .tc main_arg14) := W20_of_ne m ρ c main_arg14 (by decide)
    _ = W18 m ρ c (Proc.devRef .tc main_arg14) := StableHlo.after_of_writes_sub hostOps9 _ hostOps9_writes (by decide)
    _ = W17 m ρ c (Proc.devRef .tc main_arg14) := W18_of_ne m ρ c main_arg14 (by decide)
    _ = W16 m ρ c (Proc.devRef .tc main_arg14) := StableHlo.after_of_writes_sub hostOps8 _ hostOps8_writes (by decide)
    _ = W15 m ρ c (Proc.devRef .tc main_arg14) := W16_of_ne m ρ c main_arg14 (by decide)
    _ = W14 m ρ c (Proc.devRef .tc main_arg14) := StableHlo.after_of_writes_sub hostOps7 _ hostOps7_writes (by decide)
    _ = W13 m ρ c (Proc.devRef .tc main_arg14) := W14_of_ne m ρ c main_arg14 (by decide)
    _ = W12 m ρ c (Proc.devRef .tc main_arg14) := StableHlo.after_of_writes_sub hostOps6 _ hostOps6_writes (by decide)
    _ = W11 m ρ c (Proc.devRef .tc main_arg14) := W12_of_ne m ρ c main_arg14 (by decide)
    _ = W10 m ρ c (Proc.devRef .tc main_arg14) := StableHlo.after_of_writes_sub hostOps5 _ hostOps5_writes (by decide)
    _ = W9 m ρ c (Proc.devRef .tc main_arg14) := W10_of_ne m ρ c main_arg14 (by decide)
    _ = W8 m ρ c (Proc.devRef .tc main_arg14) := StableHlo.after_of_writes_sub hostOps4 _ hostOps4_writes (by decide)
    _ = W7 m ρ c (Proc.devRef .tc main_arg14) := W8_of_ne m ρ c main_arg14 (by decide)
    _ = W6 m ρ c (Proc.devRef .tc main_arg14) := StableHlo.after_of_writes_sub hostOps3 _ hostOps3_writes (by decide)
    _ = W5 m ρ c (Proc.devRef .tc main_arg14) := W6_of_ne m ρ c main_arg14 (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

theorem W29_main_arg15 (c : Dev nD) : W29 m ρ c (Proc.devRef .tc main_arg15) = m ((c : Thread nD τ).loc main_arg15) :=
  calc W29 m ρ c (Proc.devRef .tc main_arg15)
    _ = W28 m ρ c (Proc.devRef .tc main_arg15) := StableHlo.after_of_writes_sub hostOps14 _ hostOps14_writes (by decide)
    _ = W27 m ρ c (Proc.devRef .tc main_arg15) := W28_of_ne m ρ c main_arg15 (by decide)
    _ = W26 m ρ c (Proc.devRef .tc main_arg15) := StableHlo.after_of_writes_sub hostOps13 _ hostOps13_writes (by decide)
    _ = W25 m ρ c (Proc.devRef .tc main_arg15) := W26_of_ne m ρ c main_arg15 (by decide)
    _ = W24 m ρ c (Proc.devRef .tc main_arg15) := StableHlo.after_of_writes_sub hostOps12 _ hostOps12_writes (by decide)
    _ = W23 m ρ c (Proc.devRef .tc main_arg15) := W24_of_ne m ρ c main_arg15 (by decide)
    _ = W22 m ρ c (Proc.devRef .tc main_arg15) := StableHlo.after_of_writes_sub hostOps11 _ hostOps11_writes (by decide)
    _ = W21 m ρ c (Proc.devRef .tc main_arg15) := W22_of_ne m ρ c main_arg15 (by decide)
    _ = W20 m ρ c (Proc.devRef .tc main_arg15) := StableHlo.after_of_writes_sub hostOps10 _ hostOps10_writes (by decide)
    _ = W19 m ρ c (Proc.devRef .tc main_arg15) := W20_of_ne m ρ c main_arg15 (by decide)
    _ = W18 m ρ c (Proc.devRef .tc main_arg15) := StableHlo.after_of_writes_sub hostOps9 _ hostOps9_writes (by decide)
    _ = W17 m ρ c (Proc.devRef .tc main_arg15) := W18_of_ne m ρ c main_arg15 (by decide)
    _ = W16 m ρ c (Proc.devRef .tc main_arg15) := StableHlo.after_of_writes_sub hostOps8 _ hostOps8_writes (by decide)
    _ = W15 m ρ c (Proc.devRef .tc main_arg15) := W16_of_ne m ρ c main_arg15 (by decide)
    _ = W14 m ρ c (Proc.devRef .tc main_arg15) := StableHlo.after_of_writes_sub hostOps7 _ hostOps7_writes (by decide)
    _ = W13 m ρ c (Proc.devRef .tc main_arg15) := W14_of_ne m ρ c main_arg15 (by decide)
    _ = W12 m ρ c (Proc.devRef .tc main_arg15) := StableHlo.after_of_writes_sub hostOps6 _ hostOps6_writes (by decide)
    _ = W11 m ρ c (Proc.devRef .tc main_arg15) := W12_of_ne m ρ c main_arg15 (by decide)
    _ = W10 m ρ c (Proc.devRef .tc main_arg15) := StableHlo.after_of_writes_sub hostOps5 _ hostOps5_writes (by decide)
    _ = W9 m ρ c (Proc.devRef .tc main_arg15) := W10_of_ne m ρ c main_arg15 (by decide)
    _ = W8 m ρ c (Proc.devRef .tc main_arg15) := StableHlo.after_of_writes_sub hostOps4 _ hostOps4_writes (by decide)
    _ = W7 m ρ c (Proc.devRef .tc main_arg15) := W8_of_ne m ρ c main_arg15 (by decide)
    _ = W6 m ρ c (Proc.devRef .tc main_arg15) := StableHlo.after_of_writes_sub hostOps3 _ hostOps3_writes (by decide)
    _ = W5 m ρ c (Proc.devRef .tc main_arg15) := W6_of_ne m ρ c main_arg15 (by decide)
    _ = W4 m ρ c (Proc.devRef .tc main_arg15) := StableHlo.after_of_writes_sub hostOps2 _ hostOps2_writes (by decide)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

end Cert.Kernel.Hand

end
-- ==== Proof.KB.RegionSeg.lean ====
import proofs.«159011_j9938554322955_1_alg».proof.Proof.Gen.Kernel.Launch
import proofs.«159011_j9938554322955_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the decided facts over 517 references and 16 windows recurse past the default depth
set_option maxRecDepth 4628

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The segments of @main over one thread state

Between two segments of @main core `c` holds every unscoped buffer whole at the boundary's contents, its generator
register at some state, and owes nothing. A host stretch runs from the contents `W c` to `StableHlo.after ops (W c)`.
A kernel region is entered from the contents `Wi c` and left at `Wo c`, which has the region's window arrays at what
the write-backs leave and every other buffer as entered. -/

noncomputable abbrev 𝒱₀ : Variants := Variants.none
/-- No core owes another anything: no level is assigned. -/
noncomputable abbrev L : GSem nD τ sig → Finset Unit := fun _ => ∅
noncomputable abbrev lv : GSem nD τ sig → Unit → ℕ := fun _ _ => 0
/-- What rides beside the buffers through every segment: the core's generator register at some state and its
    `owes`, at nothing. -/
noncomputable abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at `StableHlo.after ops (W c)`. -/
noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## A kernel region as a segment

For any pipeline `p` of the fourteen and any proof data family `pd`: GIVEN the launch facts of `p`; the body obligation
of `pd p c`; that `pd p c` owes nothing, bounds its recorded pairs by nothing, holds its arrays at the full share, and reads its entry arrays off `Wi c`; that
`Wo c` has the arrays at what the write-backs leave (`hF`) and agrees with `Wi c` elsewhere (`hrest`); and that the
region's invariant at the first point follows from the generator register and the scoped buffers no window stages
(`hin`) and at the last point gives them back (`hout`) — the region is a segment from every unscoped buffer at `Wi c`
to every unscoped buffer at `Wo c`. The window arrays are split out of the unscoped buffers at entry and put back at
the exit contents; the generator register goes into the invariant and comes back; nothing is owed; the kernel has no
semaphore of its own and no prefetched table. -/

set_option backward.isDefEq.respectTransparency.types false in
noncomputable def regionSeg
    (pd : (p : Fin 14) → (c : Dev nD) → Dat τ (Elt F) Unit ℕ (UR sig nD τ) ℕ (Pipeline.pin (pcfgs (F := F)) adm p) c)
    (p : Fin 14) (lf : Pipeline.LaunchFacts (nD := nD) (τ := τ) cfgs p)
    (Wi Wo : Dev nD → Valuation τ sig (Elt F))
    (hbody : ∀ c, BodyObligation (pd p c) (defs₀ (F := F)) Variants.none () Set.univ)
    (howed : ∀ c t, (pd p c).owed t = 0)
    (hrec : ∀ c t, (pd p c).recorded t = Set.univ)
    (hq : ∀ c w, (pd p c).q w = fullShare)
    (hA : ∀ c w, (pd p c).A w = Wi c (Proc.devRef .tc (Pipeline.arrRef (Pipeline.pin (pcfgs (F := F)) adm p).spec w)))
    (hF : ∀ c w, (pd p c).arrAt w (Pipeline.pin (pcfgs (F := F)) adm p).N
      = Wo c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec)
      → Wo c (Proc.devRef .tc b) = Wi c (Proc.devRef .tc b))
    (hin : ∀ c, (iprop((∃ r, prngReg c r) ∗ Pipeline.scopedRest (Ix := Unit) (Name := ℕ) (U := UR sig nD τ) (Lvl := ℕ) (Val := Elt F)
        (Pipeline.pin (pcfgs (F := F)) adm p).spec c) : sProp 𝕄) ⊢ (pd p c).Φ 0)
    (hout : ∀ c, (pd p c).Φ (Fin.last (Pipeline.pin (pcfgs (F := F)) adm p).N)
      ⊢ (iprop((∃ r, prngReg c r) ∗ Pipeline.scopedRest (Ix := Unit) (Name := ℕ) (U := UR sig nD τ) (Lvl := ℕ) (Val := Elt F)
        (Pipeline.pin (pcfgs (F := F)) adm p).spec c) : sProp 𝕄)) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c
    (fun b => Wi c (Proc.devRef .tc b))
  hentry c := by
    rw [Pipeline.ownSems0_none]
    have hsplit := Pipeline.arrays_of_unscopedBufs (p := p) (pcfgs (F := F)) adm pd lf.win lf.arr_whole c
      ((pd p c).share_full (hq c)) (fun b => Wi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c 0]
      icases HO with ⟨%W, HO⟩; iexists W; isplitr; · ipureintro; exact fun _ _ => Or.inl trivial
      iexact HO
    isplitl [Hp]; · iexact Hp
    iexact Hrest
  hin c := by
    refine BIBase.Entails.trans ?_ (hin c)
    iintro ⟨Hp, -, Hr⟩
    isplitl [Hp]; · iexact Hp
    iexact Hr
  hout c := by
    rw [Pipeline.ownSems0_none]
    refine BIBase.Entails.trans (hout c) ?_
    iintro ⟨Hr, Hp⟩
    isplitl [Hr]; · iexact Hr
    isplitr; · iempintro
    iexact Hp
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => Wi c (Proc.devRef .tc b)) (fun b => Wo c (Proc.devRef .tc b))
      ((pd p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Cert.Kernel.Hand

end
-- ==== Proof.KB.Segs.lean ====
import proofs.«159011_j9938554322955_1_alg».proof.Proof.KB.Fold
import proofs.«159011_j9938554322955_1_alg».proof.Proof.KB.RegionSeg

-- the decided facts over 517 references and 16 windows recurse past the default depth
set_option maxRecDepth 4628

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents — a literal `match`, so that the pinned
    configuration at a numeral reduces to the printed one. -/
noncomputable def pdats : (p : Fin 14) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V25 m ρ) c
  | ⟨13, _⟩ => fun c => dat13 (V27 m ρ) c
  | ⟨_ + 14, h⟩ => absurd h (Nat.not_lt.2 (Nat.le_add_left _ _))

set_option backward.isDefEq.respectTransparency.types false in
/-- REGION 0 as a segment: entered from every unscoped buffer at `W1`, left at `W2`. -/
noncomputable def reg0 : Pipeline.RegionSeg (pcfgs (F := F)) adm (pdats m ρ) () defs₀ 𝒱₀ L lv 0 :=
  regionSeg (pdats m ρ) 0 launch0 (W1 m ρ) (W2 m ρ) (body_obligation0 (V1 m ρ))
    (fun _ _ => rfl) (fun _ _ => rfl) (fun _ _ => rfl) (fun _ _ => rfl)
    (hF0 m ρ) (hrest0 m ρ) (phi_in0 (V1 m ρ)) (phi_out0 (V1 m ρ))

set_option backward.isDefEq.respectTransparency.types false in
/-- REGION 1 as a segment: entered from every unscoped buffer at `W3`, left at `W4`. -/
noncomputable def reg1 : Pipeline.RegionSeg (pcfgs (F := F)) adm (pdats m ρ) () defs₀ 𝒱₀ L lv 1 :=
  regionSeg (pdats m ρ) 1 launch1 (W3 m ρ) (W4 m ρ) (body_obligation1 (V3 m ρ))
    (fun _ _ => rfl) (fun _ _ => rfl) (fun _ _ => rfl) (fun _ _ => rfl)
    (hF1 m ρ) (hrest1 m ρ) (phi_in1 (V3 m ρ)) (phi_out1 (V3 m ρ))

set_option backward.isDefEq.respectTransparency.types false in
/-- REGION 2 as a segment: entered from every unscoped buffer at `W5`, left at `W6`. -/
noncomputable def reg2 : Pipeline.RegionSeg (pcfgs (F := F)) adm (pdats m ρ) () defs₀ 𝒱₀ L lv 2 :=
  regionSeg (pdats m ρ) 2 launch2 (W5 m ρ) (W6 m ρ) (body_obligation2 (V5 m ρ))
    (fun _ _ => rfl) (fun _ _ => rfl) (fun _ _ => rfl) (fun _ _ => rfl)
    (hF2 m ρ) (hrest2 m ρ) (phi_in2 (V5 m ρ)) (phi_out2 (V5 m ρ))

set_option backward.isDefEq.respectTransparency.types false in
/-- REGION 3 as a segment: entered from every unscoped buffer at `W7`, left at `W8`. -/
noncomputable def reg3 : Pipeline.RegionSeg (pcfgs (F := F)) adm (pdats m ρ) () defs₀ 𝒱₀ L lv 3 :=
  regionSeg (pdats m ρ) 3 launch3 (W7 m ρ) (W8 m ρ) (body_obligation3 (V7 m ρ))
    (fun _ _ => rfl) (fun _ _ => rfl) (fun _ _ => rfl) (fun _ _ => rfl)
    (hF3 m ρ) (hrest3 m ρ) (phi_in3 (V7 m ρ)) (phi_out3 (V7 m ρ))

set_option backward.isDefEq.respectTransparency.types false in
/-- REGION 4 as a segment: entered from every unscoped buffer at `W9`, left at `W10`. -/
noncomputable def reg4 : Pipeline.RegionSeg (pcfgs (F := F)) adm (pdats m ρ) () defs₀ 𝒱₀ L lv 4 :=
  regionSeg (pdats m ρ) 4 launch4 (W9 m ρ) (W10 m ρ) (body_obligation4 (V9 m ρ))
    (fun _ _ => rfl) (fun _ _ => rfl) (fun _ _ => rfl) (fun _ _ => rfl)
    (hF4 m ρ) (hrest4 m ρ) (phi_in4 (V9 m ρ)) (phi_out4 (V9 m ρ))

set_option backward.isDefEq.respectTransparency.types false in
/-- REGION 5 as a segment: entered from every unscoped buffer at `W11`, left at `W12`. -/
noncomputable def reg5 : Pipeline.RegionSeg (pcfgs (F := F)) adm (pdats m ρ) () defs₀ 𝒱₀ L lv 5 :=
  regionSeg (pdats m ρ) 5 launch5 (W11 m ρ) (W12 m ρ) (body_obligation5 (V11 m ρ))
    (fun _ _ => rfl) (fun _ _ => rfl) (fun _ _ => rfl) (fun _ _ => rfl)
    (hF5 m ρ) (hrest5 m ρ) (phi_in5 (V11 m ρ)) (phi_out5 (V11 m ρ))

set_option backward.isDefEq.respectTransparency.types false in
/-- REGION 6 as a segment: entered from every unscoped buffer at `W13`, left at `W14`. -/
noncomputable def reg6 : Pipeline.RegionSeg (pcfgs (F := F)) adm (pdats m ρ) () defs₀ 𝒱₀ L lv 6 :=
  regionSeg (pdats m ρ) 6 launch6 (W13 m ρ) (W14 m ρ) (body_obligation6 (V13 m ρ))
    (fun _ _ => rfl) (fun _ _ => rfl) (fun _ _ => rfl) (fun _ _ => rfl)
    (hF6 m ρ) (hrest6 m ρ) (phi_in6 (V13 m ρ)) (phi_out6 (V13 m ρ))

set_option backward.isDefEq.respectTransparency.types false in
/-- REGION 7 as a segment: entered from every unscoped buffer at `W15`, left at `W16`. -/
noncomputable def reg7 : Pipeline.RegionSeg (pcfgs (F := F)) adm (pdats m ρ) () defs₀ 𝒱₀ L lv 7 :=
  regionSeg (pdats m ρ) 7 launch7 (W15 m ρ) (W16 m ρ) (body_obligation7 (V15 m ρ))
    (fun _ _ => rfl) (fun _ _ => rfl) (fun _ _ => rfl) (fun _ _ => rfl)
    (hF7 m ρ) (hrest7 m ρ) (phi_in7 (V15 m ρ)) (phi_out7 (V15 m ρ))

set_option backward.isDefEq.respectTransparency.types false in
/-- REGION 8 as a segment: entered from every unscoped buffer at `W17`, left at `W18`. -/
noncomputable def reg8 : Pipeline.RegionSeg (pcfgs (F := F)) adm (pdats m ρ) () defs₀ 𝒱₀ L lv 8 :=
  regionSeg (pdats m ρ) 8 launch8 (W17 m ρ) (W18 m ρ) (body_obligation8 (V17 m ρ))
    (fun _ _ => rfl) (fun _ _ => rfl) (fun _ _ => rfl) (fun _ _ => rfl)
    (hF8 m ρ) (hrest8 m ρ) (phi_in8 (V17 m ρ)) (phi_out8 (V17 m ρ))

set_option backward.isDefEq.respectTransparency.types false in
/-- REGION 9 as a segment: entered from every unscoped buffer at `W19`, left at `W20`. -/
noncomputable def reg9 : Pipeline.RegionSeg (pcfgs (F := F)) adm (pdats m ρ) () defs₀ 𝒱₀ L lv 9 :=
  regionSeg (pdats m ρ) 9 launch9 (W19 m ρ) (W20 m ρ) (body_obligation9 (V19 m ρ))
    (fun _ _ => rfl) (fun _ _ => rfl) (fun _ _ => rfl) (fun _ _ => rfl)
    (hF9 m ρ) (hrest9 m ρ) (phi_in9 (V19 m ρ)) (phi_out9 (V19 m ρ))

set_option backward.isDefEq.respectTransparency.types false in
/-- REGION 10 as a segment: entered from every unscoped buffer at `W21`, left at `W22`. -/
noncomputable def reg10 : Pipeline.RegionSeg (pcfgs (F := F)) adm (pdats m ρ) () defs₀ 𝒱₀ L lv 10 :=
  regionSeg (pdats m ρ) 10 launch10 (W21 m ρ) (W22 m ρ) (body_obligation10 (V21 m ρ))
    (fun _ _ => rfl) (fun _ _ => rfl) (fun _ _ => rfl) (fun _ _ => rfl)
    (hF10 m ρ) (hrest10 m ρ) (phi_in10 (V21 m ρ)) (phi_out10 (V21 m ρ))

set_option backward.isDefEq.respectTransparency.types false in
/-- REGION 11 as a segment: entered from every unscoped buffer at `W23`, left at `W24`. -/
noncomputable def reg11 : Pipeline.RegionSeg (pcfgs (F := F)) adm (pdats m ρ) () defs₀ 𝒱₀ L lv 11 :=
  regionSeg (pdats m ρ) 11 launch11 (W23 m ρ) (W24 m ρ) (body_obligation11 (V23 m ρ))
    (fun _ _ => rfl) (fun _ _ => rfl) (fun _ _ => rfl) (fun _ _ => rfl)
    (hF11 m ρ) (hrest11 m ρ) (phi_in11 (V23 m ρ)) (phi_out11 (V23 m ρ))

set_option backward.isDefEq.respectTransparency.types false in
/-- REGION 12 as a segment: entered from every unscoped buffer at `W25`, left at `W26`. -/
noncomputable def reg12 : Pipeline.RegionSeg (pcfgs (F := F)) adm (pdats m ρ) () defs₀ 𝒱₀ L lv 12 :=
  regionSeg (pdats m ρ) 12 launch12 (W25 m ρ) (W26 m ρ) (body_obligation12 (V25 m ρ))
    (fun _ _ => rfl) (fun _ _ => rfl) (fun _ _ => rfl) (fun _ _ => rfl)
    (hF12 m ρ) (hrest12 m ρ) (phi_in12 (V25 m ρ)) (phi_out12 (V25 m ρ))

set_option backward.isDefEq.respectTransparency.types false in
/-- REGION 13 as a segment: entered from every unscoped buffer at `W27`, left at `W28`. -/
noncomputable def reg13 : Pipeline.RegionSeg (pcfgs (F := F)) adm (pdats m ρ) () defs₀ 𝒱₀ L lv 13 :=
  regionSeg (pdats m ρ) 13 launch13 (W27 m ρ) (W28 m ρ) (body_obligation13 (V27 m ρ))
    (fun _ _ => rfl) (fun _ _ => rfl) (fun _ _ => rfl) (fun _ _ => rfl)
    (hF13 m ρ) (hrest13 m ρ) (phi_in13 (V27 m ρ)) (phi_out13 (V27 m ρ))

/-- @main's 29 segments in order: a host segment per stretch from its boundary's contents, a region per kernel call. -/
noncomputable abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .host (hseg hostOps12 hostOps12_sub hostOps12_fresh (W24 m ρ)),
    .region (reg12 m ρ),
    .host (hseg hostOps13 hostOps13_sub hostOps13_fresh (W26 m ρ)),
    .region (reg13 m ρ),
    .host (hseg hostOps14 hostOps14_sub hostOps14_fresh (W28 m ρ)) ]

end Cert.Kernel.Hand

end
-- ==== Proof.KB.Run.lean ====
import proofs.«159011_j9938554322955_1_alg».proof.Proof.KB.Segs

-- the decided facts over 517 references and 16 windows recurse past the default depth
set_option maxRecDepth 4628

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: 15 host stretches around 14 kernel regions, from the launch to the return -/

/-- The last thread state without the `owes`: every unscoped buffer at the last boundary's contents `W29`, the
    generator register at some state. -/
noncomputable abbrev Tₙ (c : Dev nD) : sProp 𝕄 := iprop(StableHlo.held (c : Thread nD τ) (Pipeline.ucRefs τ sig) (W29 m ρ c) ∗ ∃ r, prngReg c r)

/-- @main is the run of the segments: @main is the chain of its items, the segments' run is the chain of their
    fragments, and those fragments are the items one by one. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()),
      StableHlo.seq hostOps8,
      Prog.lift (.customCall (Pipeline.entry 8) ()),
      StableHlo.seq hostOps9,
      Prog.lift (.customCall (Pipeline.entry 9) ()),
      StableHlo.seq hostOps10,
      Prog.lift (.customCall (Pipeline.entry 10) ()),
      StableHlo.seq hostOps11,
      Prog.lift (.customCall (Pipeline.entry 11) ()),
      StableHlo.seq hostOps12,
      Prog.lift (.customCall (Pipeline.entry 12) ()),
      StableHlo.seq hostOps13,
      Prog.lift (.customCall (Pipeline.entry 13) ()),
      StableHlo.seq hostOps14 ] from rfl]
  rfl

set_option backward.isDefEq.respectTransparency.types false in
/-- The run, at any post that follows from the final memory holding the fold's last contents at every unscoped buffer
    of every core: from any memory with zero counters, every weakly fair execution of @main on the TensorCores
    terminates, nothing faulting, in such a memory. The launch deals every core its unscoped buffers at the launch
    memory, its generator register and an `owes` at nothing, which is the first thread state; each segment is entered
    from what the one before it left (the same proposition, read off the fold); the last thread state is read against
    the final state buffer by buffer. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W29 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun c => show (iprop(StableHlo.held (c : Thread nD τ) (Pipeline.ucRefs τ sig) (W29 m ρ c) ∗ R c) : sProp 𝕄)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := hQ)

/-- THE RUN: every final memory holds, at every unscoped buffer of every core, the fold's last contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W29 m ρ c b) :=
  run_post m ρ fun s h => h

/-- THE FRAME: every final memory has the sixteen argument arrays as launched — each argument's buffer is unscoped,
    so it ends at the fold's last contents, which at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_post m ρ fun s h c =>
    ⟨(h c _ (mem_uc main_arg0 (by decide))).trans (W29_main_arg0 m ρ c),
     (h c _ (mem_uc main_arg1 (by decide))).trans (W29_main_arg1 m ρ c),
     (h c _ (mem_uc main_arg2 (by decide))).trans (W29_main_arg2 m ρ c),
     (h c _ (mem_uc main_arg3 (by decide))).trans (W29_main_arg3 m ρ c),
     (h c _ (mem_uc main_arg4 (by decide))).trans (W29_main_arg4 m ρ c),
     (h c _ (mem_uc main_arg5 (by decide))).trans (W29_main_arg5 m ρ c),
     (h c _ (mem_uc main_arg6 (by decide))).trans (W29_main_arg6 m ρ c),
     (h c _ (mem_uc main_arg7 (by decide))).trans (W29_main_arg7 m ρ c),
     (h c _ (mem_uc main_arg8 (by decide))).trans (W29_main_arg8 m ρ c),
     (h c _ (mem_uc main_arg9 (by decide))).trans (W29_main_arg9 m ρ c),
     (h c _ (mem_uc main_arg10 (by decide))).trans (W29_main_arg10 m ρ c),
     (h c _ (mem_uc main_arg11 (by decide))).trans (W29_main_arg11 m ρ c),
     (h c _ (mem_uc main_arg12 (by decide))).trans (W29_main_arg12 m ρ c),
     (h c _ (mem_uc main_arg13 (by decide))).trans (W29_main_arg13 m ρ c),
     (h c _ (mem_uc main_arg14 (by decide))).trans (W29_main_arg14 m ρ c),
     (h c _ (mem_uc main_arg15 (by decide))).trans (W29_main_arg15 m ρ c)⟩

/-- The run's result: the result array ends at the fold's last contents, and the sixteen arguments as launched. -/
theorem run_result : θ_run defs (onTc (τ := τ) (main (F := F))) ⟨m, fun _ => 0, ρ⟩ (fun r => ∀ c : Dev nD,
      r.2.mem ((c.tc : Thread nD τ).loc main_v280) = W29 m ρ c (Proc.devRef .tc main_v280)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_post m ρ fun s h c =>
    ⟨h c _ (mem_uc main_v280 (by decide)),
     (h c _ (mem_uc main_arg0 (by decide))).trans (W29_main_arg0 m ρ c),
     (h c _ (mem_uc main_arg1 (by decide))).trans (W29_main_arg1 m ρ c),
     (h c _ (mem_uc main_arg2 (by decide))).trans (W29_main_arg2 m ρ c),
     (h c _ (mem_uc main_arg3 (by decide))).trans (W29_main_arg3 m ρ c),
     (h c _ (mem_uc main_arg4 (by decide))).trans (W29_main_arg4 m ρ c),
     (h c _ (mem_uc main_arg5 (by decide))).trans (W29_main_arg5 m ρ c),
     (h c _ (mem_uc main_arg6 (by decide))).trans (W29_main_arg6 m ρ c),
     (h c _ (mem_uc main_arg7 (by decide))).trans (W29_main_arg7 m ρ c),
     (h c _ (mem_uc main_arg8 (by decide))).trans (W29_main_arg8 m ρ c),
     (h c _ (mem_uc main_arg9 (by decide))).trans (W29_main_arg9 m ρ c),
     (h c _ (mem_uc main_arg10 (by decide))).trans (W29_main_arg10 m ρ c),
     (h c _ (mem_uc main_arg11 (by decide))).trans (W29_main_arg11 m ρ c),
     (h c _ (mem_uc main_arg12 (by decide))).trans (W29_main_arg12 m ρ c),
     (h c _ (mem_uc main_arg13 (by decide))).trans (W29_main_arg13 m ρ c),
     (h c _ (mem_uc main_arg14 (by decide))).trans (W29_main_arg14 m ρ c),
     (h c _ (mem_uc main_arg15 (by decide))).trans (W29_main_arg15 m ρ c)⟩

end Cert.Kernel.Hand

end
-- ==== Proof.KI.Reg0.lean ====
import proofs.«159011_j9938554322955_1_alg».proof.Proof.Gen.KernelIdeal.Launch
import proofs.«159011_j9938554322955_1_alg».proof.Proof.Gen.KernelIdeal.Skeleton
import proofs.«159011_j9938554322955_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

-- membership in a rectangle of long extents: the structural check recurses once per coordinate of the long axes
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The embedding region: out = x · W + b on blocks of 8192 rows, at the entry contents V -/

/-- Window w's block at point t, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

noncomputable abbrev r0_x : Rect S8192x1 := Rect.unit (s := S8192x1) ![0, 0] S8192x1.size inb_S8192x1_S8192x1_0_0
noncomputable abbrev r0_w : Rect S1x64 := Rect.unit (s := S1x64) ![0, 0] S1x64.size inb_S1x64_S1x64_0_0
noncomputable abbrev r0_o : Rect S8192x64 := Rect.unit (s := S8192x64) ![0, 0] S8192x64.size inb_S8192x64_S8192x64_0_0

/-! ## What the body leaves in the output window's buffer -/

/-- The output block after the body, from the three input blocks: its one store, whose payload is x · W + b. -/
noncomputable def out0_3 (x0 : Vec F S8192x1 .f32) (x1 : Vec F S1x64 .f32) (x2 : Vec F S1x64 .f32) : Vec F S8192x64 .f32 :=
  View.canon [⟨r0_o, k0_pay1 (View.ld x0 r0_x) (View.ld x1 r0_w) (View.ld x2 r0_w)⟩]

/-- The one store covers the buffer. -/
theorem cover0_3 (p0 : Vec F S8192x64 .f32) (y : S8192x64.Idx) :
    ∃ pc ∈ ([⟨r0_o, p0⟩] : List (View.Piece (Elt F) S8192x64 .f32)), y ∈ pc.1.set :=
  View.cover_of_tiled [⟨r0_o, p0⟩] S8192x64.size (by rfl) y

/-! ## The body's triple -/

set_option maxHeartbeats 1000000 in
/-- The kernel body on whole staging memrefs, the inputs' at read contents and the output's at anything, runs to the
    continuation holding the inputs' as they were and the output's at out0_3 of the inputs'. -/
theorem sound_kernel0 (c : Dev nD) (E : Set ℕ) (i : grid0.Coords)
    (arg1 : Memref sig .tc .vmem S8192x1 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S8192x64 .f32) (harg4 : arg4.IsWhole)
    (x0 : Vec F S8192x1 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The proof data on core c: the arrays as the region finds them; after the body at point t each input's buffer at its
    block and the output's at out0_3 of the input blocks; the invariant the scoped rest and the generator register,
    untouched; nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

theorem phi_in0 (c : Dev nD) :
    (iprop((∃ r, prngReg c r) ∗ Pipeline.scopedRest (Ix := Unit) (Name := ℕ) (U := UR sig nD τ) (Lvl := ℕ) (Val := Elt F) spec0 c) : sProp 𝕄)
      ⊢ (dat0 V c).Φ 0 := by
  show _ ⊢ Pipeline.ΦA spec0 c
  unfold Pipeline.ΦA
  iintro ⟨Hr, Hs⟩
  isplitl [Hs]; · iexact Hs
  iexact Hr

theorem phi_out0 (c : Dev nD) :
    (dat0 V c).Φ (Fin.last cfg0.N)
      ⊢ (iprop((∃ r, prngReg c r) ∗ Pipeline.scopedRest (Ix := Unit) (Name := ℕ) (U := UR sig nD τ) (Lvl := ℕ) (Val := Elt F) spec0 c) : sProp 𝕄) := by
  show Pipeline.ΦA spec0 c ⊢ _
  unfold Pipeline.ΦA
  iintro ⟨Hs, Hr⟩
  isplitl [Hr]; · iexact Hr
  iexact Hs

/-! ## The output array after the region, as one function of the entry arrays -/

open Idealize.ShloMosaic.ValueIdx

theorem hz0 : (![0, 0] : Fin 2 → Nat) = fun _ => 0 := funext fun a => by fin_cases a <;> rfl

/-- Rows 8192·q to 8192·q + 8191 of the node column, as a block. -/
noncomputable def rows0 (X : S65536x1.Idx → Elt F .f32) (q : Fin 8) : Vec F S8192x1 .f32 :=
  fun y => X (ix2 (⟨8192 * q.val + (y 0).val, by have h0 := idx2_lt0 y; have hq := q.isLt; omega⟩ : Fin 65536)
    (⟨(y 1).val, idx2_lt1 y⟩ : Fin 1))

/-- What the output array ends holding: at row r, the body's payload of the block of 8192 rows containing r and of
    the weight and bias rows, read at r's place in the block. -/
noncomputable def G0_3 (X : S65536x1.Idx → Elt F .f32) (W B : S1x64.Idx → Elt F .f32) : S65536x64.Idx → Elt F .f32 :=
  fun i => k0_pay1 (rows0 X ⟨(i 0).val / 8192, by have h0 := idx2_lt0 i; omega⟩) W B
    (ix2 (⟨(i 0).val % 8192, Nat.mod_lt _ (by decide)⟩ : Fin 8192) (⟨(i 1).val, idx2_lt1 i⟩ : Fin 64))

/-- At a row inside block q the closed form is the payload of block q. -/
theorem G0_3_block (X : S65536x1.Idx → Elt F .f32) (W B : S1x64.Idx → Elt F .f32) (q : Fin 8) (p : Fin 8192) (k : Fin 64)
    (h : 8192 * q.val + p.val < 65536) :
    G0_3 X W B (ix2 (⟨8192 * q.val + p.val, h⟩ : Fin 65536) k) = k0_pay1 (rows0 X q) W B (ix2 p k) := by
  have hq := q.isLt
  have hp := p.isLt
  have e1 : ∀ h1, (⟨(8192 * q.val + p.val) / 8192, h1⟩ : Fin 8) = q := fun _ => Fin.ext (by show (8192 * q.val + p.val) / 8192 = q.val; omega)
  have e2 : ∀ h2, (⟨(8192 * q.val + p.val) % 8192, h2⟩ : Fin 8192) = p := fun _ => Fin.ext (by show (8192 * q.val + p.val) % 8192 = p.val; omega)
  show k0_pay1 (rows0 X ⟨(8192 * q.val + p.val) / 8192, _⟩) W B (ix2 (⟨(8192 * q.val + p.val) % 8192, _⟩ : Fin 8192) (⟨k.val, _⟩ : Fin 64)) = _
  rw [e1, e2]

/-- The printed index maps, decided over the grid: the node column and the output move together, one block of 8192
    rows per point; the weight and bias rows stay at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the closed form of the entry arrays. -/
theorem flushed0_3_eq (c : Dev nD) (t : Fin cfg0.N) :
    (dat0 V c).flushed 3 t
      = ((cfg0.win 3).blk t).view.read (Elt F) (G0_3 (V c main_arg2) (V c main_arg3) (V c main_v4)) := by
  show (cfg0.win 3).cut (grid0.coords t) ((dat0 V c).after 3 t) = _
  rw [after0_3]
  unfold out0_3
  rw [View.canon_unit_zero hz0]
  simp only [View.ld_unit_zero (S := S8192x1) hz0, View.ld_unit_zero (S := S1x64) hz0]
  obtain ⟨e00, e01, e10, e11, e20, e21, e30, e31⟩ := idx_facts0 t
  have ht : t.val < 8 := lt_of_lt_of_eq t.isLt N_0
  -- the node column's block at t is rows 8192·t …; the weight and bias blocks are their whole rows
  have hx : iblk0 V c 0 t = rows0 (V c main_arg2) ⟨t.val, ht⟩ := by
    funext y
    show V c main_arg2 (((cfg0.win 0).blk t).view.emb y) = V c main_arg2 _
    congr 1
    funext a; apply Fin.ext
    match a with
    | ⟨0, _⟩ => show win0_0.index t (0 : Fin 2) * 8192 + 1 * (y 0).val = 8192 * t.val + (y 0).val; omega
    | ⟨1, _⟩ => show win0_0.index t (1 : Fin 2) * 1 + 1 * (y 1).val = (y 1).val; omega
  have hw : iblk0 V c 1 t = V c main_arg3 := by
    funext y
    show V c main_arg3 (((cfg0.win 1).blk t).view.emb y) = V c main_arg3 y
    congr 1
    funext a; apply Fin.ext
    match a with
    | ⟨0, _⟩ => show win0_1.index t (0 : Fin 2) * 1 + 1 * (y 0).val = (y 0).val; omega
    | ⟨1, _⟩ => show win0_1.index t (1 : Fin 2) * 64 + 1 * (y 1).val = (y 1).val; omega
  have hb : iblk0 V c 2 t = V c main_v4 := by
    funext y
    show V c main_v4 (((cfg0.win 2).blk t).view.emb y) = V c main_v4 y
    congr 1
    funext a; apply Fin.ext
    match a with
    | ⟨0, _⟩ => show win0_2.index t (0 : Fin 2) * 1 + 1 * (y 0).val = (y 0).val; omega
    | ⟨1, _⟩ => show win0_2.index t (1 : Fin 2) * 64 + 1 * (y 1).val = (y 1).val; omega
  rw [hx, hw, hb]
  funext j
  have hj0 : (j 0).val < 8192 := (j 0).isLt
  have hj1 : (j 1).val < 64 := (j 1).isLt
  have hrow : 8192 * t.val + (j 0).val < 65536 := by omega
  have hemb : ((cfg0.win 3).blk t).view.emb j
      = ix2 (⟨8192 * t.val + (j 0).val, hrow⟩ : Fin 65536) (⟨(j 1).val, hj1⟩ : Fin 64) := by
    funext a; apply Fin.ext
    match a with
    | ⟨0, _⟩ => show win0_3.index t (0 : Fin 2) * 8192 + 1 * (j 0).val = 8192 * t.val + (j 0).val; omega
    | ⟨1, _⟩ => show win0_3.index t (1 : Fin 2) * 64 + 1 * (j 1).val = (j 1).val; omega
  show k0_pay1 (rows0 (V c main_arg2) ⟨t.val, ht⟩) (V c main_arg3) (V c main_v4) j
      = G0_3 (V c main_arg2) (V c main_arg3) (V c main_v4) (((cfg0.win 3).blk t).view.emb j)
  rw [hemb, G0_3_block (V c main_arg2) (V c main_arg3) (V c main_v4) ⟨t.val, ht⟩ ⟨(j 0).val, hj0⟩ ⟨(j 1).val, hj1⟩ hrow]
  exact congrArg (k0_pay1 (rows0 (V c main_arg2) ⟨t.val, ht⟩) (V c main_arg3) (V c main_v4))
    (funext fun a => match a with | ⟨0, _⟩ => rfl | ⟨1, _⟩ => rfl)

/-- An index of the output array is in point t's block iff each coordinate is in the block's range on its axis. -/
theorem mem_blk0_3 (t : Fin cfg0.N) (i : S65536x64.Idx) :
    i ∈ ((cfg0.win 3).blk t).view.set ↔ ∀ a : Fin 2, win0_3.index t a * S8192x64.size a ≤ (i a).val
      ∧ (i a).val < win0_3.index t a * S8192x64.size a + S8192x64.size a := by
  show i ∈ ((View.whole main_v5).slice (win0_3.rect t)).set ↔ _
  rw [View.set_slice_whole, Rect.mem_set_unit]
  exact Iff.rfl

/-- Every row is in the block of the point numbered by its quotient by 8192. -/
theorem covered0_3 (i : S65536x64.Idx) :
    ∃ t : Fin cfg0.N, (cfg0.win 3).flush t = true ∧ i ∈ ((cfg0.win 3).blk t).view.set := by
  have hi0 := idx2_lt0 i
  have hi1 := idx2_lt1 i
  have hN : (i 0).val / 8192 < cfg0.N := by show _ < grid0.N; rw [N_0]; omega
  refine ⟨⟨(i 0).val / 8192, hN⟩, flush0_3 _, ?_⟩
  rw [mem_blk0_3]
  obtain ⟨-, -, -, -, -, -, e30, e31⟩ := idx_facts0 ⟨(i 0).val / 8192, hN⟩
  have e30' : win0_3.index ⟨(i 0).val / 8192, hN⟩ (0 : Fin 2) = (i 0).val / 8192 := e30
  intro a
  match a with
  | ⟨0, _⟩ =>
    show win0_3.index ⟨(i 0).val / 8192, hN⟩ (0 : Fin 2) * 8192 ≤ (i 0).val
      ∧ (i 0).val < win0_3.index ⟨(i 0).val / 8192, hN⟩ (0 : Fin 2) * 8192 + 8192
    omega
  | ⟨1, _⟩ =>
    show win0_3.index ⟨(i 0).val / 8192, hN⟩ (1 : Fin 2) * 64 ≤ (i 1).val
      ∧ (i 1).val < win0_3.index ⟨(i 0).val / 8192, hN⟩ (1 : Fin 2) * 64 + 64
    omega

/-- The output array after the region is the closed form of the three entry arrays. -/
theorem final0_3 (c : Dev nD) :
    (dat0 V c).arrAt ⟨3, by decide⟩ cfg0.N = G0_3 (V c main_arg2) (V c main_arg3) (V c main_v4) :=
  (dat0 V c).arrAt_eq_of_cover 3 _ (fun t _ => flushed0_3_eq V c t) covered0_3

end Cert.KernelIdeal.Hand

end
-- ==== Proof.KI.Reg1.lean ====
import proofs.«159011_j9938554322955_1_alg».proof.Proof.Gen.KernelIdeal.Launch
import proofs.«159011_j9938554322955_1_alg».proof.Proof.Gen.KernelIdeal.Skeleton
import proofs.«159011_j9938554322955_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the body goes through the rectangle of a two-axis buffer's whole shape at zero offsets. -/

theorem hz2_1 : (![0, 0] : Fin 2 → ℕ) = fun _ => 0 := by funext a; fin_cases a <;> rfl

/-- A load of a whole buffer reads its contents. -/
theorem readAt_whole1 (sz : Fin 2 → ℕ) {e : EltTy} (v : View sig .tc .vmem (⟨2, sz⟩ : Shape) e)
    (inb : ∀ a, (![0, 0] : Fin 2 → ℕ) a + sz a ≤ sz a) (f : v.ty.Contents (Elt F)) :
    v.readAt (Elt F) (Rect.unit (s := (⟨2, sz⟩ : Shape)) ![0, 0] sz inb).toLoadRect f = v.read (Elt F) f :=
  (View.readAt_eq_ld v f _).trans (View.ld_unit_zero (S := (⟨2, sz⟩ : Shape)) hz2_1 inb _)

/-- The whole-shape rectangle holds every index. -/
theorem cover_whole1 (sz : Fin 2 → ℕ) {e : EltTy} (inb : ∀ a, (![0, 0] : Fin 2 → ℕ) a + sz a ≤ sz a)
    (w : (⟨2, sz⟩ : Shape).Idx → Elt F e) (L : List (View.Piece (Elt F) (⟨2, sz⟩ : Shape) e)) (y : (⟨2, sz⟩ : Shape).Idx) :
    ∃ p ∈ ((⟨Rect.unit (s := (⟨2, sz⟩ : Shape)) ![0, 0] sz inb, w⟩ : View.Piece (Elt F) (⟨2, sz⟩ : Shape) e) :: L), y ∈ p.1.set :=
  ⟨⟨Rect.unit (s := (⟨2, sz⟩ : Shape)) ![0, 0] sz inb, w⟩, List.mem_cons_self, View.mem_set_unit_zero (S := (⟨2, sz⟩ : Shape)) hz2_1 inb y⟩

/-- A store of a whole buffer, last, leaves its payload. -/
theorem read_writes_whole1 (sz : Fin 2 → ℕ) {e : EltTy} (v : View sig .tc .vmem (⟨2, sz⟩ : Shape) e)
    (inb : ∀ a, (![0, 0] : Fin 2 → ℕ) a + sz a ≤ sz a) (f : v.ty.Contents (Elt F)) (w : (⟨2, sz⟩ : Shape).Idx → Elt F e)
    (L : List (View.Piece (Elt F) (⟨2, sz⟩ : Shape) e)) :
    v.read (Elt F) (v.writes (Elt F) f ((⟨Rect.unit (s := (⟨2, sz⟩ : Shape)) ![0, 0] sz inb, w⟩ : View.Piece (Elt F) (⟨2, sz⟩ : Shape) e) :: L)) = w :=
  (View.read_writes_eq_canon v f _ (cover_whole1 sz inb w L)).trans
    (View.canon_cons_unit_zero (S := (⟨2, sz⟩ : Shape)) hz2_1 inb w L)

/-- A load of a whole buffer after a store of the whole buffer reads the payload. -/
theorem readCov_whole1 (sz : Fin 2 → ℕ) {e : EltTy} (v : View sig .tc .vmem (⟨2, sz⟩ : Shape) e)
    (inb : ∀ a, (![0, 0] : Fin 2 → ℕ) a + sz a ≤ sz a) (w : (⟨2, sz⟩ : Shape).Idx → Elt F e)
    (L : List (View.Piece (Elt F) (⟨2, sz⟩ : Shape) e)) :
    v.readCov ((⟨Rect.unit (s := (⟨2, sz⟩ : Shape)) ![0, 0] sz inb, w⟩ : View.Piece (Elt F) (⟨2, sz⟩ : Shape) e) :: L)
      (Rect.unit (s := (⟨2, sz⟩ : Shape)) ![0, 0] sz inb).toLoadRect = w :=
  (View.readCov_eq_canon_ld v _ (Rect.unit (s := (⟨2, sz⟩ : Shape)) ![0, 0] sz inb) (cover_whole1 sz inb w L)).trans
    ((congrArg (fun X => View.ld X (Rect.unit (s := (⟨2, sz⟩ : Shape)) ![0, 0] sz inb))
        (View.canon_cons_unit_zero (S := (⟨2, sz⟩ : Shape)) hz2_1 inb w L)).trans
      (View.ld_unit_zero (S := (⟨2, sz⟩ : Shape)) hz2_1 inb w))

/-! ## The body's two conditions -/

/-- The condition of the body's first `scf.if` (the scratch is zeroed), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The condition of the body's second `scf.if` (the statistics are stored). -/
abbrev cond1_1 (i : grid1.Coords) : Prop := k1_cond2 i = 1#1
/-- It holds at the last point only. -/
theorem hcond1_1 : ∀ t : Fin cfg1.N, cond1_1 (grid1.coords t) ↔ t.val = 15 :=
  (by decide +kernel : ∀ t : Fin grid1.N, cond1_1 (grid1.coords t) ↔ t.val = 15)

/-! ## What one point adds to the two running sums, and the statistics stored at the last point -/

/-- The column sums of the block's `z` added to the running sum `S`. -/
noncomputable def sS1 (x0 x1 : Vec F S4096x64 .f32) (x2 : Vec F S1x64 .f32) (x3 : Vec F S64x128 .f32) (x4 S : Vec F S1x128 .f32) : Vec F S1x128 .f32 :=
  k1_pay7 x2 x0 x1 x3 x4 S
/-- The column sums of the block's `z · z` added to the running sum `Q`. -/
noncomputable def sQ1 (x0 x1 : Vec F S4096x64 .f32) (x2 : Vec F S1x64 .f32) (x3 : Vec F S64x128 .f32) (x4 Q : Vec F S1x128 .f32) : Vec F S1x128 .f32 :=
  k1_pay1 (k1_pay8 x2 x0 x1 x3 x4 Q)
/-- The two sums as the first point resets them. -/
noncomputable def zS1 : Vec F S1x128 .f32 := k1_pay4 (F := F)
noncomputable def zQ1 : Vec F S1x128 .f32 := k1_pay5 (F := F)
/-- The mean stored from the total `S`, and the variance stored from the totals `S`, `Q`. -/
noncomputable def oM1 (S : Vec F S1x128 .f32) : Vec F S1x128 .f32 := k1_pay2 S
noncomputable def oV1 (S Q : Vec F S1x128 .f32) : Vec F S1x128 .f32 := k1_pay3 S Q

set_option maxHeartbeats 2000000 in
/-- The body on whole staging memrefs and the two scratch buffers, at the first point (the scratch is zeroed first, whatever it held). -/
theorem sound_kernel1_A (c : Dev nD) (E : Set ℕ) (i : grid1.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond1_0 i) (hc1 : ¬cond1_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS1 x0 x1 x2 x3 x4 zS1)
            ∗ owns (c : Thread nD τ) arg9 fullShare (sQ1 x0 x1 x2 x3 x4 zQ1)) -∗ K ⟨⟩))
      ⊢ wp frame (wpE (defs₀ (F := F)) Variants.none c none) E (cc1__stats1_kernel i arg1 harg1 arg2 harg2 arg3 harg3 arg4 harg4 arg5 harg5 arg6 harg6 arg7 harg7 arg8 harg8 arg9 harg9) K := by
  simp only [cc1__stats1_kernel_eq_skeleton]; unfold cc1__stats1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole1, readCov_whole1, readAt_whole1, oM1, oV1, sS1, sQ1, zS1, zQ1])
  isplitl [H6]
  · iexists _; isplitr
    swap; · iexact H6
    ipureintro
    first
      | rfl
      | (sl_unfold_run_names; (try dsimp only); simp only [read_writes_whole1, readCov_whole1, readAt_whole1, oM1, oV1, sS1, sQ1, zS1, zQ1])
  isplitl [H7]
  · iexists _; isplitr
    swap; · iexact H7
    ipureintro
    (sl_unfold_run_names; (try dsimp only); simp only [read_writes_whole1, readCov_whole1, readAt_whole1, oM1, oV1, sS1, sQ1, zS1, zQ1])
  iexists _; isplitr
  swap; · iexact H8
  ipureintro
  (sl_unfold_run_names; (try dsimp only); simp only [read_writes_whole1, readCov_whole1, readAt_whole1, oM1, oV1, sS1, sQ1, zS1, zQ1])

set_option maxHeartbeats 2000000 in
/-- The body on whole staging memrefs and the two scratch buffers, at a point that is neither the first nor the last. -/
theorem sound_kernel1_B (c : Dev nD) (E : Set ℕ) (i : grid1.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond1_0 i) (hc1 : ¬cond1_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS1 x0 x1 x2 x3 x4 S)
            ∗ owns (c : Thread nD τ) arg9 fullShare (sQ1 x0 x1 x2 x3 x4 Q)) -∗ K ⟨⟩))
      ⊢ wp frame (wpE (defs₀ (F := F)) Variants.none c none) E (cc1__stats1_kernel i arg1 harg1 arg2 harg2 arg3 harg3 arg4 harg4 arg5 harg5 arg6 harg6 arg7 harg7 arg8 harg8 arg9 harg9) K := by
  simp only [cc1__stats1_kernel_eq_skeleton]; unfold cc1__stats1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole1, readCov_whole1, readAt_whole1, oM1, oV1, sS1, sQ1, zS1, zQ1])
  isplitl [H6]
  · iexists _; isplitr
    swap; · iexact H6
    ipureintro
    first
      | rfl
      | (sl_unfold_run_names; (try dsimp only); simp only [read_writes_whole1, readCov_whole1, readAt_whole1, oM1, oV1, sS1, sQ1, zS1, zQ1])
  isplitl [H7]
  · iexists _; isplitr
    swap; · iexact H7
    ipureintro
    (sl_unfold_run_names; (try dsimp only); simp only [read_writes_whole1, readCov_whole1, readAt_whole1, oM1, oV1, sS1, sQ1, zS1, zQ1])
  iexists _; isplitr
  swap; · iexact H8
  ipureintro
  (sl_unfold_run_names; (try dsimp only); simp only [read_writes_whole1, readCov_whole1, readAt_whole1, oM1, oV1, sS1, sQ1, zS1, zQ1])

set_option maxHeartbeats 2000000 in
/-- The body on whole staging memrefs and the two scratch buffers, at the last point (the statistics are stored from the totals). -/
theorem sound_kernel1_C (c : Dev nD) (E : Set ℕ) (i : grid1.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond1_0 i) (hc1 : cond1_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (oM1 (sS1 x0 x1 x2 x3 x4 S))
            ∗ owns (c : Thread nD τ) arg7 fullShare (oV1 (sS1 x0 x1 x2 x3 x4 S) (sQ1 x0 x1 x2 x3 x4 Q)) ∗ owns (c : Thread nD τ) arg8 fullShare (sS1 x0 x1 x2 x3 x4 S)
            ∗ owns (c : Thread nD τ) arg9 fullShare (sQ1 x0 x1 x2 x3 x4 Q)) -∗ K ⟨⟩))
      ⊢ wp frame (wpE (defs₀ (F := F)) Variants.none c none) E (cc1__stats1_kernel i arg1 harg1 arg2 harg2 arg3 harg3 arg4 harg4 arg5 harg5 arg6 harg6 arg7 harg7 arg8 harg8 arg9 harg9) K := by
  simp only [cc1__stats1_kernel_eq_skeleton]; unfold cc1__stats1_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole1, readCov_whole1, readAt_whole1, oM1, oV1, sS1, sQ1, zS1, zQ1])
  isplitl [H6]
  · iexists _; isplitr
    swap; · iexact H6
    ipureintro
    first
      | rfl
      | (sl_unfold_run_names; (try dsimp only); simp only [read_writes_whole1, readCov_whole1, readAt_whole1, oM1, oV1, sS1, sQ1, zS1, zQ1])
  isplitl [H7]
  · iexists _; isplitr
    swap; · iexact H7
    ipureintro
    (sl_unfold_run_names; (try dsimp only); simp only [read_writes_whole1, readCov_whole1, readAt_whole1, oM1, oV1, sS1, sQ1, zS1, zQ1])
  iexists _; isplitr
  swap; · iexact H8
  ipureintro
  (sl_unfold_run_names; (try dsimp only); simp only [read_writes_whole1, readCov_whole1, readAt_whole1, oM1, oV1, sS1, sQ1, zS1, zQ1])

variable (V : (c : Dev nD) → (b : Ref sig .tc) → Buf (Elt F) ((c : Thread nD τ).loc b))

/-! ## The windows' blocks -/

/-- Window w's block at point t, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Where the windows are idle and written back

The five inputs are never idle. The two statistics are stored at the last point only: before it their windows are
idle and are not written back; at it they are live. -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, t.val ≠ 15 → cfg1.idle 5 (grid1.coords t) = true := by decide +kernel
theorem idleAt1_6 : ∀ t : Fin cfg1.N, t.val ≠ 15 → cfg1.idle 6 (grid1.coords t) = true := by decide +kernel
theorem liveAt1_5 : ∀ t : Fin cfg1.N, t.val = 15 → cfg1.idle 5 (grid1.coords t) = false := by decide +kernel
theorem liveAt1_6 : ∀ t : Fin cfg1.N, t.val = 15 → cfg1.idle 6 (grid1.coords t) = false := by decide +kernel
theorem noFlush1_5 : ∀ t : Fin cfg1.N, t.val ≠ 15 → (cfg1.win 5).flush t = false := by decide +kernel
theorem noFlush1_6 : ∀ t : Fin cfg1.N, t.val ≠ 15 → (cfg1.win 6).flush t = false := by decide +kernel

/-! ## What an input's staging buffer holds

Each input's current staging buffer holds its block at every point, fetched there or not, for any proof data whose
array is the entry contents and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The running sums

What the two scratch buffers hold after the body at point n: the first point resets them and adds its block's column
sums of z and of z · z; every later point adds its own to what the point before left. -/

noncomputable def accS1 (c : Dev nD) : (n : ℕ) → n < cfg1.N → Vec F S1x128 .f32
  | 0, hn => sS1 (iblk1 V c 0 ⟨0, hn⟩) (iblk1 V c 1 ⟨0, hn⟩) (iblk1 V c 2 ⟨0, hn⟩) (iblk1 V c 3 ⟨0, hn⟩) (iblk1 V c 4 ⟨0, hn⟩) zS1
  | n + 1, hn => sS1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accS1 c n (Nat.lt_of_succ_lt hn))

noncomputable def accQ1 (c : Dev nD) : (n : ℕ) → n < cfg1.N → Vec F S1x128 .f32
  | 0, hn => sQ1 (iblk1 V c 0 ⟨0, hn⟩) (iblk1 V c 1 ⟨0, hn⟩) (iblk1 V c 2 ⟨0, hn⟩) (iblk1 V c 3 ⟨0, hn⟩) (iblk1 V c 4 ⟨0, hn⟩) zQ1
  | n + 1, hn => sQ1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (accQ1 c n (Nat.lt_of_succ_lt hn))

theorem accS1_zero (c : Dev nD) (t : Fin cfg1.N) (h0 : t.val = 0) :
    accS1 V c t.val t.isLt = sS1 (iblk1 V c 0 t) (iblk1 V c 1 t) (iblk1 V c 2 t) (iblk1 V c 3 t) (iblk1 V c 4 t) zS1 := by
  obtain ⟨n, hn⟩ := t
  cases n with
  | zero => rfl
  | succ n => exact absurd h0 (Nat.succ_ne_zero n)

theorem accS1_pos (c : Dev nD) (t : Fin cfg1.N) (h0 : t.val ≠ 0) :
    accS1 V c t.val t.isLt = sS1 (iblk1 V c 0 t) (iblk1 V c 1 t) (iblk1 V c 2 t) (iblk1 V c 3 t) (iblk1 V c 4 t) (accS1 V c (t.val - 1) (Nat.lt_of_le_of_lt (Nat.sub_le _ _) t.isLt)) := by
  obtain ⟨n, hn⟩ := t
  cases n with
  | zero => exact absurd rfl h0
  | succ n => rfl

theorem accQ1_zero (c : Dev nD) (t : Fin cfg1.N) (h0 : t.val = 0) :
    accQ1 V c t.val t.isLt = sQ1 (iblk1 V c 0 t) (iblk1 V c 1 t) (iblk1 V c 2 t) (iblk1 V c 3 t) (iblk1 V c 4 t) zQ1 := by
  obtain ⟨n, hn⟩ := t
  cases n with
  | zero => rfl
  | succ n => exact absurd h0 (Nat.succ_ne_zero n)

theorem accQ1_pos (c : Dev nD) (t : Fin cfg1.N) (h0 : t.val ≠ 0) :
    accQ1 V c t.val t.isLt = sQ1 (iblk1 V c 0 t) (iblk1 V c 1 t) (iblk1 V c 2 t) (iblk1 V c 3 t) (iblk1 V c 4 t) (accQ1 V c (t.val - 1) (Nat.lt_of_le_of_lt (Nat.sub_le _ _) t.isLt)) := by
  obtain ⟨n, hn⟩ := t
  cases n with
  | zero => exact absurd rfl h0
  | succ n => rfl

/-! ## The invariant between points -/

/-- The scoped rest with the two scratch buffers as whole memrefs owned at some contents. -/
theorem scr1_eq (c : Dev nD) :
    (Pipeline.scopedRest (Ix := Unit) (Name := ℕ) (U := UR sig nD τ) (Lvl := ℕ) (Val := Elt F) spec1 c : sProp 𝕄)
      = iprop(iprop((∃ d, owns (c : Thread nD τ) (Memref.whole cc1_scratch0) fullShare d) ∗ (∃ d, owns (c : Thread nD τ) (Memref.whole cc1_scratch1) fullShare d))
          ∗ Pipeline.scopedRestBut (Ix := Unit) (Name := ℕ) (U := UR sig nD τ) (Lvl := ℕ) (Val := Elt F) spec1 c [cc1_scratch0, cc1_scratch1]) := by
  rw [scopedRest1_split]; simp only [owns_whole]; try rfl

/-- Before the first point: the generator register and every scoped buffer that is no staging buffer, at anything.
    Before a later point: the same with the two scratch buffers at the running sums the point before left. -/
noncomputable def Phi1 (c : Dev nD) : (n : ℕ) → n ≤ cfg1.N → sProp 𝕄
  | 0, _ => iprop((∃ r, prngReg c r) ∗ Pipeline.scopedRest (Ix := Unit) (Name := ℕ) (U := UR sig nD τ) (Lvl := ℕ) (Val := Elt F) spec1 c)
  | n + 1, hn => iprop((∃ r, prngReg c r)
      ∗ iprop(owns (c : Thread nD τ) (Memref.whole cc1_scratch0) fullShare (accS1 V c n hn) ∗ owns (c : Thread nD τ) (Memref.whole cc1_scratch1) fullShare (accQ1 V c n hn))
      ∗ Pipeline.scopedRestBut (Ix := Unit) (Name := ℕ) (U := UR sig nD τ) (Lvl := ℕ) (Val := Elt F) spec1 c [cc1_scratch0, cc1_scratch1])

theorem Phi1_zero (c : Dev nD) (n : ℕ) (h : n ≤ cfg1.N) (hz : n = 0) :
    Phi1 V c n h = iprop((∃ r, prngReg c r) ∗ Pipeline.scopedRest (Ix := Unit) (Name := ℕ) (U := UR sig nD τ) (Lvl := ℕ) (Val := Elt F) spec1 c) := by
  subst hz; rfl

theorem Phi1_succ (c : Dev nD) (n : ℕ) (hn : n < cfg1.N) :
    Phi1 V c (n + 1) hn = iprop((∃ r, prngReg c r)
      ∗ iprop(owns (c : Thread nD τ) (Memref.whole cc1_scratch0) fullShare (accS1 V c n hn) ∗ owns (c : Thread nD τ) (Memref.whole cc1_scratch1) fullShare (accQ1 V c n hn))
      ∗ Pipeline.scopedRestBut (Ix := Unit) (Name := ℕ) (U := UR sig nD τ) (Lvl := ℕ) (Val := Elt F) spec1 c [cc1_scratch0, cc1_scratch1]) := rfl

theorem Phi1_pos (c : Dev nD) (n : ℕ) (h : n ≤ cfg1.N) (hz : n ≠ 0) :
    Phi1 V c n h = iprop((∃ r, prngReg c r)
      ∗ iprop(owns (c : Thread nD τ) (Memref.whole cc1_scratch0) fullShare (accS1 V c (n - 1) (by omega)) ∗ owns (c : Thread nD τ) (Memref.whole cc1_scratch1) fullShare (accQ1 V c (n - 1) (by omega)))
      ∗ Pipeline.scopedRestBut (Ix := Unit) (Name := ℕ) (U := UR sig nD τ) (Lvl := ℕ) (Val := Elt F) spec1 c [cc1_scratch0, cc1_scratch1]) := by
  cases n with
  | zero => exact absurd rfl hz
  | succ n => rfl

/-! ## The pipeline's proof data -/

/-- The arrays as the region finds them; after the body at point t each input's buffer at its block, the mean's and the
    variance's at the statistics of the running sums (consulted at the last point only: before it the two windows are idle);
    the invariant above; nothing owed; full shares. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => oM1 (accS1 V c t.val t.isLt)
    | ⟨6, _⟩ => oV1 (accS1 V c t.val t.isLt) (accQ1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = oM1 (accS1 V c t.val t.isLt) := by dsimp only [dat1]
theorem after1_6 (c : Dev nD) (t : Fin cfg1.N) : (dat1 V c).after 6 t = oV1 (accS1 V c t.val t.isLt) (accQ1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
noncomputable def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
noncomputable def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the point is the first, the last or neither, which
    decides the two conditions; the invariant hands the body the two scratch buffers (at anything at the first point, at
    the running sums otherwise) and takes them back at this point's sums; the mean's and the variance's buffers come back
    untouched before the last point and hold the statistics after it; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  have hN : t.val < 16 := lt_of_lt_of_eq t.isLt (show cfg1.N = 16 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  by_cases h0 : t.val = 0
  · have h1 : t.val ≠ 15 := by omega
    rw [Dat.leavesExact_idle (dat1 V c) 5 t (idleAt1_5 t h1) (noFlush1_5 t h1),
      Dat.leavesExact_idle (dat1 V c) 6 t (idleAt1_6 t h1) (noFlush1_6 t h1)]
    rw [accS1_zero V c t h0, accQ1_zero V c t h0]
    rw [Phi1_castSucc V c t, Phi1_zero V c _ _ h0, scr1_eq]
    iintro ⟨⟨Hg, ⟨⟨%dS, HS⟩, ⟨%dQ, HQ⟩⟩, Hrest⟩, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ (Memref.whole cc1_scratch0) (Memref.isWhole_whole _) (Memref.whole cc1_scratch1) (Memref.isWhole_whole _)
      ((hcond1_0 t).mpr h0) (fun h => h1 ((hcond1_1 t).mp h)) (iblk1 V c 0 t) (iblk1 V c 1 t) (iblk1 V c 2 t) (iblk1 V c 3 t) (iblk1 V c 4 t) _ _ dS dQ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HQ]; · iexact HQ
    iintro ⟨H0, H1, H2, H3, H4, H5, H6, HS, HQ⟩
    isplitl [Hg HS HQ Hrest]
    · isplitl [Hg]; · iexact Hg
      isplitl [HS HQ]
      · isplitl [HS]; · iexact HS
        iexact HQ
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 15
    · rw [show (dat1 V c).leavesExact 5 t = owns (c : Thread nD τ) (st1_5 t) fullShare ((dat1 V c).after 5 t) from by
        unfold Dat.leavesExact; rw [liveAt1_5 t h1], after1_5]
      rw [show (dat1 V c).leavesExact 6 t = owns (c : Thread nD τ) (st1_6 t) fullShare ((dat1 V c).after 6 t) from by
        unfold Dat.leavesExact; rw [liveAt1_6 t h1], after1_6]
      rw [accS1_pos V c t h0, accQ1_pos V c t h0]
      rw [Phi1_castSucc V c t, Phi1_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel1_C c Set.univ (grid1.coords t) _ _ _ _ _ _ _ _ _ _ _ _ _ _ (Memref.whole cc1_scratch0) (Memref.isWhole_whole _) (Memref.whole cc1_scratch1) (Memref.isWhole_whole _)
        (fun h => h0 ((hcond1_0 t).mp h)) ((hcond1_1 t).mpr h1) (iblk1 V c 0 t) (iblk1 V c 1 t) (iblk1 V c 2 t) (iblk1 V c 3 t) (iblk1 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 5 t (idleAt1_5 t h1) (noFlush1_5 t h1),
        Dat.leavesExact_idle (dat1 V c) 6 t (idleAt1_6 t h1) (noFlush1_6 t h1)]
      rw [accS1_pos V c t h0, accQ1_pos V c t h0]
      rw [Phi1_castSucc V c t, Phi1_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel1_B c Set.univ (grid1.coords t) _ _ _ _ _ _ _ _ _ _ _ _ _ _ (Memref.whole cc1_scratch0) (Memref.isWhole_whole _) (Memref.whole cc1_scratch1) (Memref.isWhole_whole _)
        (fun h => h0 ((hcond1_0 t).mp h)) (fun h => h1 ((hcond1_1 t).mp h)) (iblk1 V c 0 t) (iblk1 V c 1 t) (iblk1 V c 2 t) (iblk1 V c 3 t) (iblk1 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the region is handed is the invariant before the first point. -/
theorem phi_in1 (c : Dev nD) :
    (iprop((∃ r, prngReg c r) ∗ Pipeline.scopedRest (Ix := Unit) (Name := ℕ) (U := UR sig nD τ) (Lvl := ℕ) (Val := Elt F) spec1 c) : sProp 𝕄)
      ⊢ (dat1 V c).Φ 0 := by
  rw [show (dat1 V c).Φ 0 = Phi1 V c 0 (Nat.zero_le _) from rfl, Phi1_zero V c 0 _ rfl]
  try exact Idealize.SL.BI.Entails.refl _

/-- After the last point the invariant gives it back: the scratch buffers' contents are forgotten. -/
theorem phi_out1 (c : Dev nD) :
    (dat1 V c).Φ (Fin.last cfg1.N)
      ⊢ (iprop((∃ r, prngReg c r) ∗ Pipeline.scopedRest (Ix := Unit) (Name := ℕ) (U := UR sig nD τ) (Lvl := ℕ) (Val := Elt F) spec1 c) : sProp 𝕄) := by
  have ht : (Fin.last cfg1.N).val ≠ 0 := by rw [Fin.val_last]; have : cfg1.N = 16 := N_1; omega
  rw [show (dat1 V c).Φ (Fin.last cfg1.N) = Phi1 V c (Fin.last cfg1.N).val (Nat.le_of_lt_succ (Fin.last cfg1.N).isLt) from rfl,
    Phi1_pos V c _ _ ht, scr1_eq]
  iintro ⟨Hg, ⟨HS, HQ⟩, Hrest⟩
  isplitl [Hg]; · iexact Hg
  isplitl [HS HQ]
  · isplitl [HS]; · iexists _; iexact HS
    iexists _; iexact HQ
  iexact Hrest

end Cert.KernelIdeal.Hand

end
-- ==== Proof.KI.Reg2Runs.lean ====
import proofs.«159011_j9938554322955_1_alg».proof.Proof.Gen.KernelIdeal.Launch
import proofs.«159011_j9938554322955_1_alg».proof.Proof.Gen.KernelIdeal.Skeleton
import proofs.«159011_j9938554322955_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second statistics kernel of a layer: what its three kinds of grid point share

The kernel visits sixteen blocks of 4096 rows. At every point it recomputes the block of the second linear
map's values z2 and adds the block's column sums of z2 and of z2 * z2 into two accumulators of 64 lanes that it
keeps from point to point; at the first point it clears the accumulators before adding; at the last point it also
stores mean = S * 2^(-16) and var = Q * 2^(-16) - mean * mean. -/

/-- The body's first test, from the grid index: the index is 0 (the accumulators are cleared). -/
noncomputable abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 16 = 0 :=
  (by decide +kernel : ∀ t : Fin grid2.N, cond2_0 (grid2.coords t) ↔ t.val % 16 = 0)

/-- The body's second test: the index is 15 (mean and variance are stored). -/
noncomputable abbrev cond2_1 (i : grid2.Coords) : Prop := k2_cond2 i = 1#1
/-- It holds at the last point only. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

/-- Input window 0 is never idle. -/
theorem liveAt2_0 : ∀ t : Fin cfg2.N, cfg2.idle 0 (grid2.coords t) = false := fun _ => rfl
/-- Input window 1 is never idle. -/
theorem liveAt2_1 : ∀ t : Fin cfg2.N, cfg2.idle 1 (grid2.coords t) = false := fun _ => rfl
/-- Input window 2 is never idle. -/
theorem liveAt2_2 : ∀ t : Fin cfg2.N, cfg2.idle 2 (grid2.coords t) = false := fun _ => rfl
/-- Input window 3 is never idle. -/
theorem liveAt2_3 : ∀ t : Fin cfg2.N, cfg2.idle 3 (grid2.coords t) = false := fun _ => rfl
/-- Input window 4 is never idle. -/
theorem liveAt2_4 : ∀ t : Fin cfg2.N, cfg2.idle 4 (grid2.coords t) = false := fun _ => rfl
/-- Input window 5 is never idle. -/
theorem liveAt2_5 : ∀ t : Fin cfg2.N, cfg2.idle 5 (grid2.coords t) = false := fun _ => rfl
/-- Input window 6 is never idle. -/
theorem liveAt2_6 : ∀ t : Fin cfg2.N, cfg2.idle 6 (grid2.coords t) = false := fun _ => rfl
/-- Input window 7 is never idle. -/
theorem liveAt2_7 : ∀ t : Fin cfg2.N, cfg2.idle 7 (grid2.coords t) = false := fun _ => rfl
/-- Input window 8 is never idle. -/
theorem liveAt2_8 : ∀ t : Fin cfg2.N, cfg2.idle 8 (grid2.coords t) = false := fun _ => rfl
/-- Input window 9 is never idle. -/
theorem liveAt2_9 : ∀ t : Fin cfg2.N, cfg2.idle 9 (grid2.coords t) = false := fun _ => rfl
/-- Input window 10 is never idle. -/
theorem liveAt2_10 : ∀ t : Fin cfg2.N, cfg2.idle 10 (grid2.coords t) = false := fun _ => rfl
/-- Away from the last point nothing is stored into output 11: the window is idle there, -/
theorem idleAt2_11 : ∀ t : Fin cfg2.N, ¬cond2_1 (grid2.coords t) → cfg2.idle 11 (grid2.coords t) = true := by decide +kernel
/-- and its block is not written back there. -/
theorem noFlush2_11 : ∀ t : Fin cfg2.N, ¬cond2_1 (grid2.coords t) → (cfg2.win 11).flush t = false := by decide +kernel
/-- At the last point output 11 is stored: the window is live. -/
theorem liveAt2_11 : ∀ t : Fin cfg2.N, cond2_1 (grid2.coords t) → cfg2.idle 11 (grid2.coords t) = false := by decide +kernel
/-- Away from the last point nothing is stored into output 12: the window is idle there, -/
theorem idleAt2_12 : ∀ t : Fin cfg2.N, ¬cond2_1 (grid2.coords t) → cfg2.idle 12 (grid2.coords t) = true := by decide +kernel
/-- and its block is not written back there. -/
theorem noFlush2_12 : ∀ t : Fin cfg2.N, ¬cond2_1 (grid2.coords t) → (cfg2.win 12).flush t = false := by decide +kernel
/-- At the last point output 12 is stored: the window is live. -/
theorem liveAt2_12 : ∀ t : Fin cfg2.N, cond2_1 (grid2.coords t) → cfg2.idle 12 (grid2.coords t) = false := by decide +kernel

/-! ## The memrefs the body is called with -/

noncomputable abbrev ms2_0 (t : Fin cfg2.N) : Memref sig .tc .vmem S4096x64 .f32 := win2_0.stage (cfg2.slots t 0)
noncomputable abbrev hs2_0 (t : Fin cfg2.N) : (ms2_0 t).IsWhole := hstage2_0 ((cfg2.slots t 0).cast nbuf2_0)
noncomputable abbrev ms2_1 (t : Fin cfg2.N) : Memref sig .tc .vmem S4096x64 .f32 := win2_1.stage (cfg2.slots t 1)
noncomputable abbrev hs2_1 (t : Fin cfg2.N) : (ms2_1 t).IsWhole := hstage2_1 ((cfg2.slots t 1).cast nbuf2_1)
noncomputable abbrev ms2_2 (t : Fin cfg2.N) : Memref sig .tc .vmem S1x64 .f32 := win2_2.stage (cfg2.slots t 2)
noncomputable abbrev hs2_2 (t : Fin cfg2.N) : (ms2_2 t).IsWhole := hstage2_2 ((cfg2.slots t 2).cast nbuf2_2)
noncomputable abbrev ms2_3 (t : Fin cfg2.N) : Memref sig .tc .vmem S64x128 .f32 := win2_3.stage (cfg2.slots t 3)
noncomputable abbrev hs2_3 (t : Fin cfg2.N) : (ms2_3 t).IsWhole := hstage2_3 ((cfg2.slots t 3).cast nbuf2_3)
noncomputable abbrev ms2_4 (t : Fin cfg2.N) : Memref sig .tc .vmem S1x128 .f32 := win2_4.stage (cfg2.slots t 4)
noncomputable abbrev hs2_4 (t : Fin cfg2.N) : (ms2_4 t).IsWhole := hstage2_4 ((cfg2.slots t 4).cast nbuf2_4)
noncomputable abbrev ms2_5 (t : Fin cfg2.N) : Memref sig .tc .vmem S1x128 .f32 := win2_5.stage (cfg2.slots t 5)
noncomputable abbrev hs2_5 (t : Fin cfg2.N) : (ms2_5 t).IsWhole := hstage2_5 ((cfg2.slots t 5).cast nbuf2_5)
noncomputable abbrev ms2_6 (t : Fin cfg2.N) : Memref sig .tc .vmem S1x128 .f32 := win2_6.stage (cfg2.slots t 6)
noncomputable abbrev hs2_6 (t : Fin cfg2.N) : (ms2_6 t).IsWhole := hstage2_6 ((cfg2.slots t 6).cast nbuf2_6)
noncomputable abbrev ms2_7 (t : Fin cfg2.N) : Memref sig .tc .vmem S1x128 .f32 := win2_7.stage (cfg2.slots t 7)
noncomputable abbrev hs2_7 (t : Fin cfg2.N) : (ms2_7 t).IsWhole := hstage2_7 ((cfg2.slots t 7).cast nbuf2_7)
noncomputable abbrev ms2_8 (t : Fin cfg2.N) : Memref sig .tc .vmem S1x128 .f32 := win2_8.stage (cfg2.slots t 8)
noncomputable abbrev hs2_8 (t : Fin cfg2.N) : (ms2_8 t).IsWhole := hstage2_8 ((cfg2.slots t 8).cast nbuf2_8)
noncomputable abbrev ms2_9 (t : Fin cfg2.N) : Memref sig .tc .vmem S128x64 .f32 := win2_9.stage (cfg2.slots t 9)
noncomputable abbrev hs2_9 (t : Fin cfg2.N) : (ms2_9 t).IsWhole := hstage2_9 ((cfg2.slots t 9).cast nbuf2_9)
noncomputable abbrev ms2_10 (t : Fin cfg2.N) : Memref sig .tc .vmem S1x64 .f32 := win2_10.stage (cfg2.slots t 10)
noncomputable abbrev hs2_10 (t : Fin cfg2.N) : (ms2_10 t).IsWhole := hstage2_10 ((cfg2.slots t 10).cast nbuf2_10)
noncomputable abbrev ms2_11 (t : Fin cfg2.N) : Memref sig .tc .vmem S1x64 .f32 := win2_11.stage (cfg2.slots t 11)
noncomputable abbrev hs2_11 (t : Fin cfg2.N) : (ms2_11 t).IsWhole := hstage2_11 ((cfg2.slots t 11).cast nbuf2_11)
noncomputable abbrev ms2_12 (t : Fin cfg2.N) : Memref sig .tc .vmem S1x64 .f32 := win2_12.stage (cfg2.slots t 12)
noncomputable abbrev hs2_12 (t : Fin cfg2.N) : (ms2_12 t).IsWhole := hstage2_12 ((cfg2.slots t 12).cast nbuf2_12)
/-- The two accumulators: whole buffers of the kernel's own, passed beside the windows. -/
noncomputable abbrev scM2_0 : Memref sig .tc .vmem S1x64 .f32 := Memref.whole cc2_scratch0
noncomputable abbrev scM2_1 : Memref sig .tc .vmem S1x64 .f32 := Memref.whole cc2_scratch1
/-- The accumulators as views: what they hold is stated through these. -/
noncomputable abbrev VS2_0 : View sig .tc .vmem S1x64 .f32 := scM2_0.view
noncomputable abbrev VS2_1 : View sig .tc .vmem S1x64 .f32 := scM2_1.view
/-- One staging buffer of each output window, through which its contents are stated (the choice does not matter). -/
noncomputable abbrev VO2_11 : View sig .tc .vmem S1x64 .f32 := (Memref.whole cc2_stg11_0 : Memref sig .tc .vmem S1x64 .f32).view
noncomputable abbrev VO2_12 : View sig .tc .vmem S1x64 .f32 := (Memref.whole cc2_stg12_0 : Memref sig .tc .vmem S1x64 .f32).view

/-- The core's scoped buffers that are no staging buffer of this call: the two accumulators, as memrefs owned at some
    contents, and every other one unopened. -/
theorem scoped2_eq (c : Dev nD) :
    (Pipeline.scopedRest (Ix := Unit) (Name := ℕ) (U := UR sig nD τ) (Lvl := ℕ) (Val := Elt F) spec2 c : sProp 𝕄)
      = iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) := by
  rw [scopedRest2_split]; simp only [scM2_0, scM2_1, owns_whole]; try rfl

end Cert.KernelIdeal.Hand

end
-- ==== Proof.KI.Reg2RunA.lean ====
import proofs.«159011_j9938554322955_1_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the FIRST point (the index is 0): the accumulators, found at anything, are cleared and the block's column sums of z2 and z2 * z2
    added; nothing is stored into the two outputs, whose buffers are handed back as found.
    The statement: on whole memrefs, the eleven inputs at contents x0 ... x10, the body runs to any continuation that accepts the
    inputs as they were and each buffer it stored into with its stores applied, last first (the lists are what the run finds). -/
noncomputable def kernelRun2_A (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc2__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc2__stats2_kernel_eq_skeleton]; unfold cc2__stats2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.KernelIdeal.Hand

end
-- ==== Proof.KI.Reg2RunB.lean ====
import proofs.«159011_j9938554322955_1_alg».proof.Proof.KI.Reg2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a MIDDLE point (the index is neither 0 nor 15): the block's column sums are added into the accumulators, found at xs0, xs1;
    nothing is stored into the two outputs, whose buffers are handed back as found.
    The statement: on whole memrefs, the eleven inputs at contents x0 ... x10, the body runs to any continuation that accepts the
    inputs as they were and each buffer it stored into with its stores applied, last first (the lists are what the run finds). -/
noncomputable def kernelRun2_B (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc2__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc2__stats2_kernel_eq_skeleton]; unfold cc2__stats2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.KernelIdeal.Hand

end
-- ==== Proof.KI.Reg2RunC.lean ====
import proofs.«159011_j9938554322955_1_alg».proof.Proof.KI.Reg2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the LAST point (the index is 15): the block's column sums are added into the accumulators, found at xs0, xs1, and then
    mean = S * 2^(-16) and var = Q * 2^(-16) - mean * mean are stored into the two outputs, found at anything.
    The statement: on whole memrefs, the eleven inputs at contents x0 ... x10, the body runs to any continuation that accepts the
    inputs as they were and each buffer it stored into with its stores applied, last first (the lists are what the run finds). -/
noncomputable def kernelRun2_C (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (L11 : List (View.Piece (Elt F) S1x64 .f32)) (L12 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc2__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc2__stats2_kernel_eq_skeleton]; unfold cc2__stats2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [HS0]; · iexists _; iexact HS0
    iexists _; iexact HS1

end Cert.KernelIdeal.Hand

end
-- ==== Proof.KI.Reg2.lean ====
import proofs.«159011_j9938554322955_1_alg».proof.Proof.KI.Reg2RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second statistics kernel of a layer, at the contents V its region is entered with -/

/-- Window w's block at point t, read off its array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Every input's staging buffer holds its block at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-! ## What each kind of point leaves in the accumulators and in the outputs -/

/-- Case A: the stores into accumulator 0 cover it. -/
theorem scover2_A_0 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1 S1x64.size (by sl_kernel_rfl) y

/-- Case A: what the point leaves in accumulator 0: its stores read back. -/
noncomputable def sout2_A_0 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1)

/-- Case A: the stores into accumulator 1 cover it. -/
theorem scover2_A_1 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1 S1x64.size (by sl_kernel_rfl) y

/-- Case A: what the point leaves in accumulator 1: its stores read back. -/
noncomputable def sout2_A_1 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1)

/-- Case B: the stores into accumulator 0 cover it. -/
theorem scover2_B_0 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- Case B: what the point leaves in accumulator 0: its stores read back. -/
noncomputable def sout2_B_0 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- Case B: the stores into accumulator 1 cover it. -/
theorem scover2_B_1 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- Case B: what the point leaves in accumulator 1: its stores read back. -/
noncomputable def sout2_B_1 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- At the last point the stores into output 11 cover its block. -/
theorem cover2_C_11 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- What the last point leaves in output 11's staging buffer: its stores read back. -/
noncomputable def out2_C_11 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO2_11.read (Elt F) (VO2_11.writes (Elt F) VO2_11.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- At the last point the stores into output 12 cover its block. -/
theorem cover2_C_12 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- What the last point leaves in output 12's staging buffer: its stores read back. -/
noncomputable def out2_C_12 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO2_12.read (Elt F) (VO2_12.writes (Elt F) VO2_12.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- Case C: the stores into accumulator 0 cover it. -/
theorem scover2_C_0 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1 S1x64.size (by sl_kernel_rfl) y

/-- Case C: what the point leaves in accumulator 0: its stores read back. -/
noncomputable def sout2_C_0 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1)

/-- Case C: the stores into accumulator 1 cover it. -/
theorem scover2_C_1 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1 S1x64.size (by sl_kernel_rfl) y

/-- Case C: what the point leaves in accumulator 1: its stores read back. -/
noncomputable def sout2_C_1 (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1)

/-! ## The running sums -/

/-- THE ACCUMULATION. What the two accumulators hold after the body at position n: at the first point the cleared
    accumulators plus the block's column sums; afterwards what position n - 1 left plus the block's column sums. -/
noncomputable def outsAt2 (c : Dev nD) : (n : ℕ) → n < cfg2.N → Vec F S1x64 .f32 × Vec F S1x64 .f32
  | 0, hn => (sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩))
  | n + 1, hn =>
    if h1 : (n + 1) % 16 = 15 then
      (sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) scM2_0 (Memref.isWhole_whole _) scM2_1 (Memref.isWhole_whole _) (fun h => (fun h => by have hN : n + 1 < 16 := lt_of_lt_of_eq hn (show cfg2.N = 16 from N_2); (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (outsAt2 c n (Nat.lt_of_succ_lt hn)).1 (outsAt2 c n (Nat.lt_of_succ_lt hn)).2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) scM2_0 (Memref.isWhole_whole _) scM2_1 (Memref.isWhole_whole _) (fun h => (fun h => by have hN : n + 1 < 16 := lt_of_lt_of_eq hn (show cfg2.N = 16 from N_2); (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (outsAt2 c n (Nat.lt_of_succ_lt hn)).1 (outsAt2 c n (Nat.lt_of_succ_lt hn)).2)
    else
      (sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) scM2_0 (Memref.isWhole_whole _) scM2_1 (Memref.isWhole_whole _) (fun h => (fun h => by have hN : n + 1 < 16 := lt_of_lt_of_eq hn (show cfg2.N = 16 from N_2); (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (outsAt2 c n (Nat.lt_of_succ_lt hn)).1 (outsAt2 c n (Nat.lt_of_succ_lt hn)).2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) scM2_0 (Memref.isWhole_whole _) scM2_1 (Memref.isWhole_whole _) (fun h => (fun h => by have hN : n + 1 < 16 := lt_of_lt_of_eq hn (show cfg2.N = 16 from N_2); (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (outsAt2 c n (Nat.lt_of_succ_lt hn)).1 (outsAt2 c n (Nat.lt_of_succ_lt hn)).2)

/-- The running sums at the first point. -/
theorem outsAt2_A (c : Dev nD) (t : Fin cfg2.N) (h0 : t.val % 16 = 0) (h1 : ¬t.val % 16 = 15) :
    outsAt2 V c t.val t.isLt = (sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)) := by
  obtain ⟨n, hn⟩ := t
  cases n with
  | zero => exact rfl
  | succ n => exact (by exfalso; have hN : n + 1 < 16 := lt_of_lt_of_eq hn (show cfg2.N = 16 from N_2); (try dsimp only at h0); omega)

/-- The running sums at a middle point: over what the point before left. -/
theorem outsAt2_B (c : Dev nD) (t : Fin cfg2.N) (h0 : ¬t.val % 16 = 0) (h1 : ¬t.val % 16 = 15) :
    outsAt2 V c t.val t.isLt = (sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- The running sums at the last point: over what the point before left. -/
theorem outsAt2_C (c : Dev nD) (t : Fin cfg2.N) (h0 : ¬t.val % 16 = 0) (h1 : t.val % 16 = 15) :
    outsAt2 V c t.val t.isLt = (sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- What the two outputs' staging buffers hold after the body at the last point: mean and variance from the running sums.
    (At every other point the windows are idle and this is not consulted.) -/
noncomputable def outs2 (c : Dev nD) (t : Fin cfg2.N) : Vec F S1x64 .f32 × Vec F S1x64 .f32 :=
  if h1 : t.val % 16 = 15 then
    (out2_C_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => (fun h => by omega) ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2, out2_C_12 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => (fun h => by omega) ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2)
  else (k2_pay6 (F := F), k2_pay7 (F := F))

theorem outs2_C (c : Dev nD) (t : Fin cfg2.N) (h0 : ¬t.val % 16 = 0) (h1 : t.val % 16 = 15) :
    outs2 V c t = (out2_C_11 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2, out2_C_12 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (outsAt2 V c (t.val - 1) (Nat.lt_of_le_of_lt (Nat.sub_le _ _) t.isLt)).1 (outsAt2 V c (t.val - 1) (Nat.lt_of_le_of_lt (Nat.sub_le _ _) t.isLt)).2) :=
  (dif_pos h1).trans rfl

/-! ## The invariant between points -/

/-- The region invariant before position n: the generator register at some state, the two accumulators — at anything before
    the first point, afterwards at the running sums the point before left —, and every other scoped buffer unopened. -/
noncomputable def PhiS2 (c : Dev nD) : (n : ℕ) → n ≤ cfg2.N → sProp 𝕄
  | 0, _ => iprop((∃ r, prngReg c r) ∗ iprop((∃ d, owns (c : Thread nD τ) scM2_0 fullShare d) ∗ (∃ d, owns (c : Thread nD τ) scM2_1 fullShare d)) ∗ Pipeline.scopedRestBut (Ix := Unit) (Name := ℕ) (U := UR sig nD τ) (Lvl := ℕ) (Val := Elt F) spec2 c [cc2_scratch0, cc2_scratch1])
  | n + 1, hn => iprop((∃ r, prngReg c r) ∗ iprop(owns (c : Thread nD τ) scM2_0 fullShare ((outsAt2 V c n hn).1) ∗ owns (c : Thread nD τ) scM2_1 fullShare ((outsAt2 V c n hn).2)) ∗ Pipeline.scopedRestBut (Ix := Unit) (Name := ℕ) (U := UR sig nD τ) (Lvl := ℕ) (Val := Elt F) spec2 c [cc2_scratch0, cc2_scratch1])

theorem PhiS2_zero (c : Dev nD) (n : ℕ) (h : n ≤ cfg2.N) (hz : n = 0) :
    PhiS2 V c n h = iprop((∃ r, prngReg c r) ∗ iprop((∃ d, owns (c : Thread nD τ) scM2_0 fullShare d) ∗ (∃ d, owns (c : Thread nD τ) scM2_1 fullShare d)) ∗ Pipeline.scopedRestBut (Ix := Unit) (Name := ℕ) (U := UR sig nD τ) (Lvl := ℕ) (Val := Elt F) spec2 c [cc2_scratch0, cc2_scratch1]) := by
  subst hz; rfl

theorem PhiS2_succ (c : Dev nD) (n : ℕ) (hn : n < cfg2.N) :
    PhiS2 V c (n + 1) hn = iprop((∃ r, prngReg c r) ∗ iprop(owns (c : Thread nD τ) scM2_0 fullShare ((outsAt2 V c n hn).1) ∗ owns (c : Thread nD τ) scM2_1 fullShare ((outsAt2 V c n hn).2)) ∗ Pipeline.scopedRestBut (Ix := Unit) (Name := ℕ) (U := UR sig nD τ) (Lvl := ℕ) (Val := Elt F) spec2 c [cc2_scratch0, cc2_scratch1]) := rfl

theorem PhiS2_pos (c : Dev nD) (n : ℕ) (h : n ≤ cfg2.N) (hz : n ≠ 0) :
    PhiS2 V c n h = iprop((∃ r, prngReg c r) ∗ iprop(owns (c : Thread nD τ) scM2_0 fullShare ((outsAt2 V c (n - 1) (by omega)).1) ∗ owns (c : Thread nD τ) scM2_1 fullShare ((outsAt2 V c (n - 1) (by omega)).2)) ∗ Pipeline.scopedRestBut (Ix := Unit) (Name := ℕ) (U := UR sig nD τ) (Lvl := ℕ) (Val := Elt F) spec2 c [cc2_scratch0, cc2_scratch1]) := by
  cases n with
  | zero => exact absurd rfl hz
  | succ n => rfl

/-! ## The proof data -/

/-- The proof data of the call on core c: the arrays as the region finds them; after the body each input's buffer at its
    block, the outputs' at mean and variance of the running sums; the invariant above; nothing owed; full shares. -/
noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => (outs2 V c t).1
    | ⟨12, _⟩ => (outs2 V c t).2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = (outs2 V c t).1 := by dsimp only [dat2]
theorem after2_12 (c : Dev nD) (t : Fin cfg2.N) : (dat2 V c).after 12 t = (outs2 V c t).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d

/-! ## The body obligation, at a generic point -/

/-- What the body is called with at point t, -/
noncomputable def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d)))

/-- and what it returns. -/
noncomputable def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t)

set_option maxHeartbeats 8000000 in
/-- The body at any point. The inputs' memrefs hold their blocks. At the first point the invariant hands the body the
    accumulators at anything and takes them back cleared-and-added; at a later point it hands them at the running sums the
    point before left and takes them back with this block's sums added. Away from the last point the outputs' buffers are
    handed back as found (the windows are idle there); at the last point they are left at mean and variance. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  rw [show (dat2 V c).leavesExact 9 t = owns (c : Thread nD τ) (ms2_9 t) fullShare ((dat2 V c).after 9 t) from by
    unfold Dat.leavesExact; rw [liveAt2_9 t], after2_9]
  rw [show (dat2 V c).leavesExact 10 t = owns (c : Thread nD τ) (ms2_10 t) fullShare ((dat2 V c).after 10 t) from by
    unfold Dat.leavesExact; rw [liveAt2_10 t], after2_10]
  by_cases h1 : t.val % 16 = 15
  · have h0 : ¬t.val % 16 = 0 := by omega
    have hz : t.val ≠ 0 := by omega
    rw [show (dat2 V c).leavesExact 11 t = owns (c : Thread nD τ) (ms2_11 t) fullShare ((dat2 V c).after 11 t) from by
      unfold Dat.leavesExact; rw [liveAt2_11 t ((hcond2_1 t).mpr h1)], after2_11]
    rw [show (dat2 V c).leavesExact 12 t = owns (c : Thread nD τ) (ms2_12 t) fullShare ((dat2 V c).after 12 t) from by
      unfold Dat.leavesExact; rw [liveAt2_12 t ((hcond2_1 t).mpr h1)], after2_12]
    rw [outsAt2_C V c t h0 h1, outs2_C V c t h0 h1]
    unfold out2_C_11 out2_C_12 sout2_C_0 sout2_C_1; (try dsimp only)
    rw [PhiS2_castSucc V c t, PhiS2_pos V c _ _ hz]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun2_C c (grid2.coords t) _ _ _ _ _ _ _ _ _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    iintro ⟨H0, H1, H2, H3, H4, H5, H6, H7, H8, H9, H10, ⟨%e11, H11⟩, ⟨%e12, H12⟩, ⟨%es0, HS0⟩, ⟨%es1, HS1⟩⟩
    isplitl [Hg HS0 HS1 HR]
    · isplitl [Hg]; · iexact Hg
      isplitl [HS0 HS1]
      · isplitl [HS0]
        · unfold owns; iexists _; isplitr
          swap; · iexact HS0
          ipureintro; exact View.read_writes_of_cover _ _ _ _ _ (scover2_C_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover2_C_1 c _ _ _ _ _ _ _ _ _ _ _ _ _ _ _ _ _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover2_C_11 c _ _ _ _ _ _ _ _ _ _ _ _ _ _ _ _ _ _ _ _ _ _ _ _ _ _ _ _ _ _ _ _ _ _ _ _ _ _ _ _ _ _ _ _ _ _)
    · unfold owns; iexists _; isplitr
      swap; · iexact H12
      ipureintro; exact View.read_writes_of_cover _ _ _ _ _ (cover2_C_12 c _ _ _ _ _ _ _ _ _ _ _ _ _ _ _ _ _ _ _ _ _ _ _ _ _ _ _ _ _ _ _ _ _ _ _ _ _ _ _ _ _ _ _ _ _ _)
  · rw [Dat.leavesExact_idle (dat2 V c) 11 t (idleAt2_11 t (fun h => h1 ((hcond2_1 t).mp h))) (noFlush2_11 t (fun h => h1 ((hcond2_1 t).mp h)))]
    rw [Dat.leavesExact_idle (dat2 V c) 12 t (idleAt2_12 t (fun h => h1 ((hcond2_1 t).mp h))) (noFlush2_12 t (fun h => h1 ((hcond2_1 t).mp h)))]
    by_cases h0 : t.val % 16 = 0
    · have hz : t.val = 0 := by omega
      rw [outsAt2_A V c t h0 h1]
      unfold sout2_A_0 sout2_A_1; (try dsimp only)
      rw [PhiS2_castSucc V c t, PhiS2_zero V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun2_A c (grid2.coords t) _ _ _ _ _ _ _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
    · have hz : t.val ≠ 0 := by omega
      rw [outsAt2_B V c t h0 h1]
      unfold sout2_B_0 sout2_B_1; (try dsimp only)
      rw [PhiS2_castSucc V c t, PhiS2_pos V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun2_B c (grid2.coords t) _ _ _ _ _ _ _ _ _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point: the scoped rest split at the two accumulators. -/
theorem phi_in2 (c : Dev nD) :
    (iprop((∃ r, prngReg c r) ∗ Pipeline.scopedRest (Ix := Unit) (Name := ℕ) (U := UR sig nD τ) (Lvl := ℕ) (Val := Elt F) spec2 c) : sProp 𝕄)
      ⊢ (dat2 V c).Φ 0 := by
  rw [show (dat2 V c).Φ 0 = PhiS2 V c 0 (Nat.zero_le _) from rfl, PhiS2_zero V c 0 _ rfl, scoped2_eq]

/-- After the last point the invariant gives the scoped rest back: the accumulators' named contents are forgotten. -/
theorem phi_out2 (c : Dev nD) :
    (dat2 V c).Φ (Fin.last cfg2.N)
      ⊢ (iprop((∃ r, prngReg c r) ∗ Pipeline.scopedRest (Ix := Unit) (Name := ℕ) (U := UR sig nD τ) (Lvl := ℕ) (Val := Elt F) spec2 c) : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), scoped2_eq]
  iintro ⟨Hg, ⟨HS0, HS1⟩, HR⟩
  isplitl [Hg]; · iexact Hg
  isplitl [HS0 HS1]
  · isplitl [HS0]; · iexists _; iexact HS0
    iexists _; iexact HS1
  iexact HR

/-! ## The found stores read back: one point's additions, and mean and variance -/

theorem hz2 : (![0, 0] : Fin 2 → Nat) = fun _ => 0 := funext fun a => by fin_cases a <;> rfl

/-- One point's addition to the first accumulator s: s plus the column sums of the block of z2 that the eleven input blocks give. -/
noncomputable def add2_0 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k2_pay2 (k2_pay8 x2 x0 x1 x3 x4 x5 x6) (k2_pay9 x7) x8 x9 x10 s
/-- One point's addition to the second accumulator: s plus the column sums of z2 * z2 of the same block. -/
noncomputable def add2_1 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k2_pay3 (k2_pay8 x2 x0 x1 x3 x4 x5 x6) (k2_pay9 x7) x8 x9 x10 s

theorem sout2_B_0_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout2_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add2_0 x0 x1 x2 x3 x4 x5 x6 x7 x8 x9 x10 xs0 := by
  unfold sout2_B_0 add2_0
  rw [View.read_writes_eq_canon _ _ _ (scover2_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

theorem sout2_B_1_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout2_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add2_1 x0 x1 x2 x3 x4 x5 x6 x7 x8 x9 x10 xs1 := by
  unfold sout2_B_1 add2_1
  rw [View.read_writes_eq_canon _ _ _ (scover2_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

theorem sout2_A_0_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout2_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add2_0 x0 x1 x2 x3 x4 x5 x6 x7 x8 x9 x10 (k2_pay6 (F := F)) := by
  unfold sout2_A_0 add2_0
  rw [View.read_writes_eq_canon _ _ _ (scover2_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun2_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

theorem sout2_A_1_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond2_0 i) (hc1 : ¬cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout2_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add2_1 x0 x1 x2 x3 x4 x5 x6 x7 x8 x9 x10 (k2_pay7 (F := F)) := by
  unfold sout2_A_1 add2_1
  rw [View.read_writes_eq_canon _ _ _ (scover2_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun2_A
  dsimp only
  sl_unfold_words
  rw [View.canon_cons_unit_zero (S := S1x64) hz2, View.readCov_unit_zero (S := S1x64) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

theorem sout2_C_0_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout2_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add2_0 x0 x1 x2 x3 x4 x5 x6 x7 x8 x9 x10 xs0 := by
  unfold sout2_C_0 add2_0
  rw [View.read_writes_eq_canon _ _ _ (scover2_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun2_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

theorem sout2_C_1_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout2_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add2_1 x0 x1 x2 x3 x4 x5 x6 x7 x8 x9 x10 xs1 := by
  unfold sout2_C_1 add2_1
  rw [View.read_writes_eq_canon _ _ _ (scover2_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun2_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

theorem out2_C_11_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out2_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k2_pay4 (add2_0 x0 x1 x2 x3 x4 x5 x6 x7 x8 x9 x10 xs0) := by
  unfold out2_C_11 add2_0
  rw [View.read_writes_eq_canon _ _ _ (cover2_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun2_C
  dsimp only
  sl_unfold_words
  rw [View.canon_unit_zero hz2]
  simp only [View.readCov_unit_zero (S := S1x64) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

theorem out2_C_12_eq (c : Dev nD) (i : grid2.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond2_0 i) (hc1 : cond2_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out2_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k2_pay5 (add2_0 x0 x1 x2 x3 x4 x5 x6 x7 x8 x9 x10 xs0) (add2_1 x0 x1 x2 x3 x4 x5 x6 x7 x8 x9 x10 xs1) := by
  unfold out2_C_12 add2_0 add2_1
  rw [View.read_writes_eq_canon _ _ _ (cover2_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun2_C
  dsimp only
  sl_unfold_words
  rw [View.canon_unit_zero hz2]
  simp only [View.readCov_unit_zero (S := S1x64) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz2, View.ld_unit_zero (S := S1x64) hz2, View.ld_unit_zero (S := S64x128) hz2, View.ld_unit_zero (S := S1x128) hz2, View.ld_unit_zero (S := S128x64) hz2]

/-! ## The running sums in closed form -/

/-- The ORDERED running sums after position n: the cleared accumulators plus the first block's sums, then one block's sums
    more per point. -/
noncomputable def sums2 (c : Dev nD) : (n : ℕ) → n < cfg2.N → Vec F S1x64 .f32 × Vec F S1x64 .f32
  | 0, h => (add2_0 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩) (iblk2 V c 9 ⟨0, h⟩) (iblk2 V c 10 ⟨0, h⟩) (k2_pay6 (F := F)), add2_1 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩) (iblk2 V c 9 ⟨0, h⟩) (iblk2 V c 10 ⟨0, h⟩) (k2_pay7 (F := F)))
  | n + 1, h => (add2_0 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (sums2 c n (Nat.lt_of_succ_lt h)).1, add2_1 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (sums2 c n (Nat.lt_of_succ_lt h)).2)

/-- What the accumulators hold after position n IS the running sums: by induction on the point. -/
theorem outsAt2_eq (c : Dev nD) : ∀ (n : ℕ) (h : n < cfg2.N), outsAt2 V c n h = sums2 V c n h
  | 0, h => by
    rw [outsAt2_A V c ⟨0, h⟩ rfl (by show ¬(0 : ℕ) % 16 = 15; omega), sout2_A_0_eq, sout2_A_1_eq]
    rfl
  | n + 1, h => by
    have hN : cfg2.N = 16 := N_2
    have hB : ¬(⟨n + 1, h⟩ : Fin cfg2.N).val % 16 = 0 := by dsimp only; omega
    have ih := outsAt2_eq c n (Nat.lt_of_succ_lt h)
    by_cases h1 : (⟨n + 1, h⟩ : Fin cfg2.N).val % 16 = 15
    · rw [outsAt2_C V c ⟨n + 1, h⟩ hB h1, sout2_C_0_eq, sout2_C_1_eq]
      show (add2_0 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (outsAt2 V c n _).1, add2_1 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (outsAt2 V c n _).2) = (add2_0 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (sums2 V c n _).1, add2_1 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (sums2 V c n _).2)
      rw [ih]
    · rw [outsAt2_B V c ⟨n + 1, h⟩ hB h1, sout2_B_0_eq, sout2_B_1_eq]
      show (add2_0 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (outsAt2 V c n _).1, add2_1 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (outsAt2 V c n _).2) = (add2_0 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (sums2 V c n _).1, add2_1 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (sums2 V c n _).2)
      rw [ih]

/-! ## What the region leaves in its two output arrays -/

/-- The running sums after the last point. -/
noncomputable abbrev total2 (c : Dev nD) : Vec F S1x64 .f32 × Vec F S1x64 .f32 := sums2 V c 15 (by rw [show cfg2.N = 16 from N_2]; decide)

/-- The mean array the region leaves: S * 2^(-16) of the first running sum. -/
noncomputable def G2_11 (c : Dev nD) : Buf (Elt F) ((c : Thread nD τ).loc main_v46_0) := k2_pay4 (total2 V c).1
/-- The variance array the region leaves: Q * 2^(-16) - mean * mean. -/
noncomputable def G2_12 (c : Dev nD) : Buf (Elt F) ((c : Thread nD τ).loc main_v46_1) := k2_pay5 (total2 V c).1 (total2 V c).2

/-- What the last point leaves in the two outputs' staging buffers. -/
theorem outs2_last (c : Dev nD) : outs2 V c t2_15 = (k2_pay4 (total2 V c).1, k2_pay5 (total2 V c).1 (total2 V c).2) := by
  rw [outs2_C V c t2_15 (by decide) (by decide), out2_C_11_eq, out2_C_12_eq]
  have ih := outsAt2_eq V c 14 (by rw [show cfg2.N = 16 from N_2]; decide)
  show (k2_pay4 (add2_0 (iblk2 V c 0 t2_15) (iblk2 V c 1 t2_15) (iblk2 V c 2 t2_15) (iblk2 V c 3 t2_15) (iblk2 V c 4 t2_15) (iblk2 V c 5 t2_15) (iblk2 V c 6 t2_15) (iblk2 V c 7 t2_15) (iblk2 V c 8 t2_15) (iblk2 V c 9 t2_15) (iblk2 V c 10 t2_15) (outsAt2 V c 14 _).1), k2_pay5 (add2_0 (iblk2 V c 0 t2_15) (iblk2 V c 1 t2_15) (iblk2 V c 2 t2_15) (iblk2 V c 3 t2_15) (iblk2 V c 4 t2_15) (iblk2 V c 5 t2_15) (iblk2 V c 6 t2_15) (iblk2 V c 7 t2_15) (iblk2 V c 8 t2_15) (iblk2 V c 9 t2_15) (iblk2 V c 10 t2_15) (outsAt2 V c 14 _).1) (add2_1 (iblk2 V c 0 t2_15) (iblk2 V c 1 t2_15) (iblk2 V c 2 t2_15) (iblk2 V c 3 t2_15) (iblk2 V c 4 t2_15) (iblk2 V c 5 t2_15) (iblk2 V c 6 t2_15) (iblk2 V c 7 t2_15) (iblk2 V c 8 t2_15) (iblk2 V c 9 t2_15) (iblk2 V c 10 t2_15) (outsAt2 V c 14 _).2)) = _
  rw [ih]
  rfl

/-- The one write-back of window 11, at the last point, writes it: the block is the whole array. -/
theorem flushed2_11 (c : Dev nD) (t : Fin cfg2.N) (hf : (cfg2.win 11).flush t = true) :
    (dat2 V c).flushed 11 t = ((cfg2.win 11).blk t).view.read (Elt F) (G2_11 V c) := by
  have hN : cfg2.N = 16 := N_2
  have h15 : t.val = 15 := by have := (flush2_11 t).mp hf; have := t.isLt; omega
  obtain rfl : t = t2_15 := Fin.ext h15
  show (cfg2.win 11).cut (grid2.coords t2_15) ((dat2 V c).after 11 t2_15) = _
  rw [after2_11, outs2_last]
  have hz' : (fun a => win2_11.index t2_15 a * main_v46_0.ty.shape.size a) = fun _ => 0 := funext fun a => by fin_cases a <;> decide
  exact (Memref.read_access_unit_zero (Elt F) main_v46_0 hz' (fun a => by rw [congrFun hz' a]; simp) (G2_11 V c)).symm

set_option maxHeartbeats 4000000 in
/-- So the array of window 11 ends holding it: the last point's block covers the array. -/
theorem final2_11 (c : Dev nD) : (dat2 V c).arrAt ⟨11, by decide⟩ cfg2.N = G2_11 V c :=
  (dat2 V c).arrAt_eq_of_cover 11 (G2_11 V c) (flushed2_11 V c) fun i =>
    ⟨t2_15, (flush2_11 t2_15).mpr rfl, by
      show i ∈ ((View.whole main_v46_0).slice (win2_11.rect t2_15)).set
      rw [View.set_slice_whole, Rect.mem_set_unit]
      intro a
      have h0 : (i 0 : Nat) < 1 := (i 0).isLt
      have h1 : (i 1 : Nat) < 64 := (i 1).isLt
      match a with
      | ⟨0, _⟩ => show win2_11.index t2_15 0 * win2_11.size 0 ≤ (i 0 : Nat) ∧ (i 0 : Nat) < win2_11.index t2_15 0 * win2_11.size 0 + win2_11.xsize (grid2.coords t2_15) 0
                  rw [show win2_11.index t2_15 0 * win2_11.size 0 = 0 from by decide +kernel, show win2_11.xsize (grid2.coords t2_15) 0 = 1 from by decide +kernel]; omega
      | ⟨1, _⟩ => show win2_11.index t2_15 1 * win2_11.size 1 ≤ (i 1 : Nat) ∧ (i 1 : Nat) < win2_11.index t2_15 1 * win2_11.size 1 + win2_11.xsize (grid2.coords t2_15) 1
                  rw [show win2_11.index t2_15 1 * win2_11.size 1 = 0 from by decide +kernel, show win2_11.xsize (grid2.coords t2_15) 1 = 64 from by decide +kernel]; omega⟩

/-- The one write-back of window 12, at the last point, writes it: the block is the whole array. -/
theorem flushed2_12 (c : Dev nD) (t : Fin cfg2.N) (hf : (cfg2.win 12).flush t = true) :
    (dat2 V c).flushed 12 t = ((cfg2.win 12).blk t).view.read (Elt F) (G2_12 V c) := by
  have hN : cfg2.N = 16 := N_2
  have h15 : t.val = 15 := by have := (flush2_12 t).mp hf; have := t.isLt; omega
  obtain rfl : t = t2_15 := Fin.ext h15
  show (cfg2.win 12).cut (grid2.coords t2_15) ((dat2 V c).after 12 t2_15) = _
  rw [after2_12, outs2_last]
  have hz' : (fun a => win2_12.index t2_15 a * main_v46_1.ty.shape.size a) = fun _ => 0 := funext fun a => by fin_cases a <;> decide
  exact (Memref.read_access_unit_zero (Elt F) main_v46_1 hz' (fun a => by rw [congrFun hz' a]; simp) (G2_12 V c)).symm

set_option maxHeartbeats 4000000 in
/-- So the array of window 12 ends holding it: the last point's block covers the array. -/
theorem final2_12 (c : Dev nD) : (dat2 V c).arrAt ⟨12, by decide⟩ cfg2.N = G2_12 V c :=
  (dat2 V c).arrAt_eq_of_cover 12 (G2_12 V c) (flushed2_12 V c) fun i =>
    ⟨t2_15, (flush2_12 t2_15).mpr rfl, by
      show i ∈ ((View.whole main_v46_1).slice (win2_12.rect t2_15)).set
      rw [View.set_slice_whole, Rect.mem_set_unit]
      intro a
      have h0 : (i 0 : Nat) < 1 := (i 0).isLt
      have h1 : (i 1 : Nat) < 64 := (i 1).isLt
      match a with
      | ⟨0, _⟩ => show win2_12.index t2_15 0 * win2_12.size 0 ≤ (i 0 : Nat) ∧ (i 0 : Nat) < win2_12.index t2_15 0 * win2_12.size 0 + win2_12.xsize (grid2.coords t2_15) 0
                  rw [show win2_12.index t2_15 0 * win2_12.size 0 = 0 from by decide +kernel, show win2_12.xsize (grid2.coords t2_15) 0 = 1 from by decide +kernel]; omega
      | ⟨1, _⟩ => show win2_12.index t2_15 1 * win2_12.size 1 ≤ (i 1 : Nat) ∧ (i 1 : Nat) < win2_12.index t2_15 1 * win2_12.size 1 + win2_12.xsize (grid2.coords t2_15) 1
                  rw [show win2_12.index t2_15 1 * win2_12.size 1 = 0 from by decide +kernel, show win2_12.xsize (grid2.coords t2_15) 1 = 64 from by decide +kernel]; omega⟩

end Cert.KernelIdeal.Hand

end
-- ==== Proof.KI.Reg3.lean ====
/- One of the network's four regions that finish a layer: the second half of a layer, on sixteen blocks of 4096 nodes. At each block the body
   forms (1 + e)·x + agg, maps it to 128 features, normalises by the layer's first mean and variance, clips at zero,
   maps back to 64 features, normalises by the second mean and variance, clips again and adds x. Everything the body
   reads is a block of one of fifteen arrays as the region finds them; what it writes is one block of the sixteenth.
   Stated at any entry contents V of the core's buffers and at any float model. -/
import proofs.«159011_j9938554322955_1_alg».proof.Proof.Gen.KernelIdeal.Launch
import proofs.«159011_j9938554322955_1_alg».proof.Proof.Gen.KernelIdeal.Skeleton
import proofs.«159011_j9938554322955_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

-- membership in a rectangle of 4096 rows is decided by a structural recursion one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window w's block at point t, read off its array as the region finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's buffer holds its block at every point, whether the block was brought in there or not: a block
    that is not brought in again has not moved, and the body leaves every input as it found it. One statement per
    input window, for any proof data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)

/-! ## What the body reads and writes: every buffer whole -/

noncomputable abbrev rRows3 : Rect S4096x64 := Rect.unit (s := S4096x64) ![0, 0] S4096x64.size inb_S4096x64_S4096x64_0_0
noncomputable abbrev rRowS3 : Rect S1x64 := Rect.unit (s := S1x64) ![0, 0] S1x64.size inb_S1x64_S1x64_0_0
noncomputable abbrev rMatA3 : Rect S64x128 := Rect.unit (s := S64x128) ![0, 0] S64x128.size inb_S64x128_S64x128_0_0
noncomputable abbrev rRowL3 : Rect S1x128 := Rect.unit (s := S1x128) ![0, 0] S1x128.size inb_S1x128_S1x128_0_0
noncomputable abbrev rMatB3 : Rect S128x64 := Rect.unit (s := S128x64) ![0, 0] S128x64.size inb_S128x64_S128x64_0_0

/-! ## What the body leaves in the output block -/

/-- The output block after the body, from the fifteen input blocks: one store over the whole block, of the second
    normalisation clipped plus x, itself computed from the first normalisation's two factors. -/
noncomputable def out3_15 (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) : Vec F S4096x64 .f32 :=
  View.canon [⟨rRows3, k3_pay1 (k3_pay2 (View.ld x_2 rRowS3) (View.ld x_0 rRows3) (View.ld x_1 rRows3) (View.ld x_3 rMatA3) (View.ld x_4 rRowL3) (View.ld x_5 rRowL3) (View.ld x_6 rRowL3) (View.ld x_7 rRowL3)) (k3_pay3 (View.ld x_8 rRowL3)) (View.ld x_9 rMatB3) (View.ld x_10 rRowS3) (View.ld x_11 rRowS3) (View.ld x_12 rRowS3) (View.ld x_13 rRowS3) (View.ld x_14 rRowS3) (View.ld x_0 rRows3)⟩]

/-- The one store covers the block. -/
theorem cover3_15 (p0 : Vec F S4096x64 .f32) (y : S4096x64.Idx) :
    ∃ pc ∈ ([⟨rRows3, p0⟩] : List (View.Piece (Elt F) S4096x64 .f32)), y ∈ pc.1.set :=
  View.cover_of_tiled [⟨rRows3, p0⟩] S4096x64.size (by rfl) y

/-! ## The body's triple -/

set_option maxHeartbeats 4000000 in
/-- The body on whole buffers, the fifteen inputs' at read contents x_0 … x_14 and the output's at anything, runs to the
    continuation holding the inputs' as they were and the output's at out3_15 of them. -/
theorem sound_kernel3 (c : Dev nD) (E : Set ℕ) (i : grid3.Coords) (a_0 : Memref sig .tc .vmem S4096x64 .f32) (h_0 : a_0.IsWhole) (a_1 : Memref sig .tc .vmem S4096x64 .f32) (h_1 : a_1.IsWhole) (a_2 : Memref sig .tc .vmem S1x64 .f32) (h_2 : a_2.IsWhole) (a_3 : Memref sig .tc .vmem S64x128 .f32) (h_3 : a_3.IsWhole) (a_4 : Memref sig .tc .vmem S1x128 .f32) (h_4 : a_4.IsWhole) (a_5 : Memref sig .tc .vmem S1x128 .f32) (h_5 : a_5.IsWhole) (a_6 : Memref sig .tc .vmem S1x128 .f32) (h_6 : a_6.IsWhole) (a_7 : Memref sig .tc .vmem S1x128 .f32) (h_7 : a_7.IsWhole) (a_8 : Memref sig .tc .vmem S1x128 .f32) (h_8 : a_8.IsWhole) (a_9 : Memref sig .tc .vmem S128x64 .f32) (h_9 : a_9.IsWhole) (a_10 : Memref sig .tc .vmem S1x64 .f32) (h_10 : a_10.IsWhole) (a_11 : Memref sig .tc .vmem S1x64 .f32) (h_11 : a_11.IsWhole) (a_12 : Memref sig .tc .vmem S1x64 .f32) (h_12 : a_12.IsWhole) (a_13 : Memref sig .tc .vmem S1x64 .f32) (h_13 : a_13.IsWhole) (a_14 : Memref sig .tc .vmem S1x64 .f32) (h_14 : a_14.IsWhole) (a_15 : Memref sig .tc .vmem S4096x64 .f32) (h_15 : a_15.IsWhole)
    (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) (K : PUnit → sProp 𝕄) :
    iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ (∃ d, owns (c : Thread nD τ) a_15 fullShare d)
        ∗ (iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ owns (c : Thread nD τ) a_15 fullShare (out3_15 x_0 x_1 x_2 x_3 x_4 x_5 x_6 x_7 x_8 x_9 x_10 x_11 x_12 x_13 x_14)) -∗ K ⟨⟩))
      ⊢ wp frame (wpE (defs₀ (F := F)) Variants.none c none) E (cc3__apply_kernel i a_0 h_0 a_1 h_1 a_2 h_2 a_3 h_3 a_4 h_4 a_5 h_5 a_6 h_6 a_7 h_7 a_8 h_8 a_9 h_9 a_10 h_10 a_11 h_11 a_12 h_12 a_13 h_13 a_14 h_14 a_15 h_15) K := by
  simp only [cc3__apply_kernel_eq_skeleton]; unfold cc3__apply_kernel_skel
  unfold owns
  iintro ⟨⟨%f_0, %hf_0, H_0⟩, ⟨%f_1, %hf_1, H_1⟩, ⟨%f_2, %hf_2, H_2⟩, ⟨%f_3, %hf_3, H_3⟩, ⟨%f_4, %hf_4, H_4⟩, ⟨%f_5, %hf_5, H_5⟩, ⟨%f_6, %hf_6, H_6⟩, ⟨%f_7, %hf_7, H_7⟩, ⟨%f_8, %hf_8, H_8⟩, ⟨%f_9, %hf_9, H_9⟩, ⟨%f_10, %hf_10, H_10⟩, ⟨%f_11, %hf_11, H_11⟩, ⟨%f_12, %hf_12, H_12⟩, ⟨%f_13, %hf_13, H_13⟩, ⟨%f_14, %hf_14, H_14⟩, ⟨%d_15, %f_15, -, H_15⟩, Hk⟩
  subst hf_0 hf_1 hf_2 hf_3 hf_4 hf_5 hf_6 hf_7 hf_8 hf_9 hf_10 hf_11 hf_12 hf_13 hf_14
  sl_exec
  sl_step
  iapply Hk
  isplitl [H_0]
  · iexists f_0; isplitr; · ipureintro; rfl
    iexact H_0
  isplitl [H_1]
  · iexists f_1; isplitr; · ipureintro; rfl
    iexact H_1
  isplitl [H_2]
  · iexists f_2; isplitr; · ipureintro; rfl
    iexact H_2
  isplitl [H_3]
  · iexists f_3; isplitr; · ipureintro; rfl
    iexact H_3
  isplitl [H_4]
  · iexists f_4; isplitr; · ipureintro; rfl
    iexact H_4
  isplitl [H_5]
  · iexists f_5; isplitr; · ipureintro; rfl
    iexact H_5
  isplitl [H_6]
  · iexists f_6; isplitr; · ipureintro; rfl
    iexact H_6
  isplitl [H_7]
  · iexists f_7; isplitr; · ipureintro; rfl
    iexact H_7
  isplitl [H_8]
  · iexists f_8; isplitr; · ipureintro; rfl
    iexact H_8
  isplitl [H_9]
  · iexists f_9; isplitr; · ipureintro; rfl
    iexact H_9
  isplitl [H_10]
  · iexists f_10; isplitr; · ipureintro; rfl
    iexact H_10
  isplitl [H_11]
  · iexists f_11; isplitr; · ipureintro; rfl
    iexact H_11
  isplitl [H_12]
  · iexists f_12; isplitr; · ipureintro; rfl
    iexact H_12
  isplitl [H_13]
  · iexists f_13; isplitr; · ipureintro; rfl
    iexact H_13
  isplitl [H_14]
  · iexists f_14; isplitr; · ipureintro; rfl
    iexact H_14
  iexists _; isplitr
  swap; · iexact H_15
  ipureintro
  exact View.read_writes_eq_canon _ _ _ (cover3_15 _)

/-! ## The proof data -/

/-- The region's proof data on core c: the arrays as the region finds them; after the body at point t each input's
    buffer at its block and the output's at out3_15 of the input blocks; the invariant the scoped rest and the
    generator register, untouched; nothing owed; full shares. -/
noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t)
    | ⟨_ + 16, h⟩ => absurd h (Nat.not_lt.2 (Nat.le_add_left _ _))
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d

/-! ## The body obligation -/

/-- What the body is called with at point t, -/
noncomputable def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d)))

/-- and what it returns. -/
noncomputable def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t))

set_option maxHeartbeats 1000000 in
/-- The body at any point: the inputs' buffers hold their blocks, so the triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15]
  iintro ⟨HΦ, Ho, ⟨%d_0, H_0⟩, ⟨%d_1, H_1⟩, ⟨%d_2, H_2⟩, ⟨%d_3, H_3⟩, ⟨%d_4, H_4⟩, ⟨%d_5, H_5⟩, ⟨%d_6, H_6⟩, ⟨%d_7, H_7⟩, ⟨%d_8, H_8⟩, ⟨%d_9, H_9⟩, ⟨%d_10, H_10⟩, ⟨%d_11, H_11⟩, ⟨%d_12, H_12⟩, ⟨%d_13, H_13⟩, ⟨%d_14, H_14⟩, ⟨%d_15, H_15⟩⟩
  iapply (sound_kernel3 c Set.univ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) _)
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  isplitl [H_15]; · iexists _; iexact H_15
  iintro ⟨H_0, H_1, H_2, H_3, H_4, H_5, H_6, H_7, H_8, H_9, H_10, H_11, H_12, H_13, H_14, H_15⟩
  isplitl [HΦ]; · iexact HΦ
  isplitl [Ho]; · iexact Ho
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  iexact H_15

theorem body_obligation3 (c : Dev nD) : BodyObligation (dat3 (F := F) V c) (defs₀ (F := F)) Variants.none () Set.univ := fun t => by
  rw [bigSep_W3, bigSep_W3]
  exact sound_body3 V c t

/-! ## The invariant at the region's ends -/

theorem phi_in3 (c : Dev nD) :
    (iprop((∃ r, prngReg c r) ∗ Pipeline.scopedRest (Ix := Unit) (Name := ℕ) (U := UR sig nD τ) (Lvl := ℕ) (Val := Elt F) spec3 c) : sProp 𝕄)
      ⊢ (dat3 V c).Φ 0 := by
  rw [show (dat3 V c).Φ 0 = Pipeline.ΦA spec3 c from rfl]; unfold Pipeline.ΦA
  iintro ⟨Hp, Hr⟩
  isplitl [Hr]; · iexact Hr
  iexact Hp

theorem phi_out3 (c : Dev nD) :
    (dat3 V c).Φ (Fin.last cfg3.N)
      ⊢ (iprop((∃ r, prngReg c r) ∗ Pipeline.scopedRest (Ix := Unit) (Name := ℕ) (U := UR sig nD τ) (Lvl := ℕ) (Val := Elt F) spec3 c) : sProp 𝕄) := by
  rw [show (dat3 V c).Φ (Fin.last _) = Pipeline.ΦA spec3 c from rfl]; unfold Pipeline.ΦA
  iintro ⟨Hr, Hp⟩
  isplitl [Hp]; · iexact Hp
  iexact Hr

/-! ## The whole output array

    Sixteen blocks of 4096 rows tile the 65536 rows, block t holding rows 4096·t … 4096·t + 4095, so row r is written
    at point r / 4096, at place r % 4096 of the block, and what is written there depends on the inputs' blocks at that
    point only. -/

/-- The point whose block holds an index's row. -/
noncomputable def pt3 (i : S65536x64.Idx) : Fin cfg3.N :=
  ⟨(i 0).val / 4096, by have h := ValueIdx.idx2_lt0 i; show (i 0).val / 4096 < grid3.N; rw [N_3]; omega⟩

/-- Where an index of the array sits inside its block. -/
noncomputable def loc3 (i : S65536x64.Idx) : S4096x64.Idx :=
  ValueIdx.ix2 ⟨(i 0).val % 4096, Nat.mod_lt _ (by decide)⟩ (i 1)

/-- The output array as one function of the fifteen input arrays: at each index, what the body leaves at the index's
    place in its block, from the inputs' blocks at the index's point. -/
noncomputable def G3_15 (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) : S65536x64.Idx → Elt F .f32 :=
  fun i => out3_15
      (((cfg3.win 0).blk (pt3 i)).view.read (Elt F) A_0)
      (((cfg3.win 1).blk (pt3 i)).view.read (Elt F) A_1)
      (((cfg3.win 2).blk (pt3 i)).view.read (Elt F) A_2)
      (((cfg3.win 3).blk (pt3 i)).view.read (Elt F) A_3)
      (((cfg3.win 4).blk (pt3 i)).view.read (Elt F) A_4)
      (((cfg3.win 5).blk (pt3 i)).view.read (Elt F) A_5)
      (((cfg3.win 6).blk (pt3 i)).view.read (Elt F) A_6)
      (((cfg3.win 7).blk (pt3 i)).view.read (Elt F) A_7)
      (((cfg3.win 8).blk (pt3 i)).view.read (Elt F) A_8)
      (((cfg3.win 9).blk (pt3 i)).view.read (Elt F) A_9)
      (((cfg3.win 10).blk (pt3 i)).view.read (Elt F) A_10)
      (((cfg3.win 11).blk (pt3 i)).view.read (Elt F) A_11)
      (((cfg3.win 12).blk (pt3 i)).view.read (Elt F) A_12)
      (((cfg3.win 13).blk (pt3 i)).view.read (Elt F) A_13)
      (((cfg3.win 14).blk (pt3 i)).view.read (Elt F) A_14)
      (loc3 i)

/-- G3_15 at an index, one step unfolded. -/
theorem G3_15_apply (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) (i : S65536x64.Idx) :
    G3_15 A_0 A_1 A_2 A_3 A_4 A_5 A_6 A_7 A_8 A_9 A_10 A_11 A_12 A_13 A_14 i = out3_15 (((cfg3.win 0).blk (pt3 i)).view.read (Elt F) A_0) (((cfg3.win 1).blk (pt3 i)).view.read (Elt F) A_1) (((cfg3.win 2).blk (pt3 i)).view.read (Elt F) A_2) (((cfg3.win 3).blk (pt3 i)).view.read (Elt F) A_3) (((cfg3.win 4).blk (pt3 i)).view.read (Elt F) A_4) (((cfg3.win 5).blk (pt3 i)).view.read (Elt F) A_5) (((cfg3.win 6).blk (pt3 i)).view.read (Elt F) A_6) (((cfg3.win 7).blk (pt3 i)).view.read (Elt F) A_7) (((cfg3.win 8).blk (pt3 i)).view.read (Elt F) A_8) (((cfg3.win 9).blk (pt3 i)).view.read (Elt F) A_9) (((cfg3.win 10).blk (pt3 i)).view.read (Elt F) A_10) (((cfg3.win 11).blk (pt3 i)).view.read (Elt F) A_11) (((cfg3.win 12).blk (pt3 i)).view.read (Elt F) A_12) (((cfg3.win 13).blk (pt3 i)).view.read (Elt F) A_13) (((cfg3.win 14).blk (pt3 i)).view.read (Elt F) A_14) (loc3 i) := rfl

/-- The output's block index at point t is (t, 0), decided over the sixteen points. -/
theorem idx3_15 : ∀ t : Fin cfg3.N, win3_15.index t (0 : Fin 2) = t.val ∧ win3_15.index t (1 : Fin 2) = 0 :=
  (by decide +kernel : ∀ t : Fin grid3.N, _)

set_option maxHeartbeats 2000000 in
/-- What point t writes back is block t of G3_15 of the arrays as the region finds them. -/
theorem flushed3_15_eq (c : Dev nD) (t : Fin cfg3.N) :
    (dat3 V c).flushed 15 t = ((cfg3.win 15).blk t).view.read (Elt F) (G3_15 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12)) (V c (Pipeline.arrRef spec3 13)) (V c (Pipeline.arrRef spec3 14))) := by
  show (cfg3.win 15).cut (grid3.coords t) ((dat3 V c).after 15 t) = _
  rw [after3_15]
  obtain ⟨e0, e1⟩ := idx3_15 t
  funext j
  have hj0 : (j 0).val < 4096 := (j 0).isLt
  have hp : pt3 (((cfg3.win 15).blk t).view.emb j) = t := by
    apply Fin.ext
    show (win3_15.index t (0 : Fin 2) * 4096 + 1 * (j 0).val) / 4096 = t.val
    omega
  have hl : loc3 (((cfg3.win 15).blk t).view.emb j) = j := by
    funext a; apply Fin.ext
    match a with
    | ⟨0, _⟩ => show (win3_15.index t (0 : Fin 2) * 4096 + 1 * (j 0).val) % 4096 = (j 0).val; omega
    | ⟨1, _⟩ => show win3_15.index t (1 : Fin 2) * 64 + 1 * (j 1).val = (j 1).val; omega
  rw [View.read_apply]
  rw [G3_15_apply, hp, hl]
  unfold iblk3
  generalize out3_15 (F := F) _ _ _ _ _ _ _ _ _ _ _ _ _ _ _ = X
  rfl

/-- An index of the array is in point t's block iff each coordinate is in the block's range on its axis. -/
theorem mem_blk3_15 (t : Fin cfg3.N) (i : S65536x64.Idx) :
    i ∈ ((cfg3.win 15).blk t).view.set ↔ ∀ a : Fin 2, win3_15.index t a * S4096x64.size a ≤ (i a).val ∧ (i a).val < win3_15.index t a * S4096x64.size a + S4096x64.size a := by
  show i ∈ ((View.whole main_v73).slice (win3_15.rect t)).set ↔ _
  rw [View.set_slice_whole, Rect.mem_set_unit]
  exact Iff.rfl

/-- Every index of the array is in some point's block. -/
theorem covered3_15 (i : S65536x64.Idx) : ∃ t : Fin cfg3.N, (cfg3.win 15).flush t = true ∧ i ∈ ((cfg3.win 15).blk t).view.set := by
  refine ⟨pt3 i, flush3_15 _, ?_⟩
  rw [mem_blk3_15]
  obtain ⟨e0, e1⟩ := idx3_15 (pt3 i)
  have h_0 := ValueIdx.idx2_lt0 i
  have h_1 := ValueIdx.idx2_lt1 i
  have hp : (pt3 i).val = (i 0).val / 4096 := rfl
  intro a
  match a with
  | ⟨0, _⟩ => show win3_15.index (pt3 i) (0 : Fin 2) * 4096 ≤ (i 0).val ∧ (i 0).val < win3_15.index (pt3 i) (0 : Fin 2) * 4096 + 4096; omega
  | ⟨1, _⟩ => show win3_15.index (pt3 i) (1 : Fin 2) * 64 ≤ (i 1).val ∧ (i 1).val < win3_15.index (pt3 i) (1 : Fin 2) * 64 + 64; omega

/-- The output array after the region: G3_15 of the arrays as the region finds them. -/
theorem final3_15 (c : Dev nD) :
    (dat3 V c).arrAt ⟨15, by decide⟩ cfg3.N = G3_15 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12)) (V c (Pipeline.arrRef spec3 13)) (V c (Pipeline.arrRef spec3 14)) :=
  (dat3 V c).arrAt_eq_of_cover 15 _ (fun t _ => flushed3_15_eq V c t) covered3_15

end Cert.KernelIdeal.Hand

end
-- ==== Proof.KI.Reg4.lean ====
import proofs.«159011_j9938554322955_1_alg».proof.Proof.Gen.KernelIdeal.Launch
import proofs.«159011_j9938554322955_1_alg».proof.Proof.Gen.KernelIdeal.Skeleton
import proofs.«159011_j9938554322955_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the body goes through the rectangle of a two-axis buffer's whole shape at zero offsets. -/

theorem hz2_4 : (![0, 0] : Fin 2 → ℕ) = fun _ => 0 := by funext a; fin_cases a <;> rfl

/-- A load of a whole buffer reads its contents. -/
theorem readAt_whole4 (sz : Fin 2 → ℕ) {e : EltTy} (v : View sig .tc .vmem (⟨2, sz⟩ : Shape) e)
    (inb : ∀ a, (![0, 0] : Fin 2 → ℕ) a + sz a ≤ sz a) (f : v.ty.Contents (Elt F)) :
    v.readAt (Elt F) (Rect.unit (s := (⟨2, sz⟩ : Shape)) ![0, 0] sz inb).toLoadRect f = v.read (Elt F) f :=
  (View.readAt_eq_ld v f _).trans (View.ld_unit_zero (S := (⟨2, sz⟩ : Shape)) hz2_4 inb _)

/-- The whole-shape rectangle holds every index. -/
theorem cover_whole4 (sz : Fin 2 → ℕ) {e : EltTy} (inb : ∀ a, (![0, 0] : Fin 2 → ℕ) a + sz a ≤ sz a)
    (w : (⟨2, sz⟩ : Shape).Idx → Elt F e) (L : List (View.Piece (Elt F) (⟨2, sz⟩ : Shape) e)) (y : (⟨2, sz⟩ : Shape).Idx) :
    ∃ p ∈ ((⟨Rect.unit (s := (⟨2, sz⟩ : Shape)) ![0, 0] sz inb, w⟩ : View.Piece (Elt F) (⟨2, sz⟩ : Shape) e) :: L), y ∈ p.1.set :=
  ⟨⟨Rect.unit (s := (⟨2, sz⟩ : Shape)) ![0, 0] sz inb, w⟩, List.mem_cons_self, View.mem_set_unit_zero (S := (⟨2, sz⟩ : Shape)) hz2_4 inb y⟩

/-- A store of a whole buffer, last, leaves its payload. -/
theorem read_writes_whole4 (sz : Fin 2 → ℕ) {e : EltTy} (v : View sig .tc .vmem (⟨2, sz⟩ : Shape) e)
    (inb : ∀ a, (![0, 0] : Fin 2 → ℕ) a + sz a ≤ sz a) (f : v.ty.Contents (Elt F)) (w : (⟨2, sz⟩ : Shape).Idx → Elt F e)
    (L : List (View.Piece (Elt F) (⟨2, sz⟩ : Shape) e)) :
    v.read (Elt F) (v.writes (Elt F) f ((⟨Rect.unit (s := (⟨2, sz⟩ : Shape)) ![0, 0] sz inb, w⟩ : View.Piece (Elt F) (⟨2, sz⟩ : Shape) e) :: L)) = w :=
  (View.read_writes_eq_canon v f _ (cover_whole4 sz inb w L)).trans
    (View.canon_cons_unit_zero (S := (⟨2, sz⟩ : Shape)) hz2_4 inb w L)

/-- A load of a whole buffer after a store of the whole buffer reads the payload. -/
theorem readCov_whole4 (sz : Fin 2 → ℕ) {e : EltTy} (v : View sig .tc .vmem (⟨2, sz⟩ : Shape) e)
    (inb : ∀ a, (![0, 0] : Fin 2 → ℕ) a + sz a ≤ sz a) (w : (⟨2, sz⟩ : Shape).Idx → Elt F e)
    (L : List (View.Piece (Elt F) (⟨2, sz⟩ : Shape) e)) :
    v.readCov ((⟨Rect.unit (s := (⟨2, sz⟩ : Shape)) ![0, 0] sz inb, w⟩ : View.Piece (Elt F) (⟨2, sz⟩ : Shape) e) :: L)
      (Rect.unit (s := (⟨2, sz⟩ : Shape)) ![0, 0] sz inb).toLoadRect = w :=
  (View.readCov_eq_canon_ld v _ (Rect.unit (s := (⟨2, sz⟩ : Shape)) ![0, 0] sz inb) (cover_whole4 sz inb w L)).trans
    ((congrArg (fun X => View.ld X (Rect.unit (s := (⟨2, sz⟩ : Shape)) ![0, 0] sz inb))
        (View.canon_cons_unit_zero (S := (⟨2, sz⟩ : Shape)) hz2_4 inb w L)).trans
      (View.ld_unit_zero (S := (⟨2, sz⟩ : Shape)) hz2_4 inb w))

/-! ## The body's two conditions -/

/-- The condition of the body's first `scf.if` (the scratch is zeroed), from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The condition of the body's second `scf.if` (the statistics are stored). -/
abbrev cond4_1 (i : grid4.Coords) : Prop := k4_cond2 i = 1#1
/-- It holds at the last point only. -/
theorem hcond4_1 : ∀ t : Fin cfg4.N, cond4_1 (grid4.coords t) ↔ t.val = 15 :=
  (by decide +kernel : ∀ t : Fin grid4.N, cond4_1 (grid4.coords t) ↔ t.val = 15)

/-! ## What one point adds to the two running sums, and the statistics stored at the last point -/

/-- The column sums of the block's `z` added to the running sum `S`. -/
noncomputable def sS4 (x0 x1 : Vec F S4096x64 .f32) (x2 : Vec F S1x64 .f32) (x3 : Vec F S64x128 .f32) (x4 S : Vec F S1x128 .f32) : Vec F S1x128 .f32 :=
  k4_pay7 x2 x0 x1 x3 x4 S
/-- The column sums of the block's `z · z` added to the running sum `Q`. -/
noncomputable def sQ4 (x0 x1 : Vec F S4096x64 .f32) (x2 : Vec F S1x64 .f32) (x3 : Vec F S64x128 .f32) (x4 Q : Vec F S1x128 .f32) : Vec F S1x128 .f32 :=
  k4_pay1 (k4_pay8 x2 x0 x1 x3 x4 Q)
/-- The two sums as the first point resets them. -/
noncomputable def zS4 : Vec F S1x128 .f32 := k4_pay4 (F := F)
noncomputable def zQ4 : Vec F S1x128 .f32 := k4_pay5 (F := F)
/-- The mean stored from the total `S`, and the variance stored from the totals `S`, `Q`. -/
noncomputable def oM4 (S : Vec F S1x128 .f32) : Vec F S1x128 .f32 := k4_pay2 S
noncomputable def oV4 (S Q : Vec F S1x128 .f32) : Vec F S1x128 .f32 := k4_pay3 S Q

set_option maxHeartbeats 2000000 in
/-- The body on whole staging memrefs and the two scratch buffers, at the first point (the scratch is zeroed first, whatever it held). -/
theorem sound_kernel4_A (c : Dev nD) (E : Set ℕ) (i : grid4.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond4_0 i) (hc1 : ¬cond4_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS4 x0 x1 x2 x3 x4 zS4)
            ∗ owns (c : Thread nD τ) arg9 fullShare (sQ4 x0 x1 x2 x3 x4 zQ4)) -∗ K ⟨⟩))
      ⊢ wp frame (wpE (defs₀ (F := F)) Variants.none c none) E (cc4__stats1_kernel i arg1 harg1 arg2 harg2 arg3 harg3 arg4 harg4 arg5 harg5 arg6 harg6 arg7 harg7 arg8 harg8 arg9 harg9) K := by
  simp only [cc4__stats1_kernel_eq_skeleton]; unfold cc4__stats1_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole4, readCov_whole4, readAt_whole4, oM4, oV4, sS4, sQ4, zS4, zQ4])
  isplitl [H6]
  · iexists _; isplitr
    swap; · iexact H6
    ipureintro
    first
      | rfl
      | (sl_unfold_run_names; (try dsimp only); simp only [read_writes_whole4, readCov_whole4, readAt_whole4, oM4, oV4, sS4, sQ4, zS4, zQ4])
  isplitl [H7]
  · iexists _; isplitr
    swap; · iexact H7
    ipureintro
    (sl_unfold_run_names; (try dsimp only); simp only [read_writes_whole4, readCov_whole4, readAt_whole4, oM4, oV4, sS4, sQ4, zS4, zQ4])
  iexists _; isplitr
  swap; · iexact H8
  ipureintro
  (sl_unfold_run_names; (try dsimp only); simp only [read_writes_whole4, readCov_whole4, readAt_whole4, oM4, oV4, sS4, sQ4, zS4, zQ4])

set_option maxHeartbeats 2000000 in
/-- The body on whole staging memrefs and the two scratch buffers, at a point that is neither the first nor the last. -/
theorem sound_kernel4_B (c : Dev nD) (E : Set ℕ) (i : grid4.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond4_0 i) (hc1 : ¬cond4_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS4 x0 x1 x2 x3 x4 S)
            ∗ owns (c : Thread nD τ) arg9 fullShare (sQ4 x0 x1 x2 x3 x4 Q)) -∗ K ⟨⟩))
      ⊢ wp frame (wpE (defs₀ (F := F)) Variants.none c none) E (cc4__stats1_kernel i arg1 harg1 arg2 harg2 arg3 harg3 arg4 harg4 arg5 harg5 arg6 harg6 arg7 harg7 arg8 harg8 arg9 harg9) K := by
  simp only [cc4__stats1_kernel_eq_skeleton]; unfold cc4__stats1_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole4, readCov_whole4, readAt_whole4, oM4, oV4, sS4, sQ4, zS4, zQ4])
  isplitl [H6]
  · iexists _; isplitr
    swap; · iexact H6
    ipureintro
    first
      | rfl
      | (sl_unfold_run_names; (try dsimp only); simp only [read_writes_whole4, readCov_whole4, readAt_whole4, oM4, oV4, sS4, sQ4, zS4, zQ4])
  isplitl [H7]
  · iexists _; isplitr
    swap; · iexact H7
    ipureintro
    (sl_unfold_run_names; (try dsimp only); simp only [read_writes_whole4, readCov_whole4, readAt_whole4, oM4, oV4, sS4, sQ4, zS4, zQ4])
  iexists _; isplitr
  swap; · iexact H8
  ipureintro
  (sl_unfold_run_names; (try dsimp only); simp only [read_writes_whole4, readCov_whole4, readAt_whole4, oM4, oV4, sS4, sQ4, zS4, zQ4])

set_option maxHeartbeats 2000000 in
/-- The body on whole staging memrefs and the two scratch buffers, at the last point (the statistics are stored from the totals). -/
theorem sound_kernel4_C (c : Dev nD) (E : Set ℕ) (i : grid4.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond4_0 i) (hc1 : cond4_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (oM4 (sS4 x0 x1 x2 x3 x4 S))
            ∗ owns (c : Thread nD τ) arg7 fullShare (oV4 (sS4 x0 x1 x2 x3 x4 S) (sQ4 x0 x1 x2 x3 x4 Q)) ∗ owns (c : Thread nD τ) arg8 fullShare (sS4 x0 x1 x2 x3 x4 S)
            ∗ owns (c : Thread nD τ) arg9 fullShare (sQ4 x0 x1 x2 x3 x4 Q)) -∗ K ⟨⟩))
      ⊢ wp frame (wpE (defs₀ (F := F)) Variants.none c none) E (cc4__stats1_kernel i arg1 harg1 arg2 harg2 arg3 harg3 arg4 harg4 arg5 harg5 arg6 harg6 arg7 harg7 arg8 harg8 arg9 harg9) K := by
  simp only [cc4__stats1_kernel_eq_skeleton]; unfold cc4__stats1_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole4, readCov_whole4, readAt_whole4, oM4, oV4, sS4, sQ4, zS4, zQ4])
  isplitl [H6]
  · iexists _; isplitr
    swap; · iexact H6
    ipureintro
    first
      | rfl
      | (sl_unfold_run_names; (try dsimp only); simp only [read_writes_whole4, readCov_whole4, readAt_whole4, oM4, oV4, sS4, sQ4, zS4, zQ4])
  isplitl [H7]
  · iexists _; isplitr
    swap; · iexact H7
    ipureintro
    (sl_unfold_run_names; (try dsimp only); simp only [read_writes_whole4, readCov_whole4, readAt_whole4, oM4, oV4, sS4, sQ4, zS4, zQ4])
  iexists _; isplitr
  swap; · iexact H8
  ipureintro
  (sl_unfold_run_names; (try dsimp only); simp only [read_writes_whole4, readCov_whole4, readAt_whole4, oM4, oV4, sS4, sQ4, zS4, zQ4])

variable (V : (c : Dev nD) → (b : Ref sig .tc) → Buf (Elt F) ((c : Thread nD τ).loc b))

/-! ## The windows' blocks -/

/-- Window w's block at point t, read off its array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## Where the windows are idle and written back

The five inputs are never idle. The two statistics are stored at the last point only: before it their windows are
idle and are not written back; at it they are live. -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem idleAt4_5 : ∀ t : Fin cfg4.N, t.val ≠ 15 → cfg4.idle 5 (grid4.coords t) = true := by decide +kernel
theorem idleAt4_6 : ∀ t : Fin cfg4.N, t.val ≠ 15 → cfg4.idle 6 (grid4.coords t) = true := by decide +kernel
theorem liveAt4_5 : ∀ t : Fin cfg4.N, t.val = 15 → cfg4.idle 5 (grid4.coords t) = false := by decide +kernel
theorem liveAt4_6 : ∀ t : Fin cfg4.N, t.val = 15 → cfg4.idle 6 (grid4.coords t) = false := by decide +kernel
theorem noFlush4_5 : ∀ t : Fin cfg4.N, t.val ≠ 15 → (cfg4.win 5).flush t = false := by decide +kernel
theorem noFlush4_6 : ∀ t : Fin cfg4.N, t.val ≠ 15 → (cfg4.win 6).flush t = false := by decide +kernel

/-! ## What an input's staging buffer holds

Each input's current staging buffer holds its block at every point, fetched there or not, for any proof data whose
array is the entry contents and whose body leaves the block in place. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The running sums

What the two scratch buffers hold after the body at point n: the first point resets them and adds its block's column
sums of z and of z · z; every later point adds its own to what the point before left. -/

noncomputable def accS4 (c : Dev nD) : (n : ℕ) → n < cfg4.N → Vec F S1x128 .f32
  | 0, hn => sS4 (iblk4 V c 0 ⟨0, hn⟩) (iblk4 V c 1 ⟨0, hn⟩) (iblk4 V c 2 ⟨0, hn⟩) (iblk4 V c 3 ⟨0, hn⟩) (iblk4 V c 4 ⟨0, hn⟩) zS4
  | n + 1, hn => sS4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accS4 c n (Nat.lt_of_succ_lt hn))

noncomputable def accQ4 (c : Dev nD) : (n : ℕ) → n < cfg4.N → Vec F S1x128 .f32
  | 0, hn => sQ4 (iblk4 V c 0 ⟨0, hn⟩) (iblk4 V c 1 ⟨0, hn⟩) (iblk4 V c 2 ⟨0, hn⟩) (iblk4 V c 3 ⟨0, hn⟩) (iblk4 V c 4 ⟨0, hn⟩) zQ4
  | n + 1, hn => sQ4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accQ4 c n (Nat.lt_of_succ_lt hn))

theorem accS4_zero (c : Dev nD) (t : Fin cfg4.N) (h0 : t.val = 0) :
    accS4 V c t.val t.isLt = sS4 (iblk4 V c 0 t) (iblk4 V c 1 t) (iblk4 V c 2 t) (iblk4 V c 3 t) (iblk4 V c 4 t) zS4 := by
  obtain ⟨n, hn⟩ := t
  cases n with
  | zero => rfl
  | succ n => exact absurd h0 (Nat.succ_ne_zero n)

theorem accS4_pos (c : Dev nD) (t : Fin cfg4.N) (h0 : t.val ≠ 0) :
    accS4 V c t.val t.isLt = sS4 (iblk4 V c 0 t) (iblk4 V c 1 t) (iblk4 V c 2 t) (iblk4 V c 3 t) (iblk4 V c 4 t) (accS4 V c (t.val - 1) (Nat.lt_of_le_of_lt (Nat.sub_le _ _) t.isLt)) := by
  obtain ⟨n, hn⟩ := t
  cases n with
  | zero => exact absurd rfl h0
  | succ n => rfl

theorem accQ4_zero (c : Dev nD) (t : Fin cfg4.N) (h0 : t.val = 0) :
    accQ4 V c t.val t.isLt = sQ4 (iblk4 V c 0 t) (iblk4 V c 1 t) (iblk4 V c 2 t) (iblk4 V c 3 t) (iblk4 V c 4 t) zQ4 := by
  obtain ⟨n, hn⟩ := t
  cases n with
  | zero => rfl
  | succ n => exact absurd h0 (Nat.succ_ne_zero n)

theorem accQ4_pos (c : Dev nD) (t : Fin cfg4.N) (h0 : t.val ≠ 0) :
    accQ4 V c t.val t.isLt = sQ4 (iblk4 V c 0 t) (iblk4 V c 1 t) (iblk4 V c 2 t) (iblk4 V c 3 t) (iblk4 V c 4 t) (accQ4 V c (t.val - 1) (Nat.lt_of_le_of_lt (Nat.sub_le _ _) t.isLt)) := by
  obtain ⟨n, hn⟩ := t
  cases n with
  | zero => exact absurd rfl h0
  | succ n => rfl

/-! ## The invariant between points -/

/-- The scoped rest with the two scratch buffers as whole memrefs owned at some contents. -/
theorem scr4_eq (c : Dev nD) :
    (Pipeline.scopedRest (Ix := Unit) (Name := ℕ) (U := UR sig nD τ) (Lvl := ℕ) (Val := Elt F) spec4 c : sProp 𝕄)
      = iprop(iprop((∃ d, owns (c : Thread nD τ) (Memref.whole cc4_scratch0) fullShare d) ∗ (∃ d, owns (c : Thread nD τ) (Memref.whole cc4_scratch1) fullShare d))
          ∗ Pipeline.scopedRestBut (Ix := Unit) (Name := ℕ) (U := UR sig nD τ) (Lvl := ℕ) (Val := Elt F) spec4 c [cc4_scratch0, cc4_scratch1]) := by
  rw [scopedRest4_split]; simp only [owns_whole]; try rfl

/-- Before the first point: the generator register and every scoped buffer that is no staging buffer, at anything.
    Before a later point: the same with the two scratch buffers at the running sums the point before left. -/
noncomputable def Phi4 (c : Dev nD) : (n : ℕ) → n ≤ cfg4.N → sProp 𝕄
  | 0, _ => iprop((∃ r, prngReg c r) ∗ Pipeline.scopedRest (Ix := Unit) (Name := ℕ) (U := UR sig nD τ) (Lvl := ℕ) (Val := Elt F) spec4 c)
  | n + 1, hn => iprop((∃ r, prngReg c r)
      ∗ iprop(owns (c : Thread nD τ) (Memref.whole cc4_scratch0) fullShare (accS4 V c n hn) ∗ owns (c : Thread nD τ) (Memref.whole cc4_scratch1) fullShare (accQ4 V c n hn))
      ∗ Pipeline.scopedRestBut (Ix := Unit) (Name := ℕ) (U := UR sig nD τ) (Lvl := ℕ) (Val := Elt F) spec4 c [cc4_scratch0, cc4_scratch1])

theorem Phi4_zero (c : Dev nD) (n : ℕ) (h : n ≤ cfg4.N) (hz : n = 0) :
    Phi4 V c n h = iprop((∃ r, prngReg c r) ∗ Pipeline.scopedRest (Ix := Unit) (Name := ℕ) (U := UR sig nD τ) (Lvl := ℕ) (Val := Elt F) spec4 c) := by
  subst hz; rfl

theorem Phi4_succ (c : Dev nD) (n : ℕ) (hn : n < cfg4.N) :
    Phi4 V c (n + 1) hn = iprop((∃ r, prngReg c r)
      ∗ iprop(owns (c : Thread nD τ) (Memref.whole cc4_scratch0) fullShare (accS4 V c n hn) ∗ owns (c : Thread nD τ) (Memref.whole cc4_scratch1) fullShare (accQ4 V c n hn))
      ∗ Pipeline.scopedRestBut (Ix := Unit) (Name := ℕ) (U := UR sig nD τ) (Lvl := ℕ) (Val := Elt F) spec4 c [cc4_scratch0, cc4_scratch1]) := rfl

theorem Phi4_pos (c : Dev nD) (n : ℕ) (h : n ≤ cfg4.N) (hz : n ≠ 0) :
    Phi4 V c n h = iprop((∃ r, prngReg c r)
      ∗ iprop(owns (c : Thread nD τ) (Memref.whole cc4_scratch0) fullShare (accS4 V c (n - 1) (by omega)) ∗ owns (c : Thread nD τ) (Memref.whole cc4_scratch1) fullShare (accQ4 V c (n - 1) (by omega)))
      ∗ Pipeline.scopedRestBut (Ix := Unit) (Name := ℕ) (U := UR sig nD τ) (Lvl := ℕ) (Val := Elt F) spec4 c [cc4_scratch0, cc4_scratch1]) := by
  cases n with
  | zero => exact absurd rfl hz
  | succ n => rfl

/-! ## The pipeline's proof data -/

/-- The arrays as the region finds them; after the body at point t each input's buffer at its block, the mean's and the
    variance's at the statistics of the running sums (consulted at the last point only: before it the two windows are idle);
    the invariant above; nothing owed; full shares. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => oM4 (accS4 V c t.val t.isLt)
    | ⟨6, _⟩ => oV4 (accS4 V c t.val t.isLt) (accQ4 V c t.val t.isLt)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = oM4 (accS4 V c t.val t.isLt) := by dsimp only [dat4]
theorem after4_6 (c : Dev nD) (t : Fin cfg4.N) : (dat4 V c).after 6 t = oV4 (accS4 V c t.val t.isLt) (accQ4 V c t.val t.isLt) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point t, the windows one by one, -/
noncomputable def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
noncomputable def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in
/-- The body at any point: the inputs' memrefs hold their blocks; the point is the first, the last or neither, which
    decides the two conditions; the invariant hands the body the two scratch buffers (at anything at the first point, at
    the running sums otherwise) and takes them back at this point's sums; the mean's and the variance's buffers come back
    untouched before the last point and hold the statistics after it; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = Phi4 V c (t.val + 1) t.isLt from rfl, Phi4_succ]
  have hN : t.val < 16 := lt_of_lt_of_eq t.isLt (show cfg4.N = 16 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [show (dat4 V c).leavesExact 2 t = owns (c : Thread nD τ) (st4_2 t) fullShare ((dat4 V c).after 2 t) from by
    unfold Dat.leavesExact; rw [liveAt4_2 t], after4_2]
  rw [show (dat4 V c).leavesExact 3 t = owns (c : Thread nD τ) (st4_3 t) fullShare ((dat4 V c).after 3 t) from by
    unfold Dat.leavesExact; rw [liveAt4_3 t], after4_3]
  rw [show (dat4 V c).leavesExact 4 t = owns (c : Thread nD τ) (st4_4 t) fullShare ((dat4 V c).after 4 t) from by
    unfold Dat.leavesExact; rw [liveAt4_4 t], after4_4]
  by_cases h0 : t.val = 0
  · have h1 : t.val ≠ 15 := by omega
    rw [Dat.leavesExact_idle (dat4 V c) 5 t (idleAt4_5 t h1) (noFlush4_5 t h1),
      Dat.leavesExact_idle (dat4 V c) 6 t (idleAt4_6 t h1) (noFlush4_6 t h1)]
    rw [accS4_zero V c t h0, accQ4_zero V c t h0]
    rw [Phi4_castSucc V c t, Phi4_zero V c _ _ h0, scr4_eq]
    iintro ⟨⟨Hg, ⟨⟨%dS, HS⟩, ⟨%dQ, HQ⟩⟩, Hrest⟩, Ho, ⟨%d0, H0⟩, ⟨%d1, H1⟩, ⟨%d2, H2⟩, ⟨%d3, H3⟩, ⟨%d4, H4⟩, ⟨%d5, H5⟩, ⟨%d6, H6⟩⟩
    iapply (sound_kernel4_A c Set.univ (grid4.coords t) _ _ _ _ _ _ _ _ _ _ _ _ _ _ (Memref.whole cc4_scratch0) (Memref.isWhole_whole _) (Memref.whole cc4_scratch1) (Memref.isWhole_whole _)
      ((hcond4_0 t).mpr h0) (fun h => h1 ((hcond4_1 t).mp h)) (iblk4 V c 0 t) (iblk4 V c 1 t) (iblk4 V c 2 t) (iblk4 V c 3 t) (iblk4 V c 4 t) _ _ dS dQ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HQ]; · iexact HQ
    iintro ⟨H0, H1, H2, H3, H4, H5, H6, HS, HQ⟩
    isplitl [Hg HS HQ Hrest]
    · isplitl [Hg]; · iexact Hg
      isplitl [HS HQ]
      · isplitl [HS]; · iexact HS
        iexact HQ
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 15
    · rw [show (dat4 V c).leavesExact 5 t = owns (c : Thread nD τ) (st4_5 t) fullShare ((dat4 V c).after 5 t) from by
        unfold Dat.leavesExact; rw [liveAt4_5 t h1], after4_5]
      rw [show (dat4 V c).leavesExact 6 t = owns (c : Thread nD τ) (st4_6 t) fullShare ((dat4 V c).after 6 t) from by
        unfold Dat.leavesExact; rw [liveAt4_6 t h1], after4_6]
      rw [accS4_pos V c t h0, accQ4_pos V c t h0]
      rw [Phi4_castSucc V c t, Phi4_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel4_C c Set.univ (grid4.coords t) _ _ _ _ _ _ _ _ _ _ _ _ _ _ (Memref.whole cc4_scratch0) (Memref.isWhole_whole _) (Memref.whole cc4_scratch1) (Memref.isWhole_whole _)
        (fun h => h0 ((hcond4_0 t).mp h)) ((hcond4_1 t).mpr h1) (iblk4 V c 0 t) (iblk4 V c 1 t) (iblk4 V c 2 t) (iblk4 V c 3 t) (iblk4 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat4 V c) 5 t (idleAt4_5 t h1) (noFlush4_5 t h1),
        Dat.leavesExact_idle (dat4 V c) 6 t (idleAt4_6 t h1) (noFlush4_6 t h1)]
      rw [accS4_pos V c t h0, accQ4_pos V c t h0]
      rw [Phi4_castSucc V c t, Phi4_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel4_B c Set.univ (grid4.coords t) _ _ _ _ _ _ _ _ _ _ _ _ _ _ (Memref.whole cc4_scratch0) (Memref.isWhole_whole _) (Memref.whole cc4_scratch1) (Memref.isWhole_whole _)
        (fun h => h0 ((hcond4_0 t).mp h)) (fun h => h1 ((hcond4_1 t).mp h)) (iblk4 V c 0 t) (iblk4 V c 1 t) (iblk4 V c 2 t) (iblk4 V c 3 t) (iblk4 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the region -/

/-- What the region is handed is the invariant before the first point. -/
theorem phi_in4 (c : Dev nD) :
    (iprop((∃ r, prngReg c r) ∗ Pipeline.scopedRest (Ix := Unit) (Name := ℕ) (U := UR sig nD τ) (Lvl := ℕ) (Val := Elt F) spec4 c) : sProp 𝕄)
      ⊢ (dat4 V c).Φ 0 := by
  rw [show (dat4 V c).Φ 0 = Phi4 V c 0 (Nat.zero_le _) from rfl, Phi4_zero V c 0 _ rfl]
  try exact Idealize.SL.BI.Entails.refl _

/-- After the last point the invariant gives it back: the scratch buffers' contents are forgotten. -/
theorem phi_out4 (c : Dev nD) :
    (dat4 V c).Φ (Fin.last cfg4.N)
      ⊢ (iprop((∃ r, prngReg c r) ∗ Pipeline.scopedRest (Ix := Unit) (Name := ℕ) (U := UR sig nD τ) (Lvl := ℕ) (Val := Elt F) spec4 c) : sProp 𝕄) := by
  have ht : (Fin.last cfg4.N).val ≠ 0 := by rw [Fin.val_last]; have : cfg4.N = 16 := N_4; omega
  rw [show (dat4 V c).Φ (Fin.last cfg4.N) = Phi4 V c (Fin.last cfg4.N).val (Nat.le_of_lt_succ (Fin.last cfg4.N).isLt) from rfl,
    Phi4_pos V c _ _ ht, scr4_eq]
  iintro ⟨Hg, ⟨HS, HQ⟩, Hrest⟩
  isplitl [Hg]; · iexact Hg
  isplitl [HS HQ]
  · isplitl [HS]; · iexists _; iexact HS
    iexists _; iexact HQ
  iexact Hrest

end Cert.KernelIdeal.Hand

end
-- ==== Proof.KI.Reg5Runs.lean ====
import proofs.«159011_j9938554322955_1_alg».proof.Proof.Gen.KernelIdeal.Launch
import proofs.«159011_j9938554322955_1_alg».proof.Proof.Gen.KernelIdeal.Skeleton
import proofs.«159011_j9938554322955_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second statistics kernel of a layer: what its three kinds of grid point share

The kernel visits sixteen blocks of 4096 rows. At every point it recomputes the block of the second linear
map's values z2 and adds the block's column sums of z2 and of z2 * z2 into two accumulators of 64 lanes that it
keeps from point to point; at the first point it clears the accumulators before adding; at the last point it also
stores mean = S * 2^(-16) and var = Q * 2^(-16) - mean * mean. -/

/-- The body's first test, from the grid index: the index is 0 (the accumulators are cleared). -/
noncomputable abbrev cond5_0 (i : grid5.Coords) : Prop := (Scalar.cmpi .ne (Scalar.extui (Scalar.cmpi .eq (BitVec.ofNat 32 (i 0).val) 0#32)) 0#32) = 1#1
/-- It holds at the first point only. -/
theorem hcond5_0 : ∀ t : Fin cfg5.N, cond5_0 (grid5.coords t) ↔ t.val % 16 = 0 :=
  (by decide +kernel : ∀ t : Fin grid5.N, cond5_0 (grid5.coords t) ↔ t.val % 16 = 0)

/-- The body's second test: the index is 15 (mean and variance are stored). -/
noncomputable abbrev cond5_1 (i : grid5.Coords) : Prop := k5_cond2 i = 1#1
/-- It holds at the last point only. -/
theorem hcond5_1 : ∀ t : Fin cfg5.N, cond5_1 (grid5.coords t) ↔ t.val % 16 = 15 :=
  (by decide +kernel : ∀ t : Fin grid5.N, cond5_1 (grid5.coords t) ↔ t.val % 16 = 15)

/-! ## Where the windows are idle -/

/-- Input window 0 is never idle. -/
theorem liveAt5_0 : ∀ t : Fin cfg5.N, cfg5.idle 0 (grid5.coords t) = false := fun _ => rfl
/-- Input window 1 is never idle. -/
theorem liveAt5_1 : ∀ t : Fin cfg5.N, cfg5.idle 1 (grid5.coords t) = false := fun _ => rfl
/-- Input window 2 is never idle. -/
theorem liveAt5_2 : ∀ t : Fin cfg5.N, cfg5.idle 2 (grid5.coords t) = false := fun _ => rfl
/-- Input window 3 is never idle. -/
theorem liveAt5_3 : ∀ t : Fin cfg5.N, cfg5.idle 3 (grid5.coords t) = false := fun _ => rfl
/-- Input window 4 is never idle. -/
theorem liveAt5_4 : ∀ t : Fin cfg5.N, cfg5.idle 4 (grid5.coords t) = false := fun _ => rfl
/-- Input window 5 is never idle. -/
theorem liveAt5_5 : ∀ t : Fin cfg5.N, cfg5.idle 5 (grid5.coords t) = false := fun _ => rfl
/-- Input window 6 is never idle. -/
theorem liveAt5_6 : ∀ t : Fin cfg5.N, cfg5.idle 6 (grid5.coords t) = false := fun _ => rfl
/-- Input window 7 is never idle. -/
theorem liveAt5_7 : ∀ t : Fin cfg5.N, cfg5.idle 7 (grid5.coords t) = false := fun _ => rfl
/-- Input window 8 is never idle. -/
theorem liveAt5_8 : ∀ t : Fin cfg5.N, cfg5.idle 8 (grid5.coords t) = false := fun _ => rfl
/-- Input window 9 is never idle. -/
theorem liveAt5_9 : ∀ t : Fin cfg5.N, cfg5.idle 9 (grid5.coords t) = false := fun _ => rfl
/-- Input window 10 is never idle. -/
theorem liveAt5_10 : ∀ t : Fin cfg5.N, cfg5.idle 10 (grid5.coords t) = false := fun _ => rfl
/-- Away from the last point nothing is stored into output 11: the window is idle there, -/
theorem idleAt5_11 : ∀ t : Fin cfg5.N, ¬cond5_1 (grid5.coords t) → cfg5.idle 11 (grid5.coords t) = true := by decide +kernel
/-- and its block is not written back there. -/
theorem noFlush5_11 : ∀ t : Fin cfg5.N, ¬cond5_1 (grid5.coords t) → (cfg5.win 11).flush t = false := by decide +kernel
/-- At the last point output 11 is stored: the window is live. -/
theorem liveAt5_11 : ∀ t : Fin cfg5.N, cond5_1 (grid5.coords t) → cfg5.idle 11 (grid5.coords t) = false := by decide +kernel
/-- Away from the last point nothing is stored into output 12: the window is idle there, -/
theorem idleAt5_12 : ∀ t : Fin cfg5.N, ¬cond5_1 (grid5.coords t) → cfg5.idle 12 (grid5.coords t) = true := by decide +kernel
/-- and its block is not written back there. -/
theorem noFlush5_12 : ∀ t : Fin cfg5.N, ¬cond5_1 (grid5.coords t) → (cfg5.win 12).flush t = false := by decide +kernel
/-- At the last point output 12 is stored: the window is live. -/
theorem liveAt5_12 : ∀ t : Fin cfg5.N, cond5_1 (grid5.coords t) → cfg5.idle 12 (grid5.coords t) = false := by decide +kernel

/-! ## The memrefs the body is called with -/

noncomputable abbrev ms5_0 (t : Fin cfg5.N) : Memref sig .tc .vmem S4096x64 .f32 := win5_0.stage (cfg5.slots t 0)
noncomputable abbrev hs5_0 (t : Fin cfg5.N) : (ms5_0 t).IsWhole := hstage5_0 ((cfg5.slots t 0).cast nbuf5_0)
noncomputable abbrev ms5_1 (t : Fin cfg5.N) : Memref sig .tc .vmem S4096x64 .f32 := win5_1.stage (cfg5.slots t 1)
noncomputable abbrev hs5_1 (t : Fin cfg5.N) : (ms5_1 t).IsWhole := hstage5_1 ((cfg5.slots t 1).cast nbuf5_1)
noncomputable abbrev ms5_2 (t : Fin cfg5.N) : Memref sig .tc .vmem S1x64 .f32 := win5_2.stage (cfg5.slots t 2)
noncomputable abbrev hs5_2 (t : Fin cfg5.N) : (ms5_2 t).IsWhole := hstage5_2 ((cfg5.slots t 2).cast nbuf5_2)
noncomputable abbrev ms5_3 (t : Fin cfg5.N) : Memref sig .tc .vmem S64x128 .f32 := win5_3.stage (cfg5.slots t 3)
noncomputable abbrev hs5_3 (t : Fin cfg5.N) : (ms5_3 t).IsWhole := hstage5_3 ((cfg5.slots t 3).cast nbuf5_3)
noncomputable abbrev ms5_4 (t : Fin cfg5.N) : Memref sig .tc .vmem S1x128 .f32 := win5_4.stage (cfg5.slots t 4)
noncomputable abbrev hs5_4 (t : Fin cfg5.N) : (ms5_4 t).IsWhole := hstage5_4 ((cfg5.slots t 4).cast nbuf5_4)
noncomputable abbrev ms5_5 (t : Fin cfg5.N) : Memref sig .tc .vmem S1x128 .f32 := win5_5.stage (cfg5.slots t 5)
noncomputable abbrev hs5_5 (t : Fin cfg5.N) : (ms5_5 t).IsWhole := hstage5_5 ((cfg5.slots t 5).cast nbuf5_5)
noncomputable abbrev ms5_6 (t : Fin cfg5.N) : Memref sig .tc .vmem S1x128 .f32 := win5_6.stage (cfg5.slots t 6)
noncomputable abbrev hs5_6 (t : Fin cfg5.N) : (ms5_6 t).IsWhole := hstage5_6 ((cfg5.slots t 6).cast nbuf5_6)
noncomputable abbrev ms5_7 (t : Fin cfg5.N) : Memref sig .tc .vmem S1x128 .f32 := win5_7.stage (cfg5.slots t 7)
noncomputable abbrev hs5_7 (t : Fin cfg5.N) : (ms5_7 t).IsWhole := hstage5_7 ((cfg5.slots t 7).cast nbuf5_7)
noncomputable abbrev ms5_8 (t : Fin cfg5.N) : Memref sig .tc .vmem S1x128 .f32 := win5_8.stage (cfg5.slots t 8)
noncomputable abbrev hs5_8 (t : Fin cfg5.N) : (ms5_8 t).IsWhole := hstage5_8 ((cfg5.slots t 8).cast nbuf5_8)
noncomputable abbrev ms5_9 (t : Fin cfg5.N) : Memref sig .tc .vmem S128x64 .f32 := win5_9.stage (cfg5.slots t 9)
noncomputable abbrev hs5_9 (t : Fin cfg5.N) : (ms5_9 t).IsWhole := hstage5_9 ((cfg5.slots t 9).cast nbuf5_9)
noncomputable abbrev ms5_10 (t : Fin cfg5.N) : Memref sig .tc .vmem S1x64 .f32 := win5_10.stage (cfg5.slots t 10)
noncomputable abbrev hs5_10 (t : Fin cfg5.N) : (ms5_10 t).IsWhole := hstage5_10 ((cfg5.slots t 10).cast nbuf5_10)
noncomputable abbrev ms5_11 (t : Fin cfg5.N) : Memref sig .tc .vmem S1x64 .f32 := win5_11.stage (cfg5.slots t 11)
noncomputable abbrev hs5_11 (t : Fin cfg5.N) : (ms5_11 t).IsWhole := hstage5_11 ((cfg5.slots t 11).cast nbuf5_11)
noncomputable abbrev ms5_12 (t : Fin cfg5.N) : Memref sig .tc .vmem S1x64 .f32 := win5_12.stage (cfg5.slots t 12)
noncomputable abbrev hs5_12 (t : Fin cfg5.N) : (ms5_12 t).IsWhole := hstage5_12 ((cfg5.slots t 12).cast nbuf5_12)
/-- The two accumulators: whole buffers of the kernel's own, passed beside the windows. -/
noncomputable abbrev scM5_0 : Memref sig .tc .vmem S1x64 .f32 := Memref.whole cc5_scratch0
noncomputable abbrev scM5_1 : Memref sig .tc .vmem S1x64 .f32 := Memref.whole cc5_scratch1
/-- The accumulators as views: what they hold is stated through these. -/
noncomputable abbrev VS5_0 : View sig .tc .vmem S1x64 .f32 := scM5_0.view
noncomputable abbrev VS5_1 : View sig .tc .vmem S1x64 .f32 := scM5_1.view
/-- One staging buffer of each output window, through which its contents are stated (the choice does not matter). -/
noncomputable abbrev VO5_11 : View sig .tc .vmem S1x64 .f32 := (Memref.whole cc5_stg11_0 : Memref sig .tc .vmem S1x64 .f32).view
noncomputable abbrev VO5_12 : View sig .tc .vmem S1x64 .f32 := (Memref.whole cc5_stg12_0 : Memref sig .tc .vmem S1x64 .f32).view

/-- The core's scoped buffers that are no staging buffer of this call: the two accumulators, as memrefs owned at some
    contents, and every other one unopened. -/
theorem scoped5_eq (c : Dev nD) :
    (Pipeline.scopedRest (Ix := Unit) (Name := ℕ) (U := UR sig nD τ) (Lvl := ℕ) (Val := Elt F) spec5 c : sProp 𝕄)
      = iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) := by
  rw [scopedRest5_split]; simp only [scM5_0, scM5_1, owns_whole]; try rfl

end Cert.KernelIdeal.Hand

end
-- ==== Proof.KI.Reg5RunA.lean ====
import proofs.«159011_j9938554322955_1_alg».proof.Proof.KI.Reg5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the FIRST point (the index is 0): the accumulators, found at anything, are cleared and the block's column sums of z2 and z2 * z2
    added; nothing is stored into the two outputs, whose buffers are handed back as found.
    The statement: on whole memrefs, the eleven inputs at contents x0 ... x10, the body runs to any continuation that accepts the
    inputs as they were and each buffer it stored into with its stores applied, last first (the lists are what the run finds). -/
noncomputable def kernelRun5_A (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc5__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc5__stats2_kernel_eq_skeleton]; unfold cc5__stats2_kernel_skel
    simp only [k5_part1_eq_skeleton]; unfold k5_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.KernelIdeal.Hand

end
-- ==== Proof.KI.Reg5RunB.lean ====
import proofs.«159011_j9938554322955_1_alg».proof.Proof.KI.Reg5RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a MIDDLE point (the index is neither 0 nor 15): the block's column sums are added into the accumulators, found at xs0, xs1;
    nothing is stored into the two outputs, whose buffers are handed back as found.
    The statement: on whole memrefs, the eleven inputs at contents x0 ... x10, the body runs to any continuation that accepts the
    inputs as they were and each buffer it stored into with its stores applied, last first (the lists are what the run finds). -/
noncomputable def kernelRun5_B (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc5__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc5__stats2_kernel_eq_skeleton]; unfold cc5__stats2_kernel_skel
    simp only [k5_part1_eq_skeleton]; unfold k5_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.KernelIdeal.Hand

end
-- ==== Proof.KI.Reg5RunC.lean ====
import proofs.«159011_j9938554322955_1_alg».proof.Proof.KI.Reg5RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the LAST point (the index is 15): the block's column sums are added into the accumulators, found at xs0, xs1, and then
    mean = S * 2^(-16) and var = Q * 2^(-16) - mean * mean are stored into the two outputs, found at anything.
    The statement: on whole memrefs, the eleven inputs at contents x0 ... x10, the body runs to any continuation that accepts the
    inputs as they were and each buffer it stored into with its stores applied, last first (the lists are what the run finds). -/
noncomputable def kernelRun5_C (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (L11 : List (View.Piece (Elt F) S1x64 .f32)) (L12 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc5__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc5__stats2_kernel_eq_skeleton]; unfold cc5__stats2_kernel_skel
    simp only [k5_part1_eq_skeleton]; unfold k5_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [HS0]; · iexists _; iexact HS0
    iexists _; iexact HS1

end Cert.KernelIdeal.Hand

end
-- ==== Proof.KI.Reg5.lean ====
import proofs.«159011_j9938554322955_1_alg».proof.Proof.KI.Reg5RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second statistics kernel of a layer, at the contents V its region is entered with -/

/-- Window w's block at point t, read off its array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## Every input's staging buffer holds its block at every point, fetched there or not -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)

/-! ## What each kind of point leaves in the accumulators and in the outputs -/

/-- Case A: the stores into accumulator 0 cover it. -/
theorem scover5_A_0 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun5_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1 S1x64.size (by sl_kernel_rfl) y

/-- Case A: what the point leaves in accumulator 0: its stores read back. -/
noncomputable def sout5_A_0 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS5_0.read (Elt F) (VS5_0.writes (Elt F) VS5_0.junk (kernelRun5_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1)

/-- Case A: the stores into accumulator 1 cover it. -/
theorem scover5_A_1 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun5_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1 S1x64.size (by sl_kernel_rfl) y

/-- Case A: what the point leaves in accumulator 1: its stores read back. -/
noncomputable def sout5_A_1 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS5_1.read (Elt F) (VS5_1.writes (Elt F) VS5_1.junk (kernelRun5_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1)

/-- Case B: the stores into accumulator 0 cover it. -/
theorem scover5_B_0 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun5_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- Case B: what the point leaves in accumulator 0: its stores read back. -/
noncomputable def sout5_B_0 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS5_0.read (Elt F) (VS5_0.writes (Elt F) VS5_0.junk (kernelRun5_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- Case B: the stores into accumulator 1 cover it. -/
theorem scover5_B_1 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun5_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- Case B: what the point leaves in accumulator 1: its stores read back. -/
noncomputable def sout5_B_1 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS5_1.read (Elt F) (VS5_1.writes (Elt F) VS5_1.junk (kernelRun5_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- At the last point the stores into output 11 cover its block. -/
theorem cover5_C_11 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- What the last point leaves in output 11's staging buffer: its stores read back. -/
noncomputable def out5_C_11 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO5_11.read (Elt F) (VO5_11.writes (Elt F) VO5_11.junk (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- At the last point the stores into output 12 cover its block. -/
theorem cover5_C_12 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- What the last point leaves in output 12's staging buffer: its stores read back. -/
noncomputable def out5_C_12 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO5_12.read (Elt F) (VO5_12.writes (Elt F) VO5_12.junk (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- Case C: the stores into accumulator 0 cover it. -/
theorem scover5_C_0 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1 S1x64.size (by sl_kernel_rfl) y

/-- Case C: what the point leaves in accumulator 0: its stores read back. -/
noncomputable def sout5_C_0 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS5_0.read (Elt F) (VS5_0.writes (Elt F) VS5_0.junk (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1)

/-- Case C: the stores into accumulator 1 cover it. -/
theorem scover5_C_1 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1 S1x64.size (by sl_kernel_rfl) y

/-- Case C: what the point leaves in accumulator 1: its stores read back. -/
noncomputable def sout5_C_1 (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS5_1.read (Elt F) (VS5_1.writes (Elt F) VS5_1.junk (kernelRun5_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1)

/-! ## The running sums -/

/-- THE ACCUMULATION. What the two accumulators hold after the body at position n: at the first point the cleared
    accumulators plus the block's column sums; afterwards what position n - 1 left plus the block's column sums. -/
noncomputable def outsAt5 (c : Dev nD) : (n : ℕ) → n < cfg5.N → Vec F S1x64 .f32 × Vec F S1x64 .f32
  | 0, hn => (sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) (ms5_10 ⟨0, hn⟩) (hs5_10 ⟨0, hn⟩) (ms5_11 ⟨0, hn⟩) (hs5_11 ⟨0, hn⟩) (ms5_12 ⟨0, hn⟩) (hs5_12 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩) (iblk5 V c 7 ⟨0, hn⟩) (iblk5 V c 8 ⟨0, hn⟩) (iblk5 V c 9 ⟨0, hn⟩) (iblk5 V c 10 ⟨0, hn⟩), sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) (ms5_10 ⟨0, hn⟩) (hs5_10 ⟨0, hn⟩) (ms5_11 ⟨0, hn⟩) (hs5_11 ⟨0, hn⟩) (ms5_12 ⟨0, hn⟩) (hs5_12 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (iblk5 V c 6 ⟨0, hn⟩) (iblk5 V c 7 ⟨0, hn⟩) (iblk5 V c 8 ⟨0, hn⟩) (iblk5 V c 9 ⟨0, hn⟩) (iblk5 V c 10 ⟨0, hn⟩))
  | n + 1, hn =>
    if h1 : (n + 1) % 16 = 15 then
      (sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) (ms5_11 ⟨n + 1, hn⟩) (hs5_11 ⟨n + 1, hn⟩) (ms5_12 ⟨n + 1, hn⟩) (hs5_12 ⟨n + 1, hn⟩) scM5_0 (Memref.isWhole_whole _) scM5_1 (Memref.isWhole_whole _) (fun h => (fun h => by have hN : n + 1 < 16 := lt_of_lt_of_eq hn (show cfg5.N = 16 from N_5); (try dsimp only at h); omega) ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (iblk5 V c 10 ⟨n + 1, hn⟩) (outsAt5 c n (Nat.lt_of_succ_lt hn)).1 (outsAt5 c n (Nat.lt_of_succ_lt hn)).2, sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) (ms5_11 ⟨n + 1, hn⟩) (hs5_11 ⟨n + 1, hn⟩) (ms5_12 ⟨n + 1, hn⟩) (hs5_12 ⟨n + 1, hn⟩) scM5_0 (Memref.isWhole_whole _) scM5_1 (Memref.isWhole_whole _) (fun h => (fun h => by have hN : n + 1 < 16 := lt_of_lt_of_eq hn (show cfg5.N = 16 from N_5); (try dsimp only at h); omega) ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (iblk5 V c 10 ⟨n + 1, hn⟩) (outsAt5 c n (Nat.lt_of_succ_lt hn)).1 (outsAt5 c n (Nat.lt_of_succ_lt hn)).2)
    else
      (sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) (ms5_11 ⟨n + 1, hn⟩) (hs5_11 ⟨n + 1, hn⟩) (ms5_12 ⟨n + 1, hn⟩) (hs5_12 ⟨n + 1, hn⟩) scM5_0 (Memref.isWhole_whole _) scM5_1 (Memref.isWhole_whole _) (fun h => (fun h => by have hN : n + 1 < 16 := lt_of_lt_of_eq hn (show cfg5.N = 16 from N_5); (try dsimp only at h); omega) ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (iblk5 V c 10 ⟨n + 1, hn⟩) (outsAt5 c n (Nat.lt_of_succ_lt hn)).1 (outsAt5 c n (Nat.lt_of_succ_lt hn)).2, sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) (ms5_11 ⟨n + 1, hn⟩) (hs5_11 ⟨n + 1, hn⟩) (ms5_12 ⟨n + 1, hn⟩) (hs5_12 ⟨n + 1, hn⟩) scM5_0 (Memref.isWhole_whole _) scM5_1 (Memref.isWhole_whole _) (fun h => (fun h => by have hN : n + 1 < 16 := lt_of_lt_of_eq hn (show cfg5.N = 16 from N_5); (try dsimp only at h); omega) ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (iblk5 V c 6 ⟨n + 1, hn⟩) (iblk5 V c 7 ⟨n + 1, hn⟩) (iblk5 V c 8 ⟨n + 1, hn⟩) (iblk5 V c 9 ⟨n + 1, hn⟩) (iblk5 V c 10 ⟨n + 1, hn⟩) (outsAt5 c n (Nat.lt_of_succ_lt hn)).1 (outsAt5 c n (Nat.lt_of_succ_lt hn)).2)

/-- The running sums at the first point. -/
theorem outsAt5_A (c : Dev nD) (t : Fin cfg5.N) (h0 : t.val % 16 = 0) (h1 : ¬t.val % 16 = 15) :
    outsAt5 V c t.val t.isLt = (sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t), sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t)) := by
  obtain ⟨n, hn⟩ := t
  cases n with
  | zero => exact rfl
  | succ n => exact (by exfalso; have hN : n + 1 < 16 := lt_of_lt_of_eq hn (show cfg5.N = 16 from N_5); (try dsimp only at h0); omega)

/-- The running sums at a middle point: over what the point before left. -/
theorem outsAt5_B (c : Dev nD) (t : Fin cfg5.N) (h0 : ¬t.val % 16 = 0) (h1 : ¬t.val % 16 = 15) :
    outsAt5 V c t.val t.isLt = (sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2, sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- The running sums at the last point: over what the point before left. -/
theorem outsAt5_C (c : Dev nD) (t : Fin cfg5.N) (h0 : ¬t.val % 16 = 0) (h1 : t.val % 16 = 15) :
    outsAt5 V c t.val t.isLt = (sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2, sout5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- What the two outputs' staging buffers hold after the body at the last point: mean and variance from the running sums.
    (At every other point the windows are idle and this is not consulted.) -/
noncomputable def outs5 (c : Dev nD) (t : Fin cfg5.N) : Vec F S1x64 .f32 × Vec F S1x64 .f32 :=
  if h1 : t.val % 16 = 15 then
    (out5_C_11 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => (fun h => by omega) ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2, out5_C_12 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => (fun h => by omega) ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2)
  else (k5_pay6 (F := F), k5_pay7 (F := F))

theorem outs5_C (c : Dev nD) (t : Fin cfg5.N) (h0 : ¬t.val % 16 = 0) (h1 : t.val % 16 = 15) :
    outs5 V c t = (out5_C_11 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2, out5_C_12 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (ms5_11 t) (hs5_11 t) (ms5_12 t) (hs5_12 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (outsAt5 V c (t.val - 1) (Nat.lt_of_le_of_lt (Nat.sub_le _ _) t.isLt)).1 (outsAt5 V c (t.val - 1) (Nat.lt_of_le_of_lt (Nat.sub_le _ _) t.isLt)).2) :=
  (dif_pos h1).trans rfl

/-! ## The invariant between points -/

/-- The region invariant before position n: the generator register at some state, the two accumulators — at anything before
    the first point, afterwards at the running sums the point before left —, and every other scoped buffer unopened. -/
noncomputable def PhiS5 (c : Dev nD) : (n : ℕ) → n ≤ cfg5.N → sProp 𝕄
  | 0, _ => iprop((∃ r, prngReg c r) ∗ iprop((∃ d, owns (c : Thread nD τ) scM5_0 fullShare d) ∗ (∃ d, owns (c : Thread nD τ) scM5_1 fullShare d)) ∗ Pipeline.scopedRestBut (Ix := Unit) (Name := ℕ) (U := UR sig nD τ) (Lvl := ℕ) (Val := Elt F) spec5 c [cc5_scratch0, cc5_scratch1])
  | n + 1, hn => iprop((∃ r, prngReg c r) ∗ iprop(owns (c : Thread nD τ) scM5_0 fullShare ((outsAt5 V c n hn).1) ∗ owns (c : Thread nD τ) scM5_1 fullShare ((outsAt5 V c n hn).2)) ∗ Pipeline.scopedRestBut (Ix := Unit) (Name := ℕ) (U := UR sig nD τ) (Lvl := ℕ) (Val := Elt F) spec5 c [cc5_scratch0, cc5_scratch1])

theorem PhiS5_zero (c : Dev nD) (n : ℕ) (h : n ≤ cfg5.N) (hz : n = 0) :
    PhiS5 V c n h = iprop((∃ r, prngReg c r) ∗ iprop((∃ d, owns (c : Thread nD τ) scM5_0 fullShare d) ∗ (∃ d, owns (c : Thread nD τ) scM5_1 fullShare d)) ∗ Pipeline.scopedRestBut (Ix := Unit) (Name := ℕ) (U := UR sig nD τ) (Lvl := ℕ) (Val := Elt F) spec5 c [cc5_scratch0, cc5_scratch1]) := by
  subst hz; rfl

theorem PhiS5_succ (c : Dev nD) (n : ℕ) (hn : n < cfg5.N) :
    PhiS5 V c (n + 1) hn = iprop((∃ r, prngReg c r) ∗ iprop(owns (c : Thread nD τ) scM5_0 fullShare ((outsAt5 V c n hn).1) ∗ owns (c : Thread nD τ) scM5_1 fullShare ((outsAt5 V c n hn).2)) ∗ Pipeline.scopedRestBut (Ix := Unit) (Name := ℕ) (U := UR sig nD τ) (Lvl := ℕ) (Val := Elt F) spec5 c [cc5_scratch0, cc5_scratch1]) := rfl

theorem PhiS5_pos (c : Dev nD) (n : ℕ) (h : n ≤ cfg5.N) (hz : n ≠ 0) :
    PhiS5 V c n h = iprop((∃ r, prngReg c r) ∗ iprop(owns (c : Thread nD τ) scM5_0 fullShare ((outsAt5 V c (n - 1) (by omega)).1) ∗ owns (c : Thread nD τ) scM5_1 fullShare ((outsAt5 V c (n - 1) (by omega)).2)) ∗ Pipeline.scopedRestBut (Ix := Unit) (Name := ℕ) (U := UR sig nD τ) (Lvl := ℕ) (Val := Elt F) spec5 c [cc5_scratch0, cc5_scratch1]) := by
  cases n with
  | zero => exact absurd rfl hz
  | succ n => rfl

/-! ## The proof data -/

/-- The proof data of the call on core c: the arrays as the region finds them; after the body each input's buffer at its
    block, the outputs' at mean and variance of the running sums; the invariant above; nothing owed; full shares. -/
noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => (outs5 V c t).1
    | ⟨12, _⟩ => (outs5 V c t).2
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = (outs5 V c t).1 := by dsimp only [dat5]
theorem after5_12 (c : Dev nD) (t : Fin cfg5.N) : (dat5 V c).after 12 t = (outs5 V c t).2 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d

/-! ## The body obligation, at a generic point -/

/-- What the body is called with at point t, -/
noncomputable def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d))
    ∗ (∃ d, owns (c : Thread nD τ) (ms5_9 t) fullShare ((dat5 V c).before 9 t d))
    ∗ (∃ d, owns (c : Thread nD τ) (ms5_10 t) fullShare ((dat5 V c).before 10 t d))
    ∗ (∃ d, owns (c : Thread nD τ) (ms5_11 t) fullShare ((dat5 V c).before 11 t d))
    ∗ (∃ d, owns (c : Thread nD τ) (ms5_12 t) fullShare ((dat5 V c).before 12 t d)))

/-- and what it returns. -/
noncomputable def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t
    ∗ (dat5 V c).leavesExact 9 t
    ∗ (dat5 V c).leavesExact 10 t
    ∗ (dat5 V c).leavesExact 11 t
    ∗ (dat5 V c).leavesExact 12 t)

set_option maxHeartbeats 8000000 in
/-- The body at any point. The inputs' memrefs hold their blocks. At the first point the invariant hands the body the
    accumulators at anything and takes them back cleared-and-added; at a later point it hands them at the running sums the
    point before left and takes them back with this block's sums added. Away from the last point the outputs' buffers are
    handed back as found (the windows are idle there); at the last point they are left at mean and variance. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10]
  rw [show (dat5 V c).owesAt () t.succ = (dat5 V c).owesAt () t.castSucc from rfl]
  rw [show (dat5 V c).Φ t.succ = PhiS5 V c (t.val + 1) t.isLt from rfl, PhiS5_succ]
  have hN : t.val < 16 := lt_of_lt_of_eq t.isLt (show cfg5.N = 16 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [show (dat5 V c).leavesExact 4 t = owns (c : Thread nD τ) (ms5_4 t) fullShare ((dat5 V c).after 4 t) from by
    unfold Dat.leavesExact; rw [liveAt5_4 t], after5_4]
  rw [show (dat5 V c).leavesExact 5 t = owns (c : Thread nD τ) (ms5_5 t) fullShare ((dat5 V c).after 5 t) from by
    unfold Dat.leavesExact; rw [liveAt5_5 t], after5_5]
  rw [show (dat5 V c).leavesExact 6 t = owns (c : Thread nD τ) (ms5_6 t) fullShare ((dat5 V c).after 6 t) from by
    unfold Dat.leavesExact; rw [liveAt5_6 t], after5_6]
  rw [show (dat5 V c).leavesExact 7 t = owns (c : Thread nD τ) (ms5_7 t) fullShare ((dat5 V c).after 7 t) from by
    unfold Dat.leavesExact; rw [liveAt5_7 t], after5_7]
  rw [show (dat5 V c).leavesExact 8 t = owns (c : Thread nD τ) (ms5_8 t) fullShare ((dat5 V c).after 8 t) from by
    unfold Dat.leavesExact; rw [liveAt5_8 t], after5_8]
  rw [show (dat5 V c).leavesExact 9 t = owns (c : Thread nD τ) (ms5_9 t) fullShare ((dat5 V c).after 9 t) from by
    unfold Dat.leavesExact; rw [liveAt5_9 t], after5_9]
  rw [show (dat5 V c).leavesExact 10 t = owns (c : Thread nD τ) (ms5_10 t) fullShare ((dat5 V c).after 10 t) from by
    unfold Dat.leavesExact; rw [liveAt5_10 t], after5_10]
  by_cases h1 : t.val % 16 = 15
  · have h0 : ¬t.val % 16 = 0 := by omega
    have hz : t.val ≠ 0 := by omega
    rw [show (dat5 V c).leavesExact 11 t = owns (c : Thread nD τ) (ms5_11 t) fullShare ((dat5 V c).after 11 t) from by
      unfold Dat.leavesExact; rw [liveAt5_11 t ((hcond5_1 t).mpr h1)], after5_11]
    rw [show (dat5 V c).leavesExact 12 t = owns (c : Thread nD τ) (ms5_12 t) fullShare ((dat5 V c).after 12 t) from by
      unfold Dat.leavesExact; rw [liveAt5_12 t ((hcond5_1 t).mpr h1)], after5_12]
    rw [outsAt5_C V c t h0 h1, outs5_C V c t h0 h1]
    unfold out5_C_11 out5_C_12 sout5_C_0 sout5_C_1; (try dsimp only)
    rw [PhiS5_castSucc V c t, PhiS5_pos V c _ _ hz]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun5_C c (grid5.coords t) _ _ _ _ _ _ _ _ _ _ _ _ _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    iintro ⟨H0, H1, H2, H3, H4, H5, H6, H7, H8, H9, H10, ⟨%e11, H11⟩, ⟨%e12, H12⟩, ⟨%es0, HS0⟩, ⟨%es1, HS1⟩⟩
    isplitl [Hg HS0 HS1 HR]
    · isplitl [Hg]; · iexact Hg
      isplitl [HS0 HS1]
      · isplitl [HS0]
        · unfold owns; iexists _; isplitr
          swap; · iexact HS0
          ipureintro; exact View.read_writes_of_cover _ _ _ _ _ (scover5_C_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover5_C_1 c _ _ _ _ _ _ _ _ _ _ _ _ _ _ _ _ _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover5_C_11 c _ _ _ _ _ _ _ _ _ _ _ _ _ _ _ _ _ _ _ _ _ _ _ _ _ _ _ _ _ _ _ _ _ _ _ _ _ _ _ _ _ _ _ _ _ _)
    · unfold owns; iexists _; isplitr
      swap; · iexact H12
      ipureintro; exact View.read_writes_of_cover _ _ _ _ _ (cover5_C_12 c _ _ _ _ _ _ _ _ _ _ _ _ _ _ _ _ _ _ _ _ _ _ _ _ _ _ _ _ _ _ _ _ _ _ _ _ _ _ _ _ _ _ _ _ _ _)
  · rw [Dat.leavesExact_idle (dat5 V c) 11 t (idleAt5_11 t (fun h => h1 ((hcond5_1 t).mp h))) (noFlush5_11 t (fun h => h1 ((hcond5_1 t).mp h)))]
    rw [Dat.leavesExact_idle (dat5 V c) 12 t (idleAt5_12 t (fun h => h1 ((hcond5_1 t).mp h))) (noFlush5_12 t (fun h => h1 ((hcond5_1 t).mp h)))]
    by_cases h0 : t.val % 16 = 0
    · have hz : t.val = 0 := by omega
      rw [outsAt5_A V c t h0 h1]
      unfold sout5_A_0 sout5_A_1; (try dsimp only)
      rw [PhiS5_castSucc V c t, PhiS5_zero V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun5_A c (grid5.coords t) _ _ _ _ _ _ _ _ _ _ _ _ _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover5_A_0 c _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover5_A_1 c _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
    · have hz : t.val ≠ 0 := by omega
      rw [outsAt5_B V c t h0 h1]
      unfold sout5_B_0 sout5_B_1; (try dsimp only)
      rw [PhiS5_castSucc V c t, PhiS5_pos V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun5_B c (grid5.coords t) _ _ _ _ _ _ _ _ _ _ _ _ _ _ _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover5_B_0 c _ _ _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover5_B_1 c _ _ _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the region is entered with is the invariant before the first point: the scoped rest split at the two accumulators. -/
theorem phi_in5 (c : Dev nD) :
    (iprop((∃ r, prngReg c r) ∗ Pipeline.scopedRest (Ix := Unit) (Name := ℕ) (U := UR sig nD τ) (Lvl := ℕ) (Val := Elt F) spec5 c) : sProp 𝕄)
      ⊢ (dat5 V c).Φ 0 := by
  rw [show (dat5 V c).Φ 0 = PhiS5 V c 0 (Nat.zero_le _) from rfl, PhiS5_zero V c 0 _ rfl, scoped5_eq]

/-- After the last point the invariant gives the scoped rest back: the accumulators' named contents are forgotten. -/
theorem phi_out5 (c : Dev nD) :
    (dat5 V c).Φ (Fin.last cfg5.N)
      ⊢ (iprop((∃ r, prngReg c r) ∗ Pipeline.scopedRest (Ix := Unit) (Name := ℕ) (U := UR sig nD τ) (Lvl := ℕ) (Val := Elt F) spec5 c) : sProp 𝕄) := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 16 := N_5; omega), scoped5_eq]
  iintro ⟨Hg, ⟨HS0, HS1⟩, HR⟩
  isplitl [Hg]; · iexact Hg
  isplitl [HS0 HS1]
  · isplitl [HS0]; · iexists _; iexact HS0
    iexists _; iexact HS1
  iexact HR

/-! ## The found stores read back: one point's additions, and mean and variance -/

theorem hz5 : (![0, 0] : Fin 2 → Nat) = fun _ => 0 := funext fun a => by fin_cases a <;> rfl

/-- One point's addition to the first accumulator s: s plus the column sums of the block of z2 that the eleven input blocks give. -/
noncomputable def add5_0 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k5_pay2 (k5_pay8 x2 x0 x1 x3 x4 x5 x6) (k5_pay9 x7) x8 x9 x10 s
/-- One point's addition to the second accumulator: s plus the column sums of z2 * z2 of the same block. -/
noncomputable def add5_1 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k5_pay3 (k5_pay8 x2 x0 x1 x3 x4 x5 x6) (k5_pay9 x7) x8 x9 x10 s

theorem sout5_B_0_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout5_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add5_0 x0 x1 x2 x3 x4 x5 x6 x7 x8 x9 x10 xs0 := by
  unfold sout5_B_0 add5_0
  rw [View.read_writes_eq_canon _ _ _ (scover5_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun5_B
  dsimp only
  sl_unfold_words
  rw [View.canon_unit_zero hz5]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

theorem sout5_B_1_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout5_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add5_1 x0 x1 x2 x3 x4 x5 x6 x7 x8 x9 x10 xs1 := by
  unfold sout5_B_1 add5_1
  rw [View.read_writes_eq_canon _ _ _ (scover5_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun5_B
  dsimp only
  sl_unfold_words
  rw [View.canon_unit_zero hz5]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

theorem sout5_A_0_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout5_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add5_0 x0 x1 x2 x3 x4 x5 x6 x7 x8 x9 x10 (k5_pay6 (F := F)) := by
  unfold sout5_A_0 add5_0
  rw [View.read_writes_eq_canon _ _ _ (scover5_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun5_A
  dsimp only
  sl_unfold_words
  rw [View.canon_cons_unit_zero (S := S1x64) hz5, View.readCov_unit_zero (S := S1x64) _ hz5]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

theorem sout5_A_1_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond5_0 i) (hc1 : ¬cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout5_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add5_1 x0 x1 x2 x3 x4 x5 x6 x7 x8 x9 x10 (k5_pay7 (F := F)) := by
  unfold sout5_A_1 add5_1
  rw [View.read_writes_eq_canon _ _ _ (scover5_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun5_A
  dsimp only
  sl_unfold_words
  rw [View.canon_cons_unit_zero (S := S1x64) hz5, View.readCov_unit_zero (S := S1x64) _ hz5]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

theorem sout5_C_0_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout5_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add5_0 x0 x1 x2 x3 x4 x5 x6 x7 x8 x9 x10 xs0 := by
  unfold sout5_C_0 add5_0
  rw [View.read_writes_eq_canon _ _ _ (scover5_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun5_C
  dsimp only
  sl_unfold_words
  rw [View.canon_unit_zero hz5]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

theorem sout5_C_1_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout5_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add5_1 x0 x1 x2 x3 x4 x5 x6 x7 x8 x9 x10 xs1 := by
  unfold sout5_C_1 add5_1
  rw [View.read_writes_eq_canon _ _ _ (scover5_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun5_C
  dsimp only
  sl_unfold_words
  rw [View.canon_unit_zero hz5]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

theorem out5_C_11_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out5_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k5_pay4 (add5_0 x0 x1 x2 x3 x4 x5 x6 x7 x8 x9 x10 xs0) := by
  unfold out5_C_11 add5_0
  rw [View.read_writes_eq_canon _ _ _ (cover5_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun5_C
  dsimp only
  sl_unfold_words
  rw [View.canon_unit_zero hz5]
  simp only [View.readCov_unit_zero (S := S1x64) _ hz5, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

theorem out5_C_12_eq (c : Dev nD) (i : grid5.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond5_0 i) (hc1 : cond5_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out5_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k5_pay5 (add5_0 x0 x1 x2 x3 x4 x5 x6 x7 x8 x9 x10 xs0) (add5_1 x0 x1 x2 x3 x4 x5 x6 x7 x8 x9 x10 xs1) := by
  unfold out5_C_12 add5_0 add5_1
  rw [View.read_writes_eq_canon _ _ _ (cover5_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun5_C
  dsimp only
  sl_unfold_words
  rw [View.canon_unit_zero hz5]
  simp only [View.readCov_unit_zero (S := S1x64) _ hz5, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz5, View.ld_unit_zero (S := S1x64) hz5, View.ld_unit_zero (S := S64x128) hz5, View.ld_unit_zero (S := S1x128) hz5, View.ld_unit_zero (S := S128x64) hz5]

/-! ## The running sums in closed form -/

/-- The ORDERED running sums after position n: the cleared accumulators plus the first block's sums, then one block's sums
    more per point. -/
noncomputable def sums5 (c : Dev nD) : (n : ℕ) → n < cfg5.N → Vec F S1x64 .f32 × Vec F S1x64 .f32
  | 0, h => (add5_0 (iblk5 V c 0 ⟨0, h⟩) (iblk5 V c 1 ⟨0, h⟩) (iblk5 V c 2 ⟨0, h⟩) (iblk5 V c 3 ⟨0, h⟩) (iblk5 V c 4 ⟨0, h⟩) (iblk5 V c 5 ⟨0, h⟩) (iblk5 V c 6 ⟨0, h⟩) (iblk5 V c 7 ⟨0, h⟩) (iblk5 V c 8 ⟨0, h⟩) (iblk5 V c 9 ⟨0, h⟩) (iblk5 V c 10 ⟨0, h⟩) (k5_pay6 (F := F)), add5_1 (iblk5 V c 0 ⟨0, h⟩) (iblk5 V c 1 ⟨0, h⟩) (iblk5 V c 2 ⟨0, h⟩) (iblk5 V c 3 ⟨0, h⟩) (iblk5 V c 4 ⟨0, h⟩) (iblk5 V c 5 ⟨0, h⟩) (iblk5 V c 6 ⟨0, h⟩) (iblk5 V c 7 ⟨0, h⟩) (iblk5 V c 8 ⟨0, h⟩) (iblk5 V c 9 ⟨0, h⟩) (iblk5 V c 10 ⟨0, h⟩) (k5_pay7 (F := F)))
  | n + 1, h => (add5_0 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (sums5 c n (Nat.lt_of_succ_lt h)).1, add5_1 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (sums5 c n (Nat.lt_of_succ_lt h)).2)

/-- What the accumulators hold after position n IS the running sums: by induction on the point. -/
theorem outsAt5_eq (c : Dev nD) : ∀ (n : ℕ) (h : n < cfg5.N), outsAt5 V c n h = sums5 V c n h
  | 0, h => by
    rw [outsAt5_A V c ⟨0, h⟩ rfl (by show ¬(0 : ℕ) % 16 = 15; omega), sout5_A_0_eq, sout5_A_1_eq]
    rfl
  | n + 1, h => by
    have hN : cfg5.N = 16 := N_5
    have hB : ¬(⟨n + 1, h⟩ : Fin cfg5.N).val % 16 = 0 := by dsimp only; omega
    have ih := outsAt5_eq c n (Nat.lt_of_succ_lt h)
    by_cases h1 : (⟨n + 1, h⟩ : Fin cfg5.N).val % 16 = 15
    · rw [outsAt5_C V c ⟨n + 1, h⟩ hB h1, sout5_C_0_eq, sout5_C_1_eq]
      show (add5_0 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (outsAt5 V c n _).1, add5_1 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (outsAt5 V c n _).2) = (add5_0 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (sums5 V c n _).1, add5_1 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (sums5 V c n _).2)
      rw [ih]
    · rw [outsAt5_B V c ⟨n + 1, h⟩ hB h1, sout5_B_0_eq, sout5_B_1_eq]
      show (add5_0 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (outsAt5 V c n _).1, add5_1 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (outsAt5 V c n _).2) = (add5_0 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (sums5 V c n _).1, add5_1 (iblk5 V c 0 ⟨n + 1, h⟩) (iblk5 V c 1 ⟨n + 1, h⟩) (iblk5 V c 2 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (sums5 V c n _).2)
      rw [ih]

/-! ## What the region leaves in its two output arrays -/

/-- The running sums after the last point. -/
noncomputable abbrev total5 (c : Dev nD) : Vec F S1x64 .f32 × Vec F S1x64 .f32 := sums5 V c 15 (by rw [show cfg5.N = 16 from N_5]; decide)

/-- The mean array the region leaves: S * 2^(-16) of the first running sum. -/
noncomputable def G5_11 (c : Dev nD) : Buf (Elt F) ((c : Thread nD τ).loc main_v114_0) := k5_pay4 (total5 V c).1
/-- The variance array the region leaves: Q * 2^(-16) - mean * mean. -/
noncomputable def G5_12 (c : Dev nD) : Buf (Elt F) ((c : Thread nD τ).loc main_v114_1) := k5_pay5 (total5 V c).1 (total5 V c).2

/-- What the last point leaves in the two outputs' staging buffers. -/
theorem outs5_last (c : Dev nD) : outs5 V c t5_15 = (k5_pay4 (total5 V c).1, k5_pay5 (total5 V c).1 (total5 V c).2) := by
  rw [outs5_C V c t5_15 (by decide) (by decide), out5_C_11_eq, out5_C_12_eq]
  have ih := outsAt5_eq V c 14 (by rw [show cfg5.N = 16 from N_5]; decide)
  show (k5_pay4 (add5_0 (iblk5 V c 0 t5_15) (iblk5 V c 1 t5_15) (iblk5 V c 2 t5_15) (iblk5 V c 3 t5_15) (iblk5 V c 4 t5_15) (iblk5 V c 5 t5_15) (iblk5 V c 6 t5_15) (iblk5 V c 7 t5_15) (iblk5 V c 8 t5_15) (iblk5 V c 9 t5_15) (iblk5 V c 10 t5_15) (outsAt5 V c 14 _).1), k5_pay5 (add5_0 (iblk5 V c 0 t5_15) (iblk5 V c 1 t5_15) (iblk5 V c 2 t5_15) (iblk5 V c 3 t5_15) (iblk5 V c 4 t5_15) (iblk5 V c 5 t5_15) (iblk5 V c 6 t5_15) (iblk5 V c 7 t5_15) (iblk5 V c 8 t5_15) (iblk5 V c 9 t5_15) (iblk5 V c 10 t5_15) (outsAt5 V c 14 _).1) (add5_1 (iblk5 V c 0 t5_15) (iblk5 V c 1 t5_15) (iblk5 V c 2 t5_15) (iblk5 V c 3 t5_15) (iblk5 V c 4 t5_15) (iblk5 V c 5 t5_15) (iblk5 V c 6 t5_15) (iblk5 V c 7 t5_15) (iblk5 V c 8 t5_15) (iblk5 V c 9 t5_15) (iblk5 V c 10 t5_15) (outsAt5 V c 14 _).2)) = _
  rw [ih]
  rfl

/-- The one write-back of window 11, at the last point, writes it: the block is the whole array. -/
theorem flushed5_11 (c : Dev nD) (t : Fin cfg5.N) (hf : (cfg5.win 11).flush t = true) :
    (dat5 V c).flushed 11 t = ((cfg5.win 11).blk t).view.read (Elt F) (G5_11 V c) := by
  have hN : cfg5.N = 16 := N_5
  have h15 : t.val = 15 := by have := (flush5_11 t).mp hf; have := t.isLt; omega
  obtain rfl : t = t5_15 := Fin.ext h15
  show (cfg5.win 11).cut (grid5.coords t5_15) ((dat5 V c).after 11 t5_15) = _
  rw [after5_11, outs5_last]
  have hz' : (fun a => win5_11.index t5_15 a * main_v114_0.ty.shape.size a) = fun _ => 0 := funext fun a => by fin_cases a <;> decide
  exact (Memref.read_access_unit_zero (Elt F) main_v114_0 hz' (fun a => by rw [congrFun hz' a]; simp) (G5_11 V c)).symm

set_option maxHeartbeats 4000000 in
/-- So the array of window 11 ends holding it: the last point's block covers the array. -/
theorem final5_11 (c : Dev nD) : (dat5 V c).arrAt ⟨11, by decide⟩ cfg5.N = G5_11 V c :=
  (dat5 V c).arrAt_eq_of_cover 11 (G5_11 V c) (flushed5_11 V c) fun i =>
    ⟨t5_15, (flush5_11 t5_15).mpr rfl, by
      show i ∈ ((View.whole main_v114_0).slice (win5_11.rect t5_15)).set
      rw [View.set_slice_whole, Rect.mem_set_unit]
      intro a
      have h0 : (i 0 : Nat) < 1 := (i 0).isLt
      have h1 : (i 1 : Nat) < 64 := (i 1).isLt
      match a with
      | ⟨0, _⟩ => show win5_11.index t5_15 0 * win5_11.size 0 ≤ (i 0 : Nat) ∧ (i 0 : Nat) < win5_11.index t5_15 0 * win5_11.size 0 + win5_11.xsize (grid5.coords t5_15) 0
                  rw [show win5_11.index t5_15 0 * win5_11.size 0 = 0 from by decide +kernel, show win5_11.xsize (grid5.coords t5_15) 0 = 1 from by decide +kernel]; omega
      | ⟨1, _⟩ => show win5_11.index t5_15 1 * win5_11.size 1 ≤ (i 1 : Nat) ∧ (i 1 : Nat) < win5_11.index t5_15 1 * win5_11.size 1 + win5_11.xsize (grid5.coords t5_15) 1
                  rw [show win5_11.index t5_15 1 * win5_11.size 1 = 0 from by decide +kernel, show win5_11.xsize (grid5.coords t5_15) 1 = 64 from by decide +kernel]; omega⟩

/-- The one write-back of window 12, at the last point, writes it: the block is the whole array. -/
theorem flushed5_12 (c : Dev nD) (t : Fin cfg5.N) (hf : (cfg5.win 12).flush t = true) :
    (dat5 V c).flushed 12 t = ((cfg5.win 12).blk t).view.read (Elt F) (G5_12 V c) := by
  have hN : cfg5.N = 16 := N_5
  have h15 : t.val = 15 := by have := (flush5_12 t).mp hf; have := t.isLt; omega
  obtain rfl : t = t5_15 := Fin.ext h15
  show (cfg5.win 12).cut (grid5.coords t5_15) ((dat5 V c).after 12 t5_15) = _
  rw [after5_12, outs5_last]
  have hz' : (fun a => win5_12.index t5_15 a * main_v114_1.ty.shape.size a) = fun _ => 0 := funext fun a => by fin_cases a <;> decide
  exact (Memref.read_access_unit_zero (Elt F) main_v114_1 hz' (fun a => by rw [congrFun hz' a]; simp) (G5_12 V c)).symm

set_option maxHeartbeats 4000000 in
/-- So the array of window 12 ends holding it: the last point's block covers the array. -/
theorem final5_12 (c : Dev nD) : (dat5 V c).arrAt ⟨12, by decide⟩ cfg5.N = G5_12 V c :=
  (dat5 V c).arrAt_eq_of_cover 12 (G5_12 V c) (flushed5_12 V c) fun i =>
    ⟨t5_15, (flush5_12 t5_15).mpr rfl, by
      show i ∈ ((View.whole main_v114_1).slice (win5_12.rect t5_15)).set
      rw [View.set_slice_whole, Rect.mem_set_unit]
      intro a
      have h0 : (i 0 : Nat) < 1 := (i 0).isLt
      have h1 : (i 1 : Nat) < 64 := (i 1).isLt
      match a with
      | ⟨0, _⟩ => show win5_12.index t5_15 0 * win5_12.size 0 ≤ (i 0 : Nat) ∧ (i 0 : Nat) < win5_12.index t5_15 0 * win5_12.size 0 + win5_12.xsize (grid5.coords t5_15) 0
                  rw [show win5_12.index t5_15 0 * win5_12.size 0 = 0 from by decide +kernel, show win5_12.xsize (grid5.coords t5_15) 0 = 1 from by decide +kernel]; omega
      | ⟨1, _⟩ => show win5_12.index t5_15 1 * win5_12.size 1 ≤ (i 1 : Nat) ∧ (i 1 : Nat) < win5_12.index t5_15 1 * win5_12.size 1 + win5_12.xsize (grid5.coords t5_15) 1
                  rw [show win5_12.index t5_15 1 * win5_12.size 1 = 0 from by decide +kernel, show win5_12.xsize (grid5.coords t5_15) 1 = 64 from by decide +kernel]; omega⟩

end Cert.KernelIdeal.Hand

end
-- ==== Proof.KI.Reg6.lean ====
/- One of the network's four regions that finish a layer: the second half of a layer, on sixteen blocks of 4096 nodes. At each block the body
   forms (1 + e)·x + agg, maps it to 128 features, normalises by the layer's first mean and variance, clips at zero,
   maps back to 64 features, normalises by the second mean and variance, clips again and adds x. Everything the body
   reads is a block of one of fifteen arrays as the region finds them; what it writes is one block of the sixteenth.
   Stated at any entry contents V of the core's buffers and at any float model. -/
import proofs.«159011_j9938554322955_1_alg».proof.Proof.Gen.KernelIdeal.Launch
import proofs.«159011_j9938554322955_1_alg».proof.Proof.Gen.KernelIdeal.Skeleton
import proofs.«159011_j9938554322955_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

-- membership in a rectangle of 4096 rows is decided by a structural recursion one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window w's block at point t, read off its array as the region finds it. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! An input window's buffer holds its block at every point, whether the block was brought in there or not: a block
    that is not brought in again has not moved, and the body leaves every input as it found it. One statement per
    input window, for any proof data whose array is V's and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)
theorem before6_10_of {c : Dev nD} (dat : Dat τ (Elt F) Unit ℕ (UR sig nD τ) ℕ cfg6 c) (hA : dat.A 10 = V c (Pipeline.arrRef spec6 10))
    (hafter : ∀ t, dat.after 10 t = iblk6 V c 10 t) (t : Fin cfg6.N) (d) : dat.before 10 t d = iblk6 V c 10 t :=
  (dat.before_in_eq_fetched 10 rfl (fun _ => rfl) (fun _ _ _ => rfl) (fun t => by rw [hafter]; unfold Dat.blockOf iblk6; rw [hA]; try rfl) t d).trans
    (by unfold Dat.fetched Dat.blockOf iblk6; rw [hA]; try rfl)
theorem before6_11_of {c : Dev nD} (dat : Dat τ (Elt F) Unit ℕ (UR sig nD τ) ℕ cfg6 c) (hA : dat.A 11 = V c (Pipeline.arrRef spec6 11))
    (hafter : ∀ t, dat.after 11 t = iblk6 V c 11 t) (t : Fin cfg6.N) (d) : dat.before 11 t d = iblk6 V c 11 t :=
  (dat.before_in_eq_fetched 11 rfl (fun _ => rfl) (fun _ _ _ => rfl) (fun t => by rw [hafter]; unfold Dat.blockOf iblk6; rw [hA]; try rfl) t d).trans
    (by unfold Dat.fetched Dat.blockOf iblk6; rw [hA]; try rfl)
theorem before6_12_of {c : Dev nD} (dat : Dat τ (Elt F) Unit ℕ (UR sig nD τ) ℕ cfg6 c) (hA : dat.A 12 = V c (Pipeline.arrRef spec6 12))
    (hafter : ∀ t, dat.after 12 t = iblk6 V c 12 t) (t : Fin cfg6.N) (d) : dat.before 12 t d = iblk6 V c 12 t :=
  (dat.before_in_eq_fetched 12 rfl (fun _ => rfl) (fun _ _ _ => rfl) (fun t => by rw [hafter]; unfold Dat.blockOf iblk6; rw [hA]; try rfl) t d).trans
    (by unfold Dat.fetched Dat.blockOf iblk6; rw [hA]; try rfl)
theorem before6_13_of {c : Dev nD} (dat : Dat τ (Elt F) Unit ℕ (UR sig nD τ) ℕ cfg6 c) (hA : dat.A 13 = V c (Pipeline.arrRef spec6 13))
    (hafter : ∀ t, dat.after 13 t = iblk6 V c 13 t) (t : Fin cfg6.N) (d) : dat.before 13 t d = iblk6 V c 13 t :=
  (dat.before_in_eq_fetched 13 rfl (fun _ => rfl) (fun _ _ _ => rfl) (fun t => by rw [hafter]; unfold Dat.blockOf iblk6; rw [hA]; try rfl) t d).trans
    (by unfold Dat.fetched Dat.blockOf iblk6; rw [hA]; try rfl)
theorem before6_14_of {c : Dev nD} (dat : Dat τ (Elt F) Unit ℕ (UR sig nD τ) ℕ cfg6 c) (hA : dat.A 14 = V c (Pipeline.arrRef spec6 14))
    (hafter : ∀ t, dat.after 14 t = iblk6 V c 14 t) (t : Fin cfg6.N) (d) : dat.before 14 t d = iblk6 V c 14 t :=
  (dat.before_in_eq_fetched 14 rfl (fun _ => rfl) (fun _ _ _ => rfl) (fun t => by rw [hafter]; unfold Dat.blockOf iblk6; rw [hA]; try rfl) t d).trans
    (by unfold Dat.fetched Dat.blockOf iblk6; rw [hA]; try rfl)

/-! ## What the body reads and writes: every buffer whole -/

noncomputable abbrev rRows6 : Rect S4096x64 := Rect.unit (s := S4096x64) ![0, 0] S4096x64.size inb_S4096x64_S4096x64_0_0
noncomputable abbrev rRowS6 : Rect S1x64 := Rect.unit (s := S1x64) ![0, 0] S1x64.size inb_S1x64_S1x64_0_0
noncomputable abbrev rMatA6 : Rect S64x128 := Rect.unit (s := S64x128) ![0, 0] S64x128.size inb_S64x128_S64x128_0_0
noncomputable abbrev rRowL6 : Rect S1x128 := Rect.unit (s := S1x128) ![0, 0] S1x128.size inb_S1x128_S1x128_0_0
noncomputable abbrev rMatB6 : Rect S128x64 := Rect.unit (s := S128x64) ![0, 0] S128x64.size inb_S128x64_S128x64_0_0

/-! ## What the body leaves in the output block -/

/-- The output block after the body, from the fifteen input blocks: one store over the whole block, of the second
    normalisation clipped plus x, itself computed from the first normalisation's two factors. -/
noncomputable def out6_15 (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) : Vec F S4096x64 .f32 :=
  View.canon [⟨rRows6, k6_pay1 (k6_pay2 (View.ld x_2 rRowS6) (View.ld x_0 rRows6) (View.ld x_1 rRows6) (View.ld x_3 rMatA6) (View.ld x_4 rRowL6) (View.ld x_5 rRowL6) (View.ld x_6 rRowL6) (View.ld x_7 rRowL6)) (k6_pay3 (View.ld x_8 rRowL6)) (View.ld x_9 rMatB6) (View.ld x_10 rRowS6) (View.ld x_11 rRowS6) (View.ld x_12 rRowS6) (View.ld x_13 rRowS6) (View.ld x_14 rRowS6) (View.ld x_0 rRows6)⟩]

/-- The one store covers the block. -/
theorem cover6_15 (p0 : Vec F S4096x64 .f32) (y : S4096x64.Idx) :
    ∃ pc ∈ ([⟨rRows6, p0⟩] : List (View.Piece (Elt F) S4096x64 .f32)), y ∈ pc.1.set :=
  View.cover_of_tiled [⟨rRows6, p0⟩] S4096x64.size (by rfl) y

/-! ## The body's triple -/

set_option maxHeartbeats 4000000 in
/-- The body on whole buffers, the fifteen inputs' at read contents x_0 … x_14 and the output's at anything, runs to the
    continuation holding the inputs' as they were and the output's at out6_15 of them. -/
theorem sound_kernel6 (c : Dev nD) (E : Set ℕ) (i : grid6.Coords) (a_0 : Memref sig .tc .vmem S4096x64 .f32) (h_0 : a_0.IsWhole) (a_1 : Memref sig .tc .vmem S4096x64 .f32) (h_1 : a_1.IsWhole) (a_2 : Memref sig .tc .vmem S1x64 .f32) (h_2 : a_2.IsWhole) (a_3 : Memref sig .tc .vmem S64x128 .f32) (h_3 : a_3.IsWhole) (a_4 : Memref sig .tc .vmem S1x128 .f32) (h_4 : a_4.IsWhole) (a_5 : Memref sig .tc .vmem S1x128 .f32) (h_5 : a_5.IsWhole) (a_6 : Memref sig .tc .vmem S1x128 .f32) (h_6 : a_6.IsWhole) (a_7 : Memref sig .tc .vmem S1x128 .f32) (h_7 : a_7.IsWhole) (a_8 : Memref sig .tc .vmem S1x128 .f32) (h_8 : a_8.IsWhole) (a_9 : Memref sig .tc .vmem S128x64 .f32) (h_9 : a_9.IsWhole) (a_10 : Memref sig .tc .vmem S1x64 .f32) (h_10 : a_10.IsWhole) (a_11 : Memref sig .tc .vmem S1x64 .f32) (h_11 : a_11.IsWhole) (a_12 : Memref sig .tc .vmem S1x64 .f32) (h_12 : a_12.IsWhole) (a_13 : Memref sig .tc .vmem S1x64 .f32) (h_13 : a_13.IsWhole) (a_14 : Memref sig .tc .vmem S1x64 .f32) (h_14 : a_14.IsWhole) (a_15 : Memref sig .tc .vmem S4096x64 .f32) (h_15 : a_15.IsWhole)
    (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) (K : PUnit → sProp 𝕄) :
    iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ (∃ d, owns (c : Thread nD τ) a_15 fullShare d)
        ∗ (iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ owns (c : Thread nD τ) a_15 fullShare (out6_15 x_0 x_1 x_2 x_3 x_4 x_5 x_6 x_7 x_8 x_9 x_10 x_11 x_12 x_13 x_14)) -∗ K ⟨⟩))
      ⊢ wp frame (wpE (defs₀ (F := F)) Variants.none c none) E (cc6__apply_kernel i a_0 h_0 a_1 h_1 a_2 h_2 a_3 h_3 a_4 h_4 a_5 h_5 a_6 h_6 a_7 h_7 a_8 h_8 a_9 h_9 a_10 h_10 a_11 h_11 a_12 h_12 a_13 h_13 a_14 h_14 a_15 h_15) K := by
  simp only [cc6__apply_kernel_eq_skeleton]; unfold cc6__apply_kernel_skel
  unfold owns
  iintro ⟨⟨%f_0, %hf_0, H_0⟩, ⟨%f_1, %hf_1, H_1⟩, ⟨%f_2, %hf_2, H_2⟩, ⟨%f_3, %hf_3, H_3⟩, ⟨%f_4, %hf_4, H_4⟩, ⟨%f_5, %hf_5, H_5⟩, ⟨%f_6, %hf_6, H_6⟩, ⟨%f_7, %hf_7, H_7⟩, ⟨%f_8, %hf_8, H_8⟩, ⟨%f_9, %hf_9, H_9⟩, ⟨%f_10, %hf_10, H_10⟩, ⟨%f_11, %hf_11, H_11⟩, ⟨%f_12, %hf_12, H_12⟩, ⟨%f_13, %hf_13, H_13⟩, ⟨%f_14, %hf_14, H_14⟩, ⟨%d_15, %f_15, -, H_15⟩, Hk⟩
  subst hf_0 hf_1 hf_2 hf_3 hf_4 hf_5 hf_6 hf_7 hf_8 hf_9 hf_10 hf_11 hf_12 hf_13 hf_14
  sl_exec
  sl_step
  iapply Hk
  isplitl [H_0]
  · iexists f_0; isplitr; · ipureintro; rfl
    iexact H_0
  isplitl [H_1]
  · iexists f_1; isplitr; · ipureintro; rfl
    iexact H_1
  isplitl [H_2]
  · iexists f_2; isplitr; · ipureintro; rfl
    iexact H_2
  isplitl [H_3]
  · iexists f_3; isplitr; · ipureintro; rfl
    iexact H_3
  isplitl [H_4]
  · iexists f_4; isplitr; · ipureintro; rfl
    iexact H_4
  isplitl [H_5]
  · iexists f_5; isplitr; · ipureintro; rfl
    iexact H_5
  isplitl [H_6]
  · iexists f_6; isplitr; · ipureintro; rfl
    iexact H_6
  isplitl [H_7]
  · iexists f_7; isplitr; · ipureintro; rfl
    iexact H_7
  isplitl [H_8]
  · iexists f_8; isplitr; · ipureintro; rfl
    iexact H_8
  isplitl [H_9]
  · iexists f_9; isplitr; · ipureintro; rfl
    iexact H_9
  isplitl [H_10]
  · iexists f_10; isplitr; · ipureintro; rfl
    iexact H_10
  isplitl [H_11]
  · iexists f_11; isplitr; · ipureintro; rfl
    iexact H_11
  isplitl [H_12]
  · iexists f_12; isplitr; · ipureintro; rfl
    iexact H_12
  isplitl [H_13]
  · iexists f_13; isplitr; · ipureintro; rfl
    iexact H_13
  isplitl [H_14]
  · iexists f_14; isplitr; · ipureintro; rfl
    iexact H_14
  iexists _; isplitr
  swap; · iexact H_15
  ipureintro
  exact View.read_writes_eq_canon _ _ _ (cover6_15 _)

/-! ## The proof data -/

/-- The region's proof data on core c: the arrays as the region finds them; after the body at point t each input's
    buffer at its block and the output's at out6_15 of the input blocks; the invariant the scoped rest and the
    generator register, untouched; nothing owed; full shares. -/
noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => iblk6 V c 11 t
    | ⟨12, _⟩ => iblk6 V c 12 t
    | ⟨13, _⟩ => iblk6 V c 13 t
    | ⟨14, _⟩ => iblk6 V c 14 t
    | ⟨15, _⟩ => out6_15 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t)
    | ⟨_ + 16, h⟩ => absurd h (Nat.not_lt.2 (Nat.le_add_left _ _))
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = iblk6 V c 10 t := by dsimp only [dat6]
theorem after6_11 (c : Dev nD) (t : Fin cfg6.N) : (dat6 V c).after 11 t = iblk6 V c 11 t := by dsimp only [dat6]
theorem after6_12 (c : Dev nD) (t : Fin cfg6.N) : (dat6 V c).after 12 t = iblk6 V c 12 t := by dsimp only [dat6]
theorem after6_13 (c : Dev nD) (t : Fin cfg6.N) : (dat6 V c).after 13 t = iblk6 V c 13 t := by dsimp only [dat6]
theorem after6_14 (c : Dev nD) (t : Fin cfg6.N) : (dat6 V c).after 14 t = iblk6 V c 14 t := by dsimp only [dat6]
theorem after6_15 (c : Dev nD) (t : Fin cfg6.N) : (dat6 V c).after 15 t = out6_15 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d
theorem before6_10 (c : Dev nD) (t : Fin cfg6.N) (d) : (dat6 V c).before 10 t d = iblk6 V c 10 t :=
  before6_10_of V (dat6 V c) (A_eq6 V c 10) (after6_10 V c) t d
theorem before6_11 (c : Dev nD) (t : Fin cfg6.N) (d) : (dat6 V c).before 11 t d = iblk6 V c 11 t :=
  before6_11_of V (dat6 V c) (A_eq6 V c 11) (after6_11 V c) t d
theorem before6_12 (c : Dev nD) (t : Fin cfg6.N) (d) : (dat6 V c).before 12 t d = iblk6 V c 12 t :=
  before6_12_of V (dat6 V c) (A_eq6 V c 12) (after6_12 V c) t d
theorem before6_13 (c : Dev nD) (t : Fin cfg6.N) (d) : (dat6 V c).before 13 t d = iblk6 V c 13 t :=
  before6_13_of V (dat6 V c) (A_eq6 V c 13) (after6_13 V c) t d
theorem before6_14 (c : Dev nD) (t : Fin cfg6.N) (d) : (dat6 V c).before 14 t d = iblk6 V c 14 t :=
  before6_14_of V (dat6 V c) (A_eq6 V c 14) (after6_14 V c) t d

/-! ## The body obligation -/

/-- What the body is called with at point t, -/
noncomputable def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d))
    ∗ (∃ d, owns (c : Thread nD τ) (st6_12 t) fullShare ((dat6 V c).before 12 t d))
    ∗ (∃ d, owns (c : Thread nD τ) (st6_13 t) fullShare ((dat6 V c).before 13 t d))
    ∗ (∃ d, owns (c : Thread nD τ) (st6_14 t) fullShare ((dat6 V c).before 14 t d))
    ∗ (∃ d, owns (c : Thread nD τ) (st6_15 t) fullShare ((dat6 V c).before 15 t d)))

/-- and what it returns. -/
noncomputable def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t)
    ∗ owns (c : Thread nD τ) (st6_12 t) fullShare ((dat6 V c).after 12 t)
    ∗ owns (c : Thread nD τ) (st6_13 t) fullShare ((dat6 V c).after 13 t)
    ∗ owns (c : Thread nD τ) (st6_14 t) fullShare ((dat6 V c).after 14 t)
    ∗ owns (c : Thread nD τ) (st6_15 t) fullShare ((dat6 V c).after 15 t))

set_option maxHeartbeats 1000000 in
/-- The body at any point: the inputs' buffers hold their blocks, so the triple applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9, before6_10, before6_11, before6_12, before6_13, before6_14]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11, after6_12, after6_13, after6_14, after6_15]
  iintro ⟨HΦ, Ho, ⟨%d_0, H_0⟩, ⟨%d_1, H_1⟩, ⟨%d_2, H_2⟩, ⟨%d_3, H_3⟩, ⟨%d_4, H_4⟩, ⟨%d_5, H_5⟩, ⟨%d_6, H_6⟩, ⟨%d_7, H_7⟩, ⟨%d_8, H_8⟩, ⟨%d_9, H_9⟩, ⟨%d_10, H_10⟩, ⟨%d_11, H_11⟩, ⟨%d_12, H_12⟩, ⟨%d_13, H_13⟩, ⟨%d_14, H_14⟩, ⟨%d_15, H_15⟩⟩
  iapply (sound_kernel6 c Set.univ _ _ _ _ _ _ _ _ _ _ _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (iblk6 V c 14 t) _)
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  isplitl [H_15]; · iexists _; iexact H_15
  iintro ⟨H_0, H_1, H_2, H_3, H_4, H_5, H_6, H_7, H_8, H_9, H_10, H_11, H_12, H_13, H_14, H_15⟩
  isplitl [HΦ]; · iexact HΦ
  isplitl [Ho]; · iexact Ho
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  iexact H_15

theorem body_obligation6 (c : Dev nD) : BodyObligation (dat6 (F := F) V c) (defs₀ (F := F)) Variants.none () Set.univ := fun t => by
  rw [bigSep_W6, bigSep_W6]
  exact sound_body6 V c t

/-! ## The invariant at the region's ends -/

theorem phi_in6 (c : Dev nD) :
    (iprop((∃ r, prngReg c r) ∗ Pipeline.scopedRest (Ix := Unit) (Name := ℕ) (U := UR sig nD τ) (Lvl := ℕ) (Val := Elt F) spec6 c) : sProp 𝕄)
      ⊢ (dat6 V c).Φ 0 := by
  rw [show (dat6 V c).Φ 0 = Pipeline.ΦA spec6 c from rfl]; unfold Pipeline.ΦA
  iintro ⟨Hp, Hr⟩
  isplitl [Hr]; · iexact Hr
  iexact Hp

theorem phi_out6 (c : Dev nD) :
    (dat6 V c).Φ (Fin.last cfg6.N)
      ⊢ (iprop((∃ r, prngReg c r) ∗ Pipeline.scopedRest (Ix := Unit) (Name := ℕ) (U := UR sig nD τ) (Lvl := ℕ) (Val := Elt F) spec6 c) : sProp 𝕄) := by
  rw [show (dat6 V c).Φ (Fin.last _) = Pipeline.ΦA spec6 c from rfl]; unfold Pipeline.ΦA
  iintro ⟨Hr, Hp⟩
  isplitl [Hp]; · iexact Hp
  iexact Hr

/-! ## The whole output array

    Sixteen blocks of 4096 rows tile the 65536 rows, block t holding rows 4096·t … 4096·t + 4095, so row r is written
    at point r / 4096, at place r % 4096 of the block, and what is written there depends on the inputs' blocks at that
    point only. -/

/-- The point whose block holds an index's row. -/
noncomputable def pt6 (i : S65536x64.Idx) : Fin cfg6.N :=
  ⟨(i 0).val / 4096, by have h := ValueIdx.idx2_lt0 i; show (i 0).val / 4096 < grid6.N; rw [N_6]; omega⟩

/-- Where an index of the array sits inside its block. -/
noncomputable def loc6 (i : S65536x64.Idx) : S4096x64.Idx :=
  ValueIdx.ix2 ⟨(i 0).val % 4096, Nat.mod_lt _ (by decide)⟩ (i 1)

/-- The output array as one function of the fifteen input arrays: at each index, what the body leaves at the index's
    place in its block, from the inputs' blocks at the index's point. -/
noncomputable def G6_15 (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) : S65536x64.Idx → Elt F .f32 :=
  fun i => out6_15
      (((cfg6.win 0).blk (pt6 i)).view.read (Elt F) A_0)
      (((cfg6.win 1).blk (pt6 i)).view.read (Elt F) A_1)
      (((cfg6.win 2).blk (pt6 i)).view.read (Elt F) A_2)
      (((cfg6.win 3).blk (pt6 i)).view.read (Elt F) A_3)
      (((cfg6.win 4).blk (pt6 i)).view.read (Elt F) A_4)
      (((cfg6.win 5).blk (pt6 i)).view.read (Elt F) A_5)
      (((cfg6.win 6).blk (pt6 i)).view.read (Elt F) A_6)
      (((cfg6.win 7).blk (pt6 i)).view.read (Elt F) A_7)
      (((cfg6.win 8).blk (pt6 i)).view.read (Elt F) A_8)
      (((cfg6.win 9).blk (pt6 i)).view.read (Elt F) A_9)
      (((cfg6.win 10).blk (pt6 i)).view.read (Elt F) A_10)
      (((cfg6.win 11).blk (pt6 i)).view.read (Elt F) A_11)
      (((cfg6.win 12).blk (pt6 i)).view.read (Elt F) A_12)
      (((cfg6.win 13).blk (pt6 i)).view.read (Elt F) A_13)
      (((cfg6.win 14).blk (pt6 i)).view.read (Elt F) A_14)
      (loc6 i)

/-- G6_15 at an index, one step unfolded. -/
theorem G6_15_apply (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) (i : S65536x64.Idx) :
    G6_15 A_0 A_1 A_2 A_3 A_4 A_5 A_6 A_7 A_8 A_9 A_10 A_11 A_12 A_13 A_14 i = out6_15 (((cfg6.win 0).blk (pt6 i)).view.read (Elt F) A_0) (((cfg6.win 1).blk (pt6 i)).view.read (Elt F) A_1) (((cfg6.win 2).blk (pt6 i)).view.read (Elt F) A_2) (((cfg6.win 3).blk (pt6 i)).view.read (Elt F) A_3) (((cfg6.win 4).blk (pt6 i)).view.read (Elt F) A_4) (((cfg6.win 5).blk (pt6 i)).view.read (Elt F) A_5) (((cfg6.win 6).blk (pt6 i)).view.read (Elt F) A_6) (((cfg6.win 7).blk (pt6 i)).view.read (Elt F) A_7) (((cfg6.win 8).blk (pt6 i)).view.read (Elt F) A_8) (((cfg6.win 9).blk (pt6 i)).view.read (Elt F) A_9) (((cfg6.win 10).blk (pt6 i)).view.read (Elt F) A_10) (((cfg6.win 11).blk (pt6 i)).view.read (Elt F) A_11) (((cfg6.win 12).blk (pt6 i)).view.read (Elt F) A_12) (((cfg6.win 13).blk (pt6 i)).view.read (Elt F) A_13) (((cfg6.win 14).blk (pt6 i)).view.read (Elt F) A_14) (loc6 i) := rfl

/-- The output's block index at point t is (t, 0), decided over the sixteen points. -/
theorem idx6_15 : ∀ t : Fin cfg6.N, win6_15.index t (0 : Fin 2) = t.val ∧ win6_15.index t (1 : Fin 2) = 0 :=
  (by decide +kernel : ∀ t : Fin grid6.N, _)

set_option maxHeartbeats 2000000 in
/-- What point t writes back is block t of G6_15 of the arrays as the region finds them. -/
theorem flushed6_15_eq (c : Dev nD) (t : Fin cfg6.N) :
    (dat6 V c).flushed 15 t = ((cfg6.win 15).blk t).view.read (Elt F) (G6_15 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) (V c (Pipeline.arrRef spec6 11)) (V c (Pipeline.arrRef spec6 12)) (V c (Pipeline.arrRef spec6 13)) (V c (Pipeline.arrRef spec6 14))) := by
  show (cfg6.win 15).cut (grid6.coords t) ((dat6 V c).after 15 t) = _
  rw [after6_15]
  obtain ⟨e0, e1⟩ := idx6_15 t
  funext j
  have hj0 : (j 0).val < 4096 := (j 0).isLt
  have hp : pt6 (((cfg6.win 15).blk t).view.emb j) = t := by
    apply Fin.ext
    show (win6_15.index t (0 : Fin 2) * 4096 + 1 * (j 0).val) / 4096 = t.val
    omega
  have hl : loc6 (((cfg6.win 15).blk t).view.emb j) = j := by
    funext a; apply Fin.ext
    match a with
    | ⟨0, _⟩ => show (win6_15.index t (0 : Fin 2) * 4096 + 1 * (j 0).val) % 4096 = (j 0).val; omega
    | ⟨1, _⟩ => show win6_15.index t (1 : Fin 2) * 64 + 1 * (j 1).val = (j 1).val; omega
  rw [View.read_apply]
  rw [G6_15_apply, hp, hl]
  unfold iblk6
  generalize out6_15 (F := F) _ _ _ _ _ _ _ _ _ _ _ _ _ _ _ = X
  rfl

/-- An index of the array is in point t's block iff each coordinate is in the block's range on its axis. -/
theorem mem_blk6_15 (t : Fin cfg6.N) (i : S65536x64.Idx) :
    i ∈ ((cfg6.win 15).blk t).view.set ↔ ∀ a : Fin 2, win6_15.index t a * S4096x64.size a ≤ (i a).val ∧ (i a).val < win6_15.index t a * S4096x64.size a + S4096x64.size a := by
  show i ∈ ((View.whole main_v141).slice (win6_15.rect t)).set ↔ _
  rw [View.set_slice_whole, Rect.mem_set_unit]
  exact Iff.rfl

/-- Every index of the array is in some point's block. -/
theorem covered6_15 (i : S65536x64.Idx) : ∃ t : Fin cfg6.N, (cfg6.win 15).flush t = true ∧ i ∈ ((cfg6.win 15).blk t).view.set := by
  refine ⟨pt6 i, flush6_15 _, ?_⟩
  rw [mem_blk6_15]
  obtain ⟨e0, e1⟩ := idx6_15 (pt6 i)
  have h_0 := ValueIdx.idx2_lt0 i
  have h_1 := ValueIdx.idx2_lt1 i
  have hp : (pt6 i).val = (i 0).val / 4096 := rfl
  intro a
  match a with
  | ⟨0, _⟩ => show win6_15.index (pt6 i) (0 : Fin 2) * 4096 ≤ (i 0).val ∧ (i 0).val < win6_15.index (pt6 i) (0 : Fin 2) * 4096 + 4096; omega
  | ⟨1, _⟩ => show win6_15.index (pt6 i) (1 : Fin 2) * 64 ≤ (i 1).val ∧ (i 1).val < win6_15.index (pt6 i) (1 : Fin 2) * 64 + 64; omega

/-- The output array after the region: G6_15 of the arrays as the region finds them. -/
theorem final6_15 (c : Dev nD) :
    (dat6 V c).arrAt ⟨15, by decide⟩ cfg6.N = G6_15 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) (V c (Pipeline.arrRef spec6 11)) (V c (Pipeline.arrRef spec6 12)) (V c (Pipeline.arrRef spec6 13)) (V c (Pipeline.arrRef spec6 14)) :=
  (dat6 V c).arrAt_eq_of_cover 15 _ (fun t _ => flushed6_15_eq V c t) covered6_15

end Cert.KernelIdeal.Hand

end
-- ==== Proof.KI.Reg7.lean ====
import proofs.«159011_j9938554322955_1_alg».proof.Proof.Gen.KernelIdeal.Launch
import proofs.«159011_j9938554322955_1_alg».proof.Proof.Gen.KernelIdeal.Skeleton
import proofs.«159011_j9938554322955_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the body goes through the rectangle of a two-axis buffer's whole shape at zero offsets. -/

theorem hz2_7 : (![0, 0] : Fin 2 → ℕ) = fun _ => 0 := by funext a; fin_cases a <;> rfl

/-- A load of a whole buffer reads its contents. -/
theorem readAt_whole7 (sz : Fin 2 → ℕ) {e : EltTy} (v : View sig .tc .vmem (⟨2, sz⟩ : Shape) e)
    (inb : ∀ a, (![0, 0] : Fin 2 → ℕ) a + sz a ≤ sz a) (f : v.ty.Contents (Elt F)) :
    v.readAt (Elt F) (Rect.unit (s := (⟨2, sz⟩ : Shape)) ![0, 0] sz inb).toLoadRect f = v.read (Elt F) f :=
  (View.readAt_eq_ld v f _).trans (View.ld_unit_zero (S := (⟨2, sz⟩ : Shape)) hz2_7 inb _)

/-- The whole-shape rectangle holds every index. -/
theorem cover_whole7 (sz : Fin 2 → ℕ) {e : EltTy} (inb : ∀ a, (![0, 0] : Fin 2 → ℕ) a + sz a ≤ sz a)
    (w : (⟨2, sz⟩ : Shape).Idx → Elt F e) (L : List (View.Piece (Elt F) (⟨2, sz⟩ : Shape) e)) (y : (⟨2, sz⟩ : Shape).Idx) :
    ∃ p ∈ ((⟨Rect.unit (s := (⟨2, sz⟩ : Shape)) ![0, 0] sz inb, w⟩ : View.Piece (Elt F) (⟨2, sz⟩ : Shape) e) :: L), y ∈ p.1.set :=
  ⟨⟨Rect.unit (s := (⟨2, sz⟩ : Shape)) ![0, 0] sz inb, w⟩, List.mem_cons_self, View.mem_set_unit_zero (S := (⟨2, sz⟩ : Shape)) hz2_7 inb y⟩

/-- A store of a whole buffer, last, leaves its payload. -/
theorem read_writes_whole7 (sz : Fin 2 → ℕ) {e : EltTy} (v : View sig .tc .vmem (⟨2, sz⟩ : Shape) e)
    (inb : ∀ a, (![0, 0] : Fin 2 → ℕ) a + sz a ≤ sz a) (f : v.ty.Contents (Elt F)) (w : (⟨2, sz⟩ : Shape).Idx → Elt F e)
    (L : List (View.Piece (Elt F) (⟨2, sz⟩ : Shape) e)) :
    v.read (Elt F) (v.writes (Elt F) f ((⟨Rect.unit (s := (⟨2, sz⟩ : Shape)) ![0, 0] sz inb, w⟩ : View.Piece (Elt F) (⟨2, sz⟩ : Shape) e) :: L)) = w :=
  (View.read_writes_eq_canon v f _ (cover_whole7 sz inb w L)).trans
    (View.canon_cons_unit_zero (S := (⟨2, sz⟩ : Shape)) hz2_7 inb w L)

/-- A load of a whole buffer after a store of the whole buffer reads the payload. -/
theorem readCov_whole7 (sz : Fin 2 → ℕ) {e : EltTy} (v : View sig .tc .vmem (⟨2, sz⟩ : Shape) e)
    (inb : ∀ a, (![0, 0] : Fin 2 → ℕ) a + sz a ≤ sz a) (w : (⟨2, sz⟩ : Shape).Idx → Elt F e)
    (L : List (View.Piece (Elt F) (⟨2, sz⟩ : Shape) e)) :
    v.readCov ((⟨Rect.unit (s := (⟨2, sz⟩ : Shape)) ![0, 0] sz inb, w⟩ : View.Piece (Elt F) (⟨2, sz⟩ : Shape) e) :: L)
      (Rect.unit (s := (⟨2, sz⟩ : Shape)) ![0, 0] sz inb).toLoadRect = w :=
  (View.readCov_eq_canon_ld v _ (Rect.unit (s := (⟨2, sz⟩ : Shape)) ![0, 0] sz inb) (cover_whole7 sz inb w L)).trans
    ((congrArg (fun X => View.ld X (Rect.unit (s := (⟨2, sz⟩ : Shape)) ![0, 0] sz inb))
        (View.canon_cons_unit_zero (S := (⟨2, sz⟩ : Shape)) hz2_7 inb w L)).trans
      (View.ld_unit_zero (S := (⟨2, sz⟩ : Shape)) hz2_7 inb w))

/-! ## The body's two conditions -/

/-- The condition of the body's first `scf.if` (the scratch is zeroed), from the grid coordinates. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val = 0 :=
  (by decide +kernel : ∀ t : Fin grid7.N, cond7_0 (grid7.coords t) ↔ t.val = 0)
/-- The condition of the body's second `scf.if` (the statistics are stored). -/
abbrev cond7_1 (i : grid7.Coords) : Prop := k7_cond2 i = 1#1
/-- It holds at the last point only. -/
theorem hcond7_1 : ∀ t : Fin cfg7.N, cond7_1 (grid7.coords t) ↔ t.val = 15 :=
  (by decide +kernel : ∀ t : Fin grid7.N, cond7_1 (grid7.coords t) ↔ t.val = 15)

/-! ## What one point adds to the two running sums, and the statistics stored at the last point -/

/-- The column sums of the block's `z` added to the running sum `S`. -/
noncomputable def sS7 (x0 x1 : Vec F S4096x64 .f32) (x2 : Vec F S1x64 .f32) (x3 : Vec F S64x128 .f32) (x4 S : Vec F S1x128 .f32) : Vec F S1x128 .f32 :=
  k7_pay7 x2 x0 x1 x3 x4 S
/-- The column sums of the block's `z · z` added to the running sum `Q`. -/
noncomputable def sQ7 (x0 x1 : Vec F S4096x64 .f32) (x2 : Vec F S1x64 .f32) (x3 : Vec F S64x128 .f32) (x4 Q : Vec F S1x128 .f32) : Vec F S1x128 .f32 :=
  k7_pay1 (k7_pay8 x2 x0 x1 x3 x4 Q)
/-- The two sums as the first point resets them. -/
noncomputable def zS7 : Vec F S1x128 .f32 := k7_pay4 (F := F)
noncomputable def zQ7 : Vec F S1x128 .f32 := k7_pay5 (F := F)
/-- The mean stored from the total `S`, and the variance stored from the totals `S`, `Q`. -/
noncomputable def oM7 (S : Vec F S1x128 .f32) : Vec F S1x128 .f32 := k7_pay2 S
noncomputable def oV7 (S Q : Vec F S1x128 .f32) : Vec F S1x128 .f32 := k7_pay3 S Q

set_option maxHeartbeats 2000000 in
/-- The body on whole staging memrefs and the two scratch buffers, at the first point (the scratch is zeroed first, whatever it held). -/
theorem sound_kernel7_A (c : Dev nD) (E : Set ℕ) (i : grid7.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond7_0 i) (hc1 : ¬cond7_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS7 x0 x1 x2 x3 x4 zS7)
            ∗ owns (c : Thread nD τ) arg9 fullShare (sQ7 x0 x1 x2 x3 x4 zQ7)) -∗ K ⟨⟩))
      ⊢ wp frame (wpE (defs₀ (F := F)) Variants.none c none) E (cc7__stats1_kernel i arg1 harg1 arg2 harg2 arg3 harg3 arg4 harg4 arg5 harg5 arg6 harg6 arg7 harg7 arg8 harg8 arg9 harg9) K := by
  simp only [cc7__stats1_kernel_eq_skeleton]; unfold cc7__stats1_kernel_skel
  simp only [k7_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole7, readCov_whole7, readAt_whole7, oM7, oV7, sS7, sQ7, zS7, zQ7])
  isplitl [H6]
  · iexists _; isplitr
    swap; · iexact H6
    ipureintro
    first
      | rfl
      | (sl_unfold_run_names; (try dsimp only); simp only [read_writes_whole7, readCov_whole7, readAt_whole7, oM7, oV7, sS7, sQ7, zS7, zQ7])
  isplitl [H7]
  · iexists _; isplitr
    swap; · iexact H7
    ipureintro
    (sl_unfold_run_names; (try dsimp only); simp only [read_writes_whole7, readCov_whole7, readAt_whole7, oM7, oV7, sS7, sQ7, zS7, zQ7])
  iexists _; isplitr
  swap; · iexact H8
  ipureintro
  (sl_unfold_run_names; (try dsimp only); simp only [read_writes_whole7, readCov_whole7, readAt_whole7, oM7, oV7, sS7, sQ7, zS7, zQ7])

set_option maxHeartbeats 2000000 in
/-- The body on whole staging memrefs and the two scratch buffers, at a point that is neither the first nor the last. -/
theorem sound_kernel7_B (c : Dev nD) (E : Set ℕ) (i : grid7.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond7_0 i) (hc1 : ¬cond7_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS7 x0 x1 x2 x3 x4 S)
            ∗ owns (c : Thread nD τ) arg9 fullShare (sQ7 x0 x1 x2 x3 x4 Q)) -∗ K ⟨⟩))
      ⊢ wp frame (wpE (defs₀ (F := F)) Variants.none c none) E (cc7__stats1_kernel i arg1 harg1 arg2 harg2 arg3 harg3 arg4 harg4 arg5 harg5 arg6 harg6 arg7 harg7 arg8 harg8 arg9 harg9) K := by
  simp only [cc7__stats1_kernel_eq_skeleton]; unfold cc7__stats1_kernel_skel
  simp only [k7_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole7, readCov_whole7, readAt_whole7, oM7, oV7, sS7, sQ7, zS7, zQ7])
  isplitl [H6]
  · iexists _; isplitr
    swap; · iexact H6
    ipureintro
    first
      | rfl
      | (sl_unfold_run_names; (try dsimp only); simp only [read_writes_whole7, readCov_whole7, readAt_whole7, oM7, oV7, sS7, sQ7, zS7, zQ7])
  isplitl [H7]
  · iexists _; isplitr
    swap; · iexact H7
    ipureintro
    (sl_unfold_run_names; (try dsimp only); simp only [read_writes_whole7, readCov_whole7, readAt_whole7, oM7, oV7, sS7, sQ7, zS7, zQ7])
  iexists _; isplitr
  swap; · iexact H8
  ipureintro
  (sl_unfold_run_names; (try dsimp only); simp only [read_writes_whole7, readCov_whole7, readAt_whole7, oM7, oV7, sS7, sQ7, zS7, zQ7])

set_option maxHeartbeats 2000000 in
/-- The body on whole staging memrefs and the two scratch buffers, at the last point (the statistics are stored from the totals). -/
theorem sound_kernel7_C (c : Dev nD) (E : Set ℕ) (i : grid7.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond7_0 i) (hc1 : cond7_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (oM7 (sS7 x0 x1 x2 x3 x4 S))
            ∗ owns (c : Thread nD τ) arg7 fullShare (oV7 (sS7 x0 x1 x2 x3 x4 S) (sQ7 x0 x1 x2 x3 x4 Q)) ∗ owns (c : Thread nD τ) arg8 fullShare (sS7 x0 x1 x2 x3 x4 S)
            ∗ owns (c : Thread nD τ) arg9 fullShare (sQ7 x0 x1 x2 x3 x4 Q)) -∗ K ⟨⟩))
      ⊢ wp frame (wpE (defs₀ (F := F)) Variants.none c none) E (cc7__stats1_kernel i arg1 harg1 arg2 harg2 arg3 harg3 arg4 harg4 arg5 harg5 arg6 harg6 arg7 harg7 arg8 harg8 arg9 harg9) K := by
  simp only [cc7__stats1_kernel_eq_skeleton]; unfold cc7__stats1_kernel_skel
  simp only [k7_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole7, readCov_whole7, readAt_whole7, oM7, oV7, sS7, sQ7, zS7, zQ7])
  isplitl [H6]
  · iexists _; isplitr
    swap; · iexact H6
    ipureintro
    first
      | rfl
      | (sl_unfold_run_names; (try dsimp only); simp only [read_writes_whole7, readCov_whole7, readAt_whole7, oM7, oV7, sS7, sQ7, zS7, zQ7])
  isplitl [H7]
  · iexists _; isplitr
    swap; · iexact H7
    ipureintro
    (sl_unfold_run_names; (try dsimp only); simp only [read_writes_whole7, readCov_whole7, readAt_whole7, oM7, oV7, sS7, sQ7, zS7, zQ7])
  iexists _; isplitr
  swap; · iexact H8
  ipureintro
  (sl_unfold_run_names; (try dsimp only); simp only [read_writes_whole7, readCov_whole7, readAt_whole7, oM7, oV7, sS7, sQ7, zS7, zQ7])

variable (V : (c : Dev nD) → (b : Ref sig .tc) → Buf (Elt F) ((c : Thread nD τ).loc b))

/-! ## The windows' blocks -/

/-- Window w's block at point t, read off its array as the region finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## Where the windows are idle and written back

The five inputs are never idle. The two statistics are stored at the last point only: before it their windows are
idle and are not written back; at it they are live. -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_4 : ∀ t : Fin cfg7.N, cfg7.idle 4 (grid7.coords t) = false := by decide +kernel
theorem idleAt7_5 : ∀ t : Fin cfg7.N, t.val ≠ 15 → cfg7.idle 5 (grid7.coords t) = true := by decide +kernel
theorem idleAt7_6 : ∀ t : Fin cfg7.N, t.val ≠ 15 → cfg7.idle 6 (grid7.coords t) = true := by decide +kernel
theorem liveAt7_5 : ∀ t : Fin cfg7.N, t.val = 15 → cfg7.idle 5 (grid7.coords t) = false := by decide +kernel
theorem liveAt7_6 : ∀ t : Fin cfg7.N, t.val = 15 → cfg7.idle 6 (grid7.coords t) = false := by decide +kernel
theorem noFlush7_5 : ∀ t : Fin cfg7.N, t.val ≠ 15 → (cfg7.win 5).flush t = false := by decide +kernel
theorem noFlush7_6 : ∀ t : Fin cfg7.N, t.val ≠ 15 → (cfg7.win 6).flush t = false := by decide +kernel

/-! ## What an input's staging buffer holds

Each input's current staging buffer holds its block at every point, fetched there or not, for any proof data whose
array is the entry contents and whose body leaves the block in place. -/

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The running sums

What the two scratch buffers hold after the body at point n: the first point resets them and adds its block's column
sums of z and of z · z; every later point adds its own to what the point before left. -/

noncomputable def accS7 (c : Dev nD) : (n : ℕ) → n < cfg7.N → Vec F S1x128 .f32
  | 0, hn => sS7 (iblk7 V c 0 ⟨0, hn⟩) (iblk7 V c 1 ⟨0, hn⟩) (iblk7 V c 2 ⟨0, hn⟩) (iblk7 V c 3 ⟨0, hn⟩) (iblk7 V c 4 ⟨0, hn⟩) zS7
  | n + 1, hn => sS7 (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (accS7 c n (Nat.lt_of_succ_lt hn))

noncomputable def accQ7 (c : Dev nD) : (n : ℕ) → n < cfg7.N → Vec F S1x128 .f32
  | 0, hn => sQ7 (iblk7 V c 0 ⟨0, hn⟩) (iblk7 V c 1 ⟨0, hn⟩) (iblk7 V c 2 ⟨0, hn⟩) (iblk7 V c 3 ⟨0, hn⟩) (iblk7 V c 4 ⟨0, hn⟩) zQ7
  | n + 1, hn => sQ7 (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (accQ7 c n (Nat.lt_of_succ_lt hn))

theorem accS7_zero (c : Dev nD) (t : Fin cfg7.N) (h0 : t.val = 0) :
    accS7 V c t.val t.isLt = sS7 (iblk7 V c 0 t) (iblk7 V c 1 t) (iblk7 V c 2 t) (iblk7 V c 3 t) (iblk7 V c 4 t) zS7 := by
  obtain ⟨n, hn⟩ := t
  cases n with
  | zero => rfl
  | succ n => exact absurd h0 (Nat.succ_ne_zero n)

theorem accS7_pos (c : Dev nD) (t : Fin cfg7.N) (h0 : t.val ≠ 0) :
    accS7 V c t.val t.isLt = sS7 (iblk7 V c 0 t) (iblk7 V c 1 t) (iblk7 V c 2 t) (iblk7 V c 3 t) (iblk7 V c 4 t) (accS7 V c (t.val - 1) (Nat.lt_of_le_of_lt (Nat.sub_le _ _) t.isLt)) := by
  obtain ⟨n, hn⟩ := t
  cases n with
  | zero => exact absurd rfl h0
  | succ n => rfl

theorem accQ7_zero (c : Dev nD) (t : Fin cfg7.N) (h0 : t.val = 0) :
    accQ7 V c t.val t.isLt = sQ7 (iblk7 V c 0 t) (iblk7 V c 1 t) (iblk7 V c 2 t) (iblk7 V c 3 t) (iblk7 V c 4 t) zQ7 := by
  obtain ⟨n, hn⟩ := t
  cases n with
  | zero => rfl
  | succ n => exact absurd h0 (Nat.succ_ne_zero n)

theorem accQ7_pos (c : Dev nD) (t : Fin cfg7.N) (h0 : t.val ≠ 0) :
    accQ7 V c t.val t.isLt = sQ7 (iblk7 V c 0 t) (iblk7 V c 1 t) (iblk7 V c 2 t) (iblk7 V c 3 t) (iblk7 V c 4 t) (accQ7 V c (t.val - 1) (Nat.lt_of_le_of_lt (Nat.sub_le _ _) t.isLt)) := by
  obtain ⟨n, hn⟩ := t
  cases n with
  | zero => exact absurd rfl h0
  | succ n => rfl

/-! ## The invariant between points -/

/-- The scoped rest with the two scratch buffers as whole memrefs owned at some contents. -/
theorem scr7_eq (c : Dev nD) :
    (Pipeline.scopedRest (Ix := Unit) (Name := ℕ) (U := UR sig nD τ) (Lvl := ℕ) (Val := Elt F) spec7 c : sProp 𝕄)
      = iprop(iprop((∃ d, owns (c : Thread nD τ) (Memref.whole cc7_scratch0) fullShare d) ∗ (∃ d, owns (c : Thread nD τ) (Memref.whole cc7_scratch1) fullShare d))
          ∗ Pipeline.scopedRestBut (Ix := Unit) (Name := ℕ) (U := UR sig nD τ) (Lvl := ℕ) (Val := Elt F) spec7 c [cc7_scratch0, cc7_scratch1]) := by
  rw [scopedRest7_split]; simp only [owns_whole]; try rfl

/-- Before the first point: the generator register and every scoped buffer that is no staging buffer, at anything.
    Before a later point: the same with the two scratch buffers at the running sums the point before left. -/
noncomputable def Phi7 (c : Dev nD) : (n : ℕ) → n ≤ cfg7.N → sProp 𝕄
  | 0, _ => iprop((∃ r, prngReg c r) ∗ Pipeline.scopedRest (Ix := Unit) (Name := ℕ) (U := UR sig nD τ) (Lvl := ℕ) (Val := Elt F) spec7 c)
  | n + 1, hn => iprop((∃ r, prngReg c r)
      ∗ iprop(owns (c : Thread nD τ) (Memref.whole cc7_scratch0) fullShare (accS7 V c n hn) ∗ owns (c : Thread nD τ) (Memref.whole cc7_scratch1) fullShare (accQ7 V c n hn))
      ∗ Pipeline.scopedRestBut (Ix := Unit) (Name := ℕ) (U := UR sig nD τ) (Lvl := ℕ) (Val := Elt F) spec7 c [cc7_scratch0, cc7_scratch1])

theorem Phi7_zero (c : Dev nD) (n : ℕ) (h : n ≤ cfg7.N) (hz : n = 0) :
    Phi7 V c n h = iprop((∃ r, prngReg c r) ∗ Pipeline.scopedRest (Ix := Unit) (Name := ℕ) (U := UR sig nD τ) (Lvl := ℕ) (Val := Elt F) spec7 c) := by
  subst hz; rfl

theorem Phi7_succ (c : Dev nD) (n : ℕ) (hn : n < cfg7.N) :
    Phi7 V c (n + 1) hn = iprop((∃ r, prngReg c r)
      ∗ iprop(owns (c : Thread nD τ) (Memref.whole cc7_scratch0) fullShare (accS7 V c n hn) ∗ owns (c : Thread nD τ) (Memref.whole cc7_scratch1) fullShare (accQ7 V c n hn))
      ∗ Pipeline.scopedRestBut (Ix := Unit) (Name := ℕ) (U := UR sig nD τ) (Lvl := ℕ) (Val := Elt F) spec7 c [cc7_scratch0, cc7_scratch1]) := rfl

theorem Phi7_pos (c : Dev nD) (n : ℕ) (h : n ≤ cfg7.N) (hz : n ≠ 0) :
    Phi7 V c n h = iprop((∃ r, prngReg c r)
      ∗ iprop(owns (c : Thread nD τ) (Memref.whole cc7_scratch0) fullShare (accS7 V c (n - 1) (by omega)) ∗ owns (c : Thread nD τ) (Memref.whole cc7_scratch1) fullShare (accQ7 V c (n - 1) (by omega)))
      ∗ Pipeline.scopedRestBut (Ix := Unit) (Name := ℕ) (U := UR sig nD τ) (Lvl := ℕ) (Val := Elt F) spec7 c [cc7_scratch0, cc7_scratch1]) := by
  cases n with
  | zero => exact absurd rfl hz
  | succ n => rfl

/-! ## The pipeline's proof data -/

/-- The arrays as the region finds them; after the body at point t each input's buffer at its block, the mean's and the
    variance's at the statistics of the running sums (consulted at the last point only: before it the two windows are idle);
    the invariant above; nothing owed; full shares. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => oM7 (accS7 V c t.val t.isLt)
    | ⟨6, _⟩ => oV7 (accS7 V c t.val t.isLt) (accQ7 V c t.val t.isLt)
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem Phi7_castSucc (c : Dev nD) (t : Fin cfg7.N) :
    (dat7 V c).Φ t.castSucc = Phi7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = oM7 (accS7 V c t.val t.isLt) := by dsimp only [dat7]
theorem after7_6 (c : Dev nD) (t : Fin cfg7.N) : (dat7 V c).after 6 t = oV7 (accS7 V c t.val t.isLt) (accQ7 V c t.val t.isLt) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point t, the windows one by one, -/
noncomputable def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
noncomputable def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t)

set_option maxHeartbeats 4800000 in
/-- The body at any point: the inputs' memrefs hold their blocks; the point is the first, the last or neither, which
    decides the two conditions; the invariant hands the body the two scratch buffers (at anything at the first point, at
    the running sums otherwise) and takes them back at this point's sums; the mean's and the variance's buffers come back
    untouched before the last point and hold the statistics after it; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [show (dat7 V c).Φ t.succ = Phi7 V c (t.val + 1) t.isLt from rfl, Phi7_succ]
  have hN : t.val < 16 := lt_of_lt_of_eq t.isLt (show cfg7.N = 16 from N_7)
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [show (dat7 V c).leavesExact 2 t = owns (c : Thread nD τ) (st7_2 t) fullShare ((dat7 V c).after 2 t) from by
    unfold Dat.leavesExact; rw [liveAt7_2 t], after7_2]
  rw [show (dat7 V c).leavesExact 3 t = owns (c : Thread nD τ) (st7_3 t) fullShare ((dat7 V c).after 3 t) from by
    unfold Dat.leavesExact; rw [liveAt7_3 t], after7_3]
  rw [show (dat7 V c).leavesExact 4 t = owns (c : Thread nD τ) (st7_4 t) fullShare ((dat7 V c).after 4 t) from by
    unfold Dat.leavesExact; rw [liveAt7_4 t], after7_4]
  by_cases h0 : t.val = 0
  · have h1 : t.val ≠ 15 := by omega
    rw [Dat.leavesExact_idle (dat7 V c) 5 t (idleAt7_5 t h1) (noFlush7_5 t h1),
      Dat.leavesExact_idle (dat7 V c) 6 t (idleAt7_6 t h1) (noFlush7_6 t h1)]
    rw [accS7_zero V c t h0, accQ7_zero V c t h0]
    rw [Phi7_castSucc V c t, Phi7_zero V c _ _ h0, scr7_eq]
    iintro ⟨⟨Hg, ⟨⟨%dS, HS⟩, ⟨%dQ, HQ⟩⟩, Hrest⟩, Ho, ⟨%d0, H0⟩, ⟨%d1, H1⟩, ⟨%d2, H2⟩, ⟨%d3, H3⟩, ⟨%d4, H4⟩, ⟨%d5, H5⟩, ⟨%d6, H6⟩⟩
    iapply (sound_kernel7_A c Set.univ (grid7.coords t) _ _ _ _ _ _ _ _ _ _ _ _ _ _ (Memref.whole cc7_scratch0) (Memref.isWhole_whole _) (Memref.whole cc7_scratch1) (Memref.isWhole_whole _)
      ((hcond7_0 t).mpr h0) (fun h => h1 ((hcond7_1 t).mp h)) (iblk7 V c 0 t) (iblk7 V c 1 t) (iblk7 V c 2 t) (iblk7 V c 3 t) (iblk7 V c 4 t) _ _ dS dQ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HQ]; · iexact HQ
    iintro ⟨H0, H1, H2, H3, H4, H5, H6, HS, HQ⟩
    isplitl [Hg HS HQ Hrest]
    · isplitl [Hg]; · iexact Hg
      isplitl [HS HQ]
      · isplitl [HS]; · iexact HS
        iexact HQ
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 15
    · rw [show (dat7 V c).leavesExact 5 t = owns (c : Thread nD τ) (st7_5 t) fullShare ((dat7 V c).after 5 t) from by
        unfold Dat.leavesExact; rw [liveAt7_5 t h1], after7_5]
      rw [show (dat7 V c).leavesExact 6 t = owns (c : Thread nD τ) (st7_6 t) fullShare ((dat7 V c).after 6 t) from by
        unfold Dat.leavesExact; rw [liveAt7_6 t h1], after7_6]
      rw [accS7_pos V c t h0, accQ7_pos V c t h0]
      rw [Phi7_castSucc V c t, Phi7_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel7_C c Set.univ (grid7.coords t) _ _ _ _ _ _ _ _ _ _ _ _ _ _ (Memref.whole cc7_scratch0) (Memref.isWhole_whole _) (Memref.whole cc7_scratch1) (Memref.isWhole_whole _)
        (fun h => h0 ((hcond7_0 t).mp h)) ((hcond7_1 t).mpr h1) (iblk7 V c 0 t) (iblk7 V c 1 t) (iblk7 V c 2 t) (iblk7 V c 3 t) (iblk7 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat7 V c) 5 t (idleAt7_5 t h1) (noFlush7_5 t h1),
        Dat.leavesExact_idle (dat7 V c) 6 t (idleAt7_6 t h1) (noFlush7_6 t h1)]
      rw [accS7_pos V c t h0, accQ7_pos V c t h0]
      rw [Phi7_castSucc V c t, Phi7_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel7_B c Set.univ (grid7.coords t) _ _ _ _ _ _ _ _ _ _ _ _ _ _ (Memref.whole cc7_scratch0) (Memref.isWhole_whole _) (Memref.whole cc7_scratch1) (Memref.isWhole_whole _)
        (fun h => h0 ((hcond7_0 t).mp h)) (fun h => h1 ((hcond7_1 t).mp h)) (iblk7 V c 0 t) (iblk7 V c 1 t) (iblk7 V c 2 t) (iblk7 V c 3 t) (iblk7 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## Entering and leaving the region -/

/-- What the region is handed is the invariant before the first point. -/
theorem phi_in7 (c : Dev nD) :
    (iprop((∃ r, prngReg c r) ∗ Pipeline.scopedRest (Ix := Unit) (Name := ℕ) (U := UR sig nD τ) (Lvl := ℕ) (Val := Elt F) spec7 c) : sProp 𝕄)
      ⊢ (dat7 V c).Φ 0 := by
  rw [show (dat7 V c).Φ 0 = Phi7 V c 0 (Nat.zero_le _) from rfl, Phi7_zero V c 0 _ rfl]
  try exact Idealize.SL.BI.Entails.refl _

/-- After the last point the invariant gives it back: the scratch buffers' contents are forgotten. -/
theorem phi_out7 (c : Dev nD) :
    (dat7 V c).Φ (Fin.last cfg7.N)
      ⊢ (iprop((∃ r, prngReg c r) ∗ Pipeline.scopedRest (Ix := Unit) (Name := ℕ) (U := UR sig nD τ) (Lvl := ℕ) (Val := Elt F) spec7 c) : sProp 𝕄) := by
  have ht : (Fin.last cfg7.N).val ≠ 0 := by rw [Fin.val_last]; have : cfg7.N = 16 := N_7; omega
  rw [show (dat7 V c).Φ (Fin.last cfg7.N) = Phi7 V c (Fin.last cfg7.N).val (Nat.le_of_lt_succ (Fin.last cfg7.N).isLt) from rfl,
    Phi7_pos V c _ _ ht, scr7_eq]
  iintro ⟨Hg, ⟨HS, HQ⟩, Hrest⟩
  isplitl [Hg]; · iexact Hg
  isplitl [HS HQ]
  · isplitl [HS]; · iexists _; iexact HS
    iexists _; iexact HQ
  iexact Hrest

end Cert.KernelIdeal.Hand

end
-- ==== Proof.KI.Reg8Runs.lean ====
import proofs.«159011_j9938554322955_1_alg».proof.Proof.Gen.KernelIdeal.Launch
import proofs.«159011_j9938554322955_1_alg».proof.Proof.Gen.KernelIdeal.Skeleton
import proofs.«159011_j9938554322955_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second statistics kernel of a layer: what its three kinds of grid point share

The kernel visits sixteen blocks of 4096 rows. At every point it recomputes the block of the second linear
map's values z2 and adds the block's column sums of z2 and of z2 * z2 into two accumulators of 64 lanes that it
keeps from point to point; at the first point it clears the accumulators before adding; at the last point it also
stores mean = S * 2^(-16) and var = Q * 2^(-16) - mean * mean. -/

/-- The body's first test, from the grid index: the index is 0 (the accumulators are cleared). -/
noncomputable abbrev cond8_0 (i : grid8.Coords) : Prop := (Scalar.cmpi .ne (Scalar.extui (Scalar.cmpi .eq (BitVec.ofNat 32 (i 0).val) 0#32)) 0#32) = 1#1
/-- It holds at the first point only. -/
theorem hcond8_0 : ∀ t : Fin cfg8.N, cond8_0 (grid8.coords t) ↔ t.val % 16 = 0 :=
  (by decide +kernel : ∀ t : Fin grid8.N, cond8_0 (grid8.coords t) ↔ t.val % 16 = 0)

/-- The body's second test: the index is 15 (mean and variance are stored). -/
noncomputable abbrev cond8_1 (i : grid8.Coords) : Prop := k8_cond2 i = 1#1
/-- It holds at the last point only. -/
theorem hcond8_1 : ∀ t : Fin cfg8.N, cond8_1 (grid8.coords t) ↔ t.val % 16 = 15 :=
  (by decide +kernel : ∀ t : Fin grid8.N, cond8_1 (grid8.coords t) ↔ t.val % 16 = 15)

/-! ## Where the windows are idle -/

/-- Input window 0 is never idle. -/
theorem liveAt8_0 : ∀ t : Fin cfg8.N, cfg8.idle 0 (grid8.coords t) = false := fun _ => rfl
/-- Input window 1 is never idle. -/
theorem liveAt8_1 : ∀ t : Fin cfg8.N, cfg8.idle 1 (grid8.coords t) = false := fun _ => rfl
/-- Input window 2 is never idle. -/
theorem liveAt8_2 : ∀ t : Fin cfg8.N, cfg8.idle 2 (grid8.coords t) = false := fun _ => rfl
/-- Input window 3 is never idle. -/
theorem liveAt8_3 : ∀ t : Fin cfg8.N, cfg8.idle 3 (grid8.coords t) = false := fun _ => rfl
/-- Input window 4 is never idle. -/
theorem liveAt8_4 : ∀ t : Fin cfg8.N, cfg8.idle 4 (grid8.coords t) = false := fun _ => rfl
/-- Input window 5 is never idle. -/
theorem liveAt8_5 : ∀ t : Fin cfg8.N, cfg8.idle 5 (grid8.coords t) = false := fun _ => rfl
/-- Input window 6 is never idle. -/
theorem liveAt8_6 : ∀ t : Fin cfg8.N, cfg8.idle 6 (grid8.coords t) = false := fun _ => rfl
/-- Input window 7 is never idle. -/
theorem liveAt8_7 : ∀ t : Fin cfg8.N, cfg8.idle 7 (grid8.coords t) = false := fun _ => rfl
/-- Input window 8 is never idle. -/
theorem liveAt8_8 : ∀ t : Fin cfg8.N, cfg8.idle 8 (grid8.coords t) = false := fun _ => rfl
/-- Input window 9 is never idle. -/
theorem liveAt8_9 : ∀ t : Fin cfg8.N, cfg8.idle 9 (grid8.coords t) = false := fun _ => rfl
/-- Input window 10 is never idle. -/
theorem liveAt8_10 : ∀ t : Fin cfg8.N, cfg8.idle 10 (grid8.coords t) = false := fun _ => rfl
/-- Away from the last point nothing is stored into output 11: the window is idle there, -/
theorem idleAt8_11 : ∀ t : Fin cfg8.N, ¬cond8_1 (grid8.coords t) → cfg8.idle 11 (grid8.coords t) = true := by decide +kernel
/-- and its block is not written back there. -/
theorem noFlush8_11 : ∀ t : Fin cfg8.N, ¬cond8_1 (grid8.coords t) → (cfg8.win 11).flush t = false := by decide +kernel
/-- At the last point output 11 is stored: the window is live. -/
theorem liveAt8_11 : ∀ t : Fin cfg8.N, cond8_1 (grid8.coords t) → cfg8.idle 11 (grid8.coords t) = false := by decide +kernel
/-- Away from the last point nothing is stored into output 12: the window is idle there, -/
theorem idleAt8_12 : ∀ t : Fin cfg8.N, ¬cond8_1 (grid8.coords t) → cfg8.idle 12 (grid8.coords t) = true := by decide +kernel
/-- and its block is not written back there. -/
theorem noFlush8_12 : ∀ t : Fin cfg8.N, ¬cond8_1 (grid8.coords t) → (cfg8.win 12).flush t = false := by decide +kernel
/-- At the last point output 12 is stored: the window is live. -/
theorem liveAt8_12 : ∀ t : Fin cfg8.N, cond8_1 (grid8.coords t) → cfg8.idle 12 (grid8.coords t) = false := by decide +kernel

/-! ## The memrefs the body is called with -/

noncomputable abbrev ms8_0 (t : Fin cfg8.N) : Memref sig .tc .vmem S4096x64 .f32 := win8_0.stage (cfg8.slots t 0)
noncomputable abbrev hs8_0 (t : Fin cfg8.N) : (ms8_0 t).IsWhole := hstage8_0 ((cfg8.slots t 0).cast nbuf8_0)
noncomputable abbrev ms8_1 (t : Fin cfg8.N) : Memref sig .tc .vmem S4096x64 .f32 := win8_1.stage (cfg8.slots t 1)
noncomputable abbrev hs8_1 (t : Fin cfg8.N) : (ms8_1 t).IsWhole := hstage8_1 ((cfg8.slots t 1).cast nbuf8_1)
noncomputable abbrev ms8_2 (t : Fin cfg8.N) : Memref sig .tc .vmem S1x64 .f32 := win8_2.stage (cfg8.slots t 2)
noncomputable abbrev hs8_2 (t : Fin cfg8.N) : (ms8_2 t).IsWhole := hstage8_2 ((cfg8.slots t 2).cast nbuf8_2)
noncomputable abbrev ms8_3 (t : Fin cfg8.N) : Memref sig .tc .vmem S64x128 .f32 := win8_3.stage (cfg8.slots t 3)
noncomputable abbrev hs8_3 (t : Fin cfg8.N) : (ms8_3 t).IsWhole := hstage8_3 ((cfg8.slots t 3).cast nbuf8_3)
noncomputable abbrev ms8_4 (t : Fin cfg8.N) : Memref sig .tc .vmem S1x128 .f32 := win8_4.stage (cfg8.slots t 4)
noncomputable abbrev hs8_4 (t : Fin cfg8.N) : (ms8_4 t).IsWhole := hstage8_4 ((cfg8.slots t 4).cast nbuf8_4)
noncomputable abbrev ms8_5 (t : Fin cfg8.N) : Memref sig .tc .vmem S1x128 .f32 := win8_5.stage (cfg8.slots t 5)
noncomputable abbrev hs8_5 (t : Fin cfg8.N) : (ms8_5 t).IsWhole := hstage8_5 ((cfg8.slots t 5).cast nbuf8_5)
noncomputable abbrev ms8_6 (t : Fin cfg8.N) : Memref sig .tc .vmem S1x128 .f32 := win8_6.stage (cfg8.slots t 6)
noncomputable abbrev hs8_6 (t : Fin cfg8.N) : (ms8_6 t).IsWhole := hstage8_6 ((cfg8.slots t 6).cast nbuf8_6)
noncomputable abbrev ms8_7 (t : Fin cfg8.N) : Memref sig .tc .vmem S1x128 .f32 := win8_7.stage (cfg8.slots t 7)
noncomputable abbrev hs8_7 (t : Fin cfg8.N) : (ms8_7 t).IsWhole := hstage8_7 ((cfg8.slots t 7).cast nbuf8_7)
noncomputable abbrev ms8_8 (t : Fin cfg8.N) : Memref sig .tc .vmem S1x128 .f32 := win8_8.stage (cfg8.slots t 8)
noncomputable abbrev hs8_8 (t : Fin cfg8.N) : (ms8_8 t).IsWhole := hstage8_8 ((cfg8.slots t 8).cast nbuf8_8)
noncomputable abbrev ms8_9 (t : Fin cfg8.N) : Memref sig .tc .vmem S128x64 .f32 := win8_9.stage (cfg8.slots t 9)
noncomputable abbrev hs8_9 (t : Fin cfg8.N) : (ms8_9 t).IsWhole := hstage8_9 ((cfg8.slots t 9).cast nbuf8_9)
noncomputable abbrev ms8_10 (t : Fin cfg8.N) : Memref sig .tc .vmem S1x64 .f32 := win8_10.stage (cfg8.slots t 10)
noncomputable abbrev hs8_10 (t : Fin cfg8.N) : (ms8_10 t).IsWhole := hstage8_10 ((cfg8.slots t 10).cast nbuf8_10)
noncomputable abbrev ms8_11 (t : Fin cfg8.N) : Memref sig .tc .vmem S1x64 .f32 := win8_11.stage (cfg8.slots t 11)
noncomputable abbrev hs8_11 (t : Fin cfg8.N) : (ms8_11 t).IsWhole := hstage8_11 ((cfg8.slots t 11).cast nbuf8_11)
noncomputable abbrev ms8_12 (t : Fin cfg8.N) : Memref sig .tc .vmem S1x64 .f32 := win8_12.stage (cfg8.slots t 12)
noncomputable abbrev hs8_12 (t : Fin cfg8.N) : (ms8_12 t).IsWhole := hstage8_12 ((cfg8.slots t 12).cast nbuf8_12)
/-- The two accumulators: whole buffers of the kernel's own, passed beside the windows. -/
noncomputable abbrev scM8_0 : Memref sig .tc .vmem S1x64 .f32 := Memref.whole cc8_scratch0
noncomputable abbrev scM8_1 : Memref sig .tc .vmem S1x64 .f32 := Memref.whole cc8_scratch1
/-- The accumulators as views: what they hold is stated through these. -/
noncomputable abbrev VS8_0 : View sig .tc .vmem S1x64 .f32 := scM8_0.view
noncomputable abbrev VS8_1 : View sig .tc .vmem S1x64 .f32 := scM8_1.view
/-- One staging buffer of each output window, through which its contents are stated (the choice does not matter). -/
noncomputable abbrev VO8_11 : View sig .tc .vmem S1x64 .f32 := (Memref.whole cc8_stg11_0 : Memref sig .tc .vmem S1x64 .f32).view
noncomputable abbrev VO8_12 : View sig .tc .vmem S1x64 .f32 := (Memref.whole cc8_stg12_0 : Memref sig .tc .vmem S1x64 .f32).view

/-- The core's scoped buffers that are no staging buffer of this call: the two accumulators, as memrefs owned at some
    contents, and every other one unopened. -/
theorem scoped8_eq (c : Dev nD) :
    (Pipeline.scopedRest (Ix := Unit) (Name := ℕ) (U := UR sig nD τ) (Lvl := ℕ) (Val := Elt F) spec8 c : sProp 𝕄)
      = iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) := by
  rw [scopedRest8_split]; simp only [scM8_0, scM8_1, owns_whole]; try rfl

end Cert.KernelIdeal.Hand

end
-- ==== Proof.KI.Reg8RunA.lean ====
import proofs.«159011_j9938554322955_1_alg».proof.Proof.KI.Reg8Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the FIRST point (the index is 0): the accumulators, found at anything, are cleared and the block's column sums of z2 and z2 * z2
    added; nothing is stored into the two outputs, whose buffers are handed back as found.
    The statement: on whole memrefs, the eleven inputs at contents x0 ... x10, the body runs to any continuation that accepts the
    inputs as they were and each buffer it stored into with its stores applied, last first (the lists are what the run finds). -/
noncomputable def kernelRun8_A (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc8__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc8__stats2_kernel_eq_skeleton]; unfold cc8__stats2_kernel_skel
    simp only [k8_part1_eq_skeleton]; unfold k8_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.KernelIdeal.Hand

end
-- ==== Proof.KI.Reg8RunB.lean ====
import proofs.«159011_j9938554322955_1_alg».proof.Proof.KI.Reg8RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a MIDDLE point (the index is neither 0 nor 15): the block's column sums are added into the accumulators, found at xs0, xs1;
    nothing is stored into the two outputs, whose buffers are handed back as found.
    The statement: on whole memrefs, the eleven inputs at contents x0 ... x10, the body runs to any continuation that accepts the
    inputs as they were and each buffer it stored into with its stores applied, last first (the lists are what the run finds). -/
noncomputable def kernelRun8_B (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc8__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc8__stats2_kernel_eq_skeleton]; unfold cc8__stats2_kernel_skel
    simp only [k8_part1_eq_skeleton]; unfold k8_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.KernelIdeal.Hand

end
-- ==== Proof.KI.Reg8RunC.lean ====
import proofs.«159011_j9938554322955_1_alg».proof.Proof.KI.Reg8RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the LAST point (the index is 15): the block's column sums are added into the accumulators, found at xs0, xs1, and then
    mean = S * 2^(-16) and var = Q * 2^(-16) - mean * mean are stored into the two outputs, found at anything.
    The statement: on whole memrefs, the eleven inputs at contents x0 ... x10, the body runs to any continuation that accepts the
    inputs as they were and each buffer it stored into with its stores applied, last first (the lists are what the run finds). -/
noncomputable def kernelRun8_C (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (L11 : List (View.Piece (Elt F) S1x64 .f32)) (L12 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc8__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc8__stats2_kernel_eq_skeleton]; unfold cc8__stats2_kernel_skel
    simp only [k8_part1_eq_skeleton]; unfold k8_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [HS0]; · iexists _; iexact HS0
    iexists _; iexact HS1

end Cert.KernelIdeal.Hand

end
-- ==== Proof.KI.Reg8.lean ====
import proofs.«159011_j9938554322955_1_alg».proof.Proof.KI.Reg8RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second statistics kernel of a layer, at the contents V its region is entered with -/

/-- Window w's block at point t, read off its array as the region finds it. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## Every input's staging buffer holds its block at every point, fetched there or not -/

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)
theorem before8_9_of {c : Dev nD} (dat : Dat τ (Elt F) Unit ℕ (UR sig nD τ) ℕ cfg8 c) (hA : dat.A 9 = V c (Pipeline.arrRef spec8 9))
    (hafter : ∀ t, dat.after 9 t = iblk8 V c 9 t) (t : Fin cfg8.N) (d) : dat.before 9 t d = iblk8 V c 9 t :=
  (dat.before_in_eq_fetched 9 rfl (fun _ => rfl) (fun _ _ _ => rfl) (fun t => by rw [hafter]; unfold Dat.blockOf iblk8; rw [hA]; try rfl) t d).trans
    (by unfold Dat.fetched Dat.blockOf iblk8; rw [hA]; try rfl)
theorem before8_10_of {c : Dev nD} (dat : Dat τ (Elt F) Unit ℕ (UR sig nD τ) ℕ cfg8 c) (hA : dat.A 10 = V c (Pipeline.arrRef spec8 10))
    (hafter : ∀ t, dat.after 10 t = iblk8 V c 10 t) (t : Fin cfg8.N) (d) : dat.before 10 t d = iblk8 V c 10 t :=
  (dat.before_in_eq_fetched 10 rfl (fun _ => rfl) (fun _ _ _ => rfl) (fun t => by rw [hafter]; unfold Dat.blockOf iblk8; rw [hA]; try rfl) t d).trans
    (by unfold Dat.fetched Dat.blockOf iblk8; rw [hA]; try rfl)

/-! ## What each kind of point leaves in the accumulators and in the outputs -/

/-- Case A: the stores into accumulator 0 cover it. -/
theorem scover8_A_0 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun8_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1, y ∈ pc.1.set :=
  View.cover_of_tiledL (kernelRun8_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1 S1x64.size (by sl_kernel_rfl) y

/-- Case A: what the point leaves in accumulator 0: its stores read back. -/
noncomputable def sout8_A_0 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS8_0.read (Elt F) (VS8_0.writes (Elt F) VS8_0.junk (kernelRun8_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1)

/-- Case A: the stores into accumulator 1 cover it. -/
theorem scover8_A_1 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun8_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1, y ∈ pc.1.set :=
  View.cover_of_tiledL (kernelRun8_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1 S1x64.size (by sl_kernel_rfl) y

/-- Case A: what the point leaves in accumulator 1: its stores read back. -/
noncomputable def sout8_A_1 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS8_1.read (Elt F) (VS8_1.writes (Elt F) VS8_1.junk (kernelRun8_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1)

/-- Case B: the stores into accumulator 0 cover it. -/
theorem scover8_B_0 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun8_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun8_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- Case B: what the point leaves in accumulator 0: its stores read back. -/
noncomputable def sout8_B_0 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS8_0.read (Elt F) (VS8_0.writes (Elt F) VS8_0.junk (kernelRun8_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- Case B: the stores into accumulator 1 cover it. -/
theorem scover8_B_1 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun8_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun8_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- Case B: what the point leaves in accumulator 1: its stores read back. -/
noncomputable def sout8_B_1 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS8_1.read (Elt F) (VS8_1.writes (Elt F) VS8_1.junk (kernelRun8_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- At the last point the stores into output 11 cover its block. -/
theorem cover8_C_11 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- What the last point leaves in output 11's staging buffer: its stores read back. -/
noncomputable def out8_C_11 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO8_11.read (Elt F) (VO8_11.writes (Elt F) VO8_11.junk (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- At the last point the stores into output 12 cover its block. -/
theorem cover8_C_12 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- What the last point leaves in output 12's staging buffer: its stores read back. -/
noncomputable def out8_C_12 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO8_12.read (Elt F) (VO8_12.writes (Elt F) VO8_12.junk (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- Case C: the stores into accumulator 0 cover it. -/
theorem scover8_C_0 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1 S1x64.size (by sl_kernel_rfl) y

/-- Case C: what the point leaves in accumulator 0: its stores read back. -/
noncomputable def sout8_C_0 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS8_0.read (Elt F) (VS8_0.writes (Elt F) VS8_0.junk (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1)

/-- Case C: the stores into accumulator 1 cover it. -/
theorem scover8_C_1 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1 S1x64.size (by sl_kernel_rfl) y

/-- Case C: what the point leaves in accumulator 1: its stores read back. -/
noncomputable def sout8_C_1 (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS8_1.read (Elt F) (VS8_1.writes (Elt F) VS8_1.junk (kernelRun8_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1)

/-! ## The running sums -/

/-- THE ACCUMULATION. What the two accumulators hold after the body at position n: at the first point the cleared
    accumulators plus the block's column sums; afterwards what position n - 1 left plus the block's column sums. -/
noncomputable def outsAt8 (c : Dev nD) : (n : ℕ) → n < cfg8.N → Vec F S1x64 .f32 × Vec F S1x64 .f32
  | 0, hn => (sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) (ms8_9 ⟨0, hn⟩) (hs8_9 ⟨0, hn⟩) (ms8_10 ⟨0, hn⟩) (hs8_10 ⟨0, hn⟩) (ms8_11 ⟨0, hn⟩) (hs8_11 ⟨0, hn⟩) (ms8_12 ⟨0, hn⟩) (hs8_12 ⟨0, hn⟩) scM8_0 (Memref.isWhole_whole _) scM8_1 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩) (iblk8 V c 7 ⟨0, hn⟩) (iblk8 V c 8 ⟨0, hn⟩) (iblk8 V c 9 ⟨0, hn⟩) (iblk8 V c 10 ⟨0, hn⟩), sout8_A_1 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) (ms8_9 ⟨0, hn⟩) (hs8_9 ⟨0, hn⟩) (ms8_10 ⟨0, hn⟩) (hs8_10 ⟨0, hn⟩) (ms8_11 ⟨0, hn⟩) (hs8_11 ⟨0, hn⟩) (ms8_12 ⟨0, hn⟩) (hs8_12 ⟨0, hn⟩) scM8_0 (Memref.isWhole_whole _) scM8_1 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩) (iblk8 V c 6 ⟨0, hn⟩) (iblk8 V c 7 ⟨0, hn⟩) (iblk8 V c 8 ⟨0, hn⟩) (iblk8 V c 9 ⟨0, hn⟩) (iblk8 V c 10 ⟨0, hn⟩))
  | n + 1, hn =>
    if h1 : (n + 1) % 16 = 15 then
      (sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) (ms8_10 ⟨n + 1, hn⟩) (hs8_10 ⟨n + 1, hn⟩) (ms8_11 ⟨n + 1, hn⟩) (hs8_11 ⟨n + 1, hn⟩) (ms8_12 ⟨n + 1, hn⟩) (hs8_12 ⟨n + 1, hn⟩) scM8_0 (Memref.isWhole_whole _) scM8_1 (Memref.isWhole_whole _) (fun h => (fun h => by have hN : n + 1 < 16 := lt_of_lt_of_eq hn (show cfg8.N = 16 from N_8); (try dsimp only at h); omega) ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (iblk8 V c 9 ⟨n + 1, hn⟩) (iblk8 V c 10 ⟨n + 1, hn⟩) (outsAt8 c n (Nat.lt_of_succ_lt hn)).1 (outsAt8 c n (Nat.lt_of_succ_lt hn)).2, sout8_C_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) (ms8_10 ⟨n + 1, hn⟩) (hs8_10 ⟨n + 1, hn⟩) (ms8_11 ⟨n + 1, hn⟩) (hs8_11 ⟨n + 1, hn⟩) (ms8_12 ⟨n + 1, hn⟩) (hs8_12 ⟨n + 1, hn⟩) scM8_0 (Memref.isWhole_whole _) scM8_1 (Memref.isWhole_whole _) (fun h => (fun h => by have hN : n + 1 < 16 := lt_of_lt_of_eq hn (show cfg8.N = 16 from N_8); (try dsimp only at h); omega) ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (iblk8 V c 9 ⟨n + 1, hn⟩) (iblk8 V c 10 ⟨n + 1, hn⟩) (outsAt8 c n (Nat.lt_of_succ_lt hn)).1 (outsAt8 c n (Nat.lt_of_succ_lt hn)).2)
    else
      (sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) (ms8_10 ⟨n + 1, hn⟩) (hs8_10 ⟨n + 1, hn⟩) (ms8_11 ⟨n + 1, hn⟩) (hs8_11 ⟨n + 1, hn⟩) (ms8_12 ⟨n + 1, hn⟩) (hs8_12 ⟨n + 1, hn⟩) scM8_0 (Memref.isWhole_whole _) scM8_1 (Memref.isWhole_whole _) (fun h => (fun h => by have hN : n + 1 < 16 := lt_of_lt_of_eq hn (show cfg8.N = 16 from N_8); (try dsimp only at h); omega) ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (iblk8 V c 9 ⟨n + 1, hn⟩) (iblk8 V c 10 ⟨n + 1, hn⟩) (outsAt8 c n (Nat.lt_of_succ_lt hn)).1 (outsAt8 c n (Nat.lt_of_succ_lt hn)).2, sout8_B_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) (ms8_9 ⟨n + 1, hn⟩) (hs8_9 ⟨n + 1, hn⟩) (ms8_10 ⟨n + 1, hn⟩) (hs8_10 ⟨n + 1, hn⟩) (ms8_11 ⟨n + 1, hn⟩) (hs8_11 ⟨n + 1, hn⟩) (ms8_12 ⟨n + 1, hn⟩) (hs8_12 ⟨n + 1, hn⟩) scM8_0 (Memref.isWhole_whole _) scM8_1 (Memref.isWhole_whole _) (fun h => (fun h => by have hN : n + 1 < 16 := lt_of_lt_of_eq hn (show cfg8.N = 16 from N_8); (try dsimp only at h); omega) ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (iblk8 V c 6 ⟨n + 1, hn⟩) (iblk8 V c 7 ⟨n + 1, hn⟩) (iblk8 V c 8 ⟨n + 1, hn⟩) (iblk8 V c 9 ⟨n + 1, hn⟩) (iblk8 V c 10 ⟨n + 1, hn⟩) (outsAt8 c n (Nat.lt_of_succ_lt hn)).1 (outsAt8 c n (Nat.lt_of_succ_lt hn)).2)

/-- The running sums at the first point. -/
theorem outsAt8_A (c : Dev nD) (t : Fin cfg8.N) (h0 : t.val % 16 = 0) (h1 : ¬t.val % 16 = 15) :
    outsAt8 V c t.val t.isLt = (sout8_A_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t), sout8_A_1 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t)) := by
  obtain ⟨n, hn⟩ := t
  cases n with
  | zero => exact rfl
  | succ n => exact (by exfalso; have hN : n + 1 < 16 := lt_of_lt_of_eq hn (show cfg8.N = 16 from N_8); (try dsimp only at h0); omega)

/-- The running sums at a middle point: over what the point before left. -/
theorem outsAt8_B (c : Dev nD) (t : Fin cfg8.N) (h0 : ¬t.val % 16 = 0) (h1 : ¬t.val % 16 = 15) :
    outsAt8 V c t.val t.isLt = (sout8_B_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2, sout8_B_1 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- The running sums at the last point: over what the point before left. -/
theorem outsAt8_C (c : Dev nD) (t : Fin cfg8.N) (h0 : ¬t.val % 16 = 0) (h1 : t.val % 16 = 15) :
    outsAt8 V c t.val t.isLt = (sout8_C_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2, sout8_C_1 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- What the two outputs' staging buffers hold after the body at the last point: mean and variance from the running sums.
    (At every other point the windows are idle and this is not consulted.) -/
noncomputable def outs8 (c : Dev nD) (t : Fin cfg8.N) : Vec F S1x64 .f32 × Vec F S1x64 .f32 :=
  if h1 : t.val % 16 = 15 then
    (out8_C_11 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => (fun h => by omega) ((hcond8_0 t).mp h)) ((hcond8_1 t).mpr h1) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2, out8_C_12 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => (fun h => by omega) ((hcond8_0 t).mp h)) ((hcond8_1 t).mpr h1) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2)
  else (k8_pay6 (F := F), k8_pay7 (F := F))

theorem outs8_C (c : Dev nD) (t : Fin cfg8.N) (h0 : ¬t.val % 16 = 0) (h1 : t.val % 16 = 15) :
    outs8 V c t = (out8_C_11 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2, out8_C_12 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (outsAt8 V c (t.val - 1) (Nat.lt_of_le_of_lt (Nat.sub_le _ _) t.isLt)).1 (outsAt8 V c (t.val - 1) (Nat.lt_of_le_of_lt (Nat.sub_le _ _) t.isLt)).2) :=
  (dif_pos h1).trans rfl

/-! ## The invariant between points -/

/-- The region invariant before position n: the generator register at some state, the two accumulators — at anything before
    the first point, afterwards at the running sums the point before left —, and every other scoped buffer unopened. -/
noncomputable def PhiS8 (c : Dev nD) : (n : ℕ) → n ≤ cfg8.N → sProp 𝕄
  | 0, _ => iprop((∃ r, prngReg c r) ∗ iprop((∃ d, owns (c : Thread nD τ) scM8_0 fullShare d) ∗ (∃ d, owns (c : Thread nD τ) scM8_1 fullShare d)) ∗ Pipeline.scopedRestBut (Ix := Unit) (Name := ℕ) (U := UR sig nD τ) (Lvl := ℕ) (Val := Elt F) spec8 c [cc8_scratch0, cc8_scratch1])
  | n + 1, hn => iprop((∃ r, prngReg c r) ∗ iprop(owns (c : Thread nD τ) scM8_0 fullShare ((outsAt8 V c n hn).1) ∗ owns (c : Thread nD τ) scM8_1 fullShare ((outsAt8 V c n hn).2)) ∗ Pipeline.scopedRestBut (Ix := Unit) (Name := ℕ) (U := UR sig nD τ) (Lvl := ℕ) (Val := Elt F) spec8 c [cc8_scratch0, cc8_scratch1])

theorem PhiS8_zero (c : Dev nD) (n : ℕ) (h : n ≤ cfg8.N) (hz : n = 0) :
    PhiS8 V c n h = iprop((∃ r, prngReg c r) ∗ iprop((∃ d, owns (c : Thread nD τ) scM8_0 fullShare d) ∗ (∃ d, owns (c : Thread nD τ) scM8_1 fullShare d)) ∗ Pipeline.scopedRestBut (Ix := Unit) (Name := ℕ) (U := UR sig nD τ) (Lvl := ℕ) (Val := Elt F) spec8 c [cc8_scratch0, cc8_scratch1]) := by
  subst hz; rfl

theorem PhiS8_succ (c : Dev nD) (n : ℕ) (hn : n < cfg8.N) :
    PhiS8 V c (n + 1) hn = iprop((∃ r, prngReg c r) ∗ iprop(owns (c : Thread nD τ) scM8_0 fullShare ((outsAt8 V c n hn).1) ∗ owns (c : Thread nD τ) scM8_1 fullShare ((outsAt8 V c n hn).2)) ∗ Pipeline.scopedRestBut (Ix := Unit) (Name := ℕ) (U := UR sig nD τ) (Lvl := ℕ) (Val := Elt F) spec8 c [cc8_scratch0, cc8_scratch1]) := rfl

theorem PhiS8_pos (c : Dev nD) (n : ℕ) (h : n ≤ cfg8.N) (hz : n ≠ 0) :
    PhiS8 V c n h = iprop((∃ r, prngReg c r) ∗ iprop(owns (c : Thread nD τ) scM8_0 fullShare ((outsAt8 V c (n - 1) (by omega)).1) ∗ owns (c : Thread nD τ) scM8_1 fullShare ((outsAt8 V c (n - 1) (by omega)).2)) ∗ Pipeline.scopedRestBut (Ix := Unit) (Name := ℕ) (U := UR sig nD τ) (Lvl := ℕ) (Val := Elt F) spec8 c [cc8_scratch0, cc8_scratch1]) := by
  cases n with
  | zero => exact absurd rfl hz
  | succ n => rfl

/-! ## The proof data -/

/-- The proof data of the call on core c: the arrays as the region finds them; after the body each input's buffer at its
    block, the outputs' at mean and variance of the running sums; the invariant above; nothing owed; full shares. -/
noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => (outs8 V c t).1
    | ⟨12, _⟩ => (outs8 V c t).2
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = iblk8 V c 9 t := by dsimp only [dat8]
theorem after8_10 (c : Dev nD) (t : Fin cfg8.N) : (dat8 V c).after 10 t = iblk8 V c 10 t := by dsimp only [dat8]
theorem after8_11 (c : Dev nD) (t : Fin cfg8.N) : (dat8 V c).after 11 t = (outs8 V c t).1 := by dsimp only [dat8]
theorem after8_12 (c : Dev nD) (t : Fin cfg8.N) : (dat8 V c).after 12 t = (outs8 V c t).2 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d
theorem before8_9 (c : Dev nD) (t : Fin cfg8.N) (d) : (dat8 V c).before 9 t d = iblk8 V c 9 t :=
  before8_9_of V (dat8 V c) (A_eq8 V c 9) (after8_9 V c) t d
theorem before8_10 (c : Dev nD) (t : Fin cfg8.N) (d) : (dat8 V c).before 10 t d = iblk8 V c 10 t :=
  before8_10_of V (dat8 V c) (A_eq8 V c 10) (after8_10 V c) t d

/-! ## The body obligation, at a generic point -/

/-- What the body is called with at point t, -/
noncomputable def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d))
    ∗ (∃ d, owns (c : Thread nD τ) (ms8_8 t) fullShare ((dat8 V c).before 8 t d))
    ∗ (∃ d, owns (c : Thread nD τ) (ms8_9 t) fullShare ((dat8 V c).before 9 t d))
    ∗ (∃ d, owns (c : Thread nD τ) (ms8_10 t) fullShare ((dat8 V c).before 10 t d))
    ∗ (∃ d, owns (c : Thread nD τ) (ms8_11 t) fullShare ((dat8 V c).before 11 t d))
    ∗ (∃ d, owns (c : Thread nD τ) (ms8_12 t) fullShare ((dat8 V c).before 12 t d)))

/-- and what it returns. -/
noncomputable def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t
    ∗ (dat8 V c).leavesExact 8 t
    ∗ (dat8 V c).leavesExact 9 t
    ∗ (dat8 V c).leavesExact 10 t
    ∗ (dat8 V c).leavesExact 11 t
    ∗ (dat8 V c).leavesExact 12 t)

set_option maxHeartbeats 8000000 in
/-- The body at any point. The inputs' memrefs hold their blocks. At the first point the invariant hands the body the
    accumulators at anything and takes them back cleared-and-added; at a later point it hands them at the running sums the
    point before left and takes them back with this block's sums added. Away from the last point the outputs' buffers are
    handed back as found (the windows are idle there); at the last point they are left at mean and variance. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8, before8_9, before8_10]
  rw [show (dat8 V c).owesAt () t.succ = (dat8 V c).owesAt () t.castSucc from rfl]
  rw [show (dat8 V c).Φ t.succ = PhiS8 V c (t.val + 1) t.isLt from rfl, PhiS8_succ]
  have hN : t.val < 16 := lt_of_lt_of_eq t.isLt (show cfg8.N = 16 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  rw [show (dat8 V c).leavesExact 4 t = owns (c : Thread nD τ) (ms8_4 t) fullShare ((dat8 V c).after 4 t) from by
    unfold Dat.leavesExact; rw [liveAt8_4 t], after8_4]
  rw [show (dat8 V c).leavesExact 5 t = owns (c : Thread nD τ) (ms8_5 t) fullShare ((dat8 V c).after 5 t) from by
    unfold Dat.leavesExact; rw [liveAt8_5 t], after8_5]
  rw [show (dat8 V c).leavesExact 6 t = owns (c : Thread nD τ) (ms8_6 t) fullShare ((dat8 V c).after 6 t) from by
    unfold Dat.leavesExact; rw [liveAt8_6 t], after8_6]
  rw [show (dat8 V c).leavesExact 7 t = owns (c : Thread nD τ) (ms8_7 t) fullShare ((dat8 V c).after 7 t) from by
    unfold Dat.leavesExact; rw [liveAt8_7 t], after8_7]
  rw [show (dat8 V c).leavesExact 8 t = owns (c : Thread nD τ) (ms8_8 t) fullShare ((dat8 V c).after 8 t) from by
    unfold Dat.leavesExact; rw [liveAt8_8 t], after8_8]
  rw [show (dat8 V c).leavesExact 9 t = owns (c : Thread nD τ) (ms8_9 t) fullShare ((dat8 V c).after 9 t) from by
    unfold Dat.leavesExact; rw [liveAt8_9 t], after8_9]
  rw [show (dat8 V c).leavesExact 10 t = owns (c : Thread nD τ) (ms8_10 t) fullShare ((dat8 V c).after 10 t) from by
    unfold Dat.leavesExact; rw [liveAt8_10 t], after8_10]
  by_cases h1 : t.val % 16 = 15
  · have h0 : ¬t.val % 16 = 0 := by omega
    have hz : t.val ≠ 0 := by omega
    rw [show (dat8 V c).leavesExact 11 t = owns (c : Thread nD τ) (ms8_11 t) fullShare ((dat8 V c).after 11 t) from by
      unfold Dat.leavesExact; rw [liveAt8_11 t ((hcond8_1 t).mpr h1)], after8_11]
    rw [show (dat8 V c).leavesExact 12 t = owns (c : Thread nD τ) (ms8_12 t) fullShare ((dat8 V c).after 12 t) from by
      unfold Dat.leavesExact; rw [liveAt8_12 t ((hcond8_1 t).mpr h1)], after8_12]
    rw [outsAt8_C V c t h0 h1, outs8_C V c t h0 h1]
    unfold out8_C_11 out8_C_12 sout8_C_0 sout8_C_1; (try dsimp only)
    rw [PhiS8_castSucc V c t, PhiS8_pos V c _ _ hz]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun8_C c (grid8.coords t) _ _ _ _ _ _ _ _ _ _ _ _ _ _ _ _ _ _ _ _ _ _ _ _ _ _ _ _ _ _ (fun h => h0 ((hcond8_0 t).mp h)) ((hcond8_1 t).mpr h1) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    iintro ⟨H0, H1, H2, H3, H4, H5, H6, H7, H8, H9, H10, ⟨%e11, H11⟩, ⟨%e12, H12⟩, ⟨%es0, HS0⟩, ⟨%es1, HS1⟩⟩
    isplitl [Hg HS0 HS1 HR]
    · isplitl [Hg]; · iexact Hg
      isplitl [HS0 HS1]
      · isplitl [HS0]
        · unfold owns; iexists _; isplitr
          swap; · iexact HS0
          ipureintro; exact View.read_writes_of_cover _ _ _ _ _ (scover8_C_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover8_C_1 c _ _ _ _ _ _ _ _ _ _ _ _ _ _ _ _ _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover8_C_11 c _ _ _ _ _ _ _ _ _ _ _ _ _ _ _ _ _ _ _ _ _ _ _ _ _ _ _ _ _ _ _ _ _ _ _ _ _ _ _ _ _ _ _ _ _ _)
    · unfold owns; iexists _; isplitr
      swap; · iexact H12
      ipureintro; exact View.read_writes_of_cover _ _ _ _ _ (cover8_C_12 c _ _ _ _ _ _ _ _ _ _ _ _ _ _ _ _ _ _ _ _ _ _ _ _ _ _ _ _ _ _ _ _ _ _ _ _ _ _ _ _ _ _ _ _ _ _)
  · rw [Dat.leavesExact_idle (dat8 V c) 11 t (idleAt8_11 t (fun h => h1 ((hcond8_1 t).mp h))) (noFlush8_11 t (fun h => h1 ((hcond8_1 t).mp h)))]
    rw [Dat.leavesExact_idle (dat8 V c) 12 t (idleAt8_12 t (fun h => h1 ((hcond8_1 t).mp h))) (noFlush8_12 t (fun h => h1 ((hcond8_1 t).mp h)))]
    by_cases h0 : t.val % 16 = 0
    · have hz : t.val = 0 := by omega
      rw [outsAt8_A V c t h0 h1]
      unfold sout8_A_0 sout8_A_1; (try dsimp only)
      rw [PhiS8_castSucc V c t, PhiS8_zero V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun8_A c (grid8.coords t) _ _ _ _ _ _ _ _ _ _ _ _ _ _ _ _ _ _ _ _ _ _ _ _ _ _ _ _ _ _ ((hcond8_0 t).mpr h0) (fun h => h1 ((hcond8_1 t).mp h)) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover8_A_0 c _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover8_A_1 c _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
    · have hz : t.val ≠ 0 := by omega
      rw [outsAt8_B V c t h0 h1]
      unfold sout8_B_0 sout8_B_1; (try dsimp only)
      rw [PhiS8_castSucc V c t, PhiS8_pos V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun8_B c (grid8.coords t) _ _ _ _ _ _ _ _ _ _ _ _ _ _ _ _ _ _ _ _ _ _ _ _ _ _ _ _ _ _ (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover8_B_0 c _ _ _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover8_B_1 c _ _ _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the region is entered with is the invariant before the first point: the scoped rest split at the two accumulators. -/
theorem phi_in8 (c : Dev nD) :
    (iprop((∃ r, prngReg c r) ∗ Pipeline.scopedRest (Ix := Unit) (Name := ℕ) (U := UR sig nD τ) (Lvl := ℕ) (Val := Elt F) spec8 c) : sProp 𝕄)
      ⊢ (dat8 V c).Φ 0 := by
  rw [show (dat8 V c).Φ 0 = PhiS8 V c 0 (Nat.zero_le _) from rfl, PhiS8_zero V c 0 _ rfl, scoped8_eq]

/-- After the last point the invariant gives the scoped rest back: the accumulators' named contents are forgotten. -/
theorem phi_out8 (c : Dev nD) :
    (dat8 V c).Φ (Fin.last cfg8.N)
      ⊢ (iprop((∃ r, prngReg c r) ∗ Pipeline.scopedRest (Ix := Unit) (Name := ℕ) (U := UR sig nD τ) (Lvl := ℕ) (Val := Elt F) spec8 c) : sProp 𝕄) := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 16 := N_8; omega), scoped8_eq]
  iintro ⟨Hg, ⟨HS0, HS1⟩, HR⟩
  isplitl [Hg]; · iexact Hg
  isplitl [HS0 HS1]
  · isplitl [HS0]; · iexists _; iexact HS0
    iexists _; iexact HS1
  iexact HR

/-! ## The found stores read back: one point's additions, and mean and variance -/

theorem hz8 : (![0, 0] : Fin 2 → Nat) = fun _ => 0 := funext fun a => by fin_cases a <;> rfl

/-- One point's addition to the first accumulator s: s plus the column sums of the block of z2 that the eleven input blocks give. -/
noncomputable def add8_0 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k8_pay2 (k8_pay8 x2 x0 x1 x3 x4 x5 x6) (k8_pay9 x7) x8 x9 x10 s
/-- One point's addition to the second accumulator: s plus the column sums of z2 * z2 of the same block. -/
noncomputable def add8_1 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k8_pay3 (k8_pay8 x2 x0 x1 x3 x4 x5 x6) (k8_pay9 x7) x8 x9 x10 s

theorem sout8_B_0_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout8_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add8_0 x0 x1 x2 x3 x4 x5 x6 x7 x8 x9 x10 xs0 := by
  unfold sout8_B_0 add8_0
  rw [View.read_writes_eq_canon _ _ _ (scover8_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun8_B
  dsimp only
  sl_unfold_words
  rw [View.canon_unit_zero hz8]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

theorem sout8_B_1_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout8_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add8_1 x0 x1 x2 x3 x4 x5 x6 x7 x8 x9 x10 xs1 := by
  unfold sout8_B_1 add8_1
  rw [View.read_writes_eq_canon _ _ _ (scover8_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun8_B
  dsimp only
  sl_unfold_words
  rw [View.canon_unit_zero hz8]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

theorem sout8_A_0_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout8_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add8_0 x0 x1 x2 x3 x4 x5 x6 x7 x8 x9 x10 (k8_pay6 (F := F)) := by
  unfold sout8_A_0 add8_0
  rw [View.read_writes_eq_canon _ _ _ (scover8_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun8_A
  dsimp only
  sl_unfold_words
  rw [View.canon_cons_unit_zero (S := S1x64) hz8, View.readCov_unit_zero (S := S1x64) _ hz8]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

theorem sout8_A_1_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond8_0 i) (hc1 : ¬cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout8_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add8_1 x0 x1 x2 x3 x4 x5 x6 x7 x8 x9 x10 (k8_pay7 (F := F)) := by
  unfold sout8_A_1 add8_1
  rw [View.read_writes_eq_canon _ _ _ (scover8_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun8_A
  dsimp only
  sl_unfold_words
  rw [View.canon_cons_unit_zero (S := S1x64) hz8, View.readCov_unit_zero (S := S1x64) _ hz8]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

theorem sout8_C_0_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout8_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add8_0 x0 x1 x2 x3 x4 x5 x6 x7 x8 x9 x10 xs0 := by
  unfold sout8_C_0 add8_0
  rw [View.read_writes_eq_canon _ _ _ (scover8_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun8_C
  dsimp only
  sl_unfold_words
  rw [View.canon_unit_zero hz8]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

theorem sout8_C_1_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout8_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add8_1 x0 x1 x2 x3 x4 x5 x6 x7 x8 x9 x10 xs1 := by
  unfold sout8_C_1 add8_1
  rw [View.read_writes_eq_canon _ _ _ (scover8_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun8_C
  dsimp only
  sl_unfold_words
  rw [View.canon_unit_zero hz8]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

theorem out8_C_11_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out8_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k8_pay4 (add8_0 x0 x1 x2 x3 x4 x5 x6 x7 x8 x9 x10 xs0) := by
  unfold out8_C_11 add8_0
  rw [View.read_writes_eq_canon _ _ _ (cover8_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun8_C
  dsimp only
  sl_unfold_words
  rw [View.canon_unit_zero hz8]
  simp only [View.readCov_unit_zero (S := S1x64) _ hz8, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

theorem out8_C_12_eq (c : Dev nD) (i : grid8.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond8_0 i) (hc1 : cond8_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out8_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k8_pay5 (add8_0 x0 x1 x2 x3 x4 x5 x6 x7 x8 x9 x10 xs0) (add8_1 x0 x1 x2 x3 x4 x5 x6 x7 x8 x9 x10 xs1) := by
  unfold out8_C_12 add8_0 add8_1
  rw [View.read_writes_eq_canon _ _ _ (cover8_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun8_C
  dsimp only
  sl_unfold_words
  rw [View.canon_unit_zero hz8]
  simp only [View.readCov_unit_zero (S := S1x64) _ hz8, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz8, View.ld_unit_zero (S := S1x64) hz8, View.ld_unit_zero (S := S64x128) hz8, View.ld_unit_zero (S := S1x128) hz8, View.ld_unit_zero (S := S128x64) hz8]

/-! ## The running sums in closed form -/

/-- The ORDERED running sums after position n: the cleared accumulators plus the first block's sums, then one block's sums
    more per point. -/
noncomputable def sums8 (c : Dev nD) : (n : ℕ) → n < cfg8.N → Vec F S1x64 .f32 × Vec F S1x64 .f32
  | 0, h => (add8_0 (iblk8 V c 0 ⟨0, h⟩) (iblk8 V c 1 ⟨0, h⟩) (iblk8 V c 2 ⟨0, h⟩) (iblk8 V c 3 ⟨0, h⟩) (iblk8 V c 4 ⟨0, h⟩) (iblk8 V c 5 ⟨0, h⟩) (iblk8 V c 6 ⟨0, h⟩) (iblk8 V c 7 ⟨0, h⟩) (iblk8 V c 8 ⟨0, h⟩) (iblk8 V c 9 ⟨0, h⟩) (iblk8 V c 10 ⟨0, h⟩) (k8_pay6 (F := F)), add8_1 (iblk8 V c 0 ⟨0, h⟩) (iblk8 V c 1 ⟨0, h⟩) (iblk8 V c 2 ⟨0, h⟩) (iblk8 V c 3 ⟨0, h⟩) (iblk8 V c 4 ⟨0, h⟩) (iblk8 V c 5 ⟨0, h⟩) (iblk8 V c 6 ⟨0, h⟩) (iblk8 V c 7 ⟨0, h⟩) (iblk8 V c 8 ⟨0, h⟩) (iblk8 V c 9 ⟨0, h⟩) (iblk8 V c 10 ⟨0, h⟩) (k8_pay7 (F := F)))
  | n + 1, h => (add8_0 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (sums8 c n (Nat.lt_of_succ_lt h)).1, add8_1 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (sums8 c n (Nat.lt_of_succ_lt h)).2)

/-- What the accumulators hold after position n IS the running sums: by induction on the point. -/
theorem outsAt8_eq (c : Dev nD) : ∀ (n : ℕ) (h : n < cfg8.N), outsAt8 V c n h = sums8 V c n h
  | 0, h => by
    rw [outsAt8_A V c ⟨0, h⟩ rfl (by show ¬(0 : ℕ) % 16 = 15; omega), sout8_A_0_eq, sout8_A_1_eq]
    rfl
  | n + 1, h => by
    have hN : cfg8.N = 16 := N_8
    have hB : ¬(⟨n + 1, h⟩ : Fin cfg8.N).val % 16 = 0 := by dsimp only; omega
    have ih := outsAt8_eq c n (Nat.lt_of_succ_lt h)
    by_cases h1 : (⟨n + 1, h⟩ : Fin cfg8.N).val % 16 = 15
    · rw [outsAt8_C V c ⟨n + 1, h⟩ hB h1, sout8_C_0_eq, sout8_C_1_eq]
      show (add8_0 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (outsAt8 V c n _).1, add8_1 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (outsAt8 V c n _).2) = (add8_0 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (sums8 V c n _).1, add8_1 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (sums8 V c n _).2)
      rw [ih]
    · rw [outsAt8_B V c ⟨n + 1, h⟩ hB h1, sout8_B_0_eq, sout8_B_1_eq]
      show (add8_0 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (outsAt8 V c n _).1, add8_1 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (outsAt8 V c n _).2) = (add8_0 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (sums8 V c n _).1, add8_1 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (sums8 V c n _).2)
      rw [ih]

/-! ## What the region leaves in its two output arrays -/

/-- The running sums after the last point. -/
noncomputable abbrev total8 (c : Dev nD) : Vec F S1x64 .f32 × Vec F S1x64 .f32 := sums8 V c 15 (by rw [show cfg8.N = 16 from N_8]; decide)

/-- The mean array the region leaves: S * 2^(-16) of the first running sum. -/
noncomputable def G8_11 (c : Dev nD) : Buf (Elt F) ((c : Thread nD τ).loc main_v182_0) := k8_pay4 (total8 V c).1
/-- The variance array the region leaves: Q * 2^(-16) - mean * mean. -/
noncomputable def G8_12 (c : Dev nD) : Buf (Elt F) ((c : Thread nD τ).loc main_v182_1) := k8_pay5 (total8 V c).1 (total8 V c).2

/-- What the last point leaves in the two outputs' staging buffers. -/
theorem outs8_last (c : Dev nD) : outs8 V c t8_15 = (k8_pay4 (total8 V c).1, k8_pay5 (total8 V c).1 (total8 V c).2) := by
  rw [outs8_C V c t8_15 (by decide) (by decide), out8_C_11_eq, out8_C_12_eq]
  have ih := outsAt8_eq V c 14 (by rw [show cfg8.N = 16 from N_8]; decide)
  show (k8_pay4 (add8_0 (iblk8 V c 0 t8_15) (iblk8 V c 1 t8_15) (iblk8 V c 2 t8_15) (iblk8 V c 3 t8_15) (iblk8 V c 4 t8_15) (iblk8 V c 5 t8_15) (iblk8 V c 6 t8_15) (iblk8 V c 7 t8_15) (iblk8 V c 8 t8_15) (iblk8 V c 9 t8_15) (iblk8 V c 10 t8_15) (outsAt8 V c 14 _).1), k8_pay5 (add8_0 (iblk8 V c 0 t8_15) (iblk8 V c 1 t8_15) (iblk8 V c 2 t8_15) (iblk8 V c 3 t8_15) (iblk8 V c 4 t8_15) (iblk8 V c 5 t8_15) (iblk8 V c 6 t8_15) (iblk8 V c 7 t8_15) (iblk8 V c 8 t8_15) (iblk8 V c 9 t8_15) (iblk8 V c 10 t8_15) (outsAt8 V c 14 _).1) (add8_1 (iblk8 V c 0 t8_15) (iblk8 V c 1 t8_15) (iblk8 V c 2 t8_15) (iblk8 V c 3 t8_15) (iblk8 V c 4 t8_15) (iblk8 V c 5 t8_15) (iblk8 V c 6 t8_15) (iblk8 V c 7 t8_15) (iblk8 V c 8 t8_15) (iblk8 V c 9 t8_15) (iblk8 V c 10 t8_15) (outsAt8 V c 14 _).2)) = _
  rw [ih]
  rfl

/-- The one write-back of window 11, at the last point, writes it: the block is the whole array. -/
theorem flushed8_11 (c : Dev nD) (t : Fin cfg8.N) (hf : (cfg8.win 11).flush t = true) :
    (dat8 V c).flushed 11 t = ((cfg8.win 11).blk t).view.read (Elt F) (G8_11 V c) := by
  have hN : cfg8.N = 16 := N_8
  have h15 : t.val = 15 := by have := (flush8_11 t).mp hf; have := t.isLt; omega
  obtain rfl : t = t8_15 := Fin.ext h15
  show (cfg8.win 11).cut (grid8.coords t8_15) ((dat8 V c).after 11 t8_15) = _
  rw [after8_11, outs8_last]
  have hz' : (fun a => win8_11.index t8_15 a * main_v182_0.ty.shape.size a) = fun _ => 0 := funext fun a => by fin_cases a <;> decide
  exact (Memref.read_access_unit_zero (Elt F) main_v182_0 hz' (fun a => by rw [congrFun hz' a]; simp) (G8_11 V c)).symm

set_option maxHeartbeats 4000000 in
/-- So the array of window 11 ends holding it: the last point's block covers the array. -/
theorem final8_11 (c : Dev nD) : (dat8 V c).arrAt ⟨11, by decide⟩ cfg8.N = G8_11 V c :=
  (dat8 V c).arrAt_eq_of_cover 11 (G8_11 V c) (flushed8_11 V c) fun i =>
    ⟨t8_15, (flush8_11 t8_15).mpr rfl, by
      show i ∈ ((View.whole main_v182_0).slice (win8_11.rect t8_15)).set
      rw [View.set_slice_whole, Rect.mem_set_unit]
      intro a
      have h0 : (i 0 : Nat) < 1 := (i 0).isLt
      have h1 : (i 1 : Nat) < 64 := (i 1).isLt
      match a with
      | ⟨0, _⟩ => show win8_11.index t8_15 0 * win8_11.size 0 ≤ (i 0 : Nat) ∧ (i 0 : Nat) < win8_11.index t8_15 0 * win8_11.size 0 + win8_11.xsize (grid8.coords t8_15) 0
                  rw [show win8_11.index t8_15 0 * win8_11.size 0 = 0 from by decide +kernel, show win8_11.xsize (grid8.coords t8_15) 0 = 1 from by decide +kernel]; omega
      | ⟨1, _⟩ => show win8_11.index t8_15 1 * win8_11.size 1 ≤ (i 1 : Nat) ∧ (i 1 : Nat) < win8_11.index t8_15 1 * win8_11.size 1 + win8_11.xsize (grid8.coords t8_15) 1
                  rw [show win8_11.index t8_15 1 * win8_11.size 1 = 0 from by decide +kernel, show win8_11.xsize (grid8.coords t8_15) 1 = 64 from by decide +kernel]; omega⟩

/-- The one write-back of window 12, at the last point, writes it: the block is the whole array. -/
theorem flushed8_12 (c : Dev nD) (t : Fin cfg8.N) (hf : (cfg8.win 12).flush t = true) :
    (dat8 V c).flushed 12 t = ((cfg8.win 12).blk t).view.read (Elt F) (G8_12 V c) := by
  have hN : cfg8.N = 16 := N_8
  have h15 : t.val = 15 := by have := (flush8_12 t).mp hf; have := t.isLt; omega
  obtain rfl : t = t8_15 := Fin.ext h15
  show (cfg8.win 12).cut (grid8.coords t8_15) ((dat8 V c).after 12 t8_15) = _
  rw [after8_12, outs8_last]
  have hz' : (fun a => win8_12.index t8_15 a * main_v182_1.ty.shape.size a) = fun _ => 0 := funext fun a => by fin_cases a <;> decide
  exact (Memref.read_access_unit_zero (Elt F) main_v182_1 hz' (fun a => by rw [congrFun hz' a]; simp) (G8_12 V c)).symm

set_option maxHeartbeats 4000000 in
/-- So the array of window 12 ends holding it: the last point's block covers the array. -/
theorem final8_12 (c : Dev nD) : (dat8 V c).arrAt ⟨12, by decide⟩ cfg8.N = G8_12 V c :=
  (dat8 V c).arrAt_eq_of_cover 12 (G8_12 V c) (flushed8_12 V c) fun i =>
    ⟨t8_15, (flush8_12 t8_15).mpr rfl, by
      show i ∈ ((View.whole main_v182_1).slice (win8_12.rect t8_15)).set
      rw [View.set_slice_whole, Rect.mem_set_unit]
      intro a
      have h0 : (i 0 : Nat) < 1 := (i 0).isLt
      have h1 : (i 1 : Nat) < 64 := (i 1).isLt
      match a with
      | ⟨0, _⟩ => show win8_12.index t8_15 0 * win8_12.size 0 ≤ (i 0 : Nat) ∧ (i 0 : Nat) < win8_12.index t8_15 0 * win8_12.size 0 + win8_12.xsize (grid8.coords t8_15) 0
                  rw [show win8_12.index t8_15 0 * win8_12.size 0 = 0 from by decide +kernel, show win8_12.xsize (grid8.coords t8_15) 0 = 1 from by decide +kernel]; omega
      | ⟨1, _⟩ => show win8_12.index t8_15 1 * win8_12.size 1 ≤ (i 1 : Nat) ∧ (i 1 : Nat) < win8_12.index t8_15 1 * win8_12.size 1 + win8_12.xsize (grid8.coords t8_15) 1
                  rw [show win8_12.index t8_15 1 * win8_12.size 1 = 0 from by decide +kernel, show win8_12.xsize (grid8.coords t8_15) 1 = 64 from by decide +kernel]; omega⟩

end Cert.KernelIdeal.Hand

end
-- ==== Proof.KI.Reg9.lean ====
/- One of the network's four regions that finish a layer: the second half of a layer, on sixteen blocks of 4096 nodes. At each block the body
   forms (1 + e)·x + agg, maps it to 128 features, normalises by the layer's first mean and variance, clips at zero,
   maps back to 64 features, normalises by the second mean and variance, clips again and adds x. Everything the body
   reads is a block of one of fifteen arrays as the region finds them; what it writes is one block of the sixteenth.
   Stated at any entry contents V of the core's buffers and at any float model. -/
import proofs.«159011_j9938554322955_1_alg».proof.Proof.Gen.KernelIdeal.Launch
import proofs.«159011_j9938554322955_1_alg».proof.Proof.Gen.KernelIdeal.Skeleton
import proofs.«159011_j9938554322955_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

-- membership in a rectangle of 4096 rows is decided by a structural recursion one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window w's block at point t, read off its array as the region finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! An input window's buffer holds its block at every point, whether the block was brought in there or not: a block
    that is not brought in again has not moved, and the body leaves every input as it found it. One statement per
    input window, for any proof data whose array is V's and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)
theorem before9_7_of {c : Dev nD} (dat : Dat τ (Elt F) Unit ℕ (UR sig nD τ) ℕ cfg9 c) (hA : dat.A 7 = V c (Pipeline.arrRef spec9 7))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)
theorem before9_8_of {c : Dev nD} (dat : Dat τ (Elt F) Unit ℕ (UR sig nD τ) ℕ cfg9 c) (hA : dat.A 8 = V c (Pipeline.arrRef spec9 8))
    (hafter : ∀ t, dat.after 8 t = iblk9 V c 8 t) (t : Fin cfg9.N) (d) : dat.before 8 t d = iblk9 V c 8 t :=
  (dat.before_in_eq_fetched 8 rfl (fun _ => rfl) (fun _ _ _ => rfl) (fun t => by rw [hafter]; unfold Dat.blockOf iblk9; rw [hA]; try rfl) t d).trans
    (by unfold Dat.fetched Dat.blockOf iblk9; rw [hA]; try rfl)
theorem before9_9_of {c : Dev nD} (dat : Dat τ (Elt F) Unit ℕ (UR sig nD τ) ℕ cfg9 c) (hA : dat.A 9 = V c (Pipeline.arrRef spec9 9))
    (hafter : ∀ t, dat.after 9 t = iblk9 V c 9 t) (t : Fin cfg9.N) (d) : dat.before 9 t d = iblk9 V c 9 t :=
  (dat.before_in_eq_fetched 9 rfl (fun _ => rfl) (fun _ _ _ => rfl) (fun t => by rw [hafter]; unfold Dat.blockOf iblk9; rw [hA]; try rfl) t d).trans
    (by unfold Dat.fetched Dat.blockOf iblk9; rw [hA]; try rfl)
theorem before9_10_of {c : Dev nD} (dat : Dat τ (Elt F) Unit ℕ (UR sig nD τ) ℕ cfg9 c) (hA : dat.A 10 = V c (Pipeline.arrRef spec9 10))
    (hafter : ∀ t, dat.after 10 t = iblk9 V c 10 t) (t : Fin cfg9.N) (d) : dat.before 10 t d = iblk9 V c 10 t :=
  (dat.before_in_eq_fetched 10 rfl (fun _ => rfl) (fun _ _ _ => rfl) (fun t => by rw [hafter]; unfold Dat.blockOf iblk9; rw [hA]; try rfl) t d).trans
    (by unfold Dat.fetched Dat.blockOf iblk9; rw [hA]; try rfl)
theorem before9_11_of {c : Dev nD} (dat : Dat τ (Elt F) Unit ℕ (UR sig nD τ) ℕ cfg9 c) (hA : dat.A 11 = V c (Pipeline.arrRef spec9 11))
    (hafter : ∀ t, dat.after 11 t = iblk9 V c 11 t) (t : Fin cfg9.N) (d) : dat.before 11 t d = iblk9 V c 11 t :=
  (dat.before_in_eq_fetched 11 rfl (fun _ => rfl) (fun _ _ _ => rfl) (fun t => by rw [hafter]; unfold Dat.blockOf iblk9; rw [hA]; try rfl) t d).trans
    (by unfold Dat.fetched Dat.blockOf iblk9; rw [hA]; try rfl)
theorem before9_12_of {c : Dev nD} (dat : Dat τ (Elt F) Unit ℕ (UR sig nD τ) ℕ cfg9 c) (hA : dat.A 12 = V c (Pipeline.arrRef spec9 12))
    (hafter : ∀ t, dat.after 12 t = iblk9 V c 12 t) (t : Fin cfg9.N) (d) : dat.before 12 t d = iblk9 V c 12 t :=
  (dat.before_in_eq_fetched 12 rfl (fun _ => rfl) (fun _ _ _ => rfl) (fun t => by rw [hafter]; unfold Dat.blockOf iblk9; rw [hA]; try rfl) t d).trans
    (by unfold Dat.fetched Dat.blockOf iblk9; rw [hA]; try rfl)
theorem before9_13_of {c : Dev nD} (dat : Dat τ (Elt F) Unit ℕ (UR sig nD τ) ℕ cfg9 c) (hA : dat.A 13 = V c (Pipeline.arrRef spec9 13))
    (hafter : ∀ t, dat.after 13 t = iblk9 V c 13 t) (t : Fin cfg9.N) (d) : dat.before 13 t d = iblk9 V c 13 t :=
  (dat.before_in_eq_fetched 13 rfl (fun _ => rfl) (fun _ _ _ => rfl) (fun t => by rw [hafter]; unfold Dat.blockOf iblk9; rw [hA]; try rfl) t d).trans
    (by unfold Dat.fetched Dat.blockOf iblk9; rw [hA]; try rfl)
theorem before9_14_of {c : Dev nD} (dat : Dat τ (Elt F) Unit ℕ (UR sig nD τ) ℕ cfg9 c) (hA : dat.A 14 = V c (Pipeline.arrRef spec9 14))
    (hafter : ∀ t, dat.after 14 t = iblk9 V c 14 t) (t : Fin cfg9.N) (d) : dat.before 14 t d = iblk9 V c 14 t :=
  (dat.before_in_eq_fetched 14 rfl (fun _ => rfl) (fun _ _ _ => rfl) (fun t => by rw [hafter]; unfold Dat.blockOf iblk9; rw [hA]; try rfl) t d).trans
    (by unfold Dat.fetched Dat.blockOf iblk9; rw [hA]; try rfl)

/-! ## What the body reads and writes: every buffer whole -/

noncomputable abbrev rRows9 : Rect S4096x64 := Rect.unit (s := S4096x64) ![0, 0] S4096x64.size inb_S4096x64_S4096x64_0_0
noncomputable abbrev rRowS9 : Rect S1x64 := Rect.unit (s := S1x64) ![0, 0] S1x64.size inb_S1x64_S1x64_0_0
noncomputable abbrev rMatA9 : Rect S64x128 := Rect.unit (s := S64x128) ![0, 0] S64x128.size inb_S64x128_S64x128_0_0
noncomputable abbrev rRowL9 : Rect S1x128 := Rect.unit (s := S1x128) ![0, 0] S1x128.size inb_S1x128_S1x128_0_0
noncomputable abbrev rMatB9 : Rect S128x64 := Rect.unit (s := S128x64) ![0, 0] S128x64.size inb_S128x64_S128x64_0_0

/-! ## What the body leaves in the output block -/

/-- The output block after the body, from the fifteen input blocks: one store over the whole block, of the second
    normalisation clipped plus x, itself computed from the first normalisation's two factors. -/
noncomputable def out9_15 (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) : Vec F S4096x64 .f32 :=
  View.canon [⟨rRows9, k9_pay1 (k9_pay2 (View.ld x_2 rRowS9) (View.ld x_0 rRows9) (View.ld x_1 rRows9) (View.ld x_3 rMatA9) (View.ld x_4 rRowL9) (View.ld x_5 rRowL9) (View.ld x_6 rRowL9) (View.ld x_7 rRowL9)) (k9_pay3 (View.ld x_8 rRowL9)) (View.ld x_9 rMatB9) (View.ld x_10 rRowS9) (View.ld x_11 rRowS9) (View.ld x_12 rRowS9) (View.ld x_13 rRowS9) (View.ld x_14 rRowS9) (View.ld x_0 rRows9)⟩]

/-- The one store covers the block. -/
theorem cover9_15 (p0 : Vec F S4096x64 .f32) (y : S4096x64.Idx) :
    ∃ pc ∈ ([⟨rRows9, p0⟩] : List (View.Piece (Elt F) S4096x64 .f32)), y ∈ pc.1.set :=
  View.cover_of_tiled [⟨rRows9, p0⟩] S4096x64.size (by rfl) y

/-! ## The body's triple -/

set_option maxHeartbeats 4000000 in
/-- The body on whole buffers, the fifteen inputs' at read contents x_0 … x_14 and the output's at anything, runs to the
    continuation holding the inputs' as they were and the output's at out9_15 of them. -/
theorem sound_kernel9 (c : Dev nD) (E : Set ℕ) (i : grid9.Coords) (a_0 : Memref sig .tc .vmem S4096x64 .f32) (h_0 : a_0.IsWhole) (a_1 : Memref sig .tc .vmem S4096x64 .f32) (h_1 : a_1.IsWhole) (a_2 : Memref sig .tc .vmem S1x64 .f32) (h_2 : a_2.IsWhole) (a_3 : Memref sig .tc .vmem S64x128 .f32) (h_3 : a_3.IsWhole) (a_4 : Memref sig .tc .vmem S1x128 .f32) (h_4 : a_4.IsWhole) (a_5 : Memref sig .tc .vmem S1x128 .f32) (h_5 : a_5.IsWhole) (a_6 : Memref sig .tc .vmem S1x128 .f32) (h_6 : a_6.IsWhole) (a_7 : Memref sig .tc .vmem S1x128 .f32) (h_7 : a_7.IsWhole) (a_8 : Memref sig .tc .vmem S1x128 .f32) (h_8 : a_8.IsWhole) (a_9 : Memref sig .tc .vmem S128x64 .f32) (h_9 : a_9.IsWhole) (a_10 : Memref sig .tc .vmem S1x64 .f32) (h_10 : a_10.IsWhole) (a_11 : Memref sig .tc .vmem S1x64 .f32) (h_11 : a_11.IsWhole) (a_12 : Memref sig .tc .vmem S1x64 .f32) (h_12 : a_12.IsWhole) (a_13 : Memref sig .tc .vmem S1x64 .f32) (h_13 : a_13.IsWhole) (a_14 : Memref sig .tc .vmem S1x64 .f32) (h_14 : a_14.IsWhole) (a_15 : Memref sig .tc .vmem S4096x64 .f32) (h_15 : a_15.IsWhole)
    (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) (K : PUnit → sProp 𝕄) :
    iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ (∃ d, owns (c : Thread nD τ) a_15 fullShare d)
        ∗ (iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ owns (c : Thread nD τ) a_15 fullShare (out9_15 x_0 x_1 x_2 x_3 x_4 x_5 x_6 x_7 x_8 x_9 x_10 x_11 x_12 x_13 x_14)) -∗ K ⟨⟩))
      ⊢ wp frame (wpE (defs₀ (F := F)) Variants.none c none) E (cc9__apply_kernel i a_0 h_0 a_1 h_1 a_2 h_2 a_3 h_3 a_4 h_4 a_5 h_5 a_6 h_6 a_7 h_7 a_8 h_8 a_9 h_9 a_10 h_10 a_11 h_11 a_12 h_12 a_13 h_13 a_14 h_14 a_15 h_15) K := by
  simp only [cc9__apply_kernel_eq_skeleton]; unfold cc9__apply_kernel_skel
  unfold owns
  iintro ⟨⟨%f_0, %hf_0, H_0⟩, ⟨%f_1, %hf_1, H_1⟩, ⟨%f_2, %hf_2, H_2⟩, ⟨%f_3, %hf_3, H_3⟩, ⟨%f_4, %hf_4, H_4⟩, ⟨%f_5, %hf_5, H_5⟩, ⟨%f_6, %hf_6, H_6⟩, ⟨%f_7, %hf_7, H_7⟩, ⟨%f_8, %hf_8, H_8⟩, ⟨%f_9, %hf_9, H_9⟩, ⟨%f_10, %hf_10, H_10⟩, ⟨%f_11, %hf_11, H_11⟩, ⟨%f_12, %hf_12, H_12⟩, ⟨%f_13, %hf_13, H_13⟩, ⟨%f_14, %hf_14, H_14⟩, ⟨%d_15, %f_15, -, H_15⟩, Hk⟩
  subst hf_0 hf_1 hf_2 hf_3 hf_4 hf_5 hf_6 hf_7 hf_8 hf_9 hf_10 hf_11 hf_12 hf_13 hf_14
  sl_exec
  sl_step
  iapply Hk
  isplitl [H_0]
  · iexists f_0; isplitr; · ipureintro; rfl
    iexact H_0
  isplitl [H_1]
  · iexists f_1; isplitr; · ipureintro; rfl
    iexact H_1
  isplitl [H_2]
  · iexists f_2; isplitr; · ipureintro; rfl
    iexact H_2
  isplitl [H_3]
  · iexists f_3; isplitr; · ipureintro; rfl
    iexact H_3
  isplitl [H_4]
  · iexists f_4; isplitr; · ipureintro; rfl
    iexact H_4
  isplitl [H_5]
  · iexists f_5; isplitr; · ipureintro; rfl
    iexact H_5
  isplitl [H_6]
  · iexists f_6; isplitr; · ipureintro; rfl
    iexact H_6
  isplitl [H_7]
  · iexists f_7; isplitr; · ipureintro; rfl
    iexact H_7
  isplitl [H_8]
  · iexists f_8; isplitr; · ipureintro; rfl
    iexact H_8
  isplitl [H_9]
  · iexists f_9; isplitr; · ipureintro; rfl
    iexact H_9
  isplitl [H_10]
  · iexists f_10; isplitr; · ipureintro; rfl
    iexact H_10
  isplitl [H_11]
  · iexists f_11; isplitr; · ipureintro; rfl
    iexact H_11
  isplitl [H_12]
  · iexists f_12; isplitr; · ipureintro; rfl
    iexact H_12
  isplitl [H_13]
  · iexists f_13; isplitr; · ipureintro; rfl
    iexact H_13
  isplitl [H_14]
  · iexists f_14; isplitr; · ipureintro; rfl
    iexact H_14
  iexists _; isplitr
  swap; · iexact H_15
  ipureintro
  exact View.read_writes_eq_canon _ _ _ (cover9_15 _)

/-! ## The proof data -/

/-- The region's proof data on core c: the arrays as the region finds them; after the body at point t each input's
    buffer at its block and the output's at out9_15 of the input blocks; the invariant the scoped rest and the
    generator register, untouched; nothing owed; full shares. -/
noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => iblk9 V c 9 t
    | ⟨10, _⟩ => iblk9 V c 10 t
    | ⟨11, _⟩ => iblk9 V c 11 t
    | ⟨12, _⟩ => iblk9 V c 12 t
    | ⟨13, _⟩ => iblk9 V c 13 t
    | ⟨14, _⟩ => iblk9 V c 14 t
    | ⟨15, _⟩ => out9_15 (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) (iblk9 V c 11 t) (iblk9 V c 12 t) (iblk9 V c 13 t) (iblk9 V c 14 t)
    | ⟨_ + 16, h⟩ => absurd h (Nat.not_lt.2 (Nat.le_add_left _ _))
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = iblk9 V c 8 t := by dsimp only [dat9]
theorem after9_9 (c : Dev nD) (t : Fin cfg9.N) : (dat9 V c).after 9 t = iblk9 V c 9 t := by dsimp only [dat9]
theorem after9_10 (c : Dev nD) (t : Fin cfg9.N) : (dat9 V c).after 10 t = iblk9 V c 10 t := by dsimp only [dat9]
theorem after9_11 (c : Dev nD) (t : Fin cfg9.N) : (dat9 V c).after 11 t = iblk9 V c 11 t := by dsimp only [dat9]
theorem after9_12 (c : Dev nD) (t : Fin cfg9.N) : (dat9 V c).after 12 t = iblk9 V c 12 t := by dsimp only [dat9]
theorem after9_13 (c : Dev nD) (t : Fin cfg9.N) : (dat9 V c).after 13 t = iblk9 V c 13 t := by dsimp only [dat9]
theorem after9_14 (c : Dev nD) (t : Fin cfg9.N) : (dat9 V c).after 14 t = iblk9 V c 14 t := by dsimp only [dat9]
theorem after9_15 (c : Dev nD) (t : Fin cfg9.N) : (dat9 V c).after 15 t = out9_15 (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) (iblk9 V c 11 t) (iblk9 V c 12 t) (iblk9 V c 13 t) (iblk9 V c 14 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d
theorem before9_7 (c : Dev nD) (t : Fin cfg9.N) (d) : (dat9 V c).before 7 t d = iblk9 V c 7 t :=
  before9_7_of V (dat9 V c) (A_eq9 V c 7) (after9_7 V c) t d
theorem before9_8 (c : Dev nD) (t : Fin cfg9.N) (d) : (dat9 V c).before 8 t d = iblk9 V c 8 t :=
  before9_8_of V (dat9 V c) (A_eq9 V c 8) (after9_8 V c) t d
theorem before9_9 (c : Dev nD) (t : Fin cfg9.N) (d) : (dat9 V c).before 9 t d = iblk9 V c 9 t :=
  before9_9_of V (dat9 V c) (A_eq9 V c 9) (after9_9 V c) t d
theorem before9_10 (c : Dev nD) (t : Fin cfg9.N) (d) : (dat9 V c).before 10 t d = iblk9 V c 10 t :=
  before9_10_of V (dat9 V c) (A_eq9 V c 10) (after9_10 V c) t d
theorem before9_11 (c : Dev nD) (t : Fin cfg9.N) (d) : (dat9 V c).before 11 t d = iblk9 V c 11 t :=
  before9_11_of V (dat9 V c) (A_eq9 V c 11) (after9_11 V c) t d
theorem before9_12 (c : Dev nD) (t : Fin cfg9.N) (d) : (dat9 V c).before 12 t d = iblk9 V c 12 t :=
  before9_12_of V (dat9 V c) (A_eq9 V c 12) (after9_12 V c) t d
theorem before9_13 (c : Dev nD) (t : Fin cfg9.N) (d) : (dat9 V c).before 13 t d = iblk9 V c 13 t :=
  before9_13_of V (dat9 V c) (A_eq9 V c 13) (after9_13 V c) t d
theorem before9_14 (c : Dev nD) (t : Fin cfg9.N) (d) : (dat9 V c).before 14 t d = iblk9 V c 14 t :=
  before9_14_of V (dat9 V c) (A_eq9 V c 14) (after9_14 V c) t d

/-! ## The body obligation -/

/-- What the body is called with at point t, -/
noncomputable def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d))
    ∗ (∃ d, owns (c : Thread nD τ) (st9_9 t) fullShare ((dat9 V c).before 9 t d))
    ∗ (∃ d, owns (c : Thread nD τ) (st9_10 t) fullShare ((dat9 V c).before 10 t d))
    ∗ (∃ d, owns (c : Thread nD τ) (st9_11 t) fullShare ((dat9 V c).before 11 t d))
    ∗ (∃ d, owns (c : Thread nD τ) (st9_12 t) fullShare ((dat9 V c).before 12 t d))
    ∗ (∃ d, owns (c : Thread nD τ) (st9_13 t) fullShare ((dat9 V c).before 13 t d))
    ∗ (∃ d, owns (c : Thread nD τ) (st9_14 t) fullShare ((dat9 V c).before 14 t d))
    ∗ (∃ d, owns (c : Thread nD τ) (st9_15 t) fullShare ((dat9 V c).before 15 t d)))

/-- and what it returns. -/
noncomputable def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t)
    ∗ owns (c : Thread nD τ) (st9_9 t) fullShare ((dat9 V c).after 9 t)
    ∗ owns (c : Thread nD τ) (st9_10 t) fullShare ((dat9 V c).after 10 t)
    ∗ owns (c : Thread nD τ) (st9_11 t) fullShare ((dat9 V c).after 11 t)
    ∗ owns (c : Thread nD τ) (st9_12 t) fullShare ((dat9 V c).after 12 t)
    ∗ owns (c : Thread nD τ) (st9_13 t) fullShare ((dat9 V c).after 13 t)
    ∗ owns (c : Thread nD τ) (st9_14 t) fullShare ((dat9 V c).after 14 t)
    ∗ owns (c : Thread nD τ) (st9_15 t) fullShare ((dat9 V c).after 15 t))

set_option maxHeartbeats 1000000 in
/-- The body at any point: the inputs' buffers hold their blocks, so the triple applies; the invariant and what the
    core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7, before9_8, before9_9, before9_10, before9_11, before9_12, before9_13, before9_14]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7, after9_8, after9_9, after9_10, after9_11, after9_12, after9_13, after9_14, after9_15]
  iintro ⟨HΦ, Ho, ⟨%d_0, H_0⟩, ⟨%d_1, H_1⟩, ⟨%d_2, H_2⟩, ⟨%d_3, H_3⟩, ⟨%d_4, H_4⟩, ⟨%d_5, H_5⟩, ⟨%d_6, H_6⟩, ⟨%d_7, H_7⟩, ⟨%d_8, H_8⟩, ⟨%d_9, H_9⟩, ⟨%d_10, H_10⟩, ⟨%d_11, H_11⟩, ⟨%d_12, H_12⟩, ⟨%d_13, H_13⟩, ⟨%d_14, H_14⟩, ⟨%d_15, H_15⟩⟩
  iapply (sound_kernel9 c Set.univ _ _ _ _ _ _ _ _ _ _ _ _ _ _ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) (iblk9 V c 11 t) (iblk9 V c 12 t) (iblk9 V c 13 t) (iblk9 V c 14 t) _)
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  isplitl [H_15]; · iexists _; iexact H_15
  iintro ⟨H_0, H_1, H_2, H_3, H_4, H_5, H_6, H_7, H_8, H_9, H_10, H_11, H_12, H_13, H_14, H_15⟩
  isplitl [HΦ]; · iexact HΦ
  isplitl [Ho]; · iexact Ho
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  iexact H_15

theorem body_obligation9 (c : Dev nD) : BodyObligation (dat9 (F := F) V c) (defs₀ (F := F)) Variants.none () Set.univ := fun t => by
  rw [bigSep_W9, bigSep_W9]
  exact sound_body9 V c t

/-! ## The invariant at the region's ends -/

theorem phi_in9 (c : Dev nD) :
    (iprop((∃ r, prngReg c r) ∗ Pipeline.scopedRest (Ix := Unit) (Name := ℕ) (U := UR sig nD τ) (Lvl := ℕ) (Val := Elt F) spec9 c) : sProp 𝕄)
      ⊢ (dat9 V c).Φ 0 := by
  rw [show (dat9 V c).Φ 0 = Pipeline.ΦA spec9 c from rfl]; unfold Pipeline.ΦA
  iintro ⟨Hp, Hr⟩
  isplitl [Hr]; · iexact Hr
  iexact Hp

theorem phi_out9 (c : Dev nD) :
    (dat9 V c).Φ (Fin.last cfg9.N)
      ⊢ (iprop((∃ r, prngReg c r) ∗ Pipeline.scopedRest (Ix := Unit) (Name := ℕ) (U := UR sig nD τ) (Lvl := ℕ) (Val := Elt F) spec9 c) : sProp 𝕄) := by
  rw [show (dat9 V c).Φ (Fin.last _) = Pipeline.ΦA spec9 c from rfl]; unfold Pipeline.ΦA
  iintro ⟨Hr, Hp⟩
  isplitl [Hp]; · iexact Hp
  iexact Hr

/-! ## The whole output array

    Sixteen blocks of 4096 rows tile the 65536 rows, block t holding rows 4096·t … 4096·t + 4095, so row r is written
    at point r / 4096, at place r % 4096 of the block, and what is written there depends on the inputs' blocks at that
    point only. -/

/-- The point whose block holds an index's row. -/
noncomputable def pt9 (i : S65536x64.Idx) : Fin cfg9.N :=
  ⟨(i 0).val / 4096, by have h := ValueIdx.idx2_lt0 i; show (i 0).val / 4096 < grid9.N; rw [N_9]; omega⟩

/-- Where an index of the array sits inside its block. -/
noncomputable def loc9 (i : S65536x64.Idx) : S4096x64.Idx :=
  ValueIdx.ix2 ⟨(i 0).val % 4096, Nat.mod_lt _ (by decide)⟩ (i 1)

/-- The output array as one function of the fifteen input arrays: at each index, what the body leaves at the index's
    place in its block, from the inputs' blocks at the index's point. -/
noncomputable def G9_15 (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) : S65536x64.Idx → Elt F .f32 :=
  fun i => out9_15
      (((cfg9.win 0).blk (pt9 i)).view.read (Elt F) A_0)
      (((cfg9.win 1).blk (pt9 i)).view.read (Elt F) A_1)
      (((cfg9.win 2).blk (pt9 i)).view.read (Elt F) A_2)
      (((cfg9.win 3).blk (pt9 i)).view.read (Elt F) A_3)
      (((cfg9.win 4).blk (pt9 i)).view.read (Elt F) A_4)
      (((cfg9.win 5).blk (pt9 i)).view.read (Elt F) A_5)
      (((cfg9.win 6).blk (pt9 i)).view.read (Elt F) A_6)
      (((cfg9.win 7).blk (pt9 i)).view.read (Elt F) A_7)
      (((cfg9.win 8).blk (pt9 i)).view.read (Elt F) A_8)
      (((cfg9.win 9).blk (pt9 i)).view.read (Elt F) A_9)
      (((cfg9.win 10).blk (pt9 i)).view.read (Elt F) A_10)
      (((cfg9.win 11).blk (pt9 i)).view.read (Elt F) A_11)
      (((cfg9.win 12).blk (pt9 i)).view.read (Elt F) A_12)
      (((cfg9.win 13).blk (pt9 i)).view.read (Elt F) A_13)
      (((cfg9.win 14).blk (pt9 i)).view.read (Elt F) A_14)
      (loc9 i)

/-- G9_15 at an index, one step unfolded. -/
theorem G9_15_apply (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) (i : S65536x64.Idx) :
    G9_15 A_0 A_1 A_2 A_3 A_4 A_5 A_6 A_7 A_8 A_9 A_10 A_11 A_12 A_13 A_14 i = out9_15 (((cfg9.win 0).blk (pt9 i)).view.read (Elt F) A_0) (((cfg9.win 1).blk (pt9 i)).view.read (Elt F) A_1) (((cfg9.win 2).blk (pt9 i)).view.read (Elt F) A_2) (((cfg9.win 3).blk (pt9 i)).view.read (Elt F) A_3) (((cfg9.win 4).blk (pt9 i)).view.read (Elt F) A_4) (((cfg9.win 5).blk (pt9 i)).view.read (Elt F) A_5) (((cfg9.win 6).blk (pt9 i)).view.read (Elt F) A_6) (((cfg9.win 7).blk (pt9 i)).view.read (Elt F) A_7) (((cfg9.win 8).blk (pt9 i)).view.read (Elt F) A_8) (((cfg9.win 9).blk (pt9 i)).view.read (Elt F) A_9) (((cfg9.win 10).blk (pt9 i)).view.read (Elt F) A_10) (((cfg9.win 11).blk (pt9 i)).view.read (Elt F) A_11) (((cfg9.win 12).blk (pt9 i)).view.read (Elt F) A_12) (((cfg9.win 13).blk (pt9 i)).view.read (Elt F) A_13) (((cfg9.win 14).blk (pt9 i)).view.read (Elt F) A_14) (loc9 i) := rfl

/-- The output's block index at point t is (t, 0), decided over the sixteen points. -/
theorem idx9_15 : ∀ t : Fin cfg9.N, win9_15.index t (0 : Fin 2) = t.val ∧ win9_15.index t (1 : Fin 2) = 0 :=
  (by decide +kernel : ∀ t : Fin grid9.N, _)

set_option maxHeartbeats 2000000 in
/-- What point t writes back is block t of G9_15 of the arrays as the region finds them. -/
theorem flushed9_15_eq (c : Dev nD) (t : Fin cfg9.N) :
    (dat9 V c).flushed 15 t = ((cfg9.win 15).blk t).view.read (Elt F) (G9_15 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (V c (Pipeline.arrRef spec9 7)) (V c (Pipeline.arrRef spec9 8)) (V c (Pipeline.arrRef spec9 9)) (V c (Pipeline.arrRef spec9 10)) (V c (Pipeline.arrRef spec9 11)) (V c (Pipeline.arrRef spec9 12)) (V c (Pipeline.arrRef spec9 13)) (V c (Pipeline.arrRef spec9 14))) := by
  show (cfg9.win 15).cut (grid9.coords t) ((dat9 V c).after 15 t) = _
  rw [after9_15]
  obtain ⟨e0, e1⟩ := idx9_15 t
  funext j
  have hj0 : (j 0).val < 4096 := (j 0).isLt
  have hp : pt9 (((cfg9.win 15).blk t).view.emb j) = t := by
    apply Fin.ext
    show (win9_15.index t (0 : Fin 2) * 4096 + 1 * (j 0).val) / 4096 = t.val
    omega
  have hl : loc9 (((cfg9.win 15).blk t).view.emb j) = j := by
    funext a; apply Fin.ext
    match a with
    | ⟨0, _⟩ => show (win9_15.index t (0 : Fin 2) * 4096 + 1 * (j 0).val) % 4096 = (j 0).val; omega
    | ⟨1, _⟩ => show win9_15.index t (1 : Fin 2) * 64 + 1 * (j 1).val = (j 1).val; omega
  rw [View.read_apply]
  rw [G9_15_apply, hp, hl]
  unfold iblk9
  generalize out9_15 (F := F) _ _ _ _ _ _ _ _ _ _ _ _ _ _ _ = X
  rfl

/-- An index of the array is in point t's block iff each coordinate is in the block's range on its axis. -/
theorem mem_blk9_15 (t : Fin cfg9.N) (i : S65536x64.Idx) :
    i ∈ ((cfg9.win 15).blk t).view.set ↔ ∀ a : Fin 2, win9_15.index t a * S4096x64.size a ≤ (i a).val ∧ (i a).val < win9_15.index t a * S4096x64.size a + S4096x64.size a := by
  show i ∈ ((View.whole main_v209).slice (win9_15.rect t)).set ↔ _
  rw [View.set_slice_whole, Rect.mem_set_unit]
  exact Iff.rfl

/-- Every index of the array is in some point's block. -/
theorem covered9_15 (i : S65536x64.Idx) : ∃ t : Fin cfg9.N, (cfg9.win 15).flush t = true ∧ i ∈ ((cfg9.win 15).blk t).view.set := by
  refine ⟨pt9 i, flush9_15 _, ?_⟩
  rw [mem_blk9_15]
  obtain ⟨e0, e1⟩ := idx9_15 (pt9 i)
  have h_0 := ValueIdx.idx2_lt0 i
  have h_1 := ValueIdx.idx2_lt1 i
  have hp : (pt9 i).val = (i 0).val / 4096 := rfl
  intro a
  match a with
  | ⟨0, _⟩ => show win9_15.index (pt9 i) (0 : Fin 2) * 4096 ≤ (i 0).val ∧ (i 0).val < win9_15.index (pt9 i) (0 : Fin 2) * 4096 + 4096; omega
  | ⟨1, _⟩ => show win9_15.index (pt9 i) (1 : Fin 2) * 64 ≤ (i 1).val ∧ (i 1).val < win9_15.index (pt9 i) (1 : Fin 2) * 64 + 64; omega

/-- The output array after the region: G9_15 of the arrays as the region finds them. -/
theorem final9_15 (c : Dev nD) :
    (dat9 V c).arrAt ⟨15, by decide⟩ cfg9.N = G9_15 (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (V c (Pipeline.arrRef spec9 7)) (V c (Pipeline.arrRef spec9 8)) (V c (Pipeline.arrRef spec9 9)) (V c (Pipeline.arrRef spec9 10)) (V c (Pipeline.arrRef spec9 11)) (V c (Pipeline.arrRef spec9 12)) (V c (Pipeline.arrRef spec9 13)) (V c (Pipeline.arrRef spec9 14)) :=
  (dat9 V c).arrAt_eq_of_cover 15 _ (fun t _ => flushed9_15_eq V c t) covered9_15

end Cert.KernelIdeal.Hand

end
-- ==== Proof.KI.Reg10.lean ====
import proofs.«159011_j9938554322955_1_alg».proof.Proof.Gen.KernelIdeal.Launch
import proofs.«159011_j9938554322955_1_alg».proof.Proof.Gen.KernelIdeal.Skeleton
import proofs.«159011_j9938554322955_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every load and store of the body goes through the rectangle of a two-axis buffer's whole shape at zero offsets. -/

theorem hz2_10 : (![0, 0] : Fin 2 → ℕ) = fun _ => 0 := by funext a; fin_cases a <;> rfl

/-- A load of a whole buffer reads its contents. -/
theorem readAt_whole10 (sz : Fin 2 → ℕ) {e : EltTy} (v : View sig .tc .vmem (⟨2, sz⟩ : Shape) e)
    (inb : ∀ a, (![0, 0] : Fin 2 → ℕ) a + sz a ≤ sz a) (f : v.ty.Contents (Elt F)) :
    v.readAt (Elt F) (Rect.unit (s := (⟨2, sz⟩ : Shape)) ![0, 0] sz inb).toLoadRect f = v.read (Elt F) f :=
  (View.readAt_eq_ld v f _).trans (View.ld_unit_zero (S := (⟨2, sz⟩ : Shape)) hz2_10 inb _)

/-- The whole-shape rectangle holds every index. -/
theorem cover_whole10 (sz : Fin 2 → ℕ) {e : EltTy} (inb : ∀ a, (![0, 0] : Fin 2 → ℕ) a + sz a ≤ sz a)
    (w : (⟨2, sz⟩ : Shape).Idx → Elt F e) (L : List (View.Piece (Elt F) (⟨2, sz⟩ : Shape) e)) (y : (⟨2, sz⟩ : Shape).Idx) :
    ∃ p ∈ ((⟨Rect.unit (s := (⟨2, sz⟩ : Shape)) ![0, 0] sz inb, w⟩ : View.Piece (Elt F) (⟨2, sz⟩ : Shape) e) :: L), y ∈ p.1.set :=
  ⟨⟨Rect.unit (s := (⟨2, sz⟩ : Shape)) ![0, 0] sz inb, w⟩, List.mem_cons_self, View.mem_set_unit_zero (S := (⟨2, sz⟩ : Shape)) hz2_10 inb y⟩

/-- A store of a whole buffer, last, leaves its payload. -/
theorem read_writes_whole10 (sz : Fin 2 → ℕ) {e : EltTy} (v : View sig .tc .vmem (⟨2, sz⟩ : Shape) e)
    (inb : ∀ a, (![0, 0] : Fin 2 → ℕ) a + sz a ≤ sz a) (f : v.ty.Contents (Elt F)) (w : (⟨2, sz⟩ : Shape).Idx → Elt F e)
    (L : List (View.Piece (Elt F) (⟨2, sz⟩ : Shape) e)) :
    v.read (Elt F) (v.writes (Elt F) f ((⟨Rect.unit (s := (⟨2, sz⟩ : Shape)) ![0, 0] sz inb, w⟩ : View.Piece (Elt F) (⟨2, sz⟩ : Shape) e) :: L)) = w :=
  (View.read_writes_eq_canon v f _ (cover_whole10 sz inb w L)).trans
    (View.canon_cons_unit_zero (S := (⟨2, sz⟩ : Shape)) hz2_10 inb w L)

/-- A load of a whole buffer after a store of the whole buffer reads the payload. -/
theorem readCov_whole10 (sz : Fin 2 → ℕ) {e : EltTy} (v : View sig .tc .vmem (⟨2, sz⟩ : Shape) e)
    (inb : ∀ a, (![0, 0] : Fin 2 → ℕ) a + sz a ≤ sz a) (w : (⟨2, sz⟩ : Shape).Idx → Elt F e)
    (L : List (View.Piece (Elt F) (⟨2, sz⟩ : Shape) e)) :
    v.readCov ((⟨Rect.unit (s := (⟨2, sz⟩ : Shape)) ![0, 0] sz inb, w⟩ : View.Piece (Elt F) (⟨2, sz⟩ : Shape) e) :: L)
      (Rect.unit (s := (⟨2, sz⟩ : Shape)) ![0, 0] sz inb).toLoadRect = w :=
  (View.readCov_eq_canon_ld v _ (Rect.unit (s := (⟨2, sz⟩ : Shape)) ![0, 0] sz inb) (cover_whole10 sz inb w L)).trans
    ((congrArg (fun X => View.ld X (Rect.unit (s := (⟨2, sz⟩ : Shape)) ![0, 0] sz inb))
        (View.canon_cons_unit_zero (S := (⟨2, sz⟩ : Shape)) hz2_10 inb w L)).trans
      (View.ld_unit_zero (S := (⟨2, sz⟩ : Shape)) hz2_10 inb w))

/-! ## The body's two conditions -/

/-- The condition of the body's first `scf.if` (the scratch is zeroed), from the grid coordinates. -/
abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val = 0 :=
  (by decide +kernel : ∀ t : Fin grid10.N, cond10_0 (grid10.coords t) ↔ t.val = 0)
/-- The condition of the body's second `scf.if` (the statistics are stored). -/
abbrev cond10_1 (i : grid10.Coords) : Prop := k10_cond2 i = 1#1
/-- It holds at the last point only. -/
theorem hcond10_1 : ∀ t : Fin cfg10.N, cond10_1 (grid10.coords t) ↔ t.val = 15 :=
  (by decide +kernel : ∀ t : Fin grid10.N, cond10_1 (grid10.coords t) ↔ t.val = 15)

/-! ## What one point adds to the two running sums, and the statistics stored at the last point -/

/-- The column sums of the block's `z` added to the running sum `S`. -/
noncomputable def sS10 (x0 x1 : Vec F S4096x64 .f32) (x2 : Vec F S1x64 .f32) (x3 : Vec F S64x128 .f32) (x4 S : Vec F S1x128 .f32) : Vec F S1x128 .f32 :=
  k10_pay7 x2 x0 x1 x3 x4 S
/-- The column sums of the block's `z · z` added to the running sum `Q`. -/
noncomputable def sQ10 (x0 x1 : Vec F S4096x64 .f32) (x2 : Vec F S1x64 .f32) (x3 : Vec F S64x128 .f32) (x4 Q : Vec F S1x128 .f32) : Vec F S1x128 .f32 :=
  k10_pay1 (k10_pay8 x2 x0 x1 x3 x4 Q)
/-- The two sums as the first point resets them. -/
noncomputable def zS10 : Vec F S1x128 .f32 := k10_pay4 (F := F)
noncomputable def zQ10 : Vec F S1x128 .f32 := k10_pay5 (F := F)
/-- The mean stored from the total `S`, and the variance stored from the totals `S`, `Q`. -/
noncomputable def oM10 (S : Vec F S1x128 .f32) : Vec F S1x128 .f32 := k10_pay2 S
noncomputable def oV10 (S Q : Vec F S1x128 .f32) : Vec F S1x128 .f32 := k10_pay3 S Q

set_option maxHeartbeats 2000000 in
/-- The body on whole staging memrefs and the two scratch buffers, at the first point (the scratch is zeroed first, whatever it held). -/
theorem sound_kernel10_A (c : Dev nD) (E : Set ℕ) (i : grid10.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond10_0 i) (hc1 : ¬cond10_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS10 x0 x1 x2 x3 x4 zS10)
            ∗ owns (c : Thread nD τ) arg9 fullShare (sQ10 x0 x1 x2 x3 x4 zQ10)) -∗ K ⟨⟩))
      ⊢ wp frame (wpE (defs₀ (F := F)) Variants.none c none) E (cc10__stats1_kernel i arg1 harg1 arg2 harg2 arg3 harg3 arg4 harg4 arg5 harg5 arg6 harg6 arg7 harg7 arg8 harg8 arg9 harg9) K := by
  simp only [cc10__stats1_kernel_eq_skeleton]; unfold cc10__stats1_kernel_skel
  simp only [k10_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole10, readCov_whole10, readAt_whole10, oM10, oV10, sS10, sQ10, zS10, zQ10])
  isplitl [H6]
  · iexists _; isplitr
    swap; · iexact H6
    ipureintro
    first
      | rfl
      | (sl_unfold_run_names; (try dsimp only); simp only [read_writes_whole10, readCov_whole10, readAt_whole10, oM10, oV10, sS10, sQ10, zS10, zQ10])
  isplitl [H7]
  · iexists _; isplitr
    swap; · iexact H7
    ipureintro
    (sl_unfold_run_names; (try dsimp only); simp only [read_writes_whole10, readCov_whole10, readAt_whole10, oM10, oV10, sS10, sQ10, zS10, zQ10])
  iexists _; isplitr
  swap; · iexact H8
  ipureintro
  (sl_unfold_run_names; (try dsimp only); simp only [read_writes_whole10, readCov_whole10, readAt_whole10, oM10, oV10, sS10, sQ10, zS10, zQ10])

set_option maxHeartbeats 2000000 in
/-- The body on whole staging memrefs and the two scratch buffers, at a point that is neither the first nor the last. -/
theorem sound_kernel10_B (c : Dev nD) (E : Set ℕ) (i : grid10.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond10_0 i) (hc1 : ¬cond10_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (x5)
            ∗ owns (c : Thread nD τ) arg7 fullShare (x6) ∗ owns (c : Thread nD τ) arg8 fullShare (sS10 x0 x1 x2 x3 x4 S)
            ∗ owns (c : Thread nD τ) arg9 fullShare (sQ10 x0 x1 x2 x3 x4 Q)) -∗ K ⟨⟩))
      ⊢ wp frame (wpE (defs₀ (F := F)) Variants.none c none) E (cc10__stats1_kernel i arg1 harg1 arg2 harg2 arg3 harg3 arg4 harg4 arg5 harg5 arg6 harg6 arg7 harg7 arg8 harg8 arg9 harg9) K := by
  simp only [cc10__stats1_kernel_eq_skeleton]; unfold cc10__stats1_kernel_skel
  simp only [k10_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole10, readCov_whole10, readAt_whole10, oM10, oV10, sS10, sQ10, zS10, zQ10])
  isplitl [H6]
  · iexists _; isplitr
    swap; · iexact H6
    ipureintro
    first
      | rfl
      | (sl_unfold_run_names; (try dsimp only); simp only [read_writes_whole10, readCov_whole10, readAt_whole10, oM10, oV10, sS10, sQ10, zS10, zQ10])
  isplitl [H7]
  · iexists _; isplitr
    swap; · iexact H7
    ipureintro
    (sl_unfold_run_names; (try dsimp only); simp only [read_writes_whole10, readCov_whole10, readAt_whole10, oM10, oV10, sS10, sQ10, zS10, zQ10])
  iexists _; isplitr
  swap; · iexact H8
  ipureintro
  (sl_unfold_run_names; (try dsimp only); simp only [read_writes_whole10, readCov_whole10, readAt_whole10, oM10, oV10, sS10, sQ10, zS10, zQ10])

set_option maxHeartbeats 2000000 in
/-- The body on whole staging memrefs and the two scratch buffers, at the last point (the statistics are stored from the totals). -/
theorem sound_kernel10_C (c : Dev nD) (E : Set ℕ) (i : grid10.Coords)
    (arg1 : Memref sig .tc .vmem S4096x64 .f32) (harg1 : arg1.IsWhole) (arg2 : Memref sig .tc .vmem S4096x64 .f32) (harg2 : arg2.IsWhole)
    (arg3 : Memref sig .tc .vmem S1x64 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond10_0 i) (hc1 : cond10_1 i)
    (x0 x1 : Vec F S4096x64 .f32) (x2 : Vec F S1x64 .f32) (x3 : Vec F S64x128 .f32) (x4 x5 x6 S Q : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare S ∗ owns (c : Thread nD τ) arg9 fullShare Q
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (oM10 (sS10 x0 x1 x2 x3 x4 S))
            ∗ owns (c : Thread nD τ) arg7 fullShare (oV10 (sS10 x0 x1 x2 x3 x4 S) (sQ10 x0 x1 x2 x3 x4 Q)) ∗ owns (c : Thread nD τ) arg8 fullShare (sS10 x0 x1 x2 x3 x4 S)
            ∗ owns (c : Thread nD τ) arg9 fullShare (sQ10 x0 x1 x2 x3 x4 Q)) -∗ K ⟨⟩))
      ⊢ wp frame (wpE (defs₀ (F := F)) Variants.none c none) E (cc10__stats1_kernel i arg1 harg1 arg2 harg2 arg3 harg3 arg4 harg4 arg5 harg5 arg6 harg6 arg7 harg7 arg8 harg8 arg9 harg9) K := by
  simp only [cc10__stats1_kernel_eq_skeleton]; unfold cc10__stats1_kernel_skel
  simp only [k10_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    first
      | rfl
      | (sl_unfold_run_names; (try dsimp only); simp only [read_writes_whole10, readCov_whole10, readAt_whole10, oM10, oV10, sS10, sQ10, zS10, zQ10])
  isplitl [H6]
  · iexists _; isplitr
    swap; · iexact H6
    ipureintro
    first
      | rfl
      | (sl_unfold_run_names; (try dsimp only); simp only [read_writes_whole10, readCov_whole10, readAt_whole10, oM10, oV10, sS10, sQ10, zS10, zQ10])
  isplitl [H7]
  · iexists _; isplitr
    swap; · iexact H7
    ipureintro
    (sl_unfold_run_names; (try dsimp only); simp only [read_writes_whole10, readCov_whole10, readAt_whole10, oM10, oV10, sS10, sQ10, zS10, zQ10])
  iexists _; isplitr
  swap; · iexact H8
  ipureintro
  (sl_unfold_run_names; (try dsimp only); simp only [read_writes_whole10, readCov_whole10, readAt_whole10, oM10, oV10, sS10, sQ10, zS10, zQ10])

variable (V : (c : Dev nD) → (b : Ref sig .tc) → Buf (Elt F) ((c : Thread nD τ).loc b))

/-! ## The windows' blocks -/

/-- Window w's block at point t, read off its array as the region finds it. -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## Where the windows are idle and written back

The five inputs are never idle. The two statistics are stored at the last point only: before it their windows are
idle and are not written back; at it they are live. -/

theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem liveAt10_3 : ∀ t : Fin cfg10.N, cfg10.idle 3 (grid10.coords t) = false := by decide +kernel
theorem liveAt10_4 : ∀ t : Fin cfg10.N, cfg10.idle 4 (grid10.coords t) = false := by decide +kernel
theorem idleAt10_5 : ∀ t : Fin cfg10.N, t.val ≠ 15 → cfg10.idle 5 (grid10.coords t) = true := by decide +kernel
theorem idleAt10_6 : ∀ t : Fin cfg10.N, t.val ≠ 15 → cfg10.idle 6 (grid10.coords t) = true := by decide +kernel
theorem liveAt10_5 : ∀ t : Fin cfg10.N, t.val = 15 → cfg10.idle 5 (grid10.coords t) = false := by decide +kernel
theorem liveAt10_6 : ∀ t : Fin cfg10.N, t.val = 15 → cfg10.idle 6 (grid10.coords t) = false := by decide +kernel
theorem noFlush10_5 : ∀ t : Fin cfg10.N, t.val ≠ 15 → (cfg10.win 5).flush t = false := by decide +kernel
theorem noFlush10_6 : ∀ t : Fin cfg10.N, t.val ≠ 15 → (cfg10.win 6).flush t = false := by decide +kernel

/-! ## What an input's staging buffer holds

Each input's current staging buffer holds its block at every point, fetched there or not, for any proof data whose
array is the entry contents and whose body leaves the block in place. -/

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The running sums

What the two scratch buffers hold after the body at point n: the first point resets them and adds its block's column
sums of z and of z · z; every later point adds its own to what the point before left. -/

noncomputable def accS10 (c : Dev nD) : (n : ℕ) → n < cfg10.N → Vec F S1x128 .f32
  | 0, hn => sS10 (iblk10 V c 0 ⟨0, hn⟩) (iblk10 V c 1 ⟨0, hn⟩) (iblk10 V c 2 ⟨0, hn⟩) (iblk10 V c 3 ⟨0, hn⟩) (iblk10 V c 4 ⟨0, hn⟩) zS10
  | n + 1, hn => sS10 (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (accS10 c n (Nat.lt_of_succ_lt hn))

noncomputable def accQ10 (c : Dev nD) : (n : ℕ) → n < cfg10.N → Vec F S1x128 .f32
  | 0, hn => sQ10 (iblk10 V c 0 ⟨0, hn⟩) (iblk10 V c 1 ⟨0, hn⟩) (iblk10 V c 2 ⟨0, hn⟩) (iblk10 V c 3 ⟨0, hn⟩) (iblk10 V c 4 ⟨0, hn⟩) zQ10
  | n + 1, hn => sQ10 (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (accQ10 c n (Nat.lt_of_succ_lt hn))

theorem accS10_zero (c : Dev nD) (t : Fin cfg10.N) (h0 : t.val = 0) :
    accS10 V c t.val t.isLt = sS10 (iblk10 V c 0 t) (iblk10 V c 1 t) (iblk10 V c 2 t) (iblk10 V c 3 t) (iblk10 V c 4 t) zS10 := by
  obtain ⟨n, hn⟩ := t
  cases n with
  | zero => rfl
  | succ n => exact absurd h0 (Nat.succ_ne_zero n)

theorem accS10_pos (c : Dev nD) (t : Fin cfg10.N) (h0 : t.val ≠ 0) :
    accS10 V c t.val t.isLt = sS10 (iblk10 V c 0 t) (iblk10 V c 1 t) (iblk10 V c 2 t) (iblk10 V c 3 t) (iblk10 V c 4 t) (accS10 V c (t.val - 1) (Nat.lt_of_le_of_lt (Nat.sub_le _ _) t.isLt)) := by
  obtain ⟨n, hn⟩ := t
  cases n with
  | zero => exact absurd rfl h0
  | succ n => rfl

theorem accQ10_zero (c : Dev nD) (t : Fin cfg10.N) (h0 : t.val = 0) :
    accQ10 V c t.val t.isLt = sQ10 (iblk10 V c 0 t) (iblk10 V c 1 t) (iblk10 V c 2 t) (iblk10 V c 3 t) (iblk10 V c 4 t) zQ10 := by
  obtain ⟨n, hn⟩ := t
  cases n with
  | zero => rfl
  | succ n => exact absurd h0 (Nat.succ_ne_zero n)

theorem accQ10_pos (c : Dev nD) (t : Fin cfg10.N) (h0 : t.val ≠ 0) :
    accQ10 V c t.val t.isLt = sQ10 (iblk10 V c 0 t) (iblk10 V c 1 t) (iblk10 V c 2 t) (iblk10 V c 3 t) (iblk10 V c 4 t) (accQ10 V c (t.val - 1) (Nat.lt_of_le_of_lt (Nat.sub_le _ _) t.isLt)) := by
  obtain ⟨n, hn⟩ := t
  cases n with
  | zero => exact absurd rfl h0
  | succ n => rfl

/-! ## The invariant between points -/

/-- The scoped rest with the two scratch buffers as whole memrefs owned at some contents. -/
theorem scr10_eq (c : Dev nD) :
    (Pipeline.scopedRest (Ix := Unit) (Name := ℕ) (U := UR sig nD τ) (Lvl := ℕ) (Val := Elt F) spec10 c : sProp 𝕄)
      = iprop(iprop((∃ d, owns (c : Thread nD τ) (Memref.whole cc10_scratch0) fullShare d) ∗ (∃ d, owns (c : Thread nD τ) (Memref.whole cc10_scratch1) fullShare d))
          ∗ Pipeline.scopedRestBut (Ix := Unit) (Name := ℕ) (U := UR sig nD τ) (Lvl := ℕ) (Val := Elt F) spec10 c [cc10_scratch0, cc10_scratch1]) := by
  rw [scopedRest10_split]; simp only [owns_whole]; try rfl

/-- Before the first point: the generator register and every scoped buffer that is no staging buffer, at anything.
    Before a later point: the same with the two scratch buffers at the running sums the point before left. -/
noncomputable def Phi10 (c : Dev nD) : (n : ℕ) → n ≤ cfg10.N → sProp 𝕄
  | 0, _ => iprop((∃ r, prngReg c r) ∗ Pipeline.scopedRest (Ix := Unit) (Name := ℕ) (U := UR sig nD τ) (Lvl := ℕ) (Val := Elt F) spec10 c)
  | n + 1, hn => iprop((∃ r, prngReg c r)
      ∗ iprop(owns (c : Thread nD τ) (Memref.whole cc10_scratch0) fullShare (accS10 V c n hn) ∗ owns (c : Thread nD τ) (Memref.whole cc10_scratch1) fullShare (accQ10 V c n hn))
      ∗ Pipeline.scopedRestBut (Ix := Unit) (Name := ℕ) (U := UR sig nD τ) (Lvl := ℕ) (Val := Elt F) spec10 c [cc10_scratch0, cc10_scratch1])

theorem Phi10_zero (c : Dev nD) (n : ℕ) (h : n ≤ cfg10.N) (hz : n = 0) :
    Phi10 V c n h = iprop((∃ r, prngReg c r) ∗ Pipeline.scopedRest (Ix := Unit) (Name := ℕ) (U := UR sig nD τ) (Lvl := ℕ) (Val := Elt F) spec10 c) := by
  subst hz; rfl

theorem Phi10_succ (c : Dev nD) (n : ℕ) (hn : n < cfg10.N) :
    Phi10 V c (n + 1) hn = iprop((∃ r, prngReg c r)
      ∗ iprop(owns (c : Thread nD τ) (Memref.whole cc10_scratch0) fullShare (accS10 V c n hn) ∗ owns (c : Thread nD τ) (Memref.whole cc10_scratch1) fullShare (accQ10 V c n hn))
      ∗ Pipeline.scopedRestBut (Ix := Unit) (Name := ℕ) (U := UR sig nD τ) (Lvl := ℕ) (Val := Elt F) spec10 c [cc10_scratch0, cc10_scratch1]) := rfl

theorem Phi10_pos (c : Dev nD) (n : ℕ) (h : n ≤ cfg10.N) (hz : n ≠ 0) :
    Phi10 V c n h = iprop((∃ r, prngReg c r)
      ∗ iprop(owns (c : Thread nD τ) (Memref.whole cc10_scratch0) fullShare (accS10 V c (n - 1) (by omega)) ∗ owns (c : Thread nD τ) (Memref.whole cc10_scratch1) fullShare (accQ10 V c (n - 1) (by omega)))
      ∗ Pipeline.scopedRestBut (Ix := Unit) (Name := ℕ) (U := UR sig nD τ) (Lvl := ℕ) (Val := Elt F) spec10 c [cc10_scratch0, cc10_scratch1]) := by
  cases n with
  | zero => exact absurd rfl hz
  | succ n => rfl

/-! ## The pipeline's proof data -/

/-- The arrays as the region finds them; after the body at point t each input's buffer at its block, the mean's and the
    variance's at the statistics of the running sums (consulted at the last point only: before it the two windows are idle);
    the invariant above; nothing owed; full shares. -/
noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => oM10 (accS10 V c t.val t.isLt)
    | ⟨6, _⟩ => oV10 (accS10 V c t.val t.isLt) (accQ10 V c t.val t.isLt)
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem Phi10_castSucc (c : Dev nD) (t : Fin cfg10.N) :
    (dat10 V c).Φ t.castSucc = Phi10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = oM10 (accS10 V c t.val t.isLt) := by dsimp only [dat10]
theorem after10_6 (c : Dev nD) (t : Fin cfg10.N) : (dat10 V c).after 6 t = oV10 (accS10 V c t.val t.isLt) (accQ10 V c t.val t.isLt) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation, at a generic point -/

/-- What the body is called with at point t, the windows one by one, -/
noncomputable def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d)))

/-- and what it returns. -/
noncomputable def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t)

set_option maxHeartbeats 4800000 in
/-- The body at any point: the inputs' memrefs hold their blocks; the point is the first, the last or neither, which
    decides the two conditions; the invariant hands the body the two scratch buffers (at anything at the first point, at
    the running sums otherwise) and takes them back at this point's sums; the mean's and the variance's buffers come back
    untouched before the last point and hold the statistics after it; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).owesAt () t.succ = (dat10 V c).owesAt () t.castSucc from rfl]
  rw [show (dat10 V c).Φ t.succ = Phi10 V c (t.val + 1) t.isLt from rfl, Phi10_succ]
  have hN : t.val < 16 := lt_of_lt_of_eq t.isLt (show cfg10.N = 16 from N_10)
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  rw [show (dat10 V c).leavesExact 2 t = owns (c : Thread nD τ) (st10_2 t) fullShare ((dat10 V c).after 2 t) from by
    unfold Dat.leavesExact; rw [liveAt10_2 t], after10_2]
  rw [show (dat10 V c).leavesExact 3 t = owns (c : Thread nD τ) (st10_3 t) fullShare ((dat10 V c).after 3 t) from by
    unfold Dat.leavesExact; rw [liveAt10_3 t], after10_3]
  rw [show (dat10 V c).leavesExact 4 t = owns (c : Thread nD τ) (st10_4 t) fullShare ((dat10 V c).after 4 t) from by
    unfold Dat.leavesExact; rw [liveAt10_4 t], after10_4]
  by_cases h0 : t.val = 0
  · have h1 : t.val ≠ 15 := by omega
    rw [Dat.leavesExact_idle (dat10 V c) 5 t (idleAt10_5 t h1) (noFlush10_5 t h1),
      Dat.leavesExact_idle (dat10 V c) 6 t (idleAt10_6 t h1) (noFlush10_6 t h1)]
    rw [accS10_zero V c t h0, accQ10_zero V c t h0]
    rw [Phi10_castSucc V c t, Phi10_zero V c _ _ h0, scr10_eq]
    iintro ⟨⟨Hg, ⟨⟨%dS, HS⟩, ⟨%dQ, HQ⟩⟩, Hrest⟩, Ho, ⟨%d0, H0⟩, ⟨%d1, H1⟩, ⟨%d2, H2⟩, ⟨%d3, H3⟩, ⟨%d4, H4⟩, ⟨%d5, H5⟩, ⟨%d6, H6⟩⟩
    iapply (sound_kernel10_A c Set.univ (grid10.coords t) _ _ _ _ _ _ _ _ _ _ _ _ _ _ (Memref.whole cc10_scratch0) (Memref.isWhole_whole _) (Memref.whole cc10_scratch1) (Memref.isWhole_whole _)
      ((hcond10_0 t).mpr h0) (fun h => h1 ((hcond10_1 t).mp h)) (iblk10 V c 0 t) (iblk10 V c 1 t) (iblk10 V c 2 t) (iblk10 V c 3 t) (iblk10 V c 4 t) _ _ dS dQ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HQ]; · iexact HQ
    iintro ⟨H0, H1, H2, H3, H4, H5, H6, HS, HQ⟩
    isplitl [Hg HS HQ Hrest]
    · isplitl [Hg]; · iexact Hg
      isplitl [HS HQ]
      · isplitl [HS]; · iexact HS
        iexact HQ
      iexact Hrest
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · by_cases h1 : t.val = 15
    · rw [show (dat10 V c).leavesExact 5 t = owns (c : Thread nD τ) (st10_5 t) fullShare ((dat10 V c).after 5 t) from by
        unfold Dat.leavesExact; rw [liveAt10_5 t h1], after10_5]
      rw [show (dat10 V c).leavesExact 6 t = owns (c : Thread nD τ) (st10_6 t) fullShare ((dat10 V c).after 6 t) from by
        unfold Dat.leavesExact; rw [liveAt10_6 t h1], after10_6]
      rw [accS10_pos V c t h0, accQ10_pos V c t h0]
      rw [Phi10_castSucc V c t, Phi10_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel10_C c Set.univ (grid10.coords t) _ _ _ _ _ _ _ _ _ _ _ _ _ _ (Memref.whole cc10_scratch0) (Memref.isWhole_whole _) (Memref.whole cc10_scratch1) (Memref.isWhole_whole _)
        (fun h => h0 ((hcond10_0 t).mp h)) ((hcond10_1 t).mpr h1) (iblk10 V c 0 t) (iblk10 V c 1 t) (iblk10 V c 2 t) (iblk10 V c 3 t) (iblk10 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat10 V c) 5 t (idleAt10_5 t h1) (noFlush10_5 t h1),
        Dat.leavesExact_idle (dat10 V c) 6 t (idleAt10_6 t h1) (noFlush10_6 t h1)]
      rw [accS10_pos V c t h0, accQ10_pos V c t h0]
      rw [Phi10_castSucc V c t, Phi10_pos V c _ _ h0]
      iintro ⟨⟨Hg, ⟨HS, HQ⟩, Hrest⟩, Ho, ⟨%d0, H0⟩, ⟨%d1, H1⟩, ⟨%d2, H2⟩, ⟨%d3, H3⟩, ⟨%d4, H4⟩, ⟨%d5, H5⟩, ⟨%d6, H6⟩⟩
      iapply (sound_kernel10_B c Set.univ (grid10.coords t) _ _ _ _ _ _ _ _ _ _ _ _ _ _ (Memref.whole cc10_scratch0) (Memref.isWhole_whole _) (Memref.whole cc10_scratch1) (Memref.isWhole_whole _)
        (fun h => h0 ((hcond10_0 t).mp h)) (fun h => h1 ((hcond10_1 t).mp h)) (iblk10 V c 0 t) (iblk10 V c 1 t) (iblk10 V c 2 t) (iblk10 V c 3 t) (iblk10 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      isplitl [HQ]; · iexact HQ
      iintro ⟨H0, H1, H2, H3, H4, H5, H6, HS, HQ⟩
      isplitl [Hg HS HQ Hrest]
      · isplitl [Hg]; · iexact Hg
        isplitl [HS HQ]
        · isplitl [HS]; · iexact HS
          iexact HQ
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Entering and leaving the region -/

/-- What the region is handed is the invariant before the first point. -/
theorem phi_in10 (c : Dev nD) :
    (iprop((∃ r, prngReg c r) ∗ Pipeline.scopedRest (Ix := Unit) (Name := ℕ) (U := UR sig nD τ) (Lvl := ℕ) (Val := Elt F) spec10 c) : sProp 𝕄)
      ⊢ (dat10 V c).Φ 0 := by
  rw [show (dat10 V c).Φ 0 = Phi10 V c 0 (Nat.zero_le _) from rfl, Phi10_zero V c 0 _ rfl]
  try exact Idealize.SL.BI.Entails.refl _

/-- After the last point the invariant gives it back: the scratch buffers' contents are forgotten. -/
theorem phi_out10 (c : Dev nD) :
    (dat10 V c).Φ (Fin.last cfg10.N)
      ⊢ (iprop((∃ r, prngReg c r) ∗ Pipeline.scopedRest (Ix := Unit) (Name := ℕ) (U := UR sig nD τ) (Lvl := ℕ) (Val := Elt F) spec10 c) : sProp 𝕄) := by
  have ht : (Fin.last cfg10.N).val ≠ 0 := by rw [Fin.val_last]; have : cfg10.N = 16 := N_10; omega
  rw [show (dat10 V c).Φ (Fin.last cfg10.N) = Phi10 V c (Fin.last cfg10.N).val (Nat.le_of_lt_succ (Fin.last cfg10.N).isLt) from rfl,
    Phi10_pos V c _ _ ht, scr10_eq]
  iintro ⟨Hg, ⟨HS, HQ⟩, Hrest⟩
  isplitl [Hg]; · iexact Hg
  isplitl [HS HQ]
  · isplitl [HS]; · iexists _; iexact HS
    iexists _; iexact HQ
  iexact Hrest

end Cert.KernelIdeal.Hand

end
-- ==== Proof.KI.Reg11Runs.lean ====
import proofs.«159011_j9938554322955_1_alg».proof.Proof.Gen.KernelIdeal.Launch
import proofs.«159011_j9938554322955_1_alg».proof.Proof.Gen.KernelIdeal.Skeleton
import proofs.«159011_j9938554322955_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second statistics kernel of a layer: what its three kinds of grid point share

The kernel visits sixteen blocks of 4096 rows. At every point it recomputes the block of the second linear
map's values z2 and adds the block's column sums of z2 and of z2 * z2 into two accumulators of 64 lanes that it
keeps from point to point; at the first point it clears the accumulators before adding; at the last point it also
stores mean = S * 2^(-16) and var = Q * 2^(-16) - mean * mean. -/

/-- The body's first test, from the grid index: the index is 0 (the accumulators are cleared). -/
noncomputable abbrev cond11_0 (i : grid11.Coords) : Prop := (Scalar.cmpi .ne (Scalar.extui (Scalar.cmpi .eq (BitVec.ofNat 32 (i 0).val) 0#32)) 0#32) = 1#1
/-- It holds at the first point only. -/
theorem hcond11_0 : ∀ t : Fin cfg11.N, cond11_0 (grid11.coords t) ↔ t.val % 16 = 0 :=
  (by decide +kernel : ∀ t : Fin grid11.N, cond11_0 (grid11.coords t) ↔ t.val % 16 = 0)

/-- The body's second test: the index is 15 (mean and variance are stored). -/
noncomputable abbrev cond11_1 (i : grid11.Coords) : Prop := k11_cond2 i = 1#1
/-- It holds at the last point only. -/
theorem hcond11_1 : ∀ t : Fin cfg11.N, cond11_1 (grid11.coords t) ↔ t.val % 16 = 15 :=
  (by decide +kernel : ∀ t : Fin grid11.N, cond11_1 (grid11.coords t) ↔ t.val % 16 = 15)

/-! ## Where the windows are idle -/

/-- Input window 0 is never idle. -/
theorem liveAt11_0 : ∀ t : Fin cfg11.N, cfg11.idle 0 (grid11.coords t) = false := fun _ => rfl
/-- Input window 1 is never idle. -/
theorem liveAt11_1 : ∀ t : Fin cfg11.N, cfg11.idle 1 (grid11.coords t) = false := fun _ => rfl
/-- Input window 2 is never idle. -/
theorem liveAt11_2 : ∀ t : Fin cfg11.N, cfg11.idle 2 (grid11.coords t) = false := fun _ => rfl
/-- Input window 3 is never idle. -/
theorem liveAt11_3 : ∀ t : Fin cfg11.N, cfg11.idle 3 (grid11.coords t) = false := fun _ => rfl
/-- Input window 4 is never idle. -/
theorem liveAt11_4 : ∀ t : Fin cfg11.N, cfg11.idle 4 (grid11.coords t) = false := fun _ => rfl
/-- Input window 5 is never idle. -/
theorem liveAt11_5 : ∀ t : Fin cfg11.N, cfg11.idle 5 (grid11.coords t) = false := fun _ => rfl
/-- Input window 6 is never idle. -/
theorem liveAt11_6 : ∀ t : Fin cfg11.N, cfg11.idle 6 (grid11.coords t) = false := fun _ => rfl
/-- Input window 7 is never idle. -/
theorem liveAt11_7 : ∀ t : Fin cfg11.N, cfg11.idle 7 (grid11.coords t) = false := fun _ => rfl
/-- Input window 8 is never idle. -/
theorem liveAt11_8 : ∀ t : Fin cfg11.N, cfg11.idle 8 (grid11.coords t) = false := fun _ => rfl
/-- Input window 9 is never idle. -/
theorem liveAt11_9 : ∀ t : Fin cfg11.N, cfg11.idle 9 (grid11.coords t) = false := fun _ => rfl
/-- Input window 10 is never idle. -/
theorem liveAt11_10 : ∀ t : Fin cfg11.N, cfg11.idle 10 (grid11.coords t) = false := fun _ => rfl
/-- Away from the last point nothing is stored into output 11: the window is idle there, -/
theorem idleAt11_11 : ∀ t : Fin cfg11.N, ¬cond11_1 (grid11.coords t) → cfg11.idle 11 (grid11.coords t) = true := by decide +kernel
/-- and its block is not written back there. -/
theorem noFlush11_11 : ∀ t : Fin cfg11.N, ¬cond11_1 (grid11.coords t) → (cfg11.win 11).flush t = false := by decide +kernel
/-- At the last point output 11 is stored: the window is live. -/
theorem liveAt11_11 : ∀ t : Fin cfg11.N, cond11_1 (grid11.coords t) → cfg11.idle 11 (grid11.coords t) = false := by decide +kernel
/-- Away from the last point nothing is stored into output 12: the window is idle there, -/
theorem idleAt11_12 : ∀ t : Fin cfg11.N, ¬cond11_1 (grid11.coords t) → cfg11.idle 12 (grid11.coords t) = true := by decide +kernel
/-- and its block is not written back there. -/
theorem noFlush11_12 : ∀ t : Fin cfg11.N, ¬cond11_1 (grid11.coords t) → (cfg11.win 12).flush t = false := by decide +kernel
/-- At the last point output 12 is stored: the window is live. -/
theorem liveAt11_12 : ∀ t : Fin cfg11.N, cond11_1 (grid11.coords t) → cfg11.idle 12 (grid11.coords t) = false := by decide +kernel

/-! ## The memrefs the body is called with -/

noncomputable abbrev ms11_0 (t : Fin cfg11.N) : Memref sig .tc .vmem S4096x64 .f32 := win11_0.stage (cfg11.slots t 0)
noncomputable abbrev hs11_0 (t : Fin cfg11.N) : (ms11_0 t).IsWhole := hstage11_0 ((cfg11.slots t 0).cast nbuf11_0)
noncomputable abbrev ms11_1 (t : Fin cfg11.N) : Memref sig .tc .vmem S4096x64 .f32 := win11_1.stage (cfg11.slots t 1)
noncomputable abbrev hs11_1 (t : Fin cfg11.N) : (ms11_1 t).IsWhole := hstage11_1 ((cfg11.slots t 1).cast nbuf11_1)
noncomputable abbrev ms11_2 (t : Fin cfg11.N) : Memref sig .tc .vmem S1x64 .f32 := win11_2.stage (cfg11.slots t 2)
noncomputable abbrev hs11_2 (t : Fin cfg11.N) : (ms11_2 t).IsWhole := hstage11_2 ((cfg11.slots t 2).cast nbuf11_2)
noncomputable abbrev ms11_3 (t : Fin cfg11.N) : Memref sig .tc .vmem S64x128 .f32 := win11_3.stage (cfg11.slots t 3)
noncomputable abbrev hs11_3 (t : Fin cfg11.N) : (ms11_3 t).IsWhole := hstage11_3 ((cfg11.slots t 3).cast nbuf11_3)
noncomputable abbrev ms11_4 (t : Fin cfg11.N) : Memref sig .tc .vmem S1x128 .f32 := win11_4.stage (cfg11.slots t 4)
noncomputable abbrev hs11_4 (t : Fin cfg11.N) : (ms11_4 t).IsWhole := hstage11_4 ((cfg11.slots t 4).cast nbuf11_4)
noncomputable abbrev ms11_5 (t : Fin cfg11.N) : Memref sig .tc .vmem S1x128 .f32 := win11_5.stage (cfg11.slots t 5)
noncomputable abbrev hs11_5 (t : Fin cfg11.N) : (ms11_5 t).IsWhole := hstage11_5 ((cfg11.slots t 5).cast nbuf11_5)
noncomputable abbrev ms11_6 (t : Fin cfg11.N) : Memref sig .tc .vmem S1x128 .f32 := win11_6.stage (cfg11.slots t 6)
noncomputable abbrev hs11_6 (t : Fin cfg11.N) : (ms11_6 t).IsWhole := hstage11_6 ((cfg11.slots t 6).cast nbuf11_6)
noncomputable abbrev ms11_7 (t : Fin cfg11.N) : Memref sig .tc .vmem S1x128 .f32 := win11_7.stage (cfg11.slots t 7)
noncomputable abbrev hs11_7 (t : Fin cfg11.N) : (ms11_7 t).IsWhole := hstage11_7 ((cfg11.slots t 7).cast nbuf11_7)
noncomputable abbrev ms11_8 (t : Fin cfg11.N) : Memref sig .tc .vmem S1x128 .f32 := win11_8.stage (cfg11.slots t 8)
noncomputable abbrev hs11_8 (t : Fin cfg11.N) : (ms11_8 t).IsWhole := hstage11_8 ((cfg11.slots t 8).cast nbuf11_8)
noncomputable abbrev ms11_9 (t : Fin cfg11.N) : Memref sig .tc .vmem S128x64 .f32 := win11_9.stage (cfg11.slots t 9)
noncomputable abbrev hs11_9 (t : Fin cfg11.N) : (ms11_9 t).IsWhole := hstage11_9 ((cfg11.slots t 9).cast nbuf11_9)
noncomputable abbrev ms11_10 (t : Fin cfg11.N) : Memref sig .tc .vmem S1x64 .f32 := win11_10.stage (cfg11.slots t 10)
noncomputable abbrev hs11_10 (t : Fin cfg11.N) : (ms11_10 t).IsWhole := hstage11_10 ((cfg11.slots t 10).cast nbuf11_10)
noncomputable abbrev ms11_11 (t : Fin cfg11.N) : Memref sig .tc .vmem S1x64 .f32 := win11_11.stage (cfg11.slots t 11)
noncomputable abbrev hs11_11 (t : Fin cfg11.N) : (ms11_11 t).IsWhole := hstage11_11 ((cfg11.slots t 11).cast nbuf11_11)
noncomputable abbrev ms11_12 (t : Fin cfg11.N) : Memref sig .tc .vmem S1x64 .f32 := win11_12.stage (cfg11.slots t 12)
noncomputable abbrev hs11_12 (t : Fin cfg11.N) : (ms11_12 t).IsWhole := hstage11_12 ((cfg11.slots t 12).cast nbuf11_12)
/-- The two accumulators: whole buffers of the kernel's own, passed beside the windows. -/
noncomputable abbrev scM11_0 : Memref sig .tc .vmem S1x64 .f32 := Memref.whole cc11_scratch0
noncomputable abbrev scM11_1 : Memref sig .tc .vmem S1x64 .f32 := Memref.whole cc11_scratch1
/-- The accumulators as views: what they hold is stated through these. -/
noncomputable abbrev VS11_0 : View sig .tc .vmem S1x64 .f32 := scM11_0.view
noncomputable abbrev VS11_1 : View sig .tc .vmem S1x64 .f32 := scM11_1.view
/-- One staging buffer of each output window, through which its contents are stated (the choice does not matter). -/
noncomputable abbrev VO11_11 : View sig .tc .vmem S1x64 .f32 := (Memref.whole cc11_stg11_0 : Memref sig .tc .vmem S1x64 .f32).view
noncomputable abbrev VO11_12 : View sig .tc .vmem S1x64 .f32 := (Memref.whole cc11_stg12_0 : Memref sig .tc .vmem S1x64 .f32).view

/-- The core's scoped buffers that are no staging buffer of this call: the two accumulators, as memrefs owned at some
    contents, and every other one unopened. -/
theorem scoped11_eq (c : Dev nD) :
    (Pipeline.scopedRest (Ix := Unit) (Name := ℕ) (U := UR sig nD τ) (Lvl := ℕ) (Val := Elt F) spec11 c : sProp 𝕄)
      = iprop(iprop((∃ d, owns (c : Thread nD τ) scM11_0 fullShare d) ∗ (∃ d, owns (c : Thread nD τ) scM11_1 fullShare d))
          ∗ Pipeline.scopedRestBut (Ix := Unit) (Name := ℕ) (U := UR sig nD τ) (Lvl := ℕ) (Val := Elt F) spec11 c [cc11_scratch0, cc11_scratch1]) := by
  rw [scopedRest11_split]; simp only [scM11_0, scM11_1, owns_whole]; try rfl

end Cert.KernelIdeal.Hand

end
-- ==== Proof.KI.Reg11RunA.lean ====
import proofs.«159011_j9938554322955_1_alg».proof.Proof.KI.Reg11Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the FIRST point (the index is 0): the accumulators, found at anything, are cleared and the block's column sums of z2 and z2 * z2
    added; nothing is stored into the two outputs, whose buffers are handed back as found.
    The statement: on whole memrefs, the eleven inputs at contents x0 ... x10, the body runs to any continuation that accepts the
    inputs as they were and each buffer it stored into with its stores applied, last first (the lists are what the run finds). -/
noncomputable def kernelRun11_A (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc11__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc11__stats2_kernel_eq_skeleton]; unfold cc11__stats2_kernel_skel
    simp only [k11_part1_eq_skeleton]; unfold k11_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.KernelIdeal.Hand

end
-- ==== Proof.KI.Reg11RunB.lean ====
import proofs.«159011_j9938554322955_1_alg».proof.Proof.KI.Reg11RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a MIDDLE point (the index is neither 0 nor 15): the block's column sums are added into the accumulators, found at xs0, xs1;
    nothing is stored into the two outputs, whose buffers are handed back as found.
    The statement: on whole memrefs, the eleven inputs at contents x0 ... x10, the body runs to any continuation that accepts the
    inputs as they were and each buffer it stored into with its stores applied, last first (the lists are what the run finds). -/
noncomputable def kernelRun11_B (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (LS0 : List (View.Piece (Elt F) S1x64 .f32)), { LS1 : List (View.Piece (Elt F) S1x64 .f32) //
      ∀ (xi11 xi12 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc11__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun xi11 xi12 E K => ?run⟩
  case run =>
    simp only [cc11__stats2_kernel_eq_skeleton]; unfold cc11__stats2_kernel_skel
    simp only [k11_part1_eq_skeleton]; unfold k11_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [HS0]; · iexists _; iexact HS0
    iexists _; iexact HS1

end Cert.KernelIdeal.Hand

end
-- ==== Proof.KI.Reg11RunC.lean ====
import proofs.«159011_j9938554322955_1_alg».proof.Proof.KI.Reg11RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the LAST point (the index is 15): the block's column sums are added into the accumulators, found at xs0, xs1, and then
    mean = S * 2^(-16) and var = Q * 2^(-16) - mean * mean are stored into the two outputs, found at anything.
    The statement: on whole memrefs, the eleven inputs at contents x0 ... x10, the body runs to any continuation that accepts the
    inputs as they were and each buffer it stored into with its stores applied, last first (the lists are what the run finds). -/
noncomputable def kernelRun11_C (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    Σ' (L11 : List (View.Piece (Elt F) S1x64 .f32)) (L12 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc11__stats2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc11__stats2_kernel_eq_skeleton]; unfold cc11__stats2_kernel_skel
    simp only [k11_part1_eq_skeleton]; unfold k11_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hfs0; obtain rfl := harg15.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [HS0]; · iexists _; iexact HS0
    iexists _; iexact HS1

end Cert.KernelIdeal.Hand

end
-- ==== Proof.KI.Reg11.lean ====
import proofs.«159011_j9938554322955_1_alg».proof.Proof.KI.Reg11RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second statistics kernel of a layer, at the contents V its region is entered with -/

/-- Window w's block at point t, read off its array as the region finds it. -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-! ## Every input's staging buffer holds its block at every point, fetched there or not -/

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)
theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)
theorem before11_7_of {c : Dev nD} (dat : Dat τ (Elt F) Unit ℕ (UR sig nD τ) ℕ cfg11 c) (hA : dat.A 7 = V c (Pipeline.arrRef spec11 7))
    (hafter : ∀ t, dat.after 7 t = iblk11 V c 7 t) (t : Fin cfg11.N) (d) : dat.before 7 t d = iblk11 V c 7 t :=
  (dat.before_in_eq_fetched 7 rfl (fun _ => rfl) (fun _ _ _ => rfl) (fun t => by rw [hafter]; unfold Dat.blockOf iblk11; rw [hA]; try rfl) t d).trans
    (by unfold Dat.fetched Dat.blockOf iblk11; rw [hA]; try rfl)
theorem before11_8_of {c : Dev nD} (dat : Dat τ (Elt F) Unit ℕ (UR sig nD τ) ℕ cfg11 c) (hA : dat.A 8 = V c (Pipeline.arrRef spec11 8))
    (hafter : ∀ t, dat.after 8 t = iblk11 V c 8 t) (t : Fin cfg11.N) (d) : dat.before 8 t d = iblk11 V c 8 t :=
  (dat.before_in_eq_fetched 8 rfl (fun _ => rfl) (fun _ _ _ => rfl) (fun t => by rw [hafter]; unfold Dat.blockOf iblk11; rw [hA]; try rfl) t d).trans
    (by unfold Dat.fetched Dat.blockOf iblk11; rw [hA]; try rfl)
theorem before11_9_of {c : Dev nD} (dat : Dat τ (Elt F) Unit ℕ (UR sig nD τ) ℕ cfg11 c) (hA : dat.A 9 = V c (Pipeline.arrRef spec11 9))
    (hafter : ∀ t, dat.after 9 t = iblk11 V c 9 t) (t : Fin cfg11.N) (d) : dat.before 9 t d = iblk11 V c 9 t :=
  (dat.before_in_eq_fetched 9 rfl (fun _ => rfl) (fun _ _ _ => rfl) (fun t => by rw [hafter]; unfold Dat.blockOf iblk11; rw [hA]; try rfl) t d).trans
    (by unfold Dat.fetched Dat.blockOf iblk11; rw [hA]; try rfl)
theorem before11_10_of {c : Dev nD} (dat : Dat τ (Elt F) Unit ℕ (UR sig nD τ) ℕ cfg11 c) (hA : dat.A 10 = V c (Pipeline.arrRef spec11 10))
    (hafter : ∀ t, dat.after 10 t = iblk11 V c 10 t) (t : Fin cfg11.N) (d) : dat.before 10 t d = iblk11 V c 10 t :=
  (dat.before_in_eq_fetched 10 rfl (fun _ => rfl) (fun _ _ _ => rfl) (fun t => by rw [hafter]; unfold Dat.blockOf iblk11; rw [hA]; try rfl) t d).trans
    (by unfold Dat.fetched Dat.blockOf iblk11; rw [hA]; try rfl)

/-! ## What each kind of point leaves in the accumulators and in the outputs -/

/-- Case A: the stores into accumulator 0 cover it. -/
theorem scover11_A_0 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1, y ∈ pc.1.set :=
  View.cover_of_tiledL (kernelRun11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1 S1x64.size (by sl_kernel_rfl) y

/-- Case A: what the point leaves in accumulator 0: its stores read back. -/
noncomputable def sout11_A_0 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS11_0.read (Elt F) (VS11_0.writes (Elt F) VS11_0.junk (kernelRun11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1)

/-- Case A: the stores into accumulator 1 cover it. -/
theorem scover11_A_1 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (y : S1x64.Idx) :
    ∃ pc ∈ (kernelRun11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1, y ∈ pc.1.set :=
  View.cover_of_tiledL (kernelRun11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1 S1x64.size (by sl_kernel_rfl) y

/-- Case A: what the point leaves in accumulator 1: its stores read back. -/
noncomputable def sout11_A_1 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) : Vec F S1x64 .f32 :=
  VS11_1.read (Elt F) (VS11_1.writes (Elt F) VS11_1.junk (kernelRun11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1)

/-- Case B: the stores into accumulator 0 cover it. -/
theorem scover11_B_0 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- Case B: what the point leaves in accumulator 0: its stores read back. -/
noncomputable def sout11_B_0 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS11_0.read (Elt F) (VS11_0.writes (Elt F) VS11_0.junk (kernelRun11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- Case B: the stores into accumulator 1 cover it. -/
theorem scover11_B_1 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- Case B: what the point leaves in accumulator 1: its stores read back. -/
noncomputable def sout11_B_1 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS11_1.read (Elt F) (VS11_1.writes (Elt F) VS11_1.junk (kernelRun11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- At the last point the stores into output 11 cover its block. -/
theorem cover11_C_11 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1, y ∈ pc.1.set :=
  View.cover_of_tiledL (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1 S1x64.size (by sl_kernel_rfl) y

/-- What the last point leaves in output 11's staging buffer: its stores read back. -/
noncomputable def out11_C_11 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO11_11.read (Elt F) (VO11_11.writes (Elt F) VO11_11.junk (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).1)

/-- At the last point the stores into output 12 cover its block. -/
theorem cover11_C_12 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1, y ∈ pc.1.set :=
  View.cover_of_tiledL (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1 S1x64.size (by sl_kernel_rfl) y

/-- What the last point leaves in output 12's staging buffer: its stores read back. -/
noncomputable def out11_C_12 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VO11_12.read (Elt F) (VO11_12.writes (Elt F) VO11_12.junk (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.1)

/-- Case C: the stores into accumulator 0 cover it. -/
theorem scover11_C_0 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1, y ∈ pc.1.set :=
  View.cover_of_tiledL (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1 S1x64.size (by sl_kernel_rfl) y

/-- Case C: what the point leaves in accumulator 0: its stores read back. -/
noncomputable def sout11_C_0 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS11_0.read (Elt F) (VS11_0.writes (Elt F) VS11_0.junk (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.1)

/-- Case C: the stores into accumulator 1 cover it. -/
theorem scover11_C_1 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) (y : S1x64.Idx) :
    ∃ pc ∈ (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1, y ∈ pc.1.set :=
  View.cover_of_tiledL (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1 S1x64.size (by sl_kernel_rfl) y

/-- Case C: what the point leaves in accumulator 1: its stores read back. -/
noncomputable def sout11_C_1 (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) : Vec F S1x64 .f32 :=
  VS11_1.read (Elt F) (VS11_1.writes (Elt F) VS11_1.junk (kernelRun11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1).2.2.2.1)

/-! ## The running sums -/

/-- THE ACCUMULATION. What the two accumulators hold after the body at position n: at the first point the cleared
    accumulators plus the block's column sums; afterwards what position n - 1 left plus the block's column sums. -/
noncomputable def outsAt11 (c : Dev nD) : (n : ℕ) → n < cfg11.N → Vec F S1x64 .f32 × Vec F S1x64 .f32
  | 0, hn => (sout11_A_0 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) (ms11_4 ⟨0, hn⟩) (hs11_4 ⟨0, hn⟩) (ms11_5 ⟨0, hn⟩) (hs11_5 ⟨0, hn⟩) (ms11_6 ⟨0, hn⟩) (hs11_6 ⟨0, hn⟩) (ms11_7 ⟨0, hn⟩) (hs11_7 ⟨0, hn⟩) (ms11_8 ⟨0, hn⟩) (hs11_8 ⟨0, hn⟩) (ms11_9 ⟨0, hn⟩) (hs11_9 ⟨0, hn⟩) (ms11_10 ⟨0, hn⟩) (hs11_10 ⟨0, hn⟩) (ms11_11 ⟨0, hn⟩) (hs11_11 ⟨0, hn⟩) (ms11_12 ⟨0, hn⟩) (hs11_12 ⟨0, hn⟩) scM11_0 (Memref.isWhole_whole _) scM11_1 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩) (iblk11 V c 3 ⟨0, hn⟩) (iblk11 V c 4 ⟨0, hn⟩) (iblk11 V c 5 ⟨0, hn⟩) (iblk11 V c 6 ⟨0, hn⟩) (iblk11 V c 7 ⟨0, hn⟩) (iblk11 V c 8 ⟨0, hn⟩) (iblk11 V c 9 ⟨0, hn⟩) (iblk11 V c 10 ⟨0, hn⟩), sout11_A_1 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) (ms11_4 ⟨0, hn⟩) (hs11_4 ⟨0, hn⟩) (ms11_5 ⟨0, hn⟩) (hs11_5 ⟨0, hn⟩) (ms11_6 ⟨0, hn⟩) (hs11_6 ⟨0, hn⟩) (ms11_7 ⟨0, hn⟩) (hs11_7 ⟨0, hn⟩) (ms11_8 ⟨0, hn⟩) (hs11_8 ⟨0, hn⟩) (ms11_9 ⟨0, hn⟩) (hs11_9 ⟨0, hn⟩) (ms11_10 ⟨0, hn⟩) (hs11_10 ⟨0, hn⟩) (ms11_11 ⟨0, hn⟩) (hs11_11 ⟨0, hn⟩) (ms11_12 ⟨0, hn⟩) (hs11_12 ⟨0, hn⟩) scM11_0 (Memref.isWhole_whole _) scM11_1 (Memref.isWhole_whole _) ((hcond11_0 ⟨0, hn⟩).mpr (Nat.zero_mod _)) (fun h => (fun h => by (try dsimp only at h); omega) ((hcond11_1 ⟨0, hn⟩).mp h)) (iblk11 V c 0 ⟨0, hn⟩) (iblk11 V c 1 ⟨0, hn⟩) (iblk11 V c 2 ⟨0, hn⟩) (iblk11 V c 3 ⟨0, hn⟩) (iblk11 V c 4 ⟨0, hn⟩) (iblk11 V c 5 ⟨0, hn⟩) (iblk11 V c 6 ⟨0, hn⟩) (iblk11 V c 7 ⟨0, hn⟩) (iblk11 V c 8 ⟨0, hn⟩) (iblk11 V c 9 ⟨0, hn⟩) (iblk11 V c 10 ⟨0, hn⟩))
  | n + 1, hn =>
    if h1 : (n + 1) % 16 = 15 then
      (sout11_C_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (ms11_6 ⟨n + 1, hn⟩) (hs11_6 ⟨n + 1, hn⟩) (ms11_7 ⟨n + 1, hn⟩) (hs11_7 ⟨n + 1, hn⟩) (ms11_8 ⟨n + 1, hn⟩) (hs11_8 ⟨n + 1, hn⟩) (ms11_9 ⟨n + 1, hn⟩) (hs11_9 ⟨n + 1, hn⟩) (ms11_10 ⟨n + 1, hn⟩) (hs11_10 ⟨n + 1, hn⟩) (ms11_11 ⟨n + 1, hn⟩) (hs11_11 ⟨n + 1, hn⟩) (ms11_12 ⟨n + 1, hn⟩) (hs11_12 ⟨n + 1, hn⟩) scM11_0 (Memref.isWhole_whole _) scM11_1 (Memref.isWhole_whole _) (fun h => (fun h => by have hN : n + 1 < 16 := lt_of_lt_of_eq hn (show cfg11.N = 16 from N_11); (try dsimp only at h); omega) ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (iblk11 V c 3 ⟨n + 1, hn⟩) (iblk11 V c 4 ⟨n + 1, hn⟩) (iblk11 V c 5 ⟨n + 1, hn⟩) (iblk11 V c 6 ⟨n + 1, hn⟩) (iblk11 V c 7 ⟨n + 1, hn⟩) (iblk11 V c 8 ⟨n + 1, hn⟩) (iblk11 V c 9 ⟨n + 1, hn⟩) (iblk11 V c 10 ⟨n + 1, hn⟩) (outsAt11 c n (Nat.lt_of_succ_lt hn)).1 (outsAt11 c n (Nat.lt_of_succ_lt hn)).2, sout11_C_1 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (ms11_6 ⟨n + 1, hn⟩) (hs11_6 ⟨n + 1, hn⟩) (ms11_7 ⟨n + 1, hn⟩) (hs11_7 ⟨n + 1, hn⟩) (ms11_8 ⟨n + 1, hn⟩) (hs11_8 ⟨n + 1, hn⟩) (ms11_9 ⟨n + 1, hn⟩) (hs11_9 ⟨n + 1, hn⟩) (ms11_10 ⟨n + 1, hn⟩) (hs11_10 ⟨n + 1, hn⟩) (ms11_11 ⟨n + 1, hn⟩) (hs11_11 ⟨n + 1, hn⟩) (ms11_12 ⟨n + 1, hn⟩) (hs11_12 ⟨n + 1, hn⟩) scM11_0 (Memref.isWhole_whole _) scM11_1 (Memref.isWhole_whole _) (fun h => (fun h => by have hN : n + 1 < 16 := lt_of_lt_of_eq hn (show cfg11.N = 16 from N_11); (try dsimp only at h); omega) ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (iblk11 V c 3 ⟨n + 1, hn⟩) (iblk11 V c 4 ⟨n + 1, hn⟩) (iblk11 V c 5 ⟨n + 1, hn⟩) (iblk11 V c 6 ⟨n + 1, hn⟩) (iblk11 V c 7 ⟨n + 1, hn⟩) (iblk11 V c 8 ⟨n + 1, hn⟩) (iblk11 V c 9 ⟨n + 1, hn⟩) (iblk11 V c 10 ⟨n + 1, hn⟩) (outsAt11 c n (Nat.lt_of_succ_lt hn)).1 (outsAt11 c n (Nat.lt_of_succ_lt hn)).2)
    else
      (sout11_B_0 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (ms11_6 ⟨n + 1, hn⟩) (hs11_6 ⟨n + 1, hn⟩) (ms11_7 ⟨n + 1, hn⟩) (hs11_7 ⟨n + 1, hn⟩) (ms11_8 ⟨n + 1, hn⟩) (hs11_8 ⟨n + 1, hn⟩) (ms11_9 ⟨n + 1, hn⟩) (hs11_9 ⟨n + 1, hn⟩) (ms11_10 ⟨n + 1, hn⟩) (hs11_10 ⟨n + 1, hn⟩) (ms11_11 ⟨n + 1, hn⟩) (hs11_11 ⟨n + 1, hn⟩) (ms11_12 ⟨n + 1, hn⟩) (hs11_12 ⟨n + 1, hn⟩) scM11_0 (Memref.isWhole_whole _) scM11_1 (Memref.isWhole_whole _) (fun h => (fun h => by have hN : n + 1 < 16 := lt_of_lt_of_eq hn (show cfg11.N = 16 from N_11); (try dsimp only at h); omega) ((hcond11_0 ⟨n + 1, hn⟩).mp h)) (fun h => h1 ((hcond11_1 ⟨n + 1, hn⟩).mp h)) (iblk11 V c 0 ⟨n + 1, hn⟩) (iblk11 V c 1 ⟨n + 1, hn⟩) (iblk11 V c 2 ⟨n + 1, hn⟩) (iblk11 V c 3 ⟨n + 1, hn⟩) (iblk11 V c 4 ⟨n + 1, hn⟩) (iblk11 V c 5 ⟨n + 1, hn⟩) (iblk11 V c 6 ⟨n + 1, hn⟩) (iblk11 V c 7 ⟨n + 1, hn⟩) (iblk11 V c 8 ⟨n + 1, hn⟩) (iblk11 V c 9 ⟨n + 1, hn⟩) (iblk11 V c 10 ⟨n + 1, hn⟩) (outsAt11 c n (Nat.lt_of_succ_lt hn)).1 (outsAt11 c n (Nat.lt_of_succ_lt hn)).2, sout11_B_1 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (ms11_6 ⟨n + 1, hn⟩) (hs11_6 ⟨n + 1, hn⟩) (ms11_7 ⟨n + 1, hn⟩) (hs11_7 ⟨n + 1, hn⟩) (ms11_8 ⟨n + 1, hn⟩) (hs11_8 ⟨n + 1, hn⟩) (ms11_9 ⟨n + 1, hn⟩) (hs11_9 ⟨n + 1, hn⟩) (ms11_10 ⟨n + 1, hn⟩) (hs11_10 ⟨n + 1, hn⟩) (ms11_11 ⟨n + 1, hn⟩) (hs11_11 ⟨n + 1, hn⟩) (ms11_12 ⟨n + 1, hn⟩) (hs11_12 ⟨n + 1, hn⟩) scM11_0 (Memref.isWhole_whole _) scM11_1 (Memref.isWhole_whole _) (fun h => (fun h => by have hN : n + 1 < 16 := lt_of_lt_of_eq hn (show cfg11.N = 16 from N_11); (try dsimp only at h); omega) ((hcond11_0 ⟨n + 1, hn⟩).mp h)) (fun h => h1 ((hcond11_1 ⟨n + 1, hn⟩).mp h)) (iblk11 V c 0 ⟨n + 1, hn⟩) (iblk11 V c 1 ⟨n + 1, hn⟩) (iblk11 V c 2 ⟨n + 1, hn⟩) (iblk11 V c 3 ⟨n + 1, hn⟩) (iblk11 V c 4 ⟨n + 1, hn⟩) (iblk11 V c 5 ⟨n + 1, hn⟩) (iblk11 V c 6 ⟨n + 1, hn⟩) (iblk11 V c 7 ⟨n + 1, hn⟩) (iblk11 V c 8 ⟨n + 1, hn⟩) (iblk11 V c 9 ⟨n + 1, hn⟩) (iblk11 V c 10 ⟨n + 1, hn⟩) (outsAt11 c n (Nat.lt_of_succ_lt hn)).1 (outsAt11 c n (Nat.lt_of_succ_lt hn)).2)

/-- The running sums at the first point. -/
theorem outsAt11_A (c : Dev nD) (t : Fin cfg11.N) (h0 : t.val % 16 = 0) (h1 : ¬t.val % 16 = 15) :
    outsAt11 V c t.val t.isLt = (sout11_A_0 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) ((hcond11_0 t).mpr h0) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t), sout11_A_1 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) ((hcond11_0 t).mpr h0) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t)) := by
  obtain ⟨n, hn⟩ := t
  cases n with
  | zero => exact rfl
  | succ n => exact (by exfalso; have hN : n + 1 < 16 := lt_of_lt_of_eq hn (show cfg11.N = 16 from N_11); (try dsimp only at h0); omega)

/-- The running sums at a middle point: over what the point before left. -/
theorem outsAt11_B (c : Dev nD) (t : Fin cfg11.N) (h0 : ¬t.val % 16 = 0) (h1 : ¬t.val % 16 = 15) :
    outsAt11 V c t.val t.isLt = (sout11_B_0 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2, sout11_B_1 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- The running sums at the last point: over what the point before left. -/
theorem outsAt11_C (c : Dev nD) (t : Fin cfg11.N) (h0 : ¬t.val % 16 = 0) (h1 : t.val % 16 = 15) :
    outsAt11 V c t.val t.isLt = (sout11_C_0 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2, sout11_C_1 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- What the two outputs' staging buffers hold after the body at the last point: mean and variance from the running sums.
    (At every other point the windows are idle and this is not consulted.) -/
noncomputable def outs11 (c : Dev nD) (t : Fin cfg11.N) : Vec F S1x64 .f32 × Vec F S1x64 .f32 :=
  if h1 : t.val % 16 = 15 then
    (out11_C_11 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => (fun h => by omega) ((hcond11_0 t).mp h)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2, out11_C_12 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => (fun h => by omega) ((hcond11_0 t).mp h)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2)
  else (k11_pay6 (F := F), k11_pay7 (F := F))

theorem outs11_C (c : Dev nD) (t : Fin cfg11.N) (h0 : ¬t.val % 16 = 0) (h1 : t.val % 16 = 15) :
    outs11 V c t = (out11_C_11 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2, out11_C_12 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (ms11_8 t) (hs11_8 t) (ms11_9 t) (hs11_9 t) (ms11_10 t) (hs11_10 t) (ms11_11 t) (hs11_11 t) (ms11_12 t) (hs11_12 t) scM11_0 (Memref.isWhole_whole _) scM11_1 (Memref.isWhole_whole _) (fun h => h0 ((hcond11_0 t).mp h)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (outsAt11 V c (t.val - 1) (Nat.lt_of_le_of_lt (Nat.sub_le _ _) t.isLt)).1 (outsAt11 V c (t.val - 1) (Nat.lt_of_le_of_lt (Nat.sub_le _ _) t.isLt)).2) :=
  (dif_pos h1).trans rfl

/-! ## The invariant between points -/

/-- The region invariant before position n: the generator register at some state, the two accumulators — at anything before
    the first point, afterwards at the running sums the point before left —, and every other scoped buffer unopened. -/
noncomputable def PhiS11 (c : Dev nD) : (n : ℕ) → n ≤ cfg11.N → sProp 𝕄
  | 0, _ => iprop((∃ r, prngReg c r) ∗ iprop((∃ d, owns (c : Thread nD τ) scM11_0 fullShare d) ∗ (∃ d, owns (c : Thread nD τ) scM11_1 fullShare d)) ∗ Pipeline.scopedRestBut (Ix := Unit) (Name := ℕ) (U := UR sig nD τ) (Lvl := ℕ) (Val := Elt F) spec11 c [cc11_scratch0, cc11_scratch1])
  | n + 1, hn => iprop((∃ r, prngReg c r) ∗ iprop(owns (c : Thread nD τ) scM11_0 fullShare ((outsAt11 V c n hn).1) ∗ owns (c : Thread nD τ) scM11_1 fullShare ((outsAt11 V c n hn).2)) ∗ Pipeline.scopedRestBut (Ix := Unit) (Name := ℕ) (U := UR sig nD τ) (Lvl := ℕ) (Val := Elt F) spec11 c [cc11_scratch0, cc11_scratch1])

theorem PhiS11_zero (c : Dev nD) (n : ℕ) (h : n ≤ cfg11.N) (hz : n = 0) :
    PhiS11 V c n h = iprop((∃ r, prngReg c r) ∗ iprop((∃ d, owns (c : Thread nD τ) scM11_0 fullShare d) ∗ (∃ d, owns (c : Thread nD τ) scM11_1 fullShare d)) ∗ Pipeline.scopedRestBut (Ix := Unit) (Name := ℕ) (U := UR sig nD τ) (Lvl := ℕ) (Val := Elt F) spec11 c [cc11_scratch0, cc11_scratch1]) := by
  subst hz; rfl

theorem PhiS11_succ (c : Dev nD) (n : ℕ) (hn : n < cfg11.N) :
    PhiS11 V c (n + 1) hn = iprop((∃ r, prngReg c r) ∗ iprop(owns (c : Thread nD τ) scM11_0 fullShare ((outsAt11 V c n hn).1) ∗ owns (c : Thread nD τ) scM11_1 fullShare ((outsAt11 V c n hn).2)) ∗ Pipeline.scopedRestBut (Ix := Unit) (Name := ℕ) (U := UR sig nD τ) (Lvl := ℕ) (Val := Elt F) spec11 c [cc11_scratch0, cc11_scratch1]) := rfl

theorem PhiS11_pos (c : Dev nD) (n : ℕ) (h : n ≤ cfg11.N) (hz : n ≠ 0) :
    PhiS11 V c n h = iprop((∃ r, prngReg c r) ∗ iprop(owns (c : Thread nD τ) scM11_0 fullShare ((outsAt11 V c (n - 1) (by omega)).1) ∗ owns (c : Thread nD τ) scM11_1 fullShare ((outsAt11 V c (n - 1) (by omega)).2)) ∗ Pipeline.scopedRestBut (Ix := Unit) (Name := ℕ) (U := UR sig nD τ) (Lvl := ℕ) (Val := Elt F) spec11 c [cc11_scratch0, cc11_scratch1]) := by
  cases n with
  | zero => exact absurd rfl hz
  | succ n => rfl

/-! ## The proof data -/

/-- The proof data of the call on core c: the arrays as the region finds them; after the body each input's buffer at its
    block, the outputs' at mean and variance of the running sums; the invariant above; nothing owed; full shares. -/
noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => iblk11 V c 8 t
    | ⟨9, _⟩ => iblk11 V c 9 t
    | ⟨10, _⟩ => iblk11 V c 10 t
    | ⟨11, _⟩ => (outs11 V c t).1
    | ⟨12, _⟩ => (outs11 V c t).2
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem PhiS11_castSucc (c : Dev nD) (t : Fin cfg11.N) :
    (dat11 V c).Φ t.castSucc = PhiS11 V c t.val (Nat.le_of_lt t.isLt) := by
  dsimp only [dat11]; simp only [Fin.coe_castSucc]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t = iblk11 V c 7 t := by dsimp only [dat11]
theorem after11_8 (c : Dev nD) (t : Fin cfg11.N) : (dat11 V c).after 8 t = iblk11 V c 8 t := by dsimp only [dat11]
theorem after11_9 (c : Dev nD) (t : Fin cfg11.N) : (dat11 V c).after 9 t = iblk11 V c 9 t := by dsimp only [dat11]
theorem after11_10 (c : Dev nD) (t : Fin cfg11.N) : (dat11 V c).after 10 t = iblk11 V c 10 t := by dsimp only [dat11]
theorem after11_11 (c : Dev nD) (t : Fin cfg11.N) : (dat11 V c).after 11 t = (outs11 V c t).1 := by dsimp only [dat11]
theorem after11_12 (c : Dev nD) (t : Fin cfg11.N) : (dat11 V c).after 12 t = (outs11 V c t).2 := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d
theorem before11_7 (c : Dev nD) (t : Fin cfg11.N) (d) : (dat11 V c).before 7 t d = iblk11 V c 7 t :=
  before11_7_of V (dat11 V c) (A_eq11 V c 7) (after11_7 V c) t d
theorem before11_8 (c : Dev nD) (t : Fin cfg11.N) (d) : (dat11 V c).before 8 t d = iblk11 V c 8 t :=
  before11_8_of V (dat11 V c) (A_eq11 V c 8) (after11_8 V c) t d
theorem before11_9 (c : Dev nD) (t : Fin cfg11.N) (d) : (dat11 V c).before 9 t d = iblk11 V c 9 t :=
  before11_9_of V (dat11 V c) (A_eq11 V c 9) (after11_9 V c) t d
theorem before11_10 (c : Dev nD) (t : Fin cfg11.N) (d) : (dat11 V c).before 10 t d = iblk11 V c 10 t :=
  before11_10_of V (dat11 V c) (A_eq11 V c 10) (after11_10 V c) t d

/-! ## The body obligation, at a generic point -/

/-- What the body is called with at point t, -/
noncomputable def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d))
    ∗ (∃ d, owns (c : Thread nD τ) (ms11_5 t) fullShare ((dat11 V c).before 5 t d))
    ∗ (∃ d, owns (c : Thread nD τ) (ms11_6 t) fullShare ((dat11 V c).before 6 t d))
    ∗ (∃ d, owns (c : Thread nD τ) (ms11_7 t) fullShare ((dat11 V c).before 7 t d))
    ∗ (∃ d, owns (c : Thread nD τ) (ms11_8 t) fullShare ((dat11 V c).before 8 t d))
    ∗ (∃ d, owns (c : Thread nD τ) (ms11_9 t) fullShare ((dat11 V c).before 9 t d))
    ∗ (∃ d, owns (c : Thread nD τ) (ms11_10 t) fullShare ((dat11 V c).before 10 t d))
    ∗ (∃ d, owns (c : Thread nD τ) (ms11_11 t) fullShare ((dat11 V c).before 11 t d))
    ∗ (∃ d, owns (c : Thread nD τ) (ms11_12 t) fullShare ((dat11 V c).before 12 t d)))

/-- and what it returns. -/
noncomputable def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t
    ∗ (dat11 V c).leavesExact 4 t
    ∗ (dat11 V c).leavesExact 5 t
    ∗ (dat11 V c).leavesExact 6 t
    ∗ (dat11 V c).leavesExact 7 t
    ∗ (dat11 V c).leavesExact 8 t
    ∗ (dat11 V c).leavesExact 9 t
    ∗ (dat11 V c).leavesExact 10 t
    ∗ (dat11 V c).leavesExact 11 t
    ∗ (dat11 V c).leavesExact 12 t)

set_option maxHeartbeats 8000000 in
/-- The body at any point. The inputs' memrefs hold their blocks. At the first point the invariant hands the body the
    accumulators at anything and takes them back cleared-and-added; at a later point it hands them at the running sums the
    point before left and takes them back with this block's sums added. Away from the last point the outputs' buffers are
    handed back as found (the windows are idle there); at the last point they are left at mean and variance. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6, before11_7, before11_8, before11_9, before11_10]
  rw [show (dat11 V c).owesAt () t.succ = (dat11 V c).owesAt () t.castSucc from rfl]
  rw [show (dat11 V c).Φ t.succ = PhiS11 V c (t.val + 1) t.isLt from rfl, PhiS11_succ]
  have hN : t.val < 16 := lt_of_lt_of_eq t.isLt (show cfg11.N = 16 from N_11)
  rw [show (dat11 V c).leavesExact 0 t = owns (c : Thread nD τ) (ms11_0 t) fullShare ((dat11 V c).after 0 t) from by
    unfold Dat.leavesExact; rw [liveAt11_0 t], after11_0]
  rw [show (dat11 V c).leavesExact 1 t = owns (c : Thread nD τ) (ms11_1 t) fullShare ((dat11 V c).after 1 t) from by
    unfold Dat.leavesExact; rw [liveAt11_1 t], after11_1]
  rw [show (dat11 V c).leavesExact 2 t = owns (c : Thread nD τ) (ms11_2 t) fullShare ((dat11 V c).after 2 t) from by
    unfold Dat.leavesExact; rw [liveAt11_2 t], after11_2]
  rw [show (dat11 V c).leavesExact 3 t = owns (c : Thread nD τ) (ms11_3 t) fullShare ((dat11 V c).after 3 t) from by
    unfold Dat.leavesExact; rw [liveAt11_3 t], after11_3]
  rw [show (dat11 V c).leavesExact 4 t = owns (c : Thread nD τ) (ms11_4 t) fullShare ((dat11 V c).after 4 t) from by
    unfold Dat.leavesExact; rw [liveAt11_4 t], after11_4]
  rw [show (dat11 V c).leavesExact 5 t = owns (c : Thread nD τ) (ms11_5 t) fullShare ((dat11 V c).after 5 t) from by
    unfold Dat.leavesExact; rw [liveAt11_5 t], after11_5]
  rw [show (dat11 V c).leavesExact 6 t = owns (c : Thread nD τ) (ms11_6 t) fullShare ((dat11 V c).after 6 t) from by
    unfold Dat.leavesExact; rw [liveAt11_6 t], after11_6]
  rw [show (dat11 V c).leavesExact 7 t = owns (c : Thread nD τ) (ms11_7 t) fullShare ((dat11 V c).after 7 t) from by
    unfold Dat.leavesExact; rw [liveAt11_7 t], after11_7]
  rw [show (dat11 V c).leavesExact 8 t = owns (c : Thread nD τ) (ms11_8 t) fullShare ((dat11 V c).after 8 t) from by
    unfold Dat.leavesExact; rw [liveAt11_8 t], after11_8]
  rw [show (dat11 V c).leavesExact 9 t = owns (c : Thread nD τ) (ms11_9 t) fullShare ((dat11 V c).after 9 t) from by
    unfold Dat.leavesExact; rw [liveAt11_9 t], after11_9]
  rw [show (dat11 V c).leavesExact 10 t = owns (c : Thread nD τ) (ms11_10 t) fullShare ((dat11 V c).after 10 t) from by
    unfold Dat.leavesExact; rw [liveAt11_10 t], after11_10]
  by_cases h1 : t.val % 16 = 15
  · have h0 : ¬t.val % 16 = 0 := by omega
    have hz : t.val ≠ 0 := by omega
    rw [show (dat11 V c).leavesExact 11 t = owns (c : Thread nD τ) (ms11_11 t) fullShare ((dat11 V c).after 11 t) from by
      unfold Dat.leavesExact; rw [liveAt11_11 t ((hcond11_1 t).mpr h1)], after11_11]
    rw [show (dat11 V c).leavesExact 12 t = owns (c : Thread nD τ) (ms11_12 t) fullShare ((dat11 V c).after 12 t) from by
      unfold Dat.leavesExact; rw [liveAt11_12 t ((hcond11_1 t).mpr h1)], after11_12]
    rw [outsAt11_C V c t h0 h1, outs11_C V c t h0 h1]
    unfold out11_C_11 out11_C_12 sout11_C_0 sout11_C_1; (try dsimp only)
    rw [PhiS11_castSucc V c t, PhiS11_pos V c _ _ hz]
    iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((kernelRun11_C c (grid11.coords t) _ _ _ _ _ _ _ _ _ _ _ _ _ _ _ _ _ _ _ _ _ _ _ _ _ _ _ _ _ _ (fun h => h0 ((hcond11_0 t).mp h)) ((hcond11_1 t).mpr h1) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    iintro ⟨H0, H1, H2, H3, H4, H5, H6, H7, H8, H9, H10, ⟨%e11, H11⟩, ⟨%e12, H12⟩, ⟨%es0, HS0⟩, ⟨%es1, HS1⟩⟩
    isplitl [Hg HS0 HS1 HR]
    · isplitl [Hg]; · iexact Hg
      isplitl [HS0 HS1]
      · isplitl [HS0]
        · unfold owns; iexists _; isplitr
          swap; · iexact HS0
          ipureintro; exact View.read_writes_of_cover _ _ _ _ _ (scover11_C_0 c _ _ _ _ _ _ _ _ _ _ _ _ _ _ _ _ _ _ _ _ _ _ _ _ _ _ _ _ _ _ _ _ _ _ _ _ _ _ _ _ _ _ _ _ _ _)
        · unfold owns; iexists _; isplitr
          swap; · iexact HS1
          ipureintro; exact View.read_writes_of_cover _ _ _ _ _ (scover11_C_1 c _ _ _ _ _ _ _ _ _ _ _ _ _ _ _ _ _ _ _ _ _ _ _ _ _ _ _ _ _ _ _ _ _ _ _ _ _ _ _ _ _ _ _ _ _ _)
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover11_C_11 c _ _ _ _ _ _ _ _ _ _ _ _ _ _ _ _ _ _ _ _ _ _ _ _ _ _ _ _ _ _ _ _ _ _ _ _ _ _ _ _ _ _ _ _ _ _)
    · unfold owns; iexists _; isplitr
      swap; · iexact H12
      ipureintro; exact View.read_writes_of_cover _ _ _ _ _ (cover11_C_12 c _ _ _ _ _ _ _ _ _ _ _ _ _ _ _ _ _ _ _ _ _ _ _ _ _ _ _ _ _ _ _ _ _ _ _ _ _ _ _ _ _ _ _ _ _ _)
  · rw [Dat.leavesExact_idle (dat11 V c) 11 t (idleAt11_11 t (fun h => h1 ((hcond11_1 t).mp h))) (noFlush11_11 t (fun h => h1 ((hcond11_1 t).mp h)))]
    rw [Dat.leavesExact_idle (dat11 V c) 12 t (idleAt11_12 t (fun h => h1 ((hcond11_1 t).mp h))) (noFlush11_12 t (fun h => h1 ((hcond11_1 t).mp h)))]
    by_cases h0 : t.val % 16 = 0
    · have hz : t.val = 0 := by omega
      rw [outsAt11_A V c t h0 h1]
      unfold sout11_A_0 sout11_A_1; (try dsimp only)
      rw [PhiS11_castSucc V c t, PhiS11_zero V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun11_A c (grid11.coords t) _ _ _ _ _ _ _ _ _ _ _ _ _ _ _ _ _ _ _ _ _ _ _ _ _ _ _ _ _ _ ((hcond11_0 t).mpr h0) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover11_A_0 c _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover11_A_1 c _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12
    · have hz : t.val ≠ 0 := by omega
      rw [outsAt11_B V c t h0 h1]
      unfold sout11_B_0 sout11_B_1; (try dsimp only)
      rw [PhiS11_castSucc V c t, PhiS11_pos V c _ _ hz]
      iintro ⟨⟨Hg, ⟨HS0, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun11_B c (grid11.coords t) _ _ _ _ _ _ _ _ _ _ _ _ _ _ _ _ _ _ _ _ _ _ _ _ _ _ _ _ _ _ (fun h => h0 ((hcond11_0 t).mp h)) (fun h => h1 ((hcond11_1 t).mp h)) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [Hg HS0 HS1 HR]
      · isplitl [Hg]; · iexact Hg
        isplitl [HS0 HS1]
        · isplitl [HS0]
          · unfold owns; iexists _; isplitr
            swap; · iexact HS0
            ipureintro; exact View.read_writes_of_cover _ _ _ _ _ (scover11_B_0 c _ _ _ _ _ _ _ _ _ _ _ _ _ _ _ _ _ _ _ _ _ _ _ _ _ _ _ _ _ _ _ _ _ _ _ _ _ _ _ _ _ _ _ _ _ _)
          · unfold owns; iexists _; isplitr
            swap; · iexact HS1
            ipureintro; exact View.read_writes_of_cover _ _ _ _ _ (scover11_B_1 c _ _ _ _ _ _ _ _ _ _ _ _ _ _ _ _ _ _ _ _ _ _ _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iexists _; iexact H12

/-- The library's body obligation, at every point. -/
theorem body_obligation11 (c : Dev nD) : BodyObligation (dat11 (F := F) V c) (defs₀ (F := F)) Variants.none () Set.univ := fun t => by
  rw [bigSep_W11, bigSep_W11]
  exact sound_body11 V c t

/-- What the region is entered with is the invariant before the first point: the scoped rest split at the two accumulators. -/
theorem phi_in11 (c : Dev nD) :
    (iprop((∃ r, prngReg c r) ∗ Pipeline.scopedRest (Ix := Unit) (Name := ℕ) (U := UR sig nD τ) (Lvl := ℕ) (Val := Elt F) spec11 c) : sProp 𝕄)
      ⊢ (dat11 V c).Φ 0 := by
  rw [show (dat11 V c).Φ 0 = PhiS11 V c 0 (Nat.zero_le _) from rfl, PhiS11_zero V c 0 _ rfl, scoped11_eq]

/-- After the last point the invariant gives the scoped rest back: the accumulators' named contents are forgotten. -/
theorem phi_out11 (c : Dev nD) :
    (dat11 V c).Φ (Fin.last cfg11.N)
      ⊢ (iprop((∃ r, prngReg c r) ∗ Pipeline.scopedRest (Ix := Unit) (Name := ℕ) (U := UR sig nD τ) (Lvl := ℕ) (Val := Elt F) spec11 c) : sProp 𝕄) := by
  rw [show (dat11 V c).Φ (Fin.last cfg11.N) = PhiS11 V c (Fin.last cfg11.N).val (Nat.le_of_lt_succ (Fin.last cfg11.N).isLt) from rfl,
    PhiS11_pos V c _ _ (by rw [Fin.val_last]; have : cfg11.N = 16 := N_11; omega), scoped11_eq]
  iintro ⟨Hg, ⟨HS0, HS1⟩, HR⟩
  isplitl [Hg]; · iexact Hg
  isplitl [HS0 HS1]
  · isplitl [HS0]; · iexists _; iexact HS0
    iexists _; iexact HS1
  iexact HR

/-! ## The found stores read back: one point's additions, and mean and variance -/

theorem hz11 : (![0, 0] : Fin 2 → Nat) = fun _ => 0 := funext fun a => by fin_cases a <;> rfl

/-- One point's addition to the first accumulator s: s plus the column sums of the block of z2 that the eleven input blocks give. -/
noncomputable def add11_0 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k11_pay2 (k11_pay8 x2 x0 x1 x3 x4 x5 x6) (k11_pay9 x7) x8 x9 x10 s
/-- One point's addition to the second accumulator: s plus the column sums of z2 * z2 of the same block. -/
noncomputable def add11_1 (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (s : Vec F S1x64 .f32) : Vec F S1x64 .f32 :=
  k11_pay3 (k11_pay8 x2 x0 x1 x3 x4 x5 x6) (k11_pay9 x7) x8 x9 x10 s

theorem sout11_B_0_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout11_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add11_0 x0 x1 x2 x3 x4 x5 x6 x7 x8 x9 x10 xs0 := by
  unfold sout11_B_0 add11_0
  rw [View.read_writes_eq_canon _ _ _ (scover11_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun11_B
  dsimp only
  sl_unfold_words
  rw [View.canon_unit_zero hz11]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

theorem sout11_B_1_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout11_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add11_1 x0 x1 x2 x3 x4 x5 x6 x7 x8 x9 x10 xs1 := by
  unfold sout11_B_1 add11_1
  rw [View.read_writes_eq_canon _ _ _ (scover11_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun11_B
  dsimp only
  sl_unfold_words
  rw [View.canon_unit_zero hz11]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

theorem sout11_A_0_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout11_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add11_0 x0 x1 x2 x3 x4 x5 x6 x7 x8 x9 x10 (k11_pay6 (F := F)) := by
  unfold sout11_A_0 add11_0
  rw [View.read_writes_eq_canon _ _ _ (scover11_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun11_A
  dsimp only
  sl_unfold_words
  rw [View.canon_cons_unit_zero (S := S1x64) hz11, View.readCov_unit_zero (S := S1x64) _ hz11]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

theorem sout11_A_1_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : cond11_0 i) (hc1 : ¬cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) :
    sout11_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = add11_1 x0 x1 x2 x3 x4 x5 x6 x7 x8 x9 x10 (k11_pay7 (F := F)) := by
  unfold sout11_A_1 add11_1
  rw [View.read_writes_eq_canon _ _ _ (scover11_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun11_A
  dsimp only
  sl_unfold_words
  rw [View.canon_cons_unit_zero (S := S1x64) hz11, View.readCov_unit_zero (S := S1x64) _ hz11]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

theorem sout11_C_0_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout11_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add11_0 x0 x1 x2 x3 x4 x5 x6 x7 x8 x9 x10 xs0 := by
  unfold sout11_C_0 add11_0
  rw [View.read_writes_eq_canon _ _ _ (scover11_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun11_C
  dsimp only
  sl_unfold_words
  rw [View.canon_unit_zero hz11]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

theorem sout11_C_1_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    sout11_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = add11_1 x0 x1 x2 x3 x4 x5 x6 x7 x8 x9 x10 xs1 := by
  unfold sout11_C_1 add11_1
  rw [View.read_writes_eq_canon _ _ _ (scover11_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun11_C
  dsimp only
  sl_unfold_words
  rw [View.canon_unit_zero hz11]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

theorem out11_C_11_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out11_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k11_pay4 (add11_0 x0 x1 x2 x3 x4 x5 x6 x7 x8 x9 x10 xs0) := by
  unfold out11_C_11 add11_0
  rw [View.read_writes_eq_canon _ _ _ (cover11_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun11_C
  dsimp only
  sl_unfold_words
  rw [View.canon_unit_zero hz11]
  simp only [View.readCov_unit_zero (S := S1x64) _ hz11, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

theorem out11_C_12_eq (c : Dev nD) (i : grid11.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x64 .f32) (harg14 : arg14.IsWhole) (arg15 : Memref sig .tc .vmem S1x64 .f32) (harg15 : arg15.IsWhole) (hc0 : ¬cond11_0 i) (hc1 : cond11_1 i)
    (x0 : Vec F S4096x64 .f32) (x1 : Vec F S4096x64 .f32) (x2 : Vec F S1x64 .f32) (x3 : Vec F S64x128 .f32) (x4 : Vec F S1x128 .f32) (x5 : Vec F S1x128 .f32) (x6 : Vec F S1x128 .f32) (x7 : Vec F S1x128 .f32) (x8 : Vec F S1x128 .f32) (x9 : Vec F S128x64 .f32) (x10 : Vec F S1x64 .f32) (xs0 : Vec F S1x64 .f32) (xs1 : Vec F S1x64 .f32) :
    out11_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 = k11_pay5 (add11_0 x0 x1 x2 x3 x4 x5 x6 x7 x8 x9 x10 xs0) (add11_1 x0 x1 x2 x3 x4 x5 x6 x7 x8 x9 x10 xs1) := by
  unfold out11_C_12 add11_0 add11_1
  rw [View.read_writes_eq_canon _ _ _ (cover11_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1)]
  unfold kernelRun11_C
  dsimp only
  sl_unfold_words
  rw [View.canon_unit_zero hz11]
  simp only [View.readCov_unit_zero (S := S1x64) _ hz11, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S4096x64) hz11, View.ld_unit_zero (S := S1x64) hz11, View.ld_unit_zero (S := S64x128) hz11, View.ld_unit_zero (S := S1x128) hz11, View.ld_unit_zero (S := S128x64) hz11]

/-! ## The running sums in closed form -/

/-- The ORDERED running sums after position n: the cleared accumulators plus the first block's sums, then one block's sums
    more per point. -/
noncomputable def sums11 (c : Dev nD) : (n : ℕ) → n < cfg11.N → Vec F S1x64 .f32 × Vec F S1x64 .f32
  | 0, h => (add11_0 (iblk11 V c 0 ⟨0, h⟩) (iblk11 V c 1 ⟨0, h⟩) (iblk11 V c 2 ⟨0, h⟩) (iblk11 V c 3 ⟨0, h⟩) (iblk11 V c 4 ⟨0, h⟩) (iblk11 V c 5 ⟨0, h⟩) (iblk11 V c 6 ⟨0, h⟩) (iblk11 V c 7 ⟨0, h⟩) (iblk11 V c 8 ⟨0, h⟩) (iblk11 V c 9 ⟨0, h⟩) (iblk11 V c 10 ⟨0, h⟩) (k11_pay6 (F := F)), add11_1 (iblk11 V c 0 ⟨0, h⟩) (iblk11 V c 1 ⟨0, h⟩) (iblk11 V c 2 ⟨0, h⟩) (iblk11 V c 3 ⟨0, h⟩) (iblk11 V c 4 ⟨0, h⟩) (iblk11 V c 5 ⟨0, h⟩) (iblk11 V c 6 ⟨0, h⟩) (iblk11 V c 7 ⟨0, h⟩) (iblk11 V c 8 ⟨0, h⟩) (iblk11 V c 9 ⟨0, h⟩) (iblk11 V c 10 ⟨0, h⟩) (k11_pay7 (F := F)))
  | n + 1, h => (add11_0 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (sums11 c n (Nat.lt_of_succ_lt h)).1, add11_1 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (sums11 c n (Nat.lt_of_succ_lt h)).2)

/-- What the accumulators hold after position n IS the running sums: by induction on the point. -/
theorem outsAt11_eq (c : Dev nD) : ∀ (n : ℕ) (h : n < cfg11.N), outsAt11 V c n h = sums11 V c n h
  | 0, h => by
    rw [outsAt11_A V c ⟨0, h⟩ rfl (by show ¬(0 : ℕ) % 16 = 15; omega), sout11_A_0_eq, sout11_A_1_eq]
    rfl
  | n + 1, h => by
    have hN : cfg11.N = 16 := N_11
    have hB : ¬(⟨n + 1, h⟩ : Fin cfg11.N).val % 16 = 0 := by dsimp only; omega
    have ih := outsAt11_eq c n (Nat.lt_of_succ_lt h)
    by_cases h1 : (⟨n + 1, h⟩ : Fin cfg11.N).val % 16 = 15
    · rw [outsAt11_C V c ⟨n + 1, h⟩ hB h1, sout11_C_0_eq, sout11_C_1_eq]
      show (add11_0 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (outsAt11 V c n _).1, add11_1 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (outsAt11 V c n _).2) = (add11_0 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (sums11 V c n _).1, add11_1 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (sums11 V c n _).2)
      rw [ih]
    · rw [outsAt11_B V c ⟨n + 1, h⟩ hB h1, sout11_B_0_eq, sout11_B_1_eq]
      show (add11_0 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (outsAt11 V c n _).1, add11_1 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (outsAt11 V c n _).2) = (add11_0 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (sums11 V c n _).1, add11_1 (iblk11 V c 0 ⟨n + 1, h⟩) (iblk11 V c 1 ⟨n + 1, h⟩) (iblk11 V c 2 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (sums11 V c n _).2)
      rw [ih]

/-! ## What the region leaves in its two output arrays -/

/-- The running sums after the last point. -/
noncomputable abbrev total11 (c : Dev nD) : Vec F S1x64 .f32 × Vec F S1x64 .f32 := sums11 V c 15 (by rw [show cfg11.N = 16 from N_11]; decide)

/-- The mean array the region leaves: S * 2^(-16) of the first running sum. -/
noncomputable def G11_11 (c : Dev nD) : Buf (Elt F) ((c : Thread nD τ).loc main_v250_0) := k11_pay4 (total11 V c).1
/-- The variance array the region leaves: Q * 2^(-16) - mean * mean. -/
noncomputable def G11_12 (c : Dev nD) : Buf (Elt F) ((c : Thread nD τ).loc main_v250_1) := k11_pay5 (total11 V c).1 (total11 V c).2

/-- What the last point leaves in the two outputs' staging buffers. -/
theorem outs11_last (c : Dev nD) : outs11 V c t11_15 = (k11_pay4 (total11 V c).1, k11_pay5 (total11 V c).1 (total11 V c).2) := by
  rw [outs11_C V c t11_15 (by decide) (by decide), out11_C_11_eq, out11_C_12_eq]
  have ih := outsAt11_eq V c 14 (by rw [show cfg11.N = 16 from N_11]; decide)
  show (k11_pay4 (add11_0 (iblk11 V c 0 t11_15) (iblk11 V c 1 t11_15) (iblk11 V c 2 t11_15) (iblk11 V c 3 t11_15) (iblk11 V c 4 t11_15) (iblk11 V c 5 t11_15) (iblk11 V c 6 t11_15) (iblk11 V c 7 t11_15) (iblk11 V c 8 t11_15) (iblk11 V c 9 t11_15) (iblk11 V c 10 t11_15) (outsAt11 V c 14 _).1), k11_pay5 (add11_0 (iblk11 V c 0 t11_15) (iblk11 V c 1 t11_15) (iblk11 V c 2 t11_15) (iblk11 V c 3 t11_15) (iblk11 V c 4 t11_15) (iblk11 V c 5 t11_15) (iblk11 V c 6 t11_15) (iblk11 V c 7 t11_15) (iblk11 V c 8 t11_15) (iblk11 V c 9 t11_15) (iblk11 V c 10 t11_15) (outsAt11 V c 14 _).1) (add11_1 (iblk11 V c 0 t11_15) (iblk11 V c 1 t11_15) (iblk11 V c 2 t11_15) (iblk11 V c 3 t11_15) (iblk11 V c 4 t11_15) (iblk11 V c 5 t11_15) (iblk11 V c 6 t11_15) (iblk11 V c 7 t11_15) (iblk11 V c 8 t11_15) (iblk11 V c 9 t11_15) (iblk11 V c 10 t11_15) (outsAt11 V c 14 _).2)) = _
  rw [ih]
  rfl

/-- The one write-back of window 11, at the last point, writes it: the block is the whole array. -/
theorem flushed11_11 (c : Dev nD) (t : Fin cfg11.N) (hf : (cfg11.win 11).flush t = true) :
    (dat11 V c).flushed 11 t = ((cfg11.win 11).blk t).view.read (Elt F) (G11_11 V c) := by
  have hN : cfg11.N = 16 := N_11
  have h15 : t.val = 15 := by have := (flush11_11 t).mp hf; have := t.isLt; omega
  obtain rfl : t = t11_15 := Fin.ext h15
  show (cfg11.win 11).cut (grid11.coords t11_15) ((dat11 V c).after 11 t11_15) = _
  rw [after11_11, outs11_last]
  have hz' : (fun a => win11_11.index t11_15 a * main_v250_0.ty.shape.size a) = fun _ => 0 := funext fun a => by fin_cases a <;> decide
  exact (Memref.read_access_unit_zero (Elt F) main_v250_0 hz' (fun a => by rw [congrFun hz' a]; simp) (G11_11 V c)).symm

set_option maxHeartbeats 4000000 in
/-- So the array of window 11 ends holding it: the last point's block covers the array. -/
theorem final11_11 (c : Dev nD) : (dat11 V c).arrAt ⟨11, by decide⟩ cfg11.N = G11_11 V c :=
  (dat11 V c).arrAt_eq_of_cover 11 (G11_11 V c) (flushed11_11 V c) fun i =>
    ⟨t11_15, (flush11_11 t11_15).mpr rfl, by
      show i ∈ ((View.whole main_v250_0).slice (win11_11.rect t11_15)).set
      rw [View.set_slice_whole, Rect.mem_set_unit]
      intro a
      have h0 : (i 0 : Nat) < 1 := (i 0).isLt
      have h1 : (i 1 : Nat) < 64 := (i 1).isLt
      match a with
      | ⟨0, _⟩ => show win11_11.index t11_15 0 * win11_11.size 0 ≤ (i 0 : Nat) ∧ (i 0 : Nat) < win11_11.index t11_15 0 * win11_11.size 0 + win11_11.xsize (grid11.coords t11_15) 0
                  rw [show win11_11.index t11_15 0 * win11_11.size 0 = 0 from by decide +kernel, show win11_11.xsize (grid11.coords t11_15) 0 = 1 from by decide +kernel]; omega
      | ⟨1, _⟩ => show win11_11.index t11_15 1 * win11_11.size 1 ≤ (i 1 : Nat) ∧ (i 1 : Nat) < win11_11.index t11_15 1 * win11_11.size 1 + win11_11.xsize (grid11.coords t11_15) 1
                  rw [show win11_11.index t11_15 1 * win11_11.size 1 = 0 from by decide +kernel, show win11_11.xsize (grid11.coords t11_15) 1 = 64 from by decide +kernel]; omega⟩

/-- The one write-back of window 12, at the last point, writes it: the block is the whole array. -/
theorem flushed11_12 (c : Dev nD) (t : Fin cfg11.N) (hf : (cfg11.win 12).flush t = true) :
    (dat11 V c).flushed 12 t = ((cfg11.win 12).blk t).view.read (Elt F) (G11_12 V c) := by
  have hN : cfg11.N = 16 := N_11
  have h15 : t.val = 15 := by have := (flush11_12 t).mp hf; have := t.isLt; omega
  obtain rfl : t = t11_15 := Fin.ext h15
  show (cfg11.win 12).cut (grid11.coords t11_15) ((dat11 V c).after 12 t11_15) = _
  rw [after11_12, outs11_last]
  have hz' : (fun a => win11_12.index t11_15 a * main_v250_1.ty.shape.size a) = fun _ => 0 := funext fun a => by fin_cases a <;> decide
  exact (Memref.read_access_unit_zero (Elt F) main_v250_1 hz' (fun a => by rw [congrFun hz' a]; simp) (G11_12 V c)).symm

set_option maxHeartbeats 4000000 in
/-- So the array of window 12 ends holding it: the last point's block covers the array. -/
theorem final11_12 (c : Dev nD) : (dat11 V c).arrAt ⟨12, by decide⟩ cfg11.N = G11_12 V c :=
  (dat11 V c).arrAt_eq_of_cover 12 (G11_12 V c) (flushed11_12 V c) fun i =>
    ⟨t11_15, (flush11_12 t11_15).mpr rfl, by
      show i ∈ ((View.whole main_v250_1).slice (win11_12.rect t11_15)).set
      rw [View.set_slice_whole, Rect.mem_set_unit]
      intro a
      have h0 : (i 0 : Nat) < 1 := (i 0).isLt
      have h1 : (i 1 : Nat) < 64 := (i 1).isLt
      match a with
      | ⟨0, _⟩ => show win11_12.index t11_15 0 * win11_12.size 0 ≤ (i 0 : Nat) ∧ (i 0 : Nat) < win11_12.index t11_15 0 * win11_12.size 0 + win11_12.xsize (grid11.coords t11_15) 0
                  rw [show win11_12.index t11_15 0 * win11_12.size 0 = 0 from by decide +kernel, show win11_12.xsize (grid11.coords t11_15) 0 = 1 from by decide +kernel]; omega
      | ⟨1, _⟩ => show win11_12.index t11_15 1 * win11_12.size 1 ≤ (i 1 : Nat) ∧ (i 1 : Nat) < win11_12.index t11_15 1 * win11_12.size 1 + win11_12.xsize (grid11.coords t11_15) 1
                  rw [show win11_12.index t11_15 1 * win11_12.size 1 = 0 from by decide +kernel, show win11_12.xsize (grid11.coords t11_15) 1 = 64 from by decide +kernel]; omega⟩

end Cert.KernelIdeal.Hand

end
-- ==== Proof.KI.Reg12.lean ====
/- One of the network's four regions that finish a layer: the second half of a layer, on sixteen blocks of 4096 nodes. At each block the body
   forms (1 + e)·x + agg, maps it to 128 features, normalises by the layer's first mean and variance, clips at zero,
   maps back to 64 features, normalises by the second mean and variance, clips again and adds x. Everything the body
   reads is a block of one of fifteen arrays as the region finds them; what it writes is one block of the sixteenth.
   Stated at any entry contents V of the core's buffers and at any float model. -/
import proofs.«159011_j9938554322955_1_alg».proof.Proof.Gen.KernelIdeal.Launch
import proofs.«159011_j9938554322955_1_alg».proof.Proof.Gen.KernelIdeal.Skeleton
import proofs.«159011_j9938554322955_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

-- membership in a rectangle of 4096 rows is decided by a structural recursion one step per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks -/

/-- Window w's block at point t, read off its array as the region finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-! An input window's buffer holds its block at every point, whether the block was brought in there or not: a block
    that is not brought in again has not moved, and the body leaves every input as it found it. One statement per
    input window, for any proof data whose array is V's and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)
theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)
theorem before12_8_of {c : Dev nD} (dat : Dat τ (Elt F) Unit ℕ (UR sig nD τ) ℕ cfg12 c) (hA : dat.A 8 = V c (Pipeline.arrRef spec12 8))
    (hafter : ∀ t, dat.after 8 t = iblk12 V c 8 t) (t : Fin cfg12.N) (d) : dat.before 8 t d = iblk12 V c 8 t :=
  (dat.before_in_eq_fetched 8 rfl (fun _ => rfl) (fun _ _ _ => rfl) (fun t => by rw [hafter]; unfold Dat.blockOf iblk12; rw [hA]; try rfl) t d).trans
    (by unfold Dat.fetched Dat.blockOf iblk12; rw [hA]; try rfl)
theorem before12_9_of {c : Dev nD} (dat : Dat τ (Elt F) Unit ℕ (UR sig nD τ) ℕ cfg12 c) (hA : dat.A 9 = V c (Pipeline.arrRef spec12 9))
    (hafter : ∀ t, dat.after 9 t = iblk12 V c 9 t) (t : Fin cfg12.N) (d) : dat.before 9 t d = iblk12 V c 9 t :=
  (dat.before_in_eq_fetched 9 rfl (fun _ => rfl) (fun _ _ _ => rfl) (fun t => by rw [hafter]; unfold Dat.blockOf iblk12; rw [hA]; try rfl) t d).trans
    (by unfold Dat.fetched Dat.blockOf iblk12; rw [hA]; try rfl)
theorem before12_10_of {c : Dev nD} (dat : Dat τ (Elt F) Unit ℕ (UR sig nD τ) ℕ cfg12 c) (hA : dat.A 10 = V c (Pipeline.arrRef spec12 10))
    (hafter : ∀ t, dat.after 10 t = iblk12 V c 10 t) (t : Fin cfg12.N) (d) : dat.before 10 t d = iblk12 V c 10 t :=
  (dat.before_in_eq_fetched 10 rfl (fun _ => rfl) (fun _ _ _ => rfl) (fun t => by rw [hafter]; unfold Dat.blockOf iblk12; rw [hA]; try rfl) t d).trans
    (by unfold Dat.fetched Dat.blockOf iblk12; rw [hA]; try rfl)
theorem before12_11_of {c : Dev nD} (dat : Dat τ (Elt F) Unit ℕ (UR sig nD τ) ℕ cfg12 c) (hA : dat.A 11 = V c (Pipeline.arrRef spec12 11))
    (hafter : ∀ t, dat.after 11 t = iblk12 V c 11 t) (t : Fin cfg12.N) (d) : dat.before 11 t d = iblk12 V c 11 t :=
  (dat.before_in_eq_fetched 11 rfl (fun _ => rfl) (fun _ _ _ => rfl) (fun t => by rw [hafter]; unfold Dat.blockOf iblk12; rw [hA]; try rfl) t d).trans
    (by unfold Dat.fetched Dat.blockOf iblk12; rw [hA]; try rfl)
theorem before12_12_of {c : Dev nD} (dat : Dat τ (Elt F) Unit ℕ (UR sig nD τ) ℕ cfg12 c) (hA : dat.A 12 = V c (Pipeline.arrRef spec12 12))
    (hafter : ∀ t, dat.after 12 t = iblk12 V c 12 t) (t : Fin cfg12.N) (d) : dat.before 12 t d = iblk12 V c 12 t :=
  (dat.before_in_eq_fetched 12 rfl (fun _ => rfl) (fun _ _ _ => rfl) (fun t => by rw [hafter]; unfold Dat.blockOf iblk12; rw [hA]; try rfl) t d).trans
    (by unfold Dat.fetched Dat.blockOf iblk12; rw [hA]; try rfl)
theorem before12_13_of {c : Dev nD} (dat : Dat τ (Elt F) Unit ℕ (UR sig nD τ) ℕ cfg12 c) (hA : dat.A 13 = V c (Pipeline.arrRef spec12 13))
    (hafter : ∀ t, dat.after 13 t = iblk12 V c 13 t) (t : Fin cfg12.N) (d) : dat.before 13 t d = iblk12 V c 13 t :=
  (dat.before_in_eq_fetched 13 rfl (fun _ => rfl) (fun _ _ _ => rfl) (fun t => by rw [hafter]; unfold Dat.blockOf iblk12; rw [hA]; try rfl) t d).trans
    (by unfold Dat.fetched Dat.blockOf iblk12; rw [hA]; try rfl)
theorem before12_14_of {c : Dev nD} (dat : Dat τ (Elt F) Unit ℕ (UR sig nD τ) ℕ cfg12 c) (hA : dat.A 14 = V c (Pipeline.arrRef spec12 14))
    (hafter : ∀ t, dat.after 14 t = iblk12 V c 14 t) (t : Fin cfg12.N) (d) : dat.before 14 t d = iblk12 V c 14 t :=
  (dat.before_in_eq_fetched 14 rfl (fun _ => rfl) (fun _ _ _ => rfl) (fun t => by rw [hafter]; unfold Dat.blockOf iblk12; rw [hA]; try rfl) t d).trans
    (by unfold Dat.fetched Dat.blockOf iblk12; rw [hA]; try rfl)

/-! ## What the body reads and writes: every buffer whole -/

noncomputable abbrev rRows12 : Rect S4096x64 := Rect.unit (s := S4096x64) ![0, 0] S4096x64.size inb_S4096x64_S4096x64_0_0
noncomputable abbrev rRowS12 : Rect S1x64 := Rect.unit (s := S1x64) ![0, 0] S1x64.size inb_S1x64_S1x64_0_0
noncomputable abbrev rMatA12 : Rect S64x128 := Rect.unit (s := S64x128) ![0, 0] S64x128.size inb_S64x128_S64x128_0_0
noncomputable abbrev rRowL12 : Rect S1x128 := Rect.unit (s := S1x128) ![0, 0] S1x128.size inb_S1x128_S1x128_0_0
noncomputable abbrev rMatB12 : Rect S128x64 := Rect.unit (s := S128x64) ![0, 0] S128x64.size inb_S128x64_S128x64_0_0

/-! ## What the body leaves in the output block -/

/-- The output block after the body, from the fifteen input blocks: one store over the whole block, of the second
    normalisation clipped plus x, itself computed from the first normalisation's two factors. -/
noncomputable def out12_15 (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) : Vec F S4096x64 .f32 :=
  View.canon [⟨rRows12, k12_pay1 (k12_pay2 (View.ld x_2 rRowS12) (View.ld x_0 rRows12) (View.ld x_1 rRows12) (View.ld x_3 rMatA12) (View.ld x_4 rRowL12) (View.ld x_5 rRowL12) (View.ld x_6 rRowL12) (View.ld x_7 rRowL12)) (k12_pay3 (View.ld x_8 rRowL12)) (View.ld x_9 rMatB12) (View.ld x_10 rRowS12) (View.ld x_11 rRowS12) (View.ld x_12 rRowS12) (View.ld x_13 rRowS12) (View.ld x_14 rRowS12) (View.ld x_0 rRows12)⟩]

/-- The one store covers the block. -/
theorem cover12_15 (p0 : Vec F S4096x64 .f32) (y : S4096x64.Idx) :
    ∃ pc ∈ ([⟨rRows12, p0⟩] : List (View.Piece (Elt F) S4096x64 .f32)), y ∈ pc.1.set :=
  View.cover_of_tiled [⟨rRows12, p0⟩] S4096x64.size (by rfl) y

/-! ## The body's triple -/

set_option maxHeartbeats 4000000 in
/-- The body on whole buffers, the fifteen inputs' at read contents x_0 … x_14 and the output's at anything, runs to the
    continuation holding the inputs' as they were and the output's at out12_15 of them. -/
theorem sound_kernel12 (c : Dev nD) (E : Set ℕ) (i : grid12.Coords) (a_0 : Memref sig .tc .vmem S4096x64 .f32) (h_0 : a_0.IsWhole) (a_1 : Memref sig .tc .vmem S4096x64 .f32) (h_1 : a_1.IsWhole) (a_2 : Memref sig .tc .vmem S1x64 .f32) (h_2 : a_2.IsWhole) (a_3 : Memref sig .tc .vmem S64x128 .f32) (h_3 : a_3.IsWhole) (a_4 : Memref sig .tc .vmem S1x128 .f32) (h_4 : a_4.IsWhole) (a_5 : Memref sig .tc .vmem S1x128 .f32) (h_5 : a_5.IsWhole) (a_6 : Memref sig .tc .vmem S1x128 .f32) (h_6 : a_6.IsWhole) (a_7 : Memref sig .tc .vmem S1x128 .f32) (h_7 : a_7.IsWhole) (a_8 : Memref sig .tc .vmem S1x128 .f32) (h_8 : a_8.IsWhole) (a_9 : Memref sig .tc .vmem S128x64 .f32) (h_9 : a_9.IsWhole) (a_10 : Memref sig .tc .vmem S1x64 .f32) (h_10 : a_10.IsWhole) (a_11 : Memref sig .tc .vmem S1x64 .f32) (h_11 : a_11.IsWhole) (a_12 : Memref sig .tc .vmem S1x64 .f32) (h_12 : a_12.IsWhole) (a_13 : Memref sig .tc .vmem S1x64 .f32) (h_13 : a_13.IsWhole) (a_14 : Memref sig .tc .vmem S1x64 .f32) (h_14 : a_14.IsWhole) (a_15 : Memref sig .tc .vmem S4096x64 .f32) (h_15 : a_15.IsWhole)
    (x_0 : Vec F S4096x64 .f32) (x_1 : Vec F S4096x64 .f32) (x_2 : Vec F S1x64 .f32) (x_3 : Vec F S64x128 .f32) (x_4 : Vec F S1x128 .f32) (x_5 : Vec F S1x128 .f32) (x_6 : Vec F S1x128 .f32) (x_7 : Vec F S1x128 .f32) (x_8 : Vec F S1x128 .f32) (x_9 : Vec F S128x64 .f32) (x_10 : Vec F S1x64 .f32) (x_11 : Vec F S1x64 .f32) (x_12 : Vec F S1x64 .f32) (x_13 : Vec F S1x64 .f32) (x_14 : Vec F S1x64 .f32) (K : PUnit → sProp 𝕄) :
    iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ (∃ d, owns (c : Thread nD τ) a_15 fullShare d)
        ∗ (iprop(owns (c : Thread nD τ) a_0 fullShare x_0 ∗ owns (c : Thread nD τ) a_1 fullShare x_1 ∗ owns (c : Thread nD τ) a_2 fullShare x_2 ∗ owns (c : Thread nD τ) a_3 fullShare x_3 ∗ owns (c : Thread nD τ) a_4 fullShare x_4 ∗ owns (c : Thread nD τ) a_5 fullShare x_5 ∗ owns (c : Thread nD τ) a_6 fullShare x_6 ∗ owns (c : Thread nD τ) a_7 fullShare x_7 ∗ owns (c : Thread nD τ) a_8 fullShare x_8 ∗ owns (c : Thread nD τ) a_9 fullShare x_9 ∗ owns (c : Thread nD τ) a_10 fullShare x_10 ∗ owns (c : Thread nD τ) a_11 fullShare x_11 ∗ owns (c : Thread nD τ) a_12 fullShare x_12 ∗ owns (c : Thread nD τ) a_13 fullShare x_13 ∗ owns (c : Thread nD τ) a_14 fullShare x_14 ∗ owns (c : Thread nD τ) a_15 fullShare (out12_15 x_0 x_1 x_2 x_3 x_4 x_5 x_6 x_7 x_8 x_9 x_10 x_11 x_12 x_13 x_14)) -∗ K ⟨⟩))
      ⊢ wp frame (wpE (defs₀ (F := F)) Variants.none c none) E (cc12__apply_kernel i a_0 h_0 a_1 h_1 a_2 h_2 a_3 h_3 a_4 h_4 a_5 h_5 a_6 h_6 a_7 h_7 a_8 h_8 a_9 h_9 a_10 h_10 a_11 h_11 a_12 h_12 a_13 h_13 a_14 h_14 a_15 h_15) K := by
  simp only [cc12__apply_kernel_eq_skeleton]; unfold cc12__apply_kernel_skel
  unfold owns
  iintro ⟨⟨%f_0, %hf_0, H_0⟩, ⟨%f_1, %hf_1, H_1⟩, ⟨%f_2, %hf_2, H_2⟩, ⟨%f_3, %hf_3, H_3⟩, ⟨%f_4, %hf_4, H_4⟩, ⟨%f_5, %hf_5, H_5⟩, ⟨%f_6, %hf_6, H_6⟩, ⟨%f_7, %hf_7, H_7⟩, ⟨%f_8, %hf_8, H_8⟩, ⟨%f_9, %hf_9, H_9⟩, ⟨%f_10, %hf_10, H_10⟩, ⟨%f_11, %hf_11, H_11⟩, ⟨%f_12, %hf_12, H_12⟩, ⟨%f_13, %hf_13, H_13⟩, ⟨%f_14, %hf_14, H_14⟩, ⟨%d_15, %f_15, -, H_15⟩, Hk⟩
  subst hf_0 hf_1 hf_2 hf_3 hf_4 hf_5 hf_6 hf_7 hf_8 hf_9 hf_10 hf_11 hf_12 hf_13 hf_14
  sl_exec
  sl_step
  iapply Hk
  isplitl [H_0]
  · iexists f_0; isplitr; · ipureintro; rfl
    iexact H_0
  isplitl [H_1]
  · iexists f_1; isplitr; · ipureintro; rfl
    iexact H_1
  isplitl [H_2]
  · iexists f_2; isplitr; · ipureintro; rfl
    iexact H_2
  isplitl [H_3]
  · iexists f_3; isplitr; · ipureintro; rfl
    iexact H_3
  isplitl [H_4]
  · iexists f_4; isplitr; · ipureintro; rfl
    iexact H_4
  isplitl [H_5]
  · iexists f_5; isplitr; · ipureintro; rfl
    iexact H_5
  isplitl [H_6]
  · iexists f_6; isplitr; · ipureintro; rfl
    iexact H_6
  isplitl [H_7]
  · iexists f_7; isplitr; · ipureintro; rfl
    iexact H_7
  isplitl [H_8]
  · iexists f_8; isplitr; · ipureintro; rfl
    iexact H_8
  isplitl [H_9]
  · iexists f_9; isplitr; · ipureintro; rfl
    iexact H_9
  isplitl [H_10]
  · iexists f_10; isplitr; · ipureintro; rfl
    iexact H_10
  isplitl [H_11]
  · iexists f_11; isplitr; · ipureintro; rfl
    iexact H_11
  isplitl [H_12]
  · iexists f_12; isplitr; · ipureintro; rfl
    iexact H_12
  isplitl [H_13]
  · iexists f_13; isplitr; · ipureintro; rfl
    iexact H_13
  isplitl [H_14]
  · iexists f_14; isplitr; · ipureintro; rfl
    iexact H_14
  iexists _; isplitr
  swap; · iexact H_15
  ipureintro
  exact View.read_writes_eq_canon _ _ _ (cover12_15 _)

/-! ## The proof data -/

/-- The region's proof data on core c: the arrays as the region finds them; after the body at point t each input's
    buffer at its block and the output's at out12_15 of the input blocks; the invariant the scoped rest and the
    generator register, untouched; nothing owed; full shares. -/
noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => iblk12 V c 9 t
    | ⟨10, _⟩ => iblk12 V c 10 t
    | ⟨11, _⟩ => iblk12 V c 11 t
    | ⟨12, _⟩ => iblk12 V c 12 t
    | ⟨13, _⟩ => iblk12 V c 13 t
    | ⟨14, _⟩ => iblk12 V c 14 t
    | ⟨15, _⟩ => out12_15 (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t) (iblk12 V c 11 t) (iblk12 V c 12 t) (iblk12 V c 13 t) (iblk12 V c 14 t)
    | ⟨_ + 16, h⟩ => absurd h (Nat.not_lt.2 (Nat.le_add_left _ _))
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = iblk12 V c 8 t := by dsimp only [dat12]
theorem after12_9 (c : Dev nD) (t : Fin cfg12.N) : (dat12 V c).after 9 t = iblk12 V c 9 t := by dsimp only [dat12]
theorem after12_10 (c : Dev nD) (t : Fin cfg12.N) : (dat12 V c).after 10 t = iblk12 V c 10 t := by dsimp only [dat12]
theorem after12_11 (c : Dev nD) (t : Fin cfg12.N) : (dat12 V c).after 11 t = iblk12 V c 11 t := by dsimp only [dat12]
theorem after12_12 (c : Dev nD) (t : Fin cfg12.N) : (dat12 V c).after 12 t = iblk12 V c 12 t := by dsimp only [dat12]
theorem after12_13 (c : Dev nD) (t : Fin cfg12.N) : (dat12 V c).after 13 t = iblk12 V c 13 t := by dsimp only [dat12]
theorem after12_14 (c : Dev nD) (t : Fin cfg12.N) : (dat12 V c).after 14 t = iblk12 V c 14 t := by dsimp only [dat12]
theorem after12_15 (c : Dev nD) (t : Fin cfg12.N) : (dat12 V c).after 15 t = out12_15 (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t) (iblk12 V c 11 t) (iblk12 V c 12 t) (iblk12 V c 13 t) (iblk12 V c 14 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d
theorem before12_8 (c : Dev nD) (t : Fin cfg12.N) (d) : (dat12 V c).before 8 t d = iblk12 V c 8 t :=
  before12_8_of V (dat12 V c) (A_eq12 V c 8) (after12_8 V c) t d
theorem before12_9 (c : Dev nD) (t : Fin cfg12.N) (d) : (dat12 V c).before 9 t d = iblk12 V c 9 t :=
  before12_9_of V (dat12 V c) (A_eq12 V c 9) (after12_9 V c) t d
theorem before12_10 (c : Dev nD) (t : Fin cfg12.N) (d) : (dat12 V c).before 10 t d = iblk12 V c 10 t :=
  before12_10_of V (dat12 V c) (A_eq12 V c 10) (after12_10 V c) t d
theorem before12_11 (c : Dev nD) (t : Fin cfg12.N) (d) : (dat12 V c).before 11 t d = iblk12 V c 11 t :=
  before12_11_of V (dat12 V c) (A_eq12 V c 11) (after12_11 V c) t d
theorem before12_12 (c : Dev nD) (t : Fin cfg12.N) (d) : (dat12 V c).before 12 t d = iblk12 V c 12 t :=
  before12_12_of V (dat12 V c) (A_eq12 V c 12) (after12_12 V c) t d
theorem before12_13 (c : Dev nD) (t : Fin cfg12.N) (d) : (dat12 V c).before 13 t d = iblk12 V c 13 t :=
  before12_13_of V (dat12 V c) (A_eq12 V c 13) (after12_13 V c) t d
theorem before12_14 (c : Dev nD) (t : Fin cfg12.N) (d) : (dat12 V c).before 14 t d = iblk12 V c 14 t :=
  before12_14_of V (dat12 V c) (A_eq12 V c 14) (after12_14 V c) t d

/-! ## The body obligation -/

/-- What the body is called with at point t, -/
noncomputable def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d))
    ∗ (∃ d, owns (c : Thread nD τ) (st12_10 t) fullShare ((dat12 V c).before 10 t d))
    ∗ (∃ d, owns (c : Thread nD τ) (st12_11 t) fullShare ((dat12 V c).before 11 t d))
    ∗ (∃ d, owns (c : Thread nD τ) (st12_12 t) fullShare ((dat12 V c).before 12 t d))
    ∗ (∃ d, owns (c : Thread nD τ) (st12_13 t) fullShare ((dat12 V c).before 13 t d))
    ∗ (∃ d, owns (c : Thread nD τ) (st12_14 t) fullShare ((dat12 V c).before 14 t d))
    ∗ (∃ d, owns (c : Thread nD τ) (st12_15 t) fullShare ((dat12 V c).before 15 t d)))

/-- and what it returns. -/
noncomputable def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t)
    ∗ owns (c : Thread nD τ) (st12_10 t) fullShare ((dat12 V c).after 10 t)
    ∗ owns (c : Thread nD τ) (st12_11 t) fullShare ((dat12 V c).after 11 t)
    ∗ owns (c : Thread nD τ) (st12_12 t) fullShare ((dat12 V c).after 12 t)
    ∗ owns (c : Thread nD τ) (st12_13 t) fullShare ((dat12 V c).after 13 t)
    ∗ owns (c : Thread nD τ) (st12_14 t) fullShare ((dat12 V c).after 14 t)
    ∗ owns (c : Thread nD τ) (st12_15 t) fullShare ((dat12 V c).after 15 t))

set_option maxHeartbeats 1000000 in
/-- The body at any point: the inputs' buffers hold their blocks, so the triple applies; the invariant and what the
    core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7, before12_8, before12_9, before12_10, before12_11, before12_12, before12_13, before12_14]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9, after12_10, after12_11, after12_12, after12_13, after12_14, after12_15]
  iintro ⟨HΦ, Ho, ⟨%d_0, H_0⟩, ⟨%d_1, H_1⟩, ⟨%d_2, H_2⟩, ⟨%d_3, H_3⟩, ⟨%d_4, H_4⟩, ⟨%d_5, H_5⟩, ⟨%d_6, H_6⟩, ⟨%d_7, H_7⟩, ⟨%d_8, H_8⟩, ⟨%d_9, H_9⟩, ⟨%d_10, H_10⟩, ⟨%d_11, H_11⟩, ⟨%d_12, H_12⟩, ⟨%d_13, H_13⟩, ⟨%d_14, H_14⟩, ⟨%d_15, H_15⟩⟩
  iapply (sound_kernel12 c Set.univ _ _ _ _ _ _ _ _ _ _ _ _ _ _ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t) (iblk12 V c 11 t) (iblk12 V c 12 t) (iblk12 V c 13 t) (iblk12 V c 14 t) _)
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  isplitl [H_15]; · iexists _; iexact H_15
  iintro ⟨H_0, H_1, H_2, H_3, H_4, H_5, H_6, H_7, H_8, H_9, H_10, H_11, H_12, H_13, H_14, H_15⟩
  isplitl [HΦ]; · iexact HΦ
  isplitl [Ho]; · iexact Ho
  isplitl [H_0]; · iexact H_0
  isplitl [H_1]; · iexact H_1
  isplitl [H_2]; · iexact H_2
  isplitl [H_3]; · iexact H_3
  isplitl [H_4]; · iexact H_4
  isplitl [H_5]; · iexact H_5
  isplitl [H_6]; · iexact H_6
  isplitl [H_7]; · iexact H_7
  isplitl [H_8]; · iexact H_8
  isplitl [H_9]; · iexact H_9
  isplitl [H_10]; · iexact H_10
  isplitl [H_11]; · iexact H_11
  isplitl [H_12]; · iexact H_12
  isplitl [H_13]; · iexact H_13
  isplitl [H_14]; · iexact H_14
  iexact H_15

theorem body_obligation12 (c : Dev nD) : BodyObligation (dat12 (F := F) V c) (defs₀ (F := F)) Variants.none () Set.univ := fun t => by
  rw [bigSep_W12, bigSep_W12]
  exact sound_body12 V c t

/-! ## The invariant at the region's ends -/

theorem phi_in12 (c : Dev nD) :
    (iprop((∃ r, prngReg c r) ∗ Pipeline.scopedRest (Ix := Unit) (Name := ℕ) (U := UR sig nD τ) (Lvl := ℕ) (Val := Elt F) spec12 c) : sProp 𝕄)
      ⊢ (dat12 V c).Φ 0 := by
  rw [show (dat12 V c).Φ 0 = Pipeline.ΦA spec12 c from rfl]; unfold Pipeline.ΦA
  iintro ⟨Hp, Hr⟩
  isplitl [Hr]; · iexact Hr
  iexact Hp

theorem phi_out12 (c : Dev nD) :
    (dat12 V c).Φ (Fin.last cfg12.N)
      ⊢ (iprop((∃ r, prngReg c r) ∗ Pipeline.scopedRest (Ix := Unit) (Name := ℕ) (U := UR sig nD τ) (Lvl := ℕ) (Val := Elt F) spec12 c) : sProp 𝕄) := by
  rw [show (dat12 V c).Φ (Fin.last _) = Pipeline.ΦA spec12 c from rfl]; unfold Pipeline.ΦA
  iintro ⟨Hr, Hp⟩
  isplitl [Hp]; · iexact Hp
  iexact Hr

/-! ## The whole output array

    Sixteen blocks of 4096 rows tile the 65536 rows, block t holding rows 4096·t … 4096·t + 4095, so row r is written
    at point r / 4096, at place r % 4096 of the block, and what is written there depends on the inputs' blocks at that
    point only. -/

/-- The point whose block holds an index's row. -/
noncomputable def pt12 (i : S65536x64.Idx) : Fin cfg12.N :=
  ⟨(i 0).val / 4096, by have h := ValueIdx.idx2_lt0 i; show (i 0).val / 4096 < grid12.N; rw [N_12]; omega⟩

/-- Where an index of the array sits inside its block. -/
noncomputable def loc12 (i : S65536x64.Idx) : S4096x64.Idx :=
  ValueIdx.ix2 ⟨(i 0).val % 4096, Nat.mod_lt _ (by decide)⟩ (i 1)

/-- The output array as one function of the fifteen input arrays: at each index, what the body leaves at the index's
    place in its block, from the inputs' blocks at the index's point. -/
noncomputable def G12_15 (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) : S65536x64.Idx → Elt F .f32 :=
  fun i => out12_15
      (((cfg12.win 0).blk (pt12 i)).view.read (Elt F) A_0)
      (((cfg12.win 1).blk (pt12 i)).view.read (Elt F) A_1)
      (((cfg12.win 2).blk (pt12 i)).view.read (Elt F) A_2)
      (((cfg12.win 3).blk (pt12 i)).view.read (Elt F) A_3)
      (((cfg12.win 4).blk (pt12 i)).view.read (Elt F) A_4)
      (((cfg12.win 5).blk (pt12 i)).view.read (Elt F) A_5)
      (((cfg12.win 6).blk (pt12 i)).view.read (Elt F) A_6)
      (((cfg12.win 7).blk (pt12 i)).view.read (Elt F) A_7)
      (((cfg12.win 8).blk (pt12 i)).view.read (Elt F) A_8)
      (((cfg12.win 9).blk (pt12 i)).view.read (Elt F) A_9)
      (((cfg12.win 10).blk (pt12 i)).view.read (Elt F) A_10)
      (((cfg12.win 11).blk (pt12 i)).view.read (Elt F) A_11)
      (((cfg12.win 12).blk (pt12 i)).view.read (Elt F) A_12)
      (((cfg12.win 13).blk (pt12 i)).view.read (Elt F) A_13)
      (((cfg12.win 14).blk (pt12 i)).view.read (Elt F) A_14)
      (loc12 i)

/-- G12_15 at an index, one step unfolded. -/
theorem G12_15_apply (A_0 : S65536x64.Idx → Elt F .f32) (A_1 : S65536x64.Idx → Elt F .f32) (A_2 : S1x64.Idx → Elt F .f32) (A_3 : S64x128.Idx → Elt F .f32) (A_4 : S1x128.Idx → Elt F .f32) (A_5 : S1x128.Idx → Elt F .f32) (A_6 : S1x128.Idx → Elt F .f32) (A_7 : S1x128.Idx → Elt F .f32) (A_8 : S1x128.Idx → Elt F .f32) (A_9 : S128x64.Idx → Elt F .f32) (A_10 : S1x64.Idx → Elt F .f32) (A_11 : S1x64.Idx → Elt F .f32) (A_12 : S1x64.Idx → Elt F .f32) (A_13 : S1x64.Idx → Elt F .f32) (A_14 : S1x64.Idx → Elt F .f32) (i : S65536x64.Idx) :
    G12_15 A_0 A_1 A_2 A_3 A_4 A_5 A_6 A_7 A_8 A_9 A_10 A_11 A_12 A_13 A_14 i = out12_15 (((cfg12.win 0).blk (pt12 i)).view.read (Elt F) A_0) (((cfg12.win 1).blk (pt12 i)).view.read (Elt F) A_1) (((cfg12.win 2).blk (pt12 i)).view.read (Elt F) A_2) (((cfg12.win 3).blk (pt12 i)).view.read (Elt F) A_3) (((cfg12.win 4).blk (pt12 i)).view.read (Elt F) A_4) (((cfg12.win 5).blk (pt12 i)).view.read (Elt F) A_5) (((cfg12.win 6).blk (pt12 i)).view.read (Elt F) A_6) (((cfg12.win 7).blk (pt12 i)).view.read (Elt F) A_7) (((cfg12.win 8).blk (pt12 i)).view.read (Elt F) A_8) (((cfg12.win 9).blk (pt12 i)).view.read (Elt F) A_9) (((cfg12.win 10).blk (pt12 i)).view.read (Elt F) A_10) (((cfg12.win 11).blk (pt12 i)).view.read (Elt F) A_11) (((cfg12.win 12).blk (pt12 i)).view.read (Elt F) A_12) (((cfg12.win 13).blk (pt12 i)).view.read (Elt F) A_13) (((cfg12.win 14).blk (pt12 i)).view.read (Elt F) A_14) (loc12 i) := rfl

/-- The output's block index at point t is (t, 0), decided over the sixteen points. -/
theorem idx12_15 : ∀ t : Fin cfg12.N, win12_15.index t (0 : Fin 2) = t.val ∧ win12_15.index t (1 : Fin 2) = 0 :=
  (by decide +kernel : ∀ t : Fin grid12.N, _)

set_option maxHeartbeats 2000000 in
/-- What point t writes back is block t of G12_15 of the arrays as the region finds them. -/
theorem flushed12_15_eq (c : Dev nD) (t : Fin cfg12.N) :
    (dat12 V c).flushed 15 t = ((cfg12.win 15).blk t).view.read (Elt F) (G12_15 (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) (V c (Pipeline.arrRef spec12 7)) (V c (Pipeline.arrRef spec12 8)) (V c (Pipeline.arrRef spec12 9)) (V c (Pipeline.arrRef spec12 10)) (V c (Pipeline.arrRef spec12 11)) (V c (Pipeline.arrRef spec12 12)) (V c (Pipeline.arrRef spec12 13)) (V c (Pipeline.arrRef spec12 14))) := by
  show (cfg12.win 15).cut (grid12.coords t) ((dat12 V c).after 15 t) = _
  rw [after12_15]
  obtain ⟨e0, e1⟩ := idx12_15 t
  funext j
  have hj0 : (j 0).val < 4096 := (j 0).isLt
  have hp : pt12 (((cfg12.win 15).blk t).view.emb j) = t := by
    apply Fin.ext
    show (win12_15.index t (0 : Fin 2) * 4096 + 1 * (j 0).val) / 4096 = t.val
    omega
  have hl : loc12 (((cfg12.win 15).blk t).view.emb j) = j := by
    funext a; apply Fin.ext
    match a with
    | ⟨0, _⟩ => show (win12_15.index t (0 : Fin 2) * 4096 + 1 * (j 0).val) % 4096 = (j 0).val; omega
    | ⟨1, _⟩ => show win12_15.index t (1 : Fin 2) * 64 + 1 * (j 1).val = (j 1).val; omega
  rw [View.read_apply]
  rw [G12_15_apply, hp, hl]
  unfold iblk12
  generalize out12_15 (F := F) _ _ _ _ _ _ _ _ _ _ _ _ _ _ _ = X
  rfl

/-- An index of the array is in point t's block iff each coordinate is in the block's range on its axis. -/
theorem mem_blk12_15 (t : Fin cfg12.N) (i : S65536x64.Idx) :
    i ∈ ((cfg12.win 15).blk t).view.set ↔ ∀ a : Fin 2, win12_15.index t a * S4096x64.size a ≤ (i a).val ∧ (i a).val < win12_15.index t a * S4096x64.size a + S4096x64.size a := by
  show i ∈ ((View.whole main_v277).slice (win12_15.rect t)).set ↔ _
  rw [View.set_slice_whole, Rect.mem_set_unit]
  exact Iff.rfl

/-- Every index of the array is in some point's block. -/
theorem covered12_15 (i : S65536x64.Idx) : ∃ t : Fin cfg12.N, (cfg12.win 15).flush t = true ∧ i ∈ ((cfg12.win 15).blk t).view.set := by
  refine ⟨pt12 i, flush12_15 _, ?_⟩
  rw [mem_blk12_15]
  obtain ⟨e0, e1⟩ := idx12_15 (pt12 i)
  have h_0 := ValueIdx.idx2_lt0 i
  have h_1 := ValueIdx.idx2_lt1 i
  have hp : (pt12 i).val = (i 0).val / 4096 := rfl
  intro a
  match a with
  | ⟨0, _⟩ => show win12_15.index (pt12 i) (0 : Fin 2) * 4096 ≤ (i 0).val ∧ (i 0).val < win12_15.index (pt12 i) (0 : Fin 2) * 4096 + 4096; omega
  | ⟨1, _⟩ => show win12_15.index (pt12 i) (1 : Fin 2) * 64 ≤ (i 1).val ∧ (i 1).val < win12_15.index (pt12 i) (1 : Fin 2) * 64 + 64; omega

/-- The output array after the region: G12_15 of the arrays as the region finds them. -/
theorem final12_15 (c : Dev nD) :
    (dat12 V c).arrAt ⟨15, by decide⟩ cfg12.N = G12_15 (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) (V c (Pipeline.arrRef spec12 7)) (V c (Pipeline.arrRef spec12 8)) (V c (Pipeline.arrRef spec12 9)) (V c (Pipeline.arrRef spec12 10)) (V c (Pipeline.arrRef spec12 11)) (V c (Pipeline.arrRef spec12 12)) (V c (Pipeline.arrRef spec12 13)) (V c (Pipeline.arrRef spec12 14)) :=
  (dat12 V c).arrAt_eq_of_cover 15 _ (fun t _ => flushed12_15_eq V c t) covered12_15

end Cert.KernelIdeal.Hand

end
-- ==== Proof.KI.Reg13.lean ====
import proofs.«159011_j9938554322955_1_alg».proof.Proof.Gen.KernelIdeal.Launch
import proofs.«159011_j9938554322955_1_alg».proof.Proof.Gen.KernelIdeal.Skeleton
import proofs.«159011_j9938554322955_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

-- membership in a rectangle of long extents: the structural check recurses once per coordinate of the long axes
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The final projection: out = x · Wf + bf on blocks of 4096 rows, at the entry contents V -/

/-- Window w's block at point t, read off its array as the region finds it. -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, fetched there or not: unfetched, the
    block index has not moved. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

noncomputable abbrev r13_x : Rect S4096x64 := Rect.unit (s := S4096x64) ![0, 0] S4096x64.size inb_S4096x64_S4096x64_0_0
noncomputable abbrev r13_w : Rect S64x256 := Rect.unit (s := S64x256) ![0, 0] S64x256.size inb_S64x256_S64x256_0_0
noncomputable abbrev r13_b : Rect S1x256 := Rect.unit (s := S1x256) ![0, 0] S1x256.size inb_S1x256_S1x256_0_0
noncomputable abbrev r13_o : Rect S4096x256 := Rect.unit (s := S4096x256) ![0, 0] S4096x256.size inb_S4096x256_S4096x256_0_0

/-! ## What the body leaves in the output window's buffer -/

/-- The output block after the body, from the three input blocks: its one store, whose payload is the product of the rows with Wf plus bf. -/
noncomputable def out13_3 (x0 : Vec F S4096x64 .f32) (x1 : Vec F S64x256 .f32) (x2 : Vec F S1x256 .f32) : Vec F S4096x256 .f32 :=
  View.canon [⟨r13_o, k13_pay1 (View.ld x0 r13_x) (View.ld x1 r13_w) (View.ld x2 r13_b)⟩]

/-- The one store covers the buffer. -/
theorem cover13_3 (p0 : Vec F S4096x256 .f32) (y : S4096x256.Idx) :
    ∃ pc ∈ ([⟨r13_o, p0⟩] : List (View.Piece (Elt F) S4096x256 .f32)), y ∈ pc.1.set :=
  View.cover_of_tiled [⟨r13_o, p0⟩] S4096x256.size (by rfl) y

/-! ## The body's triple -/

set_option maxHeartbeats 1000000 in
/-- The kernel body on whole staging memrefs, the inputs' at read contents and the output's at anything, runs to the
    continuation holding the inputs' as they were and the output's at out13_3 of the inputs'. -/
theorem sound_kernel13 (c : Dev nD) (E : Set ℕ) (i : grid13.Coords)
    (arg1 : Memref sig .tc .vmem S4096x64 .f32) (harg1 : arg1.IsWhole) (arg2 : Memref sig .tc .vmem S64x256 .f32) (harg2 : arg2.IsWhole)
    (arg3 : Memref sig .tc .vmem S1x256 .f32) (harg3 : arg3.IsWhole) (arg4 : Memref sig .tc .vmem S4096x256 .f32) (harg4 : arg4.IsWhole)
    (x0 : Vec F S4096x64 .f32) (x1 : Vec F S64x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out13_3 x0 x1 x2)) -∗ K ⟨⟩))
      ⊢ wp frame (wpE (defs₀ (F := F)) Variants.none c none) E (cc13__final_kernel i arg1 harg1 arg2 harg2 arg3 harg3 arg4 harg4) K := by
  simp only [cc13__final_kernel_eq_skeleton]; unfold cc13__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

/-! ## The region's proof data -/

/-- The proof data on core c: the arrays as the region finds them; after the body at point t each input's buffer at its
    block and the output's at out13_3 of the input blocks; the invariant the scoped rest and the generator register,
    untouched; nothing owed; full shares. -/
noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) :
    (dat13 V c).after 3 t = out13_3 (iblk13 V c 0 t) (iblk13 V c 1 t) (iblk13 V c 2 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation, at a generic point -/

/-- What the body is called with at point t, the windows one by one, -/
noncomputable def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d)))

/-- and what it returns. -/
noncomputable def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t))

/-- The body at any point: the inputs' memrefs hold their blocks, so the body's triple applies; the invariant and the
    core's debts pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3]
  iintro ⟨HΦ, Ho, ⟨%d0, H0⟩, ⟨%d1, H1⟩, ⟨%d2, H2⟩, ⟨%d3, H3⟩⟩
  iapply (sound_kernel13 c Set.univ (grid13.coords t) _ _ _ _ _ _ _ _ (iblk13 V c 0 t) (iblk13 V c 1 t) (iblk13 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation13 (c : Dev nD) : BodyObligation (dat13 (F := F) V c) (defs₀ (F := F)) Variants.none () Set.univ := fun t => by
  rw [bigSep_W13, bigSep_W13]
  exact sound_body13 V c t

/-! ## The invariant at the region's ends -/

theorem phi_in13 (c : Dev nD) :
    (iprop((∃ r, prngReg c r) ∗ Pipeline.scopedRest (Ix := Unit) (Name := ℕ) (U := UR sig nD τ) (Lvl := ℕ) (Val := Elt F) spec13 c) : sProp 𝕄)
      ⊢ (dat13 V c).Φ 0 := by
  show _ ⊢ Pipeline.ΦA spec13 c
  unfold Pipeline.ΦA
  iintro ⟨Hr, Hs⟩
  isplitl [Hs]; · iexact Hs
  iexact Hr

theorem phi_out13 (c : Dev nD) :
    (dat13 V c).Φ (Fin.last cfg13.N)
      ⊢ (iprop((∃ r, prngReg c r) ∗ Pipeline.scopedRest (Ix := Unit) (Name := ℕ) (U := UR sig nD τ) (Lvl := ℕ) (Val := Elt F) spec13 c) : sProp 𝕄) := by
  show Pipeline.ΦA spec13 c ⊢ _
  unfold Pipeline.ΦA
  iintro ⟨Hs, Hr⟩
  isplitl [Hr]; · iexact Hr
  iexact Hs

end Cert.KernelIdeal.Hand

end
-- ==== Proof.KI.Fold.lean ====
import proofs.«159011_j9938554322955_1_alg».proof.Proof.Gen.KernelIdeal.Launch
import proofs.«159011_j9938554322955_1_alg».proof.Proof.Gen.KernelIdeal.Regions
import proofs.«159011_j9938554322955_1_alg».proof.Proof.KI.Reg0
import proofs.«159011_j9938554322955_1_alg».proof.Proof.KI.Reg1
import proofs.«159011_j9938554322955_1_alg».proof.Proof.KI.Reg2
import proofs.«159011_j9938554322955_1_alg».proof.Proof.KI.Reg3
import proofs.«159011_j9938554322955_1_alg».proof.Proof.KI.Reg4
import proofs.«159011_j9938554322955_1_alg».proof.Proof.KI.Reg5
import proofs.«159011_j9938554322955_1_alg».proof.Proof.KI.Reg6
import proofs.«159011_j9938554322955_1_alg».proof.Proof.KI.Reg7
import proofs.«159011_j9938554322955_1_alg».proof.Proof.KI.Reg8
import proofs.«159011_j9938554322955_1_alg».proof.Proof.KI.Reg9
import proofs.«159011_j9938554322955_1_alg».proof.Proof.KI.Reg10
import proofs.«159011_j9938554322955_1_alg».proof.Proof.KI.Reg11
import proofs.«159011_j9938554322955_1_alg».proof.Proof.KI.Reg12
import proofs.«159011_j9938554322955_1_alg».proof.Proof.KI.Reg13
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the decided facts over 517 references and 16 windows recurse past the default depth
set_option maxRecDepth 4628

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents at each boundary of @main: a fold from the launch memory

@main is 15 stretches of host operations around 14 kernel regions. `W0` is the launch memory read per core; an odd
index `W(2K+1)` is the contents after host stretch `K` (region `K`'s entry); an even index `W(2K+2)` is the contents at
region `K`'s exit: its window arrays at what the write-backs leave, every other buffer as entered. -/

/-- Core `c`'s buffers at launch. -/
noncomputable abbrev W0 (m : (ℓ : Loc nD τ sig) → Buf (Elt F) ℓ) (ρ : Dev nD → PrngReg) : Dev nD → Valuation τ sig (Elt F) :=
  fun c b => m ((c : Dev nD), b)

variable (m : (ℓ : Loc nD τ sig) → Buf (Elt F) ℓ) (ρ : Dev nD → PrngReg)

/-- After `hostOps0` (region 0's entry). -/
noncomputable abbrev W1 : Dev nD → Valuation τ sig (Elt F) := fun c => StableHlo.after hostOps0 (W0 m ρ c)
/-- The same read at the TensorCore's references (what region 0's proof data take). -/
noncomputable abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
noncomputable def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
noncomputable abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
noncomputable abbrev W3 : Dev nD → Valuation τ sig (Elt F) := fun c => StableHlo.after hostOps1 (W2 m ρ c)
/-- The same read at the TensorCore's references (what region 1's proof data take). -/
noncomputable abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
noncomputable def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
noncomputable abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
noncomputable abbrev W5 : Dev nD → Valuation τ sig (Elt F) := fun c => StableHlo.after hostOps2 (W4 m ρ c)
/-- The same read at the TensorCore's references (what region 2's proof data take). -/
noncomputable abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
noncomputable def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
noncomputable abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
noncomputable abbrev W7 : Dev nD → Valuation τ sig (Elt F) := fun c => StableHlo.after hostOps3 (W6 m ρ c)
/-- The same read at the TensorCore's references (what region 3's proof data take). -/
noncomputable abbrev V7 : (c : Dev nD) → (b : Ref sig .tc) → Buf (Elt F) ((c : Thread nD τ).loc b) := fun c b => W7 m ρ c b
/-- At region 3's exit: its arrays at what the pipeline leaves (the inputs as entered, each output's write-backs
    folded), every other buffer as entered. -/
noncomputable def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
noncomputable abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
noncomputable abbrev W9 : Dev nD → Valuation τ sig (Elt F) := fun c => StableHlo.after hostOps4 (W8 m ρ c)
/-- The same read at the TensorCore's references (what region 4's proof data take). -/
noncomputable abbrev V9 : (c : Dev nD) → (b : Ref sig .tc) → Buf (Elt F) ((c : Thread nD τ).loc b) := fun c b => W9 m ρ c b
/-- At region 4's exit: its arrays at what the pipeline leaves (the inputs as entered, each output's write-backs
    folded), every other buffer as entered. -/
noncomputable def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
noncomputable abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`). -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5` (region 5's entry). -/
noncomputable abbrev W11 : Dev nD → Valuation τ sig (Elt F) := fun c => StableHlo.after hostOps5 (W10 m ρ c)
/-- The same read at the TensorCore's references (what region 5's proof data take). -/
noncomputable abbrev V11 : (c : Dev nD) → (b : Ref sig .tc) → Buf (Elt F) ((c : Thread nD τ).loc b) := fun c b => W11 m ρ c b
/-- At region 5's exit: its arrays at what the pipeline leaves (the inputs as entered, each output's write-backs
    folded), every other buffer as entered. -/
noncomputable def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
noncomputable abbrev V12 : (c : Dev nD) → (b : Ref sig .tc) → Buf (Elt F) ((c : Thread nD τ).loc b) := fun c b => W12 m ρ c b
/-- At region 5's exit each of its arrays holds what the pipeline leaves (`hF5`) and every other buffer what it
    held at entry (`hrest5`). -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6` (region 6's entry). -/
noncomputable abbrev W13 : Dev nD → Valuation τ sig (Elt F) := fun c => StableHlo.after hostOps6 (W12 m ρ c)
/-- The same read at the TensorCore's references (what region 6's proof data take). -/
noncomputable abbrev V13 : (c : Dev nD) → (b : Ref sig .tc) → Buf (Elt F) ((c : Thread nD τ).loc b) := fun c b => W13 m ρ c b
/-- At region 6's exit: its arrays at what the pipeline leaves (the inputs as entered, each output's write-backs
    folded), every other buffer as entered. -/
noncomputable def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
noncomputable abbrev V14 : (c : Dev nD) → (b : Ref sig .tc) → Buf (Elt F) ((c : Thread nD τ).loc b) := fun c b => W14 m ρ c b
/-- At region 6's exit each of its arrays holds what the pipeline leaves (`hF6`) and every other buffer what it
    held at entry (`hrest6`). -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After `hostOps7` (region 7's entry). -/
noncomputable abbrev W15 : Dev nD → Valuation τ sig (Elt F) := fun c => StableHlo.after hostOps7 (W14 m ρ c)
/-- The same read at the TensorCore's references (what region 7's proof data take). -/
noncomputable abbrev V15 : (c : Dev nD) → (b : Ref sig .tc) → Buf (Elt F) ((c : Thread nD τ).loc b) := fun c b => W15 m ρ c b
/-- At region 7's exit: its arrays at what the pipeline leaves (the inputs as entered, each output's write-backs
    folded), every other buffer as entered. -/
noncomputable def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
noncomputable abbrev V16 : (c : Dev nD) → (b : Ref sig .tc) → Buf (Elt F) ((c : Thread nD τ).loc b) := fun c b => W16 m ρ c b
/-- At region 7's exit each of its arrays holds what the pipeline leaves (`hF7`) and every other buffer what it
    held at entry (`hrest7`). -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After `hostOps8` (region 8's entry). -/
noncomputable abbrev W17 : Dev nD → Valuation τ sig (Elt F) := fun c => StableHlo.after hostOps8 (W16 m ρ c)
/-- The same read at the TensorCore's references (what region 8's proof data take). -/
noncomputable abbrev V17 : (c : Dev nD) → (b : Ref sig .tc) → Buf (Elt F) ((c : Thread nD τ).loc b) := fun c b => W17 m ρ c b
/-- At region 8's exit: its arrays at what the pipeline leaves (the inputs as entered, each output's write-backs
    folded), every other buffer as entered. -/
noncomputable def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
noncomputable abbrev V18 : (c : Dev nD) → (b : Ref sig .tc) → Buf (Elt F) ((c : Thread nD τ).loc b) := fun c b => W18 m ρ c b
/-- At region 8's exit each of its arrays holds what the pipeline leaves (`hF8`) and every other buffer what it
    held at entry (`hrest8`). -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After `hostOps9` (region 9's entry). -/
noncomputable abbrev W19 : Dev nD → Valuation τ sig (Elt F) := fun c => StableHlo.after hostOps9 (W18 m ρ c)
/-- The same read at the TensorCore's references (what region 9's proof data take). -/
noncomputable abbrev V19 : (c : Dev nD) → (b : Ref sig .tc) → Buf (Elt F) ((c : Thread nD τ).loc b) := fun c b => W19 m ρ c b
/-- At region 9's exit: its arrays at what the pipeline leaves (the inputs as entered, each output's write-backs
    folded), every other buffer as entered. -/
noncomputable def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references (region 9's exit contents). -/
noncomputable abbrev V20 : (c : Dev nD) → (b : Ref sig .tc) → Buf (Elt F) ((c : Thread nD τ).loc b) := fun c b => W20 m ρ c b
/-- At region 9's exit each of its arrays holds what the pipeline leaves (`hF9`) and every other buffer what it
    held at entry (`hrest9`). -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After `hostOps10` (region 10's entry). -/
noncomputable abbrev W21 : Dev nD → Valuation τ sig (Elt F) := fun c => StableHlo.after hostOps10 (W20 m ρ c)
/-- The same read at the TensorCore's references (what region 10's proof data take). -/
noncomputable abbrev V21 : (c : Dev nD) → (b : Ref sig .tc) → Buf (Elt F) ((c : Thread nD τ).loc b) := fun c b => W21 m ρ c b
/-- At region 10's exit: its arrays at what the pipeline leaves (the inputs as entered, each output's write-backs
    folded), every other buffer as entered. -/
noncomputable def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
/-- The same read at the TensorCore's references (region 10's exit contents). -/
noncomputable abbrev V22 : (c : Dev nD) → (b : Ref sig .tc) → Buf (Elt F) ((c : Thread nD τ).loc b) := fun c b => W22 m ρ c b
/-- At region 10's exit each of its arrays holds what the pipeline leaves (`hF10`) and every other buffer what it
    held at entry (`hrest10`). -/
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After `hostOps11` (region 11's entry). -/
noncomputable abbrev W23 : Dev nD → Valuation τ sig (Elt F) := fun c => StableHlo.after hostOps11 (W22 m ρ c)
/-- The same read at the TensorCore's references (what region 11's proof data take). -/
noncomputable abbrev V23 : (c : Dev nD) → (b : Ref sig .tc) → Buf (Elt F) ((c : Thread nD τ).loc b) := fun c b => W23 m ρ c b
/-- At region 11's exit: its arrays at what the pipeline leaves (the inputs as entered, each output's write-backs
    folded), every other buffer as entered. -/
noncomputable def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
/-- The same read at the TensorCore's references (region 11's exit contents). -/
noncomputable abbrev V24 : (c : Dev nD) → (b : Ref sig .tc) → Buf (Elt F) ((c : Thread nD τ).loc b) := fun c b => W24 m ρ c b
/-- At region 11's exit each of its arrays holds what the pipeline leaves (`hF11`) and every other buffer what it
    held at entry (`hrest11`). -/
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)

/-- After `hostOps12` (region 12's entry). -/
noncomputable abbrev W25 : Dev nD → Valuation τ sig (Elt F) := fun c => StableHlo.after hostOps12 (W24 m ρ c)
/-- The same read at the TensorCore's references (what region 12's proof data take). -/
noncomputable abbrev V25 : (c : Dev nD) → (b : Ref sig .tc) → Buf (Elt F) ((c : Thread nD τ).loc b) := fun c b => W25 m ρ c b
/-- At region 12's exit: its arrays at what the pipeline leaves (the inputs as entered, each output's write-backs
    folded), every other buffer as entered. -/
noncomputable def W26 (c : Dev nD) : Valuation τ sig (Elt F) :=
  Pipeline.withArrays spec12 c (W25 m ρ c) fun w => (dat12 (V25 m ρ) c).arrAt w cfg12.N
theorem W26_arr (c : Dev nD) (w : Fin cfg12.W) :
    W26 m ρ c (Proc.devRef .tc (Pipeline.arrRef spec12 w)) = (dat12 (V25 m ρ) c).arrAt w cfg12.N := by
  unfold W26; exact Pipeline.withArrays_arr spec12 launch12.win.arr_inj c _ _ w
theorem W26_of_ne (c : Dev nD) (b : Ref sig .tc) (hb : ∀ w, Pipeline.arrRef spec12 w ≠ b) :
    W26 m ρ c (Proc.devRef .tc b) = W25 m ρ c (Proc.devRef .tc b) := by
  unfold W26; exact Pipeline.withArrays_of_ne spec12 c _ _ b hb
/-- The same read at the TensorCore's references (region 12's exit contents). -/
noncomputable abbrev V26 : (c : Dev nD) → (b : Ref sig .tc) → Buf (Elt F) ((c : Thread nD τ).loc b) := fun c b => W26 m ρ c b
/-- At region 12's exit each of its arrays holds what the pipeline leaves (`hF12`) and every other buffer what it
    held at entry (`hrest12`). -/
theorem hF12 (c : Dev nD) (w : Fin cfg12.W) : (dat12 (V25 m ρ) c).arrAt w cfg12.N = V26 m ρ c (Pipeline.arrRef spec12 w) :=
  (W26_arr m ρ c w).symm
theorem hrest12 (c : Dev nD) : ∀ b, b ∉ Finset.univ.image (Pipeline.arrRef spec12) → V26 m ρ c b = V25 m ρ c b :=
  fun b hb => W26_of_ne m ρ c b fun w e => hb (Finset.mem_image.mpr ⟨w, Finset.mem_univ _, e⟩)

/-- After `hostOps13` (region 13's entry). -/
noncomputable abbrev W27 : Dev nD → Valuation τ sig (Elt F) := fun c => StableHlo.after hostOps13 (W26 m ρ c)
/-- The same read at the TensorCore's references (what region 13's proof data take). -/
noncomputable abbrev V27 : (c : Dev nD) → (b : Ref sig .tc) → Buf (Elt F) ((c : Thread nD τ).loc b) := fun c b => W27 m ρ c b
/-- At region 13's exit: its arrays at what the pipeline leaves (the inputs as entered, each output's write-backs
    folded), every other buffer as entered. -/
noncomputable def W28 (c : Dev nD) : Valuation τ sig (Elt F) :=
  Pipeline.withArrays spec13 c (W27 m ρ c) fun w => (dat13 (V27 m ρ) c).arrAt w cfg13.N
theorem W28_arr (c : Dev nD) (w : Fin cfg13.W) :
    W28 m ρ c (Proc.devRef .tc (Pipeline.arrRef spec13 w)) = (dat13 (V27 m ρ) c).arrAt w cfg13.N := by
  unfold W28; exact Pipeline.withArrays_arr spec13 launch13.win.arr_inj c _ _ w
theorem W28_of_ne (c : Dev nD) (b : Ref sig .tc) (hb : ∀ w, Pipeline.arrRef spec13 w ≠ b) :
    W28 m ρ c (Proc.devRef .tc b) = W27 m ρ c (Proc.devRef .tc b) := by
  unfold W28; exact Pipeline.withArrays_of_ne spec13 c _ _ b hb
/-- The same read at the TensorCore's references (region 13's exit contents). -/
noncomputable abbrev V28 : (c : Dev nD) → (b : Ref sig .tc) → Buf (Elt F) ((c : Thread nD τ).loc b) := fun c b => W28 m ρ c b
/-- At region 13's exit each of its arrays holds what the pipeline leaves (`hF13`) and every other buffer what it
    held at entry (`hrest13`). -/
theorem hF13 (c : Dev nD) (w : Fin cfg13.W) : (dat13 (V27 m ρ) c).arrAt w cfg13.N = V28 m ρ c (Pipeline.arrRef spec13 w) :=
  (W28_arr m ρ c w).symm
theorem hrest13 (c : Dev nD) : ∀ b, b ∉ Finset.univ.image (Pipeline.arrRef spec13) → V28 m ρ c b = V27 m ρ c b :=
  fun b hb => W28_of_ne m ρ c b fun w e => hb (Finset.mem_image.mpr ⟨w, Finset.mem_univ _, e⟩)

/-- After `hostOps14` (the contents @main returns with). -/
noncomputable abbrev W29 : Dev nD → Valuation τ sig (Elt F) := fun c => StableHlo.after hostOps14 (W28 m ρ c)

/-! ## The arguments end as launched

No host operation writes an argument, and a region reads an argument only through an input window (never written), so
the fold at an argument's buffer walks back to the launch memory. -/

theorem W29_main_arg0 (c : Dev nD) : W29 m ρ c (Proc.devRef .tc main_arg0) = m ((c : Thread nD τ).loc main_arg0) :=
  calc W29 m ρ c (Proc.devRef .tc main_arg0)
    _ = W28 m ρ c (Proc.devRef .tc main_arg0) := StableHlo.after_of_writes_sub hostOps14 _ hostOps14_writes (by decide)
    _ = W27 m ρ c (Proc.devRef .tc main_arg0) := W28_of_ne m ρ c main_arg0 (by decide)
    _ = W26 m ρ c (Proc.devRef .tc main_arg0) := StableHlo.after_of_writes_sub hostOps13 _ hostOps13_writes (by decide)
    _ = W25 m ρ c (Proc.devRef .tc main_arg0) := W26_of_ne m ρ c main_arg0 (by decide)
    _ = W24 m ρ c (Proc.devRef .tc main_arg0) := StableHlo.after_of_writes_sub hostOps12 _ hostOps12_writes (by decide)
    _ = W23 m ρ c (Proc.devRef .tc main_arg0) := W24_of_ne m ρ c main_arg0 (by decide)
    _ = W22 m ρ c (Proc.devRef .tc main_arg0) := StableHlo.after_of_writes_sub hostOps11 _ hostOps11_writes (by decide)
    _ = W21 m ρ c (Proc.devRef .tc main_arg0) := W22_of_ne m ρ c main_arg0 (by decide)
    _ = W20 m ρ c (Proc.devRef .tc main_arg0) := StableHlo.after_of_writes_sub hostOps10 _ hostOps10_writes (by decide)
    _ = W19 m ρ c (Proc.devRef .tc main_arg0) := W20_of_ne m ρ c main_arg0 (by decide)
    _ = W18 m ρ c (Proc.devRef .tc main_arg0) := StableHlo.after_of_writes_sub hostOps9 _ hostOps9_writes (by decide)
    _ = W17 m ρ c (Proc.devRef .tc main_arg0) := W18_of_ne m ρ c main_arg0 (by decide)
    _ = W16 m ρ c (Proc.devRef .tc main_arg0) := StableHlo.after_of_writes_sub hostOps8 _ hostOps8_writes (by decide)
    _ = W15 m ρ c (Proc.devRef .tc main_arg0) := W16_of_ne m ρ c main_arg0 (by decide)
    _ = W14 m ρ c (Proc.devRef .tc main_arg0) := StableHlo.after_of_writes_sub hostOps7 _ hostOps7_writes (by decide)
    _ = W13 m ρ c (Proc.devRef .tc main_arg0) := W14_of_ne m ρ c main_arg0 (by decide)
    _ = W12 m ρ c (Proc.devRef .tc main_arg0) := StableHlo.after_of_writes_sub hostOps6 _ hostOps6_writes (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W29_main_arg1 (c : Dev nD) : W29 m ρ c (Proc.devRef .tc main_arg1) = m ((c : Thread nD τ).loc main_arg1) :=
  calc W29 m ρ c (Proc.devRef .tc main_arg1)
    _ = W28 m ρ c (Proc.devRef .tc main_arg1) := StableHlo.after_of_writes_sub hostOps14 _ hostOps14_writes (by decide)
    _ = W27 m ρ c (Proc.devRef .tc main_arg1) := W28_of_ne m ρ c main_arg1 (by decide)
    _ = W26 m ρ c (Proc.devRef .tc main_arg1) := StableHlo.after_of_writes_sub hostOps13 _ hostOps13_writes (by decide)
    _ = W25 m ρ c (Proc.devRef .tc main_arg1) := W26_of_ne m ρ c main_arg1 (by decide)
    _ = W24 m ρ c (Proc.devRef .tc main_arg1) := StableHlo.after_of_writes_sub hostOps12 _ hostOps12_writes (by decide)
    _ = W23 m ρ c (Proc.devRef .tc main_arg1) := W24_of_ne m ρ c main_arg1 (by decide)
    _ = W22 m ρ c (Proc.devRef .tc main_arg1) := StableHlo.after_of_writes_sub hostOps11 _ hostOps11_writes (by decide)
    _ = W21 m ρ c (Proc.devRef .tc main_arg1) := W22_of_ne m ρ c main_arg1 (by decide)
    _ = W20 m ρ c (Proc.devRef .tc main_arg1) := StableHlo.after_of_writes_sub hostOps10 _ hostOps10_writes (by decide)
    _ = W19 m ρ c (Proc.devRef .tc main_arg1) := W20_of_ne m ρ c main_arg1 (by decide)
    _ = W18 m ρ c (Proc.devRef .tc main_arg1) := StableHlo.after_of_writes_sub hostOps9 _ hostOps9_writes (by decide)
    _ = W17 m ρ c (Proc.devRef .tc main_arg1) := W18_of_ne m ρ c main_arg1 (by decide)
    _ = W16 m ρ c (Proc.devRef .tc main_arg1) := StableHlo.after_of_writes_sub hostOps8 _ hostOps8_writes (by decide)
    _ = W15 m ρ c (Proc.devRef .tc main_arg1) := W16_of_ne m ρ c main_arg1 (by decide)
    _ = W14 m ρ c (Proc.devRef .tc main_arg1) := StableHlo.after_of_writes_sub hostOps7 _ hostOps7_writes (by decide)
    _ = W13 m ρ c (Proc.devRef .tc main_arg1) := W14_of_ne m ρ c main_arg1 (by decide)
    _ = W12 m ρ c (Proc.devRef .tc main_arg1) := StableHlo.after_of_writes_sub hostOps6 _ hostOps6_writes (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W29_main_arg2 (c : Dev nD) : W29 m ρ c (Proc.devRef .tc main_arg2) = m ((c : Thread nD τ).loc main_arg2) :=
  calc W29 m ρ c (Proc.devRef .tc main_arg2)
    _ = W28 m ρ c (Proc.devRef .tc main_arg2) := StableHlo.after_of_writes_sub hostOps14 _ hostOps14_writes (by decide)
    _ = W27 m ρ c (Proc.devRef .tc main_arg2) := W28_of_ne m ρ c main_arg2 (by decide)
    _ = W26 m ρ c (Proc.devRef .tc main_arg2) := StableHlo.after_of_writes_sub hostOps13 _ hostOps13_writes (by decide)
    _ = W25 m ρ c (Proc.devRef .tc main_arg2) := W26_of_ne m ρ c main_arg2 (by decide)
    _ = W24 m ρ c (Proc.devRef .tc main_arg2) := StableHlo.after_of_writes_sub hostOps12 _ hostOps12_writes (by decide)
    _ = W23 m ρ c (Proc.devRef .tc main_arg2) := W24_of_ne m ρ c main_arg2 (by decide)
    _ = W22 m ρ c (Proc.devRef .tc main_arg2) := StableHlo.after_of_writes_sub hostOps11 _ hostOps11_writes (by decide)
    _ = W21 m ρ c (Proc.devRef .tc main_arg2) := W22_of_ne m ρ c main_arg2 (by decide)
    _ = W20 m ρ c (Proc.devRef .tc main_arg2) := StableHlo.after_of_writes_sub hostOps10 _ hostOps10_writes (by decide)
    _ = W19 m ρ c (Proc.devRef .tc main_arg2) := W20_of_ne m ρ c main_arg2 (by decide)
    _ = W18 m ρ c (Proc.devRef .tc main_arg2) := StableHlo.after_of_writes_sub hostOps9 _ hostOps9_writes (by decide)
    _ = W17 m ρ c (Proc.devRef .tc main_arg2) := W18_of_ne m ρ c main_arg2 (by decide)
    _ = W16 m ρ c (Proc.devRef .tc main_arg2) := StableHlo.after_of_writes_sub hostOps8 _ hostOps8_writes (by decide)
    _ = W15 m ρ c (Proc.devRef .tc main_arg2) := W16_of_ne m ρ c main_arg2 (by decide)
    _ = W14 m ρ c (Proc.devRef .tc main_arg2) := StableHlo.after_of_writes_sub hostOps7 _ hostOps7_writes (by decide)
    _ = W13 m ρ c (Proc.devRef .tc main_arg2) := W14_of_ne m ρ c main_arg2 (by decide)
    _ = W12 m ρ c (Proc.devRef .tc main_arg2) := StableHlo.after_of_writes_sub hostOps6 _ hostOps6_writes (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 0).trans (((dat0 (V1 m ρ) c).arrAt_in 0 rfl _).trans (A_eq0 (V1 m ρ) c 0))
    _ = W0 m ρ c (Proc.devRef .tc main_arg2) := StableHlo.after_of_writes_sub hostOps0 _ hostOps0_writes (by decide)
    _ = m ((c : Thread nD τ).loc main_arg2) := rfl

theorem W29_main_arg3 (c : Dev nD) : W29 m ρ c (Proc.devRef .tc main_arg3) = m ((c : Thread nD τ).loc main_arg3) :=
  calc W29 m ρ c (Proc.devRef .tc main_arg3)
    _ = W28 m ρ c (Proc.devRef .tc main_arg3) := StableHlo.after_of_writes_sub hostOps14 _ hostOps14_writes (by decide)
    _ = W27 m ρ c (Proc.devRef .tc main_arg3) := W28_of_ne m ρ c main_arg3 (by decide)
    _ = W26 m ρ c (Proc.devRef .tc main_arg3) := StableHlo.after_of_writes_sub hostOps13 _ hostOps13_writes (by decide)
    _ = W25 m ρ c (Proc.devRef .tc main_arg3) := W26_of_ne m ρ c main_arg3 (by decide)
    _ = W24 m ρ c (Proc.devRef .tc main_arg3) := StableHlo.after_of_writes_sub hostOps12 _ hostOps12_writes (by decide)
    _ = W23 m ρ c (Proc.devRef .tc main_arg3) := W24_of_ne m ρ c main_arg3 (by decide)
    _ = W22 m ρ c (Proc.devRef .tc main_arg3) := StableHlo.after_of_writes_sub hostOps11 _ hostOps11_writes (by decide)
    _ = W21 m ρ c (Proc.devRef .tc main_arg3) := W22_of_ne m ρ c main_arg3 (by decide)
    _ = W20 m ρ c (Proc.devRef .tc main_arg3) := StableHlo.after_of_writes_sub hostOps10 _ hostOps10_writes (by decide)
    _ = W19 m ρ c (Proc.devRef .tc main_arg3) := W20_of_ne m ρ c main_arg3 (by decide)
    _ = W18 m ρ c (Proc.devRef .tc main_arg3) := StableHlo.after_of_writes_sub hostOps9 _ hostOps9_writes (by decide)
    _ = W17 m ρ c (Proc.devRef .tc main_arg3) := W18_of_ne m ρ c main_arg3 (by decide)
    _ = W16 m ρ c (Proc.devRef .tc main_arg3) := StableHlo.after_of_writes_sub hostOps8 _ hostOps8_writes (by decide)
    _ = W15 m ρ c (Proc.devRef .tc main_arg3) := W16_of_ne m ρ c main_arg3 (by decide)
    _ = W14 m ρ c (Proc.devRef .tc main_arg3) := StableHlo.after_of_writes_sub hostOps7 _ hostOps7_writes (by decide)
    _ = W13 m ρ c (Proc.devRef .tc main_arg3) := W14_of_ne m ρ c main_arg3 (by decide)
    _ = W12 m ρ c (Proc.devRef .tc main_arg3) := StableHlo.after_of_writes_sub hostOps6 _ hostOps6_writes (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_writes_sub hostOps0 _ hostOps0_writes (by decide)
    _ = m ((c : Thread nD τ).loc main_arg3) := rfl

theorem W29_main_arg4 (c : Dev nD) : W29 m ρ c (Proc.devRef .tc main_arg4) = m ((c : Thread nD τ).loc main_arg4) :=
  calc W29 m ρ c (Proc.devRef .tc main_arg4)
    _ = W28 m ρ c (Proc.devRef .tc main_arg4) := StableHlo.after_of_writes_sub hostOps14 _ hostOps14_writes (by decide)
    _ = W27 m ρ c (Proc.devRef .tc main_arg4) := W28_of_ne m ρ c main_arg4 (by decide)
    _ = W26 m ρ c (Proc.devRef .tc main_arg4) := StableHlo.after_of_writes_sub hostOps13 _ hostOps13_writes (by decide)
    _ = W25 m ρ c (Proc.devRef .tc main_arg4) := W26_of_ne m ρ c main_arg4 (by decide)
    _ = W24 m ρ c (Proc.devRef .tc main_arg4) := StableHlo.after_of_writes_sub hostOps12 _ hostOps12_writes (by decide)
    _ = W23 m ρ c (Proc.devRef .tc main_arg4) := W24_of_ne m ρ c main_arg4 (by decide)
    _ = W22 m ρ c (Proc.devRef .tc main_arg4) := StableHlo.after_of_writes_sub hostOps11 _ hostOps11_writes (by decide)
    _ = W21 m ρ c (Proc.devRef .tc main_arg4) := W22_of_ne m ρ c main_arg4 (by decide)
    _ = W20 m ρ c (Proc.devRef .tc main_arg4) := StableHlo.after_of_writes_sub hostOps10 _ hostOps10_writes (by decide)
    _ = W19 m ρ c (Proc.devRef .tc main_arg4) := W20_of_ne m ρ c main_arg4 (by decide)
    _ = W18 m ρ c (Proc.devRef .tc main_arg4) := StableHlo.after_of_writes_sub hostOps9 _ hostOps9_writes (by decide)
    _ = W17 m ρ c (Proc.devRef .tc main_arg4) := W18_of_ne m ρ c main_arg4 (by decide)
    _ = W16 m ρ c (Proc.devRef .tc main_arg4) := StableHlo.after_of_writes_sub hostOps8 _ hostOps8_writes (by decide)
    _ = W15 m ρ c (Proc.devRef .tc main_arg4) := W16_of_ne m ρ c main_arg4 (by decide)
    _ = W14 m ρ c (Proc.devRef .tc main_arg4) := StableHlo.after_of_writes_sub hostOps7 _ hostOps7_writes (by decide)
    _ = W13 m ρ c (Proc.devRef .tc main_arg4) := W14_of_ne m ρ c main_arg4 (by decide)
    _ = W12 m ρ c (Proc.devRef .tc main_arg4) := StableHlo.after_of_writes_sub hostOps6 _ hostOps6_writes (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W29_main_arg5 (c : Dev nD) : W29 m ρ c (Proc.devRef .tc main_arg5) = m ((c : Thread nD τ).loc main_arg5) :=
  calc W29 m ρ c (Proc.devRef .tc main_arg5)
    _ = W28 m ρ c (Proc.devRef .tc main_arg5) := StableHlo.after_of_writes_sub hostOps14 _ hostOps14_writes (by decide)
    _ = W27 m ρ c (Proc.devRef .tc main_arg5) := W28_of_ne m ρ c main_arg5 (by decide)
    _ = W26 m ρ c (Proc.devRef .tc main_arg5) := StableHlo.after_of_writes_sub hostOps13 _ hostOps13_writes (by decide)
    _ = W25 m ρ c (Proc.devRef .tc main_arg5) := W26_of_ne m ρ c main_arg5 (by decide)
    _ = W24 m ρ c (Proc.devRef .tc main_arg5) := StableHlo.after_of_writes_sub hostOps12 _ hostOps12_writes (by decide)
    _ = W23 m ρ c (Proc.devRef .tc main_arg5) := W24_of_ne m ρ c main_arg5 (by decide)
    _ = W22 m ρ c (Proc.devRef .tc main_arg5) := StableHlo.after_of_writes_sub hostOps11 _ hostOps11_writes (by decide)
    _ = W21 m ρ c (Proc.devRef .tc main_arg5) := W22_of_ne m ρ c main_arg5 (by decide)
    _ = W20 m ρ c (Proc.devRef .tc main_arg5) := StableHlo.after_of_writes_sub hostOps10 _ hostOps10_writes (by decide)
    _ = W19 m ρ c (Proc.devRef .tc main_arg5) := W20_of_ne m ρ c main_arg5 (by decide)
    _ = W18 m ρ c (Proc.devRef .tc main_arg5) := StableHlo.after_of_writes_sub hostOps9 _ hostOps9_writes (by decide)
    _ = W17 m ρ c (Proc.devRef .tc main_arg5) := W18_of_ne m ρ c main_arg5 (by decide)
    _ = W16 m ρ c (Proc.devRef .tc main_arg5) := StableHlo.after_of_writes_sub hostOps8 _ hostOps8_writes (by decide)
    _ = W15 m ρ c (Proc.devRef .tc main_arg5) := W16_of_ne m ρ c main_arg5 (by decide)
    _ = W14 m ρ c (Proc.devRef .tc main_arg5) := StableHlo.after_of_writes_sub hostOps7 _ hostOps7_writes (by decide)
    _ = W13 m ρ c (Proc.devRef .tc main_arg5) := W14_of_ne m ρ c main_arg5 (by decide)
    _ = W12 m ρ c (Proc.devRef .tc main_arg5) := StableHlo.after_of_writes_sub hostOps6 _ hostOps6_writes (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W29_main_arg6 (c : Dev nD) : W29 m ρ c (Proc.devRef .tc main_arg6) = m ((c : Thread nD τ).loc main_arg6) :=
  calc W29 m ρ c (Proc.devRef .tc main_arg6)
    _ = W28 m ρ c (Proc.devRef .tc main_arg6) := StableHlo.after_of_writes_sub hostOps14 _ hostOps14_writes (by decide)
    _ = W27 m ρ c (Proc.devRef .tc main_arg6) := W28_of_ne m ρ c main_arg6 (by decide)
    _ = W26 m ρ c (Proc.devRef .tc main_arg6) := StableHlo.after_of_writes_sub hostOps13 _ hostOps13_writes (by decide)
    _ = W25 m ρ c (Proc.devRef .tc main_arg6) := W26_of_ne m ρ c main_arg6 (by decide)
    _ = W24 m ρ c (Proc.devRef .tc main_arg6) := StableHlo.after_of_writes_sub hostOps12 _ hostOps12_writes (by decide)
    _ = W23 m ρ c (Proc.devRef .tc main_arg6) := W24_of_ne m ρ c main_arg6 (by decide)
    _ = W22 m ρ c (Proc.devRef .tc main_arg6) := StableHlo.after_of_writes_sub hostOps11 _ hostOps11_writes (by decide)
    _ = W21 m ρ c (Proc.devRef .tc main_arg6) := W22_of_ne m ρ c main_arg6 (by decide)
    _ = W20 m ρ c (Proc.devRef .tc main_arg6) := StableHlo.after_of_writes_sub hostOps10 _ hostOps10_writes (by decide)
    _ = W19 m ρ c (Proc.devRef .tc main_arg6) := W20_of_ne m ρ c main_arg6 (by decide)
    _ = W18 m ρ c (Proc.devRef .tc main_arg6) := StableHlo.after_of_writes_sub hostOps9 _ hostOps9_writes (by decide)
    _ = W17 m ρ c (Proc.devRef .tc main_arg6) := W18_of_ne m ρ c main_arg6 (by decide)
    _ = W16 m ρ c (Proc.devRef .tc main_arg6) := StableHlo.after_of_writes_sub hostOps8 _ hostOps8_writes (by decide)
    _ = W15 m ρ c (Proc.devRef .tc main_arg6) := W16_of_ne m ρ c main_arg6 (by decide)
    _ = W14 m ρ c (Proc.devRef .tc main_arg6) := StableHlo.after_of_writes_sub hostOps7 _ hostOps7_writes (by decide)
    _ = W13 m ρ c (Proc.devRef .tc main_arg6) := W14_of_ne m ρ c main_arg6 (by decide)
    _ = W12 m ρ c (Proc.devRef .tc main_arg6) := StableHlo.after_of_writes_sub hostOps6 _ hostOps6_writes (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W29_main_arg7 (c : Dev nD) : W29 m ρ c (Proc.devRef .tc main_arg7) = m ((c : Thread nD τ).loc main_arg7) :=
  calc W29 m ρ c (Proc.devRef .tc main_arg7)
    _ = W28 m ρ c (Proc.devRef .tc main_arg7) := StableHlo.after_of_writes_sub hostOps14 _ hostOps14_writes (by decide)
    _ = W27 m ρ c (Proc.devRef .tc main_arg7) := W28_of_ne m ρ c main_arg7 (by decide)
    _ = W26 m ρ c (Proc.devRef .tc main_arg7) := StableHlo.after_of_writes_sub hostOps13 _ hostOps13_writes (by decide)
    _ = W25 m ρ c (Proc.devRef .tc main_arg7) := W26_of_ne m ρ c main_arg7 (by decide)
    _ = W24 m ρ c (Proc.devRef .tc main_arg7) := StableHlo.after_of_writes_sub hostOps12 _ hostOps12_writes (by decide)
    _ = W23 m ρ c (Proc.devRef .tc main_arg7) := W24_of_ne m ρ c main_arg7 (by decide)
    _ = W22 m ρ c (Proc.devRef .tc main_arg7) := StableHlo.after_of_writes_sub hostOps11 _ hostOps11_writes (by decide)
    _ = W21 m ρ c (Proc.devRef .tc main_arg7) := W22_of_ne m ρ c main_arg7 (by decide)
    _ = W20 m ρ c (Proc.devRef .tc main_arg7) := StableHlo.after_of_writes_sub hostOps10 _ hostOps10_writes (by decide)
    _ = W19 m ρ c (Proc.devRef .tc main_arg7) := W20_of_ne m ρ c main_arg7 (by decide)
    _ = W18 m ρ c (Proc.devRef .tc main_arg7) := StableHlo.after_of_writes_sub hostOps9 _ hostOps9_writes (by decide)
    _ = W17 m ρ c (Proc.devRef .tc main_arg7) := W18_of_ne m ρ c main_arg7 (by decide)
    _ = W16 m ρ c (Proc.devRef .tc main_arg7) := StableHlo.after_of_writes_sub hostOps8 _ hostOps8_writes (by decide)
    _ = W15 m ρ c (Proc.devRef .tc main_arg7) := W16_of_ne m ρ c main_arg7 (by decide)
    _ = W14 m ρ c (Proc.devRef .tc main_arg7) := StableHlo.after_of_writes_sub hostOps7 _ hostOps7_writes (by decide)
    _ = W13 m ρ c (Proc.devRef .tc main_arg7) := W14_of_ne m ρ c main_arg7 (by decide)
    _ = W12 m ρ c (Proc.devRef .tc main_arg7) := StableHlo.after_of_writes_sub hostOps6 _ hostOps6_writes (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W29_main_arg8 (c : Dev nD) : W29 m ρ c (Proc.devRef .tc main_arg8) = m ((c : Thread nD τ).loc main_arg8) :=
  calc W29 m ρ c (Proc.devRef .tc main_arg8)
    _ = W28 m ρ c (Proc.devRef .tc main_arg8) := StableHlo.after_of_writes_sub hostOps14 _ hostOps14_writes (by decide)
    _ = W27 m ρ c (Proc.devRef .tc main_arg8) := W28_of_ne m ρ c main_arg8 (by decide)
    _ = W26 m ρ c (Proc.devRef .tc main_arg8) := StableHlo.after_of_writes_sub hostOps13 _ hostOps13_writes (by decide)
    _ = W25 m ρ c (Proc.devRef .tc main_arg8) := W26_of_ne m ρ c main_arg8 (by decide)
    _ = W24 m ρ c (Proc.devRef .tc main_arg8) := StableHlo.after_of_writes_sub hostOps12 _ hostOps12_writes (by decide)
    _ = W23 m ρ c (Proc.devRef .tc main_arg8) := W24_of_ne m ρ c main_arg8 (by decide)
    _ = W22 m ρ c (Proc.devRef .tc main_arg8) := StableHlo.after_of_writes_sub hostOps11 _ hostOps11_writes (by decide)
    _ = W21 m ρ c (Proc.devRef .tc main_arg8) := W22_of_ne m ρ c main_arg8 (by decide)
    _ = W20 m ρ c (Proc.devRef .tc main_arg8) := StableHlo.after_of_writes_sub hostOps10 _ hostOps10_writes (by decide)
    _ = W19 m ρ c (Proc.devRef .tc main_arg8) := W20_of_ne m ρ c main_arg8 (by decide)
    _ = W18 m ρ c (Proc.devRef .tc main_arg8) := StableHlo.after_of_writes_sub hostOps9 _ hostOps9_writes (by decide)
    _ = W17 m ρ c (Proc.devRef .tc main_arg8) := W18_of_ne m ρ c main_arg8 (by decide)
    _ = W16 m ρ c (Proc.devRef .tc main_arg8) := StableHlo.after_of_writes_sub hostOps8 _ hostOps8_writes (by decide)
    _ = W15 m ρ c (Proc.devRef .tc main_arg8) := W16_of_ne m ρ c main_arg8 (by decide)
    _ = W14 m ρ c (Proc.devRef .tc main_arg8) := StableHlo.after_of_writes_sub hostOps7 _ hostOps7_writes (by decide)
    _ = W13 m ρ c (Proc.devRef .tc main_arg8) := W14_of_ne m ρ c main_arg8 (by decide)
    _ = W12 m ρ c (Proc.devRef .tc main_arg8) := StableHlo.after_of_writes_sub hostOps6 _ hostOps6_writes (by decide)
    _ = W11 m ρ c (Proc.devRef .tc main_arg8) := W12_of_ne m ρ c main_arg8 (by decide)
    _ = W10 m ρ c (Proc.devRef .tc main_arg8) := StableHlo.after_of_writes_sub hostOps5 _ hostOps5_writes (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W29_main_arg9 (c : Dev nD) : W29 m ρ c (Proc.devRef .tc main_arg9) = m ((c : Thread nD τ).loc main_arg9) :=
  calc W29 m ρ c (Proc.devRef .tc main_arg9)
    _ = W28 m ρ c (Proc.devRef .tc main_arg9) := StableHlo.after_of_writes_sub hostOps14 _ hostOps14_writes (by decide)
    _ = W27 m ρ c (Proc.devRef .tc main_arg9) := W28_of_ne m ρ c main_arg9 (by decide)
    _ = W26 m ρ c (Proc.devRef .tc main_arg9) := StableHlo.after_of_writes_sub hostOps13 _ hostOps13_writes (by decide)
    _ = W25 m ρ c (Proc.devRef .tc main_arg9) := W26_of_ne m ρ c main_arg9 (by decide)
    _ = W24 m ρ c (Proc.devRef .tc main_arg9) := StableHlo.after_of_writes_sub hostOps12 _ hostOps12_writes (by decide)
    _ = W23 m ρ c (Proc.devRef .tc main_arg9) := W24_of_ne m ρ c main_arg9 (by decide)
    _ = W22 m ρ c (Proc.devRef .tc main_arg9) := StableHlo.after_of_writes_sub hostOps11 _ hostOps11_writes (by decide)
    _ = W21 m ρ c (Proc.devRef .tc main_arg9) := W22_of_ne m ρ c main_arg9 (by decide)
    _ = W20 m ρ c (Proc.devRef .tc main_arg9) := StableHlo.after_of_writes_sub hostOps10 _ hostOps10_writes (by decide)
    _ = W19 m ρ c (Proc.devRef .tc main_arg9) := W20_of_ne m ρ c main_arg9 (by decide)
    _ = W18 m ρ c (Proc.devRef .tc main_arg9) := StableHlo.after_of_writes_sub hostOps9 _ hostOps9_writes (by decide)
    _ = W17 m ρ c (Proc.devRef .tc main_arg9) := W18_of_ne m ρ c main_arg9 (by decide)
    _ = W16 m ρ c (Proc.devRef .tc main_arg9) := StableHlo.after_of_writes_sub hostOps8 _ hostOps8_writes (by decide)
    _ = W15 m ρ c (Proc.devRef .tc main_arg9) := W16_of_ne m ρ c main_arg9 (by decide)
    _ = W14 m ρ c (Proc.devRef .tc main_arg9) := StableHlo.after_of_writes_sub hostOps7 _ hostOps7_writes (by decide)
    _ = W13 m ρ c (Proc.devRef .tc main_arg9) := W14_of_ne m ρ c main_arg9 (by decide)
    _ = W12 m ρ c (Proc.devRef .tc main_arg9) := StableHlo.after_of_writes_sub hostOps6 _ hostOps6_writes (by decide)
    _ = W11 m ρ c (Proc.devRef .tc main_arg9) := W12_of_ne m ρ c main_arg9 (by decide)
    _ = W10 m ρ c (Proc.devRef .tc main_arg9) := StableHlo.after_of_writes_sub hostOps5 _ hostOps5_writes (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W29_main_arg10 (c : Dev nD) : W29 m ρ c (Proc.devRef .tc main_arg10) = m ((c : Thread nD τ).loc main_arg10) :=
  calc W29 m ρ c (Proc.devRef .tc main_arg10)
    _ = W28 m ρ c (Proc.devRef .tc main_arg10) := StableHlo.after_of_writes_sub hostOps14 _ hostOps14_writes (by decide)
    _ = W27 m ρ c (Proc.devRef .tc main_arg10) := W28_of_ne m ρ c main_arg10 (by decide)
    _ = W26 m ρ c (Proc.devRef .tc main_arg10) := StableHlo.after_of_writes_sub hostOps13 _ hostOps13_writes (by decide)
    _ = W25 m ρ c (Proc.devRef .tc main_arg10) := W26_of_ne m ρ c main_arg10 (by decide)
    _ = W24 m ρ c (Proc.devRef .tc main_arg10) := StableHlo.after_of_writes_sub hostOps12 _ hostOps12_writes (by decide)
    _ = W23 m ρ c (Proc.devRef .tc main_arg10) := W24_of_ne m ρ c main_arg10 (by decide)
    _ = W22 m ρ c (Proc.devRef .tc main_arg10) := StableHlo.after_of_writes_sub hostOps11 _ hostOps11_writes (by decide)
    _ = W21 m ρ c (Proc.devRef .tc main_arg10) := W22_of_ne m ρ c main_arg10 (by decide)
    _ = W20 m ρ c (Proc.devRef .tc main_arg10) := StableHlo.after_of_writes_sub hostOps10 _ hostOps10_writes (by decide)
    _ = W19 m ρ c (Proc.devRef .tc main_arg10) := W20_of_ne m ρ c main_arg10 (by decide)
    _ = W18 m ρ c (Proc.devRef .tc main_arg10) := StableHlo.after_of_writes_sub hostOps9 _ hostOps9_writes (by decide)
    _ = W17 m ρ c (Proc.devRef .tc main_arg10) := W18_of_ne m ρ c main_arg10 (by decide)
    _ = W16 m ρ c (Proc.devRef .tc main_arg10) := StableHlo.after_of_writes_sub hostOps8 _ hostOps8_writes (by decide)
    _ = W15 m ρ c (Proc.devRef .tc main_arg10) := W16_of_ne m ρ c main_arg10 (by decide)
    _ = W14 m ρ c (Proc.devRef .tc main_arg10) := StableHlo.after_of_writes_sub hostOps7 _ hostOps7_writes (by decide)
    _ = W13 m ρ c (Proc.devRef .tc main_arg10) := W14_of_ne m ρ c main_arg10 (by decide)
    _ = W12 m ρ c (Proc.devRef .tc main_arg10) := StableHlo.after_of_writes_sub hostOps6 _ hostOps6_writes (by decide)
    _ = W11 m ρ c (Proc.devRef .tc main_arg10) := W12_of_ne m ρ c main_arg10 (by decide)
    _ = W10 m ρ c (Proc.devRef .tc main_arg10) := StableHlo.after_of_writes_sub hostOps5 _ hostOps5_writes (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

theorem W29_main_arg11 (c : Dev nD) : W29 m ρ c (Proc.devRef .tc main_arg11) = m ((c : Thread nD τ).loc main_arg11) :=
  calc W29 m ρ c (Proc.devRef .tc main_arg11)
    _ = W28 m ρ c (Proc.devRef .tc main_arg11) := StableHlo.after_of_writes_sub hostOps14 _ hostOps14_writes (by decide)
    _ = W27 m ρ c (Proc.devRef .tc main_arg11) := W28_of_ne m ρ c main_arg11 (by decide)
    _ = W26 m ρ c (Proc.devRef .tc main_arg11) := StableHlo.after_of_writes_sub hostOps13 _ hostOps13_writes (by decide)
    _ = W25 m ρ c (Proc.devRef .tc main_arg11) := W26_of_ne m ρ c main_arg11 (by decide)
    _ = W24 m ρ c (Proc.devRef .tc main_arg11) := StableHlo.after_of_writes_sub hostOps12 _ hostOps12_writes (by decide)
    _ = W23 m ρ c (Proc.devRef .tc main_arg11) := W24_of_ne m ρ c main_arg11 (by decide)
    _ = W22 m ρ c (Proc.devRef .tc main_arg11) := StableHlo.after_of_writes_sub hostOps11 _ hostOps11_writes (by decide)
    _ = W21 m ρ c (Proc.devRef .tc main_arg11) := W22_of_ne m ρ c main_arg11 (by decide)
    _ = W20 m ρ c (Proc.devRef .tc main_arg11) := StableHlo.after_of_writes_sub hostOps10 _ hostOps10_writes (by decide)
    _ = W19 m ρ c (Proc.devRef .tc main_arg11) := W20_of_ne m ρ c main_arg11 (by decide)
    _ = W18 m ρ c (Proc.devRef .tc main_arg11) := StableHlo.after_of_writes_sub hostOps9 _ hostOps9_writes (by decide)
    _ = W17 m ρ c (Proc.devRef .tc main_arg11) := W18_of_ne m ρ c main_arg11 (by decide)
    _ = W16 m ρ c (Proc.devRef .tc main_arg11) := StableHlo.after_of_writes_sub hostOps8 _ hostOps8_writes (by decide)
    _ = W15 m ρ c (Proc.devRef .tc main_arg11) := W16_of_ne m ρ c main_arg11 (by decide)
    _ = W14 m ρ c (Proc.devRef .tc main_arg11) := StableHlo.after_of_writes_sub hostOps7 _ hostOps7_writes (by decide)
    _ = W13 m ρ c (Proc.devRef .tc main_arg11) := W14_of_ne m ρ c main_arg11 (by decide)
    _ = W12 m ρ c (Proc.devRef .tc main_arg11) := StableHlo.after_of_writes_sub hostOps6 _ hostOps6_writes (by decide)
    _ = W11 m ρ c (Proc.devRef .tc main_arg11) := W12_of_ne m ρ c main_arg11 (by decide)
    _ = W10 m ρ c (Proc.devRef .tc main_arg11) := StableHlo.after_of_writes_sub hostOps5 _ hostOps5_writes (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

theorem W29_main_arg12 (c : Dev nD) : W29 m ρ c (Proc.devRef .tc main_arg12) = m ((c : Thread nD τ).loc main_arg12) :=
  calc W29 m ρ c (Proc.devRef .tc main_arg12)
    _ = W28 m ρ c (Proc.devRef .tc main_arg12) := StableHlo.after_of_writes_sub hostOps14 _ hostOps14_writes (by decide)
    _ = W27 m ρ c (Proc.devRef .tc main_arg12) := W28_of_ne m ρ c main_arg12 (by decide)
    _ = W26 m ρ c (Proc.devRef .tc main_arg12) := StableHlo.after_of_writes_sub hostOps13 _ hostOps13_writes (by decide)
    _ = W25 m ρ c (Proc.devRef .tc main_arg12) := W26_of_ne m ρ c main_arg12 (by decide)
    _ = W24 m ρ c (Proc.devRef .tc main_arg12) := StableHlo.after_of_writes_sub hostOps12 _ hostOps12_writes (by decide)
    _ = W23 m ρ c (Proc.devRef .tc main_arg12) := W24_of_ne m ρ c main_arg12 (by decide)
    _ = W22 m ρ c (Proc.devRef .tc main_arg12) := StableHlo.after_of_writes_sub hostOps11 _ hostOps11_writes (by decide)
    _ = W21 m ρ c (Proc.devRef .tc main_arg12) := W22_of_ne m ρ c main_arg12 (by decide)
    _ = W20 m ρ c (Proc.devRef .tc main_arg12) := StableHlo.after_of_writes_sub hostOps10 _ hostOps10_writes (by decide)
    _ = W19 m ρ c (Proc.devRef .tc main_arg12) := W20_of_ne m ρ c main_arg12 (by decide)
    _ = W18 m ρ c (Proc.devRef .tc main_arg12) := StableHlo.after_of_writes_sub hostOps9 _ hostOps9_writes (by decide)
    _ = W17 m ρ c (Proc.devRef .tc main_arg12) := W18_of_ne m ρ c main_arg12 (by decide)
    _ = W16 m ρ c (Proc.devRef .tc main_arg12) := StableHlo.after_of_writes_sub hostOps8 _ hostOps8_writes (by decide)
    _ = W15 m ρ c (Proc.devRef .tc main_arg12) := W16_of_ne m ρ c main_arg12 (by decide)
    _ = W14 m ρ c (Proc.devRef .tc main_arg12) := StableHlo.after_of_writes_sub hostOps7 _ hostOps7_writes (by decide)
    _ = W13 m ρ c (Proc.devRef .tc main_arg12) := W14_of_ne m ρ c main_arg12 (by decide)
    _ = W12 m ρ c (Proc.devRef .tc main_arg12) := StableHlo.after_of_writes_sub hostOps6 _ hostOps6_writes (by decide)
    _ = W11 m ρ c (Proc.devRef .tc main_arg12) := W12_of_ne m ρ c main_arg12 (by decide)
    _ = W10 m ρ c (Proc.devRef .tc main_arg12) := StableHlo.after_of_writes_sub hostOps5 _ hostOps5_writes (by decide)
    _ = W9 m ρ c (Proc.devRef .tc main_arg12) := W10_of_ne m ρ c main_arg12 (by decide)
    _ = W8 m ρ c (Proc.devRef .tc main_arg12) := StableHlo.after_of_writes_sub hostOps4 _ hostOps4_writes (by decide)
    _ = W7 m ρ c (Proc.devRef .tc main_arg12) := W8_of_ne m ρ c main_arg12 (by decide)
    _ = W6 m ρ c (Proc.devRef .tc main_arg12) := StableHlo.after_of_writes_sub hostOps3 _ hostOps3_writes (by decide)
    _ = W5 m ρ c (Proc.devRef .tc main_arg12) := W6_of_ne m ρ c main_arg12 (by decide)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

theorem W29_main_arg13 (c : Dev nD) : W29 m ρ c (Proc.devRef .tc main_arg13) = m ((c : Thread nD τ).loc main_arg13) :=
  calc W29 m ρ c (Proc.devRef .tc main_arg13)
    _ = W28 m ρ c (Proc.devRef .tc main_arg13) := StableHlo.after_of_writes_sub hostOps14 _ hostOps14_writes (by decide)
    _ = W27 m ρ c (Proc.devRef .tc main_arg13) := W28_of_ne m ρ c main_arg13 (by decide)
    _ = W26 m ρ c (Proc.devRef .tc main_arg13) := StableHlo.after_of_writes_sub hostOps13 _ hostOps13_writes (by decide)
    _ = W25 m ρ c (Proc.devRef .tc main_arg13) := W26_of_ne m ρ c main_arg13 (by decide)
    _ = W24 m ρ c (Proc.devRef .tc main_arg13) := StableHlo.after_of_writes_sub hostOps12 _ hostOps12_writes (by decide)
    _ = W23 m ρ c (Proc.devRef .tc main_arg13) := W24_of_ne m ρ c main_arg13 (by decide)
    _ = W22 m ρ c (Proc.devRef .tc main_arg13) := StableHlo.after_of_writes_sub hostOps11 _ hostOps11_writes (by decide)
    _ = W21 m ρ c (Proc.devRef .tc main_arg13) := W22_of_ne m ρ c main_arg13 (by decide)
    _ = W20 m ρ c (Proc.devRef .tc main_arg13) := StableHlo.after_of_writes_sub hostOps10 _ hostOps10_writes (by decide)
    _ = W19 m ρ c (Proc.devRef .tc main_arg13) := W20_of_ne m ρ c main_arg13 (by decide)
    _ = W18 m ρ c (Proc.devRef .tc main_arg13) := StableHlo.after_of_writes_sub hostOps9 _ hostOps9_writes (by decide)
    _ = W17 m ρ c (Proc.devRef .tc main_arg13) := W18_of_ne m ρ c main_arg13 (by decide)
    _ = W16 m ρ c (Proc.devRef .tc main_arg13) := StableHlo.after_of_writes_sub hostOps8 _ hostOps8_writes (by decide)
    _ = W15 m ρ c (Proc.devRef .tc main_arg13) := W16_of_ne m ρ c main_arg13 (by decide)
    _ = W14 m ρ c (Proc.devRef .tc main_arg13) := StableHlo.after_of_writes_sub hostOps7 _ hostOps7_writes (by decide)
    _ = W13 m ρ c (Proc.devRef .tc main_arg13) := W14_of_ne m ρ c main_arg13 (by decide)
    _ = W12 m ρ c (Proc.devRef .tc main_arg13) := StableHlo.after_of_writes_sub hostOps6 _ hostOps6_writes (by decide)
    _ = W11 m ρ c (Proc.devRef .tc main_arg13) := W12_of_ne m ρ c main_arg13 (by decide)
    _ = W10 m ρ c (Proc.devRef .tc main_arg13) := StableHlo.after_of_writes_sub hostOps5 _ hostOps5_writes (by decide)
    _ = W9 m ρ c (Proc.devRef .tc main_arg13) := W10_of_ne m ρ c main_arg13 (by decide)
    _ = W8 m ρ c (Proc.devRef .tc main_arg13) := StableHlo.after_of_writes_sub hostOps4 _ hostOps4_writes (by decide)
    _ = W7 m ρ c (Proc.devRef .tc main_arg13) := W8_of_ne m ρ c main_arg13 (by decide)
    _ = W6 m ρ c (Proc.devRef .tc main_arg13) := StableHlo.after_of_writes_sub hostOps3 _ hostOps3_writes (by decide)
    _ = W5 m ρ c (Proc.devRef .tc main_arg13) := W6_of_ne m ρ c main_arg13 (by decide)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

theorem W29_main_arg14 (c : Dev nD) : W29 m ρ c (Proc.devRef .tc main_arg14) = m ((c : Thread nD τ).loc main_arg14) :=
  calc W29 m ρ c (Proc.devRef .tc main_arg14)
    _ = W28 m ρ c (Proc.devRef .tc main_arg14) := StableHlo.after_of_writes_sub hostOps14 _ hostOps14_writes (by decide)
    _ = W27 m ρ c (Proc.devRef .tc main_arg14) := (W28_arr m ρ c 1).trans (((dat13 (V27 m ρ) c).arrAt_in 1 rfl _).trans (A_eq13 (V27 m ρ) c 1))
    _ = W26 m ρ c (Proc.devRef .tc main_arg14) := StableHlo.after_of_writes_sub hostOps13 _ hostOps13_writes (by decide)
    _ = W25 m ρ c (Proc.devRef .tc main_arg14) := W26_of_ne m ρ c main_arg14 (by decide)
    _ = W24 m ρ c (Proc.devRef .tc main_arg14) := StableHlo.after_of_writes_sub hostOps12 _ hostOps12_writes (by decide)
    _ = W23 m ρ c (Proc.devRef .tc main_arg14) := W24_of_ne m ρ c main_arg14 (by decide)
    _ = W22 m ρ c (Proc.devRef .tc main_arg14) := StableHlo.after_of_writes_sub hostOps11 _ hostOps11_writes (by decide)
    _ = W21 m ρ c (Proc.devRef .tc main_arg14) := W22_of_ne m ρ c main_arg14 (by decide)
    _ = W20 m ρ c (Proc.devRef .tc main_arg14) := StableHlo.after_of_writes_sub hostOps10 _ hostOps10_writes (by decide)
    _ = W19 m ρ c (Proc.devRef .tc main_arg14) := W20_of_ne m ρ c main_arg14 (by decide)
    _ = W18 m ρ c (Proc.devRef .tc main_arg14) := StableHlo.after_of_writes_sub hostOps9 _ hostOps9_writes (by decide)
    _ = W17 m ρ c (Proc.devRef .tc main_arg14) := W18_of_ne m ρ c main_arg14 (by decide)
    _ = W16 m ρ c (Proc.devRef .tc main_arg14) := StableHlo.after_of_writes_sub hostOps8 _ hostOps8_writes (by decide)
    _ = W15 m ρ c (Proc.devRef .tc main_arg14) := W16_of_ne m ρ c main_arg14 (by decide)
    _ = W14 m ρ c (Proc.devRef .tc main_arg14) := StableHlo.after_of_writes_sub hostOps7 _ hostOps7_writes (by decide)
    _ = W13 m ρ c (Proc.devRef .tc main_arg14) := W14_of_ne m ρ c main_arg14 (by decide)
    _ = W12 m ρ c (Proc.devRef .tc main_arg14) := StableHlo.after_of_writes_sub hostOps6 _ hostOps6_writes (by decide)
    _ = W11 m ρ c (Proc.devRef .tc main_arg14) := W12_of_ne m ρ c main_arg14 (by decide)
    _ = W10 m ρ c (Proc.devRef .tc main_arg14) := StableHlo.after_of_writes_sub hostOps5 _ hostOps5_writes (by decide)
    _ = W9 m ρ c (Proc.devRef .tc main_arg14) := W10_of_ne m ρ c main_arg14 (by decide)
    _ = W8 m ρ c (Proc.devRef .tc main_arg14) := StableHlo.after_of_writes_sub hostOps4 _ hostOps4_writes (by decide)
    _ = W7 m ρ c (Proc.devRef .tc main_arg14) := W8_of_ne m ρ c main_arg14 (by decide)
    _ = W6 m ρ c (Proc.devRef .tc main_arg14) := StableHlo.after_of_writes_sub hostOps3 _ hostOps3_writes (by decide)
    _ = W5 m ρ c (Proc.devRef .tc main_arg14) := W6_of_ne m ρ c main_arg14 (by decide)
    _ = W4 m ρ c (Proc.devRef .tc main_arg14) := StableHlo.after_of_writes_sub hostOps2 _ hostOps2_writes (by decide)
    _ = W3 m ρ c (Proc.devRef .tc main_arg14) := W4_of_ne m ρ c main_arg14 (by decide)
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

theorem W29_main_arg15 (c : Dev nD) : W29 m ρ c (Proc.devRef .tc main_arg15) = m ((c : Thread nD τ).loc main_arg15) :=
  calc W29 m ρ c (Proc.devRef .tc main_arg15)
    _ = W28 m ρ c (Proc.devRef .tc main_arg15) := StableHlo.after_of_writes_sub hostOps14 _ hostOps14_writes (by decide)
    _ = W27 m ρ c (Proc.devRef .tc main_arg15) := W28_of_ne m ρ c main_arg15 (by decide)
    _ = W26 m ρ c (Proc.devRef .tc main_arg15) := StableHlo.after_of_writes_sub hostOps13 _ hostOps13_writes (by decide)
    _ = W25 m ρ c (Proc.devRef .tc main_arg15) := W26_of_ne m ρ c main_arg15 (by decide)
    _ = W24 m ρ c (Proc.devRef .tc main_arg15) := StableHlo.after_of_writes_sub hostOps12 _ hostOps12_writes (by decide)
    _ = W23 m ρ c (Proc.devRef .tc main_arg15) := W24_of_ne m ρ c main_arg15 (by decide)
    _ = W22 m ρ c (Proc.devRef .tc main_arg15) := StableHlo.after_of_writes_sub hostOps11 _ hostOps11_writes (by decide)
    _ = W21 m ρ c (Proc.devRef .tc main_arg15) := W22_of_ne m ρ c main_arg15 (by decide)
    _ = W20 m ρ c (Proc.devRef .tc main_arg15) := StableHlo.after_of_writes_sub hostOps10 _ hostOps10_writes (by decide)
    _ = W19 m ρ c (Proc.devRef .tc main_arg15) := W20_of_ne m ρ c main_arg15 (by decide)
    _ = W18 m ρ c (Proc.devRef .tc main_arg15) := StableHlo.after_of_writes_sub hostOps9 _ hostOps9_writes (by decide)
    _ = W17 m ρ c (Proc.devRef .tc main_arg15) := W18_of_ne m ρ c main_arg15 (by decide)
    _ = W16 m ρ c (Proc.devRef .tc main_arg15) := StableHlo.after_of_writes_sub hostOps8 _ hostOps8_writes (by decide)
    _ = W15 m ρ c (Proc.devRef .tc main_arg15) := W16_of_ne m ρ c main_arg15 (by decide)
    _ = W14 m ρ c (Proc.devRef .tc main_arg15) := StableHlo.after_of_writes_sub hostOps7 _ hostOps7_writes (by decide)
    _ = W13 m ρ c (Proc.devRef .tc main_arg15) := W14_of_ne m ρ c main_arg15 (by decide)
    _ = W12 m ρ c (Proc.devRef .tc main_arg15) := StableHlo.after_of_writes_sub hostOps6 _ hostOps6_writes (by decide)
    _ = W11 m ρ c (Proc.devRef .tc main_arg15) := W12_of_ne m ρ c main_arg15 (by decide)
    _ = W10 m ρ c (Proc.devRef .tc main_arg15) := StableHlo.after_of_writes_sub hostOps5 _ hostOps5_writes (by decide)
    _ = W9 m ρ c (Proc.devRef .tc main_arg15) := W10_of_ne m ρ c main_arg15 (by decide)
    _ = W8 m ρ c (Proc.devRef .tc main_arg15) := StableHlo.after_of_writes_sub hostOps4 _ hostOps4_writes (by decide)
    _ = W7 m ρ c (Proc.devRef .tc main_arg15) := W8_of_ne m ρ c main_arg15 (by decide)
    _ = W6 m ρ c (Proc.devRef .tc main_arg15) := StableHlo.after_of_writes_sub hostOps3 _ hostOps3_writes (by decide)
    _ = W5 m ρ c (Proc.devRef .tc main_arg15) := W6_of_ne m ρ c main_arg15 (by decide)
    _ = W4 m ρ c (Proc.devRef .tc main_arg15) := StableHlo.after_of_writes_sub hostOps2 _ hostOps2_writes (by decide)
    _ = W3 m ρ c (Proc.devRef .tc main_arg15) := W4_of_ne m ρ c main_arg15 (by decide)
    _ = W2 m ρ c (Proc.devRef .tc main_arg15) := StableHlo.after_of_writes_sub hostOps1 _ hostOps1_writes (by decide)
    _ = W1 m ρ c (Proc.devRef .tc main_arg15) := W2_of_ne m ρ c main_arg15 (by decide)
    _ = W0 m ρ c (Proc.devRef .tc main_arg15) := StableHlo.after_of_writes_sub hostOps0 _ hostOps0_writes (by decide)
    _ = m ((c : Thread nD τ).loc main_arg15) := rfl

end Cert.KernelIdeal.Hand

end
-- ==== Proof.KI.RegionSeg.lean ====
import proofs.«159011_j9938554322955_1_alg».proof.Proof.Gen.KernelIdeal.Launch
import proofs.«159011_j9938554322955_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the decided facts over 517 references and 16 windows recurse past the default depth
set_option maxRecDepth 4628

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The segments of @main over one thread state

Between two segments of @main core `c` holds every unscoped buffer whole at the boundary's contents, its generator
register at some state, and owes nothing. A host stretch runs from the contents `W c` to `StableHlo.after ops (W c)`.
A kernel region is entered from the contents `Wi c` and left at `Wo c`, which has the region's window arrays at what
the write-backs leave and every other buffer as entered. -/

noncomputable abbrev 𝒱₀ : Variants := Variants.none
/-- No core owes another anything: no level is assigned. -/
noncomputable abbrev L : GSem nD τ sig → Finset Unit := fun _ => ∅
noncomputable abbrev lv : GSem nD τ sig → Unit → ℕ := fun _ _ => 0
/-- What rides beside the buffers through every segment: the core's generator register at some state and its
    `owes`, at nothing. -/
noncomputable abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at `StableHlo.after ops (W c)`. -/
noncomputable abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## A kernel region as a segment

For any pipeline `p` of the fourteen and any proof data family `pd`: GIVEN the launch facts of `p`; the body obligation
of `pd p c`; that `pd p c` owes nothing, bounds its recorded pairs by nothing, holds its arrays at the full share, and reads its entry arrays off `Wi c`; that
`Wo c` has the arrays at what the write-backs leave (`hF`) and agrees with `Wi c` elsewhere (`hrest`); and that the
region's invariant at the first point follows from the generator register and the scoped buffers no window stages
(`hin`) and at the last point gives them back (`hout`) — the region is a segment from every unscoped buffer at `Wi c`
to every unscoped buffer at `Wo c`. The window arrays are split out of the unscoped buffers at entry and put back at
the exit contents; the generator register goes into the invariant and comes back; nothing is owed; the kernel has no
semaphore of its own and no prefetched table. -/

set_option backward.isDefEq.respectTransparency.types false in
noncomputable def regionSeg
    (pd : (p : Fin 14) → (c : Dev nD) → Dat τ (Elt F) Unit ℕ (UR sig nD τ) ℕ (Pipeline.pin (pcfgs (F := F)) adm p) c)
    (p : Fin 14) (lf : Pipeline.LaunchFacts (nD := nD) (τ := τ) cfgs p)
    (Wi Wo : Dev nD → Valuation τ sig (Elt F))
    (hbody : ∀ c, BodyObligation (pd p c) (defs₀ (F := F)) Variants.none () Set.univ)
    (howed : ∀ c t, (pd p c).owed t = 0)
    (hrec : ∀ c t, (pd p c).recorded t = Set.univ)
    (hq : ∀ c w, (pd p c).q w = fullShare)
    (hA : ∀ c w, (pd p c).A w = Wi c (Proc.devRef .tc (Pipeline.arrRef (Pipeline.pin (pcfgs (F := F)) adm p).spec w)))
    (hF : ∀ c w, (pd p c).arrAt w (Pipeline.pin (pcfgs (F := F)) adm p).N
      = Wo c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec)
      → Wo c (Proc.devRef .tc b) = Wi c (Proc.devRef .tc b))
    (hin : ∀ c, (iprop((∃ r, prngReg c r) ∗ Pipeline.scopedRest (Ix := Unit) (Name := ℕ) (U := UR sig nD τ) (Lvl := ℕ) (Val := Elt F)
        (Pipeline.pin (pcfgs (F := F)) adm p).spec c) : sProp 𝕄) ⊢ (pd p c).Φ 0)
    (hout : ∀ c, (pd p c).Φ (Fin.last (Pipeline.pin (pcfgs (F := F)) adm p).N)
      ⊢ (iprop((∃ r, prngReg c r) ∗ Pipeline.scopedRest (Ix := Unit) (Name := ℕ) (U := UR sig nD τ) (Lvl := ℕ) (Val := Elt F)
        (Pipeline.pin (pcfgs (F := F)) adm p).spec c) : sProp 𝕄)) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c
    (fun b => Wi c (Proc.devRef .tc b))
  hentry c := by
    rw [Pipeline.ownSems0_none]
    have hsplit := Pipeline.arrays_of_unscopedBufs (p := p) (pcfgs (F := F)) adm pd lf.win lf.arr_whole c
      ((pd p c).share_full (hq c)) (fun b => Wi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c 0]
      icases HO with ⟨%W, HO⟩; iexists W; isplitr; · ipureintro; exact fun _ _ => Or.inl trivial
      iexact HO
    isplitl [Hp]; · iexact Hp
    iexact Hrest
  hin c := by
    refine BIBase.Entails.trans ?_ (hin c)
    iintro ⟨Hp, -, Hr⟩
    isplitl [Hp]; · iexact Hp
    iexact Hr
  hout c := by
    rw [Pipeline.ownSems0_none]
    refine BIBase.Entails.trans (hout c) ?_
    iintro ⟨Hr, Hp⟩
    isplitl [Hr]; · iexact Hr
    isplitr; · iempintro
    iexact Hp
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => Wi c (Proc.devRef .tc b)) (fun b => Wo c (Proc.devRef .tc b))
      ((pd p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Cert.KernelIdeal.Hand

end
-- ==== Proof.KI.Segs.lean ====
import proofs.«159011_j9938554322955_1_alg».proof.Proof.KI.Fold
import proofs.«159011_j9938554322955_1_alg».proof.Proof.KI.RegionSeg

-- the decided facts over 517 references and 16 windows recurse past the default depth
set_option maxRecDepth 4628

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents — a literal `match`, so that the pinned
    configuration at a numeral reduces to the printed one. -/
noncomputable def pdats : (p : Fin 14) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
  | ⟨12, _⟩ => fun c => dat12 (V25 m ρ) c
  | ⟨13, _⟩ => fun c => dat13 (V27 m ρ) c
  | ⟨_ + 14, h⟩ => absurd h (Nat.not_lt.2 (Nat.le_add_left _ _))

set_option backward.isDefEq.respectTransparency.types false in
/-- REGION 0 as a segment: entered from every unscoped buffer at `W1`, left at `W2`. -/
noncomputable def reg0 : Pipeline.RegionSeg (pcfgs (F := F)) adm (pdats m ρ) () defs₀ 𝒱₀ L lv 0 :=
  regionSeg (pdats m ρ) 0 launch0 (W1 m ρ) (W2 m ρ) (body_obligation0 (V1 m ρ))
    (fun _ _ => rfl) (fun _ _ => rfl) (fun _ _ => rfl) (fun _ _ => rfl)
    (hF0 m ρ) (hrest0 m ρ) (phi_in0 (V1 m ρ)) (phi_out0 (V1 m ρ))

set_option backward.isDefEq.respectTransparency.types false in
/-- REGION 1 as a segment: entered from every unscoped buffer at `W3`, left at `W4`. -/
noncomputable def reg1 : Pipeline.RegionSeg (pcfgs (F := F)) adm (pdats m ρ) () defs₀ 𝒱₀ L lv 1 :=
  regionSeg (pdats m ρ) 1 launch1 (W3 m ρ) (W4 m ρ) (body_obligation1 (V3 m ρ))
    (fun _ _ => rfl) (fun _ _ => rfl) (fun _ _ => rfl) (fun _ _ => rfl)
    (hF1 m ρ) (hrest1 m ρ) (phi_in1 (V3 m ρ)) (phi_out1 (V3 m ρ))

set_option backward.isDefEq.respectTransparency.types false in
/-- REGION 2 as a segment: entered from every unscoped buffer at `W5`, left at `W6`. -/
noncomputable def reg2 : Pipeline.RegionSeg (pcfgs (F := F)) adm (pdats m ρ) () defs₀ 𝒱₀ L lv 2 :=
  regionSeg (pdats m ρ) 2 launch2 (W5 m ρ) (W6 m ρ) (body_obligation2 (V5 m ρ))
    (fun _ _ => rfl) (fun _ _ => rfl) (fun _ _ => rfl) (fun _ _ => rfl)
    (hF2 m ρ) (hrest2 m ρ) (phi_in2 (V5 m ρ)) (phi_out2 (V5 m ρ))

set_option backward.isDefEq.respectTransparency.types false in
/-- REGION 3 as a segment: entered from every unscoped buffer at `W7`, left at `W8`. -/
noncomputable def reg3 : Pipeline.RegionSeg (pcfgs (F := F)) adm (pdats m ρ) () defs₀ 𝒱₀ L lv 3 :=
  regionSeg (pdats m ρ) 3 launch3 (W7 m ρ) (W8 m ρ) (body_obligation3 (V7 m ρ))
    (fun _ _ => rfl) (fun _ _ => rfl) (fun _ _ => rfl) (fun _ _ => rfl)
    (hF3 m ρ) (hrest3 m ρ) (phi_in3 (V7 m ρ)) (phi_out3 (V7 m ρ))

set_option backward.isDefEq.respectTransparency.types false in
/-- REGION 4 as a segment: entered from every unscoped buffer at `W9`, left at `W10`. -/
noncomputable def reg4 : Pipeline.RegionSeg (pcfgs (F := F)) adm (pdats m ρ) () defs₀ 𝒱₀ L lv 4 :=
  regionSeg (pdats m ρ) 4 launch4 (W9 m ρ) (W10 m ρ) (body_obligation4 (V9 m ρ))
    (fun _ _ => rfl) (fun _ _ => rfl) (fun _ _ => rfl) (fun _ _ => rfl)
    (hF4 m ρ) (hrest4 m ρ) (phi_in4 (V9 m ρ)) (phi_out4 (V9 m ρ))

set_option backward.isDefEq.respectTransparency.types false in
/-- REGION 5 as a segment: entered from every unscoped buffer at `W11`, left at `W12`. -/
noncomputable def reg5 : Pipeline.RegionSeg (pcfgs (F := F)) adm (pdats m ρ) () defs₀ 𝒱₀ L lv 5 :=
  regionSeg (pdats m ρ) 5 launch5 (W11 m ρ) (W12 m ρ) (body_obligation5 (V11 m ρ))
    (fun _ _ => rfl) (fun _ _ => rfl) (fun _ _ => rfl) (fun _ _ => rfl)
    (hF5 m ρ) (hrest5 m ρ) (phi_in5 (V11 m ρ)) (phi_out5 (V11 m ρ))

set_option backward.isDefEq.respectTransparency.types false in
/-- REGION 6 as a segment: entered from every unscoped buffer at `W13`, left at `W14`. -/
noncomputable def reg6 : Pipeline.RegionSeg (pcfgs (F := F)) adm (pdats m ρ) () defs₀ 𝒱₀ L lv 6 :=
  regionSeg (pdats m ρ) 6 launch6 (W13 m ρ) (W14 m ρ) (body_obligation6 (V13 m ρ))
    (fun _ _ => rfl) (fun _ _ => rfl) (fun _ _ => rfl) (fun _ _ => rfl)
    (hF6 m ρ) (hrest6 m ρ) (phi_in6 (V13 m ρ)) (phi_out6 (V13 m ρ))

set_option backward.isDefEq.respectTransparency.types false in
/-- REGION 7 as a segment: entered from every unscoped buffer at `W15`, left at `W16`. -/
noncomputable def reg7 : Pipeline.RegionSeg (pcfgs (F := F)) adm (pdats m ρ) () defs₀ 𝒱₀ L lv 7 :=
  regionSeg (pdats m ρ) 7 launch7 (W15 m ρ) (W16 m ρ) (body_obligation7 (V15 m ρ))
    (fun _ _ => rfl) (fun _ _ => rfl) (fun _ _ => rfl) (fun _ _ => rfl)
    (hF7 m ρ) (hrest7 m ρ) (phi_in7 (V15 m ρ)) (phi_out7 (V15 m ρ))

set_option backward.isDefEq.respectTransparency.types false in
/-- REGION 8 as a segment: entered from every unscoped buffer at `W17`, left at `W18`. -/
noncomputable def reg8 : Pipeline.RegionSeg (pcfgs (F := F)) adm (pdats m ρ) () defs₀ 𝒱₀ L lv 8 :=
  regionSeg (pdats m ρ) 8 launch8 (W17 m ρ) (W18 m ρ) (body_obligation8 (V17 m ρ))
    (fun _ _ => rfl) (fun _ _ => rfl) (fun _ _ => rfl) (fun _ _ => rfl)
    (hF8 m ρ) (hrest8 m ρ) (phi_in8 (V17 m ρ)) (phi_out8 (V17 m ρ))

set_option backward.isDefEq.respectTransparency.types false in
/-- REGION 9 as a segment: entered from every unscoped buffer at `W19`, left at `W20`. -/
noncomputable def reg9 : Pipeline.RegionSeg (pcfgs (F := F)) adm (pdats m ρ) () defs₀ 𝒱₀ L lv 9 :=
  regionSeg (pdats m ρ) 9 launch9 (W19 m ρ) (W20 m ρ) (body_obligation9 (V19 m ρ))
    (fun _ _ => rfl) (fun _ _ => rfl) (fun _ _ => rfl) (fun _ _ => rfl)
    (hF9 m ρ) (hrest9 m ρ) (phi_in9 (V19 m ρ)) (phi_out9 (V19 m ρ))

set_option backward.isDefEq.respectTransparency.types false in
/-- REGION 10 as a segment: entered from every unscoped buffer at `W21`, left at `W22`. -/
noncomputable def reg10 : Pipeline.RegionSeg (pcfgs (F := F)) adm (pdats m ρ) () defs₀ 𝒱₀ L lv 10 :=
  regionSeg (pdats m ρ) 10 launch10 (W21 m ρ) (W22 m ρ) (body_obligation10 (V21 m ρ))
    (fun _ _ => rfl) (fun _ _ => rfl) (fun _ _ => rfl) (fun _ _ => rfl)
    (hF10 m ρ) (hrest10 m ρ) (phi_in10 (V21 m ρ)) (phi_out10 (V21 m ρ))

set_option backward.isDefEq.respectTransparency.types false in
/-- REGION 11 as a segment: entered from every unscoped buffer at `W23`, left at `W24`. -/
noncomputable def reg11 : Pipeline.RegionSeg (pcfgs (F := F)) adm (pdats m ρ) () defs₀ 𝒱₀ L lv 11 :=
  regionSeg (pdats m ρ) 11 launch11 (W23 m ρ) (W24 m ρ) (body_obligation11 (V23 m ρ))
    (fun _ _ => rfl) (fun _ _ => rfl) (fun _ _ => rfl) (fun _ _ => rfl)
    (hF11 m ρ) (hrest11 m ρ) (phi_in11 (V23 m ρ)) (phi_out11 (V23 m ρ))

set_option backward.isDefEq.respectTransparency.types false in
/-- REGION 12 as a segment: entered from every unscoped buffer at `W25`, left at `W26`. -/
noncomputable def reg12 : Pipeline.RegionSeg (pcfgs (F := F)) adm (pdats m ρ) () defs₀ 𝒱₀ L lv 12 :=
  regionSeg (pdats m ρ) 12 launch12 (W25 m ρ) (W26 m ρ) (body_obligation12 (V25 m ρ))
    (fun _ _ => rfl) (fun _ _ => rfl) (fun _ _ => rfl) (fun _ _ => rfl)
    (hF12 m ρ) (hrest12 m ρ) (phi_in12 (V25 m ρ)) (phi_out12 (V25 m ρ))

set_option backward.isDefEq.respectTransparency.types false in
/-- REGION 13 as a segment: entered from every unscoped buffer at `W27`, left at `W28`. -/
noncomputable def reg13 : Pipeline.RegionSeg (pcfgs (F := F)) adm (pdats m ρ) () defs₀ 𝒱₀ L lv 13 :=
  regionSeg (pdats m ρ) 13 launch13 (W27 m ρ) (W28 m ρ) (body_obligation13 (V27 m ρ))
    (fun _ _ => rfl) (fun _ _ => rfl) (fun _ _ => rfl) (fun _ _ => rfl)
    (hF13 m ρ) (hrest13 m ρ) (phi_in13 (V27 m ρ)) (phi_out13 (V27 m ρ))

/-- @main's 29 segments in order: a host segment per stretch from its boundary's contents, a region per kernel call. -/
noncomputable abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .host (hseg hostOps12 hostOps12_sub hostOps12_fresh (W24 m ρ)),
    .region (reg12 m ρ),
    .host (hseg hostOps13 hostOps13_sub hostOps13_fresh (W26 m ρ)),
    .region (reg13 m ρ),
    .host (hseg hostOps14 hostOps14_sub hostOps14_fresh (W28 m ρ)) ]

end Cert.KernelIdeal.Hand

end
-- ==== Proof.KI.Run.lean ====
import proofs.«159011_j9938554322955_1_alg».proof.Proof.KI.Segs

-- the decided facts over 517 references and 16 windows recurse past the default depth
set_option maxRecDepth 4628

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: 15 host stretches around 14 kernel regions, from the launch to the return -/

/-- The last thread state without the `owes`: every unscoped buffer at the last boundary's contents `W29`, the
    generator register at some state. -/
noncomputable abbrev Tₙ (c : Dev nD) : sProp 𝕄 := iprop(StableHlo.held (c : Thread nD τ) (Pipeline.ucRefs τ sig) (W29 m ρ c) ∗ ∃ r, prngReg c r)

/-- @main is the run of the segments: @main is the chain of its items, the segments' run is the chain of their
    fragments, and those fragments are the items one by one. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()),
      StableHlo.seq hostOps8,
      Prog.lift (.customCall (Pipeline.entry 8) ()),
      StableHlo.seq hostOps9,
      Prog.lift (.customCall (Pipeline.entry 9) ()),
      StableHlo.seq hostOps10,
      Prog.lift (.customCall (Pipeline.entry 10) ()),
      StableHlo.seq hostOps11,
      Prog.lift (.customCall (Pipeline.entry 11) ()),
      StableHlo.seq hostOps12,
      Prog.lift (.customCall (Pipeline.entry 12) ()),
      StableHlo.seq hostOps13,
      Prog.lift (.customCall (Pipeline.entry 13) ()),
      StableHlo.seq hostOps14 ] from rfl]
  rfl

set_option backward.isDefEq.respectTransparency.types false in
/-- The run, at any post that follows from the final memory holding the fold's last contents at every unscoped buffer
    of every core: from any memory with zero counters, every weakly fair execution of @main on the TensorCores
    terminates, nothing faulting, in such a memory. The launch deals every core its unscoped buffers at the launch
    memory, its generator register and an `owes` at nothing, which is the first thread state; each segment is entered
    from what the one before it left (the same proposition, read off the fold); the last thread state is read against
    the final state buffer by buffer. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W29 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun c => show (iprop(StableHlo.held (c : Thread nD τ) (Pipeline.ucRefs τ sig) (W29 m ρ c) ∗ R c) : sProp 𝕄)
        ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := hQ)

/-- THE RUN: every final memory holds, at every unscoped buffer of every core, the fold's last contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W29 m ρ c b) :=
  run_post m ρ fun s h => h

/-- THE FRAME: every final memory has the sixteen argument arrays as launched — each argument's buffer is unscoped,
    so it ends at the fold's last contents, which at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_post m ρ fun s h c =>
    ⟨(h c _ (mem_uc main_arg0 (by decide))).trans (W29_main_arg0 m ρ c),
     (h c _ (mem_uc main_arg1 (by decide))).trans (W29_main_arg1 m ρ c),
     (h c _ (mem_uc main_arg2 (by decide))).trans (W29_main_arg2 m ρ c),
     (h c _ (mem_uc main_arg3 (by decide))).trans (W29_main_arg3 m ρ c),
     (h c _ (mem_uc main_arg4 (by decide))).trans (W29_main_arg4 m ρ c),
     (h c _ (mem_uc main_arg5 (by decide))).trans (W29_main_arg5 m ρ c),
     (h c _ (mem_uc main_arg6 (by decide))).trans (W29_main_arg6 m ρ c),
     (h c _ (mem_uc main_arg7 (by decide))).trans (W29_main_arg7 m ρ c),
     (h c _ (mem_uc main_arg8 (by decide))).trans (W29_main_arg8 m ρ c),
     (h c _ (mem_uc main_arg9 (by decide))).trans (W29_main_arg9 m ρ c),
     (h c _ (mem_uc main_arg10 (by decide))).trans (W29_main_arg10 m ρ c),
     (h c _ (mem_uc main_arg11 (by decide))).trans (W29_main_arg11 m ρ c),
     (h c _ (mem_uc main_arg12 (by decide))).trans (W29_main_arg12 m ρ c),
     (h c _ (mem_uc main_arg13 (by decide))).trans (W29_main_arg13 m ρ c),
     (h c _ (mem_uc main_arg14 (by decide))).trans (W29_main_arg14 m ρ c),
     (h c _ (mem_uc main_arg15 (by decide))).trans (W29_main_arg15 m ρ c)⟩

/-- The run's result: the result array ends at the fold's last contents, and the sixteen arguments as launched. -/
theorem run_result : θ_run defs (onTc (τ := τ) (main (F := F))) ⟨m, fun _ => 0, ρ⟩ (fun r => ∀ c : Dev nD,
      r.2.mem ((c.tc : Thread nD τ).loc main_v280) = W29 m ρ c (Proc.devRef .tc main_v280)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_post m ρ fun s h c =>
    ⟨h c _ (mem_uc main_v280 (by decide)),
     (h c _ (mem_uc main_arg0 (by decide))).trans (W29_main_arg0 m ρ c),
     (h c _ (mem_uc main_arg1 (by decide))).trans (W29_main_arg1 m ρ c),
     (h c _ (mem_uc main_arg2 (by decide))).trans (W29_main_arg2 m ρ c),
     (h c _ (mem_uc main_arg3 (by decide))).trans (W29_main_arg3 m ρ c),
     (h c _ (mem_uc main_arg4 (by decide))).trans (W29_main_arg4 m ρ c),
     (h c _ (mem_uc main_arg5 (by decide))).trans (W29_main_arg5 m ρ c),
     (h c _ (mem_uc main_arg6 (by decide))).trans (W29_main_arg6 m ρ c),
     (h c _ (mem_uc main_arg7 (by decide))).trans (W29_main_arg7 m ρ c),
     (h c _ (mem_uc main_arg8 (by decide))).trans (W29_main_arg8 m ρ c),
     (h c _ (mem_uc main_arg9 (by decide))).trans (W29_main_arg9 m ρ c),
     (h c _ (mem_uc main_arg10 (by decide))).trans (W29_main_arg10 m ρ c),
     (h c _ (mem_uc main_arg11 (by decide))).trans (W29_main_arg11 m ρ c),
     (h c _ (mem_uc main_arg12 (by decide))).trans (W29_main_arg12 m ρ c),
     (h c _ (mem_uc main_arg13 (by decide))).trans (W29_main_arg13 m ρ c),
     (h c _ (mem_uc main_arg14 (by decide))).trans (W29_main_arg14 m ρ c),
     (h c _ (mem_uc main_arg15 (by decide))).trans (W29_main_arg15 m ρ c)⟩

end Cert.KernelIdeal.Hand

end
-- ==== Proof.Ref.Stages.lean ====
import proofs.«159011_j9938554322955_1_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! # The reference, value by value

The reference is a straight line of 569 tensor operations (its sixteen calls of the variance, its guard and the
rectifier substituted at their call sites). Each operation writes one buffer once. `res_b V0` is what buffer `b`
holds once the line has run from contents `V0`: the operation's own function applied to the `res_` of the buffers it
reads, an argument read from `V0` itself. The variance's guard `where(N - ddof > 0, v, nan)` appears as it is written:
its condition `res_…_v12` is the comparison of two constants. -/

/-! ## @main's statements 1 … 60 -/

/-- `%0 = stablehlo.slice %arg0 [0:1, 0:1048576] : (tensor<2x1048576xi32>) -> tensor<1x1048576xi32>` -/
noncomputable def res_main_v0 (V0 : Valuation τ sig (Elt F)) : (⟨S1x1048576, .i32⟩ : BufTy).Contents (Elt F) :=
  extractStridedSlice S1x1048576 ![0, 0] (V0 (Proc.devRef .tc main_arg0)) slices_S2x1048576_S1x1048576_0_0

/-- `%1 = stablehlo.reshape %0 : (tensor<1x1048576xi32>) -> tensor<1048576xi32>` -/
noncomputable def res_main_v1 (V0 : Valuation τ sig (Elt F)) : (⟨S1048576, .i32⟩ : BufTy).Contents (Elt F) :=
  shapeCast S1048576 (res_main_v0 V0) shapeCasts_S1x1048576_S1048576

/-- `%2 = stablehlo.slice %arg0 [1:2, 0:1048576] : (tensor<2x1048576xi32>) -> tensor<1x1048576xi32>` -/
noncomputable def res_main_v2 (V0 : Valuation τ sig (Elt F)) : (⟨S1x1048576, .i32⟩ : BufTy).Contents (Elt F) :=
  extractStridedSlice S1x1048576 ![1, 0] (V0 (Proc.devRef .tc main_arg0)) slices_S2x1048576_S1x1048576_1_0

/-- `%3 = stablehlo.reshape %2 : (tensor<1x1048576xi32>) -> tensor<1048576xi32>` -/
noncomputable def res_main_v3 (V0 : Valuation τ sig (Elt F)) : (⟨S1048576, .i32⟩ : BufTy).Contents (Elt F) :=
  shapeCast S1048576 (res_main_v2 V0) shapeCasts_S1x1048576_S1048576

/-- `%4 = stablehlo.dot_general %arg2, %arg3, contracting_dims = [1] x [0], precision = [DEFAULT, DEFAULT] : (tensor<65536x1xf32>, tensor<1x64xf32>) -> tensor<65536x64xf32>` -/
noncomputable def res_main_v4 (V0 : Valuation τ sig (Elt F)) : (⟨S65536x64, .f32⟩ : BufTy).Contents (Elt F) :=
  Host.dotGeneral dot_S65536x1_S1x64_S65536x64_1_0_0_1_n_n none (V0 (Proc.devRef .tc main_arg2)) (V0 (Proc.devRef .tc main_arg3))

/-- `%5 = stablehlo.broadcast_in_dim %arg4, dims = [1] : (tensor<64xf32>) -> tensor<1x64xf32>` -/
noncomputable def res_main_v5 (V0 : Valuation τ sig (Elt F)) : (⟨S1x64, .f32⟩ : BufTy).Contents (Elt F) :=
  broadcastInDim S1x64 ![1] bcast_S64_S1x64_1 (V0 (Proc.devRef .tc main_arg4))

/-- `%6 = stablehlo.broadcast_in_dim %5, dims = [0, 1] : (tensor<1x64xf32>) -> tensor<65536x64xf32>` -/
noncomputable def res_main_v6 (V0 : Valuation τ sig (Elt F)) : (⟨S65536x64, .f32⟩ : BufTy).Contents (Elt F) :=
  broadcastInDim S65536x64 ![0, 1] bcast_S1x64_S65536x64_0_1 (res_main_v5 V0)

/-- `%7 = stablehlo.add %4, %6 : tensor<65536x64xf32>` -/
noncomputable def res_main_v7 (V0 : Valuation τ sig (Elt F)) : (⟨S65536x64, .f32⟩ : BufTy).Contents (Elt F) :=
  addf (res_main_v4 V0) (res_main_v6 V0)

/-- `%c = stablehlo.constant dense<0> : tensor<i32>` -/
noncomputable def res_main_c (V0 : Valuation τ sig (Elt F)) : (⟨S_, .i32⟩ : BufTy).Contents (Elt F) :=
  constantI S_ 32 0#32

/-- `%8 = stablehlo.broadcast_in_dim %c, dims = [] : (tensor<i32>) -> tensor<1048576xi32>` -/
noncomputable def res_main_v8 (V0 : Valuation τ sig (Elt F)) : (⟨S1048576, .i32⟩ : BufTy).Contents (Elt F) :=
  broadcastInDim S1048576 ![] bcast_S_S1048576 (res_main_c V0)

/-- `%9 = stablehlo.compare LT, %1, %8, SIGNED : (tensor<1048576xi32>, tensor<1048576xi32>) -> tensor<1048576xi1>` -/
noncomputable def res_main_v9 (V0 : Valuation τ sig (Elt F)) : (⟨S1048576, .i1⟩ : BufTy).Contents (Elt F) :=
  cmpi .slt (res_main_v1 V0) (res_main_v8 V0)

/-- `%c_0 = stablehlo.constant dense<65536> : tensor<i32>` -/
noncomputable def res_main_c_0 (V0 : Valuation τ sig (Elt F)) : (⟨S_, .i32⟩ : BufTy).Contents (Elt F) :=
  constantI S_ 32 65536#32

/-- `%10 = stablehlo.broadcast_in_dim %c_0, dims = [] : (tensor<i32>) -> tensor<1048576xi32>` -/
noncomputable def res_main_v10 (V0 : Valuation τ sig (Elt F)) : (⟨S1048576, .i32⟩ : BufTy).Contents (Elt F) :=
  broadcastInDim S1048576 ![] bcast_S_S1048576 (res_main_c_0 V0)

/-- `%11 = stablehlo.add %1, %10 : tensor<1048576xi32>` -/
noncomputable def res_main_v11 (V0 : Valuation τ sig (Elt F)) : (⟨S1048576, .i32⟩ : BufTy).Contents (Elt F) :=
  addi (res_main_v1 V0) (res_main_v10 V0)

/-- `%12 = stablehlo.select %9, %11, %1 : tensor<1048576xi1>, tensor<1048576xi32>` -/
noncomputable def res_main_v12 (V0 : Valuation τ sig (Elt F)) : (⟨S1048576, .i32⟩ : BufTy).Contents (Elt F) :=
  select (res_main_v9 V0) (res_main_v11 V0) (res_main_v1 V0)

/-- `%13 = stablehlo.broadcast_in_dim %12, dims = [0] : (tensor<1048576xi32>) -> tensor<1048576x1xi32>` -/
noncomputable def res_main_v13 (V0 : Valuation τ sig (Elt F)) : (⟨S1048576x1, .i32⟩ : BufTy).Contents (Elt F) :=
  broadcastInDim S1048576x1 ![0] bcast_S1048576_S1048576x1_0 (res_main_v12 V0)

/-- `%14 = "stablehlo.gather"(%7, %13) <{dimension_numbers = #stablehlo.gather<offset_dims = [1], collapsed_slice_dims = [0], start_index_map = [0], index_vector_dim = 1>, indices_are_sorted = false, slice_sizes = array<i64: 1, 64>}> : (tensor<65536x64xf32>, tensor<1048576x1xi32>) -> tensor<1048576x64xf32>` -/
noncomputable def res_main_v14 (V0 : Valuation τ sig (Elt F)) : (⟨S1048576x64, .f32⟩ : BufTy).Contents (Elt F) :=
  Host.gather gather_S65536x64_S1048576x1_S1048576x64_1_0_n_n_0_1_164 (res_main_v7 V0) (res_main_v13 V0)

/-- `%cst = stablehlo.constant dense<0.000000e+00> : tensor<f32>` -/
noncomputable def res_main_cst (V0 : Valuation τ sig (Elt F)) : (⟨S_, .f32⟩ : BufTy).Contents (Elt F) :=
  constant S_ .f32 0x00000000#32

/-- `%15 = stablehlo.broadcast_in_dim %cst, dims = [] : (tensor<f32>) -> tensor<65536x64xf32>` -/
noncomputable def res_main_v15 (V0 : Valuation τ sig (Elt F)) : (⟨S65536x64, .f32⟩ : BufTy).Contents (Elt F) :=
  broadcastInDim S65536x64 ![] bcast_S_S65536x64 (res_main_cst V0)

/-- `%16 = stablehlo.broadcast_in_dim %3, dims = [0] : (tensor<1048576xi32>) -> tensor<1048576x1xi32>` -/
noncomputable def res_main_v16 (V0 : Valuation τ sig (Elt F)) : (⟨S1048576x1, .i32⟩ : BufTy).Contents (Elt F) :=
  broadcastInDim S1048576x1 ![0] bcast_S1048576_S1048576x1_0 (res_main_v3 V0)

/-- `%17 = "stablehlo.scatter"(%15, %16, %14) <{indices_are_sorted = false, scatter_dimension_numbers = #stablehlo.scatter<update_window_dims = [1], inserted_window_dims = [0], scatter_dims_to_operand_dims = [0], index_vector_dim = 1>, unique_indices = false}> ( {` -/
noncomputable def res_main_v17 (V0 : Valuation τ sig (Elt F)) : (⟨S65536x64, .f32⟩ : BufTy).Contents (Elt F) :=
  Host.scatterAdd scatter_S65536x64_S1048576x1_S1048576x64_1_0_0_1 (res_main_v15 V0) (res_main_v16 V0) (res_main_v14 V0)

/-- `%18 = stablehlo.slice %arg5 [0:1] : (tensor<4xf32>) -> tensor<1xf32>` -/
noncomputable def res_main_v18 (V0 : Valuation τ sig (Elt F)) : (⟨S1, .f32⟩ : BufTy).Contents (Elt F) :=
  extractStridedSlice S1 ![0] (V0 (Proc.devRef .tc main_arg5)) slices_S4_S1_0

/-- `%19 = stablehlo.reshape %18 : (tensor<1xf32>) -> tensor<f32>` -/
noncomputable def res_main_v19 (V0 : Valuation τ sig (Elt F)) : (⟨S_, .f32⟩ : BufTy).Contents (Elt F) :=
  shapeCast S_ (res_main_v18 V0) shapeCasts_S1_S_

/-- `%cst_1 = stablehlo.constant dense<1.000000e+00> : tensor<f32>` -/
noncomputable def res_main_cst_1 (V0 : Valuation τ sig (Elt F)) : (⟨S_, .f32⟩ : BufTy).Contents (Elt F) :=
  constant S_ .f32 0x3F800000#32

/-- `%20 = stablehlo.add %cst_1, %19 : tensor<f32>` -/
noncomputable def res_main_v20 (V0 : Valuation τ sig (Elt F)) : (⟨S_, .f32⟩ : BufTy).Contents (Elt F) :=
  addf (res_main_cst_1 V0) (res_main_v19 V0)

/-- `%21 = stablehlo.broadcast_in_dim %20, dims = [] : (tensor<f32>) -> tensor<65536x64xf32>` -/
noncomputable def res_main_v21 (V0 : Valuation τ sig (Elt F)) : (⟨S65536x64, .f32⟩ : BufTy).Contents (Elt F) :=
  broadcastInDim S65536x64 ![] bcast_S_S65536x64 (res_main_v20 V0)

/-- `%22 = stablehlo.multiply %21, %7 : tensor<65536x64xf32>` -/
noncomputable def res_main_v22 (V0 : Valuation τ sig (Elt F)) : (⟨S65536x64, .f32⟩ : BufTy).Contents (Elt F) :=
  mulf (res_main_v21 V0) (res_main_v7 V0)

/-- `%23 = stablehlo.add %22, %17 : tensor<65536x64xf32>` -/
noncomputable def res_main_v23 (V0 : Valuation τ sig (Elt F)) : (⟨S65536x64, .f32⟩ : BufTy).Contents (Elt F) :=
  addf (res_main_v22 V0) (res_main_v17 V0)

/-- `%24 = stablehlo.slice %arg6 [0:1, 0:64, 0:128] : (tensor<4x64x128xf32>) -> tensor<1x64x128xf32>` -/
noncomputable def res_main_v24 (V0 : Valuation τ sig (Elt F)) : (⟨S1x64x128, .f32⟩ : BufTy).Contents (Elt F) :=
  extractStridedSlice S1x64x128 ![0, 0, 0] (V0 (Proc.devRef .tc main_arg6)) slices_S4x64x128_S1x64x128_0_0_0

/-- `%25 = stablehlo.reshape %24 : (tensor<1x64x128xf32>) -> tensor<64x128xf32>` -/
noncomputable def res_main_v25 (V0 : Valuation τ sig (Elt F)) : (⟨S64x128, .f32⟩ : BufTy).Contents (Elt F) :=
  shapeCast S64x128 (res_main_v24 V0) shapeCasts_S1x64x128_S64x128

/-- `%26 = stablehlo.dot_general %23, %25, contracting_dims = [1] x [0], precision = [DEFAULT, DEFAULT] : (tensor<65536x64xf32>, tensor<64x128xf32>) -> tensor<65536x128xf32>` -/
noncomputable def res_main_v26 (V0 : Valuation τ sig (Elt F)) : (⟨S65536x128, .f32⟩ : BufTy).Contents (Elt F) :=
  Host.dotGeneral dot_S65536x64_S64x128_S65536x128_1_0_0_1_n_n none (res_main_v23 V0) (res_main_v25 V0)

/-- `%27 = stablehlo.slice %arg7 [0:1, 0:128] : (tensor<4x128xf32>) -> tensor<1x128xf32>` -/
noncomputable def res_main_v27 (V0 : Valuation τ sig (Elt F)) : (⟨S1x128, .f32⟩ : BufTy).Contents (Elt F) :=
  extractStridedSlice S1x128 ![0, 0] (V0 (Proc.devRef .tc main_arg7)) slices_S4x128_S1x128_0_0

/-- `%28 = stablehlo.reshape %27 : (tensor<1x128xf32>) -> tensor<128xf32>` -/
noncomputable def res_main_v28 (V0 : Valuation τ sig (Elt F)) : (⟨S128, .f32⟩ : BufTy).Contents (Elt F) :=
  shapeCast S128 (res_main_v27 V0) shapeCasts_S1x128_S128

/-- `%29 = stablehlo.broadcast_in_dim %28, dims = [1] : (tensor<128xf32>) -> tensor<1x128xf32>` -/
noncomputable def res_main_v29 (V0 : Valuation τ sig (Elt F)) : (⟨S1x128, .f32⟩ : BufTy).Contents (Elt F) :=
  broadcastInDim S1x128 ![1] bcast_S128_S1x128_1 (res_main_v28 V0)

/-- `%30 = stablehlo.broadcast_in_dim %29, dims = [0, 1] : (tensor<1x128xf32>) -> tensor<65536x128xf32>` -/
noncomputable def res_main_v30 (V0 : Valuation τ sig (Elt F)) : (⟨S65536x128, .f32⟩ : BufTy).Contents (Elt F) :=
  broadcastInDim S65536x128 ![0, 1] bcast_S1x128_S65536x128_0_1 (res_main_v29 V0)

/-- `%31 = stablehlo.add %26, %30 : tensor<65536x128xf32>` -/
noncomputable def res_main_v31 (V0 : Valuation τ sig (Elt F)) : (⟨S65536x128, .f32⟩ : BufTy).Contents (Elt F) :=
  addf (res_main_v26 V0) (res_main_v30 V0)

/-- `%32 = stablehlo.slice %arg8 [0:1, 0:128] : (tensor<4x128xf32>) -> tensor<1x128xf32>` -/
noncomputable def res_main_v32 (V0 : Valuation τ sig (Elt F)) : (⟨S1x128, .f32⟩ : BufTy).Contents (Elt F) :=
  extractStridedSlice S1x128 ![0, 0] (V0 (Proc.devRef .tc main_arg8)) slices_S4x128_S1x128_0_0

/-- `%33 = stablehlo.reshape %32 : (tensor<1x128xf32>) -> tensor<128xf32>` -/
noncomputable def res_main_v33 (V0 : Valuation τ sig (Elt F)) : (⟨S128, .f32⟩ : BufTy).Contents (Elt F) :=
  shapeCast S128 (res_main_v32 V0) shapeCasts_S1x128_S128

/-- `%34 = stablehlo.slice %arg9 [0:1, 0:128] : (tensor<4x128xf32>) -> tensor<1x128xf32>` -/
noncomputable def res_main_v34 (V0 : Valuation τ sig (Elt F)) : (⟨S1x128, .f32⟩ : BufTy).Contents (Elt F) :=
  extractStridedSlice S1x128 ![0, 0] (V0 (Proc.devRef .tc main_arg9)) slices_S4x128_S1x128_0_0

/-- `%35 = stablehlo.reshape %34 : (tensor<1x128xf32>) -> tensor<128xf32>` -/
noncomputable def res_main_v35 (V0 : Valuation τ sig (Elt F)) : (⟨S128, .f32⟩ : BufTy).Contents (Elt F) :=
  shapeCast S128 (res_main_v34 V0) shapeCasts_S1x128_S128

/-- `%cst_2 = stablehlo.constant dense<0.000000e+00> : tensor<f32>` -/
noncomputable def res_main_cst_2 (V0 : Valuation τ sig (Elt F)) : (⟨S_, .f32⟩ : BufTy).Contents (Elt F) :=
  constant S_ .f32 0x00000000#32

/-- `%36 = stablehlo.reduce(%31 init: %cst_2) applies stablehlo.add across dimensions = [0] : (tensor<65536x128xf32>, tensor<f32>) -> tensor<128xf32> {` -/
noncomputable def res_main_v36 (V0 : Valuation τ sig (Elt F)) : (⟨S128, .f32⟩ : BufTy).Contents (Elt F) :=
  Host.reduceAdd (res_main_v31 V0) (res_main_cst_2 V0) reducesTo_S65536x128_S128_d0 h_S_

/-- `%cst_3 = stablehlo.constant dense<6.553600e+04> : tensor<f32>` -/
noncomputable def res_main_cst_3 (V0 : Valuation τ sig (Elt F)) : (⟨S_, .f32⟩ : BufTy).Contents (Elt F) :=
  constant S_ .f32 0x47800000#32

/-- `%37 = stablehlo.broadcast_in_dim %cst_3, dims = [] : (tensor<f32>) -> tensor<128xf32>` -/
noncomputable def res_main_v37 (V0 : Valuation τ sig (Elt F)) : (⟨S128, .f32⟩ : BufTy).Contents (Elt F) :=
  broadcastInDim S128 ![] bcast_S_S128 (res_main_cst_3 V0)

/-- `%38 = stablehlo.divide %36, %37 : tensor<128xf32>` -/
noncomputable def res_main_v38 (V0 : Valuation τ sig (Elt F)) : (⟨S128, .f32⟩ : BufTy).Contents (Elt F) :=
  Host.divf (res_main_v36 V0) (res_main_v37 V0)

/-- `%c_4 = stablehlo.constant dense<0> : tensor<i32>` -/
noncomputable def res_main_c_4 (V0 : Valuation τ sig (Elt F)) : (⟨S_, .i32⟩ : BufTy).Contents (Elt F) :=
  constantI S_ 32 0#32

/-- `@_var's %cst = stablehlo.constant dense<0.000000e+00> : tensor<f32>, in %39 = func.call @_var(…) (record main_call0)` -/
noncomputable def res_main_call0_cst (V0 : Valuation τ sig (Elt F)) : (⟨S_, .f32⟩ : BufTy).Contents (Elt F) :=
  constant S_ .f32 0x00000000#32

/-- `@_var's %0 = stablehlo.reduce(%arg0 init: %cst) applies stablehlo.add across dimensions = [0] : (tensor<65536x128xf32>, tensor<f32>) -> tensor<128xf32> {, in %39 = func.call @_var(…) (record main_call0)` -/
noncomputable def res_main_call0_v0 (V0 : Valuation τ sig (Elt F)) : (⟨S128, .f32⟩ : BufTy).Contents (Elt F) :=
  Host.reduceAdd (res_main_v31 V0) (res_main_call0_cst V0) reducesTo_S65536x128_S128_d0 h_S_

/-- `@_var's %1 = stablehlo.broadcast_in_dim %0, dims = [1] : (tensor<128xf32>) -> tensor<1x128xf32>, in %39 = func.call @_var(…) (record main_call0)` -/
noncomputable def res_main_call0_v1 (V0 : Valuation τ sig (Elt F)) : (⟨S1x128, .f32⟩ : BufTy).Contents (Elt F) :=
  broadcastInDim S1x128 ![1] bcast_S128_S1x128_1 (res_main_call0_v0 V0)

/-- `@_var's %cst_0 = stablehlo.constant dense<6.553600e+04> : tensor<f32>, in %39 = func.call @_var(…) (record main_call0)` -/
noncomputable def res_main_call0_cst_0 (V0 : Valuation τ sig (Elt F)) : (⟨S_, .f32⟩ : BufTy).Contents (Elt F) :=
  constant S_ .f32 0x47800000#32

/-- `@_var's %2 = stablehlo.broadcast_in_dim %cst_0, dims = [] : (tensor<f32>) -> tensor<1x128xf32>, in %39 = func.call @_var(…) (record main_call0)` -/
noncomputable def res_main_call0_v2 (V0 : Valuation τ sig (Elt F)) : (⟨S1x128, .f32⟩ : BufTy).Contents (Elt F) :=
  broadcastInDim S1x128 ![] bcast_S_S1x128 (res_main_call0_cst_0 V0)

/-- `@_var's %3 = stablehlo.divide %1, %2 : tensor<1x128xf32>, in %39 = func.call @_var(…) (record main_call0)` -/
noncomputable def res_main_call0_v3 (V0 : Valuation τ sig (Elt F)) : (⟨S1x128, .f32⟩ : BufTy).Contents (Elt F) :=
  Host.divf (res_main_call0_v1 V0) (res_main_call0_v2 V0)

/-- `@_var's %4 = stablehlo.broadcast_in_dim %3, dims = [0, 1] : (tensor<1x128xf32>) -> tensor<65536x128xf32>, in %39 = func.call @_var(…) (record main_call0)` -/
noncomputable def res_main_call0_v4 (V0 : Valuation τ sig (Elt F)) : (⟨S65536x128, .f32⟩ : BufTy).Contents (Elt F) :=
  broadcastInDim S65536x128 ![0, 1] bcast_S1x128_S65536x128_0_1 (res_main_call0_v3 V0)

/-- `@_var's %5 = stablehlo.subtract %arg0, %4 : tensor<65536x128xf32>, in %39 = func.call @_var(…) (record main_call0)` -/
noncomputable def res_main_call0_v5 (V0 : Valuation τ sig (Elt F)) : (⟨S65536x128, .f32⟩ : BufTy).Contents (Elt F) :=
  subf (res_main_v31 V0) (res_main_call0_v4 V0)

/-- `@_var's %6 = chlo.square %5 : tensor<65536x128xf32> -> tensor<65536x128xf32>, in %39 = func.call @_var(…) (record main_call0)` -/
noncomputable def res_main_call0_v6 (V0 : Valuation τ sig (Elt F)) : (⟨S65536x128, .f32⟩ : BufTy).Contents (Elt F) :=
  mulf (res_main_call0_v5 V0) (res_main_call0_v5 V0)

/-- `@_var's %7 = stablehlo.convert %arg1 : (tensor<i32>) -> tensor<f32>, in %39 = func.call @_var(…) (record main_call0)` -/
noncomputable def res_main_call0_v7 (V0 : Valuation τ sig (Elt F)) : (⟨S_, .f32⟩ : BufTy).Contents (Elt F) :=
  sitofp .f32 (res_main_c_4 V0)

/-- `@_var's %cst_1 = stablehlo.constant dense<6.553600e+04> : tensor<f32>, in %39 = func.call @_var(…) (record main_call0)` -/
noncomputable def res_main_call0_cst_1 (V0 : Valuation τ sig (Elt F)) : (⟨S_, .f32⟩ : BufTy).Contents (Elt F) :=
  constant S_ .f32 0x47800000#32

/-- `@_var's %8 = stablehlo.subtract %cst_1, %7 : tensor<f32>, in %39 = func.call @_var(…) (record main_call0)` -/
noncomputable def res_main_call0_v8 (V0 : Valuation τ sig (Elt F)) : (⟨S_, .f32⟩ : BufTy).Contents (Elt F) :=
  subf (res_main_call0_cst_1 V0) (res_main_call0_v7 V0)

/-- `@_var's %cst_2 = stablehlo.constant dense<0.000000e+00> : tensor<f32>, in %39 = func.call @_var(…) (record main_call0)` -/
noncomputable def res_main_call0_cst_2 (V0 : Valuation τ sig (Elt F)) : (⟨S_, .f32⟩ : BufTy).Contents (Elt F) :=
  constant S_ .f32 0x00000000#32

/-- `@_var's %9 = stablehlo.reduce(%6 init: %cst_2) applies stablehlo.add across dimensions = [0] : (tensor<65536x128xf32>, tensor<f32>) -> tensor<128xf32> {, in %39 = func.call @_var(…) (record main_call0)` -/
noncomputable def res_main_call0_v9 (V0 : Valuation τ sig (Elt F)) : (⟨S128, .f32⟩ : BufTy).Contents (Elt F) :=
  Host.reduceAdd (res_main_call0_v6 V0) (res_main_call0_cst_2 V0) reducesTo_S65536x128_S128_d0 h_S_

/-- `@_var's %10 = stablehlo.broadcast_in_dim %8, dims = [] : (tensor<f32>) -> tensor<128xf32>, in %39 = func.call @_var(…) (record main_call0)` -/
noncomputable def res_main_call0_v10 (V0 : Valuation τ sig (Elt F)) : (⟨S128, .f32⟩ : BufTy).Contents (Elt F) :=
  broadcastInDim S128 ![] bcast_S_S128 (res_main_call0_v8 V0)

/-- `@_var's %11 = stablehlo.divide %9, %10 : tensor<128xf32>, in %39 = func.call @_var(…) (record main_call0)` -/
noncomputable def res_main_call0_v11 (V0 : Valuation τ sig (Elt F)) : (⟨S128, .f32⟩ : BufTy).Contents (Elt F) :=
  Host.divf (res_main_call0_v9 V0) (res_main_call0_v10 V0)

/-- `@_var's %cst_3 = stablehlo.constant dense<0.000000e+00> : tensor<f32>, in %39 = func.call @_var(…) (record main_call0)` -/
noncomputable def res_main_call0_cst_3 (V0 : Valuation τ sig (Elt F)) : (⟨S_, .f32⟩ : BufTy).Contents (Elt F) :=
  constant S_ .f32 0x00000000#32

/-- `@_var's %12 = stablehlo.compare GT, %8, %cst_3, FLOAT : (tensor<f32>, tensor<f32>) -> tensor<i1>, in %39 = func.call @_var(…) (record main_call0)` -/
noncomputable def res_main_call0_v12 (V0 : Valuation τ sig (Elt F)) : (⟨S_, .i1⟩ : BufTy).Contents (Elt F) :=
  cmpf .ogt (res_main_call0_v8 V0) (res_main_call0_cst_3 V0)

/-- `@_var's %cst_4 = stablehlo.constant dense<0x7FC00000> : tensor<f32>, in %39 = func.call @_var(…) (record main_call0)` -/
noncomputable def res_main_call0_cst_4 (V0 : Valuation τ sig (Elt F)) : (⟨S_, .f32⟩ : BufTy).Contents (Elt F) :=
  constant S_ .f32 0x7FC00000#32

/-- `@_where's %0 = stablehlo.convert %arg2 : tensor<f32>, in @_var's %13 = func.call @_where(…) (record main_call0_call0)` -/
noncomputable def res_main_call0_call0_v0 (V0 : Valuation τ sig (Elt F)) : (⟨S_, .f32⟩ : BufTy).Contents (Elt F) :=
  id (res_main_call0_cst_4 V0)

/-- `@_where's %1 = stablehlo.broadcast_in_dim %0, dims = [] : (tensor<f32>) -> tensor<128xf32>, in @_var's %13 = func.call @_where(…) (record main_call0_call0)` -/
noncomputable def res_main_call0_call0_v1 (V0 : Valuation τ sig (Elt F)) : (⟨S128, .f32⟩ : BufTy).Contents (Elt F) :=
  broadcastInDim S128 ![] bcast_S_S128 (res_main_call0_call0_v0 V0)

/-- `@_var's %13 = func.call @_where(…) (record main_call0_call0) result 0: @_where's %2 = stablehlo.select %arg0, %arg1, %1 : tensor<i1>, tensor<128xf32>` -/
noncomputable def res_main_v39 (V0 : Valuation τ sig (Elt F)) : (⟨S128, .f32⟩ : BufTy).Contents (Elt F) :=
  select (broadcastInDim S128 ![] bcast_S_S128 (res_main_call0_v12 V0)) (res_main_call0_v11 V0) (res_main_call0_call0_v1 V0)

/-- `%40 = stablehlo.broadcast_in_dim %38, dims = [1] : (tensor<128xf32>) -> tensor<1x128xf32>` -/
noncomputable def res_main_v40 (V0 : Valuation τ sig (Elt F)) : (⟨S1x128, .f32⟩ : BufTy).Contents (Elt F) :=
  broadcastInDim S1x128 ![1] bcast_S128_S1x128_1 (res_main_v38 V0)

/-- `%41 = stablehlo.broadcast_in_dim %40, dims = [0, 1] : (tensor<1x128xf32>) -> tensor<65536x128xf32>` -/
noncomputable def res_main_v41 (V0 : Valuation τ sig (Elt F)) : (⟨S65536x128, .f32⟩ : BufTy).Contents (Elt F) :=
  broadcastInDim S65536x128 ![0, 1] bcast_S1x128_S65536x128_0_1 (res_main_v40 V0)

/-- `%42 = stablehlo.subtract %31, %41 : tensor<65536x128xf32>` -/
noncomputable def res_main_v42 (V0 : Valuation τ sig (Elt F)) : (⟨S65536x128, .f32⟩ : BufTy).Contents (Elt F) :=
  subf (res_main_v31 V0) (res_main_v41 V0)

/-- `%cst_5 = stablehlo.constant dense<9.99999974E-6> : tensor<f32>` -/
noncomputable def res_main_cst_5 (V0 : Valuation τ sig (Elt F)) : (⟨S_, .f32⟩ : BufTy).Contents (Elt F) :=
  constant S_ .f32 0x3727C5AC#32

/-- `%43 = stablehlo.broadcast_in_dim %cst_5, dims = [] : (tensor<f32>) -> tensor<128xf32>` -/
noncomputable def res_main_v43 (V0 : Valuation τ sig (Elt F)) : (⟨S128, .f32⟩ : BufTy).Contents (Elt F) :=
  broadcastInDim S128 ![] bcast_S_S128 (res_main_cst_5 V0)

/-- `%44 = stablehlo.add %39, %43 : tensor<128xf32>` -/
noncomputable def res_main_v44 (V0 : Valuation τ sig (Elt F)) : (⟨S128, .f32⟩ : BufTy).Contents (Elt F) :=
  addf (res_main_v39 V0) (res_main_v43 V0)

/-- `%45 = stablehlo.rsqrt %44 : tensor<128xf32>` -/
noncomputable def res_main_v45 (V0 : Valuation τ sig (Elt F)) : (⟨S128, .f32⟩ : BufTy).Contents (Elt F) :=
  Host.rsqrt (res_main_v44 V0)

/-- `%46 = stablehlo.broadcast_in_dim %45, dims = [1] : (tensor<128xf32>) -> tensor<1x128xf32>` -/
noncomputable def res_main_v46 (V0 : Valuation τ sig (Elt F)) : (⟨S1x128, .f32⟩ : BufTy).Contents (Elt F) :=
  broadcastInDim S1x128 ![1] bcast_S128_S1x128_1 (res_main_v45 V0)

/-- `%47 = stablehlo.broadcast_in_dim %46, dims = [0, 1] : (tensor<1x128xf32>) -> tensor<65536x128xf32>` -/
noncomputable def res_main_v47 (V0 : Valuation τ sig (Elt F)) : (⟨S65536x128, .f32⟩ : BufTy).Contents (Elt F) :=
  broadcastInDim S65536x128 ![0, 1] bcast_S1x128_S65536x128_0_1 (res_main_v46 V0)

/-- `%48 = stablehlo.multiply %42, %47 : tensor<65536x128xf32>` -/
noncomputable def res_main_v48 (V0 : Valuation τ sig (Elt F)) : (⟨S65536x128, .f32⟩ : BufTy).Contents (Elt F) :=
  mulf (res_main_v42 V0) (res_main_v47 V0)

/-- `%49 = stablehlo.broadcast_in_dim %33, dims = [1] : (tensor<128xf32>) -> tensor<1x128xf32>` -/
noncomputable def res_main_v49 (V0 : Valuation τ sig (Elt F)) : (⟨S1x128, .f32⟩ : BufTy).Contents (Elt F) :=
  broadcastInDim S1x128 ![1] bcast_S128_S1x128_1 (res_main_v33 V0)

/-- `%50 = stablehlo.broadcast_in_dim %49, dims = [0, 1] : (tensor<1x128xf32>) -> tensor<65536x128xf32>` -/
noncomputable def res_main_v50 (V0 : Valuation τ sig (Elt F)) : (⟨S65536x128, .f32⟩ : BufTy).Contents (Elt F) :=
  broadcastInDim S65536x128 ![0, 1] bcast_S1x128_S65536x128_0_1 (res_main_v49 V0)

/-- `%51 = stablehlo.multiply %48, %50 : tensor<65536x128xf32>` -/
noncomputable def res_main_v51 (V0 : Valuation τ sig (Elt F)) : (⟨S65536x128, .f32⟩ : BufTy).Contents (Elt F) :=
  mulf (res_main_v48 V0) (res_main_v50 V0)

/-! ## @main's statements 61 … 120 -/

/-- `%52 = stablehlo.broadcast_in_dim %35, dims = [1] : (tensor<128xf32>) -> tensor<1x128xf32>` -/
noncomputable def res_main_v52 (V0 : Valuation τ sig (Elt F)) : (⟨S1x128, .f32⟩ : BufTy).Contents (Elt F) :=
  broadcastInDim S1x128 ![1] bcast_S128_S1x128_1 (res_main_v35 V0)

/-- `%53 = stablehlo.broadcast_in_dim %52, dims = [0, 1] : (tensor<1x128xf32>) -> tensor<65536x128xf32>` -/
noncomputable def res_main_v53 (V0 : Valuation τ sig (Elt F)) : (⟨S65536x128, .f32⟩ : BufTy).Contents (Elt F) :=
  broadcastInDim S65536x128 ![0, 1] bcast_S1x128_S65536x128_0_1 (res_main_v52 V0)

/-- `%54 = stablehlo.add %51, %53 : tensor<65536x128xf32>` -/
noncomputable def res_main_v54 (V0 : Valuation τ sig (Elt F)) : (⟨S65536x128, .f32⟩ : BufTy).Contents (Elt F) :=
  addf (res_main_v51 V0) (res_main_v53 V0)

/-- `@relu's %cst = stablehlo.constant dense<0.000000e+00> : tensor<f32>, in %55 = func.call @relu(…) (record main_call1)` -/
noncomputable def res_main_call1_cst (V0 : Valuation τ sig (Elt F)) : (⟨S_, .f32⟩ : BufTy).Contents (Elt F) :=
  constant S_ .f32 0x00000000#32

/-- `@relu's %0 = stablehlo.broadcast_in_dim %cst, dims = [] : (tensor<f32>) -> tensor<65536x128xf32>, in %55 = func.call @relu(…) (record main_call1)` -/
noncomputable def res_main_call1_v0 (V0 : Valuation τ sig (Elt F)) : (⟨S65536x128, .f32⟩ : BufTy).Contents (Elt F) :=
  broadcastInDim S65536x128 ![] bcast_S_S65536x128 (res_main_call1_cst V0)

/-- `%55 = func.call @relu(…) (record main_call1) result 0: @relu's %1 = stablehlo.maximum %arg0, %0 : tensor<65536x128xf32>` -/
noncomputable def res_main_v55 (V0 : Valuation τ sig (Elt F)) : (⟨S65536x128, .f32⟩ : BufTy).Contents (Elt F) :=
  maximumf (res_main_v54 V0) (res_main_call1_v0 V0)

/-- `%56 = stablehlo.slice %arg10 [0:1, 0:128, 0:64] : (tensor<4x128x64xf32>) -> tensor<1x128x64xf32>` -/
noncomputable def res_main_v56 (V0 : Valuation τ sig (Elt F)) : (⟨S1x128x64, .f32⟩ : BufTy).Contents (Elt F) :=
  extractStridedSlice S1x128x64 ![0, 0, 0] (V0 (Proc.devRef .tc main_arg10)) slices_S4x128x64_S1x128x64_0_0_0

/-- `%57 = stablehlo.reshape %56 : (tensor<1x128x64xf32>) -> tensor<128x64xf32>` -/
noncomputable def res_main_v57 (V0 : Valuation τ sig (Elt F)) : (⟨S128x64, .f32⟩ : BufTy).Contents (Elt F) :=
  shapeCast S128x64 (res_main_v56 V0) shapeCasts_S1x128x64_S128x64

/-- `%58 = stablehlo.dot_general %55, %57, contracting_dims = [1] x [0], precision = [DEFAULT, DEFAULT] : (tensor<65536x128xf32>, tensor<128x64xf32>) -> tensor<65536x64xf32>` -/
noncomputable def res_main_v58 (V0 : Valuation τ sig (Elt F)) : (⟨S65536x64, .f32⟩ : BufTy).Contents (Elt F) :=
  Host.dotGeneral dot_S65536x128_S128x64_S65536x64_1_0_0_1_n_n none (res_main_v55 V0) (res_main_v57 V0)

/-- `%59 = stablehlo.slice %arg11 [0:1, 0:64] : (tensor<4x64xf32>) -> tensor<1x64xf32>` -/
noncomputable def res_main_v59 (V0 : Valuation τ sig (Elt F)) : (⟨S1x64, .f32⟩ : BufTy).Contents (Elt F) :=
  extractStridedSlice S1x64 ![0, 0] (V0 (Proc.devRef .tc main_arg11)) slices_S4x64_S1x64_0_0

/-- `%60 = stablehlo.reshape %59 : (tensor<1x64xf32>) -> tensor<64xf32>` -/
noncomputable def res_main_v60 (V0 : Valuation τ sig (Elt F)) : (⟨S64, .f32⟩ : BufTy).Contents (Elt F) :=
  shapeCast S64 (res_main_v59 V0) shapeCasts_S1x64_S64

/-- `%61 = stablehlo.broadcast_in_dim %60, dims = [1] : (tensor<64xf32>) -> tensor<1x64xf32>` -/
noncomputable def res_main_v61 (V0 : Valuation τ sig (Elt F)) : (⟨S1x64, .f32⟩ : BufTy).Contents (Elt F) :=
  broadcastInDim S1x64 ![1] bcast_S64_S1x64_1 (res_main_v60 V0)

/-- `%62 = stablehlo.broadcast_in_dim %61, dims = [0, 1] : (tensor<1x64xf32>) -> tensor<65536x64xf32>` -/
noncomputable def res_main_v62 (V0 : Valuation τ sig (Elt F)) : (⟨S65536x64, .f32⟩ : BufTy).Contents (Elt F) :=
  broadcastInDim S65536x64 ![0, 1] bcast_S1x64_S65536x64_0_1 (res_main_v61 V0)

/-- `%63 = stablehlo.add %58, %62 : tensor<65536x64xf32>` -/
noncomputable def res_main_v63 (V0 : Valuation τ sig (Elt F)) : (⟨S65536x64, .f32⟩ : BufTy).Contents (Elt F) :=
  addf (res_main_v58 V0) (res_main_v62 V0)

/-- `%64 = stablehlo.slice %arg12 [0:1, 0:64] : (tensor<4x64xf32>) -> tensor<1x64xf32>` -/
noncomputable def res_main_v64 (V0 : Valuation τ sig (Elt F)) : (⟨S1x64, .f32⟩ : BufTy).Contents (Elt F) :=
  extractStridedSlice S1x64 ![0, 0] (V0 (Proc.devRef .tc main_arg12)) slices_S4x64_S1x64_0_0

/-- `%65 = stablehlo.reshape %64 : (tensor<1x64xf32>) -> tensor<64xf32>` -/
noncomputable def res_main_v65 (V0 : Valuation τ sig (Elt F)) : (⟨S64, .f32⟩ : BufTy).Contents (Elt F) :=
  shapeCast S64 (res_main_v64 V0) shapeCasts_S1x64_S64

/-- `%66 = stablehlo.slice %arg13 [0:1, 0:64] : (tensor<4x64xf32>) -> tensor<1x64xf32>` -/
noncomputable def res_main_v66 (V0 : Valuation τ sig (Elt F)) : (⟨S1x64, .f32⟩ : BufTy).Contents (Elt F) :=
  extractStridedSlice S1x64 ![0, 0] (V0 (Proc.devRef .tc main_arg13)) slices_S4x64_S1x64_0_0

/-- `%67 = stablehlo.reshape %66 : (tensor<1x64xf32>) -> tensor<64xf32>` -/
noncomputable def res_main_v67 (V0 : Valuation τ sig (Elt F)) : (⟨S64, .f32⟩ : BufTy).Contents (Elt F) :=
  shapeCast S64 (res_main_v66 V0) shapeCasts_S1x64_S64

/-- `%cst_6 = stablehlo.constant dense<0.000000e+00> : tensor<f32>` -/
noncomputable def res_main_cst_6 (V0 : Valuation τ sig (Elt F)) : (⟨S_, .f32⟩ : BufTy).Contents (Elt F) :=
  constant S_ .f32 0x00000000#32

/-- `%68 = stablehlo.reduce(%63 init: %cst_6) applies stablehlo.add across dimensions = [0] : (tensor<65536x64xf32>, tensor<f32>) -> tensor<64xf32> {` -/
noncomputable def res_main_v68 (V0 : Valuation τ sig (Elt F)) : (⟨S64, .f32⟩ : BufTy).Contents (Elt F) :=
  Host.reduceAdd (res_main_v63 V0) (res_main_cst_6 V0) reducesTo_S65536x64_S64_d0 h_S_

/-- `%cst_7 = stablehlo.constant dense<6.553600e+04> : tensor<f32>` -/
noncomputable def res_main_cst_7 (V0 : Valuation τ sig (Elt F)) : (⟨S_, .f32⟩ : BufTy).Contents (Elt F) :=
  constant S_ .f32 0x47800000#32

/-- `%69 = stablehlo.broadcast_in_dim %cst_7, dims = [] : (tensor<f32>) -> tensor<64xf32>` -/
noncomputable def res_main_v69 (V0 : Valuation τ sig (Elt F)) : (⟨S64, .f32⟩ : BufTy).Contents (Elt F) :=
  broadcastInDim S64 ![] bcast_S_S64 (res_main_cst_7 V0)

/-- `%70 = stablehlo.divide %68, %69 : tensor<64xf32>` -/
noncomputable def res_main_v70 (V0 : Valuation τ sig (Elt F)) : (⟨S64, .f32⟩ : BufTy).Contents (Elt F) :=
  Host.divf (res_main_v68 V0) (res_main_v69 V0)

/-- `%c_8 = stablehlo.constant dense<0> : tensor<i32>` -/
noncomputable def res_main_c_8 (V0 : Valuation τ sig (Elt F)) : (⟨S_, .i32⟩ : BufTy).Contents (Elt F) :=
  constantI S_ 32 0#32

/-- `@_var_0's %cst = stablehlo.constant dense<0.000000e+00> : tensor<f32>, in %71 = func.call @_var_0(…) (record main_call2)` -/
noncomputable def res_main_call2_cst (V0 : Valuation τ sig (Elt F)) : (⟨S_, .f32⟩ : BufTy).Contents (Elt F) :=
  constant S_ .f32 0x00000000#32

/-- `@_var_0's %0 = stablehlo.reduce(%arg0 init: %cst) applies stablehlo.add across dimensions = [0] : (tensor<65536x64xf32>, tensor<f32>) -> tensor<64xf32> {, in %71 = func.call @_var_0(…) (record main_call2)` -/
noncomputable def res_main_call2_v0 (V0 : Valuation τ sig (Elt F)) : (⟨S64, .f32⟩ : BufTy).Contents (Elt F) :=
  Host.reduceAdd (res_main_v63 V0) (res_main_call2_cst V0) reducesTo_S65536x64_S64_d0 h_S_

/-- `@_var_0's %1 = stablehlo.broadcast_in_dim %0, dims = [1] : (tensor<64xf32>) -> tensor<1x64xf32>, in %71 = func.call @_var_0(…) (record main_call2)` -/
noncomputable def res_main_call2_v1 (V0 : Valuation τ sig (Elt F)) : (⟨S1x64, .f32⟩ : BufTy).Contents (Elt F) :=
  broadcastInDim S1x64 ![1] bcast_S64_S1x64_1 (res_main_call2_v0 V0)

/-- `@_var_0's %cst_0 = stablehlo.constant dense<6.553600e+04> : tensor<f32>, in %71 = func.call @_var_0(…) (record main_call2)` -/
noncomputable def res_main_call2_cst_0 (V0 : Valuation τ sig (Elt F)) : (⟨S_, .f32⟩ : BufTy).Contents (Elt F) :=
  constant S_ .f32 0x47800000#32

/-- `@_var_0's %2 = stablehlo.broadcast_in_dim %cst_0, dims = [] : (tensor<f32>) -> tensor<1x64xf32>, in %71 = func.call @_var_0(…) (record main_call2)` -/
noncomputable def res_main_call2_v2 (V0 : Valuation τ sig (Elt F)) : (⟨S1x64, .f32⟩ : BufTy).Contents (Elt F) :=
  broadcastInDim S1x64 ![] bcast_S_S1x64 (res_main_call2_cst_0 V0)

/-- `@_var_0's %3 = stablehlo.divide %1, %2 : tensor<1x64xf32>, in %71 = func.call @_var_0(…) (record main_call2)` -/
noncomputable def res_main_call2_v3 (V0 : Valuation τ sig (Elt F)) : (⟨S1x64, .f32⟩ : BufTy).Contents (Elt F) :=
  Host.divf (res_main_call2_v1 V0) (res_main_call2_v2 V0)

/-- `@_var_0's %4 = stablehlo.broadcast_in_dim %3, dims = [0, 1] : (tensor<1x64xf32>) -> tensor<65536x64xf32>, in %71 = func.call @_var_0(…) (record main_call2)` -/
noncomputable def res_main_call2_v4 (V0 : Valuation τ sig (Elt F)) : (⟨S65536x64, .f32⟩ : BufTy).Contents (Elt F) :=
  broadcastInDim S65536x64 ![0, 1] bcast_S1x64_S65536x64_0_1 (res_main_call2_v3 V0)

/-- `@_var_0's %5 = stablehlo.subtract %arg0, %4 : tensor<65536x64xf32>, in %71 = func.call @_var_0(…) (record main_call2)` -/
noncomputable def res_main_call2_v5 (V0 : Valuation τ sig (Elt F)) : (⟨S65536x64, .f32⟩ : BufTy).Contents (Elt F) :=
  subf (res_main_v63 V0) (res_main_call2_v4 V0)

/-- `@_var_0's %6 = chlo.square %5 : tensor<65536x64xf32> -> tensor<65536x64xf32>, in %71 = func.call @_var_0(…) (record main_call2)` -/
noncomputable def res_main_call2_v6 (V0 : Valuation τ sig (Elt F)) : (⟨S65536x64, .f32⟩ : BufTy).Contents (Elt F) :=
  mulf (res_main_call2_v5 V0) (res_main_call2_v5 V0)

/-- `@_var_0's %7 = stablehlo.convert %arg1 : (tensor<i32>) -> tensor<f32>, in %71 = func.call @_var_0(…) (record main_call2)` -/
noncomputable def res_main_call2_v7 (V0 : Valuation τ sig (Elt F)) : (⟨S_, .f32⟩ : BufTy).Contents (Elt F) :=
  sitofp .f32 (res_main_c_8 V0)

/-- `@_var_0's %cst_1 = stablehlo.constant dense<6.553600e+04> : tensor<f32>, in %71 = func.call @_var_0(…) (record main_call2)` -/
noncomputable def res_main_call2_cst_1 (V0 : Valuation τ sig (Elt F)) : (⟨S_, .f32⟩ : BufTy).Contents (Elt F) :=
  constant S_ .f32 0x47800000#32

/-- `@_var_0's %8 = stablehlo.subtract %cst_1, %7 : tensor<f32>, in %71 = func.call @_var_0(…) (record main_call2)` -/
noncomputable def res_main_call2_v8 (V0 : Valuation τ sig (Elt F)) : (⟨S_, .f32⟩ : BufTy).Contents (Elt F) :=
  subf (res_main_call2_cst_1 V0) (res_main_call2_v7 V0)

/-- `@_var_0's %cst_2 = stablehlo.constant dense<0.000000e+00> : tensor<f32>, in %71 = func.call @_var_0(…) (record main_call2)` -/
noncomputable def res_main_call2_cst_2 (V0 : Valuation τ sig (Elt F)) : (⟨S_, .f32⟩ : BufTy).Contents (Elt F) :=
  constant S_ .f32 0x00000000#32

/-- `@_var_0's %9 = stablehlo.reduce(%6 init: %cst_2) applies stablehlo.add across dimensions = [0] : (tensor<65536x64xf32>, tensor<f32>) -> tensor<64xf32> {, in %71 = func.call @_var_0(…) (record main_call2)` -/
noncomputable def res_main_call2_v9 (V0 : Valuation τ sig (Elt F)) : (⟨S64, .f32⟩ : BufTy).Contents (Elt F) :=
  Host.reduceAdd (res_main_call2_v6 V0) (res_main_call2_cst_2 V0) reducesTo_S65536x64_S64_d0 h_S_

/-- `@_var_0's %10 = stablehlo.broadcast_in_dim %8, dims = [] : (tensor<f32>) -> tensor<64xf32>, in %71 = func.call @_var_0(…) (record main_call2)` -/
noncomputable def res_main_call2_v10 (V0 : Valuation τ sig (Elt F)) : (⟨S64, .f32⟩ : BufTy).Contents (Elt F) :=
  broadcastInDim S64 ![] bcast_S_S64 (res_main_call2_v8 V0)

/-- `@_var_0's %11 = stablehlo.divide %9, %10 : tensor<64xf32>, in %71 = func.call @_var_0(…) (record main_call2)` -/
noncomputable def res_main_call2_v11 (V0 : Valuation τ sig (Elt F)) : (⟨S64, .f32⟩ : BufTy).Contents (Elt F) :=
  Host.divf (res_main_call2_v9 V0) (res_main_call2_v10 V0)

/-- `@_var_0's %cst_3 = stablehlo.constant dense<0.000000e+00> : tensor<f32>, in %71 = func.call @_var_0(…) (record main_call2)` -/
noncomputable def res_main_call2_cst_3 (V0 : Valuation τ sig (Elt F)) : (⟨S_, .f32⟩ : BufTy).Contents (Elt F) :=
  constant S_ .f32 0x00000000#32

/-- `@_var_0's %12 = stablehlo.compare GT, %8, %cst_3, FLOAT : (tensor<f32>, tensor<f32>) -> tensor<i1>, in %71 = func.call @_var_0(…) (record main_call2)` -/
noncomputable def res_main_call2_v12 (V0 : Valuation τ sig (Elt F)) : (⟨S_, .i1⟩ : BufTy).Contents (Elt F) :=
  cmpf .ogt (res_main_call2_v8 V0) (res_main_call2_cst_3 V0)

/-- `@_var_0's %cst_4 = stablehlo.constant dense<0x7FC00000> : tensor<f32>, in %71 = func.call @_var_0(…) (record main_call2)` -/
noncomputable def res_main_call2_cst_4 (V0 : Valuation τ sig (Elt F)) : (⟨S_, .f32⟩ : BufTy).Contents (Elt F) :=
  constant S_ .f32 0x7FC00000#32

/-- `@_where_1's %0 = stablehlo.convert %arg2 : tensor<f32>, in @_var_0's %13 = func.call @_where_1(…) (record main_call2_call0)` -/
noncomputable def res_main_call2_call0_v0 (V0 : Valuation τ sig (Elt F)) : (⟨S_, .f32⟩ : BufTy).Contents (Elt F) :=
  id (res_main_call2_cst_4 V0)

/-- `@_where_1's %1 = stablehlo.broadcast_in_dim %0, dims = [] : (tensor<f32>) -> tensor<64xf32>, in @_var_0's %13 = func.call @_where_1(…) (record main_call2_call0)` -/
noncomputable def res_main_call2_call0_v1 (V0 : Valuation τ sig (Elt F)) : (⟨S64, .f32⟩ : BufTy).Contents (Elt F) :=
  broadcastInDim S64 ![] bcast_S_S64 (res_main_call2_call0_v0 V0)

/-- `@_var_0's %13 = func.call @_where_1(…) (record main_call2_call0) result 0: @_where_1's %2 = stablehlo.select %arg0, %arg1, %1 : tensor<i1>, tensor<64xf32>` -/
noncomputable def res_main_v71 (V0 : Valuation τ sig (Elt F)) : (⟨S64, .f32⟩ : BufTy).Contents (Elt F) :=
  select (broadcastInDim S64 ![] bcast_S_S64 (res_main_call2_v12 V0)) (res_main_call2_v11 V0) (res_main_call2_call0_v1 V0)

/-- `%72 = stablehlo.broadcast_in_dim %70, dims = [1] : (tensor<64xf32>) -> tensor<1x64xf32>` -/
noncomputable def res_main_v72 (V0 : Valuation τ sig (Elt F)) : (⟨S1x64, .f32⟩ : BufTy).Contents (Elt F) :=
  broadcastInDim S1x64 ![1] bcast_S64_S1x64_1 (res_main_v70 V0)

/-- `%73 = stablehlo.broadcast_in_dim %72, dims = [0, 1] : (tensor<1x64xf32>) -> tensor<65536x64xf32>` -/
noncomputable def res_main_v73 (V0 : Valuation τ sig (Elt F)) : (⟨S65536x64, .f32⟩ : BufTy).Contents (Elt F) :=
  broadcastInDim S65536x64 ![0, 1] bcast_S1x64_S65536x64_0_1 (res_main_v72 V0)

/-- `%74 = stablehlo.subtract %63, %73 : tensor<65536x64xf32>` -/
noncomputable def res_main_v74 (V0 : Valuation τ sig (Elt F)) : (⟨S65536x64, .f32⟩ : BufTy).Contents (Elt F) :=
  subf (res_main_v63 V0) (res_main_v73 V0)

/-- `%cst_9 = stablehlo.constant dense<9.99999974E-6> : tensor<f32>` -/
noncomputable def res_main_cst_9 (V0 : Valuation τ sig (Elt F)) : (⟨S_, .f32⟩ : BufTy).Contents (Elt F) :=
  constant S_ .f32 0x3727C5AC#32

/-- `%75 = stablehlo.broadcast_in_dim %cst_9, dims = [] : (tensor<f32>) -> tensor<64xf32>` -/
noncomputable def res_main_v75 (V0 : Valuation τ sig (Elt F)) : (⟨S64, .f32⟩ : BufTy).Contents (Elt F) :=
  broadcastInDim S64 ![] bcast_S_S64 (res_main_cst_9 V0)

/-- `%76 = stablehlo.add %71, %75 : tensor<64xf32>` -/
noncomputable def res_main_v76 (V0 : Valuation τ sig (Elt F)) : (⟨S64, .f32⟩ : BufTy).Contents (Elt F) :=
  addf (res_main_v71 V0) (res_main_v75 V0)

/-- `%77 = stablehlo.rsqrt %76 : tensor<64xf32>` -/
noncomputable def res_main_v77 (V0 : Valuation τ sig (Elt F)) : (⟨S64, .f32⟩ : BufTy).Contents (Elt F) :=
  Host.rsqrt (res_main_v76 V0)

/-- `%78 = stablehlo.broadcast_in_dim %77, dims = [1] : (tensor<64xf32>) -> tensor<1x64xf32>` -/
noncomputable def res_main_v78 (V0 : Valuation τ sig (Elt F)) : (⟨S1x64, .f32⟩ : BufTy).Contents (Elt F) :=
  broadcastInDim S1x64 ![1] bcast_S64_S1x64_1 (res_main_v77 V0)

/-- `%79 = stablehlo.broadcast_in_dim %78, dims = [0, 1] : (tensor<1x64xf32>) -> tensor<65536x64xf32>` -/
noncomputable def res_main_v79 (V0 : Valuation τ sig (Elt F)) : (⟨S65536x64, .f32⟩ : BufTy).Contents (Elt F) :=
  broadcastInDim S65536x64 ![0, 1] bcast_S1x64_S65536x64_0_1 (res_main_v78 V0)

/-- `%80 = stablehlo.multiply %74, %79 : tensor<65536x64xf32>` -/
noncomputable def res_main_v80 (V0 : Valuation τ sig (Elt F)) : (⟨S65536x64, .f32⟩ : BufTy).Contents (Elt F) :=
  mulf (res_main_v74 V0) (res_main_v79 V0)

/-- `%81 = stablehlo.broadcast_in_dim %65, dims = [1] : (tensor<64xf32>) -> tensor<1x64xf32>` -/
noncomputable def res_main_v81 (V0 : Valuation τ sig (Elt F)) : (⟨S1x64, .f32⟩ : BufTy).Contents (Elt F) :=
  broadcastInDim S1x64 ![1] bcast_S64_S1x64_1 (res_main_v65 V0)

/-- `%82 = stablehlo.broadcast_in_dim %81, dims = [0, 1] : (tensor<1x64xf32>) -> tensor<65536x64xf32>` -/
noncomputable def res_main_v82 (V0 : Valuation τ sig (Elt F)) : (⟨S65536x64, .f32⟩ : BufTy).Contents (Elt F) :=
  broadcastInDim S65536x64 ![0, 1] bcast_S1x64_S65536x64_0_1 (res_main_v81 V0)

/-- `%83 = stablehlo.multiply %80, %82 : tensor<65536x64xf32>` -/
noncomputable def res_main_v83 (V0 : Valuation τ sig (Elt F)) : (⟨S65536x64, .f32⟩ : BufTy).Contents (Elt F) :=
  mulf (res_main_v80 V0) (res_main_v82 V0)

/-- `%84 = stablehlo.broadcast_in_dim %67, dims = [1] : (tensor<64xf32>) -> tensor<1x64xf32>` -/
noncomputable def res_main_v84 (V0 : Valuation τ sig (Elt F)) : (⟨S1x64, .f32⟩ : BufTy).Contents (Elt F) :=
  broadcastInDim S1x64 ![1] bcast_S64_S1x64_1 (res_main_v67 V0)

/-- `%85 = stablehlo.broadcast_in_dim %84, dims = [0, 1] : (tensor<1x64xf32>) -> tensor<65536x64xf32>` -/
noncomputable def res_main_v85 (V0 : Valuation τ sig (Elt F)) : (⟨S65536x64, .f32⟩ : BufTy).Contents (Elt F) :=
  broadcastInDim S65536x64 ![0, 1] bcast_S1x64_S65536x64_0_1 (res_main_v84 V0)

/-- `%86 = stablehlo.add %83, %85 : tensor<65536x64xf32>` -/
noncomputable def res_main_v86 (V0 : Valuation τ sig (Elt F)) : (⟨S65536x64, .f32⟩ : BufTy).Contents (Elt F) :=
  addf (res_main_v83 V0) (res_main_v85 V0)

/-- `@relu_2's %cst = stablehlo.constant dense<0.000000e+00> : tensor<f32>, in %87 = func.call @relu_2(…) (record main_call3)` -/
noncomputable def res_main_call3_cst (V0 : Valuation τ sig (Elt F)) : (⟨S_, .f32⟩ : BufTy).Contents (Elt F) :=
  constant S_ .f32 0x00000000#32

/-- `@relu_2's %0 = stablehlo.broadcast_in_dim %cst, dims = [] : (tensor<f32>) -> tensor<65536x64xf32>, in %87 = func.call @relu_2(…) (record main_call3)` -/
noncomputable def res_main_call3_v0 (V0 : Valuation τ sig (Elt F)) : (⟨S65536x64, .f32⟩ : BufTy).Contents (Elt F) :=
  broadcastInDim S65536x64 ![] bcast_S_S65536x64 (res_main_call3_cst V0)

/-- `%87 = func.call @relu_2(…) (record main_call3) result 0: @relu_2's %1 = stablehlo.maximum %arg0, %0 : tensor<65536x64xf32>` -/
noncomputable def res_main_v87 (V0 : Valuation τ sig (Elt F)) : (⟨S65536x64, .f32⟩ : BufTy).Contents (Elt F) :=
  maximumf (res_main_v86 V0) (res_main_call3_v0 V0)

/-- `%88 = stablehlo.add %87, %7 : tensor<65536x64xf32>` -/
noncomputable def res_main_v88 (V0 : Valuation τ sig (Elt F)) : (⟨S65536x64, .f32⟩ : BufTy).Contents (Elt F) :=
  addf (res_main_v87 V0) (res_main_v7 V0)

/-- `%c_10 = stablehlo.constant dense<0> : tensor<i32>` -/
noncomputable def res_main_c_10 (V0 : Valuation τ sig (Elt F)) : (⟨S_, .i32⟩ : BufTy).Contents (Elt F) :=
  constantI S_ 32 0#32

/-- `%89 = stablehlo.broadcast_in_dim %c_10, dims = [] : (tensor<i32>) -> tensor<1048576xi32>` -/
noncomputable def res_main_v89 (V0 : Valuation τ sig (Elt F)) : (⟨S1048576, .i32⟩ : BufTy).Contents (Elt F) :=
  broadcastInDim S1048576 ![] bcast_S_S1048576 (res_main_c_10 V0)

/-- `%90 = stablehlo.compare LT, %1, %89, SIGNED : (tensor<1048576xi32>, tensor<1048576xi32>) -> tensor<1048576xi1>` -/
noncomputable def res_main_v90 (V0 : Valuation τ sig (Elt F)) : (⟨S1048576, .i1⟩ : BufTy).Contents (Elt F) :=
  cmpi .slt (res_main_v1 V0) (res_main_v89 V0)

/-- `%c_11 = stablehlo.constant dense<65536> : tensor<i32>` -/
noncomputable def res_main_c_11 (V0 : Valuation τ sig (Elt F)) : (⟨S_, .i32⟩ : BufTy).Contents (Elt F) :=
  constantI S_ 32 65536#32

/-- `%91 = stablehlo.broadcast_in_dim %c_11, dims = [] : (tensor<i32>) -> tensor<1048576xi32>` -/
noncomputable def res_main_v91 (V0 : Valuation τ sig (Elt F)) : (⟨S1048576, .i32⟩ : BufTy).Contents (Elt F) :=
  broadcastInDim S1048576 ![] bcast_S_S1048576 (res_main_c_11 V0)

/-- `%92 = stablehlo.add %1, %91 : tensor<1048576xi32>` -/
noncomputable def res_main_v92 (V0 : Valuation τ sig (Elt F)) : (⟨S1048576, .i32⟩ : BufTy).Contents (Elt F) :=
  addi (res_main_v1 V0) (res_main_v91 V0)

/-- `%93 = stablehlo.select %90, %92, %1 : tensor<1048576xi1>, tensor<1048576xi32>` -/
noncomputable def res_main_v93 (V0 : Valuation τ sig (Elt F)) : (⟨S1048576, .i32⟩ : BufTy).Contents (Elt F) :=
  select (res_main_v90 V0) (res_main_v92 V0) (res_main_v1 V0)

/-- `%94 = stablehlo.broadcast_in_dim %93, dims = [0] : (tensor<1048576xi32>) -> tensor<1048576x1xi32>` -/
noncomputable def res_main_v94 (V0 : Valuation τ sig (Elt F)) : (⟨S1048576x1, .i32⟩ : BufTy).Contents (Elt F) :=
  broadcastInDim S1048576x1 ![0] bcast_S1048576_S1048576x1_0 (res_main_v93 V0)

/-- `%95 = "stablehlo.gather"(%88, %94) <{dimension_numbers = #stablehlo.gather<offset_dims = [1], collapsed_slice_dims = [0], start_index_map = [0], index_vector_dim = 1>, indices_are_sorted = false, slice_sizes = array<i64: 1, 64>}> : (tensor<65536x64xf32>, tensor<1048576x1xi32>) -> tensor<1048576x64xf32>` -/
noncomputable def res_main_v95 (V0 : Valuation τ sig (Elt F)) : (⟨S1048576x64, .f32⟩ : BufTy).Contents (Elt F) :=
  Host.gather gather_S65536x64_S1048576x1_S1048576x64_1_0_n_n_0_1_164 (res_main_v88 V0) (res_main_v94 V0)

/-- `%cst_12 = stablehlo.constant dense<0.000000e+00> : tensor<f32>` -/
noncomputable def res_main_cst_12 (V0 : Valuation τ sig (Elt F)) : (⟨S_, .f32⟩ : BufTy).Contents (Elt F) :=
  constant S_ .f32 0x00000000#32

/-- `%96 = stablehlo.broadcast_in_dim %cst_12, dims = [] : (tensor<f32>) -> tensor<65536x64xf32>` -/
noncomputable def res_main_v96 (V0 : Valuation τ sig (Elt F)) : (⟨S65536x64, .f32⟩ : BufTy).Contents (Elt F) :=
  broadcastInDim S65536x64 ![] bcast_S_S65536x64 (res_main_cst_12 V0)

/-- `%97 = stablehlo.broadcast_in_dim %3, dims = [0] : (tensor<1048576xi32>) -> tensor<1048576x1xi32>` -/
noncomputable def res_main_v97 (V0 : Valuation τ sig (Elt F)) : (⟨S1048576x1, .i32⟩ : BufTy).Contents (Elt F) :=
  broadcastInDim S1048576x1 ![0] bcast_S1048576_S1048576x1_0 (res_main_v3 V0)

/-- `%98 = "stablehlo.scatter"(%96, %97, %95) <{indices_are_sorted = false, scatter_dimension_numbers = #stablehlo.scatter<update_window_dims = [1], inserted_window_dims = [0], scatter_dims_to_operand_dims = [0], index_vector_dim = 1>, unique_indices = false}> ( {` -/
noncomputable def res_main_v98 (V0 : Valuation τ sig (Elt F)) : (⟨S65536x64, .f32⟩ : BufTy).Contents (Elt F) :=
  Host.scatterAdd scatter_S65536x64_S1048576x1_S1048576x64_1_0_0_1 (res_main_v96 V0) (res_main_v97 V0) (res_main_v95 V0)

/-- `%99 = stablehlo.slice %arg5 [1:2] : (tensor<4xf32>) -> tensor<1xf32>` -/
noncomputable def res_main_v99 (V0 : Valuation τ sig (Elt F)) : (⟨S1, .f32⟩ : BufTy).Contents (Elt F) :=
  extractStridedSlice S1 ![1] (V0 (Proc.devRef .tc main_arg5)) slices_S4_S1_1

/-- `%100 = stablehlo.reshape %99 : (tensor<1xf32>) -> tensor<f32>` -/
noncomputable def res_main_v100 (V0 : Valuation τ sig (Elt F)) : (⟨S_, .f32⟩ : BufTy).Contents (Elt F) :=
  shapeCast S_ (res_main_v99 V0) shapeCasts_S1_S_

/-- `%cst_13 = stablehlo.constant dense<1.000000e+00> : tensor<f32>` -/
noncomputable def res_main_cst_13 (V0 : Valuation τ sig (Elt F)) : (⟨S_, .f32⟩ : BufTy).Contents (Elt F) :=
  constant S_ .f32 0x3F800000#32

/-- `%101 = stablehlo.add %cst_13, %100 : tensor<f32>` -/
noncomputable def res_main_v101 (V0 : Valuation τ sig (Elt F)) : (⟨S_, .f32⟩ : BufTy).Contents (Elt F) :=
  addf (res_main_cst_13 V0) (res_main_v100 V0)

/-- `%102 = stablehlo.broadcast_in_dim %101, dims = [] : (tensor<f32>) -> tensor<65536x64xf32>` -/
noncomputable def res_main_v102 (V0 : Valuation τ sig (Elt F)) : (⟨S65536x64, .f32⟩ : BufTy).Contents (Elt F) :=
  broadcastInDim S65536x64 ![] bcast_S_S65536x64 (res_main_v101 V0)

/-- `%103 = stablehlo.multiply %102, %88 : tensor<65536x64xf32>` -/
noncomputable def res_main_v103 (V0 : Valuation τ sig (Elt F)) : (⟨S65536x64, .f32⟩ : BufTy).Contents (Elt F) :=
  mulf (res_main_v102 V0) (res_main_v88 V0)

/-! ## @main's statements 121 … 180 -/

/-- `%104 = stablehlo.add %103, %98 : tensor<65536x64xf32>` -/
noncomputable def res_main_v104 (V0 : Valuation τ sig (Elt F)) : (⟨S65536x64, .f32⟩ : BufTy).Contents (Elt F) :=
  addf (res_main_v103 V0) (res_main_v98 V0)

/-- `%105 = stablehlo.slice %arg6 [1:2, 0:64, 0:128] : (tensor<4x64x128xf32>) -> tensor<1x64x128xf32>` -/
noncomputable def res_main_v105 (V0 : Valuation τ sig (Elt F)) : (⟨S1x64x128, .f32⟩ : BufTy).Contents (Elt F) :=
  extractStridedSlice S1x64x128 ![1, 0, 0] (V0 (Proc.devRef .tc main_arg6)) slices_S4x64x128_S1x64x128_1_0_0

/-- `%106 = stablehlo.reshape %105 : (tensor<1x64x128xf32>) -> tensor<64x128xf32>` -/
noncomputable def res_main_v106 (V0 : Valuation τ sig (Elt F)) : (⟨S64x128, .f32⟩ : BufTy).Contents (Elt F) :=
  shapeCast S64x128 (res_main_v105 V0) shapeCasts_S1x64x128_S64x128

/-- `%107 = stablehlo.dot_general %104, %106, contracting_dims = [1] x [0], precision = [DEFAULT, DEFAULT] : (tensor<65536x64xf32>, tensor<64x128xf32>) -> tensor<65536x128xf32>` -/
noncomputable def res_main_v107 (V0 : Valuation τ sig (Elt F)) : (⟨S65536x128, .f32⟩ : BufTy).Contents (Elt F) :=
  Host.dotGeneral dot_S65536x64_S64x128_S65536x128_1_0_0_1_n_n none (res_main_v104 V0) (res_main_v106 V0)

/-- `%108 = stablehlo.slice %arg7 [1:2, 0:128] : (tensor<4x128xf32>) -> tensor<1x128xf32>` -/
noncomputable def res_main_v108 (V0 : Valuation τ sig (Elt F)) : (⟨S1x128, .f32⟩ : BufTy).Contents (Elt F) :=
  extractStridedSlice S1x128 ![1, 0] (V0 (Proc.devRef .tc main_arg7)) slices_S4x128_S1x128_1_0

/-- `%109 = stablehlo.reshape %108 : (tensor<1x128xf32>) -> tensor<128xf32>` -/
noncomputable def res_main_v109 (V0 : Valuation τ sig (Elt F)) : (⟨S128, .f32⟩ : BufTy).Contents (Elt F) :=
  shapeCast S128 (res_main_v108 V0) shapeCasts_S1x128_S128

/-- `%110 = stablehlo.broadcast_in_dim %109, dims = [1] : (tensor<128xf32>) -> tensor<1x128xf32>` -/
noncomputable def res_main_v110 (V0 : Valuation τ sig (Elt F)) : (⟨S1x128, .f32⟩ : BufTy).Contents (Elt F) :=
  broadcastInDim S1x128 ![1] bcast_S128_S1x128_1 (res_main_v109 V0)

/-- `%111 = stablehlo.broadcast_in_dim %110, dims = [0, 1] : (tensor<1x128xf32>) -> tensor<65536x128xf32>` -/
noncomputable def res_main_v111 (V0 : Valuation τ sig (Elt F)) : (⟨S65536x128, .f32⟩ : BufTy).Contents (Elt F) :=
  broadcastInDim S65536x128 ![0, 1] bcast_S1x128_S65536x128_0_1 (res_main_v110 V0)

/-- `%112 = stablehlo.add %107, %111 : tensor<65536x128xf32>` -/
noncomputable def res_main_v112 (V0 : Valuation τ sig (Elt F)) : (⟨S65536x128, .f32⟩ : BufTy).Contents (Elt F) :=
  addf (res_main_v107 V0) (res_main_v111 V0)

/-- `%113 = stablehlo.slice %arg8 [1:2, 0:128] : (tensor<4x128xf32>) -> tensor<1x128xf32>` -/
noncomputable def res_main_v113 (V0 : Valuation τ sig (Elt F)) : (⟨S1x128, .f32⟩ : BufTy).Contents (Elt F) :=
  extractStridedSlice S1x128 ![1, 0] (V0 (Proc.devRef .tc main_arg8)) slices_S4x128_S1x128_1_0

/-- `%114 = stablehlo.reshape %113 : (tensor<1x128xf32>) -> tensor<128xf32>` -/
noncomputable def res_main_v114 (V0 : Valuation τ sig (Elt F)) : (⟨S128, .f32⟩ : BufTy).Contents (Elt F) :=
  shapeCast S128 (res_main_v113 V0) shapeCasts_S1x128_S128

/-- `%115 = stablehlo.slice %arg9 [1:2, 0:128] : (tensor<4x128xf32>) -> tensor<1x128xf32>` -/
noncomputable def res_main_v115 (V0 : Valuation τ sig (Elt F)) : (⟨S1x128, .f32⟩ : BufTy).Contents (Elt F) :=
  extractStridedSlice S1x128 ![1, 0] (V0 (Proc.devRef .tc main_arg9)) slices_S4x128_S1x128_1_0

/-- `%116 = stablehlo.reshape %115 : (tensor<1x128xf32>) -> tensor<128xf32>` -/
noncomputable def res_main_v116 (V0 : Valuation τ sig (Elt F)) : (⟨S128, .f32⟩ : BufTy).Contents (Elt F) :=
  shapeCast S128 (res_main_v115 V0) shapeCasts_S1x128_S128

/-- `%cst_14 = stablehlo.constant dense<0.000000e+00> : tensor<f32>` -/
noncomputable def res_main_cst_14 (V0 : Valuation τ sig (Elt F)) : (⟨S_, .f32⟩ : BufTy).Contents (Elt F) :=
  constant S_ .f32 0x00000000#32

/-- `%117 = stablehlo.reduce(%112 init: %cst_14) applies stablehlo.add across dimensions = [0] : (tensor<65536x128xf32>, tensor<f32>) -> tensor<128xf32> {` -/
noncomputable def res_main_v117 (V0 : Valuation τ sig (Elt F)) : (⟨S128, .f32⟩ : BufTy).Contents (Elt F) :=
  Host.reduceAdd (res_main_v112 V0) (res_main_cst_14 V0) reducesTo_S65536x128_S128_d0 h_S_

/-- `%cst_15 = stablehlo.constant dense<6.553600e+04> : tensor<f32>` -/
noncomputable def res_main_cst_15 (V0 : Valuation τ sig (Elt F)) : (⟨S_, .f32⟩ : BufTy).Contents (Elt F) :=
  constant S_ .f32 0x47800000#32

/-- `%118 = stablehlo.broadcast_in_dim %cst_15, dims = [] : (tensor<f32>) -> tensor<128xf32>` -/
noncomputable def res_main_v118 (V0 : Valuation τ sig (Elt F)) : (⟨S128, .f32⟩ : BufTy).Contents (Elt F) :=
  broadcastInDim S128 ![] bcast_S_S128 (res_main_cst_15 V0)

/-- `%119 = stablehlo.divide %117, %118 : tensor<128xf32>` -/
noncomputable def res_main_v119 (V0 : Valuation τ sig (Elt F)) : (⟨S128, .f32⟩ : BufTy).Contents (Elt F) :=
  Host.divf (res_main_v117 V0) (res_main_v118 V0)

/-- `%c_16 = stablehlo.constant dense<0> : tensor<i32>` -/
noncomputable def res_main_c_16 (V0 : Valuation τ sig (Elt F)) : (⟨S_, .i32⟩ : BufTy).Contents (Elt F) :=
  constantI S_ 32 0#32

/-- `@_var's %cst = stablehlo.constant dense<0.000000e+00> : tensor<f32>, in %120 = func.call @_var(…) (record main_call4)` -/
noncomputable def res_main_call4_cst (V0 : Valuation τ sig (Elt F)) : (⟨S_, .f32⟩ : BufTy).Contents (Elt F) :=
  constant S_ .f32 0x00000000#32

/-- `@_var's %0 = stablehlo.reduce(%arg0 init: %cst) applies stablehlo.add across dimensions = [0] : (tensor<65536x128xf32>, tensor<f32>) -> tensor<128xf32> {, in %120 = func.call @_var(…) (record main_call4)` -/
noncomputable def res_main_call4_v0 (V0 : Valuation τ sig (Elt F)) : (⟨S128, .f32⟩ : BufTy).Contents (Elt F) :=
  Host.reduceAdd (res_main_v112 V0) (res_main_call4_cst V0) reducesTo_S65536x128_S128_d0 h_S_

/-- `@_var's %1 = stablehlo.broadcast_in_dim %0, dims = [1] : (tensor<128xf32>) -> tensor<1x128xf32>, in %120 = func.call @_var(…) (record main_call4)` -/
noncomputable def res_main_call4_v1 (V0 : Valuation τ sig (Elt F)) : (⟨S1x128, .f32⟩ : BufTy).Contents (Elt F) :=
  broadcastInDim S1x128 ![1] bcast_S128_S1x128_1 (res_main_call4_v0 V0)

/-- `@_var's %cst_0 = stablehlo.constant dense<6.553600e+04> : tensor<f32>, in %120 = func.call @_var(…) (record main_call4)` -/
noncomputable def res_main_call4_cst_0 (V0 : Valuation τ sig (Elt F)) : (⟨S_, .f32⟩ : BufTy).Contents (Elt F) :=
  constant S_ .f32 0x47800000#32

/-- `@_var's %2 = stablehlo.broadcast_in_dim %cst_0, dims = [] : (tensor<f32>) -> tensor<1x128xf32>, in %120 = func.call @_var(…) (record main_call4)` -/
noncomputable def res_main_call4_v2 (V0 : Valuation τ sig (Elt F)) : (⟨S1x128, .f32⟩ : BufTy).Contents (Elt F) :=
  broadcastInDim S1x128 ![] bcast_S_S1x128 (res_main_call4_cst_0 V0)

/-- `@_var's %3 = stablehlo.divide %1, %2 : tensor<1x128xf32>, in %120 = func.call @_var(…) (record main_call4)` -/
noncomputable def res_main_call4_v3 (V0 : Valuation τ sig (Elt F)) : (⟨S1x128, .f32⟩ : BufTy).Contents (Elt F) :=
  Host.divf (res_main_call4_v1 V0) (res_main_call4_v2 V0)

/-- `@_var's %4 = stablehlo.broadcast_in_dim %3, dims = [0, 1] : (tensor<1x128xf32>) -> tensor<65536x128xf32>, in %120 = func.call @_var(…) (record main_call4)` -/
noncomputable def res_main_call4_v4 (V0 : Valuation τ sig (Elt F)) : (⟨S65536x128, .f32⟩ : BufTy).Contents (Elt F) :=
  broadcastInDim S65536x128 ![0, 1] bcast_S1x128_S65536x128_0_1 (res_main_call4_v3 V0)

/-- `@_var's %5 = stablehlo.subtract %arg0, %4 : tensor<65536x128xf32>, in %120 = func.call @_var(…) (record main_call4)` -/
noncomputable def res_main_call4_v5 (V0 : Valuation τ sig (Elt F)) : (⟨S65536x128, .f32⟩ : BufTy).Contents (Elt F) :=
  subf (res_main_v112 V0) (res_main_call4_v4 V0)

/-- `@_var's %6 = chlo.square %5 : tensor<65536x128xf32> -> tensor<65536x128xf32>, in %120 = func.call @_var(…) (record main_call4)` -/
noncomputable def res_main_call4_v6 (V0 : Valuation τ sig (Elt F)) : (⟨S65536x128, .f32⟩ : BufTy).Contents (Elt F) :=
  mulf (res_main_call4_v5 V0) (res_main_call4_v5 V0)

/-- `@_var's %7 = stablehlo.convert %arg1 : (tensor<i32>) -> tensor<f32>, in %120 = func.call @_var(…) (record main_call4)` -/
noncomputable def res_main_call4_v7 (V0 : Valuation τ sig (Elt F)) : (⟨S_, .f32⟩ : BufTy).Contents (Elt F) :=
  sitofp .f32 (res_main_c_16 V0)

/-- `@_var's %cst_1 = stablehlo.constant dense<6.553600e+04> : tensor<f32>, in %120 = func.call @_var(…) (record main_call4)` -/
noncomputable def res_main_call4_cst_1 (V0 : Valuation τ sig (Elt F)) : (⟨S_, .f32⟩ : BufTy).Contents (Elt F) :=
  constant S_ .f32 0x47800000#32

/-- `@_var's %8 = stablehlo.subtract %cst_1, %7 : tensor<f32>, in %120 = func.call @_var(…) (record main_call4)` -/
noncomputable def res_main_call4_v8 (V0 : Valuation τ sig (Elt F)) : (⟨S_, .f32⟩ : BufTy).Contents (Elt F) :=
  subf (res_main_call4_cst_1 V0) (res_main_call4_v7 V0)

/-- `@_var's %cst_2 = stablehlo.constant dense<0.000000e+00> : tensor<f32>, in %120 = func.call @_var(…) (record main_call4)` -/
noncomputable def res_main_call4_cst_2 (V0 : Valuation τ sig (Elt F)) : (⟨S_, .f32⟩ : BufTy).Contents (Elt F) :=
  constant S_ .f32 0x00000000#32

/-- `@_var's %9 = stablehlo.reduce(%6 init: %cst_2) applies stablehlo.add across dimensions = [0] : (tensor<65536x128xf32>, tensor<f32>) -> tensor<128xf32> {, in %120 = func.call @_var(…) (record main_call4)` -/
noncomputable def res_main_call4_v9 (V0 : Valuation τ sig (Elt F)) : (⟨S128, .f32⟩ : BufTy).Contents (Elt F) :=
  Host.reduceAdd (res_main_call4_v6 V0) (res_main_call4_cst_2 V0) reducesTo_S65536x128_S128_d0 h_S_

/-- `@_var's %10 = stablehlo.broadcast_in_dim %8, dims = [] : (tensor<f32>) -> tensor<128xf32>, in %120 = func.call @_var(…) (record main_call4)` -/
noncomputable def res_main_call4_v10 (V0 : Valuation τ sig (Elt F)) : (⟨S128, .f32⟩ : BufTy).Contents (Elt F) :=
  broadcastInDim S128 ![] bcast_S_S128 (res_main_call4_v8 V0)

/-- `@_var's %11 = stablehlo.divide %9, %10 : tensor<128xf32>, in %120 = func.call @_var(…) (record main_call4)` -/
noncomputable def res_main_call4_v11 (V0 : Valuation τ sig (Elt F)) : (⟨S128, .f32⟩ : BufTy).Contents (Elt F) :=
  Host.divf (res_main_call4_v9 V0) (res_main_call4_v10 V0)

/-- `@_var's %cst_3 = stablehlo.constant dense<0.000000e+00> : tensor<f32>, in %120 = func.call @_var(…) (record main_call4)` -/
noncomputable def res_main_call4_cst_3 (V0 : Valuation τ sig (Elt F)) : (⟨S_, .f32⟩ : BufTy).Contents (Elt F) :=
  constant S_ .f32 0x00000000#32

/-- `@_var's %12 = stablehlo.compare GT, %8, %cst_3, FLOAT : (tensor<f32>, tensor<f32>) -> tensor<i1>, in %120 = func.call @_var(…) (record main_call4)` -/
noncomputable def res_main_call4_v12 (V0 : Valuation τ sig (Elt F)) : (⟨S_, .i1⟩ : BufTy).Contents (Elt F) :=
  cmpf .ogt (res_main_call4_v8 V0) (res_main_call4_cst_3 V0)

/-- `@_var's %cst_4 = stablehlo.constant dense<0x7FC00000> : tensor<f32>, in %120 = func.call @_var(…) (record main_call4)` -/
noncomputable def res_main_call4_cst_4 (V0 : Valuation τ sig (Elt F)) : (⟨S_, .f32⟩ : BufTy).Contents (Elt F) :=
  constant S_ .f32 0x7FC00000#32

/-- `@_where's %0 = stablehlo.convert %arg2 : tensor<f32>, in @_var's %13 = func.call @_where(…) (record main_call4_call0)` -/
noncomputable def res_main_call4_call0_v0 (V0 : Valuation τ sig (Elt F)) : (⟨S_, .f32⟩ : BufTy).Contents (Elt F) :=
  id (res_main_call4_cst_4 V0)

/-- `@_where's %1 = stablehlo.broadcast_in_dim %0, dims = [] : (tensor<f32>) -> tensor<128xf32>, in @_var's %13 = func.call @_where(…) (record main_call4_call0)` -/
noncomputable def res_main_call4_call0_v1 (V0 : Valuation τ sig (Elt F)) : (⟨S128, .f32⟩ : BufTy).Contents (Elt F) :=
  broadcastInDim S128 ![] bcast_S_S128 (res_main_call4_call0_v0 V0)

/-- `@_var's %13 = func.call @_where(…) (record main_call4_call0) result 0: @_where's %2 = stablehlo.select %arg0, %arg1, %1 : tensor<i1>, tensor<128xf32>` -/
noncomputable def res_main_v120 (V0 : Valuation τ sig (Elt F)) : (⟨S128, .f32⟩ : BufTy).Contents (Elt F) :=
  select (broadcastInDim S128 ![] bcast_S_S128 (res_main_call4_v12 V0)) (res_main_call4_v11 V0) (res_main_call4_call0_v1 V0)

/-- `%121 = stablehlo.broadcast_in_dim %119, dims = [1] : (tensor<128xf32>) -> tensor<1x128xf32>` -/
noncomputable def res_main_v121 (V0 : Valuation τ sig (Elt F)) : (⟨S1x128, .f32⟩ : BufTy).Contents (Elt F) :=
  broadcastInDim S1x128 ![1] bcast_S128_S1x128_1 (res_main_v119 V0)

/-- `%122 = stablehlo.broadcast_in_dim %121, dims = [0, 1] : (tensor<1x128xf32>) -> tensor<65536x128xf32>` -/
noncomputable def res_main_v122 (V0 : Valuation τ sig (Elt F)) : (⟨S65536x128, .f32⟩ : BufTy).Contents (Elt F) :=
  broadcastInDim S65536x128 ![0, 1] bcast_S1x128_S65536x128_0_1 (res_main_v121 V0)

/-- `%123 = stablehlo.subtract %112, %122 : tensor<65536x128xf32>` -/
noncomputable def res_main_v123 (V0 : Valuation τ sig (Elt F)) : (⟨S65536x128, .f32⟩ : BufTy).Contents (Elt F) :=
  subf (res_main_v112 V0) (res_main_v122 V0)

/-- `%cst_17 = stablehlo.constant dense<9.99999974E-6> : tensor<f32>` -/
noncomputable def res_main_cst_17 (V0 : Valuation τ sig (Elt F)) : (⟨S_, .f32⟩ : BufTy).Contents (Elt F) :=
  constant S_ .f32 0x3727C5AC#32

/-- `%124 = stablehlo.broadcast_in_dim %cst_17, dims = [] : (tensor<f32>) -> tensor<128xf32>` -/
noncomputable def res_main_v124 (V0 : Valuation τ sig (Elt F)) : (⟨S128, .f32⟩ : BufTy).Contents (Elt F) :=
  broadcastInDim S128 ![] bcast_S_S128 (res_main_cst_17 V0)

/-- `%125 = stablehlo.add %120, %124 : tensor<128xf32>` -/
noncomputable def res_main_v125 (V0 : Valuation τ sig (Elt F)) : (⟨S128, .f32⟩ : BufTy).Contents (Elt F) :=
  addf (res_main_v120 V0) (res_main_v124 V0)

/-- `%126 = stablehlo.rsqrt %125 : tensor<128xf32>` -/
noncomputable def res_main_v126 (V0 : Valuation τ sig (Elt F)) : (⟨S128, .f32⟩ : BufTy).Contents (Elt F) :=
  Host.rsqrt (res_main_v125 V0)

/-- `%127 = stablehlo.broadcast_in_dim %126, dims = [1] : (tensor<128xf32>) -> tensor<1x128xf32>` -/
noncomputable def res_main_v127 (V0 : Valuation τ sig (Elt F)) : (⟨S1x128, .f32⟩ : BufTy).Contents (Elt F) :=
  broadcastInDim S1x128 ![1] bcast_S128_S1x128_1 (res_main_v126 V0)

/-- `%128 = stablehlo.broadcast_in_dim %127, dims = [0, 1] : (tensor<1x128xf32>) -> tensor<65536x128xf32>` -/
noncomputable def res_main_v128 (V0 : Valuation τ sig (Elt F)) : (⟨S65536x128, .f32⟩ : BufTy).Contents (Elt F) :=
  broadcastInDim S65536x128 ![0, 1] bcast_S1x128_S65536x128_0_1 (res_main_v127 V0)

/-- `%129 = stablehlo.multiply %123, %128 : tensor<65536x128xf32>` -/
noncomputable def res_main_v129 (V0 : Valuation τ sig (Elt F)) : (⟨S65536x128, .f32⟩ : BufTy).Contents (Elt F) :=
  mulf (res_main_v123 V0) (res_main_v128 V0)

/-- `%130 = stablehlo.broadcast_in_dim %114, dims = [1] : (tensor<128xf32>) -> tensor<1x128xf32>` -/
noncomputable def res_main_v130 (V0 : Valuation τ sig (Elt F)) : (⟨S1x128, .f32⟩ : BufTy).Contents (Elt F) :=
  broadcastInDim S1x128 ![1] bcast_S128_S1x128_1 (res_main_v114 V0)

/-- `%131 = stablehlo.broadcast_in_dim %130, dims = [0, 1] : (tensor<1x128xf32>) -> tensor<65536x128xf32>` -/
noncomputable def res_main_v131 (V0 : Valuation τ sig (Elt F)) : (⟨S65536x128, .f32⟩ : BufTy).Contents (Elt F) :=
  broadcastInDim S65536x128 ![0, 1] bcast_S1x128_S65536x128_0_1 (res_main_v130 V0)

/-- `%132 = stablehlo.multiply %129, %131 : tensor<65536x128xf32>` -/
noncomputable def res_main_v132 (V0 : Valuation τ sig (Elt F)) : (⟨S65536x128, .f32⟩ : BufTy).Contents (Elt F) :=
  mulf (res_main_v129 V0) (res_main_v131 V0)

/-- `%133 = stablehlo.broadcast_in_dim %116, dims = [1] : (tensor<128xf32>) -> tensor<1x128xf32>` -/
noncomputable def res_main_v133 (V0 : Valuation τ sig (Elt F)) : (⟨S1x128, .f32⟩ : BufTy).Contents (Elt F) :=
  broadcastInDim S1x128 ![1] bcast_S128_S1x128_1 (res_main_v116 V0)

/-- `%134 = stablehlo.broadcast_in_dim %133, dims = [0, 1] : (tensor<1x128xf32>) -> tensor<65536x128xf32>` -/
noncomputable def res_main_v134 (V0 : Valuation τ sig (Elt F)) : (⟨S65536x128, .f32⟩ : BufTy).Contents (Elt F) :=
  broadcastInDim S65536x128 ![0, 1] bcast_S1x128_S65536x128_0_1 (res_main_v133 V0)

/-- `%135 = stablehlo.add %132, %134 : tensor<65536x128xf32>` -/
noncomputable def res_main_v135 (V0 : Valuation τ sig (Elt F)) : (⟨S65536x128, .f32⟩ : BufTy).Contents (Elt F) :=
  addf (res_main_v132 V0) (res_main_v134 V0)

/-- `@relu's %cst = stablehlo.constant dense<0.000000e+00> : tensor<f32>, in %136 = func.call @relu(…) (record main_call5)` -/
noncomputable def res_main_call5_cst (V0 : Valuation τ sig (Elt F)) : (⟨S_, .f32⟩ : BufTy).Contents (Elt F) :=
  constant S_ .f32 0x00000000#32

/-- `@relu's %0 = stablehlo.broadcast_in_dim %cst, dims = [] : (tensor<f32>) -> tensor<65536x128xf32>, in %136 = func.call @relu(…) (record main_call5)` -/
noncomputable def res_main_call5_v0 (V0 : Valuation τ sig (Elt F)) : (⟨S65536x128, .f32⟩ : BufTy).Contents (Elt F) :=
  broadcastInDim S65536x128 ![] bcast_S_S65536x128 (res_main_call5_cst V0)

/-- `%136 = func.call @relu(…) (record main_call5) result 0: @relu's %1 = stablehlo.maximum %arg0, %0 : tensor<65536x128xf32>` -/
noncomputable def res_main_v136 (V0 : Valuation τ sig (Elt F)) : (⟨S65536x128, .f32⟩ : BufTy).Contents (Elt F) :=
  maximumf (res_main_v135 V0) (res_main_call5_v0 V0)

/-- `%137 = stablehlo.slice %arg10 [1:2, 0:128, 0:64] : (tensor<4x128x64xf32>) -> tensor<1x128x64xf32>` -/
noncomputable def res_main_v137 (V0 : Valuation τ sig (Elt F)) : (⟨S1x128x64, .f32⟩ : BufTy).Contents (Elt F) :=
  extractStridedSlice S1x128x64 ![1, 0, 0] (V0 (Proc.devRef .tc main_arg10)) slices_S4x128x64_S1x128x64_1_0_0

/-- `%138 = stablehlo.reshape %137 : (tensor<1x128x64xf32>) -> tensor<128x64xf32>` -/
noncomputable def res_main_v138 (V0 : Valuation τ sig (Elt F)) : (⟨S128x64, .f32⟩ : BufTy).Contents (Elt F) :=
  shapeCast S128x64 (res_main_v137 V0) shapeCasts_S1x128x64_S128x64

/-- `%139 = stablehlo.dot_general %136, %138, contracting_dims = [1] x [0], precision = [DEFAULT, DEFAULT] : (tensor<65536x128xf32>, tensor<128x64xf32>) -> tensor<65536x64xf32>` -/
noncomputable def res_main_v139 (V0 : Valuation τ sig (Elt F)) : (⟨S65536x64, .f32⟩ : BufTy).Contents (Elt F) :=
  Host.dotGeneral dot_S65536x128_S128x64_S65536x64_1_0_0_1_n_n none (res_main_v136 V0) (res_main_v138 V0)

/-- `%140 = stablehlo.slice %arg11 [1:2, 0:64] : (tensor<4x64xf32>) -> tensor<1x64xf32>` -/
noncomputable def res_main_v140 (V0 : Valuation τ sig (Elt F)) : (⟨S1x64, .f32⟩ : BufTy).Contents (Elt F) :=
  extractStridedSlice S1x64 ![1, 0] (V0 (Proc.devRef .tc main_arg11)) slices_S4x64_S1x64_1_0

/-- `%141 = stablehlo.reshape %140 : (tensor<1x64xf32>) -> tensor<64xf32>` -/
noncomputable def res_main_v141 (V0 : Valuation τ sig (Elt F)) : (⟨S64, .f32⟩ : BufTy).Contents (Elt F) :=
  shapeCast S64 (res_main_v140 V0) shapeCasts_S1x64_S64

/-- `%142 = stablehlo.broadcast_in_dim %141, dims = [1] : (tensor<64xf32>) -> tensor<1x64xf32>` -/
noncomputable def res_main_v142 (V0 : Valuation τ sig (Elt F)) : (⟨S1x64, .f32⟩ : BufTy).Contents (Elt F) :=
  broadcastInDim S1x64 ![1] bcast_S64_S1x64_1 (res_main_v141 V0)

/-- `%143 = stablehlo.broadcast_in_dim %142, dims = [0, 1] : (tensor<1x64xf32>) -> tensor<65536x64xf32>` -/
noncomputable def res_main_v143 (V0 : Valuation τ sig (Elt F)) : (⟨S65536x64, .f32⟩ : BufTy).Contents (Elt F) :=
  broadcastInDim S65536x64 ![0, 1] bcast_S1x64_S65536x64_0_1 (res_main_v142 V0)

/-- `%144 = stablehlo.add %139, %143 : tensor<65536x64xf32>` -/
noncomputable def res_main_v144 (V0 : Valuation τ sig (Elt F)) : (⟨S65536x64, .f32⟩ : BufTy).Contents (Elt F) :=
  addf (res_main_v139 V0) (res_main_v143 V0)

/-- `%145 = stablehlo.slice %arg12 [1:2, 0:64] : (tensor<4x64xf32>) -> tensor<1x64xf32>` -/
noncomputable def res_main_v145 (V0 : Valuation τ sig (Elt F)) : (⟨S1x64, .f32⟩ : BufTy).Contents (Elt F) :=
  extractStridedSlice S1x64 ![1, 0] (V0 (Proc.devRef .tc main_arg12)) slices_S4x64_S1x64_1_0

/-- `%146 = stablehlo.reshape %145 : (tensor<1x64xf32>) -> tensor<64xf32>` -/
noncomputable def res_main_v146 (V0 : Valuation τ sig (Elt F)) : (⟨S64, .f32⟩ : BufTy).Contents (Elt F) :=
  shapeCast S64 (res_main_v145 V0) shapeCasts_S1x64_S64

/-- `%147 = stablehlo.slice %arg13 [1:2, 0:64] : (tensor<4x64xf32>) -> tensor<1x64xf32>` -/
noncomputable def res_main_v147 (V0 : Valuation τ sig (Elt F)) : (⟨S1x64, .f32⟩ : BufTy).Contents (Elt F) :=
  extractStridedSlice S1x64 ![1, 0] (V0 (Proc.devRef .tc main_arg13)) slices_S4x64_S1x64_1_0

/-- `%148 = stablehlo.reshape %147 : (tensor<1x64xf32>) -> tensor<64xf32>` -/
noncomputable def res_main_v148 (V0 : Valuation τ sig (Elt F)) : (⟨S64, .f32⟩ : BufTy).Contents (Elt F) :=
  shapeCast S64 (res_main_v147 V0) shapeCasts_S1x64_S64

/-- `%cst_18 = stablehlo.constant dense<0.000000e+00> : tensor<f32>` -/
noncomputable def res_main_cst_18 (V0 : Valuation τ sig (Elt F)) : (⟨S_, .f32⟩ : BufTy).Contents (Elt F) :=
  constant S_ .f32 0x00000000#32

/-- `%149 = stablehlo.reduce(%144 init: %cst_18) applies stablehlo.add across dimensions = [0] : (tensor<65536x64xf32>, tensor<f32>) -> tensor<64xf32> {` -/
noncomputable def res_main_v149 (V0 : Valuation τ sig (Elt F)) : (⟨S64, .f32⟩ : BufTy).Contents (Elt F) :=
  Host.reduceAdd (res_main_v144 V0) (res_main_cst_18 V0) reducesTo_S65536x64_S64_d0 h_S_

/-- `%cst_19 = stablehlo.constant dense<6.553600e+04> : tensor<f32>` -/
noncomputable def res_main_cst_19 (V0 : Valuation τ sig (Elt F)) : (⟨S_, .f32⟩ : BufTy).Contents (Elt F) :=
  constant S_ .f32 0x47800000#32

/-- `%150 = stablehlo.broadcast_in_dim %cst_19, dims = [] : (tensor<f32>) -> tensor<64xf32>` -/
noncomputable def res_main_v150 (V0 : Valuation τ sig (Elt F)) : (⟨S64, .f32⟩ : BufTy).Contents (Elt F) :=
  broadcastInDim S64 ![] bcast_S_S64 (res_main_cst_19 V0)

/-- `%151 = stablehlo.divide %149, %150 : tensor<64xf32>` -/
noncomputable def res_main_v151 (V0 : Valuation τ sig (Elt F)) : (⟨S64, .f32⟩ : BufTy).Contents (Elt F) :=
  Host.divf (res_main_v149 V0) (res_main_v150 V0)

/-- `%c_20 = stablehlo.constant dense<0> : tensor<i32>` -/
noncomputable def res_main_c_20 (V0 : Valuation τ sig (Elt F)) : (⟨S_, .i32⟩ : BufTy).Contents (Elt F) :=
  constantI S_ 32 0#32

/-- `@_var_0's %cst = stablehlo.constant dense<0.000000e+00> : tensor<f32>, in %152 = func.call @_var_0(…) (record main_call6)` -/
noncomputable def res_main_call6_cst (V0 : Valuation τ sig (Elt F)) : (⟨S_, .f32⟩ : BufTy).Contents (Elt F) :=
  constant S_ .f32 0x00000000#32

/-- `@_var_0's %0 = stablehlo.reduce(%arg0 init: %cst) applies stablehlo.add across dimensions = [0] : (tensor<65536x64xf32>, tensor<f32>) -> tensor<64xf32> {, in %152 = func.call @_var_0(…) (record main_call6)` -/
noncomputable def res_main_call6_v0 (V0 : Valuation τ sig (Elt F)) : (⟨S64, .f32⟩ : BufTy).Contents (Elt F) :=
  Host.reduceAdd (res_main_v144 V0) (res_main_call6_cst V0) reducesTo_S65536x64_S64_d0 h_S_

/-- `@_var_0's %1 = stablehlo.broadcast_in_dim %0, dims = [1] : (tensor<64xf32>) -> tensor<1x64xf32>, in %152 = func.call @_var_0(…) (record main_call6)` -/
noncomputable def res_main_call6_v1 (V0 : Valuation τ sig (Elt F)) : (⟨S1x64, .f32⟩ : BufTy).Contents (Elt F) :=
  broadcastInDim S1x64 ![1] bcast_S64_S1x64_1 (res_main_call6_v0 V0)

/-- `@_var_0's %cst_0 = stablehlo.constant dense<6.553600e+04> : tensor<f32>, in %152 = func.call @_var_0(…) (record main_call6)` -/
noncomputable def res_main_call6_cst_0 (V0 : Valuation τ sig (Elt F)) : (⟨S_, .f32⟩ : BufTy).Contents (Elt F) :=
  constant S_ .f32 0x47800000#32

/-- `@_var_0's %2 = stablehlo.broadcast_in_dim %cst_0, dims = [] : (tensor<f32>) -> tensor<1x64xf32>, in %152 = func.call @_var_0(…) (record main_call6)` -/
noncomputable def res_main_call6_v2 (V0 : Valuation τ sig (Elt F)) : (⟨S1x64, .f32⟩ : BufTy).Contents (Elt F) :=
  broadcastInDim S1x64 ![] bcast_S_S1x64 (res_main_call6_cst_0 V0)

/-- `@_var_0's %3 = stablehlo.divide %1, %2 : tensor<1x64xf32>, in %152 = func.call @_var_0(…) (record main_call6)` -/
noncomputable def res_main_call6_v3 (V0 : Valuation τ sig (Elt F)) : (⟨S1x64, .f32⟩ : BufTy).Contents (Elt F) :=
  Host.divf (res_main_call6_v1 V0) (res_main_call6_v2 V0)

/-- `@_var_0's %4 = stablehlo.broadcast_in_dim %3, dims = [0, 1] : (tensor<1x64xf32>) -> tensor<65536x64xf32>, in %152 = func.call @_var_0(…) (record main_call6)` -/
noncomputable def res_main_call6_v4 (V0 : Valuation τ sig (Elt F)) : (⟨S65536x64, .f32⟩ : BufTy).Contents (Elt F) :=
  broadcastInDim S65536x64 ![0, 1] bcast_S1x64_S65536x64_0_1 (res_main_call6_v3 V0)

/-- `@_var_0's %5 = stablehlo.subtract %arg0, %4 : tensor<65536x64xf32>, in %152 = func.call @_var_0(…) (record main_call6)` -/
noncomputable def res_main_call6_v5 (V0 : Valuation τ sig (Elt F)) : (⟨S65536x64, .f32⟩ : BufTy).Contents (Elt F) :=
  subf (res_main_v144 V0) (res_main_call6_v4 V0)

/-- `@_var_0's %6 = chlo.square %5 : tensor<65536x64xf32> -> tensor<65536x64xf32>, in %152 = func.call @_var_0(…) (record main_call6)` -/
noncomputable def res_main_call6_v6 (V0 : Valuation τ sig (Elt F)) : (⟨S65536x64, .f32⟩ : BufTy).Contents (Elt F) :=
  mulf (res_main_call6_v5 V0) (res_main_call6_v5 V0)

/-- `@_var_0's %7 = stablehlo.convert %arg1 : (tensor<i32>) -> tensor<f32>, in %152 = func.call @_var_0(…) (record main_call6)` -/
noncomputable def res_main_call6_v7 (V0 : Valuation τ sig (Elt F)) : (⟨S_, .f32⟩ : BufTy).Contents (Elt F) :=
  sitofp .f32 (res_main_c_20 V0)

/-- `@_var_0's %cst_1 = stablehlo.constant dense<6.553600e+04> : tensor<f32>, in %152 = func.call @_var_0(…) (record main_call6)` -/
noncomputable def res_main_call6_cst_1 (V0 : Valuation τ sig (Elt F)) : (⟨S_, .f32⟩ : BufTy).Contents (Elt F) :=
  constant S_ .f32 0x47800000#32

/-- `@_var_0's %8 = stablehlo.subtract %cst_1, %7 : tensor<f32>, in %152 = func.call @_var_0(…) (record main_call6)` -/
noncomputable def res_main_call6_v8 (V0 : Valuation τ sig (Elt F)) : (⟨S_, .f32⟩ : BufTy).Contents (Elt F) :=
  subf (res_main_call6_cst_1 V0) (res_main_call6_v7 V0)

/-- `@_var_0's %cst_2 = stablehlo.constant dense<0.000000e+00> : tensor<f32>, in %152 = func.call @_var_0(…) (record main_call6)` -/
noncomputable def res_main_call6_cst_2 (V0 : Valuation τ sig (Elt F)) : (⟨S_, .f32⟩ : BufTy).Contents (Elt F) :=
  constant S_ .f32 0x00000000#32

/-- `@_var_0's %9 = stablehlo.reduce(%6 init: %cst_2) applies stablehlo.add across dimensions = [0] : (tensor<65536x64xf32>, tensor<f32>) -> tensor<64xf32> {, in %152 = func.call @_var_0(…) (record main_call6)` -/
noncomputable def res_main_call6_v9 (V0 : Valuation τ sig (Elt F)) : (⟨S64, .f32⟩ : BufTy).Contents (Elt F) :=
  Host.reduceAdd (res_main_call6_v6 V0) (res_main_call6_cst_2 V0) reducesTo_S65536x64_S64_d0 h_S_

/-- `@_var_0's %10 = stablehlo.broadcast_in_dim %8, dims = [] : (tensor<f32>) -> tensor<64xf32>, in %152 = func.call @_var_0(…) (record main_call6)` -/
noncomputable def res_main_call6_v10 (V0 : Valuation τ sig (Elt F)) : (⟨S64, .f32⟩ : BufTy).Contents (Elt F) :=
  broadcastInDim S64 ![] bcast_S_S64 (res_main_call6_v8 V0)

/-- `@_var_0's %11 = stablehlo.divide %9, %10 : tensor<64xf32>, in %152 = func.call @_var_0(…) (record main_call6)` -/
noncomputable def res_main_call6_v11 (V0 : Valuation τ sig (Elt F)) : (⟨S64, .f32⟩ : BufTy).Contents (Elt F) :=
  Host.divf (res_main_call6_v9 V0) (res_main_call6_v10 V0)

/-- `@_var_0's %cst_3 = stablehlo.constant dense<0.000000e+00> : tensor<f32>, in %152 = func.call @_var_0(…) (record main_call6)` -/
noncomputable def res_main_call6_cst_3 (V0 : Valuation τ sig (Elt F)) : (⟨S_, .f32⟩ : BufTy).Contents (Elt F) :=
  constant S_ .f32 0x00000000#32

/-- `@_var_0's %12 = stablehlo.compare GT, %8, %cst_3, FLOAT : (tensor<f32>, tensor<f32>) -> tensor<i1>, in %152 = func.call @_var_0(…) (record main_call6)` -/
noncomputable def res_main_call6_v12 (V0 : Valuation τ sig (Elt F)) : (⟨S_, .i1⟩ : BufTy).Contents (Elt F) :=
  cmpf .ogt (res_main_call6_v8 V0) (res_main_call6_cst_3 V0)

/-- `@_var_0's %cst_4 = stablehlo.constant dense<0x7FC00000> : tensor<f32>, in %152 = func.call @_var_0(…) (record main_call6)` -/
noncomputable def res_main_call6_cst_4 (V0 : Valuation τ sig (Elt F)) : (⟨S_, .f32⟩ : BufTy).Contents (Elt F) :=
  constant S_ .f32 0x7FC00000#32

/-- `@_where_1's %0 = stablehlo.convert %arg2 : tensor<f32>, in @_var_0's %13 = func.call @_where_1(…) (record main_call6_call0)` -/
noncomputable def res_main_call6_call0_v0 (V0 : Valuation τ sig (Elt F)) : (⟨S_, .f32⟩ : BufTy).Contents (Elt F) :=
  id (res_main_call6_cst_4 V0)

/-- `@_where_1's %1 = stablehlo.broadcast_in_dim %0, dims = [] : (tensor<f32>) -> tensor<64xf32>, in @_var_0's %13 = func.call @_where_1(…) (record main_call6_call0)` -/
noncomputable def res_main_call6_call0_v1 (V0 : Valuation τ sig (Elt F)) : (⟨S64, .f32⟩ : BufTy).Contents (Elt F) :=
  broadcastInDim S64 ![] bcast_S_S64 (res_main_call6_call0_v0 V0)

/-- `@_var_0's %13 = func.call @_where_1(…) (record main_call6_call0) result 0: @_where_1's %2 = stablehlo.select %arg0, %arg1, %1 : tensor<i1>, tensor<64xf32>` -/
noncomputable def res_main_v152 (V0 : Valuation τ sig (Elt F)) : (⟨S64, .f32⟩ : BufTy).Contents (Elt F) :=
  select (broadcastInDim S64 ![] bcast_S_S64 (res_main_call6_v12 V0)) (res_main_call6_v11 V0) (res_main_call6_call0_v1 V0)

/-- `%153 = stablehlo.broadcast_in_dim %151, dims = [1] : (tensor<64xf32>) -> tensor<1x64xf32>` -/
noncomputable def res_main_v153 (V0 : Valuation τ sig (Elt F)) : (⟨S1x64, .f32⟩ : BufTy).Contents (Elt F) :=
  broadcastInDim S1x64 ![1] bcast_S64_S1x64_1 (res_main_v151 V0)

/-- `%154 = stablehlo.broadcast_in_dim %153, dims = [0, 1] : (tensor<1x64xf32>) -> tensor<65536x64xf32>` -/
noncomputable def res_main_v154 (V0 : Valuation τ sig (Elt F)) : (⟨S65536x64, .f32⟩ : BufTy).Contents (Elt F) :=
  broadcastInDim S65536x64 ![0, 1] bcast_S1x64_S65536x64_0_1 (res_main_v153 V0)

/-- `%155 = stablehlo.subtract %144, %154 : tensor<65536x64xf32>` -/
noncomputable def res_main_v155 (V0 : Valuation τ sig (Elt F)) : (⟨S65536x64, .f32⟩ : BufTy).Contents (Elt F) :=
  subf (res_main_v144 V0) (res_main_v154 V0)

/-- `%cst_21 = stablehlo.constant dense<9.99999974E-6> : tensor<f32>` -/
noncomputable def res_main_cst_21 (V0 : Valuation τ sig (Elt F)) : (⟨S_, .f32⟩ : BufTy).Contents (Elt F) :=
  constant S_ .f32 0x3727C5AC#32

/-! ## @main's statements 181 … 240 -/

/-- `%156 = stablehlo.broadcast_in_dim %cst_21, dims = [] : (tensor<f32>) -> tensor<64xf32>` -/
noncomputable def res_main_v156 (V0 : Valuation τ sig (Elt F)) : (⟨S64, .f32⟩ : BufTy).Contents (Elt F) :=
  broadcastInDim S64 ![] bcast_S_S64 (res_main_cst_21 V0)

/-- `%157 = stablehlo.add %152, %156 : tensor<64xf32>` -/
noncomputable def res_main_v157 (V0 : Valuation τ sig (Elt F)) : (⟨S64, .f32⟩ : BufTy).Contents (Elt F) :=
  addf (res_main_v152 V0) (res_main_v156 V0)

/-- `%158 = stablehlo.rsqrt %157 : tensor<64xf32>` -/
noncomputable def res_main_v158 (V0 : Valuation τ sig (Elt F)) : (⟨S64, .f32⟩ : BufTy).Contents (Elt F) :=
  Host.rsqrt (res_main_v157 V0)

/-- `%159 = stablehlo.broadcast_in_dim %158, dims = [1] : (tensor<64xf32>) -> tensor<1x64xf32>` -/
noncomputable def res_main_v159 (V0 : Valuation τ sig (Elt F)) : (⟨S1x64, .f32⟩ : BufTy).Contents (Elt F) :=
  broadcastInDim S1x64 ![1] bcast_S64_S1x64_1 (res_main_v158 V0)

/-- `%160 = stablehlo.broadcast_in_dim %159, dims = [0, 1] : (tensor<1x64xf32>) -> tensor<65536x64xf32>` -/
noncomputable def res_main_v160 (V0 : Valuation τ sig (Elt F)) : (⟨S65536x64, .f32⟩ : BufTy).Contents (Elt F) :=
  broadcastInDim S65536x64 ![0, 1] bcast_S1x64_S65536x64_0_1 (res_main_v159 V0)

/-- `%161 = stablehlo.multiply %155, %160 : tensor<65536x64xf32>` -/
noncomputable def res_main_v161 (V0 : Valuation τ sig (Elt F)) : (⟨S65536x64, .f32⟩ : BufTy).Contents (Elt F) :=
  mulf (res_main_v155 V0) (res_main_v160 V0)

/-- `%162 = stablehlo.broadcast_in_dim %146, dims = [1] : (tensor<64xf32>) -> tensor<1x64xf32>` -/
noncomputable def res_main_v162 (V0 : Valuation τ sig (Elt F)) : (⟨S1x64, .f32⟩ : BufTy).Contents (Elt F) :=
  broadcastInDim S1x64 ![1] bcast_S64_S1x64_1 (res_main_v146 V0)

/-- `%163 = stablehlo.broadcast_in_dim %162, dims = [0, 1] : (tensor<1x64xf32>) -> tensor<65536x64xf32>` -/
noncomputable def res_main_v163 (V0 : Valuation τ sig (Elt F)) : (⟨S65536x64, .f32⟩ : BufTy).Contents (Elt F) :=
  broadcastInDim S65536x64 ![0, 1] bcast_S1x64_S65536x64_0_1 (res_main_v162 V0)

/-- `%164 = stablehlo.multiply %161, %163 : tensor<65536x64xf32>` -/
noncomputable def res_main_v164 (V0 : Valuation τ sig (Elt F)) : (⟨S65536x64, .f32⟩ : BufTy).Contents (Elt F) :=
  mulf (res_main_v161 V0) (res_main_v163 V0)

/-- `%165 = stablehlo.broadcast_in_dim %148, dims = [1] : (tensor<64xf32>) -> tensor<1x64xf32>` -/
noncomputable def res_main_v165 (V0 : Valuation τ sig (Elt F)) : (⟨S1x64, .f32⟩ : BufTy).Contents (Elt F) :=
  broadcastInDim S1x64 ![1] bcast_S64_S1x64_1 (res_main_v148 V0)

/-- `%166 = stablehlo.broadcast_in_dim %165, dims = [0, 1] : (tensor<1x64xf32>) -> tensor<65536x64xf32>` -/
noncomputable def res_main_v166 (V0 : Valuation τ sig (Elt F)) : (⟨S65536x64, .f32⟩ : BufTy).Contents (Elt F) :=
  broadcastInDim S65536x64 ![0, 1] bcast_S1x64_S65536x64_0_1 (res_main_v165 V0)

/-- `%167 = stablehlo.add %164, %166 : tensor<65536x64xf32>` -/
noncomputable def res_main_v167 (V0 : Valuation τ sig (Elt F)) : (⟨S65536x64, .f32⟩ : BufTy).Contents (Elt F) :=
  addf (res_main_v164 V0) (res_main_v166 V0)

/-- `@relu_2's %cst = stablehlo.constant dense<0.000000e+00> : tensor<f32>, in %168 = func.call @relu_2(…) (record main_call7)` -/
noncomputable def res_main_call7_cst (V0 : Valuation τ sig (Elt F)) : (⟨S_, .f32⟩ : BufTy).Contents (Elt F) :=
  constant S_ .f32 0x00000000#32

/-- `@relu_2's %0 = stablehlo.broadcast_in_dim %cst, dims = [] : (tensor<f32>) -> tensor<65536x64xf32>, in %168 = func.call @relu_2(…) (record main_call7)` -/
noncomputable def res_main_call7_v0 (V0 : Valuation τ sig (Elt F)) : (⟨S65536x64, .f32⟩ : BufTy).Contents (Elt F) :=
  broadcastInDim S65536x64 ![] bcast_S_S65536x64 (res_main_call7_cst V0)

/-- `%168 = func.call @relu_2(…) (record main_call7) result 0: @relu_2's %1 = stablehlo.maximum %arg0, %0 : tensor<65536x64xf32>` -/
noncomputable def res_main_v168 (V0 : Valuation τ sig (Elt F)) : (⟨S65536x64, .f32⟩ : BufTy).Contents (Elt F) :=
  maximumf (res_main_v167 V0) (res_main_call7_v0 V0)

/-- `%169 = stablehlo.add %168, %88 : tensor<65536x64xf32>` -/
noncomputable def res_main_v169 (V0 : Valuation τ sig (Elt F)) : (⟨S65536x64, .f32⟩ : BufTy).Contents (Elt F) :=
  addf (res_main_v168 V0) (res_main_v88 V0)

/-- `%c_22 = stablehlo.constant dense<0> : tensor<i32>` -/
noncomputable def res_main_c_22 (V0 : Valuation τ sig (Elt F)) : (⟨S_, .i32⟩ : BufTy).Contents (Elt F) :=
  constantI S_ 32 0#32

/-- `%170 = stablehlo.broadcast_in_dim %c_22, dims = [] : (tensor<i32>) -> tensor<1048576xi32>` -/
noncomputable def res_main_v170 (V0 : Valuation τ sig (Elt F)) : (⟨S1048576, .i32⟩ : BufTy).Contents (Elt F) :=
  broadcastInDim S1048576 ![] bcast_S_S1048576 (res_main_c_22 V0)

/-- `%171 = stablehlo.compare LT, %1, %170, SIGNED : (tensor<1048576xi32>, tensor<1048576xi32>) -> tensor<1048576xi1>` -/
noncomputable def res_main_v171 (V0 : Valuation τ sig (Elt F)) : (⟨S1048576, .i1⟩ : BufTy).Contents (Elt F) :=
  cmpi .slt (res_main_v1 V0) (res_main_v170 V0)

/-- `%c_23 = stablehlo.constant dense<65536> : tensor<i32>` -/
noncomputable def res_main_c_23 (V0 : Valuation τ sig (Elt F)) : (⟨S_, .i32⟩ : BufTy).Contents (Elt F) :=
  constantI S_ 32 65536#32

/-- `%172 = stablehlo.broadcast_in_dim %c_23, dims = [] : (tensor<i32>) -> tensor<1048576xi32>` -/
noncomputable def res_main_v172 (V0 : Valuation τ sig (Elt F)) : (⟨S1048576, .i32⟩ : BufTy).Contents (Elt F) :=
  broadcastInDim S1048576 ![] bcast_S_S1048576 (res_main_c_23 V0)

/-- `%173 = stablehlo.add %1, %172 : tensor<1048576xi32>` -/
noncomputable def res_main_v173 (V0 : Valuation τ sig (Elt F)) : (⟨S1048576, .i32⟩ : BufTy).Contents (Elt F) :=
  addi (res_main_v1 V0) (res_main_v172 V0)

/-- `%174 = stablehlo.select %171, %173, %1 : tensor<1048576xi1>, tensor<1048576xi32>` -/
noncomputable def res_main_v174 (V0 : Valuation τ sig (Elt F)) : (⟨S1048576, .i32⟩ : BufTy).Contents (Elt F) :=
  select (res_main_v171 V0) (res_main_v173 V0) (res_main_v1 V0)

/-- `%175 = stablehlo.broadcast_in_dim %174, dims = [0] : (tensor<1048576xi32>) -> tensor<1048576x1xi32>` -/
noncomputable def res_main_v175 (V0 : Valuation τ sig (Elt F)) : (⟨S1048576x1, .i32⟩ : BufTy).Contents (Elt F) :=
  broadcastInDim S1048576x1 ![0] bcast_S1048576_S1048576x1_0 (res_main_v174 V0)

/-- `%176 = "stablehlo.gather"(%169, %175) <{dimension_numbers = #stablehlo.gather<offset_dims = [1], collapsed_slice_dims = [0], start_index_map = [0], index_vector_dim = 1>, indices_are_sorted = false, slice_sizes = array<i64: 1, 64>}> : (tensor<65536x64xf32>, tensor<1048576x1xi32>) -> tensor<1048576x64xf32>` -/
noncomputable def res_main_v176 (V0 : Valuation τ sig (Elt F)) : (⟨S1048576x64, .f32⟩ : BufTy).Contents (Elt F) :=
  Host.gather gather_S65536x64_S1048576x1_S1048576x64_1_0_n_n_0_1_164 (res_main_v169 V0) (res_main_v175 V0)

/-- `%cst_24 = stablehlo.constant dense<0.000000e+00> : tensor<f32>` -/
noncomputable def res_main_cst_24 (V0 : Valuation τ sig (Elt F)) : (⟨S_, .f32⟩ : BufTy).Contents (Elt F) :=
  constant S_ .f32 0x00000000#32

/-- `%177 = stablehlo.broadcast_in_dim %cst_24, dims = [] : (tensor<f32>) -> tensor<65536x64xf32>` -/
noncomputable def res_main_v177 (V0 : Valuation τ sig (Elt F)) : (⟨S65536x64, .f32⟩ : BufTy).Contents (Elt F) :=
  broadcastInDim S65536x64 ![] bcast_S_S65536x64 (res_main_cst_24 V0)

/-- `%178 = stablehlo.broadcast_in_dim %3, dims = [0] : (tensor<1048576xi32>) -> tensor<1048576x1xi32>` -/
noncomputable def res_main_v178 (V0 : Valuation τ sig (Elt F)) : (⟨S1048576x1, .i32⟩ : BufTy).Contents (Elt F) :=
  broadcastInDim S1048576x1 ![0] bcast_S1048576_S1048576x1_0 (res_main_v3 V0)

/-- `%179 = "stablehlo.scatter"(%177, %178, %176) <{indices_are_sorted = false, scatter_dimension_numbers = #stablehlo.scatter<update_window_dims = [1], inserted_window_dims = [0], scatter_dims_to_operand_dims = [0], index_vector_dim = 1>, unique_indices = false}> ( {` -/
noncomputable def res_main_v179 (V0 : Valuation τ sig (Elt F)) : (⟨S65536x64, .f32⟩ : BufTy).Contents (Elt F) :=
  Host.scatterAdd scatter_S65536x64_S1048576x1_S1048576x64_1_0_0_1 (res_main_v177 V0) (res_main_v178 V0) (res_main_v176 V0)

/-- `%180 = stablehlo.slice %arg5 [2:3] : (tensor<4xf32>) -> tensor<1xf32>` -/
noncomputable def res_main_v180 (V0 : Valuation τ sig (Elt F)) : (⟨S1, .f32⟩ : BufTy).Contents (Elt F) :=
  extractStridedSlice S1 ![2] (V0 (Proc.devRef .tc main_arg5)) slices_S4_S1_2

/-- `%181 = stablehlo.reshape %180 : (tensor<1xf32>) -> tensor<f32>` -/
noncomputable def res_main_v181 (V0 : Valuation τ sig (Elt F)) : (⟨S_, .f32⟩ : BufTy).Contents (Elt F) :=
  shapeCast S_ (res_main_v180 V0) shapeCasts_S1_S_

/-- `%cst_25 = stablehlo.constant dense<1.000000e+00> : tensor<f32>` -/
noncomputable def res_main_cst_25 (V0 : Valuation τ sig (Elt F)) : (⟨S_, .f32⟩ : BufTy).Contents (Elt F) :=
  constant S_ .f32 0x3F800000#32

/-- `%182 = stablehlo.add %cst_25, %181 : tensor<f32>` -/
noncomputable def res_main_v182 (V0 : Valuation τ sig (Elt F)) : (⟨S_, .f32⟩ : BufTy).Contents (Elt F) :=
  addf (res_main_cst_25 V0) (res_main_v181 V0)

/-- `%183 = stablehlo.broadcast_in_dim %182, dims = [] : (tensor<f32>) -> tensor<65536x64xf32>` -/
noncomputable def res_main_v183 (V0 : Valuation τ sig (Elt F)) : (⟨S65536x64, .f32⟩ : BufTy).Contents (Elt F) :=
  broadcastInDim S65536x64 ![] bcast_S_S65536x64 (res_main_v182 V0)

/-- `%184 = stablehlo.multiply %183, %169 : tensor<65536x64xf32>` -/
noncomputable def res_main_v184 (V0 : Valuation τ sig (Elt F)) : (⟨S65536x64, .f32⟩ : BufTy).Contents (Elt F) :=
  mulf (res_main_v183 V0) (res_main_v169 V0)

/-- `%185 = stablehlo.add %184, %179 : tensor<65536x64xf32>` -/
noncomputable def res_main_v185 (V0 : Valuation τ sig (Elt F)) : (⟨S65536x64, .f32⟩ : BufTy).Contents (Elt F) :=
  addf (res_main_v184 V0) (res_main_v179 V0)

/-- `%186 = stablehlo.slice %arg6 [2:3, 0:64, 0:128] : (tensor<4x64x128xf32>) -> tensor<1x64x128xf32>` -/
noncomputable def res_main_v186 (V0 : Valuation τ sig (Elt F)) : (⟨S1x64x128, .f32⟩ : BufTy).Contents (Elt F) :=
  extractStridedSlice S1x64x128 ![2, 0, 0] (V0 (Proc.devRef .tc main_arg6)) slices_S4x64x128_S1x64x128_2_0_0

/-- `%187 = stablehlo.reshape %186 : (tensor<1x64x128xf32>) -> tensor<64x128xf32>` -/
noncomputable def res_main_v187 (V0 : Valuation τ sig (Elt F)) : (⟨S64x128, .f32⟩ : BufTy).Contents (Elt F) :=
  shapeCast S64x128 (res_main_v186 V0) shapeCasts_S1x64x128_S64x128

/-- `%188 = stablehlo.dot_general %185, %187, contracting_dims = [1] x [0], precision = [DEFAULT, DEFAULT] : (tensor<65536x64xf32>, tensor<64x128xf32>) -> tensor<65536x128xf32>` -/
noncomputable def res_main_v188 (V0 : Valuation τ sig (Elt F)) : (⟨S65536x128, .f32⟩ : BufTy).Contents (Elt F) :=
  Host.dotGeneral dot_S65536x64_S64x128_S65536x128_1_0_0_1_n_n none (res_main_v185 V0) (res_main_v187 V0)

/-- `%189 = stablehlo.slice %arg7 [2:3, 0:128] : (tensor<4x128xf32>) -> tensor<1x128xf32>` -/
noncomputable def res_main_v189 (V0 : Valuation τ sig (Elt F)) : (⟨S1x128, .f32⟩ : BufTy).Contents (Elt F) :=
  extractStridedSlice S1x128 ![2, 0] (V0 (Proc.devRef .tc main_arg7)) slices_S4x128_S1x128_2_0

/-- `%190 = stablehlo.reshape %189 : (tensor<1x128xf32>) -> tensor<128xf32>` -/
noncomputable def res_main_v190 (V0 : Valuation τ sig (Elt F)) : (⟨S128, .f32⟩ : BufTy).Contents (Elt F) :=
  shapeCast S128 (res_main_v189 V0) shapeCasts_S1x128_S128

/-- `%191 = stablehlo.broadcast_in_dim %190, dims = [1] : (tensor<128xf32>) -> tensor<1x128xf32>` -/
noncomputable def res_main_v191 (V0 : Valuation τ sig (Elt F)) : (⟨S1x128, .f32⟩ : BufTy).Contents (Elt F) :=
  broadcastInDim S1x128 ![1] bcast_S128_S1x128_1 (res_main_v190 V0)

/-- `%192 = stablehlo.broadcast_in_dim %191, dims = [0, 1] : (tensor<1x128xf32>) -> tensor<65536x128xf32>` -/
noncomputable def res_main_v192 (V0 : Valuation τ sig (Elt F)) : (⟨S65536x128, .f32⟩ : BufTy).Contents (Elt F) :=
  broadcastInDim S65536x128 ![0, 1] bcast_S1x128_S65536x128_0_1 (res_main_v191 V0)

/-- `%193 = stablehlo.add %188, %192 : tensor<65536x128xf32>` -/
noncomputable def res_main_v193 (V0 : Valuation τ sig (Elt F)) : (⟨S65536x128, .f32⟩ : BufTy).Contents (Elt F) :=
  addf (res_main_v188 V0) (res_main_v192 V0)

/-- `%194 = stablehlo.slice %arg8 [2:3, 0:128] : (tensor<4x128xf32>) -> tensor<1x128xf32>` -/
noncomputable def res_main_v194 (V0 : Valuation τ sig (Elt F)) : (⟨S1x128, .f32⟩ : BufTy).Contents (Elt F) :=
  extractStridedSlice S1x128 ![2, 0] (V0 (Proc.devRef .tc main_arg8)) slices_S4x128_S1x128_2_0

/-- `%195 = stablehlo.reshape %194 : (tensor<1x128xf32>) -> tensor<128xf32>` -/
noncomputable def res_main_v195 (V0 : Valuation τ sig (Elt F)) : (⟨S128, .f32⟩ : BufTy).Contents (Elt F) :=
  shapeCast S128 (res_main_v194 V0) shapeCasts_S1x128_S128

/-- `%196 = stablehlo.slice %arg9 [2:3, 0:128] : (tensor<4x128xf32>) -> tensor<1x128xf32>` -/
noncomputable def res_main_v196 (V0 : Valuation τ sig (Elt F)) : (⟨S1x128, .f32⟩ : BufTy).Contents (Elt F) :=
  extractStridedSlice S1x128 ![2, 0] (V0 (Proc.devRef .tc main_arg9)) slices_S4x128_S1x128_2_0

/-- `%197 = stablehlo.reshape %196 : (tensor<1x128xf32>) -> tensor<128xf32>` -/
noncomputable def res_main_v197 (V0 : Valuation τ sig (Elt F)) : (⟨S128, .f32⟩ : BufTy).Contents (Elt F) :=
  shapeCast S128 (res_main_v196 V0) shapeCasts_S1x128_S128

/-- `%cst_26 = stablehlo.constant dense<0.000000e+00> : tensor<f32>` -/
noncomputable def res_main_cst_26 (V0 : Valuation τ sig (Elt F)) : (⟨S_, .f32⟩ : BufTy).Contents (Elt F) :=
  constant S_ .f32 0x00000000#32

/-- `%198 = stablehlo.reduce(%193 init: %cst_26) applies stablehlo.add across dimensions = [0] : (tensor<65536x128xf32>, tensor<f32>) -> tensor<128xf32> {` -/
noncomputable def res_main_v198 (V0 : Valuation τ sig (Elt F)) : (⟨S128, .f32⟩ : BufTy).Contents (Elt F) :=
  Host.reduceAdd (res_main_v193 V0) (res_main_cst_26 V0) reducesTo_S65536x128_S128_d0 h_S_

/-- `%cst_27 = stablehlo.constant dense<6.553600e+04> : tensor<f32>` -/
noncomputable def res_main_cst_27 (V0 : Valuation τ sig (Elt F)) : (⟨S_, .f32⟩ : BufTy).Contents (Elt F) :=
  constant S_ .f32 0x47800000#32

/-- `%199 = stablehlo.broadcast_in_dim %cst_27, dims = [] : (tensor<f32>) -> tensor<128xf32>` -/
noncomputable def res_main_v199 (V0 : Valuation τ sig (Elt F)) : (⟨S128, .f32⟩ : BufTy).Contents (Elt F) :=
  broadcastInDim S128 ![] bcast_S_S128 (res_main_cst_27 V0)

/-- `%200 = stablehlo.divide %198, %199 : tensor<128xf32>` -/
noncomputable def res_main_v200 (V0 : Valuation τ sig (Elt F)) : (⟨S128, .f32⟩ : BufTy).Contents (Elt F) :=
  Host.divf (res_main_v198 V0) (res_main_v199 V0)

/-- `%c_28 = stablehlo.constant dense<0> : tensor<i32>` -/
noncomputable def res_main_c_28 (V0 : Valuation τ sig (Elt F)) : (⟨S_, .i32⟩ : BufTy).Contents (Elt F) :=
  constantI S_ 32 0#32

/-- `@_var's %cst = stablehlo.constant dense<0.000000e+00> : tensor<f32>, in %201 = func.call @_var(…) (record main_call8)` -/
noncomputable def res_main_call8_cst (V0 : Valuation τ sig (Elt F)) : (⟨S_, .f32⟩ : BufTy).Contents (Elt F) :=
  constant S_ .f32 0x00000000#32

/-- `@_var's %0 = stablehlo.reduce(%arg0 init: %cst) applies stablehlo.add across dimensions = [0] : (tensor<65536x128xf32>, tensor<f32>) -> tensor<128xf32> {, in %201 = func.call @_var(…) (record main_call8)` -/
noncomputable def res_main_call8_v0 (V0 : Valuation τ sig (Elt F)) : (⟨S128, .f32⟩ : BufTy).Contents (Elt F) :=
  Host.reduceAdd (res_main_v193 V0) (res_main_call8_cst V0) reducesTo_S65536x128_S128_d0 h_S_

/-- `@_var's %1 = stablehlo.broadcast_in_dim %0, dims = [1] : (tensor<128xf32>) -> tensor<1x128xf32>, in %201 = func.call @_var(…) (record main_call8)` -/
noncomputable def res_main_call8_v1 (V0 : Valuation τ sig (Elt F)) : (⟨S1x128, .f32⟩ : BufTy).Contents (Elt F) :=
  broadcastInDim S1x128 ![1] bcast_S128_S1x128_1 (res_main_call8_v0 V0)

/-- `@_var's %cst_0 = stablehlo.constant dense<6.553600e+04> : tensor<f32>, in %201 = func.call @_var(…) (record main_call8)` -/
noncomputable def res_main_call8_cst_0 (V0 : Valuation τ sig (Elt F)) : (⟨S_, .f32⟩ : BufTy).Contents (Elt F) :=
  constant S_ .f32 0x47800000#32

/-- `@_var's %2 = stablehlo.broadcast_in_dim %cst_0, dims = [] : (tensor<f32>) -> tensor<1x128xf32>, in %201 = func.call @_var(…) (record main_call8)` -/
noncomputable def res_main_call8_v2 (V0 : Valuation τ sig (Elt F)) : (⟨S1x128, .f32⟩ : BufTy).Contents (Elt F) :=
  broadcastInDim S1x128 ![] bcast_S_S1x128 (res_main_call8_cst_0 V0)

/-- `@_var's %3 = stablehlo.divide %1, %2 : tensor<1x128xf32>, in %201 = func.call @_var(…) (record main_call8)` -/
noncomputable def res_main_call8_v3 (V0 : Valuation τ sig (Elt F)) : (⟨S1x128, .f32⟩ : BufTy).Contents (Elt F) :=
  Host.divf (res_main_call8_v1 V0) (res_main_call8_v2 V0)

/-- `@_var's %4 = stablehlo.broadcast_in_dim %3, dims = [0, 1] : (tensor<1x128xf32>) -> tensor<65536x128xf32>, in %201 = func.call @_var(…) (record main_call8)` -/
noncomputable def res_main_call8_v4 (V0 : Valuation τ sig (Elt F)) : (⟨S65536x128, .f32⟩ : BufTy).Contents (Elt F) :=
  broadcastInDim S65536x128 ![0, 1] bcast_S1x128_S65536x128_0_1 (res_main_call8_v3 V0)

/-- `@_var's %5 = stablehlo.subtract %arg0, %4 : tensor<65536x128xf32>, in %201 = func.call @_var(…) (record main_call8)` -/
noncomputable def res_main_call8_v5 (V0 : Valuation τ sig (Elt F)) : (⟨S65536x128, .f32⟩ : BufTy).Contents (Elt F) :=
  subf (res_main_v193 V0) (res_main_call8_v4 V0)

/-- `@_var's %6 = chlo.square %5 : tensor<65536x128xf32> -> tensor<65536x128xf32>, in %201 = func.call @_var(…) (record main_call8)` -/
noncomputable def res_main_call8_v6 (V0 : Valuation τ sig (Elt F)) : (⟨S65536x128, .f32⟩ : BufTy).Contents (Elt F) :=
  mulf (res_main_call8_v5 V0) (res_main_call8_v5 V0)

/-- `@_var's %7 = stablehlo.convert %arg1 : (tensor<i32>) -> tensor<f32>, in %201 = func.call @_var(…) (record main_call8)` -/
noncomputable def res_main_call8_v7 (V0 : Valuation τ sig (Elt F)) : (⟨S_, .f32⟩ : BufTy).Contents (Elt F) :=
  sitofp .f32 (res_main_c_28 V0)

/-- `@_var's %cst_1 = stablehlo.constant dense<6.553600e+04> : tensor<f32>, in %201 = func.call @_var(…) (record main_call8)` -/
noncomputable def res_main_call8_cst_1 (V0 : Valuation τ sig (Elt F)) : (⟨S_, .f32⟩ : BufTy).Contents (Elt F) :=
  constant S_ .f32 0x47800000#32

/-- `@_var's %8 = stablehlo.subtract %cst_1, %7 : tensor<f32>, in %201 = func.call @_var(…) (record main_call8)` -/
noncomputable def res_main_call8_v8 (V0 : Valuation τ sig (Elt F)) : (⟨S_, .f32⟩ : BufTy).Contents (Elt F) :=
  subf (res_main_call8_cst_1 V0) (res_main_call8_v7 V0)

/-- `@_var's %cst_2 = stablehlo.constant dense<0.000000e+00> : tensor<f32>, in %201 = func.call @_var(…) (record main_call8)` -/
noncomputable def res_main_call8_cst_2 (V0 : Valuation τ sig (Elt F)) : (⟨S_, .f32⟩ : BufTy).Contents (Elt F) :=
  constant S_ .f32 0x00000000#32

/-- `@_var's %9 = stablehlo.reduce(%6 init: %cst_2) applies stablehlo.add across dimensions = [0] : (tensor<65536x128xf32>, tensor<f32>) -> tensor<128xf32> {, in %201 = func.call @_var(…) (record main_call8)` -/
noncomputable def res_main_call8_v9 (V0 : Valuation τ sig (Elt F)) : (⟨S128, .f32⟩ : BufTy).Contents (Elt F) :=
  Host.reduceAdd (res_main_call8_v6 V0) (res_main_call8_cst_2 V0) reducesTo_S65536x128_S128_d0 h_S_

/-- `@_var's %10 = stablehlo.broadcast_in_dim %8, dims = [] : (tensor<f32>) -> tensor<128xf32>, in %201 = func.call @_var(…) (record main_call8)` -/
noncomputable def res_main_call8_v10 (V0 : Valuation τ sig (Elt F)) : (⟨S128, .f32⟩ : BufTy).Contents (Elt F) :=
  broadcastInDim S128 ![] bcast_S_S128 (res_main_call8_v8 V0)

/-- `@_var's %11 = stablehlo.divide %9, %10 : tensor<128xf32>, in %201 = func.call @_var(…) (record main_call8)` -/
noncomputable def res_main_call8_v11 (V0 : Valuation τ sig (Elt F)) : (⟨S128, .f32⟩ : BufTy).Contents (Elt F) :=
  Host.divf (res_main_call8_v9 V0) (res_main_call8_v10 V0)

/-- `@_var's %cst_3 = stablehlo.constant dense<0.000000e+00> : tensor<f32>, in %201 = func.call @_var(…) (record main_call8)` -/
noncomputable def res_main_call8_cst_3 (V0 : Valuation τ sig (Elt F)) : (⟨S_, .f32⟩ : BufTy).Contents (Elt F) :=
  constant S_ .f32 0x00000000#32

/-- `@_var's %12 = stablehlo.compare GT, %8, %cst_3, FLOAT : (tensor<f32>, tensor<f32>) -> tensor<i1>, in %201 = func.call @_var(…) (record main_call8)` -/
noncomputable def res_main_call8_v12 (V0 : Valuation τ sig (Elt F)) : (⟨S_, .i1⟩ : BufTy).Contents (Elt F) :=
  cmpf .ogt (res_main_call8_v8 V0) (res_main_call8_cst_3 V0)

/-- `@_var's %cst_4 = stablehlo.constant dense<0x7FC00000> : tensor<f32>, in %201 = func.call @_var(…) (record main_call8)` -/
noncomputable def res_main_call8_cst_4 (V0 : Valuation τ sig (Elt F)) : (⟨S_, .f32⟩ : BufTy).Contents (Elt F) :=
  constant S_ .f32 0x7FC00000#32

/-- `@_where's %0 = stablehlo.convert %arg2 : tensor<f32>, in @_var's %13 = func.call @_where(…) (record main_call8_call0)` -/
noncomputable def res_main_call8_call0_v0 (V0 : Valuation τ sig (Elt F)) : (⟨S_, .f32⟩ : BufTy).Contents (Elt F) :=
  id (res_main_call8_cst_4 V0)

/-- `@_where's %1 = stablehlo.broadcast_in_dim %0, dims = [] : (tensor<f32>) -> tensor<128xf32>, in @_var's %13 = func.call @_where(…) (record main_call8_call0)` -/
noncomputable def res_main_call8_call0_v1 (V0 : Valuation τ sig (Elt F)) : (⟨S128, .f32⟩ : BufTy).Contents (Elt F) :=
  broadcastInDim S128 ![] bcast_S_S128 (res_main_call8_call0_v0 V0)

/-- `@_var's %13 = func.call @_where(…) (record main_call8_call0) result 0: @_where's %2 = stablehlo.select %arg0, %arg1, %1 : tensor<i1>, tensor<128xf32>` -/
noncomputable def res_main_v201 (V0 : Valuation τ sig (Elt F)) : (⟨S128, .f32⟩ : BufTy).Contents (Elt F) :=
  select (broadcastInDim S128 ![] bcast_S_S128 (res_main_call8_v12 V0)) (res_main_call8_v11 V0) (res_main_call8_call0_v1 V0)

/-- `%202 = stablehlo.broadcast_in_dim %200, dims = [1] : (tensor<128xf32>) -> tensor<1x128xf32>` -/
noncomputable def res_main_v202 (V0 : Valuation τ sig (Elt F)) : (⟨S1x128, .f32⟩ : BufTy).Contents (Elt F) :=
  broadcastInDim S1x128 ![1] bcast_S128_S1x128_1 (res_main_v200 V0)

/-- `%203 = stablehlo.broadcast_in_dim %202, dims = [0, 1] : (tensor<1x128xf32>) -> tensor<65536x128xf32>` -/
noncomputable def res_main_v203 (V0 : Valuation τ sig (Elt F)) : (⟨S65536x128, .f32⟩ : BufTy).Contents (Elt F) :=
  broadcastInDim S65536x128 ![0, 1] bcast_S1x128_S65536x128_0_1 (res_main_v202 V0)

/-- `%204 = stablehlo.subtract %193, %203 : tensor<65536x128xf32>` -/
noncomputable def res_main_v204 (V0 : Valuation τ sig (Elt F)) : (⟨S65536x128, .f32⟩ : BufTy).Contents (Elt F) :=
  subf (res_main_v193 V0) (res_main_v203 V0)

/-- `%cst_29 = stablehlo.constant dense<9.99999974E-6> : tensor<f32>` -/
noncomputable def res_main_cst_29 (V0 : Valuation τ sig (Elt F)) : (⟨S_, .f32⟩ : BufTy).Contents (Elt F) :=
  constant S_ .f32 0x3727C5AC#32

/-- `%205 = stablehlo.broadcast_in_dim %cst_29, dims = [] : (tensor<f32>) -> tensor<128xf32>` -/
noncomputable def res_main_v205 (V0 : Valuation τ sig (Elt F)) : (⟨S128, .f32⟩ : BufTy).Contents (Elt F) :=
  broadcastInDim S128 ![] bcast_S_S128 (res_main_cst_29 V0)

/-- `%206 = stablehlo.add %201, %205 : tensor<128xf32>` -/
noncomputable def res_main_v206 (V0 : Valuation τ sig (Elt F)) : (⟨S128, .f32⟩ : BufTy).Contents (Elt F) :=
  addf (res_main_v201 V0) (res_main_v205 V0)

/-- `%207 = stablehlo.rsqrt %206 : tensor<128xf32>` -/
noncomputable def res_main_v207 (V0 : Valuation τ sig (Elt F)) : (⟨S128, .f32⟩ : BufTy).Contents (Elt F) :=
  Host.rsqrt (res_main_v206 V0)

/-! ## @main's statements 241 … 300 -/

/-- `%208 = stablehlo.broadcast_in_dim %207, dims = [1] : (tensor<128xf32>) -> tensor<1x128xf32>` -/
noncomputable def res_main_v208 (V0 : Valuation τ sig (Elt F)) : (⟨S1x128, .f32⟩ : BufTy).Contents (Elt F) :=
  broadcastInDim S1x128 ![1] bcast_S128_S1x128_1 (res_main_v207 V0)

/-- `%209 = stablehlo.broadcast_in_dim %208, dims = [0, 1] : (tensor<1x128xf32>) -> tensor<65536x128xf32>` -/
noncomputable def res_main_v209 (V0 : Valuation τ sig (Elt F)) : (⟨S65536x128, .f32⟩ : BufTy).Contents (Elt F) :=
  broadcastInDim S65536x128 ![0, 1] bcast_S1x128_S65536x128_0_1 (res_main_v208 V0)

/-- `%210 = stablehlo.multiply %204, %209 : tensor<65536x128xf32>` -/
noncomputable def res_main_v210 (V0 : Valuation τ sig (Elt F)) : (⟨S65536x128, .f32⟩ : BufTy).Contents (Elt F) :=
  mulf (res_main_v204 V0) (res_main_v209 V0)

/-- `%211 = stablehlo.broadcast_in_dim %195, dims = [1] : (tensor<128xf32>) -> tensor<1x128xf32>` -/
noncomputable def res_main_v211 (V0 : Valuation τ sig (Elt F)) : (⟨S1x128, .f32⟩ : BufTy).Contents (Elt F) :=
  broadcastInDim S1x128 ![1] bcast_S128_S1x128_1 (res_main_v195 V0)

/-- `%212 = stablehlo.broadcast_in_dim %211, dims = [0, 1] : (tensor<1x128xf32>) -> tensor<65536x128xf32>` -/
noncomputable def res_main_v212 (V0 : Valuation τ sig (Elt F)) : (⟨S65536x128, .f32⟩ : BufTy).Contents (Elt F) :=
  broadcastInDim S65536x128 ![0, 1] bcast_S1x128_S65536x128_0_1 (res_main_v211 V0)

/-- `%213 = stablehlo.multiply %210, %212 : tensor<65536x128xf32>` -/
noncomputable def res_main_v213 (V0 : Valuation τ sig (Elt F)) : (⟨S65536x128, .f32⟩ : BufTy).Contents (Elt F) :=
  mulf (res_main_v210 V0) (res_main_v212 V0)

/-- `%214 = stablehlo.broadcast_in_dim %197, dims = [1] : (tensor<128xf32>) -> tensor<1x128xf32>` -/
noncomputable def res_main_v214 (V0 : Valuation τ sig (Elt F)) : (⟨S1x128, .f32⟩ : BufTy).Contents (Elt F) :=
  broadcastInDim S1x128 ![1] bcast_S128_S1x128_1 (res_main_v197 V0)

/-- `%215 = stablehlo.broadcast_in_dim %214, dims = [0, 1] : (tensor<1x128xf32>) -> tensor<65536x128xf32>` -/
noncomputable def res_main_v215 (V0 : Valuation τ sig (Elt F)) : (⟨S65536x128, .f32⟩ : BufTy).Contents (Elt F) :=
  broadcastInDim S65536x128 ![0, 1] bcast_S1x128_S65536x128_0_1 (res_main_v214 V0)

/-- `%216 = stablehlo.add %213, %215 : tensor<65536x128xf32>` -/
noncomputable def res_main_v216 (V0 : Valuation τ sig (Elt F)) : (⟨S65536x128, .f32⟩ : BufTy).Contents (Elt F) :=
  addf (res_main_v213 V0) (res_main_v215 V0)

/-- `@relu's %cst = stablehlo.constant dense<0.000000e+00> : tensor<f32>, in %217 = func.call @relu(…) (record main_call9)` -/
noncomputable def res_main_call9_cst (V0 : Valuation τ sig (Elt F)) : (⟨S_, .f32⟩ : BufTy).Contents (Elt F) :=
  constant S_ .f32 0x00000000#32

/-- `@relu's %0 = stablehlo.broadcast_in_dim %cst, dims = [] : (tensor<f32>) -> tensor<65536x128xf32>, in %217 = func.call @relu(…) (record main_call9)` -/
noncomputable def res_main_call9_v0 (V0 : Valuation τ sig (Elt F)) : (⟨S65536x128, .f32⟩ : BufTy).Contents (Elt F) :=
  broadcastInDim S65536x128 ![] bcast_S_S65536x128 (res_main_call9_cst V0)

/-- `%217 = func.call @relu(…) (record main_call9) result 0: @relu's %1 = stablehlo.maximum %arg0, %0 : tensor<65536x128xf32>` -/
noncomputable def res_main_v217 (V0 : Valuation τ sig (Elt F)) : (⟨S65536x128, .f32⟩ : BufTy).Contents (Elt F) :=
  maximumf (res_main_v216 V0) (res_main_call9_v0 V0)

/-- `%218 = stablehlo.slice %arg10 [2:3, 0:128, 0:64] : (tensor<4x128x64xf32>) -> tensor<1x128x64xf32>` -/
noncomputable def res_main_v218 (V0 : Valuation τ sig (Elt F)) : (⟨S1x128x64, .f32⟩ : BufTy).Contents (Elt F) :=
  extractStridedSlice S1x128x64 ![2, 0, 0] (V0 (Proc.devRef .tc main_arg10)) slices_S4x128x64_S1x128x64_2_0_0

/-- `%219 = stablehlo.reshape %218 : (tensor<1x128x64xf32>) -> tensor<128x64xf32>` -/
noncomputable def res_main_v219 (V0 : Valuation τ sig (Elt F)) : (⟨S128x64, .f32⟩ : BufTy).Contents (Elt F) :=
  shapeCast S128x64 (res_main_v218 V0) shapeCasts_S1x128x64_S128x64

/-- `%220 = stablehlo.dot_general %217, %219, contracting_dims = [1] x [0], precision = [DEFAULT, DEFAULT] : (tensor<65536x128xf32>, tensor<128x64xf32>) -> tensor<65536x64xf32>` -/
noncomputable def res_main_v220 (V0 : Valuation τ sig (Elt F)) : (⟨S65536x64, .f32⟩ : BufTy).Contents (Elt F) :=
  Host.dotGeneral dot_S65536x128_S128x64_S65536x64_1_0_0_1_n_n none (res_main_v217 V0) (res_main_v219 V0)

/-- `%221 = stablehlo.slice %arg11 [2:3, 0:64] : (tensor<4x64xf32>) -> tensor<1x64xf32>` -/
noncomputable def res_main_v221 (V0 : Valuation τ sig (Elt F)) : (⟨S1x64, .f32⟩ : BufTy).Contents (Elt F) :=
  extractStridedSlice S1x64 ![2, 0] (V0 (Proc.devRef .tc main_arg11)) slices_S4x64_S1x64_2_0

/-- `%222 = stablehlo.reshape %221 : (tensor<1x64xf32>) -> tensor<64xf32>` -/
noncomputable def res_main_v222 (V0 : Valuation τ sig (Elt F)) : (⟨S64, .f32⟩ : BufTy).Contents (Elt F) :=
  shapeCast S64 (res_main_v221 V0) shapeCasts_S1x64_S64

/-- `%223 = stablehlo.broadcast_in_dim %222, dims = [1] : (tensor<64xf32>) -> tensor<1x64xf32>` -/
noncomputable def res_main_v223 (V0 : Valuation τ sig (Elt F)) : (⟨S1x64, .f32⟩ : BufTy).Contents (Elt F) :=
  broadcastInDim S1x64 ![1] bcast_S64_S1x64_1 (res_main_v222 V0)

/-- `%224 = stablehlo.broadcast_in_dim %223, dims = [0, 1] : (tensor<1x64xf32>) -> tensor<65536x64xf32>` -/
noncomputable def res_main_v224 (V0 : Valuation τ sig (Elt F)) : (⟨S65536x64, .f32⟩ : BufTy).Contents (Elt F) :=
  broadcastInDim S65536x64 ![0, 1] bcast_S1x64_S65536x64_0_1 (res_main_v223 V0)

/-- `%225 = stablehlo.add %220, %224 : tensor<65536x64xf32>` -/
noncomputable def res_main_v225 (V0 : Valuation τ sig (Elt F)) : (⟨S65536x64, .f32⟩ : BufTy).Contents (Elt F) :=
  addf (res_main_v220 V0) (res_main_v224 V0)

/-- `%226 = stablehlo.slice %arg12 [2:3, 0:64] : (tensor<4x64xf32>) -> tensor<1x64xf32>` -/
noncomputable def res_main_v226 (V0 : Valuation τ sig (Elt F)) : (⟨S1x64, .f32⟩ : BufTy).Contents (Elt F) :=
  extractStridedSlice S1x64 ![2, 0] (V0 (Proc.devRef .tc main_arg12)) slices_S4x64_S1x64_2_0

/-- `%227 = stablehlo.reshape %226 : (tensor<1x64xf32>) -> tensor<64xf32>` -/
noncomputable def res_main_v227 (V0 : Valuation τ sig (Elt F)) : (⟨S64, .f32⟩ : BufTy).Contents (Elt F) :=
  shapeCast S64 (res_main_v226 V0) shapeCasts_S1x64_S64

/-- `%228 = stablehlo.slice %arg13 [2:3, 0:64] : (tensor<4x64xf32>) -> tensor<1x64xf32>` -/
noncomputable def res_main_v228 (V0 : Valuation τ sig (Elt F)) : (⟨S1x64, .f32⟩ : BufTy).Contents (Elt F) :=
  extractStridedSlice S1x64 ![2, 0] (V0 (Proc.devRef .tc main_arg13)) slices_S4x64_S1x64_2_0

/-- `%229 = stablehlo.reshape %228 : (tensor<1x64xf32>) -> tensor<64xf32>` -/
noncomputable def res_main_v229 (V0 : Valuation τ sig (Elt F)) : (⟨S64, .f32⟩ : BufTy).Contents (Elt F) :=
  shapeCast S64 (res_main_v228 V0) shapeCasts_S1x64_S64

/-- `%cst_30 = stablehlo.constant dense<0.000000e+00> : tensor<f32>` -/
noncomputable def res_main_cst_30 (V0 : Valuation τ sig (Elt F)) : (⟨S_, .f32⟩ : BufTy).Contents (Elt F) :=
  constant S_ .f32 0x00000000#32

/-- `%230 = stablehlo.reduce(%225 init: %cst_30) applies stablehlo.add across dimensions = [0] : (tensor<65536x64xf32>, tensor<f32>) -> tensor<64xf32> {` -/
noncomputable def res_main_v230 (V0 : Valuation τ sig (Elt F)) : (⟨S64, .f32⟩ : BufTy).Contents (Elt F) :=
  Host.reduceAdd (res_main_v225 V0) (res_main_cst_30 V0) reducesTo_S65536x64_S64_d0 h_S_

/-- `%cst_31 = stablehlo.constant dense<6.553600e+04> : tensor<f32>` -/
noncomputable def res_main_cst_31 (V0 : Valuation τ sig (Elt F)) : (⟨S_, .f32⟩ : BufTy).Contents (Elt F) :=
  constant S_ .f32 0x47800000#32

/-- `%231 = stablehlo.broadcast_in_dim %cst_31, dims = [] : (tensor<f32>) -> tensor<64xf32>` -/
noncomputable def res_main_v231 (V0 : Valuation τ sig (Elt F)) : (⟨S64, .f32⟩ : BufTy).Contents (Elt F) :=
  broadcastInDim S64 ![] bcast_S_S64 (res_main_cst_31 V0)

/-- `%232 = stablehlo.divide %230, %231 : tensor<64xf32>` -/
noncomputable def res_main_v232 (V0 : Valuation τ sig (Elt F)) : (⟨S64, .f32⟩ : BufTy).Contents (Elt F) :=
  Host.divf (res_main_v230 V0) (res_main_v231 V0)

/-- `%c_32 = stablehlo.constant dense<0> : tensor<i32>` -/
noncomputable def res_main_c_32 (V0 : Valuation τ sig (Elt F)) : (⟨S_, .i32⟩ : BufTy).Contents (Elt F) :=
  constantI S_ 32 0#32

/-- `@_var_0's %cst = stablehlo.constant dense<0.000000e+00> : tensor<f32>, in %233 = func.call @_var_0(…) (record main_call10)` -/
noncomputable def res_main_call10_cst (V0 : Valuation τ sig (Elt F)) : (⟨S_, .f32⟩ : BufTy).Contents (Elt F) :=
  constant S_ .f32 0x00000000#32

/-- `@_var_0's %0 = stablehlo.reduce(%arg0 init: %cst) applies stablehlo.add across dimensions = [0] : (tensor<65536x64xf32>, tensor<f32>) -> tensor<64xf32> {, in %233 = func.call @_var_0(…) (record main_call10)` -/
noncomputable def res_main_call10_v0 (V0 : Valuation τ sig (Elt F)) : (⟨S64, .f32⟩ : BufTy).Contents (Elt F) :=
  Host.reduceAdd (res_main_v225 V0) (res_main_call10_cst V0) reducesTo_S65536x64_S64_d0 h_S_

/-- `@_var_0's %1 = stablehlo.broadcast_in_dim %0, dims = [1] : (tensor<64xf32>) -> tensor<1x64xf32>, in %233 = func.call @_var_0(…) (record main_call10)` -/
noncomputable def res_main_call10_v1 (V0 : Valuation τ sig (Elt F)) : (⟨S1x64, .f32⟩ : BufTy).Contents (Elt F) :=
  broadcastInDim S1x64 ![1] bcast_S64_S1x64_1 (res_main_call10_v0 V0)

/-- `@_var_0's %cst_0 = stablehlo.constant dense<6.553600e+04> : tensor<f32>, in %233 = func.call @_var_0(…) (record main_call10)` -/
noncomputable def res_main_call10_cst_0 (V0 : Valuation τ sig (Elt F)) : (⟨S_, .f32⟩ : BufTy).Contents (Elt F) :=
  constant S_ .f32 0x47800000#32

/-- `@_var_0's %2 = stablehlo.broadcast_in_dim %cst_0, dims = [] : (tensor<f32>) -> tensor<1x64xf32>, in %233 = func.call @_var_0(…) (record main_call10)` -/
noncomputable def res_main_call10_v2 (V0 : Valuation τ sig (Elt F)) : (⟨S1x64, .f32⟩ : BufTy).Contents (Elt F) :=
  broadcastInDim S1x64 ![] bcast_S_S1x64 (res_main_call10_cst_0 V0)

/-- `@_var_0's %3 = stablehlo.divide %1, %2 : tensor<1x64xf32>, in %233 = func.call @_var_0(…) (record main_call10)` -/
noncomputable def res_main_call10_v3 (V0 : Valuation τ sig (Elt F)) : (⟨S1x64, .f32⟩ : BufTy).Contents (Elt F) :=
  Host.divf (res_main_call10_v1 V0) (res_main_call10_v2 V0)

/-- `@_var_0's %4 = stablehlo.broadcast_in_dim %3, dims = [0, 1] : (tensor<1x64xf32>) -> tensor<65536x64xf32>, in %233 = func.call @_var_0(…) (record main_call10)` -/
noncomputable def res_main_call10_v4 (V0 : Valuation τ sig (Elt F)) : (⟨S65536x64, .f32⟩ : BufTy).Contents (Elt F) :=
  broadcastInDim S65536x64 ![0, 1] bcast_S1x64_S65536x64_0_1 (res_main_call10_v3 V0)

/-- `@_var_0's %5 = stablehlo.subtract %arg0, %4 : tensor<65536x64xf32>, in %233 = func.call @_var_0(…) (record main_call10)` -/
noncomputable def res_main_call10_v5 (V0 : Valuation τ sig (Elt F)) : (⟨S65536x64, .f32⟩ : BufTy).Contents (Elt F) :=
  subf (res_main_v225 V0) (res_main_call10_v4 V0)

/-- `@_var_0's %6 = chlo.square %5 : tensor<65536x64xf32> -> tensor<65536x64xf32>, in %233 = func.call @_var_0(…) (record main_call10)` -/
noncomputable def res_main_call10_v6 (V0 : Valuation τ sig (Elt F)) : (⟨S65536x64, .f32⟩ : BufTy).Contents (Elt F) :=
  mulf (res_main_call10_v5 V0) (res_main_call10_v5 V0)

/-- `@_var_0's %7 = stablehlo.convert %arg1 : (tensor<i32>) -> tensor<f32>, in %233 = func.call @_var_0(…) (record main_call10)` -/
noncomputable def res_main_call10_v7 (V0 : Valuation τ sig (Elt F)) : (⟨S_, .f32⟩ : BufTy).Contents (Elt F) :=
  sitofp .f32 (res_main_c_32 V0)

/-- `@_var_0's %cst_1 = stablehlo.constant dense<6.553600e+04> : tensor<f32>, in %233 = func.call @_var_0(…) (record main_call10)` -/
noncomputable def res_main_call10_cst_1 (V0 : Valuation τ sig (Elt F)) : (⟨S_, .f32⟩ : BufTy).Contents (Elt F) :=
  constant S_ .f32 0x47800000#32

/-- `@_var_0's %8 = stablehlo.subtract %cst_1, %7 : tensor<f32>, in %233 = func.call @_var_0(…) (record main_call10)` -/
noncomputable def res_main_call10_v8 (V0 : Valuation τ sig (Elt F)) : (⟨S_, .f32⟩ : BufTy).Contents (Elt F) :=
  subf (res_main_call10_cst_1 V0) (res_main_call10_v7 V0)

/-- `@_var_0's %cst_2 = stablehlo.constant dense<0.000000e+00> : tensor<f32>, in %233 = func.call @_var_0(…) (record main_call10)` -/
noncomputable def res_main_call10_cst_2 (V0 : Valuation τ sig (Elt F)) : (⟨S_, .f32⟩ : BufTy).Contents (Elt F) :=
  constant S_ .f32 0x00000000#32

/-- `@_var_0's %9 = stablehlo.reduce(%6 init: %cst_2) applies stablehlo.add across dimensions = [0] : (tensor<65536x64xf32>, tensor<f32>) -> tensor<64xf32> {, in %233 = func.call @_var_0(…) (record main_call10)` -/
noncomputable def res_main_call10_v9 (V0 : Valuation τ sig (Elt F)) : (⟨S64, .f32⟩ : BufTy).Contents (Elt F) :=
  Host.reduceAdd (res_main_call10_v6 V0) (res_main_call10_cst_2 V0) reducesTo_S65536x64_S64_d0 h_S_

/-- `@_var_0's %10 = stablehlo.broadcast_in_dim %8, dims = [] : (tensor<f32>) -> tensor<64xf32>, in %233 = func.call @_var_0(…) (record main_call10)` -/
noncomputable def res_main_call10_v10 (V0 : Valuation τ sig (Elt F)) : (⟨S64, .f32⟩ : BufTy).Contents (Elt F) :=
  broadcastInDim S64 ![] bcast_S_S64 (res_main_call10_v8 V0)

/-- `@_var_0's %11 = stablehlo.divide %9, %10 : tensor<64xf32>, in %233 = func.call @_var_0(…) (record main_call10)` -/
noncomputable def res_main_call10_v11 (V0 : Valuation τ sig (Elt F)) : (⟨S64, .f32⟩ : BufTy).Contents (Elt F) :=
  Host.divf (res_main_call10_v9 V0) (res_main_call10_v10 V0)

/-- `@_var_0's %cst_3 = stablehlo.constant dense<0.000000e+00> : tensor<f32>, in %233 = func.call @_var_0(…) (record main_call10)` -/
noncomputable def res_main_call10_cst_3 (V0 : Valuation τ sig (Elt F)) : (⟨S_, .f32⟩ : BufTy).Contents (Elt F) :=
  constant S_ .f32 0x00000000#32

/-- `@_var_0's %12 = stablehlo.compare GT, %8, %cst_3, FLOAT : (tensor<f32>, tensor<f32>) -> tensor<i1>, in %233 = func.call @_var_0(…) (record main_call10)` -/
noncomputable def res_main_call10_v12 (V0 : Valuation τ sig (Elt F)) : (⟨S_, .i1⟩ : BufTy).Contents (Elt F) :=
  cmpf .ogt (res_main_call10_v8 V0) (res_main_call10_cst_3 V0)

/-- `@_var_0's %cst_4 = stablehlo.constant dense<0x7FC00000> : tensor<f32>, in %233 = func.call @_var_0(…) (record main_call10)` -/
noncomputable def res_main_call10_cst_4 (V0 : Valuation τ sig (Elt F)) : (⟨S_, .f32⟩ : BufTy).Contents (Elt F) :=
  constant S_ .f32 0x7FC00000#32

/-- `@_where_1's %0 = stablehlo.convert %arg2 : tensor<f32>, in @_var_0's %13 = func.call @_where_1(…) (record main_call10_call0)` -/
noncomputable def res_main_call10_call0_v0 (V0 : Valuation τ sig (Elt F)) : (⟨S_, .f32⟩ : BufTy).Contents (Elt F) :=
  id (res_main_call10_cst_4 V0)

/-- `@_where_1's %1 = stablehlo.broadcast_in_dim %0, dims = [] : (tensor<f32>) -> tensor<64xf32>, in @_var_0's %13 = func.call @_where_1(…) (record main_call10_call0)` -/
noncomputable def res_main_call10_call0_v1 (V0 : Valuation τ sig (Elt F)) : (⟨S64, .f32⟩ : BufTy).Contents (Elt F) :=
  broadcastInDim S64 ![] bcast_S_S64 (res_main_call10_call0_v0 V0)

/-- `@_var_0's %13 = func.call @_where_1(…) (record main_call10_call0) result 0: @_where_1's %2 = stablehlo.select %arg0, %arg1, %1 : tensor<i1>, tensor<64xf32>` -/
noncomputable def res_main_v233 (V0 : Valuation τ sig (Elt F)) : (⟨S64, .f32⟩ : BufTy).Contents (Elt F) :=
  select (broadcastInDim S64 ![] bcast_S_S64 (res_main_call10_v12 V0)) (res_main_call10_v11 V0) (res_main_call10_call0_v1 V0)

/-- `%234 = stablehlo.broadcast_in_dim %232, dims = [1] : (tensor<64xf32>) -> tensor<1x64xf32>` -/
noncomputable def res_main_v234 (V0 : Valuation τ sig (Elt F)) : (⟨S1x64, .f32⟩ : BufTy).Contents (Elt F) :=
  broadcastInDim S1x64 ![1] bcast_S64_S1x64_1 (res_main_v232 V0)

/-- `%235 = stablehlo.broadcast_in_dim %234, dims = [0, 1] : (tensor<1x64xf32>) -> tensor<65536x64xf32>` -/
noncomputable def res_main_v235 (V0 : Valuation τ sig (Elt F)) : (⟨S65536x64, .f32⟩ : BufTy).Contents (Elt F) :=
  broadcastInDim S65536x64 ![0, 1] bcast_S1x64_S65536x64_0_1 (res_main_v234 V0)

/-- `%236 = stablehlo.subtract %225, %235 : tensor<65536x64xf32>` -/
noncomputable def res_main_v236 (V0 : Valuation τ sig (Elt F)) : (⟨S65536x64, .f32⟩ : BufTy).Contents (Elt F) :=
  subf (res_main_v225 V0) (res_main_v235 V0)

/-- `%cst_33 = stablehlo.constant dense<9.99999974E-6> : tensor<f32>` -/
noncomputable def res_main_cst_33 (V0 : Valuation τ sig (Elt F)) : (⟨S_, .f32⟩ : BufTy).Contents (Elt F) :=
  constant S_ .f32 0x3727C5AC#32

/-- `%237 = stablehlo.broadcast_in_dim %cst_33, dims = [] : (tensor<f32>) -> tensor<64xf32>` -/
noncomputable def res_main_v237 (V0 : Valuation τ sig (Elt F)) : (⟨S64, .f32⟩ : BufTy).Contents (Elt F) :=
  broadcastInDim S64 ![] bcast_S_S64 (res_main_cst_33 V0)

/-- `%238 = stablehlo.add %233, %237 : tensor<64xf32>` -/
noncomputable def res_main_v238 (V0 : Valuation τ sig (Elt F)) : (⟨S64, .f32⟩ : BufTy).Contents (Elt F) :=
  addf (res_main_v233 V0) (res_main_v237 V0)

/-- `%239 = stablehlo.rsqrt %238 : tensor<64xf32>` -/
noncomputable def res_main_v239 (V0 : Valuation τ sig (Elt F)) : (⟨S64, .f32⟩ : BufTy).Contents (Elt F) :=
  Host.rsqrt (res_main_v238 V0)

/-- `%240 = stablehlo.broadcast_in_dim %239, dims = [1] : (tensor<64xf32>) -> tensor<1x64xf32>` -/
noncomputable def res_main_v240 (V0 : Valuation τ sig (Elt F)) : (⟨S1x64, .f32⟩ : BufTy).Contents (Elt F) :=
  broadcastInDim S1x64 ![1] bcast_S64_S1x64_1 (res_main_v239 V0)

/-- `%241 = stablehlo.broadcast_in_dim %240, dims = [0, 1] : (tensor<1x64xf32>) -> tensor<65536x64xf32>` -/
noncomputable def res_main_v241 (V0 : Valuation τ sig (Elt F)) : (⟨S65536x64, .f32⟩ : BufTy).Contents (Elt F) :=
  broadcastInDim S65536x64 ![0, 1] bcast_S1x64_S65536x64_0_1 (res_main_v240 V0)

/-- `%242 = stablehlo.multiply %236, %241 : tensor<65536x64xf32>` -/
noncomputable def res_main_v242 (V0 : Valuation τ sig (Elt F)) : (⟨S65536x64, .f32⟩ : BufTy).Contents (Elt F) :=
  mulf (res_main_v236 V0) (res_main_v241 V0)

/-- `%243 = stablehlo.broadcast_in_dim %227, dims = [1] : (tensor<64xf32>) -> tensor<1x64xf32>` -/
noncomputable def res_main_v243 (V0 : Valuation τ sig (Elt F)) : (⟨S1x64, .f32⟩ : BufTy).Contents (Elt F) :=
  broadcastInDim S1x64 ![1] bcast_S64_S1x64_1 (res_main_v227 V0)

/-- `%244 = stablehlo.broadcast_in_dim %243, dims = [0, 1] : (tensor<1x64xf32>) -> tensor<65536x64xf32>` -/
noncomputable def res_main_v244 (V0 : Valuation τ sig (Elt F)) : (⟨S65536x64, .f32⟩ : BufTy).Contents (Elt F) :=
  broadcastInDim S65536x64 ![0, 1] bcast_S1x64_S65536x64_0_1 (res_main_v243 V0)

/-- `%245 = stablehlo.multiply %242, %244 : tensor<65536x64xf32>` -/
noncomputable def res_main_v245 (V0 : Valuation τ sig (Elt F)) : (⟨S65536x64, .f32⟩ : BufTy).Contents (Elt F) :=
  mulf (res_main_v242 V0) (res_main_v244 V0)

/-- `%246 = stablehlo.broadcast_in_dim %229, dims = [1] : (tensor<64xf32>) -> tensor<1x64xf32>` -/
noncomputable def res_main_v246 (V0 : Valuation τ sig (Elt F)) : (⟨S1x64, .f32⟩ : BufTy).Contents (Elt F) :=
  broadcastInDim S1x64 ![1] bcast_S64_S1x64_1 (res_main_v229 V0)

/-- `%247 = stablehlo.broadcast_in_dim %246, dims = [0, 1] : (tensor<1x64xf32>) -> tensor<65536x64xf32>` -/
noncomputable def res_main_v247 (V0 : Valuation τ sig (Elt F)) : (⟨S65536x64, .f32⟩ : BufTy).Contents (Elt F) :=
  broadcastInDim S65536x64 ![0, 1] bcast_S1x64_S65536x64_0_1 (res_main_v246 V0)

/-- `%248 = stablehlo.add %245, %247 : tensor<65536x64xf32>` -/
noncomputable def res_main_v248 (V0 : Valuation τ sig (Elt F)) : (⟨S65536x64, .f32⟩ : BufTy).Contents (Elt F) :=
  addf (res_main_v245 V0) (res_main_v247 V0)

/-- `@relu_2's %cst = stablehlo.constant dense<0.000000e+00> : tensor<f32>, in %249 = func.call @relu_2(…) (record main_call11)` -/
noncomputable def res_main_call11_cst (V0 : Valuation τ sig (Elt F)) : (⟨S_, .f32⟩ : BufTy).Contents (Elt F) :=
  constant S_ .f32 0x00000000#32

/-- `@relu_2's %0 = stablehlo.broadcast_in_dim %cst, dims = [] : (tensor<f32>) -> tensor<65536x64xf32>, in %249 = func.call @relu_2(…) (record main_call11)` -/
noncomputable def res_main_call11_v0 (V0 : Valuation τ sig (Elt F)) : (⟨S65536x64, .f32⟩ : BufTy).Contents (Elt F) :=
  broadcastInDim S65536x64 ![] bcast_S_S65536x64 (res_main_call11_cst V0)

/-- `%249 = func.call @relu_2(…) (record main_call11) result 0: @relu_2's %1 = stablehlo.maximum %arg0, %0 : tensor<65536x64xf32>` -/
noncomputable def res_main_v249 (V0 : Valuation τ sig (Elt F)) : (⟨S65536x64, .f32⟩ : BufTy).Contents (Elt F) :=
  maximumf (res_main_v248 V0) (res_main_call11_v0 V0)

/-- `%250 = stablehlo.add %249, %169 : tensor<65536x64xf32>` -/
noncomputable def res_main_v250 (V0 : Valuation τ sig (Elt F)) : (⟨S65536x64, .f32⟩ : BufTy).Contents (Elt F) :=
  addf (res_main_v249 V0) (res_main_v169 V0)

/-- `%c_34 = stablehlo.constant dense<0> : tensor<i32>` -/
noncomputable def res_main_c_34 (V0 : Valuation τ sig (Elt F)) : (⟨S_, .i32⟩ : BufTy).Contents (Elt F) :=
  constantI S_ 32 0#32

/-- `%251 = stablehlo.broadcast_in_dim %c_34, dims = [] : (tensor<i32>) -> tensor<1048576xi32>` -/
noncomputable def res_main_v251 (V0 : Valuation τ sig (Elt F)) : (⟨S1048576, .i32⟩ : BufTy).Contents (Elt F) :=
  broadcastInDim S1048576 ![] bcast_S_S1048576 (res_main_c_34 V0)

/-- `%252 = stablehlo.compare LT, %1, %251, SIGNED : (tensor<1048576xi32>, tensor<1048576xi32>) -> tensor<1048576xi1>` -/
noncomputable def res_main_v252 (V0 : Valuation τ sig (Elt F)) : (⟨S1048576, .i1⟩ : BufTy).Contents (Elt F) :=
  cmpi .slt (res_main_v1 V0) (res_main_v251 V0)

/-- `%c_35 = stablehlo.constant dense<65536> : tensor<i32>` -/
noncomputable def res_main_c_35 (V0 : Valuation τ sig (Elt F)) : (⟨S_, .i32⟩ : BufTy).Contents (Elt F) :=
  constantI S_ 32 65536#32

/-- `%253 = stablehlo.broadcast_in_dim %c_35, dims = [] : (tensor<i32>) -> tensor<1048576xi32>` -/
noncomputable def res_main_v253 (V0 : Valuation τ sig (Elt F)) : (⟨S1048576, .i32⟩ : BufTy).Contents (Elt F) :=
  broadcastInDim S1048576 ![] bcast_S_S1048576 (res_main_c_35 V0)

/-- `%254 = stablehlo.add %1, %253 : tensor<1048576xi32>` -/
noncomputable def res_main_v254 (V0 : Valuation τ sig (Elt F)) : (⟨S1048576, .i32⟩ : BufTy).Contents (Elt F) :=
  addi (res_main_v1 V0) (res_main_v253 V0)

/-- `%255 = stablehlo.select %252, %254, %1 : tensor<1048576xi1>, tensor<1048576xi32>` -/
noncomputable def res_main_v255 (V0 : Valuation τ sig (Elt F)) : (⟨S1048576, .i32⟩ : BufTy).Contents (Elt F) :=
  select (res_main_v252 V0) (res_main_v254 V0) (res_main_v1 V0)

/-- `%256 = stablehlo.broadcast_in_dim %255, dims = [0] : (tensor<1048576xi32>) -> tensor<1048576x1xi32>` -/
noncomputable def res_main_v256 (V0 : Valuation τ sig (Elt F)) : (⟨S1048576x1, .i32⟩ : BufTy).Contents (Elt F) :=
  broadcastInDim S1048576x1 ![0] bcast_S1048576_S1048576x1_0 (res_main_v255 V0)

/-- `%257 = "stablehlo.gather"(%250, %256) <{dimension_numbers = #stablehlo.gather<offset_dims = [1], collapsed_slice_dims = [0], start_index_map = [0], index_vector_dim = 1>, indices_are_sorted = false, slice_sizes = array<i64: 1, 64>}> : (tensor<65536x64xf32>, tensor<1048576x1xi32>) -> tensor<1048576x64xf32>` -/
noncomputable def res_main_v257 (V0 : Valuation τ sig (Elt F)) : (⟨S1048576x64, .f32⟩ : BufTy).Contents (Elt F) :=
  Host.gather gather_S65536x64_S1048576x1_S1048576x64_1_0_n_n_0_1_164 (res_main_v250 V0) (res_main_v256 V0)

/-- `%cst_36 = stablehlo.constant dense<0.000000e+00> : tensor<f32>` -/
noncomputable def res_main_cst_36 (V0 : Valuation τ sig (Elt F)) : (⟨S_, .f32⟩ : BufTy).Contents (Elt F) :=
  constant S_ .f32 0x00000000#32

/-- `%258 = stablehlo.broadcast_in_dim %cst_36, dims = [] : (tensor<f32>) -> tensor<65536x64xf32>` -/
noncomputable def res_main_v258 (V0 : Valuation τ sig (Elt F)) : (⟨S65536x64, .f32⟩ : BufTy).Contents (Elt F) :=
  broadcastInDim S65536x64 ![] bcast_S_S65536x64 (res_main_cst_36 V0)

/-- `%259 = stablehlo.broadcast_in_dim %3, dims = [0] : (tensor<1048576xi32>) -> tensor<1048576x1xi32>` -/
noncomputable def res_main_v259 (V0 : Valuation τ sig (Elt F)) : (⟨S1048576x1, .i32⟩ : BufTy).Contents (Elt F) :=
  broadcastInDim S1048576x1 ![0] bcast_S1048576_S1048576x1_0 (res_main_v3 V0)

/-- `%260 = "stablehlo.scatter"(%258, %259, %257) <{indices_are_sorted = false, scatter_dimension_numbers = #stablehlo.scatter<update_window_dims = [1], inserted_window_dims = [0], scatter_dims_to_operand_dims = [0], index_vector_dim = 1>, unique_indices = false}> ( {` -/
noncomputable def res_main_v260 (V0 : Valuation τ sig (Elt F)) : (⟨S65536x64, .f32⟩ : BufTy).Contents (Elt F) :=
  Host.scatterAdd scatter_S65536x64_S1048576x1_S1048576x64_1_0_0_1 (res_main_v258 V0) (res_main_v259 V0) (res_main_v257 V0)

/-! ## @main's statements 301 … 360 -/

/-- `%261 = stablehlo.slice %arg5 [3:4] : (tensor<4xf32>) -> tensor<1xf32>` -/
noncomputable def res_main_v261 (V0 : Valuation τ sig (Elt F)) : (⟨S1, .f32⟩ : BufTy).Contents (Elt F) :=
  extractStridedSlice S1 ![3] (V0 (Proc.devRef .tc main_arg5)) slices_S4_S1_3

/-- `%262 = stablehlo.reshape %261 : (tensor<1xf32>) -> tensor<f32>` -/
noncomputable def res_main_v262 (V0 : Valuation τ sig (Elt F)) : (⟨S_, .f32⟩ : BufTy).Contents (Elt F) :=
  shapeCast S_ (res_main_v261 V0) shapeCasts_S1_S_

/-- `%cst_37 = stablehlo.constant dense<1.000000e+00> : tensor<f32>` -/
noncomputable def res_main_cst_37 (V0 : Valuation τ sig (Elt F)) : (⟨S_, .f32⟩ : BufTy).Contents (Elt F) :=
  constant S_ .f32 0x3F800000#32

/-- `%263 = stablehlo.add %cst_37, %262 : tensor<f32>` -/
noncomputable def res_main_v263 (V0 : Valuation τ sig (Elt F)) : (⟨S_, .f32⟩ : BufTy).Contents (Elt F) :=
  addf (res_main_cst_37 V0) (res_main_v262 V0)

/-- `%264 = stablehlo.broadcast_in_dim %263, dims = [] : (tensor<f32>) -> tensor<65536x64xf32>` -/
noncomputable def res_main_v264 (V0 : Valuation τ sig (Elt F)) : (⟨S65536x64, .f32⟩ : BufTy).Contents (Elt F) :=
  broadcastInDim S65536x64 ![] bcast_S_S65536x64 (res_main_v263 V0)

/-- `%265 = stablehlo.multiply %264, %250 : tensor<65536x64xf32>` -/
noncomputable def res_main_v265 (V0 : Valuation τ sig (Elt F)) : (⟨S65536x64, .f32⟩ : BufTy).Contents (Elt F) :=
  mulf (res_main_v264 V0) (res_main_v250 V0)

/-- `%266 = stablehlo.add %265, %260 : tensor<65536x64xf32>` -/
noncomputable def res_main_v266 (V0 : Valuation τ sig (Elt F)) : (⟨S65536x64, .f32⟩ : BufTy).Contents (Elt F) :=
  addf (res_main_v265 V0) (res_main_v260 V0)

/-- `%267 = stablehlo.slice %arg6 [3:4, 0:64, 0:128] : (tensor<4x64x128xf32>) -> tensor<1x64x128xf32>` -/
noncomputable def res_main_v267 (V0 : Valuation τ sig (Elt F)) : (⟨S1x64x128, .f32⟩ : BufTy).Contents (Elt F) :=
  extractStridedSlice S1x64x128 ![3, 0, 0] (V0 (Proc.devRef .tc main_arg6)) slices_S4x64x128_S1x64x128_3_0_0

/-- `%268 = stablehlo.reshape %267 : (tensor<1x64x128xf32>) -> tensor<64x128xf32>` -/
noncomputable def res_main_v268 (V0 : Valuation τ sig (Elt F)) : (⟨S64x128, .f32⟩ : BufTy).Contents (Elt F) :=
  shapeCast S64x128 (res_main_v267 V0) shapeCasts_S1x64x128_S64x128

/-- `%269 = stablehlo.dot_general %266, %268, contracting_dims = [1] x [0], precision = [DEFAULT, DEFAULT] : (tensor<65536x64xf32>, tensor<64x128xf32>) -> tensor<65536x128xf32>` -/
noncomputable def res_main_v269 (V0 : Valuation τ sig (Elt F)) : (⟨S65536x128, .f32⟩ : BufTy).Contents (Elt F) :=
  Host.dotGeneral dot_S65536x64_S64x128_S65536x128_1_0_0_1_n_n none (res_main_v266 V0) (res_main_v268 V0)

/-- `%270 = stablehlo.slice %arg7 [3:4, 0:128] : (tensor<4x128xf32>) -> tensor<1x128xf32>` -/
noncomputable def res_main_v270 (V0 : Valuation τ sig (Elt F)) : (⟨S1x128, .f32⟩ : BufTy).Contents (Elt F) :=
  extractStridedSlice S1x128 ![3, 0] (V0 (Proc.devRef .tc main_arg7)) slices_S4x128_S1x128_3_0

/-- `%271 = stablehlo.reshape %270 : (tensor<1x128xf32>) -> tensor<128xf32>` -/
noncomputable def res_main_v271 (V0 : Valuation τ sig (Elt F)) : (⟨S128, .f32⟩ : BufTy).Contents (Elt F) :=
  shapeCast S128 (res_main_v270 V0) shapeCasts_S1x128_S128

/-- `%272 = stablehlo.broadcast_in_dim %271, dims = [1] : (tensor<128xf32>) -> tensor<1x128xf32>` -/
noncomputable def res_main_v272 (V0 : Valuation τ sig (Elt F)) : (⟨S1x128, .f32⟩ : BufTy).Contents (Elt F) :=
  broadcastInDim S1x128 ![1] bcast_S128_S1x128_1 (res_main_v271 V0)

/-- `%273 = stablehlo.broadcast_in_dim %272, dims = [0, 1] : (tensor<1x128xf32>) -> tensor<65536x128xf32>` -/
noncomputable def res_main_v273 (V0 : Valuation τ sig (Elt F)) : (⟨S65536x128, .f32⟩ : BufTy).Contents (Elt F) :=
  broadcastInDim S65536x128 ![0, 1] bcast_S1x128_S65536x128_0_1 (res_main_v272 V0)

/-- `%274 = stablehlo.add %269, %273 : tensor<65536x128xf32>` -/
noncomputable def res_main_v274 (V0 : Valuation τ sig (Elt F)) : (⟨S65536x128, .f32⟩ : BufTy).Contents (Elt F) :=
  addf (res_main_v269 V0) (res_main_v273 V0)

/-- `%275 = stablehlo.slice %arg8 [3:4, 0:128] : (tensor<4x128xf32>) -> tensor<1x128xf32>` -/
noncomputable def res_main_v275 (V0 : Valuation τ sig (Elt F)) : (⟨S1x128, .f32⟩ : BufTy).Contents (Elt F) :=
  extractStridedSlice S1x128 ![3, 0] (V0 (Proc.devRef .tc main_arg8)) slices_S4x128_S1x128_3_0

/-- `%276 = stablehlo.reshape %275 : (tensor<1x128xf32>) -> tensor<128xf32>` -/
noncomputable def res_main_v276 (V0 : Valuation τ sig (Elt F)) : (⟨S128, .f32⟩ : BufTy).Contents (Elt F) :=
  shapeCast S128 (res_main_v275 V0) shapeCasts_S1x128_S128

/-- `%277 = stablehlo.slice %arg9 [3:4, 0:128] : (tensor<4x128xf32>) -> tensor<1x128xf32>` -/
noncomputable def res_main_v277 (V0 : Valuation τ sig (Elt F)) : (⟨S1x128, .f32⟩ : BufTy).Contents (Elt F) :=
  extractStridedSlice S1x128 ![3, 0] (V0 (Proc.devRef .tc main_arg9)) slices_S4x128_S1x128_3_0

/-- `%278 = stablehlo.reshape %277 : (tensor<1x128xf32>) -> tensor<128xf32>` -/
noncomputable def res_main_v278 (V0 : Valuation τ sig (Elt F)) : (⟨S128, .f32⟩ : BufTy).Contents (Elt F) :=
  shapeCast S128 (res_main_v277 V0) shapeCasts_S1x128_S128

/-- `%cst_38 = stablehlo.constant dense<0.000000e+00> : tensor<f32>` -/
noncomputable def res_main_cst_38 (V0 : Valuation τ sig (Elt F)) : (⟨S_, .f32⟩ : BufTy).Contents (Elt F) :=
  constant S_ .f32 0x00000000#32

/-- `%279 = stablehlo.reduce(%274 init: %cst_38) applies stablehlo.add across dimensions = [0] : (tensor<65536x128xf32>, tensor<f32>) -> tensor<128xf32> {` -/
noncomputable def res_main_v279 (V0 : Valuation τ sig (Elt F)) : (⟨S128, .f32⟩ : BufTy).Contents (Elt F) :=
  Host.reduceAdd (res_main_v274 V0) (res_main_cst_38 V0) reducesTo_S65536x128_S128_d0 h_S_

/-- `%cst_39 = stablehlo.constant dense<6.553600e+04> : tensor<f32>` -/
noncomputable def res_main_cst_39 (V0 : Valuation τ sig (Elt F)) : (⟨S_, .f32⟩ : BufTy).Contents (Elt F) :=
  constant S_ .f32 0x47800000#32

/-- `%280 = stablehlo.broadcast_in_dim %cst_39, dims = [] : (tensor<f32>) -> tensor<128xf32>` -/
noncomputable def res_main_v280 (V0 : Valuation τ sig (Elt F)) : (⟨S128, .f32⟩ : BufTy).Contents (Elt F) :=
  broadcastInDim S128 ![] bcast_S_S128 (res_main_cst_39 V0)

/-- `%281 = stablehlo.divide %279, %280 : tensor<128xf32>` -/
noncomputable def res_main_v281 (V0 : Valuation τ sig (Elt F)) : (⟨S128, .f32⟩ : BufTy).Contents (Elt F) :=
  Host.divf (res_main_v279 V0) (res_main_v280 V0)

/-- `%c_40 = stablehlo.constant dense<0> : tensor<i32>` -/
noncomputable def res_main_c_40 (V0 : Valuation τ sig (Elt F)) : (⟨S_, .i32⟩ : BufTy).Contents (Elt F) :=
  constantI S_ 32 0#32

/-- `@_var's %cst = stablehlo.constant dense<0.000000e+00> : tensor<f32>, in %282 = func.call @_var(…) (record main_call12)` -/
noncomputable def res_main_call12_cst (V0 : Valuation τ sig (Elt F)) : (⟨S_, .f32⟩ : BufTy).Contents (Elt F) :=
  constant S_ .f32 0x00000000#32

/-- `@_var's %0 = stablehlo.reduce(%arg0 init: %cst) applies stablehlo.add across dimensions = [0] : (tensor<65536x128xf32>, tensor<f32>) -> tensor<128xf32> {, in %282 = func.call @_var(…) (record main_call12)` -/
noncomputable def res_main_call12_v0 (V0 : Valuation τ sig (Elt F)) : (⟨S128, .f32⟩ : BufTy).Contents (Elt F) :=
  Host.reduceAdd (res_main_v274 V0) (res_main_call12_cst V0) reducesTo_S65536x128_S128_d0 h_S_

/-- `@_var's %1 = stablehlo.broadcast_in_dim %0, dims = [1] : (tensor<128xf32>) -> tensor<1x128xf32>, in %282 = func.call @_var(…) (record main_call12)` -/
noncomputable def res_main_call12_v1 (V0 : Valuation τ sig (Elt F)) : (⟨S1x128, .f32⟩ : BufTy).Contents (Elt F) :=
  broadcastInDim S1x128 ![1] bcast_S128_S1x128_1 (res_main_call12_v0 V0)

/-- `@_var's %cst_0 = stablehlo.constant dense<6.553600e+04> : tensor<f32>, in %282 = func.call @_var(…) (record main_call12)` -/
noncomputable def res_main_call12_cst_0 (V0 : Valuation τ sig (Elt F)) : (⟨S_, .f32⟩ : BufTy).Contents (Elt F) :=
  constant S_ .f32 0x47800000#32

/-- `@_var's %2 = stablehlo.broadcast_in_dim %cst_0, dims = [] : (tensor<f32>) -> tensor<1x128xf32>, in %282 = func.call @_var(…) (record main_call12)` -/
noncomputable def res_main_call12_v2 (V0 : Valuation τ sig (Elt F)) : (⟨S1x128, .f32⟩ : BufTy).Contents (Elt F) :=
  broadcastInDim S1x128 ![] bcast_S_S1x128 (res_main_call12_cst_0 V0)

/-- `@_var's %3 = stablehlo.divide %1, %2 : tensor<1x128xf32>, in %282 = func.call @_var(…) (record main_call12)` -/
noncomputable def res_main_call12_v3 (V0 : Valuation τ sig (Elt F)) : (⟨S1x128, .f32⟩ : BufTy).Contents (Elt F) :=
  Host.divf (res_main_call12_v1 V0) (res_main_call12_v2 V0)

/-- `@_var's %4 = stablehlo.broadcast_in_dim %3, dims = [0, 1] : (tensor<1x128xf32>) -> tensor<65536x128xf32>, in %282 = func.call @_var(…) (record main_call12)` -/
noncomputable def res_main_call12_v4 (V0 : Valuation τ sig (Elt F)) : (⟨S65536x128, .f32⟩ : BufTy).Contents (Elt F) :=
  broadcastInDim S65536x128 ![0, 1] bcast_S1x128_S65536x128_0_1 (res_main_call12_v3 V0)

/-- `@_var's %5 = stablehlo.subtract %arg0, %4 : tensor<65536x128xf32>, in %282 = func.call @_var(…) (record main_call12)` -/
noncomputable def res_main_call12_v5 (V0 : Valuation τ sig (Elt F)) : (⟨S65536x128, .f32⟩ : BufTy).Contents (Elt F) :=
  subf (res_main_v274 V0) (res_main_call12_v4 V0)

/-- `@_var's %6 = chlo.square %5 : tensor<65536x128xf32> -> tensor<65536x128xf32>, in %282 = func.call @_var(…) (record main_call12)` -/
noncomputable def res_main_call12_v6 (V0 : Valuation τ sig (Elt F)) : (⟨S65536x128, .f32⟩ : BufTy).Contents (Elt F) :=
  mulf (res_main_call12_v5 V0) (res_main_call12_v5 V0)

/-- `@_var's %7 = stablehlo.convert %arg1 : (tensor<i32>) -> tensor<f32>, in %282 = func.call @_var(…) (record main_call12)` -/
noncomputable def res_main_call12_v7 (V0 : Valuation τ sig (Elt F)) : (⟨S_, .f32⟩ : BufTy).Contents (Elt F) :=
  sitofp .f32 (res_main_c_40 V0)

/-- `@_var's %cst_1 = stablehlo.constant dense<6.553600e+04> : tensor<f32>, in %282 = func.call @_var(…) (record main_call12)` -/
noncomputable def res_main_call12_cst_1 (V0 : Valuation τ sig (Elt F)) : (⟨S_, .f32⟩ : BufTy).Contents (Elt F) :=
  constant S_ .f32 0x47800000#32

/-- `@_var's %8 = stablehlo.subtract %cst_1, %7 : tensor<f32>, in %282 = func.call @_var(…) (record main_call12)` -/
noncomputable def res_main_call12_v8 (V0 : Valuation τ sig (Elt F)) : (⟨S_, .f32⟩ : BufTy).Contents (Elt F) :=
  subf (res_main_call12_cst_1 V0) (res_main_call12_v7 V0)

/-- `@_var's %cst_2 = stablehlo.constant dense<0.000000e+00> : tensor<f32>, in %282 = func.call @_var(…) (record main_call12)` -/
noncomputable def res_main_call12_cst_2 (V0 : Valuation τ sig (Elt F)) : (⟨S_, .f32⟩ : BufTy).Contents (Elt F) :=
  constant S_ .f32 0x00000000#32

/-- `@_var's %9 = stablehlo.reduce(%6 init: %cst_2) applies stablehlo.add across dimensions = [0] : (tensor<65536x128xf32>, tensor<f32>) -> tensor<128xf32> {, in %282 = func.call @_var(…) (record main_call12)` -/
noncomputable def res_main_call12_v9 (V0 : Valuation τ sig (Elt F)) : (⟨S128, .f32⟩ : BufTy).Contents (Elt F) :=
  Host.reduceAdd (res_main_call12_v6 V0) (res_main_call12_cst_2 V0) reducesTo_S65536x128_S128_d0 h_S_

/-- `@_var's %10 = stablehlo.broadcast_in_dim %8, dims = [] : (tensor<f32>) -> tensor<128xf32>, in %282 = func.call @_var(…) (record main_call12)` -/
noncomputable def res_main_call12_v10 (V0 : Valuation τ sig (Elt F)) : (⟨S128, .f32⟩ : BufTy).Contents (Elt F) :=
  broadcastInDim S128 ![] bcast_S_S128 (res_main_call12_v8 V0)

/-- `@_var's %11 = stablehlo.divide %9, %10 : tensor<128xf32>, in %282 = func.call @_var(…) (record main_call12)` -/
noncomputable def res_main_call12_v11 (V0 : Valuation τ sig (Elt F)) : (⟨S128, .f32⟩ : BufTy).Contents (Elt F) :=
  Host.divf (res_main_call12_v9 V0) (res_main_call12_v10 V0)

/-- `@_var's %cst_3 = stablehlo.constant dense<0.000000e+00> : tensor<f32>, in %282 = func.call @_var(…) (record main_call12)` -/
noncomputable def res_main_call12_cst_3 (V0 : Valuation τ sig (Elt F)) : (⟨S_, .f32⟩ : BufTy).Contents (Elt F) :=
  constant S_ .f32 0x00000000#32

/-- `@_var's %12 = stablehlo.compare GT, %8, %cst_3, FLOAT : (tensor<f32>, tensor<f32>) -> tensor<i1>, in %282 = func.call @_var(…) (record main_call12)` -/
noncomputable def res_main_call12_v12 (V0 : Valuation τ sig (Elt F)) : (⟨S_, .i1⟩ : BufTy).Contents (Elt F) :=
  cmpf .ogt (res_main_call12_v8 V0) (res_main_call12_cst_3 V0)

/-- `@_var's %cst_4 = stablehlo.constant dense<0x7FC00000> : tensor<f32>, in %282 = func.call @_var(…) (record main_call12)` -/
noncomputable def res_main_call12_cst_4 (V0 : Valuation τ sig (Elt F)) : (⟨S_, .f32⟩ : BufTy).Contents (Elt F) :=
  constant S_ .f32 0x7FC00000#32

/-- `@_where's %0 = stablehlo.convert %arg2 : tensor<f32>, in @_var's %13 = func.call @_where(…) (record main_call12_call0)` -/
noncomputable def res_main_call12_call0_v0 (V0 : Valuation τ sig (Elt F)) : (⟨S_, .f32⟩ : BufTy).Contents (Elt F) :=
  id (res_main_call12_cst_4 V0)

/-- `@_where's %1 = stablehlo.broadcast_in_dim %0, dims = [] : (tensor<f32>) -> tensor<128xf32>, in @_var's %13 = func.call @_where(…) (record main_call12_call0)` -/
noncomputable def res_main_call12_call0_v1 (V0 : Valuation τ sig (Elt F)) : (⟨S128, .f32⟩ : BufTy).Contents (Elt F) :=
  broadcastInDim S128 ![] bcast_S_S128 (res_main_call12_call0_v0 V0)

/-- `@_var's %13 = func.call @_where(…) (record main_call12_call0) result 0: @_where's %2 = stablehlo.select %arg0, %arg1, %1 : tensor<i1>, tensor<128xf32>` -/
noncomputable def res_main_v282 (V0 : Valuation τ sig (Elt F)) : (⟨S128, .f32⟩ : BufTy).Contents (Elt F) :=
  select (broadcastInDim S128 ![] bcast_S_S128 (res_main_call12_v12 V0)) (res_main_call12_v11 V0) (res_main_call12_call0_v1 V0)

/-- `%283 = stablehlo.broadcast_in_dim %281, dims = [1] : (tensor<128xf32>) -> tensor<1x128xf32>` -/
noncomputable def res_main_v283 (V0 : Valuation τ sig (Elt F)) : (⟨S1x128, .f32⟩ : BufTy).Contents (Elt F) :=
  broadcastInDim S1x128 ![1] bcast_S128_S1x128_1 (res_main_v281 V0)

/-- `%284 = stablehlo.broadcast_in_dim %283, dims = [0, 1] : (tensor<1x128xf32>) -> tensor<65536x128xf32>` -/
noncomputable def res_main_v284 (V0 : Valuation τ sig (Elt F)) : (⟨S65536x128, .f32⟩ : BufTy).Contents (Elt F) :=
  broadcastInDim S65536x128 ![0, 1] bcast_S1x128_S65536x128_0_1 (res_main_v283 V0)

/-- `%285 = stablehlo.subtract %274, %284 : tensor<65536x128xf32>` -/
noncomputable def res_main_v285 (V0 : Valuation τ sig (Elt F)) : (⟨S65536x128, .f32⟩ : BufTy).Contents (Elt F) :=
  subf (res_main_v274 V0) (res_main_v284 V0)

/-- `%cst_41 = stablehlo.constant dense<9.99999974E-6> : tensor<f32>` -/
noncomputable def res_main_cst_41 (V0 : Valuation τ sig (Elt F)) : (⟨S_, .f32⟩ : BufTy).Contents (Elt F) :=
  constant S_ .f32 0x3727C5AC#32

/-- `%286 = stablehlo.broadcast_in_dim %cst_41, dims = [] : (tensor<f32>) -> tensor<128xf32>` -/
noncomputable def res_main_v286 (V0 : Valuation τ sig (Elt F)) : (⟨S128, .f32⟩ : BufTy).Contents (Elt F) :=
  broadcastInDim S128 ![] bcast_S_S128 (res_main_cst_41 V0)

/-- `%287 = stablehlo.add %282, %286 : tensor<128xf32>` -/
noncomputable def res_main_v287 (V0 : Valuation τ sig (Elt F)) : (⟨S128, .f32⟩ : BufTy).Contents (Elt F) :=
  addf (res_main_v282 V0) (res_main_v286 V0)

/-- `%288 = stablehlo.rsqrt %287 : tensor<128xf32>` -/
noncomputable def res_main_v288 (V0 : Valuation τ sig (Elt F)) : (⟨S128, .f32⟩ : BufTy).Contents (Elt F) :=
  Host.rsqrt (res_main_v287 V0)

/-- `%289 = stablehlo.broadcast_in_dim %288, dims = [1] : (tensor<128xf32>) -> tensor<1x128xf32>` -/
noncomputable def res_main_v289 (V0 : Valuation τ sig (Elt F)) : (⟨S1x128, .f32⟩ : BufTy).Contents (Elt F) :=
  broadcastInDim S1x128 ![1] bcast_S128_S1x128_1 (res_main_v288 V0)

/-- `%290 = stablehlo.broadcast_in_dim %289, dims = [0, 1] : (tensor<1x128xf32>) -> tensor<65536x128xf32>` -/
noncomputable def res_main_v290 (V0 : Valuation τ sig (Elt F)) : (⟨S65536x128, .f32⟩ : BufTy).Contents (Elt F) :=
  broadcastInDim S65536x128 ![0, 1] bcast_S1x128_S65536x128_0_1 (res_main_v289 V0)

/-- `%291 = stablehlo.multiply %285, %290 : tensor<65536x128xf32>` -/
noncomputable def res_main_v291 (V0 : Valuation τ sig (Elt F)) : (⟨S65536x128, .f32⟩ : BufTy).Contents (Elt F) :=
  mulf (res_main_v285 V0) (res_main_v290 V0)

/-- `%292 = stablehlo.broadcast_in_dim %276, dims = [1] : (tensor<128xf32>) -> tensor<1x128xf32>` -/
noncomputable def res_main_v292 (V0 : Valuation τ sig (Elt F)) : (⟨S1x128, .f32⟩ : BufTy).Contents (Elt F) :=
  broadcastInDim S1x128 ![1] bcast_S128_S1x128_1 (res_main_v276 V0)

/-- `%293 = stablehlo.broadcast_in_dim %292, dims = [0, 1] : (tensor<1x128xf32>) -> tensor<65536x128xf32>` -/
noncomputable def res_main_v293 (V0 : Valuation τ sig (Elt F)) : (⟨S65536x128, .f32⟩ : BufTy).Contents (Elt F) :=
  broadcastInDim S65536x128 ![0, 1] bcast_S1x128_S65536x128_0_1 (res_main_v292 V0)

/-- `%294 = stablehlo.multiply %291, %293 : tensor<65536x128xf32>` -/
noncomputable def res_main_v294 (V0 : Valuation τ sig (Elt F)) : (⟨S65536x128, .f32⟩ : BufTy).Contents (Elt F) :=
  mulf (res_main_v291 V0) (res_main_v293 V0)

/-- `%295 = stablehlo.broadcast_in_dim %278, dims = [1] : (tensor<128xf32>) -> tensor<1x128xf32>` -/
noncomputable def res_main_v295 (V0 : Valuation τ sig (Elt F)) : (⟨S1x128, .f32⟩ : BufTy).Contents (Elt F) :=
  broadcastInDim S1x128 ![1] bcast_S128_S1x128_1 (res_main_v278 V0)

/-- `%296 = stablehlo.broadcast_in_dim %295, dims = [0, 1] : (tensor<1x128xf32>) -> tensor<65536x128xf32>` -/
noncomputable def res_main_v296 (V0 : Valuation τ sig (Elt F)) : (⟨S65536x128, .f32⟩ : BufTy).Contents (Elt F) :=
  broadcastInDim S65536x128 ![0, 1] bcast_S1x128_S65536x128_0_1 (res_main_v295 V0)

/-- `%297 = stablehlo.add %294, %296 : tensor<65536x128xf32>` -/
noncomputable def res_main_v297 (V0 : Valuation τ sig (Elt F)) : (⟨S65536x128, .f32⟩ : BufTy).Contents (Elt F) :=
  addf (res_main_v294 V0) (res_main_v296 V0)

/-- `@relu's %cst = stablehlo.constant dense<0.000000e+00> : tensor<f32>, in %298 = func.call @relu(…) (record main_call13)` -/
noncomputable def res_main_call13_cst (V0 : Valuation τ sig (Elt F)) : (⟨S_, .f32⟩ : BufTy).Contents (Elt F) :=
  constant S_ .f32 0x00000000#32

/-- `@relu's %0 = stablehlo.broadcast_in_dim %cst, dims = [] : (tensor<f32>) -> tensor<65536x128xf32>, in %298 = func.call @relu(…) (record main_call13)` -/
noncomputable def res_main_call13_v0 (V0 : Valuation τ sig (Elt F)) : (⟨S65536x128, .f32⟩ : BufTy).Contents (Elt F) :=
  broadcastInDim S65536x128 ![] bcast_S_S65536x128 (res_main_call13_cst V0)

/-- `%298 = func.call @relu(…) (record main_call13) result 0: @relu's %1 = stablehlo.maximum %arg0, %0 : tensor<65536x128xf32>` -/
noncomputable def res_main_v298 (V0 : Valuation τ sig (Elt F)) : (⟨S65536x128, .f32⟩ : BufTy).Contents (Elt F) :=
  maximumf (res_main_v297 V0) (res_main_call13_v0 V0)

/-- `%299 = stablehlo.slice %arg10 [3:4, 0:128, 0:64] : (tensor<4x128x64xf32>) -> tensor<1x128x64xf32>` -/
noncomputable def res_main_v299 (V0 : Valuation τ sig (Elt F)) : (⟨S1x128x64, .f32⟩ : BufTy).Contents (Elt F) :=
  extractStridedSlice S1x128x64 ![3, 0, 0] (V0 (Proc.devRef .tc main_arg10)) slices_S4x128x64_S1x128x64_3_0_0

/-- `%300 = stablehlo.reshape %299 : (tensor<1x128x64xf32>) -> tensor<128x64xf32>` -/
noncomputable def res_main_v300 (V0 : Valuation τ sig (Elt F)) : (⟨S128x64, .f32⟩ : BufTy).Contents (Elt F) :=
  shapeCast S128x64 (res_main_v299 V0) shapeCasts_S1x128x64_S128x64

/-- `%301 = stablehlo.dot_general %298, %300, contracting_dims = [1] x [0], precision = [DEFAULT, DEFAULT] : (tensor<65536x128xf32>, tensor<128x64xf32>) -> tensor<65536x64xf32>` -/
noncomputable def res_main_v301 (V0 : Valuation τ sig (Elt F)) : (⟨S65536x64, .f32⟩ : BufTy).Contents (Elt F) :=
  Host.dotGeneral dot_S65536x128_S128x64_S65536x64_1_0_0_1_n_n none (res_main_v298 V0) (res_main_v300 V0)

/-- `%302 = stablehlo.slice %arg11 [3:4, 0:64] : (tensor<4x64xf32>) -> tensor<1x64xf32>` -/
noncomputable def res_main_v302 (V0 : Valuation τ sig (Elt F)) : (⟨S1x64, .f32⟩ : BufTy).Contents (Elt F) :=
  extractStridedSlice S1x64 ![3, 0] (V0 (Proc.devRef .tc main_arg11)) slices_S4x64_S1x64_3_0

/-- `%303 = stablehlo.reshape %302 : (tensor<1x64xf32>) -> tensor<64xf32>` -/
noncomputable def res_main_v303 (V0 : Valuation τ sig (Elt F)) : (⟨S64, .f32⟩ : BufTy).Contents (Elt F) :=
  shapeCast S64 (res_main_v302 V0) shapeCasts_S1x64_S64

/-- `%304 = stablehlo.broadcast_in_dim %303, dims = [1] : (tensor<64xf32>) -> tensor<1x64xf32>` -/
noncomputable def res_main_v304 (V0 : Valuation τ sig (Elt F)) : (⟨S1x64, .f32⟩ : BufTy).Contents (Elt F) :=
  broadcastInDim S1x64 ![1] bcast_S64_S1x64_1 (res_main_v303 V0)

/-- `%305 = stablehlo.broadcast_in_dim %304, dims = [0, 1] : (tensor<1x64xf32>) -> tensor<65536x64xf32>` -/
noncomputable def res_main_v305 (V0 : Valuation τ sig (Elt F)) : (⟨S65536x64, .f32⟩ : BufTy).Contents (Elt F) :=
  broadcastInDim S65536x64 ![0, 1] bcast_S1x64_S65536x64_0_1 (res_main_v304 V0)

/-- `%306 = stablehlo.add %301, %305 : tensor<65536x64xf32>` -/
noncomputable def res_main_v306 (V0 : Valuation τ sig (Elt F)) : (⟨S65536x64, .f32⟩ : BufTy).Contents (Elt F) :=
  addf (res_main_v301 V0) (res_main_v305 V0)

/-- `%307 = stablehlo.slice %arg12 [3:4, 0:64] : (tensor<4x64xf32>) -> tensor<1x64xf32>` -/
noncomputable def res_main_v307 (V0 : Valuation τ sig (Elt F)) : (⟨S1x64, .f32⟩ : BufTy).Contents (Elt F) :=
  extractStridedSlice S1x64 ![3, 0] (V0 (Proc.devRef .tc main_arg12)) slices_S4x64_S1x64_3_0

/-- `%308 = stablehlo.reshape %307 : (tensor<1x64xf32>) -> tensor<64xf32>` -/
noncomputable def res_main_v308 (V0 : Valuation τ sig (Elt F)) : (⟨S64, .f32⟩ : BufTy).Contents (Elt F) :=
  shapeCast S64 (res_main_v307 V0) shapeCasts_S1x64_S64

/-- `%309 = stablehlo.slice %arg13 [3:4, 0:64] : (tensor<4x64xf32>) -> tensor<1x64xf32>` -/
noncomputable def res_main_v309 (V0 : Valuation τ sig (Elt F)) : (⟨S1x64, .f32⟩ : BufTy).Contents (Elt F) :=
  extractStridedSlice S1x64 ![3, 0] (V0 (Proc.devRef .tc main_arg13)) slices_S4x64_S1x64_3_0

/-- `%310 = stablehlo.reshape %309 : (tensor<1x64xf32>) -> tensor<64xf32>` -/
noncomputable def res_main_v310 (V0 : Valuation τ sig (Elt F)) : (⟨S64, .f32⟩ : BufTy).Contents (Elt F) :=
  shapeCast S64 (res_main_v309 V0) shapeCasts_S1x64_S64

/-- `%cst_42 = stablehlo.constant dense<0.000000e+00> : tensor<f32>` -/
noncomputable def res_main_cst_42 (V0 : Valuation τ sig (Elt F)) : (⟨S_, .f32⟩ : BufTy).Contents (Elt F) :=
  constant S_ .f32 0x00000000#32

/-- `%311 = stablehlo.reduce(%306 init: %cst_42) applies stablehlo.add across dimensions = [0] : (tensor<65536x64xf32>, tensor<f32>) -> tensor<64xf32> {` -/
noncomputable def res_main_v311 (V0 : Valuation τ sig (Elt F)) : (⟨S64, .f32⟩ : BufTy).Contents (Elt F) :=
  Host.reduceAdd (res_main_v306 V0) (res_main_cst_42 V0) reducesTo_S65536x64_S64_d0 h_S_

/-- `%cst_43 = stablehlo.constant dense<6.553600e+04> : tensor<f32>` -/
noncomputable def res_main_cst_43 (V0 : Valuation τ sig (Elt F)) : (⟨S_, .f32⟩ : BufTy).Contents (Elt F) :=
  constant S_ .f32 0x47800000#32

/-- `%312 = stablehlo.broadcast_in_dim %cst_43, dims = [] : (tensor<f32>) -> tensor<64xf32>` -/
noncomputable def res_main_v312 (V0 : Valuation τ sig (Elt F)) : (⟨S64, .f32⟩ : BufTy).Contents (Elt F) :=
  broadcastInDim S64 ![] bcast_S_S64 (res_main_cst_43 V0)

/-- `%313 = stablehlo.divide %311, %312 : tensor<64xf32>` -/
noncomputable def res_main_v313 (V0 : Valuation τ sig (Elt F)) : (⟨S64, .f32⟩ : BufTy).Contents (Elt F) :=
  Host.divf (res_main_v311 V0) (res_main_v312 V0)

/-! ## @main's statements 361 … 385 -/

/-- `%c_44 = stablehlo.constant dense<0> : tensor<i32>` -/
noncomputable def res_main_c_44 (V0 : Valuation τ sig (Elt F)) : (⟨S_, .i32⟩ : BufTy).Contents (Elt F) :=
  constantI S_ 32 0#32

/-- `@_var_0's %cst = stablehlo.constant dense<0.000000e+00> : tensor<f32>, in %314 = func.call @_var_0(…) (record main_call14)` -/
noncomputable def res_main_call14_cst (V0 : Valuation τ sig (Elt F)) : (⟨S_, .f32⟩ : BufTy).Contents (Elt F) :=
  constant S_ .f32 0x00000000#32

/-- `@_var_0's %0 = stablehlo.reduce(%arg0 init: %cst) applies stablehlo.add across dimensions = [0] : (tensor<65536x64xf32>, tensor<f32>) -> tensor<64xf32> {, in %314 = func.call @_var_0(…) (record main_call14)` -/
noncomputable def res_main_call14_v0 (V0 : Valuation τ sig (Elt F)) : (⟨S64, .f32⟩ : BufTy).Contents (Elt F) :=
  Host.reduceAdd (res_main_v306 V0) (res_main_call14_cst V0) reducesTo_S65536x64_S64_d0 h_S_

/-- `@_var_0's %1 = stablehlo.broadcast_in_dim %0, dims = [1] : (tensor<64xf32>) -> tensor<1x64xf32>, in %314 = func.call @_var_0(…) (record main_call14)` -/
noncomputable def res_main_call14_v1 (V0 : Valuation τ sig (Elt F)) : (⟨S1x64, .f32⟩ : BufTy).Contents (Elt F) :=
  broadcastInDim S1x64 ![1] bcast_S64_S1x64_1 (res_main_call14_v0 V0)

/-- `@_var_0's %cst_0 = stablehlo.constant dense<6.553600e+04> : tensor<f32>, in %314 = func.call @_var_0(…) (record main_call14)` -/
noncomputable def res_main_call14_cst_0 (V0 : Valuation τ sig (Elt F)) : (⟨S_, .f32⟩ : BufTy).Contents (Elt F) :=
  constant S_ .f32 0x47800000#32

/-- `@_var_0's %2 = stablehlo.broadcast_in_dim %cst_0, dims = [] : (tensor<f32>) -> tensor<1x64xf32>, in %314 = func.call @_var_0(…) (record main_call14)` -/
noncomputable def res_main_call14_v2 (V0 : Valuation τ sig (Elt F)) : (⟨S1x64, .f32⟩ : BufTy).Contents (Elt F) :=
  broadcastInDim S1x64 ![] bcast_S_S1x64 (res_main_call14_cst_0 V0)

/-- `@_var_0's %3 = stablehlo.divide %1, %2 : tensor<1x64xf32>, in %314 = func.call @_var_0(…) (record main_call14)` -/
noncomputable def res_main_call14_v3 (V0 : Valuation τ sig (Elt F)) : (⟨S1x64, .f32⟩ : BufTy).Contents (Elt F) :=
  Host.divf (res_main_call14_v1 V0) (res_main_call14_v2 V0)

/-- `@_var_0's %4 = stablehlo.broadcast_in_dim %3, dims = [0, 1] : (tensor<1x64xf32>) -> tensor<65536x64xf32>, in %314 = func.call @_var_0(…) (record main_call14)` -/
noncomputable def res_main_call14_v4 (V0 : Valuation τ sig (Elt F)) : (⟨S65536x64, .f32⟩ : BufTy).Contents (Elt F) :=
  broadcastInDim S65536x64 ![0, 1] bcast_S1x64_S65536x64_0_1 (res_main_call14_v3 V0)

/-- `@_var_0's %5 = stablehlo.subtract %arg0, %4 : tensor<65536x64xf32>, in %314 = func.call @_var_0(…) (record main_call14)` -/
noncomputable def res_main_call14_v5 (V0 : Valuation τ sig (Elt F)) : (⟨S65536x64, .f32⟩ : BufTy).Contents (Elt F) :=
  subf (res_main_v306 V0) (res_main_call14_v4 V0)

/-- `@_var_0's %6 = chlo.square %5 : tensor<65536x64xf32> -> tensor<65536x64xf32>, in %314 = func.call @_var_0(…) (record main_call14)` -/
noncomputable def res_main_call14_v6 (V0 : Valuation τ sig (Elt F)) : (⟨S65536x64, .f32⟩ : BufTy).Contents (Elt F) :=
  mulf (res_main_call14_v5 V0) (res_main_call14_v5 V0)

/-- `@_var_0's %7 = stablehlo.convert %arg1 : (tensor<i32>) -> tensor<f32>, in %314 = func.call @_var_0(…) (record main_call14)` -/
noncomputable def res_main_call14_v7 (V0 : Valuation τ sig (Elt F)) : (⟨S_, .f32⟩ : BufTy).Contents (Elt F) :=
  sitofp .f32 (res_main_c_44 V0)

/-- `@_var_0's %cst_1 = stablehlo.constant dense<6.553600e+04> : tensor<f32>, in %314 = func.call @_var_0(…) (record main_call14)` -/
noncomputable def res_main_call14_cst_1 (V0 : Valuation τ sig (Elt F)) : (⟨S_, .f32⟩ : BufTy).Contents (Elt F) :=
  constant S_ .f32 0x47800000#32

/-- `@_var_0's %8 = stablehlo.subtract %cst_1, %7 : tensor<f32>, in %314 = func.call @_var_0(…) (record main_call14)` -/
noncomputable def res_main_call14_v8 (V0 : Valuation τ sig (Elt F)) : (⟨S_, .f32⟩ : BufTy).Contents (Elt F) :=
  subf (res_main_call14_cst_1 V0) (res_main_call14_v7 V0)

/-- `@_var_0's %cst_2 = stablehlo.constant dense<0.000000e+00> : tensor<f32>, in %314 = func.call @_var_0(…) (record main_call14)` -/
noncomputable def res_main_call14_cst_2 (V0 : Valuation τ sig (Elt F)) : (⟨S_, .f32⟩ : BufTy).Contents (Elt F) :=
  constant S_ .f32 0x00000000#32

/-- `@_var_0's %9 = stablehlo.reduce(%6 init: %cst_2) applies stablehlo.add across dimensions = [0] : (tensor<65536x64xf32>, tensor<f32>) -> tensor<64xf32> {, in %314 = func.call @_var_0(…) (record main_call14)` -/
noncomputable def res_main_call14_v9 (V0 : Valuation τ sig (Elt F)) : (⟨S64, .f32⟩ : BufTy).Contents (Elt F) :=
  Host.reduceAdd (res_main_call14_v6 V0) (res_main_call14_cst_2 V0) reducesTo_S65536x64_S64_d0 h_S_

/-- `@_var_0's %10 = stablehlo.broadcast_in_dim %8, dims = [] : (tensor<f32>) -> tensor<64xf32>, in %314 = func.call @_var_0(…) (record main_call14)` -/
noncomputable def res_main_call14_v10 (V0 : Valuation τ sig (Elt F)) : (⟨S64, .f32⟩ : BufTy).Contents (Elt F) :=
  broadcastInDim S64 ![] bcast_S_S64 (res_main_call14_v8 V0)

/-- `@_var_0's %11 = stablehlo.divide %9, %10 : tensor<64xf32>, in %314 = func.call @_var_0(…) (record main_call14)` -/
noncomputable def res_main_call14_v11 (V0 : Valuation τ sig (Elt F)) : (⟨S64, .f32⟩ : BufTy).Contents (Elt F) :=
  Host.divf (res_main_call14_v9 V0) (res_main_call14_v10 V0)

/-- `@_var_0's %cst_3 = stablehlo.constant dense<0.000000e+00> : tensor<f32>, in %314 = func.call @_var_0(…) (record main_call14)` -/
noncomputable def res_main_call14_cst_3 (V0 : Valuation τ sig (Elt F)) : (⟨S_, .f32⟩ : BufTy).Contents (Elt F) :=
  constant S_ .f32 0x00000000#32

/-- `@_var_0's %12 = stablehlo.compare GT, %8, %cst_3, FLOAT : (tensor<f32>, tensor<f32>) -> tensor<i1>, in %314 = func.call @_var_0(…) (record main_call14)` -/
noncomputable def res_main_call14_v12 (V0 : Valuation τ sig (Elt F)) : (⟨S_, .i1⟩ : BufTy).Contents (Elt F) :=
  cmpf .ogt (res_main_call14_v8 V0) (res_main_call14_cst_3 V0)

/-- `@_var_0's %cst_4 = stablehlo.constant dense<0x7FC00000> : tensor<f32>, in %314 = func.call @_var_0(…) (record main_call14)` -/
noncomputable def res_main_call14_cst_4 (V0 : Valuation τ sig (Elt F)) : (⟨S_, .f32⟩ : BufTy).Contents (Elt F) :=
  constant S_ .f32 0x7FC00000#32

/-- `@_where_1's %0 = stablehlo.convert %arg2 : tensor<f32>, in @_var_0's %13 = func.call @_where_1(…) (record main_call14_call0)` -/
noncomputable def res_main_call14_call0_v0 (V0 : Valuation τ sig (Elt F)) : (⟨S_, .f32⟩ : BufTy).Contents (Elt F) :=
  id (res_main_call14_cst_4 V0)

/-- `@_where_1's %1 = stablehlo.broadcast_in_dim %0, dims = [] : (tensor<f32>) -> tensor<64xf32>, in @_var_0's %13 = func.call @_where_1(…) (record main_call14_call0)` -/
noncomputable def res_main_call14_call0_v1 (V0 : Valuation τ sig (Elt F)) : (⟨S64, .f32⟩ : BufTy).Contents (Elt F) :=
  broadcastInDim S64 ![] bcast_S_S64 (res_main_call14_call0_v0 V0)

/-- `@_var_0's %13 = func.call @_where_1(…) (record main_call14_call0) result 0: @_where_1's %2 = stablehlo.select %arg0, %arg1, %1 : tensor<i1>, tensor<64xf32>` -/
noncomputable def res_main_v314 (V0 : Valuation τ sig (Elt F)) : (⟨S64, .f32⟩ : BufTy).Contents (Elt F) :=
  select (broadcastInDim S64 ![] bcast_S_S64 (res_main_call14_v12 V0)) (res_main_call14_v11 V0) (res_main_call14_call0_v1 V0)

/-- `%315 = stablehlo.broadcast_in_dim %313, dims = [1] : (tensor<64xf32>) -> tensor<1x64xf32>` -/
noncomputable def res_main_v315 (V0 : Valuation τ sig (Elt F)) : (⟨S1x64, .f32⟩ : BufTy).Contents (Elt F) :=
  broadcastInDim S1x64 ![1] bcast_S64_S1x64_1 (res_main_v313 V0)

/-- `%316 = stablehlo.broadcast_in_dim %315, dims = [0, 1] : (tensor<1x64xf32>) -> tensor<65536x64xf32>` -/
noncomputable def res_main_v316 (V0 : Valuation τ sig (Elt F)) : (⟨S65536x64, .f32⟩ : BufTy).Contents (Elt F) :=
  broadcastInDim S65536x64 ![0, 1] bcast_S1x64_S65536x64_0_1 (res_main_v315 V0)

/-- `%317 = stablehlo.subtract %306, %316 : tensor<65536x64xf32>` -/
noncomputable def res_main_v317 (V0 : Valuation τ sig (Elt F)) : (⟨S65536x64, .f32⟩ : BufTy).Contents (Elt F) :=
  subf (res_main_v306 V0) (res_main_v316 V0)

/-- `%cst_45 = stablehlo.constant dense<9.99999974E-6> : tensor<f32>` -/
noncomputable def res_main_cst_45 (V0 : Valuation τ sig (Elt F)) : (⟨S_, .f32⟩ : BufTy).Contents (Elt F) :=
  constant S_ .f32 0x3727C5AC#32

/-- `%318 = stablehlo.broadcast_in_dim %cst_45, dims = [] : (tensor<f32>) -> tensor<64xf32>` -/
noncomputable def res_main_v318 (V0 : Valuation τ sig (Elt F)) : (⟨S64, .f32⟩ : BufTy).Contents (Elt F) :=
  broadcastInDim S64 ![] bcast_S_S64 (res_main_cst_45 V0)

/-- `%319 = stablehlo.add %314, %318 : tensor<64xf32>` -/
noncomputable def res_main_v319 (V0 : Valuation τ sig (Elt F)) : (⟨S64, .f32⟩ : BufTy).Contents (Elt F) :=
  addf (res_main_v314 V0) (res_main_v318 V0)

/-- `%320 = stablehlo.rsqrt %319 : tensor<64xf32>` -/
noncomputable def res_main_v320 (V0 : Valuation τ sig (Elt F)) : (⟨S64, .f32⟩ : BufTy).Contents (Elt F) :=
  Host.rsqrt (res_main_v319 V0)

/-- `%321 = stablehlo.broadcast_in_dim %320, dims = [1] : (tensor<64xf32>) -> tensor<1x64xf32>` -/
noncomputable def res_main_v321 (V0 : Valuation τ sig (Elt F)) : (⟨S1x64, .f32⟩ : BufTy).Contents (Elt F) :=
  broadcastInDim S1x64 ![1] bcast_S64_S1x64_1 (res_main_v320 V0)

/-- `%322 = stablehlo.broadcast_in_dim %321, dims = [0, 1] : (tensor<1x64xf32>) -> tensor<65536x64xf32>` -/
noncomputable def res_main_v322 (V0 : Valuation τ sig (Elt F)) : (⟨S65536x64, .f32⟩ : BufTy).Contents (Elt F) :=
  broadcastInDim S65536x64 ![0, 1] bcast_S1x64_S65536x64_0_1 (res_main_v321 V0)

/-- `%323 = stablehlo.multiply %317, %322 : tensor<65536x64xf32>` -/
noncomputable def res_main_v323 (V0 : Valuation τ sig (Elt F)) : (⟨S65536x64, .f32⟩ : BufTy).Contents (Elt F) :=
  mulf (res_main_v317 V0) (res_main_v322 V0)

/-- `%324 = stablehlo.broadcast_in_dim %308, dims = [1] : (tensor<64xf32>) -> tensor<1x64xf32>` -/
noncomputable def res_main_v324 (V0 : Valuation τ sig (Elt F)) : (⟨S1x64, .f32⟩ : BufTy).Contents (Elt F) :=
  broadcastInDim S1x64 ![1] bcast_S64_S1x64_1 (res_main_v308 V0)

/-- `%325 = stablehlo.broadcast_in_dim %324, dims = [0, 1] : (tensor<1x64xf32>) -> tensor<65536x64xf32>` -/
noncomputable def res_main_v325 (V0 : Valuation τ sig (Elt F)) : (⟨S65536x64, .f32⟩ : BufTy).Contents (Elt F) :=
  broadcastInDim S65536x64 ![0, 1] bcast_S1x64_S65536x64_0_1 (res_main_v324 V0)

/-- `%326 = stablehlo.multiply %323, %325 : tensor<65536x64xf32>` -/
noncomputable def res_main_v326 (V0 : Valuation τ sig (Elt F)) : (⟨S65536x64, .f32⟩ : BufTy).Contents (Elt F) :=
  mulf (res_main_v323 V0) (res_main_v325 V0)

/-- `%327 = stablehlo.broadcast_in_dim %310, dims = [1] : (tensor<64xf32>) -> tensor<1x64xf32>` -/
noncomputable def res_main_v327 (V0 : Valuation τ sig (Elt F)) : (⟨S1x64, .f32⟩ : BufTy).Contents (Elt F) :=
  broadcastInDim S1x64 ![1] bcast_S64_S1x64_1 (res_main_v310 V0)

/-- `%328 = stablehlo.broadcast_in_dim %327, dims = [0, 1] : (tensor<1x64xf32>) -> tensor<65536x64xf32>` -/
noncomputable def res_main_v328 (V0 : Valuation τ sig (Elt F)) : (⟨S65536x64, .f32⟩ : BufTy).Contents (Elt F) :=
  broadcastInDim S65536x64 ![0, 1] bcast_S1x64_S65536x64_0_1 (res_main_v327 V0)

/-- `%329 = stablehlo.add %326, %328 : tensor<65536x64xf32>` -/
noncomputable def res_main_v329 (V0 : Valuation τ sig (Elt F)) : (⟨S65536x64, .f32⟩ : BufTy).Contents (Elt F) :=
  addf (res_main_v326 V0) (res_main_v328 V0)

/-- `@relu_2's %cst = stablehlo.constant dense<0.000000e+00> : tensor<f32>, in %330 = func.call @relu_2(…) (record main_call15)` -/
noncomputable def res_main_call15_cst (V0 : Valuation τ sig (Elt F)) : (⟨S_, .f32⟩ : BufTy).Contents (Elt F) :=
  constant S_ .f32 0x00000000#32

/-- `@relu_2's %0 = stablehlo.broadcast_in_dim %cst, dims = [] : (tensor<f32>) -> tensor<65536x64xf32>, in %330 = func.call @relu_2(…) (record main_call15)` -/
noncomputable def res_main_call15_v0 (V0 : Valuation τ sig (Elt F)) : (⟨S65536x64, .f32⟩ : BufTy).Contents (Elt F) :=
  broadcastInDim S65536x64 ![] bcast_S_S65536x64 (res_main_call15_cst V0)

/-- `%330 = func.call @relu_2(…) (record main_call15) result 0: @relu_2's %1 = stablehlo.maximum %arg0, %0 : tensor<65536x64xf32>` -/
noncomputable def res_main_v330 (V0 : Valuation τ sig (Elt F)) : (⟨S65536x64, .f32⟩ : BufTy).Contents (Elt F) :=
  maximumf (res_main_v329 V0) (res_main_call15_v0 V0)

/-- `%331 = stablehlo.add %330, %250 : tensor<65536x64xf32>` -/
noncomputable def res_main_v331 (V0 : Valuation τ sig (Elt F)) : (⟨S65536x64, .f32⟩ : BufTy).Contents (Elt F) :=
  addf (res_main_v330 V0) (res_main_v250 V0)

/-- `%332 = stablehlo.dot_general %331, %arg14, contracting_dims = [1] x [0], precision = [DEFAULT, DEFAULT] : (tensor<65536x64xf32>, tensor<64x256xf32>) -> tensor<65536x256xf32>` -/
noncomputable def res_main_v332 (V0 : Valuation τ sig (Elt F)) : (⟨S65536x256, .f32⟩ : BufTy).Contents (Elt F) :=
  Host.dotGeneral dot_S65536x64_S64x256_S65536x256_1_0_0_1_n_n none (res_main_v331 V0) (V0 (Proc.devRef .tc main_arg14))

/-- `%333 = stablehlo.broadcast_in_dim %arg15, dims = [1] : (tensor<256xf32>) -> tensor<1x256xf32>` -/
noncomputable def res_main_v333 (V0 : Valuation τ sig (Elt F)) : (⟨S1x256, .f32⟩ : BufTy).Contents (Elt F) :=
  broadcastInDim S1x256 ![1] bcast_S256_S1x256_1 (V0 (Proc.devRef .tc main_arg15))

/-- `%334 = stablehlo.broadcast_in_dim %333, dims = [0, 1] : (tensor<1x256xf32>) -> tensor<65536x256xf32>` -/
noncomputable def res_main_v334 (V0 : Valuation τ sig (Elt F)) : (⟨S65536x256, .f32⟩ : BufTy).Contents (Elt F) :=
  broadcastInDim S65536x256 ![0, 1] bcast_S1x256_S65536x256_0_1 (res_main_v333 V0)

/-- `%335 = stablehlo.add %332, %334 : tensor<65536x256xf32>` -/
noncomputable def res_main_v335 (V0 : Valuation τ sig (Elt F)) : (⟨S65536x256, .f32⟩ : BufTy).Contents (Elt F) :=
  addf (res_main_v332 V0) (res_main_v334 V0)

/-- `%336 = stablehlo.reshape %335 : (tensor<65536x256xf32>) -> tensor<16x4096x256xf32>` -/
noncomputable def res_main_v336 (V0 : Valuation τ sig (Elt F)) : (⟨S16x4096x256, .f32⟩ : BufTy).Contents (Elt F) :=
  shapeCast S16x4096x256 (res_main_v335 V0) shapeCasts_S65536x256_S16x4096x256

/-- The reference's result, as a term of the sixteen arguments' launch contents on device `c`. -/
noncomputable def refTerm (m : (ℓ : Loc nD τ sig) → Buf (Elt Ideal) ℓ) (c : Dev nD) : Buf (Elt Ideal) ((c.tc : Thread nD τ).loc main_v336) :=
  res_main_v336 (F := Ideal) (launchContents m c)

theorem refTerm_eq (m : (ℓ : Loc nD τ sig) → Buf (Elt Ideal) ℓ) (c : Dev nD) :
    refTerm m c = res_main_v336 (F := Ideal) (launchContents m c) := rfl

end Cert.ReferenceIdeal.Hand

end
-- ==== Proof.Ref.Tactic.lean ====
import Idealize.ShloMosaic.Lib.StableHlo.Run
import Idealize.ShloMosaic.Lib.Pipeline.Frame

/-! # Reading a straight line of tensor operations window by window: the steps, once

A line of operations that writes each buffer once is read in consecutive windows. `valK V0` is what the buffers hold
after the first K windows from contents `V0`; for a buffer `b` still to be read, `valK V0 b` is a term `res_b V0`
defined as the writing operation's function of the `res_` of the buffers it reads. Three facts are needed per window,
and each has one proof whatever the window:

* every operation of the window determines what it writes (`line_fresh`);
* the window writes only the buffers of its list (`writes_one`, one operation at a time), so that any other buffer is
  kept through it (`StableHlo.after_of_writes_sub`);
* a buffer the window writes holds its `res_` (`window_value`): the fold over the window's operations is computed at
  that buffer, operation by operation from the last (each either writes it or leaves it); what remains reads buffers
  as they stood before the window, which the earlier window's facts give as their own `res_`; the two sides then
  differ by unfolding definitions. -/

namespace Cert.ReferenceIdeal.Hand

open Idealize.ShloMosaic Idealize.ShloMosaic.StableHlo

/-- Every operation of a literal list writes determined contents: membership in the list is taken apart one element
    at a time, and each operation's set of undetermined buffers is empty by computation. -/
macro "line_fresh" : tactic =>
  `(tactic| (intro _ h; (repeat (cases h with | head => rfl | tail _ h => ?_)); exact nomatch h))

/-- One operation's written buffer lies in the list of references its window writes. -/
macro "writes_one" : tactic =>
  `(tactic| (simp only [nullary_writes, unary_writes, binary_writes, ternary_writes, quaternary_writes, reshape_writes,
      Finset.singleton_subset_iff, List.mem_toFinset]; exact List.mem_map_of_mem (by decide)))

/-- `window_value valK opsW [earlier facts]`: the contents `valK V0` at a buffer window `opsW` writes are that buffer's
    `res_`. The fold is unfolded and computed at the buffer; the buffers read from before the window are rewritten by
    the earlier facts; both sides are then equal by unfolding the `res_` definitions. -/
macro "window_value " v:ident w:ident " [" rs:Lean.Parser.Tactic.simpLemma,* "]" : tactic =>
  `(tactic| (unfold $v:ident; simp only [$w:ident]; after_results_simp; first | (simp only [$rs,*] <;> rfl) | (all_goals rfl)))

end Cert.ReferenceIdeal.Hand
-- ==== Proof.Ref.Windows.lean ====
import proofs.«159011_j9938554322955_1_alg».proof.Proof.Ref.Stages
import proofs.«159011_j9938554322955_1_alg».proof.Proof.Ref.Tactic

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! # The reference's operations in windows, and each window's facts

The 569 operations of the reference, a call read as its callee's body at the call's buffers, in 27 consecutive windows of
at most 24 that do not straddle the seven parts @main is printed in. `valK V0` is what the buffers hold after the first
K windows from contents `V0`; per window: its operations touch TensorCore buffers only and determine what they write,
they write the listed buffers only, and every buffer read later (or returned, or an argument) holds its `res_`. -/

/-- Operations 1 … 21 of 569. -/
noncomputable abbrev ops0_0 : List (HloOp τ sig (Elt F)) :=
  [ unary main_arg0 main_v0 ((extractStridedSlice S1x1048576 ![0, 0] · slices_S2x1048576_S1x1048576_0_0) : (⟨S2x1048576, .i32⟩ : BufTy).Contents (Elt F) → (⟨S1x1048576, .i32⟩ : BufTy).Contents (Elt F)),
    reshape main_v0 main_v1 rfl shapeCasts_S1x1048576_S1048576,
    unary main_arg0 main_v2 ((extractStridedSlice S1x1048576 ![1, 0] · slices_S2x1048576_S1x1048576_1_0) : (⟨S2x1048576, .i32⟩ : BufTy).Contents (Elt F) → (⟨S1x1048576, .i32⟩ : BufTy).Contents (Elt F)),
    reshape main_v2 main_v3 rfl shapeCasts_S1x1048576_S1048576,
    binary main_arg2 main_arg3 main_v4 ((fun l r => Host.dotGeneral dot_S65536x1_S1x64_S65536x64_1_0_0_1_n_n none l r) : (⟨S65536x1, .f32⟩ : BufTy).Contents (Elt F) → (⟨S1x64, .f32⟩ : BufTy).Contents (Elt F) → (⟨S65536x64, .f32⟩ : BufTy).Contents (Elt F)),
    unary main_arg4 main_v5 (broadcastInDim S1x64 ![1] bcast_S64_S1x64_1 : (⟨S64, .f32⟩ : BufTy).Contents (Elt F) → (⟨S1x64, .f32⟩ : BufTy).Contents (Elt F)),
    unary main_v5 main_v6 (broadcastInDim S65536x64 ![0, 1] bcast_S1x64_S65536x64_0_1 : (⟨S1x64, .f32⟩ : BufTy).Contents (Elt F) → (⟨S65536x64, .f32⟩ : BufTy).Contents (Elt F)),
    binary main_v4 main_v6 main_v7 (addf : (⟨S65536x64, .f32⟩ : BufTy).Contents (Elt F) → (⟨S65536x64, .f32⟩ : BufTy).Contents (Elt F) → (⟨S65536x64, .f32⟩ : BufTy).Contents (Elt F)),
    nullary main_c (constantI S_ 32 0#32),
    unary main_c main_v8 (broadcastInDim S1048576 ![] bcast_S_S1048576 : (⟨S_, .i32⟩ : BufTy).Contents (Elt F) → (⟨S1048576, .i32⟩ : BufTy).Contents (Elt F)),
    binary main_v1 main_v8 main_v9 (cmpi .slt : (⟨S1048576, .i32⟩ : BufTy).Contents (Elt F) → (⟨S1048576, .i32⟩ : BufTy).Contents (Elt F) → (⟨S1048576, .i1⟩ : BufTy).Contents (Elt F)),
    nullary main_c_0 (constantI S_ 32 65536#32),
    unary main_c_0 main_v10 (broadcastInDim S1048576 ![] bcast_S_S1048576 : (⟨S_, .i32⟩ : BufTy).Contents (Elt F) → (⟨S1048576, .i32⟩ : BufTy).Contents (Elt F)),
    binary main_v1 main_v10 main_v11 (addi : (⟨S1048576, .i32⟩ : BufTy).Contents (Elt F) → (⟨S1048576, .i32⟩ : BufTy).Contents (Elt F) → (⟨S1048576, .i32⟩ : BufTy).Contents (Elt F)),
    ternary main_v9 main_v11 main_v1 main_v12 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v12 main_v13 (broadcastInDim S1048576x1 ![0] bcast_S1048576_S1048576x1_0 : (⟨S1048576, .i32⟩ : BufTy).Contents (Elt F) → (⟨S1048576x1, .i32⟩ : BufTy).Contents (Elt F)),
    binary main_v7 main_v13 main_v14 ((fun x i => Host.gather gather_S65536x64_S1048576x1_S1048576x64_1_0_n_n_0_1_164 x i) : (⟨S65536x64, .f32⟩ : BufTy).Contents (Elt F) → (⟨S1048576x1, .i32⟩ : BufTy).Contents (Elt F) → (⟨S1048576x64, .f32⟩ : BufTy).Contents (Elt F)),
    nullary main_cst (constant S_ .f32 0x00000000#32),
    unary main_cst main_v15 (broadcastInDim S65536x64 ![] bcast_S_S65536x64 : (⟨S_, .f32⟩ : BufTy).Contents (Elt F) → (⟨S65536x64, .f32⟩ : BufTy).Contents (Elt F)),
    unary main_v3 main_v16 (broadcastInDim S1048576x1 ![0] bcast_S1048576_S1048576x1_0 : (⟨S1048576, .i32⟩ : BufTy).Contents (Elt F) → (⟨S1048576x1, .i32⟩ : BufTy).Contents (Elt F)),
    ternary main_v15 main_v16 main_v14 main_v17 ((fun x i u => Host.scatterAdd scatter_S65536x64_S1048576x1_S1048576x64_1_0_0_1 x i u) : (⟨S65536x64, .f32⟩ : BufTy).Contents (Elt F) → (⟨S1048576x1, .i32⟩ : BufTy).Contents (Elt F) → (⟨S1048576x64, .f32⟩ : BufTy).Contents (Elt F) → (⟨S65536x64, .f32⟩ : BufTy).Contents (Elt F)) ]

/-- Operations 22 … 41 of 569. -/
noncomputable abbrev ops0_1 : List (HloOp τ sig (Elt F)) :=
  [ unary main_arg5 main_v18 ((extractStridedSlice S1 ![0] · slices_S4_S1_0) : (⟨S4, .f32⟩ : BufTy).Contents (Elt F) → (⟨S1, .f32⟩ : BufTy).Contents (Elt F)),
    reshape main_v18 main_v19 rfl shapeCasts_S1_S_,
    nullary main_cst_1 (constant S_ .f32 0x3F800000#32),
    binary main_cst_1 main_v19 main_v20 (addf : (⟨S_, .f32⟩ : BufTy).Contents (Elt F) → (⟨S_, .f32⟩ : BufTy).Contents (Elt F) → (⟨S_, .f32⟩ : BufTy).Contents (Elt F)),
    unary main_v20 main_v21 (broadcastInDim S65536x64 ![] bcast_S_S65536x64 : (⟨S_, .f32⟩ : BufTy).Contents (Elt F) → (⟨S65536x64, .f32⟩ : BufTy).Contents (Elt F)),
    binary main_v21 main_v7 main_v22 (mulf : (⟨S65536x64, .f32⟩ : BufTy).Contents (Elt F) → (⟨S65536x64, .f32⟩ : BufTy).Contents (Elt F) → (⟨S65536x64, .f32⟩ : BufTy).Contents (Elt F)),
    binary main_v22 main_v17 main_v23 (addf : (⟨S65536x64, .f32⟩ : BufTy).Contents (Elt F) → (⟨S65536x64, .f32⟩ : BufTy).Contents (Elt F) → (⟨S65536x64, .f32⟩ : BufTy).Contents (Elt F)),
    unary main_arg6 main_v24 ((extractStridedSlice S1x64x128 ![0, 0, 0] · slices_S4x64x128_S1x64x128_0_0_0) : (⟨S4x64x128, .f32⟩ : BufTy).Contents (Elt F) → (⟨S1x64x128, .f32⟩ : BufTy).Contents (Elt F)),
    reshape main_v24 main_v25 rfl shapeCasts_S1x64x128_S64x128,
    binary main_v23 main_v25 main_v26 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)),
    unary main_arg7 main_v27 ((extractStridedSlice S1x128 ![0, 0] · slices_S4x128_S1x128_0_0) : (⟨S4x128, .f32⟩ : BufTy).Contents (Elt F) → (⟨S1x128, .f32⟩ : BufTy).Contents (Elt F)),
    reshape main_v27 main_v28 rfl shapeCasts_S1x128_S128,
    unary main_v28 main_v29 (broadcastInDim S1x128 ![1] bcast_S128_S1x128_1 : (⟨S128, .f32⟩ : BufTy).Contents (Elt F) → (⟨S1x128, .f32⟩ : BufTy).Contents (Elt F)),
    unary main_v29 main_v30 (broadcastInDim S65536x128 ![0, 1] bcast_S1x128_S65536x128_0_1 : (⟨S1x128, .f32⟩ : BufTy).Contents (Elt F) → (⟨S65536x128, .f32⟩ : BufTy).Contents (Elt F)),
    binary main_v26 main_v30 main_v31 (addf : (⟨S65536x128, .f32⟩ : BufTy).Contents (Elt F) → (⟨S65536x128, .f32⟩ : BufTy).Contents (Elt F) → (⟨S65536x128, .f32⟩ : BufTy).Contents (Elt F)),
    unary main_arg8 main_v32 ((extractStridedSlice S1x128 ![0, 0] · slices_S4x128_S1x128_0_0) : (⟨S4x128, .f32⟩ : BufTy).Contents (Elt F) → (⟨S1x128, .f32⟩ : BufTy).Contents (Elt F)),
    reshape main_v32 main_v33 rfl shapeCasts_S1x128_S128,
    unary main_arg9 main_v34 ((extractStridedSlice S1x128 ![0, 0] · slices_S4x128_S1x128_0_0) : (⟨S4x128, .f32⟩ : BufTy).Contents (Elt F) → (⟨S1x128, .f32⟩ : BufTy).Contents (Elt F)),
    reshape main_v34 main_v35 rfl shapeCasts_S1x128_S128,
    nullary main_cst_2 (constant S_ .f32 0x00000000#32) ]

/-- Operations 42 … 61 of 569. -/
noncomputable abbrev ops0_2 : List (HloOp τ sig (Elt F)) :=
  [ binary main_v31 main_cst_2 main_v36 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)),
    nullary main_cst_3 (constant S_ .f32 0x47800000#32),
    unary main_cst_3 main_v37 (broadcastInDim S128 ![] bcast_S_S128 : (⟨S_, .f32⟩ : BufTy).Contents (Elt F) → (⟨S128, .f32⟩ : BufTy).Contents (Elt F)),
    binary main_v36 main_v37 main_v38 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    TRef.nullary main_call0.cst (constant S_ .f32 0x00000000#32),
    TRef.binary (.of main_v31) main_call0.cst main_call0.v0 (fun x v => Host.reduceAdd x v reducesTo_S65536x128_S128_d0 h_S_),
    TRef.unary main_call0.v0 main_call0.v1 (broadcastInDim S1x128 ![1] bcast_S128_S1x128_1),
    TRef.nullary main_call0.cst_0 (constant S_ .f32 0x47800000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S65536x128 ![0, 1] bcast_S1x128_S65536x128_0_1),
    TRef.binary (.of main_v31) main_call0.v4 main_call0.v5 subf,
    TRef.binary main_call0.v5 main_call0.v5 main_call0.v6 mulf,
    TRef.unary (.of main_c_4) main_call0.v7 (sitofp .f32),
    TRef.nullary main_call0.cst_1 (constant S_ .f32 0x47800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S65536x128_S128_d0 h_S_),
    TRef.unary main_call0.v8 main_call0.v10 (broadcastInDim S128 ![] bcast_S_S128) ]

/-- Operations 62 … 81 of 569. -/
noncomputable abbrev ops0_3 : List (HloOp τ sig (Elt F)) :=
  [ TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v38 main_v40 (broadcastInDim S1x128 ![1] bcast_S128_S1x128_1 : (⟨S128, .f32⟩ : BufTy).Contents (Elt F) → (⟨S1x128, .f32⟩ : BufTy).Contents (Elt F)),
    unary main_v40 main_v41 (broadcastInDim S65536x128 ![0, 1] bcast_S1x128_S65536x128_0_1 : (⟨S1x128, .f32⟩ : BufTy).Contents (Elt F) → (⟨S65536x128, .f32⟩ : BufTy).Contents (Elt F)),
    binary main_v31 main_v41 main_v42 (subf : (⟨S65536x128, .f32⟩ : BufTy).Contents (Elt F) → (⟨S65536x128, .f32⟩ : BufTy).Contents (Elt F) → (⟨S65536x128, .f32⟩ : BufTy).Contents (Elt F)),
    nullary main_cst_5 (constant S_ .f32 0x3727C5AC#32),
    unary main_cst_5 main_v43 (broadcastInDim S128 ![] bcast_S_S128 : (⟨S_, .f32⟩ : BufTy).Contents (Elt F) → (⟨S128, .f32⟩ : BufTy).Contents (Elt F)),
    binary main_v39 main_v43 main_v44 (addf : (⟨S128, .f32⟩ : BufTy).Contents (Elt F) → (⟨S128, .f32⟩ : BufTy).Contents (Elt F) → (⟨S128, .f32⟩ : BufTy).Contents (Elt F)),
    unary main_v44 main_v45 (Host.rsqrt : (⟨S128, .f32⟩ : BufTy).Contents (Elt F) → (⟨S128, .f32⟩ : BufTy).Contents (Elt F)),
    unary main_v45 main_v46 (broadcastInDim S1x128 ![1] bcast_S128_S1x128_1 : (⟨S128, .f32⟩ : BufTy).Contents (Elt F) → (⟨S1x128, .f32⟩ : BufTy).Contents (Elt F)),
    unary main_v46 main_v47 (broadcastInDim S65536x128 ![0, 1] bcast_S1x128_S65536x128_0_1 : (⟨S1x128, .f32⟩ : BufTy).Contents (Elt F) → (⟨S65536x128, .f32⟩ : BufTy).Contents (Elt F)),
    binary main_v42 main_v47 main_v48 (mulf : (⟨S65536x128, .f32⟩ : BufTy).Contents (Elt F) → (⟨S65536x128, .f32⟩ : BufTy).Contents (Elt F) → (⟨S65536x128, .f32⟩ : BufTy).Contents (Elt F)),
    unary main_v33 main_v49 (broadcastInDim S1x128 ![1] bcast_S128_S1x128_1 : (⟨S128, .f32⟩ : BufTy).Contents (Elt F) → (⟨S1x128, .f32⟩ : BufTy).Contents (Elt F)),
    unary main_v49 main_v50 (broadcastInDim S65536x128 ![0, 1] bcast_S1x128_S65536x128_0_1 : (⟨S1x128, .f32⟩ : BufTy).Contents (Elt F) → (⟨S65536x128, .f32⟩ : BufTy).Contents (Elt F)),
    binary main_v48 main_v50 main_v51 (mulf : (⟨S65536x128, .f32⟩ : BufTy).Contents (Elt F) → (⟨S65536x128, .f32⟩ : BufTy).Contents (Elt F) → (⟨S65536x128, .f32⟩ : BufTy).Contents (Elt F)) ]

/-- Operations 82 … 103 of 569. -/
noncomputable abbrev ops1_0 : List (HloOp τ sig (Elt F)) :=
  [ unary main_v35 main_v52 (broadcastInDim S1x128 ![1] bcast_S128_S1x128_1 : (⟨S128, .f32⟩ : BufTy).Contents (Elt F) → (⟨S1x128, .f32⟩ : BufTy).Contents (Elt F)),
    unary main_v52 main_v53 (broadcastInDim S65536x128 ![0, 1] bcast_S1x128_S65536x128_0_1 : (⟨S1x128, .f32⟩ : BufTy).Contents (Elt F) → (⟨S65536x128, .f32⟩ : BufTy).Contents (Elt F)),
    binary main_v51 main_v53 main_v54 (addf : (⟨S65536x128, .f32⟩ : BufTy).Contents (Elt F) → (⟨S65536x128, .f32⟩ : BufTy).Contents (Elt F) → (⟨S65536x128, .f32⟩ : BufTy).Contents (Elt F)),
    TRef.nullary main_call1.cst (constant S_ .f32 0x00000000#32),
    TRef.unary main_call1.cst main_call1.v0 (broadcastInDim S65536x128 ![] bcast_S_S65536x128),
    TRef.binary (.of main_v54) main_call1.v0 main_call1.v1 maximumf,
    unary main_arg10 main_v56 ((extractStridedSlice S1x128x64 ![0, 0, 0] · slices_S4x128x64_S1x128x64_0_0_0) : (⟨S4x128x64, .f32⟩ : BufTy).Contents (Elt F) → (⟨S1x128x64, .f32⟩ : BufTy).Contents (Elt F)),
    reshape main_v56 main_v57 rfl shapeCasts_S1x128x64_S128x64,
    binary main_v55 main_v57 main_v58 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)),
    unary main_arg11 main_v59 ((extractStridedSlice S1x64 ![0, 0] · slices_S4x64_S1x64_0_0) : (⟨S4x64, .f32⟩ : BufTy).Contents (Elt F) → (⟨S1x64, .f32⟩ : BufTy).Contents (Elt F)),
    reshape main_v59 main_v60 rfl shapeCasts_S1x64_S64,
    unary main_v60 main_v61 (broadcastInDim S1x64 ![1] bcast_S64_S1x64_1 : (⟨S64, .f32⟩ : BufTy).Contents (Elt F) → (⟨S1x64, .f32⟩ : BufTy).Contents (Elt F)),
    unary main_v61 main_v62 (broadcastInDim S65536x64 ![0, 1] bcast_S1x64_S65536x64_0_1 : (⟨S1x64, .f32⟩ : BufTy).Contents (Elt F) → (⟨S65536x64, .f32⟩ : BufTy).Contents (Elt F)),
    binary main_v58 main_v62 main_v63 (addf : (⟨S65536x64, .f32⟩ : BufTy).Contents (Elt F) → (⟨S65536x64, .f32⟩ : BufTy).Contents (Elt F) → (⟨S65536x64, .f32⟩ : BufTy).Contents (Elt F)),
    unary main_arg12 main_v64 ((extractStridedSlice S1x64 ![0, 0] · slices_S4x64_S1x64_0_0) : (⟨S4x64, .f32⟩ : BufTy).Contents (Elt F) → (⟨S1x64, .f32⟩ : BufTy).Contents (Elt F)),
    reshape main_v64 main_v65 rfl shapeCasts_S1x64_S64,
    unary main_arg13 main_v66 ((extractStridedSlice S1x64 ![0, 0] · slices_S4x64_S1x64_0_0) : (⟨S4x64, .f32⟩ : BufTy).Contents (Elt F) → (⟨S1x64, .f32⟩ : BufTy).Contents (Elt F)),
    reshape main_v66 main_v67 rfl shapeCasts_S1x64_S64,
    nullary main_cst_6 (constant S_ .f32 0x00000000#32),
    binary main_v63 main_cst_6 main_v68 ((fun x v => Host.reduceAdd x v reducesTo_S65536x64_S64_d0 h_S_) : (⟨S65536x64, .f32⟩ : BufTy).Contents (Elt F) → (⟨S_, .f32⟩ : BufTy).Contents (Elt F) → (⟨S64, .f32⟩ : BufTy).Contents (Elt F)),
    nullary main_cst_7 (constant S_ .f32 0x47800000#32),
    unary main_cst_7 main_v69 (broadcastInDim S64 ![] bcast_S_S64 : (⟨S_, .f32⟩ : BufTy).Contents (Elt F) → (⟨S64, .f32⟩ : BufTy).Contents (Elt F)) ]

/-- Operations 104 … 124 of 569. -/
noncomputable abbrev ops1_1 : List (HloOp τ sig (Elt F)) :=
  [ binary main_v68 main_v69 main_v70 (Host.divf : (⟨S64, .f32⟩ : BufTy).Contents (Elt F) → (⟨S64, .f32⟩ : BufTy).Contents (Elt F) → (⟨S64, .f32⟩ : BufTy).Contents (Elt F)),
    nullary main_c_8 (constantI S_ 32 0#32),
    TRef.nullary main_call2.cst (constant S_ .f32 0x00000000#32),
    TRef.binary (.of main_v63) main_call2.cst main_call2.v0 (fun x v => Host.reduceAdd x v reducesTo_S65536x64_S64_d0 h_S_),
    TRef.unary main_call2.v0 main_call2.v1 (broadcastInDim S1x64 ![1] bcast_S64_S1x64_1),
    TRef.nullary main_call2.cst_0 (constant S_ .f32 0x47800000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S65536x64 ![0, 1] bcast_S1x64_S65536x64_0_1),
    TRef.binary (.of main_v63) main_call2.v4 main_call2.v5 subf,
    TRef.binary main_call2.v5 main_call2.v5 main_call2.v6 mulf,
    TRef.unary (.of main_c_8) main_call2.v7 (sitofp .f32),
    TRef.nullary main_call2.cst_1 (constant S_ .f32 0x47800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S65536x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32) ]

/-- Operations 125 … 145 of 569. -/
noncomputable abbrev ops1_2 : List (HloOp τ sig (Elt F)) :=
  [ TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    unary main_v70 main_v72 (broadcastInDim S1x64 ![1] bcast_S64_S1x64_1 : (⟨S64, .f32⟩ : BufTy).Contents (Elt F) → (⟨S1x64, .f32⟩ : BufTy).Contents (Elt F)),
    unary main_v72 main_v73 (broadcastInDim S65536x64 ![0, 1] bcast_S1x64_S65536x64_0_1 : (⟨S1x64, .f32⟩ : BufTy).Contents (Elt F) → (⟨S65536x64, .f32⟩ : BufTy).Contents (Elt F)),
    binary main_v63 main_v73 main_v74 (subf : (⟨S65536x64, .f32⟩ : BufTy).Contents (Elt F) → (⟨S65536x64, .f32⟩ : BufTy).Contents (Elt F) → (⟨S65536x64, .f32⟩ : BufTy).Contents (Elt F)),
    nullary main_cst_9 (constant S_ .f32 0x3727C5AC#32),
    unary main_cst_9 main_v75 (broadcastInDim S64 ![] bcast_S_S64 : (⟨S_, .f32⟩ : BufTy).Contents (Elt F) → (⟨S64, .f32⟩ : BufTy).Contents (Elt F)),
    binary main_v71 main_v75 main_v76 (addf : (⟨S64, .f32⟩ : BufTy).Contents (Elt F) → (⟨S64, .f32⟩ : BufTy).Contents (Elt F) → (⟨S64, .f32⟩ : BufTy).Contents (Elt F)),
    unary main_v76 main_v77 (Host.rsqrt : (⟨S64, .f32⟩ : BufTy).Contents (Elt F) → (⟨S64, .f32⟩ : BufTy).Contents (Elt F)),
    unary main_v77 main_v78 (broadcastInDim S1x64 ![1] bcast_S64_S1x64_1 : (⟨S64, .f32⟩ : BufTy).Contents (Elt F) → (⟨S1x64, .f32⟩ : BufTy).Contents (Elt F)),
    unary main_v78 main_v79 (broadcastInDim S65536x64 ![0, 1] bcast_S1x64_S65536x64_0_1 : (⟨S1x64, .f32⟩ : BufTy).Contents (Elt F) → (⟨S65536x64, .f32⟩ : BufTy).Contents (Elt F)),
    binary main_v74 main_v79 main_v80 (mulf : (⟨S65536x64, .f32⟩ : BufTy).Contents (Elt F) → (⟨S65536x64, .f32⟩ : BufTy).Contents (Elt F) → (⟨S65536x64, .f32⟩ : BufTy).Contents (Elt F)),
    unary main_v65 main_v81 (broadcastInDim S1x64 ![1] bcast_S64_S1x64_1 : (⟨S64, .f32⟩ : BufTy).Contents (Elt F) → (⟨S1x64, .f32⟩ : BufTy).Contents (Elt F)),
    unary main_v81 main_v82 (broadcastInDim S65536x64 ![0, 1] bcast_S1x64_S65536x64_0_1 : (⟨S1x64, .f32⟩ : BufTy).Contents (Elt F) → (⟨S65536x64, .f32⟩ : BufTy).Contents (Elt F)),
    binary main_v80 main_v82 main_v83 (mulf : (⟨S65536x64, .f32⟩ : BufTy).Contents (Elt F) → (⟨S65536x64, .f32⟩ : BufTy).Contents (Elt F) → (⟨S65536x64, .f32⟩ : BufTy).Contents (Elt F)),
    unary main_v67 main_v84 (broadcastInDim S1x64 ![1] bcast_S64_S1x64_1 : (⟨S64, .f32⟩ : BufTy).Contents (Elt F) → (⟨S1x64, .f32⟩ : BufTy).Contents (Elt F)),
    unary main_v84 main_v85 (broadcastInDim S65536x64 ![0, 1] bcast_S1x64_S65536x64_0_1 : (⟨S1x64, .f32⟩ : BufTy).Contents (Elt F) → (⟨S65536x64, .f32⟩ : BufTy).Contents (Elt F)),
    binary main_v83 main_v85 main_v86 (addf : (⟨S65536x64, .f32⟩ : BufTy).Contents (Elt F) → (⟨S65536x64, .f32⟩ : BufTy).Contents (Elt F) → (⟨S65536x64, .f32⟩ : BufTy).Contents (Elt F)),
    TRef.nullary main_call3.cst (constant S_ .f32 0x00000000#32),
    TRef.unary main_call3.cst main_call3.v0 (broadcastInDim S65536x64 ![] bcast_S_S65536x64) ]

/-- Operations 146 … 166 of 569. -/
noncomputable abbrev ops1_3 : List (HloOp τ sig (Elt F)) :=
  [ TRef.binary (.of main_v86) main_call3.v0 main_call3.v1 maximumf,
    binary main_v87 main_v7 main_v88 (addf : (⟨S65536x64, .f32⟩ : BufTy).Contents (Elt F) → (⟨S65536x64, .f32⟩ : BufTy).Contents (Elt F) → (⟨S65536x64, .f32⟩ : BufTy).Contents (Elt F)),
    nullary main_c_10 (constantI S_ 32 0#32),
    unary main_c_10 main_v89 (broadcastInDim S1048576 ![] bcast_S_S1048576 : (⟨S_, .i32⟩ : BufTy).Contents (Elt F) → (⟨S1048576, .i32⟩ : BufTy).Contents (Elt F)),
    binary main_v1 main_v89 main_v90 (cmpi .slt : (⟨S1048576, .i32⟩ : BufTy).Contents (Elt F) → (⟨S1048576, .i32⟩ : BufTy).Contents (Elt F) → (⟨S1048576, .i1⟩ : BufTy).Contents (Elt F)),
    nullary main_c_11 (constantI S_ 32 65536#32),
    unary main_c_11 main_v91 (broadcastInDim S1048576 ![] bcast_S_S1048576 : (⟨S_, .i32⟩ : BufTy).Contents (Elt F) → (⟨S1048576, .i32⟩ : BufTy).Contents (Elt F)),
    binary main_v1 main_v91 main_v92 (addi : (⟨S1048576, .i32⟩ : BufTy).Contents (Elt F) → (⟨S1048576, .i32⟩ : BufTy).Contents (Elt F) → (⟨S1048576, .i32⟩ : BufTy).Contents (Elt F)),
    ternary main_v90 main_v92 main_v1 main_v93 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v93 main_v94 (broadcastInDim S1048576x1 ![0] bcast_S1048576_S1048576x1_0 : (⟨S1048576, .i32⟩ : BufTy).Contents (Elt F) → (⟨S1048576x1, .i32⟩ : BufTy).Contents (Elt F)),
    binary main_v88 main_v94 main_v95 ((fun x i => Host.gather gather_S65536x64_S1048576x1_S1048576x64_1_0_n_n_0_1_164 x i) : (⟨S65536x64, .f32⟩ : BufTy).Contents (Elt F) → (⟨S1048576x1, .i32⟩ : BufTy).Contents (Elt F) → (⟨S1048576x64, .f32⟩ : BufTy).Contents (Elt F)),
    nullary main_cst_12 (constant S_ .f32 0x00000000#32),
    unary main_cst_12 main_v96 (broadcastInDim S65536x64 ![] bcast_S_S65536x64 : (⟨S_, .f32⟩ : BufTy).Contents (Elt F) → (⟨S65536x64, .f32⟩ : BufTy).Contents (Elt F)),
    unary main_v3 main_v97 (broadcastInDim S1048576x1 ![0] bcast_S1048576_S1048576x1_0 : (⟨S1048576, .i32⟩ : BufTy).Contents (Elt F) → (⟨S1048576x1, .i32⟩ : BufTy).Contents (Elt F)),
    ternary main_v96 main_v97 main_v95 main_v98 ((fun x i u => Host.scatterAdd scatter_S65536x64_S1048576x1_S1048576x64_1_0_0_1 x i u) : (⟨S65536x64, .f32⟩ : BufTy).Contents (Elt F) → (⟨S1048576x1, .i32⟩ : BufTy).Contents (Elt F) → (⟨S1048576x64, .f32⟩ : BufTy).Contents (Elt F) → (⟨S65536x64, .f32⟩ : BufTy).Contents (Elt F)),
    unary main_arg5 main_v99 ((extractStridedSlice S1 ![1] · slices_S4_S1_1) : (⟨S4, .f32⟩ : BufTy).Contents (Elt F) → (⟨S1, .f32⟩ : BufTy).Contents (Elt F)),
    reshape main_v99 main_v100 rfl shapeCasts_S1_S_,
    nullary main_cst_13 (constant S_ .f32 0x3F800000#32),
    binary main_cst_13 main_v100 main_v101 (addf : (⟨S_, .f32⟩ : BufTy).Contents (Elt F) → (⟨S_, .f32⟩ : BufTy).Contents (Elt F) → (⟨S_, .f32⟩ : BufTy).Contents (Elt F)),
    unary main_v101 main_v102 (broadcastInDim S65536x64 ![] bcast_S_S65536x64 : (⟨S_, .f32⟩ : BufTy).Contents (Elt F) → (⟨S65536x64, .f32⟩ : BufTy).Contents (Elt F)),
    binary main_v102 main_v88 main_v103 (mulf : (⟨S65536x64, .f32⟩ : BufTy).Contents (Elt F) → (⟨S65536x64, .f32⟩ : BufTy).Contents (Elt F) → (⟨S65536x64, .f32⟩ : BufTy).Contents (Elt F)) ]

/-- Operations 167 … 187 of 569. -/
noncomputable abbrev ops2_0 : List (HloOp τ sig (Elt F)) :=
  [ binary main_v103 main_v98 main_v104 (addf : (⟨S65536x64, .f32⟩ : BufTy).Contents (Elt F) → (⟨S65536x64, .f32⟩ : BufTy).Contents (Elt F) → (⟨S65536x64, .f32⟩ : BufTy).Contents (Elt F)),
    unary main_arg6 main_v105 ((extractStridedSlice S1x64x128 ![1, 0, 0] · slices_S4x64x128_S1x64x128_1_0_0) : (⟨S4x64x128, .f32⟩ : BufTy).Contents (Elt F) → (⟨S1x64x128, .f32⟩ : BufTy).Contents (Elt F)),
    reshape main_v105 main_v106 rfl shapeCasts_S1x64x128_S64x128,
    binary main_v104 main_v106 main_v107 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)),
    unary main_arg7 main_v108 ((extractStridedSlice S1x128 ![1, 0] · slices_S4x128_S1x128_1_0) : (⟨S4x128, .f32⟩ : BufTy).Contents (Elt F) → (⟨S1x128, .f32⟩ : BufTy).Contents (Elt F)),
    reshape main_v108 main_v109 rfl shapeCasts_S1x128_S128,
    unary main_v109 main_v110 (broadcastInDim S1x128 ![1] bcast_S128_S1x128_1 : (⟨S128, .f32⟩ : BufTy).Contents (Elt F) → (⟨S1x128, .f32⟩ : BufTy).Contents (Elt F)),
    unary main_v110 main_v111 (broadcastInDim S65536x128 ![0, 1] bcast_S1x128_S65536x128_0_1 : (⟨S1x128, .f32⟩ : BufTy).Contents (Elt F) → (⟨S65536x128, .f32⟩ : BufTy).Contents (Elt F)),
    binary main_v107 main_v111 main_v112 (addf : (⟨S65536x128, .f32⟩ : BufTy).Contents (Elt F) → (⟨S65536x128, .f32⟩ : BufTy).Contents (Elt F) → (⟨S65536x128, .f32⟩ : BufTy).Contents (Elt F)),
    unary main_arg8 main_v113 ((extractStridedSlice S1x128 ![1, 0] · slices_S4x128_S1x128_1_0) : (⟨S4x128, .f32⟩ : BufTy).Contents (Elt F) → (⟨S1x128, .f32⟩ : BufTy).Contents (Elt F)),
    reshape main_v113 main_v114 rfl shapeCasts_S1x128_S128,
    unary main_arg9 main_v115 ((extractStridedSlice S1x128 ![1, 0] · slices_S4x128_S1x128_1_0) : (⟨S4x128, .f32⟩ : BufTy).Contents (Elt F) → (⟨S1x128, .f32⟩ : BufTy).Contents (Elt F)),
    reshape main_v115 main_v116 rfl shapeCasts_S1x128_S128,
    nullary main_cst_14 (constant S_ .f32 0x00000000#32),
    binary main_v112 main_cst_14 main_v117 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)),
    nullary main_cst_15 (constant S_ .f32 0x47800000#32),
    unary main_cst_15 main_v118 (broadcastInDim S128 ![] bcast_S_S128 : (⟨S_, .f32⟩ : BufTy).Contents (Elt F) → (⟨S128, .f32⟩ : BufTy).Contents (Elt F)),
    binary main_v117 main_v118 main_v119 (Host.divf : (⟨S128, .f32⟩ : BufTy).Contents (Elt F) → (⟨S128, .f32⟩ : BufTy).Contents (Elt F) → (⟨S128, .f32⟩ : BufTy).Contents (Elt F)),
    nullary main_c_16 (constantI S_ 32 0#32),
    TRef.nullary main_call4.cst (constant S_ .f32 0x00000000#32),
    TRef.binary (.of main_v112) main_call4.cst main_call4.v0 (fun x v => Host.reduceAdd x v reducesTo_S65536x128_S128_d0 h_S_) ]

/-- Operations 188 … 208 of 569. -/
noncomputable abbrev ops2_1 : List (HloOp τ sig (Elt F)) :=
  [ TRef.unary main_call4.v0 main_call4.v1 (broadcastInDim S1x128 ![1] bcast_S128_S1x128_1),
    TRef.nullary main_call4.cst_0 (constant S_ .f32 0x47800000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S65536x128 ![0, 1] bcast_S1x128_S65536x128_0_1),
    TRef.binary (.of main_v112) main_call4.v4 main_call4.v5 subf,
    TRef.binary main_call4.v5 main_call4.v5 main_call4.v6 mulf,
    TRef.unary (.of main_c_16) main_call4.v7 (sitofp .f32),
    TRef.nullary main_call4.cst_1 (constant S_ .f32 0x47800000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S65536x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v119 main_v121 (broadcastInDim S1x128 ![1] bcast_S128_S1x128_1 : (⟨S128, .f32⟩ : BufTy).Contents (Elt F) → (⟨S1x128, .f32⟩ : BufTy).Contents (Elt F)) ]

/-- Operations 209 … 229 of 569. -/
noncomputable abbrev ops2_2 : List (HloOp τ sig (Elt F)) :=
  [ unary main_v121 main_v122 (broadcastInDim S65536x128 ![0, 1] bcast_S1x128_S65536x128_0_1 : (⟨S1x128, .f32⟩ : BufTy).Contents (Elt F) → (⟨S65536x128, .f32⟩ : BufTy).Contents (Elt F)),
    binary main_v112 main_v122 main_v123 (subf : (⟨S65536x128, .f32⟩ : BufTy).Contents (Elt F) → (⟨S65536x128, .f32⟩ : BufTy).Contents (Elt F) → (⟨S65536x128, .f32⟩ : BufTy).Contents (Elt F)),
    nullary main_cst_17 (constant S_ .f32 0x3727C5AC#32),
    unary main_cst_17 main_v124 (broadcastInDim S128 ![] bcast_S_S128 : (⟨S_, .f32⟩ : BufTy).Contents (Elt F) → (⟨S128, .f32⟩ : BufTy).Contents (Elt F)),
    binary main_v120 main_v124 main_v125 (addf : (⟨S128, .f32⟩ : BufTy).Contents (Elt F) → (⟨S128, .f32⟩ : BufTy).Contents (Elt F) → (⟨S128, .f32⟩ : BufTy).Contents (Elt F)),
    unary main_v125 main_v126 (Host.rsqrt : (⟨S128, .f32⟩ : BufTy).Contents (Elt F) → (⟨S128, .f32⟩ : BufTy).Contents (Elt F)),
    unary main_v126 main_v127 (broadcastInDim S1x128 ![1] bcast_S128_S1x128_1 : (⟨S128, .f32⟩ : BufTy).Contents (Elt F) → (⟨S1x128, .f32⟩ : BufTy).Contents (Elt F)),
    unary main_v127 main_v128 (broadcastInDim S65536x128 ![0, 1] bcast_S1x128_S65536x128_0_1 : (⟨S1x128, .f32⟩ : BufTy).Contents (Elt F) → (⟨S65536x128, .f32⟩ : BufTy).Contents (Elt F)),
    binary main_v123 main_v128 main_v129 (mulf : (⟨S65536x128, .f32⟩ : BufTy).Contents (Elt F) → (⟨S65536x128, .f32⟩ : BufTy).Contents (Elt F) → (⟨S65536x128, .f32⟩ : BufTy).Contents (Elt F)),
    unary main_v114 main_v130 (broadcastInDim S1x128 ![1] bcast_S128_S1x128_1 : (⟨S128, .f32⟩ : BufTy).Contents (Elt F) → (⟨S1x128, .f32⟩ : BufTy).Contents (Elt F)),
    unary main_v130 main_v131 (broadcastInDim S65536x128 ![0, 1] bcast_S1x128_S65536x128_0_1 : (⟨S1x128, .f32⟩ : BufTy).Contents (Elt F) → (⟨S65536x128, .f32⟩ : BufTy).Contents (Elt F)),
    binary main_v129 main_v131 main_v132 (mulf : (⟨S65536x128, .f32⟩ : BufTy).Contents (Elt F) → (⟨S65536x128, .f32⟩ : BufTy).Contents (Elt F) → (⟨S65536x128, .f32⟩ : BufTy).Contents (Elt F)),
    unary main_v116 main_v133 (broadcastInDim S1x128 ![1] bcast_S128_S1x128_1 : (⟨S128, .f32⟩ : BufTy).Contents (Elt F) → (⟨S1x128, .f32⟩ : BufTy).Contents (Elt F)),
    unary main_v133 main_v134 (broadcastInDim S65536x128 ![0, 1] bcast_S1x128_S65536x128_0_1 : (⟨S1x128, .f32⟩ : BufTy).Contents (Elt F) → (⟨S65536x128, .f32⟩ : BufTy).Contents (Elt F)),
    binary main_v132 main_v134 main_v135 (addf : (⟨S65536x128, .f32⟩ : BufTy).Contents (Elt F) → (⟨S65536x128, .f32⟩ : BufTy).Contents (Elt F) → (⟨S65536x128, .f32⟩ : BufTy).Contents (Elt F)),
    TRef.nullary main_call5.cst (constant S_ .f32 0x00000000#32),
    TRef.unary main_call5.cst main_call5.v0 (broadcastInDim S65536x128 ![] bcast_S_S65536x128),
    TRef.binary (.of main_v135) main_call5.v0 main_call5.v1 maximumf,
    unary main_arg10 main_v137 ((extractStridedSlice S1x128x64 ![1, 0, 0] · slices_S4x128x64_S1x128x64_1_0_0) : (⟨S4x128x64, .f32⟩ : BufTy).Contents (Elt F) → (⟨S1x128x64, .f32⟩ : BufTy).Contents (Elt F)),
    reshape main_v137 main_v138 rfl shapeCasts_S1x128x64_S128x64,
    binary main_v136 main_v138 main_v139 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)) ]

/-- Operations 230 … 250 of 569. -/
noncomputable abbrev ops2_3 : List (HloOp τ sig (Elt F)) :=
  [ unary main_arg11 main_v140 ((extractStridedSlice S1x64 ![1, 0] · slices_S4x64_S1x64_1_0) : (⟨S4x64, .f32⟩ : BufTy).Contents (Elt F) → (⟨S1x64, .f32⟩ : BufTy).Contents (Elt F)),
    reshape main_v140 main_v141 rfl shapeCasts_S1x64_S64,
    unary main_v141 main_v142 (broadcastInDim S1x64 ![1] bcast_S64_S1x64_1 : (⟨S64, .f32⟩ : BufTy).Contents (Elt F) → (⟨S1x64, .f32⟩ : BufTy).Contents (Elt F)),
    unary main_v142 main_v143 (broadcastInDim S65536x64 ![0, 1] bcast_S1x64_S65536x64_0_1 : (⟨S1x64, .f32⟩ : BufTy).Contents (Elt F) → (⟨S65536x64, .f32⟩ : BufTy).Contents (Elt F)),
    binary main_v139 main_v143 main_v144 (addf : (⟨S65536x64, .f32⟩ : BufTy).Contents (Elt F) → (⟨S65536x64, .f32⟩ : BufTy).Contents (Elt F) → (⟨S65536x64, .f32⟩ : BufTy).Contents (Elt F)),
    unary main_arg12 main_v145 ((extractStridedSlice S1x64 ![1, 0] · slices_S4x64_S1x64_1_0) : (⟨S4x64, .f32⟩ : BufTy).Contents (Elt F) → (⟨S1x64, .f32⟩ : BufTy).Contents (Elt F)),
    reshape main_v145 main_v146 rfl shapeCasts_S1x64_S64,
    unary main_arg13 main_v147 ((extractStridedSlice S1x64 ![1, 0] · slices_S4x64_S1x64_1_0) : (⟨S4x64, .f32⟩ : BufTy).Contents (Elt F) → (⟨S1x64, .f32⟩ : BufTy).Contents (Elt F)),
    reshape main_v147 main_v148 rfl shapeCasts_S1x64_S64,
    nullary main_cst_18 (constant S_ .f32 0x00000000#32),
    binary main_v144 main_cst_18 main_v149 ((fun x v => Host.reduceAdd x v reducesTo_S65536x64_S64_d0 h_S_) : (⟨S65536x64, .f32⟩ : BufTy).Contents (Elt F) → (⟨S_, .f32⟩ : BufTy).Contents (Elt F) → (⟨S64, .f32⟩ : BufTy).Contents (Elt F)),
    nullary main_cst_19 (constant S_ .f32 0x47800000#32),
    unary main_cst_19 main_v150 (broadcastInDim S64 ![] bcast_S_S64 : (⟨S_, .f32⟩ : BufTy).Contents (Elt F) → (⟨S64, .f32⟩ : BufTy).Contents (Elt F)),
    binary main_v149 main_v150 main_v151 (Host.divf : (⟨S64, .f32⟩ : BufTy).Contents (Elt F) → (⟨S64, .f32⟩ : BufTy).Contents (Elt F) → (⟨S64, .f32⟩ : BufTy).Contents (Elt F)),
    nullary main_c_20 (constantI S_ 32 0#32),
    TRef.nullary main_call6.cst (constant S_ .f32 0x00000000#32),
    TRef.binary (.of main_v144) main_call6.cst main_call6.v0 (fun x v => Host.reduceAdd x v reducesTo_S65536x64_S64_d0 h_S_),
    TRef.unary main_call6.v0 main_call6.v1 (broadcastInDim S1x64 ![1] bcast_S64_S1x64_1),
    TRef.nullary main_call6.cst_0 (constant S_ .f32 0x47800000#32),
    TRef.unary main_call6.cst_0 main_call6.v2 (broadcastInDim S1x64 ![] bcast_S_S1x64),
    TRef.binary main_call6.v1 main_call6.v2 main_call6.v3 Host.divf ]

/-- Operations 251 … 270 of 569. -/
noncomputable abbrev ops2_4 : List (HloOp τ sig (Elt F)) :=
  [ TRef.unary main_call6.v3 main_call6.v4 (broadcastInDim S65536x64 ![0, 1] bcast_S1x64_S65536x64_0_1),
    TRef.binary (.of main_v144) main_call6.v4 main_call6.v5 subf,
    TRef.binary main_call6.v5 main_call6.v5 main_call6.v6 mulf,
    TRef.unary (.of main_c_20) main_call6.v7 (sitofp .f32),
    TRef.nullary main_call6.cst_1 (constant S_ .f32 0x47800000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S65536x64_S64_d0 h_S_),
    TRef.unary main_call6.v8 main_call6.v10 (broadcastInDim S64 ![] bcast_S_S64),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S64 ![] bcast_S_S64),
    TRef.ternary main_call6.v12 main_call6.v11 main_call6.call0.v1 main_call6.call0.v2 (fun p a b => select (broadcastInDim S64 ![] bcast_S_S64 p) a b),
    unary main_v151 main_v153 (broadcastInDim S1x64 ![1] bcast_S64_S1x64_1 : (⟨S64, .f32⟩ : BufTy).Contents (Elt F) → (⟨S1x64, .f32⟩ : BufTy).Contents (Elt F)),
    unary main_v153 main_v154 (broadcastInDim S65536x64 ![0, 1] bcast_S1x64_S65536x64_0_1 : (⟨S1x64, .f32⟩ : BufTy).Contents (Elt F) → (⟨S65536x64, .f32⟩ : BufTy).Contents (Elt F)),
    binary main_v144 main_v154 main_v155 (subf : (⟨S65536x64, .f32⟩ : BufTy).Contents (Elt F) → (⟨S65536x64, .f32⟩ : BufTy).Contents (Elt F) → (⟨S65536x64, .f32⟩ : BufTy).Contents (Elt F)),
    nullary main_cst_21 (constant S_ .f32 0x3727C5AC#32) ]

/-- Operations 271 … 291 of 569. -/
noncomputable abbrev ops3_0 : List (HloOp τ sig (Elt F)) :=
  [ unary main_cst_21 main_v156 (broadcastInDim S64 ![] bcast_S_S64 : (⟨S_, .f32⟩ : BufTy).Contents (Elt F) → (⟨S64, .f32⟩ : BufTy).Contents (Elt F)),
    binary main_v152 main_v156 main_v157 (addf : (⟨S64, .f32⟩ : BufTy).Contents (Elt F) → (⟨S64, .f32⟩ : BufTy).Contents (Elt F) → (⟨S64, .f32⟩ : BufTy).Contents (Elt F)),
    unary main_v157 main_v158 (Host.rsqrt : (⟨S64, .f32⟩ : BufTy).Contents (Elt F) → (⟨S64, .f32⟩ : BufTy).Contents (Elt F)),
    unary main_v158 main_v159 (broadcastInDim S1x64 ![1] bcast_S64_S1x64_1 : (⟨S64, .f32⟩ : BufTy).Contents (Elt F) → (⟨S1x64, .f32⟩ : BufTy).Contents (Elt F)),
    unary main_v159 main_v160 (broadcastInDim S65536x64 ![0, 1] bcast_S1x64_S65536x64_0_1 : (⟨S1x64, .f32⟩ : BufTy).Contents (Elt F) → (⟨S65536x64, .f32⟩ : BufTy).Contents (Elt F)),
    binary main_v155 main_v160 main_v161 (mulf : (⟨S65536x64, .f32⟩ : BufTy).Contents (Elt F) → (⟨S65536x64, .f32⟩ : BufTy).Contents (Elt F) → (⟨S65536x64, .f32⟩ : BufTy).Contents (Elt F)),
    unary main_v146 main_v162 (broadcastInDim S1x64 ![1] bcast_S64_S1x64_1 : (⟨S64, .f32⟩ : BufTy).Contents (Elt F) → (⟨S1x64, .f32⟩ : BufTy).Contents (Elt F)),
    unary main_v162 main_v163 (broadcastInDim S65536x64 ![0, 1] bcast_S1x64_S65536x64_0_1 : (⟨S1x64, .f32⟩ : BufTy).Contents (Elt F) → (⟨S65536x64, .f32⟩ : BufTy).Contents (Elt F)),
    binary main_v161 main_v163 main_v164 (mulf : (⟨S65536x64, .f32⟩ : BufTy).Contents (Elt F) → (⟨S65536x64, .f32⟩ : BufTy).Contents (Elt F) → (⟨S65536x64, .f32⟩ : BufTy).Contents (Elt F)),
    unary main_v148 main_v165 (broadcastInDim S1x64 ![1] bcast_S64_S1x64_1 : (⟨S64, .f32⟩ : BufTy).Contents (Elt F) → (⟨S1x64, .f32⟩ : BufTy).Contents (Elt F)),
    unary main_v165 main_v166 (broadcastInDim S65536x64 ![0, 1] bcast_S1x64_S65536x64_0_1 : (⟨S1x64, .f32⟩ : BufTy).Contents (Elt F) → (⟨S65536x64, .f32⟩ : BufTy).Contents (Elt F)),
    binary main_v164 main_v166 main_v167 (addf : (⟨S65536x64, .f32⟩ : BufTy).Contents (Elt F) → (⟨S65536x64, .f32⟩ : BufTy).Contents (Elt F) → (⟨S65536x64, .f32⟩ : BufTy).Contents (Elt F)),
    TRef.nullary main_call7.cst (constant S_ .f32 0x00000000#32),
    TRef.unary main_call7.cst main_call7.v0 (broadcastInDim S65536x64 ![] bcast_S_S65536x64),
    TRef.binary (.of main_v167) main_call7.v0 main_call7.v1 maximumf,
    binary main_v168 main_v88 main_v169 (addf : (⟨S65536x64, .f32⟩ : BufTy).Contents (Elt F) → (⟨S65536x64, .f32⟩ : BufTy).Contents (Elt F) → (⟨S65536x64, .f32⟩ : BufTy).Contents (Elt F)),
    nullary main_c_22 (constantI S_ 32 0#32),
    unary main_c_22 main_v170 (broadcastInDim S1048576 ![] bcast_S_S1048576 : (⟨S_, .i32⟩ : BufTy).Contents (Elt F) → (⟨S1048576, .i32⟩ : BufTy).Contents (Elt F)),
    binary main_v1 main_v170 main_v171 (cmpi .slt : (⟨S1048576, .i32⟩ : BufTy).Contents (Elt F) → (⟨S1048576, .i32⟩ : BufTy).Contents (Elt F) → (⟨S1048576, .i1⟩ : BufTy).Contents (Elt F)),
    nullary main_c_23 (constantI S_ 32 65536#32),
    unary main_c_23 main_v172 (broadcastInDim S1048576 ![] bcast_S_S1048576 : (⟨S_, .i32⟩ : BufTy).Contents (Elt F) → (⟨S1048576, .i32⟩ : BufTy).Contents (Elt F)) ]

/-- Operations 292 … 312 of 569. -/
noncomputable abbrev ops3_1 : List (HloOp τ sig (Elt F)) :=
  [ binary main_v1 main_v172 main_v173 (addi : (⟨S1048576, .i32⟩ : BufTy).Contents (Elt F) → (⟨S1048576, .i32⟩ : BufTy).Contents (Elt F) → (⟨S1048576, .i32⟩ : BufTy).Contents (Elt F)),
    ternary main_v171 main_v173 main_v1 main_v174 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v174 main_v175 (broadcastInDim S1048576x1 ![0] bcast_S1048576_S1048576x1_0 : (⟨S1048576, .i32⟩ : BufTy).Contents (Elt F) → (⟨S1048576x1, .i32⟩ : BufTy).Contents (Elt F)),
    binary main_v169 main_v175 main_v176 ((fun x i => Host.gather gather_S65536x64_S1048576x1_S1048576x64_1_0_n_n_0_1_164 x i) : (⟨S65536x64, .f32⟩ : BufTy).Contents (Elt F) → (⟨S1048576x1, .i32⟩ : BufTy).Contents (Elt F) → (⟨S1048576x64, .f32⟩ : BufTy).Contents (Elt F)),
    nullary main_cst_24 (constant S_ .f32 0x00000000#32),
    unary main_cst_24 main_v177 (broadcastInDim S65536x64 ![] bcast_S_S65536x64 : (⟨S_, .f32⟩ : BufTy).Contents (Elt F) → (⟨S65536x64, .f32⟩ : BufTy).Contents (Elt F)),
    unary main_v3 main_v178 (broadcastInDim S1048576x1 ![0] bcast_S1048576_S1048576x1_0 : (⟨S1048576, .i32⟩ : BufTy).Contents (Elt F) → (⟨S1048576x1, .i32⟩ : BufTy).Contents (Elt F)),
    ternary main_v177 main_v178 main_v176 main_v179 ((fun x i u => Host.scatterAdd scatter_S65536x64_S1048576x1_S1048576x64_1_0_0_1 x i u) : (⟨S65536x64, .f32⟩ : BufTy).Contents (Elt F) → (⟨S1048576x1, .i32⟩ : BufTy).Contents (Elt F) → (⟨S1048576x64, .f32⟩ : BufTy).Contents (Elt F) → (⟨S65536x64, .f32⟩ : BufTy).Contents (Elt F)),
    unary main_arg5 main_v180 ((extractStridedSlice S1 ![2] · slices_S4_S1_2) : (⟨S4, .f32⟩ : BufTy).Contents (Elt F) → (⟨S1, .f32⟩ : BufTy).Contents (Elt F)),
    reshape main_v180 main_v181 rfl shapeCasts_S1_S_,
    nullary main_cst_25 (constant S_ .f32 0x3F800000#32),
    binary main_cst_25 main_v181 main_v182 (addf : (⟨S_, .f32⟩ : BufTy).Contents (Elt F) → (⟨S_, .f32⟩ : BufTy).Contents (Elt F) → (⟨S_, .f32⟩ : BufTy).Contents (Elt F)),
    unary main_v182 main_v183 (broadcastInDim S65536x64 ![] bcast_S_S65536x64 : (⟨S_, .f32⟩ : BufTy).Contents (Elt F) → (⟨S65536x64, .f32⟩ : BufTy).Contents (Elt F)),
    binary main_v183 main_v169 main_v184 (mulf : (⟨S65536x64, .f32⟩ : BufTy).Contents (Elt F) → (⟨S65536x64, .f32⟩ : BufTy).Contents (Elt F) → (⟨S65536x64, .f32⟩ : BufTy).Contents (Elt F)),
    binary main_v184 main_v179 main_v185 (addf : (⟨S65536x64, .f32⟩ : BufTy).Contents (Elt F) → (⟨S65536x64, .f32⟩ : BufTy).Contents (Elt F) → (⟨S65536x64, .f32⟩ : BufTy).Contents (Elt F)),
    unary main_arg6 main_v186 ((extractStridedSlice S1x64x128 ![2, 0, 0] · slices_S4x64x128_S1x64x128_2_0_0) : (⟨S4x64x128, .f32⟩ : BufTy).Contents (Elt F) → (⟨S1x64x128, .f32⟩ : BufTy).Contents (Elt F)),
    reshape main_v186 main_v187 rfl shapeCasts_S1x64x128_S64x128,
    binary main_v185 main_v187 main_v188 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)),
    unary main_arg7 main_v189 ((extractStridedSlice S1x128 ![2, 0] · slices_S4x128_S1x128_2_0) : (⟨S4x128, .f32⟩ : BufTy).Contents (Elt F) → (⟨S1x128, .f32⟩ : BufTy).Contents (Elt F)),
    reshape main_v189 main_v190 rfl shapeCasts_S1x128_S128,
    unary main_v190 main_v191 (broadcastInDim S1x128 ![1] bcast_S128_S1x128_1 : (⟨S128, .f32⟩ : BufTy).Contents (Elt F) → (⟨S1x128, .f32⟩ : BufTy).Contents (Elt F)) ]

/-- Operations 313 … 333 of 569. -/
noncomputable abbrev ops3_2 : List (HloOp τ sig (Elt F)) :=
  [ unary main_v191 main_v192 (broadcastInDim S65536x128 ![0, 1] bcast_S1x128_S65536x128_0_1 : (⟨S1x128, .f32⟩ : BufTy).Contents (Elt F) → (⟨S65536x128, .f32⟩ : BufTy).Contents (Elt F)),
    binary main_v188 main_v192 main_v193 (addf : (⟨S65536x128, .f32⟩ : BufTy).Contents (Elt F) → (⟨S65536x128, .f32⟩ : BufTy).Contents (Elt F) → (⟨S65536x128, .f32⟩ : BufTy).Contents (Elt F)),
    unary main_arg8 main_v194 ((extractStridedSlice S1x128 ![2, 0] · slices_S4x128_S1x128_2_0) : (⟨S4x128, .f32⟩ : BufTy).Contents (Elt F) → (⟨S1x128, .f32⟩ : BufTy).Contents (Elt F)),
    reshape main_v194 main_v195 rfl shapeCasts_S1x128_S128,
    unary main_arg9 main_v196 ((extractStridedSlice S1x128 ![2, 0] · slices_S4x128_S1x128_2_0) : (⟨S4x128, .f32⟩ : BufTy).Contents (Elt F) → (⟨S1x128, .f32⟩ : BufTy).Contents (Elt F)),
    reshape main_v196 main_v197 rfl shapeCasts_S1x128_S128,
    nullary main_cst_26 (constant S_ .f32 0x00000000#32),
    binary main_v193 main_cst_26 main_v198 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)),
    nullary main_cst_27 (constant S_ .f32 0x47800000#32),
    unary main_cst_27 main_v199 (broadcastInDim S128 ![] bcast_S_S128 : (⟨S_, .f32⟩ : BufTy).Contents (Elt F) → (⟨S128, .f32⟩ : BufTy).Contents (Elt F)),
    binary main_v198 main_v199 main_v200 (Host.divf : (⟨S128, .f32⟩ : BufTy).Contents (Elt F) → (⟨S128, .f32⟩ : BufTy).Contents (Elt F) → (⟨S128, .f32⟩ : BufTy).Contents (Elt F)),
    nullary main_c_28 (constantI S_ 32 0#32),
    TRef.nullary main_call8.cst (constant S_ .f32 0x00000000#32),
    TRef.binary (.of main_v193) main_call8.cst main_call8.v0 (fun x v => Host.reduceAdd x v reducesTo_S65536x128_S128_d0 h_S_),
    TRef.unary main_call8.v0 main_call8.v1 (broadcastInDim S1x128 ![1] bcast_S128_S1x128_1),
    TRef.nullary main_call8.cst_0 (constant S_ .f32 0x47800000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S65536x128 ![0, 1] bcast_S1x128_S65536x128_0_1),
    TRef.binary (.of main_v193) main_call8.v4 main_call8.v5 subf,
    TRef.binary main_call8.v5 main_call8.v5 main_call8.v6 mulf ]

/-- Operations 334 … 353 of 569. -/
noncomputable abbrev ops3_3 : List (HloOp τ sig (Elt F)) :=
  [ TRef.unary (.of main_c_28) main_call8.v7 (sitofp .f32),
    TRef.nullary main_call8.cst_1 (constant S_ .f32 0x47800000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S65536x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S128 ![] bcast_S_S128),
    TRef.ternary main_call8.v12 main_call8.v11 main_call8.call0.v1 main_call8.call0.v2 (fun p a b => select (broadcastInDim S128 ![] bcast_S_S128 p) a b),
    unary main_v200 main_v202 (broadcastInDim S1x128 ![1] bcast_S128_S1x128_1 : (⟨S128, .f32⟩ : BufTy).Contents (Elt F) → (⟨S1x128, .f32⟩ : BufTy).Contents (Elt F)),
    unary main_v202 main_v203 (broadcastInDim S65536x128 ![0, 1] bcast_S1x128_S65536x128_0_1 : (⟨S1x128, .f32⟩ : BufTy).Contents (Elt F) → (⟨S65536x128, .f32⟩ : BufTy).Contents (Elt F)),
    binary main_v193 main_v203 main_v204 (subf : (⟨S65536x128, .f32⟩ : BufTy).Contents (Elt F) → (⟨S65536x128, .f32⟩ : BufTy).Contents (Elt F) → (⟨S65536x128, .f32⟩ : BufTy).Contents (Elt F)),
    nullary main_cst_29 (constant S_ .f32 0x3727C5AC#32),
    unary main_cst_29 main_v205 (broadcastInDim S128 ![] bcast_S_S128 : (⟨S_, .f32⟩ : BufTy).Contents (Elt F) → (⟨S128, .f32⟩ : BufTy).Contents (Elt F)),
    binary main_v201 main_v205 main_v206 (addf : (⟨S128, .f32⟩ : BufTy).Contents (Elt F) → (⟨S128, .f32⟩ : BufTy).Contents (Elt F) → (⟨S128, .f32⟩ : BufTy).Contents (Elt F)),
    unary main_v206 main_v207 (Host.rsqrt : (⟨S128, .f32⟩ : BufTy).Contents (Elt F) → (⟨S128, .f32⟩ : BufTy).Contents (Elt F)) ]

/-- Operations 354 … 375 of 569. -/
noncomputable abbrev ops4_0 : List (HloOp τ sig (Elt F)) :=
  [ unary main_v207 main_v208 (broadcastInDim S1x128 ![1] bcast_S128_S1x128_1 : (⟨S128, .f32⟩ : BufTy).Contents (Elt F) → (⟨S1x128, .f32⟩ : BufTy).Contents (Elt F)),
    unary main_v208 main_v209 (broadcastInDim S65536x128 ![0, 1] bcast_S1x128_S65536x128_0_1 : (⟨S1x128, .f32⟩ : BufTy).Contents (Elt F) → (⟨S65536x128, .f32⟩ : BufTy).Contents (Elt F)),
    binary main_v204 main_v209 main_v210 (mulf : (⟨S65536x128, .f32⟩ : BufTy).Contents (Elt F) → (⟨S65536x128, .f32⟩ : BufTy).Contents (Elt F) → (⟨S65536x128, .f32⟩ : BufTy).Contents (Elt F)),
    unary main_v195 main_v211 (broadcastInDim S1x128 ![1] bcast_S128_S1x128_1 : (⟨S128, .f32⟩ : BufTy).Contents (Elt F) → (⟨S1x128, .f32⟩ : BufTy).Contents (Elt F)),
    unary main_v211 main_v212 (broadcastInDim S65536x128 ![0, 1] bcast_S1x128_S65536x128_0_1 : (⟨S1x128, .f32⟩ : BufTy).Contents (Elt F) → (⟨S65536x128, .f32⟩ : BufTy).Contents (Elt F)),
    binary main_v210 main_v212 main_v213 (mulf : (⟨S65536x128, .f32⟩ : BufTy).Contents (Elt F) → (⟨S65536x128, .f32⟩ : BufTy).Contents (Elt F) → (⟨S65536x128, .f32⟩ : BufTy).Contents (Elt F)),
    unary main_v197 main_v214 (broadcastInDim S1x128 ![1] bcast_S128_S1x128_1 : (⟨S128, .f32⟩ : BufTy).Contents (Elt F) → (⟨S1x128, .f32⟩ : BufTy).Contents (Elt F)),
    unary main_v214 main_v215 (broadcastInDim S65536x128 ![0, 1] bcast_S1x128_S65536x128_0_1 : (⟨S1x128, .f32⟩ : BufTy).Contents (Elt F) → (⟨S65536x128, .f32⟩ : BufTy).Contents (Elt F)),
    binary main_v213 main_v215 main_v216 (addf : (⟨S65536x128, .f32⟩ : BufTy).Contents (Elt F) → (⟨S65536x128, .f32⟩ : BufTy).Contents (Elt F) → (⟨S65536x128, .f32⟩ : BufTy).Contents (Elt F)),
    TRef.nullary main_call9.cst (constant S_ .f32 0x00000000#32),
    TRef.unary main_call9.cst main_call9.v0 (broadcastInDim S65536x128 ![] bcast_S_S65536x128),
    TRef.binary (.of main_v216) main_call9.v0 main_call9.v1 maximumf,
    unary main_arg10 main_v218 ((extractStridedSlice S1x128x64 ![2, 0, 0] · slices_S4x128x64_S1x128x64_2_0_0) : (⟨S4x128x64, .f32⟩ : BufTy).Contents (Elt F) → (⟨S1x128x64, .f32⟩ : BufTy).Contents (Elt F)),
    reshape main_v218 main_v219 rfl shapeCasts_S1x128x64_S128x64,
    binary main_v217 main_v219 main_v220 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)),
    unary main_arg11 main_v221 ((extractStridedSlice S1x64 ![2, 0] · slices_S4x64_S1x64_2_0) : (⟨S4x64, .f32⟩ : BufTy).Contents (Elt F) → (⟨S1x64, .f32⟩ : BufTy).Contents (Elt F)),
    reshape main_v221 main_v222 rfl shapeCasts_S1x64_S64,
    unary main_v222 main_v223 (broadcastInDim S1x64 ![1] bcast_S64_S1x64_1 : (⟨S64, .f32⟩ : BufTy).Contents (Elt F) → (⟨S1x64, .f32⟩ : BufTy).Contents (Elt F)),
    unary main_v223 main_v224 (broadcastInDim S65536x64 ![0, 1] bcast_S1x64_S65536x64_0_1 : (⟨S1x64, .f32⟩ : BufTy).Contents (Elt F) → (⟨S65536x64, .f32⟩ : BufTy).Contents (Elt F)),
    binary main_v220 main_v224 main_v225 (addf : (⟨S65536x64, .f32⟩ : BufTy).Contents (Elt F) → (⟨S65536x64, .f32⟩ : BufTy).Contents (Elt F) → (⟨S65536x64, .f32⟩ : BufTy).Contents (Elt F)),
    unary main_arg12 main_v226 ((extractStridedSlice S1x64 ![2, 0] · slices_S4x64_S1x64_2_0) : (⟨S4x64, .f32⟩ : BufTy).Contents (Elt F) → (⟨S1x64, .f32⟩ : BufTy).Contents (Elt F)),
    reshape main_v226 main_v227 rfl shapeCasts_S1x64_S64 ]

/-- Operations 376 … 396 of 569. -/
noncomputable abbrev ops4_1 : List (HloOp τ sig (Elt F)) :=
  [ unary main_arg13 main_v228 ((extractStridedSlice S1x64 ![2, 0] · slices_S4x64_S1x64_2_0) : (⟨S4x64, .f32⟩ : BufTy).Contents (Elt F) → (⟨S1x64, .f32⟩ : BufTy).Contents (Elt F)),
    reshape main_v228 main_v229 rfl shapeCasts_S1x64_S64,
    nullary main_cst_30 (constant S_ .f32 0x00000000#32),
    binary main_v225 main_cst_30 main_v230 ((fun x v => Host.reduceAdd x v reducesTo_S65536x64_S64_d0 h_S_) : (⟨S65536x64, .f32⟩ : BufTy).Contents (Elt F) → (⟨S_, .f32⟩ : BufTy).Contents (Elt F) → (⟨S64, .f32⟩ : BufTy).Contents (Elt F)),
    nullary main_cst_31 (constant S_ .f32 0x47800000#32),
    unary main_cst_31 main_v231 (broadcastInDim S64 ![] bcast_S_S64 : (⟨S_, .f32⟩ : BufTy).Contents (Elt F) → (⟨S64, .f32⟩ : BufTy).Contents (Elt F)),
    binary main_v230 main_v231 main_v232 (Host.divf : (⟨S64, .f32⟩ : BufTy).Contents (Elt F) → (⟨S64, .f32⟩ : BufTy).Contents (Elt F) → (⟨S64, .f32⟩ : BufTy).Contents (Elt F)),
    nullary main_c_32 (constantI S_ 32 0#32),
    TRef.nullary main_call10.cst (constant S_ .f32 0x00000000#32),
    TRef.binary (.of main_v225) main_call10.cst main_call10.v0 (fun x v => Host.reduceAdd x v reducesTo_S65536x64_S64_d0 h_S_),
    TRef.unary main_call10.v0 main_call10.v1 (broadcastInDim S1x64 ![1] bcast_S64_S1x64_1),
    TRef.nullary main_call10.cst_0 (constant S_ .f32 0x47800000#32),
    TRef.unary main_call10.cst_0 main_call10.v2 (broadcastInDim S1x64 ![] bcast_S_S1x64),
    TRef.binary main_call10.v1 main_call10.v2 main_call10.v3 Host.divf,
    TRef.unary main_call10.v3 main_call10.v4 (broadcastInDim S65536x64 ![0, 1] bcast_S1x64_S65536x64_0_1),
    TRef.binary (.of main_v225) main_call10.v4 main_call10.v5 subf,
    TRef.binary main_call10.v5 main_call10.v5 main_call10.v6 mulf,
    TRef.unary (.of main_c_32) main_call10.v7 (sitofp .f32),
    TRef.nullary main_call10.cst_1 (constant S_ .f32 0x47800000#32),
    TRef.binary main_call10.cst_1 main_call10.v7 main_call10.v8 subf,
    TRef.nullary main_call10.cst_2 (constant S_ .f32 0x00000000#32) ]

/-- Operations 397 … 417 of 569. -/
noncomputable abbrev ops4_2 : List (HloOp τ sig (Elt F)) :=
  [ TRef.binary main_call10.v6 main_call10.cst_2 main_call10.v9 (fun x v => Host.reduceAdd x v reducesTo_S65536x64_S64_d0 h_S_),
    TRef.unary main_call10.v8 main_call10.v10 (broadcastInDim S64 ![] bcast_S_S64),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10.call0.v0 id,
    TRef.unary main_call10.call0.v0 main_call10.call0.v1 (broadcastInDim S64 ![] bcast_S_S64),
    TRef.ternary main_call10.v12 main_call10.v11 main_call10.call0.v1 main_call10.call0.v2 (fun p a b => select (broadcastInDim S64 ![] bcast_S_S64 p) a b),
    unary main_v232 main_v234 (broadcastInDim S1x64 ![1] bcast_S64_S1x64_1 : (⟨S64, .f32⟩ : BufTy).Contents (Elt F) → (⟨S1x64, .f32⟩ : BufTy).Contents (Elt F)),
    unary main_v234 main_v235 (broadcastInDim S65536x64 ![0, 1] bcast_S1x64_S65536x64_0_1 : (⟨S1x64, .f32⟩ : BufTy).Contents (Elt F) → (⟨S65536x64, .f32⟩ : BufTy).Contents (Elt F)),
    binary main_v225 main_v235 main_v236 (subf : (⟨S65536x64, .f32⟩ : BufTy).Contents (Elt F) → (⟨S65536x64, .f32⟩ : BufTy).Contents (Elt F) → (⟨S65536x64, .f32⟩ : BufTy).Contents (Elt F)),
    nullary main_cst_33 (constant S_ .f32 0x3727C5AC#32),
    unary main_cst_33 main_v237 (broadcastInDim S64 ![] bcast_S_S64 : (⟨S_, .f32⟩ : BufTy).Contents (Elt F) → (⟨S64, .f32⟩ : BufTy).Contents (Elt F)),
    binary main_v233 main_v237 main_v238 (addf : (⟨S64, .f32⟩ : BufTy).Contents (Elt F) → (⟨S64, .f32⟩ : BufTy).Contents (Elt F) → (⟨S64, .f32⟩ : BufTy).Contents (Elt F)),
    unary main_v238 main_v239 (Host.rsqrt : (⟨S64, .f32⟩ : BufTy).Contents (Elt F) → (⟨S64, .f32⟩ : BufTy).Contents (Elt F)),
    unary main_v239 main_v240 (broadcastInDim S1x64 ![1] bcast_S64_S1x64_1 : (⟨S64, .f32⟩ : BufTy).Contents (Elt F) → (⟨S1x64, .f32⟩ : BufTy).Contents (Elt F)),
    unary main_v240 main_v241 (broadcastInDim S65536x64 ![0, 1] bcast_S1x64_S65536x64_0_1 : (⟨S1x64, .f32⟩ : BufTy).Contents (Elt F) → (⟨S65536x64, .f32⟩ : BufTy).Contents (Elt F)),
    binary main_v236 main_v241 main_v242 (mulf : (⟨S65536x64, .f32⟩ : BufTy).Contents (Elt F) → (⟨S65536x64, .f32⟩ : BufTy).Contents (Elt F) → (⟨S65536x64, .f32⟩ : BufTy).Contents (Elt F)),
    unary main_v227 main_v243 (broadcastInDim S1x64 ![1] bcast_S64_S1x64_1 : (⟨S64, .f32⟩ : BufTy).Contents (Elt F) → (⟨S1x64, .f32⟩ : BufTy).Contents (Elt F)),
    unary main_v243 main_v244 (broadcastInDim S65536x64 ![0, 1] bcast_S1x64_S65536x64_0_1 : (⟨S1x64, .f32⟩ : BufTy).Contents (Elt F) → (⟨S65536x64, .f32⟩ : BufTy).Contents (Elt F)) ]

/-- Operations 418 … 438 of 569. -/
noncomputable abbrev ops4_3 : List (HloOp τ sig (Elt F)) :=
  [ binary main_v242 main_v244 main_v245 (mulf : (⟨S65536x64, .f32⟩ : BufTy).Contents (Elt F) → (⟨S65536x64, .f32⟩ : BufTy).Contents (Elt F) → (⟨S65536x64, .f32⟩ : BufTy).Contents (Elt F)),
    unary main_v229 main_v246 (broadcastInDim S1x64 ![1] bcast_S64_S1x64_1 : (⟨S64, .f32⟩ : BufTy).Contents (Elt F) → (⟨S1x64, .f32⟩ : BufTy).Contents (Elt F)),
    unary main_v246 main_v247 (broadcastInDim S65536x64 ![0, 1] bcast_S1x64_S65536x64_0_1 : (⟨S1x64, .f32⟩ : BufTy).Contents (Elt F) → (⟨S65536x64, .f32⟩ : BufTy).Contents (Elt F)),
    binary main_v245 main_v247 main_v248 (addf : (⟨S65536x64, .f32⟩ : BufTy).Contents (Elt F) → (⟨S65536x64, .f32⟩ : BufTy).Contents (Elt F) → (⟨S65536x64, .f32⟩ : BufTy).Contents (Elt F)),
    TRef.nullary main_call11.cst (constant S_ .f32 0x00000000#32),
    TRef.unary main_call11.cst main_call11.v0 (broadcastInDim S65536x64 ![] bcast_S_S65536x64),
    TRef.binary (.of main_v248) main_call11.v0 main_call11.v1 maximumf,
    binary main_v249 main_v169 main_v250 (addf : (⟨S65536x64, .f32⟩ : BufTy).Contents (Elt F) → (⟨S65536x64, .f32⟩ : BufTy).Contents (Elt F) → (⟨S65536x64, .f32⟩ : BufTy).Contents (Elt F)),
    nullary main_c_34 (constantI S_ 32 0#32),
    unary main_c_34 main_v251 (broadcastInDim S1048576 ![] bcast_S_S1048576 : (⟨S_, .i32⟩ : BufTy).Contents (Elt F) → (⟨S1048576, .i32⟩ : BufTy).Contents (Elt F)),
    binary main_v1 main_v251 main_v252 (cmpi .slt : (⟨S1048576, .i32⟩ : BufTy).Contents (Elt F) → (⟨S1048576, .i32⟩ : BufTy).Contents (Elt F) → (⟨S1048576, .i1⟩ : BufTy).Contents (Elt F)),
    nullary main_c_35 (constantI S_ 32 65536#32),
    unary main_c_35 main_v253 (broadcastInDim S1048576 ![] bcast_S_S1048576 : (⟨S_, .i32⟩ : BufTy).Contents (Elt F) → (⟨S1048576, .i32⟩ : BufTy).Contents (Elt F)),
    binary main_v1 main_v253 main_v254 (addi : (⟨S1048576, .i32⟩ : BufTy).Contents (Elt F) → (⟨S1048576, .i32⟩ : BufTy).Contents (Elt F) → (⟨S1048576, .i32⟩ : BufTy).Contents (Elt F)),
    ternary main_v252 main_v254 main_v1 main_v255 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v255 main_v256 (broadcastInDim S1048576x1 ![0] bcast_S1048576_S1048576x1_0 : (⟨S1048576, .i32⟩ : BufTy).Contents (Elt F) → (⟨S1048576x1, .i32⟩ : BufTy).Contents (Elt F)),
    binary main_v250 main_v256 main_v257 ((fun x i => Host.gather gather_S65536x64_S1048576x1_S1048576x64_1_0_n_n_0_1_164 x i) : (⟨S65536x64, .f32⟩ : BufTy).Contents (Elt F) → (⟨S1048576x1, .i32⟩ : BufTy).Contents (Elt F) → (⟨S1048576x64, .f32⟩ : BufTy).Contents (Elt F)),
    nullary main_cst_36 (constant S_ .f32 0x00000000#32),
    unary main_cst_36 main_v258 (broadcastInDim S65536x64 ![] bcast_S_S65536x64 : (⟨S_, .f32⟩ : BufTy).Contents (Elt F) → (⟨S65536x64, .f32⟩ : BufTy).Contents (Elt F)),
    unary main_v3 main_v259 (broadcastInDim S1048576x1 ![0] bcast_S1048576_S1048576x1_0 : (⟨S1048576, .i32⟩ : BufTy).Contents (Elt F) → (⟨S1048576x1, .i32⟩ : BufTy).Contents (Elt F)),
    ternary main_v258 main_v259 main_v257 main_v260 ((fun x i u => Host.scatterAdd scatter_S65536x64_S1048576x1_S1048576x64_1_0_0_1 x i u) : (⟨S65536x64, .f32⟩ : BufTy).Contents (Elt F) → (⟨S1048576x1, .i32⟩ : BufTy).Contents (Elt F) → (⟨S1048576x64, .f32⟩ : BufTy).Contents (Elt F) → (⟨S65536x64, .f32⟩ : BufTy).Contents (Elt F)) ]

/-- Operations 439 … 459 of 569. -/
noncomputable abbrev ops5_0 : List (HloOp τ sig (Elt F)) :=
  [ unary main_arg5 main_v261 ((extractStridedSlice S1 ![3] · slices_S4_S1_3) : (⟨S4, .f32⟩ : BufTy).Contents (Elt F) → (⟨S1, .f32⟩ : BufTy).Contents (Elt F)),
    reshape main_v261 main_v262 rfl shapeCasts_S1_S_,
    nullary main_cst_37 (constant S_ .f32 0x3F800000#32),
    binary main_cst_37 main_v262 main_v263 (addf : (⟨S_, .f32⟩ : BufTy).Contents (Elt F) → (⟨S_, .f32⟩ : BufTy).Contents (Elt F) → (⟨S_, .f32⟩ : BufTy).Contents (Elt F)),
    unary main_v263 main_v264 (broadcastInDim S65536x64 ![] bcast_S_S65536x64 : (⟨S_, .f32⟩ : BufTy).Contents (Elt F) → (⟨S65536x64, .f32⟩ : BufTy).Contents (Elt F)),
    binary main_v264 main_v250 main_v265 (mulf : (⟨S65536x64, .f32⟩ : BufTy).Contents (Elt F) → (⟨S65536x64, .f32⟩ : BufTy).Contents (Elt F) → (⟨S65536x64, .f32⟩ : BufTy).Contents (Elt F)),
    binary main_v265 main_v260 main_v266 (addf : (⟨S65536x64, .f32⟩ : BufTy).Contents (Elt F) → (⟨S65536x64, .f32⟩ : BufTy).Contents (Elt F) → (⟨S65536x64, .f32⟩ : BufTy).Contents (Elt F)),
    unary main_arg6 main_v267 ((extractStridedSlice S1x64x128 ![3, 0, 0] · slices_S4x64x128_S1x64x128_3_0_0) : (⟨S4x64x128, .f32⟩ : BufTy).Contents (Elt F) → (⟨S1x64x128, .f32⟩ : BufTy).Contents (Elt F)),
    reshape main_v267 main_v268 rfl shapeCasts_S1x64x128_S64x128,
    binary main_v266 main_v268 main_v269 ((fun l r => Host.dotGeneral dot_S65536x64_S64x128_S65536x128_1_0_0_1_n_n none l r) : (⟨S65536x64, .f32⟩ : BufTy).Contents (Elt F) → (⟨S64x128, .f32⟩ : BufTy).Contents (Elt F) → (⟨S65536x128, .f32⟩ : BufTy).Contents (Elt F)),
    unary main_arg7 main_v270 ((extractStridedSlice S1x128 ![3, 0] · slices_S4x128_S1x128_3_0) : (⟨S4x128, .f32⟩ : BufTy).Contents (Elt F) → (⟨S1x128, .f32⟩ : BufTy).Contents (Elt F)),
    reshape main_v270 main_v271 rfl shapeCasts_S1x128_S128,
    unary main_v271 main_v272 (broadcastInDim S1x128 ![1] bcast_S128_S1x128_1 : (⟨S128, .f32⟩ : BufTy).Contents (Elt F) → (⟨S1x128, .f32⟩ : BufTy).Contents (Elt F)),
    unary main_v272 main_v273 (broadcastInDim S65536x128 ![0, 1] bcast_S1x128_S65536x128_0_1 : (⟨S1x128, .f32⟩ : BufTy).Contents (Elt F) → (⟨S65536x128, .f32⟩ : BufTy).Contents (Elt F)),
    binary main_v269 main_v273 main_v274 (addf : (⟨S65536x128, .f32⟩ : BufTy).Contents (Elt F) → (⟨S65536x128, .f32⟩ : BufTy).Contents (Elt F) → (⟨S65536x128, .f32⟩ : BufTy).Contents (Elt F)),
    unary main_arg8 main_v275 ((extractStridedSlice S1x128 ![3, 0] · slices_S4x128_S1x128_3_0) : (⟨S4x128, .f32⟩ : BufTy).Contents (Elt F) → (⟨S1x128, .f32⟩ : BufTy).Contents (Elt F)),
    reshape main_v275 main_v276 rfl shapeCasts_S1x128_S128,
    unary main_arg9 main_v277 ((extractStridedSlice S1x128 ![3, 0] · slices_S4x128_S1x128_3_0) : (⟨S4x128, .f32⟩ : BufTy).Contents (Elt F) → (⟨S1x128, .f32⟩ : BufTy).Contents (Elt F)),
    reshape main_v277 main_v278 rfl shapeCasts_S1x128_S128,
    nullary main_cst_38 (constant S_ .f32 0x00000000#32),
    binary main_v274 main_cst_38 main_v279 ((fun x v => Host.reduceAdd x v reducesTo_S65536x128_S128_d0 h_S_) : (⟨S65536x128, .f32⟩ : BufTy).Contents (Elt F) → (⟨S_, .f32⟩ : BufTy).Contents (Elt F) → (⟨S128, .f32⟩ : BufTy).Contents (Elt F)) ]

/-- Operations 460 … 480 of 569. -/
noncomputable abbrev ops5_1 : List (HloOp τ sig (Elt F)) :=
  [ nullary main_cst_39 (constant S_ .f32 0x47800000#32),
    unary main_cst_39 main_v280 (broadcastInDim S128 ![] bcast_S_S128 : (⟨S_, .f32⟩ : BufTy).Contents (Elt F) → (⟨S128, .f32⟩ : BufTy).Contents (Elt F)),
    binary main_v279 main_v280 main_v281 (Host.divf : (⟨S128, .f32⟩ : BufTy).Contents (Elt F) → (⟨S128, .f32⟩ : BufTy).Contents (Elt F) → (⟨S128, .f32⟩ : BufTy).Contents (Elt F)),
    nullary main_c_40 (constantI S_ 32 0#32),
    TRef.nullary main_call12.cst (constant S_ .f32 0x00000000#32),
    TRef.binary (.of main_v274) main_call12.cst main_call12.v0 (fun x v => Host.reduceAdd x v reducesTo_S65536x128_S128_d0 h_S_),
    TRef.unary main_call12.v0 main_call12.v1 (broadcastInDim S1x128 ![1] bcast_S128_S1x128_1),
    TRef.nullary main_call12.cst_0 (constant S_ .f32 0x47800000#32),
    TRef.unary main_call12.cst_0 main_call12.v2 (broadcastInDim S1x128 ![] bcast_S_S1x128),
    TRef.binary main_call12.v1 main_call12.v2 main_call12.v3 Host.divf,
    TRef.unary main_call12.v3 main_call12.v4 (broadcastInDim S65536x128 ![0, 1] bcast_S1x128_S65536x128_0_1),
    TRef.binary (.of main_v274) main_call12.v4 main_call12.v5 subf,
    TRef.binary main_call12.v5 main_call12.v5 main_call12.v6 mulf,
    TRef.unary (.of main_c_40) main_call12.v7 (sitofp .f32),
    TRef.nullary main_call12.cst_1 (constant S_ .f32 0x47800000#32),
    TRef.binary main_call12.cst_1 main_call12.v7 main_call12.v8 subf,
    TRef.nullary main_call12.cst_2 (constant S_ .f32 0x00000000#32),
    TRef.binary main_call12.v6 main_call12.cst_2 main_call12.v9 (fun x v => Host.reduceAdd x v reducesTo_S65536x128_S128_d0 h_S_),
    TRef.unary main_call12.v8 main_call12.v10 (broadcastInDim S128 ![] bcast_S_S128),
    TRef.binary main_call12.v9 main_call12.v10 main_call12.v11 Host.divf,
    TRef.nullary main_call12.cst_3 (constant S_ .f32 0x00000000#32) ]

/-- Operations 481 … 501 of 569. -/
noncomputable abbrev ops5_2 : List (HloOp τ sig (Elt F)) :=
  [ TRef.binary main_call12.v8 main_call12.cst_3 main_call12.v12 (cmpf .ogt),
    TRef.nullary main_call12.cst_4 (constant S_ .f32 0x7FC00000#32),
    TRef.unary main_call12.cst_4 main_call12.call0.v0 id,
    TRef.unary main_call12.call0.v0 main_call12.call0.v1 (broadcastInDim S128 ![] bcast_S_S128),
    TRef.ternary main_call12.v12 main_call12.v11 main_call12.call0.v1 main_call12.call0.v2 (fun p a b => select (broadcastInDim S128 ![] bcast_S_S128 p) a b),
    unary main_v281 main_v283 (broadcastInDim S1x128 ![1] bcast_S128_S1x128_1 : (⟨S128, .f32⟩ : BufTy).Contents (Elt F) → (⟨S1x128, .f32⟩ : BufTy).Contents (Elt F)),
    unary main_v283 main_v284 (broadcastInDim S65536x128 ![0, 1] bcast_S1x128_S65536x128_0_1 : (⟨S1x128, .f32⟩ : BufTy).Contents (Elt F) → (⟨S65536x128, .f32⟩ : BufTy).Contents (Elt F)),
    binary main_v274 main_v284 main_v285 (subf : (⟨S65536x128, .f32⟩ : BufTy).Contents (Elt F) → (⟨S65536x128, .f32⟩ : BufTy).Contents (Elt F) → (⟨S65536x128, .f32⟩ : BufTy).Contents (Elt F)),
    nullary main_cst_41 (constant S_ .f32 0x3727C5AC#32),
    unary main_cst_41 main_v286 (broadcastInDim S128 ![] bcast_S_S128 : (⟨S_, .f32⟩ : BufTy).Contents (Elt F) → (⟨S128, .f32⟩ : BufTy).Contents (Elt F)),
    binary main_v282 main_v286 main_v287 (addf : (⟨S128, .f32⟩ : BufTy).Contents (Elt F) → (⟨S128, .f32⟩ : BufTy).Contents (Elt F) → (⟨S128, .f32⟩ : BufTy).Contents (Elt F)),
    unary main_v287 main_v288 (Host.rsqrt : (⟨S128, .f32⟩ : BufTy).Contents (Elt F) → (⟨S128, .f32⟩ : BufTy).Contents (Elt F)),
    unary main_v288 main_v289 (broadcastInDim S1x128 ![1] bcast_S128_S1x128_1 : (⟨S128, .f32⟩ : BufTy).Contents (Elt F) → (⟨S1x128, .f32⟩ : BufTy).Contents (Elt F)),
    unary main_v289 main_v290 (broadcastInDim S65536x128 ![0, 1] bcast_S1x128_S65536x128_0_1 : (⟨S1x128, .f32⟩ : BufTy).Contents (Elt F) → (⟨S65536x128, .f32⟩ : BufTy).Contents (Elt F)),
    binary main_v285 main_v290 main_v291 (mulf : (⟨S65536x128, .f32⟩ : BufTy).Contents (Elt F) → (⟨S65536x128, .f32⟩ : BufTy).Contents (Elt F) → (⟨S65536x128, .f32⟩ : BufTy).Contents (Elt F)),
    unary main_v276 main_v292 (broadcastInDim S1x128 ![1] bcast_S128_S1x128_1 : (⟨S128, .f32⟩ : BufTy).Contents (Elt F) → (⟨S1x128, .f32⟩ : BufTy).Contents (Elt F)),
    unary main_v292 main_v293 (broadcastInDim S65536x128 ![0, 1] bcast_S1x128_S65536x128_0_1 : (⟨S1x128, .f32⟩ : BufTy).Contents (Elt F) → (⟨S65536x128, .f32⟩ : BufTy).Contents (Elt F)),
    binary main_v291 main_v293 main_v294 (mulf : (⟨S65536x128, .f32⟩ : BufTy).Contents (Elt F) → (⟨S65536x128, .f32⟩ : BufTy).Contents (Elt F) → (⟨S65536x128, .f32⟩ : BufTy).Contents (Elt F)),
    unary main_v278 main_v295 (broadcastInDim S1x128 ![1] bcast_S128_S1x128_1 : (⟨S128, .f32⟩ : BufTy).Contents (Elt F) → (⟨S1x128, .f32⟩ : BufTy).Contents (Elt F)),
    unary main_v295 main_v296 (broadcastInDim S65536x128 ![0, 1] bcast_S1x128_S65536x128_0_1 : (⟨S1x128, .f32⟩ : BufTy).Contents (Elt F) → (⟨S65536x128, .f32⟩ : BufTy).Contents (Elt F)),
    binary main_v294 main_v296 main_v297 (addf : (⟨S65536x128, .f32⟩ : BufTy).Contents (Elt F) → (⟨S65536x128, .f32⟩ : BufTy).Contents (Elt F) → (⟨S65536x128, .f32⟩ : BufTy).Contents (Elt F)) ]

/-- Operations 502 … 521 of 569. -/
noncomputable abbrev ops5_3 : List (HloOp τ sig (Elt F)) :=
  [ TRef.nullary main_call13.cst (constant S_ .f32 0x00000000#32),
    TRef.unary main_call13.cst main_call13.v0 (broadcastInDim S65536x128 ![] bcast_S_S65536x128),
    TRef.binary (.of main_v297) main_call13.v0 main_call13.v1 maximumf,
    unary main_arg10 main_v299 ((extractStridedSlice S1x128x64 ![3, 0, 0] · slices_S4x128x64_S1x128x64_3_0_0) : (⟨S4x128x64, .f32⟩ : BufTy).Contents (Elt F) → (⟨S1x128x64, .f32⟩ : BufTy).Contents (Elt F)),
    reshape main_v299 main_v300 rfl shapeCasts_S1x128x64_S128x64,
    binary main_v298 main_v300 main_v301 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)),
    unary main_arg11 main_v302 ((extractStridedSlice S1x64 ![3, 0] · slices_S4x64_S1x64_3_0) : (⟨S4x64, .f32⟩ : BufTy).Contents (Elt F) → (⟨S1x64, .f32⟩ : BufTy).Contents (Elt F)),
    reshape main_v302 main_v303 rfl shapeCasts_S1x64_S64,
    unary main_v303 main_v304 (broadcastInDim S1x64 ![1] bcast_S64_S1x64_1 : (⟨S64, .f32⟩ : BufTy).Contents (Elt F) → (⟨S1x64, .f32⟩ : BufTy).Contents (Elt F)),
    unary main_v304 main_v305 (broadcastInDim S65536x64 ![0, 1] bcast_S1x64_S65536x64_0_1 : (⟨S1x64, .f32⟩ : BufTy).Contents (Elt F) → (⟨S65536x64, .f32⟩ : BufTy).Contents (Elt F)),
    binary main_v301 main_v305 main_v306 (addf : (⟨S65536x64, .f32⟩ : BufTy).Contents (Elt F) → (⟨S65536x64, .f32⟩ : BufTy).Contents (Elt F) → (⟨S65536x64, .f32⟩ : BufTy).Contents (Elt F)),
    unary main_arg12 main_v307 ((extractStridedSlice S1x64 ![3, 0] · slices_S4x64_S1x64_3_0) : (⟨S4x64, .f32⟩ : BufTy).Contents (Elt F) → (⟨S1x64, .f32⟩ : BufTy).Contents (Elt F)),
    reshape main_v307 main_v308 rfl shapeCasts_S1x64_S64,
    unary main_arg13 main_v309 ((extractStridedSlice S1x64 ![3, 0] · slices_S4x64_S1x64_3_0) : (⟨S4x64, .f32⟩ : BufTy).Contents (Elt F) → (⟨S1x64, .f32⟩ : BufTy).Contents (Elt F)),
    reshape main_v309 main_v310 rfl shapeCasts_S1x64_S64,
    nullary main_cst_42 (constant S_ .f32 0x00000000#32),
    binary main_v306 main_cst_42 main_v311 ((fun x v => Host.reduceAdd x v reducesTo_S65536x64_S64_d0 h_S_) : (⟨S65536x64, .f32⟩ : BufTy).Contents (Elt F) → (⟨S_, .f32⟩ : BufTy).Contents (Elt F) → (⟨S64, .f32⟩ : BufTy).Contents (Elt F)),
    nullary main_cst_43 (constant S_ .f32 0x47800000#32),
    unary main_cst_43 main_v312 (broadcastInDim S64 ![] bcast_S_S64 : (⟨S_, .f32⟩ : BufTy).Contents (Elt F) → (⟨S64, .f32⟩ : BufTy).Contents (Elt F)),
    binary main_v311 main_v312 main_v313 (Host.divf : (⟨S64, .f32⟩ : BufTy).Contents (Elt F) → (⟨S64, .f32⟩ : BufTy).Contents (Elt F) → (⟨S64, .f32⟩ : BufTy).Contents (Elt F)) ]

/-- Operations 522 … 545 of 569. -/
noncomputable abbrev ops6_0 : List (HloOp τ sig (Elt F)) :=
  [ nullary main_c_44 (constantI S_ 32 0#32),
    TRef.nullary main_call14.cst (constant S_ .f32 0x00000000#32),
    TRef.binary (.of main_v306) main_call14.cst main_call14.v0 (fun x v => Host.reduceAdd x v reducesTo_S65536x64_S64_d0 h_S_),
    TRef.unary main_call14.v0 main_call14.v1 (broadcastInDim S1x64 ![1] bcast_S64_S1x64_1),
    TRef.nullary main_call14.cst_0 (constant S_ .f32 0x47800000#32),
    TRef.unary main_call14.cst_0 main_call14.v2 (broadcastInDim S1x64 ![] bcast_S_S1x64),
    TRef.binary main_call14.v1 main_call14.v2 main_call14.v3 Host.divf,
    TRef.unary main_call14.v3 main_call14.v4 (broadcastInDim S65536x64 ![0, 1] bcast_S1x64_S65536x64_0_1),
    TRef.binary (.of main_v306) main_call14.v4 main_call14.v5 subf,
    TRef.binary main_call14.v5 main_call14.v5 main_call14.v6 mulf,
    TRef.unary (.of main_c_44) main_call14.v7 (sitofp .f32),
    TRef.nullary main_call14.cst_1 (constant S_ .f32 0x47800000#32),
    TRef.binary main_call14.cst_1 main_call14.v7 main_call14.v8 subf,
    TRef.nullary main_call14.cst_2 (constant S_ .f32 0x00000000#32),
    TRef.binary main_call14.v6 main_call14.cst_2 main_call14.v9 (fun x v => Host.reduceAdd x v reducesTo_S65536x64_S64_d0 h_S_),
    TRef.unary main_call14.v8 main_call14.v10 (broadcastInDim S64 ![] bcast_S_S64),
    TRef.binary main_call14.v9 main_call14.v10 main_call14.v11 Host.divf,
    TRef.nullary main_call14.cst_3 (constant S_ .f32 0x00000000#32),
    TRef.binary main_call14.v8 main_call14.cst_3 main_call14.v12 (cmpf .ogt),
    TRef.nullary main_call14.cst_4 (constant S_ .f32 0x7FC00000#32),
    TRef.unary main_call14.cst_4 main_call14.call0.v0 id,
    TRef.unary main_call14.call0.v0 main_call14.call0.v1 (broadcastInDim S64 ![] bcast_S_S64),
    TRef.ternary main_call14.v12 main_call14.v11 main_call14.call0.v1 main_call14.call0.v2 (fun p a b => select (broadcastInDim S64 ![] bcast_S_S64 p) a b),
    unary main_v313 main_v315 (broadcastInDim S1x64 ![1] bcast_S64_S1x64_1 : (⟨S64, .f32⟩ : BufTy).Contents (Elt F) → (⟨S1x64, .f32⟩ : BufTy).Contents (Elt F)) ]

/-- Operations 546 … 569 of 569. -/
noncomputable abbrev ops6_1 : List (HloOp τ sig (Elt F)) :=
  [ unary main_v315 main_v316 (broadcastInDim S65536x64 ![0, 1] bcast_S1x64_S65536x64_0_1 : (⟨S1x64, .f32⟩ : BufTy).Contents (Elt F) → (⟨S65536x64, .f32⟩ : BufTy).Contents (Elt F)),
    binary main_v306 main_v316 main_v317 (subf : (⟨S65536x64, .f32⟩ : BufTy).Contents (Elt F) → (⟨S65536x64, .f32⟩ : BufTy).Contents (Elt F) → (⟨S65536x64, .f32⟩ : BufTy).Contents (Elt F)),
    nullary main_cst_45 (constant S_ .f32 0x3727C5AC#32),
    unary main_cst_45 main_v318 (broadcastInDim S64 ![] bcast_S_S64 : (⟨S_, .f32⟩ : BufTy).Contents (Elt F) → (⟨S64, .f32⟩ : BufTy).Contents (Elt F)),
    binary main_v314 main_v318 main_v319 (addf : (⟨S64, .f32⟩ : BufTy).Contents (Elt F) → (⟨S64, .f32⟩ : BufTy).Contents (Elt F) → (⟨S64, .f32⟩ : BufTy).Contents (Elt F)),
    unary main_v319 main_v320 (Host.rsqrt : (⟨S64, .f32⟩ : BufTy).Contents (Elt F) → (⟨S64, .f32⟩ : BufTy).Contents (Elt F)),
    unary main_v320 main_v321 (broadcastInDim S1x64 ![1] bcast_S64_S1x64_1 : (⟨S64, .f32⟩ : BufTy).Contents (Elt F) → (⟨S1x64, .f32⟩ : BufTy).Contents (Elt F)),
    unary main_v321 main_v322 (broadcastInDim S65536x64 ![0, 1] bcast_S1x64_S65536x64_0_1 : (⟨S1x64, .f32⟩ : BufTy).Contents (Elt F) → (⟨S65536x64, .f32⟩ : BufTy).Contents (Elt F)),
    binary main_v317 main_v322 main_v323 (mulf : (⟨S65536x64, .f32⟩ : BufTy).Contents (Elt F) → (⟨S65536x64, .f32⟩ : BufTy).Contents (Elt F) → (⟨S65536x64, .f32⟩ : BufTy).Contents (Elt F)),
    unary main_v308 main_v324 (broadcastInDim S1x64 ![1] bcast_S64_S1x64_1 : (⟨S64, .f32⟩ : BufTy).Contents (Elt F) → (⟨S1x64, .f32⟩ : BufTy).Contents (Elt F)),
    unary main_v324 main_v325 (broadcastInDim S65536x64 ![0, 1] bcast_S1x64_S65536x64_0_1 : (⟨S1x64, .f32⟩ : BufTy).Contents (Elt F) → (⟨S65536x64, .f32⟩ : BufTy).Contents (Elt F)),
    binary main_v323 main_v325 main_v326 (mulf : (⟨S65536x64, .f32⟩ : BufTy).Contents (Elt F) → (⟨S65536x64, .f32⟩ : BufTy).Contents (Elt F) → (⟨S65536x64, .f32⟩ : BufTy).Contents (Elt F)),
    unary main_v310 main_v327 (broadcastInDim S1x64 ![1] bcast_S64_S1x64_1 : (⟨S64, .f32⟩ : BufTy).Contents (Elt F) → (⟨S1x64, .f32⟩ : BufTy).Contents (Elt F)),
    unary main_v327 main_v328 (broadcastInDim S65536x64 ![0, 1] bcast_S1x64_S65536x64_0_1 : (⟨S1x64, .f32⟩ : BufTy).Contents (Elt F) → (⟨S65536x64, .f32⟩ : BufTy).Contents (Elt F)),
    binary main_v326 main_v328 main_v329 (addf : (⟨S65536x64, .f32⟩ : BufTy).Contents (Elt F) → (⟨S65536x64, .f32⟩ : BufTy).Contents (Elt F) → (⟨S65536x64, .f32⟩ : BufTy).Contents (Elt F)),
    TRef.nullary main_call15.cst (constant S_ .f32 0x00000000#32),
    TRef.unary main_call15.cst main_call15.v0 (broadcastInDim S65536x64 ![] bcast_S_S65536x64),
    TRef.binary (.of main_v329) main_call15.v0 main_call15.v1 maximumf,
    binary main_v330 main_v250 main_v331 (addf : (⟨S65536x64, .f32⟩ : BufTy).Contents (Elt F) → (⟨S65536x64, .f32⟩ : BufTy).Contents (Elt F) → (⟨S65536x64, .f32⟩ : BufTy).Contents (Elt F)),
    binary main_v331 main_arg14 main_v332 ((fun l r => Host.dotGeneral dot_S65536x64_S64x256_S65536x256_1_0_0_1_n_n none l r) : (⟨S65536x64, .f32⟩ : BufTy).Contents (Elt F) → (⟨S64x256, .f32⟩ : BufTy).Contents (Elt F) → (⟨S65536x256, .f32⟩ : BufTy).Contents (Elt F)),
    unary main_arg15 main_v333 (broadcastInDim S1x256 ![1] bcast_S256_S1x256_1 : (⟨S256, .f32⟩ : BufTy).Contents (Elt F) → (⟨S1x256, .f32⟩ : BufTy).Contents (Elt F)),
    unary main_v333 main_v334 (broadcastInDim S65536x256 ![0, 1] bcast_S1x256_S65536x256_0_1 : (⟨S1x256, .f32⟩ : BufTy).Contents (Elt F) → (⟨S65536x256, .f32⟩ : BufTy).Contents (Elt F)),
    binary main_v332 main_v334 main_v335 (addf : (⟨S65536x256, .f32⟩ : BufTy).Contents (Elt F) → (⟨S65536x256, .f32⟩ : BufTy).Contents (Elt F) → (⟨S65536x256, .f32⟩ : BufTy).Contents (Elt F)),
    reshape main_v335 main_v336 rfl shapeCasts_S65536x256_S16x4096x256 ]

set_option maxRecDepth 8192 in
theorem ops0_0_sub : (ops0_0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
set_option maxRecDepth 8192 in
theorem ops0_0_fresh : ∀ op ∈ (ops0_0 : List (HloOp τ sig (Elt F))), op.fresh = ∅ := by line_fresh
set_option maxRecDepth 8192 in
theorem ops0_1_sub : (ops0_1 : List (HloOp τ sig (Elt F))).Forall fun op => op.bufs ⊆ tcRefs τ sig :=
  ⟨unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub ..⟩
set_option maxRecDepth 8192 in
theorem ops0_1_fresh : ∀ op ∈ (ops0_1 : List (HloOp τ sig (Elt F))), op.fresh = ∅ := by line_fresh
set_option maxRecDepth 8192 in
theorem ops0_2_sub : (ops0_2 : List (HloOp τ sig (Elt F))).Forall fun op => op.bufs ⊆ tcRefs τ sig :=
  ⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub ..⟩
set_option maxRecDepth 8192 in
theorem ops0_2_fresh : ∀ op ∈ (ops0_2 : List (HloOp τ sig (Elt F))), op.fresh = ∅ := by line_fresh
set_option maxRecDepth 8192 in
theorem ops0_3_sub : (ops0_3 : List (HloOp τ sig (Elt F))).Forall fun op => op.bufs ⊆ tcRefs τ sig :=
  ⟨binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
set_option maxRecDepth 8192 in
theorem ops0_3_fresh : ∀ op ∈ (ops0_3 : List (HloOp τ sig (Elt F))), op.fresh = ∅ := by line_fresh
set_option maxRecDepth 8192 in
theorem ops1_0_sub : (ops1_0 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub ..⟩
set_option maxRecDepth 8192 in
theorem ops1_0_fresh : ∀ op ∈ (ops1_0 : List (HloOp τ sig (Elt F))), op.fresh = ∅ := by line_fresh
set_option maxRecDepth 8192 in
theorem ops1_1_sub : (ops1_1 : List (HloOp τ sig (Elt F))).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub ..⟩
set_option maxRecDepth 8192 in
theorem ops1_1_fresh : ∀ op ∈ (ops1_1 : List (HloOp τ sig (Elt F))), op.fresh = ∅ := by line_fresh
set_option maxRecDepth 8192 in
theorem ops1_2_sub : (ops1_2 : List (HloOp τ sig (Elt F))).Forall fun op => op.bufs ⊆ tcRefs τ sig :=
  ⟨unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub ..⟩
set_option maxRecDepth 8192 in
theorem ops1_2_fresh : ∀ op ∈ (ops1_2 : List (HloOp τ sig (Elt F))), op.fresh = ∅ := by line_fresh
set_option maxRecDepth 8192 in
theorem ops1_3_sub : (ops1_3 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub ..⟩
set_option maxRecDepth 8192 in
theorem ops1_3_fresh : ∀ op ∈ (ops1_3 : List (HloOp τ sig (Elt F))), op.fresh = ∅ := by line_fresh
set_option maxRecDepth 8192 in
theorem ops2_0_sub : (ops2_0 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub ..⟩
set_option maxRecDepth 8192 in
theorem ops2_0_fresh : ∀ op ∈ (ops2_0 : List (HloOp τ sig (Elt F))), op.fresh = ∅ := by line_fresh
set_option maxRecDepth 8192 in
theorem ops2_1_sub : (ops2_1 : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩
set_option maxRecDepth 8192 in
theorem ops2_1_fresh : ∀ op ∈ (ops2_1 : List (HloOp τ sig (Elt F))), op.fresh = ∅ := by line_fresh
set_option maxRecDepth 8192 in
theorem ops2_2_sub : (ops2_2 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub ..⟩
set_option maxRecDepth 8192 in
theorem ops2_2_fresh : ∀ op ∈ (ops2_2 : List (HloOp τ sig (Elt F))), op.fresh = ∅ := by line_fresh
set_option maxRecDepth 8192 in
theorem ops2_3_sub : (ops2_3 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub ..⟩
set_option maxRecDepth 8192 in
theorem ops2_3_fresh : ∀ op ∈ (ops2_3 : List (HloOp τ sig (Elt F))), op.fresh = ∅ := by line_fresh
set_option maxRecDepth 8192 in
theorem ops2_4_sub : (ops2_4 : List (HloOp τ sig (Elt F))).Forall fun op => op.bufs ⊆ tcRefs τ sig :=
  ⟨unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub ..⟩
set_option maxRecDepth 8192 in
theorem ops2_4_fresh : ∀ op ∈ (ops2_4 : List (HloOp τ sig (Elt F))), op.fresh = ∅ := by line_fresh
set_option maxRecDepth 8192 in
theorem ops3_0_sub : (ops3_0 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub ..⟩
set_option maxRecDepth 8192 in
theorem ops3_0_fresh : ∀ op ∈ (ops3_0 : List (HloOp τ sig (Elt F))), op.fresh = ∅ := by line_fresh
set_option maxRecDepth 8192 in
theorem ops3_1_sub : (ops3_1 : List (HloOp τ sig (Elt F))).Forall fun op => op.bufs ⊆ tcRefs τ sig :=
  ⟨binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub ..⟩
set_option maxRecDepth 8192 in
theorem ops3_1_fresh : ∀ op ∈ (ops3_1 : List (HloOp τ sig (Elt F))), op.fresh = ∅ := by line_fresh
set_option maxRecDepth 8192 in
theorem ops3_2_sub : (ops3_2 : List (HloOp τ sig (Elt F))).Forall fun op => op.bufs ⊆ tcRefs τ sig :=
  ⟨unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub ..⟩
set_option maxRecDepth 8192 in
theorem ops3_2_fresh : ∀ op ∈ (ops3_2 : List (HloOp τ sig (Elt F))), op.fresh = ∅ := by line_fresh
set_option maxRecDepth 8192 in
theorem ops3_3_sub : (ops3_3 : List (HloOp τ sig (Elt F))).Forall fun op => op.bufs ⊆ tcRefs τ sig :=
  ⟨unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub ..⟩
set_option maxRecDepth 8192 in
theorem ops3_3_fresh : ∀ op ∈ (ops3_3 : List (HloOp τ sig (Elt F))), op.fresh = ∅ := by line_fresh
set_option maxRecDepth 8192 in
theorem ops4_0_sub : (ops4_0 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub ..⟩
set_option maxRecDepth 8192 in
theorem ops4_0_fresh : ∀ op ∈ (ops4_0 : List (HloOp τ sig (Elt F))), op.fresh = ∅ := by line_fresh
set_option maxRecDepth 8192 in
theorem ops4_1_sub : (ops4_1 : List (HloOp τ sig (Elt F))).Forall fun op => op.bufs ⊆ tcRefs τ sig :=
  ⟨unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub ..⟩
set_option maxRecDepth 8192 in
theorem ops4_1_fresh : ∀ op ∈ (ops4_1 : List (HloOp τ sig (Elt F))), op.fresh = ∅ := by line_fresh
set_option maxRecDepth 8192 in
theorem ops4_2_sub : (ops4_2 : List (HloOp τ sig (Elt F))).Forall fun op => op.bufs ⊆ tcRefs τ sig :=
  ⟨binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩
set_option maxRecDepth 8192 in
theorem ops4_2_fresh : ∀ op ∈ (ops4_2 : List (HloOp τ sig (Elt F))), op.fresh = ∅ := by line_fresh
set_option maxRecDepth 8192 in
theorem ops4_3_sub : (ops4_3 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
set_option maxRecDepth 8192 in
theorem ops4_3_fresh : ∀ op ∈ (ops4_3 : List (HloOp τ sig (Elt F))), op.fresh = ∅ := by line_fresh
set_option maxRecDepth 8192 in
theorem ops5_0_sub : (ops5_0 : List (HloOp τ sig (Elt F))).Forall fun op => op.bufs ⊆ tcRefs τ sig :=
  ⟨unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub ..⟩
set_option maxRecDepth 8192 in
theorem ops5_0_fresh : ∀ op ∈ (ops5_0 : List (HloOp τ sig (Elt F))), op.fresh = ∅ := by line_fresh
set_option maxRecDepth 8192 in
theorem ops5_1_sub : (ops5_1 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub ..⟩
set_option maxRecDepth 8192 in
theorem ops5_1_fresh : ∀ op ∈ (ops5_1 : List (HloOp τ sig (Elt F))), op.fresh = ∅ := by line_fresh
set_option maxRecDepth 8192 in
theorem ops5_2_sub : (ops5_2 : List (HloOp τ sig (Elt F))).Forall fun op => op.bufs ⊆ tcRefs τ sig :=
  ⟨binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
set_option maxRecDepth 8192 in
theorem ops5_2_fresh : ∀ op ∈ (ops5_2 : List (HloOp τ sig (Elt F))), op.fresh = ∅ := by line_fresh
set_option maxRecDepth 8192 in
theorem ops5_3_sub : (ops5_3 : List (HloOp τ sig (Elt F))).Forall fun op => op.bufs ⊆ tcRefs τ sig :=
  ⟨nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub ..⟩
set_option maxRecDepth 8192 in
theorem ops5_3_fresh : ∀ op ∈ (ops5_3 : List (HloOp τ sig (Elt F))), op.fresh = ∅ := by line_fresh
set_option maxRecDepth 8192 in
theorem ops6_0_sub : (ops6_0 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩
set_option maxRecDepth 8192 in
theorem ops6_0_fresh : ∀ op ∈ (ops6_0 : List (HloOp τ sig (Elt F))), op.fresh = ∅ := by line_fresh
set_option maxRecDepth 8192 in
theorem ops6_1_sub : (ops6_1 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., reshape_bufs_sub ..⟩
set_option maxRecDepth 8192 in
theorem ops6_1_fresh : ∀ op ∈ (ops6_1 : List (HloOp τ sig (Elt F))), op.fresh = ∅ := by line_fresh

/-- The buffers' contents before the first window. -/
noncomputable def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl

/-- The buffers' contents after the first 1 window. -/
noncomputable def val1 (V0 : Valuation τ sig (Elt F)) : Valuation τ sig (Elt F) := after ops0_0 (val0 V0)
/-- The buffers window `ops0_0` writes. -/
abbrev ops0_0_W : List (Ref sig .tc) := [main_v0, main_v1, main_v2, main_v3, main_v4, main_v5, main_v6, main_v7, main_c, main_v8, main_v9, main_c_0, main_v10, main_v11, main_v12, main_v13, main_v14, main_cst, main_v15, main_v16, main_v17]
set_option maxRecDepth 8192 in
theorem ops0_0_writes : (ops0_0 : List (HloOp τ sig (Elt F))).Forall fun op => op.writes ⊆ (ops0_0_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val1_keep (V0 : Valuation τ sig (Elt F)) (r : Ref sig .tc) (h : r ∉ ops0_0_W) :
    val1 V0 (Proc.devRef .tc r) = val0 V0 (Proc.devRef .tc r) :=
  after_of_writes_sub ops0_0 _ ops0_0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
set_option maxRecDepth 8192 in
set_option maxHeartbeats 2000000 in
theorem val1_main_v1 (V0 : Valuation τ sig (Elt F)) : val1 V0 (no_index (Proc.devRef .tc main_v1)) = res_main_v1 V0 := by
  window_value val1 ops0_0 [val0_main_arg0]
set_option maxRecDepth 8192 in
set_option maxHeartbeats 2000000 in
theorem val1_main_v3 (V0 : Valuation τ sig (Elt F)) : val1 V0 (no_index (Proc.devRef .tc main_v3)) = res_main_v3 V0 := by
  window_value val1 ops0_0 [val0_main_arg0]
set_option maxRecDepth 8192 in
set_option maxHeartbeats 2000000 in
theorem val1_main_v7 (V0 : Valuation τ sig (Elt F)) : val1 V0 (no_index (Proc.devRef .tc main_v7)) = res_main_v7 V0 := by
  window_value val1 ops0_0 [val0_main_arg4, val0_main_arg3, val0_main_arg2]
set_option maxRecDepth 8192 in
set_option maxHeartbeats 2000000 in
theorem val1_main_v17 (V0 : Valuation τ sig (Elt F)) : val1 V0 (no_index (Proc.devRef .tc main_v17)) = res_main_v17 V0 := by
  window_value val1 ops0_0 [val0_main_arg0, val0_main_arg4, val0_main_arg3, val0_main_arg2]

/-- The buffers' contents after the first 2 windows. -/
noncomputable def val2 (V0 : Valuation τ sig (Elt F)) : Valuation τ sig (Elt F) := after ops0_1 (val1 V0)
/-- The buffers window `ops0_1` writes. -/
abbrev ops0_1_W : List (Ref sig .tc) := [main_v18, main_v19, main_cst_1, main_v20, main_v21, main_v22, main_v23, main_v24, main_v25, main_v26, main_v27, main_v28, main_v29, main_v30, main_v31, main_v32, main_v33, main_v34, main_v35, main_cst_2]
set_option maxRecDepth 8192 in
theorem ops0_1_writes : (ops0_1 : List (HloOp τ sig (Elt F))).Forall fun op => op.writes ⊆ (ops0_1_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val2_keep (V0 : Valuation τ sig (Elt F)) (r : Ref sig .tc) (h : r ∉ ops0_1_W) :
    val2 V0 (Proc.devRef .tc r) = val1 V0 (Proc.devRef .tc r) :=
  after_of_writes_sub ops0_1 _ ops0_1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_v1 (V0 : Valuation τ sig (Elt F)) : val2 V0 (no_index (Proc.devRef .tc main_v1)) = res_main_v1 V0 :=
  (val2_keep V0 main_v1 (by decide)).trans (val1_main_v1 V0)
theorem val2_main_v3 (V0 : Valuation τ sig (Elt F)) : val2 V0 (no_index (Proc.devRef .tc main_v3)) = res_main_v3 V0 :=
  (val2_keep V0 main_v3 (by decide)).trans (val1_main_v3 V0)
theorem val2_main_v7 (V0 : Valuation τ sig (Elt F)) : val2 V0 (no_index (Proc.devRef .tc main_v7)) = res_main_v7 V0 :=
  (val2_keep V0 main_v7 (by decide)).trans (val1_main_v7 V0)
set_option maxRecDepth 8192 in
set_option maxHeartbeats 2000000 in
theorem val2_main_v31 (V0 : Valuation τ sig (Elt F)) : val2 V0 (no_index (Proc.devRef .tc main_v31)) = res_main_v31 V0 := by
  window_value val2 ops0_1 [val1_main_arg7, val1_main_arg6, val1_main_v17, val1_main_v7, val1_main_arg5]
set_option maxRecDepth 8192 in
set_option maxHeartbeats 2000000 in
theorem val2_main_v33 (V0 : Valuation τ sig (Elt F)) : val2 V0 (no_index (Proc.devRef .tc main_v33)) = res_main_v33 V0 := by
  window_value val2 ops0_1 [val1_main_arg8]
set_option maxRecDepth 8192 in
set_option maxHeartbeats 2000000 in
theorem val2_main_v35 (V0 : Valuation τ sig (Elt F)) : val2 V0 (no_index (Proc.devRef .tc main_v35)) = res_main_v35 V0 := by
  window_value val2 ops0_1 [val1_main_arg9]
set_option maxRecDepth 8192 in
set_option maxHeartbeats 2000000 in
theorem val2_main_cst_2 (V0 : Valuation τ sig (Elt F)) : val2 V0 (no_index (Proc.devRef .tc main_cst_2)) = res_main_cst_2 V0 := by
  window_value val2 ops0_1 []

/-- The buffers' contents after the first 3 windows. -/
noncomputable def val3 (V0 : Valuation τ sig (Elt F)) : Valuation τ sig (Elt F) := after ops0_2 (val2 V0)
/-- The buffers window `ops0_2` writes. -/
abbrev ops0_2_W : List (Ref sig .tc) := [main_v36, main_cst_3, main_v37, main_v38, main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10]
set_option maxRecDepth 8192 in
theorem ops0_2_writes : (ops0_2 : List (HloOp τ sig (Elt F))).Forall fun op => op.writes ⊆ (ops0_2_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val3_keep (V0 : Valuation τ sig (Elt F)) (r : Ref sig .tc) (h : r ∉ ops0_2_W) :
    val3 V0 (Proc.devRef .tc r) = val2 V0 (Proc.devRef .tc r) :=
  after_of_writes_sub ops0_2 _ ops0_2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_v1 (V0 : Valuation τ sig (Elt F)) : val3 V0 (no_index (Proc.devRef .tc main_v1)) = res_main_v1 V0 :=
  (val3_keep V0 main_v1 (by decide)).trans (val2_main_v1 V0)
theorem val3_main_v3 (V0 : Valuation τ sig (Elt F)) : val3 V0 (no_index (Proc.devRef .tc main_v3)) = res_main_v3 V0 :=
  (val3_keep V0 main_v3 (by decide)).trans (val2_main_v3 V0)
theorem val3_main_v7 (V0 : Valuation τ sig (Elt F)) : val3 V0 (no_index (Proc.devRef .tc main_v7)) = res_main_v7 V0 :=
  (val3_keep V0 main_v7 (by decide)).trans (val2_main_v7 V0)
theorem val3_main_v31 (V0 : Valuation τ sig (Elt F)) : val3 V0 (no_index (Proc.devRef .tc main_v31)) = res_main_v31 V0 :=
  (val3_keep V0 main_v31 (by decide)).trans (val2_main_v31 V0)
theorem val3_main_v33 (V0 : Valuation τ sig (Elt F)) : val3 V0 (no_index (Proc.devRef .tc main_v33)) = res_main_v33 V0 :=
  (val3_keep V0 main_v33 (by decide)).trans (val2_main_v33 V0)
theorem val3_main_v35 (V0 : Valuation τ sig (Elt F)) : val3 V0 (no_index (Proc.devRef .tc main_v35)) = res_main_v35 V0 :=
  (val3_keep V0 main_v35 (by decide)).trans (val2_main_v35 V0)
set_option maxRecDepth 8192 in
set_option maxHeartbeats 2000000 in
theorem val3_main_v38 (V0 : Valuation τ sig (Elt F)) : val3 V0 (no_index (Proc.devRef .tc main_v38)) = res_main_v38 V0 := by
  window_value val3 ops0_2 [val2_main_cst_2, val2_main_v31]
set_option maxRecDepth 8192 in
set_option maxHeartbeats 2000000 in
theorem val3_main_call0_v8 (V0 : Valuation τ sig (Elt F)) : val3 V0 (no_index (Proc.devRef .tc main_call0_v8)) = res_main_call0_v8 V0 := by
  window_value val3 ops0_2 []
set_option maxRecDepth 8192 in
set_option maxHeartbeats 2000000 in
theorem val3_main_call0_v9 (V0 : Valuation τ sig (Elt F)) : val3 V0 (no_index (Proc.devRef .tc main_call0_v9)) = res_main_call0_v9 V0 := by
  window_value val3 ops0_2 [val2_main_v31]
set_option maxRecDepth 8192 in
set_option maxHeartbeats 2000000 in
theorem val3_main_call0_v10 (V0 : Valuation τ sig (Elt F)) : val3 V0 (no_index (Proc.devRef .tc main_call0_v10)) = res_main_call0_v10 V0 := by
  window_value val3 ops0_2 []

/-- The buffers' contents after the first 4 windows. -/
noncomputable def val4 (V0 : Valuation τ sig (Elt F)) : Valuation τ sig (Elt F) := after ops0_3 (val3 V0)
/-- The buffers window `ops0_3` writes. -/
abbrev ops0_3_W : List (Ref sig .tc) := [main_call0_v11, main_call0_cst_3, main_call0_v12, main_call0_cst_4, main_call0_call0_v0, main_call0_call0_v1, main_v39, main_v40, main_v41, main_v42, main_cst_5, main_v43, main_v44, main_v45, main_v46, main_v47, main_v48, main_v49, main_v50, main_v51]
set_option maxRecDepth 8192 in
theorem ops0_3_writes : (ops0_3 : List (HloOp τ sig (Elt F))).Forall fun op => op.writes ⊆ (ops0_3_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val4_keep (V0 : Valuation τ sig (Elt F)) (r : Ref sig .tc) (h : r ∉ ops0_3_W) :
    val4 V0 (Proc.devRef .tc r) = val3 V0 (Proc.devRef .tc r) :=
  after_of_writes_sub ops0_3 _ ops0_3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_v1 (V0 : Valuation τ sig (Elt F)) : val4 V0 (no_index (Proc.devRef .tc main_v1)) = res_main_v1 V0 :=
  (val4_keep V0 main_v1 (by decide)).trans (val3_main_v1 V0)
theorem val4_main_v3 (V0 : Valuation τ sig (Elt F)) : val4 V0 (no_index (Proc.devRef .tc main_v3)) = res_main_v3 V0 :=
  (val4_keep V0 main_v3 (by decide)).trans (val3_main_v3 V0)
theorem val4_main_v7 (V0 : Valuation τ sig (Elt F)) : val4 V0 (no_index (Proc.devRef .tc main_v7)) = res_main_v7 V0 :=
  (val4_keep V0 main_v7 (by decide)).trans (val3_main_v7 V0)
theorem val4_main_v35 (V0 : Valuation τ sig (Elt F)) : val4 V0 (no_index (Proc.devRef .tc main_v35)) = res_main_v35 V0 :=
  (val4_keep V0 main_v35 (by decide)).trans (val3_main_v35 V0)
set_option maxRecDepth 8192 in
set_option maxHeartbeats 2000000 in
theorem val4_main_v51 (V0 : Valuation τ sig (Elt F)) : val4 V0 (no_index (Proc.devRef .tc main_v51)) = res_main_v51 V0 := by
  window_value val4 ops0_3 [val3_main_v33, val3_main_call0_v10, val3_main_call0_v9, val3_main_call0_v8, val3_main_v38, val3_main_v31]

/-- The buffers' contents after the first 5 windows. -/
noncomputable def val5 (V0 : Valuation τ sig (Elt F)) : Valuation τ sig (Elt F) := after ops1_0 (val4 V0)
/-- The buffers window `ops1_0` writes. -/
abbrev ops1_0_W : List (Ref sig .tc) := [main_v52, main_v53, main_v54, main_call1_cst, main_call1_v0, main_v55, main_v56, main_v57, main_v58, main_v59, main_v60, main_v61, main_v62, main_v63, main_v64, main_v65, main_v66, main_v67, main_cst_6, main_v68, main_cst_7, main_v69]
set_option maxRecDepth 8192 in
theorem ops1_0_writes : (ops1_0 : List (HloOp τ sig (Elt F))).Forall fun op => op.writes ⊆ (ops1_0_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val5_keep (V0 : Valuation τ sig (Elt F)) (r : Ref sig .tc) (h : r ∉ ops1_0_W) :
    val5 V0 (Proc.devRef .tc r) = val4 V0 (Proc.devRef .tc r) :=
  after_of_writes_sub ops1_0 _ ops1_0_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_v1 (V0 : Valuation τ sig (Elt F)) : val5 V0 (no_index (Proc.devRef .tc main_v1)) = res_main_v1 V0 :=
  (val5_keep V0 main_v1 (by decide)).trans (val4_main_v1 V0)
theorem val5_main_v3 (V0 : Valuation τ sig (Elt F)) : val5 V0 (no_index (Proc.devRef .tc main_v3)) = res_main_v3 V0 :=
  (val5_keep V0 main_v3 (by decide)).trans (val4_main_v3 V0)
theorem val5_main_v7 (V0 : Valuation τ sig (Elt F)) : val5 V0 (no_index (Proc.devRef .tc main_v7)) = res_main_v7 V0 :=
  (val5_keep V0 main_v7 (by decide)).trans (val4_main_v7 V0)
set_option maxRecDepth 8192 in
set_option maxHeartbeats 2000000 in
theorem val5_main_v63 (V0 : Valuation τ sig (Elt F)) : val5 V0 (no_index (Proc.devRef .tc main_v63)) = res_main_v63 V0 := by
  window_value val5 ops1_0 [val4_main_arg11, val4_main_arg10, val4_main_v35, val4_main_v51]
set_option maxRecDepth 8192 in
set_option maxHeartbeats 2000000 in
theorem val5_main_v65 (V0 : Valuation τ sig (Elt F)) : val5 V0 (no_index (Proc.devRef .tc main_v65)) = res_main_v65 V0 := by
  window_value val5 ops1_0 [val4_main_arg12]
set_option maxRecDepth 8192 in
set_option maxHeartbeats 2000000 in
theorem val5_main_v67 (V0 : Valuation τ sig (Elt F)) : val5 V0 (no_index (Proc.devRef .tc main_v67)) = res_main_v67 V0 := by
  window_value val5 ops1_0 [val4_main_arg13]
set_option maxRecDepth 8192 in
set_option maxHeartbeats 2000000 in
theorem val5_main_v68 (V0 : Valuation τ sig (Elt F)) : val5 V0 (no_index (Proc.devRef .tc main_v68)) = res_main_v68 V0 := by
  window_value val5 ops1_0 [val4_main_arg11, val4_main_arg10, val4_main_v35, val4_main_v51]
set_option maxRecDepth 8192 in
set_option maxHeartbeats 2000000 in
theorem val5_main_v69 (V0 : Valuation τ sig (Elt F)) : val5 V0 (no_index (Proc.devRef .tc main_v69)) = res_main_v69 V0 := by
  window_value val5 ops1_0 []

/-- The buffers' contents after the first 6 windows. -/
noncomputable def val6 (V0 : Valuation τ sig (Elt F)) : Valuation τ sig (Elt F) := after ops1_1 (val5 V0)
/-- The buffers window `ops1_1` writes. -/
abbrev ops1_1_W : List (Ref sig .tc) := [main_v70, main_c_8, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4]
set_option maxRecDepth 8192 in
theorem ops1_1_writes : (ops1_1 : List (HloOp τ sig (Elt F))).Forall fun op => op.writes ⊆ (ops1_1_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val6_keep (V0 : Valuation τ sig (Elt F)) (r : Ref sig .tc) (h : r ∉ ops1_1_W) :
    val6 V0 (Proc.devRef .tc r) = val5 V0 (Proc.devRef .tc r) :=
  after_of_writes_sub ops1_1 _ ops1_1_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_v1 (V0 : Valuation τ sig (Elt F)) : val6 V0 (no_index (Proc.devRef .tc main_v1)) = res_main_v1 V0 :=
  (val6_keep V0 main_v1 (by decide)).trans (val5_main_v1 V0)
theorem val6_main_v3 (V0 : Valuation τ sig (Elt F)) : val6 V0 (no_index (Proc.devRef .tc main_v3)) = res_main_v3 V0 :=
  (val6_keep V0 main_v3 (by decide)).trans (val5_main_v3 V0)
theorem val6_main_v7 (V0 : Valuation τ sig (Elt F)) : val6 V0 (no_index (Proc.devRef .tc main_v7)) = res_main_v7 V0 :=
  (val6_keep V0 main_v7 (by decide)).trans (val5_main_v7 V0)
theorem val6_main_v63 (V0 : Valuation τ sig (Elt F)) : val6 V0 (no_index (Proc.devRef .tc main_v63)) = res_main_v63 V0 :=
  (val6_keep V0 main_v63 (by decide)).trans (val5_main_v63 V0)
theorem val6_main_v65 (V0 : Valuation τ sig (Elt F)) : val6 V0 (no_index (Proc.devRef .tc main_v65)) = res_main_v65 V0 :=
  (val6_keep V0 main_v65 (by decide)).trans (val5_main_v65 V0)
theorem val6_main_v67 (V0 : Valuation τ sig (Elt F)) : val6 V0 (no_index (Proc.devRef .tc main_v67)) = res_main_v67 V0 :=
  (val6_keep V0 main_v67 (by decide)).trans (val5_main_v67 V0)
set_option maxRecDepth 8192 in
set_option maxHeartbeats 2000000 in
theorem val6_main_v70 (V0 : Valuation τ sig (Elt F)) : val6 V0 (no_index (Proc.devRef .tc main_v70)) = res_main_v70 V0 := by
  window_value val6 ops1_1 [val5_main_v69, val5_main_v68]
set_option maxRecDepth 8192 in
set_option maxHeartbeats 2000000 in
theorem val6_main_call2_v11 (V0 : Valuation τ sig (Elt F)) : val6 V0 (no_index (Proc.devRef .tc main_call2_v11)) = res_main_call2_v11 V0 := by
  window_value val6 ops1_1 [val5_main_v63]
set_option maxRecDepth 8192 in
set_option maxHeartbeats 2000000 in
theorem val6_main_call2_v12 (V0 : Valuation τ sig (Elt F)) : val6 V0 (no_index (Proc.devRef .tc main_call2_v12)) = res_main_call2_v12 V0 := by
  window_value val6 ops1_1 []
set_option maxRecDepth 8192 in
set_option maxHeartbeats 2000000 in
theorem val6_main_call2_cst_4 (V0 : Valuation τ sig (Elt F)) : val6 V0 (no_index (Proc.devRef .tc main_call2_cst_4)) = res_main_call2_cst_4 V0 := by
  window_value val6 ops1_1 []

/-- The buffers' contents after the first 7 windows. -/
noncomputable def val7 (V0 : Valuation τ sig (Elt F)) : Valuation τ sig (Elt F) := after ops1_2 (val6 V0)
/-- The buffers window `ops1_2` writes. -/
abbrev ops1_2_W : List (Ref sig .tc) := [main_call2_call0_v0, main_call2_call0_v1, main_v71, main_v72, main_v73, main_v74, main_cst_9, main_v75, main_v76, main_v77, main_v78, main_v79, main_v80, main_v81, main_v82, main_v83, main_v84, main_v85, main_v86, main_call3_cst, main_call3_v0]
set_option maxRecDepth 8192 in
theorem ops1_2_writes : (ops1_2 : List (HloOp τ sig (Elt F))).Forall fun op => op.writes ⊆ (ops1_2_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val7_keep (V0 : Valuation τ sig (Elt F)) (r : Ref sig .tc) (h : r ∉ ops1_2_W) :
    val7 V0 (Proc.devRef .tc r) = val6 V0 (Proc.devRef .tc r) :=
  after_of_writes_sub ops1_2 _ ops1_2_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_v1 (V0 : Valuation τ sig (Elt F)) : val7 V0 (no_index (Proc.devRef .tc main_v1)) = res_main_v1 V0 :=
  (val7_keep V0 main_v1 (by decide)).trans (val6_main_v1 V0)
theorem val7_main_v3 (V0 : Valuation τ sig (Elt F)) : val7 V0 (no_index (Proc.devRef .tc main_v3)) = res_main_v3 V0 :=
  (val7_keep V0 main_v3 (by decide)).trans (val6_main_v3 V0)
theorem val7_main_v7 (V0 : Valuation τ sig (Elt F)) : val7 V0 (no_index (Proc.devRef .tc main_v7)) = res_main_v7 V0 :=
  (val7_keep V0 main_v7 (by decide)).trans (val6_main_v7 V0)
set_option maxRecDepth 8192 in
set_option maxHeartbeats 2000000 in
theorem val7_main_v86 (V0 : Valuation τ sig (Elt F)) : val7 V0 (no_index (Proc.devRef .tc main_v86)) = res_main_v86 V0 := by
  window_value val7 ops1_2 [val6_main_v67, val6_main_v65, val6_main_call2_cst_4, val6_main_call2_v11, val6_main_call2_v12, val6_main_v70, val6_main_v63]
set_option maxRecDepth 8192 in
set_option maxHeartbeats 2000000 in
theorem val7_main_call3_v0 (V0 : Valuation τ sig (Elt F)) : val7 V0 (no_index (Proc.devRef .tc main_call3_v0)) = res_main_call3_v0 V0 := by
  window_value val7 ops1_2 []

/-- The buffers' contents after the first 8 windows. -/
noncomputable def val8 (V0 : Valuation τ sig (Elt F)) : Valuation τ sig (Elt F) := after ops1_3 (val7 V0)
/-- The buffers window `ops1_3` writes. -/
abbrev ops1_3_W : List (Ref sig .tc) := [main_v87, main_v88, main_c_10, main_v89, main_v90, main_c_11, main_v91, main_v92, main_v93, main_v94, main_v95, main_cst_12, main_v96, main_v97, main_v98, main_v99, main_v100, main_cst_13, main_v101, main_v102, main_v103]
set_option maxRecDepth 8192 in
theorem ops1_3_writes : (ops1_3 : List (HloOp τ sig (Elt F))).Forall fun op => op.writes ⊆ (ops1_3_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val8_keep (V0 : Valuation τ sig (Elt F)) (r : Ref sig .tc) (h : r ∉ ops1_3_W) :
    val8 V0 (Proc.devRef .tc r) = val7 V0 (Proc.devRef .tc r) :=
  after_of_writes_sub ops1_3 _ ops1_3_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val8_main_v1 (V0 : Valuation τ sig (Elt F)) : val8 V0 (no_index (Proc.devRef .tc main_v1)) = res_main_v1 V0 :=
  (val8_keep V0 main_v1 (by decide)).trans (val7_main_v1 V0)
theorem val8_main_v3 (V0 : Valuation τ sig (Elt F)) : val8 V0 (no_index (Proc.devRef .tc main_v3)) = res_main_v3 V0 :=
  (val8_keep V0 main_v3 (by decide)).trans (val7_main_v3 V0)
set_option maxRecDepth 8192 in
set_option maxHeartbeats 2000000 in
theorem val8_main_v88 (V0 : Valuation τ sig (Elt F)) : val8 V0 (no_index (Proc.devRef .tc main_v88)) = res_main_v88 V0 := by
  window_value val8 ops1_3 [val7_main_v7, val7_main_call3_v0, val7_main_v86]
set_option maxRecDepth 8192 in
set_option maxHeartbeats 2000000 in
theorem val8_main_v98 (V0 : Valuation τ sig (Elt F)) : val8 V0 (no_index (Proc.devRef .tc main_v98)) = res_main_v98 V0 := by
  window_value val8 ops1_3 [val7_main_v1, val7_main_v7, val7_main_call3_v0, val7_main_v86, val7_main_v3]
set_option maxRecDepth 8192 in
set_option maxHeartbeats 2000000 in
theorem val8_main_v103 (V0 : Valuation τ sig (Elt F)) : val8 V0 (no_index (Proc.devRef .tc main_v103)) = res_main_v103 V0 := by
  window_value val8 ops1_3 [val7_main_v7, val7_main_call3_v0, val7_main_v86, val7_main_arg5]

/-- The buffers' contents after the first 9 windows. -/
noncomputable def val9 (V0 : Valuation τ sig (Elt F)) : Valuation τ sig (Elt F) := after ops2_0 (val8 V0)
/-- The buffers window `ops2_0` writes. -/
abbrev ops2_0_W : List (Ref sig .tc) := [main_v104, main_v105, main_v106, main_v107, main_v108, main_v109, main_v110, main_v111, main_v112, main_v113, main_v114, main_v115, main_v116, main_cst_14, main_v117, main_cst_15, main_v118, main_v119, main_c_16, main_call4_cst, main_call4_v0]
set_option maxRecDepth 8192 in
theorem ops2_0_writes : (ops2_0 : List (HloOp τ sig (Elt F))).Forall fun op => op.writes ⊆ (ops2_0_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val9_keep (V0 : Valuation τ sig (Elt F)) (r : Ref sig .tc) (h : r ∉ ops2_0_W) :
    val9 V0 (Proc.devRef .tc r) = val8 V0 (Proc.devRef .tc r) :=
  after_of_writes_sub ops2_0 _ ops2_0_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
theorem val9_main_v1 (V0 : Valuation τ sig (Elt F)) : val9 V0 (no_index (Proc.devRef .tc main_v1)) = res_main_v1 V0 :=
  (val9_keep V0 main_v1 (by decide)).trans (val8_main_v1 V0)
theorem val9_main_v3 (V0 : Valuation τ sig (Elt F)) : val9 V0 (no_index (Proc.devRef .tc main_v3)) = res_main_v3 V0 :=
  (val9_keep V0 main_v3 (by decide)).trans (val8_main_v3 V0)
theorem val9_main_v88 (V0 : Valuation τ sig (Elt F)) : val9 V0 (no_index (Proc.devRef .tc main_v88)) = res_main_v88 V0 :=
  (val9_keep V0 main_v88 (by decide)).trans (val8_main_v88 V0)
set_option maxRecDepth 8192 in
set_option maxHeartbeats 2000000 in
theorem val9_main_v112 (V0 : Valuation τ sig (Elt F)) : val9 V0 (no_index (Proc.devRef .tc main_v112)) = res_main_v112 V0 := by
  window_value val9 ops2_0 [val8_main_arg7, val8_main_arg6, val8_main_v98, val8_main_v103]
set_option maxRecDepth 8192 in
set_option maxHeartbeats 2000000 in
theorem val9_main_v114 (V0 : Valuation τ sig (Elt F)) : val9 V0 (no_index (Proc.devRef .tc main_v114)) = res_main_v114 V0 := by
  window_value val9 ops2_0 [val8_main_arg8]
set_option maxRecDepth 8192 in
set_option maxHeartbeats 2000000 in
theorem val9_main_v116 (V0 : Valuation τ sig (Elt F)) : val9 V0 (no_index (Proc.devRef .tc main_v116)) = res_main_v116 V0 := by
  window_value val9 ops2_0 [val8_main_arg9]
set_option maxRecDepth 8192 in
set_option maxHeartbeats 2000000 in
theorem val9_main_v119 (V0 : Valuation τ sig (Elt F)) : val9 V0 (no_index (Proc.devRef .tc main_v119)) = res_main_v119 V0 := by
  window_value val9 ops2_0 [val8_main_arg7, val8_main_arg6, val8_main_v98, val8_main_v103]
set_option maxRecDepth 8192 in
set_option maxHeartbeats 2000000 in
theorem val9_main_c_16 (V0 : Valuation τ sig (Elt F)) : val9 V0 (no_index (Proc.devRef .tc main_c_16)) = res_main_c_16 V0 := by
  window_value val9 ops2_0 []
set_option maxRecDepth 8192 in
set_option maxHeartbeats 2000000 in
theorem val9_main_call4_v0 (V0 : Valuation τ sig (Elt F)) : val9 V0 (no_index (Proc.devRef .tc main_call4_v0)) = res_main_call4_v0 V0 := by
  window_value val9 ops2_0 [val8_main_arg7, val8_main_arg6, val8_main_v98, val8_main_v103]

/-- The buffers' contents after the first 10 windows. -/
noncomputable def val10 (V0 : Valuation τ sig (Elt F)) : Valuation τ sig (Elt F) := after ops2_1 (val9 V0)
/-- The buffers window `ops2_1` writes. -/
abbrev ops2_1_W : List (Ref sig .tc) := [main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v120, main_v121]
set_option maxRecDepth 8192 in
theorem ops2_1_writes : (ops2_1 : List (HloOp τ sig (Elt F))).Forall fun op => op.writes ⊆ (ops2_1_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val10_keep (V0 : Valuation τ sig (Elt F)) (r : Ref sig .tc) (h : r ∉ ops2_1_W) :
    val10 V0 (Proc.devRef .tc r) = val9 V0 (Proc.devRef .tc r) :=
  after_of_writes_sub ops2_1 _ ops2_1_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_arg11 (V0 : Valuation τ sig (Elt F)) : val10 V0 (no_index (Proc.devRef .tc main_arg11)) = V0 (Proc.devRef .tc main_arg11) :=
  (val10_keep V0 main_arg11 (by decide)).trans (val9_main_arg11 V0)
theorem val10_main_arg12 (V0 : Valuation τ sig (Elt F)) : val10 V0 (no_index (Proc.devRef .tc main_arg12)) = V0 (Proc.devRef .tc main_arg12) :=
  (val10_keep V0 main_arg12 (by decide)).trans (val9_main_arg12 V0)
theorem val10_main_arg13 (V0 : Valuation τ sig (Elt F)) : val10 V0 (no_index (Proc.devRef .tc main_arg13)) = V0 (Proc.devRef .tc main_arg13) :=
  (val10_keep V0 main_arg13 (by decide)).trans (val9_main_arg13 V0)
theorem val10_main_arg14 (V0 : Valuation τ sig (Elt F)) : val10 V0 (no_index (Proc.devRef .tc main_arg14)) = V0 (Proc.devRef .tc main_arg14) :=
  (val10_keep V0 main_arg14 (by decide)).trans (val9_main_arg14 V0)
theorem val10_main_arg15 (V0 : Valuation τ sig (Elt F)) : val10 V0 (no_index (Proc.devRef .tc main_arg15)) = V0 (Proc.devRef .tc main_arg15) :=
  (val10_keep V0 main_arg15 (by decide)).trans (val9_main_arg15 V0)
theorem val10_main_v1 (V0 : Valuation τ sig (Elt F)) : val10 V0 (no_index (Proc.devRef .tc main_v1)) = res_main_v1 V0 :=
  (val10_keep V0 main_v1 (by decide)).trans (val9_main_v1 V0)
theorem val10_main_v3 (V0 : Valuation τ sig (Elt F)) : val10 V0 (no_index (Proc.devRef .tc main_v3)) = res_main_v3 V0 :=
  (val10_keep V0 main_v3 (by decide)).trans (val9_main_v3 V0)
theorem val10_main_v88 (V0 : Valuation τ sig (Elt F)) : val10 V0 (no_index (Proc.devRef .tc main_v88)) = res_main_v88 V0 :=
  (val10_keep V0 main_v88 (by decide)).trans (val9_main_v88 V0)
theorem val10_main_v112 (V0 : Valuation τ sig (Elt F)) : val10 V0 (no_index (Proc.devRef .tc main_v112)) = res_main_v112 V0 :=
  (val10_keep V0 main_v112 (by decide)).trans (val9_main_v112 V0)
theorem val10_main_v114 (V0 : Valuation τ sig (Elt F)) : val10 V0 (no_index (Proc.devRef .tc main_v114)) = res_main_v114 V0 :=
  (val10_keep V0 main_v114 (by decide)).trans (val9_main_v114 V0)
theorem val10_main_v116 (V0 : Valuation τ sig (Elt F)) : val10 V0 (no_index (Proc.devRef .tc main_v116)) = res_main_v116 V0 :=
  (val10_keep V0 main_v116 (by decide)).trans (val9_main_v116 V0)
set_option maxRecDepth 8192 in
set_option maxHeartbeats 2000000 in
theorem val10_main_v120 (V0 : Valuation τ sig (Elt F)) : val10 V0 (no_index (Proc.devRef .tc main_v120)) = res_main_v120 V0 := by
  window_value val10 ops2_1 [val9_main_c_16, val9_main_call4_v0, val9_main_v112]
set_option maxRecDepth 8192 in
set_option maxHeartbeats 2000000 in
theorem val10_main_v121 (V0 : Valuation τ sig (Elt F)) : val10 V0 (no_index (Proc.devRef .tc main_v121)) = res_main_v121 V0 := by
  window_value val10 ops2_1 [val9_main_v119]

/-- The buffers' contents after the first 11 windows. -/
noncomputable def val11 (V0 : Valuation τ sig (Elt F)) : Valuation τ sig (Elt F) := after ops2_2 (val10 V0)
/-- The buffers window `ops2_2` writes. -/
abbrev ops2_2_W : List (Ref sig .tc) := [main_v122, main_v123, main_cst_17, main_v124, main_v125, main_v126, main_v127, main_v128, main_v129, main_v130, main_v131, main_v132, main_v133, main_v134, main_v135, main_call5_cst, main_call5_v0, main_v136, main_v137, main_v138, main_v139]
set_option maxRecDepth 8192 in
theorem ops2_2_writes : (ops2_2 : List (HloOp τ sig (Elt F))).Forall fun op => op.writes ⊆ (ops2_2_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val11_keep (V0 : Valuation τ sig (Elt F)) (r : Ref sig .tc) (h : r ∉ ops2_2_W) :
    val11 V0 (Proc.devRef .tc r) = val10 V0 (Proc.devRef .tc r) :=
  after_of_writes_sub ops2_2 _ ops2_2_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
theorem val11_main_arg10 (V0 : Valuation τ sig (Elt F)) : val11 V0 (no_index (Proc.devRef .tc main_arg10)) = V0 (Proc.devRef .tc main_arg10) :=
  (val11_keep V0 main_arg10 (by decide)).trans (val10_main_arg10 V0)
theorem val11_main_arg11 (V0 : Valuation τ sig (Elt F)) : val11 V0 (no_index (Proc.devRef .tc main_arg11)) = V0 (Proc.devRef .tc main_arg11) :=
  (val11_keep V0 main_arg11 (by decide)).trans (val10_main_arg11 V0)
theorem val11_main_arg12 (V0 : Valuation τ sig (Elt F)) : val11 V0 (no_index (Proc.devRef .tc main_arg12)) = V0 (Proc.devRef .tc main_arg12) :=
  (val11_keep V0 main_arg12 (by decide)).trans (val10_main_arg12 V0)
theorem val11_main_arg13 (V0 : Valuation τ sig (Elt F)) : val11 V0 (no_index (Proc.devRef .tc main_arg13)) = V0 (Proc.devRef .tc main_arg13) :=
  (val11_keep V0 main_arg13 (by decide)).trans (val10_main_arg13 V0)
theorem val11_main_arg14 (V0 : Valuation τ sig (Elt F)) : val11 V0 (no_index (Proc.devRef .tc main_arg14)) = V0 (Proc.devRef .tc main_arg14) :=
  (val11_keep V0 main_arg14 (by decide)).trans (val10_main_arg14 V0)
theorem val11_main_arg15 (V0 : Valuation τ sig (Elt F)) : val11 V0 (no_index (Proc.devRef .tc main_arg15)) = V0 (Proc.devRef .tc main_arg15) :=
  (val11_keep V0 main_arg15 (by decide)).trans (val10_main_arg15 V0)
theorem val11_main_v1 (V0 : Valuation τ sig (Elt F)) : val11 V0 (no_index (Proc.devRef .tc main_v1)) = res_main_v1 V0 :=
  (val11_keep V0 main_v1 (by decide)).trans (val10_main_v1 V0)
theorem val11_main_v3 (V0 : Valuation τ sig (Elt F)) : val11 V0 (no_index (Proc.devRef .tc main_v3)) = res_main_v3 V0 :=
  (val11_keep V0 main_v3 (by decide)).trans (val10_main_v3 V0)
theorem val11_main_v88 (V0 : Valuation τ sig (Elt F)) : val11 V0 (no_index (Proc.devRef .tc main_v88)) = res_main_v88 V0 :=
  (val11_keep V0 main_v88 (by decide)).trans (val10_main_v88 V0)
set_option maxRecDepth 8192 in
set_option maxHeartbeats 2000000 in
theorem val11_main_v139 (V0 : Valuation τ sig (Elt F)) : val11 V0 (no_index (Proc.devRef .tc main_v139)) = res_main_v139 V0 := by
  window_value val11 ops2_2 [val10_main_arg10, val10_main_v116, val10_main_v114, val10_main_v120, val10_main_v121, val10_main_v112]

/-- The buffers' contents after the first 12 windows. -/
noncomputable def val12 (V0 : Valuation τ sig (Elt F)) : Valuation τ sig (Elt F) := after ops2_3 (val11 V0)
/-- The buffers window `ops2_3` writes. -/
abbrev ops2_3_W : List (Ref sig .tc) := [main_v140, main_v141, main_v142, main_v143, main_v144, main_v145, main_v146, main_v147, main_v148, main_cst_18, main_v149, main_cst_19, main_v150, main_v151, main_c_20, main_call6_cst, main_call6_v0, main_call6_v1, main_call6_cst_0, main_call6_v2, main_call6_v3]
set_option maxRecDepth 8192 in
theorem ops2_3_writes : (ops2_3 : List (HloOp τ sig (Elt F))).Forall fun op => op.writes ⊆ (ops2_3_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val12_keep (V0 : Valuation τ sig (Elt F)) (r : Ref sig .tc) (h : r ∉ ops2_3_W) :
    val12 V0 (Proc.devRef .tc r) = val11 V0 (Proc.devRef .tc r) :=
  after_of_writes_sub ops2_3 _ ops2_3_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_arg5 (V0 : Valuation τ sig (Elt F)) : val12 V0 (no_index (Proc.devRef .tc main_arg5)) = V0 (Proc.devRef .tc main_arg5) :=
  (val12_keep V0 main_arg5 (by decide)).trans (val11_main_arg5 V0)
theorem val12_main_arg6 (V0 : Valuation τ sig (Elt F)) : val12 V0 (no_index (Proc.devRef .tc main_arg6)) = V0 (Proc.devRef .tc main_arg6) :=
  (val12_keep V0 main_arg6 (by decide)).trans (val11_main_arg6 V0)
theorem val12_main_arg7 (V0 : Valuation τ sig (Elt F)) : val12 V0 (no_index (Proc.devRef .tc main_arg7)) = V0 (Proc.devRef .tc main_arg7) :=
  (val12_keep V0 main_arg7 (by decide)).trans (val11_main_arg7 V0)
theorem val12_main_arg8 (V0 : Valuation τ sig (Elt F)) : val12 V0 (no_index (Proc.devRef .tc main_arg8)) = V0 (Proc.devRef .tc main_arg8) :=
  (val12_keep V0 main_arg8 (by decide)).trans (val11_main_arg8 V0)
theorem val12_main_arg9 (V0 : Valuation τ sig (Elt F)) : val12 V0 (no_index (Proc.devRef .tc main_arg9)) = V0 (Proc.devRef .tc main_arg9) :=
  (val12_keep V0 main_arg9 (by decide)).trans (val11_main_arg9 V0)
theorem val12_main_arg10 (V0 : Valuation τ sig (Elt F)) : val12 V0 (no_index (Proc.devRef .tc main_arg10)) = V0 (Proc.devRef .tc main_arg10) :=
  (val12_keep V0 main_arg10 (by decide)).trans (val11_main_arg10 V0)
theorem val12_main_arg11 (V0 : Valuation τ sig (Elt F)) : val12 V0 (no_index (Proc.devRef .tc main_arg11)) = V0 (Proc.devRef .tc main_arg11) :=
  (val12_keep V0 main_arg11 (by decide)).trans (val11_main_arg11 V0)
theorem val12_main_arg12 (V0 : Valuation τ sig (Elt F)) : val12 V0 (no_index (Proc.devRef .tc main_arg12)) = V0 (Proc.devRef .tc main_arg12) :=
  (val12_keep V0 main_arg12 (by decide)).trans (val11_main_arg12 V0)
theorem val12_main_arg13 (V0 : Valuation τ sig (Elt F)) : val12 V0 (no_index (Proc.devRef .tc main_arg13)) = V0 (Proc.devRef .tc main_arg13) :=
  (val12_keep V0 main_arg13 (by decide)).trans (val11_main_arg13 V0)
theorem val12_main_arg14 (V0 : Valuation τ sig (Elt F)) : val12 V0 (no_index (Proc.devRef .tc main_arg14)) = V0 (Proc.devRef .tc main_arg14) :=
  (val12_keep V0 main_arg14 (by decide)).trans (val11_main_arg14 V0)
theorem val12_main_arg15 (V0 : Valuation τ sig (Elt F)) : val12 V0 (no_index (Proc.devRef .tc main_arg15)) = V0 (Proc.devRef .tc main_arg15) :=
  (val12_keep V0 main_arg15 (by decide)).trans (val11_main_arg15 V0)
theorem val12_main_v1 (V0 : Valuation τ sig (Elt F)) : val12 V0 (no_index (Proc.devRef .tc main_v1)) = res_main_v1 V0 :=
  (val12_keep V0 main_v1 (by decide)).trans (val11_main_v1 V0)
theorem val12_main_v3 (V0 : Valuation τ sig (Elt F)) : val12 V0 (no_index (Proc.devRef .tc main_v3)) = res_main_v3 V0 :=
  (val12_keep V0 main_v3 (by decide)).trans (val11_main_v3 V0)
theorem val12_main_v88 (V0 : Valuation τ sig (Elt F)) : val12 V0 (no_index (Proc.devRef .tc main_v88)) = res_main_v88 V0 :=
  (val12_keep V0 main_v88 (by decide)).trans (val11_main_v88 V0)
set_option maxRecDepth 8192 in
set_option maxHeartbeats 2000000 in
theorem val12_main_v144 (V0 : Valuation τ sig (Elt F)) : val12 V0 (no_index (Proc.devRef .tc main_v144)) = res_main_v144 V0 := by
  window_value val12 ops2_3 [val11_main_arg11, val11_main_v139]
set_option maxRecDepth 8192 in
set_option maxHeartbeats 2000000 in
theorem val12_main_v146 (V0 : Valuation τ sig (Elt F)) : val12 V0 (no_index (Proc.devRef .tc main_v146)) = res_main_v146 V0 := by
  window_value val12 ops2_3 [val11_main_arg12]
set_option maxRecDepth 8192 in
set_option maxHeartbeats 2000000 in
theorem val12_main_v148 (V0 : Valuation τ sig (Elt F)) : val12 V0 (no_index (Proc.devRef .tc main_v148)) = res_main_v148 V0 := by
  window_value val12 ops2_3 [val11_main_arg13]
set_option maxRecDepth 8192 in
set_option maxHeartbeats 2000000 in
theorem val12_main_v151 (V0 : Valuation τ sig (Elt F)) : val12 V0 (no_index (Proc.devRef .tc main_v151)) = res_main_v151 V0 := by
  window_value val12 ops2_3 [val11_main_arg11, val11_main_v139]
set_option maxRecDepth 8192 in
set_option maxHeartbeats 2000000 in
theorem val12_main_c_20 (V0 : Valuation τ sig (Elt F)) : val12 V0 (no_index (Proc.devRef .tc main_c_20)) = res_main_c_20 V0 := by
  window_value val12 ops2_3 []
set_option maxRecDepth 8192 in
set_option maxHeartbeats 2000000 in
theorem val12_main_call6_v3 (V0 : Valuation τ sig (Elt F)) : val12 V0 (no_index (Proc.devRef .tc main_call6_v3)) = res_main_call6_v3 V0 := by
  window_value val12 ops2_3 [val11_main_arg11, val11_main_v139]

/-- The buffers' contents after the first 13 windows. -/
noncomputable def val13 (V0 : Valuation τ sig (Elt F)) : Valuation τ sig (Elt F) := after ops2_4 (val12 V0)
/-- The buffers window `ops2_4` writes. -/
abbrev ops2_4_W : List (Ref sig .tc) := [main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v152, main_v153, main_v154, main_v155, main_cst_21]
set_option maxRecDepth 8192 in
theorem ops2_4_writes : (ops2_4 : List (HloOp τ sig (Elt F))).Forall fun op => op.writes ⊆ (ops2_4_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val13_keep (V0 : Valuation τ sig (Elt F)) (r : Ref sig .tc) (h : r ∉ ops2_4_W) :
    val13 V0 (Proc.devRef .tc r) = val12 V0 (Proc.devRef .tc r) :=
  after_of_writes_sub ops2_4 _ ops2_4_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide)).trans (val12_main_arg3 V0)
theorem val13_main_arg4 (V0 : Valuation τ sig (Elt F)) : val13 V0 (no_index (Proc.devRef .tc main_arg4)) = V0 (Proc.devRef .tc main_arg4) :=
  (val13_keep V0 main_arg4 (by decide)).trans (val12_main_arg4 V0)
theorem val13_main_arg5 (V0 : Valuation τ sig (Elt F)) : val13 V0 (no_index (Proc.devRef .tc main_arg5)) = V0 (Proc.devRef .tc main_arg5) :=
  (val13_keep V0 main_arg5 (by decide)).trans (val12_main_arg5 V0)
theorem val13_main_arg6 (V0 : Valuation τ sig (Elt F)) : val13 V0 (no_index (Proc.devRef .tc main_arg6)) = V0 (Proc.devRef .tc main_arg6) :=
  (val13_keep V0 main_arg6 (by decide)).trans (val12_main_arg6 V0)
theorem val13_main_arg7 (V0 : Valuation τ sig (Elt F)) : val13 V0 (no_index (Proc.devRef .tc main_arg7)) = V0 (Proc.devRef .tc main_arg7) :=
  (val13_keep V0 main_arg7 (by decide)).trans (val12_main_arg7 V0)
theorem val13_main_arg8 (V0 : Valuation τ sig (Elt F)) : val13 V0 (no_index (Proc.devRef .tc main_arg8)) = V0 (Proc.devRef .tc main_arg8) :=
  (val13_keep V0 main_arg8 (by decide)).trans (val12_main_arg8 V0)
theorem val13_main_arg9 (V0 : Valuation τ sig (Elt F)) : val13 V0 (no_index (Proc.devRef .tc main_arg9)) = V0 (Proc.devRef .tc main_arg9) :=
  (val13_keep V0 main_arg9 (by decide)).trans (val12_main_arg9 V0)
theorem val13_main_arg10 (V0 : Valuation τ sig (Elt F)) : val13 V0 (no_index (Proc.devRef .tc main_arg10)) = V0 (Proc.devRef .tc main_arg10) :=
  (val13_keep V0 main_arg10 (by decide)).trans (val12_main_arg10 V0)
theorem val13_main_arg11 (V0 : Valuation τ sig (Elt F)) : val13 V0 (no_index (Proc.devRef .tc main_arg11)) = V0 (Proc.devRef .tc main_arg11) :=
  (val13_keep V0 main_arg11 (by decide)).trans (val12_main_arg11 V0)
theorem val13_main_arg12 (V0 : Valuation τ sig (Elt F)) : val13 V0 (no_index (Proc.devRef .tc main_arg12)) = V0 (Proc.devRef .tc main_arg12) :=
  (val13_keep V0 main_arg12 (by decide)).trans (val12_main_arg12 V0)
theorem val13_main_arg13 (V0 : Valuation τ sig (Elt F)) : val13 V0 (no_index (Proc.devRef .tc main_arg13)) = V0 (Proc.devRef .tc main_arg13) :=
  (val13_keep V0 main_arg13 (by decide)).trans (val12_main_arg13 V0)
theorem val13_main_arg14 (V0 : Valuation τ sig (Elt F)) : val13 V0 (no_index (Proc.devRef .tc main_arg14)) = V0 (Proc.devRef .tc main_arg14) :=
  (val13_keep V0 main_arg14 (by decide)).trans (val12_main_arg14 V0)
theorem val13_main_arg15 (V0 : Valuation τ sig (Elt F)) : val13 V0 (no_index (Proc.devRef .tc main_arg15)) = V0 (Proc.devRef .tc main_arg15) :=
  (val13_keep V0 main_arg15 (by decide)).trans (val12_main_arg15 V0)
theorem val13_main_v1 (V0 : Valuation τ sig (Elt F)) : val13 V0 (no_index (Proc.devRef .tc main_v1)) = res_main_v1 V0 :=
  (val13_keep V0 main_v1 (by decide)).trans (val12_main_v1 V0)
theorem val13_main_v3 (V0 : Valuation τ sig (Elt F)) : val13 V0 (no_index (Proc.devRef .tc main_v3)) = res_main_v3 V0 :=
  (val13_keep V0 main_v3 (by decide)).trans (val12_main_v3 V0)
theorem val13_main_v88 (V0 : Valuation τ sig (Elt F)) : val13 V0 (no_index (Proc.devRef .tc main_v88)) = res_main_v88 V0 :=
  (val13_keep V0 main_v88 (by decide)).trans (val12_main_v88 V0)
theorem val13_main_v146 (V0 : Valuation τ sig (Elt F)) : val13 V0 (no_index (Proc.devRef .tc main_v146)) = res_main_v146 V0 :=
  (val13_keep V0 main_v146 (by decide)).trans (val12_main_v146 V0)
theorem val13_main_v148 (V0 : Valuation τ sig (Elt F)) : val13 V0 (no_index (Proc.devRef .tc main_v148)) = res_main_v148 V0 :=
  (val13_keep V0 main_v148 (by decide)).trans (val12_main_v148 V0)
set_option maxRecDepth 8192 in
set_option maxHeartbeats 2000000 in
theorem val13_main_v152 (V0 : Valuation τ sig (Elt F)) : val13 V0 (no_index (Proc.devRef .tc main_v152)) = res_main_v152 V0 := by
  window_value val13 ops2_4 [val12_main_c_20, val12_main_call6_v3, val12_main_v144]
set_option maxRecDepth 8192 in
set_option maxHeartbeats 2000000 in
theorem val13_main_v155 (V0 : Valuation τ sig (Elt F)) : val13 V0 (no_index (Proc.devRef .tc main_v155)) = res_main_v155 V0 := by
  window_value val13 ops2_4 [val12_main_v151, val12_main_v144]
set_option maxRecDepth 8192 in
set_option maxHeartbeats 2000000 in
theorem val13_main_cst_21 (V0 : Valuation τ sig (Elt F)) : val13 V0 (no_index (Proc.devRef .tc main_cst_21)) = res_main_cst_21 V0 := by
  window_value val13 ops2_4 []

/-- The buffers' contents after the first 14 windows. -/
noncomputable def val14 (V0 : Valuation τ sig (Elt F)) : Valuation τ sig (Elt F) := after ops3_0 (val13 V0)
/-- The buffers window `ops3_0` writes. -/
abbrev ops3_0_W : List (Ref sig .tc) := [main_v156, main_v157, main_v158, main_v159, main_v160, main_v161, main_v162, main_v163, main_v164, main_v165, main_v166, main_v167, main_call7_cst, main_call7_v0, main_v168, main_v169, main_c_22, main_v170, main_v171, main_c_23, main_v172]
set_option maxRecDepth 8192 in
theorem ops3_0_writes : (ops3_0 : List (HloOp τ sig (Elt F))).Forall fun op => op.writes ⊆ (ops3_0_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val14_keep (V0 : Valuation τ sig (Elt F)) (r : Ref sig .tc) (h : r ∉ ops3_0_W) :
    val14 V0 (Proc.devRef .tc r) = val13 V0 (Proc.devRef .tc r) :=
  after_of_writes_sub ops3_0 _ ops3_0_writes h
theorem val14_main_arg0 (V0 : Valuation τ sig (Elt F)) : val14 V0 (no_index (Proc.devRef .tc main_arg0)) = V0 (Proc.devRef .tc main_arg0) :=
  (val14_keep V0 main_arg0 (by decide)).trans (val13_main_arg0 V0)
theorem val14_main_arg1 (V0 : Valuation τ sig (Elt F)) : val14 V0 (no_index (Proc.devRef .tc main_arg1)) = V0 (Proc.devRef .tc main_arg1) :=
  (val14_keep V0 main_arg1 (by decide)).trans (val13_main_arg1 V0)
theorem val14_main_arg2 (V0 : Valuation τ sig (Elt F)) : val14 V0 (no_index (Proc.devRef .tc main_arg2)) = V0 (Proc.devRef .tc main_arg2) :=
  (val14_keep V0 main_arg2 (by decide)).trans (val13_main_arg2 V0)
theorem val14_main_arg3 (V0 : Valuation τ sig (Elt F)) : val14 V0 (no_index (Proc.devRef .tc main_arg3)) = V0 (Proc.devRef .tc main_arg3) :=
  (val14_keep V0 main_arg3 (by decide)).trans (val13_main_arg3 V0)
theorem val14_main_arg4 (V0 : Valuation τ sig (Elt F)) : val14 V0 (no_index (Proc.devRef .tc main_arg4)) = V0 (Proc.devRef .tc main_arg4) :=
  (val14_keep V0 main_arg4 (by decide)).trans (val13_main_arg4 V0)
theorem val14_main_arg5 (V0 : Valuation τ sig (Elt F)) : val14 V0 (no_index (Proc.devRef .tc main_arg5)) = V0 (Proc.devRef .tc main_arg5) :=
  (val14_keep V0 main_arg5 (by decide)).trans (val13_main_arg5 V0)
theorem val14_main_arg6 (V0 : Valuation τ sig (Elt F)) : val14 V0 (no_index (Proc.devRef .tc main_arg6)) = V0 (Proc.devRef .tc main_arg6) :=
  (val14_keep V0 main_arg6 (by decide)).trans (val13_main_arg6 V0)
theorem val14_main_arg7 (V0 : Valuation τ sig (Elt F)) : val14 V0 (no_index (Proc.devRef .tc main_arg7)) = V0 (Proc.devRef .tc main_arg7) :=
  (val14_keep V0 main_arg7 (by decide)).trans (val13_main_arg7 V0)
theorem val14_main_arg8 (V0 : Valuation τ sig (Elt F)) : val14 V0 (no_index (Proc.devRef .tc main_arg8)) = V0 (Proc.devRef .tc main_arg8) :=
  (val14_keep V0 main_arg8 (by decide)).trans (val13_main_arg8 V0)
theorem val14_main_arg9 (V0 : Valuation τ sig (Elt F)) : val14 V0 (no_index (Proc.devRef .tc main_arg9)) = V0 (Proc.devRef .tc main_arg9) :=
  (val14_keep V0 main_arg9 (by decide)).trans (val13_main_arg9 V0)
theorem val14_main_arg10 (V0 : Valuation τ sig (Elt F)) : val14 V0 (no_index (Proc.devRef .tc main_arg10)) = V0 (Proc.devRef .tc main_arg10) :=
  (val14_keep V0 main_arg10 (by decide)).trans (val13_main_arg10 V0)
theorem val14_main_arg11 (V0 : Valuation τ sig (Elt F)) : val14 V0 (no_index (Proc.devRef .tc main_arg11)) = V0 (Proc.devRef .tc main_arg11) :=
  (val14_keep V0 main_arg11 (by decide)).trans (val13_main_arg11 V0)
theorem val14_main_arg12 (V0 : Valuation τ sig (Elt F)) : val14 V0 (no_index (Proc.devRef .tc main_arg12)) = V0 (Proc.devRef .tc main_arg12) :=
  (val14_keep V0 main_arg12 (by decide)).trans (val13_main_arg12 V0)
theorem val14_main_arg13 (V0 : Valuation τ sig (Elt F)) : val14 V0 (no_index (Proc.devRef .tc main_arg13)) = V0 (Proc.devRef .tc main_arg13) :=
  (val14_keep V0 main_arg13 (by decide)).trans (val13_main_arg13 V0)
theorem val14_main_arg14 (V0 : Valuation τ sig (Elt F)) : val14 V0 (no_index (Proc.devRef .tc main_arg14)) = V0 (Proc.devRef .tc main_arg14) :=
  (val14_keep V0 main_arg14 (by decide)).trans (val13_main_arg14 V0)
theorem val14_main_arg15 (V0 : Valuation τ sig (Elt F)) : val14 V0 (no_index (Proc.devRef .tc main_arg15)) = V0 (Proc.devRef .tc main_arg15) :=
  (val14_keep V0 main_arg15 (by decide)).trans (val13_main_arg15 V0)
theorem val14_main_v1 (V0 : Valuation τ sig (Elt F)) : val14 V0 (no_index (Proc.devRef .tc main_v1)) = res_main_v1 V0 :=
  (val14_keep V0 main_v1 (by decide)).trans (val13_main_v1 V0)
theorem val14_main_v3 (V0 : Valuation τ sig (Elt F)) : val14 V0 (no_index (Proc.devRef .tc main_v3)) = res_main_v3 V0 :=
  (val14_keep V0 main_v3 (by decide)).trans (val13_main_v3 V0)
set_option maxRecDepth 8192 in
set_option maxHeartbeats 2000000 in
theorem val14_main_v169 (V0 : Valuation τ sig (Elt F)) : val14 V0 (no_index (Proc.devRef .tc main_v169)) = res_main_v169 V0 := by
  window_value val14 ops3_0 [val13_main_v88, val13_main_v148, val13_main_v146, val13_main_cst_21, val13_main_v152, val13_main_v155]
set_option maxRecDepth 8192 in
set_option maxHeartbeats 2000000 in
theorem val14_main_v171 (V0 : Valuation τ sig (Elt F)) : val14 V0 (no_index (Proc.devRef .tc main_v171)) = res_main_v171 V0 := by
  window_value val14 ops3_0 [val13_main_v1]
set_option maxRecDepth 8192 in
set_option maxHeartbeats 2000000 in
theorem val14_main_v172 (V0 : Valuation τ sig (Elt F)) : val14 V0 (no_index (Proc.devRef .tc main_v172)) = res_main_v172 V0 := by
  window_value val14 ops3_0 []

/-- The buffers' contents after the first 15 windows. -/
noncomputable def val15 (V0 : Valuation τ sig (Elt F)) : Valuation τ sig (Elt F) := after ops3_1 (val14 V0)
/-- The buffers window `ops3_1` writes. -/
abbrev ops3_1_W : List (Ref sig .tc) := [main_v173, main_v174, main_v175, main_v176, main_cst_24, main_v177, main_v178, main_v179, main_v180, main_v181, main_cst_25, main_v182, main_v183, main_v184, main_v185, main_v186, main_v187, main_v188, main_v189, main_v190, main_v191]
set_option maxRecDepth 8192 in
theorem ops3_1_writes : (ops3_1 : List (HloOp τ sig (Elt F))).Forall fun op => op.writes ⊆ (ops3_1_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val15_keep (V0 : Valuation τ sig (Elt F)) (r : Ref sig .tc) (h : r ∉ ops3_1_W) :
    val15 V0 (Proc.devRef .tc r) = val14 V0 (Proc.devRef .tc r) :=
  after_of_writes_sub ops3_1 _ ops3_1_writes h
theorem val15_main_arg0 (V0 : Valuation τ sig (Elt F)) : val15 V0 (no_index (Proc.devRef .tc main_arg0)) = V0 (Proc.devRef .tc main_arg0) :=
  (val15_keep V0 main_arg0 (by decide)).trans (val14_main_arg0 V0)
theorem val15_main_arg1 (V0 : Valuation τ sig (Elt F)) : val15 V0 (no_index (Proc.devRef .tc main_arg1)) = V0 (Proc.devRef .tc main_arg1) :=
  (val15_keep V0 main_arg1 (by decide)).trans (val14_main_arg1 V0)
theorem val15_main_arg2 (V0 : Valuation τ sig (Elt F)) : val15 V0 (no_index (Proc.devRef .tc main_arg2)) = V0 (Proc.devRef .tc main_arg2) :=
  (val15_keep V0 main_arg2 (by decide)).trans (val14_main_arg2 V0)
theorem val15_main_arg3 (V0 : Valuation τ sig (Elt F)) : val15 V0 (no_index (Proc.devRef .tc main_arg3)) = V0 (Proc.devRef .tc main_arg3) :=
  (val15_keep V0 main_arg3 (by decide)).trans (val14_main_arg3 V0)
theorem val15_main_arg4 (V0 : Valuation τ sig (Elt F)) : val15 V0 (no_index (Proc.devRef .tc main_arg4)) = V0 (Proc.devRef .tc main_arg4) :=
  (val15_keep V0 main_arg4 (by decide)).trans (val14_main_arg4 V0)
theorem val15_main_arg5 (V0 : Valuation τ sig (Elt F)) : val15 V0 (no_index (Proc.devRef .tc main_arg5)) = V0 (Proc.devRef .tc main_arg5) :=
  (val15_keep V0 main_arg5 (by decide)).trans (val14_main_arg5 V0)
theorem val15_main_arg6 (V0 : Valuation τ sig (Elt F)) : val15 V0 (no_index (Proc.devRef .tc main_arg6)) = V0 (Proc.devRef .tc main_arg6) :=
  (val15_keep V0 main_arg6 (by decide)).trans (val14_main_arg6 V0)
theorem val15_main_arg7 (V0 : Valuation τ sig (Elt F)) : val15 V0 (no_index (Proc.devRef .tc main_arg7)) = V0 (Proc.devRef .tc main_arg7) :=
  (val15_keep V0 main_arg7 (by decide)).trans (val14_main_arg7 V0)
theorem val15_main_arg8 (V0 : Valuation τ sig (Elt F)) : val15 V0 (no_index (Proc.devRef .tc main_arg8)) = V0 (Proc.devRef .tc main_arg8) :=
  (val15_keep V0 main_arg8 (by decide)).trans (val14_main_arg8 V0)
theorem val15_main_arg9 (V0 : Valuation τ sig (Elt F)) : val15 V0 (no_index (Proc.devRef .tc main_arg9)) = V0 (Proc.devRef .tc main_arg9) :=
  (val15_keep V0 main_arg9 (by decide)).trans (val14_main_arg9 V0)
theorem val15_main_arg10 (V0 : Valuation τ sig (Elt F)) : val15 V0 (no_index (Proc.devRef .tc main_arg10)) = V0 (Proc.devRef .tc main_arg10) :=
  (val15_keep V0 main_arg10 (by decide)).trans (val14_main_arg10 V0)
theorem val15_main_arg11 (V0 : Valuation τ sig (Elt F)) : val15 V0 (no_index (Proc.devRef .tc main_arg11)) = V0 (Proc.devRef .tc main_arg11) :=
  (val15_keep V0 main_arg11 (by decide)).trans (val14_main_arg11 V0)
theorem val15_main_arg12 (V0 : Valuation τ sig (Elt F)) : val15 V0 (no_index (Proc.devRef .tc main_arg12)) = V0 (Proc.devRef .tc main_arg12) :=
  (val15_keep V0 main_arg12 (by decide)).trans (val14_main_arg12 V0)
theorem val15_main_arg13 (V0 : Valuation τ sig (Elt F)) : val15 V0 (no_index (Proc.devRef .tc main_arg13)) = V0 (Proc.devRef .tc main_arg13) :=
  (val15_keep V0 main_arg13 (by decide)).trans (val14_main_arg13 V0)
theorem val15_main_arg14 (V0 : Valuation τ sig (Elt F)) : val15 V0 (no_index (Proc.devRef .tc main_arg14)) = V0 (Proc.devRef .tc main_arg14) :=
  (val15_keep V0 main_arg14 (by decide)).trans (val14_main_arg14 V0)
theorem val15_main_arg15 (V0 : Valuation τ sig (Elt F)) : val15 V0 (no_index (Proc.devRef .tc main_arg15)) = V0 (Proc.devRef .tc main_arg15) :=
  (val15_keep V0 main_arg15 (by decide)).trans (val14_main_arg15 V0)
theorem val15_main_v1 (V0 : Valuation τ sig (Elt F)) : val15 V0 (no_index (Proc.devRef .tc main_v1)) = res_main_v1 V0 :=
  (val15_keep V0 main_v1 (by decide)).trans (val14_main_v1 V0)
theorem val15_main_v3 (V0 : Valuation τ sig (Elt F)) : val15 V0 (no_index (Proc.devRef .tc main_v3)) = res_main_v3 V0 :=
  (val15_keep V0 main_v3 (by decide)).trans (val14_main_v3 V0)
theorem val15_main_v169 (V0 : Valuation τ sig (Elt F)) : val15 V0 (no_index (Proc.devRef .tc main_v169)) = res_main_v169 V0 :=
  (val15_keep V0 main_v169 (by decide)).trans (val14_main_v169 V0)
set_option maxRecDepth 8192 in
set_option maxHeartbeats 2000000 in
theorem val15_main_v188 (V0 : Valuation τ sig (Elt F)) : val15 V0 (no_index (Proc.devRef .tc main_v188)) = res_main_v188 V0 := by
  window_value val15 ops3_1 [val14_main_arg6, val14_main_v1, val14_main_v172, val14_main_v171, val14_main_v169, val14_main_v3, val14_main_arg5]
set_option maxRecDepth 8192 in
set_option maxHeartbeats 2000000 in
theorem val15_main_v191 (V0 : Valuation τ sig (Elt F)) : val15 V0 (no_index (Proc.devRef .tc main_v191)) = res_main_v191 V0 := by
  window_value val15 ops3_1 [val14_main_arg7]

/-- The buffers' contents after the first 16 windows. -/
noncomputable def val16 (V0 : Valuation τ sig (Elt F)) : Valuation τ sig (Elt F) := after ops3_2 (val15 V0)
/-- The buffers window `ops3_2` writes. -/
abbrev ops3_2_W : List (Ref sig .tc) := [main_v192, main_v193, main_v194, main_v195, main_v196, main_v197, main_cst_26, main_v198, main_cst_27, main_v199, main_v200, main_c_28, main_call8_cst, main_call8_v0, main_call8_v1, main_call8_cst_0, main_call8_v2, main_call8_v3, main_call8_v4, main_call8_v5, main_call8_v6]
set_option maxRecDepth 8192 in
theorem ops3_2_writes : (ops3_2 : List (HloOp τ sig (Elt F))).Forall fun op => op.writes ⊆ (ops3_2_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val16_keep (V0 : Valuation τ sig (Elt F)) (r : Ref sig .tc) (h : r ∉ ops3_2_W) :
    val16 V0 (Proc.devRef .tc r) = val15 V0 (Proc.devRef .tc r) :=
  after_of_writes_sub ops3_2 _ ops3_2_writes h
theorem val16_main_arg0 (V0 : Valuation τ sig (Elt F)) : val16 V0 (no_index (Proc.devRef .tc main_arg0)) = V0 (Proc.devRef .tc main_arg0) :=
  (val16_keep V0 main_arg0 (by decide)).trans (val15_main_arg0 V0)
theorem val16_main_arg1 (V0 : Valuation τ sig (Elt F)) : val16 V0 (no_index (Proc.devRef .tc main_arg1)) = V0 (Proc.devRef .tc main_arg1) :=
  (val16_keep V0 main_arg1 (by decide)).trans (val15_main_arg1 V0)
theorem val16_main_arg2 (V0 : Valuation τ sig (Elt F)) : val16 V0 (no_index (Proc.devRef .tc main_arg2)) = V0 (Proc.devRef .tc main_arg2) :=
  (val16_keep V0 main_arg2 (by decide)).trans (val15_main_arg2 V0)
theorem val16_main_arg3 (V0 : Valuation τ sig (Elt F)) : val16 V0 (no_index (Proc.devRef .tc main_arg3)) = V0 (Proc.devRef .tc main_arg3) :=
  (val16_keep V0 main_arg3 (by decide)).trans (val15_main_arg3 V0)
theorem val16_main_arg4 (V0 : Valuation τ sig (Elt F)) : val16 V0 (no_index (Proc.devRef .tc main_arg4)) = V0 (Proc.devRef .tc main_arg4) :=
  (val16_keep V0 main_arg4 (by decide)).trans (val15_main_arg4 V0)
theorem val16_main_arg5 (V0 : Valuation τ sig (Elt F)) : val16 V0 (no_index (Proc.devRef .tc main_arg5)) = V0 (Proc.devRef .tc main_arg5) :=
  (val16_keep V0 main_arg5 (by decide)).trans (val15_main_arg5 V0)
theorem val16_main_arg6 (V0 : Valuation τ sig (Elt F)) : val16 V0 (no_index (Proc.devRef .tc main_arg6)) = V0 (Proc.devRef .tc main_arg6) :=
  (val16_keep V0 main_arg6 (by decide)).trans (val15_main_arg6 V0)
theorem val16_main_arg7 (V0 : Valuation τ sig (Elt F)) : val16 V0 (no_index (Proc.devRef .tc main_arg7)) = V0 (Proc.devRef .tc main_arg7) :=
  (val16_keep V0 main_arg7 (by decide)).trans (val15_main_arg7 V0)
theorem val16_main_arg8 (V0 : Valuation τ sig (Elt F)) : val16 V0 (no_index (Proc.devRef .tc main_arg8)) = V0 (Proc.devRef .tc main_arg8) :=
  (val16_keep V0 main_arg8 (by decide)).trans (val15_main_arg8 V0)
theorem val16_main_arg9 (V0 : Valuation τ sig (Elt F)) : val16 V0 (no_index (Proc.devRef .tc main_arg9)) = V0 (Proc.devRef .tc main_arg9) :=
  (val16_keep V0 main_arg9 (by decide)).trans (val15_main_arg9 V0)
theorem val16_main_arg10 (V0 : Valuation τ sig (Elt F)) : val16 V0 (no_index (Proc.devRef .tc main_arg10)) = V0 (Proc.devRef .tc main_arg10) :=
  (val16_keep V0 main_arg10 (by decide)).trans (val15_main_arg10 V0)
theorem val16_main_arg11 (V0 : Valuation τ sig (Elt F)) : val16 V0 (no_index (Proc.devRef .tc main_arg11)) = V0 (Proc.devRef .tc main_arg11) :=
  (val16_keep V0 main_arg11 (by decide)).trans (val15_main_arg11 V0)
theorem val16_main_arg12 (V0 : Valuation τ sig (Elt F)) : val16 V0 (no_index (Proc.devRef .tc main_arg12)) = V0 (Proc.devRef .tc main_arg12) :=
  (val16_keep V0 main_arg12 (by decide)).trans (val15_main_arg12 V0)
theorem val16_main_arg13 (V0 : Valuation τ sig (Elt F)) : val16 V0 (no_index (Proc.devRef .tc main_arg13)) = V0 (Proc.devRef .tc main_arg13) :=
  (val16_keep V0 main_arg13 (by decide)).trans (val15_main_arg13 V0)
theorem val16_main_arg14 (V0 : Valuation τ sig (Elt F)) : val16 V0 (no_index (Proc.devRef .tc main_arg14)) = V0 (Proc.devRef .tc main_arg14) :=
  (val16_keep V0 main_arg14 (by decide)).trans (val15_main_arg14 V0)
theorem val16_main_arg15 (V0 : Valuation τ sig (Elt F)) : val16 V0 (no_index (Proc.devRef .tc main_arg15)) = V0 (Proc.devRef .tc main_arg15) :=
  (val16_keep V0 main_arg15 (by decide)).trans (val15_main_arg15 V0)
theorem val16_main_v1 (V0 : Valuation τ sig (Elt F)) : val16 V0 (no_index (Proc.devRef .tc main_v1)) = res_main_v1 V0 :=
  (val16_keep V0 main_v1 (by decide)).trans (val15_main_v1 V0)
theorem val16_main_v3 (V0 : Valuation τ sig (Elt F)) : val16 V0 (no_index (Proc.devRef .tc main_v3)) = res_main_v3 V0 :=
  (val16_keep V0 main_v3 (by decide)).trans (val15_main_v3 V0)
theorem val16_main_v169 (V0 : Valuation τ sig (Elt F)) : val16 V0 (no_index (Proc.devRef .tc main_v169)) = res_main_v169 V0 :=
  (val16_keep V0 main_v169 (by decide)).trans (val15_main_v169 V0)
set_option maxRecDepth 8192 in
set_option maxHeartbeats 2000000 in
theorem val16_main_v193 (V0 : Valuation τ sig (Elt F)) : val16 V0 (no_index (Proc.devRef .tc main_v193)) = res_main_v193 V0 := by
  window_value val16 ops3_2 [val15_main_v191, val15_main_v188]
set_option maxRecDepth 8192 in
set_option maxHeartbeats 2000000 in
theorem val16_main_v195 (V0 : Valuation τ sig (Elt F)) : val16 V0 (no_index (Proc.devRef .tc main_v195)) = res_main_v195 V0 := by
  window_value val16 ops3_2 [val15_main_arg8]
set_option maxRecDepth 8192 in
set_option maxHeartbeats 2000000 in
theorem val16_main_v197 (V0 : Valuation τ sig (Elt F)) : val16 V0 (no_index (Proc.devRef .tc main_v197)) = res_main_v197 V0 := by
  window_value val16 ops3_2 [val15_main_arg9]
set_option maxRecDepth 8192 in
set_option maxHeartbeats 2000000 in
theorem val16_main_v200 (V0 : Valuation τ sig (Elt F)) : val16 V0 (no_index (Proc.devRef .tc main_v200)) = res_main_v200 V0 := by
  window_value val16 ops3_2 [val15_main_v191, val15_main_v188]
set_option maxRecDepth 8192 in
set_option maxHeartbeats 2000000 in
theorem val16_main_c_28 (V0 : Valuation τ sig (Elt F)) : val16 V0 (no_index (Proc.devRef .tc main_c_28)) = res_main_c_28 V0 := by
  window_value val16 ops3_2 []
set_option maxRecDepth 8192 in
set_option maxHeartbeats 2000000 in
theorem val16_main_call8_v6 (V0 : Valuation τ sig (Elt F)) : val16 V0 (no_index (Proc.devRef .tc main_call8_v6)) = res_main_call8_v6 V0 := by
  window_value val16 ops3_2 [val15_main_v191, val15_main_v188]

/-- The buffers' contents after the first 17 windows. -/
noncomputable def val17 (V0 : Valuation τ sig (Elt F)) : Valuation τ sig (Elt F) := after ops3_3 (val16 V0)
/-- The buffers window `ops3_3` writes. -/
abbrev ops3_3_W : List (Ref sig .tc) := [main_call8_v7, main_call8_cst_1, main_call8_v8, main_call8_cst_2, main_call8_v9, main_call8_v10, main_call8_v11, main_call8_cst_3, main_call8_v12, main_call8_cst_4, main_call8_call0_v0, main_call8_call0_v1, main_v201, main_v202, main_v203, main_v204, main_cst_29, main_v205, main_v206, main_v207]
set_option maxRecDepth 8192 in
theorem ops3_3_writes : (ops3_3 : List (HloOp τ sig (Elt F))).Forall fun op => op.writes ⊆ (ops3_3_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val17_keep (V0 : Valuation τ sig (Elt F)) (r : Ref sig .tc) (h : r ∉ ops3_3_W) :
    val17 V0 (Proc.devRef .tc r) = val16 V0 (Proc.devRef .tc r) :=
  after_of_writes_sub ops3_3 _ ops3_3_writes h
theorem val17_main_arg0 (V0 : Valuation τ sig (Elt F)) : val17 V0 (no_index (Proc.devRef .tc main_arg0)) = V0 (Proc.devRef .tc main_arg0) :=
  (val17_keep V0 main_arg0 (by decide)).trans (val16_main_arg0 V0)
theorem val17_main_arg1 (V0 : Valuation τ sig (Elt F)) : val17 V0 (no_index (Proc.devRef .tc main_arg1)) = V0 (Proc.devRef .tc main_arg1) :=
  (val17_keep V0 main_arg1 (by decide)).trans (val16_main_arg1 V0)
theorem val17_main_arg2 (V0 : Valuation τ sig (Elt F)) : val17 V0 (no_index (Proc.devRef .tc main_arg2)) = V0 (Proc.devRef .tc main_arg2) :=
  (val17_keep V0 main_arg2 (by decide)).trans (val16_main_arg2 V0)
theorem val17_main_arg3 (V0 : Valuation τ sig (Elt F)) : val17 V0 (no_index (Proc.devRef .tc main_arg3)) = V0 (Proc.devRef .tc main_arg3) :=
  (val17_keep V0 main_arg3 (by decide)).trans (val16_main_arg3 V0)
theorem val17_main_arg4 (V0 : Valuation τ sig (Elt F)) : val17 V0 (no_index (Proc.devRef .tc main_arg4)) = V0 (Proc.devRef .tc main_arg4) :=
  (val17_keep V0 main_arg4 (by decide)).trans (val16_main_arg4 V0)
theorem val17_main_arg5 (V0 : Valuation τ sig (Elt F)) : val17 V0 (no_index (Proc.devRef .tc main_arg5)) = V0 (Proc.devRef .tc main_arg5) :=
  (val17_keep V0 main_arg5 (by decide)).trans (val16_main_arg5 V0)
theorem val17_main_arg6 (V0 : Valuation τ sig (Elt F)) : val17 V0 (no_index (Proc.devRef .tc main_arg6)) = V0 (Proc.devRef .tc main_arg6) :=
  (val17_keep V0 main_arg6 (by decide)).trans (val16_main_arg6 V0)
theorem val17_main_arg7 (V0 : Valuation τ sig (Elt F)) : val17 V0 (no_index (Proc.devRef .tc main_arg7)) = V0 (Proc.devRef .tc main_arg7) :=
  (val17_keep V0 main_arg7 (by decide)).trans (val16_main_arg7 V0)
theorem val17_main_arg8 (V0 : Valuation τ sig (Elt F)) : val17 V0 (no_index (Proc.devRef .tc main_arg8)) = V0 (Proc.devRef .tc main_arg8) :=
  (val17_keep V0 main_arg8 (by decide)).trans (val16_main_arg8 V0)
theorem val17_main_arg9 (V0 : Valuation τ sig (Elt F)) : val17 V0 (no_index (Proc.devRef .tc main_arg9)) = V0 (Proc.devRef .tc main_arg9) :=
  (val17_keep V0 main_arg9 (by decide)).trans (val16_main_arg9 V0)
theorem val17_main_arg10 (V0 : Valuation τ sig (Elt F)) : val17 V0 (no_index (Proc.devRef .tc main_arg10)) = V0 (Proc.devRef .tc main_arg10) :=
  (val17_keep V0 main_arg10 (by decide)).trans (val16_main_arg10 V0)
theorem val17_main_arg11 (V0 : Valuation τ sig (Elt F)) : val17 V0 (no_index (Proc.devRef .tc main_arg11)) = V0 (Proc.devRef .tc main_arg11) :=
  (val17_keep V0 main_arg11 (by decide)).trans (val16_main_arg11 V0)
theorem val17_main_arg12 (V0 : Valuation τ sig (Elt F)) : val17 V0 (no_index (Proc.devRef .tc main_arg12)) = V0 (Proc.devRef .tc main_arg12) :=
  (val17_keep V0 main_arg12 (by decide)).trans (val16_main_arg12 V0)
theorem val17_main_arg13 (V0 : Valuation τ sig (Elt F)) : val17 V0 (no_index (Proc.devRef .tc main_arg13)) = V0 (Proc.devRef .tc main_arg13) :=
  (val17_keep V0 main_arg13 (by decide)).trans (val16_main_arg13 V0)
theorem val17_main_arg14 (V0 : Valuation τ sig (Elt F)) : val17 V0 (no_index (Proc.devRef .tc main_arg14)) = V0 (Proc.devRef .tc main_arg14) :=
  (val17_keep V0 main_arg14 (by decide)).trans (val16_main_arg14 V0)
theorem val17_main_arg15 (V0 : Valuation τ sig (Elt F)) : val17 V0 (no_index (Proc.devRef .tc main_arg15)) = V0 (Proc.devRef .tc main_arg15) :=
  (val17_keep V0 main_arg15 (by decide)).trans (val16_main_arg15 V0)
theorem val17_main_v1 (V0 : Valuation τ sig (Elt F)) : val17 V0 (no_index (Proc.devRef .tc main_v1)) = res_main_v1 V0 :=
  (val17_keep V0 main_v1 (by decide)).trans (val16_main_v1 V0)
theorem val17_main_v3 (V0 : Valuation τ sig (Elt F)) : val17 V0 (no_index (Proc.devRef .tc main_v3)) = res_main_v3 V0 :=
  (val17_keep V0 main_v3 (by decide)).trans (val16_main_v3 V0)
theorem val17_main_v169 (V0 : Valuation τ sig (Elt F)) : val17 V0 (no_index (Proc.devRef .tc main_v169)) = res_main_v169 V0 :=
  (val17_keep V0 main_v169 (by decide)).trans (val16_main_v169 V0)
theorem val17_main_v195 (V0 : Valuation τ sig (Elt F)) : val17 V0 (no_index (Proc.devRef .tc main_v195)) = res_main_v195 V0 :=
  (val17_keep V0 main_v195 (by decide)).trans (val16_main_v195 V0)
theorem val17_main_v197 (V0 : Valuation τ sig (Elt F)) : val17 V0 (no_index (Proc.devRef .tc main_v197)) = res_main_v197 V0 :=
  (val17_keep V0 main_v197 (by decide)).trans (val16_main_v197 V0)
set_option maxRecDepth 8192 in
set_option maxHeartbeats 2000000 in
theorem val17_main_v204 (V0 : Valuation τ sig (Elt F)) : val17 V0 (no_index (Proc.devRef .tc main_v204)) = res_main_v204 V0 := by
  window_value val17 ops3_3 [val16_main_v200, val16_main_v193]
set_option maxRecDepth 8192 in
set_option maxHeartbeats 2000000 in
theorem val17_main_v207 (V0 : Valuation τ sig (Elt F)) : val17 V0 (no_index (Proc.devRef .tc main_v207)) = res_main_v207 V0 := by
  window_value val17 ops3_3 [val16_main_c_28, val16_main_call8_v6]

/-- The buffers' contents after the first 18 windows. -/
noncomputable def val18 (V0 : Valuation τ sig (Elt F)) : Valuation τ sig (Elt F) := after ops4_0 (val17 V0)
/-- The buffers window `ops4_0` writes. -/
abbrev ops4_0_W : List (Ref sig .tc) := [main_v208, main_v209, main_v210, main_v211, main_v212, main_v213, main_v214, main_v215, main_v216, main_call9_cst, main_call9_v0, main_v217, main_v218, main_v219, main_v220, main_v221, main_v222, main_v223, main_v224, main_v225, main_v226, main_v227]
set_option maxRecDepth 8192 in
theorem ops4_0_writes : (ops4_0 : List (HloOp τ sig (Elt F))).Forall fun op => op.writes ⊆ (ops4_0_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val18_keep (V0 : Valuation τ sig (Elt F)) (r : Ref sig .tc) (h : r ∉ ops4_0_W) :
    val18 V0 (Proc.devRef .tc r) = val17 V0 (Proc.devRef .tc r) :=
  after_of_writes_sub ops4_0 _ ops4_0_writes h
theorem val18_main_arg0 (V0 : Valuation τ sig (Elt F)) : val18 V0 (no_index (Proc.devRef .tc main_arg0)) = V0 (Proc.devRef .tc main_arg0) :=
  (val18_keep V0 main_arg0 (by decide)).trans (val17_main_arg0 V0)
theorem val18_main_arg1 (V0 : Valuation τ sig (Elt F)) : val18 V0 (no_index (Proc.devRef .tc main_arg1)) = V0 (Proc.devRef .tc main_arg1) :=
  (val18_keep V0 main_arg1 (by decide)).trans (val17_main_arg1 V0)
theorem val18_main_arg2 (V0 : Valuation τ sig (Elt F)) : val18 V0 (no_index (Proc.devRef .tc main_arg2)) = V0 (Proc.devRef .tc main_arg2) :=
  (val18_keep V0 main_arg2 (by decide)).trans (val17_main_arg2 V0)
theorem val18_main_arg3 (V0 : Valuation τ sig (Elt F)) : val18 V0 (no_index (Proc.devRef .tc main_arg3)) = V0 (Proc.devRef .tc main_arg3) :=
  (val18_keep V0 main_arg3 (by decide)).trans (val17_main_arg3 V0)
theorem val18_main_arg4 (V0 : Valuation τ sig (Elt F)) : val18 V0 (no_index (Proc.devRef .tc main_arg4)) = V0 (Proc.devRef .tc main_arg4) :=
  (val18_keep V0 main_arg4 (by decide)).trans (val17_main_arg4 V0)
theorem val18_main_arg5 (V0 : Valuation τ sig (Elt F)) : val18 V0 (no_index (Proc.devRef .tc main_arg5)) = V0 (Proc.devRef .tc main_arg5) :=
  (val18_keep V0 main_arg5 (by decide)).trans (val17_main_arg5 V0)
theorem val18_main_arg6 (V0 : Valuation τ sig (Elt F)) : val18 V0 (no_index (Proc.devRef .tc main_arg6)) = V0 (Proc.devRef .tc main_arg6) :=
  (val18_keep V0 main_arg6 (by decide)).trans (val17_main_arg6 V0)
theorem val18_main_arg7 (V0 : Valuation τ sig (Elt F)) : val18 V0 (no_index (Proc.devRef .tc main_arg7)) = V0 (Proc.devRef .tc main_arg7) :=
  (val18_keep V0 main_arg7 (by decide)).trans (val17_main_arg7 V0)
theorem val18_main_arg8 (V0 : Valuation τ sig (Elt F)) : val18 V0 (no_index (Proc.devRef .tc main_arg8)) = V0 (Proc.devRef .tc main_arg8) :=
  (val18_keep V0 main_arg8 (by decide)).trans (val17_main_arg8 V0)
theorem val18_main_arg9 (V0 : Valuation τ sig (Elt F)) : val18 V0 (no_index (Proc.devRef .tc main_arg9)) = V0 (Proc.devRef .tc main_arg9) :=
  (val18_keep V0 main_arg9 (by decide)).trans (val17_main_arg9 V0)
theorem val18_main_arg10 (V0 : Valuation τ sig (Elt F)) : val18 V0 (no_index (Proc.devRef .tc main_arg10)) = V0 (Proc.devRef .tc main_arg10) :=
  (val18_keep V0 main_arg10 (by decide)).trans (val17_main_arg10 V0)
theorem val18_main_arg11 (V0 : Valuation τ sig (Elt F)) : val18 V0 (no_index (Proc.devRef .tc main_arg11)) = V0 (Proc.devRef .tc main_arg11) :=
  (val18_keep V0 main_arg11 (by decide)).trans (val17_main_arg11 V0)
theorem val18_main_arg12 (V0 : Valuation τ sig (Elt F)) : val18 V0 (no_index (Proc.devRef .tc main_arg12)) = V0 (Proc.devRef .tc main_arg12) :=
  (val18_keep V0 main_arg12 (by decide)).trans (val17_main_arg12 V0)
theorem val18_main_arg13 (V0 : Valuation τ sig (Elt F)) : val18 V0 (no_index (Proc.devRef .tc main_arg13)) = V0 (Proc.devRef .tc main_arg13) :=
  (val18_keep V0 main_arg13 (by decide)).trans (val17_main_arg13 V0)
theorem val18_main_arg14 (V0 : Valuation τ sig (Elt F)) : val18 V0 (no_index (Proc.devRef .tc main_arg14)) = V0 (Proc.devRef .tc main_arg14) :=
  (val18_keep V0 main_arg14 (by decide)).trans (val17_main_arg14 V0)
theorem val18_main_arg15 (V0 : Valuation τ sig (Elt F)) : val18 V0 (no_index (Proc.devRef .tc main_arg15)) = V0 (Proc.devRef .tc main_arg15) :=
  (val18_keep V0 main_arg15 (by decide)).trans (val17_main_arg15 V0)
theorem val18_main_v1 (V0 : Valuation τ sig (Elt F)) : val18 V0 (no_index (Proc.devRef .tc main_v1)) = res_main_v1 V0 :=
  (val18_keep V0 main_v1 (by decide)).trans (val17_main_v1 V0)
theorem val18_main_v3 (V0 : Valuation τ sig (Elt F)) : val18 V0 (no_index (Proc.devRef .tc main_v3)) = res_main_v3 V0 :=
  (val18_keep V0 main_v3 (by decide)).trans (val17_main_v3 V0)
theorem val18_main_v169 (V0 : Valuation τ sig (Elt F)) : val18 V0 (no_index (Proc.devRef .tc main_v169)) = res_main_v169 V0 :=
  (val18_keep V0 main_v169 (by decide)).trans (val17_main_v169 V0)
set_option maxRecDepth 8192 in
set_option maxHeartbeats 2000000 in
theorem val18_main_v225 (V0 : Valuation τ sig (Elt F)) : val18 V0 (no_index (Proc.devRef .tc main_v225)) = res_main_v225 V0 := by
  window_value val18 ops4_0 [val17_main_arg11, val17_main_arg10, val17_main_v197, val17_main_v195, val17_main_v207, val17_main_v204]
set_option maxRecDepth 8192 in
set_option maxHeartbeats 2000000 in
theorem val18_main_v227 (V0 : Valuation τ sig (Elt F)) : val18 V0 (no_index (Proc.devRef .tc main_v227)) = res_main_v227 V0 := by
  window_value val18 ops4_0 [val17_main_arg12]

/-- The buffers' contents after the first 19 windows. -/
noncomputable def val19 (V0 : Valuation τ sig (Elt F)) : Valuation τ sig (Elt F) := after ops4_1 (val18 V0)
/-- The buffers window `ops4_1` writes. -/
abbrev ops4_1_W : List (Ref sig .tc) := [main_v228, main_v229, main_cst_30, main_v230, main_cst_31, main_v231, main_v232, main_c_32, main_call10_cst, main_call10_v0, main_call10_v1, main_call10_cst_0, main_call10_v2, main_call10_v3, main_call10_v4, main_call10_v5, main_call10_v6, main_call10_v7, main_call10_cst_1, main_call10_v8, main_call10_cst_2]
set_option maxRecDepth 8192 in
theorem ops4_1_writes : (ops4_1 : List (HloOp τ sig (Elt F))).Forall fun op => op.writes ⊆ (ops4_1_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val19_keep (V0 : Valuation τ sig (Elt F)) (r : Ref sig .tc) (h : r ∉ ops4_1_W) :
    val19 V0 (Proc.devRef .tc r) = val18 V0 (Proc.devRef .tc r) :=
  after_of_writes_sub ops4_1 _ ops4_1_writes h
theorem val19_main_arg0 (V0 : Valuation τ sig (Elt F)) : val19 V0 (no_index (Proc.devRef .tc main_arg0)) = V0 (Proc.devRef .tc main_arg0) :=
  (val19_keep V0 main_arg0 (by decide)).trans (val18_main_arg0 V0)
theorem val19_main_arg1 (V0 : Valuation τ sig (Elt F)) : val19 V0 (no_index (Proc.devRef .tc main_arg1)) = V0 (Proc.devRef .tc main_arg1) :=
  (val19_keep V0 main_arg1 (by decide)).trans (val18_main_arg1 V0)
theorem val19_main_arg2 (V0 : Valuation τ sig (Elt F)) : val19 V0 (no_index (Proc.devRef .tc main_arg2)) = V0 (Proc.devRef .tc main_arg2) :=
  (val19_keep V0 main_arg2 (by decide)).trans (val18_main_arg2 V0)
theorem val19_main_arg3 (V0 : Valuation τ sig (Elt F)) : val19 V0 (no_index (Proc.devRef .tc main_arg3)) = V0 (Proc.devRef .tc main_arg3) :=
  (val19_keep V0 main_arg3 (by decide)).trans (val18_main_arg3 V0)
theorem val19_main_arg4 (V0 : Valuation τ sig (Elt F)) : val19 V0 (no_index (Proc.devRef .tc main_arg4)) = V0 (Proc.devRef .tc main_arg4) :=
  (val19_keep V0 main_arg4 (by decide)).trans (val18_main_arg4 V0)
theorem val19_main_arg5 (V0 : Valuation τ sig (Elt F)) : val19 V0 (no_index (Proc.devRef .tc main_arg5)) = V0 (Proc.devRef .tc main_arg5) :=
  (val19_keep V0 main_arg5 (by decide)).trans (val18_main_arg5 V0)
theorem val19_main_arg6 (V0 : Valuation τ sig (Elt F)) : val19 V0 (no_index (Proc.devRef .tc main_arg6)) = V0 (Proc.devRef .tc main_arg6) :=
  (val19_keep V0 main_arg6 (by decide)).trans (val18_main_arg6 V0)
theorem val19_main_arg7 (V0 : Valuation τ sig (Elt F)) : val19 V0 (no_index (Proc.devRef .tc main_arg7)) = V0 (Proc.devRef .tc main_arg7) :=
  (val19_keep V0 main_arg7 (by decide)).trans (val18_main_arg7 V0)
theorem val19_main_arg8 (V0 : Valuation τ sig (Elt F)) : val19 V0 (no_index (Proc.devRef .tc main_arg8)) = V0 (Proc.devRef .tc main_arg8) :=
  (val19_keep V0 main_arg8 (by decide)).trans (val18_main_arg8 V0)
theorem val19_main_arg9 (V0 : Valuation τ sig (Elt F)) : val19 V0 (no_index (Proc.devRef .tc main_arg9)) = V0 (Proc.devRef .tc main_arg9) :=
  (val19_keep V0 main_arg9 (by decide)).trans (val18_main_arg9 V0)
theorem val19_main_arg10 (V0 : Valuation τ sig (Elt F)) : val19 V0 (no_index (Proc.devRef .tc main_arg10)) = V0 (Proc.devRef .tc main_arg10) :=
  (val19_keep V0 main_arg10 (by decide)).trans (val18_main_arg10 V0)
theorem val19_main_arg11 (V0 : Valuation τ sig (Elt F)) : val19 V0 (no_index (Proc.devRef .tc main_arg11)) = V0 (Proc.devRef .tc main_arg11) :=
  (val19_keep V0 main_arg11 (by decide)).trans (val18_main_arg11 V0)
theorem val19_main_arg12 (V0 : Valuation τ sig (Elt F)) : val19 V0 (no_index (Proc.devRef .tc main_arg12)) = V0 (Proc.devRef .tc main_arg12) :=
  (val19_keep V0 main_arg12 (by decide)).trans (val18_main_arg12 V0)
theorem val19_main_arg13 (V0 : Valuation τ sig (Elt F)) : val19 V0 (no_index (Proc.devRef .tc main_arg13)) = V0 (Proc.devRef .tc main_arg13) :=
  (val19_keep V0 main_arg13 (by decide)).trans (val18_main_arg13 V0)
theorem val19_main_arg14 (V0 : Valuation τ sig (Elt F)) : val19 V0 (no_index (Proc.devRef .tc main_arg14)) = V0 (Proc.devRef .tc main_arg14) :=
  (val19_keep V0 main_arg14 (by decide)).trans (val18_main_arg14 V0)
theorem val19_main_arg15 (V0 : Valuation τ sig (Elt F)) : val19 V0 (no_index (Proc.devRef .tc main_arg15)) = V0 (Proc.devRef .tc main_arg15) :=
  (val19_keep V0 main_arg15 (by decide)).trans (val18_main_arg15 V0)
theorem val19_main_v1 (V0 : Valuation τ sig (Elt F)) : val19 V0 (no_index (Proc.devRef .tc main_v1)) = res_main_v1 V0 :=
  (val19_keep V0 main_v1 (by decide)).trans (val18_main_v1 V0)
theorem val19_main_v3 (V0 : Valuation τ sig (Elt F)) : val19 V0 (no_index (Proc.devRef .tc main_v3)) = res_main_v3 V0 :=
  (val19_keep V0 main_v3 (by decide)).trans (val18_main_v3 V0)
theorem val19_main_v169 (V0 : Valuation τ sig (Elt F)) : val19 V0 (no_index (Proc.devRef .tc main_v169)) = res_main_v169 V0 :=
  (val19_keep V0 main_v169 (by decide)).trans (val18_main_v169 V0)
theorem val19_main_v225 (V0 : Valuation τ sig (Elt F)) : val19 V0 (no_index (Proc.devRef .tc main_v225)) = res_main_v225 V0 :=
  (val19_keep V0 main_v225 (by decide)).trans (val18_main_v225 V0)
theorem val19_main_v227 (V0 : Valuation τ sig (Elt F)) : val19 V0 (no_index (Proc.devRef .tc main_v227)) = res_main_v227 V0 :=
  (val19_keep V0 main_v227 (by decide)).trans (val18_main_v227 V0)
set_option maxRecDepth 8192 in
set_option maxHeartbeats 2000000 in
theorem val19_main_v229 (V0 : Valuation τ sig (Elt F)) : val19 V0 (no_index (Proc.devRef .tc main_v229)) = res_main_v229 V0 := by
  window_value val19 ops4_1 [val18_main_arg13]
set_option maxRecDepth 8192 in
set_option maxHeartbeats 2000000 in
theorem val19_main_v232 (V0 : Valuation τ sig (Elt F)) : val19 V0 (no_index (Proc.devRef .tc main_v232)) = res_main_v232 V0 := by
  window_value val19 ops4_1 [val18_main_v225]
set_option maxRecDepth 8192 in
set_option maxHeartbeats 2000000 in
theorem val19_main_call10_v6 (V0 : Valuation τ sig (Elt F)) : val19 V0 (no_index (Proc.devRef .tc main_call10_v6)) = res_main_call10_v6 V0 := by
  window_value val19 ops4_1 [val18_main_v225]
set_option maxRecDepth 8192 in
set_option maxHeartbeats 2000000 in
theorem val19_main_call10_v8 (V0 : Valuation τ sig (Elt F)) : val19 V0 (no_index (Proc.devRef .tc main_call10_v8)) = res_main_call10_v8 V0 := by
  window_value val19 ops4_1 []
set_option maxRecDepth 8192 in
set_option maxHeartbeats 2000000 in
theorem val19_main_call10_cst_2 (V0 : Valuation τ sig (Elt F)) : val19 V0 (no_index (Proc.devRef .tc main_call10_cst_2)) = res_main_call10_cst_2 V0 := by
  window_value val19 ops4_1 []

/-- The buffers' contents after the first 20 windows. -/
noncomputable def val20 (V0 : Valuation τ sig (Elt F)) : Valuation τ sig (Elt F) := after ops4_2 (val19 V0)
/-- The buffers window `ops4_2` writes. -/
abbrev ops4_2_W : List (Ref sig .tc) := [main_call10_v9, main_call10_v10, main_call10_v11, main_call10_cst_3, main_call10_v12, main_call10_cst_4, main_call10_call0_v0, main_call10_call0_v1, main_v233, main_v234, main_v235, main_v236, main_cst_33, main_v237, main_v238, main_v239, main_v240, main_v241, main_v242, main_v243, main_v244]
set_option maxRecDepth 8192 in
theorem ops4_2_writes : (ops4_2 : List (HloOp τ sig (Elt F))).Forall fun op => op.writes ⊆ (ops4_2_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val20_keep (V0 : Valuation τ sig (Elt F)) (r : Ref sig .tc) (h : r ∉ ops4_2_W) :
    val20 V0 (Proc.devRef .tc r) = val19 V0 (Proc.devRef .tc r) :=
  after_of_writes_sub ops4_2 _ ops4_2_writes h
theorem val20_main_arg0 (V0 : Valuation τ sig (Elt F)) : val20 V0 (no_index (Proc.devRef .tc main_arg0)) = V0 (Proc.devRef .tc main_arg0) :=
  (val20_keep V0 main_arg0 (by decide)).trans (val19_main_arg0 V0)
theorem val20_main_arg1 (V0 : Valuation τ sig (Elt F)) : val20 V0 (no_index (Proc.devRef .tc main_arg1)) = V0 (Proc.devRef .tc main_arg1) :=
  (val20_keep V0 main_arg1 (by decide)).trans (val19_main_arg1 V0)
theorem val20_main_arg2 (V0 : Valuation τ sig (Elt F)) : val20 V0 (no_index (Proc.devRef .tc main_arg2)) = V0 (Proc.devRef .tc main_arg2) :=
  (val20_keep V0 main_arg2 (by decide)).trans (val19_main_arg2 V0)
theorem val20_main_arg3 (V0 : Valuation τ sig (Elt F)) : val20 V0 (no_index (Proc.devRef .tc main_arg3)) = V0 (Proc.devRef .tc main_arg3) :=
  (val20_keep V0 main_arg3 (by decide)).trans (val19_main_arg3 V0)
theorem val20_main_arg4 (V0 : Valuation τ sig (Elt F)) : val20 V0 (no_index (Proc.devRef .tc main_arg4)) = V0 (Proc.devRef .tc main_arg4) :=
  (val20_keep V0 main_arg4 (by decide)).trans (val19_main_arg4 V0)
theorem val20_main_arg5 (V0 : Valuation τ sig (Elt F)) : val20 V0 (no_index (Proc.devRef .tc main_arg5)) = V0 (Proc.devRef .tc main_arg5) :=
  (val20_keep V0 main_arg5 (by decide)).trans (val19_main_arg5 V0)
theorem val20_main_arg6 (V0 : Valuation τ sig (Elt F)) : val20 V0 (no_index (Proc.devRef .tc main_arg6)) = V0 (Proc.devRef .tc main_arg6) :=
  (val20_keep V0 main_arg6 (by decide)).trans (val19_main_arg6 V0)
theorem val20_main_arg7 (V0 : Valuation τ sig (Elt F)) : val20 V0 (no_index (Proc.devRef .tc main_arg7)) = V0 (Proc.devRef .tc main_arg7) :=
  (val20_keep V0 main_arg7 (by decide)).trans (val19_main_arg7 V0)
theorem val20_main_arg8 (V0 : Valuation τ sig (Elt F)) : val20 V0 (no_index (Proc.devRef .tc main_arg8)) = V0 (Proc.devRef .tc main_arg8) :=
  (val20_keep V0 main_arg8 (by decide)).trans (val19_main_arg8 V0)
theorem val20_main_arg9 (V0 : Valuation τ sig (Elt F)) : val20 V0 (no_index (Proc.devRef .tc main_arg9)) = V0 (Proc.devRef .tc main_arg9) :=
  (val20_keep V0 main_arg9 (by decide)).trans (val19_main_arg9 V0)
theorem val20_main_arg10 (V0 : Valuation τ sig (Elt F)) : val20 V0 (no_index (Proc.devRef .tc main_arg10)) = V0 (Proc.devRef .tc main_arg10) :=
  (val20_keep V0 main_arg10 (by decide)).trans (val19_main_arg10 V0)
theorem val20_main_arg11 (V0 : Valuation τ sig (Elt F)) : val20 V0 (no_index (Proc.devRef .tc main_arg11)) = V0 (Proc.devRef .tc main_arg11) :=
  (val20_keep V0 main_arg11 (by decide)).trans (val19_main_arg11 V0)
theorem val20_main_arg12 (V0 : Valuation τ sig (Elt F)) : val20 V0 (no_index (Proc.devRef .tc main_arg12)) = V0 (Proc.devRef .tc main_arg12) :=
  (val20_keep V0 main_arg12 (by decide)).trans (val19_main_arg12 V0)
theorem val20_main_arg13 (V0 : Valuation τ sig (Elt F)) : val20 V0 (no_index (Proc.devRef .tc main_arg13)) = V0 (Proc.devRef .tc main_arg13) :=
  (val20_keep V0 main_arg13 (by decide)).trans (val19_main_arg13 V0)
theorem val20_main_arg14 (V0 : Valuation τ sig (Elt F)) : val20 V0 (no_index (Proc.devRef .tc main_arg14)) = V0 (Proc.devRef .tc main_arg14) :=
  (val20_keep V0 main_arg14 (by decide)).trans (val19_main_arg14 V0)
theorem val20_main_arg15 (V0 : Valuation τ sig (Elt F)) : val20 V0 (no_index (Proc.devRef .tc main_arg15)) = V0 (Proc.devRef .tc main_arg15) :=
  (val20_keep V0 main_arg15 (by decide)).trans (val19_main_arg15 V0)
theorem val20_main_v1 (V0 : Valuation τ sig (Elt F)) : val20 V0 (no_index (Proc.devRef .tc main_v1)) = res_main_v1 V0 :=
  (val20_keep V0 main_v1 (by decide)).trans (val19_main_v1 V0)
theorem val20_main_v3 (V0 : Valuation τ sig (Elt F)) : val20 V0 (no_index (Proc.devRef .tc main_v3)) = res_main_v3 V0 :=
  (val20_keep V0 main_v3 (by decide)).trans (val19_main_v3 V0)
theorem val20_main_v169 (V0 : Valuation τ sig (Elt F)) : val20 V0 (no_index (Proc.devRef .tc main_v169)) = res_main_v169 V0 :=
  (val20_keep V0 main_v169 (by decide)).trans (val19_main_v169 V0)
theorem val20_main_v229 (V0 : Valuation τ sig (Elt F)) : val20 V0 (no_index (Proc.devRef .tc main_v229)) = res_main_v229 V0 :=
  (val20_keep V0 main_v229 (by decide)).trans (val19_main_v229 V0)
set_option maxRecDepth 8192 in
set_option maxHeartbeats 2000000 in
theorem val20_main_v242 (V0 : Valuation τ sig (Elt F)) : val20 V0 (no_index (Proc.devRef .tc main_v242)) = res_main_v242 V0 := by
  window_value val20 ops4_2 [val19_main_call10_v8, val19_main_call10_cst_2, val19_main_call10_v6, val19_main_v232, val19_main_v225]
set_option maxRecDepth 8192 in
set_option maxHeartbeats 2000000 in
theorem val20_main_v244 (V0 : Valuation τ sig (Elt F)) : val20 V0 (no_index (Proc.devRef .tc main_v244)) = res_main_v244 V0 := by
  window_value val20 ops4_2 [val19_main_v227]

/-- The buffers' contents after the first 21 windows. -/
noncomputable def val21 (V0 : Valuation τ sig (Elt F)) : Valuation τ sig (Elt F) := after ops4_3 (val20 V0)
/-- The buffers window `ops4_3` writes. -/
abbrev ops4_3_W : List (Ref sig .tc) := [main_v245, main_v246, main_v247, main_v248, main_call11_cst, main_call11_v0, main_v249, main_v250, main_c_34, main_v251, main_v252, main_c_35, main_v253, main_v254, main_v255, main_v256, main_v257, main_cst_36, main_v258, main_v259, main_v260]
set_option maxRecDepth 8192 in
theorem ops4_3_writes : (ops4_3 : List (HloOp τ sig (Elt F))).Forall fun op => op.writes ⊆ (ops4_3_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val21_keep (V0 : Valuation τ sig (Elt F)) (r : Ref sig .tc) (h : r ∉ ops4_3_W) :
    val21 V0 (Proc.devRef .tc r) = val20 V0 (Proc.devRef .tc r) :=
  after_of_writes_sub ops4_3 _ ops4_3_writes h
theorem val21_main_arg0 (V0 : Valuation τ sig (Elt F)) : val21 V0 (no_index (Proc.devRef .tc main_arg0)) = V0 (Proc.devRef .tc main_arg0) :=
  (val21_keep V0 main_arg0 (by decide)).trans (val20_main_arg0 V0)
theorem val21_main_arg1 (V0 : Valuation τ sig (Elt F)) : val21 V0 (no_index (Proc.devRef .tc main_arg1)) = V0 (Proc.devRef .tc main_arg1) :=
  (val21_keep V0 main_arg1 (by decide)).trans (val20_main_arg1 V0)
theorem val21_main_arg2 (V0 : Valuation τ sig (Elt F)) : val21 V0 (no_index (Proc.devRef .tc main_arg2)) = V0 (Proc.devRef .tc main_arg2) :=
  (val21_keep V0 main_arg2 (by decide)).trans (val20_main_arg2 V0)
theorem val21_main_arg3 (V0 : Valuation τ sig (Elt F)) : val21 V0 (no_index (Proc.devRef .tc main_arg3)) = V0 (Proc.devRef .tc main_arg3) :=
  (val21_keep V0 main_arg3 (by decide)).trans (val20_main_arg3 V0)
theorem val21_main_arg4 (V0 : Valuation τ sig (Elt F)) : val21 V0 (no_index (Proc.devRef .tc main_arg4)) = V0 (Proc.devRef .tc main_arg4) :=
  (val21_keep V0 main_arg4 (by decide)).trans (val20_main_arg4 V0)
theorem val21_main_arg5 (V0 : Valuation τ sig (Elt F)) : val21 V0 (no_index (Proc.devRef .tc main_arg5)) = V0 (Proc.devRef .tc main_arg5) :=
  (val21_keep V0 main_arg5 (by decide)).trans (val20_main_arg5 V0)
theorem val21_main_arg6 (V0 : Valuation τ sig (Elt F)) : val21 V0 (no_index (Proc.devRef .tc main_arg6)) = V0 (Proc.devRef .tc main_arg6) :=
  (val21_keep V0 main_arg6 (by decide)).trans (val20_main_arg6 V0)
theorem val21_main_arg7 (V0 : Valuation τ sig (Elt F)) : val21 V0 (no_index (Proc.devRef .tc main_arg7)) = V0 (Proc.devRef .tc main_arg7) :=
  (val21_keep V0 main_arg7 (by decide)).trans (val20_main_arg7 V0)
theorem val21_main_arg8 (V0 : Valuation τ sig (Elt F)) : val21 V0 (no_index (Proc.devRef .tc main_arg8)) = V0 (Proc.devRef .tc main_arg8) :=
  (val21_keep V0 main_arg8 (by decide)).trans (val20_main_arg8 V0)
theorem val21_main_arg9 (V0 : Valuation τ sig (Elt F)) : val21 V0 (no_index (Proc.devRef .tc main_arg9)) = V0 (Proc.devRef .tc main_arg9) :=
  (val21_keep V0 main_arg9 (by decide)).trans (val20_main_arg9 V0)
theorem val21_main_arg10 (V0 : Valuation τ sig (Elt F)) : val21 V0 (no_index (Proc.devRef .tc main_arg10)) = V0 (Proc.devRef .tc main_arg10) :=
  (val21_keep V0 main_arg10 (by decide)).trans (val20_main_arg10 V0)
theorem val21_main_arg11 (V0 : Valuation τ sig (Elt F)) : val21 V0 (no_index (Proc.devRef .tc main_arg11)) = V0 (Proc.devRef .tc main_arg11) :=
  (val21_keep V0 main_arg11 (by decide)).trans (val20_main_arg11 V0)
theorem val21_main_arg12 (V0 : Valuation τ sig (Elt F)) : val21 V0 (no_index (Proc.devRef .tc main_arg12)) = V0 (Proc.devRef .tc main_arg12) :=
  (val21_keep V0 main_arg12 (by decide)).trans (val20_main_arg12 V0)
theorem val21_main_arg13 (V0 : Valuation τ sig (Elt F)) : val21 V0 (no_index (Proc.devRef .tc main_arg13)) = V0 (Proc.devRef .tc main_arg13) :=
  (val21_keep V0 main_arg13 (by decide)).trans (val20_main_arg13 V0)
theorem val21_main_arg14 (V0 : Valuation τ sig (Elt F)) : val21 V0 (no_index (Proc.devRef .tc main_arg14)) = V0 (Proc.devRef .tc main_arg14) :=
  (val21_keep V0 main_arg14 (by decide)).trans (val20_main_arg14 V0)
theorem val21_main_arg15 (V0 : Valuation τ sig (Elt F)) : val21 V0 (no_index (Proc.devRef .tc main_arg15)) = V0 (Proc.devRef .tc main_arg15) :=
  (val21_keep V0 main_arg15 (by decide)).trans (val20_main_arg15 V0)
set_option maxRecDepth 8192 in
set_option maxHeartbeats 2000000 in
theorem val21_main_v250 (V0 : Valuation τ sig (Elt F)) : val21 V0 (no_index (Proc.devRef .tc main_v250)) = res_main_v250 V0 := by
  window_value val21 ops4_3 [val20_main_v169, val20_main_v229, val20_main_v244, val20_main_v242]
set_option maxRecDepth 8192 in
set_option maxHeartbeats 2000000 in
theorem val21_main_v260 (V0 : Valuation τ sig (Elt F)) : val21 V0 (no_index (Proc.devRef .tc main_v260)) = res_main_v260 V0 := by
  window_value val21 ops4_3 [val20_main_v1, val20_main_v169, val20_main_v229, val20_main_v244, val20_main_v242, val20_main_v3]

/-- The buffers' contents after the first 22 windows. -/
noncomputable def val22 (V0 : Valuation τ sig (Elt F)) : Valuation τ sig (Elt F) := after ops5_0 (val21 V0)
/-- The buffers window `ops5_0` writes. -/
abbrev ops5_0_W : List (Ref sig .tc) := [main_v261, main_v262, main_cst_37, main_v263, main_v264, main_v265, main_v266, main_v267, main_v268, main_v269, main_v270, main_v271, main_v272, main_v273, main_v274, main_v275, main_v276, main_v277, main_v278, main_cst_38, main_v279]
set_option maxRecDepth 8192 in
theorem ops5_0_writes : (ops5_0 : List (HloOp τ sig (Elt F))).Forall fun op => op.writes ⊆ (ops5_0_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val22_keep (V0 : Valuation τ sig (Elt F)) (r : Ref sig .tc) (h : r ∉ ops5_0_W) :
    val22 V0 (Proc.devRef .tc r) = val21 V0 (Proc.devRef .tc r) :=
  after_of_writes_sub ops5_0 _ ops5_0_writes h
theorem val22_main_arg0 (V0 : Valuation τ sig (Elt F)) : val22 V0 (no_index (Proc.devRef .tc main_arg0)) = V0 (Proc.devRef .tc main_arg0) :=
  (val22_keep V0 main_arg0 (by decide)).trans (val21_main_arg0 V0)
theorem val22_main_arg1 (V0 : Valuation τ sig (Elt F)) : val22 V0 (no_index (Proc.devRef .tc main_arg1)) = V0 (Proc.devRef .tc main_arg1) :=
  (val22_keep V0 main_arg1 (by decide)).trans (val21_main_arg1 V0)
theorem val22_main_arg2 (V0 : Valuation τ sig (Elt F)) : val22 V0 (no_index (Proc.devRef .tc main_arg2)) = V0 (Proc.devRef .tc main_arg2) :=
  (val22_keep V0 main_arg2 (by decide)).trans (val21_main_arg2 V0)
theorem val22_main_arg3 (V0 : Valuation τ sig (Elt F)) : val22 V0 (no_index (Proc.devRef .tc main_arg3)) = V0 (Proc.devRef .tc main_arg3) :=
  (val22_keep V0 main_arg3 (by decide)).trans (val21_main_arg3 V0)
theorem val22_main_arg4 (V0 : Valuation τ sig (Elt F)) : val22 V0 (no_index (Proc.devRef .tc main_arg4)) = V0 (Proc.devRef .tc main_arg4) :=
  (val22_keep V0 main_arg4 (by decide)).trans (val21_main_arg4 V0)
theorem val22_main_arg5 (V0 : Valuation τ sig (Elt F)) : val22 V0 (no_index (Proc.devRef .tc main_arg5)) = V0 (Proc.devRef .tc main_arg5) :=
  (val22_keep V0 main_arg5 (by decide)).trans (val21_main_arg5 V0)
theorem val22_main_arg6 (V0 : Valuation τ sig (Elt F)) : val22 V0 (no_index (Proc.devRef .tc main_arg6)) = V0 (Proc.devRef .tc main_arg6) :=
  (val22_keep V0 main_arg6 (by decide)).trans (val21_main_arg6 V0)
theorem val22_main_arg7 (V0 : Valuation τ sig (Elt F)) : val22 V0 (no_index (Proc.devRef .tc main_arg7)) = V0 (Proc.devRef .tc main_arg7) :=
  (val22_keep V0 main_arg7 (by decide)).trans (val21_main_arg7 V0)
theorem val22_main_arg8 (V0 : Valuation τ sig (Elt F)) : val22 V0 (no_index (Proc.devRef .tc main_arg8)) = V0 (Proc.devRef .tc main_arg8) :=
  (val22_keep V0 main_arg8 (by decide)).trans (val21_main_arg8 V0)
theorem val22_main_arg9 (V0 : Valuation τ sig (Elt F)) : val22 V0 (no_index (Proc.devRef .tc main_arg9)) = V0 (Proc.devRef .tc main_arg9) :=
  (val22_keep V0 main_arg9 (by decide)).trans (val21_main_arg9 V0)
theorem val22_main_arg10 (V0 : Valuation τ sig (Elt F)) : val22 V0 (no_index (Proc.devRef .tc main_arg10)) = V0 (Proc.devRef .tc main_arg10) :=
  (val22_keep V0 main_arg10 (by decide)).trans (val21_main_arg10 V0)
theorem val22_main_arg11 (V0 : Valuation τ sig (Elt F)) : val22 V0 (no_index (Proc.devRef .tc main_arg11)) = V0 (Proc.devRef .tc main_arg11) :=
  (val22_keep V0 main_arg11 (by decide)).trans (val21_main_arg11 V0)
theorem val22_main_arg12 (V0 : Valuation τ sig (Elt F)) : val22 V0 (no_index (Proc.devRef .tc main_arg12)) = V0 (Proc.devRef .tc main_arg12) :=
  (val22_keep V0 main_arg12 (by decide)).trans (val21_main_arg12 V0)
theorem val22_main_arg13 (V0 : Valuation τ sig (Elt F)) : val22 V0 (no_index (Proc.devRef .tc main_arg13)) = V0 (Proc.devRef .tc main_arg13) :=
  (val22_keep V0 main_arg13 (by decide)).trans (val21_main_arg13 V0)
theorem val22_main_arg14 (V0 : Valuation τ sig (Elt F)) : val22 V0 (no_index (Proc.devRef .tc main_arg14)) = V0 (Proc.devRef .tc main_arg14) :=
  (val22_keep V0 main_arg14 (by decide)).trans (val21_main_arg14 V0)
theorem val22_main_arg15 (V0 : Valuation τ sig (Elt F)) : val22 V0 (no_index (Proc.devRef .tc main_arg15)) = V0 (Proc.devRef .tc main_arg15) :=
  (val22_keep V0 main_arg15 (by decide)).trans (val21_main_arg15 V0)
theorem val22_main_v250 (V0 : Valuation τ sig (Elt F)) : val22 V0 (no_index (Proc.devRef .tc main_v250)) = res_main_v250 V0 :=
  (val22_keep V0 main_v250 (by decide)).trans (val21_main_v250 V0)
set_option maxRecDepth 8192 in
set_option maxHeartbeats 2000000 in
theorem val22_main_v274 (V0 : Valuation τ sig (Elt F)) : val22 V0 (no_index (Proc.devRef .tc main_v274)) = res_main_v274 V0 := by
  window_value val22 ops5_0 [val21_main_arg7, val21_main_arg6, val21_main_v260, val21_main_v250, val21_main_arg5]
set_option maxRecDepth 8192 in
set_option maxHeartbeats 2000000 in
theorem val22_main_v276 (V0 : Valuation τ sig (Elt F)) : val22 V0 (no_index (Proc.devRef .tc main_v276)) = res_main_v276 V0 := by
  window_value val22 ops5_0 [val21_main_arg8]
set_option maxRecDepth 8192 in
set_option maxHeartbeats 2000000 in
theorem val22_main_v278 (V0 : Valuation τ sig (Elt F)) : val22 V0 (no_index (Proc.devRef .tc main_v278)) = res_main_v278 V0 := by
  window_value val22 ops5_0 [val21_main_arg9]
set_option maxRecDepth 8192 in
set_option maxHeartbeats 2000000 in
theorem val22_main_v279 (V0 : Valuation τ sig (Elt F)) : val22 V0 (no_index (Proc.devRef .tc main_v279)) = res_main_v279 V0 := by
  window_value val22 ops5_0 [val21_main_arg7, val21_main_arg6, val21_main_v260, val21_main_v250, val21_main_arg5]

/-- The buffers' contents after the first 23 windows. -/
noncomputable def val23 (V0 : Valuation τ sig (Elt F)) : Valuation τ sig (Elt F) := after ops5_1 (val22 V0)
/-- The buffers window `ops5_1` writes. -/
abbrev ops5_1_W : List (Ref sig .tc) := [main_cst_39, main_v280, main_v281, main_c_40, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3]
set_option maxRecDepth 8192 in
theorem ops5_1_writes : (ops5_1 : List (HloOp τ sig (Elt F))).Forall fun op => op.writes ⊆ (ops5_1_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val23_keep (V0 : Valuation τ sig (Elt F)) (r : Ref sig .tc) (h : r ∉ ops5_1_W) :
    val23 V0 (Proc.devRef .tc r) = val22 V0 (Proc.devRef .tc r) :=
  after_of_writes_sub ops5_1 _ ops5_1_writes h
theorem val23_main_arg0 (V0 : Valuation τ sig (Elt F)) : val23 V0 (no_index (Proc.devRef .tc main_arg0)) = V0 (Proc.devRef .tc main_arg0) :=
  (val23_keep V0 main_arg0 (by decide)).trans (val22_main_arg0 V0)
theorem val23_main_arg1 (V0 : Valuation τ sig (Elt F)) : val23 V0 (no_index (Proc.devRef .tc main_arg1)) = V0 (Proc.devRef .tc main_arg1) :=
  (val23_keep V0 main_arg1 (by decide)).trans (val22_main_arg1 V0)
theorem val23_main_arg2 (V0 : Valuation τ sig (Elt F)) : val23 V0 (no_index (Proc.devRef .tc main_arg2)) = V0 (Proc.devRef .tc main_arg2) :=
  (val23_keep V0 main_arg2 (by decide)).trans (val22_main_arg2 V0)
theorem val23_main_arg3 (V0 : Valuation τ sig (Elt F)) : val23 V0 (no_index (Proc.devRef .tc main_arg3)) = V0 (Proc.devRef .tc main_arg3) :=
  (val23_keep V0 main_arg3 (by decide)).trans (val22_main_arg3 V0)
theorem val23_main_arg4 (V0 : Valuation τ sig (Elt F)) : val23 V0 (no_index (Proc.devRef .tc main_arg4)) = V0 (Proc.devRef .tc main_arg4) :=
  (val23_keep V0 main_arg4 (by decide)).trans (val22_main_arg4 V0)
theorem val23_main_arg5 (V0 : Valuation τ sig (Elt F)) : val23 V0 (no_index (Proc.devRef .tc main_arg5)) = V0 (Proc.devRef .tc main_arg5) :=
  (val23_keep V0 main_arg5 (by decide)).trans (val22_main_arg5 V0)
theorem val23_main_arg6 (V0 : Valuation τ sig (Elt F)) : val23 V0 (no_index (Proc.devRef .tc main_arg6)) = V0 (Proc.devRef .tc main_arg6) :=
  (val23_keep V0 main_arg6 (by decide)).trans (val22_main_arg6 V0)
theorem val23_main_arg7 (V0 : Valuation τ sig (Elt F)) : val23 V0 (no_index (Proc.devRef .tc main_arg7)) = V0 (Proc.devRef .tc main_arg7) :=
  (val23_keep V0 main_arg7 (by decide)).trans (val22_main_arg7 V0)
theorem val23_main_arg8 (V0 : Valuation τ sig (Elt F)) : val23 V0 (no_index (Proc.devRef .tc main_arg8)) = V0 (Proc.devRef .tc main_arg8) :=
  (val23_keep V0 main_arg8 (by decide)).trans (val22_main_arg8 V0)
theorem val23_main_arg9 (V0 : Valuation τ sig (Elt F)) : val23 V0 (no_index (Proc.devRef .tc main_arg9)) = V0 (Proc.devRef .tc main_arg9) :=
  (val23_keep V0 main_arg9 (by decide)).trans (val22_main_arg9 V0)
theorem val23_main_arg10 (V0 : Valuation τ sig (Elt F)) : val23 V0 (no_index (Proc.devRef .tc main_arg10)) = V0 (Proc.devRef .tc main_arg10) :=
  (val23_keep V0 main_arg10 (by decide)).trans (val22_main_arg10 V0)
theorem val23_main_arg11 (V0 : Valuation τ sig (Elt F)) : val23 V0 (no_index (Proc.devRef .tc main_arg11)) = V0 (Proc.devRef .tc main_arg11) :=
  (val23_keep V0 main_arg11 (by decide)).trans (val22_main_arg11 V0)
theorem val23_main_arg12 (V0 : Valuation τ sig (Elt F)) : val23 V0 (no_index (Proc.devRef .tc main_arg12)) = V0 (Proc.devRef .tc main_arg12) :=
  (val23_keep V0 main_arg12 (by decide)).trans (val22_main_arg12 V0)
theorem val23_main_arg13 (V0 : Valuation τ sig (Elt F)) : val23 V0 (no_index (Proc.devRef .tc main_arg13)) = V0 (Proc.devRef .tc main_arg13) :=
  (val23_keep V0 main_arg13 (by decide)).trans (val22_main_arg13 V0)
theorem val23_main_arg14 (V0 : Valuation τ sig (Elt F)) : val23 V0 (no_index (Proc.devRef .tc main_arg14)) = V0 (Proc.devRef .tc main_arg14) :=
  (val23_keep V0 main_arg14 (by decide)).trans (val22_main_arg14 V0)
theorem val23_main_arg15 (V0 : Valuation τ sig (Elt F)) : val23 V0 (no_index (Proc.devRef .tc main_arg15)) = V0 (Proc.devRef .tc main_arg15) :=
  (val23_keep V0 main_arg15 (by decide)).trans (val22_main_arg15 V0)
theorem val23_main_v250 (V0 : Valuation τ sig (Elt F)) : val23 V0 (no_index (Proc.devRef .tc main_v250)) = res_main_v250 V0 :=
  (val23_keep V0 main_v250 (by decide)).trans (val22_main_v250 V0)
theorem val23_main_v274 (V0 : Valuation τ sig (Elt F)) : val23 V0 (no_index (Proc.devRef .tc main_v274)) = res_main_v274 V0 :=
  (val23_keep V0 main_v274 (by decide)).trans (val22_main_v274 V0)
theorem val23_main_v276 (V0 : Valuation τ sig (Elt F)) : val23 V0 (no_index (Proc.devRef .tc main_v276)) = res_main_v276 V0 :=
  (val23_keep V0 main_v276 (by decide)).trans (val22_main_v276 V0)
theorem val23_main_v278 (V0 : Valuation τ sig (Elt F)) : val23 V0 (no_index (Proc.devRef .tc main_v278)) = res_main_v278 V0 :=
  (val23_keep V0 main_v278 (by decide)).trans (val22_main_v278 V0)
set_option maxRecDepth 8192 in
set_option maxHeartbeats 2000000 in
theorem val23_main_v281 (V0 : Valuation τ sig (Elt F)) : val23 V0 (no_index (Proc.devRef .tc main_v281)) = res_main_v281 V0 := by
  window_value val23 ops5_1 [val22_main_v279]
set_option maxRecDepth 8192 in
set_option maxHeartbeats 2000000 in
theorem val23_main_call12_v8 (V0 : Valuation τ sig (Elt F)) : val23 V0 (no_index (Proc.devRef .tc main_call12_v8)) = res_main_call12_v8 V0 := by
  window_value val23 ops5_1 []
set_option maxRecDepth 8192 in
set_option maxHeartbeats 2000000 in
theorem val23_main_call12_v11 (V0 : Valuation τ sig (Elt F)) : val23 V0 (no_index (Proc.devRef .tc main_call12_v11)) = res_main_call12_v11 V0 := by
  window_value val23 ops5_1 [val22_main_v274]
set_option maxRecDepth 8192 in
set_option maxHeartbeats 2000000 in
theorem val23_main_call12_cst_3 (V0 : Valuation τ sig (Elt F)) : val23 V0 (no_index (Proc.devRef .tc main_call12_cst_3)) = res_main_call12_cst_3 V0 := by
  window_value val23 ops5_1 []

/-- The buffers' contents after the first 24 windows. -/
noncomputable def val24 (V0 : Valuation τ sig (Elt F)) : Valuation τ sig (Elt F) := after ops5_2 (val23 V0)
/-- The buffers window `ops5_2` writes. -/
abbrev ops5_2_W : List (Ref sig .tc) := [main_call12_v12, main_call12_cst_4, main_call12_call0_v0, main_call12_call0_v1, main_v282, main_v283, main_v284, main_v285, main_cst_41, main_v286, main_v287, main_v288, main_v289, main_v290, main_v291, main_v292, main_v293, main_v294, main_v295, main_v296, main_v297]
set_option maxRecDepth 8192 in
theorem ops5_2_writes : (ops5_2 : List (HloOp τ sig (Elt F))).Forall fun op => op.writes ⊆ (ops5_2_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val24_keep (V0 : Valuation τ sig (Elt F)) (r : Ref sig .tc) (h : r ∉ ops5_2_W) :
    val24 V0 (Proc.devRef .tc r) = val23 V0 (Proc.devRef .tc r) :=
  after_of_writes_sub ops5_2 _ ops5_2_writes h
theorem val24_main_arg0 (V0 : Valuation τ sig (Elt F)) : val24 V0 (no_index (Proc.devRef .tc main_arg0)) = V0 (Proc.devRef .tc main_arg0) :=
  (val24_keep V0 main_arg0 (by decide)).trans (val23_main_arg0 V0)
theorem val24_main_arg1 (V0 : Valuation τ sig (Elt F)) : val24 V0 (no_index (Proc.devRef .tc main_arg1)) = V0 (Proc.devRef .tc main_arg1) :=
  (val24_keep V0 main_arg1 (by decide)).trans (val23_main_arg1 V0)
theorem val24_main_arg2 (V0 : Valuation τ sig (Elt F)) : val24 V0 (no_index (Proc.devRef .tc main_arg2)) = V0 (Proc.devRef .tc main_arg2) :=
  (val24_keep V0 main_arg2 (by decide)).trans (val23_main_arg2 V0)
theorem val24_main_arg3 (V0 : Valuation τ sig (Elt F)) : val24 V0 (no_index (Proc.devRef .tc main_arg3)) = V0 (Proc.devRef .tc main_arg3) :=
  (val24_keep V0 main_arg3 (by decide)).trans (val23_main_arg3 V0)
theorem val24_main_arg4 (V0 : Valuation τ sig (Elt F)) : val24 V0 (no_index (Proc.devRef .tc main_arg4)) = V0 (Proc.devRef .tc main_arg4) :=
  (val24_keep V0 main_arg4 (by decide)).trans (val23_main_arg4 V0)
theorem val24_main_arg5 (V0 : Valuation τ sig (Elt F)) : val24 V0 (no_index (Proc.devRef .tc main_arg5)) = V0 (Proc.devRef .tc main_arg5) :=
  (val24_keep V0 main_arg5 (by decide)).trans (val23_main_arg5 V0)
theorem val24_main_arg6 (V0 : Valuation τ sig (Elt F)) : val24 V0 (no_index (Proc.devRef .tc main_arg6)) = V0 (Proc.devRef .tc main_arg6) :=
  (val24_keep V0 main_arg6 (by decide)).trans (val23_main_arg6 V0)
theorem val24_main_arg7 (V0 : Valuation τ sig (Elt F)) : val24 V0 (no_index (Proc.devRef .tc main_arg7)) = V0 (Proc.devRef .tc main_arg7) :=
  (val24_keep V0 main_arg7 (by decide)).trans (val23_main_arg7 V0)
theorem val24_main_arg8 (V0 : Valuation τ sig (Elt F)) : val24 V0 (no_index (Proc.devRef .tc main_arg8)) = V0 (Proc.devRef .tc main_arg8) :=
  (val24_keep V0 main_arg8 (by decide)).trans (val23_main_arg8 V0)
theorem val24_main_arg9 (V0 : Valuation τ sig (Elt F)) : val24 V0 (no_index (Proc.devRef .tc main_arg9)) = V0 (Proc.devRef .tc main_arg9) :=
  (val24_keep V0 main_arg9 (by decide)).trans (val23_main_arg9 V0)
theorem val24_main_arg10 (V0 : Valuation τ sig (Elt F)) : val24 V0 (no_index (Proc.devRef .tc main_arg10)) = V0 (Proc.devRef .tc main_arg10) :=
  (val24_keep V0 main_arg10 (by decide)).trans (val23_main_arg10 V0)
theorem val24_main_arg11 (V0 : Valuation τ sig (Elt F)) : val24 V0 (no_index (Proc.devRef .tc main_arg11)) = V0 (Proc.devRef .tc main_arg11) :=
  (val24_keep V0 main_arg11 (by decide)).trans (val23_main_arg11 V0)
theorem val24_main_arg12 (V0 : Valuation τ sig (Elt F)) : val24 V0 (no_index (Proc.devRef .tc main_arg12)) = V0 (Proc.devRef .tc main_arg12) :=
  (val24_keep V0 main_arg12 (by decide)).trans (val23_main_arg12 V0)
theorem val24_main_arg13 (V0 : Valuation τ sig (Elt F)) : val24 V0 (no_index (Proc.devRef .tc main_arg13)) = V0 (Proc.devRef .tc main_arg13) :=
  (val24_keep V0 main_arg13 (by decide)).trans (val23_main_arg13 V0)
theorem val24_main_arg14 (V0 : Valuation τ sig (Elt F)) : val24 V0 (no_index (Proc.devRef .tc main_arg14)) = V0 (Proc.devRef .tc main_arg14) :=
  (val24_keep V0 main_arg14 (by decide)).trans (val23_main_arg14 V0)
theorem val24_main_arg15 (V0 : Valuation τ sig (Elt F)) : val24 V0 (no_index (Proc.devRef .tc main_arg15)) = V0 (Proc.devRef .tc main_arg15) :=
  (val24_keep V0 main_arg15 (by decide)).trans (val23_main_arg15 V0)
theorem val24_main_v250 (V0 : Valuation τ sig (Elt F)) : val24 V0 (no_index (Proc.devRef .tc main_v250)) = res_main_v250 V0 :=
  (val24_keep V0 main_v250 (by decide)).trans (val23_main_v250 V0)
set_option maxRecDepth 8192 in
set_option maxHeartbeats 2000000 in
theorem val24_main_v297 (V0 : Valuation τ sig (Elt F)) : val24 V0 (no_index (Proc.devRef .tc main_v297)) = res_main_v297 V0 := by
  window_value val24 ops5_2 [val23_main_v278, val23_main_v276, val23_main_call12_v11, val23_main_call12_cst_3, val23_main_call12_v8, val23_main_v281, val23_main_v274]

/-- The buffers' contents after the first 25 windows. -/
noncomputable def val25 (V0 : Valuation τ sig (Elt F)) : Valuation τ sig (Elt F) := after ops5_3 (val24 V0)
/-- The buffers window `ops5_3` writes. -/
abbrev ops5_3_W : List (Ref sig .tc) := [main_call13_cst, main_call13_v0, main_v298, main_v299, main_v300, main_v301, main_v302, main_v303, main_v304, main_v305, main_v306, main_v307, main_v308, main_v309, main_v310, main_cst_42, main_v311, main_cst_43, main_v312, main_v313]
set_option maxRecDepth 8192 in
theorem ops5_3_writes : (ops5_3 : List (HloOp τ sig (Elt F))).Forall fun op => op.writes ⊆ (ops5_3_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val25_keep (V0 : Valuation τ sig (Elt F)) (r : Ref sig .tc) (h : r ∉ ops5_3_W) :
    val25 V0 (Proc.devRef .tc r) = val24 V0 (Proc.devRef .tc r) :=
  after_of_writes_sub ops5_3 _ ops5_3_writes h
theorem val25_main_arg0 (V0 : Valuation τ sig (Elt F)) : val25 V0 (no_index (Proc.devRef .tc main_arg0)) = V0 (Proc.devRef .tc main_arg0) :=
  (val25_keep V0 main_arg0 (by decide)).trans (val24_main_arg0 V0)
theorem val25_main_arg1 (V0 : Valuation τ sig (Elt F)) : val25 V0 (no_index (Proc.devRef .tc main_arg1)) = V0 (Proc.devRef .tc main_arg1) :=
  (val25_keep V0 main_arg1 (by decide)).trans (val24_main_arg1 V0)
theorem val25_main_arg2 (V0 : Valuation τ sig (Elt F)) : val25 V0 (no_index (Proc.devRef .tc main_arg2)) = V0 (Proc.devRef .tc main_arg2) :=
  (val25_keep V0 main_arg2 (by decide)).trans (val24_main_arg2 V0)
theorem val25_main_arg3 (V0 : Valuation τ sig (Elt F)) : val25 V0 (no_index (Proc.devRef .tc main_arg3)) = V0 (Proc.devRef .tc main_arg3) :=
  (val25_keep V0 main_arg3 (by decide)).trans (val24_main_arg3 V0)
theorem val25_main_arg4 (V0 : Valuation τ sig (Elt F)) : val25 V0 (no_index (Proc.devRef .tc main_arg4)) = V0 (Proc.devRef .tc main_arg4) :=
  (val25_keep V0 main_arg4 (by decide)).trans (val24_main_arg4 V0)
theorem val25_main_arg5 (V0 : Valuation τ sig (Elt F)) : val25 V0 (no_index (Proc.devRef .tc main_arg5)) = V0 (Proc.devRef .tc main_arg5) :=
  (val25_keep V0 main_arg5 (by decide)).trans (val24_main_arg5 V0)
theorem val25_main_arg6 (V0 : Valuation τ sig (Elt F)) : val25 V0 (no_index (Proc.devRef .tc main_arg6)) = V0 (Proc.devRef .tc main_arg6) :=
  (val25_keep V0 main_arg6 (by decide)).trans (val24_main_arg6 V0)
theorem val25_main_arg7 (V0 : Valuation τ sig (Elt F)) : val25 V0 (no_index (Proc.devRef .tc main_arg7)) = V0 (Proc.devRef .tc main_arg7) :=
  (val25_keep V0 main_arg7 (by decide)).trans (val24_main_arg7 V0)
theorem val25_main_arg8 (V0 : Valuation τ sig (Elt F)) : val25 V0 (no_index (Proc.devRef .tc main_arg8)) = V0 (Proc.devRef .tc main_arg8) :=
  (val25_keep V0 main_arg8 (by decide)).trans (val24_main_arg8 V0)
theorem val25_main_arg9 (V0 : Valuation τ sig (Elt F)) : val25 V0 (no_index (Proc.devRef .tc main_arg9)) = V0 (Proc.devRef .tc main_arg9) :=
  (val25_keep V0 main_arg9 (by decide)).trans (val24_main_arg9 V0)
theorem val25_main_arg10 (V0 : Valuation τ sig (Elt F)) : val25 V0 (no_index (Proc.devRef .tc main_arg10)) = V0 (Proc.devRef .tc main_arg10) :=
  (val25_keep V0 main_arg10 (by decide)).trans (val24_main_arg10 V0)
theorem val25_main_arg11 (V0 : Valuation τ sig (Elt F)) : val25 V0 (no_index (Proc.devRef .tc main_arg11)) = V0 (Proc.devRef .tc main_arg11) :=
  (val25_keep V0 main_arg11 (by decide)).trans (val24_main_arg11 V0)
theorem val25_main_arg12 (V0 : Valuation τ sig (Elt F)) : val25 V0 (no_index (Proc.devRef .tc main_arg12)) = V0 (Proc.devRef .tc main_arg12) :=
  (val25_keep V0 main_arg12 (by decide)).trans (val24_main_arg12 V0)
theorem val25_main_arg13 (V0 : Valuation τ sig (Elt F)) : val25 V0 (no_index (Proc.devRef .tc main_arg13)) = V0 (Proc.devRef .tc main_arg13) :=
  (val25_keep V0 main_arg13 (by decide)).trans (val24_main_arg13 V0)
theorem val25_main_arg14 (V0 : Valuation τ sig (Elt F)) : val25 V0 (no_index (Proc.devRef .tc main_arg14)) = V0 (Proc.devRef .tc main_arg14) :=
  (val25_keep V0 main_arg14 (by decide)).trans (val24_main_arg14 V0)
theorem val25_main_arg15 (V0 : Valuation τ sig (Elt F)) : val25 V0 (no_index (Proc.devRef .tc main_arg15)) = V0 (Proc.devRef .tc main_arg15) :=
  (val25_keep V0 main_arg15 (by decide)).trans (val24_main_arg15 V0)
theorem val25_main_v250 (V0 : Valuation τ sig (Elt F)) : val25 V0 (no_index (Proc.devRef .tc main_v250)) = res_main_v250 V0 :=
  (val25_keep V0 main_v250 (by decide)).trans (val24_main_v250 V0)
set_option maxRecDepth 8192 in
set_option maxHeartbeats 2000000 in
theorem val25_main_v306 (V0 : Valuation τ sig (Elt F)) : val25 V0 (no_index (Proc.devRef .tc main_v306)) = res_main_v306 V0 := by
  window_value val25 ops5_3 [val24_main_arg11, val24_main_arg10, val24_main_v297]
set_option maxRecDepth 8192 in
set_option maxHeartbeats 2000000 in
theorem val25_main_v308 (V0 : Valuation τ sig (Elt F)) : val25 V0 (no_index (Proc.devRef .tc main_v308)) = res_main_v308 V0 := by
  window_value val25 ops5_3 [val24_main_arg12]
set_option maxRecDepth 8192 in
set_option maxHeartbeats 2000000 in
theorem val25_main_v310 (V0 : Valuation τ sig (Elt F)) : val25 V0 (no_index (Proc.devRef .tc main_v310)) = res_main_v310 V0 := by
  window_value val25 ops5_3 [val24_main_arg13]
set_option maxRecDepth 8192 in
set_option maxHeartbeats 2000000 in
theorem val25_main_v313 (V0 : Valuation τ sig (Elt F)) : val25 V0 (no_index (Proc.devRef .tc main_v313)) = res_main_v313 V0 := by
  window_value val25 ops5_3 [val24_main_arg11, val24_main_arg10, val24_main_v297]

/-- The buffers' contents after the first 26 windows. -/
noncomputable def val26 (V0 : Valuation τ sig (Elt F)) : Valuation τ sig (Elt F) := after ops6_0 (val25 V0)
/-- The buffers window `ops6_0` writes. -/
abbrev ops6_0_W : List (Ref sig .tc) := [main_c_44, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_cst_3, main_call14_v12, main_call14_cst_4, main_call14_call0_v0, main_call14_call0_v1, main_v314, main_v315]
set_option maxRecDepth 8192 in
theorem ops6_0_writes : (ops6_0 : List (HloOp τ sig (Elt F))).Forall fun op => op.writes ⊆ (ops6_0_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val26_keep (V0 : Valuation τ sig (Elt F)) (r : Ref sig .tc) (h : r ∉ ops6_0_W) :
    val26 V0 (Proc.devRef .tc r) = val25 V0 (Proc.devRef .tc r) :=
  after_of_writes_sub ops6_0 _ ops6_0_writes h
theorem val26_main_arg0 (V0 : Valuation τ sig (Elt F)) : val26 V0 (no_index (Proc.devRef .tc main_arg0)) = V0 (Proc.devRef .tc main_arg0) :=
  (val26_keep V0 main_arg0 (by decide)).trans (val25_main_arg0 V0)
theorem val26_main_arg1 (V0 : Valuation τ sig (Elt F)) : val26 V0 (no_index (Proc.devRef .tc main_arg1)) = V0 (Proc.devRef .tc main_arg1) :=
  (val26_keep V0 main_arg1 (by decide)).trans (val25_main_arg1 V0)
theorem val26_main_arg2 (V0 : Valuation τ sig (Elt F)) : val26 V0 (no_index (Proc.devRef .tc main_arg2)) = V0 (Proc.devRef .tc main_arg2) :=
  (val26_keep V0 main_arg2 (by decide)).trans (val25_main_arg2 V0)
theorem val26_main_arg3 (V0 : Valuation τ sig (Elt F)) : val26 V0 (no_index (Proc.devRef .tc main_arg3)) = V0 (Proc.devRef .tc main_arg3) :=
  (val26_keep V0 main_arg3 (by decide)).trans (val25_main_arg3 V0)
theorem val26_main_arg4 (V0 : Valuation τ sig (Elt F)) : val26 V0 (no_index (Proc.devRef .tc main_arg4)) = V0 (Proc.devRef .tc main_arg4) :=
  (val26_keep V0 main_arg4 (by decide)).trans (val25_main_arg4 V0)
theorem val26_main_arg5 (V0 : Valuation τ sig (Elt F)) : val26 V0 (no_index (Proc.devRef .tc main_arg5)) = V0 (Proc.devRef .tc main_arg5) :=
  (val26_keep V0 main_arg5 (by decide)).trans (val25_main_arg5 V0)
theorem val26_main_arg6 (V0 : Valuation τ sig (Elt F)) : val26 V0 (no_index (Proc.devRef .tc main_arg6)) = V0 (Proc.devRef .tc main_arg6) :=
  (val26_keep V0 main_arg6 (by decide)).trans (val25_main_arg6 V0)
theorem val26_main_arg7 (V0 : Valuation τ sig (Elt F)) : val26 V0 (no_index (Proc.devRef .tc main_arg7)) = V0 (Proc.devRef .tc main_arg7) :=
  (val26_keep V0 main_arg7 (by decide)).trans (val25_main_arg7 V0)
theorem val26_main_arg8 (V0 : Valuation τ sig (Elt F)) : val26 V0 (no_index (Proc.devRef .tc main_arg8)) = V0 (Proc.devRef .tc main_arg8) :=
  (val26_keep V0 main_arg8 (by decide)).trans (val25_main_arg8 V0)
theorem val26_main_arg9 (V0 : Valuation τ sig (Elt F)) : val26 V0 (no_index (Proc.devRef .tc main_arg9)) = V0 (Proc.devRef .tc main_arg9) :=
  (val26_keep V0 main_arg9 (by decide)).trans (val25_main_arg9 V0)
theorem val26_main_arg10 (V0 : Valuation τ sig (Elt F)) : val26 V0 (no_index (Proc.devRef .tc main_arg10)) = V0 (Proc.devRef .tc main_arg10) :=
  (val26_keep V0 main_arg10 (by decide)).trans (val25_main_arg10 V0)
theorem val26_main_arg11 (V0 : Valuation τ sig (Elt F)) : val26 V0 (no_index (Proc.devRef .tc main_arg11)) = V0 (Proc.devRef .tc main_arg11) :=
  (val26_keep V0 main_arg11 (by decide)).trans (val25_main_arg11 V0)
theorem val26_main_arg12 (V0 : Valuation τ sig (Elt F)) : val26 V0 (no_index (Proc.devRef .tc main_arg12)) = V0 (Proc.devRef .tc main_arg12) :=
  (val26_keep V0 main_arg12 (by decide)).trans (val25_main_arg12 V0)
theorem val26_main_arg13 (V0 : Valuation τ sig (Elt F)) : val26 V0 (no_index (Proc.devRef .tc main_arg13)) = V0 (Proc.devRef .tc main_arg13) :=
  (val26_keep V0 main_arg13 (by decide)).trans (val25_main_arg13 V0)
theorem val26_main_arg14 (V0 : Valuation τ sig (Elt F)) : val26 V0 (no_index (Proc.devRef .tc main_arg14)) = V0 (Proc.devRef .tc main_arg14) :=
  (val26_keep V0 main_arg14 (by decide)).trans (val25_main_arg14 V0)
theorem val26_main_arg15 (V0 : Valuation τ sig (Elt F)) : val26 V0 (no_index (Proc.devRef .tc main_arg15)) = V0 (Proc.devRef .tc main_arg15) :=
  (val26_keep V0 main_arg15 (by decide)).trans (val25_main_arg15 V0)
theorem val26_main_v250 (V0 : Valuation τ sig (Elt F)) : val26 V0 (no_index (Proc.devRef .tc main_v250)) = res_main_v250 V0 :=
  (val26_keep V0 main_v250 (by decide)).trans (val25_main_v250 V0)
theorem val26_main_v306 (V0 : Valuation τ sig (Elt F)) : val26 V0 (no_index (Proc.devRef .tc main_v306)) = res_main_v306 V0 :=
  (val26_keep V0 main_v306 (by decide)).trans (val25_main_v306 V0)
theorem val26_main_v308 (V0 : Valuation τ sig (Elt F)) : val26 V0 (no_index (Proc.devRef .tc main_v308)) = res_main_v308 V0 :=
  (val26_keep V0 main_v308 (by decide)).trans (val25_main_v308 V0)
theorem val26_main_v310 (V0 : Valuation τ sig (Elt F)) : val26 V0 (no_index (Proc.devRef .tc main_v310)) = res_main_v310 V0 :=
  (val26_keep V0 main_v310 (by decide)).trans (val25_main_v310 V0)
set_option maxRecDepth 8192 in
set_option maxHeartbeats 2000000 in
theorem val26_main_v314 (V0 : Valuation τ sig (Elt F)) : val26 V0 (no_index (Proc.devRef .tc main_v314)) = res_main_v314 V0 := by
  window_value val26 ops6_0 [val25_main_v306]
set_option maxRecDepth 8192 in
set_option maxHeartbeats 2000000 in
theorem val26_main_v315 (V0 : Valuation τ sig (Elt F)) : val26 V0 (no_index (Proc.devRef .tc main_v315)) = res_main_v315 V0 := by
  window_value val26 ops6_0 [val25_main_v313]

/-- The buffers' contents after the first 27 windows. -/
noncomputable def val27 (V0 : Valuation τ sig (Elt F)) : Valuation τ sig (Elt F) := after ops6_1 (val26 V0)
/-- The buffers window `ops6_1` writes. -/
abbrev ops6_1_W : List (Ref sig .tc) := [main_v316, main_v317, main_cst_45, main_v318, main_v319, main_v320, main_v321, main_v322, main_v323, main_v324, main_v325, main_v326, main_v327, main_v328, main_v329, main_call15_cst, main_call15_v0, main_v330, main_v331, main_v332, main_v333, main_v334, main_v335, main_v336]
set_option maxRecDepth 8192 in
theorem ops6_1_writes : (ops6_1 : List (HloOp τ sig (Elt F))).Forall fun op => op.writes ⊆ (ops6_1_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer the window does not write keeps its contents through it. -/
theorem val27_keep (V0 : Valuation τ sig (Elt F)) (r : Ref sig .tc) (h : r ∉ ops6_1_W) :
    val27 V0 (Proc.devRef .tc r) = val26 V0 (Proc.devRef .tc r) :=
  after_of_writes_sub ops6_1 _ ops6_1_writes h
theorem val27_main_arg0 (V0 : Valuation τ sig (Elt F)) : val27 V0 (no_index (Proc.devRef .tc main_arg0)) = V0 (Proc.devRef .tc main_arg0) :=
  (val27_keep V0 main_arg0 (by decide)).trans (val26_main_arg0 V0)
theorem val27_main_arg1 (V0 : Valuation τ sig (Elt F)) : val27 V0 (no_index (Proc.devRef .tc main_arg1)) = V0 (Proc.devRef .tc main_arg1) :=
  (val27_keep V0 main_arg1 (by decide)).trans (val26_main_arg1 V0)
theorem val27_main_arg2 (V0 : Valuation τ sig (Elt F)) : val27 V0 (no_index (Proc.devRef .tc main_arg2)) = V0 (Proc.devRef .tc main_arg2) :=
  (val27_keep V0 main_arg2 (by decide)).trans (val26_main_arg2 V0)
theorem val27_main_arg3 (V0 : Valuation τ sig (Elt F)) : val27 V0 (no_index (Proc.devRef .tc main_arg3)) = V0 (Proc.devRef .tc main_arg3) :=
  (val27_keep V0 main_arg3 (by decide)).trans (val26_main_arg3 V0)
theorem val27_main_arg4 (V0 : Valuation τ sig (Elt F)) : val27 V0 (no_index (Proc.devRef .tc main_arg4)) = V0 (Proc.devRef .tc main_arg4) :=
  (val27_keep V0 main_arg4 (by decide)).trans (val26_main_arg4 V0)
theorem val27_main_arg5 (V0 : Valuation τ sig (Elt F)) : val27 V0 (no_index (Proc.devRef .tc main_arg5)) = V0 (Proc.devRef .tc main_arg5) :=
  (val27_keep V0 main_arg5 (by decide)).trans (val26_main_arg5 V0)
theorem val27_main_arg6 (V0 : Valuation τ sig (Elt F)) : val27 V0 (no_index (Proc.devRef .tc main_arg6)) = V0 (Proc.devRef .tc main_arg6) :=
  (val27_keep V0 main_arg6 (by decide)).trans (val26_main_arg6 V0)
theorem val27_main_arg7 (V0 : Valuation τ sig (Elt F)) : val27 V0 (no_index (Proc.devRef .tc main_arg7)) = V0 (Proc.devRef .tc main_arg7) :=
  (val27_keep V0 main_arg7 (by decide)).trans (val26_main_arg7 V0)
theorem val27_main_arg8 (V0 : Valuation τ sig (Elt F)) : val27 V0 (no_index (Proc.devRef .tc main_arg8)) = V0 (Proc.devRef .tc main_arg8) :=
  (val27_keep V0 main_arg8 (by decide)).trans (val26_main_arg8 V0)
theorem val27_main_arg9 (V0 : Valuation τ sig (Elt F)) : val27 V0 (no_index (Proc.devRef .tc main_arg9)) = V0 (Proc.devRef .tc main_arg9) :=
  (val27_keep V0 main_arg9 (by decide)).trans (val26_main_arg9 V0)
theorem val27_main_arg10 (V0 : Valuation τ sig (Elt F)) : val27 V0 (no_index (Proc.devRef .tc main_arg10)) = V0 (Proc.devRef .tc main_arg10) :=
  (val27_keep V0 main_arg10 (by decide)).trans (val26_main_arg10 V0)
theorem val27_main_arg11 (V0 : Valuation τ sig (Elt F)) : val27 V0 (no_index (Proc.devRef .tc main_arg11)) = V0 (Proc.devRef .tc main_arg11) :=
  (val27_keep V0 main_arg11 (by decide)).trans (val26_main_arg11 V0)
theorem val27_main_arg12 (V0 : Valuation τ sig (Elt F)) : val27 V0 (no_index (Proc.devRef .tc main_arg12)) = V0 (Proc.devRef .tc main_arg12) :=
  (val27_keep V0 main_arg12 (by decide)).trans (val26_main_arg12 V0)
theorem val27_main_arg13 (V0 : Valuation τ sig (Elt F)) : val27 V0 (no_index (Proc.devRef .tc main_arg13)) = V0 (Proc.devRef .tc main_arg13) :=
  (val27_keep V0 main_arg13 (by decide)).trans (val26_main_arg13 V0)
theorem val27_main_arg14 (V0 : Valuation τ sig (Elt F)) : val27 V0 (no_index (Proc.devRef .tc main_arg14)) = V0 (Proc.devRef .tc main_arg14) :=
  (val27_keep V0 main_arg14 (by decide)).trans (val26_main_arg14 V0)
theorem val27_main_arg15 (V0 : Valuation τ sig (Elt F)) : val27 V0 (no_index (Proc.devRef .tc main_arg15)) = V0 (Proc.devRef .tc main_arg15) :=
  (val27_keep V0 main_arg15 (by decide)).trans (val26_main_arg15 V0)
set_option maxRecDepth 8192 in
set_option maxHeartbeats 2000000 in
theorem val27_main_v336 (V0 : Valuation τ sig (Elt F)) : val27 V0 (no_index (Proc.devRef .tc main_v336)) = res_main_v336 V0 := by
  window_value val27 ops6_1 [val26_main_arg15, val26_main_arg14, val26_main_v250, val26_main_v310, val26_main_v308, val26_main_v314, val26_main_v315, val26_main_v306]

end Cert.ReferenceIdeal.Hand

end
-- ==== Proof.Ref.Run.lean ====
import proofs.«159011_j9938554322955_1_alg».proof.Proof.Ref.Windows

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! # The reference's run

@main is a straight line of tensor operations once each call is read as its callee's body at the call's buffers: the
list `ops`, the twenty-seven windows one after the other. Each of the seven parts @main is printed in is, by unfolding,
its own windows in sequence; so @main is `seq ops`, and every weakly fair execution terminates with each buffer at the
fold of `ops` over the launch contents (`StableHlo.run_seq`). That fold is the last window's contents, where the
result buffer holds `res_main_v336` and each argument what it held at launch. -/

/-- The 569 operations, in order. -/
noncomputable abbrev ops : List (HloOp τ sig (Elt F)) :=
  ops0_0 ++ (ops0_1 ++ (ops0_2 ++ (ops0_3 ++ (ops1_0 ++ (ops1_1 ++ (ops1_2 ++ (ops1_3 ++ (ops2_0 ++ (ops2_1 ++ (ops2_2 ++ (ops2_3 ++ (ops2_4 ++ (ops3_0 ++ (ops3_1 ++ (ops3_2 ++ (ops3_3 ++ (ops4_0 ++ (ops4_1 ++ (ops4_2 ++ (ops4_3 ++ (ops5_0 ++ (ops5_1 ++ (ops5_2 ++ (ops5_3 ++ (ops6_0 ++ (ops6_1))))))))))))))))))))))))))

set_option maxRecDepth 8192 in
set_option maxHeartbeats 4000000 in
/-- Statements 1 … 60 of @main are these windows, one after the other: a call is its callee's body. -/
theorem main_part0_eq (c : Dev nD) : main_part0 (F := F) c = (seq ops0_0 >>= fun _ => seq ops0_1 >>= fun _ => seq ops0_2 >>= fun _ => seq ops0_3) := rfl

set_option maxRecDepth 8192 in
set_option maxHeartbeats 4000000 in
/-- Statements 61 … 120 of @main are these windows, one after the other: a call is its callee's body. -/
theorem main_part1_eq (c : Dev nD) : main_part1 (F := F) c = (seq ops1_0 >>= fun _ => seq ops1_1 >>= fun _ => seq ops1_2 >>= fun _ => seq ops1_3) := rfl

set_option maxRecDepth 8192 in
set_option maxHeartbeats 4000000 in
/-- Statements 121 … 180 of @main are these windows, one after the other: a call is its callee's body. -/
theorem main_part2_eq (c : Dev nD) : main_part2 (F := F) c = (seq ops2_0 >>= fun _ => seq ops2_1 >>= fun _ => seq ops2_2 >>= fun _ => seq ops2_3 >>= fun _ => seq ops2_4) := rfl

set_option maxRecDepth 8192 in
set_option maxHeartbeats 4000000 in
/-- Statements 181 … 240 of @main are these windows, one after the other: a call is its callee's body. -/
theorem main_part3_eq (c : Dev nD) : main_part3 (F := F) c = (seq ops3_0 >>= fun _ => seq ops3_1 >>= fun _ => seq ops3_2 >>= fun _ => seq ops3_3) := rfl

set_option maxRecDepth 8192 in
set_option maxHeartbeats 4000000 in
/-- Statements 241 … 300 of @main are these windows, one after the other: a call is its callee's body. -/
theorem main_part4_eq (c : Dev nD) : main_part4 (F := F) c = (seq ops4_0 >>= fun _ => seq ops4_1 >>= fun _ => seq ops4_2 >>= fun _ => seq ops4_3) := rfl

set_option maxRecDepth 8192 in
set_option maxHeartbeats 4000000 in
/-- Statements 301 … 360 of @main are these windows, one after the other: a call is its callee's body. -/
theorem main_part5_eq (c : Dev nD) : main_part5 (F := F) c = (seq ops5_0 >>= fun _ => seq ops5_1 >>= fun _ => seq ops5_2 >>= fun _ => seq ops5_3) := rfl

set_option maxRecDepth 8192 in
set_option maxHeartbeats 4000000 in
/-- Statements 361 … 385 of @main are these windows, one after the other: a call is its callee's body. -/
theorem main_part6_eq (c : Dev nD) : main_part6 (F := F) c = (seq ops6_0 >>= fun _ => seq ops6_1) := rfl

set_option maxRecDepth 8192 in
theorem main_eq (c : Dev nD) : main (F := F) c = seq ops := by
  simp only [main, ops, seq_append, main_part0_eq, main_part1_eq, main_part2_eq, main_part3_eq, main_part4_eq, main_part5_eq, main_part6_eq, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h | h | h | h | h | h | h | h | h | h | h
    exacts [List.forall_iff_forall_mem.mp ops0_0_sub op h, List.forall_iff_forall_mem.mp ops0_1_sub op h, List.forall_iff_forall_mem.mp ops0_2_sub op h, List.forall_iff_forall_mem.mp ops0_3_sub op h, List.forall_iff_forall_mem.mp ops1_0_sub op h, List.forall_iff_forall_mem.mp ops1_1_sub op h, List.forall_iff_forall_mem.mp ops1_2_sub op h, List.forall_iff_forall_mem.mp ops1_3_sub op h, List.forall_iff_forall_mem.mp ops2_0_sub op h, List.forall_iff_forall_mem.mp ops2_1_sub op h, List.forall_iff_forall_mem.mp ops2_2_sub op h, List.forall_iff_forall_mem.mp ops2_3_sub op h, List.forall_iff_forall_mem.mp ops2_4_sub op h, List.forall_iff_forall_mem.mp ops3_0_sub op h, List.forall_iff_forall_mem.mp ops3_1_sub op h, List.forall_iff_forall_mem.mp ops3_2_sub op h, List.forall_iff_forall_mem.mp ops3_3_sub op h, List.forall_iff_forall_mem.mp ops4_0_sub op h, List.forall_iff_forall_mem.mp ops4_1_sub op h, List.forall_iff_forall_mem.mp ops4_2_sub op h, List.forall_iff_forall_mem.mp ops4_3_sub op h, List.forall_iff_forall_mem.mp ops5_0_sub op h, List.forall_iff_forall_mem.mp ops5_1_sub op h, List.forall_iff_forall_mem.mp ops5_2_sub op h, List.forall_iff_forall_mem.mp ops5_3_sub op h, List.forall_iff_forall_mem.mp ops6_0_sub op h, List.forall_iff_forall_mem.mp ops6_1_sub op h]

/-- Every operation determines what it writes: window by window. -/
theorem ops_fresh : ∀ op ∈ (ops : List (HloOp τ sig (Elt F))), op.fresh = ∅ := fun op h => by
  simp only [ops, List.mem_append] at h
  rcases h with h | h | h | h | h | h | h | h | h | h | h | h | h | h | h | h | h | h | h | h | h | h | h | h | h | h | h
  exacts [ops0_0_fresh op h, ops0_1_fresh op h, ops0_2_fresh op h, ops0_3_fresh op h, ops1_0_fresh op h, ops1_1_fresh op h, ops1_2_fresh op h, ops1_3_fresh op h, ops2_0_fresh op h, ops2_1_fresh op h, ops2_2_fresh op h, ops2_3_fresh op h, ops2_4_fresh op h, ops3_0_fresh op h, ops3_1_fresh op h, ops3_2_fresh op h, ops3_3_fresh op h, ops4_0_fresh op h, ops4_1_fresh op h, ops4_2_fresh op h, ops4_3_fresh op h, ops5_0_fresh op h, ops5_1_fresh op h, ops5_2_fresh op h, ops5_3_fresh op h, ops6_0_fresh op h, ops6_1_fresh op h]

/-- The whole line's fold is the last window's contents. -/
theorem after_ops (V0 : Valuation τ sig (Elt F)) : after ops V0 = val27 V0 := by
  simp only [ops, after_append]
  rfl

/-- After the line the result buffer holds `res_main_v336`. -/
theorem out_main_v336 (V0 : Valuation τ sig (Elt F)) : after ops V0 (Proc.devRef .tc main_v336) = res_main_v336 V0 := by
  rw [after_ops]; exact val27_main_v336 V0
/-- No operation writes `main_arg0`. -/
theorem out_main_arg0 (V0 : Valuation τ sig (Elt F)) : after ops V0 (Proc.devRef .tc main_arg0) = V0 (Proc.devRef .tc main_arg0) := by
  rw [after_ops]; exact val27_main_arg0 V0
/-- No operation writes `main_arg1`. -/
theorem out_main_arg1 (V0 : Valuation τ sig (Elt F)) : after ops V0 (Proc.devRef .tc main_arg1) = V0 (Proc.devRef .tc main_arg1) := by
  rw [after_ops]; exact val27_main_arg1 V0
/-- No operation writes `main_arg2`. -/
theorem out_main_arg2 (V0 : Valuation τ sig (Elt F)) : after ops V0 (Proc.devRef .tc main_arg2) = V0 (Proc.devRef .tc main_arg2) := by
  rw [after_ops]; exact val27_main_arg2 V0
/-- No operation writes `main_arg3`. -/
theorem out_main_arg3 (V0 : Valuation τ sig (Elt F)) : after ops V0 (Proc.devRef .tc main_arg3) = V0 (Proc.devRef .tc main_arg3) := by
  rw [after_ops]; exact val27_main_arg3 V0
/-- No operation writes `main_arg4`. -/
theorem out_main_arg4 (V0 : Valuation τ sig (Elt F)) : after ops V0 (Proc.devRef .tc main_arg4) = V0 (Proc.devRef .tc main_arg4) := by
  rw [after_ops]; exact val27_main_arg4 V0
/-- No operation writes `main_arg5`. -/
theorem out_main_arg5 (V0 : Valuation τ sig (Elt F)) : after ops V0 (Proc.devRef .tc main_arg5) = V0 (Proc.devRef .tc main_arg5) := by
  rw [after_ops]; exact val27_main_arg5 V0
/-- No operation writes `main_arg6`. -/
theorem out_main_arg6 (V0 : Valuation τ sig (Elt F)) : after ops V0 (Proc.devRef .tc main_arg6) = V0 (Proc.devRef .tc main_arg6) := by
  rw [after_ops]; exact val27_main_arg6 V0
/-- No operation writes `main_arg7`. -/
theorem out_main_arg7 (V0 : Valuation τ sig (Elt F)) : after ops V0 (Proc.devRef .tc main_arg7) = V0 (Proc.devRef .tc main_arg7) := by
  rw [after_ops]; exact val27_main_arg7 V0
/-- No operation writes `main_arg8`. -/
theorem out_main_arg8 (V0 : Valuation τ sig (Elt F)) : after ops V0 (Proc.devRef .tc main_arg8) = V0 (Proc.devRef .tc main_arg8) := by
  rw [after_ops]; exact val27_main_arg8 V0
/-- No operation writes `main_arg9`. -/
theorem out_main_arg9 (V0 : Valuation τ sig (Elt F)) : after ops V0 (Proc.devRef .tc main_arg9) = V0 (Proc.devRef .tc main_arg9) := by
  rw [after_ops]; exact val27_main_arg9 V0
/-- No operation writes `main_arg10`. -/
theorem out_main_arg10 (V0 : Valuation τ sig (Elt F)) : after ops V0 (Proc.devRef .tc main_arg10) = V0 (Proc.devRef .tc main_arg10) := by
  rw [after_ops]; exact val27_main_arg10 V0
/-- No operation writes `main_arg11`. -/
theorem out_main_arg11 (V0 : Valuation τ sig (Elt F)) : after ops V0 (Proc.devRef .tc main_arg11) = V0 (Proc.devRef .tc main_arg11) := by
  rw [after_ops]; exact val27_main_arg11 V0
/-- No operation writes `main_arg12`. -/
theorem out_main_arg12 (V0 : Valuation τ sig (Elt F)) : after ops V0 (Proc.devRef .tc main_arg12) = V0 (Proc.devRef .tc main_arg12) := by
  rw [after_ops]; exact val27_main_arg12 V0
/-- No operation writes `main_arg13`. -/
theorem out_main_arg13 (V0 : Valuation τ sig (Elt F)) : after ops V0 (Proc.devRef .tc main_arg13) = V0 (Proc.devRef .tc main_arg13) := by
  rw [after_ops]; exact val27_main_arg13 V0
/-- No operation writes `main_arg14`. -/
theorem out_main_arg14 (V0 : Valuation τ sig (Elt F)) : after ops V0 (Proc.devRef .tc main_arg14) = V0 (Proc.devRef .tc main_arg14) := by
  rw [after_ops]; exact val27_main_arg14 V0
/-- No operation writes `main_arg15`. -/
theorem out_main_arg15 (V0 : Valuation τ sig (Elt F)) : after ops V0 (Proc.devRef .tc main_arg15) = V0 (Proc.devRef .tc main_arg15) := by
  rw [after_ops]; exact val27_main_arg15 V0

set_option maxRecDepth 8192 in
set_option maxHeartbeats 4000000 in
/-- For any float values, from any memory with zero counters: every weakly fair execution of @main terminates with the
    result buffer at `res_main_v336` of the launch contents and the sixteen arguments unchanged. -/
theorem runF (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v336) = res_main_v336 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v336).trans (out_main_v336 (launchContents m c)),
      (h c main_arg0).trans (out_main_arg0 (launchContents m c)),
      (h c main_arg1).trans (out_main_arg1 (launchContents m c)),
      (h c main_arg2).trans (out_main_arg2 (launchContents m c)),
      (h c main_arg3).trans (out_main_arg3 (launchContents m c)),
      (h c main_arg4).trans (out_main_arg4 (launchContents m c)),
      (h c main_arg5).trans (out_main_arg5 (launchContents m c)),
      (h c main_arg6).trans (out_main_arg6 (launchContents m c)),
      (h c main_arg7).trans (out_main_arg7 (launchContents m c)),
      (h c main_arg8).trans (out_main_arg8 (launchContents m c)),
      (h c main_arg9).trans (out_main_arg9 (launchContents m c)),
      (h c main_arg10).trans (out_main_arg10 (launchContents m c)),
      (h c main_arg11).trans (out_main_arg11 (launchContents m c)),
      (h c main_arg12).trans (out_main_arg12 (launchContents m c)),
      (h c main_arg13).trans (out_main_arg13 (launchContents m c)),
      (h c main_arg14).trans (out_main_arg14 (launchContents m c)),
      (h c main_arg15).trans (out_main_arg15 (launchContents m c))⟩)
    (run_seq scopedRefs_eq scopedSems_eq defs main (fun _ => ops) main_eq (fun _ => ops_sub) m ρ (fun _ => ops_fresh))

/-- The same at the extended reals, the result named `refTerm`. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v336) = refTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  runF (F := Ideal) m ρ

/-- The reference runs and leaves its sixteen arguments as they were. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run (defs (F := Ideal)) _ _).mono (fun _ h c => (h c).2) (run m ρ)

end Cert.ReferenceIdeal.Hand

end
-- ==== Proof.Math.Spec.lean ====
/- The network both programs compute, stage by stage, as functions on the extended reals with every index a pair of
   bounded naturals. A graph of 65536 nodes carries 64 features per node. A layer adds to (1 + e) times a node's
   features the sum of its in-neighbours' features, applies a linear map to 128 features, normalises every feature by
   its mean and variance over all nodes (the variance being the mean squared deviation from the mean), clips at zero,
   maps back to 64 features, normalises and clips again, and adds the layer's input. The first stage spreads one
   scalar per node over 64 features; the last maps 64 features to 256. Arrays are read through their index
   constructors so that a program's array, indexed by its shape, and these curried functions name the same numbers. -/
import Mathlib.Data.EReal.Inv
import Mathlib.Algebra.BigOperators.Fin
import Idealize.ShloMosaic.PureOps.Ideal
import Idealize.ShloMosaic.Lib.ValueIdx

noncomputable section

namespace Cert.Spec

open Idealize.ShloMosaic

/-- An array of shape [n0, n1] read as a curried function of its two coordinates. -/
def cur2 {n0 n1 : Nat} (a : (⟨2, ![n0, n1]⟩ : Shape).Idx → EReal) : Fin n0 → Fin n1 → EReal :=
  fun r k => a (ValueIdx.ix2 r k)

/-- The single-precision word of 65536, the number of nodes. -/
abbrev wN : BitVec 32 := 0x47800000#32
/-- The single-precision word of 2⁻¹⁶, its reciprocal. -/
abbrev wInvN : BitVec 32 := 0x37800000#32
/-- The single-precision word of one. -/
abbrev wOne : BitVec 32 := 0x3F800000#32
/-- The single-precision word nearest to 10⁻⁵, added to a variance before the reciprocal square root. -/
abbrev wEps : BitVec 32 := 0x3727C5AC#32

/-- The number of nodes as an extended real. -/
def cN : EReal := Ideal.ofBits .f32 wN
/-- One as an extended real. -/
def cOne : EReal := Ideal.ofBits .f32 wOne
/-- The variance offset as an extended real. -/
def cEps : EReal := Ideal.ofBits .f32 wEps

/-- One scalar per node spread over the features: x r · w k + b k. -/
def embed (x : Fin 65536 → Fin 1 → EReal) (w b : Fin 1 → Fin 64 → EReal) : Fin 65536 → Fin 64 → EReal :=
  fun r k => x r 0 * w 0 k + b 0 k

/-- A node's own features scaled by 1 + e, plus the sum over its in-neighbours. -/
def combine (e : Fin 1 → Fin 64 → EReal) (x agg : Fin 65536 → Fin 64 → EReal) : Fin 65536 → Fin 64 → EReal :=
  fun r k => (cOne + e 0 k) * x r k + agg r k

/-- A linear map with a bias: row r of h against column j of W, plus bias j. -/
def lin {n a b : Nat} (h : Fin n → Fin a → EReal) (W : Fin a → Fin b → EReal) (bias : Fin 1 → Fin b → EReal) :
    Fin n → Fin b → EReal :=
  fun r j => (∑ k, h r k * W k j) + bias 0 j

/-- The mean of feature j over all nodes. -/
def mean {b : Nat} (z : Fin 65536 → Fin b → EReal) : Fin 1 → Fin b → EReal :=
  fun _ j => Ideal.div (∑ r, z r j) cN

/-- The variance of feature j over all nodes: the mean squared deviation from the mean. -/
def var {b : Nat} (z : Fin 65536 → Fin b → EReal) : Fin 1 → Fin b → EReal :=
  fun _ j => Ideal.div (∑ r, (z r j - mean z 0 j) * (z r j - mean z 0 j)) cN

/-- Normalisation of feature j by a mean mu, a variance v, a gain g and an offset be. -/
def norm {n b : Nat} (z : Fin n → Fin b → EReal) (mu v g be : Fin 1 → Fin b → EReal) : Fin n → Fin b → EReal :=
  fun r j => (z r j - mu 0 j) * Ideal.rsqrt (v 0 j + cEps) * g 0 j + be 0 j

/-- Clipping at zero. -/
def relu {n b : Nat} (a : Fin n → Fin b → EReal) : Fin n → Fin b → EReal :=
  fun r j => max (a r j) 0

/-- The first linear map of a layer applied to the combined features. -/
def z1 (e : Fin 1 → Fin 64 → EReal) (x agg : Fin 65536 → Fin 64 → EReal) (W1 : Fin 64 → Fin 128 → EReal)
    (b1 : Fin 1 → Fin 128 → EReal) : Fin 65536 → Fin 128 → EReal :=
  lin (combine e x agg) W1 b1

/-- The hidden activations: z1 normalised by its own statistics, then clipped. -/
def a1 (z : Fin 65536 → Fin 128 → EReal) (g1 be1 : Fin 1 → Fin 128 → EReal) : Fin 65536 → Fin 128 → EReal :=
  relu (norm z (mean z) (var z) g1 be1)

/-- The second linear map of a layer. -/
def z2 (a : Fin 65536 → Fin 128 → EReal) (W2 : Fin 128 → Fin 64 → EReal) (b2 : Fin 1 → Fin 64 → EReal) :
    Fin 65536 → Fin 64 → EReal :=
  lin a W2 b2

/-- A layer's output: z2 normalised by its own statistics, clipped, plus the layer's input. -/
def out (x : Fin 65536 → Fin 64 → EReal) (z : Fin 65536 → Fin 64 → EReal) (g2 be2 : Fin 1 → Fin 64 → EReal) :
    Fin 65536 → Fin 64 → EReal :=
  fun r k => relu (norm z (mean z) (var z) g2 be2) r k + x r k

/-- One whole layer from its input x, the neighbour sums agg and the layer's parameters. -/
def layer (e : Fin 1 → Fin 64 → EReal) (x agg : Fin 65536 → Fin 64 → EReal) (W1 : Fin 64 → Fin 128 → EReal)
    (b1 g1 be1 : Fin 1 → Fin 128 → EReal) (W2 : Fin 128 → Fin 64 → EReal) (b2 g2 be2 : Fin 1 → Fin 64 → EReal) :
    Fin 65536 → Fin 64 → EReal :=
  out x (z2 (a1 (z1 e x agg W1 b1) g1 be1) W2 b2) g2 be2

/-- The final projection to 256 features. -/
def final (x : Fin 65536 → Fin 64 → EReal) (Wf : Fin 64 → Fin 256 → EReal) (bf : Fin 1 → Fin 256 → EReal) :
    Fin 65536 → Fin 256 → EReal :=
  lin x Wf bf

end Cert.Spec

end
-- ==== Proof.LibBlockSum.lean ====
/- Regrouping a sum over Fin (nb * bs) into nb consecutive blocks of bs terms, in any additive commutative monoid:
   the index r = bs * t + y runs over every r < nb * bs exactly once as t runs over the blocks and y over the places in
   a block. Stated with the blocks indexed by Fin nb and by a range of naturals, and at 10000 = 50 * 200. -/
import Mathlib.Algebra.BigOperators.Fin
import Mathlib.Data.Fintype.BigOperators
import Mathlib.Logic.Equiv.Fin.Basic

namespace Cert.Lib

/-- The place y of block t lies below nb * bs. -/
theorem block_lt {nb bs : ℕ} (t : Fin nb) (y : Fin bs) : bs * t.val + y.val < nb * bs := by
  have h1 : bs * t.val + y.val < bs * (t.val + 1) := by rw [Nat.mul_succ]; exact Nat.add_lt_add_left y.isLt _
  have h2 : bs * (t.val + 1) ≤ bs * nb := Nat.mul_le_mul_left _ t.isLt
  rw [Nat.mul_comm nb bs]
  exact lt_of_lt_of_le h1 h2

/-- The same when the total is named N = nb * bs. -/
theorem block_lt_of_eq {nb bs N : ℕ} (h : nb * bs = N) (t : Fin nb) (y : Fin bs) : bs * t.val + y.val < N :=
  h ▸ block_lt t y

/-- A sum over Fin (nb * bs) is the sum over the nb blocks of the sums over the bs places of each block. -/
theorem sum_blocks {M : Type*} [AddCommMonoid M] (nb bs : ℕ) (f : Fin (nb * bs) → M) :
    ∑ t : Fin nb, ∑ y : Fin bs, f ⟨bs * t.val + y.val, block_lt t y⟩ = ∑ r : Fin (nb * bs), f r := by
  rw [← Equiv.sum_comp (finProdFinEquiv (m := nb) (n := bs)) f, Fintype.sum_prod_type]
  refine Finset.sum_congr rfl (fun t _ => Finset.sum_congr rfl (fun y _ => ?_))
  refine congrArg f (Fin.ext ?_)
  show bs * t.val + y.val = y.val + bs * t.val
  exact Nat.add_comm _ _

/-- The same for a sum over Fin N with N = nb * bs. -/
theorem sum_blocks_of_eq {M : Type*} [AddCommMonoid M] {nb bs N : ℕ} (h : nb * bs = N) (f : Fin N → M) :
    ∑ t : Fin nb, ∑ y : Fin bs, f ⟨bs * t.val + y.val, block_lt_of_eq h t y⟩ = ∑ r : Fin N, f r := by
  subst h
  exact sum_blocks nb bs f

/-- The blocks indexed by a range of naturals: if B t is the sum of block t for every t < nb, the sum of B over
    range nb is the whole sum. -/
theorem sum_range_blocks_of_eq {M : Type*} [AddCommMonoid M] {nb bs N : ℕ} (h : nb * bs = N) (f : Fin N → M)
    (B : ℕ → M)
    (hB : ∀ (t : ℕ) (ht : t < nb), B t = ∑ y : Fin bs, f ⟨bs * t + y.val, block_lt_of_eq h ⟨t, ht⟩ y⟩) :
    ∑ s ∈ Finset.range nb, B s = ∑ r : Fin N, f r := by
  rw [Finset.sum_range, ← sum_blocks_of_eq h f]
  exact Finset.sum_congr rfl (fun t _ => hB t.val t.isLt)

/-- 10000 terms are 50 blocks of 200. -/
theorem sum_blocks_10000 {M : Type*} [AddCommMonoid M] (f : Fin 10000 → M) :
    ∑ t : Fin 50, ∑ y : Fin 200, f ⟨200 * t.val + y.val, by omega⟩ = ∑ r : Fin 10000, f r :=
  sum_blocks_of_eq (nb := 50) (bs := 200) (N := 10000) rfl f

/-- 10000 terms from a range of 50 block sums. -/
theorem sum_range_blocks_10000 {M : Type*} [AddCommMonoid M] (f : Fin 10000 → M) (B : ℕ → M)
    (hB : ∀ (t : ℕ) (ht : t < 50), B t = ∑ y : Fin 200, f ⟨200 * t + y.val, by omega⟩) :
    ∑ s ∈ Finset.range 50, B s = ∑ r : Fin 10000, f r :=
  sum_range_blocks_of_eq (nb := 50) (bs := 200) (N := 10000) rfl f B hB

/-- A running sum: an accumulator that starts at b 0 and adds b (n + 1) at step n + 1 holds, after step n, the sum of
    b over range (n + 1). -/
theorem running_sum {M : Type*} [AddCommMonoid M] (b acc : ℕ → M) (h0 : acc 0 = b 0)
    (hs : ∀ n, acc (n + 1) = acc n + b (n + 1)) (n : ℕ) : acc n = ∑ t ∈ Finset.range (n + 1), b t := by
  induction n with
  | zero => rw [h0, Finset.sum_range_one]
  | succ n ih => rw [hs n, ih, Finset.sum_range_succ _ (n + 1)]

/-- The same with the steps known only below a bound N. -/
theorem running_sum_lt {M : Type*} [AddCommMonoid M] {N : ℕ} (b acc : ℕ → M) (h0 : acc 0 = b 0)
    (hs : ∀ n, n + 1 < N → acc (n + 1) = acc n + b (n + 1)) (n : ℕ) (hn : n < N) :
    acc n = ∑ t ∈ Finset.range (n + 1), b t := by
  induction n with
  | zero => rw [h0, Finset.sum_range_one]
  | succ n ih => rw [hs n hn, ih (Nat.lt_of_succ_lt hn), Finset.sum_range_succ _ (n + 1)]

/-- The same when the accumulator starts from zero plus the first term. -/
theorem running_sum_lt' {M : Type*} [AddCommMonoid M] {N : ℕ} (b acc : ℕ → M) (h0 : acc 0 = 0 + b 0)
    (hs : ∀ n, n + 1 < N → acc (n + 1) = acc n + b (n + 1)) (n : ℕ) (hn : n < N) :
    acc n = ∑ t ∈ Finset.range (n + 1), b t :=
  running_sum_lt b acc (by rw [h0, zero_add]) hs n hn

/-- An accumulator that starts at zero plus block 0 and adds block n + 1 at step n + 1, for 50 blocks of 200, holds
    after step 49 the sum of all 10000 terms. -/
theorem acc_49_10000 {M : Type*} [AddCommMonoid M] (f : Fin 10000 → M) (b acc : ℕ → M)
    (hb : ∀ (t : ℕ) (ht : t < 50), b t = ∑ y : Fin 200, f ⟨200 * t + y.val, by omega⟩)
    (h0 : acc 0 = 0 + b 0) (hs : ∀ n, n + 1 < 50 → acc (n + 1) = acc n + b (n + 1)) :
    acc 49 = ∑ r : Fin 10000, f r := by
  rw [running_sum_lt' b acc h0 hs 49 (by omega)]
  exact sum_range_blocks_10000 f b hb

end Cert.Lib
-- ==== Proof.LibStats.lean ====
/- Finite calculus on the extended reals. An extended real is called real when it is the image of a real number.
   Sums, differences, products, maxima, finite sums, quotients by a nonzero real and reciprocal square roots of
   positive reals stay real, so that identities of real algebra (which fail at the infinities: distributivity,
   cancellation) can be carried to the extended reals for real-valued data. The main such identity here is the
   one behind batch statistics: the mean of the squared deviations from the mean is the mean of the squares
   minus the square of the mean. Also: 1600000 terms summed as 200 consecutive blocks of 8000. -/
import Mathlib.Data.EReal.Inv
import Mathlib.Algebra.BigOperators.Fin
import Mathlib.Tactic.Ring
import Mathlib.Tactic.FieldSimp
import Mathlib.Tactic.Positivity
import Mathlib.Tactic.NormNum
import Idealize.ShloMosaic.PureOps.Ideal
import proofs.«159011_j9938554322955_1_alg».proof.Proof.LibBlockSum

namespace Cert.Lib

open Idealize.ShloMosaic

/-- An extended real that is (the image of) a real number: neither infinity. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real extended real is not the upper infinity. -/
theorem IsReal.ne_top {x : EReal} (h : IsReal x) : x ≠ ⊤ := by
  obtain ⟨r, rfl⟩ := h; exact EReal.coe_ne_top r

/-- A real extended real is not the lower infinity. -/
theorem IsReal.ne_bot {x : EReal} (h : IsReal x) : x ≠ ⊥ := by
  obtain ⟨r, rfl⟩ := h; exact EReal.coe_ne_bot r

/-- An extended real that is neither infinity is real. -/
theorem isReal_of_ne {x : EReal} (ht : x ≠ ⊤) (hb : x ≠ ⊥) : IsReal x := by
  induction x using EReal.rec with
  | bot => exact absurd rfl hb
  | coe r => exact ⟨r, rfl⟩
  | top => exact absurd rfl ht

/-- Being real is being neither infinity. -/
theorem isReal_iff {x : EReal} : IsReal x ↔ x ≠ ⊤ ∧ x ≠ ⊥ :=
  ⟨fun h => ⟨h.ne_top, h.ne_bot⟩, fun h => isReal_of_ne h.1 h.2⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a real is real. -/
theorem IsReal.neg {x : EReal} (hx : IsReal x) : IsReal (-x) := by
  obtain ⟨a, rfl⟩ := hx; exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two images of reals is the image of the maximum. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two images of reals is the image of the minimum. -/
theorem coe_min (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- The maximum of two reals is real. -/
theorem IsReal.max {x y : EReal} (hx : IsReal x) (hy : IsReal y) : IsReal (max x y) := by
  obtain ⟨a, rfl⟩ := hx; obtain ⟨b, rfl⟩ := hy; exact ⟨_, coe_max a b⟩

/-- The minimum of two reals is real. -/
theorem IsReal.min {x y : EReal} (hx : IsReal x) (hy : IsReal y) : IsReal (min x y) := by
  obtain ⟨a, rfl⟩ := hx; obtain ⟨b, rfl⟩ := hy; exact ⟨_, coe_min a b⟩

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih (fun i hi => h i (Finset.mem_insert_of_mem hi)))

/-- A sum of reals over a whole finite type is real. -/
theorem isReal_sum_univ {ι : Type*} [Fintype ι] (f : ι → EReal) (h : ∀ i, IsReal (f i)) :
    IsReal (∑ i, f i) :=
  isReal_sum Finset.univ f (fun i _ => h i)

/-- A family of reals is the image of a family of real numbers. -/
theorem exists_real_family {ι : Type*} (z : ι → EReal) (h : ∀ i, IsReal (z i)) :
    ∃ a : ι → ℝ, z = fun i => (a i : EReal) := by
  choose a ha using h
  exact ⟨a, funext ha⟩

/-- The quotient of the image of a real by a nonzero real number is the image of the product with the reciprocal. -/
theorem div_coe_coe (a : ℝ) {N : ℝ} (hN : N ≠ 0) :
    Ideal.div (a : EReal) (N : EReal) = ((a * (1 / N) : ℝ) : EReal) := by
  rw [Ideal.div_coe hN, EReal.coe_mul]

/-- The quotient of a real by a nonzero real number is real. -/
theorem IsReal.div {x : EReal} (hx : IsReal x) {N : ℝ} (hN : N ≠ 0) : IsReal (Ideal.div x (N : EReal)) := by
  obtain ⟨a, rfl⟩ := hx; exact ⟨_, div_coe_coe a hN⟩

/-- The reciprocal square root of a positive real number is the image of the reciprocal of its square root. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real number is real. -/
theorem isReal_rsqrt_coe {r : ℝ} (h : 0 < r) : IsReal (Ideal.rsqrt (r : EReal)) :=
  ⟨_, rsqrt_coe_of_pos h⟩

/-- The reciprocal square root of a positive real is real. -/
theorem IsReal.rsqrt {x : EReal} (hx : IsReal x) (h : 0 < x) : IsReal (Ideal.rsqrt x) := by
  obtain ⟨a, rfl⟩ := hx; exact isReal_rsqrt_coe (EReal.coe_pos.mp h)

/-- A nonnegative real number plus a positive one, taken in the extended reals, has a real reciprocal square root. -/
theorem isReal_rsqrt_add {v e : ℝ} (hv : 0 ≤ v) (he : 0 < e) : IsReal (Ideal.rsqrt ((v : EReal) + (e : EReal))) := by
  rw [← EReal.coe_add]; exact isReal_rsqrt_coe (add_pos_of_nonneg_of_pos hv he)

/-- Adding to zero changes nothing (a reduction's initial value 0 in front of its sum). -/
theorem zero_add_ereal (x : EReal) : (0 : EReal) + x = x := zero_add x

/-! ### The mean of squared deviations -/

/-- Over the real numbers, with N the number of terms and mu = (∑ a) / N: the sum of the squared deviations from mu
    is the sum of the squares minus N mu², so their means differ by mu². Division is written as the product with the
    reciprocal. -/
theorem variance_real {n : ℕ} (hn : n ≠ 0) (a : Fin n → ℝ) (N : ℝ) (hN : N = n) :
    (∑ i, (a i - (∑ j, a j) * (1 / N)) * (a i - (∑ j, a j) * (1 / N))) * (1 / N)
      = (∑ i, a i * a i) * (1 / N) - ((∑ j, a j) * (1 / N)) * ((∑ j, a j) * (1 / N)) := by
  have hN0 : N ≠ 0 := by rw [hN]; exact_mod_cast hn
  set S := ∑ j, a j with hS
  have h1 : ∑ i, (a i - S * (1 / N)) * (a i - S * (1 / N))
      = (∑ i, a i * a i) - 2 * (S * (1 / N)) * S + N * ((S * (1 / N)) * (S * (1 / N))) := by
    have : ∀ i, (a i - S * (1 / N)) * (a i - S * (1 / N))
        = a i * a i - 2 * (S * (1 / N)) * a i + (S * (1 / N)) * (S * (1 / N)) := fun i => by ring
    rw [Finset.sum_congr rfl (fun i _ => this i), Finset.sum_add_distrib, Finset.sum_sub_distrib,
      ← Finset.mul_sum, Finset.sum_const, Finset.card_univ, Fintype.card_fin, nsmul_eq_mul, ← hN]
  rw [h1]
  field_simp
  ring

/-- Over the real numbers the mean of the squared deviations is not negative. -/
theorem variance_real_nonneg {n : ℕ} (a : Fin n → ℝ) (mu N : ℝ) (hN : 0 ≤ N) :
    0 ≤ (∑ i, (a i - mu) * (a i - mu)) * (1 / N) :=
  mul_nonneg (Finset.sum_nonneg (fun i _ => mul_self_nonneg _)) (one_div_nonneg.mpr hN)

/-- The identity behind batch statistics, on the extended reals for real-valued data: with N the number n ≠ 0 of terms
    and mu = (∑ z) / N, the mean of the squared deviations from mu is the mean of the squares minus mu², and this
    common value is the image of a real number that is not negative. -/
theorem variance_identity_val {n : ℕ} (hn : n ≠ 0) (z : Fin n → EReal) (hz : ∀ i, IsReal (z i)) (N : ℝ) (hN : N = n) :
    ∃ v : ℝ, 0 ≤ v ∧
      Ideal.div (∑ i, (z i - Ideal.div (∑ j, z j) (N : EReal)) * (z i - Ideal.div (∑ j, z j) (N : EReal))) (N : EReal)
        = (v : EReal) ∧
      Ideal.div (∑ i, z i * z i) (N : EReal)
          - Ideal.div (∑ j, z j) (N : EReal) * Ideal.div (∑ j, z j) (N : EReal) = (v : EReal) := by
  have hN0 : N ≠ 0 := by rw [hN]; exact_mod_cast hn
  have hNn : 0 ≤ N := by rw [hN]; exact Nat.cast_nonneg n
  obtain ⟨a, rfl⟩ := exists_real_family z hz
  have hmu : Ideal.div (∑ j, (a j : EReal)) (N : EReal) = (((∑ j, a j) * (1 / N) : ℝ) : EReal) := by
    rw [← coe_finset_sum, div_coe_coe _ hN0]
  have hD : ∀ mu : ℝ, ∑ i, ((a i : EReal) - (mu : EReal)) * ((a i : EReal) - (mu : EReal))
      = ((∑ i, (a i - mu) * (a i - mu) : ℝ) : EReal) := fun mu => by
    rw [coe_finset_sum]
    exact Finset.sum_congr rfl (fun i _ => by rw [EReal.coe_mul, EReal.coe_sub])
  have hQ : ∑ i, (a i : EReal) * (a i : EReal) = ((∑ i, a i * a i : ℝ) : EReal) := by
    rw [coe_finset_sum]
    exact Finset.sum_congr rfl (fun i _ => by rw [EReal.coe_mul])
  refine ⟨(∑ i, (a i - (∑ j, a j) * (1 / N)) * (a i - (∑ j, a j) * (1 / N))) * (1 / N),
    variance_real_nonneg a _ N hNn, ?_, ?_⟩
  · rw [hmu, hD, div_coe_coe _ hN0]
  · rw [hmu, hQ, div_coe_coe _ hN0, ← EReal.coe_mul, ← EReal.coe_sub, variance_real hn a N hN]

/-- The mean of the squared deviations from the mean is the mean of the squares minus the square of the mean
    (extended reals, real-valued data, N the number n ≠ 0 of terms). -/
theorem variance_identity {n : ℕ} (hn : n ≠ 0) (z : Fin n → EReal) (hz : ∀ i, IsReal (z i)) (N : ℝ) (hN : N = n) :
    Ideal.div (∑ i, (z i - Ideal.div (∑ j, z j) (N : EReal)) * (z i - Ideal.div (∑ j, z j) (N : EReal))) (N : EReal)
      = Ideal.div (∑ i, z i * z i) (N : EReal)
          - Ideal.div (∑ j, z j) (N : EReal) * Ideal.div (∑ j, z j) (N : EReal) := by
  obtain ⟨v, _, h1, h2⟩ := variance_identity_val hn z hz N hN
  rw [h1, h2]

/-- The same with the three sums, the mean and the sum of squared deviations named by equations, so that each may be
    given in whatever arrangement it was computed. -/
theorem variance_identity_of_eq {n : ℕ} (hn : n ≠ 0) (z : Fin n → EReal) (hz : ∀ i, IsReal (z i)) (N : ℝ) (hN : N = n)
    {S Q D mu : EReal} (hS : S = ∑ i, z i) (hQ : Q = ∑ i, z i * z i) (hmu : mu = Ideal.div S (N : EReal))
    (hD : D = ∑ i, (z i - mu) * (z i - mu)) :
    Ideal.div D (N : EReal) = Ideal.div Q (N : EReal) - mu * mu := by
  subst hS hQ hmu hD
  exact variance_identity hn z hz N hN

/-- The same with each sum preceded by a reduction's initial value 0. -/
theorem variance_identity_zero_add {n : ℕ} (hn : n ≠ 0) (z : Fin n → EReal) (hz : ∀ i, IsReal (z i)) (N : ℝ)
    (hN : N = n) :
    Ideal.div (0 + ∑ i, (z i - Ideal.div (0 + ∑ j, z j) (N : EReal)) * (z i - Ideal.div (0 + ∑ j, z j) (N : EReal)))
        (N : EReal)
      = Ideal.div (0 + ∑ i, z i * z i) (N : EReal)
          - Ideal.div (0 + ∑ j, z j) (N : EReal) * Ideal.div (0 + ∑ j, z j) (N : EReal) := by
  simp only [zero_add]
  exact variance_identity hn z hz N hN

/-- The mean of real-valued data is real. -/
theorem isReal_mean {n : ℕ} (z : Fin n → EReal) (hz : ∀ i, IsReal (z i)) {N : ℝ} (hN : N ≠ 0) :
    IsReal (Ideal.div (∑ j, z j) (N : EReal)) :=
  (isReal_sum_univ z hz).div hN

/-- The mean of the squared deviations of real-valued data from their mean is the image of a real number that is not
    negative. -/
theorem variance_nonneg_real {n : ℕ} (hn : n ≠ 0) (z : Fin n → EReal) (hz : ∀ i, IsReal (z i)) (N : ℝ) (hN : N = n) :
    ∃ v : ℝ, 0 ≤ v ∧
      Ideal.div (∑ i, (z i - Ideal.div (∑ j, z j) (N : EReal)) * (z i - Ideal.div (∑ j, z j) (N : EReal))) (N : EReal)
        = (v : EReal) := by
  obtain ⟨v, hv, h1, _⟩ := variance_identity_val hn z hz N hN
  exact ⟨v, hv, h1⟩

/-- The mean of the squares minus the square of the mean, for real-valued data, is the image of a real number that is
    not negative. -/
theorem variance_nonneg_real' {n : ℕ} (hn : n ≠ 0) (z : Fin n → EReal) (hz : ∀ i, IsReal (z i)) (N : ℝ) (hN : N = n) :
    ∃ v : ℝ, 0 ≤ v ∧
      Ideal.div (∑ i, z i * z i) (N : EReal)
          - Ideal.div (∑ j, z j) (N : EReal) * Ideal.div (∑ j, z j) (N : EReal) = (v : EReal) := by
  obtain ⟨v, hv, _, h2⟩ := variance_identity_val hn z hz N hN
  exact ⟨v, hv, h2⟩

/-- Either form of the variance of real-valued data, plus a positive real number, has a real reciprocal square root. -/
theorem isReal_rsqrt_variance_add {n : ℕ} (hn : n ≠ 0) (z : Fin n → EReal) (hz : ∀ i, IsReal (z i)) (N : ℝ) (hN : N = n)
    {e : ℝ} (he : 0 < e) :
    IsReal (Ideal.rsqrt (Ideal.div (∑ i, z i * z i) (N : EReal)
          - Ideal.div (∑ j, z j) (N : EReal) * Ideal.div (∑ j, z j) (N : EReal) + (e : EReal))) := by
  obtain ⟨v, hv, h⟩ := variance_nonneg_real' hn z hz N hN
  rw [h]; exact isReal_rsqrt_add hv he

/-! ### The programs' two float literals, and the spellings of a literal -/

/-- The single-precision pattern 0x49C35000 is the real number 1600000 = (2²³ + 4411392) · 2⁻³. -/
theorem ofBits_1600000 : Ideal.ofBits .f32 0x49C35000#32 = ((1600000 : ℝ) : EReal) := by
  simp [Ideal.ofBits, Ideal.ieee, -EReal.coe_mul]; norm_num

/-- The single-precision pattern 0x3727C5AC (the float nearest to 10⁻⁵) is a positive real number,
    10995116 · 2⁻⁴⁰. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- 1600000 is the number of terms of a sum over Fin 1600000. -/
theorem cast_1600000 : (1600000 : ℝ) = ((1600000 : ℕ) : ℝ) := by norm_num

/-- A scalar literal, on the extended reals, is what its pattern denotes. -/
theorem scalar_ofBits_ideal (φ : FTy) (w : BitVec φ.bits) : Scalar.ofBits (F := Ideal) φ w = Ideal.ofBits φ w := rfl

/-- A scalar literal spread over a shape is, at every index, what its pattern denotes. -/
theorem broadcast_scalar_ofBits (S : Shape) (φ : FTy) (w : BitVec φ.bits) (i : S.Idx) :
    broadcast S (Scalar.ofBits (F := Ideal) φ w) i = Ideal.ofBits φ w := rfl

/-- A constant array is, at every index, what its pattern denotes. -/
theorem constant_ideal_apply (S : Shape) (φ : FTy) (w : BitVec φ.bits) (i : S.Idx) :
    constant (F := Ideal) S φ w i = Ideal.ofBits φ w := rfl

/-! ### 1600000 terms as 200 blocks of 8000 -/

/-- Place y of block t, for 200 blocks of 8000, lies below 1600000. -/
theorem block_lt_1600000 (t : Fin 200) (y : Fin 8000) : 8000 * t.val + y.val < 1600000 := by omega

/-- 1600000 terms are 200 consecutive blocks of 8000. -/
theorem sum_blocks_1600000 {M : Type*} [AddCommMonoid M] (f : Fin 1600000 → M) :
    ∑ t : Fin 200, ∑ y : Fin 8000, f ⟨8000 * t.val + y.val, by omega⟩ = ∑ r : Fin 1600000, f r :=
  sum_blocks_of_eq (nb := 200) (bs := 8000) (N := 1600000) rfl f

/-- 1600000 terms from a range of 200 block sums. -/
theorem sum_range_blocks_1600000 {M : Type*} [AddCommMonoid M] (f : Fin 1600000 → M) (B : ℕ → M)
    (hB : ∀ (t : ℕ) (ht : t < 200), B t = ∑ y : Fin 8000, f ⟨8000 * t + y.val, by omega⟩) :
    ∑ s ∈ Finset.range 200, B s = ∑ r : Fin 1600000, f r :=
  sum_range_blocks_of_eq (nb := 200) (bs := 8000) (N := 1600000) rfl f B hB

/-- 1600000 terms from 200 block sums indexed by Fin 200. -/
theorem sum_fin_blocks_1600000 {M : Type*} [AddCommMonoid M] (f : Fin 1600000 → M) (B : Fin 200 → M)
    (hB : ∀ t : Fin 200, B t = ∑ y : Fin 8000, f ⟨8000 * t.val + y.val, by omega⟩) :
    ∑ t : Fin 200, B t = ∑ r : Fin 1600000, f r := by
  rw [← sum_blocks_1600000 f]
  exact Finset.sum_congr rfl (fun t _ => hB t)

end Cert.Lib
-- ==== Proof.LibGatherRows.lean ====
/-
  StableHLO's gather of whole rows by row number (`table[idx]` over rows), read at one element: rows of a matrix
  gathered by row number, and elements of a vector gathered by element number.

  The dimension numbers are the ones such a gather is written with: the start indices are an `[N, 1]` array whose
  second axis holds the one-component index vector; that component names the operand's axis 0, which is a collapsed
  axis of slice size 1; the operand's remaining axis (the columns, for rows) is taken whole and is the result's offset
  axis. Result element `(p, k)` is then operand element `(r, k)` where `r` is the start index `idx[p, 0]`, read signed and
  clamped into `[0, R − 1]` (a negative index reads row 0, one past the end reads the last row).
-/
import Idealize.ShloMosaic.PureOps.Ideal
import Idealize.ShloMosaic.Lib.ValueIdx

noncomputable section

namespace Cert.LibGatherRows

open Idealize.ShloMosaic Idealize.ShloMosaic.ValueIdx

section Rows
variable {α : Type} {R N K : Nat}

/-- The dimension numbers of a gather of rows of width `K` by row number. -/
abbrev rowsDims
    (wf : GatherDims.WF (⟨2, ![R, K]⟩ : Shape) (⟨2, ![N, 1]⟩ : Shape) (⟨2, ![N, K]⟩ : Shape) [1] [0] [] [0] [] 1 ![1, K]) :
    GatherDims (⟨2, ![R, K]⟩ : Shape) (⟨2, ![N, 1]⟩ : Shape) (⟨2, ![N, K]⟩ : Shape) where
  offsetDims := [1]
  collapsedSliceDims := [0]
  operandBatchingDims := []
  startIndicesBatchingDims := []
  startIndexMap := [0]
  indexVectorDim := 1
  sliceSizes := ![1, K]
  wf := wf

set_option maxHeartbeats 400000 in
/-- The start of result element `(p, k)`'s slice on the operand's row axis is the `p`-th start index, read signed and
    clamped into `[0, R − 1]`. -/
theorem rows_start_zero (wf) {w : Nat} (idx : IVec (⟨2, ![N, 1]⟩ : Shape) w) (p : Fin N) (k : Fin K) :
    (rowsDims (R := R) wf).start (ix2 p k) idx 0 = min (idx (ix2 p (0 : Fin 1))).toInt.toNat (R - 1) := by
  unfold GatherDims.start
  rw [dif_pos (show (0 : Fin 2) ∈ (rowsDims (R := R) (N := N) (K := K) wf).startIndexMap from List.mem_singleton.mpr rfl)]
  have hsi : (rowsDims (R := R) wf).siIdx (ix2 p k) ⟨List.idxOf (0 : Fin 2) (rowsDims (R := R) (N := N) (K := K) wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

set_option maxHeartbeats 400000 in
/-- The start index map does not name the operand's column axis: the slice starts at `0` on it. -/
theorem rows_start_one (wf) {w : Nat} (idx : IVec (⟨2, ![N, 1]⟩ : Shape) w) (j : (⟨2, ![N, K]⟩ : Shape).Idx) :
    (rowsDims (R := R) wf).start j idx 1 = 0 := by
  unfold GatherDims.start
  rw [dif_neg (show (1 : Fin 2) ∉ [(0 : Fin 2)] from by decide)]

set_option maxHeartbeats 400000 in
/-- The operand's row axis is collapsed: the offset coordinate on it is `0`. -/
theorem rows_offCoord_zero (wf) (j : (⟨2, ![N, K]⟩ : Shape).Idx) :
    (rowsDims (R := R) wf).offCoord j 0 = 0 :=
  GatherDims.offCoord_eq_zero _ _ _ (fun h => ((GatherDims.mem_sKept _ _).mp h).1 (List.mem_singleton.mpr rfl))

set_option maxHeartbeats 400000 in
/-- The offset coordinate on the operand's column axis is the result element's column. -/
theorem rows_offCoord_one (wf) (j : (⟨2, ![N, K]⟩ : Shape).Idx) :
    (rowsDims (R := R) wf).offCoord j 1 = (j 1).val := by
  unfold GatherDims.offCoord
  exact (dif_pos (show (1 : Fin 2) ∈ (List.finRange 2).filter (fun a => a ∉ [(0 : Fin 2)] ++ []) from by decide)).trans rfl

set_option maxHeartbeats 400000 in
/-- Rows gathered by row number, read at one element, for the literal dimension numbers: element `(p, k)` of the result
    is the operand's element `(r, k)`, `r` the `p`-th start index read signed and clamped into `[0, R − 1]`. -/
theorem hostGather_rowsDims_apply (hR : 0 < R)
    (wf : GatherDims.WF (⟨2, ![R, K]⟩ : Shape) (⟨2, ![N, 1]⟩ : Shape) (⟨2, ![N, K]⟩ : Shape) [1] [0] [] [0] [] 1 ![1, K])
    {w : Nat} (x : (⟨2, ![R, K]⟩ : Shape).Idx → α) (idx : IVec (⟨2, ![N, 1]⟩ : Shape) w) (p : Fin N) (k : Fin K) :
    Host.gather (rowsDims wf) x idx (ix2 p k)
      = x (ix2 (⟨min (idx (ix2 p (0 : Fin 1))).toInt.toNat (R - 1), by omega⟩ : Fin R) k) := by
  unfold Host.gather
  congr 1
  funext a
  refine Fin.ext ?_
  match a with
  | ⟨0, _⟩ =>
    show (rowsDims (R := R) wf).start (ix2 p k) idx 0 + (rowsDims (R := R) wf).batchCoord (ix2 p k) 0
        + (rowsDims (R := R) wf).offCoord (ix2 p k) 0 = min (idx (ix2 p (0 : Fin 1))).toInt.toNat (R - 1)
    rw [GatherDims.batchCoord_eq_zero _ _ _ List.not_mem_nil, rows_offCoord_zero, rows_start_zero]
    rfl
  | ⟨1, _⟩ =>
    show (rowsDims (R := R) wf).start (ix2 p k) idx 1 + (rowsDims (R := R) wf).batchCoord (ix2 p k) 1
        + (rowsDims (R := R) wf).offCoord (ix2 p k) 1 = k.val
    rw [GatherDims.batchCoord_eq_zero _ _ _ List.not_mem_nil, rows_offCoord_one, rows_start_one]
    exact Nat.zero_add _

/-- Rows of width `K` gathered by row number (`x[idx]` over rows), read at one element: element `(p, k)` of the
    result is `x (r, k)` where `r` is the `p`-th start index, read signed and clamped into `[0, R − 1]`. -/
theorem hostGather_rows_apply {α : Type} {R N K w : Nat} (hR : 0 < R)
    (d : GatherDims (⟨2, ![R, K]⟩ : Shape) (⟨2, ![N, 1]⟩ : Shape) (⟨2, ![N, K]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, K])
    (x : (⟨2, ![R, K]⟩ : Shape).Idx → α) (idx : IVec (⟨2, ![N, 1]⟩ : Shape) w) (p : Fin N) (k : Fin K) :
    Host.gather d x idx (ix2 p k)
      = x (ix2 (⟨min (idx (ix2 p (0 : Fin 1))).toInt.toNat (R - 1), by omega⟩ : Fin R) k) := by
  obtain ⟨od, cs, ob, sb, sm, iv, ss, wf⟩ := d
  dsimp only at hod hcs hob hsb hsm hiv hss
  subst hod hcs hob hsb hsm hiv hss
  exact hostGather_rowsDims_apply hR wf x idx p k

end Rows

section Vec
variable {α : Type} {R N : Nat}

/-- The dimension numbers of a gather of a vector's elements by element number. -/
abbrev vecDims
    (wf : GatherDims.WF (⟨1, ![R]⟩ : Shape) (⟨2, ![N, 1]⟩ : Shape) (⟨1, ![N]⟩ : Shape) [] [0] [] [0] [] 1 ![1]) :
    GatherDims (⟨1, ![R]⟩ : Shape) (⟨2, ![N, 1]⟩ : Shape) (⟨1, ![N]⟩ : Shape) where
  offsetDims := []
  collapsedSliceDims := [0]
  operandBatchingDims := []
  startIndicesBatchingDims := []
  startIndexMap := [0]
  indexVectorDim := 1
  sliceSizes := ![1]
  wf := wf

set_option maxHeartbeats 400000 in
/-- The start of result element `p`'s slice on the operand's one axis is the `p`-th start index, read signed and
    clamped into `[0, R − 1]`. -/
theorem vec_start_zero (wf) {w : Nat} (idx : IVec (⟨2, ![N, 1]⟩ : Shape) w) (p : Fin N) :
    (vecDims (R := R) wf).start (ix1 p) idx 0 = min (idx (ix2 p (0 : Fin 1))).toInt.toNat (R - 1) := by
  unfold GatherDims.start
  rw [dif_pos (show (0 : Fin 1) ∈ (vecDims (R := R) (N := N) wf).startIndexMap from List.mem_singleton.mpr rfl)]
  have hsi : (vecDims (R := R) wf).siIdx (ix1 p) ⟨List.idxOf (0 : Fin 1) (vecDims (R := R) (N := N) wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

set_option maxHeartbeats 400000 in
/-- A vector's elements gathered by element number, read at one element, for the literal dimension numbers: element
    `p` of the result is the operand's element `r`, `r` the `p`-th start index read signed and clamped into `[0, R − 1]`. -/
theorem hostGather_vecDims_apply (hR : 0 < R)
    (wf : GatherDims.WF (⟨1, ![R]⟩ : Shape) (⟨2, ![N, 1]⟩ : Shape) (⟨1, ![N]⟩ : Shape) [] [0] [] [0] [] 1 ![1])
    {w : Nat} (x : (⟨1, ![R]⟩ : Shape).Idx → α) (idx : IVec (⟨2, ![N, 1]⟩ : Shape) w) (p : Fin N) :
    Host.gather (vecDims wf) x idx (ix1 p)
      = x (ix1 (⟨min (idx (ix2 p (0 : Fin 1))).toInt.toNat (R - 1), by omega⟩ : Fin R)) := by
  unfold Host.gather
  congr 1
  funext a
  refine Fin.ext ?_
  match a with
  | ⟨0, _⟩ =>
    show (vecDims (R := R) wf).start (ix1 p) idx 0 + (vecDims (R := R) wf).batchCoord (ix1 p) 0
        + (vecDims (R := R) wf).offCoord (ix1 p) 0 = min (idx (ix2 p (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl)),
      vec_start_zero]
    rfl

/-- A vector's elements gathered by element number (`x[idx]` of a flat array), read at one element: element `p` of the
    result is `x r` where `r` is the `p`-th start index, read signed and clamped into `[0, R − 1]`. -/
theorem hostGather_vec_apply {α : Type} {R N w : Nat} (hR : 0 < R)
    (d : GatherDims (⟨1, ![R]⟩ : Shape) (⟨2, ![N, 1]⟩ : Shape) (⟨1, ![N]⟩ : Shape))
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![R]⟩ : Shape).Idx → α) (idx : IVec (⟨2, ![N, 1]⟩ : Shape) w) (p : Fin N) :
    Host.gather d x idx (ix1 p)
      = x (ix1 (⟨min (idx (ix2 p (0 : Fin 1))).toInt.toNat (R - 1), by omega⟩ : Fin R)) := by
  obtain ⟨od, cs, ob, sb, sm, iv, ss, wf⟩ := d
  dsimp only at hod hcs hob hsb hsm hiv hss
  subst hod hcs hob hsb hsm hiv hss
  exact hostGather_vecDims_apply hR wf x idx p

end Vec

end Cert.LibGatherRows

end
-- ==== Proof.LibScatterRows.lean ====
/-
  The host's accumulating float scatter (`.at[idx].add`, a segment sum) read at one element, at the ideal instance:
  rows of a matrix scattered by row number, and a vector scattered by element number.

  The dimension numbers are the ones such a scatter is written with: the scatter indices are an `[N, 1]` array whose
  second axis holds the one-component index vector, that component names the operand's axis 0, which is an inserted
  window axis; the update's remaining axis (the columns, for rows) is the window axis. Update element `(p, c)` then
  lands at operand element `(idx[p, 0], c)` (the index read signed, NOT clamped), or nowhere when `idx[p, 0]` is
  outside `[0, R)`; so element `(r, k)` of the result collects exactly the update elements `(p, k)` with
  `idx[p, 0] = r`.
-/
import Idealize.ShloMosaic.PureOps.Ideal
import Idealize.ShloMosaic.Lib.ValueIdx

noncomputable section

namespace Cert.LibScatterRows

open Idealize.ShloMosaic Idealize.ShloMosaic.ValueIdx
open scoped BigOperators

section Rows
variable {R N K : Nat}

/-- The dimension numbers of a scatter of rows by row number. -/
abbrev rowsDims (wf : ScatterDims.WF (⟨2, ![R, K]⟩ : Shape) (⟨2, ![N, 1]⟩ : Shape) (⟨2, ![N, K]⟩ : Shape) [1] [0] [0] 1) :
    ScatterDims (⟨2, ![R, K]⟩ : Shape) (⟨2, ![N, 1]⟩ : Shape) (⟨2, ![N, K]⟩ : Shape) where
  updateWindowDims := [1]
  insertedWindowDims := [0]
  scatterDimsToOperandDims := [0]
  indexVectorDim := 1
  wf := wf

set_option maxHeartbeats 400000 in
/-- The start of update element `(p, c)`'s window on the operand's row axis is the `p`-th scatter index, read signed. -/
theorem rows_start_zero (wf) {w : Nat} (idx : IVec (⟨2, ![N, 1]⟩ : Shape) w) (p : Fin N) (c : Fin K) :
    (rowsDims (R := R) wf).start (ix2 p c) idx 0 = (idx (ix2 p (0 : Fin 1))).toInt := by
  unfold ScatterDims.start
  rw [dif_pos (show (0 : Fin 2) ∈ (rowsDims (R := R) (N := N) (K := K) wf).scatterDimsToOperandDims from List.mem_singleton.mpr rfl)]
  congr 2
  funext b
  refine Fin.ext ?_
  match b with
  | ⟨0, _⟩ => rfl
  | ⟨1, _⟩ => rfl

set_option maxHeartbeats 400000 in
/-- The scatter indices do not name the operand's column axis: the window starts at `0` on it. -/
theorem rows_start_one (wf) {w : Nat} (idx : IVec (⟨2, ![N, 1]⟩ : Shape) w) (j : (⟨2, ![N, K]⟩ : Shape).Idx) :
    (rowsDims (R := R) wf).start j idx 1 = 0 := by
  unfold ScatterDims.start
  rw [dif_neg (show (1 : Fin 2) ∉ [(0 : Fin 2)] from by decide)]

set_option maxHeartbeats 400000 in
/-- The operand's row axis is an inserted window axis: the window coordinate on it is `0`. -/
theorem rows_window_zero (wf) (j : (⟨2, ![N, K]⟩ : Shape).Idx) :
    (rowsDims (R := R) wf).window j 0 = 0 := by
  unfold ScatterDims.window
  exact dif_neg (show (0 : Fin 2) ∉ (List.finRange 2).filter (fun a => a ∉ [(0 : Fin 2)]) from by decide)

set_option maxHeartbeats 400000 in
/-- The window coordinate on the operand's column axis is the update element's column. -/
theorem rows_window_one (wf) (j : (⟨2, ![N, K]⟩ : Shape).Idx) :
    (rowsDims (R := R) wf).window j 1 = (j 1).val := by
  unfold ScatterDims.window
  exact (dif_pos (show (1 : Fin 2) ∈ (List.finRange 2).filter (fun a => a ∉ [(0 : Fin 2)]) from by decide)).trans rfl

set_option maxHeartbeats 400000 in
/-- The landing place of update element `(p, c)` is operand element `(r, k)` exactly when the `p`-th scatter index,
    read signed, is `r` and the column is the same (`c = k`); an index outside `[0, R)` lands nowhere. -/
theorem rows_resultIdx?_eq_some_iff
    (wf : ScatterDims.WF (⟨2, ![R, K]⟩ : Shape) (⟨2, ![N, 1]⟩ : Shape) (⟨2, ![N, K]⟩ : Shape) [1] [0] [0] 1)
    {w : Nat} (idx : IVec (⟨2, ![N, 1]⟩ : Shape) w) (p : Fin N) (c : Fin K) (r : Fin R) (k : Fin K) :
    (rowsDims (R := R) wf).resultIdx? (ix2 p c) idx = some (ix2 r k)
      ↔ (idx (ix2 p (0 : Fin 1))).toInt = (r.val : Int) ∧ c = k := by
  have h0 : (rowsDims (R := R) wf).start (ix2 p c) idx 0 + ((rowsDims (R := R) wf).window (ix2 p c) 0 : Int)
      = (idx (ix2 p (0 : Fin 1))).toInt := by
    rw [rows_start_zero, rows_window_zero]; exact Int.add_zero _
  have h1 : (rowsDims (R := R) wf).start (ix2 p c) idx 1 + ((rowsDims (R := R) wf).window (ix2 p c) 1 : Int)
      = (c.val : Int) := by
    rw [rows_start_one, rows_window_one]; exact Int.zero_add _
  unfold ScatterDims.resultIdx?
  split
  · rename_i h
    rw [Option.some.injEq]
    constructor
    · intro e
      have e0 : ((rowsDims (R := R) wf).start (ix2 p c) idx 0
          + ((rowsDims (R := R) wf).window (ix2 p c) 0 : Int)).toNat = r.val :=
        congrArg (fun f : (⟨2, ![R, K]⟩ : Shape).Idx => (f 0).val) e
      have e1 : ((rowsDims (R := R) wf).start (ix2 p c) idx 1
          + ((rowsDims (R := R) wf).window (ix2 p c) 1 : Int)).toNat = k.val :=
        congrArg (fun f : (⟨2, ![R, K]⟩ : Shape).Idx => (f 1).val) e
      have g0 := (h 0).1
      rw [h0] at e0 g0
      rw [h1] at e1
      exact ⟨by omega, Fin.ext (by omega)⟩
    · rintro ⟨ht, hc⟩
      funext a
      refine Fin.ext ?_
      match a with
      | ⟨0, _⟩ =>
        show ((rowsDims (R := R) wf).start (ix2 p c) idx 0
          + ((rowsDims (R := R) wf).window (ix2 p c) 0 : Int)).toNat = r.val
        rw [h0, ht]; exact Int.toNat_natCast _
      | ⟨1, _⟩ =>
        show ((rowsDims (R := R) wf).start (ix2 p c) idx 1
          + ((rowsDims (R := R) wf).window (ix2 p c) 1 : Int)).toNat = k.val
        rw [h1, hc]; exact Int.toNat_natCast _
  · rename_i h
    constructor
    · intro e; cases e
    · rintro ⟨ht, hc⟩
      exfalso; apply h
      intro a
      match a with
      | ⟨0, _⟩ =>
        show 0 ≤ (rowsDims (R := R) wf).start (ix2 p c) idx 0 + ((rowsDims (R := R) wf).window (ix2 p c) 0 : Int)
          ∧ (rowsDims (R := R) wf).start (ix2 p c) idx 0 + ((rowsDims (R := R) wf).window (ix2 p c) 0 : Int) < (R : Int)
        rw [h0, ht]; have := r.isLt; omega
      | ⟨1, _⟩ =>
        show 0 ≤ (rowsDims (R := R) wf).start (ix2 p c) idx 1 + ((rowsDims (R := R) wf).window (ix2 p c) 1 : Int)
          ∧ (rowsDims (R := R) wf).start (ix2 p c) idx 1 + ((rowsDims (R := R) wf).window (ix2 p c) 1 : Int) < (K : Int)
        rw [h1]; have := c.isLt; omega

set_option maxHeartbeats 400000 in
/-- Rows scattered by row number, read at one element, for the literal dimension numbers: element `(r, k)` of the
    result is the operand's element plus the sum, over the update rows `p` whose scatter index is `r`, of the update's
    element `(p, k)`. -/
theorem hostScatterAdd_rowsDims_apply
    (wf : ScatterDims.WF (⟨2, ![R, K]⟩ : Shape) (⟨2, ![N, 1]⟩ : Shape) (⟨2, ![N, K]⟩ : Shape) [1] [0] [0] 1)
    {w : Nat} (x : (⟨2, ![R, K]⟩ : Shape).Idx → EReal) (idx : IVec (⟨2, ![N, 1]⟩ : Shape) w)
    (upd : (⟨2, ![N, K]⟩ : Shape).Idx → EReal) (r : Fin R) (k : Fin K) :
    Ideal.hostScatterAdd (rowsDims wf) x idx upd (ix2 r k)
      = x (ix2 r k) + ∑ p ∈ Finset.univ.filter (fun p : Fin N => (idx (ix2 p (0 : Fin 1))).toInt = (r.val : Int)),
          upd (ix2 p k) := by
  unfold Ideal.hostScatterAdd
  congr 1
  symm
  refine Finset.sum_bij (fun p _ => ix2 p k) ?_ ?_ ?_ ?_
  · intro p hp
    rw [Finset.mem_filter] at hp ⊢
    exact ⟨Finset.mem_univ _, (rows_resultIdx?_eq_some_iff wf idx p k r k).mpr ⟨hp.2, rfl⟩⟩
  · intro p _ q _ e
    exact congrArg (fun f : (⟨2, ![N, K]⟩ : Shape).Idx => f 0) e
  · intro j hj
    rw [Finset.mem_filter] at hj
    obtain ⟨p, c, rfl⟩ : ∃ p c, j = ix2 p c := ⟨j 0, j 1, eq_ix2 j⟩
    have hpc := (rows_resultIdx?_eq_some_iff wf idx p c r k).mp hj.2
    refine ⟨p, Finset.mem_filter.mpr ⟨Finset.mem_univ _, hpc.1⟩, ?_⟩
    rw [hpc.2]
  · intro p _; rfl

/-- Rows of width `K` scattered by row number (`x.at[idx].add(upd)` over rows), read at one element: element
    `(r, k)` of the result is `x (r, k)` plus the sum of `upd (p, k)` over the update rows `p` whose scatter index, read
    signed, is `r`. Update rows whose index is outside `[0, R)` contribute nothing. -/
theorem hostScatterAdd_rows_apply
    (d : ScatterDims (⟨2, ![R, K]⟩ : Shape) (⟨2, ![N, 1]⟩ : Shape) (⟨2, ![N, K]⟩ : Shape))
    (huw : d.updateWindowDims = [1]) (hiw : d.insertedWindowDims = [0]) (hsd : d.scatterDimsToOperandDims = [0])
    (hiv : d.indexVectorDim = 1)
    {w : Nat} (x : (⟨2, ![R, K]⟩ : Shape).Idx → EReal) (idx : IVec (⟨2, ![N, 1]⟩ : Shape) w)
    (upd : (⟨2, ![N, K]⟩ : Shape).Idx → EReal) (r : Fin R) (k : Fin K) :
    Ideal.hostScatterAdd d x idx upd (ix2 r k)
      = x (ix2 r k) + ∑ p ∈ Finset.univ.filter (fun p : Fin N => (idx (ix2 p (0 : Fin 1))).toInt = (r.val : Int)),
          upd (ix2 p k) := by
  obtain ⟨uw, iw, sd, iv, wf⟩ := d
  dsimp only at huw hiw hsd hiv
  subst huw hiw hsd hiv
  exact hostScatterAdd_rowsDims_apply wf x idx upd r k

end Rows

section Vec
variable {R N : Nat}

/-- The dimension numbers of a scatter of a vector's elements by element number. -/
abbrev vecDims (wf : ScatterDims.WF (⟨1, ![R]⟩ : Shape) (⟨2, ![N, 1]⟩ : Shape) (⟨1, ![N]⟩ : Shape) [] [0] [0] 1) :
    ScatterDims (⟨1, ![R]⟩ : Shape) (⟨2, ![N, 1]⟩ : Shape) (⟨1, ![N]⟩ : Shape) where
  updateWindowDims := []
  insertedWindowDims := [0]
  scatterDimsToOperandDims := [0]
  indexVectorDim := 1
  wf := wf

set_option maxHeartbeats 400000 in
/-- The start of update element `p`'s window on the operand's one axis is the `p`-th scatter index, read signed. -/
theorem vec_start_zero (wf) {w : Nat} (idx : IVec (⟨2, ![N, 1]⟩ : Shape) w) (p : Fin N) :
    (vecDims (R := R) wf).start (ix1 p) idx 0 = (idx (ix2 p (0 : Fin 1))).toInt := by
  unfold ScatterDims.start
  rw [dif_pos (show (0 : Fin 1) ∈ (vecDims (R := R) (N := N) wf).scatterDimsToOperandDims from List.mem_singleton.mpr rfl)]
  congr 2
  funext b
  refine Fin.ext ?_
  match b with
  | ⟨0, _⟩ => rfl
  | ⟨1, _⟩ => rfl

set_option maxHeartbeats 400000 in
/-- The operand's one axis is an inserted window axis: the window coordinate on it is `0`. -/
theorem vec_window_zero (wf) (j : (⟨1, ![N]⟩ : Shape).Idx) :
    (vecDims (R := R) wf).window j 0 = 0 := by
  unfold ScatterDims.window
  exact dif_neg (show (0 : Fin 1) ∉ (List.finRange 1).filter (fun a => a ∉ [(0 : Fin 1)]) from by decide)

set_option maxHeartbeats 400000 in
/-- The landing place of update element `p` is operand element `r` exactly when the `p`-th scatter index, read
    signed, is `r`; an index outside `[0, R)` lands nowhere. -/
theorem vec_resultIdx?_eq_some_iff
    (wf : ScatterDims.WF (⟨1, ![R]⟩ : Shape) (⟨2, ![N, 1]⟩ : Shape) (⟨1, ![N]⟩ : Shape) [] [0] [0] 1)
    {w : Nat} (idx : IVec (⟨2, ![N, 1]⟩ : Shape) w) (p : Fin N) (r : Fin R) :
    (vecDims (R := R) wf).resultIdx? (ix1 p) idx = some (ix1 r)
      ↔ (idx (ix2 p (0 : Fin 1))).toInt = (r.val : Int) := by
  have h0 : (vecDims (R := R) wf).start (ix1 p) idx 0 + ((vecDims (R := R) wf).window (ix1 p) 0 : Int)
      = (idx (ix2 p (0 : Fin 1))).toInt := by
    rw [vec_start_zero, vec_window_zero]; exact Int.add_zero _
  unfold ScatterDims.resultIdx?
  split
  · rename_i h
    rw [Option.some.injEq]
    constructor
    · intro e
      have e0 : ((vecDims (R := R) wf).start (ix1 p) idx 0
          + ((vecDims (R := R) wf).window (ix1 p) 0 : Int)).toNat = r.val :=
        congrArg (fun f : (⟨1, ![R]⟩ : Shape).Idx => (f 0).val) e
      have g0 := (h 0).1
      rw [h0] at e0 g0
      omega
    · intro ht
      funext a
      refine Fin.ext ?_
      match a with
      | ⟨0, _⟩ =>
        show ((vecDims (R := R) wf).start (ix1 p) idx 0
          + ((vecDims (R := R) wf).window (ix1 p) 0 : Int)).toNat = r.val
        rw [h0, ht]; exact Int.toNat_natCast _
  · rename_i h
    constructor
    · intro e; cases e
    · intro ht
      exfalso; apply h
      intro a
      match a with
      | ⟨0, _⟩ =>
        show 0 ≤ (vecDims (R := R) wf).start (ix1 p) idx 0 + ((vecDims (R := R) wf).window (ix1 p) 0 : Int)
          ∧ (vecDims (R := R) wf).start (ix1 p) idx 0 + ((vecDims (R := R) wf).window (ix1 p) 0 : Int) < (R : Int)
        rw [h0, ht]; have := r.isLt; omega

set_option maxHeartbeats 400000 in
/-- A vector scattered by element number, read at one element, for the literal dimension numbers: element `r` of the
    result is the operand's element plus the sum of the update elements `p` whose scatter index is `r`. -/
theorem hostScatterAdd_vecDims_apply
    (wf : ScatterDims.WF (⟨1, ![R]⟩ : Shape) (⟨2, ![N, 1]⟩ : Shape) (⟨1, ![N]⟩ : Shape) [] [0] [0] 1)
    {w : Nat} (x : (⟨1, ![R]⟩ : Shape).Idx → EReal) (idx : IVec (⟨2, ![N, 1]⟩ : Shape) w)
    (upd : (⟨1, ![N]⟩ : Shape).Idx → EReal) (r : Fin R) :
    Ideal.hostScatterAdd (vecDims wf) x idx upd (ix1 r)
      = x (ix1 r) + ∑ p ∈ Finset.univ.filter (fun p : Fin N => (idx (ix2 p (0 : Fin 1))).toInt = (r.val : Int)),
          upd (ix1 p) := by
  unfold Ideal.hostScatterAdd
  congr 1
  symm
  refine Finset.sum_bij (fun p _ => ix1 p) ?_ ?_ ?_ ?_
  · intro p hp
    rw [Finset.mem_filter] at hp ⊢
    exact ⟨Finset.mem_univ _, (vec_resultIdx?_eq_some_iff wf idx p r).mpr hp.2⟩
  · intro p _ q _ e
    exact congrArg (fun f : (⟨1, ![N]⟩ : Shape).Idx => f 0) e
  · intro j hj
    rw [Finset.mem_filter] at hj
    obtain ⟨p, rfl⟩ : ∃ p, j = ix1 p := ⟨j 0, eq_ix1 j⟩
    exact ⟨p, Finset.mem_filter.mpr ⟨Finset.mem_univ _, (vec_resultIdx?_eq_some_iff wf idx p r).mp hj.2⟩, rfl⟩
  · intro p _; rfl

/-- A vector scattered by element number (`x.at[idx].add(upd)`, a segment sum), read at one element: element `r` of
    the result is `x r` plus the sum of `upd p` over the update elements `p` whose scatter index, read signed, is `r`.
    Update elements whose index is outside `[0, R)` contribute nothing. -/
theorem hostScatterAdd_vec_apply
    (d : ScatterDims (⟨1, ![R]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1)
    {w : Nat} (x : (⟨1, ![R]⟩ : Shape).Idx → EReal) (idx : IVec (⟨2, ![N, 1]⟩ : Shape) w)
    (upd : (⟨1, ![N]⟩ : Shape).Idx → EReal) (r : Fin R) :
    Ideal.hostScatterAdd d x idx upd (ix1 r)
      = x (ix1 r) + ∑ p ∈ Finset.univ.filter (fun p : Fin N => (idx (ix2 p (0 : Fin 1))).toInt = (r.val : Int)),
          upd (ix1 p) := by
  obtain ⟨uw, iw, sd, iv, wf⟩ := d
  dsimp only at huw hiw hsd hiv
  subst huw hiw hsd hiv
  exact hostScatterAdd_vecDims_apply wf x idx upd r

end Vec

end Cert.LibScatterRows

end
-- ==== Proof.Math.Agg.lean ====
/- The sum of the features of a node's in-neighbours, as one function of the edge array and of the feature array.
   The edge array has two rows of 1048576 node numbers: row 0 names each edge's source, row 1 its target. Each row is
   taken out as a flat vector. A negative source number has 65536 added to it (numbering from the end); the sources'
   rows of the feature array are then gathered, one per edge, the row number clamped into [0, 65535]; and the gathered
   rows are added, each into the row its edge's target names, onto an array of zeros (an edge whose target is not a
   node adds nothing). Entry (r, k) of the result is therefore a finite sum of entries of column k of the feature
   array, one per edge whose target is r; in particular it is a real number when every entry of the features is. -/
import Idealize.ShloMosaic.PureOps.Ideal
import Idealize.ShloMosaic.Lib.ValueIdx
import proofs.«159011_j9938554322955_1_alg».proof.Proof.LibStats
import proofs.«159011_j9938554322955_1_alg».proof.Proof.LibGatherRows
import proofs.«159011_j9938554322955_1_alg».proof.Proof.LibScatterRows
import proofs.«159011_j9938554322955_1_alg».proof.Proof.Math.Spec

noncomputable section

namespace Cert.Hand

open Idealize.ShloMosaic Idealize.ShloMosaic.ValueIdx
open scoped BigOperators

/-- The edge array: two rows of 1048576 node numbers. -/
abbrev SEdges : Shape := ⟨2, ![2, 1048576]⟩
/-- One row of the edge array, still with its row axis. -/
abbrev SEdgeRow : Shape := ⟨2, ![1, 1048576]⟩
/-- One node number per edge. -/
abbrev SEdge : Shape := ⟨1, ![1048576]⟩
/-- One node number per edge, as a column of one-component index vectors. -/
abbrev SEdgeCol : Shape := ⟨2, ![1048576, 1]⟩
/-- One row of 64 features per edge. -/
abbrev SEdgeFeat : Shape := ⟨2, ![1048576, 64]⟩
/-- One row of 64 features per node. -/
abbrev SFeat : Shape := ⟨2, ![65536, 64]⟩
/-- A scalar. -/
abbrev SScalar : Shape := ⟨0, ![]⟩

theorem slices_row0 : SEdges.Slices ![0, 0] SEdgeRow := by decide
theorem slices_row1 : SEdges.Slices ![1, 0] SEdgeRow := by decide
theorem casts_row : SEdgeRow.ShapeCasts SEdge := by decide
theorem bcast_scalar_edge : SScalar.BroadcastsInDim SEdge (![] : Fin 0 → Fin SEdge.rank) := by decide
theorem bcast_edge_col : SEdge.BroadcastsInDim SEdgeCol (![0] : Fin 1 → Fin SEdgeCol.rank) := by decide
theorem bcast_scalar_feat : SScalar.BroadcastsInDim SFeat (![] : Fin 0 → Fin SFeat.rank) := by decide
theorem gatherRows_wf : GatherDims.WF SFeat SEdgeCol SEdgeFeat [1] [0] [] [0] [] 1 ![1, 64] := by decide
theorem scatterRows_wf : ScatterDims.WF SFeat SEdgeCol SEdgeFeat [1] [0] [0] 1 := by decide

/-- The dimension numbers of the gather of feature rows by node number. -/
def gatherRows : GatherDims SFeat SEdgeCol SEdgeFeat where
  offsetDims := [1]
  collapsedSliceDims := [0]
  operandBatchingDims := []
  startIndicesBatchingDims := []
  startIndexMap := [0]
  indexVectorDim := 1
  sliceSizes := ![1, 64]
  wf := gatherRows_wf

/-- The dimension numbers of the accumulating scatter of feature rows by node number. -/
def scatterRows : ScatterDims SFeat SEdgeCol SEdgeFeat where
  updateWindowDims := [1]
  insertedWindowDims := [0]
  scatterDimsToOperandDims := [0]
  indexVectorDim := 1
  wf := scatterRows_wf

/-- Row 0 of the edge array as a flat vector: each edge's source. -/
def edgeSrc (ei : IVec SEdges 32) : IVec SEdge 32 :=
  shapeCast SEdge (extractStridedSlice SEdgeRow ![0, 0] ei slices_row0) casts_row

/-- Row 1 of the edge array as a flat vector: each edge's target. -/
def edgeDst (ei : IVec SEdges 32) : IVec SEdge 32 :=
  shapeCast SEdge (extractStridedSlice SEdgeRow ![1, 0] ei slices_row1) casts_row

/-- The source numbers with 65536 added to the negative ones, as a column of index vectors. -/
def srcCol (src : IVec SEdge 32) : IVec SEdgeCol 32 :=
  broadcastInDim SEdgeCol ![0] bcast_edge_col
    (select (cmpi .slt src (broadcastInDim SEdge ![] bcast_scalar_edge (constantI SScalar 32 0#32)))
      (addi src (broadcastInDim SEdge ![] bcast_scalar_edge (constantI SScalar 32 65536#32)))
      src)

/-- The target numbers as a column of index vectors. -/
def dstCol (dst : IVec SEdge 32) : IVec SEdgeCol 32 :=
  broadcastInDim SEdgeCol ![0] bcast_edge_col dst

section Generic
variable {R N K : Nat}

/-- Rows of an array gathered by one list of row numbers and then added, each into the row a second list of row
    numbers names, onto an array x0. -/
def gatherScatter (ds : ScatterDims (⟨2, ![R, K]⟩ : Shape) (⟨2, ![N, 1]⟩ : Shape) (⟨2, ![N, K]⟩ : Shape))
    (dg : GatherDims (⟨2, ![R, K]⟩ : Shape) (⟨2, ![N, 1]⟩ : Shape) (⟨2, ![N, K]⟩ : Shape))
    (x0 : (⟨2, ![R, K]⟩ : Shape).Idx → EReal) (is ig : IVec (⟨2, ![N, 1]⟩ : Shape) 32)
    (x : (⟨2, ![R, K]⟩ : Shape).Idx → EReal) : (⟨2, ![R, K]⟩ : Shape).Idx → EReal :=
  Host.scatterAdd (F := Ideal) (φ := .f32) ds x0 is (Host.gather dg x ig)

/-- Every entry of such a sum is real when every entry of x0 and of the gathered array is: entry (r, k) is x0's
    entry plus a finite sum of entries of column k of the gathered array. -/
theorem isReal_gatherScatter (hR : 0 < R)
    (ds : ScatterDims (⟨2, ![R, K]⟩ : Shape) (⟨2, ![N, 1]⟩ : Shape) (⟨2, ![N, K]⟩ : Shape))
    (huw : ds.updateWindowDims = [1]) (hiw : ds.insertedWindowDims = [0]) (hsd : ds.scatterDimsToOperandDims = [0])
    (hiv : ds.indexVectorDim = 1)
    (dg : GatherDims (⟨2, ![R, K]⟩ : Shape) (⟨2, ![N, 1]⟩ : Shape) (⟨2, ![N, K]⟩ : Shape))
    (hod : dg.offsetDims = [1]) (hcs : dg.collapsedSliceDims = [0]) (hob : dg.operandBatchingDims = [])
    (hsb : dg.startIndicesBatchingDims = []) (hsm : dg.startIndexMap = [0]) (hiv' : dg.indexVectorDim = 1)
    (hss : dg.sliceSizes = ![1, K])
    (x0 x : (⟨2, ![R, K]⟩ : Shape).Idx → EReal) (h0 : ∀ i, Cert.Lib.IsReal (x0 i)) (hx : ∀ i, Cert.Lib.IsReal (x i))
    (is ig : IVec (⟨2, ![N, 1]⟩ : Shape) 32) (i : (⟨2, ![R, K]⟩ : Shape).Idx) :
    Cert.Lib.IsReal (gatherScatter ds dg x0 is ig x i) := by
  obtain ⟨r, k, rfl⟩ : ∃ (r : Fin R) (k : Fin K), i = ix2 r k := ⟨i 0, i 1, eq_ix2 i⟩
  unfold gatherScatter Host.scatterAdd
  rw [Ideal.hostScatterAdd_def, Cert.LibScatterRows.hostScatterAdd_rows_apply ds huw hiw hsd hiv]
  refine Cert.Lib.IsReal.add (h0 _) (Cert.Lib.isReal_sum _ _ fun p _ => ?_)
  rw [Cert.LibGatherRows.hostGather_rows_apply hR dg hod hcs hob hsb hsm hiv' hss x ig p k]
  exact hx _

end Generic

/-- The array of zeros the neighbours' rows are added onto. -/
def zeros : SFeat.Idx → EReal :=
  broadcastInDim SFeat ![] bcast_scalar_feat (constant (F := Ideal) SScalar .f32 0x00000000#32)

/-- The neighbour sum from the two flat vectors of node numbers: gather the sources' rows, add each into its
    target's row of an array of zeros. -/
def aggCore (src dst : IVec SEdge 32) (x : SFeat.Idx → EReal) : SFeat.Idx → EReal :=
  gatherScatter scatterRows gatherRows zeros (dstCol dst) (srcCol src) x

/-- The neighbour sum as a function of the edge array and of the feature array. -/
def aggOf (ei : IVec SEdges 32) (x : SFeat.Idx → EReal) : SFeat.Idx → EReal :=
  aggCore (edgeSrc ei) (edgeDst ei) x

/-- The single-precision pattern of all zeros is the number zero. -/
theorem ofBits_zero : Ideal.ofBits .f32 0x00000000#32 = (0 : EReal) := by
  simp [Ideal.ofBits, Ideal.ieee]

/-- Every entry of the array of zeros is the number zero. -/
theorem zeros_apply (j : SFeat.Idx) : zeros j = (0 : EReal) := ofBits_zero

/-- The neighbour sum of real features is real, entry by entry. -/
theorem isReal_aggCore (src dst : IVec SEdge 32) (x : SFeat.Idx → EReal) (hx : ∀ i, Cert.Lib.IsReal (x i))
    (i : SFeat.Idx) : Cert.Lib.IsReal (aggCore src dst x i) :=
  isReal_gatherScatter (by decide) scatterRows rfl rfl rfl rfl gatherRows rfl rfl rfl rfl rfl rfl rfl
    zeros x (fun j => (zeros_apply j).symm ▸ Cert.Lib.isReal_zero) hx (dstCol dst) (srcCol src) i

/-- The neighbour sum of real features is real, entry by entry. -/
theorem isReal_aggOf (ei : IVec SEdges 32) (x : SFeat.Idx → EReal) (hx : ∀ i, Cert.Lib.IsReal (x i))
    (i : SFeat.Idx) : Cert.Lib.IsReal (aggOf ei x i) :=
  isReal_aggCore _ _ x hx i

/-- The same with both arrays read as curried functions of a node and a feature. -/
theorem isReal_aggOf_cur2 (ei : IVec SEdges 32) (x : SFeat.Idx → EReal)
    (hx : ∀ r k, Cert.Lib.IsReal (Cert.Spec.cur2 x r k)) (r : Fin 65536) (k : Fin 64) :
    Cert.Lib.IsReal (Cert.Spec.cur2 (aggOf ei x) r k) :=
  isReal_aggOf ei x (fun i => by
    obtain ⟨a, b, rfl⟩ : ∃ (a : Fin 65536) (b : Fin 64), i = ix2 a b := ⟨i 0, i 1, eq_ix2 i⟩
    exact hx a b) (ix2 r k)

end Cert.Hand

end
-- ==== Proof.KI.HostRead.lean ====
/- The re-indexings the host performs between two kernel regions, read at an index, and the network's parameters as
   the specification reads them. A layer's parameters arrive stacked, four layers to an array; the host takes layer
   i's part out and recasts it as the one-row (or matrix) array a kernel region reads. Read as a curried function of
   its two coordinates, such an array is: entry (i, k) of a stacked table; entry (i, u, v) of a stack of matrices;
   entry i of a vector, at every place of a row; entry k of a vector. The result's 65536 rows are recast as 16 slabs
   of 4096 rows. -/
import proofs.«159011_j9938554322955_1_alg».proof.Proof.Gen.KernelIdeal.Launch
import proofs.«159011_j9938554322955_1_alg».proof.Proof.Math.Spec
import proofs.«159011_j9938554322955_1_alg».proof.Proof.Math.Agg
import Idealize.ShloMosaic.Lib.Pipeline.Value
import Idealize.ShloMosaic.Lib.ValueIdx

noncomputable section

namespace Cert.KernelIdeal.Val

open Cert.KernelIdeal Cert.KernelIdeal.Gen
open Idealize.ShloMosaic Idealize.ShloMosaic.TcCoe Idealize.ShloMosaic.ValueIdx

/-! ## Layout chains read at an index -/

/-- A vector of n numbers recast as one row: entry (0, k) is entry k. -/
theorem cur2_row_of_vec {n : Nat} (x : (⟨1, ![n]⟩ : Shape).Idx → EReal)
    (h : (⟨1, ![n]⟩ : Shape).ShapeCasts ⟨2, ![1, n]⟩) :
    Cert.Spec.cur2 (shapeCast (⟨2, ![1, n]⟩ : Shape) x h) = fun _ k => x (ix1 k) := by
  funext r k
  refine shapeCast_apply x h (ix2 r k) (ix1 k) ?_
  rw [Shape.rowMajor_val_one, Shape.rowMajor_val_two]
  show k.val = r.val * n + k.val
  have hr : r.val = 0 := by have := r.isLt; omega
  rw [hr, Nat.zero_mul, Nat.zero_add]

/-- Row i of a table of p rows of n numbers, taken out, flattened and recast as one row: entry (0, k) is entry (i, k). -/
theorem cur2_row_of_table {p n : Nat} (i : Fin p) (x : (⟨2, ![p, n]⟩ : Shape).Idx → EReal)
    (hs : (⟨2, ![p, n]⟩ : Shape).Slices ![i.val, 0] ⟨2, ![1, n]⟩)
    (h1 : (⟨2, ![1, n]⟩ : Shape).ShapeCasts ⟨1, ![n]⟩) (h2 : (⟨1, ![n]⟩ : Shape).ShapeCasts ⟨2, ![1, n]⟩) :
    Cert.Spec.cur2 (shapeCast (⟨2, ![1, n]⟩ : Shape)
        (shapeCast (⟨1, ![n]⟩ : Shape) (extractStridedSlice (⟨2, ![1, n]⟩ : Shape) ![i.val, 0] x hs) h1) h2)
      = fun _ k => x (ix2 i k) := by
  funext r k
  refine (shapeCast_apply _ h2 (ix2 r k) (ix1 k) ?_).trans ?_
  · rw [Shape.rowMajor_val_one, Shape.rowMajor_val_two]
    show k.val = r.val * n + k.val
    have hr : r.val = 0 := by have := r.isLt; omega
    rw [hr, Nat.zero_mul, Nat.zero_add]
  refine (shapeCast_apply _ h1 (ix1 k) (ix2 (0 : Fin 1) k) ?_).trans ?_
  · rw [Shape.rowMajor_val_one, Shape.rowMajor_val_two]
    show (0 : Nat) * n + k.val = k.val
    omega
  refine extractStridedSlice_apply _ x hs (ix2 (0 : Fin 1) k) (ix2 i k) ?_
  intro a
  match a with
  | ⟨0, _⟩ => show i.val = i.val + 0; omega
  | ⟨1, _⟩ => show k.val = 0 + k.val; omega

/-- Matrix i of a stack of p matrices of a rows and b columns, taken out and its unit axis dropped: entry (u, v) is
    entry (i, u, v). -/
theorem cur2_matrix_of_stack {p a b : Nat} (i : Fin p) (x : (⟨3, ![p, a, b]⟩ : Shape).Idx → EReal)
    (hs : (⟨3, ![p, a, b]⟩ : Shape).Slices ![i.val, 0, 0] ⟨3, ![1, a, b]⟩)
    (h1 : (⟨3, ![1, a, b]⟩ : Shape).ShapeCasts ⟨2, ![a, b]⟩) :
    Cert.Spec.cur2 (shapeCast (⟨2, ![a, b]⟩ : Shape) (extractStridedSlice (⟨3, ![1, a, b]⟩ : Shape) ![i.val, 0, 0] x hs) h1)
      = fun u v => x (ix3 i u v) := by
  funext u v
  refine (shapeCast_apply _ h1 (ix2 u v) (ix3 (0 : Fin 1) u v) ?_).trans ?_
  · rw [Shape.rowMajor_val_two, Shape.rowMajor_val_three]
    show ((0 : Nat) * a + u.val) * b + v.val = u.val * b + v.val
    simp
  refine extractStridedSlice_apply _ x hs (ix3 (0 : Fin 1) u v) (ix3 i u v) ?_
  intro c
  match c with
  | ⟨0, _⟩ => show i.val = i.val + 0; omega
  | ⟨1, _⟩ => show u.val = 0 + u.val; omega
  | ⟨2, _⟩ => show v.val = 0 + v.val; omega

/-- Entry i of a vector of p numbers, taken out, made a scalar, then a one-by-one array, then spread over one row of n
    places: every entry is entry i. -/
theorem cur2_spread_of_entry {p n : Nat} (i : Fin p) (x : (⟨1, ![p]⟩ : Shape).Idx → EReal)
    (hs : (⟨1, ![p]⟩ : Shape).Slices ![i.val] ⟨1, ![1]⟩)
    (h1 : (⟨1, ![1]⟩ : Shape).ShapeCasts ⟨0, ![]⟩) (h2 : (⟨0, ![]⟩ : Shape).ShapeCasts ⟨2, ![1, 1]⟩)
    (hb : (⟨2, ![1, 1]⟩ : Shape).BroadcastsInDim ⟨2, ![1, n]⟩ (![0, 1] : Fin 2 → Fin (⟨2, ![1, n]⟩ : Shape).rank)) :
    Cert.Spec.cur2 (broadcastInDim (⟨2, ![1, n]⟩ : Shape) ![0, 1] hb
        (shapeCast (⟨2, ![1, 1]⟩ : Shape)
          (shapeCast (⟨0, ![]⟩ : Shape) (extractStridedSlice (⟨1, ![1]⟩ : Shape) ![i.val] x hs) h1) h2))
      = fun _ _ => x (ix1 i) := by
  funext r k
  refine (broadcastInDim_apply _ hb _ (ix2 r k) (ix2 (0 : Fin 1) (0 : Fin 1)) ?_).trans ?_
  · intro a
    match a with
    | ⟨0, _⟩ => rfl
    | ⟨1, _⟩ => rfl
  refine (shapeCast_apply _ h2 (ix2 (0 : Fin 1) (0 : Fin 1)) ix0 ?_).trans ?_
  · have h0 := ((⟨0, ![]⟩ : Shape).rowMajor ix0).isLt
    rw [Shape.rowMajor_val_two]
    show ((⟨0, ![]⟩ : Shape).rowMajor ix0).val = 0 * 1 + 0
    have : (⟨0, ![]⟩ : Shape).numel = 1 := by decide
    omega
  refine (shapeCast_apply _ h1 ix0 (ix1 (0 : Fin 1)) ?_).trans ?_
  · have h0 := ((⟨0, ![]⟩ : Shape).rowMajor ix0).isLt
    rw [Shape.rowMajor_val_one]
    show (0 : Nat) = ((⟨0, ![]⟩ : Shape).rowMajor ix0).val
    have : (⟨0, ![]⟩ : Shape).numel = 1 := by decide
    omega
  refine extractStridedSlice_apply _ x hs (ix1 (0 : Fin 1)) (ix1 i) ?_
  intro a
  match a with
  | ⟨0, _⟩ => show i.val = i.val + 0; omega

/-- An array of 65536 rows recast as 16 slabs of 4096 rows: entry (s, q, k) is entry (4096 s + q, k). -/
theorem slabs_apply {n : Nat} (x : (⟨2, ![65536, n]⟩ : Shape).Idx → EReal)
    (h : (⟨2, ![65536, n]⟩ : Shape).ShapeCasts ⟨3, ![16, 4096, n]⟩) (s : Fin 16) (q : Fin 4096) (k : Fin n) :
    shapeCast (⟨3, ![16, 4096, n]⟩ : Shape) x h (ix3 s q k) = x (ix2 ⟨4096 * s.val + q.val, by omega⟩ k) := by
  refine shapeCast_apply x h (ix3 s q k) (ix2 ⟨4096 * s.val + q.val, by omega⟩ k) ?_
  rw [Shape.rowMajor_val_two, Shape.rowMajor_val_three]
  show (4096 * s.val + q.val) * n + k.val = (s.val * 4096 + q.val) * n + k.val
  rw [Nat.mul_comm 4096 s.val]

/-! ## The dimension numbers of the neighbour sum -/

/-- The program's dimension numbers of the accumulating scatter are the neighbour sum's. -/
theorem scatterRows_eq : scatter_S65536x64_S1048576x1_S1048576x64_1_0_0_1 = Cert.Hand.scatterRows := rfl
/-- The program's dimension numbers of the gather are the neighbour sum's. -/
theorem gatherRows_eq : gather_S65536x64_S1048576x1_S1048576x64_1_0_n_n_0_1_164 = Cert.Hand.gatherRows := rfl

/-! ## The parameters as the specification reads them -/

variable (m : (ℓ : Loc nD τ sig) → Buf (Elt Ideal) ℓ) (c : Dev nD)

/-- Layer i's scalar, spread over one row of 64 places. -/
noncomputable def pEps (i : Fin 4) : Fin 1 → Fin 64 → EReal := fun _ _ => (m ((c : Thread nD τ).loc main_arg5) : S4.Idx → EReal) (ix1 i)
/-- Layer i's first matrix. -/
noncomputable def pW1 (i : Fin 4) : Fin 64 → Fin 128 → EReal := fun u v => (m ((c : Thread nD τ).loc main_arg6) : S4x64x128.Idx → EReal) (ix3 i u v)
/-- Layer i's first bias. -/
noncomputable def pB1 (i : Fin 4) : Fin 1 → Fin 128 → EReal := fun _ k => (m ((c : Thread nD τ).loc main_arg7) : S4x128.Idx → EReal) (ix2 i k)
/-- Layer i's first gain. -/
noncomputable def pG1 (i : Fin 4) : Fin 1 → Fin 128 → EReal := fun _ k => (m ((c : Thread nD τ).loc main_arg8) : S4x128.Idx → EReal) (ix2 i k)
/-- Layer i's first offset. -/
noncomputable def pBe1 (i : Fin 4) : Fin 1 → Fin 128 → EReal := fun _ k => (m ((c : Thread nD τ).loc main_arg9) : S4x128.Idx → EReal) (ix2 i k)
/-- Layer i's second matrix. -/
noncomputable def pW2 (i : Fin 4) : Fin 128 → Fin 64 → EReal := fun u v => (m ((c : Thread nD τ).loc main_arg10) : S4x128x64.Idx → EReal) (ix3 i u v)
/-- Layer i's second bias. -/
noncomputable def pB2 (i : Fin 4) : Fin 1 → Fin 64 → EReal := fun _ k => (m ((c : Thread nD τ).loc main_arg11) : S4x64.Idx → EReal) (ix2 i k)
/-- Layer i's second gain. -/
noncomputable def pG2 (i : Fin 4) : Fin 1 → Fin 64 → EReal := fun _ k => (m ((c : Thread nD τ).loc main_arg12) : S4x64.Idx → EReal) (ix2 i k)
/-- Layer i's second offset. -/
noncomputable def pBe2 (i : Fin 4) : Fin 1 → Fin 64 → EReal := fun _ k => (m ((c : Thread nD τ).loc main_arg13) : S4x64.Idx → EReal) (ix2 i k)
/-- The first stage's bias, as one row. -/
noncomputable def pBin : Fin 1 → Fin 64 → EReal := fun _ k => (m ((c : Thread nD τ).loc main_arg4) : S64.Idx → EReal) (ix1 k)
/-- The last stage's bias, as one row. -/
noncomputable def pBf : Fin 1 → Fin 256 → EReal := fun _ k => (m ((c : Thread nD τ).loc main_arg15) : S256.Idx → EReal) (ix1 k)
/-- The edge array as launched. -/
noncomputable abbrev aEdges : S2x1048576.Idx → BitVec 32 := m ((c : Thread nD τ).loc main_arg0)

end Cert.KernelIdeal.Val

end
-- ==== Proof.KI.HostOps.lean ====
/- What each stretch of host operations between two kernel regions leaves in the arrays the next region reads, over
   any contents the stretch starts from: one instance of a re-indexing read at an index per array. -/
import proofs.«159011_j9938554322955_1_alg».proof.Proof.Gen.KernelIdeal.Launch
import proofs.«159011_j9938554322955_1_alg».proof.Proof.Gen.KernelIdeal.Regions
import proofs.«159011_j9938554322955_1_alg».proof.Proof.KI.HostRead
import Idealize.ShloMosaic.Lib.StableHlo.Run

set_option maxRecDepth 4628

noncomputable section

namespace Cert.KernelIdeal.Val

open Cert.KernelIdeal Cert.KernelIdeal.Gen
open Idealize.ShloMosaic Idealize.ShloMosaic.TcCoe Idealize.ShloMosaic.ValueIdx

variable (Vin : Valuation τ sig (Elt Ideal))

/-- Stretch 0 leaves the edges' sources, as a flat vector, in `main_v1`. -/
theorem host0_v1 : (StableHlo.after hostOps0 Vin (Proc.devRef .tc main_v1) : S1048576.Idx → BitVec 32)
    = Cert.Hand.edgeSrc (Vin (Proc.devRef .tc main_arg0)) := by
  dsimp only [hostOps0]; after_results; rfl

/-- Stretch 0 leaves the edges' targets, as a flat vector, in `main_v3`. -/
theorem host0_v3 : (StableHlo.after hostOps0 Vin (Proc.devRef .tc main_v3) : S1048576.Idx → BitVec 32)
    = Cert.Hand.edgeDst (Vin (Proc.devRef .tc main_arg0)) := by
  dsimp only [hostOps0]; after_results; rfl

theorem host0_v4 : Cert.Spec.cur2 (StableHlo.after hostOps0 Vin (Proc.devRef .tc main_v4) : S1x64.Idx → EReal)
    = fun _ k => (Vin (Proc.devRef .tc main_arg4) : S64.Idx → EReal) (ix1 k) := by
  have e : (StableHlo.after hostOps0 Vin (Proc.devRef .tc main_v4) : S1x64.Idx → EReal)
      = shapeCast S1x64 ((Vin (Proc.devRef .tc main_arg4) : S64.Idx → EReal)) shapeCasts_S64_S1x64 := by
    dsimp only [hostOps0]; after_results; rfl
  rw [e]; exact cur2_row_of_vec _ _

set_option maxHeartbeats 1000000 in
/-- Stretch 1 leaves the neighbour sum of `main_v5` in `main_v15`. -/
theorem host1_v15 : (StableHlo.after hostOps1 Vin (Proc.devRef .tc main_v15) : S65536x64.Idx → EReal)
    = Cert.Hand.aggCore (Vin (Proc.devRef .tc main_v1)) (Vin (Proc.devRef .tc main_v3)) (Vin (Proc.devRef .tc main_v5)) := by
  dsimp only [hostOps1]; after_results
  rw [scatterRows_eq, gatherRows_eq]
  rfl

theorem host1_v23 : Cert.Spec.cur2 (StableHlo.after hostOps1 Vin (Proc.devRef .tc main_v23) : S1x64.Idx → EReal)
    = fun _ _ => (Vin (Proc.devRef .tc main_arg5) : S4.Idx → EReal) (ix1 (0 : Fin 4)) := by
  have e : (StableHlo.after hostOps1 Vin (Proc.devRef .tc main_v23) : S1x64.Idx → EReal)
      = broadcastInDim S1x64 ![0, 1] bcast_S1x1_S1x64_0_1 (shapeCast S1x1 (shapeCast S_ (extractStridedSlice S1 ![0] ((Vin (Proc.devRef .tc main_arg5) : S4.Idx → EReal)) slices_S4_S1_0) shapeCasts_S1_S_) shapeCasts_S_S1x1) := by
    dsimp only [hostOps1]; after_results; rfl
  rw [e]; exact cur2_spread_of_entry (0 : Fin 4) _ _ _ _ _

theorem host1_v19 : Cert.Spec.cur2 (StableHlo.after hostOps1 Vin (Proc.devRef .tc main_v19) : S64x128.Idx → EReal)
    = fun u v => (Vin (Proc.devRef .tc main_arg6) : S4x64x128.Idx → EReal) (ix3 (0 : Fin 4) u v) := by
  have e : (StableHlo.after hostOps1 Vin (Proc.devRef .tc main_v19) : S64x128.Idx → EReal)
      = shapeCast S64x128 (extractStridedSlice S1x64x128 ![0, 0, 0] ((Vin (Proc.devRef .tc main_arg6) : S4x64x128.Idx → EReal)) slices_S4x64x128_S1x64x128_0_0_0) shapeCasts_S1x64x128_S64x128 := by
    dsimp only [hostOps1]; after_results; rfl
  rw [e]; exact cur2_matrix_of_stack (0 : Fin 4) _ _ _

theorem host1_v24 : Cert.Spec.cur2 (StableHlo.after hostOps1 Vin (Proc.devRef .tc main_v24) : S1x128.Idx → EReal)
    = fun _ k => (Vin (Proc.devRef .tc main_arg7) : S4x128.Idx → EReal) (ix2 (0 : Fin 4) k) := by
  have e : (StableHlo.after hostOps1 Vin (Proc.devRef .tc main_v24) : S1x128.Idx → EReal)
      = shapeCast S1x128 (shapeCast S128 (extractStridedSlice S1x128 ![0, 0] ((Vin (Proc.devRef .tc main_arg7) : S4x128.Idx → EReal)) slices_S4x128_S1x128_0_0) shapeCasts_S1x128_S128) shapeCasts_S128_S1x128 := by
    dsimp only [hostOps1]; after_results; rfl
  rw [e]; exact cur2_row_of_table (0 : Fin 4) _ _ _ _

theorem host2_v41 : Cert.Spec.cur2 (StableHlo.after hostOps2 Vin (Proc.devRef .tc main_v41) : S1x64.Idx → EReal)
    = fun _ _ => (Vin (Proc.devRef .tc main_arg5) : S4.Idx → EReal) (ix1 (0 : Fin 4)) := by
  have e : (StableHlo.after hostOps2 Vin (Proc.devRef .tc main_v41) : S1x64.Idx → EReal)
      = broadcastInDim S1x64 ![0, 1] bcast_S1x1_S1x64_0_1 (shapeCast S1x1 (shapeCast S_ (extractStridedSlice S1 ![0] ((Vin (Proc.devRef .tc main_arg5) : S4.Idx → EReal)) slices_S4_S1_0) shapeCasts_S1_S_) shapeCasts_S_S1x1) := by
    dsimp only [hostOps2]; after_results; rfl
  rw [e]; exact cur2_spread_of_entry (0 : Fin 4) _ _ _ _ _

theorem host2_v29 : Cert.Spec.cur2 (StableHlo.after hostOps2 Vin (Proc.devRef .tc main_v29) : S64x128.Idx → EReal)
    = fun u v => (Vin (Proc.devRef .tc main_arg6) : S4x64x128.Idx → EReal) (ix3 (0 : Fin 4) u v) := by
  have e : (StableHlo.after hostOps2 Vin (Proc.devRef .tc main_v29) : S64x128.Idx → EReal)
      = shapeCast S64x128 (extractStridedSlice S1x64x128 ![0, 0, 0] ((Vin (Proc.devRef .tc main_arg6) : S4x64x128.Idx → EReal)) slices_S4x64x128_S1x64x128_0_0_0) shapeCasts_S1x64x128_S64x128 := by
    dsimp only [hostOps2]; after_results; rfl
  rw [e]; exact cur2_matrix_of_stack (0 : Fin 4) _ _ _

theorem host2_v42 : Cert.Spec.cur2 (StableHlo.after hostOps2 Vin (Proc.devRef .tc main_v42) : S1x128.Idx → EReal)
    = fun _ k => (Vin (Proc.devRef .tc main_arg7) : S4x128.Idx → EReal) (ix2 (0 : Fin 4) k) := by
  have e : (StableHlo.after hostOps2 Vin (Proc.devRef .tc main_v42) : S1x128.Idx → EReal)
      = shapeCast S1x128 (shapeCast S128 (extractStridedSlice S1x128 ![0, 0] ((Vin (Proc.devRef .tc main_arg7) : S4x128.Idx → EReal)) slices_S4x128_S1x128_0_0) shapeCasts_S1x128_S128) shapeCasts_S128_S1x128 := by
    dsimp only [hostOps2]; after_results; rfl
  rw [e]; exact cur2_row_of_table (0 : Fin 4) _ _ _ _

theorem host2_v43 : Cert.Spec.cur2 (StableHlo.after hostOps2 Vin (Proc.devRef .tc main_v43) : S1x128.Idx → EReal)
    = fun _ k => (Vin (Proc.devRef .tc main_arg8) : S4x128.Idx → EReal) (ix2 (0 : Fin 4) k) := by
  have e : (StableHlo.after hostOps2 Vin (Proc.devRef .tc main_v43) : S1x128.Idx → EReal)
      = shapeCast S1x128 (shapeCast S128 (extractStridedSlice S1x128 ![0, 0] ((Vin (Proc.devRef .tc main_arg8) : S4x128.Idx → EReal)) slices_S4x128_S1x128_0_0) shapeCasts_S1x128_S128) shapeCasts_S128_S1x128 := by
    dsimp only [hostOps2]; after_results; rfl
  rw [e]; exact cur2_row_of_table (0 : Fin 4) _ _ _ _

theorem host2_v44 : Cert.Spec.cur2 (StableHlo.after hostOps2 Vin (Proc.devRef .tc main_v44) : S1x128.Idx → EReal)
    = fun _ k => (Vin (Proc.devRef .tc main_arg9) : S4x128.Idx → EReal) (ix2 (0 : Fin 4) k) := by
  have e : (StableHlo.after hostOps2 Vin (Proc.devRef .tc main_v44) : S1x128.Idx → EReal)
      = shapeCast S1x128 (shapeCast S128 (extractStridedSlice S1x128 ![0, 0] ((Vin (Proc.devRef .tc main_arg9) : S4x128.Idx → EReal)) slices_S4x128_S1x128_0_0) shapeCasts_S1x128_S128) shapeCasts_S128_S1x128 := by
    dsimp only [hostOps2]; after_results; rfl
  rw [e]; exact cur2_row_of_table (0 : Fin 4) _ _ _ _

theorem host2_v37 : Cert.Spec.cur2 (StableHlo.after hostOps2 Vin (Proc.devRef .tc main_v37) : S128x64.Idx → EReal)
    = fun u v => (Vin (Proc.devRef .tc main_arg10) : S4x128x64.Idx → EReal) (ix3 (0 : Fin 4) u v) := by
  have e : (StableHlo.after hostOps2 Vin (Proc.devRef .tc main_v37) : S128x64.Idx → EReal)
      = shapeCast S128x64 (extractStridedSlice S1x128x64 ![0, 0, 0] ((Vin (Proc.devRef .tc main_arg10) : S4x128x64.Idx → EReal)) slices_S4x128x64_S1x128x64_0_0_0) shapeCasts_S1x128x64_S128x64 := by
    dsimp only [hostOps2]; after_results; rfl
  rw [e]; exact cur2_matrix_of_stack (0 : Fin 4) _ _ _

theorem host2_v45 : Cert.Spec.cur2 (StableHlo.after hostOps2 Vin (Proc.devRef .tc main_v45) : S1x64.Idx → EReal)
    = fun _ k => (Vin (Proc.devRef .tc main_arg11) : S4x64.Idx → EReal) (ix2 (0 : Fin 4) k) := by
  have e : (StableHlo.after hostOps2 Vin (Proc.devRef .tc main_v45) : S1x64.Idx → EReal)
      = shapeCast S1x64 (shapeCast S64 (extractStridedSlice S1x64 ![0, 0] ((Vin (Proc.devRef .tc main_arg11) : S4x64.Idx → EReal)) slices_S4x64_S1x64_0_0) shapeCasts_S1x64_S64) shapeCasts_S64_S1x64 := by
    dsimp only [hostOps2]; after_results; rfl
  rw [e]; exact cur2_row_of_table (0 : Fin 4) _ _ _ _

theorem host3_v66 : Cert.Spec.cur2 (StableHlo.after hostOps3 Vin (Proc.devRef .tc main_v66) : S1x64.Idx → EReal)
    = fun _ _ => (Vin (Proc.devRef .tc main_arg5) : S4.Idx → EReal) (ix1 (0 : Fin 4)) := by
  have e : (StableHlo.after hostOps3 Vin (Proc.devRef .tc main_v66) : S1x64.Idx → EReal)
      = broadcastInDim S1x64 ![0, 1] bcast_S1x1_S1x64_0_1 (shapeCast S1x1 (shapeCast S_ (extractStridedSlice S1 ![0] ((Vin (Proc.devRef .tc main_arg5) : S4.Idx → EReal)) slices_S4_S1_0) shapeCasts_S1_S_) shapeCasts_S_S1x1) := by
    dsimp only [hostOps3]; after_results; rfl
  rw [e]; exact cur2_spread_of_entry (0 : Fin 4) _ _ _ _ _

theorem host3_v50 : Cert.Spec.cur2 (StableHlo.after hostOps3 Vin (Proc.devRef .tc main_v50) : S64x128.Idx → EReal)
    = fun u v => (Vin (Proc.devRef .tc main_arg6) : S4x64x128.Idx → EReal) (ix3 (0 : Fin 4) u v) := by
  have e : (StableHlo.after hostOps3 Vin (Proc.devRef .tc main_v50) : S64x128.Idx → EReal)
      = shapeCast S64x128 (extractStridedSlice S1x64x128 ![0, 0, 0] ((Vin (Proc.devRef .tc main_arg6) : S4x64x128.Idx → EReal)) slices_S4x64x128_S1x64x128_0_0_0) shapeCasts_S1x64x128_S64x128 := by
    dsimp only [hostOps3]; after_results; rfl
  rw [e]; exact cur2_matrix_of_stack (0 : Fin 4) _ _ _

theorem host3_v67 : Cert.Spec.cur2 (StableHlo.after hostOps3 Vin (Proc.devRef .tc main_v67) : S1x128.Idx → EReal)
    = fun _ k => (Vin (Proc.devRef .tc main_arg7) : S4x128.Idx → EReal) (ix2 (0 : Fin 4) k) := by
  have e : (StableHlo.after hostOps3 Vin (Proc.devRef .tc main_v67) : S1x128.Idx → EReal)
      = shapeCast S1x128 (shapeCast S128 (extractStridedSlice S1x128 ![0, 0] ((Vin (Proc.devRef .tc main_arg7) : S4x128.Idx → EReal)) slices_S4x128_S1x128_0_0) shapeCasts_S1x128_S128) shapeCasts_S128_S1x128 := by
    dsimp only [hostOps3]; after_results; rfl
  rw [e]; exact cur2_row_of_table (0 : Fin 4) _ _ _ _

theorem host3_v68 : Cert.Spec.cur2 (StableHlo.after hostOps3 Vin (Proc.devRef .tc main_v68) : S1x128.Idx → EReal)
    = fun _ k => (Vin (Proc.devRef .tc main_arg8) : S4x128.Idx → EReal) (ix2 (0 : Fin 4) k) := by
  have e : (StableHlo.after hostOps3 Vin (Proc.devRef .tc main_v68) : S1x128.Idx → EReal)
      = shapeCast S1x128 (shapeCast S128 (extractStridedSlice S1x128 ![0, 0] ((Vin (Proc.devRef .tc main_arg8) : S4x128.Idx → EReal)) slices_S4x128_S1x128_0_0) shapeCasts_S1x128_S128) shapeCasts_S128_S1x128 := by
    dsimp only [hostOps3]; after_results; rfl
  rw [e]; exact cur2_row_of_table (0 : Fin 4) _ _ _ _

theorem host3_v69 : Cert.Spec.cur2 (StableHlo.after hostOps3 Vin (Proc.devRef .tc main_v69) : S1x128.Idx → EReal)
    = fun _ k => (Vin (Proc.devRef .tc main_arg9) : S4x128.Idx → EReal) (ix2 (0 : Fin 4) k) := by
  have e : (StableHlo.after hostOps3 Vin (Proc.devRef .tc main_v69) : S1x128.Idx → EReal)
      = shapeCast S1x128 (shapeCast S128 (extractStridedSlice S1x128 ![0, 0] ((Vin (Proc.devRef .tc main_arg9) : S4x128.Idx → EReal)) slices_S4x128_S1x128_0_0) shapeCasts_S1x128_S128) shapeCasts_S128_S1x128 := by
    dsimp only [hostOps3]; after_results; rfl
  rw [e]; exact cur2_row_of_table (0 : Fin 4) _ _ _ _

theorem host3_v58 : Cert.Spec.cur2 (StableHlo.after hostOps3 Vin (Proc.devRef .tc main_v58) : S128x64.Idx → EReal)
    = fun u v => (Vin (Proc.devRef .tc main_arg10) : S4x128x64.Idx → EReal) (ix3 (0 : Fin 4) u v) := by
  have e : (StableHlo.after hostOps3 Vin (Proc.devRef .tc main_v58) : S128x64.Idx → EReal)
      = shapeCast S128x64 (extractStridedSlice S1x128x64 ![0, 0, 0] ((Vin (Proc.devRef .tc main_arg10) : S4x128x64.Idx → EReal)) slices_S4x128x64_S1x128x64_0_0_0) shapeCasts_S1x128x64_S128x64 := by
    dsimp only [hostOps3]; after_results; rfl
  rw [e]; exact cur2_matrix_of_stack (0 : Fin 4) _ _ _

theorem host3_v70 : Cert.Spec.cur2 (StableHlo.after hostOps3 Vin (Proc.devRef .tc main_v70) : S1x64.Idx → EReal)
    = fun _ k => (Vin (Proc.devRef .tc main_arg11) : S4x64.Idx → EReal) (ix2 (0 : Fin 4) k) := by
  have e : (StableHlo.after hostOps3 Vin (Proc.devRef .tc main_v70) : S1x64.Idx → EReal)
      = shapeCast S1x64 (shapeCast S64 (extractStridedSlice S1x64 ![0, 0] ((Vin (Proc.devRef .tc main_arg11) : S4x64.Idx → EReal)) slices_S4x64_S1x64_0_0) shapeCasts_S1x64_S64) shapeCasts_S64_S1x64 := by
    dsimp only [hostOps3]; after_results; rfl
  rw [e]; exact cur2_row_of_table (0 : Fin 4) _ _ _ _

theorem host3_v71 : Cert.Spec.cur2 (StableHlo.after hostOps3 Vin (Proc.devRef .tc main_v71) : S1x64.Idx → EReal)
    = fun _ k => (Vin (Proc.devRef .tc main_arg12) : S4x64.Idx → EReal) (ix2 (0 : Fin 4) k) := by
  have e : (StableHlo.after hostOps3 Vin (Proc.devRef .tc main_v71) : S1x64.Idx → EReal)
      = shapeCast S1x64 (shapeCast S64 (extractStridedSlice S1x64 ![0, 0] ((Vin (Proc.devRef .tc main_arg12) : S4x64.Idx → EReal)) slices_S4x64_S1x64_0_0) shapeCasts_S1x64_S64) shapeCasts_S64_S1x64 := by
    dsimp only [hostOps3]; after_results; rfl
  rw [e]; exact cur2_row_of_table (0 : Fin 4) _ _ _ _

theorem host3_v72 : Cert.Spec.cur2 (StableHlo.after hostOps3 Vin (Proc.devRef .tc main_v72) : S1x64.Idx → EReal)
    = fun _ k => (Vin (Proc.devRef .tc main_arg13) : S4x64.Idx → EReal) (ix2 (0 : Fin 4) k) := by
  have e : (StableHlo.after hostOps3 Vin (Proc.devRef .tc main_v72) : S1x64.Idx → EReal)
      = shapeCast S1x64 (shapeCast S64 (extractStridedSlice S1x64 ![0, 0] ((Vin (Proc.devRef .tc main_arg13) : S4x64.Idx → EReal)) slices_S4x64_S1x64_0_0) shapeCasts_S1x64_S64) shapeCasts_S64_S1x64 := by
    dsimp only [hostOps3]; after_results; rfl
  rw [e]; exact cur2_row_of_table (0 : Fin 4) _ _ _ _

set_option maxHeartbeats 1000000 in
/-- Stretch 4 leaves the neighbour sum of `main_v73` in `main_v83`. -/
theorem host4_v83 : (StableHlo.after hostOps4 Vin (Proc.devRef .tc main_v83) : S65536x64.Idx → EReal)
    = Cert.Hand.aggCore (Vin (Proc.devRef .tc main_v1)) (Vin (Proc.devRef .tc main_v3)) (Vin (Proc.devRef .tc main_v73)) := by
  dsimp only [hostOps4]; after_results
  rw [scatterRows_eq, gatherRows_eq]
  rfl

theorem host4_v91 : Cert.Spec.cur2 (StableHlo.after hostOps4 Vin (Proc.devRef .tc main_v91) : S1x64.Idx → EReal)
    = fun _ _ => (Vin (Proc.devRef .tc main_arg5) : S4.Idx → EReal) (ix1 (1 : Fin 4)) := by
  have e : (StableHlo.after hostOps4 Vin (Proc.devRef .tc main_v91) : S1x64.Idx → EReal)
      = broadcastInDim S1x64 ![0, 1] bcast_S1x1_S1x64_0_1 (shapeCast S1x1 (shapeCast S_ (extractStridedSlice S1 ![1] ((Vin (Proc.devRef .tc main_arg5) : S4.Idx → EReal)) slices_S4_S1_1) shapeCasts_S1_S_) shapeCasts_S_S1x1) := by
    dsimp only [hostOps4]; after_results; rfl
  rw [e]; exact cur2_spread_of_entry (1 : Fin 4) _ _ _ _ _

theorem host4_v87 : Cert.Spec.cur2 (StableHlo.after hostOps4 Vin (Proc.devRef .tc main_v87) : S64x128.Idx → EReal)
    = fun u v => (Vin (Proc.devRef .tc main_arg6) : S4x64x128.Idx → EReal) (ix3 (1 : Fin 4) u v) := by
  have e : (StableHlo.after hostOps4 Vin (Proc.devRef .tc main_v87) : S64x128.Idx → EReal)
      = shapeCast S64x128 (extractStridedSlice S1x64x128 ![1, 0, 0] ((Vin (Proc.devRef .tc main_arg6) : S4x64x128.Idx → EReal)) slices_S4x64x128_S1x64x128_1_0_0) shapeCasts_S1x64x128_S64x128 := by
    dsimp only [hostOps4]; after_results; rfl
  rw [e]; exact cur2_matrix_of_stack (1 : Fin 4) _ _ _

theorem host4_v92 : Cert.Spec.cur2 (StableHlo.after hostOps4 Vin (Proc.devRef .tc main_v92) : S1x128.Idx → EReal)
    = fun _ k => (Vin (Proc.devRef .tc main_arg7) : S4x128.Idx → EReal) (ix2 (1 : Fin 4) k) := by
  have e : (StableHlo.after hostOps4 Vin (Proc.devRef .tc main_v92) : S1x128.Idx → EReal)
      = shapeCast S1x128 (shapeCast S128 (extractStridedSlice S1x128 ![1, 0] ((Vin (Proc.devRef .tc main_arg7) : S4x128.Idx → EReal)) slices_S4x128_S1x128_1_0) shapeCasts_S1x128_S128) shapeCasts_S128_S1x128 := by
    dsimp only [hostOps4]; after_results; rfl
  rw [e]; exact cur2_row_of_table (1 : Fin 4) _ _ _ _

theorem host5_v109 : Cert.Spec.cur2 (StableHlo.after hostOps5 Vin (Proc.devRef .tc main_v109) : S1x64.Idx → EReal)
    = fun _ _ => (Vin (Proc.devRef .tc main_arg5) : S4.Idx → EReal) (ix1 (1 : Fin 4)) := by
  have e : (StableHlo.after hostOps5 Vin (Proc.devRef .tc main_v109) : S1x64.Idx → EReal)
      = broadcastInDim S1x64 ![0, 1] bcast_S1x1_S1x64_0_1 (shapeCast S1x1 (shapeCast S_ (extractStridedSlice S1 ![1] ((Vin (Proc.devRef .tc main_arg5) : S4.Idx → EReal)) slices_S4_S1_1) shapeCasts_S1_S_) shapeCasts_S_S1x1) := by
    dsimp only [hostOps5]; after_results; rfl
  rw [e]; exact cur2_spread_of_entry (1 : Fin 4) _ _ _ _ _

theorem host5_v97 : Cert.Spec.cur2 (StableHlo.after hostOps5 Vin (Proc.devRef .tc main_v97) : S64x128.Idx → EReal)
    = fun u v => (Vin (Proc.devRef .tc main_arg6) : S4x64x128.Idx → EReal) (ix3 (1 : Fin 4) u v) := by
  have e : (StableHlo.after hostOps5 Vin (Proc.devRef .tc main_v97) : S64x128.Idx → EReal)
      = shapeCast S64x128 (extractStridedSlice S1x64x128 ![1, 0, 0] ((Vin (Proc.devRef .tc main_arg6) : S4x64x128.Idx → EReal)) slices_S4x64x128_S1x64x128_1_0_0) shapeCasts_S1x64x128_S64x128 := by
    dsimp only [hostOps5]; after_results; rfl
  rw [e]; exact cur2_matrix_of_stack (1 : Fin 4) _ _ _

theorem host5_v110 : Cert.Spec.cur2 (StableHlo.after hostOps5 Vin (Proc.devRef .tc main_v110) : S1x128.Idx → EReal)
    = fun _ k => (Vin (Proc.devRef .tc main_arg7) : S4x128.Idx → EReal) (ix2 (1 : Fin 4) k) := by
  have e : (StableHlo.after hostOps5 Vin (Proc.devRef .tc main_v110) : S1x128.Idx → EReal)
      = shapeCast S1x128 (shapeCast S128 (extractStridedSlice S1x128 ![1, 0] ((Vin (Proc.devRef .tc main_arg7) : S4x128.Idx → EReal)) slices_S4x128_S1x128_1_0) shapeCasts_S1x128_S128) shapeCasts_S128_S1x128 := by
    dsimp only [hostOps5]; after_results; rfl
  rw [e]; exact cur2_row_of_table (1 : Fin 4) _ _ _ _

theorem host5_v111 : Cert.Spec.cur2 (StableHlo.after hostOps5 Vin (Proc.devRef .tc main_v111) : S1x128.Idx → EReal)
    = fun _ k => (Vin (Proc.devRef .tc main_arg8) : S4x128.Idx → EReal) (ix2 (1 : Fin 4) k) := by
  have e : (StableHlo.after hostOps5 Vin (Proc.devRef .tc main_v111) : S1x128.Idx → EReal)
      = shapeCast S1x128 (shapeCast S128 (extractStridedSlice S1x128 ![1, 0] ((Vin (Proc.devRef .tc main_arg8) : S4x128.Idx → EReal)) slices_S4x128_S1x128_1_0) shapeCasts_S1x128_S128) shapeCasts_S128_S1x128 := by
    dsimp only [hostOps5]; after_results; rfl
  rw [e]; exact cur2_row_of_table (1 : Fin 4) _ _ _ _

theorem host5_v112 : Cert.Spec.cur2 (StableHlo.after hostOps5 Vin (Proc.devRef .tc main_v112) : S1x128.Idx → EReal)
    = fun _ k => (Vin (Proc.devRef .tc main_arg9) : S4x128.Idx → EReal) (ix2 (1 : Fin 4) k) := by
  have e : (StableHlo.after hostOps5 Vin (Proc.devRef .tc main_v112) : S1x128.Idx → EReal)
      = shapeCast S1x128 (shapeCast S128 (extractStridedSlice S1x128 ![1, 0] ((Vin (Proc.devRef .tc main_arg9) : S4x128.Idx → EReal)) slices_S4x128_S1x128_1_0) shapeCasts_S1x128_S128) shapeCasts_S128_S1x128 := by
    dsimp only [hostOps5]; after_results; rfl
  rw [e]; exact cur2_row_of_table (1 : Fin 4) _ _ _ _

theorem host5_v105 : Cert.Spec.cur2 (StableHlo.after hostOps5 Vin (Proc.devRef .tc main_v105) : S128x64.Idx → EReal)
    = fun u v => (Vin (Proc.devRef .tc main_arg10) : S4x128x64.Idx → EReal) (ix3 (1 : Fin 4) u v) := by
  have e : (StableHlo.after hostOps5 Vin (Proc.devRef .tc main_v105) : S128x64.Idx → EReal)
      = shapeCast S128x64 (extractStridedSlice S1x128x64 ![1, 0, 0] ((Vin (Proc.devRef .tc main_arg10) : S4x128x64.Idx → EReal)) slices_S4x128x64_S1x128x64_1_0_0) shapeCasts_S1x128x64_S128x64 := by
    dsimp only [hostOps5]; after_results; rfl
  rw [e]; exact cur2_matrix_of_stack (1 : Fin 4) _ _ _

theorem host5_v113 : Cert.Spec.cur2 (StableHlo.after hostOps5 Vin (Proc.devRef .tc main_v113) : S1x64.Idx → EReal)
    = fun _ k => (Vin (Proc.devRef .tc main_arg11) : S4x64.Idx → EReal) (ix2 (1 : Fin 4) k) := by
  have e : (StableHlo.after hostOps5 Vin (Proc.devRef .tc main_v113) : S1x64.Idx → EReal)
      = shapeCast S1x64 (shapeCast S64 (extractStridedSlice S1x64 ![1, 0] ((Vin (Proc.devRef .tc main_arg11) : S4x64.Idx → EReal)) slices_S4x64_S1x64_1_0) shapeCasts_S1x64_S64) shapeCasts_S64_S1x64 := by
    dsimp only [hostOps5]; after_results; rfl
  rw [e]; exact cur2_row_of_table (1 : Fin 4) _ _ _ _

theorem host6_v134 : Cert.Spec.cur2 (StableHlo.after hostOps6 Vin (Proc.devRef .tc main_v134) : S1x64.Idx → EReal)
    = fun _ _ => (Vin (Proc.devRef .tc main_arg5) : S4.Idx → EReal) (ix1 (1 : Fin 4)) := by
  have e : (StableHlo.after hostOps6 Vin (Proc.devRef .tc main_v134) : S1x64.Idx → EReal)
      = broadcastInDim S1x64 ![0, 1] bcast_S1x1_S1x64_0_1 (shapeCast S1x1 (shapeCast S_ (extractStridedSlice S1 ![1] ((Vin (Proc.devRef .tc main_arg5) : S4.Idx → EReal)) slices_S4_S1_1) shapeCasts_S1_S_) shapeCasts_S_S1x1) := by
    dsimp only [hostOps6]; after_results; rfl
  rw [e]; exact cur2_spread_of_entry (1 : Fin 4) _ _ _ _ _

theorem host6_v118 : Cert.Spec.cur2 (StableHlo.after hostOps6 Vin (Proc.devRef .tc main_v118) : S64x128.Idx → EReal)
    = fun u v => (Vin (Proc.devRef .tc main_arg6) : S4x64x128.Idx → EReal) (ix3 (1 : Fin 4) u v) := by
  have e : (StableHlo.after hostOps6 Vin (Proc.devRef .tc main_v118) : S64x128.Idx → EReal)
      = shapeCast S64x128 (extractStridedSlice S1x64x128 ![1, 0, 0] ((Vin (Proc.devRef .tc main_arg6) : S4x64x128.Idx → EReal)) slices_S4x64x128_S1x64x128_1_0_0) shapeCasts_S1x64x128_S64x128 := by
    dsimp only [hostOps6]; after_results; rfl
  rw [e]; exact cur2_matrix_of_stack (1 : Fin 4) _ _ _

theorem host6_v135 : Cert.Spec.cur2 (StableHlo.after hostOps6 Vin (Proc.devRef .tc main_v135) : S1x128.Idx → EReal)
    = fun _ k => (Vin (Proc.devRef .tc main_arg7) : S4x128.Idx → EReal) (ix2 (1 : Fin 4) k) := by
  have e : (StableHlo.after hostOps6 Vin (Proc.devRef .tc main_v135) : S1x128.Idx → EReal)
      = shapeCast S1x128 (shapeCast S128 (extractStridedSlice S1x128 ![1, 0] ((Vin (Proc.devRef .tc main_arg7) : S4x128.Idx → EReal)) slices_S4x128_S1x128_1_0) shapeCasts_S1x128_S128) shapeCasts_S128_S1x128 := by
    dsimp only [hostOps6]; after_results; rfl
  rw [e]; exact cur2_row_of_table (1 : Fin 4) _ _ _ _

theorem host6_v136 : Cert.Spec.cur2 (StableHlo.after hostOps6 Vin (Proc.devRef .tc main_v136) : S1x128.Idx → EReal)
    = fun _ k => (Vin (Proc.devRef .tc main_arg8) : S4x128.Idx → EReal) (ix2 (1 : Fin 4) k) := by
  have e : (StableHlo.after hostOps6 Vin (Proc.devRef .tc main_v136) : S1x128.Idx → EReal)
      = shapeCast S1x128 (shapeCast S128 (extractStridedSlice S1x128 ![1, 0] ((Vin (Proc.devRef .tc main_arg8) : S4x128.Idx → EReal)) slices_S4x128_S1x128_1_0) shapeCasts_S1x128_S128) shapeCasts_S128_S1x128 := by
    dsimp only [hostOps6]; after_results; rfl
  rw [e]; exact cur2_row_of_table (1 : Fin 4) _ _ _ _

theorem host6_v137 : Cert.Spec.cur2 (StableHlo.after hostOps6 Vin (Proc.devRef .tc main_v137) : S1x128.Idx → EReal)
    = fun _ k => (Vin (Proc.devRef .tc main_arg9) : S4x128.Idx → EReal) (ix2 (1 : Fin 4) k) := by
  have e : (StableHlo.after hostOps6 Vin (Proc.devRef .tc main_v137) : S1x128.Idx → EReal)
      = shapeCast S1x128 (shapeCast S128 (extractStridedSlice S1x128 ![1, 0] ((Vin (Proc.devRef .tc main_arg9) : S4x128.Idx → EReal)) slices_S4x128_S1x128_1_0) shapeCasts_S1x128_S128) shapeCasts_S128_S1x128 := by
    dsimp only [hostOps6]; after_results; rfl
  rw [e]; exact cur2_row_of_table (1 : Fin 4) _ _ _ _

theorem host6_v126 : Cert.Spec.cur2 (StableHlo.after hostOps6 Vin (Proc.devRef .tc main_v126) : S128x64.Idx → EReal)
    = fun u v => (Vin (Proc.devRef .tc main_arg10) : S4x128x64.Idx → EReal) (ix3 (1 : Fin 4) u v) := by
  have e : (StableHlo.after hostOps6 Vin (Proc.devRef .tc main_v126) : S128x64.Idx → EReal)
      = shapeCast S128x64 (extractStridedSlice S1x128x64 ![1, 0, 0] ((Vin (Proc.devRef .tc main_arg10) : S4x128x64.Idx → EReal)) slices_S4x128x64_S1x128x64_1_0_0) shapeCasts_S1x128x64_S128x64 := by
    dsimp only [hostOps6]; after_results; rfl
  rw [e]; exact cur2_matrix_of_stack (1 : Fin 4) _ _ _

theorem host6_v138 : Cert.Spec.cur2 (StableHlo.after hostOps6 Vin (Proc.devRef .tc main_v138) : S1x64.Idx → EReal)
    = fun _ k => (Vin (Proc.devRef .tc main_arg11) : S4x64.Idx → EReal) (ix2 (1 : Fin 4) k) := by
  have e : (StableHlo.after hostOps6 Vin (Proc.devRef .tc main_v138) : S1x64.Idx → EReal)
      = shapeCast S1x64 (shapeCast S64 (extractStridedSlice S1x64 ![1, 0] ((Vin (Proc.devRef .tc main_arg11) : S4x64.Idx → EReal)) slices_S4x64_S1x64_1_0) shapeCasts_S1x64_S64) shapeCasts_S64_S1x64 := by
    dsimp only [hostOps6]; after_results; rfl
  rw [e]; exact cur2_row_of_table (1 : Fin 4) _ _ _ _

theorem host6_v139 : Cert.Spec.cur2 (StableHlo.after hostOps6 Vin (Proc.devRef .tc main_v139) : S1x64.Idx → EReal)
    = fun _ k => (Vin (Proc.devRef .tc main_arg12) : S4x64.Idx → EReal) (ix2 (1 : Fin 4) k) := by
  have e : (StableHlo.after hostOps6 Vin (Proc.devRef .tc main_v139) : S1x64.Idx → EReal)
      = shapeCast S1x64 (shapeCast S64 (extractStridedSlice S1x64 ![1, 0] ((Vin (Proc.devRef .tc main_arg12) : S4x64.Idx → EReal)) slices_S4x64_S1x64_1_0) shapeCasts_S1x64_S64) shapeCasts_S64_S1x64 := by
    dsimp only [hostOps6]; after_results; rfl
  rw [e]; exact cur2_row_of_table (1 : Fin 4) _ _ _ _

theorem host6_v140 : Cert.Spec.cur2 (StableHlo.after hostOps6 Vin (Proc.devRef .tc main_v140) : S1x64.Idx → EReal)
    = fun _ k => (Vin (Proc.devRef .tc main_arg13) : S4x64.Idx → EReal) (ix2 (1 : Fin 4) k) := by
  have e : (StableHlo.after hostOps6 Vin (Proc.devRef .tc main_v140) : S1x64.Idx → EReal)
      = shapeCast S1x64 (shapeCast S64 (extractStridedSlice S1x64 ![1, 0] ((Vin (Proc.devRef .tc main_arg13) : S4x64.Idx → EReal)) slices_S4x64_S1x64_1_0) shapeCasts_S1x64_S64) shapeCasts_S64_S1x64 := by
    dsimp only [hostOps6]; after_results; rfl
  rw [e]; exact cur2_row_of_table (1 : Fin 4) _ _ _ _

set_option maxHeartbeats 1000000 in
/-- Stretch 7 leaves the neighbour sum of `main_v141` in `main_v151`. -/
theorem host7_v151 : (StableHlo.after hostOps7 Vin (Proc.devRef .tc main_v151) : S65536x64.Idx → EReal)
    = Cert.Hand.aggCore (Vin (Proc.devRef .tc main_v1)) (Vin (Proc.devRef .tc main_v3)) (Vin (Proc.devRef .tc main_v141)) := by
  dsimp only [hostOps7]; after_results
  rw [scatterRows_eq, gatherRows_eq]
  rfl

theorem host7_v159 : Cert.Spec.cur2 (StableHlo.after hostOps7 Vin (Proc.devRef .tc main_v159) : S1x64.Idx → EReal)
    = fun _ _ => (Vin (Proc.devRef .tc main_arg5) : S4.Idx → EReal) (ix1 (2 : Fin 4)) := by
  have e : (StableHlo.after hostOps7 Vin (Proc.devRef .tc main_v159) : S1x64.Idx → EReal)
      = broadcastInDim S1x64 ![0, 1] bcast_S1x1_S1x64_0_1 (shapeCast S1x1 (shapeCast S_ (extractStridedSlice S1 ![2] ((Vin (Proc.devRef .tc main_arg5) : S4.Idx → EReal)) slices_S4_S1_2) shapeCasts_S1_S_) shapeCasts_S_S1x1) := by
    dsimp only [hostOps7]; after_results; rfl
  rw [e]; exact cur2_spread_of_entry (2 : Fin 4) _ _ _ _ _

theorem host7_v155 : Cert.Spec.cur2 (StableHlo.after hostOps7 Vin (Proc.devRef .tc main_v155) : S64x128.Idx → EReal)
    = fun u v => (Vin (Proc.devRef .tc main_arg6) : S4x64x128.Idx → EReal) (ix3 (2 : Fin 4) u v) := by
  have e : (StableHlo.after hostOps7 Vin (Proc.devRef .tc main_v155) : S64x128.Idx → EReal)
      = shapeCast S64x128 (extractStridedSlice S1x64x128 ![2, 0, 0] ((Vin (Proc.devRef .tc main_arg6) : S4x64x128.Idx → EReal)) slices_S4x64x128_S1x64x128_2_0_0) shapeCasts_S1x64x128_S64x128 := by
    dsimp only [hostOps7]; after_results; rfl
  rw [e]; exact cur2_matrix_of_stack (2 : Fin 4) _ _ _

theorem host7_v160 : Cert.Spec.cur2 (StableHlo.after hostOps7 Vin (Proc.devRef .tc main_v160) : S1x128.Idx → EReal)
    = fun _ k => (Vin (Proc.devRef .tc main_arg7) : S4x128.Idx → EReal) (ix2 (2 : Fin 4) k) := by
  have e : (StableHlo.after hostOps7 Vin (Proc.devRef .tc main_v160) : S1x128.Idx → EReal)
      = shapeCast S1x128 (shapeCast S128 (extractStridedSlice S1x128 ![2, 0] ((Vin (Proc.devRef .tc main_arg7) : S4x128.Idx → EReal)) slices_S4x128_S1x128_2_0) shapeCasts_S1x128_S128) shapeCasts_S128_S1x128 := by
    dsimp only [hostOps7]; after_results; rfl
  rw [e]; exact cur2_row_of_table (2 : Fin 4) _ _ _ _

theorem host8_v177 : Cert.Spec.cur2 (StableHlo.after hostOps8 Vin (Proc.devRef .tc main_v177) : S1x64.Idx → EReal)
    = fun _ _ => (Vin (Proc.devRef .tc main_arg5) : S4.Idx → EReal) (ix1 (2 : Fin 4)) := by
  have e : (StableHlo.after hostOps8 Vin (Proc.devRef .tc main_v177) : S1x64.Idx → EReal)
      = broadcastInDim S1x64 ![0, 1] bcast_S1x1_S1x64_0_1 (shapeCast S1x1 (shapeCast S_ (extractStridedSlice S1 ![2] ((Vin (Proc.devRef .tc main_arg5) : S4.Idx → EReal)) slices_S4_S1_2) shapeCasts_S1_S_) shapeCasts_S_S1x1) := by
    dsimp only [hostOps8]; after_results; rfl
  rw [e]; exact cur2_spread_of_entry (2 : Fin 4) _ _ _ _ _

theorem host8_v165 : Cert.Spec.cur2 (StableHlo.after hostOps8 Vin (Proc.devRef .tc main_v165) : S64x128.Idx → EReal)
    = fun u v => (Vin (Proc.devRef .tc main_arg6) : S4x64x128.Idx → EReal) (ix3 (2 : Fin 4) u v) := by
  have e : (StableHlo.after hostOps8 Vin (Proc.devRef .tc main_v165) : S64x128.Idx → EReal)
      = shapeCast S64x128 (extractStridedSlice S1x64x128 ![2, 0, 0] ((Vin (Proc.devRef .tc main_arg6) : S4x64x128.Idx → EReal)) slices_S4x64x128_S1x64x128_2_0_0) shapeCasts_S1x64x128_S64x128 := by
    dsimp only [hostOps8]; after_results; rfl
  rw [e]; exact cur2_matrix_of_stack (2 : Fin 4) _ _ _

theorem host8_v178 : Cert.Spec.cur2 (StableHlo.after hostOps8 Vin (Proc.devRef .tc main_v178) : S1x128.Idx → EReal)
    = fun _ k => (Vin (Proc.devRef .tc main_arg7) : S4x128.Idx → EReal) (ix2 (2 : Fin 4) k) := by
  have e : (StableHlo.after hostOps8 Vin (Proc.devRef .tc main_v178) : S1x128.Idx → EReal)
      = shapeCast S1x128 (shapeCast S128 (extractStridedSlice S1x128 ![2, 0] ((Vin (Proc.devRef .tc main_arg7) : S4x128.Idx → EReal)) slices_S4x128_S1x128_2_0) shapeCasts_S1x128_S128) shapeCasts_S128_S1x128 := by
    dsimp only [hostOps8]; after_results; rfl
  rw [e]; exact cur2_row_of_table (2 : Fin 4) _ _ _ _

theorem host8_v179 : Cert.Spec.cur2 (StableHlo.after hostOps8 Vin (Proc.devRef .tc main_v179) : S1x128.Idx → EReal)
    = fun _ k => (Vin (Proc.devRef .tc main_arg8) : S4x128.Idx → EReal) (ix2 (2 : Fin 4) k) := by
  have e : (StableHlo.after hostOps8 Vin (Proc.devRef .tc main_v179) : S1x128.Idx → EReal)
      = shapeCast S1x128 (shapeCast S128 (extractStridedSlice S1x128 ![2, 0] ((Vin (Proc.devRef .tc main_arg8) : S4x128.Idx → EReal)) slices_S4x128_S1x128_2_0) shapeCasts_S1x128_S128) shapeCasts_S128_S1x128 := by
    dsimp only [hostOps8]; after_results; rfl
  rw [e]; exact cur2_row_of_table (2 : Fin 4) _ _ _ _

theorem host8_v180 : Cert.Spec.cur2 (StableHlo.after hostOps8 Vin (Proc.devRef .tc main_v180) : S1x128.Idx → EReal)
    = fun _ k => (Vin (Proc.devRef .tc main_arg9) : S4x128.Idx → EReal) (ix2 (2 : Fin 4) k) := by
  have e : (StableHlo.after hostOps8 Vin (Proc.devRef .tc main_v180) : S1x128.Idx → EReal)
      = shapeCast S1x128 (shapeCast S128 (extractStridedSlice S1x128 ![2, 0] ((Vin (Proc.devRef .tc main_arg9) : S4x128.Idx → EReal)) slices_S4x128_S1x128_2_0) shapeCasts_S1x128_S128) shapeCasts_S128_S1x128 := by
    dsimp only [hostOps8]; after_results; rfl
  rw [e]; exact cur2_row_of_table (2 : Fin 4) _ _ _ _

theorem host8_v173 : Cert.Spec.cur2 (StableHlo.after hostOps8 Vin (Proc.devRef .tc main_v173) : S128x64.Idx → EReal)
    = fun u v => (Vin (Proc.devRef .tc main_arg10) : S4x128x64.Idx → EReal) (ix3 (2 : Fin 4) u v) := by
  have e : (StableHlo.after hostOps8 Vin (Proc.devRef .tc main_v173) : S128x64.Idx → EReal)
      = shapeCast S128x64 (extractStridedSlice S1x128x64 ![2, 0, 0] ((Vin (Proc.devRef .tc main_arg10) : S4x128x64.Idx → EReal)) slices_S4x128x64_S1x128x64_2_0_0) shapeCasts_S1x128x64_S128x64 := by
    dsimp only [hostOps8]; after_results; rfl
  rw [e]; exact cur2_matrix_of_stack (2 : Fin 4) _ _ _

theorem host8_v181 : Cert.Spec.cur2 (StableHlo.after hostOps8 Vin (Proc.devRef .tc main_v181) : S1x64.Idx → EReal)
    = fun _ k => (Vin (Proc.devRef .tc main_arg11) : S4x64.Idx → EReal) (ix2 (2 : Fin 4) k) := by
  have e : (StableHlo.after hostOps8 Vin (Proc.devRef .tc main_v181) : S1x64.Idx → EReal)
      = shapeCast S1x64 (shapeCast S64 (extractStridedSlice S1x64 ![2, 0] ((Vin (Proc.devRef .tc main_arg11) : S4x64.Idx → EReal)) slices_S4x64_S1x64_2_0) shapeCasts_S1x64_S64) shapeCasts_S64_S1x64 := by
    dsimp only [hostOps8]; after_results; rfl
  rw [e]; exact cur2_row_of_table (2 : Fin 4) _ _ _ _

theorem host9_v202 : Cert.Spec.cur2 (StableHlo.after hostOps9 Vin (Proc.devRef .tc main_v202) : S1x64.Idx → EReal)
    = fun _ _ => (Vin (Proc.devRef .tc main_arg5) : S4.Idx → EReal) (ix1 (2 : Fin 4)) := by
  have e : (StableHlo.after hostOps9 Vin (Proc.devRef .tc main_v202) : S1x64.Idx → EReal)
      = broadcastInDim S1x64 ![0, 1] bcast_S1x1_S1x64_0_1 (shapeCast S1x1 (shapeCast S_ (extractStridedSlice S1 ![2] ((Vin (Proc.devRef .tc main_arg5) : S4.Idx → EReal)) slices_S4_S1_2) shapeCasts_S1_S_) shapeCasts_S_S1x1) := by
    dsimp only [hostOps9]; after_results; rfl
  rw [e]; exact cur2_spread_of_entry (2 : Fin 4) _ _ _ _ _

theorem host9_v186 : Cert.Spec.cur2 (StableHlo.after hostOps9 Vin (Proc.devRef .tc main_v186) : S64x128.Idx → EReal)
    = fun u v => (Vin (Proc.devRef .tc main_arg6) : S4x64x128.Idx → EReal) (ix3 (2 : Fin 4) u v) := by
  have e : (StableHlo.after hostOps9 Vin (Proc.devRef .tc main_v186) : S64x128.Idx → EReal)
      = shapeCast S64x128 (extractStridedSlice S1x64x128 ![2, 0, 0] ((Vin (Proc.devRef .tc main_arg6) : S4x64x128.Idx → EReal)) slices_S4x64x128_S1x64x128_2_0_0) shapeCasts_S1x64x128_S64x128 := by
    dsimp only [hostOps9]; after_results; rfl
  rw [e]; exact cur2_matrix_of_stack (2 : Fin 4) _ _ _

theorem host9_v203 : Cert.Spec.cur2 (StableHlo.after hostOps9 Vin (Proc.devRef .tc main_v203) : S1x128.Idx → EReal)
    = fun _ k => (Vin (Proc.devRef .tc main_arg7) : S4x128.Idx → EReal) (ix2 (2 : Fin 4) k) := by
  have e : (StableHlo.after hostOps9 Vin (Proc.devRef .tc main_v203) : S1x128.Idx → EReal)
      = shapeCast S1x128 (shapeCast S128 (extractStridedSlice S1x128 ![2, 0] ((Vin (Proc.devRef .tc main_arg7) : S4x128.Idx → EReal)) slices_S4x128_S1x128_2_0) shapeCasts_S1x128_S128) shapeCasts_S128_S1x128 := by
    dsimp only [hostOps9]; after_results; rfl
  rw [e]; exact cur2_row_of_table (2 : Fin 4) _ _ _ _

theorem host9_v204 : Cert.Spec.cur2 (StableHlo.after hostOps9 Vin (Proc.devRef .tc main_v204) : S1x128.Idx → EReal)
    = fun _ k => (Vin (Proc.devRef .tc main_arg8) : S4x128.Idx → EReal) (ix2 (2 : Fin 4) k) := by
  have e : (StableHlo.after hostOps9 Vin (Proc.devRef .tc main_v204) : S1x128.Idx → EReal)
      = shapeCast S1x128 (shapeCast S128 (extractStridedSlice S1x128 ![2, 0] ((Vin (Proc.devRef .tc main_arg8) : S4x128.Idx → EReal)) slices_S4x128_S1x128_2_0) shapeCasts_S1x128_S128) shapeCasts_S128_S1x128 := by
    dsimp only [hostOps9]; after_results; rfl
  rw [e]; exact cur2_row_of_table (2 : Fin 4) _ _ _ _

theorem host9_v205 : Cert.Spec.cur2 (StableHlo.after hostOps9 Vin (Proc.devRef .tc main_v205) : S1x128.Idx → EReal)
    = fun _ k => (Vin (Proc.devRef .tc main_arg9) : S4x128.Idx → EReal) (ix2 (2 : Fin 4) k) := by
  have e : (StableHlo.after hostOps9 Vin (Proc.devRef .tc main_v205) : S1x128.Idx → EReal)
      = shapeCast S1x128 (shapeCast S128 (extractStridedSlice S1x128 ![2, 0] ((Vin (Proc.devRef .tc main_arg9) : S4x128.Idx → EReal)) slices_S4x128_S1x128_2_0) shapeCasts_S1x128_S128) shapeCasts_S128_S1x128 := by
    dsimp only [hostOps9]; after_results; rfl
  rw [e]; exact cur2_row_of_table (2 : Fin 4) _ _ _ _

theorem host9_v194 : Cert.Spec.cur2 (StableHlo.after hostOps9 Vin (Proc.devRef .tc main_v194) : S128x64.Idx → EReal)
    = fun u v => (Vin (Proc.devRef .tc main_arg10) : S4x128x64.Idx → EReal) (ix3 (2 : Fin 4) u v) := by
  have e : (StableHlo.after hostOps9 Vin (Proc.devRef .tc main_v194) : S128x64.Idx → EReal)
      = shapeCast S128x64 (extractStridedSlice S1x128x64 ![2, 0, 0] ((Vin (Proc.devRef .tc main_arg10) : S4x128x64.Idx → EReal)) slices_S4x128x64_S1x128x64_2_0_0) shapeCasts_S1x128x64_S128x64 := by
    dsimp only [hostOps9]; after_results; rfl
  rw [e]; exact cur2_matrix_of_stack (2 : Fin 4) _ _ _

theorem host9_v206 : Cert.Spec.cur2 (StableHlo.after hostOps9 Vin (Proc.devRef .tc main_v206) : S1x64.Idx → EReal)
    = fun _ k => (Vin (Proc.devRef .tc main_arg11) : S4x64.Idx → EReal) (ix2 (2 : Fin 4) k) := by
  have e : (StableHlo.after hostOps9 Vin (Proc.devRef .tc main_v206) : S1x64.Idx → EReal)
      = shapeCast S1x64 (shapeCast S64 (extractStridedSlice S1x64 ![2, 0] ((Vin (Proc.devRef .tc main_arg11) : S4x64.Idx → EReal)) slices_S4x64_S1x64_2_0) shapeCasts_S1x64_S64) shapeCasts_S64_S1x64 := by
    dsimp only [hostOps9]; after_results; rfl
  rw [e]; exact cur2_row_of_table (2 : Fin 4) _ _ _ _

theorem host9_v207 : Cert.Spec.cur2 (StableHlo.after hostOps9 Vin (Proc.devRef .tc main_v207) : S1x64.Idx → EReal)
    = fun _ k => (Vin (Proc.devRef .tc main_arg12) : S4x64.Idx → EReal) (ix2 (2 : Fin 4) k) := by
  have e : (StableHlo.after hostOps9 Vin (Proc.devRef .tc main_v207) : S1x64.Idx → EReal)
      = shapeCast S1x64 (shapeCast S64 (extractStridedSlice S1x64 ![2, 0] ((Vin (Proc.devRef .tc main_arg12) : S4x64.Idx → EReal)) slices_S4x64_S1x64_2_0) shapeCasts_S1x64_S64) shapeCasts_S64_S1x64 := by
    dsimp only [hostOps9]; after_results; rfl
  rw [e]; exact cur2_row_of_table (2 : Fin 4) _ _ _ _

theorem host9_v208 : Cert.Spec.cur2 (StableHlo.after hostOps9 Vin (Proc.devRef .tc main_v208) : S1x64.Idx → EReal)
    = fun _ k => (Vin (Proc.devRef .tc main_arg13) : S4x64.Idx → EReal) (ix2 (2 : Fin 4) k) := by
  have e : (StableHlo.after hostOps9 Vin (Proc.devRef .tc main_v208) : S1x64.Idx → EReal)
      = shapeCast S1x64 (shapeCast S64 (extractStridedSlice S1x64 ![2, 0] ((Vin (Proc.devRef .tc main_arg13) : S4x64.Idx → EReal)) slices_S4x64_S1x64_2_0) shapeCasts_S1x64_S64) shapeCasts_S64_S1x64 := by
    dsimp only [hostOps9]; after_results; rfl
  rw [e]; exact cur2_row_of_table (2 : Fin 4) _ _ _ _

set_option maxHeartbeats 1000000 in
/-- Stretch 10 leaves the neighbour sum of `main_v209` in `main_v219`. -/
theorem host10_v219 : (StableHlo.after hostOps10 Vin (Proc.devRef .tc main_v219) : S65536x64.Idx → EReal)
    = Cert.Hand.aggCore (Vin (Proc.devRef .tc main_v1)) (Vin (Proc.devRef .tc main_v3)) (Vin (Proc.devRef .tc main_v209)) := by
  dsimp only [hostOps10]; after_results
  rw [scatterRows_eq, gatherRows_eq]
  rfl

theorem host10_v227 : Cert.Spec.cur2 (StableHlo.after hostOps10 Vin (Proc.devRef .tc main_v227) : S1x64.Idx → EReal)
    = fun _ _ => (Vin (Proc.devRef .tc main_arg5) : S4.Idx → EReal) (ix1 (3 : Fin 4)) := by
  have e : (StableHlo.after hostOps10 Vin (Proc.devRef .tc main_v227) : S1x64.Idx → EReal)
      = broadcastInDim S1x64 ![0, 1] bcast_S1x1_S1x64_0_1 (shapeCast S1x1 (shapeCast S_ (extractStridedSlice S1 ![3] ((Vin (Proc.devRef .tc main_arg5) : S4.Idx → EReal)) slices_S4_S1_3) shapeCasts_S1_S_) shapeCasts_S_S1x1) := by
    dsimp only [hostOps10]; after_results; rfl
  rw [e]; exact cur2_spread_of_entry (3 : Fin 4) _ _ _ _ _

theorem host10_v223 : Cert.Spec.cur2 (StableHlo.after hostOps10 Vin (Proc.devRef .tc main_v223) : S64x128.Idx → EReal)
    = fun u v => (Vin (Proc.devRef .tc main_arg6) : S4x64x128.Idx → EReal) (ix3 (3 : Fin 4) u v) := by
  have e : (StableHlo.after hostOps10 Vin (Proc.devRef .tc main_v223) : S64x128.Idx → EReal)
      = shapeCast S64x128 (extractStridedSlice S1x64x128 ![3, 0, 0] ((Vin (Proc.devRef .tc main_arg6) : S4x64x128.Idx → EReal)) slices_S4x64x128_S1x64x128_3_0_0) shapeCasts_S1x64x128_S64x128 := by
    dsimp only [hostOps10]; after_results; rfl
  rw [e]; exact cur2_matrix_of_stack (3 : Fin 4) _ _ _

theorem host10_v228 : Cert.Spec.cur2 (StableHlo.after hostOps10 Vin (Proc.devRef .tc main_v228) : S1x128.Idx → EReal)
    = fun _ k => (Vin (Proc.devRef .tc main_arg7) : S4x128.Idx → EReal) (ix2 (3 : Fin 4) k) := by
  have e : (StableHlo.after hostOps10 Vin (Proc.devRef .tc main_v228) : S1x128.Idx → EReal)
      = shapeCast S1x128 (shapeCast S128 (extractStridedSlice S1x128 ![3, 0] ((Vin (Proc.devRef .tc main_arg7) : S4x128.Idx → EReal)) slices_S4x128_S1x128_3_0) shapeCasts_S1x128_S128) shapeCasts_S128_S1x128 := by
    dsimp only [hostOps10]; after_results; rfl
  rw [e]; exact cur2_row_of_table (3 : Fin 4) _ _ _ _

theorem host11_v245 : Cert.Spec.cur2 (StableHlo.after hostOps11 Vin (Proc.devRef .tc main_v245) : S1x64.Idx → EReal)
    = fun _ _ => (Vin (Proc.devRef .tc main_arg5) : S4.Idx → EReal) (ix1 (3 : Fin 4)) := by
  have e : (StableHlo.after hostOps11 Vin (Proc.devRef .tc main_v245) : S1x64.Idx → EReal)
      = broadcastInDim S1x64 ![0, 1] bcast_S1x1_S1x64_0_1 (shapeCast S1x1 (shapeCast S_ (extractStridedSlice S1 ![3] ((Vin (Proc.devRef .tc main_arg5) : S4.Idx → EReal)) slices_S4_S1_3) shapeCasts_S1_S_) shapeCasts_S_S1x1) := by
    dsimp only [hostOps11]; after_results; rfl
  rw [e]; exact cur2_spread_of_entry (3 : Fin 4) _ _ _ _ _

theorem host11_v233 : Cert.Spec.cur2 (StableHlo.after hostOps11 Vin (Proc.devRef .tc main_v233) : S64x128.Idx → EReal)
    = fun u v => (Vin (Proc.devRef .tc main_arg6) : S4x64x128.Idx → EReal) (ix3 (3 : Fin 4) u v) := by
  have e : (StableHlo.after hostOps11 Vin (Proc.devRef .tc main_v233) : S64x128.Idx → EReal)
      = shapeCast S64x128 (extractStridedSlice S1x64x128 ![3, 0, 0] ((Vin (Proc.devRef .tc main_arg6) : S4x64x128.Idx → EReal)) slices_S4x64x128_S1x64x128_3_0_0) shapeCasts_S1x64x128_S64x128 := by
    dsimp only [hostOps11]; after_results; rfl
  rw [e]; exact cur2_matrix_of_stack (3 : Fin 4) _ _ _

theorem host11_v246 : Cert.Spec.cur2 (StableHlo.after hostOps11 Vin (Proc.devRef .tc main_v246) : S1x128.Idx → EReal)
    = fun _ k => (Vin (Proc.devRef .tc main_arg7) : S4x128.Idx → EReal) (ix2 (3 : Fin 4) k) := by
  have e : (StableHlo.after hostOps11 Vin (Proc.devRef .tc main_v246) : S1x128.Idx → EReal)
      = shapeCast S1x128 (shapeCast S128 (extractStridedSlice S1x128 ![3, 0] ((Vin (Proc.devRef .tc main_arg7) : S4x128.Idx → EReal)) slices_S4x128_S1x128_3_0) shapeCasts_S1x128_S128) shapeCasts_S128_S1x128 := by
    dsimp only [hostOps11]; after_results; rfl
  rw [e]; exact cur2_row_of_table (3 : Fin 4) _ _ _ _

theorem host11_v247 : Cert.Spec.cur2 (StableHlo.after hostOps11 Vin (Proc.devRef .tc main_v247) : S1x128.Idx → EReal)
    = fun _ k => (Vin (Proc.devRef .tc main_arg8) : S4x128.Idx → EReal) (ix2 (3 : Fin 4) k) := by
  have e : (StableHlo.after hostOps11 Vin (Proc.devRef .tc main_v247) : S1x128.Idx → EReal)
      = shapeCast S1x128 (shapeCast S128 (extractStridedSlice S1x128 ![3, 0] ((Vin (Proc.devRef .tc main_arg8) : S4x128.Idx → EReal)) slices_S4x128_S1x128_3_0) shapeCasts_S1x128_S128) shapeCasts_S128_S1x128 := by
    dsimp only [hostOps11]; after_results; rfl
  rw [e]; exact cur2_row_of_table (3 : Fin 4) _ _ _ _

theorem host11_v248 : Cert.Spec.cur2 (StableHlo.after hostOps11 Vin (Proc.devRef .tc main_v248) : S1x128.Idx → EReal)
    = fun _ k => (Vin (Proc.devRef .tc main_arg9) : S4x128.Idx → EReal) (ix2 (3 : Fin 4) k) := by
  have e : (StableHlo.after hostOps11 Vin (Proc.devRef .tc main_v248) : S1x128.Idx → EReal)
      = shapeCast S1x128 (shapeCast S128 (extractStridedSlice S1x128 ![3, 0] ((Vin (Proc.devRef .tc main_arg9) : S4x128.Idx → EReal)) slices_S4x128_S1x128_3_0) shapeCasts_S1x128_S128) shapeCasts_S128_S1x128 := by
    dsimp only [hostOps11]; after_results; rfl
  rw [e]; exact cur2_row_of_table (3 : Fin 4) _ _ _ _

theorem host11_v241 : Cert.Spec.cur2 (StableHlo.after hostOps11 Vin (Proc.devRef .tc main_v241) : S128x64.Idx → EReal)
    = fun u v => (Vin (Proc.devRef .tc main_arg10) : S4x128x64.Idx → EReal) (ix3 (3 : Fin 4) u v) := by
  have e : (StableHlo.after hostOps11 Vin (Proc.devRef .tc main_v241) : S128x64.Idx → EReal)
      = shapeCast S128x64 (extractStridedSlice S1x128x64 ![3, 0, 0] ((Vin (Proc.devRef .tc main_arg10) : S4x128x64.Idx → EReal)) slices_S4x128x64_S1x128x64_3_0_0) shapeCasts_S1x128x64_S128x64 := by
    dsimp only [hostOps11]; after_results; rfl
  rw [e]; exact cur2_matrix_of_stack (3 : Fin 4) _ _ _

theorem host11_v249 : Cert.Spec.cur2 (StableHlo.after hostOps11 Vin (Proc.devRef .tc main_v249) : S1x64.Idx → EReal)
    = fun _ k => (Vin (Proc.devRef .tc main_arg11) : S4x64.Idx → EReal) (ix2 (3 : Fin 4) k) := by
  have e : (StableHlo.after hostOps11 Vin (Proc.devRef .tc main_v249) : S1x64.Idx → EReal)
      = shapeCast S1x64 (shapeCast S64 (extractStridedSlice S1x64 ![3, 0] ((Vin (Proc.devRef .tc main_arg11) : S4x64.Idx → EReal)) slices_S4x64_S1x64_3_0) shapeCasts_S1x64_S64) shapeCasts_S64_S1x64 := by
    dsimp only [hostOps11]; after_results; rfl
  rw [e]; exact cur2_row_of_table (3 : Fin 4) _ _ _ _

theorem host12_v270 : Cert.Spec.cur2 (StableHlo.after hostOps12 Vin (Proc.devRef .tc main_v270) : S1x64.Idx → EReal)
    = fun _ _ => (Vin (Proc.devRef .tc main_arg5) : S4.Idx → EReal) (ix1 (3 : Fin 4)) := by
  have e : (StableHlo.after hostOps12 Vin (Proc.devRef .tc main_v270) : S1x64.Idx → EReal)
      = broadcastInDim S1x64 ![0, 1] bcast_S1x1_S1x64_0_1 (shapeCast S1x1 (shapeCast S_ (extractStridedSlice S1 ![3] ((Vin (Proc.devRef .tc main_arg5) : S4.Idx → EReal)) slices_S4_S1_3) shapeCasts_S1_S_) shapeCasts_S_S1x1) := by
    dsimp only [hostOps12]; after_results; rfl
  rw [e]; exact cur2_spread_of_entry (3 : Fin 4) _ _ _ _ _

theorem host12_v254 : Cert.Spec.cur2 (StableHlo.after hostOps12 Vin (Proc.devRef .tc main_v254) : S64x128.Idx → EReal)
    = fun u v => (Vin (Proc.devRef .tc main_arg6) : S4x64x128.Idx → EReal) (ix3 (3 : Fin 4) u v) := by
  have e : (StableHlo.after hostOps12 Vin (Proc.devRef .tc main_v254) : S64x128.Idx → EReal)
      = shapeCast S64x128 (extractStridedSlice S1x64x128 ![3, 0, 0] ((Vin (Proc.devRef .tc main_arg6) : S4x64x128.Idx → EReal)) slices_S4x64x128_S1x64x128_3_0_0) shapeCasts_S1x64x128_S64x128 := by
    dsimp only [hostOps12]; after_results; rfl
  rw [e]; exact cur2_matrix_of_stack (3 : Fin 4) _ _ _

theorem host12_v271 : Cert.Spec.cur2 (StableHlo.after hostOps12 Vin (Proc.devRef .tc main_v271) : S1x128.Idx → EReal)
    = fun _ k => (Vin (Proc.devRef .tc main_arg7) : S4x128.Idx → EReal) (ix2 (3 : Fin 4) k) := by
  have e : (StableHlo.after hostOps12 Vin (Proc.devRef .tc main_v271) : S1x128.Idx → EReal)
      = shapeCast S1x128 (shapeCast S128 (extractStridedSlice S1x128 ![3, 0] ((Vin (Proc.devRef .tc main_arg7) : S4x128.Idx → EReal)) slices_S4x128_S1x128_3_0) shapeCasts_S1x128_S128) shapeCasts_S128_S1x128 := by
    dsimp only [hostOps12]; after_results; rfl
  rw [e]; exact cur2_row_of_table (3 : Fin 4) _ _ _ _

theorem host12_v272 : Cert.Spec.cur2 (StableHlo.after hostOps12 Vin (Proc.devRef .tc main_v272) : S1x128.Idx → EReal)
    = fun _ k => (Vin (Proc.devRef .tc main_arg8) : S4x128.Idx → EReal) (ix2 (3 : Fin 4) k) := by
  have e : (StableHlo.after hostOps12 Vin (Proc.devRef .tc main_v272) : S1x128.Idx → EReal)
      = shapeCast S1x128 (shapeCast S128 (extractStridedSlice S1x128 ![3, 0] ((Vin (Proc.devRef .tc main_arg8) : S4x128.Idx → EReal)) slices_S4x128_S1x128_3_0) shapeCasts_S1x128_S128) shapeCasts_S128_S1x128 := by
    dsimp only [hostOps12]; after_results; rfl
  rw [e]; exact cur2_row_of_table (3 : Fin 4) _ _ _ _

theorem host12_v273 : Cert.Spec.cur2 (StableHlo.after hostOps12 Vin (Proc.devRef .tc main_v273) : S1x128.Idx → EReal)
    = fun _ k => (Vin (Proc.devRef .tc main_arg9) : S4x128.Idx → EReal) (ix2 (3 : Fin 4) k) := by
  have e : (StableHlo.after hostOps12 Vin (Proc.devRef .tc main_v273) : S1x128.Idx → EReal)
      = shapeCast S1x128 (shapeCast S128 (extractStridedSlice S1x128 ![3, 0] ((Vin (Proc.devRef .tc main_arg9) : S4x128.Idx → EReal)) slices_S4x128_S1x128_3_0) shapeCasts_S1x128_S128) shapeCasts_S128_S1x128 := by
    dsimp only [hostOps12]; after_results; rfl
  rw [e]; exact cur2_row_of_table (3 : Fin 4) _ _ _ _

theorem host12_v262 : Cert.Spec.cur2 (StableHlo.after hostOps12 Vin (Proc.devRef .tc main_v262) : S128x64.Idx → EReal)
    = fun u v => (Vin (Proc.devRef .tc main_arg10) : S4x128x64.Idx → EReal) (ix3 (3 : Fin 4) u v) := by
  have e : (StableHlo.after hostOps12 Vin (Proc.devRef .tc main_v262) : S128x64.Idx → EReal)
      = shapeCast S128x64 (extractStridedSlice S1x128x64 ![3, 0, 0] ((Vin (Proc.devRef .tc main_arg10) : S4x128x64.Idx → EReal)) slices_S4x128x64_S1x128x64_3_0_0) shapeCasts_S1x128x64_S128x64 := by
    dsimp only [hostOps12]; after_results; rfl
  rw [e]; exact cur2_matrix_of_stack (3 : Fin 4) _ _ _

theorem host12_v274 : Cert.Spec.cur2 (StableHlo.after hostOps12 Vin (Proc.devRef .tc main_v274) : S1x64.Idx → EReal)
    = fun _ k => (Vin (Proc.devRef .tc main_arg11) : S4x64.Idx → EReal) (ix2 (3 : Fin 4) k) := by
  have e : (StableHlo.after hostOps12 Vin (Proc.devRef .tc main_v274) : S1x64.Idx → EReal)
      = shapeCast S1x64 (shapeCast S64 (extractStridedSlice S1x64 ![3, 0] ((Vin (Proc.devRef .tc main_arg11) : S4x64.Idx → EReal)) slices_S4x64_S1x64_3_0) shapeCasts_S1x64_S64) shapeCasts_S64_S1x64 := by
    dsimp only [hostOps12]; after_results; rfl
  rw [e]; exact cur2_row_of_table (3 : Fin 4) _ _ _ _

theorem host12_v275 : Cert.Spec.cur2 (StableHlo.after hostOps12 Vin (Proc.devRef .tc main_v275) : S1x64.Idx → EReal)
    = fun _ k => (Vin (Proc.devRef .tc main_arg12) : S4x64.Idx → EReal) (ix2 (3 : Fin 4) k) := by
  have e : (StableHlo.after hostOps12 Vin (Proc.devRef .tc main_v275) : S1x64.Idx → EReal)
      = shapeCast S1x64 (shapeCast S64 (extractStridedSlice S1x64 ![3, 0] ((Vin (Proc.devRef .tc main_arg12) : S4x64.Idx → EReal)) slices_S4x64_S1x64_3_0) shapeCasts_S1x64_S64) shapeCasts_S64_S1x64 := by
    dsimp only [hostOps12]; after_results; rfl
  rw [e]; exact cur2_row_of_table (3 : Fin 4) _ _ _ _

theorem host12_v276 : Cert.Spec.cur2 (StableHlo.after hostOps12 Vin (Proc.devRef .tc main_v276) : S1x64.Idx → EReal)
    = fun _ k => (Vin (Proc.devRef .tc main_arg13) : S4x64.Idx → EReal) (ix2 (3 : Fin 4) k) := by
  have e : (StableHlo.after hostOps12 Vin (Proc.devRef .tc main_v276) : S1x64.Idx → EReal)
      = shapeCast S1x64 (shapeCast S64 (extractStridedSlice S1x64 ![3, 0] ((Vin (Proc.devRef .tc main_arg13) : S4x64.Idx → EReal)) slices_S4x64_S1x64_3_0) shapeCasts_S1x64_S64) shapeCasts_S64_S1x64 := by
    dsimp only [hostOps12]; after_results; rfl
  rw [e]; exact cur2_row_of_table (3 : Fin 4) _ _ _ _

theorem host13_v278 : Cert.Spec.cur2 (StableHlo.after hostOps13 Vin (Proc.devRef .tc main_v278) : S1x256.Idx → EReal)
    = fun _ k => (Vin (Proc.devRef .tc main_arg15) : S256.Idx → EReal) (ix1 k) := by
  have e : (StableHlo.after hostOps13 Vin (Proc.devRef .tc main_v278) : S1x256.Idx → EReal)
      = shapeCast S1x256 ((Vin (Proc.devRef .tc main_arg15) : S256.Idx → EReal)) shapeCasts_S256_S1x256 := by
    dsimp only [hostOps13]; after_results; rfl
  rw [e]; exact cur2_row_of_vec _ _

/-- The last stretch recasts the 65536 rows of the result as 16 slabs of 4096 rows. -/
theorem host14_v280 (s : Fin 16) (q : Fin 4096) (k : Fin 256) :
    (StableHlo.after hostOps14 Vin (Proc.devRef .tc main_v280) : S16x4096x256.Idx → EReal) (ix3 s q k)
      = (Vin (Proc.devRef .tc main_v279) : S65536x256.Idx → EReal) (ix2 ⟨4096 * s.val + q.val, by omega⟩ k) := by
  have e : (StableHlo.after hostOps14 Vin (Proc.devRef .tc main_v280) : S16x4096x256.Idx → EReal)
      = shapeCast S16x4096x256 (Vin (Proc.devRef .tc main_v279) : S65536x256.Idx → EReal) shapeCasts_S65536x256_S16x4096x256 := by
    dsimp only [hostOps14]; after_results; rfl
  rw [e]; exact slabs_apply _ _ s q k

end Cert.KernelIdeal.Val

end
-- ==== Proof.KI.Host.lean ====
/- What every kernel region finds in its input windows, as functions of the launch contents of the arguments and of
   what earlier regions left: an argument passed through; a parameter of the layer read as the specification reads it;
   the neighbour sum of the layer's input; or an earlier region's output, carried unchanged through the stretches and
   regions in between (a region leaves its input windows' arrays as it found them). -/
import proofs.«159011_j9938554322955_1_alg».proof.Proof.KI.Fold
import proofs.«159011_j9938554322955_1_alg».proof.Proof.KI.HostOps

set_option maxRecDepth 4628

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

variable (m : (ℓ : Loc nD τ sig) → Buf (Elt Ideal) ℓ) (ρ : Dev nD → PrngReg)

/-! ## The arguments, and the two flat vectors of node numbers, stay what they were

No host operation writes an argument, and no region has one as an output window; the edges' sources and targets are
written once, by the first stretch. -/

theorem W1_a2 (c : Dev nD) : W1 m ρ c (Proc.devRef .tc main_arg2) = m ((c : Thread nD τ).loc main_arg2) :=
  (StableHlo.after_of_writes_sub hostOps0 _ hostOps0_writes (by decide)).trans rfl
theorem W1_a3 (c : Dev nD) : W1 m ρ c (Proc.devRef .tc main_arg3) = m ((c : Thread nD τ).loc main_arg3) :=
  (StableHlo.after_of_writes_sub hostOps0 _ hostOps0_writes (by decide)).trans rfl
theorem W1_a5 (c : Dev nD) : W1 m ρ c (Proc.devRef .tc main_arg5) = m ((c : Thread nD τ).loc main_arg5) :=
  (StableHlo.after_of_writes_sub hostOps0 _ hostOps0_writes (by decide)).trans rfl
theorem W2_a5 (c : Dev nD) : W2 m ρ c (Proc.devRef .tc main_arg5) = m ((c : Thread nD τ).loc main_arg5) :=
  (W2_of_ne m ρ c main_arg5 (by decide)).trans (W1_a5 m ρ c)
theorem W3_a5 (c : Dev nD) : W3 m ρ c (Proc.devRef .tc main_arg5) = m ((c : Thread nD τ).loc main_arg5) :=
  (StableHlo.after_of_writes_sub hostOps1 _ hostOps1_writes (by decide)).trans (W2_a5 m ρ c)
theorem W4_a5 (c : Dev nD) : W4 m ρ c (Proc.devRef .tc main_arg5) = m ((c : Thread nD τ).loc main_arg5) :=
  (W4_of_ne m ρ c main_arg5 (by decide)).trans (W3_a5 m ρ c)
theorem W5_a5 (c : Dev nD) : W5 m ρ c (Proc.devRef .tc main_arg5) = m ((c : Thread nD τ).loc main_arg5) :=
  (StableHlo.after_of_writes_sub hostOps2 _ hostOps2_writes (by decide)).trans (W4_a5 m ρ c)
theorem W6_a5 (c : Dev nD) : W6 m ρ c (Proc.devRef .tc main_arg5) = m ((c : Thread nD τ).loc main_arg5) :=
  (W6_of_ne m ρ c main_arg5 (by decide)).trans (W5_a5 m ρ c)
theorem W7_a5 (c : Dev nD) : W7 m ρ c (Proc.devRef .tc main_arg5) = m ((c : Thread nD τ).loc main_arg5) :=
  (StableHlo.after_of_writes_sub hostOps3 _ hostOps3_writes (by decide)).trans (W6_a5 m ρ c)
theorem W8_a5 (c : Dev nD) : W8 m ρ c (Proc.devRef .tc main_arg5) = m ((c : Thread nD τ).loc main_arg5) :=
  (W8_of_ne m ρ c main_arg5 (by decide)).trans (W7_a5 m ρ c)
theorem W9_a5 (c : Dev nD) : W9 m ρ c (Proc.devRef .tc main_arg5) = m ((c : Thread nD τ).loc main_arg5) :=
  (StableHlo.after_of_writes_sub hostOps4 _ hostOps4_writes (by decide)).trans (W8_a5 m ρ c)
theorem W10_a5 (c : Dev nD) : W10 m ρ c (Proc.devRef .tc main_arg5) = m ((c : Thread nD τ).loc main_arg5) :=
  (W10_of_ne m ρ c main_arg5 (by decide)).trans (W9_a5 m ρ c)
theorem W11_a5 (c : Dev nD) : W11 m ρ c (Proc.devRef .tc main_arg5) = m ((c : Thread nD τ).loc main_arg5) :=
  (StableHlo.after_of_writes_sub hostOps5 _ hostOps5_writes (by decide)).trans (W10_a5 m ρ c)
theorem W12_a5 (c : Dev nD) : W12 m ρ c (Proc.devRef .tc main_arg5) = m ((c : Thread nD τ).loc main_arg5) :=
  (W12_of_ne m ρ c main_arg5 (by decide)).trans (W11_a5 m ρ c)
theorem W13_a5 (c : Dev nD) : W13 m ρ c (Proc.devRef .tc main_arg5) = m ((c : Thread nD τ).loc main_arg5) :=
  (StableHlo.after_of_writes_sub hostOps6 _ hostOps6_writes (by decide)).trans (W12_a5 m ρ c)
theorem W14_a5 (c : Dev nD) : W14 m ρ c (Proc.devRef .tc main_arg5) = m ((c : Thread nD τ).loc main_arg5) :=
  (W14_of_ne m ρ c main_arg5 (by decide)).trans (W13_a5 m ρ c)
theorem W15_a5 (c : Dev nD) : W15 m ρ c (Proc.devRef .tc main_arg5) = m ((c : Thread nD τ).loc main_arg5) :=
  (StableHlo.after_of_writes_sub hostOps7 _ hostOps7_writes (by decide)).trans (W14_a5 m ρ c)
theorem W16_a5 (c : Dev nD) : W16 m ρ c (Proc.devRef .tc main_arg5) = m ((c : Thread nD τ).loc main_arg5) :=
  (W16_of_ne m ρ c main_arg5 (by decide)).trans (W15_a5 m ρ c)
theorem W17_a5 (c : Dev nD) : W17 m ρ c (Proc.devRef .tc main_arg5) = m ((c : Thread nD τ).loc main_arg5) :=
  (StableHlo.after_of_writes_sub hostOps8 _ hostOps8_writes (by decide)).trans (W16_a5 m ρ c)
theorem W18_a5 (c : Dev nD) : W18 m ρ c (Proc.devRef .tc main_arg5) = m ((c : Thread nD τ).loc main_arg5) :=
  (W18_of_ne m ρ c main_arg5 (by decide)).trans (W17_a5 m ρ c)
theorem W19_a5 (c : Dev nD) : W19 m ρ c (Proc.devRef .tc main_arg5) = m ((c : Thread nD τ).loc main_arg5) :=
  (StableHlo.after_of_writes_sub hostOps9 _ hostOps9_writes (by decide)).trans (W18_a5 m ρ c)
theorem W20_a5 (c : Dev nD) : W20 m ρ c (Proc.devRef .tc main_arg5) = m ((c : Thread nD τ).loc main_arg5) :=
  (W20_of_ne m ρ c main_arg5 (by decide)).trans (W19_a5 m ρ c)
theorem W21_a5 (c : Dev nD) : W21 m ρ c (Proc.devRef .tc main_arg5) = m ((c : Thread nD τ).loc main_arg5) :=
  (StableHlo.after_of_writes_sub hostOps10 _ hostOps10_writes (by decide)).trans (W20_a5 m ρ c)
theorem W22_a5 (c : Dev nD) : W22 m ρ c (Proc.devRef .tc main_arg5) = m ((c : Thread nD τ).loc main_arg5) :=
  (W22_of_ne m ρ c main_arg5 (by decide)).trans (W21_a5 m ρ c)
theorem W23_a5 (c : Dev nD) : W23 m ρ c (Proc.devRef .tc main_arg5) = m ((c : Thread nD τ).loc main_arg5) :=
  (StableHlo.after_of_writes_sub hostOps11 _ hostOps11_writes (by decide)).trans (W22_a5 m ρ c)
theorem W24_a5 (c : Dev nD) : W24 m ρ c (Proc.devRef .tc main_arg5) = m ((c : Thread nD τ).loc main_arg5) :=
  (W24_of_ne m ρ c main_arg5 (by decide)).trans (W23_a5 m ρ c)
theorem W1_a6 (c : Dev nD) : W1 m ρ c (Proc.devRef .tc main_arg6) = m ((c : Thread nD τ).loc main_arg6) :=
  (StableHlo.after_of_writes_sub hostOps0 _ hostOps0_writes (by decide)).trans rfl
theorem W2_a6 (c : Dev nD) : W2 m ρ c (Proc.devRef .tc main_arg6) = m ((c : Thread nD τ).loc main_arg6) :=
  (W2_of_ne m ρ c main_arg6 (by decide)).trans (W1_a6 m ρ c)
theorem W3_a6 (c : Dev nD) : W3 m ρ c (Proc.devRef .tc main_arg6) = m ((c : Thread nD τ).loc main_arg6) :=
  (StableHlo.after_of_writes_sub hostOps1 _ hostOps1_writes (by decide)).trans (W2_a6 m ρ c)
theorem W4_a6 (c : Dev nD) : W4 m ρ c (Proc.devRef .tc main_arg6) = m ((c : Thread nD τ).loc main_arg6) :=
  (W4_of_ne m ρ c main_arg6 (by decide)).trans (W3_a6 m ρ c)
theorem W5_a6 (c : Dev nD) : W5 m ρ c (Proc.devRef .tc main_arg6) = m ((c : Thread nD τ).loc main_arg6) :=
  (StableHlo.after_of_writes_sub hostOps2 _ hostOps2_writes (by decide)).trans (W4_a6 m ρ c)
theorem W6_a6 (c : Dev nD) : W6 m ρ c (Proc.devRef .tc main_arg6) = m ((c : Thread nD τ).loc main_arg6) :=
  (W6_of_ne m ρ c main_arg6 (by decide)).trans (W5_a6 m ρ c)
theorem W7_a6 (c : Dev nD) : W7 m ρ c (Proc.devRef .tc main_arg6) = m ((c : Thread nD τ).loc main_arg6) :=
  (StableHlo.after_of_writes_sub hostOps3 _ hostOps3_writes (by decide)).trans (W6_a6 m ρ c)
theorem W8_a6 (c : Dev nD) : W8 m ρ c (Proc.devRef .tc main_arg6) = m ((c : Thread nD τ).loc main_arg6) :=
  (W8_of_ne m ρ c main_arg6 (by decide)).trans (W7_a6 m ρ c)
theorem W9_a6 (c : Dev nD) : W9 m ρ c (Proc.devRef .tc main_arg6) = m ((c : Thread nD τ).loc main_arg6) :=
  (StableHlo.after_of_writes_sub hostOps4 _ hostOps4_writes (by decide)).trans (W8_a6 m ρ c)
theorem W10_a6 (c : Dev nD) : W10 m ρ c (Proc.devRef .tc main_arg6) = m ((c : Thread nD τ).loc main_arg6) :=
  (W10_of_ne m ρ c main_arg6 (by decide)).trans (W9_a6 m ρ c)
theorem W11_a6 (c : Dev nD) : W11 m ρ c (Proc.devRef .tc main_arg6) = m ((c : Thread nD τ).loc main_arg6) :=
  (StableHlo.after_of_writes_sub hostOps5 _ hostOps5_writes (by decide)).trans (W10_a6 m ρ c)
theorem W12_a6 (c : Dev nD) : W12 m ρ c (Proc.devRef .tc main_arg6) = m ((c : Thread nD τ).loc main_arg6) :=
  (W12_of_ne m ρ c main_arg6 (by decide)).trans (W11_a6 m ρ c)
theorem W13_a6 (c : Dev nD) : W13 m ρ c (Proc.devRef .tc main_arg6) = m ((c : Thread nD τ).loc main_arg6) :=
  (StableHlo.after_of_writes_sub hostOps6 _ hostOps6_writes (by decide)).trans (W12_a6 m ρ c)
theorem W14_a6 (c : Dev nD) : W14 m ρ c (Proc.devRef .tc main_arg6) = m ((c : Thread nD τ).loc main_arg6) :=
  (W14_of_ne m ρ c main_arg6 (by decide)).trans (W13_a6 m ρ c)
theorem W15_a6 (c : Dev nD) : W15 m ρ c (Proc.devRef .tc main_arg6) = m ((c : Thread nD τ).loc main_arg6) :=
  (StableHlo.after_of_writes_sub hostOps7 _ hostOps7_writes (by decide)).trans (W14_a6 m ρ c)
theorem W16_a6 (c : Dev nD) : W16 m ρ c (Proc.devRef .tc main_arg6) = m ((c : Thread nD τ).loc main_arg6) :=
  (W16_of_ne m ρ c main_arg6 (by decide)).trans (W15_a6 m ρ c)
theorem W17_a6 (c : Dev nD) : W17 m ρ c (Proc.devRef .tc main_arg6) = m ((c : Thread nD τ).loc main_arg6) :=
  (StableHlo.after_of_writes_sub hostOps8 _ hostOps8_writes (by decide)).trans (W16_a6 m ρ c)
theorem W18_a6 (c : Dev nD) : W18 m ρ c (Proc.devRef .tc main_arg6) = m ((c : Thread nD τ).loc main_arg6) :=
  (W18_of_ne m ρ c main_arg6 (by decide)).trans (W17_a6 m ρ c)
theorem W19_a6 (c : Dev nD) : W19 m ρ c (Proc.devRef .tc main_arg6) = m ((c : Thread nD τ).loc main_arg6) :=
  (StableHlo.after_of_writes_sub hostOps9 _ hostOps9_writes (by decide)).trans (W18_a6 m ρ c)
theorem W20_a6 (c : Dev nD) : W20 m ρ c (Proc.devRef .tc main_arg6) = m ((c : Thread nD τ).loc main_arg6) :=
  (W20_of_ne m ρ c main_arg6 (by decide)).trans (W19_a6 m ρ c)
theorem W21_a6 (c : Dev nD) : W21 m ρ c (Proc.devRef .tc main_arg6) = m ((c : Thread nD τ).loc main_arg6) :=
  (StableHlo.after_of_writes_sub hostOps10 _ hostOps10_writes (by decide)).trans (W20_a6 m ρ c)
theorem W22_a6 (c : Dev nD) : W22 m ρ c (Proc.devRef .tc main_arg6) = m ((c : Thread nD τ).loc main_arg6) :=
  (W22_of_ne m ρ c main_arg6 (by decide)).trans (W21_a6 m ρ c)
theorem W23_a6 (c : Dev nD) : W23 m ρ c (Proc.devRef .tc main_arg6) = m ((c : Thread nD τ).loc main_arg6) :=
  (StableHlo.after_of_writes_sub hostOps11 _ hostOps11_writes (by decide)).trans (W22_a6 m ρ c)
theorem W24_a6 (c : Dev nD) : W24 m ρ c (Proc.devRef .tc main_arg6) = m ((c : Thread nD τ).loc main_arg6) :=
  (W24_of_ne m ρ c main_arg6 (by decide)).trans (W23_a6 m ρ c)
theorem W1_a7 (c : Dev nD) : W1 m ρ c (Proc.devRef .tc main_arg7) = m ((c : Thread nD τ).loc main_arg7) :=
  (StableHlo.after_of_writes_sub hostOps0 _ hostOps0_writes (by decide)).trans rfl
theorem W2_a7 (c : Dev nD) : W2 m ρ c (Proc.devRef .tc main_arg7) = m ((c : Thread nD τ).loc main_arg7) :=
  (W2_of_ne m ρ c main_arg7 (by decide)).trans (W1_a7 m ρ c)
theorem W3_a7 (c : Dev nD) : W3 m ρ c (Proc.devRef .tc main_arg7) = m ((c : Thread nD τ).loc main_arg7) :=
  (StableHlo.after_of_writes_sub hostOps1 _ hostOps1_writes (by decide)).trans (W2_a7 m ρ c)
theorem W4_a7 (c : Dev nD) : W4 m ρ c (Proc.devRef .tc main_arg7) = m ((c : Thread nD τ).loc main_arg7) :=
  (W4_of_ne m ρ c main_arg7 (by decide)).trans (W3_a7 m ρ c)
theorem W5_a7 (c : Dev nD) : W5 m ρ c (Proc.devRef .tc main_arg7) = m ((c : Thread nD τ).loc main_arg7) :=
  (StableHlo.after_of_writes_sub hostOps2 _ hostOps2_writes (by decide)).trans (W4_a7 m ρ c)
theorem W6_a7 (c : Dev nD) : W6 m ρ c (Proc.devRef .tc main_arg7) = m ((c : Thread nD τ).loc main_arg7) :=
  (W6_of_ne m ρ c main_arg7 (by decide)).trans (W5_a7 m ρ c)
theorem W7_a7 (c : Dev nD) : W7 m ρ c (Proc.devRef .tc main_arg7) = m ((c : Thread nD τ).loc main_arg7) :=
  (StableHlo.after_of_writes_sub hostOps3 _ hostOps3_writes (by decide)).trans (W6_a7 m ρ c)
theorem W8_a7 (c : Dev nD) : W8 m ρ c (Proc.devRef .tc main_arg7) = m ((c : Thread nD τ).loc main_arg7) :=
  (W8_of_ne m ρ c main_arg7 (by decide)).trans (W7_a7 m ρ c)
theorem W9_a7 (c : Dev nD) : W9 m ρ c (Proc.devRef .tc main_arg7) = m ((c : Thread nD τ).loc main_arg7) :=
  (StableHlo.after_of_writes_sub hostOps4 _ hostOps4_writes (by decide)).trans (W8_a7 m ρ c)
theorem W10_a7 (c : Dev nD) : W10 m ρ c (Proc.devRef .tc main_arg7) = m ((c : Thread nD τ).loc main_arg7) :=
  (W10_of_ne m ρ c main_arg7 (by decide)).trans (W9_a7 m ρ c)
theorem W11_a7 (c : Dev nD) : W11 m ρ c (Proc.devRef .tc main_arg7) = m ((c : Thread nD τ).loc main_arg7) :=
  (StableHlo.after_of_writes_sub hostOps5 _ hostOps5_writes (by decide)).trans (W10_a7 m ρ c)
theorem W12_a7 (c : Dev nD) : W12 m ρ c (Proc.devRef .tc main_arg7) = m ((c : Thread nD τ).loc main_arg7) :=
  (W12_of_ne m ρ c main_arg7 (by decide)).trans (W11_a7 m ρ c)
theorem W13_a7 (c : Dev nD) : W13 m ρ c (Proc.devRef .tc main_arg7) = m ((c : Thread nD τ).loc main_arg7) :=
  (StableHlo.after_of_writes_sub hostOps6 _ hostOps6_writes (by decide)).trans (W12_a7 m ρ c)
theorem W14_a7 (c : Dev nD) : W14 m ρ c (Proc.devRef .tc main_arg7) = m ((c : Thread nD τ).loc main_arg7) :=
  (W14_of_ne m ρ c main_arg7 (by decide)).trans (W13_a7 m ρ c)
theorem W15_a7 (c : Dev nD) : W15 m ρ c (Proc.devRef .tc main_arg7) = m ((c : Thread nD τ).loc main_arg7) :=
  (StableHlo.after_of_writes_sub hostOps7 _ hostOps7_writes (by decide)).trans (W14_a7 m ρ c)
theorem W16_a7 (c : Dev nD) : W16 m ρ c (Proc.devRef .tc main_arg7) = m ((c : Thread nD τ).loc main_arg7) :=
  (W16_of_ne m ρ c main_arg7 (by decide)).trans (W15_a7 m ρ c)
theorem W17_a7 (c : Dev nD) : W17 m ρ c (Proc.devRef .tc main_arg7) = m ((c : Thread nD τ).loc main_arg7) :=
  (StableHlo.after_of_writes_sub hostOps8 _ hostOps8_writes (by decide)).trans (W16_a7 m ρ c)
theorem W18_a7 (c : Dev nD) : W18 m ρ c (Proc.devRef .tc main_arg7) = m ((c : Thread nD τ).loc main_arg7) :=
  (W18_of_ne m ρ c main_arg7 (by decide)).trans (W17_a7 m ρ c)
theorem W19_a7 (c : Dev nD) : W19 m ρ c (Proc.devRef .tc main_arg7) = m ((c : Thread nD τ).loc main_arg7) :=
  (StableHlo.after_of_writes_sub hostOps9 _ hostOps9_writes (by decide)).trans (W18_a7 m ρ c)
theorem W20_a7 (c : Dev nD) : W20 m ρ c (Proc.devRef .tc main_arg7) = m ((c : Thread nD τ).loc main_arg7) :=
  (W20_of_ne m ρ c main_arg7 (by decide)).trans (W19_a7 m ρ c)
theorem W21_a7 (c : Dev nD) : W21 m ρ c (Proc.devRef .tc main_arg7) = m ((c : Thread nD τ).loc main_arg7) :=
  (StableHlo.after_of_writes_sub hostOps10 _ hostOps10_writes (by decide)).trans (W20_a7 m ρ c)
theorem W22_a7 (c : Dev nD) : W22 m ρ c (Proc.devRef .tc main_arg7) = m ((c : Thread nD τ).loc main_arg7) :=
  (W22_of_ne m ρ c main_arg7 (by decide)).trans (W21_a7 m ρ c)
theorem W23_a7 (c : Dev nD) : W23 m ρ c (Proc.devRef .tc main_arg7) = m ((c : Thread nD τ).loc main_arg7) :=
  (StableHlo.after_of_writes_sub hostOps11 _ hostOps11_writes (by decide)).trans (W22_a7 m ρ c)
theorem W24_a7 (c : Dev nD) : W24 m ρ c (Proc.devRef .tc main_arg7) = m ((c : Thread nD τ).loc main_arg7) :=
  (W24_of_ne m ρ c main_arg7 (by decide)).trans (W23_a7 m ρ c)
theorem W1_a8 (c : Dev nD) : W1 m ρ c (Proc.devRef .tc main_arg8) = m ((c : Thread nD τ).loc main_arg8) :=
  (StableHlo.after_of_writes_sub hostOps0 _ hostOps0_writes (by decide)).trans rfl
theorem W2_a8 (c : Dev nD) : W2 m ρ c (Proc.devRef .tc main_arg8) = m ((c : Thread nD τ).loc main_arg8) :=
  (W2_of_ne m ρ c main_arg8 (by decide)).trans (W1_a8 m ρ c)
theorem W3_a8 (c : Dev nD) : W3 m ρ c (Proc.devRef .tc main_arg8) = m ((c : Thread nD τ).loc main_arg8) :=
  (StableHlo.after_of_writes_sub hostOps1 _ hostOps1_writes (by decide)).trans (W2_a8 m ρ c)
theorem W4_a8 (c : Dev nD) : W4 m ρ c (Proc.devRef .tc main_arg8) = m ((c : Thread nD τ).loc main_arg8) :=
  (W4_of_ne m ρ c main_arg8 (by decide)).trans (W3_a8 m ρ c)
theorem W5_a8 (c : Dev nD) : W5 m ρ c (Proc.devRef .tc main_arg8) = m ((c : Thread nD τ).loc main_arg8) :=
  (StableHlo.after_of_writes_sub hostOps2 _ hostOps2_writes (by decide)).trans (W4_a8 m ρ c)
theorem W6_a8 (c : Dev nD) : W6 m ρ c (Proc.devRef .tc main_arg8) = m ((c : Thread nD τ).loc main_arg8) :=
  (W6_of_ne m ρ c main_arg8 (by decide)).trans (W5_a8 m ρ c)
theorem W7_a8 (c : Dev nD) : W7 m ρ c (Proc.devRef .tc main_arg8) = m ((c : Thread nD τ).loc main_arg8) :=
  (StableHlo.after_of_writes_sub hostOps3 _ hostOps3_writes (by decide)).trans (W6_a8 m ρ c)
theorem W8_a8 (c : Dev nD) : W8 m ρ c (Proc.devRef .tc main_arg8) = m ((c : Thread nD τ).loc main_arg8) :=
  (W8_of_ne m ρ c main_arg8 (by decide)).trans (W7_a8 m ρ c)
theorem W9_a8 (c : Dev nD) : W9 m ρ c (Proc.devRef .tc main_arg8) = m ((c : Thread nD τ).loc main_arg8) :=
  (StableHlo.after_of_writes_sub hostOps4 _ hostOps4_writes (by decide)).trans (W8_a8 m ρ c)
theorem W10_a8 (c : Dev nD) : W10 m ρ c (Proc.devRef .tc main_arg8) = m ((c : Thread nD τ).loc main_arg8) :=
  (W10_of_ne m ρ c main_arg8 (by decide)).trans (W9_a8 m ρ c)
theorem W11_a8 (c : Dev nD) : W11 m ρ c (Proc.devRef .tc main_arg8) = m ((c : Thread nD τ).loc main_arg8) :=
  (StableHlo.after_of_writes_sub hostOps5 _ hostOps5_writes (by decide)).trans (W10_a8 m ρ c)
theorem W12_a8 (c : Dev nD) : W12 m ρ c (Proc.devRef .tc main_arg8) = m ((c : Thread nD τ).loc main_arg8) :=
  (W12_of_ne m ρ c main_arg8 (by decide)).trans (W11_a8 m ρ c)
theorem W13_a8 (c : Dev nD) : W13 m ρ c (Proc.devRef .tc main_arg8) = m ((c : Thread nD τ).loc main_arg8) :=
  (StableHlo.after_of_writes_sub hostOps6 _ hostOps6_writes (by decide)).trans (W12_a8 m ρ c)
theorem W14_a8 (c : Dev nD) : W14 m ρ c (Proc.devRef .tc main_arg8) = m ((c : Thread nD τ).loc main_arg8) :=
  (W14_of_ne m ρ c main_arg8 (by decide)).trans (W13_a8 m ρ c)
theorem W15_a8 (c : Dev nD) : W15 m ρ c (Proc.devRef .tc main_arg8) = m ((c : Thread nD τ).loc main_arg8) :=
  (StableHlo.after_of_writes_sub hostOps7 _ hostOps7_writes (by decide)).trans (W14_a8 m ρ c)
theorem W16_a8 (c : Dev nD) : W16 m ρ c (Proc.devRef .tc main_arg8) = m ((c : Thread nD τ).loc main_arg8) :=
  (W16_of_ne m ρ c main_arg8 (by decide)).trans (W15_a8 m ρ c)
theorem W17_a8 (c : Dev nD) : W17 m ρ c (Proc.devRef .tc main_arg8) = m ((c : Thread nD τ).loc main_arg8) :=
  (StableHlo.after_of_writes_sub hostOps8 _ hostOps8_writes (by decide)).trans (W16_a8 m ρ c)
theorem W18_a8 (c : Dev nD) : W18 m ρ c (Proc.devRef .tc main_arg8) = m ((c : Thread nD τ).loc main_arg8) :=
  (W18_of_ne m ρ c main_arg8 (by decide)).trans (W17_a8 m ρ c)
theorem W19_a8 (c : Dev nD) : W19 m ρ c (Proc.devRef .tc main_arg8) = m ((c : Thread nD τ).loc main_arg8) :=
  (StableHlo.after_of_writes_sub hostOps9 _ hostOps9_writes (by decide)).trans (W18_a8 m ρ c)
theorem W20_a8 (c : Dev nD) : W20 m ρ c (Proc.devRef .tc main_arg8) = m ((c : Thread nD τ).loc main_arg8) :=
  (W20_of_ne m ρ c main_arg8 (by decide)).trans (W19_a8 m ρ c)
theorem W21_a8 (c : Dev nD) : W21 m ρ c (Proc.devRef .tc main_arg8) = m ((c : Thread nD τ).loc main_arg8) :=
  (StableHlo.after_of_writes_sub hostOps10 _ hostOps10_writes (by decide)).trans (W20_a8 m ρ c)
theorem W22_a8 (c : Dev nD) : W22 m ρ c (Proc.devRef .tc main_arg8) = m ((c : Thread nD τ).loc main_arg8) :=
  (W22_of_ne m ρ c main_arg8 (by decide)).trans (W21_a8 m ρ c)
theorem W23_a8 (c : Dev nD) : W23 m ρ c (Proc.devRef .tc main_arg8) = m ((c : Thread nD τ).loc main_arg8) :=
  (StableHlo.after_of_writes_sub hostOps11 _ hostOps11_writes (by decide)).trans (W22_a8 m ρ c)
theorem W24_a8 (c : Dev nD) : W24 m ρ c (Proc.devRef .tc main_arg8) = m ((c : Thread nD τ).loc main_arg8) :=
  (W24_of_ne m ρ c main_arg8 (by decide)).trans (W23_a8 m ρ c)
theorem W1_a9 (c : Dev nD) : W1 m ρ c (Proc.devRef .tc main_arg9) = m ((c : Thread nD τ).loc main_arg9) :=
  (StableHlo.after_of_writes_sub hostOps0 _ hostOps0_writes (by decide)).trans rfl
theorem W2_a9 (c : Dev nD) : W2 m ρ c (Proc.devRef .tc main_arg9) = m ((c : Thread nD τ).loc main_arg9) :=
  (W2_of_ne m ρ c main_arg9 (by decide)).trans (W1_a9 m ρ c)
theorem W3_a9 (c : Dev nD) : W3 m ρ c (Proc.devRef .tc main_arg9) = m ((c : Thread nD τ).loc main_arg9) :=
  (StableHlo.after_of_writes_sub hostOps1 _ hostOps1_writes (by decide)).trans (W2_a9 m ρ c)
theorem W4_a9 (c : Dev nD) : W4 m ρ c (Proc.devRef .tc main_arg9) = m ((c : Thread nD τ).loc main_arg9) :=
  (W4_of_ne m ρ c main_arg9 (by decide)).trans (W3_a9 m ρ c)
theorem W5_a9 (c : Dev nD) : W5 m ρ c (Proc.devRef .tc main_arg9) = m ((c : Thread nD τ).loc main_arg9) :=
  (StableHlo.after_of_writes_sub hostOps2 _ hostOps2_writes (by decide)).trans (W4_a9 m ρ c)
theorem W6_a9 (c : Dev nD) : W6 m ρ c (Proc.devRef .tc main_arg9) = m ((c : Thread nD τ).loc main_arg9) :=
  (W6_of_ne m ρ c main_arg9 (by decide)).trans (W5_a9 m ρ c)
theorem W7_a9 (c : Dev nD) : W7 m ρ c (Proc.devRef .tc main_arg9) = m ((c : Thread nD τ).loc main_arg9) :=
  (StableHlo.after_of_writes_sub hostOps3 _ hostOps3_writes (by decide)).trans (W6_a9 m ρ c)
theorem W8_a9 (c : Dev nD) : W8 m ρ c (Proc.devRef .tc main_arg9) = m ((c : Thread nD τ).loc main_arg9) :=
  (W8_of_ne m ρ c main_arg9 (by decide)).trans (W7_a9 m ρ c)
theorem W9_a9 (c : Dev nD) : W9 m ρ c (Proc.devRef .tc main_arg9) = m ((c : Thread nD τ).loc main_arg9) :=
  (StableHlo.after_of_writes_sub hostOps4 _ hostOps4_writes (by decide)).trans (W8_a9 m ρ c)
theorem W10_a9 (c : Dev nD) : W10 m ρ c (Proc.devRef .tc main_arg9) = m ((c : Thread nD τ).loc main_arg9) :=
  (W10_of_ne m ρ c main_arg9 (by decide)).trans (W9_a9 m ρ c)
theorem W11_a9 (c : Dev nD) : W11 m ρ c (Proc.devRef .tc main_arg9) = m ((c : Thread nD τ).loc main_arg9) :=
  (StableHlo.after_of_writes_sub hostOps5 _ hostOps5_writes (by decide)).trans (W10_a9 m ρ c)
theorem W12_a9 (c : Dev nD) : W12 m ρ c (Proc.devRef .tc main_arg9) = m ((c : Thread nD τ).loc main_arg9) :=
  (W12_of_ne m ρ c main_arg9 (by decide)).trans (W11_a9 m ρ c)
theorem W13_a9 (c : Dev nD) : W13 m ρ c (Proc.devRef .tc main_arg9) = m ((c : Thread nD τ).loc main_arg9) :=
  (StableHlo.after_of_writes_sub hostOps6 _ hostOps6_writes (by decide)).trans (W12_a9 m ρ c)
theorem W14_a9 (c : Dev nD) : W14 m ρ c (Proc.devRef .tc main_arg9) = m ((c : Thread nD τ).loc main_arg9) :=
  (W14_of_ne m ρ c main_arg9 (by decide)).trans (W13_a9 m ρ c)
theorem W15_a9 (c : Dev nD) : W15 m ρ c (Proc.devRef .tc main_arg9) = m ((c : Thread nD τ).loc main_arg9) :=
  (StableHlo.after_of_writes_sub hostOps7 _ hostOps7_writes (by decide)).trans (W14_a9 m ρ c)
theorem W16_a9 (c : Dev nD) : W16 m ρ c (Proc.devRef .tc main_arg9) = m ((c : Thread nD τ).loc main_arg9) :=
  (W16_of_ne m ρ c main_arg9 (by decide)).trans (W15_a9 m ρ c)
theorem W17_a9 (c : Dev nD) : W17 m ρ c (Proc.devRef .tc main_arg9) = m ((c : Thread nD τ).loc main_arg9) :=
  (StableHlo.after_of_writes_sub hostOps8 _ hostOps8_writes (by decide)).trans (W16_a9 m ρ c)
theorem W18_a9 (c : Dev nD) : W18 m ρ c (Proc.devRef .tc main_arg9) = m ((c : Thread nD τ).loc main_arg9) :=
  (W18_of_ne m ρ c main_arg9 (by decide)).trans (W17_a9 m ρ c)
theorem W19_a9 (c : Dev nD) : W19 m ρ c (Proc.devRef .tc main_arg9) = m ((c : Thread nD τ).loc main_arg9) :=
  (StableHlo.after_of_writes_sub hostOps9 _ hostOps9_writes (by decide)).trans (W18_a9 m ρ c)
theorem W20_a9 (c : Dev nD) : W20 m ρ c (Proc.devRef .tc main_arg9) = m ((c : Thread nD τ).loc main_arg9) :=
  (W20_of_ne m ρ c main_arg9 (by decide)).trans (W19_a9 m ρ c)
theorem W21_a9 (c : Dev nD) : W21 m ρ c (Proc.devRef .tc main_arg9) = m ((c : Thread nD τ).loc main_arg9) :=
  (StableHlo.after_of_writes_sub hostOps10 _ hostOps10_writes (by decide)).trans (W20_a9 m ρ c)
theorem W22_a9 (c : Dev nD) : W22 m ρ c (Proc.devRef .tc main_arg9) = m ((c : Thread nD τ).loc main_arg9) :=
  (W22_of_ne m ρ c main_arg9 (by decide)).trans (W21_a9 m ρ c)
theorem W23_a9 (c : Dev nD) : W23 m ρ c (Proc.devRef .tc main_arg9) = m ((c : Thread nD τ).loc main_arg9) :=
  (StableHlo.after_of_writes_sub hostOps11 _ hostOps11_writes (by decide)).trans (W22_a9 m ρ c)
theorem W24_a9 (c : Dev nD) : W24 m ρ c (Proc.devRef .tc main_arg9) = m ((c : Thread nD τ).loc main_arg9) :=
  (W24_of_ne m ρ c main_arg9 (by decide)).trans (W23_a9 m ρ c)
theorem W1_a10 (c : Dev nD) : W1 m ρ c (Proc.devRef .tc main_arg10) = m ((c : Thread nD τ).loc main_arg10) :=
  (StableHlo.after_of_writes_sub hostOps0 _ hostOps0_writes (by decide)).trans rfl
theorem W2_a10 (c : Dev nD) : W2 m ρ c (Proc.devRef .tc main_arg10) = m ((c : Thread nD τ).loc main_arg10) :=
  (W2_of_ne m ρ c main_arg10 (by decide)).trans (W1_a10 m ρ c)
theorem W3_a10 (c : Dev nD) : W3 m ρ c (Proc.devRef .tc main_arg10) = m ((c : Thread nD τ).loc main_arg10) :=
  (StableHlo.after_of_writes_sub hostOps1 _ hostOps1_writes (by decide)).trans (W2_a10 m ρ c)
theorem W4_a10 (c : Dev nD) : W4 m ρ c (Proc.devRef .tc main_arg10) = m ((c : Thread nD τ).loc main_arg10) :=
  (W4_of_ne m ρ c main_arg10 (by decide)).trans (W3_a10 m ρ c)
theorem W5_a10 (c : Dev nD) : W5 m ρ c (Proc.devRef .tc main_arg10) = m ((c : Thread nD τ).loc main_arg10) :=
  (StableHlo.after_of_writes_sub hostOps2 _ hostOps2_writes (by decide)).trans (W4_a10 m ρ c)
theorem W6_a10 (c : Dev nD) : W6 m ρ c (Proc.devRef .tc main_arg10) = m ((c : Thread nD τ).loc main_arg10) :=
  (W6_of_ne m ρ c main_arg10 (by decide)).trans (W5_a10 m ρ c)
theorem W7_a10 (c : Dev nD) : W7 m ρ c (Proc.devRef .tc main_arg10) = m ((c : Thread nD τ).loc main_arg10) :=
  (StableHlo.after_of_writes_sub hostOps3 _ hostOps3_writes (by decide)).trans (W6_a10 m ρ c)
theorem W8_a10 (c : Dev nD) : W8 m ρ c (Proc.devRef .tc main_arg10) = m ((c : Thread nD τ).loc main_arg10) :=
  (W8_of_ne m ρ c main_arg10 (by decide)).trans (W7_a10 m ρ c)
theorem W9_a10 (c : Dev nD) : W9 m ρ c (Proc.devRef .tc main_arg10) = m ((c : Thread nD τ).loc main_arg10) :=
  (StableHlo.after_of_writes_sub hostOps4 _ hostOps4_writes (by decide)).trans (W8_a10 m ρ c)
theorem W10_a10 (c : Dev nD) : W10 m ρ c (Proc.devRef .tc main_arg10) = m ((c : Thread nD τ).loc main_arg10) :=
  (W10_of_ne m ρ c main_arg10 (by decide)).trans (W9_a10 m ρ c)
theorem W11_a10 (c : Dev nD) : W11 m ρ c (Proc.devRef .tc main_arg10) = m ((c : Thread nD τ).loc main_arg10) :=
  (StableHlo.after_of_writes_sub hostOps5 _ hostOps5_writes (by decide)).trans (W10_a10 m ρ c)
theorem W12_a10 (c : Dev nD) : W12 m ρ c (Proc.devRef .tc main_arg10) = m ((c : Thread nD τ).loc main_arg10) :=
  (W12_of_ne m ρ c main_arg10 (by decide)).trans (W11_a10 m ρ c)
theorem W13_a10 (c : Dev nD) : W13 m ρ c (Proc.devRef .tc main_arg10) = m ((c : Thread nD τ).loc main_arg10) :=
  (StableHlo.after_of_writes_sub hostOps6 _ hostOps6_writes (by decide)).trans (W12_a10 m ρ c)
theorem W14_a10 (c : Dev nD) : W14 m ρ c (Proc.devRef .tc main_arg10) = m ((c : Thread nD τ).loc main_arg10) :=
  (W14_of_ne m ρ c main_arg10 (by decide)).trans (W13_a10 m ρ c)
theorem W15_a10 (c : Dev nD) : W15 m ρ c (Proc.devRef .tc main_arg10) = m ((c : Thread nD τ).loc main_arg10) :=
  (StableHlo.after_of_writes_sub hostOps7 _ hostOps7_writes (by decide)).trans (W14_a10 m ρ c)
theorem W16_a10 (c : Dev nD) : W16 m ρ c (Proc.devRef .tc main_arg10) = m ((c : Thread nD τ).loc main_arg10) :=
  (W16_of_ne m ρ c main_arg10 (by decide)).trans (W15_a10 m ρ c)
theorem W17_a10 (c : Dev nD) : W17 m ρ c (Proc.devRef .tc main_arg10) = m ((c : Thread nD τ).loc main_arg10) :=
  (StableHlo.after_of_writes_sub hostOps8 _ hostOps8_writes (by decide)).trans (W16_a10 m ρ c)
theorem W18_a10 (c : Dev nD) : W18 m ρ c (Proc.devRef .tc main_arg10) = m ((c : Thread nD τ).loc main_arg10) :=
  (W18_of_ne m ρ c main_arg10 (by decide)).trans (W17_a10 m ρ c)
theorem W19_a10 (c : Dev nD) : W19 m ρ c (Proc.devRef .tc main_arg10) = m ((c : Thread nD τ).loc main_arg10) :=
  (StableHlo.after_of_writes_sub hostOps9 _ hostOps9_writes (by decide)).trans (W18_a10 m ρ c)
theorem W20_a10 (c : Dev nD) : W20 m ρ c (Proc.devRef .tc main_arg10) = m ((c : Thread nD τ).loc main_arg10) :=
  (W20_of_ne m ρ c main_arg10 (by decide)).trans (W19_a10 m ρ c)
theorem W21_a10 (c : Dev nD) : W21 m ρ c (Proc.devRef .tc main_arg10) = m ((c : Thread nD τ).loc main_arg10) :=
  (StableHlo.after_of_writes_sub hostOps10 _ hostOps10_writes (by decide)).trans (W20_a10 m ρ c)
theorem W22_a10 (c : Dev nD) : W22 m ρ c (Proc.devRef .tc main_arg10) = m ((c : Thread nD τ).loc main_arg10) :=
  (W22_of_ne m ρ c main_arg10 (by decide)).trans (W21_a10 m ρ c)
theorem W23_a10 (c : Dev nD) : W23 m ρ c (Proc.devRef .tc main_arg10) = m ((c : Thread nD τ).loc main_arg10) :=
  (StableHlo.after_of_writes_sub hostOps11 _ hostOps11_writes (by decide)).trans (W22_a10 m ρ c)
theorem W24_a10 (c : Dev nD) : W24 m ρ c (Proc.devRef .tc main_arg10) = m ((c : Thread nD τ).loc main_arg10) :=
  (W24_of_ne m ρ c main_arg10 (by decide)).trans (W23_a10 m ρ c)
theorem W1_a11 (c : Dev nD) : W1 m ρ c (Proc.devRef .tc main_arg11) = m ((c : Thread nD τ).loc main_arg11) :=
  (StableHlo.after_of_writes_sub hostOps0 _ hostOps0_writes (by decide)).trans rfl
theorem W2_a11 (c : Dev nD) : W2 m ρ c (Proc.devRef .tc main_arg11) = m ((c : Thread nD τ).loc main_arg11) :=
  (W2_of_ne m ρ c main_arg11 (by decide)).trans (W1_a11 m ρ c)
theorem W3_a11 (c : Dev nD) : W3 m ρ c (Proc.devRef .tc main_arg11) = m ((c : Thread nD τ).loc main_arg11) :=
  (StableHlo.after_of_writes_sub hostOps1 _ hostOps1_writes (by decide)).trans (W2_a11 m ρ c)
theorem W4_a11 (c : Dev nD) : W4 m ρ c (Proc.devRef .tc main_arg11) = m ((c : Thread nD τ).loc main_arg11) :=
  (W4_of_ne m ρ c main_arg11 (by decide)).trans (W3_a11 m ρ c)
theorem W5_a11 (c : Dev nD) : W5 m ρ c (Proc.devRef .tc main_arg11) = m ((c : Thread nD τ).loc main_arg11) :=
  (StableHlo.after_of_writes_sub hostOps2 _ hostOps2_writes (by decide)).trans (W4_a11 m ρ c)
theorem W6_a11 (c : Dev nD) : W6 m ρ c (Proc.devRef .tc main_arg11) = m ((c : Thread nD τ).loc main_arg11) :=
  (W6_of_ne m ρ c main_arg11 (by decide)).trans (W5_a11 m ρ c)
theorem W7_a11 (c : Dev nD) : W7 m ρ c (Proc.devRef .tc main_arg11) = m ((c : Thread nD τ).loc main_arg11) :=
  (StableHlo.after_of_writes_sub hostOps3 _ hostOps3_writes (by decide)).trans (W6_a11 m ρ c)
theorem W8_a11 (c : Dev nD) : W8 m ρ c (Proc.devRef .tc main_arg11) = m ((c : Thread nD τ).loc main_arg11) :=
  (W8_of_ne m ρ c main_arg11 (by decide)).trans (W7_a11 m ρ c)
theorem W9_a11 (c : Dev nD) : W9 m ρ c (Proc.devRef .tc main_arg11) = m ((c : Thread nD τ).loc main_arg11) :=
  (StableHlo.after_of_writes_sub hostOps4 _ hostOps4_writes (by decide)).trans (W8_a11 m ρ c)
theorem W10_a11 (c : Dev nD) : W10 m ρ c (Proc.devRef .tc main_arg11) = m ((c : Thread nD τ).loc main_arg11) :=
  (W10_of_ne m ρ c main_arg11 (by decide)).trans (W9_a11 m ρ c)
theorem W11_a11 (c : Dev nD) : W11 m ρ c (Proc.devRef .tc main_arg11) = m ((c : Thread nD τ).loc main_arg11) :=
  (StableHlo.after_of_writes_sub hostOps5 _ hostOps5_writes (by decide)).trans (W10_a11 m ρ c)
theorem W12_a11 (c : Dev nD) : W12 m ρ c (Proc.devRef .tc main_arg11) = m ((c : Thread nD τ).loc main_arg11) :=
  (W12_of_ne m ρ c main_arg11 (by decide)).trans (W11_a11 m ρ c)
theorem W13_a11 (c : Dev nD) : W13 m ρ c (Proc.devRef .tc main_arg11) = m ((c : Thread nD τ).loc main_arg11) :=
  (StableHlo.after_of_writes_sub hostOps6 _ hostOps6_writes (by decide)).trans (W12_a11 m ρ c)
theorem W14_a11 (c : Dev nD) : W14 m ρ c (Proc.devRef .tc main_arg11) = m ((c : Thread nD τ).loc main_arg11) :=
  (W14_of_ne m ρ c main_arg11 (by decide)).trans (W13_a11 m ρ c)
theorem W15_a11 (c : Dev nD) : W15 m ρ c (Proc.devRef .tc main_arg11) = m ((c : Thread nD τ).loc main_arg11) :=
  (StableHlo.after_of_writes_sub hostOps7 _ hostOps7_writes (by decide)).trans (W14_a11 m ρ c)
theorem W16_a11 (c : Dev nD) : W16 m ρ c (Proc.devRef .tc main_arg11) = m ((c : Thread nD τ).loc main_arg11) :=
  (W16_of_ne m ρ c main_arg11 (by decide)).trans (W15_a11 m ρ c)
theorem W17_a11 (c : Dev nD) : W17 m ρ c (Proc.devRef .tc main_arg11) = m ((c : Thread nD τ).loc main_arg11) :=
  (StableHlo.after_of_writes_sub hostOps8 _ hostOps8_writes (by decide)).trans (W16_a11 m ρ c)
theorem W18_a11 (c : Dev nD) : W18 m ρ c (Proc.devRef .tc main_arg11) = m ((c : Thread nD τ).loc main_arg11) :=
  (W18_of_ne m ρ c main_arg11 (by decide)).trans (W17_a11 m ρ c)
theorem W19_a11 (c : Dev nD) : W19 m ρ c (Proc.devRef .tc main_arg11) = m ((c : Thread nD τ).loc main_arg11) :=
  (StableHlo.after_of_writes_sub hostOps9 _ hostOps9_writes (by decide)).trans (W18_a11 m ρ c)
theorem W20_a11 (c : Dev nD) : W20 m ρ c (Proc.devRef .tc main_arg11) = m ((c : Thread nD τ).loc main_arg11) :=
  (W20_of_ne m ρ c main_arg11 (by decide)).trans (W19_a11 m ρ c)
theorem W21_a11 (c : Dev nD) : W21 m ρ c (Proc.devRef .tc main_arg11) = m ((c : Thread nD τ).loc main_arg11) :=
  (StableHlo.after_of_writes_sub hostOps10 _ hostOps10_writes (by decide)).trans (W20_a11 m ρ c)
theorem W22_a11 (c : Dev nD) : W22 m ρ c (Proc.devRef .tc main_arg11) = m ((c : Thread nD τ).loc main_arg11) :=
  (W22_of_ne m ρ c main_arg11 (by decide)).trans (W21_a11 m ρ c)
theorem W23_a11 (c : Dev nD) : W23 m ρ c (Proc.devRef .tc main_arg11) = m ((c : Thread nD τ).loc main_arg11) :=
  (StableHlo.after_of_writes_sub hostOps11 _ hostOps11_writes (by decide)).trans (W22_a11 m ρ c)
theorem W24_a11 (c : Dev nD) : W24 m ρ c (Proc.devRef .tc main_arg11) = m ((c : Thread nD τ).loc main_arg11) :=
  (W24_of_ne m ρ c main_arg11 (by decide)).trans (W23_a11 m ρ c)
theorem W1_a12 (c : Dev nD) : W1 m ρ c (Proc.devRef .tc main_arg12) = m ((c : Thread nD τ).loc main_arg12) :=
  (StableHlo.after_of_writes_sub hostOps0 _ hostOps0_writes (by decide)).trans rfl
theorem W2_a12 (c : Dev nD) : W2 m ρ c (Proc.devRef .tc main_arg12) = m ((c : Thread nD τ).loc main_arg12) :=
  (W2_of_ne m ρ c main_arg12 (by decide)).trans (W1_a12 m ρ c)
theorem W3_a12 (c : Dev nD) : W3 m ρ c (Proc.devRef .tc main_arg12) = m ((c : Thread nD τ).loc main_arg12) :=
  (StableHlo.after_of_writes_sub hostOps1 _ hostOps1_writes (by decide)).trans (W2_a12 m ρ c)
theorem W4_a12 (c : Dev nD) : W4 m ρ c (Proc.devRef .tc main_arg12) = m ((c : Thread nD τ).loc main_arg12) :=
  (W4_of_ne m ρ c main_arg12 (by decide)).trans (W3_a12 m ρ c)
theorem W5_a12 (c : Dev nD) : W5 m ρ c (Proc.devRef .tc main_arg12) = m ((c : Thread nD τ).loc main_arg12) :=
  (StableHlo.after_of_writes_sub hostOps2 _ hostOps2_writes (by decide)).trans (W4_a12 m ρ c)
theorem W6_a12 (c : Dev nD) : W6 m ρ c (Proc.devRef .tc main_arg12) = m ((c : Thread nD τ).loc main_arg12) :=
  (W6_of_ne m ρ c main_arg12 (by decide)).trans (W5_a12 m ρ c)
theorem W7_a12 (c : Dev nD) : W7 m ρ c (Proc.devRef .tc main_arg12) = m ((c : Thread nD τ).loc main_arg12) :=
  (StableHlo.after_of_writes_sub hostOps3 _ hostOps3_writes (by decide)).trans (W6_a12 m ρ c)
theorem W8_a12 (c : Dev nD) : W8 m ρ c (Proc.devRef .tc main_arg12) = m ((c : Thread nD τ).loc main_arg12) :=
  (W8_of_ne m ρ c main_arg12 (by decide)).trans (W7_a12 m ρ c)
theorem W9_a12 (c : Dev nD) : W9 m ρ c (Proc.devRef .tc main_arg12) = m ((c : Thread nD τ).loc main_arg12) :=
  (StableHlo.after_of_writes_sub hostOps4 _ hostOps4_writes (by decide)).trans (W8_a12 m ρ c)
theorem W10_a12 (c : Dev nD) : W10 m ρ c (Proc.devRef .tc main_arg12) = m ((c : Thread nD τ).loc main_arg12) :=
  (W10_of_ne m ρ c main_arg12 (by decide)).trans (W9_a12 m ρ c)
theorem W11_a12 (c : Dev nD) : W11 m ρ c (Proc.devRef .tc main_arg12) = m ((c : Thread nD τ).loc main_arg12) :=
  (StableHlo.after_of_writes_sub hostOps5 _ hostOps5_writes (by decide)).trans (W10_a12 m ρ c)
theorem W12_a12 (c : Dev nD) : W12 m ρ c (Proc.devRef .tc main_arg12) = m ((c : Thread nD τ).loc main_arg12) :=
  (W12_of_ne m ρ c main_arg12 (by decide)).trans (W11_a12 m ρ c)
theorem W13_a12 (c : Dev nD) : W13 m ρ c (Proc.devRef .tc main_arg12) = m ((c : Thread nD τ).loc main_arg12) :=
  (StableHlo.after_of_writes_sub hostOps6 _ hostOps6_writes (by decide)).trans (W12_a12 m ρ c)
theorem W14_a12 (c : Dev nD) : W14 m ρ c (Proc.devRef .tc main_arg12) = m ((c : Thread nD τ).loc main_arg12) :=
  (W14_of_ne m ρ c main_arg12 (by decide)).trans (W13_a12 m ρ c)
theorem W15_a12 (c : Dev nD) : W15 m ρ c (Proc.devRef .tc main_arg12) = m ((c : Thread nD τ).loc main_arg12) :=
  (StableHlo.after_of_writes_sub hostOps7 _ hostOps7_writes (by decide)).trans (W14_a12 m ρ c)
theorem W16_a12 (c : Dev nD) : W16 m ρ c (Proc.devRef .tc main_arg12) = m ((c : Thread nD τ).loc main_arg12) :=
  (W16_of_ne m ρ c main_arg12 (by decide)).trans (W15_a12 m ρ c)
theorem W17_a12 (c : Dev nD) : W17 m ρ c (Proc.devRef .tc main_arg12) = m ((c : Thread nD τ).loc main_arg12) :=
  (StableHlo.after_of_writes_sub hostOps8 _ hostOps8_writes (by decide)).trans (W16_a12 m ρ c)
theorem W18_a12 (c : Dev nD) : W18 m ρ c (Proc.devRef .tc main_arg12) = m ((c : Thread nD τ).loc main_arg12) :=
  (W18_of_ne m ρ c main_arg12 (by decide)).trans (W17_a12 m ρ c)
theorem W19_a12 (c : Dev nD) : W19 m ρ c (Proc.devRef .tc main_arg12) = m ((c : Thread nD τ).loc main_arg12) :=
  (StableHlo.after_of_writes_sub hostOps9 _ hostOps9_writes (by decide)).trans (W18_a12 m ρ c)
theorem W20_a12 (c : Dev nD) : W20 m ρ c (Proc.devRef .tc main_arg12) = m ((c : Thread nD τ).loc main_arg12) :=
  (W20_of_ne m ρ c main_arg12 (by decide)).trans (W19_a12 m ρ c)
theorem W21_a12 (c : Dev nD) : W21 m ρ c (Proc.devRef .tc main_arg12) = m ((c : Thread nD τ).loc main_arg12) :=
  (StableHlo.after_of_writes_sub hostOps10 _ hostOps10_writes (by decide)).trans (W20_a12 m ρ c)
theorem W22_a12 (c : Dev nD) : W22 m ρ c (Proc.devRef .tc main_arg12) = m ((c : Thread nD τ).loc main_arg12) :=
  (W22_of_ne m ρ c main_arg12 (by decide)).trans (W21_a12 m ρ c)
theorem W23_a12 (c : Dev nD) : W23 m ρ c (Proc.devRef .tc main_arg12) = m ((c : Thread nD τ).loc main_arg12) :=
  (StableHlo.after_of_writes_sub hostOps11 _ hostOps11_writes (by decide)).trans (W22_a12 m ρ c)
theorem W24_a12 (c : Dev nD) : W24 m ρ c (Proc.devRef .tc main_arg12) = m ((c : Thread nD τ).loc main_arg12) :=
  (W24_of_ne m ρ c main_arg12 (by decide)).trans (W23_a12 m ρ c)
theorem W1_a13 (c : Dev nD) : W1 m ρ c (Proc.devRef .tc main_arg13) = m ((c : Thread nD τ).loc main_arg13) :=
  (StableHlo.after_of_writes_sub hostOps0 _ hostOps0_writes (by decide)).trans rfl
theorem W2_a13 (c : Dev nD) : W2 m ρ c (Proc.devRef .tc main_arg13) = m ((c : Thread nD τ).loc main_arg13) :=
  (W2_of_ne m ρ c main_arg13 (by decide)).trans (W1_a13 m ρ c)
theorem W3_a13 (c : Dev nD) : W3 m ρ c (Proc.devRef .tc main_arg13) = m ((c : Thread nD τ).loc main_arg13) :=
  (StableHlo.after_of_writes_sub hostOps1 _ hostOps1_writes (by decide)).trans (W2_a13 m ρ c)
theorem W4_a13 (c : Dev nD) : W4 m ρ c (Proc.devRef .tc main_arg13) = m ((c : Thread nD τ).loc main_arg13) :=
  (W4_of_ne m ρ c main_arg13 (by decide)).trans (W3_a13 m ρ c)
theorem W5_a13 (c : Dev nD) : W5 m ρ c (Proc.devRef .tc main_arg13) = m ((c : Thread nD τ).loc main_arg13) :=
  (StableHlo.after_of_writes_sub hostOps2 _ hostOps2_writes (by decide)).trans (W4_a13 m ρ c)
theorem W6_a13 (c : Dev nD) : W6 m ρ c (Proc.devRef .tc main_arg13) = m ((c : Thread nD τ).loc main_arg13) :=
  (W6_of_ne m ρ c main_arg13 (by decide)).trans (W5_a13 m ρ c)
theorem W7_a13 (c : Dev nD) : W7 m ρ c (Proc.devRef .tc main_arg13) = m ((c : Thread nD τ).loc main_arg13) :=
  (StableHlo.after_of_writes_sub hostOps3 _ hostOps3_writes (by decide)).trans (W6_a13 m ρ c)
theorem W8_a13 (c : Dev nD) : W8 m ρ c (Proc.devRef .tc main_arg13) = m ((c : Thread nD τ).loc main_arg13) :=
  (W8_of_ne m ρ c main_arg13 (by decide)).trans (W7_a13 m ρ c)
theorem W9_a13 (c : Dev nD) : W9 m ρ c (Proc.devRef .tc main_arg13) = m ((c : Thread nD τ).loc main_arg13) :=
  (StableHlo.after_of_writes_sub hostOps4 _ hostOps4_writes (by decide)).trans (W8_a13 m ρ c)
theorem W10_a13 (c : Dev nD) : W10 m ρ c (Proc.devRef .tc main_arg13) = m ((c : Thread nD τ).loc main_arg13) :=
  (W10_of_ne m ρ c main_arg13 (by decide)).trans (W9_a13 m ρ c)
theorem W11_a13 (c : Dev nD) : W11 m ρ c (Proc.devRef .tc main_arg13) = m ((c : Thread nD τ).loc main_arg13) :=
  (StableHlo.after_of_writes_sub hostOps5 _ hostOps5_writes (by decide)).trans (W10_a13 m ρ c)
theorem W12_a13 (c : Dev nD) : W12 m ρ c (Proc.devRef .tc main_arg13) = m ((c : Thread nD τ).loc main_arg13) :=
  (W12_of_ne m ρ c main_arg13 (by decide)).trans (W11_a13 m ρ c)
theorem W13_a13 (c : Dev nD) : W13 m ρ c (Proc.devRef .tc main_arg13) = m ((c : Thread nD τ).loc main_arg13) :=
  (StableHlo.after_of_writes_sub hostOps6 _ hostOps6_writes (by decide)).trans (W12_a13 m ρ c)
theorem W14_a13 (c : Dev nD) : W14 m ρ c (Proc.devRef .tc main_arg13) = m ((c : Thread nD τ).loc main_arg13) :=
  (W14_of_ne m ρ c main_arg13 (by decide)).trans (W13_a13 m ρ c)
theorem W15_a13 (c : Dev nD) : W15 m ρ c (Proc.devRef .tc main_arg13) = m ((c : Thread nD τ).loc main_arg13) :=
  (StableHlo.after_of_writes_sub hostOps7 _ hostOps7_writes (by decide)).trans (W14_a13 m ρ c)
theorem W16_a13 (c : Dev nD) : W16 m ρ c (Proc.devRef .tc main_arg13) = m ((c : Thread nD τ).loc main_arg13) :=
  (W16_of_ne m ρ c main_arg13 (by decide)).trans (W15_a13 m ρ c)
theorem W17_a13 (c : Dev nD) : W17 m ρ c (Proc.devRef .tc main_arg13) = m ((c : Thread nD τ).loc main_arg13) :=
  (StableHlo.after_of_writes_sub hostOps8 _ hostOps8_writes (by decide)).trans (W16_a13 m ρ c)
theorem W18_a13 (c : Dev nD) : W18 m ρ c (Proc.devRef .tc main_arg13) = m ((c : Thread nD τ).loc main_arg13) :=
  (W18_of_ne m ρ c main_arg13 (by decide)).trans (W17_a13 m ρ c)
theorem W19_a13 (c : Dev nD) : W19 m ρ c (Proc.devRef .tc main_arg13) = m ((c : Thread nD τ).loc main_arg13) :=
  (StableHlo.after_of_writes_sub hostOps9 _ hostOps9_writes (by decide)).trans (W18_a13 m ρ c)
theorem W20_a13 (c : Dev nD) : W20 m ρ c (Proc.devRef .tc main_arg13) = m ((c : Thread nD τ).loc main_arg13) :=
  (W20_of_ne m ρ c main_arg13 (by decide)).trans (W19_a13 m ρ c)
theorem W21_a13 (c : Dev nD) : W21 m ρ c (Proc.devRef .tc main_arg13) = m ((c : Thread nD τ).loc main_arg13) :=
  (StableHlo.after_of_writes_sub hostOps10 _ hostOps10_writes (by decide)).trans (W20_a13 m ρ c)
theorem W22_a13 (c : Dev nD) : W22 m ρ c (Proc.devRef .tc main_arg13) = m ((c : Thread nD τ).loc main_arg13) :=
  (W22_of_ne m ρ c main_arg13 (by decide)).trans (W21_a13 m ρ c)
theorem W23_a13 (c : Dev nD) : W23 m ρ c (Proc.devRef .tc main_arg13) = m ((c : Thread nD τ).loc main_arg13) :=
  (StableHlo.after_of_writes_sub hostOps11 _ hostOps11_writes (by decide)).trans (W22_a13 m ρ c)
theorem W24_a13 (c : Dev nD) : W24 m ρ c (Proc.devRef .tc main_arg13) = m ((c : Thread nD τ).loc main_arg13) :=
  (W24_of_ne m ρ c main_arg13 (by decide)).trans (W23_a13 m ρ c)
theorem W1_a14 (c : Dev nD) : W1 m ρ c (Proc.devRef .tc main_arg14) = m ((c : Thread nD τ).loc main_arg14) :=
  (StableHlo.after_of_writes_sub hostOps0 _ hostOps0_writes (by decide)).trans rfl
theorem W2_a14 (c : Dev nD) : W2 m ρ c (Proc.devRef .tc main_arg14) = m ((c : Thread nD τ).loc main_arg14) :=
  (W2_of_ne m ρ c main_arg14 (by decide)).trans (W1_a14 m ρ c)
theorem W3_a14 (c : Dev nD) : W3 m ρ c (Proc.devRef .tc main_arg14) = m ((c : Thread nD τ).loc main_arg14) :=
  (StableHlo.after_of_writes_sub hostOps1 _ hostOps1_writes (by decide)).trans (W2_a14 m ρ c)
theorem W4_a14 (c : Dev nD) : W4 m ρ c (Proc.devRef .tc main_arg14) = m ((c : Thread nD τ).loc main_arg14) :=
  (W4_of_ne m ρ c main_arg14 (by decide)).trans (W3_a14 m ρ c)
theorem W5_a14 (c : Dev nD) : W5 m ρ c (Proc.devRef .tc main_arg14) = m ((c : Thread nD τ).loc main_arg14) :=
  (StableHlo.after_of_writes_sub hostOps2 _ hostOps2_writes (by decide)).trans (W4_a14 m ρ c)
theorem W6_a14 (c : Dev nD) : W6 m ρ c (Proc.devRef .tc main_arg14) = m ((c : Thread nD τ).loc main_arg14) :=
  (W6_of_ne m ρ c main_arg14 (by decide)).trans (W5_a14 m ρ c)
theorem W7_a14 (c : Dev nD) : W7 m ρ c (Proc.devRef .tc main_arg14) = m ((c : Thread nD τ).loc main_arg14) :=
  (StableHlo.after_of_writes_sub hostOps3 _ hostOps3_writes (by decide)).trans (W6_a14 m ρ c)
theorem W8_a14 (c : Dev nD) : W8 m ρ c (Proc.devRef .tc main_arg14) = m ((c : Thread nD τ).loc main_arg14) :=
  (W8_of_ne m ρ c main_arg14 (by decide)).trans (W7_a14 m ρ c)
theorem W9_a14 (c : Dev nD) : W9 m ρ c (Proc.devRef .tc main_arg14) = m ((c : Thread nD τ).loc main_arg14) :=
  (StableHlo.after_of_writes_sub hostOps4 _ hostOps4_writes (by decide)).trans (W8_a14 m ρ c)
theorem W10_a14 (c : Dev nD) : W10 m ρ c (Proc.devRef .tc main_arg14) = m ((c : Thread nD τ).loc main_arg14) :=
  (W10_of_ne m ρ c main_arg14 (by decide)).trans (W9_a14 m ρ c)
theorem W11_a14 (c : Dev nD) : W11 m ρ c (Proc.devRef .tc main_arg14) = m ((c : Thread nD τ).loc main_arg14) :=
  (StableHlo.after_of_writes_sub hostOps5 _ hostOps5_writes (by decide)).trans (W10_a14 m ρ c)
theorem W12_a14 (c : Dev nD) : W12 m ρ c (Proc.devRef .tc main_arg14) = m ((c : Thread nD τ).loc main_arg14) :=
  (W12_of_ne m ρ c main_arg14 (by decide)).trans (W11_a14 m ρ c)
theorem W13_a14 (c : Dev nD) : W13 m ρ c (Proc.devRef .tc main_arg14) = m ((c : Thread nD τ).loc main_arg14) :=
  (StableHlo.after_of_writes_sub hostOps6 _ hostOps6_writes (by decide)).trans (W12_a14 m ρ c)
theorem W14_a14 (c : Dev nD) : W14 m ρ c (Proc.devRef .tc main_arg14) = m ((c : Thread nD τ).loc main_arg14) :=
  (W14_of_ne m ρ c main_arg14 (by decide)).trans (W13_a14 m ρ c)
theorem W15_a14 (c : Dev nD) : W15 m ρ c (Proc.devRef .tc main_arg14) = m ((c : Thread nD τ).loc main_arg14) :=
  (StableHlo.after_of_writes_sub hostOps7 _ hostOps7_writes (by decide)).trans (W14_a14 m ρ c)
theorem W16_a14 (c : Dev nD) : W16 m ρ c (Proc.devRef .tc main_arg14) = m ((c : Thread nD τ).loc main_arg14) :=
  (W16_of_ne m ρ c main_arg14 (by decide)).trans (W15_a14 m ρ c)
theorem W17_a14 (c : Dev nD) : W17 m ρ c (Proc.devRef .tc main_arg14) = m ((c : Thread nD τ).loc main_arg14) :=
  (StableHlo.after_of_writes_sub hostOps8 _ hostOps8_writes (by decide)).trans (W16_a14 m ρ c)
theorem W18_a14 (c : Dev nD) : W18 m ρ c (Proc.devRef .tc main_arg14) = m ((c : Thread nD τ).loc main_arg14) :=
  (W18_of_ne m ρ c main_arg14 (by decide)).trans (W17_a14 m ρ c)
theorem W19_a14 (c : Dev nD) : W19 m ρ c (Proc.devRef .tc main_arg14) = m ((c : Thread nD τ).loc main_arg14) :=
  (StableHlo.after_of_writes_sub hostOps9 _ hostOps9_writes (by decide)).trans (W18_a14 m ρ c)
theorem W20_a14 (c : Dev nD) : W20 m ρ c (Proc.devRef .tc main_arg14) = m ((c : Thread nD τ).loc main_arg14) :=
  (W20_of_ne m ρ c main_arg14 (by decide)).trans (W19_a14 m ρ c)
theorem W21_a14 (c : Dev nD) : W21 m ρ c (Proc.devRef .tc main_arg14) = m ((c : Thread nD τ).loc main_arg14) :=
  (StableHlo.after_of_writes_sub hostOps10 _ hostOps10_writes (by decide)).trans (W20_a14 m ρ c)
theorem W22_a14 (c : Dev nD) : W22 m ρ c (Proc.devRef .tc main_arg14) = m ((c : Thread nD τ).loc main_arg14) :=
  (W22_of_ne m ρ c main_arg14 (by decide)).trans (W21_a14 m ρ c)
theorem W23_a14 (c : Dev nD) : W23 m ρ c (Proc.devRef .tc main_arg14) = m ((c : Thread nD τ).loc main_arg14) :=
  (StableHlo.after_of_writes_sub hostOps11 _ hostOps11_writes (by decide)).trans (W22_a14 m ρ c)
theorem W24_a14 (c : Dev nD) : W24 m ρ c (Proc.devRef .tc main_arg14) = m ((c : Thread nD τ).loc main_arg14) :=
  (W24_of_ne m ρ c main_arg14 (by decide)).trans (W23_a14 m ρ c)
theorem W25_a14 (c : Dev nD) : W25 m ρ c (Proc.devRef .tc main_arg14) = m ((c : Thread nD τ).loc main_arg14) :=
  (StableHlo.after_of_writes_sub hostOps12 _ hostOps12_writes (by decide)).trans (W24_a14 m ρ c)
theorem W26_a14 (c : Dev nD) : W26 m ρ c (Proc.devRef .tc main_arg14) = m ((c : Thread nD τ).loc main_arg14) :=
  (W26_of_ne m ρ c main_arg14 (by decide)).trans (W25_a14 m ρ c)
theorem W27_a14 (c : Dev nD) : W27 m ρ c (Proc.devRef .tc main_arg14) = m ((c : Thread nD τ).loc main_arg14) :=
  (StableHlo.after_of_writes_sub hostOps13 _ hostOps13_writes (by decide)).trans (W26_a14 m ρ c)
theorem W1_a15 (c : Dev nD) : W1 m ρ c (Proc.devRef .tc main_arg15) = m ((c : Thread nD τ).loc main_arg15) :=
  (StableHlo.after_of_writes_sub hostOps0 _ hostOps0_writes (by decide)).trans rfl
theorem W2_a15 (c : Dev nD) : W2 m ρ c (Proc.devRef .tc main_arg15) = m ((c : Thread nD τ).loc main_arg15) :=
  (W2_of_ne m ρ c main_arg15 (by decide)).trans (W1_a15 m ρ c)
theorem W3_a15 (c : Dev nD) : W3 m ρ c (Proc.devRef .tc main_arg15) = m ((c : Thread nD τ).loc main_arg15) :=
  (StableHlo.after_of_writes_sub hostOps1 _ hostOps1_writes (by decide)).trans (W2_a15 m ρ c)
theorem W4_a15 (c : Dev nD) : W4 m ρ c (Proc.devRef .tc main_arg15) = m ((c : Thread nD τ).loc main_arg15) :=
  (W4_of_ne m ρ c main_arg15 (by decide)).trans (W3_a15 m ρ c)
theorem W5_a15 (c : Dev nD) : W5 m ρ c (Proc.devRef .tc main_arg15) = m ((c : Thread nD τ).loc main_arg15) :=
  (StableHlo.after_of_writes_sub hostOps2 _ hostOps2_writes (by decide)).trans (W4_a15 m ρ c)
theorem W6_a15 (c : Dev nD) : W6 m ρ c (Proc.devRef .tc main_arg15) = m ((c : Thread nD τ).loc main_arg15) :=
  (W6_of_ne m ρ c main_arg15 (by decide)).trans (W5_a15 m ρ c)
theorem W7_a15 (c : Dev nD) : W7 m ρ c (Proc.devRef .tc main_arg15) = m ((c : Thread nD τ).loc main_arg15) :=
  (StableHlo.after_of_writes_sub hostOps3 _ hostOps3_writes (by decide)).trans (W6_a15 m ρ c)
theorem W8_a15 (c : Dev nD) : W8 m ρ c (Proc.devRef .tc main_arg15) = m ((c : Thread nD τ).loc main_arg15) :=
  (W8_of_ne m ρ c main_arg15 (by decide)).trans (W7_a15 m ρ c)
theorem W9_a15 (c : Dev nD) : W9 m ρ c (Proc.devRef .tc main_arg15) = m ((c : Thread nD τ).loc main_arg15) :=
  (StableHlo.after_of_writes_sub hostOps4 _ hostOps4_writes (by decide)).trans (W8_a15 m ρ c)
theorem W10_a15 (c : Dev nD) : W10 m ρ c (Proc.devRef .tc main_arg15) = m ((c : Thread nD τ).loc main_arg15) :=
  (W10_of_ne m ρ c main_arg15 (by decide)).trans (W9_a15 m ρ c)
theorem W11_a15 (c : Dev nD) : W11 m ρ c (Proc.devRef .tc main_arg15) = m ((c : Thread nD τ).loc main_arg15) :=
  (StableHlo.after_of_writes_sub hostOps5 _ hostOps5_writes (by decide)).trans (W10_a15 m ρ c)
theorem W12_a15 (c : Dev nD) : W12 m ρ c (Proc.devRef .tc main_arg15) = m ((c : Thread nD τ).loc main_arg15) :=
  (W12_of_ne m ρ c main_arg15 (by decide)).trans (W11_a15 m ρ c)
theorem W13_a15 (c : Dev nD) : W13 m ρ c (Proc.devRef .tc main_arg15) = m ((c : Thread nD τ).loc main_arg15) :=
  (StableHlo.after_of_writes_sub hostOps6 _ hostOps6_writes (by decide)).trans (W12_a15 m ρ c)
theorem W14_a15 (c : Dev nD) : W14 m ρ c (Proc.devRef .tc main_arg15) = m ((c : Thread nD τ).loc main_arg15) :=
  (W14_of_ne m ρ c main_arg15 (by decide)).trans (W13_a15 m ρ c)
theorem W15_a15 (c : Dev nD) : W15 m ρ c (Proc.devRef .tc main_arg15) = m ((c : Thread nD τ).loc main_arg15) :=
  (StableHlo.after_of_writes_sub hostOps7 _ hostOps7_writes (by decide)).trans (W14_a15 m ρ c)
theorem W16_a15 (c : Dev nD) : W16 m ρ c (Proc.devRef .tc main_arg15) = m ((c : Thread nD τ).loc main_arg15) :=
  (W16_of_ne m ρ c main_arg15 (by decide)).trans (W15_a15 m ρ c)
theorem W17_a15 (c : Dev nD) : W17 m ρ c (Proc.devRef .tc main_arg15) = m ((c : Thread nD τ).loc main_arg15) :=
  (StableHlo.after_of_writes_sub hostOps8 _ hostOps8_writes (by decide)).trans (W16_a15 m ρ c)
theorem W18_a15 (c : Dev nD) : W18 m ρ c (Proc.devRef .tc main_arg15) = m ((c : Thread nD τ).loc main_arg15) :=
  (W18_of_ne m ρ c main_arg15 (by decide)).trans (W17_a15 m ρ c)
theorem W19_a15 (c : Dev nD) : W19 m ρ c (Proc.devRef .tc main_arg15) = m ((c : Thread nD τ).loc main_arg15) :=
  (StableHlo.after_of_writes_sub hostOps9 _ hostOps9_writes (by decide)).trans (W18_a15 m ρ c)
theorem W20_a15 (c : Dev nD) : W20 m ρ c (Proc.devRef .tc main_arg15) = m ((c : Thread nD τ).loc main_arg15) :=
  (W20_of_ne m ρ c main_arg15 (by decide)).trans (W19_a15 m ρ c)
theorem W21_a15 (c : Dev nD) : W21 m ρ c (Proc.devRef .tc main_arg15) = m ((c : Thread nD τ).loc main_arg15) :=
  (StableHlo.after_of_writes_sub hostOps10 _ hostOps10_writes (by decide)).trans (W20_a15 m ρ c)
theorem W22_a15 (c : Dev nD) : W22 m ρ c (Proc.devRef .tc main_arg15) = m ((c : Thread nD τ).loc main_arg15) :=
  (W22_of_ne m ρ c main_arg15 (by decide)).trans (W21_a15 m ρ c)
theorem W23_a15 (c : Dev nD) : W23 m ρ c (Proc.devRef .tc main_arg15) = m ((c : Thread nD τ).loc main_arg15) :=
  (StableHlo.after_of_writes_sub hostOps11 _ hostOps11_writes (by decide)).trans (W22_a15 m ρ c)
theorem W24_a15 (c : Dev nD) : W24 m ρ c (Proc.devRef .tc main_arg15) = m ((c : Thread nD τ).loc main_arg15) :=
  (W24_of_ne m ρ c main_arg15 (by decide)).trans (W23_a15 m ρ c)
theorem W25_a15 (c : Dev nD) : W25 m ρ c (Proc.devRef .tc main_arg15) = m ((c : Thread nD τ).loc main_arg15) :=
  (StableHlo.after_of_writes_sub hostOps12 _ hostOps12_writes (by decide)).trans (W24_a15 m ρ c)
theorem W26_a15 (c : Dev nD) : W26 m ρ c (Proc.devRef .tc main_arg15) = m ((c : Thread nD τ).loc main_arg15) :=
  (W26_of_ne m ρ c main_arg15 (by decide)).trans (W25_a15 m ρ c)

theorem W1_src (c : Dev nD) : (W1 m ρ c (Proc.devRef .tc main_v1) : S1048576.Idx → BitVec 32) = Cert.Hand.edgeSrc (m ((c : Thread nD τ).loc main_arg0)) :=
  host0_v1 (W0 m ρ c)
theorem W2_src (c : Dev nD) : (W2 m ρ c (Proc.devRef .tc main_v1) : S1048576.Idx → BitVec 32) = Cert.Hand.edgeSrc (m ((c : Thread nD τ).loc main_arg0)) :=
  (W2_of_ne m ρ c main_v1 (by decide)).trans (W1_src m ρ c)
theorem W3_src (c : Dev nD) : (W3 m ρ c (Proc.devRef .tc main_v1) : S1048576.Idx → BitVec 32) = Cert.Hand.edgeSrc (m ((c : Thread nD τ).loc main_arg0)) :=
  (StableHlo.after_of_writes_sub hostOps1 _ hostOps1_writes (by decide)).trans (W2_src m ρ c)
theorem W4_src (c : Dev nD) : (W4 m ρ c (Proc.devRef .tc main_v1) : S1048576.Idx → BitVec 32) = Cert.Hand.edgeSrc (m ((c : Thread nD τ).loc main_arg0)) :=
  (W4_of_ne m ρ c main_v1 (by decide)).trans (W3_src m ρ c)
theorem W5_src (c : Dev nD) : (W5 m ρ c (Proc.devRef .tc main_v1) : S1048576.Idx → BitVec 32) = Cert.Hand.edgeSrc (m ((c : Thread nD τ).loc main_arg0)) :=
  (StableHlo.after_of_writes_sub hostOps2 _ hostOps2_writes (by decide)).trans (W4_src m ρ c)
theorem W6_src (c : Dev nD) : (W6 m ρ c (Proc.devRef .tc main_v1) : S1048576.Idx → BitVec 32) = Cert.Hand.edgeSrc (m ((c : Thread nD τ).loc main_arg0)) :=
  (W6_of_ne m ρ c main_v1 (by decide)).trans (W5_src m ρ c)
theorem W7_src (c : Dev nD) : (W7 m ρ c (Proc.devRef .tc main_v1) : S1048576.Idx → BitVec 32) = Cert.Hand.edgeSrc (m ((c : Thread nD τ).loc main_arg0)) :=
  (StableHlo.after_of_writes_sub hostOps3 _ hostOps3_writes (by decide)).trans (W6_src m ρ c)
theorem W8_src (c : Dev nD) : (W8 m ρ c (Proc.devRef .tc main_v1) : S1048576.Idx → BitVec 32) = Cert.Hand.edgeSrc (m ((c : Thread nD τ).loc main_arg0)) :=
  (W8_of_ne m ρ c main_v1 (by decide)).trans (W7_src m ρ c)
theorem W9_src (c : Dev nD) : (W9 m ρ c (Proc.devRef .tc main_v1) : S1048576.Idx → BitVec 32) = Cert.Hand.edgeSrc (m ((c : Thread nD τ).loc main_arg0)) :=
  (StableHlo.after_of_writes_sub hostOps4 _ hostOps4_writes (by decide)).trans (W8_src m ρ c)
theorem W10_src (c : Dev nD) : (W10 m ρ c (Proc.devRef .tc main_v1) : S1048576.Idx → BitVec 32) = Cert.Hand.edgeSrc (m ((c : Thread nD τ).loc main_arg0)) :=
  (W10_of_ne m ρ c main_v1 (by decide)).trans (W9_src m ρ c)
theorem W11_src (c : Dev nD) : (W11 m ρ c (Proc.devRef .tc main_v1) : S1048576.Idx → BitVec 32) = Cert.Hand.edgeSrc (m ((c : Thread nD τ).loc main_arg0)) :=
  (StableHlo.after_of_writes_sub hostOps5 _ hostOps5_writes (by decide)).trans (W10_src m ρ c)
theorem W12_src (c : Dev nD) : (W12 m ρ c (Proc.devRef .tc main_v1) : S1048576.Idx → BitVec 32) = Cert.Hand.edgeSrc (m ((c : Thread nD τ).loc main_arg0)) :=
  (W12_of_ne m ρ c main_v1 (by decide)).trans (W11_src m ρ c)
theorem W13_src (c : Dev nD) : (W13 m ρ c (Proc.devRef .tc main_v1) : S1048576.Idx → BitVec 32) = Cert.Hand.edgeSrc (m ((c : Thread nD τ).loc main_arg0)) :=
  (StableHlo.after_of_writes_sub hostOps6 _ hostOps6_writes (by decide)).trans (W12_src m ρ c)
theorem W14_src (c : Dev nD) : (W14 m ρ c (Proc.devRef .tc main_v1) : S1048576.Idx → BitVec 32) = Cert.Hand.edgeSrc (m ((c : Thread nD τ).loc main_arg0)) :=
  (W14_of_ne m ρ c main_v1 (by decide)).trans (W13_src m ρ c)
theorem W15_src (c : Dev nD) : (W15 m ρ c (Proc.devRef .tc main_v1) : S1048576.Idx → BitVec 32) = Cert.Hand.edgeSrc (m ((c : Thread nD τ).loc main_arg0)) :=
  (StableHlo.after_of_writes_sub hostOps7 _ hostOps7_writes (by decide)).trans (W14_src m ρ c)
theorem W16_src (c : Dev nD) : (W16 m ρ c (Proc.devRef .tc main_v1) : S1048576.Idx → BitVec 32) = Cert.Hand.edgeSrc (m ((c : Thread nD τ).loc main_arg0)) :=
  (W16_of_ne m ρ c main_v1 (by decide)).trans (W15_src m ρ c)
theorem W17_src (c : Dev nD) : (W17 m ρ c (Proc.devRef .tc main_v1) : S1048576.Idx → BitVec 32) = Cert.Hand.edgeSrc (m ((c : Thread nD τ).loc main_arg0)) :=
  (StableHlo.after_of_writes_sub hostOps8 _ hostOps8_writes (by decide)).trans (W16_src m ρ c)
theorem W18_src (c : Dev nD) : (W18 m ρ c (Proc.devRef .tc main_v1) : S1048576.Idx → BitVec 32) = Cert.Hand.edgeSrc (m ((c : Thread nD τ).loc main_arg0)) :=
  (W18_of_ne m ρ c main_v1 (by decide)).trans (W17_src m ρ c)
theorem W19_src (c : Dev nD) : (W19 m ρ c (Proc.devRef .tc main_v1) : S1048576.Idx → BitVec 32) = Cert.Hand.edgeSrc (m ((c : Thread nD τ).loc main_arg0)) :=
  (StableHlo.after_of_writes_sub hostOps9 _ hostOps9_writes (by decide)).trans (W18_src m ρ c)
theorem W20_src (c : Dev nD) : (W20 m ρ c (Proc.devRef .tc main_v1) : S1048576.Idx → BitVec 32) = Cert.Hand.edgeSrc (m ((c : Thread nD τ).loc main_arg0)) :=
  (W20_of_ne m ρ c main_v1 (by decide)).trans (W19_src m ρ c)
theorem W1_dst (c : Dev nD) : (W1 m ρ c (Proc.devRef .tc main_v3) : S1048576.Idx → BitVec 32) = Cert.Hand.edgeDst (m ((c : Thread nD τ).loc main_arg0)) :=
  host0_v3 (W0 m ρ c)
theorem W2_dst (c : Dev nD) : (W2 m ρ c (Proc.devRef .tc main_v3) : S1048576.Idx → BitVec 32) = Cert.Hand.edgeDst (m ((c : Thread nD τ).loc main_arg0)) :=
  (W2_of_ne m ρ c main_v3 (by decide)).trans (W1_dst m ρ c)
theorem W3_dst (c : Dev nD) : (W3 m ρ c (Proc.devRef .tc main_v3) : S1048576.Idx → BitVec 32) = Cert.Hand.edgeDst (m ((c : Thread nD τ).loc main_arg0)) :=
  (StableHlo.after_of_writes_sub hostOps1 _ hostOps1_writes (by decide)).trans (W2_dst m ρ c)
theorem W4_dst (c : Dev nD) : (W4 m ρ c (Proc.devRef .tc main_v3) : S1048576.Idx → BitVec 32) = Cert.Hand.edgeDst (m ((c : Thread nD τ).loc main_arg0)) :=
  (W4_of_ne m ρ c main_v3 (by decide)).trans (W3_dst m ρ c)
theorem W5_dst (c : Dev nD) : (W5 m ρ c (Proc.devRef .tc main_v3) : S1048576.Idx → BitVec 32) = Cert.Hand.edgeDst (m ((c : Thread nD τ).loc main_arg0)) :=
  (StableHlo.after_of_writes_sub hostOps2 _ hostOps2_writes (by decide)).trans (W4_dst m ρ c)
theorem W6_dst (c : Dev nD) : (W6 m ρ c (Proc.devRef .tc main_v3) : S1048576.Idx → BitVec 32) = Cert.Hand.edgeDst (m ((c : Thread nD τ).loc main_arg0)) :=
  (W6_of_ne m ρ c main_v3 (by decide)).trans (W5_dst m ρ c)
theorem W7_dst (c : Dev nD) : (W7 m ρ c (Proc.devRef .tc main_v3) : S1048576.Idx → BitVec 32) = Cert.Hand.edgeDst (m ((c : Thread nD τ).loc main_arg0)) :=
  (StableHlo.after_of_writes_sub hostOps3 _ hostOps3_writes (by decide)).trans (W6_dst m ρ c)
theorem W8_dst (c : Dev nD) : (W8 m ρ c (Proc.devRef .tc main_v3) : S1048576.Idx → BitVec 32) = Cert.Hand.edgeDst (m ((c : Thread nD τ).loc main_arg0)) :=
  (W8_of_ne m ρ c main_v3 (by decide)).trans (W7_dst m ρ c)
theorem W9_dst (c : Dev nD) : (W9 m ρ c (Proc.devRef .tc main_v3) : S1048576.Idx → BitVec 32) = Cert.Hand.edgeDst (m ((c : Thread nD τ).loc main_arg0)) :=
  (StableHlo.after_of_writes_sub hostOps4 _ hostOps4_writes (by decide)).trans (W8_dst m ρ c)
theorem W10_dst (c : Dev nD) : (W10 m ρ c (Proc.devRef .tc main_v3) : S1048576.Idx → BitVec 32) = Cert.Hand.edgeDst (m ((c : Thread nD τ).loc main_arg0)) :=
  (W10_of_ne m ρ c main_v3 (by decide)).trans (W9_dst m ρ c)
theorem W11_dst (c : Dev nD) : (W11 m ρ c (Proc.devRef .tc main_v3) : S1048576.Idx → BitVec 32) = Cert.Hand.edgeDst (m ((c : Thread nD τ).loc main_arg0)) :=
  (StableHlo.after_of_writes_sub hostOps5 _ hostOps5_writes (by decide)).trans (W10_dst m ρ c)
theorem W12_dst (c : Dev nD) : (W12 m ρ c (Proc.devRef .tc main_v3) : S1048576.Idx → BitVec 32) = Cert.Hand.edgeDst (m ((c : Thread nD τ).loc main_arg0)) :=
  (W12_of_ne m ρ c main_v3 (by decide)).trans (W11_dst m ρ c)
theorem W13_dst (c : Dev nD) : (W13 m ρ c (Proc.devRef .tc main_v3) : S1048576.Idx → BitVec 32) = Cert.Hand.edgeDst (m ((c : Thread nD τ).loc main_arg0)) :=
  (StableHlo.after_of_writes_sub hostOps6 _ hostOps6_writes (by decide)).trans (W12_dst m ρ c)
theorem W14_dst (c : Dev nD) : (W14 m ρ c (Proc.devRef .tc main_v3) : S1048576.Idx → BitVec 32) = Cert.Hand.edgeDst (m ((c : Thread nD τ).loc main_arg0)) :=
  (W14_of_ne m ρ c main_v3 (by decide)).trans (W13_dst m ρ c)
theorem W15_dst (c : Dev nD) : (W15 m ρ c (Proc.devRef .tc main_v3) : S1048576.Idx → BitVec 32) = Cert.Hand.edgeDst (m ((c : Thread nD τ).loc main_arg0)) :=
  (StableHlo.after_of_writes_sub hostOps7 _ hostOps7_writes (by decide)).trans (W14_dst m ρ c)
theorem W16_dst (c : Dev nD) : (W16 m ρ c (Proc.devRef .tc main_v3) : S1048576.Idx → BitVec 32) = Cert.Hand.edgeDst (m ((c : Thread nD τ).loc main_arg0)) :=
  (W16_of_ne m ρ c main_v3 (by decide)).trans (W15_dst m ρ c)
theorem W17_dst (c : Dev nD) : (W17 m ρ c (Proc.devRef .tc main_v3) : S1048576.Idx → BitVec 32) = Cert.Hand.edgeDst (m ((c : Thread nD τ).loc main_arg0)) :=
  (StableHlo.after_of_writes_sub hostOps8 _ hostOps8_writes (by decide)).trans (W16_dst m ρ c)
theorem W18_dst (c : Dev nD) : (W18 m ρ c (Proc.devRef .tc main_v3) : S1048576.Idx → BitVec 32) = Cert.Hand.edgeDst (m ((c : Thread nD τ).loc main_arg0)) :=
  (W18_of_ne m ρ c main_v3 (by decide)).trans (W17_dst m ρ c)
theorem W19_dst (c : Dev nD) : (W19 m ρ c (Proc.devRef .tc main_v3) : S1048576.Idx → BitVec 32) = Cert.Hand.edgeDst (m ((c : Thread nD τ).loc main_arg0)) :=
  (StableHlo.after_of_writes_sub hostOps9 _ hostOps9_writes (by decide)).trans (W18_dst m ρ c)
theorem W20_dst (c : Dev nD) : (W20 m ρ c (Proc.devRef .tc main_v3) : S1048576.Idx → BitVec 32) = Cert.Hand.edgeDst (m ((c : Thread nD τ).loc main_arg0)) :=
  (W20_of_ne m ρ c main_v3 (by decide)).trans (W19_dst m ρ c)

variable (c : Dev nD)

/-! ## What each region finds in its input windows -/

/-! ### Region 0 -/
theorem ent0_0 : V1 m ρ c main_arg2 = m ((c : Thread nD τ).loc main_arg2) :=
  W1_a2 m ρ c
theorem ent0_1 : V1 m ρ c main_arg3 = m ((c : Thread nD τ).loc main_arg3) :=
  W1_a3 m ρ c
theorem ent0_2 : Cert.Spec.cur2 (V1 m ρ c main_v4 : S1x64.Idx → EReal) = pBin m c :=
  (host0_v4 (W0 m ρ c)).trans (by try rfl)

/-! ### Region 1 -/
theorem ent1_0 : V3 m ρ c main_v5 = (dat0 (V1 m ρ) c).arrAt ⟨3, Nat.le_of_ble_eq_true rfl⟩ cfg0.N :=
  (StableHlo.after_of_writes_sub hostOps1 _ hostOps1_writes (by decide)).trans (W2_arr m ρ c ⟨3, Nat.le_of_ble_eq_true rfl⟩)
theorem ent1_1 : (V3 m ρ c main_v15 : S65536x64.Idx → EReal) = Cert.Hand.aggOf (aEdges m c) ((dat0 (V1 m ρ) c).arrAt ⟨3, Nat.le_of_ble_eq_true rfl⟩ cfg0.N) := by
  have hx : W2 m ρ c (Proc.devRef .tc main_v5) = (dat0 (V1 m ρ) c).arrAt ⟨3, Nat.le_of_ble_eq_true rfl⟩ cfg0.N := W2_arr m ρ c ⟨3, Nat.le_of_ble_eq_true rfl⟩
  refine (host1_v15 (W2 m ρ c)).trans ?_
  rw [W2_src m ρ c, W2_dst m ρ c, hx]
  try rfl
theorem ent1_2 : Cert.Spec.cur2 (V3 m ρ c main_v23 : S1x64.Idx → EReal) = pEps m c 0 :=
  (host1_v23 (W2 m ρ c)).trans (by rw [W2_a5 m ρ c]; try rfl)
theorem ent1_3 : Cert.Spec.cur2 (V3 m ρ c main_v19 : S64x128.Idx → EReal) = pW1 m c 0 :=
  (host1_v19 (W2 m ρ c)).trans (by rw [W2_a6 m ρ c]; try rfl)
theorem ent1_4 : Cert.Spec.cur2 (V3 m ρ c main_v24 : S1x128.Idx → EReal) = pB1 m c 0 :=
  (host1_v24 (W2 m ρ c)).trans (by rw [W2_a7 m ρ c]; try rfl)

/-! ### Region 2 -/
theorem ent2_0 : V5 m ρ c main_v5 = (dat0 (V1 m ρ) c).arrAt ⟨3, Nat.le_of_ble_eq_true rfl⟩ cfg0.N :=
  ((StableHlo.after_of_writes_sub hostOps2 _ hostOps2_writes (by decide)).trans ((W4_arr m ρ c ⟨0, Nat.le_of_ble_eq_true rfl⟩).trans (((dat1 (V3 m ρ) c).arrAt_in ⟨0, Nat.le_of_ble_eq_true rfl⟩ rfl _).trans (A_eq1 (V3 m ρ) c ⟨0, Nat.le_of_ble_eq_true rfl⟩)))).trans (ent1_0 m ρ c)
theorem ent2_1 : (V5 m ρ c main_v15 : S65536x64.Idx → EReal) = Cert.Hand.aggOf (aEdges m c) ((dat0 (V1 m ρ) c).arrAt ⟨3, Nat.le_of_ble_eq_true rfl⟩ cfg0.N) :=
  ((StableHlo.after_of_writes_sub hostOps2 _ hostOps2_writes (by decide)).trans ((W4_arr m ρ c ⟨1, Nat.le_of_ble_eq_true rfl⟩).trans (((dat1 (V3 m ρ) c).arrAt_in ⟨1, Nat.le_of_ble_eq_true rfl⟩ rfl _).trans (A_eq1 (V3 m ρ) c ⟨1, Nat.le_of_ble_eq_true rfl⟩)))).trans (ent1_1 m ρ c)
theorem ent2_2 : Cert.Spec.cur2 (V5 m ρ c main_v41 : S1x64.Idx → EReal) = pEps m c 0 :=
  (host2_v41 (W4 m ρ c)).trans (by rw [W4_a5 m ρ c]; try rfl)
theorem ent2_3 : Cert.Spec.cur2 (V5 m ρ c main_v29 : S64x128.Idx → EReal) = pW1 m c 0 :=
  (host2_v29 (W4 m ρ c)).trans (by rw [W4_a6 m ρ c]; try rfl)
theorem ent2_4 : Cert.Spec.cur2 (V5 m ρ c main_v42 : S1x128.Idx → EReal) = pB1 m c 0 :=
  (host2_v42 (W4 m ρ c)).trans (by rw [W4_a7 m ρ c]; try rfl)
theorem ent2_5 : V5 m ρ c main_v25_0 = (dat1 (V3 m ρ) c).arrAt ⟨5, Nat.le_of_ble_eq_true rfl⟩ cfg1.N :=
  (StableHlo.after_of_writes_sub hostOps2 _ hostOps2_writes (by decide)).trans (W4_arr m ρ c ⟨5, Nat.le_of_ble_eq_true rfl⟩)
theorem ent2_6 : V5 m ρ c main_v25_1 = (dat1 (V3 m ρ) c).arrAt ⟨6, Nat.le_of_ble_eq_true rfl⟩ cfg1.N :=
  (StableHlo.after_of_writes_sub hostOps2 _ hostOps2_writes (by decide)).trans (W4_arr m ρ c ⟨6, Nat.le_of_ble_eq_true rfl⟩)
theorem ent2_7 : Cert.Spec.cur2 (V5 m ρ c main_v43 : S1x128.Idx → EReal) = pG1 m c 0 :=
  (host2_v43 (W4 m ρ c)).trans (by rw [W4_a8 m ρ c]; try rfl)
theorem ent2_8 : Cert.Spec.cur2 (V5 m ρ c main_v44 : S1x128.Idx → EReal) = pBe1 m c 0 :=
  (host2_v44 (W4 m ρ c)).trans (by rw [W4_a9 m ρ c]; try rfl)
theorem ent2_9 : Cert.Spec.cur2 (V5 m ρ c main_v37 : S128x64.Idx → EReal) = pW2 m c 0 :=
  (host2_v37 (W4 m ρ c)).trans (by rw [W4_a10 m ρ c]; try rfl)
theorem ent2_10 : Cert.Spec.cur2 (V5 m ρ c main_v45 : S1x64.Idx → EReal) = pB2 m c 0 :=
  (host2_v45 (W4 m ρ c)).trans (by rw [W4_a11 m ρ c]; try rfl)

/-! ### Region 3 -/
theorem ent3_0 : V7 m ρ c main_v5 = (dat0 (V1 m ρ) c).arrAt ⟨3, Nat.le_of_ble_eq_true rfl⟩ cfg0.N :=
  ((StableHlo.after_of_writes_sub hostOps3 _ hostOps3_writes (by decide)).trans ((W6_arr m ρ c ⟨0, Nat.le_of_ble_eq_true rfl⟩).trans (((dat2 (V5 m ρ) c).arrAt_in ⟨0, Nat.le_of_ble_eq_true rfl⟩ rfl _).trans (A_eq2 (V5 m ρ) c ⟨0, Nat.le_of_ble_eq_true rfl⟩)))).trans (ent2_0 m ρ c)
theorem ent3_1 : (V7 m ρ c main_v15 : S65536x64.Idx → EReal) = Cert.Hand.aggOf (aEdges m c) ((dat0 (V1 m ρ) c).arrAt ⟨3, Nat.le_of_ble_eq_true rfl⟩ cfg0.N) :=
  ((StableHlo.after_of_writes_sub hostOps3 _ hostOps3_writes (by decide)).trans ((W6_arr m ρ c ⟨1, Nat.le_of_ble_eq_true rfl⟩).trans (((dat2 (V5 m ρ) c).arrAt_in ⟨1, Nat.le_of_ble_eq_true rfl⟩ rfl _).trans (A_eq2 (V5 m ρ) c ⟨1, Nat.le_of_ble_eq_true rfl⟩)))).trans (ent2_1 m ρ c)
theorem ent3_2 : Cert.Spec.cur2 (V7 m ρ c main_v66 : S1x64.Idx → EReal) = pEps m c 0 :=
  (host3_v66 (W6 m ρ c)).trans (by rw [W6_a5 m ρ c]; try rfl)
theorem ent3_3 : Cert.Spec.cur2 (V7 m ρ c main_v50 : S64x128.Idx → EReal) = pW1 m c 0 :=
  (host3_v50 (W6 m ρ c)).trans (by rw [W6_a6 m ρ c]; try rfl)
theorem ent3_4 : Cert.Spec.cur2 (V7 m ρ c main_v67 : S1x128.Idx → EReal) = pB1 m c 0 :=
  (host3_v67 (W6 m ρ c)).trans (by rw [W6_a7 m ρ c]; try rfl)
theorem ent3_5 : V7 m ρ c main_v25_0 = (dat1 (V3 m ρ) c).arrAt ⟨5, Nat.le_of_ble_eq_true rfl⟩ cfg1.N :=
  ((StableHlo.after_of_writes_sub hostOps3 _ hostOps3_writes (by decide)).trans ((W6_arr m ρ c ⟨5, Nat.le_of_ble_eq_true rfl⟩).trans (((dat2 (V5 m ρ) c).arrAt_in ⟨5, Nat.le_of_ble_eq_true rfl⟩ rfl _).trans (A_eq2 (V5 m ρ) c ⟨5, Nat.le_of_ble_eq_true rfl⟩)))).trans (ent2_5 m ρ c)
theorem ent3_6 : V7 m ρ c main_v25_1 = (dat1 (V3 m ρ) c).arrAt ⟨6, Nat.le_of_ble_eq_true rfl⟩ cfg1.N :=
  ((StableHlo.after_of_writes_sub hostOps3 _ hostOps3_writes (by decide)).trans ((W6_arr m ρ c ⟨6, Nat.le_of_ble_eq_true rfl⟩).trans (((dat2 (V5 m ρ) c).arrAt_in ⟨6, Nat.le_of_ble_eq_true rfl⟩ rfl _).trans (A_eq2 (V5 m ρ) c ⟨6, Nat.le_of_ble_eq_true rfl⟩)))).trans (ent2_6 m ρ c)
theorem ent3_7 : Cert.Spec.cur2 (V7 m ρ c main_v68 : S1x128.Idx → EReal) = pG1 m c 0 :=
  (host3_v68 (W6 m ρ c)).trans (by rw [W6_a8 m ρ c]; try rfl)
theorem ent3_8 : Cert.Spec.cur2 (V7 m ρ c main_v69 : S1x128.Idx → EReal) = pBe1 m c 0 :=
  (host3_v69 (W6 m ρ c)).trans (by rw [W6_a9 m ρ c]; try rfl)
theorem ent3_9 : Cert.Spec.cur2 (V7 m ρ c main_v58 : S128x64.Idx → EReal) = pW2 m c 0 :=
  (host3_v58 (W6 m ρ c)).trans (by rw [W6_a10 m ρ c]; try rfl)
theorem ent3_10 : Cert.Spec.cur2 (V7 m ρ c main_v70 : S1x64.Idx → EReal) = pB2 m c 0 :=
  (host3_v70 (W6 m ρ c)).trans (by rw [W6_a11 m ρ c]; try rfl)
theorem ent3_11 : V7 m ρ c main_v46_0 = (dat2 (V5 m ρ) c).arrAt ⟨11, Nat.le_of_ble_eq_true rfl⟩ cfg2.N :=
  (StableHlo.after_of_writes_sub hostOps3 _ hostOps3_writes (by decide)).trans (W6_arr m ρ c ⟨11, Nat.le_of_ble_eq_true rfl⟩)
theorem ent3_12 : V7 m ρ c main_v46_1 = (dat2 (V5 m ρ) c).arrAt ⟨12, Nat.le_of_ble_eq_true rfl⟩ cfg2.N :=
  (StableHlo.after_of_writes_sub hostOps3 _ hostOps3_writes (by decide)).trans (W6_arr m ρ c ⟨12, Nat.le_of_ble_eq_true rfl⟩)
theorem ent3_13 : Cert.Spec.cur2 (V7 m ρ c main_v71 : S1x64.Idx → EReal) = pG2 m c 0 :=
  (host3_v71 (W6 m ρ c)).trans (by rw [W6_a12 m ρ c]; try rfl)
theorem ent3_14 : Cert.Spec.cur2 (V7 m ρ c main_v72 : S1x64.Idx → EReal) = pBe2 m c 0 :=
  (host3_v72 (W6 m ρ c)).trans (by rw [W6_a13 m ρ c]; try rfl)

/-! ### Region 4 -/
theorem ent4_0 : V9 m ρ c main_v73 = (dat3 (V7 m ρ) c).arrAt ⟨15, Nat.le_of_ble_eq_true rfl⟩ cfg3.N :=
  (StableHlo.after_of_writes_sub hostOps4 _ hostOps4_writes (by decide)).trans (W8_arr m ρ c ⟨15, Nat.le_of_ble_eq_true rfl⟩)
theorem ent4_1 : (V9 m ρ c main_v83 : S65536x64.Idx → EReal) = Cert.Hand.aggOf (aEdges m c) ((dat3 (V7 m ρ) c).arrAt ⟨15, Nat.le_of_ble_eq_true rfl⟩ cfg3.N) := by
  have hx : W8 m ρ c (Proc.devRef .tc main_v73) = (dat3 (V7 m ρ) c).arrAt ⟨15, Nat.le_of_ble_eq_true rfl⟩ cfg3.N := W8_arr m ρ c ⟨15, Nat.le_of_ble_eq_true rfl⟩
  refine (host4_v83 (W8 m ρ c)).trans ?_
  rw [W8_src m ρ c, W8_dst m ρ c, hx]
  try rfl
theorem ent4_2 : Cert.Spec.cur2 (V9 m ρ c main_v91 : S1x64.Idx → EReal) = pEps m c 1 :=
  (host4_v91 (W8 m ρ c)).trans (by rw [W8_a5 m ρ c]; try rfl)
theorem ent4_3 : Cert.Spec.cur2 (V9 m ρ c main_v87 : S64x128.Idx → EReal) = pW1 m c 1 :=
  (host4_v87 (W8 m ρ c)).trans (by rw [W8_a6 m ρ c]; try rfl)
theorem ent4_4 : Cert.Spec.cur2 (V9 m ρ c main_v92 : S1x128.Idx → EReal) = pB1 m c 1 :=
  (host4_v92 (W8 m ρ c)).trans (by rw [W8_a7 m ρ c]; try rfl)

/-! ### Region 5 -/
theorem ent5_0 : V11 m ρ c main_v73 = (dat3 (V7 m ρ) c).arrAt ⟨15, Nat.le_of_ble_eq_true rfl⟩ cfg3.N :=
  ((StableHlo.after_of_writes_sub hostOps5 _ hostOps5_writes (by decide)).trans ((W10_arr m ρ c ⟨0, Nat.le_of_ble_eq_true rfl⟩).trans (((dat4 (V9 m ρ) c).arrAt_in ⟨0, Nat.le_of_ble_eq_true rfl⟩ rfl _).trans (A_eq4 (V9 m ρ) c ⟨0, Nat.le_of_ble_eq_true rfl⟩)))).trans (ent4_0 m ρ c)
theorem ent5_1 : (V11 m ρ c main_v83 : S65536x64.Idx → EReal) = Cert.Hand.aggOf (aEdges m c) ((dat3 (V7 m ρ) c).arrAt ⟨15, Nat.le_of_ble_eq_true rfl⟩ cfg3.N) :=
  ((StableHlo.after_of_writes_sub hostOps5 _ hostOps5_writes (by decide)).trans ((W10_arr m ρ c ⟨1, Nat.le_of_ble_eq_true rfl⟩).trans (((dat4 (V9 m ρ) c).arrAt_in ⟨1, Nat.le_of_ble_eq_true rfl⟩ rfl _).trans (A_eq4 (V9 m ρ) c ⟨1, Nat.le_of_ble_eq_true rfl⟩)))).trans (ent4_1 m ρ c)
theorem ent5_2 : Cert.Spec.cur2 (V11 m ρ c main_v109 : S1x64.Idx → EReal) = pEps m c 1 :=
  (host5_v109 (W10 m ρ c)).trans (by rw [W10_a5 m ρ c]; try rfl)
theorem ent5_3 : Cert.Spec.cur2 (V11 m ρ c main_v97 : S64x128.Idx → EReal) = pW1 m c 1 :=
  (host5_v97 (W10 m ρ c)).trans (by rw [W10_a6 m ρ c]; try rfl)
theorem ent5_4 : Cert.Spec.cur2 (V11 m ρ c main_v110 : S1x128.Idx → EReal) = pB1 m c 1 :=
  (host5_v110 (W10 m ρ c)).trans (by rw [W10_a7 m ρ c]; try rfl)
theorem ent5_5 : V11 m ρ c main_v93_0 = (dat4 (V9 m ρ) c).arrAt ⟨5, Nat.le_of_ble_eq_true rfl⟩ cfg4.N :=
  (StableHlo.after_of_writes_sub hostOps5 _ hostOps5_writes (by decide)).trans (W10_arr m ρ c ⟨5, Nat.le_of_ble_eq_true rfl⟩)
theorem ent5_6 : V11 m ρ c main_v93_1 = (dat4 (V9 m ρ) c).arrAt ⟨6, Nat.le_of_ble_eq_true rfl⟩ cfg4.N :=
  (StableHlo.after_of_writes_sub hostOps5 _ hostOps5_writes (by decide)).trans (W10_arr m ρ c ⟨6, Nat.le_of_ble_eq_true rfl⟩)
theorem ent5_7 : Cert.Spec.cur2 (V11 m ρ c main_v111 : S1x128.Idx → EReal) = pG1 m c 1 :=
  (host5_v111 (W10 m ρ c)).trans (by rw [W10_a8 m ρ c]; try rfl)
theorem ent5_8 : Cert.Spec.cur2 (V11 m ρ c main_v112 : S1x128.Idx → EReal) = pBe1 m c 1 :=
  (host5_v112 (W10 m ρ c)).trans (by rw [W10_a9 m ρ c]; try rfl)
theorem ent5_9 : Cert.Spec.cur2 (V11 m ρ c main_v105 : S128x64.Idx → EReal) = pW2 m c 1 :=
  (host5_v105 (W10 m ρ c)).trans (by rw [W10_a10 m ρ c]; try rfl)
theorem ent5_10 : Cert.Spec.cur2 (V11 m ρ c main_v113 : S1x64.Idx → EReal) = pB2 m c 1 :=
  (host5_v113 (W10 m ρ c)).trans (by rw [W10_a11 m ρ c]; try rfl)

/-! ### Region 6 -/
theorem ent6_0 : V13 m ρ c main_v73 = (dat3 (V7 m ρ) c).arrAt ⟨15, Nat.le_of_ble_eq_true rfl⟩ cfg3.N :=
  ((StableHlo.after_of_writes_sub hostOps6 _ hostOps6_writes (by decide)).trans ((W12_arr m ρ c ⟨0, Nat.le_of_ble_eq_true rfl⟩).trans (((dat5 (V11 m ρ) c).arrAt_in ⟨0, Nat.le_of_ble_eq_true rfl⟩ rfl _).trans (A_eq5 (V11 m ρ) c ⟨0, Nat.le_of_ble_eq_true rfl⟩)))).trans (ent5_0 m ρ c)
theorem ent6_1 : (V13 m ρ c main_v83 : S65536x64.Idx → EReal) = Cert.Hand.aggOf (aEdges m c) ((dat3 (V7 m ρ) c).arrAt ⟨15, Nat.le_of_ble_eq_true rfl⟩ cfg3.N) :=
  ((StableHlo.after_of_writes_sub hostOps6 _ hostOps6_writes (by decide)).trans ((W12_arr m ρ c ⟨1, Nat.le_of_ble_eq_true rfl⟩).trans (((dat5 (V11 m ρ) c).arrAt_in ⟨1, Nat.le_of_ble_eq_true rfl⟩ rfl _).trans (A_eq5 (V11 m ρ) c ⟨1, Nat.le_of_ble_eq_true rfl⟩)))).trans (ent5_1 m ρ c)
theorem ent6_2 : Cert.Spec.cur2 (V13 m ρ c main_v134 : S1x64.Idx → EReal) = pEps m c 1 :=
  (host6_v134 (W12 m ρ c)).trans (by rw [W12_a5 m ρ c]; try rfl)
theorem ent6_3 : Cert.Spec.cur2 (V13 m ρ c main_v118 : S64x128.Idx → EReal) = pW1 m c 1 :=
  (host6_v118 (W12 m ρ c)).trans (by rw [W12_a6 m ρ c]; try rfl)
theorem ent6_4 : Cert.Spec.cur2 (V13 m ρ c main_v135 : S1x128.Idx → EReal) = pB1 m c 1 :=
  (host6_v135 (W12 m ρ c)).trans (by rw [W12_a7 m ρ c]; try rfl)
theorem ent6_5 : V13 m ρ c main_v93_0 = (dat4 (V9 m ρ) c).arrAt ⟨5, Nat.le_of_ble_eq_true rfl⟩ cfg4.N :=
  ((StableHlo.after_of_writes_sub hostOps6 _ hostOps6_writes (by decide)).trans ((W12_arr m ρ c ⟨5, Nat.le_of_ble_eq_true rfl⟩).trans (((dat5 (V11 m ρ) c).arrAt_in ⟨5, Nat.le_of_ble_eq_true rfl⟩ rfl _).trans (A_eq5 (V11 m ρ) c ⟨5, Nat.le_of_ble_eq_true rfl⟩)))).trans (ent5_5 m ρ c)
theorem ent6_6 : V13 m ρ c main_v93_1 = (dat4 (V9 m ρ) c).arrAt ⟨6, Nat.le_of_ble_eq_true rfl⟩ cfg4.N :=
  ((StableHlo.after_of_writes_sub hostOps6 _ hostOps6_writes (by decide)).trans ((W12_arr m ρ c ⟨6, Nat.le_of_ble_eq_true rfl⟩).trans (((dat5 (V11 m ρ) c).arrAt_in ⟨6, Nat.le_of_ble_eq_true rfl⟩ rfl _).trans (A_eq5 (V11 m ρ) c ⟨6, Nat.le_of_ble_eq_true rfl⟩)))).trans (ent5_6 m ρ c)
theorem ent6_7 : Cert.Spec.cur2 (V13 m ρ c main_v136 : S1x128.Idx → EReal) = pG1 m c 1 :=
  (host6_v136 (W12 m ρ c)).trans (by rw [W12_a8 m ρ c]; try rfl)
theorem ent6_8 : Cert.Spec.cur2 (V13 m ρ c main_v137 : S1x128.Idx → EReal) = pBe1 m c 1 :=
  (host6_v137 (W12 m ρ c)).trans (by rw [W12_a9 m ρ c]; try rfl)
theorem ent6_9 : Cert.Spec.cur2 (V13 m ρ c main_v126 : S128x64.Idx → EReal) = pW2 m c 1 :=
  (host6_v126 (W12 m ρ c)).trans (by rw [W12_a10 m ρ c]; try rfl)
theorem ent6_10 : Cert.Spec.cur2 (V13 m ρ c main_v138 : S1x64.Idx → EReal) = pB2 m c 1 :=
  (host6_v138 (W12 m ρ c)).trans (by rw [W12_a11 m ρ c]; try rfl)
theorem ent6_11 : V13 m ρ c main_v114_0 = (dat5 (V11 m ρ) c).arrAt ⟨11, Nat.le_of_ble_eq_true rfl⟩ cfg5.N :=
  (StableHlo.after_of_writes_sub hostOps6 _ hostOps6_writes (by decide)).trans (W12_arr m ρ c ⟨11, Nat.le_of_ble_eq_true rfl⟩)
theorem ent6_12 : V13 m ρ c main_v114_1 = (dat5 (V11 m ρ) c).arrAt ⟨12, Nat.le_of_ble_eq_true rfl⟩ cfg5.N :=
  (StableHlo.after_of_writes_sub hostOps6 _ hostOps6_writes (by decide)).trans (W12_arr m ρ c ⟨12, Nat.le_of_ble_eq_true rfl⟩)
theorem ent6_13 : Cert.Spec.cur2 (V13 m ρ c main_v139 : S1x64.Idx → EReal) = pG2 m c 1 :=
  (host6_v139 (W12 m ρ c)).trans (by rw [W12_a12 m ρ c]; try rfl)
theorem ent6_14 : Cert.Spec.cur2 (V13 m ρ c main_v140 : S1x64.Idx → EReal) = pBe2 m c 1 :=
  (host6_v140 (W12 m ρ c)).trans (by rw [W12_a13 m ρ c]; try rfl)

/-! ### Region 7 -/
theorem ent7_0 : V15 m ρ c main_v141 = (dat6 (V13 m ρ) c).arrAt ⟨15, Nat.le_of_ble_eq_true rfl⟩ cfg6.N :=
  (StableHlo.after_of_writes_sub hostOps7 _ hostOps7_writes (by decide)).trans (W14_arr m ρ c ⟨15, Nat.le_of_ble_eq_true rfl⟩)
theorem ent7_1 : (V15 m ρ c main_v151 : S65536x64.Idx → EReal) = Cert.Hand.aggOf (aEdges m c) ((dat6 (V13 m ρ) c).arrAt ⟨15, Nat.le_of_ble_eq_true rfl⟩ cfg6.N) := by
  have hx : W14 m ρ c (Proc.devRef .tc main_v141) = (dat6 (V13 m ρ) c).arrAt ⟨15, Nat.le_of_ble_eq_true rfl⟩ cfg6.N := W14_arr m ρ c ⟨15, Nat.le_of_ble_eq_true rfl⟩
  refine (host7_v151 (W14 m ρ c)).trans ?_
  rw [W14_src m ρ c, W14_dst m ρ c, hx]
  try rfl
theorem ent7_2 : Cert.Spec.cur2 (V15 m ρ c main_v159 : S1x64.Idx → EReal) = pEps m c 2 :=
  (host7_v159 (W14 m ρ c)).trans (by rw [W14_a5 m ρ c]; try rfl)
theorem ent7_3 : Cert.Spec.cur2 (V15 m ρ c main_v155 : S64x128.Idx → EReal) = pW1 m c 2 :=
  (host7_v155 (W14 m ρ c)).trans (by rw [W14_a6 m ρ c]; try rfl)
theorem ent7_4 : Cert.Spec.cur2 (V15 m ρ c main_v160 : S1x128.Idx → EReal) = pB1 m c 2 :=
  (host7_v160 (W14 m ρ c)).trans (by rw [W14_a7 m ρ c]; try rfl)

/-! ### Region 8 -/
theorem ent8_0 : V17 m ρ c main_v141 = (dat6 (V13 m ρ) c).arrAt ⟨15, Nat.le_of_ble_eq_true rfl⟩ cfg6.N :=
  ((StableHlo.after_of_writes_sub hostOps8 _ hostOps8_writes (by decide)).trans ((W16_arr m ρ c ⟨0, Nat.le_of_ble_eq_true rfl⟩).trans (((dat7 (V15 m ρ) c).arrAt_in ⟨0, Nat.le_of_ble_eq_true rfl⟩ rfl _).trans (A_eq7 (V15 m ρ) c ⟨0, Nat.le_of_ble_eq_true rfl⟩)))).trans (ent7_0 m ρ c)
theorem ent8_1 : (V17 m ρ c main_v151 : S65536x64.Idx → EReal) = Cert.Hand.aggOf (aEdges m c) ((dat6 (V13 m ρ) c).arrAt ⟨15, Nat.le_of_ble_eq_true rfl⟩ cfg6.N) :=
  ((StableHlo.after_of_writes_sub hostOps8 _ hostOps8_writes (by decide)).trans ((W16_arr m ρ c ⟨1, Nat.le_of_ble_eq_true rfl⟩).trans (((dat7 (V15 m ρ) c).arrAt_in ⟨1, Nat.le_of_ble_eq_true rfl⟩ rfl _).trans (A_eq7 (V15 m ρ) c ⟨1, Nat.le_of_ble_eq_true rfl⟩)))).trans (ent7_1 m ρ c)
theorem ent8_2 : Cert.Spec.cur2 (V17 m ρ c main_v177 : S1x64.Idx → EReal) = pEps m c 2 :=
  (host8_v177 (W16 m ρ c)).trans (by rw [W16_a5 m ρ c]; try rfl)
theorem ent8_3 : Cert.Spec.cur2 (V17 m ρ c main_v165 : S64x128.Idx → EReal) = pW1 m c 2 :=
  (host8_v165 (W16 m ρ c)).trans (by rw [W16_a6 m ρ c]; try rfl)
theorem ent8_4 : Cert.Spec.cur2 (V17 m ρ c main_v178 : S1x128.Idx → EReal) = pB1 m c 2 :=
  (host8_v178 (W16 m ρ c)).trans (by rw [W16_a7 m ρ c]; try rfl)
theorem ent8_5 : V17 m ρ c main_v161_0 = (dat7 (V15 m ρ) c).arrAt ⟨5, Nat.le_of_ble_eq_true rfl⟩ cfg7.N :=
  (StableHlo.after_of_writes_sub hostOps8 _ hostOps8_writes (by decide)).trans (W16_arr m ρ c ⟨5, Nat.le_of_ble_eq_true rfl⟩)
theorem ent8_6 : V17 m ρ c main_v161_1 = (dat7 (V15 m ρ) c).arrAt ⟨6, Nat.le_of_ble_eq_true rfl⟩ cfg7.N :=
  (StableHlo.after_of_writes_sub hostOps8 _ hostOps8_writes (by decide)).trans (W16_arr m ρ c ⟨6, Nat.le_of_ble_eq_true rfl⟩)
theorem ent8_7 : Cert.Spec.cur2 (V17 m ρ c main_v179 : S1x128.Idx → EReal) = pG1 m c 2 :=
  (host8_v179 (W16 m ρ c)).trans (by rw [W16_a8 m ρ c]; try rfl)
theorem ent8_8 : Cert.Spec.cur2 (V17 m ρ c main_v180 : S1x128.Idx → EReal) = pBe1 m c 2 :=
  (host8_v180 (W16 m ρ c)).trans (by rw [W16_a9 m ρ c]; try rfl)
theorem ent8_9 : Cert.Spec.cur2 (V17 m ρ c main_v173 : S128x64.Idx → EReal) = pW2 m c 2 :=
  (host8_v173 (W16 m ρ c)).trans (by rw [W16_a10 m ρ c]; try rfl)
theorem ent8_10 : Cert.Spec.cur2 (V17 m ρ c main_v181 : S1x64.Idx → EReal) = pB2 m c 2 :=
  (host8_v181 (W16 m ρ c)).trans (by rw [W16_a11 m ρ c]; try rfl)

/-! ### Region 9 -/
theorem ent9_0 : V19 m ρ c main_v141 = (dat6 (V13 m ρ) c).arrAt ⟨15, Nat.le_of_ble_eq_true rfl⟩ cfg6.N :=
  ((StableHlo.after_of_writes_sub hostOps9 _ hostOps9_writes (by decide)).trans ((W18_arr m ρ c ⟨0, Nat.le_of_ble_eq_true rfl⟩).trans (((dat8 (V17 m ρ) c).arrAt_in ⟨0, Nat.le_of_ble_eq_true rfl⟩ rfl _).trans (A_eq8 (V17 m ρ) c ⟨0, Nat.le_of_ble_eq_true rfl⟩)))).trans (ent8_0 m ρ c)
theorem ent9_1 : (V19 m ρ c main_v151 : S65536x64.Idx → EReal) = Cert.Hand.aggOf (aEdges m c) ((dat6 (V13 m ρ) c).arrAt ⟨15, Nat.le_of_ble_eq_true rfl⟩ cfg6.N) :=
  ((StableHlo.after_of_writes_sub hostOps9 _ hostOps9_writes (by decide)).trans ((W18_arr m ρ c ⟨1, Nat.le_of_ble_eq_true rfl⟩).trans (((dat8 (V17 m ρ) c).arrAt_in ⟨1, Nat.le_of_ble_eq_true rfl⟩ rfl _).trans (A_eq8 (V17 m ρ) c ⟨1, Nat.le_of_ble_eq_true rfl⟩)))).trans (ent8_1 m ρ c)
theorem ent9_2 : Cert.Spec.cur2 (V19 m ρ c main_v202 : S1x64.Idx → EReal) = pEps m c 2 :=
  (host9_v202 (W18 m ρ c)).trans (by rw [W18_a5 m ρ c]; try rfl)
theorem ent9_3 : Cert.Spec.cur2 (V19 m ρ c main_v186 : S64x128.Idx → EReal) = pW1 m c 2 :=
  (host9_v186 (W18 m ρ c)).trans (by rw [W18_a6 m ρ c]; try rfl)
theorem ent9_4 : Cert.Spec.cur2 (V19 m ρ c main_v203 : S1x128.Idx → EReal) = pB1 m c 2 :=
  (host9_v203 (W18 m ρ c)).trans (by rw [W18_a7 m ρ c]; try rfl)
theorem ent9_5 : V19 m ρ c main_v161_0 = (dat7 (V15 m ρ) c).arrAt ⟨5, Nat.le_of_ble_eq_true rfl⟩ cfg7.N :=
  ((StableHlo.after_of_writes_sub hostOps9 _ hostOps9_writes (by decide)).trans ((W18_arr m ρ c ⟨5, Nat.le_of_ble_eq_true rfl⟩).trans (((dat8 (V17 m ρ) c).arrAt_in ⟨5, Nat.le_of_ble_eq_true rfl⟩ rfl _).trans (A_eq8 (V17 m ρ) c ⟨5, Nat.le_of_ble_eq_true rfl⟩)))).trans (ent8_5 m ρ c)
theorem ent9_6 : V19 m ρ c main_v161_1 = (dat7 (V15 m ρ) c).arrAt ⟨6, Nat.le_of_ble_eq_true rfl⟩ cfg7.N :=
  ((StableHlo.after_of_writes_sub hostOps9 _ hostOps9_writes (by decide)).trans ((W18_arr m ρ c ⟨6, Nat.le_of_ble_eq_true rfl⟩).trans (((dat8 (V17 m ρ) c).arrAt_in ⟨6, Nat.le_of_ble_eq_true rfl⟩ rfl _).trans (A_eq8 (V17 m ρ) c ⟨6, Nat.le_of_ble_eq_true rfl⟩)))).trans (ent8_6 m ρ c)
theorem ent9_7 : Cert.Spec.cur2 (V19 m ρ c main_v204 : S1x128.Idx → EReal) = pG1 m c 2 :=
  (host9_v204 (W18 m ρ c)).trans (by rw [W18_a8 m ρ c]; try rfl)
theorem ent9_8 : Cert.Spec.cur2 (V19 m ρ c main_v205 : S1x128.Idx → EReal) = pBe1 m c 2 :=
  (host9_v205 (W18 m ρ c)).trans (by rw [W18_a9 m ρ c]; try rfl)
theorem ent9_9 : Cert.Spec.cur2 (V19 m ρ c main_v194 : S128x64.Idx → EReal) = pW2 m c 2 :=
  (host9_v194 (W18 m ρ c)).trans (by rw [W18_a10 m ρ c]; try rfl)
theorem ent9_10 : Cert.Spec.cur2 (V19 m ρ c main_v206 : S1x64.Idx → EReal) = pB2 m c 2 :=
  (host9_v206 (W18 m ρ c)).trans (by rw [W18_a11 m ρ c]; try rfl)
theorem ent9_11 : V19 m ρ c main_v182_0 = (dat8 (V17 m ρ) c).arrAt ⟨11, Nat.le_of_ble_eq_true rfl⟩ cfg8.N :=
  (StableHlo.after_of_writes_sub hostOps9 _ hostOps9_writes (by decide)).trans (W18_arr m ρ c ⟨11, Nat.le_of_ble_eq_true rfl⟩)
theorem ent9_12 : V19 m ρ c main_v182_1 = (dat8 (V17 m ρ) c).arrAt ⟨12, Nat.le_of_ble_eq_true rfl⟩ cfg8.N :=
  (StableHlo.after_of_writes_sub hostOps9 _ hostOps9_writes (by decide)).trans (W18_arr m ρ c ⟨12, Nat.le_of_ble_eq_true rfl⟩)
theorem ent9_13 : Cert.Spec.cur2 (V19 m ρ c main_v207 : S1x64.Idx → EReal) = pG2 m c 2 :=
  (host9_v207 (W18 m ρ c)).trans (by rw [W18_a12 m ρ c]; try rfl)
theorem ent9_14 : Cert.Spec.cur2 (V19 m ρ c main_v208 : S1x64.Idx → EReal) = pBe2 m c 2 :=
  (host9_v208 (W18 m ρ c)).trans (by rw [W18_a13 m ρ c]; try rfl)

/-! ### Region 10 -/
theorem ent10_0 : V21 m ρ c main_v209 = (dat9 (V19 m ρ) c).arrAt ⟨15, Nat.le_of_ble_eq_true rfl⟩ cfg9.N :=
  (StableHlo.after_of_writes_sub hostOps10 _ hostOps10_writes (by decide)).trans (W20_arr m ρ c ⟨15, Nat.le_of_ble_eq_true rfl⟩)
theorem ent10_1 : (V21 m ρ c main_v219 : S65536x64.Idx → EReal) = Cert.Hand.aggOf (aEdges m c) ((dat9 (V19 m ρ) c).arrAt ⟨15, Nat.le_of_ble_eq_true rfl⟩ cfg9.N) := by
  have hx : W20 m ρ c (Proc.devRef .tc main_v209) = (dat9 (V19 m ρ) c).arrAt ⟨15, Nat.le_of_ble_eq_true rfl⟩ cfg9.N := W20_arr m ρ c ⟨15, Nat.le_of_ble_eq_true rfl⟩
  refine (host10_v219 (W20 m ρ c)).trans ?_
  rw [W20_src m ρ c, W20_dst m ρ c, hx]
  try rfl
theorem ent10_2 : Cert.Spec.cur2 (V21 m ρ c main_v227 : S1x64.Idx → EReal) = pEps m c 3 :=
  (host10_v227 (W20 m ρ c)).trans (by rw [W20_a5 m ρ c]; try rfl)
theorem ent10_3 : Cert.Spec.cur2 (V21 m ρ c main_v223 : S64x128.Idx → EReal) = pW1 m c 3 :=
  (host10_v223 (W20 m ρ c)).trans (by rw [W20_a6 m ρ c]; try rfl)
theorem ent10_4 : Cert.Spec.cur2 (V21 m ρ c main_v228 : S1x128.Idx → EReal) = pB1 m c 3 :=
  (host10_v228 (W20 m ρ c)).trans (by rw [W20_a7 m ρ c]; try rfl)

/-! ### Region 11 -/
theorem ent11_0 : V23 m ρ c main_v209 = (dat9 (V19 m ρ) c).arrAt ⟨15, Nat.le_of_ble_eq_true rfl⟩ cfg9.N :=
  ((StableHlo.after_of_writes_sub hostOps11 _ hostOps11_writes (by decide)).trans ((W22_arr m ρ c ⟨0, Nat.le_of_ble_eq_true rfl⟩).trans (((dat10 (V21 m ρ) c).arrAt_in ⟨0, Nat.le_of_ble_eq_true rfl⟩ rfl _).trans (A_eq10 (V21 m ρ) c ⟨0, Nat.le_of_ble_eq_true rfl⟩)))).trans (ent10_0 m ρ c)
theorem ent11_1 : (V23 m ρ c main_v219 : S65536x64.Idx → EReal) = Cert.Hand.aggOf (aEdges m c) ((dat9 (V19 m ρ) c).arrAt ⟨15, Nat.le_of_ble_eq_true rfl⟩ cfg9.N) :=
  ((StableHlo.after_of_writes_sub hostOps11 _ hostOps11_writes (by decide)).trans ((W22_arr m ρ c ⟨1, Nat.le_of_ble_eq_true rfl⟩).trans (((dat10 (V21 m ρ) c).arrAt_in ⟨1, Nat.le_of_ble_eq_true rfl⟩ rfl _).trans (A_eq10 (V21 m ρ) c ⟨1, Nat.le_of_ble_eq_true rfl⟩)))).trans (ent10_1 m ρ c)
theorem ent11_2 : Cert.Spec.cur2 (V23 m ρ c main_v245 : S1x64.Idx → EReal) = pEps m c 3 :=
  (host11_v245 (W22 m ρ c)).trans (by rw [W22_a5 m ρ c]; try rfl)
theorem ent11_3 : Cert.Spec.cur2 (V23 m ρ c main_v233 : S64x128.Idx → EReal) = pW1 m c 3 :=
  (host11_v233 (W22 m ρ c)).trans (by rw [W22_a6 m ρ c]; try rfl)
theorem ent11_4 : Cert.Spec.cur2 (V23 m ρ c main_v246 : S1x128.Idx → EReal) = pB1 m c 3 :=
  (host11_v246 (W22 m ρ c)).trans (by rw [W22_a7 m ρ c]; try rfl)
theorem ent11_5 : V23 m ρ c main_v229_0 = (dat10 (V21 m ρ) c).arrAt ⟨5, Nat.le_of_ble_eq_true rfl⟩ cfg10.N :=
  (StableHlo.after_of_writes_sub hostOps11 _ hostOps11_writes (by decide)).trans (W22_arr m ρ c ⟨5, Nat.le_of_ble_eq_true rfl⟩)
theorem ent11_6 : V23 m ρ c main_v229_1 = (dat10 (V21 m ρ) c).arrAt ⟨6, Nat.le_of_ble_eq_true rfl⟩ cfg10.N :=
  (StableHlo.after_of_writes_sub hostOps11 _ hostOps11_writes (by decide)).trans (W22_arr m ρ c ⟨6, Nat.le_of_ble_eq_true rfl⟩)
theorem ent11_7 : Cert.Spec.cur2 (V23 m ρ c main_v247 : S1x128.Idx → EReal) = pG1 m c 3 :=
  (host11_v247 (W22 m ρ c)).trans (by rw [W22_a8 m ρ c]; try rfl)
theorem ent11_8 : Cert.Spec.cur2 (V23 m ρ c main_v248 : S1x128.Idx → EReal) = pBe1 m c 3 :=
  (host11_v248 (W22 m ρ c)).trans (by rw [W22_a9 m ρ c]; try rfl)
theorem ent11_9 : Cert.Spec.cur2 (V23 m ρ c main_v241 : S128x64.Idx → EReal) = pW2 m c 3 :=
  (host11_v241 (W22 m ρ c)).trans (by rw [W22_a10 m ρ c]; try rfl)
theorem ent11_10 : Cert.Spec.cur2 (V23 m ρ c main_v249 : S1x64.Idx → EReal) = pB2 m c 3 :=
  (host11_v249 (W22 m ρ c)).trans (by rw [W22_a11 m ρ c]; try rfl)

/-! ### Region 12 -/
theorem ent12_0 : V25 m ρ c main_v209 = (dat9 (V19 m ρ) c).arrAt ⟨15, Nat.le_of_ble_eq_true rfl⟩ cfg9.N :=
  ((StableHlo.after_of_writes_sub hostOps12 _ hostOps12_writes (by decide)).trans ((W24_arr m ρ c ⟨0, Nat.le_of_ble_eq_true rfl⟩).trans (((dat11 (V23 m ρ) c).arrAt_in ⟨0, Nat.le_of_ble_eq_true rfl⟩ rfl _).trans (A_eq11 (V23 m ρ) c ⟨0, Nat.le_of_ble_eq_true rfl⟩)))).trans (ent11_0 m ρ c)
theorem ent12_1 : (V25 m ρ c main_v219 : S65536x64.Idx → EReal) = Cert.Hand.aggOf (aEdges m c) ((dat9 (V19 m ρ) c).arrAt ⟨15, Nat.le_of_ble_eq_true rfl⟩ cfg9.N) :=
  ((StableHlo.after_of_writes_sub hostOps12 _ hostOps12_writes (by decide)).trans ((W24_arr m ρ c ⟨1, Nat.le_of_ble_eq_true rfl⟩).trans (((dat11 (V23 m ρ) c).arrAt_in ⟨1, Nat.le_of_ble_eq_true rfl⟩ rfl _).trans (A_eq11 (V23 m ρ) c ⟨1, Nat.le_of_ble_eq_true rfl⟩)))).trans (ent11_1 m ρ c)
theorem ent12_2 : Cert.Spec.cur2 (V25 m ρ c main_v270 : S1x64.Idx → EReal) = pEps m c 3 :=
  (host12_v270 (W24 m ρ c)).trans (by rw [W24_a5 m ρ c]; try rfl)
theorem ent12_3 : Cert.Spec.cur2 (V25 m ρ c main_v254 : S64x128.Idx → EReal) = pW1 m c 3 :=
  (host12_v254 (W24 m ρ c)).trans (by rw [W24_a6 m ρ c]; try rfl)
theorem ent12_4 : Cert.Spec.cur2 (V25 m ρ c main_v271 : S1x128.Idx → EReal) = pB1 m c 3 :=
  (host12_v271 (W24 m ρ c)).trans (by rw [W24_a7 m ρ c]; try rfl)
theorem ent12_5 : V25 m ρ c main_v229_0 = (dat10 (V21 m ρ) c).arrAt ⟨5, Nat.le_of_ble_eq_true rfl⟩ cfg10.N :=
  ((StableHlo.after_of_writes_sub hostOps12 _ hostOps12_writes (by decide)).trans ((W24_arr m ρ c ⟨5, Nat.le_of_ble_eq_true rfl⟩).trans (((dat11 (V23 m ρ) c).arrAt_in ⟨5, Nat.le_of_ble_eq_true rfl⟩ rfl _).trans (A_eq11 (V23 m ρ) c ⟨5, Nat.le_of_ble_eq_true rfl⟩)))).trans (ent11_5 m ρ c)
theorem ent12_6 : V25 m ρ c main_v229_1 = (dat10 (V21 m ρ) c).arrAt ⟨6, Nat.le_of_ble_eq_true rfl⟩ cfg10.N :=
  ((StableHlo.after_of_writes_sub hostOps12 _ hostOps12_writes (by decide)).trans ((W24_arr m ρ c ⟨6, Nat.le_of_ble_eq_true rfl⟩).trans (((dat11 (V23 m ρ) c).arrAt_in ⟨6, Nat.le_of_ble_eq_true rfl⟩ rfl _).trans (A_eq11 (V23 m ρ) c ⟨6, Nat.le_of_ble_eq_true rfl⟩)))).trans (ent11_6 m ρ c)
theorem ent12_7 : Cert.Spec.cur2 (V25 m ρ c main_v272 : S1x128.Idx → EReal) = pG1 m c 3 :=
  (host12_v272 (W24 m ρ c)).trans (by rw [W24_a8 m ρ c]; try rfl)
theorem ent12_8 : Cert.Spec.cur2 (V25 m ρ c main_v273 : S1x128.Idx → EReal) = pBe1 m c 3 :=
  (host12_v273 (W24 m ρ c)).trans (by rw [W24_a9 m ρ c]; try rfl)
theorem ent12_9 : Cert.Spec.cur2 (V25 m ρ c main_v262 : S128x64.Idx → EReal) = pW2 m c 3 :=
  (host12_v262 (W24 m ρ c)).trans (by rw [W24_a10 m ρ c]; try rfl)
theorem ent12_10 : Cert.Spec.cur2 (V25 m ρ c main_v274 : S1x64.Idx → EReal) = pB2 m c 3 :=
  (host12_v274 (W24 m ρ c)).trans (by rw [W24_a11 m ρ c]; try rfl)
theorem ent12_11 : V25 m ρ c main_v250_0 = (dat11 (V23 m ρ) c).arrAt ⟨11, Nat.le_of_ble_eq_true rfl⟩ cfg11.N :=
  (StableHlo.after_of_writes_sub hostOps12 _ hostOps12_writes (by decide)).trans (W24_arr m ρ c ⟨11, Nat.le_of_ble_eq_true rfl⟩)
theorem ent12_12 : V25 m ρ c main_v250_1 = (dat11 (V23 m ρ) c).arrAt ⟨12, Nat.le_of_ble_eq_true rfl⟩ cfg11.N :=
  (StableHlo.after_of_writes_sub hostOps12 _ hostOps12_writes (by decide)).trans (W24_arr m ρ c ⟨12, Nat.le_of_ble_eq_true rfl⟩)
theorem ent12_13 : Cert.Spec.cur2 (V25 m ρ c main_v275 : S1x64.Idx → EReal) = pG2 m c 3 :=
  (host12_v275 (W24 m ρ c)).trans (by rw [W24_a12 m ρ c]; try rfl)
theorem ent12_14 : Cert.Spec.cur2 (V25 m ρ c main_v276 : S1x64.Idx → EReal) = pBe2 m c 3 :=
  (host12_v276 (W24 m ρ c)).trans (by rw [W24_a13 m ρ c]; try rfl)

/-! ### Region 13 -/
theorem ent13_0 : V27 m ρ c main_v277 = (dat12 (V25 m ρ) c).arrAt ⟨15, Nat.le_of_ble_eq_true rfl⟩ cfg12.N :=
  (StableHlo.after_of_writes_sub hostOps13 _ hostOps13_writes (by decide)).trans (W26_arr m ρ c ⟨15, Nat.le_of_ble_eq_true rfl⟩)
theorem ent13_1 : V27 m ρ c main_arg14 = m ((c : Thread nD τ).loc main_arg14) :=
  W27_a14 m ρ c
theorem ent13_2 : Cert.Spec.cur2 (V27 m ρ c main_v278 : S1x256.Idx → EReal) = pBf m c :=
  (host13_v278 (W26 m ρ c)).trans (by rw [W26_a15 m ρ c]; try rfl)

/-! ### The neighbour sum in terms of the same region's input -/

theorem agg1 : (V3 m ρ c main_v15 : S65536x64.Idx → EReal) = Cert.Hand.aggOf (aEdges m c) (V3 m ρ c main_v5) :=
  (ent1_1 m ρ c).trans (congrArg (Cert.Hand.aggOf (aEdges m c)) (ent1_0 m ρ c).symm)
theorem agg2 : (V5 m ρ c main_v15 : S65536x64.Idx → EReal) = Cert.Hand.aggOf (aEdges m c) (V5 m ρ c main_v5) :=
  (ent2_1 m ρ c).trans (congrArg (Cert.Hand.aggOf (aEdges m c)) (ent2_0 m ρ c).symm)
theorem agg3 : (V7 m ρ c main_v15 : S65536x64.Idx → EReal) = Cert.Hand.aggOf (aEdges m c) (V7 m ρ c main_v5) :=
  (ent3_1 m ρ c).trans (congrArg (Cert.Hand.aggOf (aEdges m c)) (ent3_0 m ρ c).symm)
theorem agg4 : (V9 m ρ c main_v83 : S65536x64.Idx → EReal) = Cert.Hand.aggOf (aEdges m c) (V9 m ρ c main_v73) :=
  (ent4_1 m ρ c).trans (congrArg (Cert.Hand.aggOf (aEdges m c)) (ent4_0 m ρ c).symm)
theorem agg5 : (V11 m ρ c main_v83 : S65536x64.Idx → EReal) = Cert.Hand.aggOf (aEdges m c) (V11 m ρ c main_v73) :=
  (ent5_1 m ρ c).trans (congrArg (Cert.Hand.aggOf (aEdges m c)) (ent5_0 m ρ c).symm)
theorem agg6 : (V13 m ρ c main_v83 : S65536x64.Idx → EReal) = Cert.Hand.aggOf (aEdges m c) (V13 m ρ c main_v73) :=
  (ent6_1 m ρ c).trans (congrArg (Cert.Hand.aggOf (aEdges m c)) (ent6_0 m ρ c).symm)
theorem agg7 : (V15 m ρ c main_v151 : S65536x64.Idx → EReal) = Cert.Hand.aggOf (aEdges m c) (V15 m ρ c main_v141) :=
  (ent7_1 m ρ c).trans (congrArg (Cert.Hand.aggOf (aEdges m c)) (ent7_0 m ρ c).symm)
theorem agg8 : (V17 m ρ c main_v151 : S65536x64.Idx → EReal) = Cert.Hand.aggOf (aEdges m c) (V17 m ρ c main_v141) :=
  (ent8_1 m ρ c).trans (congrArg (Cert.Hand.aggOf (aEdges m c)) (ent8_0 m ρ c).symm)
theorem agg9 : (V19 m ρ c main_v151 : S65536x64.Idx → EReal) = Cert.Hand.aggOf (aEdges m c) (V19 m ρ c main_v141) :=
  (ent9_1 m ρ c).trans (congrArg (Cert.Hand.aggOf (aEdges m c)) (ent9_0 m ρ c).symm)
theorem agg10 : (V21 m ρ c main_v219 : S65536x64.Idx → EReal) = Cert.Hand.aggOf (aEdges m c) (V21 m ρ c main_v209) :=
  (ent10_1 m ρ c).trans (congrArg (Cert.Hand.aggOf (aEdges m c)) (ent10_0 m ρ c).symm)
theorem agg11 : (V23 m ρ c main_v219 : S65536x64.Idx → EReal) = Cert.Hand.aggOf (aEdges m c) (V23 m ρ c main_v209) :=
  (ent11_1 m ρ c).trans (congrArg (Cert.Hand.aggOf (aEdges m c)) (ent11_0 m ρ c).symm)
theorem agg12 : (V25 m ρ c main_v219 : S65536x64.Idx → EReal) = Cert.Hand.aggOf (aEdges m c) (V25 m ρ c main_v209) :=
  (ent12_1 m ρ c).trans (congrArg (Cert.Hand.aggOf (aEdges m c)) (ent12_0 m ρ c).symm)

/-! ### The result -/

/-- The program's result, 16 slabs of 4096 rows, read at slab s, row q: row 4096 s + q of what the last region leaves. -/
theorem result_read (s : Fin 16) (q : Fin 4096) (k : Fin 256) :
    (W29 m ρ c (Proc.devRef .tc main_v280) : S16x4096x256.Idx → EReal) (ix3 s q k)
      = ((dat13 (V27 m ρ) c).arrAt ⟨3, Nat.le_of_ble_eq_true rfl⟩ cfg13.N : S65536x256.Idx → EReal) (ix2 ⟨4096 * s.val + q.val, by omega⟩ k) := by
  have hx : W28 m ρ c (Proc.devRef .tc main_v279) = (dat13 (V27 m ρ) c).arrAt ⟨3, Nat.le_of_ble_eq_true rfl⟩ cfg13.N := W28_arr m ρ c ⟨3, Nat.le_of_ble_eq_true rfl⟩
  have h := host14_v280 (W28 m ρ c) s q k
  rw [hx] at h
  exact h

end Cert.KernelIdeal.Val

end
-- ==== Proof.Math.Net.lean ====
/- The whole network as one function of what the arguments hold. The node features enter as one scalar per node;
   the parameters of the four layers are stacked along a leading axis of size four, and layer i uses member i of each
   stack. A layer's neighbour sums are the gather-and-add of Math/Agg.lean applied to the layer's input, which that
   file takes as an array; a curried function of a node and a feature is turned into such an array by reading it
   at an index's two coordinates. The network is the first stage, the four layers in order, and the last map. -/
import proofs.«159011_j9938554322955_1_alg».proof.Proof.Math.Spec
import proofs.«159011_j9938554322955_1_alg».proof.Proof.Math.Agg

noncomputable section

namespace Cert.Spec

open Idealize.ShloMosaic Idealize.ShloMosaic.ValueIdx

/-- A curried function of two bounded coordinates as an array of shape [n0, n1]. -/
def unc2 {n0 n1 : Nat} (f : Fin n0 → Fin n1 → EReal) : (⟨2, ![n0, n1]⟩ : Shape).Idx → EReal :=
  fun i => f (i 0) (i 1)

/-- Reading the array of a curried function gives the function back. -/
theorem cur2_unc2 {n0 n1 : Nat} (f : Fin n0 → Fin n1 → EReal) : cur2 (unc2 f) = f := rfl

/-- The array of an array's curried reading is the array. -/
theorem unc2_cur2 {n0 n1 : Nat} (a : (⟨2, ![n0, n1]⟩ : Shape).Idx → EReal) : unc2 (cur2 a) = a :=
  funext fun i => congrArg a (eq_ix2 i).symm

/-- A vector of n entries as a one-row table. -/
def vec1 {n : Nat} (v : (⟨1, ![n]⟩ : Shape).Idx → EReal) : Fin 1 → Fin n → EReal := fun _ j => v (ix1 j)

section Net

variable (ei : IVec ⟨2, ![2, 1048576]⟩ 32)
  (xin : (⟨2, ![65536, 1]⟩ : Shape).Idx → EReal) (win : (⟨2, ![1, 64]⟩ : Shape).Idx → EReal)
  (bin : (⟨1, ![64]⟩ : Shape).Idx → EReal)
  (eps : (⟨1, ![4]⟩ : Shape).Idx → EReal) (W1s : (⟨3, ![4, 64, 128]⟩ : Shape).Idx → EReal)
  (b1s g1s be1s : (⟨2, ![4, 128]⟩ : Shape).Idx → EReal)
  (W2s : (⟨3, ![4, 128, 64]⟩ : Shape).Idx → EReal) (b2s g2s be2s : (⟨2, ![4, 64]⟩ : Shape).Idx → EReal)
  (Wf : (⟨2, ![64, 256]⟩ : Shape).Idx → EReal) (bf : (⟨1, ![256]⟩ : Shape).Idx → EReal)

/-- Layer i of the network on curried features: a layer with member i of each stack of parameters and the neighbour
    sums of its input. -/
def stepS (i : Fin 4) (x : Fin 65536 → Fin 64 → EReal) : Fin 65536 → Fin 64 → EReal :=
  layer (fun _ _ => eps (ix1 i)) x (cur2 (Cert.Hand.aggOf ei (unc2 x)))
    (fun k j => W1s (ix3 i k j)) (fun _ j => b1s (ix2 i j)) (fun _ j => g1s (ix2 i j)) (fun _ j => be1s (ix2 i j))
    (fun k j => W2s (ix3 i k j)) (fun _ j => b2s (ix2 i j)) (fun _ j => g2s (ix2 i j)) (fun _ j => be2s (ix2 i j))

/-- The network: the first stage, four layers, the last map. -/
def netS : Fin 65536 → Fin 256 → EReal :=
  final
    (stepS ei eps W1s b1s g1s be1s W2s b2s g2s be2s 3 (stepS ei eps W1s b1s g1s be1s W2s b2s g2s be2s 2 (stepS ei eps W1s b1s g1s be1s W2s b2s g2s be2s 1 (stepS ei eps W1s b1s g1s be1s W2s b2s g2s be2s 0
      (embed (cur2 xin) (cur2 win) (vec1 bin))))))
    (cur2 Wf) (vec1 bf)

end Net

end Cert.Spec

end
-- ==== Proof.Math.Real.lean ====
/- The real-number mathematics of the network's stages. The three float constants (65536, its reciprocal 2⁻¹⁶ and one)
   are the real numbers they spell, and the variance offset is a positive real. Division by 65536 is multiplication by
   2⁻¹⁶ on all of the extended reals. A sum over the 65536 nodes is the sum of sixteen consecutive blocks of 4096.
   Hence the statistics arranged as "sum the blocks, multiply the total by 2⁻¹⁶" and "mean of the squares minus the
   square of the mean" are the mean and the variance (the mean squared deviation from the mean) whenever the data are
   real. Every stage maps real data to real data; the variance of real data is a nonnegative real, so the reciprocal
   square root of variance plus offset is real. -/
import Mathlib.Data.EReal.Inv
import Mathlib.Algebra.BigOperators.Fin
import Mathlib.Tactic.Ring
import Mathlib.Tactic.NormNum
import Mathlib.Tactic.Positivity
import Idealize.ShloMosaic.PureOps.Ideal
import proofs.«159011_j9938554322955_1_alg».proof.Proof.LibBlockSum
import proofs.«159011_j9938554322955_1_alg».proof.Proof.LibStats
import proofs.«159011_j9938554322955_1_alg».proof.Proof.Math.Spec

noncomputable section

namespace Cert.Spec

open Idealize.ShloMosaic
open Cert.Lib hiding isReal_mean

/-! ### The constants -/

/-- The single-precision pattern 0x47800000 is 65536 = 2²³ · 2⁻⁷. -/
theorem ofBits_65536 : Ideal.ofBits .f32 0x47800000#32 = ((65536 : ℝ) : EReal) := by
  simp [Ideal.ofBits, Ideal.ieee, -EReal.coe_mul]; norm_num

/-- The single-precision pattern 0x37800000 is 2⁻¹⁶ = 1 / 65536. -/
theorem ofBits_inv65536 : Ideal.ofBits .f32 0x37800000#32 = ((1 / 65536 : ℝ) : EReal) := by
  simp [Ideal.ofBits, Ideal.ieee, -EReal.coe_mul]; norm_num

/-- The single-precision pattern 0x3F800000 is one. -/
theorem ofBits_one : Ideal.ofBits .f32 0x3F800000#32 = 1 := by
  simp [Ideal.ofBits, Ideal.ieee, -EReal.coe_mul]; norm_num

theorem ofBits_wN : Ideal.ofBits .f32 wN = ((65536 : ℝ) : EReal) := ofBits_65536

theorem ofBits_wInvN : Ideal.ofBits .f32 wInvN = ((1 / 65536 : ℝ) : EReal) := ofBits_inv65536

theorem ofBits_wOne : Ideal.ofBits .f32 wOne = 1 := ofBits_one

/-- The offset is a positive real number. -/
theorem ofBits_wEps : ∃ e : ℝ, 0 < e ∧ Ideal.ofBits .f32 wEps = (e : EReal) := Cert.Lib.ofBits_eps

theorem cN_eq : cN = ((65536 : ℝ) : EReal) := ofBits_wN

theorem cOne_eq : cOne = 1 := ofBits_wOne

/-- The variance offset is a positive real number. -/
theorem cEps_pos : ∃ e : ℝ, 0 < e ∧ cEps = (e : EReal) := ofBits_wEps

theorem isReal_cN : IsReal cN := ⟨_, cN_eq⟩

theorem isReal_cOne : IsReal cOne := by rw [cOne_eq]; exact isReal_one

theorem isReal_cEps : IsReal cEps := by obtain ⟨e, _, h⟩ := cEps_pos; exact ⟨e, h⟩

theorem isReal_wInvN : IsReal (Ideal.ofBits .f32 wInvN) := ⟨_, ofBits_wInvN⟩

theorem cEps_pos' : 0 < cEps := by
  obtain ⟨e, he, h⟩ := cEps_pos; rw [h]; exact EReal.coe_pos.mpr he

theorem n_ne : (65536 : ℝ) ≠ 0 := by norm_num

theorem n_cast : (65536 : ℝ) = ((65536 : ℕ) : ℝ) := by norm_num

/-- Division by the number of nodes is multiplication by 2⁻¹⁶, at the infinities too. -/
theorem div_cN (x : EReal) : Ideal.div x cN = x * Ideal.ofBits .f32 wInvN := by
  rw [cN_eq, ofBits_wInvN, Ideal.div_coe n_ne]

/-- The same with the factors in the other order. -/
theorem div_cN' (x : EReal) : Ideal.div x cN = Ideal.ofBits .f32 wInvN * x := by
  rw [div_cN, mul_comm]

/-! ### 65536 terms as 16 blocks of 4096 -/

/-- Place y of block t, for 16 blocks of 4096, lies below 65536. -/
theorem blk_lt (t : Fin 16) (y : Fin 4096) : 4096 * t.val + y.val < 65536 := by omega

/-- 65536 terms are 16 consecutive blocks of 4096. -/
theorem sum_blocks_65536 {M : Type*} [AddCommMonoid M] (f : Fin 65536 → M) :
    ∑ t : Fin 16, ∑ y : Fin 4096, f ⟨4096 * t.val + y.val, blk_lt t y⟩ = ∑ r : Fin 65536, f r :=
  sum_blocks_of_eq (nb := 16) (bs := 4096) (N := 65536) rfl f

/-- 65536 terms from a range of 16 block sums. -/
theorem sum_range_blocks_65536 {M : Type*} [AddCommMonoid M] (f : Fin 65536 → M) (B : ℕ → M)
    (hB : ∀ (t : ℕ) (ht : t < 16), B t = ∑ y : Fin 4096, f ⟨4096 * t + y.val, by omega⟩) :
    ∑ s ∈ Finset.range 16, B s = ∑ r : Fin 65536, f r :=
  sum_range_blocks_of_eq (nb := 16) (bs := 4096) (N := 65536) rfl f B hB

/-- 65536 terms from 16 block sums indexed by Fin 16. -/
theorem sum_fin_blocks_65536 {M : Type*} [AddCommMonoid M] (f : Fin 65536 → M) (B : Fin 16 → M)
    (hB : ∀ t : Fin 16, B t = ∑ y : Fin 4096, f ⟨4096 * t.val + y.val, blk_lt t y⟩) :
    ∑ t : Fin 16, B t = ∑ r : Fin 65536, f r := by
  rw [← sum_blocks_65536 f]
  exact Finset.sum_congr rfl (fun t _ => hB t)

/-! ### The statistics as the programs arrange them -/

/-- The mean of feature j, spelt out. -/
theorem mean_apply {b : ℕ} (z : Fin 65536 → Fin b → EReal) (i : Fin 1) (j : Fin b) :
    mean z i j = Ideal.div (∑ r, z r j) cN := rfl

/-- The variance of feature j, spelt out. -/
theorem var_apply {b : ℕ} (z : Fin 65536 → Fin b → EReal) (i : Fin 1) (j : Fin b) :
    var z i j = Ideal.div (∑ r, (z r j - mean z 0 j) * (z r j - mean z 0 j)) cN := rfl

/-- Any arrangement S of the sum of feature j, times 2⁻¹⁶, is the mean. -/
theorem mean_of_sum {b : ℕ} (z : Fin 65536 → Fin b → EReal) (j : Fin b) {S : EReal} (hS : S = ∑ r, z r j) :
    S * Ideal.ofBits .f32 wInvN = mean z 0 j := by
  rw [hS]; exact (div_cN _).symm

/-- The same with the factors in the other order. -/
theorem mean_of_sum' {b : ℕ} (z : Fin 65536 → Fin b → EReal) (j : Fin b) {S : EReal} (hS : S = ∑ r, z r j) :
    Ideal.ofBits .f32 wInvN * S = mean z 0 j := by
  rw [mul_comm]; exact mean_of_sum z j hS

/-- Sixteen blocks of 4096 rows summed, the total times 2⁻¹⁶, is the mean. -/
theorem mean_kernel_form {b : ℕ} (z : Fin 65536 → Fin b → EReal) (_hz : ∀ r j, IsReal (z r j)) (j : Fin b) :
    (∑ t : Fin 16, ∑ y : Fin 4096, z ⟨4096 * t.val + y.val, blk_lt t y⟩ j) * Ideal.ofBits .f32 wInvN
      = mean z 0 j :=
  mean_of_sum z j (sum_blocks_65536 (fun r => z r j))

/-- The same with a leading zero in front of the total. -/
theorem mean_kernel_form_zero_add {b : ℕ} (z : Fin 65536 → Fin b → EReal) (_hz : ∀ r j, IsReal (z r j))
    (j : Fin b) :
    (0 + ∑ t : Fin 16, ∑ y : Fin 4096, z ⟨4096 * t.val + y.val, blk_lt t y⟩ j) * Ideal.ofBits .f32 wInvN
      = mean z 0 j := by
  rw [zero_add]; exact mean_kernel_form z _hz j

/-- The same with the blocks indexed by a range of naturals. -/
theorem mean_kernel_form_range {b : ℕ} (z : Fin 65536 → Fin b → EReal) (j : Fin b) (B : ℕ → EReal)
    (hB : ∀ (t : ℕ) (ht : t < 16), B t = ∑ y : Fin 4096, z ⟨4096 * t + y.val, by omega⟩ j) :
    (∑ s ∈ Finset.range 16, B s) * Ideal.ofBits .f32 wInvN = mean z 0 j :=
  mean_of_sum z j (sum_range_blocks_65536 (fun r => z r j) B hB)

/-- For real data: the mean squared deviation from the mean is the sum of the squares times 2⁻¹⁶ minus the square of
    the sum times 2⁻¹⁶. -/
theorem var_core (f : Fin 65536 → EReal) (hf : ∀ r, IsReal (f r)) :
    Ideal.div (∑ r, (f r - Ideal.div (∑ r, f r) cN) * (f r - Ideal.div (∑ r, f r) cN)) cN
      = (∑ r, f r * f r) * Ideal.ofBits .f32 wInvN
        - ((∑ r, f r) * Ideal.ofBits .f32 wInvN) * ((∑ r, f r) * Ideal.ofBits .f32 wInvN) := by
  rw [← div_cN, ← div_cN, cN_eq]
  exact variance_identity (by norm_num) f hf 65536 n_cast

/-- Any arrangements S of the sum and Q of the sum of squares of feature j of real data: with m = S · 2⁻¹⁶,
    Q · 2⁻¹⁶ − m · m is the variance. -/
theorem var_of_sums {b : ℕ} (z : Fin 65536 → Fin b → EReal) (hz : ∀ r j, IsReal (z r j)) (j : Fin b)
    {S Q m : EReal} (hS : S = ∑ r, z r j) (hQ : Q = ∑ r, z r j * z r j)
    (hm : m = S * Ideal.ofBits .f32 wInvN) :
    Q * Ideal.ofBits .f32 wInvN - m * m = var z 0 j := by
  rw [hm, hS, hQ]
  exact (var_core (fun r => z r j) (fun r => hz r j)).symm

/-- The same with the mean named. -/
theorem var_of_sumsq_mean {b : ℕ} (z : Fin 65536 → Fin b → EReal) (hz : ∀ r j, IsReal (z r j)) (j : Fin b)
    {Q : EReal} (hQ : Q = ∑ r, z r j * z r j) :
    Q * Ideal.ofBits .f32 wInvN - mean z 0 j * mean z 0 j = var z 0 j :=
  var_of_sums z hz j rfl hQ (mean_of_sum z j rfl).symm

/-- Sixteen blocks of 4096 rows of squares summed, the total times 2⁻¹⁶, minus the square of the mean arranged the same
    way, is the variance of real data. -/
theorem var_kernel_form {b : ℕ} (z : Fin 65536 → Fin b → EReal) (hz : ∀ r j, IsReal (z r j)) (j : Fin b) :
    (∑ t : Fin 16, ∑ y : Fin 4096,
        z ⟨4096 * t.val + y.val, blk_lt t y⟩ j * z ⟨4096 * t.val + y.val, blk_lt t y⟩ j)
        * Ideal.ofBits .f32 wInvN
      - ((∑ t : Fin 16, ∑ y : Fin 4096, z ⟨4096 * t.val + y.val, blk_lt t y⟩ j) * Ideal.ofBits .f32 wInvN)
        * ((∑ t : Fin 16, ∑ y : Fin 4096, z ⟨4096 * t.val + y.val, blk_lt t y⟩ j) * Ideal.ofBits .f32 wInvN)
      = var z 0 j :=
  var_of_sums z hz j (sum_blocks_65536 (fun r => z r j)) (sum_blocks_65536 (fun r => z r j * z r j)) rfl

/-- The same with a leading zero in front of each total. -/
theorem var_kernel_form_zero_add {b : ℕ} (z : Fin 65536 → Fin b → EReal) (hz : ∀ r j, IsReal (z r j))
    (j : Fin b) :
    (0 + ∑ t : Fin 16, ∑ y : Fin 4096,
        z ⟨4096 * t.val + y.val, blk_lt t y⟩ j * z ⟨4096 * t.val + y.val, blk_lt t y⟩ j)
        * Ideal.ofBits .f32 wInvN
      - ((0 + ∑ t : Fin 16, ∑ y : Fin 4096, z ⟨4096 * t.val + y.val, blk_lt t y⟩ j) * Ideal.ofBits .f32 wInvN)
        * ((0 + ∑ t : Fin 16, ∑ y : Fin 4096, z ⟨4096 * t.val + y.val, blk_lt t y⟩ j)
            * Ideal.ofBits .f32 wInvN)
      = var z 0 j := by
  simp only [zero_add]; exact var_kernel_form z hz j

/-- The same with the blocks indexed by a range of naturals. -/
theorem var_kernel_form_range {b : ℕ} (z : Fin 65536 → Fin b → EReal) (hz : ∀ r j, IsReal (z r j)) (j : Fin b)
    (B C : ℕ → EReal)
    (hB : ∀ (t : ℕ) (ht : t < 16), B t = ∑ y : Fin 4096, z ⟨4096 * t + y.val, by omega⟩ j)
    (hC : ∀ (t : ℕ) (ht : t < 16), C t = ∑ y : Fin 4096,
        z ⟨4096 * t + y.val, by omega⟩ j * z ⟨4096 * t + y.val, by omega⟩ j) :
    (∑ s ∈ Finset.range 16, C s) * Ideal.ofBits .f32 wInvN
      - ((∑ s ∈ Finset.range 16, B s) * Ideal.ofBits .f32 wInvN)
        * ((∑ s ∈ Finset.range 16, B s) * Ideal.ofBits .f32 wInvN)
      = var z 0 j :=
  var_of_sums z hz j (sum_range_blocks_65536 (fun r => z r j) B hB)
    (sum_range_blocks_65536 (fun r => z r j * z r j) C hC) rfl

/-! ### Every stage keeps real data real -/

theorem isReal_embed {x : Fin 65536 → Fin 1 → EReal} {w b : Fin 1 → Fin 64 → EReal}
    (hx : ∀ r k, IsReal (x r k)) (hw : ∀ i k, IsReal (w i k)) (hb : ∀ i k, IsReal (b i k)) :
    ∀ r k, IsReal (embed x w b r k) :=
  fun r k => ((hx r 0).mul (hw 0 k)).add (hb 0 k)

theorem isReal_combine {e : Fin 1 → Fin 64 → EReal} {x agg : Fin 65536 → Fin 64 → EReal}
    (he : ∀ i k, IsReal (e i k)) (hx : ∀ r k, IsReal (x r k)) (hagg : ∀ r k, IsReal (agg r k)) :
    ∀ r k, IsReal (combine e x agg r k) :=
  fun r k => ((isReal_cOne.add (he 0 k)).mul (hx r k)).add (hagg r k)

theorem isReal_lin {n a b : ℕ} {h : Fin n → Fin a → EReal} {W : Fin a → Fin b → EReal}
    {bias : Fin 1 → Fin b → EReal}
    (hh : ∀ r k, IsReal (h r k)) (hW : ∀ k j, IsReal (W k j)) (hb : ∀ i j, IsReal (bias i j)) :
    ∀ r j, IsReal (lin h W bias r j) :=
  fun r j => (isReal_sum_univ _ (fun k => (hh r k).mul (hW k j))).add (hb 0 j)

theorem isReal_mean {b : ℕ} {z : Fin 65536 → Fin b → EReal} (hz : ∀ r j, IsReal (z r j)) :
    ∀ i j, IsReal (mean z i j) := fun i j => by
  rw [mean_apply, cN_eq]
  exact (isReal_sum_univ _ (fun r => hz r j)).div n_ne

/-- The variance of real data is the image of a real number that is not negative. -/
theorem var_nonneg {b : ℕ} {z : Fin 65536 → Fin b → EReal} (hz : ∀ r j, IsReal (z r j)) (i : Fin 1) (j : Fin b) :
    ∃ v : ℝ, 0 ≤ v ∧ var z i j = (v : EReal) := by
  obtain ⟨v, hv, h⟩ :=
    variance_nonneg_real (n := 65536) (by norm_num) (fun r => z r j) (fun r => hz r j) 65536 n_cast
  refine ⟨v, hv, ?_⟩
  rw [← h, var_apply, mean_apply, cN_eq]

theorem isReal_var {b : ℕ} {z : Fin 65536 → Fin b → EReal} (hz : ∀ r j, IsReal (z r j)) :
    ∀ i j, IsReal (var z i j) := fun i j => by
  obtain ⟨v, _, h⟩ := var_nonneg hz i j; exact ⟨v, h⟩

/-- The variance of real data is not negative. -/
theorem var_nonneg' {b : ℕ} {z : Fin 65536 → Fin b → EReal} (hz : ∀ r j, IsReal (z r j)) (i : Fin 1) (j : Fin b) :
    0 ≤ var z i j := by
  obtain ⟨v, hv, h⟩ := var_nonneg hz i j; rw [h]; exact EReal.coe_nonneg.mpr hv

/-- The reciprocal square root of a nonnegative real plus the offset is real. -/
theorem isReal_rsqrt_add_cEps {v : EReal} (hv : ∃ r : ℝ, 0 ≤ r ∧ v = (r : EReal)) :
    IsReal (Ideal.rsqrt (v + cEps)) := by
  obtain ⟨e, he, hE⟩ := cEps_pos
  obtain ⟨r, hr, hV⟩ := hv
  rw [hV, hE]; exact isReal_rsqrt_add hr he

/-- Normalisation by any real mean and any nonnegative real variance keeps real data real. -/
theorem isReal_norm_of {n b : ℕ} {z : Fin n → Fin b → EReal} {mu v g be : Fin 1 → Fin b → EReal}
    (hz : ∀ r j, IsReal (z r j)) (hmu : ∀ i j, IsReal (mu i j))
    (hv : ∀ i j, ∃ r : ℝ, 0 ≤ r ∧ v i j = (r : EReal))
    (hg : ∀ i j, IsReal (g i j)) (hbe : ∀ i j, IsReal (be i j)) :
    ∀ r j, IsReal (norm z mu v g be r j) :=
  fun r j => ((((hz r j).sub (hmu 0 j)).mul (isReal_rsqrt_add_cEps (hv 0 j))).mul (hg 0 j)).add (hbe 0 j)

/-- Normalisation of real data by their own mean and variance is real. -/
theorem isReal_norm {b : ℕ} {z : Fin 65536 → Fin b → EReal} {g be : Fin 1 → Fin b → EReal}
    (hz : ∀ r j, IsReal (z r j)) (hg : ∀ i j, IsReal (g i j)) (hbe : ∀ i j, IsReal (be i j)) :
    ∀ r j, IsReal (norm z (mean z) (var z) g be r j) :=
  isReal_norm_of hz (isReal_mean hz) (var_nonneg hz) hg hbe

theorem isReal_relu {n b : ℕ} {a : Fin n → Fin b → EReal} (ha : ∀ r j, IsReal (a r j)) :
    ∀ r j, IsReal (relu a r j) :=
  fun r j => (ha r j).max isReal_zero

theorem isReal_z1 {e : Fin 1 → Fin 64 → EReal} {x agg : Fin 65536 → Fin 64 → EReal}
    {W1 : Fin 64 → Fin 128 → EReal} {b1 : Fin 1 → Fin 128 → EReal}
    (he : ∀ i k, IsReal (e i k)) (hx : ∀ r k, IsReal (x r k)) (hagg : ∀ r k, IsReal (agg r k))
    (hW1 : ∀ k j, IsReal (W1 k j)) (hb1 : ∀ i j, IsReal (b1 i j)) :
    ∀ r j, IsReal (z1 e x agg W1 b1 r j) :=
  isReal_lin (isReal_combine he hx hagg) hW1 hb1

theorem isReal_a1 {z : Fin 65536 → Fin 128 → EReal} {g1 be1 : Fin 1 → Fin 128 → EReal}
    (hz : ∀ r j, IsReal (z r j)) (hg1 : ∀ i j, IsReal (g1 i j)) (hbe1 : ∀ i j, IsReal (be1 i j)) :
    ∀ r j, IsReal (a1 z g1 be1 r j) :=
  isReal_relu (isReal_norm hz hg1 hbe1)

theorem isReal_z2 {a : Fin 65536 → Fin 128 → EReal} {W2 : Fin 128 → Fin 64 → EReal} {b2 : Fin 1 → Fin 64 → EReal}
    (ha : ∀ r j, IsReal (a r j)) (hW2 : ∀ k j, IsReal (W2 k j)) (hb2 : ∀ i j, IsReal (b2 i j)) :
    ∀ r j, IsReal (z2 a W2 b2 r j) :=
  isReal_lin ha hW2 hb2

theorem isReal_out {x z : Fin 65536 → Fin 64 → EReal} {g2 be2 : Fin 1 → Fin 64 → EReal}
    (hx : ∀ r k, IsReal (x r k)) (hz : ∀ r k, IsReal (z r k))
    (hg2 : ∀ i j, IsReal (g2 i j)) (hbe2 : ∀ i j, IsReal (be2 i j)) :
    ∀ r k, IsReal (out x z g2 be2 r k) :=
  fun r k => (isReal_relu (isReal_norm hz hg2 hbe2) r k).add (hx r k)

theorem isReal_layer {e : Fin 1 → Fin 64 → EReal} {x agg : Fin 65536 → Fin 64 → EReal}
    {W1 : Fin 64 → Fin 128 → EReal} {b1 g1 be1 : Fin 1 → Fin 128 → EReal}
    {W2 : Fin 128 → Fin 64 → EReal} {b2 g2 be2 : Fin 1 → Fin 64 → EReal}
    (he : ∀ i k, IsReal (e i k)) (hx : ∀ r k, IsReal (x r k)) (hagg : ∀ r k, IsReal (agg r k))
    (hW1 : ∀ k j, IsReal (W1 k j)) (hb1 : ∀ i j, IsReal (b1 i j)) (hg1 : ∀ i j, IsReal (g1 i j))
    (hbe1 : ∀ i j, IsReal (be1 i j)) (hW2 : ∀ k j, IsReal (W2 k j)) (hb2 : ∀ i j, IsReal (b2 i j))
    (hg2 : ∀ i j, IsReal (g2 i j)) (hbe2 : ∀ i j, IsReal (be2 i j)) :
    ∀ r k, IsReal (layer e x agg W1 b1 g1 be1 W2 b2 g2 be2 r k) :=
  isReal_out hx (isReal_z2 (isReal_a1 (isReal_z1 he hx hagg hW1 hb1) hg1 hbe1) hW2 hb2) hg2 hbe2

theorem isReal_final {x : Fin 65536 → Fin 64 → EReal} {Wf : Fin 64 → Fin 256 → EReal}
    {bf : Fin 1 → Fin 256 → EReal}
    (hx : ∀ r k, IsReal (x r k)) (hWf : ∀ k j, IsReal (Wf k j)) (hbf : ∀ i j, IsReal (bf i j)) :
    ∀ r j, IsReal (final x Wf bf r j) :=
  isReal_lin hx hWf hbf

end Cert.Spec

end
-- ==== Proof.Math.Compose.lean ====
/- A layer put together from its parts. The program computes a layer in three passes: the first stores the mean and
   variance of the first linear map z1; the second, reading those, stores the mean and variance of the second linear map
   z2 of the normalised and clipped z1; the third, reading all four, stores the normalised and clipped z2 plus the
   layer's input. When the four stored statistics are the means and variances they are meant to be, the third pass's
   output is the layer. The realness facts each pass needs of what the earlier ones stored are collected here too. -/
import proofs.«159011_j9938554322955_1_alg».proof.Proof.Math.Spec
import proofs.«159011_j9938554322955_1_alg».proof.Proof.Math.Real

noncomputable section

namespace Cert.Spec

open Idealize.ShloMosaic
open Cert.Lib (IsReal)

section Layer

variable (e : Fin 1 → Fin 64 → EReal) (x agg : Fin 65536 → Fin 64 → EReal) (W1 : Fin 64 → Fin 128 → EReal)
  (b1 g1 be1 : Fin 1 → Fin 128 → EReal) (W2 : Fin 128 → Fin 64 → EReal) (b2 g2 be2 : Fin 1 → Fin 64 → EReal)

/-- The second linear map from any stored statistics M1, V1 of the first. -/
def z2of (M1 V1 : Fin 1 → Fin 128 → EReal) : Fin 65536 → Fin 64 → EReal :=
  z2 (relu (norm (z1 e x agg W1 b1) M1 V1 g1 be1)) W2 b2

/-- The third pass's output from any stored statistics. -/
def outOf (M1 V1 : Fin 1 → Fin 128 → EReal) (M2 V2 : Fin 1 → Fin 64 → EReal) : Fin 65536 → Fin 64 → EReal :=
  fun r k => relu (norm (z2of e x agg W1 b1 g1 be1 W2 b2 M1 V1) M2 V2 g2 be2) r k + x r k

/-- With the first pass's statistics in place, the second linear map is the layer's. -/
theorem z2of_stats {M1 V1 : Fin 1 → Fin 128 → EReal}
    (h1m : M1 = mean (z1 e x agg W1 b1)) (h1v : V1 = var (z1 e x agg W1 b1)) :
    z2of e x agg W1 b1 g1 be1 W2 b2 M1 V1 = z2 (a1 (z1 e x agg W1 b1) g1 be1) W2 b2 := by
  rw [h1m, h1v]; rfl

/-- With all four statistics in place, the third pass's output is the layer. -/
theorem outOf_stats {M1 V1 : Fin 1 → Fin 128 → EReal} {M2 V2 : Fin 1 → Fin 64 → EReal}
    (h1m : M1 = mean (z1 e x agg W1 b1)) (h1v : V1 = var (z1 e x agg W1 b1))
    (h2m : M2 = mean (z2of e x agg W1 b1 g1 be1 W2 b2 M1 V1))
    (h2v : V2 = var (z2of e x agg W1 b1 g1 be1 W2 b2 M1 V1)) :
    outOf e x agg W1 b1 g1 be1 W2 b2 g2 be2 M1 V1 M2 V2 = layer e x agg W1 b1 g1 be1 W2 b2 g2 be2 := by
  rw [h2m, h2v, h1m, h1v]; rfl

variable {e x agg W1 b1 g1 be1 W2 b2 g2 be2}

/-- The first pass's stored mean is real. -/
theorem isReal_stat1_mean (he : ∀ i k, IsReal (e i k)) (hx : ∀ r k, IsReal (x r k)) (hagg : ∀ r k, IsReal (agg r k))
    (hW1 : ∀ k j, IsReal (W1 k j)) (hb1 : ∀ i j, IsReal (b1 i j)) {M1 : Fin 1 → Fin 128 → EReal}
    (h1m : M1 = mean (z1 e x agg W1 b1)) : ∀ i j, IsReal (M1 i j) := by
  rw [h1m]; exact isReal_mean (isReal_z1 he hx hagg hW1 hb1)

/-- The first pass's stored variance is real. -/
theorem isReal_stat1_var (he : ∀ i k, IsReal (e i k)) (hx : ∀ r k, IsReal (x r k)) (hagg : ∀ r k, IsReal (agg r k))
    (hW1 : ∀ k j, IsReal (W1 k j)) (hb1 : ∀ i j, IsReal (b1 i j)) {V1 : Fin 1 → Fin 128 → EReal}
    (h1v : V1 = var (z1 e x agg W1 b1)) : ∀ i j, IsReal (V1 i j) := by
  rw [h1v]; exact isReal_var (isReal_z1 he hx hagg hW1 hb1)

/-- The second linear map from the first pass's statistics is real. -/
theorem isReal_z2of (he : ∀ i k, IsReal (e i k)) (hx : ∀ r k, IsReal (x r k)) (hagg : ∀ r k, IsReal (agg r k))
    (hW1 : ∀ k j, IsReal (W1 k j)) (hb1 : ∀ i j, IsReal (b1 i j)) (hg1 : ∀ i j, IsReal (g1 i j))
    (hbe1 : ∀ i j, IsReal (be1 i j)) (hW2 : ∀ k j, IsReal (W2 k j)) (hb2 : ∀ i j, IsReal (b2 i j))
    {M1 V1 : Fin 1 → Fin 128 → EReal}
    (h1m : M1 = mean (z1 e x agg W1 b1)) (h1v : V1 = var (z1 e x agg W1 b1)) :
    ∀ r k, IsReal (z2of e x agg W1 b1 g1 be1 W2 b2 M1 V1 r k) := by
  rw [z2of_stats e x agg W1 b1 g1 be1 W2 b2 h1m h1v]
  exact isReal_z2 (isReal_a1 (isReal_z1 he hx hagg hW1 hb1) hg1 hbe1) hW2 hb2

/-- The second pass's stored mean is real. -/
theorem isReal_stat2_mean (he : ∀ i k, IsReal (e i k)) (hx : ∀ r k, IsReal (x r k)) (hagg : ∀ r k, IsReal (agg r k))
    (hW1 : ∀ k j, IsReal (W1 k j)) (hb1 : ∀ i j, IsReal (b1 i j)) (hg1 : ∀ i j, IsReal (g1 i j))
    (hbe1 : ∀ i j, IsReal (be1 i j)) (hW2 : ∀ k j, IsReal (W2 k j)) (hb2 : ∀ i j, IsReal (b2 i j))
    {M1 V1 : Fin 1 → Fin 128 → EReal} {M2 : Fin 1 → Fin 64 → EReal}
    (h1m : M1 = mean (z1 e x agg W1 b1)) (h1v : V1 = var (z1 e x agg W1 b1))
    (h2m : M2 = mean (z2of e x agg W1 b1 g1 be1 W2 b2 M1 V1)) : ∀ i j, IsReal (M2 i j) := by
  rw [h2m]; exact isReal_mean (isReal_z2of he hx hagg hW1 hb1 hg1 hbe1 hW2 hb2 h1m h1v)

/-- The second pass's stored variance is real. -/
theorem isReal_stat2_var (he : ∀ i k, IsReal (e i k)) (hx : ∀ r k, IsReal (x r k)) (hagg : ∀ r k, IsReal (agg r k))
    (hW1 : ∀ k j, IsReal (W1 k j)) (hb1 : ∀ i j, IsReal (b1 i j)) (hg1 : ∀ i j, IsReal (g1 i j))
    (hbe1 : ∀ i j, IsReal (be1 i j)) (hW2 : ∀ k j, IsReal (W2 k j)) (hb2 : ∀ i j, IsReal (b2 i j))
    {M1 V1 : Fin 1 → Fin 128 → EReal} {V2 : Fin 1 → Fin 64 → EReal}
    (h1m : M1 = mean (z1 e x agg W1 b1)) (h1v : V1 = var (z1 e x agg W1 b1))
    (h2v : V2 = var (z2of e x agg W1 b1 g1 be1 W2 b2 M1 V1)) : ∀ i j, IsReal (V2 i j) := by
  rw [h2v]; exact isReal_var (isReal_z2of he hx hagg hW1 hb1 hg1 hbe1 hW2 hb2 h1m h1v)

end Layer

end Cert.Spec

end
-- ==== Proof.Math.Finite.lean ====
/- From the precondition to real data. The precondition takes, for each of the fourteen float arguments, the
   conjunction over all entries x of |x| < +∞, and joins the fourteen results by "and"; it is stated to be true.
   The absolute value on the extended reals is max x (−x), which is +∞ at either infinity, so |x| < +∞ says that x
   is the image of a real number. Hence every entry of every float argument is real. -/
import Idealize.ShloMosaic.Lib.ReduceAll
import Idealize.ShloMosaic.Lib.ValueIdx
import proofs.«159011_j9938554322955_1_alg».proof.Pre_finite_inputs
import proofs.«159011_j9938554322955_1_alg».proof.Defs
import proofs.«159011_j9938554322955_1_alg».proof.Proof.LibStats

noncomputable section

namespace Cert.Finite

open Idealize.ShloMosaic Idealize.SL.Sem Cert.Lib Cert.Pre_finite_inputs

/-- The shape of a scalar has exactly one index. -/
instance : Subsingleton S_.Idx := ⟨fun a b => funext fun d => d.elim0⟩

/-- The single-precision pattern 0x7F800000 is the upper infinity. -/
theorem ofBits_inf : Ideal.ofBits .f32 0x7F800000#32 = (⊤ : EReal) := by simp [Ideal.ofBits, Ideal.ieee]

/-- An extended real whose absolute value max x (−x) lies below the upper infinity is real. -/
theorem isReal_of_abs_lt_top (x : EReal) (h : max x (-x) < ⊤) : IsReal x := by
  induction x using EReal.rec with
  | bot => simp at h
  | coe r => exact ⟨r, rfl⟩
  | top => simp at h

/-- One entry of the comparison |x| < +∞ being true says that the entry of x is real. -/
theorem elem_real {S : Shape} (dims : Fin S_.rank → Fin S.rank) (hb : S_.BroadcastsInDim S dims)
    (x : FVec Ideal S .f32) (i : S.Idx)
    (e : cmpf (F := Ideal) .olt (Host.absf x) (broadcastInDim S dims hb (constant S_ .f32 0x7F800000#32)) i = 1#1) :
    IsReal (x i) := by
  have e' : BitVec.ofBool (decide (max (x i) (-(x i)) < Ideal.ofBits .f32 0x7F800000#32)) = 1#1 := e
  rw [ofBits_inf] at e'
  apply isReal_of_abs_lt_top
  cases hd : decide (max (x i) (-(x i)) < (⊤ : EReal)) with
  | true => exact of_decide_eq_true hd
  | false => rw [hd] at e'; exact absurd e' (by decide)

/-- If the precondition's function is true of sixteen arguments, every entry of each of the fourteen float arguments
    is real. -/
theorem fn_real [Facts] (a0 : IVec S2x1048576 32) (a1 : IVec S65536 32) (a2 : FVec Ideal S65536x1 .f32)
    (a3 : FVec Ideal S1x64 .f32) (a4 : FVec Ideal S64 .f32) (a5 : FVec Ideal S4 .f32) (a6 : FVec Ideal S4x64x128 .f32)
    (a7 a8 a9 : FVec Ideal S4x128 .f32) (a10 : FVec Ideal S4x128x64 .f32) (a11 a12 a13 : FVec Ideal S4x64 .f32)
    (a14 : FVec Ideal S64x256 .f32) (a15 : FVec Ideal S256 .f32)
    (h : fn (F := Ideal) a0 a1 a2 a3 a4 a5 a6 a7 a8 a9 a10 a11 a12 a13 a14 a15 = fun _ => 1#1) :
    (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) := by
  have h0 := congrFun h ValueIdx.ix0
  simp only [fn, fn_part1, fn_part2, fn_part3, fn_part4, andi, IntOp.andi_eq_one] at h0
  obtain ⟨⟨⟨⟨⟨⟨⟨⟨⟨⟨⟨⟨⟨h2, h3⟩, h4⟩, h5⟩, h6⟩, h7⟩, h8⟩, h9⟩, h10⟩, h11⟩, h12⟩, h13⟩, h14⟩, h15⟩ := h0
  exact ⟨fun i => elem_real _ _ a2 i (Host.reduce_andi_all _ _ _ _ _ h2 i),
    fun i => elem_real _ _ a3 i (Host.reduce_andi_all _ _ _ _ _ h3 i),
    fun i => elem_real _ _ a4 i (Host.reduce_andi_all _ _ _ _ _ h4 i),
    fun i => elem_real _ _ a5 i (Host.reduce_andi_all _ _ _ _ _ h5 i),
    fun i => elem_real _ _ a6 i (Host.reduce_andi_all _ _ _ _ _ h6 i),
    fun i => elem_real _ _ a7 i (Host.reduce_andi_all _ _ _ _ _ h7 i),
    fun i => elem_real _ _ a8 i (Host.reduce_andi_all _ _ _ _ _ h8 i),
    fun i => elem_real _ _ a9 i (Host.reduce_andi_all _ _ _ _ _ h9 i),
    fun i => elem_real _ _ a10 i (Host.reduce_andi_all _ _ _ _ _ h10 i),
    fun i => elem_real _ _ a11 i (Host.reduce_andi_all _ _ _ _ _ h11 i),
    fun i => elem_real _ _ a12 i (Host.reduce_andi_all _ _ _ _ _ h12 i),
    fun i => elem_real _ _ a13 i (Host.reduce_andi_all _ _ _ _ _ h13 i),
    fun i => elem_real _ _ a14 i (Host.reduce_andi_all _ _ _ _ _ h14 i),
    fun i => elem_real _ _ a15 i (Host.reduce_andi_all _ _ _ _ _ h15 i)⟩

/-- Under the precondition, on every device, every entry of each of the fourteen float argument arrays is real. -/
theorem args_real [Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg2) : FVec Ideal S65536x1 .f32) i))
      ∧ (∀ i, IsReal ((m ((c.tc : Thread Cert.KernelIdeal.nD Cert.KernelIdeal.τ).loc Cert.KernelIdeal.main_arg3) : FVec Ideal S1x64 .f32) i))
      ∧ (∀ i, IsReal ((m ((c.tc : Thread Cert.KernelIdeal.nD Cert.KernelIdeal.τ).loc Cert.KernelIdeal.main_arg4) : FVec Ideal S64 .f32) i))
      ∧ (∀ i, IsReal ((m ((c.tc : Thread Cert.KernelIdeal.nD Cert.KernelIdeal.τ).loc Cert.KernelIdeal.main_arg5) : FVec Ideal S4 .f32) i))
      ∧ (∀ i, IsReal ((m ((c.tc : Thread Cert.KernelIdeal.nD Cert.KernelIdeal.τ).loc Cert.KernelIdeal.main_arg6) : FVec Ideal S4x64x128 .f32) i))
      ∧ (∀ i, IsReal ((m ((c.tc : Thread Cert.KernelIdeal.nD Cert.KernelIdeal.τ).loc Cert.KernelIdeal.main_arg7) : FVec Ideal S4x128 .f32) i))
      ∧ (∀ i, IsReal ((m ((c.tc : Thread Cert.KernelIdeal.nD Cert.KernelIdeal.τ).loc Cert.KernelIdeal.main_arg8) : FVec Ideal S4x128 .f32) i))
      ∧ (∀ i, IsReal ((m ((c.tc : Thread Cert.KernelIdeal.nD Cert.KernelIdeal.τ).loc Cert.KernelIdeal.main_arg9) : FVec Ideal S4x128 .f32) i))
      ∧ (∀ i, IsReal ((m ((c.tc : Thread Cert.KernelIdeal.nD Cert.KernelIdeal.τ).loc Cert.KernelIdeal.main_arg10) : FVec Ideal S4x128x64 .f32) i))
      ∧ (∀ i, IsReal ((m ((c.tc : Thread Cert.KernelIdeal.nD Cert.KernelIdeal.τ).loc Cert.KernelIdeal.main_arg11) : FVec Ideal S4x64 .f32) i))
      ∧ (∀ i, IsReal ((m ((c.tc : Thread Cert.KernelIdeal.nD Cert.KernelIdeal.τ).loc Cert.KernelIdeal.main_arg12) : FVec Ideal S4x64 .f32) i))
      ∧ (∀ i, IsReal ((m ((c.tc : Thread Cert.KernelIdeal.nD Cert.KernelIdeal.τ).loc Cert.KernelIdeal.main_arg13) : FVec Ideal S4x64 .f32) i))
      ∧ (∀ i, IsReal ((m ((c.tc : Thread Cert.KernelIdeal.nD Cert.KernelIdeal.τ).loc Cert.KernelIdeal.main_arg14) : FVec Ideal S64x256 .f32) i))
      ∧ (∀ i, IsReal ((m ((c.tc : Thread Cert.KernelIdeal.nD Cert.KernelIdeal.τ).loc Cert.KernelIdeal.main_arg15) : FVec Ideal S256 .f32) i)) :=
  fn_real _ _ _ _ _ _ _ _ _ _ _ _ _ _ _ _ (h c)

end Cert.Finite

end
-- ==== Proof.KI.Net.lean ====
/- The network on one device's arguments, and their realness. The parameters of the four layers are stacked along a
   leading axis of size four, and layer i uses member i of each stack; a layer's neighbour sums are those of its input.
   Under the precondition every entry of every float argument is real, hence so is every member of every stack. -/
import proofs.«159011_j9938554322955_1_alg».proof.Proof.KI.Host
import proofs.«159011_j9938554322955_1_alg».proof.Proof.Math.Net
import proofs.«159011_j9938554322955_1_alg».proof.Proof.Math.Compose
import proofs.«159011_j9938554322955_1_alg».proof.Proof.Math.Finite

set_option maxRecDepth 4628

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Lib (IsReal)

variable (m : (ℓ : Loc nD τ sig) → Buf (Elt Ideal) ℓ) (ρ : Dev nD → PrngReg) (c : Dev nD)

/-! ### The network on this device's arguments -/

/-- Layer i of the network with the parameters this device's arguments hold. -/
noncomputable def stepM (i : Fin 4) (X : Fin 65536 → Fin 64 → EReal) : Fin 65536 → Fin 64 → EReal :=
  Spec.stepS (aEdges m c) (m ((c : Thread nD τ).loc main_arg5) : S4.Idx → EReal) (m ((c : Thread nD τ).loc main_arg6) : S4x64x128.Idx → EReal)
    (m ((c : Thread nD τ).loc main_arg7) : S4x128.Idx → EReal) (m ((c : Thread nD τ).loc main_arg8) : S4x128.Idx → EReal)
    (m ((c : Thread nD τ).loc main_arg9) : S4x128.Idx → EReal) (m ((c : Thread nD τ).loc main_arg10) : S4x128x64.Idx → EReal)
    (m ((c : Thread nD τ).loc main_arg11) : S4x64.Idx → EReal) (m ((c : Thread nD τ).loc main_arg12) : S4x64.Idx → EReal)
    (m ((c : Thread nD τ).loc main_arg13) : S4x64.Idx → EReal) i X

/-- Layer i is a layer with member i of each stack and the neighbour sums of its input. -/
theorem stepM_eq (i : Fin 4) (X : Fin 65536 → Fin 64 → EReal) :
    stepM m c i X = Spec.layer (pEps m c i) X (Spec.cur2 (Cert.Hand.aggOf (aEdges m c) (Spec.unc2 X))) (pW1 m c i) (pB1 m c i)
      (pG1 m c i) (pBe1 m c i) (pW2 m c i) (pB2 m c i) (pG2 m c i) (pBe2 m c i) := rfl

/-- The whole network with what this device's arguments hold. -/
noncomputable def netM : Fin 65536 → Fin 256 → EReal :=
  Spec.netS (aEdges m c) (m ((c : Thread nD τ).loc main_arg2) : S65536x1.Idx → EReal) (m ((c : Thread nD τ).loc main_arg3) : S1x64.Idx → EReal)
    (m ((c : Thread nD τ).loc main_arg4) : S64.Idx → EReal) (m ((c : Thread nD τ).loc main_arg5) : S4.Idx → EReal)
    (m ((c : Thread nD τ).loc main_arg6) : S4x64x128.Idx → EReal) (m ((c : Thread nD τ).loc main_arg7) : S4x128.Idx → EReal)
    (m ((c : Thread nD τ).loc main_arg8) : S4x128.Idx → EReal) (m ((c : Thread nD τ).loc main_arg9) : S4x128.Idx → EReal)
    (m ((c : Thread nD τ).loc main_arg10) : S4x128x64.Idx → EReal) (m ((c : Thread nD τ).loc main_arg11) : S4x64.Idx → EReal)
    (m ((c : Thread nD τ).loc main_arg12) : S4x64.Idx → EReal) (m ((c : Thread nD τ).loc main_arg13) : S4x64.Idx → EReal)
    (m ((c : Thread nD τ).loc main_arg14) : S64x256.Idx → EReal) (m ((c : Thread nD τ).loc main_arg15) : S256.Idx → EReal)

/-- The first stage on this device's arguments. -/
noncomputable def embedM : Fin 65536 → Fin 64 → EReal :=
  Spec.embed (Spec.cur2 (m ((c : Thread nD τ).loc main_arg2) : S65536x1.Idx → EReal)) (Spec.cur2 (m ((c : Thread nD τ).loc main_arg3) : S1x64.Idx → EReal)) (pBin m c)

/-- The network is the first stage, the four layers in order, and the last map. -/
theorem netM_eq :
    netM m c = Spec.final (stepM m c 3 (stepM m c 2 (stepM m c 1 (stepM m c 0 (embedM m c)))))
      (Spec.cur2 (m ((c : Thread nD τ).loc main_arg14) : S64x256.Idx → EReal)) (pBf m c) := rfl

/-! ### Under the precondition the parameters are real -/

section Real

variable [Cert.Pre_finite_inputs.Facts] (hpre : Cert.Pre_KernelIdeal m)
include hpre

theorem isReal_pEps (i : Fin 4) : ∀ a k, IsReal (pEps m c i a k) := fun a k => by
  obtain ⟨h2, h3, h4, h5, h6, h7, h8, h9, h10, h11, h12, h13, h14, h15⟩ := Cert.Finite.args_real m hpre c
  exact h5 (ix1 i)

theorem isReal_pW1 (i : Fin 4) : ∀ a k, IsReal (pW1 m c i a k) := fun a k => by
  obtain ⟨h2, h3, h4, h5, h6, h7, h8, h9, h10, h11, h12, h13, h14, h15⟩ := Cert.Finite.args_real m hpre c
  exact h6 (ix3 i a k)

theorem isReal_pB1 (i : Fin 4) : ∀ a k, IsReal (pB1 m c i a k) := fun a k => by
  obtain ⟨h2, h3, h4, h5, h6, h7, h8, h9, h10, h11, h12, h13, h14, h15⟩ := Cert.Finite.args_real m hpre c
  exact h7 (ix2 i k)

theorem isReal_pG1 (i : Fin 4) : ∀ a k, IsReal (pG1 m c i a k) := fun a k => by
  obtain ⟨h2, h3, h4, h5, h6, h7, h8, h9, h10, h11, h12, h13, h14, h15⟩ := Cert.Finite.args_real m hpre c
  exact h8 (ix2 i k)

theorem isReal_pBe1 (i : Fin 4) : ∀ a k, IsReal (pBe1 m c i a k) := fun a k => by
  obtain ⟨h2, h3, h4, h5, h6, h7, h8, h9, h10, h11, h12, h13, h14, h15⟩ := Cert.Finite.args_real m hpre c
  exact h9 (ix2 i k)

theorem isReal_pW2 (i : Fin 4) : ∀ a k, IsReal (pW2 m c i a k) := fun a k => by
  obtain ⟨h2, h3, h4, h5, h6, h7, h8, h9, h10, h11, h12, h13, h14, h15⟩ := Cert.Finite.args_real m hpre c
  exact h10 (ix3 i a k)

theorem isReal_pB2 (i : Fin 4) : ∀ a k, IsReal (pB2 m c i a k) := fun a k => by
  obtain ⟨h2, h3, h4, h5, h6, h7, h8, h9, h10, h11, h12, h13, h14, h15⟩ := Cert.Finite.args_real m hpre c
  exact h11 (ix2 i k)

theorem isReal_pG2 (i : Fin 4) : ∀ a k, IsReal (pG2 m c i a k) := fun a k => by
  obtain ⟨h2, h3, h4, h5, h6, h7, h8, h9, h10, h11, h12, h13, h14, h15⟩ := Cert.Finite.args_real m hpre c
  exact h12 (ix2 i k)

theorem isReal_pBe2 (i : Fin 4) : ∀ a k, IsReal (pBe2 m c i a k) := fun a k => by
  obtain ⟨h2, h3, h4, h5, h6, h7, h8, h9, h10, h11, h12, h13, h14, h15⟩ := Cert.Finite.args_real m hpre c
  exact h13 (ix2 i k)

/-- The first stage of real arguments is real. -/
theorem isReal_embedM : ∀ r k, IsReal (embedM m c r k) := by
  obtain ⟨h2, h3, h4, h5, h6, h7, h8, h9, h10, h11, h12, h13, h14, h15⟩ := Cert.Finite.args_real m hpre c
  exact Spec.isReal_embed (fun r k => h2 _) (fun a k => h3 _) (fun a k => h4 _)

end Real

/-! ### One layer through its three passes, over what the passes read -/

set_option maxHeartbeats 1000000 in
/-- A layer through its three passes. The first pass reads e1 x1 g1 w1 b1 and leaves M1 (the mean of the first linear
    map) and, for real entries, V1 (its variance); the second reads e2 … cc2 and the first pass's stores m2 s2 and leaves
    M2, V2 (mean and variance of the second linear map); the third reads e3 … and all four stores and leaves OUT. If each
    pass reads the layer's input X, its neighbour sums, member i of the stacked parameters, and the earlier stores, then
    OUT is layer i applied to X, and that is real when X and the parameters are. -/
theorem layer_abs (i : Fin 4)
    (hE : ∀ a k, IsReal (pEps m c i a k)) (hW1 : ∀ a k, IsReal (pW1 m c i a k)) (hB1 : ∀ a k, IsReal (pB1 m c i a k))
    (hG1 : ∀ a k, IsReal (pG1 m c i a k)) (hBe1 : ∀ a k, IsReal (pBe1 m c i a k)) (hW2 : ∀ a k, IsReal (pW2 m c i a k))
    (hB2 : ∀ a k, IsReal (pB2 m c i a k)) (hG2 : ∀ a k, IsReal (pG2 m c i a k)) (hBe2 : ∀ a k, IsReal (pBe2 m c i a k))
    (X : Fin 65536 → Fin 64 → EReal) (hX : ∀ r k, IsReal (X r k))
    (Ain : S65536x64.Idx → EReal) (hin : Spec.cur2 Ain = X)
    {e1 : Fin 1 → Fin 64 → EReal} {x1 g1 : Fin 65536 → Fin 64 → EReal} {w1 : Fin 64 → Fin 128 → EReal}
    {b1 M1 V1 : Fin 1 → Fin 128 → EReal}
    {e2 : Fin 1 → Fin 64 → EReal} {x2 g2 : Fin 65536 → Fin 64 → EReal} {w2 : Fin 64 → Fin 128 → EReal}
    {b2 m2 s2 gg2 bb2 : Fin 1 → Fin 128 → EReal} {ww2 : Fin 128 → Fin 64 → EReal} {cc2 M2 V2 : Fin 1 → Fin 64 → EReal}
    {e3 : Fin 1 → Fin 64 → EReal} {x3 g3 : Fin 65536 → Fin 64 → EReal} {w3 : Fin 64 → Fin 128 → EReal}
    {b3 m3 s3 gg3 bb3 : Fin 1 → Fin 128 → EReal} {ww3 : Fin 128 → Fin 64 → EReal}
    {cc3 mm3 ss3 hh3 kk3 : Fin 1 → Fin 64 → EReal} {OUT : Fin 65536 → Fin 64 → EReal}
    (he1 : e1 = pEps m c i) (hx1 : x1 = X) (hg1 : g1 = Spec.cur2 (Cert.Hand.aggOf (aEdges m c) Ain))
    (hw1 : w1 = pW1 m c i) (hb1 : b1 = pB1 m c i)
    (v5 : M1 = Spec.mean (Spec.z1 e1 x1 g1 w1 b1))
    (v6 : (∀ a k, IsReal (e1 a k)) → (∀ r k, IsReal (x1 r k)) → (∀ r k, IsReal (g1 r k)) → (∀ a k, IsReal (w1 a k)) →
        (∀ a k, IsReal (b1 a k)) → V1 = Spec.var (Spec.z1 e1 x1 g1 w1 b1))
    (he2 : e2 = pEps m c i) (hx2 : x2 = X) (hg2 : g2 = Spec.cur2 (Cert.Hand.aggOf (aEdges m c) Ain))
    (hw2 : w2 = pW1 m c i) (hb2 : b2 = pB1 m c i) (hm2 : m2 = M1) (hs2 : s2 = V1) (hgg2 : gg2 = pG1 m c i)
    (hbb2 : bb2 = pBe1 m c i) (hww2 : ww2 = pW2 m c i) (hcc2 : cc2 = pB2 m c i)
    (v11 : M2 = Spec.mean (Spec.z2of e2 x2 g2 w2 b2 gg2 bb2 ww2 cc2 m2 s2))
    (v12 : (∀ r k, IsReal (Spec.z2of e2 x2 g2 w2 b2 gg2 bb2 ww2 cc2 m2 s2 r k)) →
        V2 = Spec.var (Spec.z2of e2 x2 g2 w2 b2 gg2 bb2 ww2 cc2 m2 s2))
    (he3 : e3 = pEps m c i) (hx3 : x3 = X) (hg3 : g3 = Spec.cur2 (Cert.Hand.aggOf (aEdges m c) Ain))
    (hw3 : w3 = pW1 m c i) (hb3 : b3 = pB1 m c i) (hm3 : m3 = M1) (hs3 : s3 = V1) (hgg3 : gg3 = pG1 m c i)
    (hbb3 : bb3 = pBe1 m c i) (hww3 : ww3 = pW2 m c i) (hcc3 : cc3 = pB2 m c i) (hmm3 : mm3 = M2) (hss3 : ss3 = V2)
    (hhh3 : hh3 = pG2 m c i) (hkk3 : kk3 = pBe2 m c i)
    (v15 : OUT = Spec.outOf e3 x3 g3 w3 b3 gg3 bb3 ww3 cc3 hh3 kk3 m3 s3 mm3 ss3) :
    OUT = stepM m c i X ∧ ∀ r k, IsReal (stepM m c i X r k) := by
  have hA : Ain = Spec.unc2 X := by rw [← hin, Spec.unc2_cur2]
  subst hA
  subst e1 x1 g1 w1 b1 e2 x2 g2 w2 b2 m2 s2 gg2 bb2 ww2 cc2 e3 x3 g3 w3 b3 m3 s3 gg3 bb3 ww3 cc3 mm3 ss3 hh3 kk3
  have hAGG : ∀ r k, IsReal (Spec.cur2 (Cert.Hand.aggOf (aEdges m c) (Spec.unc2 X)) r k) :=
    Cert.Hand.isReal_aggOf_cur2 (aEdges m c) (Spec.unc2 X) (fun r k => by rw [Spec.cur2_unc2]; exact hX r k)
  have h1v := v6 hE hX hAGG hW1 hB1
  have h2v := v12 (Spec.isReal_z2of hE hX hAGG hW1 hB1 hG1 hBe1 hW2 hB2 v5 h1v)
  refine ⟨v15.trans ?_, ?_⟩
  · exact (Spec.outOf_stats _ _ _ _ _ _ _ _ _ _ _ v5 h1v v11 h2v).trans (stepM_eq m c i X).symm
  · rw [stepM_eq]; exact Spec.isReal_layer hE hX hAGG hW1 hB1 hG1 hBe1 hW2 hB2 hG2 hBe2

end Cert.KernelIdeal.Val

end
-- ==== Proof.KI.NetL0.lean ====
/- Layer 0 through its three passes (regions 1, 2, 3). Each pass reads the layer's input, its neighbour sums and the
   layer's parameters where the host operations put them, and the earlier passes' stores unchanged; so the general
   statement about a layer's three passes applies, and when the input array holds real features X the third pass's
   output array holds layer 0 of the network applied to X. -/
import proofs.«159011_j9938554322955_1_alg».proof.Proof.KI.Net

set_option maxRecDepth 4628

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Lib (IsReal)

variable (m : (ℓ : Loc nD τ sig) → Buf (Elt Ideal) ℓ) (ρ : Dev nD → PrngReg) (c : Dev nD)

/-- What the three passes of layer 0 leave, each in terms of what it reads: the first pass's mean and (for real entries)
    variance of the first linear map, the second pass's mean and (when it is real) variance of the second linear map,
    and the third pass's output. -/
abbrev Layer0Facts : Prop :=
  (Spec.cur2 ((dat1 (V3 m ρ) c).arrAt ⟨5, Nat.le_of_ble_eq_true rfl⟩ cfg1.N : S1x128.Idx → EReal)
      = Spec.mean (Spec.z1 (Spec.cur2 (V3 m ρ c main_v23 : S1x64.Idx → EReal)) (Spec.cur2 (V3 m ρ c main_v5 : S65536x64.Idx → EReal)) (Spec.cur2 (V3 m ρ c main_v15 : S65536x64.Idx → EReal))
        (Spec.cur2 (V3 m ρ c main_v19 : S64x128.Idx → EReal)) (Spec.cur2 (V3 m ρ c main_v24 : S1x128.Idx → EReal))))
  ∧ ((∀ a k, IsReal (Spec.cur2 (V3 m ρ c main_v23 : S1x64.Idx → EReal) a k)) →
      (∀ r k, IsReal (Spec.cur2 (V3 m ρ c main_v5 : S65536x64.Idx → EReal) r k)) →
      (∀ r k, IsReal (Spec.cur2 (V3 m ρ c main_v15 : S65536x64.Idx → EReal) r k)) →
      (∀ a k, IsReal (Spec.cur2 (V3 m ρ c main_v19 : S64x128.Idx → EReal) a k)) →
      (∀ a k, IsReal (Spec.cur2 (V3 m ρ c main_v24 : S1x128.Idx → EReal) a k)) →
      Spec.cur2 ((dat1 (V3 m ρ) c).arrAt ⟨6, Nat.le_of_ble_eq_true rfl⟩ cfg1.N : S1x128.Idx → EReal)
      = Spec.var (Spec.z1 (Spec.cur2 (V3 m ρ c main_v23 : S1x64.Idx → EReal)) (Spec.cur2 (V3 m ρ c main_v5 : S65536x64.Idx → EReal)) (Spec.cur2 (V3 m ρ c main_v15 : S65536x64.Idx → EReal))
        (Spec.cur2 (V3 m ρ c main_v19 : S64x128.Idx → EReal)) (Spec.cur2 (V3 m ρ c main_v24 : S1x128.Idx → EReal))))
  ∧ (Spec.cur2 ((dat2 (V5 m ρ) c).arrAt ⟨11, Nat.le_of_ble_eq_true rfl⟩ cfg2.N : S1x64.Idx → EReal)
      = Spec.mean (Spec.z2of (Spec.cur2 (V5 m ρ c main_v41 : S1x64.Idx → EReal)) (Spec.cur2 (V5 m ρ c main_v5 : S65536x64.Idx → EReal)) (Spec.cur2 (V5 m ρ c main_v15 : S65536x64.Idx → EReal))
        (Spec.cur2 (V5 m ρ c main_v29 : S64x128.Idx → EReal)) (Spec.cur2 (V5 m ρ c main_v42 : S1x128.Idx → EReal))
        (Spec.cur2 (V5 m ρ c main_v43 : S1x128.Idx → EReal)) (Spec.cur2 (V5 m ρ c main_v44 : S1x128.Idx → EReal))
        (Spec.cur2 (V5 m ρ c main_v37 : S128x64.Idx → EReal)) (Spec.cur2 (V5 m ρ c main_v45 : S1x64.Idx → EReal))
        (Spec.cur2 (V5 m ρ c main_v25_0 : S1x128.Idx → EReal)) (Spec.cur2 (V5 m ρ c main_v25_1 : S1x128.Idx → EReal))))
  ∧ ((∀ r k, IsReal ((Spec.z2of (Spec.cur2 (V5 m ρ c main_v41 : S1x64.Idx → EReal)) (Spec.cur2 (V5 m ρ c main_v5 : S65536x64.Idx → EReal)) (Spec.cur2 (V5 m ρ c main_v15 : S65536x64.Idx → EReal))
        (Spec.cur2 (V5 m ρ c main_v29 : S64x128.Idx → EReal)) (Spec.cur2 (V5 m ρ c main_v42 : S1x128.Idx → EReal))
        (Spec.cur2 (V5 m ρ c main_v43 : S1x128.Idx → EReal)) (Spec.cur2 (V5 m ρ c main_v44 : S1x128.Idx → EReal))
        (Spec.cur2 (V5 m ρ c main_v37 : S128x64.Idx → EReal)) (Spec.cur2 (V5 m ρ c main_v45 : S1x64.Idx → EReal))
        (Spec.cur2 (V5 m ρ c main_v25_0 : S1x128.Idx → EReal)) (Spec.cur2 (V5 m ρ c main_v25_1 : S1x128.Idx → EReal))) r k)) →
      Spec.cur2 ((dat2 (V5 m ρ) c).arrAt ⟨12, Nat.le_of_ble_eq_true rfl⟩ cfg2.N : S1x64.Idx → EReal)
      = Spec.var (Spec.z2of (Spec.cur2 (V5 m ρ c main_v41 : S1x64.Idx → EReal)) (Spec.cur2 (V5 m ρ c main_v5 : S65536x64.Idx → EReal)) (Spec.cur2 (V5 m ρ c main_v15 : S65536x64.Idx → EReal))
        (Spec.cur2 (V5 m ρ c main_v29 : S64x128.Idx → EReal)) (Spec.cur2 (V5 m ρ c main_v42 : S1x128.Idx → EReal))
        (Spec.cur2 (V5 m ρ c main_v43 : S1x128.Idx → EReal)) (Spec.cur2 (V5 m ρ c main_v44 : S1x128.Idx → EReal))
        (Spec.cur2 (V5 m ρ c main_v37 : S128x64.Idx → EReal)) (Spec.cur2 (V5 m ρ c main_v45 : S1x64.Idx → EReal))
        (Spec.cur2 (V5 m ρ c main_v25_0 : S1x128.Idx → EReal)) (Spec.cur2 (V5 m ρ c main_v25_1 : S1x128.Idx → EReal))))
  ∧ (Spec.cur2 ((dat3 (V7 m ρ) c).arrAt ⟨15, Nat.le_of_ble_eq_true rfl⟩ cfg3.N : S65536x64.Idx → EReal)
      = Spec.outOf (Spec.cur2 (V7 m ρ c main_v66 : S1x64.Idx → EReal)) (Spec.cur2 (V7 m ρ c main_v5 : S65536x64.Idx → EReal)) (Spec.cur2 (V7 m ρ c main_v15 : S65536x64.Idx → EReal))
        (Spec.cur2 (V7 m ρ c main_v50 : S64x128.Idx → EReal)) (Spec.cur2 (V7 m ρ c main_v67 : S1x128.Idx → EReal))
        (Spec.cur2 (V7 m ρ c main_v68 : S1x128.Idx → EReal)) (Spec.cur2 (V7 m ρ c main_v69 : S1x128.Idx → EReal))
        (Spec.cur2 (V7 m ρ c main_v58 : S128x64.Idx → EReal)) (Spec.cur2 (V7 m ρ c main_v70 : S1x64.Idx → EReal))
        (Spec.cur2 (V7 m ρ c main_v71 : S1x64.Idx → EReal)) (Spec.cur2 (V7 m ρ c main_v72 : S1x64.Idx → EReal))
        (Spec.cur2 (V7 m ρ c main_v25_0 : S1x128.Idx → EReal)) (Spec.cur2 (V7 m ρ c main_v25_1 : S1x128.Idx → EReal))
        (Spec.cur2 (V7 m ρ c main_v46_0 : S1x64.Idx → EReal)) (Spec.cur2 (V7 m ρ c main_v46_1 : S1x64.Idx → EReal)))

set_option maxHeartbeats 1000000 in
/-- Layer 0 through its three passes: if the layer's input array holds real features X, the third pass's output array
    holds layer 0 of the network applied to X, and that is real. -/
theorem layer0_of
    (hE : ∀ a k, IsReal (pEps m c 0 a k)) (hW1 : ∀ a k, IsReal (pW1 m c 0 a k)) (hB1 : ∀ a k, IsReal (pB1 m c 0 a k))
    (hG1 : ∀ a k, IsReal (pG1 m c 0 a k)) (hBe1 : ∀ a k, IsReal (pBe1 m c 0 a k)) (hW2 : ∀ a k, IsReal (pW2 m c 0 a k))
    (hB2 : ∀ a k, IsReal (pB2 m c 0 a k)) (hG2 : ∀ a k, IsReal (pG2 m c 0 a k)) (hBe2 : ∀ a k, IsReal (pBe2 m c 0 a k))
    (X : Fin 65536 → Fin 64 → EReal) (hX : ∀ r k, IsReal (X r k))
    (hin : Spec.cur2 ((dat0 (V1 m ρ) c).arrAt ⟨3, Nat.le_of_ble_eq_true rfl⟩ cfg0.N : S65536x64.Idx → EReal) = X)
    (hv : Layer0Facts m ρ c) :
    Spec.cur2 ((dat3 (V7 m ρ) c).arrAt ⟨15, Nat.le_of_ble_eq_true rfl⟩ cfg3.N : S65536x64.Idx → EReal) = stepM m c 0 X
      ∧ ∀ r k, IsReal (stepM m c 0 X r k) :=
  layer_abs m c 0 hE hW1 hB1 hG1 hBe1 hW2 hB2 hG2 hBe2 X hX _ hin
    (ent1_2 m ρ c) ((congrArg (Spec.cur2 (n0 := 65536) (n1 := 64)) (ent1_0 m ρ c)).trans hin) (congrArg (Spec.cur2 (n0 := 65536) (n1 := 64)) (ent1_1 m ρ c))
    (ent1_3 m ρ c) (ent1_4 m ρ c)
    hv.1 hv.2.1
    (ent2_2 m ρ c) ((congrArg (Spec.cur2 (n0 := 65536) (n1 := 64)) (ent2_0 m ρ c)).trans hin) (congrArg (Spec.cur2 (n0 := 65536) (n1 := 64)) (ent2_1 m ρ c))
    (ent2_3 m ρ c) (ent2_4 m ρ c) (congrArg (Spec.cur2 (n0 := 1) (n1 := 128)) (ent2_5 m ρ c))
    (congrArg (Spec.cur2 (n0 := 1) (n1 := 128)) (ent2_6 m ρ c)) (ent2_7 m ρ c) (ent2_8 m ρ c)
    (ent2_9 m ρ c) (ent2_10 m ρ c)
    hv.2.2.1 hv.2.2.2.1
    (ent3_2 m ρ c) ((congrArg (Spec.cur2 (n0 := 65536) (n1 := 64)) (ent3_0 m ρ c)).trans hin) (congrArg (Spec.cur2 (n0 := 65536) (n1 := 64)) (ent3_1 m ρ c))
    (ent3_3 m ρ c) (ent3_4 m ρ c) (congrArg (Spec.cur2 (n0 := 1) (n1 := 128)) (ent3_5 m ρ c))
    (congrArg (Spec.cur2 (n0 := 1) (n1 := 128)) (ent3_6 m ρ c)) (ent3_7 m ρ c) (ent3_8 m ρ c)
    (ent3_9 m ρ c) (ent3_10 m ρ c) (congrArg (Spec.cur2 (n0 := 1) (n1 := 64)) (ent3_11 m ρ c))
    (congrArg (Spec.cur2 (n0 := 1) (n1 := 64)) (ent3_12 m ρ c)) (ent3_13 m ρ c) (ent3_14 m ρ c)
    hv.2.2.2.2

end Cert.KernelIdeal.Val

end
-- ==== Proof.KI.NetL1.lean ====
/- Layer 1 through its three passes (regions 4, 5, 6). Each pass reads the layer's input, its neighbour sums and the
   layer's parameters where the host operations put them, and the earlier passes' stores unchanged; so the general
   statement about a layer's three passes applies, and when the input array holds real features X the third pass's
   output array holds layer 1 of the network applied to X. -/
import proofs.«159011_j9938554322955_1_alg».proof.Proof.KI.Net

set_option maxRecDepth 4628

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Lib (IsReal)

variable (m : (ℓ : Loc nD τ sig) → Buf (Elt Ideal) ℓ) (ρ : Dev nD → PrngReg) (c : Dev nD)

/-- What the three passes of layer 1 leave, each in terms of what it reads: the first pass's mean and (for real entries)
    variance of the first linear map, the second pass's mean and (when it is real) variance of the second linear map,
    and the third pass's output. -/
abbrev Layer1Facts : Prop :=
  (Spec.cur2 ((dat4 (V9 m ρ) c).arrAt ⟨5, Nat.le_of_ble_eq_true rfl⟩ cfg4.N : S1x128.Idx → EReal)
      = Spec.mean (Spec.z1 (Spec.cur2 (V9 m ρ c main_v91 : S1x64.Idx → EReal)) (Spec.cur2 (V9 m ρ c main_v73 : S65536x64.Idx → EReal)) (Spec.cur2 (V9 m ρ c main_v83 : S65536x64.Idx → EReal))
        (Spec.cur2 (V9 m ρ c main_v87 : S64x128.Idx → EReal)) (Spec.cur2 (V9 m ρ c main_v92 : S1x128.Idx → EReal))))
  ∧ ((∀ a k, IsReal (Spec.cur2 (V9 m ρ c main_v91 : S1x64.Idx → EReal) a k)) →
      (∀ r k, IsReal (Spec.cur2 (V9 m ρ c main_v73 : S65536x64.Idx → EReal) r k)) →
      (∀ r k, IsReal (Spec.cur2 (V9 m ρ c main_v83 : S65536x64.Idx → EReal) r k)) →
      (∀ a k, IsReal (Spec.cur2 (V9 m ρ c main_v87 : S64x128.Idx → EReal) a k)) →
      (∀ a k, IsReal (Spec.cur2 (V9 m ρ c main_v92 : S1x128.Idx → EReal) a k)) →
      Spec.cur2 ((dat4 (V9 m ρ) c).arrAt ⟨6, Nat.le_of_ble_eq_true rfl⟩ cfg4.N : S1x128.Idx → EReal)
      = Spec.var (Spec.z1 (Spec.cur2 (V9 m ρ c main_v91 : S1x64.Idx → EReal)) (Spec.cur2 (V9 m ρ c main_v73 : S65536x64.Idx → EReal)) (Spec.cur2 (V9 m ρ c main_v83 : S65536x64.Idx → EReal))
        (Spec.cur2 (V9 m ρ c main_v87 : S64x128.Idx → EReal)) (Spec.cur2 (V9 m ρ c main_v92 : S1x128.Idx → EReal))))
  ∧ (Spec.cur2 ((dat5 (V11 m ρ) c).arrAt ⟨11, Nat.le_of_ble_eq_true rfl⟩ cfg5.N : S1x64.Idx → EReal)
      = Spec.mean (Spec.z2of (Spec.cur2 (V11 m ρ c main_v109 : S1x64.Idx → EReal)) (Spec.cur2 (V11 m ρ c main_v73 : S65536x64.Idx → EReal)) (Spec.cur2 (V11 m ρ c main_v83 : S65536x64.Idx → EReal))
        (Spec.cur2 (V11 m ρ c main_v97 : S64x128.Idx → EReal)) (Spec.cur2 (V11 m ρ c main_v110 : S1x128.Idx → EReal))
        (Spec.cur2 (V11 m ρ c main_v111 : S1x128.Idx → EReal)) (Spec.cur2 (V11 m ρ c main_v112 : S1x128.Idx → EReal))
        (Spec.cur2 (V11 m ρ c main_v105 : S128x64.Idx → EReal)) (Spec.cur2 (V11 m ρ c main_v113 : S1x64.Idx → EReal))
        (Spec.cur2 (V11 m ρ c main_v93_0 : S1x128.Idx → EReal)) (Spec.cur2 (V11 m ρ c main_v93_1 : S1x128.Idx → EReal))))
  ∧ ((∀ r k, IsReal ((Spec.z2of (Spec.cur2 (V11 m ρ c main_v109 : S1x64.Idx → EReal)) (Spec.cur2 (V11 m ρ c main_v73 : S65536x64.Idx → EReal)) (Spec.cur2 (V11 m ρ c main_v83 : S65536x64.Idx → EReal))
        (Spec.cur2 (V11 m ρ c main_v97 : S64x128.Idx → EReal)) (Spec.cur2 (V11 m ρ c main_v110 : S1x128.Idx → EReal))
        (Spec.cur2 (V11 m ρ c main_v111 : S1x128.Idx → EReal)) (Spec.cur2 (V11 m ρ c main_v112 : S1x128.Idx → EReal))
        (Spec.cur2 (V11 m ρ c main_v105 : S128x64.Idx → EReal)) (Spec.cur2 (V11 m ρ c main_v113 : S1x64.Idx → EReal))
        (Spec.cur2 (V11 m ρ c main_v93_0 : S1x128.Idx → EReal)) (Spec.cur2 (V11 m ρ c main_v93_1 : S1x128.Idx → EReal))) r k)) →
      Spec.cur2 ((dat5 (V11 m ρ) c).arrAt ⟨12, Nat.le_of_ble_eq_true rfl⟩ cfg5.N : S1x64.Idx → EReal)
      = Spec.var (Spec.z2of (Spec.cur2 (V11 m ρ c main_v109 : S1x64.Idx → EReal)) (Spec.cur2 (V11 m ρ c main_v73 : S65536x64.Idx → EReal)) (Spec.cur2 (V11 m ρ c main_v83 : S65536x64.Idx → EReal))
        (Spec.cur2 (V11 m ρ c main_v97 : S64x128.Idx → EReal)) (Spec.cur2 (V11 m ρ c main_v110 : S1x128.Idx → EReal))
        (Spec.cur2 (V11 m ρ c main_v111 : S1x128.Idx → EReal)) (Spec.cur2 (V11 m ρ c main_v112 : S1x128.Idx → EReal))
        (Spec.cur2 (V11 m ρ c main_v105 : S128x64.Idx → EReal)) (Spec.cur2 (V11 m ρ c main_v113 : S1x64.Idx → EReal))
        (Spec.cur2 (V11 m ρ c main_v93_0 : S1x128.Idx → EReal)) (Spec.cur2 (V11 m ρ c main_v93_1 : S1x128.Idx → EReal))))
  ∧ (Spec.cur2 ((dat6 (V13 m ρ) c).arrAt ⟨15, Nat.le_of_ble_eq_true rfl⟩ cfg6.N : S65536x64.Idx → EReal)
      = Spec.outOf (Spec.cur2 (V13 m ρ c main_v134 : S1x64.Idx → EReal)) (Spec.cur2 (V13 m ρ c main_v73 : S65536x64.Idx → EReal)) (Spec.cur2 (V13 m ρ c main_v83 : S65536x64.Idx → EReal))
        (Spec.cur2 (V13 m ρ c main_v118 : S64x128.Idx → EReal)) (Spec.cur2 (V13 m ρ c main_v135 : S1x128.Idx → EReal))
        (Spec.cur2 (V13 m ρ c main_v136 : S1x128.Idx → EReal)) (Spec.cur2 (V13 m ρ c main_v137 : S1x128.Idx → EReal))
        (Spec.cur2 (V13 m ρ c main_v126 : S128x64.Idx → EReal)) (Spec.cur2 (V13 m ρ c main_v138 : S1x64.Idx → EReal))
        (Spec.cur2 (V13 m ρ c main_v139 : S1x64.Idx → EReal)) (Spec.cur2 (V13 m ρ c main_v140 : S1x64.Idx → EReal))
        (Spec.cur2 (V13 m ρ c main_v93_0 : S1x128.Idx → EReal)) (Spec.cur2 (V13 m ρ c main_v93_1 : S1x128.Idx → EReal))
        (Spec.cur2 (V13 m ρ c main_v114_0 : S1x64.Idx → EReal)) (Spec.cur2 (V13 m ρ c main_v114_1 : S1x64.Idx → EReal)))

set_option maxHeartbeats 1000000 in
/-- Layer 1 through its three passes: if the layer's input array holds real features X, the third pass's output array
    holds layer 1 of the network applied to X, and that is real. -/
theorem layer1_of
    (hE : ∀ a k, IsReal (pEps m c 1 a k)) (hW1 : ∀ a k, IsReal (pW1 m c 1 a k)) (hB1 : ∀ a k, IsReal (pB1 m c 1 a k))
    (hG1 : ∀ a k, IsReal (pG1 m c 1 a k)) (hBe1 : ∀ a k, IsReal (pBe1 m c 1 a k)) (hW2 : ∀ a k, IsReal (pW2 m c 1 a k))
    (hB2 : ∀ a k, IsReal (pB2 m c 1 a k)) (hG2 : ∀ a k, IsReal (pG2 m c 1 a k)) (hBe2 : ∀ a k, IsReal (pBe2 m c 1 a k))
    (X : Fin 65536 → Fin 64 → EReal) (hX : ∀ r k, IsReal (X r k))
    (hin : Spec.cur2 ((dat3 (V7 m ρ) c).arrAt ⟨15, Nat.le_of_ble_eq_true rfl⟩ cfg3.N : S65536x64.Idx → EReal) = X)
    (hv : Layer1Facts m ρ c) :
    Spec.cur2 ((dat6 (V13 m ρ) c).arrAt ⟨15, Nat.le_of_ble_eq_true rfl⟩ cfg6.N : S65536x64.Idx → EReal) = stepM m c 1 X
      ∧ ∀ r k, IsReal (stepM m c 1 X r k) :=
  layer_abs m c 1 hE hW1 hB1 hG1 hBe1 hW2 hB2 hG2 hBe2 X hX _ hin
    (ent4_2 m ρ c) ((congrArg (Spec.cur2 (n0 := 65536) (n1 := 64)) (ent4_0 m ρ c)).trans hin) (congrArg (Spec.cur2 (n0 := 65536) (n1 := 64)) (ent4_1 m ρ c))
    (ent4_3 m ρ c) (ent4_4 m ρ c)
    hv.1 hv.2.1
    (ent5_2 m ρ c) ((congrArg (Spec.cur2 (n0 := 65536) (n1 := 64)) (ent5_0 m ρ c)).trans hin) (congrArg (Spec.cur2 (n0 := 65536) (n1 := 64)) (ent5_1 m ρ c))
    (ent5_3 m ρ c) (ent5_4 m ρ c) (congrArg (Spec.cur2 (n0 := 1) (n1 := 128)) (ent5_5 m ρ c))
    (congrArg (Spec.cur2 (n0 := 1) (n1 := 128)) (ent5_6 m ρ c)) (ent5_7 m ρ c) (ent5_8 m ρ c)
    (ent5_9 m ρ c) (ent5_10 m ρ c)
    hv.2.2.1 hv.2.2.2.1
    (ent6_2 m ρ c) ((congrArg (Spec.cur2 (n0 := 65536) (n1 := 64)) (ent6_0 m ρ c)).trans hin) (congrArg (Spec.cur2 (n0 := 65536) (n1 := 64)) (ent6_1 m ρ c))
    (ent6_3 m ρ c) (ent6_4 m ρ c) (congrArg (Spec.cur2 (n0 := 1) (n1 := 128)) (ent6_5 m ρ c))
    (congrArg (Spec.cur2 (n0 := 1) (n1 := 128)) (ent6_6 m ρ c)) (ent6_7 m ρ c) (ent6_8 m ρ c)
    (ent6_9 m ρ c) (ent6_10 m ρ c) (congrArg (Spec.cur2 (n0 := 1) (n1 := 64)) (ent6_11 m ρ c))
    (congrArg (Spec.cur2 (n0 := 1) (n1 := 64)) (ent6_12 m ρ c)) (ent6_13 m ρ c) (ent6_14 m ρ c)
    hv.2.2.2.2

end Cert.KernelIdeal.Val

end
-- ==== Proof.KI.NetL2.lean ====
/- Layer 2 through its three passes (regions 7, 8, 9). Each pass reads the layer's input, its neighbour sums and the
   layer's parameters where the host operations put them, and the earlier passes' stores unchanged; so the general
   statement about a layer's three passes applies, and when the input array holds real features X the third pass's
   output array holds layer 2 of the network applied to X. -/
import proofs.«159011_j9938554322955_1_alg».proof.Proof.KI.Net

set_option maxRecDepth 4628

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Lib (IsReal)

variable (m : (ℓ : Loc nD τ sig) → Buf (Elt Ideal) ℓ) (ρ : Dev nD → PrngReg) (c : Dev nD)

/-- What the three passes of layer 2 leave, each in terms of what it reads: the first pass's mean and (for real entries)
    variance of the first linear map, the second pass's mean and (when it is real) variance of the second linear map,
    and the third pass's output. -/
abbrev Layer2Facts : Prop :=
  (Spec.cur2 ((dat7 (V15 m ρ) c).arrAt ⟨5, Nat.le_of_ble_eq_true rfl⟩ cfg7.N : S1x128.Idx → EReal)
      = Spec.mean (Spec.z1 (Spec.cur2 (V15 m ρ c main_v159 : S1x64.Idx → EReal)) (Spec.cur2 (V15 m ρ c main_v141 : S65536x64.Idx → EReal)) (Spec.cur2 (V15 m ρ c main_v151 : S65536x64.Idx → EReal))
        (Spec.cur2 (V15 m ρ c main_v155 : S64x128.Idx → EReal)) (Spec.cur2 (V15 m ρ c main_v160 : S1x128.Idx → EReal))))
  ∧ ((∀ a k, IsReal (Spec.cur2 (V15 m ρ c main_v159 : S1x64.Idx → EReal) a k)) →
      (∀ r k, IsReal (Spec.cur2 (V15 m ρ c main_v141 : S65536x64.Idx → EReal) r k)) →
      (∀ r k, IsReal (Spec.cur2 (V15 m ρ c main_v151 : S65536x64.Idx → EReal) r k)) →
      (∀ a k, IsReal (Spec.cur2 (V15 m ρ c main_v155 : S64x128.Idx → EReal) a k)) →
      (∀ a k, IsReal (Spec.cur2 (V15 m ρ c main_v160 : S1x128.Idx → EReal) a k)) →
      Spec.cur2 ((dat7 (V15 m ρ) c).arrAt ⟨6, Nat.le_of_ble_eq_true rfl⟩ cfg7.N : S1x128.Idx → EReal)
      = Spec.var (Spec.z1 (Spec.cur2 (V15 m ρ c main_v159 : S1x64.Idx → EReal)) (Spec.cur2 (V15 m ρ c main_v141 : S65536x64.Idx → EReal)) (Spec.cur2 (V15 m ρ c main_v151 : S65536x64.Idx → EReal))
        (Spec.cur2 (V15 m ρ c main_v155 : S64x128.Idx → EReal)) (Spec.cur2 (V15 m ρ c main_v160 : S1x128.Idx → EReal))))
  ∧ (Spec.cur2 ((dat8 (V17 m ρ) c).arrAt ⟨11, Nat.le_of_ble_eq_true rfl⟩ cfg8.N : S1x64.Idx → EReal)
      = Spec.mean (Spec.z2of (Spec.cur2 (V17 m ρ c main_v177 : S1x64.Idx → EReal)) (Spec.cur2 (V17 m ρ c main_v141 : S65536x64.Idx → EReal)) (Spec.cur2 (V17 m ρ c main_v151 : S65536x64.Idx → EReal))
        (Spec.cur2 (V17 m ρ c main_v165 : S64x128.Idx → EReal)) (Spec.cur2 (V17 m ρ c main_v178 : S1x128.Idx → EReal))
        (Spec.cur2 (V17 m ρ c main_v179 : S1x128.Idx → EReal)) (Spec.cur2 (V17 m ρ c main_v180 : S1x128.Idx → EReal))
        (Spec.cur2 (V17 m ρ c main_v173 : S128x64.Idx → EReal)) (Spec.cur2 (V17 m ρ c main_v181 : S1x64.Idx → EReal))
        (Spec.cur2 (V17 m ρ c main_v161_0 : S1x128.Idx → EReal)) (Spec.cur2 (V17 m ρ c main_v161_1 : S1x128.Idx → EReal))))
  ∧ ((∀ r k, IsReal ((Spec.z2of (Spec.cur2 (V17 m ρ c main_v177 : S1x64.Idx → EReal)) (Spec.cur2 (V17 m ρ c main_v141 : S65536x64.Idx → EReal)) (Spec.cur2 (V17 m ρ c main_v151 : S65536x64.Idx → EReal))
        (Spec.cur2 (V17 m ρ c main_v165 : S64x128.Idx → EReal)) (Spec.cur2 (V17 m ρ c main_v178 : S1x128.Idx → EReal))
        (Spec.cur2 (V17 m ρ c main_v179 : S1x128.Idx → EReal)) (Spec.cur2 (V17 m ρ c main_v180 : S1x128.Idx → EReal))
        (Spec.cur2 (V17 m ρ c main_v173 : S128x64.Idx → EReal)) (Spec.cur2 (V17 m ρ c main_v181 : S1x64.Idx → EReal))
        (Spec.cur2 (V17 m ρ c main_v161_0 : S1x128.Idx → EReal)) (Spec.cur2 (V17 m ρ c main_v161_1 : S1x128.Idx → EReal))) r k)) →
      Spec.cur2 ((dat8 (V17 m ρ) c).arrAt ⟨12, Nat.le_of_ble_eq_true rfl⟩ cfg8.N : S1x64.Idx → EReal)
      = Spec.var (Spec.z2of (Spec.cur2 (V17 m ρ c main_v177 : S1x64.Idx → EReal)) (Spec.cur2 (V17 m ρ c main_v141 : S65536x64.Idx → EReal)) (Spec.cur2 (V17 m ρ c main_v151 : S65536x64.Idx → EReal))
        (Spec.cur2 (V17 m ρ c main_v165 : S64x128.Idx → EReal)) (Spec.cur2 (V17 m ρ c main_v178 : S1x128.Idx → EReal))
        (Spec.cur2 (V17 m ρ c main_v179 : S1x128.Idx → EReal)) (Spec.cur2 (V17 m ρ c main_v180 : S1x128.Idx → EReal))
        (Spec.cur2 (V17 m ρ c main_v173 : S128x64.Idx → EReal)) (Spec.cur2 (V17 m ρ c main_v181 : S1x64.Idx → EReal))
        (Spec.cur2 (V17 m ρ c main_v161_0 : S1x128.Idx → EReal)) (Spec.cur2 (V17 m ρ c main_v161_1 : S1x128.Idx → EReal))))
  ∧ (Spec.cur2 ((dat9 (V19 m ρ) c).arrAt ⟨15, Nat.le_of_ble_eq_true rfl⟩ cfg9.N : S65536x64.Idx → EReal)
      = Spec.outOf (Spec.cur2 (V19 m ρ c main_v202 : S1x64.Idx → EReal)) (Spec.cur2 (V19 m ρ c main_v141 : S65536x64.Idx → EReal)) (Spec.cur2 (V19 m ρ c main_v151 : S65536x64.Idx → EReal))
        (Spec.cur2 (V19 m ρ c main_v186 : S64x128.Idx → EReal)) (Spec.cur2 (V19 m ρ c main_v203 : S1x128.Idx → EReal))
        (Spec.cur2 (V19 m ρ c main_v204 : S1x128.Idx → EReal)) (Spec.cur2 (V19 m ρ c main_v205 : S1x128.Idx → EReal))
        (Spec.cur2 (V19 m ρ c main_v194 : S128x64.Idx → EReal)) (Spec.cur2 (V19 m ρ c main_v206 : S1x64.Idx → EReal))
        (Spec.cur2 (V19 m ρ c main_v207 : S1x64.Idx → EReal)) (Spec.cur2 (V19 m ρ c main_v208 : S1x64.Idx → EReal))
        (Spec.cur2 (V19 m ρ c main_v161_0 : S1x128.Idx → EReal)) (Spec.cur2 (V19 m ρ c main_v161_1 : S1x128.Idx → EReal))
        (Spec.cur2 (V19 m ρ c main_v182_0 : S1x64.Idx → EReal)) (Spec.cur2 (V19 m ρ c main_v182_1 : S1x64.Idx → EReal)))

set_option maxHeartbeats 1000000 in
/-- Layer 2 through its three passes: if the layer's input array holds real features X, the third pass's output array
    holds layer 2 of the network applied to X, and that is real. -/
theorem layer2_of
    (hE : ∀ a k, IsReal (pEps m c 2 a k)) (hW1 : ∀ a k, IsReal (pW1 m c 2 a k)) (hB1 : ∀ a k, IsReal (pB1 m c 2 a k))
    (hG1 : ∀ a k, IsReal (pG1 m c 2 a k)) (hBe1 : ∀ a k, IsReal (pBe1 m c 2 a k)) (hW2 : ∀ a k, IsReal (pW2 m c 2 a k))
    (hB2 : ∀ a k, IsReal (pB2 m c 2 a k)) (hG2 : ∀ a k, IsReal (pG2 m c 2 a k)) (hBe2 : ∀ a k, IsReal (pBe2 m c 2 a k))
    (X : Fin 65536 → Fin 64 → EReal) (hX : ∀ r k, IsReal (X r k))
    (hin : Spec.cur2 ((dat6 (V13 m ρ) c).arrAt ⟨15, Nat.le_of_ble_eq_true rfl⟩ cfg6.N : S65536x64.Idx → EReal) = X)
    (hv : Layer2Facts m ρ c) :
    Spec.cur2 ((dat9 (V19 m ρ) c).arrAt ⟨15, Nat.le_of_ble_eq_true rfl⟩ cfg9.N : S65536x64.Idx → EReal) = stepM m c 2 X
      ∧ ∀ r k, IsReal (stepM m c 2 X r k) :=
  layer_abs m c 2 hE hW1 hB1 hG1 hBe1 hW2 hB2 hG2 hBe2 X hX _ hin
    (ent7_2 m ρ c) ((congrArg (Spec.cur2 (n0 := 65536) (n1 := 64)) (ent7_0 m ρ c)).trans hin) (congrArg (Spec.cur2 (n0 := 65536) (n1 := 64)) (ent7_1 m ρ c))
    (ent7_3 m ρ c) (ent7_4 m ρ c)
    hv.1 hv.2.1
    (ent8_2 m ρ c) ((congrArg (Spec.cur2 (n0 := 65536) (n1 := 64)) (ent8_0 m ρ c)).trans hin) (congrArg (Spec.cur2 (n0 := 65536) (n1 := 64)) (ent8_1 m ρ c))
    (ent8_3 m ρ c) (ent8_4 m ρ c) (congrArg (Spec.cur2 (n0 := 1) (n1 := 128)) (ent8_5 m ρ c))
    (congrArg (Spec.cur2 (n0 := 1) (n1 := 128)) (ent8_6 m ρ c)) (ent8_7 m ρ c) (ent8_8 m ρ c)
    (ent8_9 m ρ c) (ent8_10 m ρ c)
    hv.2.2.1 hv.2.2.2.1
    (ent9_2 m ρ c) ((congrArg (Spec.cur2 (n0 := 65536) (n1 := 64)) (ent9_0 m ρ c)).trans hin) (congrArg (Spec.cur2 (n0 := 65536) (n1 := 64)) (ent9_1 m ρ c))
    (ent9_3 m ρ c) (ent9_4 m ρ c) (congrArg (Spec.cur2 (n0 := 1) (n1 := 128)) (ent9_5 m ρ c))
    (congrArg (Spec.cur2 (n0 := 1) (n1 := 128)) (ent9_6 m ρ c)) (ent9_7 m ρ c) (ent9_8 m ρ c)
    (ent9_9 m ρ c) (ent9_10 m ρ c) (congrArg (Spec.cur2 (n0 := 1) (n1 := 64)) (ent9_11 m ρ c))
    (congrArg (Spec.cur2 (n0 := 1) (n1 := 64)) (ent9_12 m ρ c)) (ent9_13 m ρ c) (ent9_14 m ρ c)
    hv.2.2.2.2

end Cert.KernelIdeal.Val

end
-- ==== Proof.KI.NetL3.lean ====
/- Layer 3 through its three passes (regions 10, 11, 12). Each pass reads the layer's input, its neighbour sums and the
   layer's parameters where the host operations put them, and the earlier passes' stores unchanged; so the general
   statement about a layer's three passes applies, and when the input array holds real features X the third pass's
   output array holds layer 3 of the network applied to X. -/
import proofs.«159011_j9938554322955_1_alg».proof.Proof.KI.Net

set_option maxRecDepth 4628

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Lib (IsReal)

variable (m : (ℓ : Loc nD τ sig) → Buf (Elt Ideal) ℓ) (ρ : Dev nD → PrngReg) (c : Dev nD)

/-- What the three passes of layer 3 leave, each in terms of what it reads: the first pass's mean and (for real entries)
    variance of the first linear map, the second pass's mean and (when it is real) variance of the second linear map,
    and the third pass's output. -/
abbrev Layer3Facts : Prop :=
  (Spec.cur2 ((dat10 (V21 m ρ) c).arrAt ⟨5, Nat.le_of_ble_eq_true rfl⟩ cfg10.N : S1x128.Idx → EReal)
      = Spec.mean (Spec.z1 (Spec.cur2 (V21 m ρ c main_v227 : S1x64.Idx → EReal)) (Spec.cur2 (V21 m ρ c main_v209 : S65536x64.Idx → EReal)) (Spec.cur2 (V21 m ρ c main_v219 : S65536x64.Idx → EReal))
        (Spec.cur2 (V21 m ρ c main_v223 : S64x128.Idx → EReal)) (Spec.cur2 (V21 m ρ c main_v228 : S1x128.Idx → EReal))))
  ∧ ((∀ a k, IsReal (Spec.cur2 (V21 m ρ c main_v227 : S1x64.Idx → EReal) a k)) →
      (∀ r k, IsReal (Spec.cur2 (V21 m ρ c main_v209 : S65536x64.Idx → EReal) r k)) →
      (∀ r k, IsReal (Spec.cur2 (V21 m ρ c main_v219 : S65536x64.Idx → EReal) r k)) →
      (∀ a k, IsReal (Spec.cur2 (V21 m ρ c main_v223 : S64x128.Idx → EReal) a k)) →
      (∀ a k, IsReal (Spec.cur2 (V21 m ρ c main_v228 : S1x128.Idx → EReal) a k)) →
      Spec.cur2 ((dat10 (V21 m ρ) c).arrAt ⟨6, Nat.le_of_ble_eq_true rfl⟩ cfg10.N : S1x128.Idx → EReal)
      = Spec.var (Spec.z1 (Spec.cur2 (V21 m ρ c main_v227 : S1x64.Idx → EReal)) (Spec.cur2 (V21 m ρ c main_v209 : S65536x64.Idx → EReal)) (Spec.cur2 (V21 m ρ c main_v219 : S65536x64.Idx → EReal))
        (Spec.cur2 (V21 m ρ c main_v223 : S64x128.Idx → EReal)) (Spec.cur2 (V21 m ρ c main_v228 : S1x128.Idx → EReal))))
  ∧ (Spec.cur2 ((dat11 (V23 m ρ) c).arrAt ⟨11, Nat.le_of_ble_eq_true rfl⟩ cfg11.N : S1x64.Idx → EReal)
      = Spec.mean (Spec.z2of (Spec.cur2 (V23 m ρ c main_v245 : S1x64.Idx → EReal)) (Spec.cur2 (V23 m ρ c main_v209 : S65536x64.Idx → EReal)) (Spec.cur2 (V23 m ρ c main_v219 : S65536x64.Idx → EReal))
        (Spec.cur2 (V23 m ρ c main_v233 : S64x128.Idx → EReal)) (Spec.cur2 (V23 m ρ c main_v246 : S1x128.Idx → EReal))
        (Spec.cur2 (V23 m ρ c main_v247 : S1x128.Idx → EReal)) (Spec.cur2 (V23 m ρ c main_v248 : S1x128.Idx → EReal))
        (Spec.cur2 (V23 m ρ c main_v241 : S128x64.Idx → EReal)) (Spec.cur2 (V23 m ρ c main_v249 : S1x64.Idx → EReal))
        (Spec.cur2 (V23 m ρ c main_v229_0 : S1x128.Idx → EReal)) (Spec.cur2 (V23 m ρ c main_v229_1 : S1x128.Idx → EReal))))
  ∧ ((∀ r k, IsReal ((Spec.z2of (Spec.cur2 (V23 m ρ c main_v245 : S1x64.Idx → EReal)) (Spec.cur2 (V23 m ρ c main_v209 : S65536x64.Idx → EReal)) (Spec.cur2 (V23 m ρ c main_v219 : S65536x64.Idx → EReal))
        (Spec.cur2 (V23 m ρ c main_v233 : S64x128.Idx → EReal)) (Spec.cur2 (V23 m ρ c main_v246 : S1x128.Idx → EReal))
        (Spec.cur2 (V23 m ρ c main_v247 : S1x128.Idx → EReal)) (Spec.cur2 (V23 m ρ c main_v248 : S1x128.Idx → EReal))
        (Spec.cur2 (V23 m ρ c main_v241 : S128x64.Idx → EReal)) (Spec.cur2 (V23 m ρ c main_v249 : S1x64.Idx → EReal))
        (Spec.cur2 (V23 m ρ c main_v229_0 : S1x128.Idx → EReal)) (Spec.cur2 (V23 m ρ c main_v229_1 : S1x128.Idx → EReal))) r k)) →
      Spec.cur2 ((dat11 (V23 m ρ) c).arrAt ⟨12, Nat.le_of_ble_eq_true rfl⟩ cfg11.N : S1x64.Idx → EReal)
      = Spec.var (Spec.z2of (Spec.cur2 (V23 m ρ c main_v245 : S1x64.Idx → EReal)) (Spec.cur2 (V23 m ρ c main_v209 : S65536x64.Idx → EReal)) (Spec.cur2 (V23 m ρ c main_v219 : S65536x64.Idx → EReal))
        (Spec.cur2 (V23 m ρ c main_v233 : S64x128.Idx → EReal)) (Spec.cur2 (V23 m ρ c main_v246 : S1x128.Idx → EReal))
        (Spec.cur2 (V23 m ρ c main_v247 : S1x128.Idx → EReal)) (Spec.cur2 (V23 m ρ c main_v248 : S1x128.Idx → EReal))
        (Spec.cur2 (V23 m ρ c main_v241 : S128x64.Idx → EReal)) (Spec.cur2 (V23 m ρ c main_v249 : S1x64.Idx → EReal))
        (Spec.cur2 (V23 m ρ c main_v229_0 : S1x128.Idx → EReal)) (Spec.cur2 (V23 m ρ c main_v229_1 : S1x128.Idx → EReal))))
  ∧ (Spec.cur2 ((dat12 (V25 m ρ) c).arrAt ⟨15, Nat.le_of_ble_eq_true rfl⟩ cfg12.N : S65536x64.Idx → EReal)
      = Spec.outOf (Spec.cur2 (V25 m ρ c main_v270 : S1x64.Idx → EReal)) (Spec.cur2 (V25 m ρ c main_v209 : S65536x64.Idx → EReal)) (Spec.cur2 (V25 m ρ c main_v219 : S65536x64.Idx → EReal))
        (Spec.cur2 (V25 m ρ c main_v254 : S64x128.Idx → EReal)) (Spec.cur2 (V25 m ρ c main_v271 : S1x128.Idx → EReal))
        (Spec.cur2 (V25 m ρ c main_v272 : S1x128.Idx → EReal)) (Spec.cur2 (V25 m ρ c main_v273 : S1x128.Idx → EReal))
        (Spec.cur2 (V25 m ρ c main_v262 : S128x64.Idx → EReal)) (Spec.cur2 (V25 m ρ c main_v274 : S1x64.Idx → EReal))
        (Spec.cur2 (V25 m ρ c main_v275 : S1x64.Idx → EReal)) (Spec.cur2 (V25 m ρ c main_v276 : S1x64.Idx → EReal))
        (Spec.cur2 (V25 m ρ c main_v229_0 : S1x128.Idx → EReal)) (Spec.cur2 (V25 m ρ c main_v229_1 : S1x128.Idx → EReal))
        (Spec.cur2 (V25 m ρ c main_v250_0 : S1x64.Idx → EReal)) (Spec.cur2 (V25 m ρ c main_v250_1 : S1x64.Idx → EReal)))

set_option maxHeartbeats 1000000 in
/-- Layer 3 through its three passes: if the layer's input array holds real features X, the third pass's output array
    holds layer 3 of the network applied to X, and that is real. -/
theorem layer3_of
    (hE : ∀ a k, IsReal (pEps m c 3 a k)) (hW1 : ∀ a k, IsReal (pW1 m c 3 a k)) (hB1 : ∀ a k, IsReal (pB1 m c 3 a k))
    (hG1 : ∀ a k, IsReal (pG1 m c 3 a k)) (hBe1 : ∀ a k, IsReal (pBe1 m c 3 a k)) (hW2 : ∀ a k, IsReal (pW2 m c 3 a k))
    (hB2 : ∀ a k, IsReal (pB2 m c 3 a k)) (hG2 : ∀ a k, IsReal (pG2 m c 3 a k)) (hBe2 : ∀ a k, IsReal (pBe2 m c 3 a k))
    (X : Fin 65536 → Fin 64 → EReal) (hX : ∀ r k, IsReal (X r k))
    (hin : Spec.cur2 ((dat9 (V19 m ρ) c).arrAt ⟨15, Nat.le_of_ble_eq_true rfl⟩ cfg9.N : S65536x64.Idx → EReal) = X)
    (hv : Layer3Facts m ρ c) :
    Spec.cur2 ((dat12 (V25 m ρ) c).arrAt ⟨15, Nat.le_of_ble_eq_true rfl⟩ cfg12.N : S65536x64.Idx → EReal) = stepM m c 3 X
      ∧ ∀ r k, IsReal (stepM m c 3 X r k) :=
  layer_abs m c 3 hE hW1 hB1 hG1 hBe1 hW2 hB2 hG2 hBe2 X hX _ hin
    (ent10_2 m ρ c) ((congrArg (Spec.cur2 (n0 := 65536) (n1 := 64)) (ent10_0 m ρ c)).trans hin) (congrArg (Spec.cur2 (n0 := 65536) (n1 := 64)) (ent10_1 m ρ c))
    (ent10_3 m ρ c) (ent10_4 m ρ c)
    hv.1 hv.2.1
    (ent11_2 m ρ c) ((congrArg (Spec.cur2 (n0 := 65536) (n1 := 64)) (ent11_0 m ρ c)).trans hin) (congrArg (Spec.cur2 (n0 := 65536) (n1 := 64)) (ent11_1 m ρ c))
    (ent11_3 m ρ c) (ent11_4 m ρ c) (congrArg (Spec.cur2 (n0 := 1) (n1 := 128)) (ent11_5 m ρ c))
    (congrArg (Spec.cur2 (n0 := 1) (n1 := 128)) (ent11_6 m ρ c)) (ent11_7 m ρ c) (ent11_8 m ρ c)
    (ent11_9 m ρ c) (ent11_10 m ρ c)
    hv.2.2.1 hv.2.2.2.1
    (ent12_2 m ρ c) ((congrArg (Spec.cur2 (n0 := 65536) (n1 := 64)) (ent12_0 m ρ c)).trans hin) (congrArg (Spec.cur2 (n0 := 65536) (n1 := 64)) (ent12_1 m ρ c))
    (ent12_3 m ρ c) (ent12_4 m ρ c) (congrArg (Spec.cur2 (n0 := 1) (n1 := 128)) (ent12_5 m ρ c))
    (congrArg (Spec.cur2 (n0 := 1) (n1 := 128)) (ent12_6 m ρ c)) (ent12_7 m ρ c) (ent12_8 m ρ c)
    (ent12_9 m ρ c) (ent12_10 m ρ c) (congrArg (Spec.cur2 (n0 := 1) (n1 := 64)) (ent12_11 m ρ c))
    (congrArg (Spec.cur2 (n0 := 1) (n1 := 64)) (ent12_12 m ρ c)) (ent12_13 m ρ c) (ent12_14 m ρ c)
    hv.2.2.2.2

end Cert.KernelIdeal.Val

end
-- ==== Proof.KI.NetAll.lean ====
/- The whole run on one device. The first pass leaves the first stage of the arguments; each layer's three passes take
   the array the previous stage left to the layer applied to it; the last pass maps the fourth layer's output to 256
   features; and the result is the last pass's 65536 rows cut into 16 slabs of 4096. Every stage is real under the
   precondition, which is what the layers' variances need. -/
import proofs.«159011_j9938554322955_1_alg».proof.Proof.KI.NetL0
import proofs.«159011_j9938554322955_1_alg».proof.Proof.KI.NetL1
import proofs.«159011_j9938554322955_1_alg».proof.Proof.KI.NetL2
import proofs.«159011_j9938554322955_1_alg».proof.Proof.KI.NetL3

set_option maxRecDepth 4628

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Lib (IsReal)

variable (m : (ℓ : Loc nD τ sig) → Buf (Elt Ideal) ℓ) (ρ : Dev nD → PrngReg) (c : Dev nD)

set_option maxHeartbeats 4000000 in
/-- Given what each of the fourteen passes leaves in terms of what it reads, the program's result at slab b, row q,
    feature j is the network's value at node 4096 b + q, feature j. -/
theorem net_of [Cert.Pre_finite_inputs.Facts] (hpre : Cert.Pre_KernelIdeal m)
    (v0 : Spec.cur2 ((dat0 (V1 m ρ) c).arrAt ⟨3, Nat.le_of_ble_eq_true rfl⟩ cfg0.N : S65536x64.Idx → EReal)
        = Spec.embed (Spec.cur2 (V1 m ρ c main_arg2 : S65536x1.Idx → EReal)) (Spec.cur2 (V1 m ρ c main_arg3 : S1x64.Idx → EReal))
            (Spec.cur2 (V1 m ρ c main_v4 : S1x64.Idx → EReal)))
    (L0 : Layer0Facts m ρ c) (L1 : Layer1Facts m ρ c) (L2 : Layer2Facts m ρ c) (L3 : Layer3Facts m ρ c)
    (v13 : Spec.cur2 ((dat13 (V27 m ρ) c).arrAt ⟨3, Nat.le_of_ble_eq_true rfl⟩ cfg13.N : S65536x256.Idx → EReal)
        = Spec.final (Spec.cur2 (V27 m ρ c main_v277 : S65536x64.Idx → EReal)) (Spec.cur2 (V27 m ρ c main_arg14 : S64x256.Idx → EReal))
            (Spec.cur2 (V27 m ρ c main_v278 : S1x256.Idx → EReal)))
    (b : Fin 16) (q : Fin 4096) (j : Fin 256) :
    (W29 m ρ c (Proc.devRef .tc main_v280) : S16x4096x256.Idx → EReal) (ix3 b q j)
      = netM m c ⟨4096 * b.val + q.val, by omega⟩ j := by
  rw [ent0_0 m ρ c, ent0_1 m ρ c, ent0_2 m ρ c] at v0
  have e0 : Spec.cur2 ((dat0 (V1 m ρ) c).arrAt ⟨3, Nat.le_of_ble_eq_true rfl⟩ cfg0.N : S65536x64.Idx → EReal) = embedM m c := v0
  have r0 := isReal_embedM m c hpre
  obtain ⟨e1, r1⟩ := layer0_of m ρ c (isReal_pEps m c hpre 0) (isReal_pW1 m c hpre 0) (isReal_pB1 m c hpre 0) (isReal_pG1 m c hpre 0)
    (isReal_pBe1 m c hpre 0) (isReal_pW2 m c hpre 0) (isReal_pB2 m c hpre 0) (isReal_pG2 m c hpre 0) (isReal_pBe2 m c hpre 0) _ r0 e0 L0
  obtain ⟨e2, r2⟩ := layer1_of m ρ c (isReal_pEps m c hpre 1) (isReal_pW1 m c hpre 1) (isReal_pB1 m c hpre 1) (isReal_pG1 m c hpre 1)
    (isReal_pBe1 m c hpre 1) (isReal_pW2 m c hpre 1) (isReal_pB2 m c hpre 1) (isReal_pG2 m c hpre 1) (isReal_pBe2 m c hpre 1) _ r1 e1 L1
  obtain ⟨e3, r3⟩ := layer2_of m ρ c (isReal_pEps m c hpre 2) (isReal_pW1 m c hpre 2) (isReal_pB1 m c hpre 2) (isReal_pG1 m c hpre 2)
    (isReal_pBe1 m c hpre 2) (isReal_pW2 m c hpre 2) (isReal_pB2 m c hpre 2) (isReal_pG2 m c hpre 2) (isReal_pBe2 m c hpre 2) _ r2 e2 L2
  obtain ⟨e4, r4⟩ := layer3_of m ρ c (isReal_pEps m c hpre 3) (isReal_pW1 m c hpre 3) (isReal_pB1 m c hpre 3) (isReal_pG1 m c hpre 3)
    (isReal_pBe1 m c hpre 3) (isReal_pW2 m c hpre 3) (isReal_pB2 m c hpre 3) (isReal_pG2 m c hpre 3) (isReal_pBe2 m c hpre 3) _ r3 e3 L3
  rw [ent13_0 m ρ c, ent13_1 m ρ c, ent13_2 m ρ c, e4] at v13
  rw [result_read m ρ c b q j, netM_eq m c]
  exact congrFun (congrFun v13 ⟨4096 * b.val + q.val, by omega⟩) j

end Cert.KernelIdeal.Val

end
-- ==== Proof.KI.Val0.lean ====
import proofs.«159011_j9938554322955_1_alg».proof.Proof.KI.Reg0
import proofs.«159011_j9938554322955_1_alg».proof.Proof.Math.Spec
import Idealize.ShloMosaic.Lib.Pipeline.Value
import Idealize.ShloMosaic.Lib.ValueLayout

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! # The embedding region on the extended reals: its output array is x r · w k + b k -/

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The embedding body's payload at (p, q): the node's scalar times weight q plus bias q. -/
theorem k0_pay1_apply (x0 : Vec Ideal S8192x1 .f32) (x1 x2 : Vec Ideal S1x64 .f32) (p : Fin 8192) (q : Fin 64) :
    k0_pay1 x0 x1 x2 (ix2 p q) = x0 (ix2 p (0 : Fin 1)) * x1 (ix2 (0 : Fin 1) q) + x2 (ix2 (0 : Fin 1) q) := by
  unfold k0_pay1
  rw [addf_apply, mulf_apply, shapeCast_self]
  rw [broadcastTo_a1_ab_apply x0 broadcasts_S8192x1_S8192x64 p q,
    broadcastTo_1b_ab_apply x1 broadcasts_S1x64_S8192x64 p q,
    broadcastTo_1b_ab_apply x2 broadcasts_S1x64_S8192x64 p q]

/-- The closed form of the region's output at row r, feature k: every row lies in the block numbered by its quotient
    by 8192, at the place given by its remainder. -/
theorem G0_3_apply (X : S65536x1.Idx → EReal) (W B : S1x64.Idx → EReal) (r : Fin 65536) (k : Fin 64) :
    G0_3 (F := Ideal) X W B (ix2 r k) = X (ix2 r (0 : Fin 1)) * W (ix2 (0 : Fin 1) k) + B (ix2 (0 : Fin 1) k) := by
  have hr := r.isLt
  have hq : r.val / 8192 < 8 := by omega
  have hp : r.val % 8192 < 8192 := Nat.mod_lt _ (by decide)
  have hrow : 8192 * (r.val / 8192) + r.val % 8192 < 65536 := by omega
  have er : r = (⟨8192 * (r.val / 8192) + r.val % 8192, hrow⟩ : Fin 65536) := Fin.ext (by show r.val = 8192 * (r.val / 8192) + r.val % 8192; omega)
  refine (congrArg (fun x => G0_3 (F := Ideal) X W B (ix2 x k)) er).trans ?_
  show G0_3 (F := Ideal) X W B (ix2 (⟨8192 * (r.val / 8192) + r.val % 8192, hrow⟩ : Fin 65536) k) = _
  refine (G0_3_block (F := Ideal) X W B ⟨r.val / 8192, hq⟩ ⟨r.val % 8192, hp⟩ k hrow).trans ?_
  refine (k0_pay1_apply (rows0 (F := Ideal) X ⟨r.val / 8192, hq⟩) W B ⟨r.val % 8192, hp⟩ k).trans ?_
  have hx : rows0 (F := Ideal) X ⟨r.val / 8192, hq⟩ (ix2 (⟨r.val % 8192, hp⟩ : Fin 8192) (0 : Fin 1)) = X (ix2 r (0 : Fin 1)) := by
    unfold rows0
    refine congrArg X (funext fun a => ?_)
    match a with
    | ⟨0, _⟩ => exact Fin.ext (by show 8192 * (r.val / 8192) + r.val % 8192 = r.val; omega)
    | ⟨1, _⟩ => rfl
  rw [hx]

/-- What the embedding region leaves in its output array: the embedding of the three entry arrays. -/
theorem val0_3 (c : Dev nD) :
    Spec.cur2 ((dat0 V c).arrAt ⟨3, Nat.lt_succ_self 3⟩ cfg0.N : S65536x64.Idx → EReal)
      = Spec.embed (Spec.cur2 (V c main_arg2 : S65536x1.Idx → EReal)) (Spec.cur2 (V c main_arg3 : S1x64.Idx → EReal))
          (Spec.cur2 (V c main_v4 : S1x64.Idx → EReal)) := by
  rw [final0_3 V c]
  funext r k
  exact G0_3_apply (V c main_arg2) (V c main_arg3) (V c main_v4) r k

end Cert.KernelIdeal.Val

end
-- ==== Proof.KI.Fin1.lean ====
/- The two statistics' arrays after a layer's first statistics pass: each is written back once, at the last point,
   whole, so it ends holding what the body stored there from the totals of the running sums. -/
import proofs.«159011_j9938554322955_1_alg».proof.Proof.KI.Reg1
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The last point is a point of the grid. -/
theorem h15_1 : 15 < cfg1.N := by rw [show cfg1.N = 16 from N_1]; decide

/-- The two outputs' one block sits at block index zero on both axes, at every point. -/
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)

/-! ## The mean's array after the region -/

/-- What the mean's array holds after the region: the mean stored from the totals, the sums after the last point. -/
noncomputable def G1_5 (c : Dev nD) : S1x128.Idx → Elt F .f32 := oM1 (accS1 V c 15 h15_1)

/-- What the last point writes back is that array's one block. -/
theorem flushed1_5_eq (c : Dev nD) (t : Fin cfg1.N) (hf : (cfg1.win 5).flush t = true) :
    (dat1 V c).flushed 5 t = ((cfg1.win 5).blk t).view.read (Elt F) (G1_5 V c) := by
  have hN : t.val < 16 := lt_of_lt_of_eq t.isLt (show cfg1.N = 16 from N_1)
  have ht : t.val = 15 := by have := (flush1_5 t).mp hf; omega
  show (cfg1.win 5).cut (grid1.coords t) ((dat1 V c).after 5 t) = _
  rw [after1_5]
  obtain ⟨n, hn⟩ := t
  dsimp only at ht
  subst ht
  obtain ⟨e0, e1⟩ := idx1_5 ⟨15, hn⟩
  funext j
  show (oM1 (accS1 V c 15 hn)) j = G1_5 V c (((cfg1.win 5).blk ⟨15, hn⟩).view.emb j)
  unfold G1_5
  refine congrArg _ ?_
  funext a; apply Fin.ext
  match a with
  | ⟨0, _⟩ => show (j 0).val = win1_5.index ⟨15, hn⟩ (0 : Fin 2) * 1 + 1 * (j 0).val; omega
  | ⟨1, _⟩ => show (j 1).val = win1_5.index ⟨15, hn⟩ (1 : Fin 2) * 128 + 1 * (j 1).val; omega

/-- An index of the array is in a point's block iff each coordinate is in the block's range on its axis. -/
theorem mem_blk1_5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole main_v25_0).slice (win1_5.rect t)).set ↔ _
  rw [View.set_slice_whole, Rect.mem_set_unit]
  exact Iff.rfl

/-- The last point's block is the whole array. -/
theorem cover1_5 (i : S1x128.Idx) : ∃ t : Fin cfg1.N, (cfg1.win 5).flush t = true ∧ i ∈ ((cfg1.win 5).blk t).view.set := by
  refine ⟨t1_15, (flush1_5 t1_15).mpr rfl, ?_⟩
  rw [mem_blk1_5]
  obtain ⟨e0, e1⟩ := idx1_5 t1_15
  have h0 : (i 0).val < 1 := (i 0).isLt
  have h1 : (i 1).val < 128 := (i 1).isLt
  intro a
  match a with
  | ⟨0, _⟩ => show win1_5.index t1_15 (0 : Fin 2) * 1 ≤ (i 0).val ∧ (i 0).val < win1_5.index t1_15 (0 : Fin 2) * 1 + 1; omega
  | ⟨1, _⟩ => show win1_5.index t1_15 (1 : Fin 2) * 128 ≤ (i 1).val ∧ (i 1).val < win1_5.index t1_15 (1 : Fin 2) * 128 + 128; omega

/-- The mean's array after the region, whole. -/
theorem final1_5 (c : Dev nD) : (dat1 V c).arrAt 5 cfg1.N = G1_5 V c :=
  (dat1 V c).arrAt_eq_of_cover 5 (G1_5 V c) (fun t hf => flushed1_5_eq V c t hf) cover1_5

/-! ## The variance's array after the region -/

/-- What the variance's array holds after the region: the variance stored from the totals, the sums after the last point. -/
noncomputable def G1_6 (c : Dev nD) : S1x128.Idx → Elt F .f32 := oV1 (accS1 V c 15 h15_1) (accQ1 V c 15 h15_1)

/-- What the last point writes back is that array's one block. -/
theorem flushed1_6_eq (c : Dev nD) (t : Fin cfg1.N) (hf : (cfg1.win 6).flush t = true) :
    (dat1 V c).flushed 6 t = ((cfg1.win 6).blk t).view.read (Elt F) (G1_6 V c) := by
  have hN : t.val < 16 := lt_of_lt_of_eq t.isLt (show cfg1.N = 16 from N_1)
  have ht : t.val = 15 := by have := (flush1_6 t).mp hf; omega
  show (cfg1.win 6).cut (grid1.coords t) ((dat1 V c).after 6 t) = _
  rw [after1_6]
  obtain ⟨n, hn⟩ := t
  dsimp only at ht
  subst ht
  obtain ⟨e0, e1⟩ := idx1_6 ⟨15, hn⟩
  funext j
  show (oV1 (accS1 V c 15 hn) (accQ1 V c 15 h15_1)) j = G1_6 V c (((cfg1.win 6).blk ⟨15, hn⟩).view.emb j)
  unfold G1_6
  refine congrArg _ ?_
  funext a; apply Fin.ext
  match a with
  | ⟨0, _⟩ => show (j 0).val = win1_6.index ⟨15, hn⟩ (0 : Fin 2) * 1 + 1 * (j 0).val; omega
  | ⟨1, _⟩ => show (j 1).val = win1_6.index ⟨15, hn⟩ (1 : Fin 2) * 128 + 1 * (j 1).val; omega

/-- An index of the array is in a point's block iff each coordinate is in the block's range on its axis. -/
theorem mem_blk1_6 (t : Fin cfg1.N) (i : S1x128.Idx) :
    i ∈ ((cfg1.win 6).blk t).view.set ↔ ∀ a : Fin 2, win1_6.index t a * S1x128.size a ≤ (i a).val ∧ (i a).val < win1_6.index t a * S1x128.size a + S1x128.size a := by
  show i ∈ ((View.whole main_v25_1).slice (win1_6.rect t)).set ↔ _
  rw [View.set_slice_whole, Rect.mem_set_unit]
  exact Iff.rfl

/-- The last point's block is the whole array. -/
theorem cover1_6 (i : S1x128.Idx) : ∃ t : Fin cfg1.N, (cfg1.win 6).flush t = true ∧ i ∈ ((cfg1.win 6).blk t).view.set := by
  refine ⟨t1_15, (flush1_6 t1_15).mpr rfl, ?_⟩
  rw [mem_blk1_6]
  obtain ⟨e0, e1⟩ := idx1_6 t1_15
  have h0 : (i 0).val < 1 := (i 0).isLt
  have h1 : (i 1).val < 128 := (i 1).isLt
  intro a
  match a with
  | ⟨0, _⟩ => show win1_6.index t1_15 (0 : Fin 2) * 1 ≤ (i 0).val ∧ (i 0).val < win1_6.index t1_15 (0 : Fin 2) * 1 + 1; omega
  | ⟨1, _⟩ => show win1_6.index t1_15 (1 : Fin 2) * 128 ≤ (i 1).val ∧ (i 1).val < win1_6.index t1_15 (1 : Fin 2) * 128 + 128; omega

/-- The variance's array after the region, whole. -/
theorem final1_6 (c : Dev nD) : (dat1 V c).arrAt 6 cfg1.N = G1_6 V c :=
  (dat1 V c).arrAt_eq_of_cover 6 (G1_6 V c) (fun t hf => flushed1_6_eq V c t hf) cover1_6

end Cert.KernelIdeal.Hand

end
-- ==== Proof.KI.Pay1Lib.lean ====
/- The pieces the first statistics pass of every layer is read with, at the extended reals: a 4096 by 64 block against a
   64 by 128 matrix read at an index, a row laid along the rows of a block, the column sum of a block, a vector read as
   a one-row array; and the block's first linear map z — the combined features (1 + e) · x + agg against the matrix, plus
   the bias — with its reading as rows of the whole arrays. The casts to the narrower format in front of the matrix
   product are the identity here. -/
import proofs.«159011_j9938554322955_1_alg».proof.Proof.Gen.KernelIdeal.Skeleton
import proofs.«159011_j9938554322955_1_alg».proof.Proof.Math.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

/-! ### The operations that are not pointwise, at an index -/

/-- A product of a 4096 by 64 block with a 64 by 128 matrix into a zero accumulator, read at (y, j): the sum over the
    64 shared coordinates. -/
theorem mmA_apply {φ₁ φ₂ : FTy} (lhs : FVec Ideal S4096x64 φ₁) (rhs : FVec Ideal S64x128 φ₂) (y : Fin 4096) (j : Fin 128) :
    matmul dot_S4096x64_S64x128_S4096x128_1_0_0_1_n_n none lhs rhs (constant S4096x128 .f32 0x00000000#32) (ix2 y j)
      = ∑ i : Fin 64, lhs (ix2 y i) * rhs (ix2 i j) := by
  refine (Ideal.matmul_constant_zero_apply dot_S4096x64_S64x128_S4096x128_1_0_0_1_n_n none lhs rhs (ix2 y j)).trans ?_
  rw [← Equiv.sum_comp (contrEquiv1 dot_S4096x64_S64x128_S4096x128_1_0_0_1_n_n 64 rfl rfl).symm]
  refine Finset.sum_congr rfl fun i _ => ?_
  have hl : dot_S4096x64_S64x128_S4096x128_1_0_0_1_n_n.lhsIdx (ix2 y j)
      ((contrEquiv1 dot_S4096x64_S64x128_S4096x128_1_0_0_1_n_n 64 rfl rfl).symm i) = ix2 y i := by
    funext a; apply Fin.ext
    match a with
    | ⟨0, _⟩ => rfl
    | ⟨1, _⟩ => exact (DotDims.lhsIdx_val_of_single _ rfl _ _).trans (contrEquiv1_symm_val _ 64 rfl rfl i)
  have hr : dot_S4096x64_S64x128_S4096x128_1_0_0_1_n_n.rhsIdx (ix2 y j)
      ((contrEquiv1 dot_S4096x64_S64x128_S4096x128_1_0_0_1_n_n 64 rfl rfl).symm i) = ix2 i j := by
    funext a; apply Fin.ext
    match a with
    | ⟨0, _⟩ => exact (DotDims.rhsIdx_val_of_single _ rfl _ _).trans (contrEquiv1_symm_val _ 64 rfl rfl i)
    | ⟨1, _⟩ => rfl
  rw [hl, hr]

/-- One row of 64 laid along each of 4096 rows, read at (y, k), is the row at k. -/
theorem row64_apply (x : S1x64.Idx → EReal) (h : S1x64.Broadcasts S4096x64) (y : Fin 4096) (k : Fin 64) :
    broadcastTo S4096x64 x h (ix2 y k) = x (ix2 0 k) :=
  broadcastTo_apply x h (ix2 y k) (ix2 0 k) fun a => by
    match a with
    | ⟨0, _⟩ => rfl
    | ⟨1, _⟩ => rfl

/-- One row of 128 laid along each of 4096 rows, read at (y, j), is the row at j. -/
theorem row128_apply (x : S1x128.Idx → EReal) (h : S1x128.Broadcasts S4096x128) (y : Fin 4096) (j : Fin 128) :
    broadcastTo S4096x128 x h (ix2 y j) = x (ix2 0 j) :=
  broadcastTo_apply x h (ix2 y j) (ix2 0 j) fun a => by
    match a with
    | ⟨0, _⟩ => rfl
    | ⟨1, _⟩ => rfl

/-- The sum over the 4096 rows of a 4096 by 128 block, read at column j. -/
theorem colsum128_apply (src : FVec Ideal S4096x128 .f32) (hφ : FKind.Formats .f32)
    (hacc : (0x00000000#32 : BitVec 32) = FKind.add.neutral .f32 hφ) (j : Fin 128) :
    multiReduction .add [0] S128 src 0x00000000#32 reduces_S4096x128_S128 hφ hacc (ix1 j)
      = ∑ y : Fin 4096, src (ix2 y j) := by
  refine (Ideal.multiReduction_add_single src 0x00000000#32 reduces_S4096x128_S128 hφ hacc (ix1 j)).trans ?_
  refine Finset.sum_congr rfl fun y _ => congrArg src ?_
  funext a; apply Fin.ext
  match a with
  | ⟨0, _⟩ => rfl
  | ⟨1, _⟩ => rfl

/-- A vector of 128 read as a 1 by 128 array. -/
theorem cast128_apply (x : S128.Idx → EReal) (h : S128.ShapeCasts S1x128) (p : Fin 1) (j : Fin 128) :
    shapeCast S1x128 x h (ix2 p j) = x (ix1 j) :=
  shapeCast_a_1a_apply x h p j

/-- A reciprocal square root at an index is that of the element. -/
theorem rsqrt_apply {s : Shape} {φ : FTy} (a : FVec Ideal s φ) (i : s.Idx) : rsqrt a i = Ideal.rsqrt (a i) := rfl

/-- The single-precision zero word is zero. -/
theorem scalar_zero : Scalar.ofBits (F := Ideal) .f32 0x00000000#32 = (0 : EReal) := Ideal.ofBits_zero_f32

/-! ### The block's first linear map -/

/-- A block of n nodes: own features scaled by 1 + e, plus the neighbour sums. -/
def combineN {n : ℕ} (e : Fin 1 → Fin 64 → EReal) (x agg : Fin n → Fin 64 → EReal) : Fin n → Fin 64 → EReal :=
  fun r k => (Spec.cOne + e 0 k) * x r k + agg r k

/-- The first linear map on a block of 4096 nodes, from the offset e, the block's features x and neighbour sums a, the
    matrix W and the bias b. -/
def zblk1 (e : Vec Ideal S1x64 .f32) (x a : Vec Ideal S4096x64 .f32) (W : Vec Ideal S64x128 .f32)
    (b : Vec Ideal S1x128 .f32) : Fin 4096 → Fin 128 → EReal :=
  Spec.lin (combineN (Spec.cur2 e) (Spec.cur2 x) (Spec.cur2 a)) (Spec.cur2 W) (Spec.cur2 b)

/-- The block's first linear map, spelt out. -/
theorem zblk1_apply (e : Vec Ideal S1x64 .f32) (x a : Vec Ideal S4096x64 .f32) (W : Vec Ideal S64x128 .f32)
    (b : Vec Ideal S1x128 .f32) (y : Fin 4096) (j : Fin 128) :
    zblk1 e x a W b y j
      = (∑ i : Fin 64, ((Spec.cOne + e (ix2 0 i)) * x (ix2 y i) + a (ix2 y i)) * W (ix2 i j)) + b (ix2 0 j) := rfl

/-- Row y of a block is row r of the whole arrays: the block's first linear map at row y is the whole one at row r. -/
theorem zblk1_eq_z1 (e : Vec Ideal S1x64 .f32) (x a : Vec Ideal S4096x64 .f32) (W : Vec Ideal S64x128 .f32)
    (b : Vec Ideal S1x128 .f32) (X A : Fin 65536 → Fin 64 → EReal) (y : Fin 4096) (r : Fin 65536)
    (hx : ∀ k, x (ix2 y k) = X r k) (ha : ∀ k, a (ix2 y k) = A r k) (j : Fin 128) :
    zblk1 e x a W b y j = Spec.z1 (Spec.cur2 e) X A (Spec.cur2 W) (Spec.cur2 b) r j := by
  rw [zblk1_apply]
  show _ = (∑ i : Fin 64, ((Spec.cOne + e (ix2 0 i)) * X r i + A r i) * W (ix2 i j)) + b (ix2 0 j)
  simp only [hx, ha]

end Cert.KernelIdeal.Val

end
-- ==== Proof.KI.Pay1.lean ====
/- A first statistics pass, block by block, at the extended reals: what each stored value is at an index. The carried
   sums receive the block's column sums of the first linear map z and of z · z; both start at zero; and the last block's
   stores are S · 2⁻¹⁶ and Q · 2⁻¹⁶ − (S · 2⁻¹⁶)². -/
import proofs.«159011_j9938554322955_1_alg».proof.Proof.KI.Pay1Lib

noncomputable section

namespace Cert.KernelIdeal.Val

open Cert.KernelIdeal Cert.KernelIdeal.Gen
open Idealize.ShloMosaic Idealize.ShloMosaic.ValueIdx
open scoped BigOperators

/-! ### The payloads at an index -/

/-- The block's first linear map as the program computes it. -/
theorem pay6_1_apply (e : Vec Ideal S1x64 .f32) (x a : Vec Ideal S4096x64 .f32) (W : Vec Ideal S64x128 .f32)
    (b : Vec Ideal S1x128 .f32) (y : Fin 4096) (j : Fin 128) :
    k1_pay6 e x a W b (ix2 y j) = zblk1 e x a W b y j := by
  unfold k1_pay6
  simp only [shapeCast_self, mulf_apply, addf_apply, truncf_apply, broadcast_apply, row128_apply, row64_apply, mmA_apply]
  rfl

/-- The carried sum starts at zero. -/
theorem pay4_1_apply (p : Fin 1) (j : Fin 128) : k1_pay4 (F := Ideal) (ix2 p j) = 0 := by
  unfold k1_pay4
  simp only [shapeCast_self, broadcast_apply]
  exact scalar_zero

/-- The carried sum of squares starts at zero. -/
theorem pay5_1_apply (p : Fin 1) (j : Fin 128) : k1_pay5 (F := Ideal) (ix2 p j) = 0 := by
  unfold k1_pay5
  simp only [shapeCast_self, broadcast_apply]
  exact scalar_zero

/-- The carried sum S receives the block's column sum of z. -/
theorem pay7_1_apply (e : Vec Ideal S1x64 .f32) (x a : Vec Ideal S4096x64 .f32) (W : Vec Ideal S64x128 .f32)
    (b : Vec Ideal S1x128 .f32) (S : Vec Ideal S1x128 .f32) (p : Fin 1) (j : Fin 128) :
    k1_pay7 e x a W b S (ix2 p j) = S (ix2 p j) + ∑ y : Fin 4096, zblk1 e x a W b y j := by
  unfold k1_pay7
  simp only [shapeCast_self, addf_apply, cast128_apply]
  refine congrArg (S (ix2 p j) + ·) ?_
  refine (colsum128_apply (k1_pay6 e x a W b) _ _ j).trans ?_
  exact Finset.sum_congr rfl fun y _ => pay6_1_apply e x a W b y j

/-- The carried sum Q receives the block's column sum of z · z. -/
theorem pay8_1_apply (e : Vec Ideal S1x64 .f32) (x a : Vec Ideal S4096x64 .f32) (W : Vec Ideal S64x128 .f32)
    (b : Vec Ideal S1x128 .f32) (Q : Vec Ideal S1x128 .f32) (p : Fin 1) (j : Fin 128) :
    k1_pay8 e x a W b Q (ix2 p j) = Q (ix2 p j) + ∑ y : Fin 4096, zblk1 e x a W b y j * zblk1 e x a W b y j := by
  unfold k1_pay8
  simp only [addf_apply, cast128_apply]
  refine congrArg (Q (ix2 p j) + ·) ?_
  refine (colsum128_apply (mulf (k1_pay6 e x a W b) (k1_pay6 e x a W b)) _ _ j).trans ?_
  refine Finset.sum_congr rfl fun y _ => ?_
  rw [mulf_apply, pay6_1_apply]

/-- The same through the store's identity cast. -/
theorem pay1_8_1_apply (e : Vec Ideal S1x64 .f32) (x a : Vec Ideal S4096x64 .f32) (W : Vec Ideal S64x128 .f32)
    (b : Vec Ideal S1x128 .f32) (Q : Vec Ideal S1x128 .f32) (p : Fin 1) (j : Fin 128) :
    k1_pay1 (k1_pay8 e x a W b Q) (ix2 p j)
      = Q (ix2 p j) + ∑ y : Fin 4096, zblk1 e x a W b y j * zblk1 e x a W b y j := by
  unfold k1_pay1
  simp only [shapeCast_self]
  exact pay8_1_apply e x a W b Q p j

/-- The identity cast in front of the store of Q. -/
theorem pay1_1_apply (v : FVec Ideal S1x128 .f32) : k1_pay1 v = v := by
  unfold k1_pay1
  simp only [shapeCast_self]

/-- The last block's first store: the sum times 2⁻¹⁶. -/
theorem pay2_1_apply (S : Vec Ideal S1x128 .f32) (p : Fin 1) (j : Fin 128) :
    k1_pay2 S (ix2 p j) = S (ix2 p j) * Ideal.ofBits .f32 Spec.wInvN := by
  unfold k1_pay2
  simp only [mulf_apply, broadcast_apply]
  rfl

/-- The last block's second store: the sum of squares times 2⁻¹⁶, minus the square of the first store. -/
theorem pay3_1_apply (S Q : Vec Ideal S1x128 .f32) (p : Fin 1) (j : Fin 128) :
    k1_pay3 S Q (ix2 p j)
      = Q (ix2 p j) * Ideal.ofBits .f32 Spec.wInvN
        - (S (ix2 p j) * Ideal.ofBits .f32 Spec.wInvN) * (S (ix2 p j) * Ideal.ofBits .f32 Spec.wInvN) := by
  unfold k1_pay3
  simp only [mulf_apply, subf_apply, broadcast_apply, pay2_1_apply]
  rfl

end Cert.KernelIdeal.Val

end
-- ==== Proof.KI.Val1.lean ====
/- A layer's first statistics pass at the extended reals. The sixteen points of the grid each add, to two running sums
   that start at zero, the column sums of z and of z · z over their block of 4096 nodes, z being the layer's first linear
   map of the combined features; the last point stores the total of z times 2⁻¹⁶ and the total of z · z times 2⁻¹⁶ minus
   the square of the first. Blocks are consecutive rows of the arrays, so the totals are the sums over all 65536 nodes,
   and on real data the two stored rows are the mean and the variance of z. -/
import proofs.«159011_j9938554322955_1_alg».proof.Proof.KI.Fin1
import proofs.«159011_j9938554322955_1_alg».proof.Proof.KI.Pay1
import proofs.«159011_j9938554322955_1_alg».proof.Proof.Math.Spec
import proofs.«159011_j9938554322955_1_alg».proof.Proof.Math.Real
import proofs.«159011_j9938554322955_1_alg».proof.Proof.LibStats

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! ### Blocks are rows of the arrays -/

/-- The printed index maps over the grid: the features and the neighbour sums move one block of rows per point; the
    offset, the matrix and the bias stay. -/
theorem idxIn1_0 : ∀ t : Fin cfg1.N, win1_0.index t (0 : Fin 2) = t.val ∧ win1_0.index t (1 : Fin 2) = 0 :=
  (by decide +kernel : ∀ t : Fin grid1.N, _)
theorem idxIn1_1 : ∀ t : Fin cfg1.N, win1_1.index t (0 : Fin 2) = t.val ∧ win1_1.index t (1 : Fin 2) = 0 :=
  (by decide +kernel : ∀ t : Fin grid1.N, _)
theorem idxIn1_2 : ∀ t : Fin cfg1.N, win1_2.index t (0 : Fin 2) = 0 ∧ win1_2.index t (1 : Fin 2) = 0 :=
  (by decide +kernel : ∀ t : Fin grid1.N, _)
theorem idxIn1_3 : ∀ t : Fin cfg1.N, win1_3.index t (0 : Fin 2) = 0 ∧ win1_3.index t (1 : Fin 2) = 0 :=
  (by decide +kernel : ∀ t : Fin grid1.N, _)
theorem idxIn1_4 : ∀ t : Fin cfg1.N, win1_4.index t (0 : Fin 2) = 0 ∧ win1_4.index t (1 : Fin 2) = 0 :=
  (by decide +kernel : ∀ t : Fin grid1.N, _)

/-- Row y of the features' block at point t is row 4096 · t + y of the array. -/
theorem blk1_0 (c : Dev nD) (t : Fin cfg1.N) (y : Fin 4096) (k : Fin 64) :
    (iblk1 V c 0 t : Vec Ideal S4096x64 .f32) (ix2 y k)
      = Spec.cur2 (V c main_v5) ⟨4096 * t.val + y.val, by have := lt_of_lt_of_eq t.isLt (show cfg1.N = 16 from N_1); omega⟩ k := by
  obtain ⟨e0, e1⟩ := idxIn1_0 t
  show V c main_v5 (((cfg1.win 0).blk t).view.emb (ix2 y k)) = V c main_v5 (ix2 _ k)
  refine congrArg (V c main_v5) ?_
  funext a; apply Fin.ext
  match a with
  | ⟨0, _⟩ => show win1_0.index t (0 : Fin 2) * 4096 + 1 * y.val = 4096 * t.val + y.val; omega
  | ⟨1, _⟩ => show win1_0.index t (1 : Fin 2) * 64 + 1 * k.val = k.val; omega

/-- Row y of the neighbour sums' block at point t is row 4096 · t + y of the array. -/
theorem blk1_1 (c : Dev nD) (t : Fin cfg1.N) (y : Fin 4096) (k : Fin 64) :
    (iblk1 V c 1 t : Vec Ideal S4096x64 .f32) (ix2 y k)
      = Spec.cur2 (V c main_v15) ⟨4096 * t.val + y.val, by have := lt_of_lt_of_eq t.isLt (show cfg1.N = 16 from N_1); omega⟩ k := by
  obtain ⟨e0, e1⟩ := idxIn1_1 t
  show V c main_v15 (((cfg1.win 1).blk t).view.emb (ix2 y k)) = V c main_v15 (ix2 _ k)
  refine congrArg (V c main_v15) ?_
  funext a; apply Fin.ext
  match a with
  | ⟨0, _⟩ => show win1_1.index t (0 : Fin 2) * 4096 + 1 * y.val = 4096 * t.val + y.val; omega
  | ⟨1, _⟩ => show win1_1.index t (1 : Fin 2) * 64 + 1 * k.val = k.val; omega

/-- The offset's block is its whole array, at every point. -/
theorem blk1_2 (c : Dev nD) (t : Fin cfg1.N) :
    Spec.cur2 (iblk1 V c 2 t : Vec Ideal S1x64 .f32) = Spec.cur2 (V c main_v23) := by
  obtain ⟨e0, e1⟩ := idxIn1_2 t
  funext r k
  show V c main_v23 (((cfg1.win 2).blk t).view.emb (ix2 r k)) = V c main_v23 (ix2 r k)
  refine congrArg (V c main_v23) ?_
  funext a; apply Fin.ext
  match a with
  | ⟨0, _⟩ => show win1_2.index t (0 : Fin 2) * 1 + 1 * r.val = r.val; omega
  | ⟨1, _⟩ => show win1_2.index t (1 : Fin 2) * 64 + 1 * k.val = k.val; omega

/-- The matrix's block is its whole array, at every point. -/
theorem blk1_3 (c : Dev nD) (t : Fin cfg1.N) :
    Spec.cur2 (iblk1 V c 3 t : Vec Ideal S64x128 .f32) = Spec.cur2 (V c main_v19) := by
  obtain ⟨e0, e1⟩ := idxIn1_3 t
  funext r k
  show V c main_v19 (((cfg1.win 3).blk t).view.emb (ix2 r k)) = V c main_v19 (ix2 r k)
  refine congrArg (V c main_v19) ?_
  funext a; apply Fin.ext
  match a with
  | ⟨0, _⟩ => show win1_3.index t (0 : Fin 2) * 64 + 1 * r.val = r.val; omega
  | ⟨1, _⟩ => show win1_3.index t (1 : Fin 2) * 128 + 1 * k.val = k.val; omega

/-- The bias's block is its whole array, at every point. -/
theorem blk1_4 (c : Dev nD) (t : Fin cfg1.N) :
    Spec.cur2 (iblk1 V c 4 t : Vec Ideal S1x128 .f32) = Spec.cur2 (V c main_v24) := by
  obtain ⟨e0, e1⟩ := idxIn1_4 t
  funext r k
  show V c main_v24 (((cfg1.win 4).blk t).view.emb (ix2 r k)) = V c main_v24 (ix2 r k)
  refine congrArg (V c main_v24) ?_
  funext a; apply Fin.ext
  match a with
  | ⟨0, _⟩ => show win1_4.index t (0 : Fin 2) * 1 + 1 * r.val = r.val; omega
  | ⟨1, _⟩ => show win1_4.index t (1 : Fin 2) * 128 + 1 * k.val = k.val; omega

/-! ### The first linear map on all nodes, and its block sums -/

/-- The layer's first linear map on all 65536 nodes, from the arrays the region finds. -/
noncomputable def zAll1 (c : Dev nD) : Fin 65536 → Fin 128 → EReal :=
  Spec.z1 (Spec.cur2 (V c main_v23)) (Spec.cur2 (V c main_v5)) (Spec.cur2 (V c main_v15)) (Spec.cur2 (V c main_v19)) (Spec.cur2 (V c main_v24))

/-- Row y of block t's linear map is row 4096 · t + y of the whole one. -/
theorem zblk1_at (c : Dev nD) (t : Fin cfg1.N) (y : Fin 4096) (j : Fin 128) :
    zblk1 (iblk1 V c 2 t) (iblk1 V c 0 t) (iblk1 V c 1 t) (iblk1 V c 3 t) (iblk1 V c 4 t) y j
      = zAll1 V c ⟨4096 * t.val + y.val, by have := lt_of_lt_of_eq t.isLt (show cfg1.N = 16 from N_1); omega⟩ j := by
  refine (zblk1_eq_z1 (iblk1 V c 2 t) (iblk1 V c 0 t) (iblk1 V c 1 t) (iblk1 V c 3 t) (iblk1 V c 4 t) (Spec.cur2 (V c main_v5)) (Spec.cur2 (V c main_v15)) y _
    (fun k => blk1_0 V c t y k) (fun k => blk1_1 V c t y k) j).trans ?_
  unfold zAll1
  rw [blk1_2 V c t, blk1_3 V c t, blk1_4 V c t]

/-- Block s's column sum of z at column j (zero past the grid). -/
noncomputable def colZ1 (c : Dev nD) (j : Fin 128) (s : ℕ) : EReal :=
  if h : s < 16 then ∑ y : Fin 4096, zAll1 V c ⟨4096 * s + y.val, by omega⟩ j else 0
/-- Block s's column sum of z · z at column j (zero past the grid). -/
noncomputable def colZZ1 (c : Dev nD) (j : Fin 128) (s : ℕ) : EReal :=
  if h : s < 16 then ∑ y : Fin 4096, zAll1 V c ⟨4096 * s + y.val, by omega⟩ j * zAll1 V c ⟨4096 * s + y.val, by omega⟩ j else 0

theorem sumZ1_at (c : Dev nD) (t : Fin cfg1.N) (j : Fin 128) :
    ∑ y : Fin 4096, zblk1 (iblk1 V c 2 t) (iblk1 V c 0 t) (iblk1 V c 1 t) (iblk1 V c 3 t) (iblk1 V c 4 t) y j = colZ1 V c j t.val := by
  have hN : t.val < 16 := lt_of_lt_of_eq t.isLt (show cfg1.N = 16 from N_1)
  unfold colZ1; rw [dif_pos hN]
  exact Finset.sum_congr rfl fun y _ => zblk1_at V c t y j

theorem sumZZ1_at (c : Dev nD) (t : Fin cfg1.N) (j : Fin 128) :
    ∑ y : Fin 4096, zblk1 (iblk1 V c 2 t) (iblk1 V c 0 t) (iblk1 V c 1 t) (iblk1 V c 3 t) (iblk1 V c 4 t) y j * zblk1 (iblk1 V c 2 t) (iblk1 V c 0 t) (iblk1 V c 1 t) (iblk1 V c 3 t) (iblk1 V c 4 t) y j = colZZ1 V c j t.val := by
  have hN : t.val < 16 := lt_of_lt_of_eq t.isLt (show cfg1.N = 16 from N_1)
  unfold colZZ1; rw [dif_pos hN]
  exact Finset.sum_congr rfl fun y _ => by rw [zblk1_at V c t y j]

/-! ### The running sums, closed -/

/-- After point n the first scratch row holds the column sums of z over the blocks up to n. -/
theorem accS1_val (c : Dev nD) (p : Fin 1) (j : Fin 128) :
    ∀ (n : ℕ) (hn : n < cfg1.N), accS1 V c n hn (ix2 p j) = ∑ s ∈ Finset.range (n + 1), colZ1 V c j s
  | 0, hn => by
    show sS1 (iblk1 V c 0 ⟨0, hn⟩) (iblk1 V c 1 ⟨0, hn⟩) (iblk1 V c 2 ⟨0, hn⟩) (iblk1 V c 3 ⟨0, hn⟩) (iblk1 V c 4 ⟨0, hn⟩) zS1 (ix2 p j) = _
    unfold sS1 zS1
    rw [pay7_1_apply, pay4_1_apply, zero_add, sumZ1_at V c ⟨0, hn⟩ j, Finset.sum_range_succ, Finset.sum_range_zero, zero_add]
  | n + 1, hn => by
    show sS1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (accS1 V c n (Nat.lt_of_succ_lt hn)) (ix2 p j) = _
    unfold sS1
    rw [pay7_1_apply, accS1_val c p j n (Nat.lt_of_succ_lt hn), sumZ1_at V c ⟨n + 1, hn⟩ j, Finset.sum_range_succ _ (n + 1)]

/-- After point n the second scratch row holds the column sums of z · z over the blocks up to n. -/
theorem accQ1_val (c : Dev nD) (p : Fin 1) (j : Fin 128) :
    ∀ (n : ℕ) (hn : n < cfg1.N), accQ1 V c n hn (ix2 p j) = ∑ s ∈ Finset.range (n + 1), colZZ1 V c j s
  | 0, hn => by
    show sQ1 (iblk1 V c 0 ⟨0, hn⟩) (iblk1 V c 1 ⟨0, hn⟩) (iblk1 V c 2 ⟨0, hn⟩) (iblk1 V c 3 ⟨0, hn⟩) (iblk1 V c 4 ⟨0, hn⟩) zQ1 (ix2 p j) = _
    unfold sQ1 zQ1
    rw [pay1_8_1_apply, pay5_1_apply, zero_add, sumZZ1_at V c ⟨0, hn⟩ j, Finset.sum_range_succ, Finset.sum_range_zero, zero_add]
  | n + 1, hn => by
    show sQ1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (accQ1 V c n (Nat.lt_of_succ_lt hn)) (ix2 p j) = _
    unfold sQ1
    rw [pay1_8_1_apply, accQ1_val c p j n (Nat.lt_of_succ_lt hn), sumZZ1_at V c ⟨n + 1, hn⟩ j, Finset.sum_range_succ _ (n + 1)]

/-! ### The two statistics -/

/-- The mean's array after the region is the mean of z over all nodes. -/
theorem val1_5 (c : Dev nD) :
    Spec.cur2 ((dat1 V c).arrAt 5 cfg1.N) = Spec.mean (zAll1 V c) := by
  funext p j
  refine (congrFun (final1_5 V c) (ix2 p j)).trans ?_
  unfold G1_5 oM1
  rw [pay2_1_apply, accS1_val V c p j 15 h15_1]
  exact Spec.mean_kernel_form_range (zAll1 V c) j (colZ1 V c j) (fun t ht => dif_pos ht)

/-- On real data the variance's array after the region is the variance of z over all nodes. -/
theorem val1_6 (c : Dev nD)
    (he : ∀ i k, Cert.Lib.IsReal (Spec.cur2 (V c main_v23) i k)) (hx : ∀ r k, Cert.Lib.IsReal (Spec.cur2 (V c main_v5) r k))
    (hagg : ∀ r k, Cert.Lib.IsReal (Spec.cur2 (V c main_v15) r k)) (hW : ∀ k j, Cert.Lib.IsReal (Spec.cur2 (V c main_v19) k j))
    (hb : ∀ i j, Cert.Lib.IsReal (Spec.cur2 (V c main_v24) i j)) :
    Spec.cur2 ((dat1 V c).arrAt 6 cfg1.N) = Spec.var (zAll1 V c) := by
  funext p j
  refine (congrFun (final1_6 V c) (ix2 p j)).trans ?_
  unfold G1_6 oV1
  rw [pay3_1_apply, accS1_val V c p j 15 h15_1, accQ1_val V c p j 15 h15_1]
  exact Spec.var_kernel_form_range (zAll1 V c) (Spec.isReal_z1 he hx hagg hW hb) j (colZ1 V c j) (colZZ1 V c j)
    (fun t ht => dif_pos ht) (fun t ht => dif_pos ht)

end Cert.KernelIdeal.Val

end
-- ==== Proof.KI.Pay2Lib.lean ====
/- The pieces the second statistics pass of every layer is read with, at the extended reals: a 4096 by 128 block against
   a 128 by 64 matrix read at an index, the column sum of a 4096 by 64 block, a vector of 64 read as a one-row array; and
   the block's second linear map — the first one normalised by a given mean and variance with gain and offset, clipped
   at zero, against the matrix, plus the bias — with its reading as rows of the whole arrays. -/
import proofs.«159011_j9938554322955_1_alg».proof.Proof.KI.Pay1Lib

noncomputable section

namespace Cert.KernelIdeal.Val

open Cert.KernelIdeal Cert.KernelIdeal.Gen
open Idealize.ShloMosaic Idealize.ShloMosaic.ValueIdx
open scoped BigOperators

/-! ### The operations that are not pointwise, at an index -/

/-- A product of a 4096 by 128 block with a 128 by 64 matrix into a zero accumulator, read at (y, q): the sum over the
    128 shared coordinates. -/
theorem mmB_apply {φ₁ φ₂ : FTy} (lhs : FVec Ideal S4096x128 φ₁) (rhs : FVec Ideal S128x64 φ₂) (y : Fin 4096) (q : Fin 64) :
    matmul dot_S4096x128_S128x64_S4096x64_1_0_0_1_n_n none lhs rhs (constant S4096x64 .f32 0x00000000#32) (ix2 y q)
      = ∑ i : Fin 128, lhs (ix2 y i) * rhs (ix2 i q) := by
  refine (Ideal.matmul_constant_zero_apply dot_S4096x128_S128x64_S4096x64_1_0_0_1_n_n none lhs rhs (ix2 y q)).trans ?_
  rw [← Equiv.sum_comp (contrEquiv1 dot_S4096x128_S128x64_S4096x64_1_0_0_1_n_n 128 rfl rfl).symm]
  refine Finset.sum_congr rfl fun i _ => ?_
  have hl : dot_S4096x128_S128x64_S4096x64_1_0_0_1_n_n.lhsIdx (ix2 y q)
      ((contrEquiv1 dot_S4096x128_S128x64_S4096x64_1_0_0_1_n_n 128 rfl rfl).symm i) = ix2 y i := by
    funext a; apply Fin.ext
    match a with
    | ⟨0, _⟩ => rfl
    | ⟨1, _⟩ => exact (DotDims.lhsIdx_val_of_single _ rfl _ _).trans (contrEquiv1_symm_val _ 128 rfl rfl i)
  have hr : dot_S4096x128_S128x64_S4096x64_1_0_0_1_n_n.rhsIdx (ix2 y q)
      ((contrEquiv1 dot_S4096x128_S128x64_S4096x64_1_0_0_1_n_n 128 rfl rfl).symm i) = ix2 i q := by
    funext a; apply Fin.ext
    match a with
    | ⟨0, _⟩ => exact (DotDims.rhsIdx_val_of_single _ rfl _ _).trans (contrEquiv1_symm_val _ 128 rfl rfl i)
    | ⟨1, _⟩ => rfl
  rw [hl, hr]

/-- The sum over the 4096 rows of a 4096 by 64 block, read at column q. -/
theorem colsum64_apply (src : FVec Ideal S4096x64 .f32) (hφ : FKind.Formats .f32)
    (hacc : (0x00000000#32 : BitVec 32) = FKind.add.neutral .f32 hφ) (q : Fin 64) :
    multiReduction .add [0] S64 src 0x00000000#32 reduces_S4096x64_S64 hφ hacc (ix1 q)
      = ∑ y : Fin 4096, src (ix2 y q) := by
  refine (Ideal.multiReduction_add_single src 0x00000000#32 reduces_S4096x64_S64 hφ hacc (ix1 q)).trans ?_
  refine Finset.sum_congr rfl fun y _ => congrArg src ?_
  funext a; apply Fin.ext
  match a with
  | ⟨0, _⟩ => rfl
  | ⟨1, _⟩ => rfl

/-- A vector of 64 read as a 1 by 64 array. -/
theorem cast64_apply (x : S64.Idx → EReal) (h : S64.ShapeCasts S1x64) (p : Fin 1) (q : Fin 64) :
    shapeCast S1x64 x h (ix2 p q) = x (ix1 q) :=
  shapeCast_a_1a_apply x h p q

/-! ### The block's second linear map -/

/-- The second linear map on a block of 4096 nodes: the first one normalised by the mean m1 and variance v1 with gain g1
    and offset be1, clipped at zero, against the matrix W2, plus the bias b2. -/
def z2blk (e : Vec Ideal S1x64 .f32) (x a : Vec Ideal S4096x64 .f32) (W1 : Vec Ideal S64x128 .f32)
    (b1 m1 v1 g1 be1 : Vec Ideal S1x128 .f32) (W2 : Vec Ideal S128x64 .f32) (b2 : Vec Ideal S1x64 .f32) :
    Fin 4096 → Fin 64 → EReal :=
  Spec.lin (Spec.relu (Spec.norm (zblk1 e x a W1 b1) (Spec.cur2 m1) (Spec.cur2 v1) (Spec.cur2 g1) (Spec.cur2 be1)))
    (Spec.cur2 W2) (Spec.cur2 b2)

/-- The block's second linear map, spelt out. -/
theorem z2blk_apply (e : Vec Ideal S1x64 .f32) (x a : Vec Ideal S4096x64 .f32) (W1 : Vec Ideal S64x128 .f32)
    (b1 m1 v1 g1 be1 : Vec Ideal S1x128 .f32) (W2 : Vec Ideal S128x64 .f32) (b2 : Vec Ideal S1x64 .f32)
    (y : Fin 4096) (q : Fin 64) :
    z2blk e x a W1 b1 m1 v1 g1 be1 W2 b2 y q
      = (∑ i : Fin 128,
          max ((zblk1 e x a W1 b1 y i - m1 (ix2 0 i)) * Ideal.rsqrt (v1 (ix2 0 i) + Spec.cEps) * g1 (ix2 0 i)
                + be1 (ix2 0 i)) 0 * W2 (ix2 i q))
        + b2 (ix2 0 q) := rfl

/-- Row y of a block is row r of the whole arrays: the block's second linear map at row y is the whole one at row r. -/
theorem z2blk_eq_z2 (e : Vec Ideal S1x64 .f32) (x a : Vec Ideal S4096x64 .f32) (W1 : Vec Ideal S64x128 .f32)
    (b1 m1 v1 g1 be1 : Vec Ideal S1x128 .f32) (W2 : Vec Ideal S128x64 .f32) (b2 : Vec Ideal S1x64 .f32)
    (X A : Fin 65536 → Fin 64 → EReal) (y : Fin 4096) (r : Fin 65536)
    (hx : ∀ k, x (ix2 y k) = X r k) (ha : ∀ k, a (ix2 y k) = A r k) (q : Fin 64) :
    z2blk e x a W1 b1 m1 v1 g1 be1 W2 b2 y q
      = Spec.z2 (Spec.relu (Spec.norm (Spec.z1 (Spec.cur2 e) X A (Spec.cur2 W1) (Spec.cur2 b1))
          (Spec.cur2 m1) (Spec.cur2 v1) (Spec.cur2 g1) (Spec.cur2 be1))) (Spec.cur2 W2) (Spec.cur2 b2) r q := by
  rw [z2blk_apply]
  show _ = (∑ i : Fin 128,
          max ((Spec.z1 (Spec.cur2 e) X A (Spec.cur2 W1) (Spec.cur2 b1) r i - m1 (ix2 0 i))
                * Ideal.rsqrt (v1 (ix2 0 i) + Spec.cEps) * g1 (ix2 0 i) + be1 (ix2 0 i)) 0 * W2 (ix2 i q))
        + b2 (ix2 0 q)
  simp only [zblk1_eq_z1 e x a W1 b1 X A y r hx ha]

end Cert.KernelIdeal.Val

end
-- ==== Proof.KI.Pay2.lean ====
/- A second statistics pass, block by block, at the extended reals: what each stored value is at an index. The carried
   sums receive the block's column sums of the second linear map and of its square; both start at zero; and the last
   block's stores are S · 2⁻¹⁶ and Q · 2⁻¹⁶ − (S · 2⁻¹⁶)². -/
import proofs.«159011_j9938554322955_1_alg».proof.Proof.KI.Pay2Lib

noncomputable section

namespace Cert.KernelIdeal.Val

open Cert.KernelIdeal Cert.KernelIdeal.Gen
open Idealize.ShloMosaic Idealize.ShloMosaic.ValueIdx
open scoped BigOperators

/-! ### The payloads at an index -/

/-- The first linear map less the mean, times the reciprocal root of the offset variance. -/
theorem pay8_2_apply (e : Vec Ideal S1x64 .f32) (x a : Vec Ideal S4096x64 .f32) (W1 : Vec Ideal S64x128 .f32)
    (b1 m1 v1 : Vec Ideal S1x128 .f32) (y : Fin 4096) (j : Fin 128) :
    k2_pay8 e x a W1 b1 m1 v1 (ix2 y j)
      = (zblk1 e x a W1 b1 y j - m1 (ix2 0 j)) * Ideal.rsqrt (v1 (ix2 0 j) + Spec.cEps) := by
  unfold k2_pay8
  simp only [shapeCast_self, mulf_apply, addf_apply, subf_apply, truncf_apply, broadcast_apply, rsqrt_apply,
    row128_apply, row64_apply, mmA_apply]
  rfl

/-- The gain laid along the rows. -/
theorem pay9_2_apply (g1 : Vec Ideal S1x128 .f32) (y : Fin 4096) (j : Fin 128) :
    k2_pay9 g1 (ix2 y j) = g1 (ix2 0 j) := by
  unfold k2_pay9
  simp only [shapeCast_self, row128_apply]

/-- The second linear map from any two factors P and G of the normalised first one. -/
theorem pay1_2_apply (P G : FVec Ideal S4096x128 .f32) (be1 : Vec Ideal S1x128 .f32) (W2 : Vec Ideal S128x64 .f32)
    (b2 : Vec Ideal S1x64 .f32) (y : Fin 4096) (q : Fin 64) :
    k2_pay1 P G be1 W2 b2 (ix2 y q)
      = (∑ i : Fin 128, max (P (ix2 y i) * G (ix2 y i) + be1 (ix2 0 i)) 0 * W2 (ix2 i q)) + b2 (ix2 0 q) := by
  unfold k2_pay1
  simp only [shapeCast_self, mulf_apply, addf_apply, maximumf_apply, truncf_apply, broadcast_apply,
    row128_apply, row64_apply, mmB_apply, scalar_zero]

/-- The block's second linear map as the program computes it. -/
theorem pay1_8_9_2_apply (e : Vec Ideal S1x64 .f32) (x a : Vec Ideal S4096x64 .f32) (W1 : Vec Ideal S64x128 .f32)
    (b1 m1 v1 g1 be1 : Vec Ideal S1x128 .f32) (W2 : Vec Ideal S128x64 .f32) (b2 : Vec Ideal S1x64 .f32)
    (y : Fin 4096) (q : Fin 64) :
    k2_pay1 (k2_pay8 e x a W1 b1 m1 v1) (k2_pay9 g1) be1 W2 b2 (ix2 y q)
      = z2blk e x a W1 b1 m1 v1 g1 be1 W2 b2 y q := by
  rw [pay1_2_apply, z2blk_apply]
  simp only [pay8_2_apply, pay9_2_apply]

/-- The carried sum starts at zero. -/
theorem pay6_2_apply (p : Fin 1) (q : Fin 64) : k2_pay6 (F := Ideal) (ix2 p q) = 0 := by
  unfold k2_pay6
  simp only [shapeCast_self, broadcast_apply]
  exact scalar_zero

/-- The carried sum of squares starts at zero. -/
theorem pay7_2_apply (p : Fin 1) (q : Fin 64) : k2_pay7 (F := Ideal) (ix2 p q) = 0 := by
  unfold k2_pay7
  simp only [shapeCast_self, broadcast_apply]
  exact scalar_zero

/-- The carried sum s receives the block's column sum of the second linear map. -/
theorem pay2_2_apply (P G : FVec Ideal S4096x128 .f32) (be1 : Vec Ideal S1x128 .f32) (W2 : Vec Ideal S128x64 .f32)
    (b2 : Vec Ideal S1x64 .f32) (s : Vec Ideal S1x64 .f32) (p : Fin 1) (q : Fin 64) :
    k2_pay2 P G be1 W2 b2 s (ix2 p q) = s (ix2 p q) + ∑ y : Fin 4096, k2_pay1 P G be1 W2 b2 (ix2 y q) := by
  unfold k2_pay2
  simp only [shapeCast_self, addf_apply, cast64_apply]
  exact congrArg (s (ix2 p q) + ·) (colsum64_apply (k2_pay1 P G be1 W2 b2) _ _ q)

/-- The carried sum s receives the block's column sum of the square of the second linear map. -/
theorem pay3_2_apply (P G : FVec Ideal S4096x128 .f32) (be1 : Vec Ideal S1x128 .f32) (W2 : Vec Ideal S128x64 .f32)
    (b2 : Vec Ideal S1x64 .f32) (s : Vec Ideal S1x64 .f32) (p : Fin 1) (q : Fin 64) :
    k2_pay3 P G be1 W2 b2 s (ix2 p q)
      = s (ix2 p q) + ∑ y : Fin 4096, k2_pay1 P G be1 W2 b2 (ix2 y q) * k2_pay1 P G be1 W2 b2 (ix2 y q) := by
  unfold k2_pay3
  simp only [shapeCast_self, addf_apply, cast64_apply]
  refine congrArg (s (ix2 p q) + ·) ?_
  refine (colsum64_apply (mulf (k2_pay1 P G be1 W2 b2) (k2_pay1 P G be1 W2 b2)) _ _ q).trans ?_
  exact Finset.sum_congr rfl fun y _ => mulf_apply _ _ _

/-- The composed forms: the carried sums receive the block's column sums of the second linear map and of its square. -/
theorem pay2_z2blk (e : Vec Ideal S1x64 .f32) (x a : Vec Ideal S4096x64 .f32) (W1 : Vec Ideal S64x128 .f32)
    (b1 m1 v1 g1 be1 : Vec Ideal S1x128 .f32) (W2 : Vec Ideal S128x64 .f32) (b2 : Vec Ideal S1x64 .f32)
    (s : Vec Ideal S1x64 .f32) (p : Fin 1) (q : Fin 64) :
    k2_pay2 (k2_pay8 e x a W1 b1 m1 v1) (k2_pay9 g1) be1 W2 b2 s (ix2 p q)
      = s (ix2 p q) + ∑ y : Fin 4096, z2blk e x a W1 b1 m1 v1 g1 be1 W2 b2 y q := by
  rw [pay2_2_apply]
  exact congrArg (s (ix2 p q) + ·) (Finset.sum_congr rfl fun y _ => pay1_8_9_2_apply e x a W1 b1 m1 v1 g1 be1 W2 b2 y q)

theorem pay3_z2blk (e : Vec Ideal S1x64 .f32) (x a : Vec Ideal S4096x64 .f32) (W1 : Vec Ideal S64x128 .f32)
    (b1 m1 v1 g1 be1 : Vec Ideal S1x128 .f32) (W2 : Vec Ideal S128x64 .f32) (b2 : Vec Ideal S1x64 .f32)
    (s : Vec Ideal S1x64 .f32) (p : Fin 1) (q : Fin 64) :
    k2_pay3 (k2_pay8 e x a W1 b1 m1 v1) (k2_pay9 g1) be1 W2 b2 s (ix2 p q)
      = s (ix2 p q) + ∑ y : Fin 4096,
          z2blk e x a W1 b1 m1 v1 g1 be1 W2 b2 y q * z2blk e x a W1 b1 m1 v1 g1 be1 W2 b2 y q := by
  rw [pay3_2_apply]
  exact congrArg (s (ix2 p q) + ·) (Finset.sum_congr rfl fun y _ => by
    rw [pay1_8_9_2_apply e x a W1 b1 m1 v1 g1 be1 W2 b2 y q])

/-- The last block's first store: the sum times 2⁻¹⁶. -/
theorem pay4_2_apply (s : Vec Ideal S1x64 .f32) (p : Fin 1) (q : Fin 64) :
    k2_pay4 s (ix2 p q) = s (ix2 p q) * Ideal.ofBits .f32 Spec.wInvN := by
  unfold k2_pay4
  simp only [mulf_apply, broadcast_apply]
  rfl

/-- The last block's second store: the sum of squares times 2⁻¹⁶, minus the square of the first store. -/
theorem pay5_2_apply (s qq : Vec Ideal S1x64 .f32) (p : Fin 1) (q : Fin 64) :
    k2_pay5 s qq (ix2 p q)
      = qq (ix2 p q) * Ideal.ofBits .f32 Spec.wInvN - k2_pay4 s (ix2 p q) * k2_pay4 s (ix2 p q) := by
  unfold k2_pay5
  simp only [mulf_apply, subf_apply, broadcast_apply]
  rfl

/-- The same with the first store spelt out. -/
theorem pay5_2_apply' (s qq : Vec Ideal S1x64 .f32) (p : Fin 1) (q : Fin 64) :
    k2_pay5 s qq (ix2 p q)
      = qq (ix2 p q) * Ideal.ofBits .f32 Spec.wInvN
        - (s (ix2 p q) * Ideal.ofBits .f32 Spec.wInvN) * (s (ix2 p q) * Ideal.ofBits .f32 Spec.wInvN) := by
  rw [pay5_2_apply, pay4_2_apply]

end Cert.KernelIdeal.Val

end
-- ==== Proof.KI.Val2.lean ====
import proofs.«159011_j9938554322955_1_alg».proof.Proof.KI.Reg2
import proofs.«159011_j9938554322955_1_alg».proof.Proof.KI.Pay2
import proofs.«159011_j9938554322955_1_alg».proof.Proof.Math.Real
import proofs.«159011_j9938554322955_1_alg».proof.Proof.LibStats

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Lib (IsReal)
open scoped BigOperators

/-! # The second statistics kernel of a layer, on the extended reals

The region's two output arrays are the mean and the variance, over all 65536 nodes, of the layer's second linear map
Z2 — the first linear map normalised by the mean and variance the region is ENTERED with, clipped at zero, mapped to 64
features. The running sums after sixteen points are the sums over the sixteen blocks of the blocks' column sums; a block's
row y at point t is row 4096 t + y of the whole arrays; and S * 2^(-16), Q * 2^(-16) - (S * 2^(-16))^2 are the mean and,
on real data, the variance. -/

variable (V : (c : Dev nD) → (b : Ref sig .tc) → Buf (Elt Ideal) ((c : Thread nD τ).loc b))

/-- The layer's second linear map from the arrays the region is entered with. -/
noncomputable def Z2_2 (c : Dev nD) : Fin 65536 → Fin 64 → EReal :=
  Spec.z2 (Spec.relu (Spec.norm (Spec.z1 (Spec.cur2 (V c main_v41 : Vec Ideal S1x64 .f32)) (Spec.cur2 (V c main_v5 : Vec Ideal S65536x64 .f32)) (Spec.cur2 (V c main_v15 : Vec Ideal S65536x64 .f32)) (Spec.cur2 (V c main_v29 : Vec Ideal S64x128 .f32)) (Spec.cur2 (V c main_v42 : Vec Ideal S1x128 .f32)))
    (Spec.cur2 (V c main_v25_0 : Vec Ideal S1x128 .f32)) (Spec.cur2 (V c main_v25_1 : Vec Ideal S1x128 .f32)) (Spec.cur2 (V c main_v43 : Vec Ideal S1x128 .f32)) (Spec.cur2 (V c main_v44 : Vec Ideal S1x128 .f32)))) (Spec.cur2 (V c main_v37 : Vec Ideal S128x64 .f32)) (Spec.cur2 (V c main_v45 : Vec Ideal S1x64 .f32))

/-! ## The windows' index maps, decided over the grid -/

theorem idx2_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx2_1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)
theorem idx2_2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx2_3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idx2_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx2_5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem idx2_6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
theorem idx2_7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)
theorem idx2_8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)
theorem idx2_9 : ∀ t : Fin cfg2.N, win2_9.index t (0 : Fin 2) = 0 ∧ win2_9.index t (1 : Fin 2) = 0 :=
  (by decide +kernel : ∀ t : Fin grid2.N, win2_9.index t (0 : Fin 2) = 0 ∧ win2_9.index t (1 : Fin 2) = 0)
theorem idx2_10 : ∀ t : Fin cfg2.N, win2_10.index t (0 : Fin 2) = 0 ∧ win2_10.index t (1 : Fin 2) = 0 :=
  (by decide +kernel : ∀ t : Fin grid2.N, win2_10.index t (0 : Fin 2) = 0 ∧ win2_10.index t (1 : Fin 2) = 0)

/-! ## The blocks read off the arrays -/

/-- Row y of window 0's block at point t is row 4096 t + y of its array. -/
theorem blk2_0 (c : Dev nD) (t : Fin cfg2.N) (y : Fin 4096) (r : Fin 65536) (hr : r.val = 4096 * t.val + y.val) (k : Fin 64) :
    (iblk2 V c 0 t : Vec Ideal S4096x64 .f32) (ix2 y k) = Spec.cur2 (V c main_v5 : Vec Ideal S65536x64 .f32) r k := by
  obtain ⟨e0, e1⟩ := idx2_0 t
  show V c main_v5 (((cfg2.win 0).blk t).view.emb (ix2 y k)) = V c main_v5 (ix2 r k)
  refine congrArg _ ?_
  funext a; apply Fin.ext
  match a with
  | ⟨0, _⟩ => show win2_0.index t (0 : Fin 2) * 4096 + 1 * y.val = r.val; rw [e0, hr]; omega
  | ⟨1, _⟩ => show win2_0.index t (1 : Fin 2) * 64 + 1 * k.val = k.val; rw [e1]; omega
/-- Row y of window 1's block at point t is row 4096 t + y of its array. -/
theorem blk2_1 (c : Dev nD) (t : Fin cfg2.N) (y : Fin 4096) (r : Fin 65536) (hr : r.val = 4096 * t.val + y.val) (k : Fin 64) :
    (iblk2 V c 1 t : Vec Ideal S4096x64 .f32) (ix2 y k) = Spec.cur2 (V c main_v15 : Vec Ideal S65536x64 .f32) r k := by
  obtain ⟨e0, e1⟩ := idx2_1 t
  show V c main_v15 (((cfg2.win 1).blk t).view.emb (ix2 y k)) = V c main_v15 (ix2 r k)
  refine congrArg _ ?_
  funext a; apply Fin.ext
  match a with
  | ⟨0, _⟩ => show win2_1.index t (0 : Fin 2) * 4096 + 1 * y.val = r.val; rw [e0, hr]; omega
  | ⟨1, _⟩ => show win2_1.index t (1 : Fin 2) * 64 + 1 * k.val = k.val; rw [e1]; omega
/-- Window 2's block is its whole array at every point. -/
theorem blk2_2 (c : Dev nD) (t : Fin cfg2.N) : (iblk2 V c 2 t : Vec Ideal S1x64 .f32) = (V c main_v41 : Vec Ideal S1x64 .f32) := by
  obtain ⟨e0, e1⟩ := idx2_2 t
  funext j
  show V c main_v41 (((cfg2.win 2).blk t).view.emb j) = V c main_v41 j
  refine congrArg _ ?_
  funext a; apply Fin.ext
  match a with
  | ⟨0, _⟩ => show win2_2.index t (0 : Fin 2) * 1 + 1 * (j 0).val = (j 0).val; rw [e0]; omega
  | ⟨1, _⟩ => show win2_2.index t (1 : Fin 2) * 64 + 1 * (j 1).val = (j 1).val; rw [e1]; omega
/-- Window 3's block is its whole array at every point. -/
theorem blk2_3 (c : Dev nD) (t : Fin cfg2.N) : (iblk2 V c 3 t : Vec Ideal S64x128 .f32) = (V c main_v29 : Vec Ideal S64x128 .f32) := by
  obtain ⟨e0, e1⟩ := idx2_3 t
  funext j
  show V c main_v29 (((cfg2.win 3).blk t).view.emb j) = V c main_v29 j
  refine congrArg _ ?_
  funext a; apply Fin.ext
  match a with
  | ⟨0, _⟩ => show win2_3.index t (0 : Fin 2) * 64 + 1 * (j 0).val = (j 0).val; rw [e0]; omega
  | ⟨1, _⟩ => show win2_3.index t (1 : Fin 2) * 128 + 1 * (j 1).val = (j 1).val; rw [e1]; omega
/-- Window 4's block is its whole array at every point. -/
theorem blk2_4 (c : Dev nD) (t : Fin cfg2.N) : (iblk2 V c 4 t : Vec Ideal S1x128 .f32) = (V c main_v42 : Vec Ideal S1x128 .f32) := by
  obtain ⟨e0, e1⟩ := idx2_4 t
  funext j
  show V c main_v42 (((cfg2.win 4).blk t).view.emb j) = V c main_v42 j
  refine congrArg _ ?_
  funext a; apply Fin.ext
  match a with
  | ⟨0, _⟩ => show win2_4.index t (0 : Fin 2) * 1 + 1 * (j 0).val = (j 0).val; rw [e0]; omega
  | ⟨1, _⟩ => show win2_4.index t (1 : Fin 2) * 128 + 1 * (j 1).val = (j 1).val; rw [e1]; omega
/-- Window 5's block is its whole array at every point. -/
theorem blk2_5 (c : Dev nD) (t : Fin cfg2.N) : (iblk2 V c 5 t : Vec Ideal S1x128 .f32) = (V c main_v25_0 : Vec Ideal S1x128 .f32) := by
  obtain ⟨e0, e1⟩ := idx2_5 t
  funext j
  show V c main_v25_0 (((cfg2.win 5).blk t).view.emb j) = V c main_v25_0 j
  refine congrArg _ ?_
  funext a; apply Fin.ext
  match a with
  | ⟨0, _⟩ => show win2_5.index t (0 : Fin 2) * 1 + 1 * (j 0).val = (j 0).val; rw [e0]; omega
  | ⟨1, _⟩ => show win2_5.index t (1 : Fin 2) * 128 + 1 * (j 1).val = (j 1).val; rw [e1]; omega
/-- Window 6's block is its whole array at every point. -/
theorem blk2_6 (c : Dev nD) (t : Fin cfg2.N) : (iblk2 V c 6 t : Vec Ideal S1x128 .f32) = (V c main_v25_1 : Vec Ideal S1x128 .f32) := by
  obtain ⟨e0, e1⟩ := idx2_6 t
  funext j
  show V c main_v25_1 (((cfg2.win 6).blk t).view.emb j) = V c main_v25_1 j
  refine congrArg _ ?_
  funext a; apply Fin.ext
  match a with
  | ⟨0, _⟩ => show win2_6.index t (0 : Fin 2) * 1 + 1 * (j 0).val = (j 0).val; rw [e0]; omega
  | ⟨1, _⟩ => show win2_6.index t (1 : Fin 2) * 128 + 1 * (j 1).val = (j 1).val; rw [e1]; omega
/-- Window 7's block is its whole array at every point. -/
theorem blk2_7 (c : Dev nD) (t : Fin cfg2.N) : (iblk2 V c 7 t : Vec Ideal S1x128 .f32) = (V c main_v43 : Vec Ideal S1x128 .f32) := by
  obtain ⟨e0, e1⟩ := idx2_7 t
  funext j
  show V c main_v43 (((cfg2.win 7).blk t).view.emb j) = V c main_v43 j
  refine congrArg _ ?_
  funext a; apply Fin.ext
  match a with
  | ⟨0, _⟩ => show win2_7.index t (0 : Fin 2) * 1 + 1 * (j 0).val = (j 0).val; rw [e0]; omega
  | ⟨1, _⟩ => show win2_7.index t (1 : Fin 2) * 128 + 1 * (j 1).val = (j 1).val; rw [e1]; omega
/-- Window 8's block is its whole array at every point. -/
theorem blk2_8 (c : Dev nD) (t : Fin cfg2.N) : (iblk2 V c 8 t : Vec Ideal S1x128 .f32) = (V c main_v44 : Vec Ideal S1x128 .f32) := by
  obtain ⟨e0, e1⟩ := idx2_8 t
  funext j
  show V c main_v44 (((cfg2.win 8).blk t).view.emb j) = V c main_v44 j
  refine congrArg _ ?_
  funext a; apply Fin.ext
  match a with
  | ⟨0, _⟩ => show win2_8.index t (0 : Fin 2) * 1 + 1 * (j 0).val = (j 0).val; rw [e0]; omega
  | ⟨1, _⟩ => show win2_8.index t (1 : Fin 2) * 128 + 1 * (j 1).val = (j 1).val; rw [e1]; omega
/-- Window 9's block is its whole array at every point. -/
theorem blk2_9 (c : Dev nD) (t : Fin cfg2.N) : (iblk2 V c 9 t : Vec Ideal S128x64 .f32) = (V c main_v37 : Vec Ideal S128x64 .f32) := by
  obtain ⟨e0, e1⟩ := idx2_9 t
  funext j
  show V c main_v37 (((cfg2.win 9).blk t).view.emb j) = V c main_v37 j
  refine congrArg _ ?_
  funext a; apply Fin.ext
  match a with
  | ⟨0, _⟩ => show win2_9.index t (0 : Fin 2) * 128 + 1 * (j 0).val = (j 0).val; rw [e0]; omega
  | ⟨1, _⟩ => show win2_9.index t (1 : Fin 2) * 64 + 1 * (j 1).val = (j 1).val; rw [e1]; omega
/-- Window 10's block is its whole array at every point. -/
theorem blk2_10 (c : Dev nD) (t : Fin cfg2.N) : (iblk2 V c 10 t : Vec Ideal S1x64 .f32) = (V c main_v45 : Vec Ideal S1x64 .f32) := by
  obtain ⟨e0, e1⟩ := idx2_10 t
  funext j
  show V c main_v45 (((cfg2.win 10).blk t).view.emb j) = V c main_v45 j
  refine congrArg _ ?_
  funext a; apply Fin.ext
  match a with
  | ⟨0, _⟩ => show win2_10.index t (0 : Fin 2) * 1 + 1 * (j 0).val = (j 0).val; rw [e0]; omega
  | ⟨1, _⟩ => show win2_10.index t (1 : Fin 2) * 64 + 1 * (j 1).val = (j 1).val; rw [e1]; omega

/-! ## The blocks' column sums, and the running sums as sums over the points -/

/-- Block s's column sum of the second linear map at feature q (zero past the grid). -/
noncomputable def B2 (c : Dev nD) (q : Fin 64) (s : ℕ) : EReal :=
  if h : s < cfg2.N then ∑ y : Fin 4096, z2blk (iblk2 V c 2 ⟨s, h⟩) (iblk2 V c 0 ⟨s, h⟩) (iblk2 V c 1 ⟨s, h⟩) (iblk2 V c 3 ⟨s, h⟩) (iblk2 V c 4 ⟨s, h⟩) (iblk2 V c 5 ⟨s, h⟩) (iblk2 V c 6 ⟨s, h⟩) (iblk2 V c 7 ⟨s, h⟩) (iblk2 V c 8 ⟨s, h⟩) (iblk2 V c 9 ⟨s, h⟩) (iblk2 V c 10 ⟨s, h⟩) y q else 0
/-- Block s's column sum of its square. -/
noncomputable def C2 (c : Dev nD) (q : Fin 64) (s : ℕ) : EReal :=
  if h : s < cfg2.N then ∑ y : Fin 4096, z2blk (iblk2 V c 2 ⟨s, h⟩) (iblk2 V c 0 ⟨s, h⟩) (iblk2 V c 1 ⟨s, h⟩) (iblk2 V c 3 ⟨s, h⟩) (iblk2 V c 4 ⟨s, h⟩) (iblk2 V c 5 ⟨s, h⟩) (iblk2 V c 6 ⟨s, h⟩) (iblk2 V c 7 ⟨s, h⟩) (iblk2 V c 8 ⟨s, h⟩) (iblk2 V c 9 ⟨s, h⟩) (iblk2 V c 10 ⟨s, h⟩) y q * z2blk (iblk2 V c 2 ⟨s, h⟩) (iblk2 V c 0 ⟨s, h⟩) (iblk2 V c 1 ⟨s, h⟩) (iblk2 V c 3 ⟨s, h⟩) (iblk2 V c 4 ⟨s, h⟩) (iblk2 V c 5 ⟨s, h⟩) (iblk2 V c 6 ⟨s, h⟩) (iblk2 V c 7 ⟨s, h⟩) (iblk2 V c 8 ⟨s, h⟩) (iblk2 V c 9 ⟨s, h⟩) (iblk2 V c 10 ⟨s, h⟩) y q else 0

/-- After position n the two running sums are the sums of the first n + 1 blocks' column sums. -/
theorem sums2_apply (c : Dev nD) (q : Fin 64) : ∀ (n : ℕ) (h : n < cfg2.N),
    (sums2 V c n h).1 (ix2 0 q) = ∑ s ∈ Finset.range (n + 1), B2 V c q s
    ∧ (sums2 V c n h).2 (ix2 0 q) = ∑ s ∈ Finset.range (n + 1), C2 V c q s
  | 0, h => by
    have hB : B2 V c q 0 = ∑ y : Fin 4096, z2blk (iblk2 V c 2 ⟨0, h⟩) (iblk2 V c 0 ⟨0, h⟩) (iblk2 V c 1 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩) (iblk2 V c 9 ⟨0, h⟩) (iblk2 V c 10 ⟨0, h⟩) y q := dif_pos h
    have hC : C2 V c q 0 = ∑ y : Fin 4096, z2blk (iblk2 V c 2 ⟨0, h⟩) (iblk2 V c 0 ⟨0, h⟩) (iblk2 V c 1 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩) (iblk2 V c 9 ⟨0, h⟩) (iblk2 V c 10 ⟨0, h⟩) y q * z2blk (iblk2 V c 2 ⟨0, h⟩) (iblk2 V c 0 ⟨0, h⟩) (iblk2 V c 1 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩) (iblk2 V c 9 ⟨0, h⟩) (iblk2 V c 10 ⟨0, h⟩) y q := dif_pos h
    constructor
    · refine (pay2_z2blk (iblk2 V c 2 ⟨0, h⟩) (iblk2 V c 0 ⟨0, h⟩) (iblk2 V c 1 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩) (iblk2 V c 9 ⟨0, h⟩) (iblk2 V c 10 ⟨0, h⟩) (k2_pay6 (F := Ideal)) 0 q).trans ?_
      rw [pay6_2_apply, zero_add, Finset.sum_range_one, hB]
    · refine (pay3_z2blk (iblk2 V c 2 ⟨0, h⟩) (iblk2 V c 0 ⟨0, h⟩) (iblk2 V c 1 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩) (iblk2 V c 9 ⟨0, h⟩) (iblk2 V c 10 ⟨0, h⟩) (k2_pay7 (F := Ideal)) 0 q).trans ?_
      rw [pay7_2_apply, zero_add, Finset.sum_range_one, hC]
  | n + 1, h => by
    obtain ⟨ih1, ih2⟩ := sums2_apply c q n (Nat.lt_of_succ_lt h)
    have hB : B2 V c q (n + 1) = ∑ y : Fin 4096, z2blk (iblk2 V c 2 ⟨n + 1, h⟩) (iblk2 V c 0 ⟨n + 1, h⟩) (iblk2 V c 1 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) y q := dif_pos h
    have hC : C2 V c q (n + 1) = ∑ y : Fin 4096, z2blk (iblk2 V c 2 ⟨n + 1, h⟩) (iblk2 V c 0 ⟨n + 1, h⟩) (iblk2 V c 1 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) y q * z2blk (iblk2 V c 2 ⟨n + 1, h⟩) (iblk2 V c 0 ⟨n + 1, h⟩) (iblk2 V c 1 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) y q := dif_pos h
    constructor
    · refine (pay2_z2blk (iblk2 V c 2 ⟨n + 1, h⟩) (iblk2 V c 0 ⟨n + 1, h⟩) (iblk2 V c 1 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (sums2 V c n (Nat.lt_of_succ_lt h)).1 0 q).trans ?_
      rw [ih1, Finset.sum_range_succ _ (n + 1), hB]
    · refine (pay3_z2blk (iblk2 V c 2 ⟨n + 1, h⟩) (iblk2 V c 0 ⟨n + 1, h⟩) (iblk2 V c 1 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (sums2 V c n (Nat.lt_of_succ_lt h)).2 0 q).trans ?_
      rw [ih2, Finset.sum_range_succ _ (n + 1), hC]

/-- A block's second linear map at row y is the whole one at row 4096 t + y. -/
theorem z2blk2_eq (c : Dev nD) (t : ℕ) (ht : t < 16) (y : Fin 4096) (q : Fin 64) :
    z2blk (iblk2 V c 2 ⟨t, lt_of_lt_of_eq ht (show 16 = cfg2.N from N_2.symm)⟩) (iblk2 V c 0 ⟨t, lt_of_lt_of_eq ht (show 16 = cfg2.N from N_2.symm)⟩) (iblk2 V c 1 ⟨t, lt_of_lt_of_eq ht (show 16 = cfg2.N from N_2.symm)⟩) (iblk2 V c 3 ⟨t, lt_of_lt_of_eq ht (show 16 = cfg2.N from N_2.symm)⟩) (iblk2 V c 4 ⟨t, lt_of_lt_of_eq ht (show 16 = cfg2.N from N_2.symm)⟩) (iblk2 V c 5 ⟨t, lt_of_lt_of_eq ht (show 16 = cfg2.N from N_2.symm)⟩) (iblk2 V c 6 ⟨t, lt_of_lt_of_eq ht (show 16 = cfg2.N from N_2.symm)⟩) (iblk2 V c 7 ⟨t, lt_of_lt_of_eq ht (show 16 = cfg2.N from N_2.symm)⟩) (iblk2 V c 8 ⟨t, lt_of_lt_of_eq ht (show 16 = cfg2.N from N_2.symm)⟩) (iblk2 V c 9 ⟨t, lt_of_lt_of_eq ht (show 16 = cfg2.N from N_2.symm)⟩) (iblk2 V c 10 ⟨t, lt_of_lt_of_eq ht (show 16 = cfg2.N from N_2.symm)⟩) y q = Z2_2 V c ⟨4096 * t + y.val, by omega⟩ q := by
  rw [blk2_2 V c, blk2_3 V c, blk2_4 V c, blk2_5 V c, blk2_6 V c, blk2_7 V c, blk2_8 V c, blk2_9 V c, blk2_10 V c]
  exact z2blk_eq_z2 _ _ _ _ _ _ _ _ _ _ _ _ _ y ⟨4096 * t + y.val, by omega⟩
    (fun k => blk2_0 V c _ y _ rfl k) (fun k => blk2_1 V c _ y _ rfl k) q

theorem hB2 (c : Dev nD) (q : Fin 64) (t : ℕ) (ht : t < 16) :
    B2 V c q t = ∑ y : Fin 4096, Z2_2 V c ⟨4096 * t + y.val, by omega⟩ q := by
  unfold B2
  rw [dif_pos (lt_of_lt_of_eq ht (show 16 = cfg2.N from N_2.symm))]
  exact Finset.sum_congr rfl fun y _ => z2blk2_eq V c t ht y q

theorem hC2 (c : Dev nD) (q : Fin 64) (t : ℕ) (ht : t < 16) :
    C2 V c q t = ∑ y : Fin 4096, Z2_2 V c ⟨4096 * t + y.val, by omega⟩ q * Z2_2 V c ⟨4096 * t + y.val, by omega⟩ q := by
  unfold C2
  rw [dif_pos (lt_of_lt_of_eq ht (show 16 = cfg2.N from N_2.symm))]
  exact Finset.sum_congr rfl fun y _ => by rw [z2blk2_eq V c t ht y q]

/-! ## The two output arrays -/

/-- The region's first output array is the mean of the second linear map over all nodes. -/
theorem val2_11 (c : Dev nD) :
    Spec.cur2 (n0 := 1) (n1 := 64) ((dat2 V c).arrAt ⟨11, Nat.le_of_ble_eq_true rfl⟩ cfg2.N) = Spec.mean (Z2_2 V c) := by
  funext p q
  obtain rfl : p = 0 := Subsingleton.elim _ _
  rw [final2_11]
  show k2_pay4 (total2 V c).1 (ix2 0 q) = _
  rw [pay4_2_apply, (sums2_apply V c q 15 _).1]
  exact Spec.mean_kernel_form_range (Z2_2 V c) q (B2 V c q) (hB2 V c q)

/-- On real data its second output array is the variance. -/
theorem val2_12 (c : Dev nD) (hz : ∀ r j, IsReal (Z2_2 V c r j)) :
    Spec.cur2 (n0 := 1) (n1 := 64) ((dat2 V c).arrAt ⟨12, Nat.le_of_ble_eq_true rfl⟩ cfg2.N) = Spec.var (Z2_2 V c) := by
  funext p q
  obtain rfl : p = 0 := Subsingleton.elim _ _
  rw [final2_12]
  show k2_pay5 (total2 V c).1 (total2 V c).2 (ix2 0 q) = _
  rw [pay5_2_apply', (sums2_apply V c q 15 _).1, (sums2_apply V c q 15 _).2]
  exact Spec.var_kernel_form_range (Z2_2 V c) hz q (B2 V c q) (C2 V c q) (hB2 V c q) (hC2 V c q)

/-- The second linear map is real when the arrays the region is entered with are, the entry variance being a nonnegative real. -/
theorem isReal_Z2_2 (c : Dev nD)
    (he : ∀ i k, IsReal (Spec.cur2 (V c main_v41 : Vec Ideal S1x64 .f32) i k)) (hx : ∀ r k, IsReal (Spec.cur2 (V c main_v5 : Vec Ideal S65536x64 .f32) r k)) (hagg : ∀ r k, IsReal (Spec.cur2 (V c main_v15 : Vec Ideal S65536x64 .f32) r k))
    (hW1 : ∀ k j, IsReal (Spec.cur2 (V c main_v29 : Vec Ideal S64x128 .f32) k j)) (hb1 : ∀ i j, IsReal (Spec.cur2 (V c main_v42 : Vec Ideal S1x128 .f32) i j))
    (hm1 : ∀ i j, IsReal (Spec.cur2 (V c main_v25_0 : Vec Ideal S1x128 .f32) i j)) (hv1 : ∀ i j, ∃ r : ℝ, 0 ≤ r ∧ Spec.cur2 (V c main_v25_1 : Vec Ideal S1x128 .f32) i j = (r : EReal))
    (hg1 : ∀ i j, IsReal (Spec.cur2 (V c main_v43 : Vec Ideal S1x128 .f32) i j)) (hbe1 : ∀ i j, IsReal (Spec.cur2 (V c main_v44 : Vec Ideal S1x128 .f32) i j))
    (hW2 : ∀ k j, IsReal (Spec.cur2 (V c main_v37 : Vec Ideal S128x64 .f32) k j)) (hb2 : ∀ i j, IsReal (Spec.cur2 (V c main_v45 : Vec Ideal S1x64 .f32) i j)) :
    ∀ r j, IsReal (Z2_2 V c r j) :=
  Spec.isReal_z2 (Spec.isReal_relu (Spec.isReal_norm_of (Spec.isReal_z1 he hx hagg hW1 hb1) hm1 hv1 hg1 hbe1)) hW2 hb2

/-- Both outputs at once, from the realness of the entry arrays. -/
theorem val2 (c : Dev nD)
    (he : ∀ i k, IsReal (Spec.cur2 (V c main_v41 : Vec Ideal S1x64 .f32) i k)) (hx : ∀ r k, IsReal (Spec.cur2 (V c main_v5 : Vec Ideal S65536x64 .f32) r k)) (hagg : ∀ r k, IsReal (Spec.cur2 (V c main_v15 : Vec Ideal S65536x64 .f32) r k))
    (hW1 : ∀ k j, IsReal (Spec.cur2 (V c main_v29 : Vec Ideal S64x128 .f32) k j)) (hb1 : ∀ i j, IsReal (Spec.cur2 (V c main_v42 : Vec Ideal S1x128 .f32) i j))
    (hm1 : ∀ i j, IsReal (Spec.cur2 (V c main_v25_0 : Vec Ideal S1x128 .f32) i j)) (hv1 : ∀ i j, ∃ r : ℝ, 0 ≤ r ∧ Spec.cur2 (V c main_v25_1 : Vec Ideal S1x128 .f32) i j = (r : EReal))
    (hg1 : ∀ i j, IsReal (Spec.cur2 (V c main_v43 : Vec Ideal S1x128 .f32) i j)) (hbe1 : ∀ i j, IsReal (Spec.cur2 (V c main_v44 : Vec Ideal S1x128 .f32) i j))
    (hW2 : ∀ k j, IsReal (Spec.cur2 (V c main_v37 : Vec Ideal S128x64 .f32) k j)) (hb2 : ∀ i j, IsReal (Spec.cur2 (V c main_v45 : Vec Ideal S1x64 .f32) i j)) :
    Spec.cur2 (n0 := 1) (n1 := 64) ((dat2 V c).arrAt ⟨11, Nat.le_of_ble_eq_true rfl⟩ cfg2.N) = Spec.mean (Z2_2 V c)
    ∧ Spec.cur2 (n0 := 1) (n1 := 64) ((dat2 V c).arrAt ⟨12, Nat.le_of_ble_eq_true rfl⟩ cfg2.N) = Spec.var (Z2_2 V c) :=
  ⟨val2_11 V c, val2_12 V c (isReal_Z2_2 V c he hx hagg hW1 hb1 hm1 hv1 hg1 hbe1 hW2 hb2)⟩

end Cert.KernelIdeal.Val

end
-- ==== Proof.KI.Val3.lean ====
/- What a region that finishes a layer leaves in its output array, at the extended reals: the second half of a layer as the
   specification states it, as a function of the arrays the region finds. The body's two matrix products are sums
   over the shared coordinate, its two casts to a shorter format are the identity, and every other step acts entry
   by entry; a block's row q at point t is row 4096·t + q of the array, and a one-row array is read whole at every
   point. No entry needs to be finite: the two sides are the same arrangement of the same operations. -/
import proofs.«159011_j9938554322955_1_alg».proof.Proof.KI.Reg3
import proofs.«159011_j9938554322955_1_alg».proof.Proof.Math.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ## The body's operations read at an index -/

/-- A product of a 4096 by 64 block with a 64 by 128 matrix into a zero accumulator, read at (q, j): the sum over the
    64 shared coordinates. -/
theorem mmA3_apply {φ₁ φ₂ : FTy} (lhs : FVec Ideal S4096x64 φ₁) (rhs : FVec Ideal S64x128 φ₂) (q : Fin 4096) (j : Fin 128) :
    matmul dot_S4096x64_S64x128_S4096x128_1_0_0_1_n_n none lhs rhs (constant S4096x128 .f32 0x00000000#32) (ix2 q j)
      = ∑ i : Fin 64, lhs (ix2 q i) * rhs (ix2 i j) := by
  refine (Ideal.matmul_constant_zero_apply dot_S4096x64_S64x128_S4096x128_1_0_0_1_n_n none lhs rhs (ix2 q j)).trans ?_
  rw [← Equiv.sum_comp (contrEquiv1 dot_S4096x64_S64x128_S4096x128_1_0_0_1_n_n 64 rfl rfl).symm]
  refine Finset.sum_congr rfl fun i _ => ?_
  have hl : dot_S4096x64_S64x128_S4096x128_1_0_0_1_n_n.lhsIdx (ix2 q j) ((contrEquiv1 dot_S4096x64_S64x128_S4096x128_1_0_0_1_n_n 64 rfl rfl).symm i) = ix2 q i := by
    funext a; apply Fin.ext
    match a with
    | ⟨0, _⟩ => rfl
    | ⟨1, _⟩ => exact (DotDims.lhsIdx_val_of_single _ rfl _ _).trans (contrEquiv1_symm_val _ 64 rfl rfl i)
  have hr : dot_S4096x64_S64x128_S4096x128_1_0_0_1_n_n.rhsIdx (ix2 q j) ((contrEquiv1 dot_S4096x64_S64x128_S4096x128_1_0_0_1_n_n 64 rfl rfl).symm i) = ix2 i j := by
    funext a; apply Fin.ext
    match a with
    | ⟨0, _⟩ => exact (DotDims.rhsIdx_val_of_single _ rfl _ _).trans (contrEquiv1_symm_val _ 64 rfl rfl i)
    | ⟨1, _⟩ => rfl
  rw [hl, hr]

/-- A product of a 4096 by 128 block with a 128 by 64 matrix into a zero accumulator, read at (q, j): the sum over the
    128 shared coordinates. -/
theorem mmB3_apply {φ₁ φ₂ : FTy} (lhs : FVec Ideal S4096x128 φ₁) (rhs : FVec Ideal S128x64 φ₂) (q : Fin 4096) (j : Fin 64) :
    matmul dot_S4096x128_S128x64_S4096x64_1_0_0_1_n_n none lhs rhs (constant S4096x64 .f32 0x00000000#32) (ix2 q j)
      = ∑ i : Fin 128, lhs (ix2 q i) * rhs (ix2 i j) := by
  refine (Ideal.matmul_constant_zero_apply dot_S4096x128_S128x64_S4096x64_1_0_0_1_n_n none lhs rhs (ix2 q j)).trans ?_
  rw [← Equiv.sum_comp (contrEquiv1 dot_S4096x128_S128x64_S4096x64_1_0_0_1_n_n 128 rfl rfl).symm]
  refine Finset.sum_congr rfl fun i _ => ?_
  have hl : dot_S4096x128_S128x64_S4096x64_1_0_0_1_n_n.lhsIdx (ix2 q j) ((contrEquiv1 dot_S4096x128_S128x64_S4096x64_1_0_0_1_n_n 128 rfl rfl).symm i) = ix2 q i := by
    funext a; apply Fin.ext
    match a with
    | ⟨0, _⟩ => rfl
    | ⟨1, _⟩ => exact (DotDims.lhsIdx_val_of_single _ rfl _ _).trans (contrEquiv1_symm_val _ 128 rfl rfl i)
  have hr : dot_S4096x128_S128x64_S4096x64_1_0_0_1_n_n.rhsIdx (ix2 q j) ((contrEquiv1 dot_S4096x128_S128x64_S4096x64_1_0_0_1_n_n 128 rfl rfl).symm i) = ix2 i j := by
    funext a; apply Fin.ext
    match a with
    | ⟨0, _⟩ => exact (DotDims.rhsIdx_val_of_single _ rfl _ _).trans (contrEquiv1_symm_val _ 128 rfl rfl i)
    | ⟨1, _⟩ => rfl
  rw [hl, hr]

/-- One row of 64 laid along each of 4096 rows, read at (q, k), is the row at k. -/
theorem bcastA3_apply (x : S1x64.Idx → EReal) (h : S1x64.Broadcasts S4096x64) (q : Fin 4096) (k : Fin 64) :
    broadcastTo S4096x64 x h (ix2 q k) = x (ix2 0 k) :=
  broadcastTo_apply x h (ix2 q k) (ix2 0 k) fun a => by
    match a with
    | ⟨0, _⟩ => rfl
    | ⟨1, _⟩ => rfl

/-- One row of 128 laid along each of 4096 rows, read at (q, j), is the row at j. -/
theorem bcastB3_apply (x : S1x128.Idx → EReal) (h : S1x128.Broadcasts S4096x128) (q : Fin 4096) (j : Fin 128) :
    broadcastTo S4096x128 x h (ix2 q j) = x (ix2 0 j) :=
  broadcastTo_apply x h (ix2 q j) (ix2 0 j) fun a => by
    match a with
    | ⟨0, _⟩ => rfl
    | ⟨1, _⟩ => rfl

/-- A reciprocal square root at an index is that of the element. -/
theorem rsqrt3_apply {s : Shape} {φ : FTy} (a : FVec Ideal s φ) (i : s.Idx) : rsqrt a i = Ideal.rsqrt (a i) := rfl

/-- The first normalisation's scaled factor at row q of a block, feature j: the combined features against column j
    of the first matrix, plus the bias, less the mean, times the reciprocal root of the offset variance, times the gain. -/
theorem k3_pay2_apply (X_2 : Vec Ideal S1x64 .f32) (X_0 X_1 : Vec Ideal S4096x64 .f32) (X_3 : Vec Ideal S64x128 .f32)
    (X_4 X_5 X_6 X_7 : Vec Ideal S1x128 .f32) (q : Fin 4096) (j : Fin 128) :
    k3_pay2 X_2 X_0 X_1 X_3 X_4 X_5 X_6 X_7 (ix2 q j)
      = ((∑ i : Fin 64, ((Spec.cOne + X_2 (ix2 0 i)) * X_0 (ix2 q i) + X_1 (ix2 q i)) * X_3 (ix2 i j)) + X_4 (ix2 0 j) - X_5 (ix2 0 j))
          * Ideal.rsqrt (X_6 (ix2 0 j) + Spec.cEps) * X_7 (ix2 0 j) := by
  unfold k3_pay2
  simp only [shapeCast_self, mulf_apply, addf_apply, subf_apply, truncf_apply, broadcast_apply, rsqrt3_apply,
    bcastB3_apply, bcastA3_apply, mmA3_apply]
  rfl

/-- The first normalisation's offset at any row of a block, feature j. -/
theorem k3_pay3_apply (X_8 : Vec Ideal S1x128 .f32) (q : Fin 4096) (j : Fin 128) :
    k3_pay3 X_8 (ix2 q j) = X_8 (ix2 0 j) := by
  unfold k3_pay3
  simp only [shapeCast_self, bcastB3_apply]

/-- The output at row q of a block, feature k, from the first normalisation's two factors P and Q: their sum clipped at
    zero against column k of the second matrix, plus the bias, normalised, clipped, plus the input. -/
theorem k3_pay1_apply (P Q : FVec Ideal S4096x128 .f32) (X_9 : Vec Ideal S128x64 .f32) (X_10 X_11 X_12 X_13 X_14 : Vec Ideal S1x64 .f32)
    (X_0 : Vec Ideal S4096x64 .f32) (q : Fin 4096) (k : Fin 64) :
    k3_pay1 P Q X_9 X_10 X_11 X_12 X_13 X_14 X_0 (ix2 q k)
      = max (((∑ j : Fin 128, max (P (ix2 q j) + Q (ix2 q j)) 0 * X_9 (ix2 j k)) + X_10 (ix2 0 k) - X_11 (ix2 0 k))
          * Ideal.rsqrt (X_12 (ix2 0 k) + Spec.cEps) * X_13 (ix2 0 k) + X_14 (ix2 0 k)) 0 + X_0 (ix2 q k) := by
  unfold k3_pay1
  simp only [shapeCast_self, mulf_apply, addf_apply, subf_apply, maximumf_apply, truncf_apply, broadcast_apply, rsqrt3_apply,
    bcastA3_apply, mmB3_apply]
  have hz : (FloatOps.ofBits FTy.f32 0x00000000#32 : Ideal FTy.f32) = (0 : EReal) := Ideal.ofBits_zero_f32
  rw [hz]
  rfl

/-! ## The blocks read at an index -/

/-- The block indices of the fifteen input windows, decided over the sixteen points: the two arrays of 65536 rows move
    with the point, every other array is one block. -/
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_9 : ∀ t : Fin cfg3.N, win3_9.index t (0 : Fin 2) = 0 ∧ win3_9.index t (1 : Fin 2) = 0 :=
  (by decide +kernel : ∀ t : Fin grid3.N, _)
theorem idx3_10 : ∀ t : Fin cfg3.N, win3_10.index t (0 : Fin 2) = 0 ∧ win3_10.index t (1 : Fin 2) = 0 :=
  (by decide +kernel : ∀ t : Fin grid3.N, _)
theorem idx3_11 : ∀ t : Fin cfg3.N, win3_11.index t (0 : Fin 2) = 0 ∧ win3_11.index t (1 : Fin 2) = 0 :=
  (by decide +kernel : ∀ t : Fin grid3.N, _)
theorem idx3_12 : ∀ t : Fin cfg3.N, win3_12.index t (0 : Fin 2) = 0 ∧ win3_12.index t (1 : Fin 2) = 0 :=
  (by decide +kernel : ∀ t : Fin grid3.N, _)
theorem idx3_13 : ∀ t : Fin cfg3.N, win3_13.index t (0 : Fin 2) = 0 ∧ win3_13.index t (1 : Fin 2) = 0 :=
  (by decide +kernel : ∀ t : Fin grid3.N, _)
theorem idx3_14 : ∀ t : Fin cfg3.N, win3_14.index t (0 : Fin 2) = 0 ∧ win3_14.index t (1 : Fin 2) = 0 :=
  (by decide +kernel : ∀ t : Fin grid3.N, _)

/-- Window 0's block at the point of row r holds, at place r % 4096, row r of its array. -/
theorem rows3_0 (A : S65536x64.Idx → Elt Ideal .f32) (r : Fin 65536) (k i : Fin 64) :
    ((cfg3.win 0).blk (pt3 (ix2 r k))).view.read (Elt Ideal) A (ix2 ⟨r.val % 4096, Nat.mod_lt _ (by decide)⟩ i) = A (ix2 r i) := by
  obtain ⟨e0, e1⟩ := idx3_0 (pt3 (ix2 r k))
  have hp : (pt3 (ix2 r k)).val = r.val / 4096 := rfl
  show A (((cfg3.win 0).blk (pt3 (ix2 r k))).view.emb (ix2 ⟨r.val % 4096, Nat.mod_lt _ (by decide)⟩ i)) = A (ix2 r i)
  refine congrArg A (funext fun a => Fin.ext ?_)
  match a with
  | ⟨0, _⟩ => show win3_0.index (pt3 (ix2 r k)) (0 : Fin 2) * 4096 + 1 * (r.val % 4096) = r.val; omega
  | ⟨1, _⟩ => show win3_0.index (pt3 (ix2 r k)) (1 : Fin 2) * 64 + 1 * i.val = i.val; omega

/-- Window 1's block at the point of row r holds, at place r % 4096, row r of its array. -/
theorem rows3_1 (A : S65536x64.Idx → Elt Ideal .f32) (r : Fin 65536) (k i : Fin 64) :
    ((cfg3.win 1).blk (pt3 (ix2 r k))).view.read (Elt Ideal) A (ix2 ⟨r.val % 4096, Nat.mod_lt _ (by decide)⟩ i) = A (ix2 r i) := by
  obtain ⟨e0, e1⟩ := idx3_1 (pt3 (ix2 r k))
  have hp : (pt3 (ix2 r k)).val = r.val / 4096 := rfl
  show A (((cfg3.win 1).blk (pt3 (ix2 r k))).view.emb (ix2 ⟨r.val % 4096, Nat.mod_lt _ (by decide)⟩ i)) = A (ix2 r i)
  refine congrArg A (funext fun a => Fin.ext ?_)
  match a with
  | ⟨0, _⟩ => show win3_1.index (pt3 (ix2 r k)) (0 : Fin 2) * 4096 + 1 * (r.val % 4096) = r.val; omega
  | ⟨1, _⟩ => show win3_1.index (pt3 (ix2 r k)) (1 : Fin 2) * 64 + 1 * i.val = i.val; omega

theorem whole3_2 (t : Fin cfg3.N) (A : S1x64.Idx → Elt Ideal .f32) : ((cfg3.win 2).blk t).view.read (Elt Ideal) A = A := by
  obtain ⟨e0, e1⟩ := idx3_2 t
  funext y
  show A (((cfg3.win 2).blk t).view.emb y) = A y
  refine congrArg A (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega

theorem whole3_3 (t : Fin cfg3.N) (A : S64x128.Idx → Elt Ideal .f32) : ((cfg3.win 3).blk t).view.read (Elt Ideal) A = A := by
  obtain ⟨e0, e1⟩ := idx3_3 t
  funext y
  show A (((cfg3.win 3).blk t).view.emb y) = A y
  refine congrArg A (funext fun a => Fin.ext ?_)
  match a with
  | ⟨0, _⟩ => show win3_3.index t (0 : Fin 2) * 64 + 1 * (y 0).val = (y 0).val; omega
  | ⟨1, _⟩ => show win3_3.index t (1 : Fin 2) * 128 + 1 * (y 1).val = (y 1).val; omega

theorem whole3_4 (t : Fin cfg3.N) (A : S1x128.Idx → Elt Ideal .f32) : ((cfg3.win 4).blk t).view.read (Elt Ideal) A = A := by
  obtain ⟨e0, e1⟩ := idx3_4 t
  funext y
  show A (((cfg3.win 4).blk t).view.emb y) = A y
  refine congrArg A (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

theorem whole3_5 (t : Fin cfg3.N) (A : S1x128.Idx → Elt Ideal .f32) : ((cfg3.win 5).blk t).view.read (Elt Ideal) A = A := by
  obtain ⟨e0, e1⟩ := idx3_5 t
  funext y
  show A (((cfg3.win 5).blk t).view.emb y) = A y
  refine congrArg A (funext fun a => Fin.ext ?_)
  match a with
  | ⟨0, _⟩ => show win3_5.index t (0 : Fin 2) * 1 + 1 * (y 0).val = (y 0).val; omega
  | ⟨1, _⟩ => show win3_5.index t (1 : Fin 2) * 128 + 1 * (y 1).val = (y 1).val; omega

theorem whole3_6 (t : Fin cfg3.N) (A : S1x128.Idx → Elt Ideal .f32) : ((cfg3.win 6).blk t).view.read (Elt Ideal) A = A := by
  obtain ⟨e0, e1⟩ := idx3_6 t
  funext y
  show A (((cfg3.win 6).blk t).view.emb y) = A y
  refine congrArg A (funext fun a => Fin.ext ?_)
  match a with
  | ⟨0, _⟩ => show win3_6.index t (0 : Fin 2) * 1 + 1 * (y 0).val = (y 0).val; omega
  | ⟨1, _⟩ => show win3_6.index t (1 : Fin 2) * 128 + 1 * (y 1).val = (y 1).val; omega

theorem whole3_7 (t : Fin cfg3.N) (A : S1x128.Idx → Elt Ideal .f32) : ((cfg3.win 7).blk t).view.read (Elt Ideal) A = A := by
  obtain ⟨e0, e1⟩ := idx3_7 t
  funext y
  show A (((cfg3.win 7).blk t).view.emb y) = A y
  refine congrArg A (funext fun a => Fin.ext ?_)
  match a with
  | ⟨0, _⟩ => show win3_7.index t (0 : Fin 2) * 1 + 1 * (y 0).val = (y 0).val; omega
  | ⟨1, _⟩ => show win3_7.index t (1 : Fin 2) * 128 + 1 * (y 1).val = (y 1).val; omega

theorem whole3_8 (t : Fin cfg3.N) (A : S1x128.Idx → Elt Ideal .f32) : ((cfg3.win 8).blk t).view.read (Elt Ideal) A = A := by
  obtain ⟨e0, e1⟩ := idx3_8 t
  funext y
  show A (((cfg3.win 8).blk t).view.emb y) = A y
  refine congrArg A (funext fun a => Fin.ext ?_)
  match a with
  | ⟨0, _⟩ => show win3_8.index t (0 : Fin 2) * 1 + 1 * (y 0).val = (y 0).val; omega
  | ⟨1, _⟩ => show win3_8.index t (1 : Fin 2) * 128 + 1 * (y 1).val = (y 1).val; omega

theorem whole3_9 (t : Fin cfg3.N) (A : S128x64.Idx → Elt Ideal .f32) : ((cfg3.win 9).blk t).view.read (Elt Ideal) A = A := by
  obtain ⟨e0, e1⟩ := idx3_9 t
  funext y
  show A (((cfg3.win 9).blk t).view.emb y) = A y
  refine congrArg A (funext fun a => Fin.ext ?_)
  match a with
  | ⟨0, _⟩ => show win3_9.index t (0 : Fin 2) * 128 + 1 * (y 0).val = (y 0).val; omega
  | ⟨1, _⟩ => show win3_9.index t (1 : Fin 2) * 64 + 1 * (y 1).val = (y 1).val; omega

theorem whole3_10 (t : Fin cfg3.N) (A : S1x64.Idx → Elt Ideal .f32) : ((cfg3.win 10).blk t).view.read (Elt Ideal) A = A := by
  obtain ⟨e0, e1⟩ := idx3_10 t
  funext y
  show A (((cfg3.win 10).blk t).view.emb y) = A y
  refine congrArg A (funext fun a => Fin.ext ?_)
  match a with
  | ⟨0, _⟩ => show win3_10.index t (0 : Fin 2) * 1 + 1 * (y 0).val = (y 0).val; omega
  | ⟨1, _⟩ => show win3_10.index t (1 : Fin 2) * 64 + 1 * (y 1).val = (y 1).val; omega

theorem whole3_11 (t : Fin cfg3.N) (A : S1x64.Idx → Elt Ideal .f32) : ((cfg3.win 11).blk t).view.read (Elt Ideal) A = A := by
  obtain ⟨e0, e1⟩ := idx3_11 t
  funext y
  show A (((cfg3.win 11).blk t).view.emb y) = A y
  refine congrArg A (funext fun a => Fin.ext ?_)
  match a with
  | ⟨0, _⟩ => show win3_11.index t (0 : Fin 2) * 1 + 1 * (y 0).val = (y 0).val; omega
  | ⟨1, _⟩ => show win3_11.index t (1 : Fin 2) * 64 + 1 * (y 1).val = (y 1).val; omega

theorem whole3_12 (t : Fin cfg3.N) (A : S1x64.Idx → Elt Ideal .f32) : ((cfg3.win 12).blk t).view.read (Elt Ideal) A = A := by
  obtain ⟨e0, e1⟩ := idx3_12 t
  funext y
  show A (((cfg3.win 12).blk t).view.emb y) = A y
  refine congrArg A (funext fun a => Fin.ext ?_)
  match a with
  | ⟨0, _⟩ => show win3_12.index t (0 : Fin 2) * 1 + 1 * (y 0).val = (y 0).val; omega
  | ⟨1, _⟩ => show win3_12.index t (1 : Fin 2) * 64 + 1 * (y 1).val = (y 1).val; omega

theorem whole3_13 (t : Fin cfg3.N) (A : S1x64.Idx → Elt Ideal .f32) : ((cfg3.win 13).blk t).view.read (Elt Ideal) A = A := by
  obtain ⟨e0, e1⟩ := idx3_13 t
  funext y
  show A (((cfg3.win 13).blk t).view.emb y) = A y
  refine congrArg A (funext fun a => Fin.ext ?_)
  match a with
  | ⟨0, _⟩ => show win3_13.index t (0 : Fin 2) * 1 + 1 * (y 0).val = (y 0).val; omega
  | ⟨1, _⟩ => show win3_13.index t (1 : Fin 2) * 64 + 1 * (y 1).val = (y 1).val; omega

theorem whole3_14 (t : Fin cfg3.N) (A : S1x64.Idx → Elt Ideal .f32) : ((cfg3.win 14).blk t).view.read (Elt Ideal) A = A := by
  obtain ⟨e0, e1⟩ := idx3_14 t
  funext y
  show A (((cfg3.win 14).blk t).view.emb y) = A y
  refine congrArg A (funext fun a => Fin.ext ?_)
  match a with
  | ⟨0, _⟩ => show win3_14.index t (0 : Fin 2) * 1 + 1 * (y 0).val = (y 0).val; omega
  | ⟨1, _⟩ => show win3_14.index t (1 : Fin 2) * 64 + 1 * (y 1).val = (y 1).val; omega

/-! ## The output array -/

theorem zeros3 : (![0, 0] : Fin 2 → Nat) = fun _ => 0 := funext fun a => by fin_cases a <;> rfl

/-- What the body leaves in the output block is its one store's payload, each load reading its whole buffer. -/
theorem out3_15_eq (x_0 : Vec Ideal S4096x64 .f32) (x_1 : Vec Ideal S4096x64 .f32) (x_2 : Vec Ideal S1x64 .f32) (x_3 : Vec Ideal S64x128 .f32) (x_4 : Vec Ideal S1x128 .f32) (x_5 : Vec Ideal S1x128 .f32) (x_6 : Vec Ideal S1x128 .f32) (x_7 : Vec Ideal S1x128 .f32) (x_8 : Vec Ideal S1x128 .f32) (x_9 : Vec Ideal S128x64 .f32) (x_10 : Vec Ideal S1x64 .f32) (x_11 : Vec Ideal S1x64 .f32) (x_12 : Vec Ideal S1x64 .f32) (x_13 : Vec Ideal S1x64 .f32) (x_14 : Vec Ideal S1x64 .f32) :
    out3_15 x_0 x_1 x_2 x_3 x_4 x_5 x_6 x_7 x_8 x_9 x_10 x_11 x_12 x_13 x_14 = k3_pay1 (k3_pay2 x_2 x_0 x_1 x_3 x_4 x_5 x_6 x_7) (k3_pay3 x_8) x_9 x_10 x_11 x_12 x_13 x_14 x_0 := by
  unfold out3_15
  rw [View.canon_unit_zero zeros3]
  simp only [View.ld_unit_zero (S := S4096x64) zeros3, View.ld_unit_zero (S := S1x64) zeros3, View.ld_unit_zero (S := S64x128) zeros3,
    View.ld_unit_zero (S := S1x128) zeros3, View.ld_unit_zero (S := S128x64) zeros3]

theorem loc3_ix2 (r : Fin 65536) (k : Fin 64) : loc3 (ix2 r k) = ix2 ⟨r.val % 4096, Nat.mod_lt _ (by decide)⟩ k := rfl

variable (V : (c : Dev nD) → (b : Ref sig .tc) → Buf (Elt Ideal) ((c : Thread nD τ).loc b))

set_option maxHeartbeats 4000000 in
/-- The output array after the region: the second normalisation of the layer's second linear map, clipped at zero, plus
    the layer's input — all read off the arrays as the region finds them. -/
theorem val3_15 (c : Dev nD) :
    Spec.cur2 ((dat3 V c).arrAt 15 cfg3.N : S65536x64.Idx → EReal)
      = fun r k => Spec.relu (Spec.norm (Spec.z2 (Spec.relu (Spec.norm (Spec.z1 (Spec.cur2 (V c (Pipeline.arrRef spec3 2) : S1x64.Idx → EReal)) (Spec.cur2 (V c (Pipeline.arrRef spec3 0) : S65536x64.Idx → EReal)) (Spec.cur2 (V c (Pipeline.arrRef spec3 1) : S65536x64.Idx → EReal)) (Spec.cur2 (V c (Pipeline.arrRef spec3 3) : S64x128.Idx → EReal)) (Spec.cur2 (V c (Pipeline.arrRef spec3 4) : S1x128.Idx → EReal))) (Spec.cur2 (V c (Pipeline.arrRef spec3 5) : S1x128.Idx → EReal)) (Spec.cur2 (V c (Pipeline.arrRef spec3 6) : S1x128.Idx → EReal)) (Spec.cur2 (V c (Pipeline.arrRef spec3 7) : S1x128.Idx → EReal)) (Spec.cur2 (V c (Pipeline.arrRef spec3 8) : S1x128.Idx → EReal)))) (Spec.cur2 (V c (Pipeline.arrRef spec3 9) : S128x64.Idx → EReal)) (Spec.cur2 (V c (Pipeline.arrRef spec3 10) : S1x64.Idx → EReal))) (Spec.cur2 (V c (Pipeline.arrRef spec3 11) : S1x64.Idx → EReal)) (Spec.cur2 (V c (Pipeline.arrRef spec3 12) : S1x64.Idx → EReal)) (Spec.cur2 (V c (Pipeline.arrRef spec3 13) : S1x64.Idx → EReal)) (Spec.cur2 (V c (Pipeline.arrRef spec3 14) : S1x64.Idx → EReal))) r k + (Spec.cur2 (V c (Pipeline.arrRef spec3 0) : S65536x64.Idx → EReal)) r k := by
  have hfin : (dat3 V c).arrAt 15 cfg3.N = _ := final3_15 V c
  rw [hfin]
  funext r k
  simp only [Spec.cur2]
  rw [G3_15_apply]
  rw [whole3_2, whole3_3, whole3_4, whole3_5, whole3_6, whole3_7, whole3_8, whole3_9, whole3_10, whole3_11, whole3_12, whole3_13, whole3_14]
  generalize hX_0 : (((cfg3.win 0).blk (pt3 (ix2 r k))).view.read (Elt Ideal) (V c (Pipeline.arrRef spec3 0)) : Vec Ideal S4096x64 .f32) = X_0
  generalize hX_1 : (((cfg3.win 1).blk (pt3 (ix2 r k))).view.read (Elt Ideal) (V c (Pipeline.arrRef spec3 1)) : Vec Ideal S4096x64 .f32) = X_1
  have hr_0 : ∀ i : Fin 64, X_0 (ix2 ⟨r.val % 4096, Nat.mod_lt _ (by decide)⟩ i) = (V c (Pipeline.arrRef spec3 0) : S65536x64.Idx → EReal) (ix2 r i) :=
    fun i => by rw [← hX_0]; exact rows3_0 _ r k i
  have hr_1 : ∀ i : Fin 64, X_1 (ix2 ⟨r.val % 4096, Nat.mod_lt _ (by decide)⟩ i) = (V c (Pipeline.arrRef spec3 1) : S65536x64.Idx → EReal) (ix2 r i) :=
    fun i => by rw [← hX_1]; exact rows3_1 _ r k i
  rw [out3_15_eq, loc3_ix2, k3_pay1_apply]
  simp only [k3_pay2_apply, k3_pay3_apply, hr_0, hr_1]
  simp only [Spec.relu, Spec.norm, Spec.z2, Spec.z1, Spec.lin, Spec.combine, Spec.cur2]

end Cert.KernelIdeal.Val

end
-- ==== Proof.KI.Fin4.lean ====
/- The two statistics' arrays after a layer's first statistics pass: each is written back once, at the last point,
   whole, so it ends holding what the body stored there from the totals of the running sums. -/
import proofs.«159011_j9938554322955_1_alg».proof.Proof.KI.Reg4
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The last point is a point of the grid. -/
theorem h15_4 : 15 < cfg4.N := by rw [show cfg4.N = 16 from N_4]; decide

/-- The two outputs' one block sits at block index zero on both axes, at every point. -/
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)

/-! ## The mean's array after the region -/

/-- What the mean's array holds after the region: the mean stored from the totals, the sums after the last point. -/
noncomputable def G4_5 (c : Dev nD) : S1x128.Idx → Elt F .f32 := oM4 (accS4 V c 15 h15_4)

/-- What the last point writes back is that array's one block. -/
theorem flushed4_5_eq (c : Dev nD) (t : Fin cfg4.N) (hf : (cfg4.win 5).flush t = true) :
    (dat4 V c).flushed 5 t = ((cfg4.win 5).blk t).view.read (Elt F) (G4_5 V c) := by
  have hN : t.val < 16 := lt_of_lt_of_eq t.isLt (show cfg4.N = 16 from N_4)
  have ht : t.val = 15 := by have := (flush4_5 t).mp hf; omega
  show (cfg4.win 5).cut (grid4.coords t) ((dat4 V c).after 5 t) = _
  rw [after4_5]
  obtain ⟨n, hn⟩ := t
  dsimp only at ht
  subst ht
  obtain ⟨e0, e1⟩ := idx4_5 ⟨15, hn⟩
  funext j
  show (oM4 (accS4 V c 15 hn)) j = G4_5 V c (((cfg4.win 5).blk ⟨15, hn⟩).view.emb j)
  unfold G4_5
  refine congrArg _ ?_
  funext a; apply Fin.ext
  match a with
  | ⟨0, _⟩ => show (j 0).val = win4_5.index ⟨15, hn⟩ (0 : Fin 2) * 1 + 1 * (j 0).val; omega
  | ⟨1, _⟩ => show (j 1).val = win4_5.index ⟨15, hn⟩ (1 : Fin 2) * 128 + 1 * (j 1).val; omega

/-- An index of the array is in a point's block iff each coordinate is in the block's range on its axis. -/
theorem mem_blk4_5 (t : Fin cfg4.N) (i : S1x128.Idx) :
    i ∈ ((cfg4.win 5).blk t).view.set ↔ ∀ a : Fin 2, win4_5.index t a * S1x128.size a ≤ (i a).val ∧ (i a).val < win4_5.index t a * S1x128.size a + S1x128.size a := by
  show i ∈ ((View.whole main_v93_0).slice (win4_5.rect t)).set ↔ _
  rw [View.set_slice_whole, Rect.mem_set_unit]
  exact Iff.rfl

/-- The last point's block is the whole array. -/
theorem cover4_5 (i : S1x128.Idx) : ∃ t : Fin cfg4.N, (cfg4.win 5).flush t = true ∧ i ∈ ((cfg4.win 5).blk t).view.set := by
  refine ⟨t4_15, (flush4_5 t4_15).mpr rfl, ?_⟩
  rw [mem_blk4_5]
  obtain ⟨e0, e1⟩ := idx4_5 t4_15
  have h0 : (i 0).val < 1 := (i 0).isLt
  have h1 : (i 1).val < 128 := (i 1).isLt
  intro a
  match a with
  | ⟨0, _⟩ => show win4_5.index t4_15 (0 : Fin 2) * 1 ≤ (i 0).val ∧ (i 0).val < win4_5.index t4_15 (0 : Fin 2) * 1 + 1; omega
  | ⟨1, _⟩ => show win4_5.index t4_15 (1 : Fin 2) * 128 ≤ (i 1).val ∧ (i 1).val < win4_5.index t4_15 (1 : Fin 2) * 128 + 128; omega

/-- The mean's array after the region, whole. -/
theorem final4_5 (c : Dev nD) : (dat4 V c).arrAt 5 cfg4.N = G4_5 V c :=
  (dat4 V c).arrAt_eq_of_cover 5 (G4_5 V c) (fun t hf => flushed4_5_eq V c t hf) cover4_5

/-! ## The variance's array after the region -/

/-- What the variance's array holds after the region: the variance stored from the totals, the sums after the last point. -/
noncomputable def G4_6 (c : Dev nD) : S1x128.Idx → Elt F .f32 := oV4 (accS4 V c 15 h15_4) (accQ4 V c 15 h15_4)

/-- What the last point writes back is that array's one block. -/
theorem flushed4_6_eq (c : Dev nD) (t : Fin cfg4.N) (hf : (cfg4.win 6).flush t = true) :
    (dat4 V c).flushed 6 t = ((cfg4.win 6).blk t).view.read (Elt F) (G4_6 V c) := by
  have hN : t.val < 16 := lt_of_lt_of_eq t.isLt (show cfg4.N = 16 from N_4)
  have ht : t.val = 15 := by have := (flush4_6 t).mp hf; omega
  show (cfg4.win 6).cut (grid4.coords t) ((dat4 V c).after 6 t) = _
  rw [after4_6]
  obtain ⟨n, hn⟩ := t
  dsimp only at ht
  subst ht
  obtain ⟨e0, e1⟩ := idx4_6 ⟨15, hn⟩
  funext j
  show (oV4 (accS4 V c 15 hn) (accQ4 V c 15 h15_4)) j = G4_6 V c (((cfg4.win 6).blk ⟨15, hn⟩).view.emb j)
  unfold G4_6
  refine congrArg _ ?_
  funext a; apply Fin.ext
  match a with
  | ⟨0, _⟩ => show (j 0).val = win4_6.index ⟨15, hn⟩ (0 : Fin 2) * 1 + 1 * (j 0).val; omega
  | ⟨1, _⟩ => show (j 1).val = win4_6.index ⟨15, hn⟩ (1 : Fin 2) * 128 + 1 * (j 1).val; omega

/-- An index of the array is in a point's block iff each coordinate is in the block's range on its axis. -/
theorem mem_blk4_6 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole main_v93_1).slice (win4_6.rect t)).set ↔ _
  rw [View.set_slice_whole, Rect.mem_set_unit]
  exact Iff.rfl

/-- The last point's block is the whole array. -/
theorem cover4_6 (i : S1x128.Idx) : ∃ t : Fin cfg4.N, (cfg4.win 6).flush t = true ∧ i ∈ ((cfg4.win 6).blk t).view.set := by
  refine ⟨t4_15, (flush4_6 t4_15).mpr rfl, ?_⟩
  rw [mem_blk4_6]
  obtain ⟨e0, e1⟩ := idx4_6 t4_15
  have h0 : (i 0).val < 1 := (i 0).isLt
  have h1 : (i 1).val < 128 := (i 1).isLt
  intro a
  match a with
  | ⟨0, _⟩ => show win4_6.index t4_15 (0 : Fin 2) * 1 ≤ (i 0).val ∧ (i 0).val < win4_6.index t4_15 (0 : Fin 2) * 1 + 1; omega
  | ⟨1, _⟩ => show win4_6.index t4_15 (1 : Fin 2) * 128 ≤ (i 1).val ∧ (i 1).val < win4_6.index t4_15 (1 : Fin 2) * 128 + 128; omega

/-- The variance's array after the region, whole. -/
theorem final4_6 (c : Dev nD) : (dat4 V c).arrAt 6 cfg4.N = G4_6 V c :=
  (dat4 V c).arrAt_eq_of_cover 6 (G4_6 V c) (fun t hf => flushed4_6_eq V c t hf) cover4_6

end Cert.KernelIdeal.Hand

end
-- ==== Proof.KI.Pay4.lean ====
/- A first statistics pass, block by block, at the extended reals: what each stored value is at an index. The carried
   sums receive the block's column sums of the first linear map z and of z · z; both start at zero; and the last block's
   stores are S · 2⁻¹⁶ and Q · 2⁻¹⁶ − (S · 2⁻¹⁶)². -/
import proofs.«159011_j9938554322955_1_alg».proof.Proof.KI.Pay1Lib

noncomputable section

namespace Cert.KernelIdeal.Val

open Cert.KernelIdeal Cert.KernelIdeal.Gen
open Idealize.ShloMosaic Idealize.ShloMosaic.ValueIdx
open scoped BigOperators

/-! ### The payloads at an index -/

/-- The block's first linear map as the program computes it. -/
theorem pay6_4_apply (e : Vec Ideal S1x64 .f32) (x a : Vec Ideal S4096x64 .f32) (W : Vec Ideal S64x128 .f32)
    (b : Vec Ideal S1x128 .f32) (y : Fin 4096) (j : Fin 128) :
    k4_pay6 e x a W b (ix2 y j) = zblk1 e x a W b y j := by
  unfold k4_pay6
  simp only [shapeCast_self, mulf_apply, addf_apply, truncf_apply, broadcast_apply, row128_apply, row64_apply, mmA_apply]
  rfl

/-- The carried sum starts at zero. -/
theorem pay4_4_apply (p : Fin 1) (j : Fin 128) : k4_pay4 (F := Ideal) (ix2 p j) = 0 := by
  unfold k4_pay4
  simp only [shapeCast_self, broadcast_apply]
  exact scalar_zero

/-- The carried sum of squares starts at zero. -/
theorem pay5_4_apply (p : Fin 1) (j : Fin 128) : k4_pay5 (F := Ideal) (ix2 p j) = 0 := by
  unfold k4_pay5
  simp only [shapeCast_self, broadcast_apply]
  exact scalar_zero

/-- The carried sum S receives the block's column sum of z. -/
theorem pay7_4_apply (e : Vec Ideal S1x64 .f32) (x a : Vec Ideal S4096x64 .f32) (W : Vec Ideal S64x128 .f32)
    (b : Vec Ideal S1x128 .f32) (S : Vec Ideal S1x128 .f32) (p : Fin 1) (j : Fin 128) :
    k4_pay7 e x a W b S (ix2 p j) = S (ix2 p j) + ∑ y : Fin 4096, zblk1 e x a W b y j := by
  unfold k4_pay7
  simp only [shapeCast_self, addf_apply, cast128_apply]
  refine congrArg (S (ix2 p j) + ·) ?_
  refine (colsum128_apply (k4_pay6 e x a W b) _ _ j).trans ?_
  exact Finset.sum_congr rfl fun y _ => pay6_4_apply e x a W b y j

/-- The carried sum Q receives the block's column sum of z · z. -/
theorem pay8_4_apply (e : Vec Ideal S1x64 .f32) (x a : Vec Ideal S4096x64 .f32) (W : Vec Ideal S64x128 .f32)
    (b : Vec Ideal S1x128 .f32) (Q : Vec Ideal S1x128 .f32) (p : Fin 1) (j : Fin 128) :
    k4_pay8 e x a W b Q (ix2 p j) = Q (ix2 p j) + ∑ y : Fin 4096, zblk1 e x a W b y j * zblk1 e x a W b y j := by
  unfold k4_pay8
  simp only [addf_apply, cast128_apply]
  refine congrArg (Q (ix2 p j) + ·) ?_
  refine (colsum128_apply (mulf (k4_pay6 e x a W b) (k4_pay6 e x a W b)) _ _ j).trans ?_
  refine Finset.sum_congr rfl fun y _ => ?_
  rw [mulf_apply, pay6_4_apply]

/-- The same through the store's identity cast. -/
theorem pay1_8_4_apply (e : Vec Ideal S1x64 .f32) (x a : Vec Ideal S4096x64 .f32) (W : Vec Ideal S64x128 .f32)
    (b : Vec Ideal S1x128 .f32) (Q : Vec Ideal S1x128 .f32) (p : Fin 1) (j : Fin 128) :
    k4_pay1 (k4_pay8 e x a W b Q) (ix2 p j)
      = Q (ix2 p j) + ∑ y : Fin 4096, zblk1 e x a W b y j * zblk1 e x a W b y j := by
  unfold k4_pay1
  simp only [shapeCast_self]
  exact pay8_4_apply e x a W b Q p j

/-- The identity cast in front of the store of Q. -/
theorem pay1_4_apply (v : FVec Ideal S1x128 .f32) : k4_pay1 v = v := by
  unfold k4_pay1
  simp only [shapeCast_self]

/-- The last block's first store: the sum times 2⁻¹⁶. -/
theorem pay2_4_apply (S : Vec Ideal S1x128 .f32) (p : Fin 1) (j : Fin 128) :
    k4_pay2 S (ix2 p j) = S (ix2 p j) * Ideal.ofBits .f32 Spec.wInvN := by
  unfold k4_pay2
  simp only [mulf_apply, broadcast_apply]
  rfl

/-- The last block's second store: the sum of squares times 2⁻¹⁶, minus the square of the first store. -/
theorem pay3_4_apply (S Q : Vec Ideal S1x128 .f32) (p : Fin 1) (j : Fin 128) :
    k4_pay3 S Q (ix2 p j)
      = Q (ix2 p j) * Ideal.ofBits .f32 Spec.wInvN
        - (S (ix2 p j) * Ideal.ofBits .f32 Spec.wInvN) * (S (ix2 p j) * Ideal.ofBits .f32 Spec.wInvN) := by
  unfold k4_pay3
  simp only [mulf_apply, subf_apply, broadcast_apply, pay2_4_apply]
  rfl

end Cert.KernelIdeal.Val

end
-- ==== Proof.KI.Val4.lean ====
/- A layer's first statistics pass at the extended reals. The sixteen points of the grid each add, to two running sums
   that start at zero, the column sums of z and of z · z over their block of 4096 nodes, z being the layer's first linear
   map of the combined features; the last point stores the total of z times 2⁻¹⁶ and the total of z · z times 2⁻¹⁶ minus
   the square of the first. Blocks are consecutive rows of the arrays, so the totals are the sums over all 65536 nodes,
   and on real data the two stored rows are the mean and the variance of z. -/
import proofs.«159011_j9938554322955_1_alg».proof.Proof.KI.Fin4
import proofs.«159011_j9938554322955_1_alg».proof.Proof.KI.Pay4
import proofs.«159011_j9938554322955_1_alg».proof.Proof.Math.Spec
import proofs.«159011_j9938554322955_1_alg».proof.Proof.Math.Real
import proofs.«159011_j9938554322955_1_alg».proof.Proof.LibStats

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! ### Blocks are rows of the arrays -/

/-- The printed index maps over the grid: the features and the neighbour sums move one block of rows per point; the
    offset, the matrix and the bias stay. -/
theorem idxIn4_0 : ∀ t : Fin cfg4.N, win4_0.index t (0 : Fin 2) = t.val ∧ win4_0.index t (1 : Fin 2) = 0 :=
  (by decide +kernel : ∀ t : Fin grid4.N, _)
theorem idxIn4_1 : ∀ t : Fin cfg4.N, win4_1.index t (0 : Fin 2) = t.val ∧ win4_1.index t (1 : Fin 2) = 0 :=
  (by decide +kernel : ∀ t : Fin grid4.N, _)
theorem idxIn4_2 : ∀ t : Fin cfg4.N, win4_2.index t (0 : Fin 2) = 0 ∧ win4_2.index t (1 : Fin 2) = 0 :=
  (by decide +kernel : ∀ t : Fin grid4.N, _)
theorem idxIn4_3 : ∀ t : Fin cfg4.N, win4_3.index t (0 : Fin 2) = 0 ∧ win4_3.index t (1 : Fin 2) = 0 :=
  (by decide +kernel : ∀ t : Fin grid4.N, _)
theorem idxIn4_4 : ∀ t : Fin cfg4.N, win4_4.index t (0 : Fin 2) = 0 ∧ win4_4.index t (1 : Fin 2) = 0 :=
  (by decide +kernel : ∀ t : Fin grid4.N, _)

/-- Row y of the features' block at point t is row 4096 · t + y of the array. -/
theorem blk4_0 (c : Dev nD) (t : Fin cfg4.N) (y : Fin 4096) (k : Fin 64) :
    (iblk4 V c 0 t : Vec Ideal S4096x64 .f32) (ix2 y k)
      = Spec.cur2 (V c main_v73) ⟨4096 * t.val + y.val, by have := lt_of_lt_of_eq t.isLt (show cfg4.N = 16 from N_4); omega⟩ k := by
  obtain ⟨e0, e1⟩ := idxIn4_0 t
  show V c main_v73 (((cfg4.win 0).blk t).view.emb (ix2 y k)) = V c main_v73 (ix2 _ k)
  refine congrArg (V c main_v73) ?_
  funext a; apply Fin.ext
  match a with
  | ⟨0, _⟩ => show win4_0.index t (0 : Fin 2) * 4096 + 1 * y.val = 4096 * t.val + y.val; omega
  | ⟨1, _⟩ => show win4_0.index t (1 : Fin 2) * 64 + 1 * k.val = k.val; omega

/-- Row y of the neighbour sums' block at point t is row 4096 · t + y of the array. -/
theorem blk4_1 (c : Dev nD) (t : Fin cfg4.N) (y : Fin 4096) (k : Fin 64) :
    (iblk4 V c 1 t : Vec Ideal S4096x64 .f32) (ix2 y k)
      = Spec.cur2 (V c main_v83) ⟨4096 * t.val + y.val, by have := lt_of_lt_of_eq t.isLt (show cfg4.N = 16 from N_4); omega⟩ k := by
  obtain ⟨e0, e1⟩ := idxIn4_1 t
  show V c main_v83 (((cfg4.win 1).blk t).view.emb (ix2 y k)) = V c main_v83 (ix2 _ k)
  refine congrArg (V c main_v83) ?_
  funext a; apply Fin.ext
  match a with
  | ⟨0, _⟩ => show win4_1.index t (0 : Fin 2) * 4096 + 1 * y.val = 4096 * t.val + y.val; omega
  | ⟨1, _⟩ => show win4_1.index t (1 : Fin 2) * 64 + 1 * k.val = k.val; omega

/-- The offset's block is its whole array, at every point. -/
theorem blk4_2 (c : Dev nD) (t : Fin cfg4.N) :
    Spec.cur2 (iblk4 V c 2 t : Vec Ideal S1x64 .f32) = Spec.cur2 (V c main_v91) := by
  obtain ⟨e0, e1⟩ := idxIn4_2 t
  funext r k
  show V c main_v91 (((cfg4.win 2).blk t).view.emb (ix2 r k)) = V c main_v91 (ix2 r k)
  refine congrArg (V c main_v91) ?_
  funext a; apply Fin.ext
  match a with
  | ⟨0, _⟩ => show win4_2.index t (0 : Fin 2) * 1 + 1 * r.val = r.val; omega
  | ⟨1, _⟩ => show win4_2.index t (1 : Fin 2) * 64 + 1 * k.val = k.val; omega

/-- The matrix's block is its whole array, at every point. -/
theorem blk4_3 (c : Dev nD) (t : Fin cfg4.N) :
    Spec.cur2 (iblk4 V c 3 t : Vec Ideal S64x128 .f32) = Spec.cur2 (V c main_v87) := by
  obtain ⟨e0, e1⟩ := idxIn4_3 t
  funext r k
  show V c main_v87 (((cfg4.win 3).blk t).view.emb (ix2 r k)) = V c main_v87 (ix2 r k)
  refine congrArg (V c main_v87) ?_
  funext a; apply Fin.ext
  match a with
  | ⟨0, _⟩ => show win4_3.index t (0 : Fin 2) * 64 + 1 * r.val = r.val; omega
  | ⟨1, _⟩ => show win4_3.index t (1 : Fin 2) * 128 + 1 * k.val = k.val; omega

/-- The bias's block is its whole array, at every point. -/
theorem blk4_4 (c : Dev nD) (t : Fin cfg4.N) :
    Spec.cur2 (iblk4 V c 4 t : Vec Ideal S1x128 .f32) = Spec.cur2 (V c main_v92) := by
  obtain ⟨e0, e1⟩ := idxIn4_4 t
  funext r k
  show V c main_v92 (((cfg4.win 4).blk t).view.emb (ix2 r k)) = V c main_v92 (ix2 r k)
  refine congrArg (V c main_v92) ?_
  funext a; apply Fin.ext
  match a with
  | ⟨0, _⟩ => show win4_4.index t (0 : Fin 2) * 1 + 1 * r.val = r.val; omega
  | ⟨1, _⟩ => show win4_4.index t (1 : Fin 2) * 128 + 1 * k.val = k.val; omega

/-! ### The first linear map on all nodes, and its block sums -/

/-- The layer's first linear map on all 65536 nodes, from the arrays the region finds. -/
noncomputable def zAll4 (c : Dev nD) : Fin 65536 → Fin 128 → EReal :=
  Spec.z1 (Spec.cur2 (V c main_v91)) (Spec.cur2 (V c main_v73)) (Spec.cur2 (V c main_v83)) (Spec.cur2 (V c main_v87)) (Spec.cur2 (V c main_v92))

/-- Row y of block t's linear map is row 4096 · t + y of the whole one. -/
theorem zblk4_at (c : Dev nD) (t : Fin cfg4.N) (y : Fin 4096) (j : Fin 128) :
    zblk1 (iblk4 V c 2 t) (iblk4 V c 0 t) (iblk4 V c 1 t) (iblk4 V c 3 t) (iblk4 V c 4 t) y j
      = zAll4 V c ⟨4096 * t.val + y.val, by have := lt_of_lt_of_eq t.isLt (show cfg4.N = 16 from N_4); omega⟩ j := by
  refine (zblk1_eq_z1 (iblk4 V c 2 t) (iblk4 V c 0 t) (iblk4 V c 1 t) (iblk4 V c 3 t) (iblk4 V c 4 t) (Spec.cur2 (V c main_v73)) (Spec.cur2 (V c main_v83)) y _
    (fun k => blk4_0 V c t y k) (fun k => blk4_1 V c t y k) j).trans ?_
  unfold zAll4
  rw [blk4_2 V c t, blk4_3 V c t, blk4_4 V c t]

/-- Block s's column sum of z at column j (zero past the grid). -/
noncomputable def colZ4 (c : Dev nD) (j : Fin 128) (s : ℕ) : EReal :=
  if h : s < 16 then ∑ y : Fin 4096, zAll4 V c ⟨4096 * s + y.val, by omega⟩ j else 0
/-- Block s's column sum of z · z at column j (zero past the grid). -/
noncomputable def colZZ4 (c : Dev nD) (j : Fin 128) (s : ℕ) : EReal :=
  if h : s < 16 then ∑ y : Fin 4096, zAll4 V c ⟨4096 * s + y.val, by omega⟩ j * zAll4 V c ⟨4096 * s + y.val, by omega⟩ j else 0

theorem sumZ4_at (c : Dev nD) (t : Fin cfg4.N) (j : Fin 128) :
    ∑ y : Fin 4096, zblk1 (iblk4 V c 2 t) (iblk4 V c 0 t) (iblk4 V c 1 t) (iblk4 V c 3 t) (iblk4 V c 4 t) y j = colZ4 V c j t.val := by
  have hN : t.val < 16 := lt_of_lt_of_eq t.isLt (show cfg4.N = 16 from N_4)
  unfold colZ4; rw [dif_pos hN]
  exact Finset.sum_congr rfl fun y _ => zblk4_at V c t y j

theorem sumZZ4_at (c : Dev nD) (t : Fin cfg4.N) (j : Fin 128) :
    ∑ y : Fin 4096, zblk1 (iblk4 V c 2 t) (iblk4 V c 0 t) (iblk4 V c 1 t) (iblk4 V c 3 t) (iblk4 V c 4 t) y j * zblk1 (iblk4 V c 2 t) (iblk4 V c 0 t) (iblk4 V c 1 t) (iblk4 V c 3 t) (iblk4 V c 4 t) y j = colZZ4 V c j t.val := by
  have hN : t.val < 16 := lt_of_lt_of_eq t.isLt (show cfg4.N = 16 from N_4)
  unfold colZZ4; rw [dif_pos hN]
  exact Finset.sum_congr rfl fun y _ => by rw [zblk4_at V c t y j]

/-! ### The running sums, closed -/

/-- After point n the first scratch row holds the column sums of z over the blocks up to n. -/
theorem accS4_val (c : Dev nD) (p : Fin 1) (j : Fin 128) :
    ∀ (n : ℕ) (hn : n < cfg4.N), accS4 V c n hn (ix2 p j) = ∑ s ∈ Finset.range (n + 1), colZ4 V c j s
  | 0, hn => by
    show sS4 (iblk4 V c 0 ⟨0, hn⟩) (iblk4 V c 1 ⟨0, hn⟩) (iblk4 V c 2 ⟨0, hn⟩) (iblk4 V c 3 ⟨0, hn⟩) (iblk4 V c 4 ⟨0, hn⟩) zS4 (ix2 p j) = _
    unfold sS4 zS4
    rw [pay7_4_apply, pay4_4_apply, zero_add, sumZ4_at V c ⟨0, hn⟩ j, Finset.sum_range_succ, Finset.sum_range_zero, zero_add]
  | n + 1, hn => by
    show sS4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩)
      (accS4 V c n (Nat.lt_of_succ_lt hn)) (ix2 p j) = _
    unfold sS4
    rw [pay7_4_apply, accS4_val c p j n (Nat.lt_of_succ_lt hn), sumZ4_at V c ⟨n + 1, hn⟩ j, Finset.sum_range_succ _ (n + 1)]

/-- After point n the second scratch row holds the column sums of z · z over the blocks up to n. -/
theorem accQ4_val (c : Dev nD) (p : Fin 1) (j : Fin 128) :
    ∀ (n : ℕ) (hn : n < cfg4.N), accQ4 V c n hn (ix2 p j) = ∑ s ∈ Finset.range (n + 1), colZZ4 V c j s
  | 0, hn => by
    show sQ4 (iblk4 V c 0 ⟨0, hn⟩) (iblk4 V c 1 ⟨0, hn⟩) (iblk4 V c 2 ⟨0, hn⟩) (iblk4 V c 3 ⟨0, hn⟩) (iblk4 V c 4 ⟨0, hn⟩) zQ4 (ix2 p j) = _
    unfold sQ4 zQ4
    rw [pay1_8_4_apply, pay5_4_apply, zero_add, sumZZ4_at V c ⟨0, hn⟩ j, Finset.sum_range_succ, Finset.sum_range_zero, zero_add]
  | n + 1, hn => by
    show sQ4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩)
      (accQ4 V c n (Nat.lt_of_succ_lt hn)) (ix2 p j) = _
    unfold sQ4
    rw [pay1_8_4_apply, accQ4_val c p j n (Nat.lt_of_succ_lt hn), sumZZ4_at V c ⟨n + 1, hn⟩ j, Finset.sum_range_succ _ (n + 1)]

/-! ### The two statistics -/

/-- The mean's array after the region is the mean of z over all nodes. -/
theorem val4_5 (c : Dev nD) :
    Spec.cur2 ((dat4 V c).arrAt 5 cfg4.N) = Spec.mean (zAll4 V c) := by
  funext p j
  refine (congrFun (final4_5 V c) (ix2 p j)).trans ?_
  unfold G4_5 oM4
  rw [pay2_4_apply, accS4_val V c p j 15 h15_4]
  exact Spec.mean_kernel_form_range (zAll4 V c) j (colZ4 V c j) (fun t ht => dif_pos ht)

/-- On real data the variance's array after the region is the variance of z over all nodes. -/
theorem val4_6 (c : Dev nD)
    (he : ∀ i k, Cert.Lib.IsReal (Spec.cur2 (V c main_v91) i k)) (hx : ∀ r k, Cert.Lib.IsReal (Spec.cur2 (V c main_v73) r k))
    (hagg : ∀ r k, Cert.Lib.IsReal (Spec.cur2 (V c main_v83) r k)) (hW : ∀ k j, Cert.Lib.IsReal (Spec.cur2 (V c main_v87) k j))
    (hb : ∀ i j, Cert.Lib.IsReal (Spec.cur2 (V c main_v92) i j)) :
    Spec.cur2 ((dat4 V c).arrAt 6 cfg4.N) = Spec.var (zAll4 V c) := by
  funext p j
  refine (congrFun (final4_6 V c) (ix2 p j)).trans ?_
  unfold G4_6 oV4
  rw [pay3_4_apply, accS4_val V c p j 15 h15_4, accQ4_val V c p j 15 h15_4]
  exact Spec.var_kernel_form_range (zAll4 V c) (Spec.isReal_z1 he hx hagg hW hb) j (colZ4 V c j) (colZZ4 V c j)
    (fun t ht => dif_pos ht) (fun t ht => dif_pos ht)

end Cert.KernelIdeal.Val

end
-- ==== Proof.KI.Pay5.lean ====
/- A second statistics pass, block by block, at the extended reals: what each stored value is at an index. The carried
   sums receive the block's column sums of the second linear map and of its square; both start at zero; and the last
   block's stores are S · 2⁻¹⁶ and Q · 2⁻¹⁶ − (S · 2⁻¹⁶)². -/
import proofs.«159011_j9938554322955_1_alg».proof.Proof.KI.Pay2Lib

noncomputable section

namespace Cert.KernelIdeal.Val

open Cert.KernelIdeal Cert.KernelIdeal.Gen
open Idealize.ShloMosaic Idealize.ShloMosaic.ValueIdx
open scoped BigOperators

/-! ### The payloads at an index -/

/-- The first linear map less the mean, times the reciprocal root of the offset variance. -/
theorem pay8_5_apply (e : Vec Ideal S1x64 .f32) (x a : Vec Ideal S4096x64 .f32) (W1 : Vec Ideal S64x128 .f32)
    (b1 m1 v1 : Vec Ideal S1x128 .f32) (y : Fin 4096) (j : Fin 128) :
    k5_pay8 e x a W1 b1 m1 v1 (ix2 y j)
      = (zblk1 e x a W1 b1 y j - m1 (ix2 0 j)) * Ideal.rsqrt (v1 (ix2 0 j) + Spec.cEps) := by
  unfold k5_pay8
  simp only [shapeCast_self, mulf_apply, addf_apply, subf_apply, truncf_apply, broadcast_apply, rsqrt_apply,
    row128_apply, row64_apply, mmA_apply]
  rfl

/-- The gain laid along the rows. -/
theorem pay9_5_apply (g1 : Vec Ideal S1x128 .f32) (y : Fin 4096) (j : Fin 128) :
    k5_pay9 g1 (ix2 y j) = g1 (ix2 0 j) := by
  unfold k5_pay9
  simp only [shapeCast_self, row128_apply]

/-- The second linear map from any two factors P and G of the normalised first one. -/
theorem pay1_5_apply (P G : FVec Ideal S4096x128 .f32) (be1 : Vec Ideal S1x128 .f32) (W2 : Vec Ideal S128x64 .f32)
    (b2 : Vec Ideal S1x64 .f32) (y : Fin 4096) (q : Fin 64) :
    k5_pay1 P G be1 W2 b2 (ix2 y q)
      = (∑ i : Fin 128, max (P (ix2 y i) * G (ix2 y i) + be1 (ix2 0 i)) 0 * W2 (ix2 i q)) + b2 (ix2 0 q) := by
  unfold k5_pay1
  simp only [shapeCast_self, mulf_apply, addf_apply, maximumf_apply, truncf_apply, broadcast_apply,
    row128_apply, row64_apply, mmB_apply, scalar_zero]

/-- The block's second linear map as the program computes it. -/
theorem pay1_8_9_5_apply (e : Vec Ideal S1x64 .f32) (x a : Vec Ideal S4096x64 .f32) (W1 : Vec Ideal S64x128 .f32)
    (b1 m1 v1 g1 be1 : Vec Ideal S1x128 .f32) (W2 : Vec Ideal S128x64 .f32) (b2 : Vec Ideal S1x64 .f32)
    (y : Fin 4096) (q : Fin 64) :
    k5_pay1 (k5_pay8 e x a W1 b1 m1 v1) (k5_pay9 g1) be1 W2 b2 (ix2 y q)
      = z2blk e x a W1 b1 m1 v1 g1 be1 W2 b2 y q := by
  rw [pay1_5_apply, z2blk_apply]
  simp only [pay8_5_apply, pay9_5_apply]

/-- The carried sum starts at zero. -/
theorem pay6_5_apply (p : Fin 1) (q : Fin 64) : k5_pay6 (F := Ideal) (ix2 p q) = 0 := by
  unfold k5_pay6
  simp only [shapeCast_self, broadcast_apply]
  exact scalar_zero

/-- The carried sum of squares starts at zero. -/
theorem pay7_5_apply (p : Fin 1) (q : Fin 64) : k5_pay7 (F := Ideal) (ix2 p q) = 0 := by
  unfold k5_pay7
  simp only [shapeCast_self, broadcast_apply]
  exact scalar_zero

/-- The carried sum s receives the block's column sum of the second linear map. -/
theorem pay2_5_apply (P G : FVec Ideal S4096x128 .f32) (be1 : Vec Ideal S1x128 .f32) (W2 : Vec Ideal S128x64 .f32)
    (b2 : Vec Ideal S1x64 .f32) (s : Vec Ideal S1x64 .f32) (p : Fin 1) (q : Fin 64) :
    k5_pay2 P G be1 W2 b2 s (ix2 p q) = s (ix2 p q) + ∑ y : Fin 4096, k5_pay1 P G be1 W2 b2 (ix2 y q) := by
  unfold k5_pay2
  simp only [shapeCast_self, addf_apply, cast64_apply]
  exact congrArg (s (ix2 p q) + ·) (colsum64_apply (k5_pay1 P G be1 W2 b2) _ _ q)

/-- The carried sum s receives the block's column sum of the square of the second linear map. -/
theorem pay3_5_apply (P G : FVec Ideal S4096x128 .f32) (be1 : Vec Ideal S1x128 .f32) (W2 : Vec Ideal S128x64 .f32)
    (b2 : Vec Ideal S1x64 .f32) (s : Vec Ideal S1x64 .f32) (p : Fin 1) (q : Fin 64) :
    k5_pay3 P G be1 W2 b2 s (ix2 p q)
      = s (ix2 p q) + ∑ y : Fin 4096, k5_pay1 P G be1 W2 b2 (ix2 y q) * k5_pay1 P G be1 W2 b2 (ix2 y q) := by
  unfold k5_pay3
  simp only [shapeCast_self, addf_apply, cast64_apply]
  refine congrArg (s (ix2 p q) + ·) ?_
  refine (colsum64_apply (mulf (k5_pay1 P G be1 W2 b2) (k5_pay1 P G be1 W2 b2)) _ _ q).trans ?_
  exact Finset.sum_congr rfl fun y _ => mulf_apply _ _ _

/-- The composed forms: the carried sums receive the block's column sums of the second linear map and of its square. -/
theorem pay2_z2blk_5 (e : Vec Ideal S1x64 .f32) (x a : Vec Ideal S4096x64 .f32) (W1 : Vec Ideal S64x128 .f32)
    (b1 m1 v1 g1 be1 : Vec Ideal S1x128 .f32) (W2 : Vec Ideal S128x64 .f32) (b2 : Vec Ideal S1x64 .f32)
    (s : Vec Ideal S1x64 .f32) (p : Fin 1) (q : Fin 64) :
    k5_pay2 (k5_pay8 e x a W1 b1 m1 v1) (k5_pay9 g1) be1 W2 b2 s (ix2 p q)
      = s (ix2 p q) + ∑ y : Fin 4096, z2blk e x a W1 b1 m1 v1 g1 be1 W2 b2 y q := by
  rw [pay2_5_apply]
  exact congrArg (s (ix2 p q) + ·) (Finset.sum_congr rfl fun y _ => pay1_8_9_5_apply e x a W1 b1 m1 v1 g1 be1 W2 b2 y q)

theorem pay3_z2blk_5 (e : Vec Ideal S1x64 .f32) (x a : Vec Ideal S4096x64 .f32) (W1 : Vec Ideal S64x128 .f32)
    (b1 m1 v1 g1 be1 : Vec Ideal S1x128 .f32) (W2 : Vec Ideal S128x64 .f32) (b2 : Vec Ideal S1x64 .f32)
    (s : Vec Ideal S1x64 .f32) (p : Fin 1) (q : Fin 64) :
    k5_pay3 (k5_pay8 e x a W1 b1 m1 v1) (k5_pay9 g1) be1 W2 b2 s (ix2 p q)
      = s (ix2 p q) + ∑ y : Fin 4096,
          z2blk e x a W1 b1 m1 v1 g1 be1 W2 b2 y q * z2blk e x a W1 b1 m1 v1 g1 be1 W2 b2 y q := by
  rw [pay3_5_apply]
  exact congrArg (s (ix2 p q) + ·) (Finset.sum_congr rfl fun y _ => by
    rw [pay1_8_9_5_apply e x a W1 b1 m1 v1 g1 be1 W2 b2 y q])

/-- The last block's first store: the sum times 2⁻¹⁶. -/
theorem pay4_5_apply (s : Vec Ideal S1x64 .f32) (p : Fin 1) (q : Fin 64) :
    k5_pay4 s (ix2 p q) = s (ix2 p q) * Ideal.ofBits .f32 Spec.wInvN := by
  unfold k5_pay4
  simp only [mulf_apply, broadcast_apply]
  rfl

/-- The last block's second store: the sum of squares times 2⁻¹⁶, minus the square of the first store. -/
theorem pay5_5_apply (s qq : Vec Ideal S1x64 .f32) (p : Fin 1) (q : Fin 64) :
    k5_pay5 s qq (ix2 p q)
      = qq (ix2 p q) * Ideal.ofBits .f32 Spec.wInvN - k5_pay4 s (ix2 p q) * k5_pay4 s (ix2 p q) := by
  unfold k5_pay5
  simp only [mulf_apply, subf_apply, broadcast_apply]
  rfl

/-- The same with the first store spelt out. -/
theorem pay5_5_apply' (s qq : Vec Ideal S1x64 .f32) (p : Fin 1) (q : Fin 64) :
    k5_pay5 s qq (ix2 p q)
      = qq (ix2 p q) * Ideal.ofBits .f32 Spec.wInvN
        - (s (ix2 p q) * Ideal.ofBits .f32 Spec.wInvN) * (s (ix2 p q) * Ideal.ofBits .f32 Spec.wInvN) := by
  rw [pay5_5_apply, pay4_5_apply]

end Cert.KernelIdeal.Val

end
-- ==== Proof.KI.Val5.lean ====
import proofs.«159011_j9938554322955_1_alg».proof.Proof.KI.Reg5
import proofs.«159011_j9938554322955_1_alg».proof.Proof.KI.Pay5
import proofs.«159011_j9938554322955_1_alg».proof.Proof.Math.Real
import proofs.«159011_j9938554322955_1_alg».proof.Proof.LibStats

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Lib (IsReal)
open scoped BigOperators

/-! # The second statistics kernel of a layer, on the extended reals

The region's two output arrays are the mean and the variance, over all 65536 nodes, of the layer's second linear map
Z2 — the first linear map normalised by the mean and variance the region is ENTERED with, clipped at zero, mapped to 64
features. The running sums after sixteen points are the sums over the sixteen blocks of the blocks' column sums; a block's
row y at point t is row 4096 t + y of the whole arrays; and S * 2^(-16), Q * 2^(-16) - (S * 2^(-16))^2 are the mean and,
on real data, the variance. -/

variable (V : (c : Dev nD) → (b : Ref sig .tc) → Buf (Elt Ideal) ((c : Thread nD τ).loc b))

/-- The layer's second linear map from the arrays the region is entered with. -/
noncomputable def Z2_5 (c : Dev nD) : Fin 65536 → Fin 64 → EReal :=
  Spec.z2 (Spec.relu (Spec.norm (Spec.z1 (Spec.cur2 (V c main_v109 : Vec Ideal S1x64 .f32)) (Spec.cur2 (V c main_v73 : Vec Ideal S65536x64 .f32)) (Spec.cur2 (V c main_v83 : Vec Ideal S65536x64 .f32)) (Spec.cur2 (V c main_v97 : Vec Ideal S64x128 .f32)) (Spec.cur2 (V c main_v110 : Vec Ideal S1x128 .f32)))
    (Spec.cur2 (V c main_v93_0 : Vec Ideal S1x128 .f32)) (Spec.cur2 (V c main_v93_1 : Vec Ideal S1x128 .f32)) (Spec.cur2 (V c main_v111 : Vec Ideal S1x128 .f32)) (Spec.cur2 (V c main_v112 : Vec Ideal S1x128 .f32)))) (Spec.cur2 (V c main_v105 : Vec Ideal S128x64 .f32)) (Spec.cur2 (V c main_v113 : Vec Ideal S1x64 .f32))

/-! ## The windows' index maps, decided over the grid -/

theorem idx5_0 : ∀ t : Fin cfg5.N, win5_0.index t (0 : Fin 2) = t.val ∧ win5_0.index t (1 : Fin 2) = 0 :=
  (by decide +kernel : ∀ t : Fin grid5.N, win5_0.index t (0 : Fin 2) = t.val ∧ win5_0.index t (1 : Fin 2) = 0)
theorem idx5_1 : ∀ t : Fin cfg5.N, win5_1.index t (0 : Fin 2) = t.val ∧ win5_1.index t (1 : Fin 2) = 0 :=
  (by decide +kernel : ∀ t : Fin grid5.N, win5_1.index t (0 : Fin 2) = t.val ∧ win5_1.index t (1 : Fin 2) = 0)
theorem idx5_2 : ∀ t : Fin cfg5.N, win5_2.index t (0 : Fin 2) = 0 ∧ win5_2.index t (1 : Fin 2) = 0 :=
  (by decide +kernel : ∀ t : Fin grid5.N, win5_2.index t (0 : Fin 2) = 0 ∧ win5_2.index t (1 : Fin 2) = 0)
theorem idx5_3 : ∀ t : Fin cfg5.N, win5_3.index t (0 : Fin 2) = 0 ∧ win5_3.index t (1 : Fin 2) = 0 :=
  (by decide +kernel : ∀ t : Fin grid5.N, win5_3.index t (0 : Fin 2) = 0 ∧ win5_3.index t (1 : Fin 2) = 0)
theorem idx5_4 : ∀ t : Fin cfg5.N, win5_4.index t (0 : Fin 2) = 0 ∧ win5_4.index t (1 : Fin 2) = 0 :=
  (by decide +kernel : ∀ t : Fin grid5.N, win5_4.index t (0 : Fin 2) = 0 ∧ win5_4.index t (1 : Fin 2) = 0)
theorem idx5_5 : ∀ t : Fin cfg5.N, win5_5.index t (0 : Fin 2) = 0 ∧ win5_5.index t (1 : Fin 2) = 0 :=
  (by decide +kernel : ∀ t : Fin grid5.N, win5_5.index t (0 : Fin 2) = 0 ∧ win5_5.index t (1 : Fin 2) = 0)
theorem idx5_6 : ∀ t : Fin cfg5.N, win5_6.index t (0 : Fin 2) = 0 ∧ win5_6.index t (1 : Fin 2) = 0 :=
  (by decide +kernel : ∀ t : Fin grid5.N, win5_6.index t (0 : Fin 2) = 0 ∧ win5_6.index t (1 : Fin 2) = 0)
theorem idx5_7 : ∀ t : Fin cfg5.N, win5_7.index t (0 : Fin 2) = 0 ∧ win5_7.index t (1 : Fin 2) = 0 :=
  (by decide +kernel : ∀ t : Fin grid5.N, win5_7.index t (0 : Fin 2) = 0 ∧ win5_7.index t (1 : Fin 2) = 0)
theorem idx5_8 : ∀ t : Fin cfg5.N, win5_8.index t (0 : Fin 2) = 0 ∧ win5_8.index t (1 : Fin 2) = 0 :=
  (by decide +kernel : ∀ t : Fin grid5.N, win5_8.index t (0 : Fin 2) = 0 ∧ win5_8.index t (1 : Fin 2) = 0)
theorem idx5_9 : ∀ t : Fin cfg5.N, win5_9.index t (0 : Fin 2) = 0 ∧ win5_9.index t (1 : Fin 2) = 0 :=
  (by decide +kernel : ∀ t : Fin grid5.N, win5_9.index t (0 : Fin 2) = 0 ∧ win5_9.index t (1 : Fin 2) = 0)
theorem idx5_10 : ∀ t : Fin cfg5.N, win5_10.index t (0 : Fin 2) = 0 ∧ win5_10.index t (1 : Fin 2) = 0 :=
  (by decide +kernel : ∀ t : Fin grid5.N, win5_10.index t (0 : Fin 2) = 0 ∧ win5_10.index t (1 : Fin 2) = 0)

/-! ## The blocks read off the arrays -/

/-- Row y of window 0's block at point t is row 4096 t + y of its array. -/
theorem blk5_0 (c : Dev nD) (t : Fin cfg5.N) (y : Fin 4096) (r : Fin 65536) (hr : r.val = 4096 * t.val + y.val) (k : Fin 64) :
    (iblk5 V c 0 t : Vec Ideal S4096x64 .f32) (ix2 y k) = Spec.cur2 (V c main_v73 : Vec Ideal S65536x64 .f32) r k := by
  obtain ⟨e0, e1⟩ := idx5_0 t
  show V c main_v73 (((cfg5.win 0).blk t).view.emb (ix2 y k)) = V c main_v73 (ix2 r k)
  refine congrArg _ ?_
  funext a; apply Fin.ext
  match a with
  | ⟨0, _⟩ => show win5_0.index t (0 : Fin 2) * 4096 + 1 * y.val = r.val; rw [e0, hr]; omega
  | ⟨1, _⟩ => show win5_0.index t (1 : Fin 2) * 64 + 1 * k.val = k.val; rw [e1]; omega
/-- Row y of window 1's block at point t is row 4096 t + y of its array. -/
theorem blk5_1 (c : Dev nD) (t : Fin cfg5.N) (y : Fin 4096) (r : Fin 65536) (hr : r.val = 4096 * t.val + y.val) (k : Fin 64) :
    (iblk5 V c 1 t : Vec Ideal S4096x64 .f32) (ix2 y k) = Spec.cur2 (V c main_v83 : Vec Ideal S65536x64 .f32) r k := by
  obtain ⟨e0, e1⟩ := idx5_1 t
  show V c main_v83 (((cfg5.win 1).blk t).view.emb (ix2 y k)) = V c main_v83 (ix2 r k)
  refine congrArg _ ?_
  funext a; apply Fin.ext
  match a with
  | ⟨0, _⟩ => show win5_1.index t (0 : Fin 2) * 4096 + 1 * y.val = r.val; rw [e0, hr]; omega
  | ⟨1, _⟩ => show win5_1.index t (1 : Fin 2) * 64 + 1 * k.val = k.val; rw [e1]; omega
/-- Window 2's block is its whole array at every point. -/
theorem blk5_2 (c : Dev nD) (t : Fin cfg5.N) : (iblk5 V c 2 t : Vec Ideal S1x64 .f32) = (V c main_v109 : Vec Ideal S1x64 .f32) := by
  obtain ⟨e0, e1⟩ := idx5_2 t
  funext j
  show V c main_v109 (((cfg5.win 2).blk t).view.emb j) = V c main_v109 j
  refine congrArg _ ?_
  funext a; apply Fin.ext
  match a with
  | ⟨0, _⟩ => show win5_2.index t (0 : Fin 2) * 1 + 1 * (j 0).val = (j 0).val; rw [e0]; omega
  | ⟨1, _⟩ => show win5_2.index t (1 : Fin 2) * 64 + 1 * (j 1).val = (j 1).val; rw [e1]; omega
/-- Window 3's block is its whole array at every point. -/
theorem blk5_3 (c : Dev nD) (t : Fin cfg5.N) : (iblk5 V c 3 t : Vec Ideal S64x128 .f32) = (V c main_v97 : Vec Ideal S64x128 .f32) := by
  obtain ⟨e0, e1⟩ := idx5_3 t
  funext j
  show V c main_v97 (((cfg5.win 3).blk t).view.emb j) = V c main_v97 j
  refine congrArg _ ?_
  funext a; apply Fin.ext
  match a with
  | ⟨0, _⟩ => show win5_3.index t (0 : Fin 2) * 64 + 1 * (j 0).val = (j 0).val; rw [e0]; omega
  | ⟨1, _⟩ => show win5_3.index t (1 : Fin 2) * 128 + 1 * (j 1).val = (j 1).val; rw [e1]; omega
/-- Window 4's block is its whole array at every point. -/
theorem blk5_4 (c : Dev nD) (t : Fin cfg5.N) : (iblk5 V c 4 t : Vec Ideal S1x128 .f32) = (V c main_v110 : Vec Ideal S1x128 .f32) := by
  obtain ⟨e0, e1⟩ := idx5_4 t
  funext j
  show V c main_v110 (((cfg5.win 4).blk t).view.emb j) = V c main_v110 j
  refine congrArg _ ?_
  funext a; apply Fin.ext
  match a with
  | ⟨0, _⟩ => show win5_4.index t (0 : Fin 2) * 1 + 1 * (j 0).val = (j 0).val; rw [e0]; omega
  | ⟨1, _⟩ => show win5_4.index t (1 : Fin 2) * 128 + 1 * (j 1).val = (j 1).val; rw [e1]; omega
/-- Window 5's block is its whole array at every point. -/
theorem blk5_5 (c : Dev nD) (t : Fin cfg5.N) : (iblk5 V c 5 t : Vec Ideal S1x128 .f32) = (V c main_v93_0 : Vec Ideal S1x128 .f32) := by
  obtain ⟨e0, e1⟩ := idx5_5 t
  funext j
  show V c main_v93_0 (((cfg5.win 5).blk t).view.emb j) = V c main_v93_0 j
  refine congrArg _ ?_
  funext a; apply Fin.ext
  match a with
  | ⟨0, _⟩ => show win5_5.index t (0 : Fin 2) * 1 + 1 * (j 0).val = (j 0).val; rw [e0]; omega
  | ⟨1, _⟩ => show win5_5.index t (1 : Fin 2) * 128 + 1 * (j 1).val = (j 1).val; rw [e1]; omega
/-- Window 6's block is its whole array at every point. -/
theorem blk5_6 (c : Dev nD) (t : Fin cfg5.N) : (iblk5 V c 6 t : Vec Ideal S1x128 .f32) = (V c main_v93_1 : Vec Ideal S1x128 .f32) := by
  obtain ⟨e0, e1⟩ := idx5_6 t
  funext j
  show V c main_v93_1 (((cfg5.win 6).blk t).view.emb j) = V c main_v93_1 j
  refine congrArg _ ?_
  funext a; apply Fin.ext
  match a with
  | ⟨0, _⟩ => show win5_6.index t (0 : Fin 2) * 1 + 1 * (j 0).val = (j 0).val; rw [e0]; omega
  | ⟨1, _⟩ => show win5_6.index t (1 : Fin 2) * 128 + 1 * (j 1).val = (j 1).val; rw [e1]; omega
/-- Window 7's block is its whole array at every point. -/
theorem blk5_7 (c : Dev nD) (t : Fin cfg5.N) : (iblk5 V c 7 t : Vec Ideal S1x128 .f32) = (V c main_v111 : Vec Ideal S1x128 .f32) := by
  obtain ⟨e0, e1⟩ := idx5_7 t
  funext j
  show V c main_v111 (((cfg5.win 7).blk t).view.emb j) = V c main_v111 j
  refine congrArg _ ?_
  funext a; apply Fin.ext
  match a with
  | ⟨0, _⟩ => show win5_7.index t (0 : Fin 2) * 1 + 1 * (j 0).val = (j 0).val; rw [e0]; omega
  | ⟨1, _⟩ => show win5_7.index t (1 : Fin 2) * 128 + 1 * (j 1).val = (j 1).val; rw [e1]; omega
/-- Window 8's block is its whole array at every point. -/
theorem blk5_8 (c : Dev nD) (t : Fin cfg5.N) : (iblk5 V c 8 t : Vec Ideal S1x128 .f32) = (V c main_v112 : Vec Ideal S1x128 .f32) := by
  obtain ⟨e0, e1⟩ := idx5_8 t
  funext j
  show V c main_v112 (((cfg5.win 8).blk t).view.emb j) = V c main_v112 j
  refine congrArg _ ?_
  funext a; apply Fin.ext
  match a with
  | ⟨0, _⟩ => show win5_8.index t (0 : Fin 2) * 1 + 1 * (j 0).val = (j 0).val; rw [e0]; omega
  | ⟨1, _⟩ => show win5_8.index t (1 : Fin 2) * 128 + 1 * (j 1).val = (j 1).val; rw [e1]; omega
/-- Window 9's block is its whole array at every point. -/
theorem blk5_9 (c : Dev nD) (t : Fin cfg5.N) : (iblk5 V c 9 t : Vec Ideal S128x64 .f32) = (V c main_v105 : Vec Ideal S128x64 .f32) := by
  obtain ⟨e0, e1⟩ := idx5_9 t
  funext j
  show V c main_v105 (((cfg5.win 9).blk t).view.emb j) = V c main_v105 j
  refine congrArg _ ?_
  funext a; apply Fin.ext
  match a with
  | ⟨0, _⟩ => show win5_9.index t (0 : Fin 2) * 128 + 1 * (j 0).val = (j 0).val; rw [e0]; omega
  | ⟨1, _⟩ => show win5_9.index t (1 : Fin 2) * 64 + 1 * (j 1).val = (j 1).val; rw [e1]; omega
/-- Window 10's block is its whole array at every point. -/
theorem blk5_10 (c : Dev nD) (t : Fin cfg5.N) : (iblk5 V c 10 t : Vec Ideal S1x64 .f32) = (V c main_v113 : Vec Ideal S1x64 .f32) := by
  obtain ⟨e0, e1⟩ := idx5_10 t
  funext j
  show V c main_v113 (((cfg5.win 10).blk t).view.emb j) = V c main_v113 j
  refine congrArg _ ?_
  funext a; apply Fin.ext
  match a with
  | ⟨0, _⟩ => show win5_10.index t (0 : Fin 2) * 1 + 1 * (j 0).val = (j 0).val; rw [e0]; omega
  | ⟨1, _⟩ => show win5_10.index t (1 : Fin 2) * 64 + 1 * (j 1).val = (j 1).val; rw [e1]; omega

/-! ## The blocks' column sums, and the running sums as sums over the points -/

/-- Block s's column sum of the second linear map at feature q (zero past the grid). -/
noncomputable def B5 (c : Dev nD) (q : Fin 64) (s : ℕ) : EReal :=
  if h : s < cfg5.N then ∑ y : Fin 4096, z2blk (iblk5 V c 2 ⟨s, h⟩) (iblk5 V c 0 ⟨s, h⟩) (iblk5 V c 1 ⟨s, h⟩) (iblk5 V c 3 ⟨s, h⟩) (iblk5 V c 4 ⟨s, h⟩) (iblk5 V c 5 ⟨s, h⟩) (iblk5 V c 6 ⟨s, h⟩) (iblk5 V c 7 ⟨s, h⟩) (iblk5 V c 8 ⟨s, h⟩) (iblk5 V c 9 ⟨s, h⟩) (iblk5 V c 10 ⟨s, h⟩) y q else 0
/-- Block s's column sum of its square. -/
noncomputable def C5 (c : Dev nD) (q : Fin 64) (s : ℕ) : EReal :=
  if h : s < cfg5.N then ∑ y : Fin 4096, z2blk (iblk5 V c 2 ⟨s, h⟩) (iblk5 V c 0 ⟨s, h⟩) (iblk5 V c 1 ⟨s, h⟩) (iblk5 V c 3 ⟨s, h⟩) (iblk5 V c 4 ⟨s, h⟩) (iblk5 V c 5 ⟨s, h⟩) (iblk5 V c 6 ⟨s, h⟩) (iblk5 V c 7 ⟨s, h⟩) (iblk5 V c 8 ⟨s, h⟩) (iblk5 V c 9 ⟨s, h⟩) (iblk5 V c 10 ⟨s, h⟩) y q * z2blk (iblk5 V c 2 ⟨s, h⟩) (iblk5 V c 0 ⟨s, h⟩) (iblk5 V c 1 ⟨s, h⟩) (iblk5 V c 3 ⟨s, h⟩) (iblk5 V c 4 ⟨s, h⟩) (iblk5 V c 5 ⟨s, h⟩) (iblk5 V c 6 ⟨s, h⟩) (iblk5 V c 7 ⟨s, h⟩) (iblk5 V c 8 ⟨s, h⟩) (iblk5 V c 9 ⟨s, h⟩) (iblk5 V c 10 ⟨s, h⟩) y q else 0

/-- After position n the two running sums are the sums of the first n + 1 blocks' column sums. -/
theorem sums5_apply (c : Dev nD) (q : Fin 64) : ∀ (n : ℕ) (h : n < cfg5.N),
    (sums5 V c n h).1 (ix2 0 q) = ∑ s ∈ Finset.range (n + 1), B5 V c q s
    ∧ (sums5 V c n h).2 (ix2 0 q) = ∑ s ∈ Finset.range (n + 1), C5 V c q s
  | 0, h => by
    have hB : B5 V c q 0 = ∑ y : Fin 4096, z2blk (iblk5 V c 2 ⟨0, h⟩) (iblk5 V c 0 ⟨0, h⟩) (iblk5 V c 1 ⟨0, h⟩) (iblk5 V c 3 ⟨0, h⟩) (iblk5 V c 4 ⟨0, h⟩) (iblk5 V c 5 ⟨0, h⟩) (iblk5 V c 6 ⟨0, h⟩) (iblk5 V c 7 ⟨0, h⟩) (iblk5 V c 8 ⟨0, h⟩) (iblk5 V c 9 ⟨0, h⟩) (iblk5 V c 10 ⟨0, h⟩) y q := dif_pos h
    have hC : C5 V c q 0 = ∑ y : Fin 4096, z2blk (iblk5 V c 2 ⟨0, h⟩) (iblk5 V c 0 ⟨0, h⟩) (iblk5 V c 1 ⟨0, h⟩) (iblk5 V c 3 ⟨0, h⟩) (iblk5 V c 4 ⟨0, h⟩) (iblk5 V c 5 ⟨0, h⟩) (iblk5 V c 6 ⟨0, h⟩) (iblk5 V c 7 ⟨0, h⟩) (iblk5 V c 8 ⟨0, h⟩) (iblk5 V c 9 ⟨0, h⟩) (iblk5 V c 10 ⟨0, h⟩) y q * z2blk (iblk5 V c 2 ⟨0, h⟩) (iblk5 V c 0 ⟨0, h⟩) (iblk5 V c 1 ⟨0, h⟩) (iblk5 V c 3 ⟨0, h⟩) (iblk5 V c 4 ⟨0, h⟩) (iblk5 V c 5 ⟨0, h⟩) (iblk5 V c 6 ⟨0, h⟩) (iblk5 V c 7 ⟨0, h⟩) (iblk5 V c 8 ⟨0, h⟩) (iblk5 V c 9 ⟨0, h⟩) (iblk5 V c 10 ⟨0, h⟩) y q := dif_pos h
    constructor
    · refine (pay2_z2blk_5 (iblk5 V c 2 ⟨0, h⟩) (iblk5 V c 0 ⟨0, h⟩) (iblk5 V c 1 ⟨0, h⟩) (iblk5 V c 3 ⟨0, h⟩) (iblk5 V c 4 ⟨0, h⟩) (iblk5 V c 5 ⟨0, h⟩) (iblk5 V c 6 ⟨0, h⟩) (iblk5 V c 7 ⟨0, h⟩) (iblk5 V c 8 ⟨0, h⟩) (iblk5 V c 9 ⟨0, h⟩) (iblk5 V c 10 ⟨0, h⟩) (k5_pay6 (F := Ideal)) 0 q).trans ?_
      rw [pay6_5_apply, zero_add, Finset.sum_range_one, hB]
    · refine (pay3_z2blk_5 (iblk5 V c 2 ⟨0, h⟩) (iblk5 V c 0 ⟨0, h⟩) (iblk5 V c 1 ⟨0, h⟩) (iblk5 V c 3 ⟨0, h⟩) (iblk5 V c 4 ⟨0, h⟩) (iblk5 V c 5 ⟨0, h⟩) (iblk5 V c 6 ⟨0, h⟩) (iblk5 V c 7 ⟨0, h⟩) (iblk5 V c 8 ⟨0, h⟩) (iblk5 V c 9 ⟨0, h⟩) (iblk5 V c 10 ⟨0, h⟩) (k5_pay7 (F := Ideal)) 0 q).trans ?_
      rw [pay7_5_apply, zero_add, Finset.sum_range_one, hC]
  | n + 1, h => by
    obtain ⟨ih1, ih2⟩ := sums5_apply c q n (Nat.lt_of_succ_lt h)
    have hB : B5 V c q (n + 1) = ∑ y : Fin 4096, z2blk (iblk5 V c 2 ⟨n + 1, h⟩) (iblk5 V c 0 ⟨n + 1, h⟩) (iblk5 V c 1 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) y q := dif_pos h
    have hC : C5 V c q (n + 1) = ∑ y : Fin 4096, z2blk (iblk5 V c 2 ⟨n + 1, h⟩) (iblk5 V c 0 ⟨n + 1, h⟩) (iblk5 V c 1 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) y q * z2blk (iblk5 V c 2 ⟨n + 1, h⟩) (iblk5 V c 0 ⟨n + 1, h⟩) (iblk5 V c 1 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) y q := dif_pos h
    constructor
    · refine (pay2_z2blk_5 (iblk5 V c 2 ⟨n + 1, h⟩) (iblk5 V c 0 ⟨n + 1, h⟩) (iblk5 V c 1 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (sums5 V c n (Nat.lt_of_succ_lt h)).1 0 q).trans ?_
      rw [ih1, Finset.sum_range_succ _ (n + 1), hB]
    · refine (pay3_z2blk_5 (iblk5 V c 2 ⟨n + 1, h⟩) (iblk5 V c 0 ⟨n + 1, h⟩) (iblk5 V c 1 ⟨n + 1, h⟩) (iblk5 V c 3 ⟨n + 1, h⟩) (iblk5 V c 4 ⟨n + 1, h⟩) (iblk5 V c 5 ⟨n + 1, h⟩) (iblk5 V c 6 ⟨n + 1, h⟩) (iblk5 V c 7 ⟨n + 1, h⟩) (iblk5 V c 8 ⟨n + 1, h⟩) (iblk5 V c 9 ⟨n + 1, h⟩) (iblk5 V c 10 ⟨n + 1, h⟩) (sums5 V c n (Nat.lt_of_succ_lt h)).2 0 q).trans ?_
      rw [ih2, Finset.sum_range_succ _ (n + 1), hC]

/-- A block's second linear map at row y is the whole one at row 4096 t + y. -/
theorem z2blk5_eq (c : Dev nD) (t : ℕ) (ht : t < 16) (y : Fin 4096) (q : Fin 64) :
    z2blk (iblk5 V c 2 ⟨t, lt_of_lt_of_eq ht (show 16 = cfg5.N from N_5.symm)⟩) (iblk5 V c 0 ⟨t, lt_of_lt_of_eq ht (show 16 = cfg5.N from N_5.symm)⟩) (iblk5 V c 1 ⟨t, lt_of_lt_of_eq ht (show 16 = cfg5.N from N_5.symm)⟩) (iblk5 V c 3 ⟨t, lt_of_lt_of_eq ht (show 16 = cfg5.N from N_5.symm)⟩) (iblk5 V c 4 ⟨t, lt_of_lt_of_eq ht (show 16 = cfg5.N from N_5.symm)⟩) (iblk5 V c 5 ⟨t, lt_of_lt_of_eq ht (show 16 = cfg5.N from N_5.symm)⟩) (iblk5 V c 6 ⟨t, lt_of_lt_of_eq ht (show 16 = cfg5.N from N_5.symm)⟩) (iblk5 V c 7 ⟨t, lt_of_lt_of_eq ht (show 16 = cfg5.N from N_5.symm)⟩) (iblk5 V c 8 ⟨t, lt_of_lt_of_eq ht (show 16 = cfg5.N from N_5.symm)⟩) (iblk5 V c 9 ⟨t, lt_of_lt_of_eq ht (show 16 = cfg5.N from N_5.symm)⟩) (iblk5 V c 10 ⟨t, lt_of_lt_of_eq ht (show 16 = cfg5.N from N_5.symm)⟩) y q = Z2_5 V c ⟨4096 * t + y.val, by omega⟩ q := by
  rw [blk5_2 V c, blk5_3 V c, blk5_4 V c, blk5_5 V c, blk5_6 V c, blk5_7 V c, blk5_8 V c, blk5_9 V c, blk5_10 V c]
  exact z2blk_eq_z2 _ _ _ _ _ _ _ _ _ _ _ _ _ y ⟨4096 * t + y.val, by omega⟩
    (fun k => blk5_0 V c _ y _ rfl k) (fun k => blk5_1 V c _ y _ rfl k) q

theorem hB5 (c : Dev nD) (q : Fin 64) (t : ℕ) (ht : t < 16) :
    B5 V c q t = ∑ y : Fin 4096, Z2_5 V c ⟨4096 * t + y.val, by omega⟩ q := by
  unfold B5
  rw [dif_pos (lt_of_lt_of_eq ht (show 16 = cfg5.N from N_5.symm))]
  exact Finset.sum_congr rfl fun y _ => z2blk5_eq V c t ht y q

theorem hC5 (c : Dev nD) (q : Fin 64) (t : ℕ) (ht : t < 16) :
    C5 V c q t = ∑ y : Fin 4096, Z2_5 V c ⟨4096 * t + y.val, by omega⟩ q * Z2_5 V c ⟨4096 * t + y.val, by omega⟩ q := by
  unfold C5
  rw [dif_pos (lt_of_lt_of_eq ht (show 16 = cfg5.N from N_5.symm))]
  exact Finset.sum_congr rfl fun y _ => by rw [z2blk5_eq V c t ht y q]

/-! ## The two output arrays -/

/-- The region's first output array is the mean of the second linear map over all nodes. -/
theorem val5_11 (c : Dev nD) :
    Spec.cur2 (n0 := 1) (n1 := 64) ((dat5 V c).arrAt ⟨11, Nat.le_of_ble_eq_true rfl⟩ cfg5.N) = Spec.mean (Z2_5 V c) := by
  funext p q
  obtain rfl : p = 0 := Subsingleton.elim _ _
  rw [final5_11]
  show k5_pay4 (total5 V c).1 (ix2 0 q) = _
  rw [pay4_5_apply, (sums5_apply V c q 15 _).1]
  exact Spec.mean_kernel_form_range (Z2_5 V c) q (B5 V c q) (hB5 V c q)

/-- On real data its second output array is the variance. -/
theorem val5_12 (c : Dev nD) (hz : ∀ r j, IsReal (Z2_5 V c r j)) :
    Spec.cur2 (n0 := 1) (n1 := 64) ((dat5 V c).arrAt ⟨12, Nat.le_of_ble_eq_true rfl⟩ cfg5.N) = Spec.var (Z2_5 V c) := by
  funext p q
  obtain rfl : p = 0 := Subsingleton.elim _ _
  rw [final5_12]
  show k5_pay5 (total5 V c).1 (total5 V c).2 (ix2 0 q) = _
  rw [pay5_5_apply', (sums5_apply V c q 15 _).1, (sums5_apply V c q 15 _).2]
  exact Spec.var_kernel_form_range (Z2_5 V c) hz q (B5 V c q) (C5 V c q) (hB5 V c q) (hC5 V c q)

/-- The second linear map is real when the arrays the region is entered with are, the entry variance being a nonnegative real. -/
theorem isReal_Z2_5 (c : Dev nD)
    (he : ∀ i k, IsReal (Spec.cur2 (V c main_v109 : Vec Ideal S1x64 .f32) i k)) (hx : ∀ r k, IsReal (Spec.cur2 (V c main_v73 : Vec Ideal S65536x64 .f32) r k)) (hagg : ∀ r k, IsReal (Spec.cur2 (V c main_v83 : Vec Ideal S65536x64 .f32) r k))
    (hW1 : ∀ k j, IsReal (Spec.cur2 (V c main_v97 : Vec Ideal S64x128 .f32) k j)) (hb1 : ∀ i j, IsReal (Spec.cur2 (V c main_v110 : Vec Ideal S1x128 .f32) i j))
    (hm1 : ∀ i j, IsReal (Spec.cur2 (V c main_v93_0 : Vec Ideal S1x128 .f32) i j)) (hv1 : ∀ i j, ∃ r : ℝ, 0 ≤ r ∧ Spec.cur2 (V c main_v93_1 : Vec Ideal S1x128 .f32) i j = (r : EReal))
    (hg1 : ∀ i j, IsReal (Spec.cur2 (V c main_v111 : Vec Ideal S1x128 .f32) i j)) (hbe1 : ∀ i j, IsReal (Spec.cur2 (V c main_v112 : Vec Ideal S1x128 .f32) i j))
    (hW2 : ∀ k j, IsReal (Spec.cur2 (V c main_v105 : Vec Ideal S128x64 .f32) k j)) (hb2 : ∀ i j, IsReal (Spec.cur2 (V c main_v113 : Vec Ideal S1x64 .f32) i j)) :
    ∀ r j, IsReal (Z2_5 V c r j) :=
  Spec.isReal_z2 (Spec.isReal_relu (Spec.isReal_norm_of (Spec.isReal_z1 he hx hagg hW1 hb1) hm1 hv1 hg1 hbe1)) hW2 hb2

/-- Both outputs at once, from the realness of the entry arrays. -/
theorem val5 (c : Dev nD)
    (he : ∀ i k, IsReal (Spec.cur2 (V c main_v109 : Vec Ideal S1x64 .f32) i k)) (hx : ∀ r k, IsReal (Spec.cur2 (V c main_v73 : Vec Ideal S65536x64 .f32) r k)) (hagg : ∀ r k, IsReal (Spec.cur2 (V c main_v83 : Vec Ideal S65536x64 .f32) r k))
    (hW1 : ∀ k j, IsReal (Spec.cur2 (V c main_v97 : Vec Ideal S64x128 .f32) k j)) (hb1 : ∀ i j, IsReal (Spec.cur2 (V c main_v110 : Vec Ideal S1x128 .f32) i j))
    (hm1 : ∀ i j, IsReal (Spec.cur2 (V c main_v93_0 : Vec Ideal S1x128 .f32) i j)) (hv1 : ∀ i j, ∃ r : ℝ, 0 ≤ r ∧ Spec.cur2 (V c main_v93_1 : Vec Ideal S1x128 .f32) i j = (r : EReal))
    (hg1 : ∀ i j, IsReal (Spec.cur2 (V c main_v111 : Vec Ideal S1x128 .f32) i j)) (hbe1 : ∀ i j, IsReal (Spec.cur2 (V c main_v112 : Vec Ideal S1x128 .f32) i j))
    (hW2 : ∀ k j, IsReal (Spec.cur2 (V c main_v105 : Vec Ideal S128x64 .f32) k j)) (hb2 : ∀ i j, IsReal (Spec.cur2 (V c main_v113 : Vec Ideal S1x64 .f32) i j)) :
    Spec.cur2 (n0 := 1) (n1 := 64) ((dat5 V c).arrAt ⟨11, Nat.le_of_ble_eq_true rfl⟩ cfg5.N) = Spec.mean (Z2_5 V c)
    ∧ Spec.cur2 (n0 := 1) (n1 := 64) ((dat5 V c).arrAt ⟨12, Nat.le_of_ble_eq_true rfl⟩ cfg5.N) = Spec.var (Z2_5 V c) :=
  ⟨val5_11 V c, val5_12 V c (isReal_Z2_5 V c he hx hagg hW1 hb1 hm1 hv1 hg1 hbe1 hW2 hb2)⟩

end Cert.KernelIdeal.Val

end
-- ==== Proof.KI.Val6.lean ====
/- What a region that finishes a layer leaves in its output array, at the extended reals: the second half of a layer as the
   specification states it, as a function of the arrays the region finds. The body's two matrix products are sums
   over the shared coordinate, its two casts to a shorter format are the identity, and every other step acts entry
   by entry; a block's row q at point t is row 4096·t + q of the array, and a one-row array is read whole at every
   point. No entry needs to be finite: the two sides are the same arrangement of the same operations. -/
import proofs.«159011_j9938554322955_1_alg».proof.Proof.KI.Reg6
import proofs.«159011_j9938554322955_1_alg».proof.Proof.Math.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ## The body's operations read at an index -/

/-- A product of a 4096 by 64 block with a 64 by 128 matrix into a zero accumulator, read at (q, j): the sum over the
    64 shared coordinates. -/
theorem mmA6_apply {φ₁ φ₂ : FTy} (lhs : FVec Ideal S4096x64 φ₁) (rhs : FVec Ideal S64x128 φ₂) (q : Fin 4096) (j : Fin 128) :
    matmul dot_S4096x64_S64x128_S4096x128_1_0_0_1_n_n none lhs rhs (constant S4096x128 .f32 0x00000000#32) (ix2 q j)
      = ∑ i : Fin 64, lhs (ix2 q i) * rhs (ix2 i j) := by
  refine (Ideal.matmul_constant_zero_apply dot_S4096x64_S64x128_S4096x128_1_0_0_1_n_n none lhs rhs (ix2 q j)).trans ?_
  rw [← Equiv.sum_comp (contrEquiv1 dot_S4096x64_S64x128_S4096x128_1_0_0_1_n_n 64 rfl rfl).symm]
  refine Finset.sum_congr rfl fun i _ => ?_
  have hl : dot_S4096x64_S64x128_S4096x128_1_0_0_1_n_n.lhsIdx (ix2 q j) ((contrEquiv1 dot_S4096x64_S64x128_S4096x128_1_0_0_1_n_n 64 rfl rfl).symm i) = ix2 q i := by
    funext a; apply Fin.ext
    match a with
    | ⟨0, _⟩ => rfl
    | ⟨1, _⟩ => exact (DotDims.lhsIdx_val_of_single _ rfl _ _).trans (contrEquiv1_symm_val _ 64 rfl rfl i)
  have hr : dot_S4096x64_S64x128_S4096x128_1_0_0_1_n_n.rhsIdx (ix2 q j) ((contrEquiv1 dot_S4096x64_S64x128_S4096x128_1_0_0_1_n_n 64 rfl rfl).symm i) = ix2 i j := by
    funext a; apply Fin.ext
    match a with
    | ⟨0, _⟩ => exact (DotDims.rhsIdx_val_of_single _ rfl _ _).trans (contrEquiv1_symm_val _ 64 rfl rfl i)
    | ⟨1, _⟩ => rfl
  rw [hl, hr]

/-- A product of a 4096 by 128 block with a 128 by 64 matrix into a zero accumulator, read at (q, j): the sum over the
    128 shared coordinates. -/
theorem mmB6_apply {φ₁ φ₂ : FTy} (lhs : FVec Ideal S4096x128 φ₁) (rhs : FVec Ideal S128x64 φ₂) (q : Fin 4096) (j : Fin 64) :
    matmul dot_S4096x128_S128x64_S4096x64_1_0_0_1_n_n none lhs rhs (constant S4096x64 .f32 0x00000000#32) (ix2 q j)
      = ∑ i : Fin 128, lhs (ix2 q i) * rhs (ix2 i j) := by
  refine (Ideal.matmul_constant_zero_apply dot_S4096x128_S128x64_S4096x64_1_0_0_1_n_n none lhs rhs (ix2 q j)).trans ?_
  rw [← Equiv.sum_comp (contrEquiv1 dot_S4096x128_S128x64_S4096x64_1_0_0_1_n_n 128 rfl rfl).symm]
  refine Finset.sum_congr rfl fun i _ => ?_
  have hl : dot_S4096x128_S128x64_S4096x64_1_0_0_1_n_n.lhsIdx (ix2 q j) ((contrEquiv1 dot_S4096x128_S128x64_S4096x64_1_0_0_1_n_n 128 rfl rfl).symm i) = ix2 q i := by
    funext a; apply Fin.ext
    match a with
    | ⟨0, _⟩ => rfl
    | ⟨1, _⟩ => exact (DotDims.lhsIdx_val_of_single _ rfl _ _).trans (contrEquiv1_symm_val _ 128 rfl rfl i)
  have hr : dot_S4096x128_S128x64_S4096x64_1_0_0_1_n_n.rhsIdx (ix2 q j) ((contrEquiv1 dot_S4096x128_S128x64_S4096x64_1_0_0_1_n_n 128 rfl rfl).symm i) = ix2 i j := by
    funext a; apply Fin.ext
    match a with
    | ⟨0, _⟩ => exact (DotDims.rhsIdx_val_of_single _ rfl _ _).trans (contrEquiv1_symm_val _ 128 rfl rfl i)
    | ⟨1, _⟩ => rfl
  rw [hl, hr]

/-- One row of 64 laid along each of 4096 rows, read at (q, k), is the row at k. -/
theorem bcastA6_apply (x : S1x64.Idx → EReal) (h : S1x64.Broadcasts S4096x64) (q : Fin 4096) (k : Fin 64) :
    broadcastTo S4096x64 x h (ix2 q k) = x (ix2 0 k) :=
  broadcastTo_apply x h (ix2 q k) (ix2 0 k) fun a => by
    match a with
    | ⟨0, _⟩ => rfl
    | ⟨1, _⟩ => rfl

/-- One row of 128 laid along each of 4096 rows, read at (q, j), is the row at j. -/
theorem bcastB6_apply (x : S1x128.Idx → EReal) (h : S1x128.Broadcasts S4096x128) (q : Fin 4096) (j : Fin 128) :
    broadcastTo S4096x128 x h (ix2 q j) = x (ix2 0 j) :=
  broadcastTo_apply x h (ix2 q j) (ix2 0 j) fun a => by
    match a with
    | ⟨0, _⟩ => rfl
    | ⟨1, _⟩ => rfl

/-- A reciprocal square root at an index is that of the element. -/
theorem rsqrt6_apply {s : Shape} {φ : FTy} (a : FVec Ideal s φ) (i : s.Idx) : rsqrt a i = Ideal.rsqrt (a i) := rfl

/-- The first normalisation's scaled factor at row q of a block, feature j: the combined features against column j
    of the first matrix, plus the bias, less the mean, times the reciprocal root of the offset variance, times the gain. -/
theorem k6_pay2_apply (X_2 : Vec Ideal S1x64 .f32) (X_0 X_1 : Vec Ideal S4096x64 .f32) (X_3 : Vec Ideal S64x128 .f32)
    (X_4 X_5 X_6 X_7 : Vec Ideal S1x128 .f32) (q : Fin 4096) (j : Fin 128) :
    k6_pay2 X_2 X_0 X_1 X_3 X_4 X_5 X_6 X_7 (ix2 q j)
      = ((∑ i : Fin 64, ((Spec.cOne + X_2 (ix2 0 i)) * X_0 (ix2 q i) + X_1 (ix2 q i)) * X_3 (ix2 i j)) + X_4 (ix2 0 j) - X_5 (ix2 0 j))
          * Ideal.rsqrt (X_6 (ix2 0 j) + Spec.cEps) * X_7 (ix2 0 j) := by
  unfold k6_pay2
  simp only [shapeCast_self, mulf_apply, addf_apply, subf_apply, truncf_apply, broadcast_apply, rsqrt6_apply,
    bcastB6_apply, bcastA6_apply, mmA6_apply]
  rfl

/-- The first normalisation's offset at any row of a block, feature j. -/
theorem k6_pay3_apply (X_8 : Vec Ideal S1x128 .f32) (q : Fin 4096) (j : Fin 128) :
    k6_pay3 X_8 (ix2 q j) = X_8 (ix2 0 j) := by
  unfold k6_pay3
  simp only [shapeCast_self, bcastB6_apply]

/-- The output at row q of a block, feature k, from the first normalisation's two factors P and Q: their sum clipped at
    zero against column k of the second matrix, plus the bias, normalised, clipped, plus the input. -/
theorem k6_pay1_apply (P Q : FVec Ideal S4096x128 .f32) (X_9 : Vec Ideal S128x64 .f32) (X_10 X_11 X_12 X_13 X_14 : Vec Ideal S1x64 .f32)
    (X_0 : Vec Ideal S4096x64 .f32) (q : Fin 4096) (k : Fin 64) :
    k6_pay1 P Q X_9 X_10 X_11 X_12 X_13 X_14 X_0 (ix2 q k)
      = max (((∑ j : Fin 128, max (P (ix2 q j) + Q (ix2 q j)) 0 * X_9 (ix2 j k)) + X_10 (ix2 0 k) - X_11 (ix2 0 k))
          * Ideal.rsqrt (X_12 (ix2 0 k) + Spec.cEps) * X_13 (ix2 0 k) + X_14 (ix2 0 k)) 0 + X_0 (ix2 q k) := by
  unfold k6_pay1
  simp only [shapeCast_self, mulf_apply, addf_apply, subf_apply, maximumf_apply, truncf_apply, broadcast_apply, rsqrt6_apply,
    bcastA6_apply, mmB6_apply]
  have hz : (FloatOps.ofBits FTy.f32 0x00000000#32 : Ideal FTy.f32) = (0 : EReal) := Ideal.ofBits_zero_f32
  rw [hz]
  rfl

/-! ## The blocks read at an index -/

/-- The block indices of the fifteen input windows, decided over the sixteen points: the two arrays of 65536 rows move
    with the point, every other array is one block. -/
theorem idx6_0 : ∀ t : Fin cfg6.N, win6_0.index t (0 : Fin 2) = t.val ∧ win6_0.index t (1 : Fin 2) = 0 :=
  (by decide +kernel : ∀ t : Fin grid6.N, _)
theorem idx6_1 : ∀ t : Fin cfg6.N, win6_1.index t (0 : Fin 2) = t.val ∧ win6_1.index t (1 : Fin 2) = 0 :=
  (by decide +kernel : ∀ t : Fin grid6.N, _)
theorem idx6_2 : ∀ t : Fin cfg6.N, win6_2.index t (0 : Fin 2) = 0 ∧ win6_2.index t (1 : Fin 2) = 0 :=
  (by decide +kernel : ∀ t : Fin grid6.N, _)
theorem idx6_3 : ∀ t : Fin cfg6.N, win6_3.index t (0 : Fin 2) = 0 ∧ win6_3.index t (1 : Fin 2) = 0 :=
  (by decide +kernel : ∀ t : Fin grid6.N, _)
theorem idx6_4 : ∀ t : Fin cfg6.N, win6_4.index t (0 : Fin 2) = 0 ∧ win6_4.index t (1 : Fin 2) = 0 :=
  (by decide +kernel : ∀ t : Fin grid6.N, _)
theorem idx6_5 : ∀ t : Fin cfg6.N, win6_5.index t (0 : Fin 2) = 0 ∧ win6_5.index t (1 : Fin 2) = 0 :=
  (by decide +kernel : ∀ t : Fin grid6.N, _)
theorem idx6_6 : ∀ t : Fin cfg6.N, win6_6.index t (0 : Fin 2) = 0 ∧ win6_6.index t (1 : Fin 2) = 0 :=
  (by decide +kernel : ∀ t : Fin grid6.N, _)
theorem idx6_7 : ∀ t : Fin cfg6.N, win6_7.index t (0 : Fin 2) = 0 ∧ win6_7.index t (1 : Fin 2) = 0 :=
  (by decide +kernel : ∀ t : Fin grid6.N, _)
theorem idx6_8 : ∀ t : Fin cfg6.N, win6_8.index t (0 : Fin 2) = 0 ∧ win6_8.index t (1 : Fin 2) = 0 :=
  (by decide +kernel : ∀ t : Fin grid6.N, _)
theorem idx6_9 : ∀ t : Fin cfg6.N, win6_9.index t (0 : Fin 2) = 0 ∧ win6_9.index t (1 : Fin 2) = 0 :=
  (by decide +kernel : ∀ t : Fin grid6.N, _)
theorem idx6_10 : ∀ t : Fin cfg6.N, win6_10.index t (0 : Fin 2) = 0 ∧ win6_10.index t (1 : Fin 2) = 0 :=
  (by decide +kernel : ∀ t : Fin grid6.N, _)
theorem idx6_11 : ∀ t : Fin cfg6.N, win6_11.index t (0 : Fin 2) = 0 ∧ win6_11.index t (1 : Fin 2) = 0 :=
  (by decide +kernel : ∀ t : Fin grid6.N, _)
theorem idx6_12 : ∀ t : Fin cfg6.N, win6_12.index t (0 : Fin 2) = 0 ∧ win6_12.index t (1 : Fin 2) = 0 :=
  (by decide +kernel : ∀ t : Fin grid6.N, _)
theorem idx6_13 : ∀ t : Fin cfg6.N, win6_13.index t (0 : Fin 2) = 0 ∧ win6_13.index t (1 : Fin 2) = 0 :=
  (by decide +kernel : ∀ t : Fin grid6.N, _)
theorem idx6_14 : ∀ t : Fin cfg6.N, win6_14.index t (0 : Fin 2) = 0 ∧ win6_14.index t (1 : Fin 2) = 0 :=
  (by decide +kernel : ∀ t : Fin grid6.N, _)

/-- Window 0's block at the point of row r holds, at place r % 4096, row r of its array. -/
theorem rows6_0 (A : S65536x64.Idx → Elt Ideal .f32) (r : Fin 65536) (k i : Fin 64) :
    ((cfg6.win 0).blk (pt6 (ix2 r k))).view.read (Elt Ideal) A (ix2 ⟨r.val % 4096, Nat.mod_lt _ (by decide)⟩ i) = A (ix2 r i) := by
  obtain ⟨e0, e1⟩ := idx6_0 (pt6 (ix2 r k))
  have hp : (pt6 (ix2 r k)).val = r.val / 4096 := rfl
  show A (((cfg6.win 0).blk (pt6 (ix2 r k))).view.emb (ix2 ⟨r.val % 4096, Nat.mod_lt _ (by decide)⟩ i)) = A (ix2 r i)
  refine congrArg A (funext fun a => Fin.ext ?_)
  match a with
  | ⟨0, _⟩ => show win6_0.index (pt6 (ix2 r k)) (0 : Fin 2) * 4096 + 1 * (r.val % 4096) = r.val; omega
  | ⟨1, _⟩ => show win6_0.index (pt6 (ix2 r k)) (1 : Fin 2) * 64 + 1 * i.val = i.val; omega

/-- Window 1's block at the point of row r holds, at place r % 4096, row r of its array. -/
theorem rows6_1 (A : S65536x64.Idx → Elt Ideal .f32) (r : Fin 65536) (k i : Fin 64) :
    ((cfg6.win 1).blk (pt6 (ix2 r k))).view.read (Elt Ideal) A (ix2 ⟨r.val % 4096, Nat.mod_lt _ (by decide)⟩ i) = A (ix2 r i) := by
  obtain ⟨e0, e1⟩ := idx6_1 (pt6 (ix2 r k))
  have hp : (pt6 (ix2 r k)).val = r.val / 4096 := rfl
  show A (((cfg6.win 1).blk (pt6 (ix2 r k))).view.emb (ix2 ⟨r.val % 4096, Nat.mod_lt _ (by decide)⟩ i)) = A (ix2 r i)
  refine congrArg A (funext fun a => Fin.ext ?_)
  match a with
  | ⟨0, _⟩ => show win6_1.index (pt6 (ix2 r k)) (0 : Fin 2) * 4096 + 1 * (r.val % 4096) = r.val; omega
  | ⟨1, _⟩ => show win6_1.index (pt6 (ix2 r k)) (1 : Fin 2) * 64 + 1 * i.val = i.val; omega

theorem whole6_2 (t : Fin cfg6.N) (A : S1x64.Idx → Elt Ideal .f32) : ((cfg6.win 2).blk t).view.read (Elt Ideal) A = A := by
  obtain ⟨e0, e1⟩ := idx6_2 t
  funext y
  show A (((cfg6.win 2).blk t).view.emb y) = A y
  refine congrArg A (funext fun a => Fin.ext ?_)
  match a with
  | ⟨0, _⟩ => show win6_2.index t (0 : Fin 2) * 1 + 1 * (y 0).val = (y 0).val; omega
  | ⟨1, _⟩ => show win6_2.index t (1 : Fin 2) * 64 + 1 * (y 1).val = (y 1).val; omega

theorem whole6_3 (t : Fin cfg6.N) (A : S64x128.Idx → Elt Ideal .f32) : ((cfg6.win 3).blk t).view.read (Elt Ideal) A = A := by
  obtain ⟨e0, e1⟩ := idx6_3 t
  funext y
  show A (((cfg6.win 3).blk t).view.emb y) = A y
  refine congrArg A (funext fun a => Fin.ext ?_)
  match a with
  | ⟨0, _⟩ => show win6_3.index t (0 : Fin 2) * 64 + 1 * (y 0).val = (y 0).val; omega
  | ⟨1, _⟩ => show win6_3.index t (1 : Fin 2) * 128 + 1 * (y 1).val = (y 1).val; omega

theorem whole6_4 (t : Fin cfg6.N) (A : S1x128.Idx → Elt Ideal .f32) : ((cfg6.win 4).blk t).view.read (Elt Ideal) A = A := by
  obtain ⟨e0, e1⟩ := idx6_4 t
  funext y
  show A (((cfg6.win 4).blk t).view.emb y) = A y
  refine congrArg A (funext fun a => Fin.ext ?_)
  match a with
  | ⟨0, _⟩ => show win6_4.index t (0 : Fin 2) * 1 + 1 * (y 0).val = (y 0).val; omega
  | ⟨1, _⟩ => show win6_4.index t (1 : Fin 2) * 128 + 1 * (y 1).val = (y 1).val; omega

theorem whole6_5 (t : Fin cfg6.N) (A : S1x128.Idx → Elt Ideal .f32) : ((cfg6.win 5).blk t).view.read (Elt Ideal) A = A := by
  obtain ⟨e0, e1⟩ := idx6_5 t
  funext y
  show A (((cfg6.win 5).blk t).view.emb y) = A y
  refine congrArg A (funext fun a => Fin.ext ?_)
  match a with
  | ⟨0, _⟩ => show win6_5.index t (0 : Fin 2) * 1 + 1 * (y 0).val = (y 0).val; omega
  | ⟨1, _⟩ => show win6_5.index t (1 : Fin 2) * 128 + 1 * (y 1).val = (y 1).val; omega

theorem whole6_6 (t : Fin cfg6.N) (A : S1x128.Idx → Elt Ideal .f32) : ((cfg6.win 6).blk t).view.read (Elt Ideal) A = A := by
  obtain ⟨e0, e1⟩ := idx6_6 t
  funext y
  show A (((cfg6.win 6).blk t).view.emb y) = A y
  refine congrArg A (funext fun a => Fin.ext ?_)
  match a with
  | ⟨0, _⟩ => show win6_6.index t (0 : Fin 2) * 1 + 1 * (y 0).val = (y 0).val; omega
  | ⟨1, _⟩ => show win6_6.index t (1 : Fin 2) * 128 + 1 * (y 1).val = (y 1).val; omega

theorem whole6_7 (t : Fin cfg6.N) (A : S1x128.Idx → Elt Ideal .f32) : ((cfg6.win 7).blk t).view.read (Elt Ideal) A = A := by
  obtain ⟨e0, e1⟩ := idx6_7 t
  funext y
  show A (((cfg6.win 7).blk t).view.emb y) = A y
  refine congrArg A (funext fun a => Fin.ext ?_)
  match a with
  | ⟨0, _⟩ => show win6_7.index t (0 : Fin 2) * 1 + 1 * (y 0).val = (y 0).val; omega
  | ⟨1, _⟩ => show win6_7.index t (1 : Fin 2) * 128 + 1 * (y 1).val = (y 1).val; omega

theorem whole6_8 (t : Fin cfg6.N) (A : S1x128.Idx → Elt Ideal .f32) : ((cfg6.win 8).blk t).view.read (Elt Ideal) A = A := by
  obtain ⟨e0, e1⟩ := idx6_8 t
  funext y
  show A (((cfg6.win 8).blk t).view.emb y) = A y
  refine congrArg A (funext fun a => Fin.ext ?_)
  match a with
  | ⟨0, _⟩ => show win6_8.index t (0 : Fin 2) * 1 + 1 * (y 0).val = (y 0).val; omega
  | ⟨1, _⟩ => show win6_8.index t (1 : Fin 2) * 128 + 1 * (y 1).val = (y 1).val; omega

theorem whole6_9 (t : Fin cfg6.N) (A : S128x64.Idx → Elt Ideal .f32) : ((cfg6.win 9).blk t).view.read (Elt Ideal) A = A := by
  obtain ⟨e0, e1⟩ := idx6_9 t
  funext y
  show A (((cfg6.win 9).blk t).view.emb y) = A y
  refine congrArg A (funext fun a => Fin.ext ?_)
  match a with
  | ⟨0, _⟩ => show win6_9.index t (0 : Fin 2) * 128 + 1 * (y 0).val = (y 0).val; omega
  | ⟨1, _⟩ => show win6_9.index t (1 : Fin 2) * 64 + 1 * (y 1).val = (y 1).val; omega

theorem whole6_10 (t : Fin cfg6.N) (A : S1x64.Idx → Elt Ideal .f32) : ((cfg6.win 10).blk t).view.read (Elt Ideal) A = A := by
  obtain ⟨e0, e1⟩ := idx6_10 t
  funext y
  show A (((cfg6.win 10).blk t).view.emb y) = A y
  refine congrArg A (funext fun a => Fin.ext ?_)
  match a with
  | ⟨0, _⟩ => show win6_10.index t (0 : Fin 2) * 1 + 1 * (y 0).val = (y 0).val; omega
  | ⟨1, _⟩ => show win6_10.index t (1 : Fin 2) * 64 + 1 * (y 1).val = (y 1).val; omega

theorem whole6_11 (t : Fin cfg6.N) (A : S1x64.Idx → Elt Ideal .f32) : ((cfg6.win 11).blk t).view.read (Elt Ideal) A = A := by
  obtain ⟨e0, e1⟩ := idx6_11 t
  funext y
  show A (((cfg6.win 11).blk t).view.emb y) = A y
  refine congrArg A (funext fun a => Fin.ext ?_)
  match a with
  | ⟨0, _⟩ => show win6_11.index t (0 : Fin 2) * 1 + 1 * (y 0).val = (y 0).val; omega
  | ⟨1, _⟩ => show win6_11.index t (1 : Fin 2) * 64 + 1 * (y 1).val = (y 1).val; omega

theorem whole6_12 (t : Fin cfg6.N) (A : S1x64.Idx → Elt Ideal .f32) : ((cfg6.win 12).blk t).view.read (Elt Ideal) A = A := by
  obtain ⟨e0, e1⟩ := idx6_12 t
  funext y
  show A (((cfg6.win 12).blk t).view.emb y) = A y
  refine congrArg A (funext fun a => Fin.ext ?_)
  match a with
  | ⟨0, _⟩ => show win6_12.index t (0 : Fin 2) * 1 + 1 * (y 0).val = (y 0).val; omega
  | ⟨1, _⟩ => show win6_12.index t (1 : Fin 2) * 64 + 1 * (y 1).val = (y 1).val; omega

theorem whole6_13 (t : Fin cfg6.N) (A : S1x64.Idx → Elt Ideal .f32) : ((cfg6.win 13).blk t).view.read (Elt Ideal) A = A := by
  obtain ⟨e0, e1⟩ := idx6_13 t
  funext y
  show A (((cfg6.win 13).blk t).view.emb y) = A y
  refine congrArg A (funext fun a => Fin.ext ?_)
  match a with
  | ⟨0, _⟩ => show win6_13.index t (0 : Fin 2) * 1 + 1 * (y 0).val = (y 0).val; omega
  | ⟨1, _⟩ => show win6_13.index t (1 : Fin 2) * 64 + 1 * (y 1).val = (y 1).val; omega

theorem whole6_14 (t : Fin cfg6.N) (A : S1x64.Idx → Elt Ideal .f32) : ((cfg6.win 14).blk t).view.read (Elt Ideal) A = A := by
  obtain ⟨e0, e1⟩ := idx6_14 t
  funext y
  show A (((cfg6.win 14).blk t).view.emb y) = A y
  refine congrArg A (funext fun a => Fin.ext ?_)
  match a with
  | ⟨0, _⟩ => show win6_14.index t (0 : Fin 2) * 1 + 1 * (y 0).val = (y 0).val; omega
  | ⟨1, _⟩ => show win6_14.index t (1 : Fin 2) * 64 + 1 * (y 1).val = (y 1).val; omega

/-! ## The output array -/

theorem zeros6 : (![0, 0] : Fin 2 → Nat) = fun _ => 0 := funext fun a => by fin_cases a <;> rfl

/-- What the body leaves in the output block is its one store's payload, each load reading its whole buffer. -/
theorem out6_15_eq (x_0 : Vec Ideal S4096x64 .f32) (x_1 : Vec Ideal S4096x64 .f32) (x_2 : Vec Ideal S1x64 .f32) (x_3 : Vec Ideal S64x128 .f32) (x_4 : Vec Ideal S1x128 .f32) (x_5 : Vec Ideal S1x128 .f32) (x_6 : Vec Ideal S1x128 .f32) (x_7 : Vec Ideal S1x128 .f32) (x_8 : Vec Ideal S1x128 .f32) (x_9 : Vec Ideal S128x64 .f32) (x_10 : Vec Ideal S1x64 .f32) (x_11 : Vec Ideal S1x64 .f32) (x_12 : Vec Ideal S1x64 .f32) (x_13 : Vec Ideal S1x64 .f32) (x_14 : Vec Ideal S1x64 .f32) :
    out6_15 x_0 x_1 x_2 x_3 x_4 x_5 x_6 x_7 x_8 x_9 x_10 x_11 x_12 x_13 x_14 = k6_pay1 (k6_pay2 x_2 x_0 x_1 x_3 x_4 x_5 x_6 x_7) (k6_pay3 x_8) x_9 x_10 x_11 x_12 x_13 x_14 x_0 := by
  unfold out6_15
  rw [View.canon_unit_zero zeros6]
  simp only [View.ld_unit_zero (S := S4096x64) zeros6, View.ld_unit_zero (S := S1x64) zeros6, View.ld_unit_zero (S := S64x128) zeros6,
    View.ld_unit_zero (S := S1x128) zeros6, View.ld_unit_zero (S := S128x64) zeros6]

theorem loc6_ix2 (r : Fin 65536) (k : Fin 64) : loc6 (ix2 r k) = ix2 ⟨r.val % 4096, Nat.mod_lt _ (by decide)⟩ k := rfl

variable (V : (c : Dev nD) → (b : Ref sig .tc) → Buf (Elt Ideal) ((c : Thread nD τ).loc b))

set_option maxHeartbeats 4000000 in
/-- The output array after the region: the second normalisation of the layer's second linear map, clipped at zero, plus
    the layer's input — all read off the arrays as the region finds them. -/
theorem val6_15 (c : Dev nD) :
    Spec.cur2 ((dat6 V c).arrAt 15 cfg6.N : S65536x64.Idx → EReal)
      = fun r k => Spec.relu (Spec.norm (Spec.z2 (Spec.relu (Spec.norm (Spec.z1 (Spec.cur2 (V c (Pipeline.arrRef spec6 2) : S1x64.Idx → EReal)) (Spec.cur2 (V c (Pipeline.arrRef spec6 0) : S65536x64.Idx → EReal)) (Spec.cur2 (V c (Pipeline.arrRef spec6 1) : S65536x64.Idx → EReal)) (Spec.cur2 (V c (Pipeline.arrRef spec6 3) : S64x128.Idx → EReal)) (Spec.cur2 (V c (Pipeline.arrRef spec6 4) : S1x128.Idx → EReal))) (Spec.cur2 (V c (Pipeline.arrRef spec6 5) : S1x128.Idx → EReal)) (Spec.cur2 (V c (Pipeline.arrRef spec6 6) : S1x128.Idx → EReal)) (Spec.cur2 (V c (Pipeline.arrRef spec6 7) : S1x128.Idx → EReal)) (Spec.cur2 (V c (Pipeline.arrRef spec6 8) : S1x128.Idx → EReal)))) (Spec.cur2 (V c (Pipeline.arrRef spec6 9) : S128x64.Idx → EReal)) (Spec.cur2 (V c (Pipeline.arrRef spec6 10) : S1x64.Idx → EReal))) (Spec.cur2 (V c (Pipeline.arrRef spec6 11) : S1x64.Idx → EReal)) (Spec.cur2 (V c (Pipeline.arrRef spec6 12) : S1x64.Idx → EReal)) (Spec.cur2 (V c (Pipeline.arrRef spec6 13) : S1x64.Idx → EReal)) (Spec.cur2 (V c (Pipeline.arrRef spec6 14) : S1x64.Idx → EReal))) r k + (Spec.cur2 (V c (Pipeline.arrRef spec6 0) : S65536x64.Idx → EReal)) r k := by
  have hfin : (dat6 V c).arrAt 15 cfg6.N = _ := final6_15 V c
  rw [hfin]
  funext r k
  simp only [Spec.cur2]
  rw [G6_15_apply]
  rw [whole6_2, whole6_3, whole6_4, whole6_5, whole6_6, whole6_7, whole6_8, whole6_9, whole6_10, whole6_11, whole6_12, whole6_13, whole6_14]
  generalize hX_0 : (((cfg6.win 0).blk (pt6 (ix2 r k))).view.read (Elt Ideal) (V c (Pipeline.arrRef spec6 0)) : Vec Ideal S4096x64 .f32) = X_0
  generalize hX_1 : (((cfg6.win 1).blk (pt6 (ix2 r k))).view.read (Elt Ideal) (V c (Pipeline.arrRef spec6 1)) : Vec Ideal S4096x64 .f32) = X_1
  have hr_0 : ∀ i : Fin 64, X_0 (ix2 ⟨r.val % 4096, Nat.mod_lt _ (by decide)⟩ i) = (V c (Pipeline.arrRef spec6 0) : S65536x64.Idx → EReal) (ix2 r i) :=
    fun i => by rw [← hX_0]; exact rows6_0 _ r k i
  have hr_1 : ∀ i : Fin 64, X_1 (ix2 ⟨r.val % 4096, Nat.mod_lt _ (by decide)⟩ i) = (V c (Pipeline.arrRef spec6 1) : S65536x64.Idx → EReal) (ix2 r i) :=
    fun i => by rw [← hX_1]; exact rows6_1 _ r k i
  rw [out6_15_eq, loc6_ix2, k6_pay1_apply]
  simp only [k6_pay2_apply, k6_pay3_apply, hr_0, hr_1]
  simp only [Spec.relu, Spec.norm, Spec.z2, Spec.z1, Spec.lin, Spec.combine, Spec.cur2]

end Cert.KernelIdeal.Val

end
-- ==== Proof.KI.Fin7.lean ====
/- The two statistics' arrays after a layer's first statistics pass: each is written back once, at the last point,
   whole, so it ends holding what the body stored there from the totals of the running sums. -/
import proofs.«159011_j9938554322955_1_alg».proof.Proof.KI.Reg7
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The last point is a point of the grid. -/
theorem h15_7 : 15 < cfg7.N := by rw [show cfg7.N = 16 from N_7]; decide

/-- The two outputs' one block sits at block index zero on both axes, at every point. -/
theorem idx7_5 : ∀ t : Fin cfg7.N, win7_5.index t (0 : Fin 2) = 0 ∧ win7_5.index t (1 : Fin 2) = 0 :=
  (by decide +kernel : ∀ t : Fin grid7.N, _)
theorem idx7_6 : ∀ t : Fin cfg7.N, win7_6.index t (0 : Fin 2) = 0 ∧ win7_6.index t (1 : Fin 2) = 0 :=
  (by decide +kernel : ∀ t : Fin grid7.N, _)

/-! ## The mean's array after the region -/

/-- What the mean's array holds after the region: the mean stored from the totals, the sums after the last point. -/
noncomputable def G7_5 (c : Dev nD) : S1x128.Idx → Elt F .f32 := oM7 (accS7 V c 15 h15_7)

/-- What the last point writes back is that array's one block. -/
theorem flushed7_5_eq (c : Dev nD) (t : Fin cfg7.N) (hf : (cfg7.win 5).flush t = true) :
    (dat7 V c).flushed 5 t = ((cfg7.win 5).blk t).view.read (Elt F) (G7_5 V c) := by
  have hN : t.val < 16 := lt_of_lt_of_eq t.isLt (show cfg7.N = 16 from N_7)
  have ht : t.val = 15 := by have := (flush7_5 t).mp hf; omega
  show (cfg7.win 5).cut (grid7.coords t) ((dat7 V c).after 5 t) = _
  rw [after7_5]
  obtain ⟨n, hn⟩ := t
  dsimp only at ht
  subst ht
  obtain ⟨e0, e1⟩ := idx7_5 ⟨15, hn⟩
  funext j
  show (oM7 (accS7 V c 15 hn)) j = G7_5 V c (((cfg7.win 5).blk ⟨15, hn⟩).view.emb j)
  unfold G7_5
  refine congrArg _ ?_
  funext a; apply Fin.ext
  match a with
  | ⟨0, _⟩ => show (j 0).val = win7_5.index ⟨15, hn⟩ (0 : Fin 2) * 1 + 1 * (j 0).val; omega
  | ⟨1, _⟩ => show (j 1).val = win7_5.index ⟨15, hn⟩ (1 : Fin 2) * 128 + 1 * (j 1).val; omega

/-- An index of the array is in a point's block iff each coordinate is in the block's range on its axis. -/
theorem mem_blk7_5 (t : Fin cfg7.N) (i : S1x128.Idx) :
    i ∈ ((cfg7.win 5).blk t).view.set ↔ ∀ a : Fin 2, win7_5.index t a * S1x128.size a ≤ (i a).val ∧ (i a).val < win7_5.index t a * S1x128.size a + S1x128.size a := by
  show i ∈ ((View.whole main_v161_0).slice (win7_5.rect t)).set ↔ _
  rw [View.set_slice_whole, Rect.mem_set_unit]
  exact Iff.rfl

/-- The last point's block is the whole array. -/
theorem cover7_5 (i : S1x128.Idx) : ∃ t : Fin cfg7.N, (cfg7.win 5).flush t = true ∧ i ∈ ((cfg7.win 5).blk t).view.set := by
  refine ⟨t7_15, (flush7_5 t7_15).mpr rfl, ?_⟩
  rw [mem_blk7_5]
  obtain ⟨e0, e1⟩ := idx7_5 t7_15
  have h0 : (i 0).val < 1 := (i 0).isLt
  have h1 : (i 1).val < 128 := (i 1).isLt
  intro a
  match a with
  | ⟨0, _⟩ => show win7_5.index t7_15 (0 : Fin 2) * 1 ≤ (i 0).val ∧ (i 0).val < win7_5.index t7_15 (0 : Fin 2) * 1 + 1; omega
  | ⟨1, _⟩ => show win7_5.index t7_15 (1 : Fin 2) * 128 ≤ (i 1).val ∧ (i 1).val < win7_5.index t7_15 (1 : Fin 2) * 128 + 128; omega

/-- The mean's array after the region, whole. -/
theorem final7_5 (c : Dev nD) : (dat7 V c).arrAt 5 cfg7.N = G7_5 V c :=
  (dat7 V c).arrAt_eq_of_cover 5 (G7_5 V c) (fun t hf => flushed7_5_eq V c t hf) cover7_5

/-! ## The variance's array after the region -/

/-- What the variance's array holds after the region: the variance stored from the totals, the sums after the last point. -/
noncomputable def G7_6 (c : Dev nD) : S1x128.Idx → Elt F .f32 := oV7 (accS7 V c 15 h15_7) (accQ7 V c 15 h15_7)

/-- What the last point writes back is that array's one block. -/
theorem flushed7_6_eq (c : Dev nD) (t : Fin cfg7.N) (hf : (cfg7.win 6).flush t = true) :
    (dat7 V c).flushed 6 t = ((cfg7.win 6).blk t).view.read (Elt F) (G7_6 V c) := by
  have hN : t.val < 16 := lt_of_lt_of_eq t.isLt (show cfg7.N = 16 from N_7)
  have ht : t.val = 15 := by have := (flush7_6 t).mp hf; omega
  show (cfg7.win 6).cut (grid7.coords t) ((dat7 V c).after 6 t) = _
  rw [after7_6]
  obtain ⟨n, hn⟩ := t
  dsimp only at ht
  subst ht
  obtain ⟨e0, e1⟩ := idx7_6 ⟨15, hn⟩
  funext j
  show (oV7 (accS7 V c 15 hn) (accQ7 V c 15 h15_7)) j = G7_6 V c (((cfg7.win 6).blk ⟨15, hn⟩).view.emb j)
  unfold G7_6
  refine congrArg _ ?_
  funext a; apply Fin.ext
  match a with
  | ⟨0, _⟩ => show (j 0).val = win7_6.index ⟨15, hn⟩ (0 : Fin 2) * 1 + 1 * (j 0).val; omega
  | ⟨1, _⟩ => show (j 1).val = win7_6.index ⟨15, hn⟩ (1 : Fin 2) * 128 + 1 * (j 1).val; omega

/-- An index of the array is in a point's block iff each coordinate is in the block's range on its axis. -/
theorem mem_blk7_6 (t : Fin cfg7.N) (i : S1x128.Idx) :
    i ∈ ((cfg7.win 6).blk t).view.set ↔ ∀ a : Fin 2, win7_6.index t a * S1x128.size a ≤ (i a).val ∧ (i a).val < win7_6.index t a * S1x128.size a + S1x128.size a := by
  show i ∈ ((View.whole main_v161_1).slice (win7_6.rect t)).set ↔ _
  rw [View.set_slice_whole, Rect.mem_set_unit]
  exact Iff.rfl

/-- The last point's block is the whole array. -/
theorem cover7_6 (i : S1x128.Idx) : ∃ t : Fin cfg7.N, (cfg7.win 6).flush t = true ∧ i ∈ ((cfg7.win 6).blk t).view.set := by
  refine ⟨t7_15, (flush7_6 t7_15).mpr rfl, ?_⟩
  rw [mem_blk7_6]
  obtain ⟨e0, e1⟩ := idx7_6 t7_15
  have h0 : (i 0).val < 1 := (i 0).isLt
  have h1 : (i 1).val < 128 := (i 1).isLt
  intro a
  match a with
  | ⟨0, _⟩ => show win7_6.index t7_15 (0 : Fin 2) * 1 ≤ (i 0).val ∧ (i 0).val < win7_6.index t7_15 (0 : Fin 2) * 1 + 1; omega
  | ⟨1, _⟩ => show win7_6.index t7_15 (1 : Fin 2) * 128 ≤ (i 1).val ∧ (i 1).val < win7_6.index t7_15 (1 : Fin 2) * 128 + 128; omega

/-- The variance's array after the region, whole. -/
theorem final7_6 (c : Dev nD) : (dat7 V c).arrAt 6 cfg7.N = G7_6 V c :=
  (dat7 V c).arrAt_eq_of_cover 6 (G7_6 V c) (fun t hf => flushed7_6_eq V c t hf) cover7_6

end Cert.KernelIdeal.Hand

end
-- ==== Proof.KI.Pay7.lean ====
/- A first statistics pass, block by block, at the extended reals: what each stored value is at an index. The carried
   sums receive the block's column sums of the first linear map z and of z · z; both start at zero; and the last block's
   stores are S · 2⁻¹⁶ and Q · 2⁻¹⁶ − (S · 2⁻¹⁶)². -/
import proofs.«159011_j9938554322955_1_alg».proof.Proof.KI.Pay1Lib

noncomputable section

namespace Cert.KernelIdeal.Val

open Cert.KernelIdeal Cert.KernelIdeal.Gen
open Idealize.ShloMosaic Idealize.ShloMosaic.ValueIdx
open scoped BigOperators

/-! ### The payloads at an index -/

/-- The block's first linear map as the program computes it. -/
theorem pay6_7_apply (e : Vec Ideal S1x64 .f32) (x a : Vec Ideal S4096x64 .f32) (W : Vec Ideal S64x128 .f32)
    (b : Vec Ideal S1x128 .f32) (y : Fin 4096) (j : Fin 128) :
    k7_pay6 e x a W b (ix2 y j) = zblk1 e x a W b y j := by
  unfold k7_pay6
  simp only [shapeCast_self, mulf_apply, addf_apply, truncf_apply, broadcast_apply, row128_apply, row64_apply, mmA_apply]
  rfl

/-- The carried sum starts at zero. -/
theorem pay4_7_apply (p : Fin 1) (j : Fin 128) : k7_pay4 (F := Ideal) (ix2 p j) = 0 := by
  unfold k7_pay4
  simp only [shapeCast_self, broadcast_apply]
  exact scalar_zero

/-- The carried sum of squares starts at zero. -/
theorem pay5_7_apply (p : Fin 1) (j : Fin 128) : k7_pay5 (F := Ideal) (ix2 p j) = 0 := by
  unfold k7_pay5
  simp only [shapeCast_self, broadcast_apply]
  exact scalar_zero

/-- The carried sum S receives the block's column sum of z. -/
theorem pay7_7_apply (e : Vec Ideal S1x64 .f32) (x a : Vec Ideal S4096x64 .f32) (W : Vec Ideal S64x128 .f32)
    (b : Vec Ideal S1x128 .f32) (S : Vec Ideal S1x128 .f32) (p : Fin 1) (j : Fin 128) :
    k7_pay7 e x a W b S (ix2 p j) = S (ix2 p j) + ∑ y : Fin 4096, zblk1 e x a W b y j := by
  unfold k7_pay7
  simp only [shapeCast_self, addf_apply, cast128_apply]
  refine congrArg (S (ix2 p j) + ·) ?_
  refine (colsum128_apply (k7_pay6 e x a W b) _ _ j).trans ?_
  exact Finset.sum_congr rfl fun y _ => pay6_7_apply e x a W b y j

/-- The carried sum Q receives the block's column sum of z · z. -/
theorem pay8_7_apply (e : Vec Ideal S1x64 .f32) (x a : Vec Ideal S4096x64 .f32) (W : Vec Ideal S64x128 .f32)
    (b : Vec Ideal S1x128 .f32) (Q : Vec Ideal S1x128 .f32) (p : Fin 1) (j : Fin 128) :
    k7_pay8 e x a W b Q (ix2 p j) = Q (ix2 p j) + ∑ y : Fin 4096, zblk1 e x a W b y j * zblk1 e x a W b y j := by
  unfold k7_pay8
  simp only [addf_apply, cast128_apply]
  refine congrArg (Q (ix2 p j) + ·) ?_
  refine (colsum128_apply (mulf (k7_pay6 e x a W b) (k7_pay6 e x a W b)) _ _ j).trans ?_
  refine Finset.sum_congr rfl fun y _ => ?_
  rw [mulf_apply, pay6_7_apply]

/-- The same through the store's identity cast. -/
theorem pay1_8_7_apply (e : Vec Ideal S1x64 .f32) (x a : Vec Ideal S4096x64 .f32) (W : Vec Ideal S64x128 .f32)
    (b : Vec Ideal S1x128 .f32) (Q : Vec Ideal S1x128 .f32) (p : Fin 1) (j : Fin 128) :
    k7_pay1 (k7_pay8 e x a W b Q) (ix2 p j)
      = Q (ix2 p j) + ∑ y : Fin 4096, zblk1 e x a W b y j * zblk1 e x a W b y j := by
  unfold k7_pay1
  simp only [shapeCast_self]
  exact pay8_7_apply e x a W b Q p j

/-- The identity cast in front of the store of Q. -/
theorem pay1_7_apply (v : FVec Ideal S1x128 .f32) : k7_pay1 v = v := by
  unfold k7_pay1
  simp only [shapeCast_self]

/-- The last block's first store: the sum times 2⁻¹⁶. -/
theorem pay2_7_apply (S : Vec Ideal S1x128 .f32) (p : Fin 1) (j : Fin 128) :
    k7_pay2 S (ix2 p j) = S (ix2 p j) * Ideal.ofBits .f32 Spec.wInvN := by
  unfold k7_pay2
  simp only [mulf_apply, broadcast_apply]
  rfl

/-- The last block's second store: the sum of squares times 2⁻¹⁶, minus the square of the first store. -/
theorem pay3_7_apply (S Q : Vec Ideal S1x128 .f32) (p : Fin 1) (j : Fin 128) :
    k7_pay3 S Q (ix2 p j)
      = Q (ix2 p j) * Ideal.ofBits .f32 Spec.wInvN
        - (S (ix2 p j) * Ideal.ofBits .f32 Spec.wInvN) * (S (ix2 p j) * Ideal.ofBits .f32 Spec.wInvN) := by
  unfold k7_pay3
  simp only [mulf_apply, subf_apply, broadcast_apply, pay2_7_apply]
  rfl

end Cert.KernelIdeal.Val

end
-- ==== Proof.KI.Val7.lean ====
/- A layer's first statistics pass at the extended reals. The sixteen points of the grid each add, to two running sums
   that start at zero, the column sums of z and of z · z over their block of 4096 nodes, z being the layer's first linear
   map of the combined features; the last point stores the total of z times 2⁻¹⁶ and the total of z · z times 2⁻¹⁶ minus
   the square of the first. Blocks are consecutive rows of the arrays, so the totals are the sums over all 65536 nodes,
   and on real data the two stored rows are the mean and the variance of z. -/
import proofs.«159011_j9938554322955_1_alg».proof.Proof.KI.Fin7
import proofs.«159011_j9938554322955_1_alg».proof.Proof.KI.Pay7
import proofs.«159011_j9938554322955_1_alg».proof.Proof.Math.Spec
import proofs.«159011_j9938554322955_1_alg».proof.Proof.Math.Real
import proofs.«159011_j9938554322955_1_alg».proof.Proof.LibStats

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! ### Blocks are rows of the arrays -/

/-- The printed index maps over the grid: the features and the neighbour sums move one block of rows per point; the
    offset, the matrix and the bias stay. -/
theorem idxIn7_0 : ∀ t : Fin cfg7.N, win7_0.index t (0 : Fin 2) = t.val ∧ win7_0.index t (1 : Fin 2) = 0 :=
  (by decide +kernel : ∀ t : Fin grid7.N, _)
theorem idxIn7_1 : ∀ t : Fin cfg7.N, win7_1.index t (0 : Fin 2) = t.val ∧ win7_1.index t (1 : Fin 2) = 0 :=
  (by decide +kernel : ∀ t : Fin grid7.N, _)
theorem idxIn7_2 : ∀ t : Fin cfg7.N, win7_2.index t (0 : Fin 2) = 0 ∧ win7_2.index t (1 : Fin 2) = 0 :=
  (by decide +kernel : ∀ t : Fin grid7.N, _)
theorem idxIn7_3 : ∀ t : Fin cfg7.N, win7_3.index t (0 : Fin 2) = 0 ∧ win7_3.index t (1 : Fin 2) = 0 :=
  (by decide +kernel : ∀ t : Fin grid7.N, _)
theorem idxIn7_4 : ∀ t : Fin cfg7.N, win7_4.index t (0 : Fin 2) = 0 ∧ win7_4.index t (1 : Fin 2) = 0 :=
  (by decide +kernel : ∀ t : Fin grid7.N, _)

/-- Row y of the features' block at point t is row 4096 · t + y of the array. -/
theorem blk7_0 (c : Dev nD) (t : Fin cfg7.N) (y : Fin 4096) (k : Fin 64) :
    (iblk7 V c 0 t : Vec Ideal S4096x64 .f32) (ix2 y k)
      = Spec.cur2 (V c main_v141) ⟨4096 * t.val + y.val, by have := lt_of_lt_of_eq t.isLt (show cfg7.N = 16 from N_7); omega⟩ k := by
  obtain ⟨e0, e1⟩ := idxIn7_0 t
  show V c main_v141 (((cfg7.win 0).blk t).view.emb (ix2 y k)) = V c main_v141 (ix2 _ k)
  refine congrArg (V c main_v141) ?_
  funext a; apply Fin.ext
  match a with
  | ⟨0, _⟩ => show win7_0.index t (0 : Fin 2) * 4096 + 1 * y.val = 4096 * t.val + y.val; omega
  | ⟨1, _⟩ => show win7_0.index t (1 : Fin 2) * 64 + 1 * k.val = k.val; omega

/-- Row y of the neighbour sums' block at point t is row 4096 · t + y of the array. -/
theorem blk7_1 (c : Dev nD) (t : Fin cfg7.N) (y : Fin 4096) (k : Fin 64) :
    (iblk7 V c 1 t : Vec Ideal S4096x64 .f32) (ix2 y k)
      = Spec.cur2 (V c main_v151) ⟨4096 * t.val + y.val, by have := lt_of_lt_of_eq t.isLt (show cfg7.N = 16 from N_7); omega⟩ k := by
  obtain ⟨e0, e1⟩ := idxIn7_1 t
  show V c main_v151 (((cfg7.win 1).blk t).view.emb (ix2 y k)) = V c main_v151 (ix2 _ k)
  refine congrArg (V c main_v151) ?_
  funext a; apply Fin.ext
  match a with
  | ⟨0, _⟩ => show win7_1.index t (0 : Fin 2) * 4096 + 1 * y.val = 4096 * t.val + y.val; omega
  | ⟨1, _⟩ => show win7_1.index t (1 : Fin 2) * 64 + 1 * k.val = k.val; omega

/-- The offset's block is its whole array, at every point. -/
theorem blk7_2 (c : Dev nD) (t : Fin cfg7.N) :
    Spec.cur2 (iblk7 V c 2 t : Vec Ideal S1x64 .f32) = Spec.cur2 (V c main_v159) := by
  obtain ⟨e0, e1⟩ := idxIn7_2 t
  funext r k
  show V c main_v159 (((cfg7.win 2).blk t).view.emb (ix2 r k)) = V c main_v159 (ix2 r k)
  refine congrArg (V c main_v159) ?_
  funext a; apply Fin.ext
  match a with
  | ⟨0, _⟩ => show win7_2.index t (0 : Fin 2) * 1 + 1 * r.val = r.val; omega
  | ⟨1, _⟩ => show win7_2.index t (1 : Fin 2) * 64 + 1 * k.val = k.val; omega

/-- The matrix's block is its whole array, at every point. -/
theorem blk7_3 (c : Dev nD) (t : Fin cfg7.N) :
    Spec.cur2 (iblk7 V c 3 t : Vec Ideal S64x128 .f32) = Spec.cur2 (V c main_v155) := by
  obtain ⟨e0, e1⟩ := idxIn7_3 t
  funext r k
  show V c main_v155 (((cfg7.win 3).blk t).view.emb (ix2 r k)) = V c main_v155 (ix2 r k)
  refine congrArg (V c main_v155) ?_
  funext a; apply Fin.ext
  match a with
  | ⟨0, _⟩ => show win7_3.index t (0 : Fin 2) * 64 + 1 * r.val = r.val; omega
  | ⟨1, _⟩ => show win7_3.index t (1 : Fin 2) * 128 + 1 * k.val = k.val; omega

/-- The bias's block is its whole array, at every point. -/
theorem blk7_4 (c : Dev nD) (t : Fin cfg7.N) :
    Spec.cur2 (iblk7 V c 4 t : Vec Ideal S1x128 .f32) = Spec.cur2 (V c main_v160) := by
  obtain ⟨e0, e1⟩ := idxIn7_4 t
  funext r k
  show V c main_v160 (((cfg7.win 4).blk t).view.emb (ix2 r k)) = V c main_v160 (ix2 r k)
  refine congrArg (V c main_v160) ?_
  funext a; apply Fin.ext
  match a with
  | ⟨0, _⟩ => show win7_4.index t (0 : Fin 2) * 1 + 1 * r.val = r.val; omega
  | ⟨1, _⟩ => show win7_4.index t (1 : Fin 2) * 128 + 1 * k.val = k.val; omega

/-! ### The first linear map on all nodes, and its block sums -/

/-- The layer's first linear map on all 65536 nodes, from the arrays the region finds. -/
noncomputable def zAll7 (c : Dev nD) : Fin 65536 → Fin 128 → EReal :=
  Spec.z1 (Spec.cur2 (V c main_v159)) (Spec.cur2 (V c main_v141)) (Spec.cur2 (V c main_v151)) (Spec.cur2 (V c main_v155)) (Spec.cur2 (V c main_v160))

/-- Row y of block t's linear map is row 4096 · t + y of the whole one. -/
theorem zblk7_at (c : Dev nD) (t : Fin cfg7.N) (y : Fin 4096) (j : Fin 128) :
    zblk1 (iblk7 V c 2 t) (iblk7 V c 0 t) (iblk7 V c 1 t) (iblk7 V c 3 t) (iblk7 V c 4 t) y j
      = zAll7 V c ⟨4096 * t.val + y.val, by have := lt_of_lt_of_eq t.isLt (show cfg7.N = 16 from N_7); omega⟩ j := by
  refine (zblk1_eq_z1 (iblk7 V c 2 t) (iblk7 V c 0 t) (iblk7 V c 1 t) (iblk7 V c 3 t) (iblk7 V c 4 t) (Spec.cur2 (V c main_v141)) (Spec.cur2 (V c main_v151)) y _
    (fun k => blk7_0 V c t y k) (fun k => blk7_1 V c t y k) j).trans ?_
  unfold zAll7
  rw [blk7_2 V c t, blk7_3 V c t, blk7_4 V c t]

/-- Block s's column sum of z at column j (zero past the grid). -/
noncomputable def colZ7 (c : Dev nD) (j : Fin 128) (s : ℕ) : EReal :=
  if h : s < 16 then ∑ y : Fin 4096, zAll7 V c ⟨4096 * s + y.val, by omega⟩ j else 0
/-- Block s's column sum of z · z at column j (zero past the grid). -/
noncomputable def colZZ7 (c : Dev nD) (j : Fin 128) (s : ℕ) : EReal :=
  if h : s < 16 then ∑ y : Fin 4096, zAll7 V c ⟨4096 * s + y.val, by omega⟩ j * zAll7 V c ⟨4096 * s + y.val, by omega⟩ j else 0

theorem sumZ7_at (c : Dev nD) (t : Fin cfg7.N) (j : Fin 128) :
    ∑ y : Fin 4096, zblk1 (iblk7 V c 2 t) (iblk7 V c 0 t) (iblk7 V c 1 t) (iblk7 V c 3 t) (iblk7 V c 4 t) y j = colZ7 V c j t.val := by
  have hN : t.val < 16 := lt_of_lt_of_eq t.isLt (show cfg7.N = 16 from N_7)
  unfold colZ7; rw [dif_pos hN]
  exact Finset.sum_congr rfl fun y _ => zblk7_at V c t y j

theorem sumZZ7_at (c : Dev nD) (t : Fin cfg7.N) (j : Fin 128) :
    ∑ y : Fin 4096, zblk1 (iblk7 V c 2 t) (iblk7 V c 0 t) (iblk7 V c 1 t) (iblk7 V c 3 t) (iblk7 V c 4 t) y j * zblk1 (iblk7 V c 2 t) (iblk7 V c 0 t) (iblk7 V c 1 t) (iblk7 V c 3 t) (iblk7 V c 4 t) y j = colZZ7 V c j t.val := by
  have hN : t.val < 16 := lt_of_lt_of_eq t.isLt (show cfg7.N = 16 from N_7)
  unfold colZZ7; rw [dif_pos hN]
  exact Finset.sum_congr rfl fun y _ => by rw [zblk7_at V c t y j]

/-! ### The running sums, closed -/

/-- After point n the first scratch row holds the column sums of z over the blocks up to n. -/
theorem accS7_val (c : Dev nD) (p : Fin 1) (j : Fin 128) :
    ∀ (n : ℕ) (hn : n < cfg7.N), accS7 V c n hn (ix2 p j) = ∑ s ∈ Finset.range (n + 1), colZ7 V c j s
  | 0, hn => by
    show sS7 (iblk7 V c 0 ⟨0, hn⟩) (iblk7 V c 1 ⟨0, hn⟩) (iblk7 V c 2 ⟨0, hn⟩) (iblk7 V c 3 ⟨0, hn⟩) (iblk7 V c 4 ⟨0, hn⟩) zS7 (ix2 p j) = _
    unfold sS7 zS7
    rw [pay7_7_apply, pay4_7_apply, zero_add, sumZ7_at V c ⟨0, hn⟩ j, Finset.sum_range_succ, Finset.sum_range_zero, zero_add]
  | n + 1, hn => by
    show sS7 (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩)
      (accS7 V c n (Nat.lt_of_succ_lt hn)) (ix2 p j) = _
    unfold sS7
    rw [pay7_7_apply, accS7_val c p j n (Nat.lt_of_succ_lt hn), sumZ7_at V c ⟨n + 1, hn⟩ j, Finset.sum_range_succ _ (n + 1)]

/-- After point n the second scratch row holds the column sums of z · z over the blocks up to n. -/
theorem accQ7_val (c : Dev nD) (p : Fin 1) (j : Fin 128) :
    ∀ (n : ℕ) (hn : n < cfg7.N), accQ7 V c n hn (ix2 p j) = ∑ s ∈ Finset.range (n + 1), colZZ7 V c j s
  | 0, hn => by
    show sQ7 (iblk7 V c 0 ⟨0, hn⟩) (iblk7 V c 1 ⟨0, hn⟩) (iblk7 V c 2 ⟨0, hn⟩) (iblk7 V c 3 ⟨0, hn⟩) (iblk7 V c 4 ⟨0, hn⟩) zQ7 (ix2 p j) = _
    unfold sQ7 zQ7
    rw [pay1_8_7_apply, pay5_7_apply, zero_add, sumZZ7_at V c ⟨0, hn⟩ j, Finset.sum_range_succ, Finset.sum_range_zero, zero_add]
  | n + 1, hn => by
    show sQ7 (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩)
      (accQ7 V c n (Nat.lt_of_succ_lt hn)) (ix2 p j) = _
    unfold sQ7
    rw [pay1_8_7_apply, accQ7_val c p j n (Nat.lt_of_succ_lt hn), sumZZ7_at V c ⟨n + 1, hn⟩ j, Finset.sum_range_succ _ (n + 1)]

/-! ### The two statistics -/

/-- The mean's array after the region is the mean of z over all nodes. -/
theorem val7_5 (c : Dev nD) :
    Spec.cur2 ((dat7 V c).arrAt 5 cfg7.N) = Spec.mean (zAll7 V c) := by
  funext p j
  refine (congrFun (final7_5 V c) (ix2 p j)).trans ?_
  unfold G7_5 oM7
  rw [pay2_7_apply, accS7_val V c p j 15 h15_7]
  exact Spec.mean_kernel_form_range (zAll7 V c) j (colZ7 V c j) (fun t ht => dif_pos ht)

/-- On real data the variance's array after the region is the variance of z over all nodes. -/
theorem val7_6 (c : Dev nD)
    (he : ∀ i k, Cert.Lib.IsReal (Spec.cur2 (V c main_v159) i k)) (hx : ∀ r k, Cert.Lib.IsReal (Spec.cur2 (V c main_v141) r k))
    (hagg : ∀ r k, Cert.Lib.IsReal (Spec.cur2 (V c main_v151) r k)) (hW : ∀ k j, Cert.Lib.IsReal (Spec.cur2 (V c main_v155) k j))
    (hb : ∀ i j, Cert.Lib.IsReal (Spec.cur2 (V c main_v160) i j)) :
    Spec.cur2 ((dat7 V c).arrAt 6 cfg7.N) = Spec.var (zAll7 V c) := by
  funext p j
  refine (congrFun (final7_6 V c) (ix2 p j)).trans ?_
  unfold G7_6 oV7
  rw [pay3_7_apply, accS7_val V c p j 15 h15_7, accQ7_val V c p j 15 h15_7]
  exact Spec.var_kernel_form_range (zAll7 V c) (Spec.isReal_z1 he hx hagg hW hb) j (colZ7 V c j) (colZZ7 V c j)
    (fun t ht => dif_pos ht) (fun t ht => dif_pos ht)

end Cert.KernelIdeal.Val

end
-- ==== Proof.KI.Pay8.lean ====
/- A second statistics pass, block by block, at the extended reals: what each stored value is at an index. The carried
   sums receive the block's column sums of the second linear map and of its square; both start at zero; and the last
   block's stores are S · 2⁻¹⁶ and Q · 2⁻¹⁶ − (S · 2⁻¹⁶)². -/
import proofs.«159011_j9938554322955_1_alg».proof.Proof.KI.Pay2Lib

noncomputable section

namespace Cert.KernelIdeal.Val

open Cert.KernelIdeal Cert.KernelIdeal.Gen
open Idealize.ShloMosaic Idealize.ShloMosaic.ValueIdx
open scoped BigOperators

/-! ### The payloads at an index -/

/-- The first linear map less the mean, times the reciprocal root of the offset variance. -/
theorem pay8_8_apply (e : Vec Ideal S1x64 .f32) (x a : Vec Ideal S4096x64 .f32) (W1 : Vec Ideal S64x128 .f32)
    (b1 m1 v1 : Vec Ideal S1x128 .f32) (y : Fin 4096) (j : Fin 128) :
    k8_pay8 e x a W1 b1 m1 v1 (ix2 y j)
      = (zblk1 e x a W1 b1 y j - m1 (ix2 0 j)) * Ideal.rsqrt (v1 (ix2 0 j) + Spec.cEps) := by
  unfold k8_pay8
  simp only [shapeCast_self, mulf_apply, addf_apply, subf_apply, truncf_apply, broadcast_apply, rsqrt_apply,
    row128_apply, row64_apply, mmA_apply]
  rfl

/-- The gain laid along the rows. -/
theorem pay9_8_apply (g1 : Vec Ideal S1x128 .f32) (y : Fin 4096) (j : Fin 128) :
    k8_pay9 g1 (ix2 y j) = g1 (ix2 0 j) := by
  unfold k8_pay9
  simp only [shapeCast_self, row128_apply]

/-- The second linear map from any two factors P and G of the normalised first one. -/
theorem pay1_8_apply (P G : FVec Ideal S4096x128 .f32) (be1 : Vec Ideal S1x128 .f32) (W2 : Vec Ideal S128x64 .f32)
    (b2 : Vec Ideal S1x64 .f32) (y : Fin 4096) (q : Fin 64) :
    k8_pay1 P G be1 W2 b2 (ix2 y q)
      = (∑ i : Fin 128, max (P (ix2 y i) * G (ix2 y i) + be1 (ix2 0 i)) 0 * W2 (ix2 i q)) + b2 (ix2 0 q) := by
  unfold k8_pay1
  simp only [shapeCast_self, mulf_apply, addf_apply, maximumf_apply, truncf_apply, broadcast_apply,
    row128_apply, row64_apply, mmB_apply, scalar_zero]

/-- The block's second linear map as the program computes it. -/
theorem pay1_8_9_8_apply (e : Vec Ideal S1x64 .f32) (x a : Vec Ideal S4096x64 .f32) (W1 : Vec Ideal S64x128 .f32)
    (b1 m1 v1 g1 be1 : Vec Ideal S1x128 .f32) (W2 : Vec Ideal S128x64 .f32) (b2 : Vec Ideal S1x64 .f32)
    (y : Fin 4096) (q : Fin 64) :
    k8_pay1 (k8_pay8 e x a W1 b1 m1 v1) (k8_pay9 g1) be1 W2 b2 (ix2 y q)
      = z2blk e x a W1 b1 m1 v1 g1 be1 W2 b2 y q := by
  rw [pay1_8_apply, z2blk_apply]
  simp only [pay8_8_apply, pay9_8_apply]

/-- The carried sum starts at zero. -/
theorem pay6_8_apply (p : Fin 1) (q : Fin 64) : k8_pay6 (F := Ideal) (ix2 p q) = 0 := by
  unfold k8_pay6
  simp only [shapeCast_self, broadcast_apply]
  exact scalar_zero

/-- The carried sum of squares starts at zero. -/
theorem pay7_8_apply (p : Fin 1) (q : Fin 64) : k8_pay7 (F := Ideal) (ix2 p q) = 0 := by
  unfold k8_pay7
  simp only [shapeCast_self, broadcast_apply]
  exact scalar_zero

/-- The carried sum s receives the block's column sum of the second linear map. -/
theorem pay2_8_apply (P G : FVec Ideal S4096x128 .f32) (be1 : Vec Ideal S1x128 .f32) (W2 : Vec Ideal S128x64 .f32)
    (b2 : Vec Ideal S1x64 .f32) (s : Vec Ideal S1x64 .f32) (p : Fin 1) (q : Fin 64) :
    k8_pay2 P G be1 W2 b2 s (ix2 p q) = s (ix2 p q) + ∑ y : Fin 4096, k8_pay1 P G be1 W2 b2 (ix2 y q) := by
  unfold k8_pay2
  simp only [shapeCast_self, addf_apply, cast64_apply]
  exact congrArg (s (ix2 p q) + ·) (colsum64_apply (k8_pay1 P G be1 W2 b2) _ _ q)

/-- The carried sum s receives the block's column sum of the square of the second linear map. -/
theorem pay3_8_apply (P G : FVec Ideal S4096x128 .f32) (be1 : Vec Ideal S1x128 .f32) (W2 : Vec Ideal S128x64 .f32)
    (b2 : Vec Ideal S1x64 .f32) (s : Vec Ideal S1x64 .f32) (p : Fin 1) (q : Fin 64) :
    k8_pay3 P G be1 W2 b2 s (ix2 p q)
      = s (ix2 p q) + ∑ y : Fin 4096, k8_pay1 P G be1 W2 b2 (ix2 y q) * k8_pay1 P G be1 W2 b2 (ix2 y q) := by
  unfold k8_pay3
  simp only [shapeCast_self, addf_apply, cast64_apply]
  refine congrArg (s (ix2 p q) + ·) ?_
  refine (colsum64_apply (mulf (k8_pay1 P G be1 W2 b2) (k8_pay1 P G be1 W2 b2)) _ _ q).trans ?_
  exact Finset.sum_congr rfl fun y _ => mulf_apply _ _ _

/-- The composed forms: the carried sums receive the block's column sums of the second linear map and of its square. -/
theorem pay2_z2blk_8 (e : Vec Ideal S1x64 .f32) (x a : Vec Ideal S4096x64 .f32) (W1 : Vec Ideal S64x128 .f32)
    (b1 m1 v1 g1 be1 : Vec Ideal S1x128 .f32) (W2 : Vec Ideal S128x64 .f32) (b2 : Vec Ideal S1x64 .f32)
    (s : Vec Ideal S1x64 .f32) (p : Fin 1) (q : Fin 64) :
    k8_pay2 (k8_pay8 e x a W1 b1 m1 v1) (k8_pay9 g1) be1 W2 b2 s (ix2 p q)
      = s (ix2 p q) + ∑ y : Fin 4096, z2blk e x a W1 b1 m1 v1 g1 be1 W2 b2 y q := by
  rw [pay2_8_apply]
  exact congrArg (s (ix2 p q) + ·) (Finset.sum_congr rfl fun y _ => pay1_8_9_8_apply e x a W1 b1 m1 v1 g1 be1 W2 b2 y q)

theorem pay3_z2blk_8 (e : Vec Ideal S1x64 .f32) (x a : Vec Ideal S4096x64 .f32) (W1 : Vec Ideal S64x128 .f32)
    (b1 m1 v1 g1 be1 : Vec Ideal S1x128 .f32) (W2 : Vec Ideal S128x64 .f32) (b2 : Vec Ideal S1x64 .f32)
    (s : Vec Ideal S1x64 .f32) (p : Fin 1) (q : Fin 64) :
    k8_pay3 (k8_pay8 e x a W1 b1 m1 v1) (k8_pay9 g1) be1 W2 b2 s (ix2 p q)
      = s (ix2 p q) + ∑ y : Fin 4096,
          z2blk e x a W1 b1 m1 v1 g1 be1 W2 b2 y q * z2blk e x a W1 b1 m1 v1 g1 be1 W2 b2 y q := by
  rw [pay3_8_apply]
  exact congrArg (s (ix2 p q) + ·) (Finset.sum_congr rfl fun y _ => by
    rw [pay1_8_9_8_apply e x a W1 b1 m1 v1 g1 be1 W2 b2 y q])

/-- The last block's first store: the sum times 2⁻¹⁶. -/
theorem pay4_8_apply (s : Vec Ideal S1x64 .f32) (p : Fin 1) (q : Fin 64) :
    k8_pay4 s (ix2 p q) = s (ix2 p q) * Ideal.ofBits .f32 Spec.wInvN := by
  unfold k8_pay4
  simp only [mulf_apply, broadcast_apply]
  rfl

/-- The last block's second store: the sum of squares times 2⁻¹⁶, minus the square of the first store. -/
theorem pay5_8_apply (s qq : Vec Ideal S1x64 .f32) (p : Fin 1) (q : Fin 64) :
    k8_pay5 s qq (ix2 p q)
      = qq (ix2 p q) * Ideal.ofBits .f32 Spec.wInvN - k8_pay4 s (ix2 p q) * k8_pay4 s (ix2 p q) := by
  unfold k8_pay5
  simp only [mulf_apply, subf_apply, broadcast_apply]
  rfl

/-- The same with the first store spelt out. -/
theorem pay5_8_apply' (s qq : Vec Ideal S1x64 .f32) (p : Fin 1) (q : Fin 64) :
    k8_pay5 s qq (ix2 p q)
      = qq (ix2 p q) * Ideal.ofBits .f32 Spec.wInvN
        - (s (ix2 p q) * Ideal.ofBits .f32 Spec.wInvN) * (s (ix2 p q) * Ideal.ofBits .f32 Spec.wInvN) := by
  rw [pay5_8_apply, pay4_8_apply]

end Cert.KernelIdeal.Val

end
-- ==== Proof.KI.Val8.lean ====
import proofs.«159011_j9938554322955_1_alg».proof.Proof.KI.Reg8
import proofs.«159011_j9938554322955_1_alg».proof.Proof.KI.Pay8
import proofs.«159011_j9938554322955_1_alg».proof.Proof.Math.Real
import proofs.«159011_j9938554322955_1_alg».proof.Proof.LibStats

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Lib (IsReal)
open scoped BigOperators

/-! # The second statistics kernel of a layer, on the extended reals

The region's two output arrays are the mean and the variance, over all 65536 nodes, of the layer's second linear map
Z2 — the first linear map normalised by the mean and variance the region is ENTERED with, clipped at zero, mapped to 64
features. The running sums after sixteen points are the sums over the sixteen blocks of the blocks' column sums; a block's
row y at point t is row 4096 t + y of the whole arrays; and S * 2^(-16), Q * 2^(-16) - (S * 2^(-16))^2 are the mean and,
on real data, the variance. -/

variable (V : (c : Dev nD) → (b : Ref sig .tc) → Buf (Elt Ideal) ((c : Thread nD τ).loc b))

/-- The layer's second linear map from the arrays the region is entered with. -/
noncomputable def Z2_8 (c : Dev nD) : Fin 65536 → Fin 64 → EReal :=
  Spec.z2 (Spec.relu (Spec.norm (Spec.z1 (Spec.cur2 (V c main_v177 : Vec Ideal S1x64 .f32)) (Spec.cur2 (V c main_v141 : Vec Ideal S65536x64 .f32)) (Spec.cur2 (V c main_v151 : Vec Ideal S65536x64 .f32)) (Spec.cur2 (V c main_v165 : Vec Ideal S64x128 .f32)) (Spec.cur2 (V c main_v178 : Vec Ideal S1x128 .f32)))
    (Spec.cur2 (V c main_v161_0 : Vec Ideal S1x128 .f32)) (Spec.cur2 (V c main_v161_1 : Vec Ideal S1x128 .f32)) (Spec.cur2 (V c main_v179 : Vec Ideal S1x128 .f32)) (Spec.cur2 (V c main_v180 : Vec Ideal S1x128 .f32)))) (Spec.cur2 (V c main_v173 : Vec Ideal S128x64 .f32)) (Spec.cur2 (V c main_v181 : Vec Ideal S1x64 .f32))

/-! ## The windows' index maps, decided over the grid -/

theorem idx8_0 : ∀ t : Fin cfg8.N, win8_0.index t (0 : Fin 2) = t.val ∧ win8_0.index t (1 : Fin 2) = 0 :=
  (by decide +kernel : ∀ t : Fin grid8.N, win8_0.index t (0 : Fin 2) = t.val ∧ win8_0.index t (1 : Fin 2) = 0)
theorem idx8_1 : ∀ t : Fin cfg8.N, win8_1.index t (0 : Fin 2) = t.val ∧ win8_1.index t (1 : Fin 2) = 0 :=
  (by decide +kernel : ∀ t : Fin grid8.N, win8_1.index t (0 : Fin 2) = t.val ∧ win8_1.index t (1 : Fin 2) = 0)
theorem idx8_2 : ∀ t : Fin cfg8.N, win8_2.index t (0 : Fin 2) = 0 ∧ win8_2.index t (1 : Fin 2) = 0 :=
  (by decide +kernel : ∀ t : Fin grid8.N, win8_2.index t (0 : Fin 2) = 0 ∧ win8_2.index t (1 : Fin 2) = 0)
theorem idx8_3 : ∀ t : Fin cfg8.N, win8_3.index t (0 : Fin 2) = 0 ∧ win8_3.index t (1 : Fin 2) = 0 :=
  (by decide +kernel : ∀ t : Fin grid8.N, win8_3.index t (0 : Fin 2) = 0 ∧ win8_3.index t (1 : Fin 2) = 0)
theorem idx8_4 : ∀ t : Fin cfg8.N, win8_4.index t (0 : Fin 2) = 0 ∧ win8_4.index t (1 : Fin 2) = 0 :=
  (by decide +kernel : ∀ t : Fin grid8.N, win8_4.index t (0 : Fin 2) = 0 ∧ win8_4.index t (1 : Fin 2) = 0)
theorem idx8_5 : ∀ t : Fin cfg8.N, win8_5.index t (0 : Fin 2) = 0 ∧ win8_5.index t (1 : Fin 2) = 0 :=
  (by decide +kernel : ∀ t : Fin grid8.N, win8_5.index t (0 : Fin 2) = 0 ∧ win8_5.index t (1 : Fin 2) = 0)
theorem idx8_6 : ∀ t : Fin cfg8.N, win8_6.index t (0 : Fin 2) = 0 ∧ win8_6.index t (1 : Fin 2) = 0 :=
  (by decide +kernel : ∀ t : Fin grid8.N, win8_6.index t (0 : Fin 2) = 0 ∧ win8_6.index t (1 : Fin 2) = 0)
theorem idx8_7 : ∀ t : Fin cfg8.N, win8_7.index t (0 : Fin 2) = 0 ∧ win8_7.index t (1 : Fin 2) = 0 :=
  (by decide +kernel : ∀ t : Fin grid8.N, win8_7.index t (0 : Fin 2) = 0 ∧ win8_7.index t (1 : Fin 2) = 0)
theorem idx8_8 : ∀ t : Fin cfg8.N, win8_8.index t (0 : Fin 2) = 0 ∧ win8_8.index t (1 : Fin 2) = 0 :=
  (by decide +kernel : ∀ t : Fin grid8.N, win8_8.index t (0 : Fin 2) = 0 ∧ win8_8.index t (1 : Fin 2) = 0)
theorem idx8_9 : ∀ t : Fin cfg8.N, win8_9.index t (0 : Fin 2) = 0 ∧ win8_9.index t (1 : Fin 2) = 0 :=
  (by decide +kernel : ∀ t : Fin grid8.N, win8_9.index t (0 : Fin 2) = 0 ∧ win8_9.index t (1 : Fin 2) = 0)
theorem idx8_10 : ∀ t : Fin cfg8.N, win8_10.index t (0 : Fin 2) = 0 ∧ win8_10.index t (1 : Fin 2) = 0 :=
  (by decide +kernel : ∀ t : Fin grid8.N, win8_10.index t (0 : Fin 2) = 0 ∧ win8_10.index t (1 : Fin 2) = 0)

/-! ## The blocks read off the arrays -/

/-- Row y of window 0's block at point t is row 4096 t + y of its array. -/
theorem blk8_0 (c : Dev nD) (t : Fin cfg8.N) (y : Fin 4096) (r : Fin 65536) (hr : r.val = 4096 * t.val + y.val) (k : Fin 64) :
    (iblk8 V c 0 t : Vec Ideal S4096x64 .f32) (ix2 y k) = Spec.cur2 (V c main_v141 : Vec Ideal S65536x64 .f32) r k := by
  obtain ⟨e0, e1⟩ := idx8_0 t
  show V c main_v141 (((cfg8.win 0).blk t).view.emb (ix2 y k)) = V c main_v141 (ix2 r k)
  refine congrArg _ ?_
  funext a; apply Fin.ext
  match a with
  | ⟨0, _⟩ => show win8_0.index t (0 : Fin 2) * 4096 + 1 * y.val = r.val; rw [e0, hr]; omega
  | ⟨1, _⟩ => show win8_0.index t (1 : Fin 2) * 64 + 1 * k.val = k.val; rw [e1]; omega
/-- Row y of window 1's block at point t is row 4096 t + y of its array. -/
theorem blk8_1 (c : Dev nD) (t : Fin cfg8.N) (y : Fin 4096) (r : Fin 65536) (hr : r.val = 4096 * t.val + y.val) (k : Fin 64) :
    (iblk8 V c 1 t : Vec Ideal S4096x64 .f32) (ix2 y k) = Spec.cur2 (V c main_v151 : Vec Ideal S65536x64 .f32) r k := by
  obtain ⟨e0, e1⟩ := idx8_1 t
  show V c main_v151 (((cfg8.win 1).blk t).view.emb (ix2 y k)) = V c main_v151 (ix2 r k)
  refine congrArg _ ?_
  funext a; apply Fin.ext
  match a with
  | ⟨0, _⟩ => show win8_1.index t (0 : Fin 2) * 4096 + 1 * y.val = r.val; rw [e0, hr]; omega
  | ⟨1, _⟩ => show win8_1.index t (1 : Fin 2) * 64 + 1 * k.val = k.val; rw [e1]; omega
/-- Window 2's block is its whole array at every point. -/
theorem blk8_2 (c : Dev nD) (t : Fin cfg8.N) : (iblk8 V c 2 t : Vec Ideal S1x64 .f32) = (V c main_v177 : Vec Ideal S1x64 .f32) := by
  obtain ⟨e0, e1⟩ := idx8_2 t
  funext j
  show V c main_v177 (((cfg8.win 2).blk t).view.emb j) = V c main_v177 j
  refine congrArg _ ?_
  funext a; apply Fin.ext
  match a with
  | ⟨0, _⟩ => show win8_2.index t (0 : Fin 2) * 1 + 1 * (j 0).val = (j 0).val; rw [e0]; omega
  | ⟨1, _⟩ => show win8_2.index t (1 : Fin 2) * 64 + 1 * (j 1).val = (j 1).val; rw [e1]; omega
/-- Window 3's block is its whole array at every point. -/
theorem blk8_3 (c : Dev nD) (t : Fin cfg8.N) : (iblk8 V c 3 t : Vec Ideal S64x128 .f32) = (V c main_v165 : Vec Ideal S64x128 .f32) := by
  obtain ⟨e0, e1⟩ := idx8_3 t
  funext j
  show V c main_v165 (((cfg8.win 3).blk t).view.emb j) = V c main_v165 j
  refine congrArg _ ?_
  funext a; apply Fin.ext
  match a with
  | ⟨0, _⟩ => show win8_3.index t (0 : Fin 2) * 64 + 1 * (j 0).val = (j 0).val; rw [e0]; omega
  | ⟨1, _⟩ => show win8_3.index t (1 : Fin 2) * 128 + 1 * (j 1).val = (j 1).val; rw [e1]; omega
/-- Window 4's block is its whole array at every point. -/
theorem blk8_4 (c : Dev nD) (t : Fin cfg8.N) : (iblk8 V c 4 t : Vec Ideal S1x128 .f32) = (V c main_v178 : Vec Ideal S1x128 .f32) := by
  obtain ⟨e0, e1⟩ := idx8_4 t
  funext j
  show V c main_v178 (((cfg8.win 4).blk t).view.emb j) = V c main_v178 j
  refine congrArg _ ?_
  funext a; apply Fin.ext
  match a with
  | ⟨0, _⟩ => show win8_4.index t (0 : Fin 2) * 1 + 1 * (j 0).val = (j 0).val; rw [e0]; omega
  | ⟨1, _⟩ => show win8_4.index t (1 : Fin 2) * 128 + 1 * (j 1).val = (j 1).val; rw [e1]; omega
/-- Window 5's block is its whole array at every point. -/
theorem blk8_5 (c : Dev nD) (t : Fin cfg8.N) : (iblk8 V c 5 t : Vec Ideal S1x128 .f32) = (V c main_v161_0 : Vec Ideal S1x128 .f32) := by
  obtain ⟨e0, e1⟩ := idx8_5 t
  funext j
  show V c main_v161_0 (((cfg8.win 5).blk t).view.emb j) = V c main_v161_0 j
  refine congrArg _ ?_
  funext a; apply Fin.ext
  match a with
  | ⟨0, _⟩ => show win8_5.index t (0 : Fin 2) * 1 + 1 * (j 0).val = (j 0).val; rw [e0]; omega
  | ⟨1, _⟩ => show win8_5.index t (1 : Fin 2) * 128 + 1 * (j 1).val = (j 1).val; rw [e1]; omega
/-- Window 6's block is its whole array at every point. -/
theorem blk8_6 (c : Dev nD) (t : Fin cfg8.N) : (iblk8 V c 6 t : Vec Ideal S1x128 .f32) = (V c main_v161_1 : Vec Ideal S1x128 .f32) := by
  obtain ⟨e0, e1⟩ := idx8_6 t
  funext j
  show V c main_v161_1 (((cfg8.win 6).blk t).view.emb j) = V c main_v161_1 j
  refine congrArg _ ?_
  funext a; apply Fin.ext
  match a with
  | ⟨0, _⟩ => show win8_6.index t (0 : Fin 2) * 1 + 1 * (j 0).val = (j 0).val; rw [e0]; omega
  | ⟨1, _⟩ => show win8_6.index t (1 : Fin 2) * 128 + 1 * (j 1).val = (j 1).val; rw [e1]; omega
/-- Window 7's block is its whole array at every point. -/
theorem blk8_7 (c : Dev nD) (t : Fin cfg8.N) : (iblk8 V c 7 t : Vec Ideal S1x128 .f32) = (V c main_v179 : Vec Ideal S1x128 .f32) := by
  obtain ⟨e0, e1⟩ := idx8_7 t
  funext j
  show V c main_v179 (((cfg8.win 7).blk t).view.emb j) = V c main_v179 j
  refine congrArg _ ?_
  funext a; apply Fin.ext
  match a with
  | ⟨0, _⟩ => show win8_7.index t (0 : Fin 2) * 1 + 1 * (j 0).val = (j 0).val; rw [e0]; omega
  | ⟨1, _⟩ => show win8_7.index t (1 : Fin 2) * 128 + 1 * (j 1).val = (j 1).val; rw [e1]; omega
/-- Window 8's block is its whole array at every point. -/
theorem blk8_8 (c : Dev nD) (t : Fin cfg8.N) : (iblk8 V c 8 t : Vec Ideal S1x128 .f32) = (V c main_v180 : Vec Ideal S1x128 .f32) := by
  obtain ⟨e0, e1⟩ := idx8_8 t
  funext j
  show V c main_v180 (((cfg8.win 8).blk t).view.emb j) = V c main_v180 j
  refine congrArg _ ?_
  funext a; apply Fin.ext
  match a with
  | ⟨0, _⟩ => show win8_8.index t (0 : Fin 2) * 1 + 1 * (j 0).val = (j 0).val; rw [e0]; omega
  | ⟨1, _⟩ => show win8_8.index t (1 : Fin 2) * 128 + 1 * (j 1).val = (j 1).val; rw [e1]; omega
/-- Window 9's block is its whole array at every point. -/
theorem blk8_9 (c : Dev nD) (t : Fin cfg8.N) : (iblk8 V c 9 t : Vec Ideal S128x64 .f32) = (V c main_v173 : Vec Ideal S128x64 .f32) := by
  obtain ⟨e0, e1⟩ := idx8_9 t
  funext j
  show V c main_v173 (((cfg8.win 9).blk t).view.emb j) = V c main_v173 j
  refine congrArg _ ?_
  funext a; apply Fin.ext
  match a with
  | ⟨0, _⟩ => show win8_9.index t (0 : Fin 2) * 128 + 1 * (j 0).val = (j 0).val; rw [e0]; omega
  | ⟨1, _⟩ => show win8_9.index t (1 : Fin 2) * 64 + 1 * (j 1).val = (j 1).val; rw [e1]; omega
/-- Window 10's block is its whole array at every point. -/
theorem blk8_10 (c : Dev nD) (t : Fin cfg8.N) : (iblk8 V c 10 t : Vec Ideal S1x64 .f32) = (V c main_v181 : Vec Ideal S1x64 .f32) := by
  obtain ⟨e0, e1⟩ := idx8_10 t
  funext j
  show V c main_v181 (((cfg8.win 10).blk t).view.emb j) = V c main_v181 j
  refine congrArg _ ?_
  funext a; apply Fin.ext
  match a with
  | ⟨0, _⟩ => show win8_10.index t (0 : Fin 2) * 1 + 1 * (j 0).val = (j 0).val; rw [e0]; omega
  | ⟨1, _⟩ => show win8_10.index t (1 : Fin 2) * 64 + 1 * (j 1).val = (j 1).val; rw [e1]; omega

/-! ## The blocks' column sums, and the running sums as sums over the points -/

/-- Block s's column sum of the second linear map at feature q (zero past the grid). -/
noncomputable def B8 (c : Dev nD) (q : Fin 64) (s : ℕ) : EReal :=
  if h : s < cfg8.N then ∑ y : Fin 4096, z2blk (iblk8 V c 2 ⟨s, h⟩) (iblk8 V c 0 ⟨s, h⟩) (iblk8 V c 1 ⟨s, h⟩) (iblk8 V c 3 ⟨s, h⟩) (iblk8 V c 4 ⟨s, h⟩) (iblk8 V c 5 ⟨s, h⟩) (iblk8 V c 6 ⟨s, h⟩) (iblk8 V c 7 ⟨s, h⟩) (iblk8 V c 8 ⟨s, h⟩) (iblk8 V c 9 ⟨s, h⟩) (iblk8 V c 10 ⟨s, h⟩) y q else 0
/-- Block s's column sum of its square. -/
noncomputable def C8 (c : Dev nD) (q : Fin 64) (s : ℕ) : EReal :=
  if h : s < cfg8.N then ∑ y : Fin 4096, z2blk (iblk8 V c 2 ⟨s, h⟩) (iblk8 V c 0 ⟨s, h⟩) (iblk8 V c 1 ⟨s, h⟩) (iblk8 V c 3 ⟨s, h⟩) (iblk8 V c 4 ⟨s, h⟩) (iblk8 V c 5 ⟨s, h⟩) (iblk8 V c 6 ⟨s, h⟩) (iblk8 V c 7 ⟨s, h⟩) (iblk8 V c 8 ⟨s, h⟩) (iblk8 V c 9 ⟨s, h⟩) (iblk8 V c 10 ⟨s, h⟩) y q * z2blk (iblk8 V c 2 ⟨s, h⟩) (iblk8 V c 0 ⟨s, h⟩) (iblk8 V c 1 ⟨s, h⟩) (iblk8 V c 3 ⟨s, h⟩) (iblk8 V c 4 ⟨s, h⟩) (iblk8 V c 5 ⟨s, h⟩) (iblk8 V c 6 ⟨s, h⟩) (iblk8 V c 7 ⟨s, h⟩) (iblk8 V c 8 ⟨s, h⟩) (iblk8 V c 9 ⟨s, h⟩) (iblk8 V c 10 ⟨s, h⟩) y q else 0

/-- After position n the two running sums are the sums of the first n + 1 blocks' column sums. -/
theorem sums8_apply (c : Dev nD) (q : Fin 64) : ∀ (n : ℕ) (h : n < cfg8.N),
    (sums8 V c n h).1 (ix2 0 q) = ∑ s ∈ Finset.range (n + 1), B8 V c q s
    ∧ (sums8 V c n h).2 (ix2 0 q) = ∑ s ∈ Finset.range (n + 1), C8 V c q s
  | 0, h => by
    have hB : B8 V c q 0 = ∑ y : Fin 4096, z2blk (iblk8 V c 2 ⟨0, h⟩) (iblk8 V c 0 ⟨0, h⟩) (iblk8 V c 1 ⟨0, h⟩) (iblk8 V c 3 ⟨0, h⟩) (iblk8 V c 4 ⟨0, h⟩) (iblk8 V c 5 ⟨0, h⟩) (iblk8 V c 6 ⟨0, h⟩) (iblk8 V c 7 ⟨0, h⟩) (iblk8 V c 8 ⟨0, h⟩) (iblk8 V c 9 ⟨0, h⟩) (iblk8 V c 10 ⟨0, h⟩) y q := dif_pos h
    have hC : C8 V c q 0 = ∑ y : Fin 4096, z2blk (iblk8 V c 2 ⟨0, h⟩) (iblk8 V c 0 ⟨0, h⟩) (iblk8 V c 1 ⟨0, h⟩) (iblk8 V c 3 ⟨0, h⟩) (iblk8 V c 4 ⟨0, h⟩) (iblk8 V c 5 ⟨0, h⟩) (iblk8 V c 6 ⟨0, h⟩) (iblk8 V c 7 ⟨0, h⟩) (iblk8 V c 8 ⟨0, h⟩) (iblk8 V c 9 ⟨0, h⟩) (iblk8 V c 10 ⟨0, h⟩) y q * z2blk (iblk8 V c 2 ⟨0, h⟩) (iblk8 V c 0 ⟨0, h⟩) (iblk8 V c 1 ⟨0, h⟩) (iblk8 V c 3 ⟨0, h⟩) (iblk8 V c 4 ⟨0, h⟩) (iblk8 V c 5 ⟨0, h⟩) (iblk8 V c 6 ⟨0, h⟩) (iblk8 V c 7 ⟨0, h⟩) (iblk8 V c 8 ⟨0, h⟩) (iblk8 V c 9 ⟨0, h⟩) (iblk8 V c 10 ⟨0, h⟩) y q := dif_pos h
    constructor
    · refine (pay2_z2blk_8 (iblk8 V c 2 ⟨0, h⟩) (iblk8 V c 0 ⟨0, h⟩) (iblk8 V c 1 ⟨0, h⟩) (iblk8 V c 3 ⟨0, h⟩) (iblk8 V c 4 ⟨0, h⟩) (iblk8 V c 5 ⟨0, h⟩) (iblk8 V c 6 ⟨0, h⟩) (iblk8 V c 7 ⟨0, h⟩) (iblk8 V c 8 ⟨0, h⟩) (iblk8 V c 9 ⟨0, h⟩) (iblk8 V c 10 ⟨0, h⟩) (k8_pay6 (F := Ideal)) 0 q).trans ?_
      rw [pay6_8_apply, zero_add, Finset.sum_range_one, hB]
    · refine (pay3_z2blk_8 (iblk8 V c 2 ⟨0, h⟩) (iblk8 V c 0 ⟨0, h⟩) (iblk8 V c 1 ⟨0, h⟩) (iblk8 V c 3 ⟨0, h⟩) (iblk8 V c 4 ⟨0, h⟩) (iblk8 V c 5 ⟨0, h⟩) (iblk8 V c 6 ⟨0, h⟩) (iblk8 V c 7 ⟨0, h⟩) (iblk8 V c 8 ⟨0, h⟩) (iblk8 V c 9 ⟨0, h⟩) (iblk8 V c 10 ⟨0, h⟩) (k8_pay7 (F := Ideal)) 0 q).trans ?_
      rw [pay7_8_apply, zero_add, Finset.sum_range_one, hC]
  | n + 1, h => by
    obtain ⟨ih1, ih2⟩ := sums8_apply c q n (Nat.lt_of_succ_lt h)
    have hB : B8 V c q (n + 1) = ∑ y : Fin 4096, z2blk (iblk8 V c 2 ⟨n + 1, h⟩) (iblk8 V c 0 ⟨n + 1, h⟩) (iblk8 V c 1 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) y q := dif_pos h
    have hC : C8 V c q (n + 1) = ∑ y : Fin 4096, z2blk (iblk8 V c 2 ⟨n + 1, h⟩) (iblk8 V c 0 ⟨n + 1, h⟩) (iblk8 V c 1 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) y q * z2blk (iblk8 V c 2 ⟨n + 1, h⟩) (iblk8 V c 0 ⟨n + 1, h⟩) (iblk8 V c 1 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) y q := dif_pos h
    constructor
    · refine (pay2_z2blk_8 (iblk8 V c 2 ⟨n + 1, h⟩) (iblk8 V c 0 ⟨n + 1, h⟩) (iblk8 V c 1 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (sums8 V c n (Nat.lt_of_succ_lt h)).1 0 q).trans ?_
      rw [ih1, Finset.sum_range_succ _ (n + 1), hB]
    · refine (pay3_z2blk_8 (iblk8 V c 2 ⟨n + 1, h⟩) (iblk8 V c 0 ⟨n + 1, h⟩) (iblk8 V c 1 ⟨n + 1, h⟩) (iblk8 V c 3 ⟨n + 1, h⟩) (iblk8 V c 4 ⟨n + 1, h⟩) (iblk8 V c 5 ⟨n + 1, h⟩) (iblk8 V c 6 ⟨n + 1, h⟩) (iblk8 V c 7 ⟨n + 1, h⟩) (iblk8 V c 8 ⟨n + 1, h⟩) (iblk8 V c 9 ⟨n + 1, h⟩) (iblk8 V c 10 ⟨n + 1, h⟩) (sums8 V c n (Nat.lt_of_succ_lt h)).2 0 q).trans ?_
      rw [ih2, Finset.sum_range_succ _ (n + 1), hC]

/-- A block's second linear map at row y is the whole one at row 4096 t + y. -/
theorem z2blk8_eq (c : Dev nD) (t : ℕ) (ht : t < 16) (y : Fin 4096) (q : Fin 64) :
    z2blk (iblk8 V c 2 ⟨t, lt_of_lt_of_eq ht (show 16 = cfg8.N from N_8.symm)⟩) (iblk8 V c 0 ⟨t, lt_of_lt_of_eq ht (show 16 = cfg8.N from N_8.symm)⟩) (iblk8 V c 1 ⟨t, lt_of_lt_of_eq ht (show 16 = cfg8.N from N_8.symm)⟩) (iblk8 V c 3 ⟨t, lt_of_lt_of_eq ht (show 16 = cfg8.N from N_8.symm)⟩) (iblk8 V c 4 ⟨t, lt_of_lt_of_eq ht (show 16 = cfg8.N from N_8.symm)⟩) (iblk8 V c 5 ⟨t, lt_of_lt_of_eq ht (show 16 = cfg8.N from N_8.symm)⟩) (iblk8 V c 6 ⟨t, lt_of_lt_of_eq ht (show 16 = cfg8.N from N_8.symm)⟩) (iblk8 V c 7 ⟨t, lt_of_lt_of_eq ht (show 16 = cfg8.N from N_8.symm)⟩) (iblk8 V c 8 ⟨t, lt_of_lt_of_eq ht (show 16 = cfg8.N from N_8.symm)⟩) (iblk8 V c 9 ⟨t, lt_of_lt_of_eq ht (show 16 = cfg8.N from N_8.symm)⟩) (iblk8 V c 10 ⟨t, lt_of_lt_of_eq ht (show 16 = cfg8.N from N_8.symm)⟩) y q = Z2_8 V c ⟨4096 * t + y.val, by omega⟩ q := by
  rw [blk8_2 V c, blk8_3 V c, blk8_4 V c, blk8_5 V c, blk8_6 V c, blk8_7 V c, blk8_8 V c, blk8_9 V c, blk8_10 V c]
  exact z2blk_eq_z2 _ _ _ _ _ _ _ _ _ _ _ _ _ y ⟨4096 * t + y.val, by omega⟩
    (fun k => blk8_0 V c _ y _ rfl k) (fun k => blk8_1 V c _ y _ rfl k) q

theorem hB8 (c : Dev nD) (q : Fin 64) (t : ℕ) (ht : t < 16) :
    B8 V c q t = ∑ y : Fin 4096, Z2_8 V c ⟨4096 * t + y.val, by omega⟩ q := by
  unfold B8
  rw [dif_pos (lt_of_lt_of_eq ht (show 16 = cfg8.N from N_8.symm))]
  exact Finset.sum_congr rfl fun y _ => z2blk8_eq V c t ht y q

theorem hC8 (c : Dev nD) (q : Fin 64) (t : ℕ) (ht : t < 16) :
    C8 V c q t = ∑ y : Fin 4096, Z2_8 V c ⟨4096 * t + y.val, by omega⟩ q * Z2_8 V c ⟨4096 * t + y.val, by omega⟩ q := by
  unfold C8
  rw [dif_pos (lt_of_lt_of_eq ht (show 16 = cfg8.N from N_8.symm))]
  exact Finset.sum_congr rfl fun y _ => by rw [z2blk8_eq V c t ht y q]

/-! ## The two output arrays -/

/-- The region's first output array is the mean of the second linear map over all nodes. -/
theorem val8_11 (c : Dev nD) :
    Spec.cur2 (n0 := 1) (n1 := 64) ((dat8 V c).arrAt ⟨11, Nat.le_of_ble_eq_true rfl⟩ cfg8.N) = Spec.mean (Z2_8 V c) := by
  funext p q
  obtain rfl : p = 0 := Subsingleton.elim _ _
  rw [final8_11]
  show k8_pay4 (total8 V c).1 (ix2 0 q) = _
  rw [pay4_8_apply, (sums8_apply V c q 15 _).1]
  exact Spec.mean_kernel_form_range (Z2_8 V c) q (B8 V c q) (hB8 V c q)

/-- On real data its second output array is the variance. -/
theorem val8_12 (c : Dev nD) (hz : ∀ r j, IsReal (Z2_8 V c r j)) :
    Spec.cur2 (n0 := 1) (n1 := 64) ((dat8 V c).arrAt ⟨12, Nat.le_of_ble_eq_true rfl⟩ cfg8.N) = Spec.var (Z2_8 V c) := by
  funext p q
  obtain rfl : p = 0 := Subsingleton.elim _ _
  rw [final8_12]
  show k8_pay5 (total8 V c).1 (total8 V c).2 (ix2 0 q) = _
  rw [pay5_8_apply', (sums8_apply V c q 15 _).1, (sums8_apply V c q 15 _).2]
  exact Spec.var_kernel_form_range (Z2_8 V c) hz q (B8 V c q) (C8 V c q) (hB8 V c q) (hC8 V c q)

/-- The second linear map is real when the arrays the region is entered with are, the entry variance being a nonnegative real. -/
theorem isReal_Z2_8 (c : Dev nD)
    (he : ∀ i k, IsReal (Spec.cur2 (V c main_v177 : Vec Ideal S1x64 .f32) i k)) (hx : ∀ r k, IsReal (Spec.cur2 (V c main_v141 : Vec Ideal S65536x64 .f32) r k)) (hagg : ∀ r k, IsReal (Spec.cur2 (V c main_v151 : Vec Ideal S65536x64 .f32) r k))
    (hW1 : ∀ k j, IsReal (Spec.cur2 (V c main_v165 : Vec Ideal S64x128 .f32) k j)) (hb1 : ∀ i j, IsReal (Spec.cur2 (V c main_v178 : Vec Ideal S1x128 .f32) i j))
    (hm1 : ∀ i j, IsReal (Spec.cur2 (V c main_v161_0 : Vec Ideal S1x128 .f32) i j)) (hv1 : ∀ i j, ∃ r : ℝ, 0 ≤ r ∧ Spec.cur2 (V c main_v161_1 : Vec Ideal S1x128 .f32) i j = (r : EReal))
    (hg1 : ∀ i j, IsReal (Spec.cur2 (V c main_v179 : Vec Ideal S1x128 .f32) i j)) (hbe1 : ∀ i j, IsReal (Spec.cur2 (V c main_v180 : Vec Ideal S1x128 .f32) i j))
    (hW2 : ∀ k j, IsReal (Spec.cur2 (V c main_v173 : Vec Ideal S128x64 .f32) k j)) (hb2 : ∀ i j, IsReal (Spec.cur2 (V c main_v181 : Vec Ideal S1x64 .f32) i j)) :
    ∀ r j, IsReal (Z2_8 V c r j) :=
  Spec.isReal_z2 (Spec.isReal_relu (Spec.isReal_norm_of (Spec.isReal_z1 he hx hagg hW1 hb1) hm1 hv1 hg1 hbe1)) hW2 hb2

/-- Both outputs at once, from the realness of the entry arrays. -/
theorem val8 (c : Dev nD)
    (he : ∀ i k, IsReal (Spec.cur2 (V c main_v177 : Vec Ideal S1x64 .f32) i k)) (hx : ∀ r k, IsReal (Spec.cur2 (V c main_v141 : Vec Ideal S65536x64 .f32) r k)) (hagg : ∀ r k, IsReal (Spec.cur2 (V c main_v151 : Vec Ideal S65536x64 .f32) r k))
    (hW1 : ∀ k j, IsReal (Spec.cur2 (V c main_v165 : Vec Ideal S64x128 .f32) k j)) (hb1 : ∀ i j, IsReal (Spec.cur2 (V c main_v178 : Vec Ideal S1x128 .f32) i j))
    (hm1 : ∀ i j, IsReal (Spec.cur2 (V c main_v161_0 : Vec Ideal S1x128 .f32) i j)) (hv1 : ∀ i j, ∃ r : ℝ, 0 ≤ r ∧ Spec.cur2 (V c main_v161_1 : Vec Ideal S1x128 .f32) i j = (r : EReal))
    (hg1 : ∀ i j, IsReal (Spec.cur2 (V c main_v179 : Vec Ideal S1x128 .f32) i j)) (hbe1 : ∀ i j, IsReal (Spec.cur2 (V c main_v180 : Vec Ideal S1x128 .f32) i j))
    (hW2 : ∀ k j, IsReal (Spec.cur2 (V c main_v173 : Vec Ideal S128x64 .f32) k j)) (hb2 : ∀ i j, IsReal (Spec.cur2 (V c main_v181 : Vec Ideal S1x64 .f32) i j)) :
    Spec.cur2 (n0 := 1) (n1 := 64) ((dat8 V c).arrAt ⟨11, Nat.le_of_ble_eq_true rfl⟩ cfg8.N) = Spec.mean (Z2_8 V c)
    ∧ Spec.cur2 (n0 := 1) (n1 := 64) ((dat8 V c).arrAt ⟨12, Nat.le_of_ble_eq_true rfl⟩ cfg8.N) = Spec.var (Z2_8 V c) :=
  ⟨val8_11 V c, val8_12 V c (isReal_Z2_8 V c he hx hagg hW1 hb1 hm1 hv1 hg1 hbe1 hW2 hb2)⟩

end Cert.KernelIdeal.Val

end
-- ==== Proof.KI.Val9.lean ====
/- What a region that finishes a layer leaves in its output array, at the extended reals: the second half of a layer as the
   specification states it, as a function of the arrays the region finds. The body's two matrix products are sums
   over the shared coordinate, its two casts to a shorter format are the identity, and every other step acts entry
   by entry; a block's row q at point t is row 4096·t + q of the array, and a one-row array is read whole at every
   point. No entry needs to be finite: the two sides are the same arrangement of the same operations. -/
import proofs.«159011_j9938554322955_1_alg».proof.Proof.KI.Reg9
import proofs.«159011_j9938554322955_1_alg».proof.Proof.Math.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ## The body's operations read at an index -/

/-- A product of a 4096 by 64 block with a 64 by 128 matrix into a zero accumulator, read at (q, j): the sum over the
    64 shared coordinates. -/
theorem mmA9_apply {φ₁ φ₂ : FTy} (lhs : FVec Ideal S4096x64 φ₁) (rhs : FVec Ideal S64x128 φ₂) (q : Fin 4096) (j : Fin 128) :
    matmul dot_S4096x64_S64x128_S4096x128_1_0_0_1_n_n none lhs rhs (constant S4096x128 .f32 0x00000000#32) (ix2 q j)
      = ∑ i : Fin 64, lhs (ix2 q i) * rhs (ix2 i j) := by
  refine (Ideal.matmul_constant_zero_apply dot_S4096x64_S64x128_S4096x128_1_0_0_1_n_n none lhs rhs (ix2 q j)).trans ?_
  rw [← Equiv.sum_comp (contrEquiv1 dot_S4096x64_S64x128_S4096x128_1_0_0_1_n_n 64 rfl rfl).symm]
  refine Finset.sum_congr rfl fun i _ => ?_
  have hl : dot_S4096x64_S64x128_S4096x128_1_0_0_1_n_n.lhsIdx (ix2 q j) ((contrEquiv1 dot_S4096x64_S64x128_S4096x128_1_0_0_1_n_n 64 rfl rfl).symm i) = ix2 q i := by
    funext a; apply Fin.ext
    match a with
    | ⟨0, _⟩ => rfl
    | ⟨1, _⟩ => exact (DotDims.lhsIdx_val_of_single _ rfl _ _).trans (contrEquiv1_symm_val _ 64 rfl rfl i)
  have hr : dot_S4096x64_S64x128_S4096x128_1_0_0_1_n_n.rhsIdx (ix2 q j) ((contrEquiv1 dot_S4096x64_S64x128_S4096x128_1_0_0_1_n_n 64 rfl rfl).symm i) = ix2 i j := by
    funext a; apply Fin.ext
    match a with
    | ⟨0, _⟩ => exact (DotDims.rhsIdx_val_of_single _ rfl _ _).trans (contrEquiv1_symm_val _ 64 rfl rfl i)
    | ⟨1, _⟩ => rfl
  rw [hl, hr]

/-- A product of a 4096 by 128 block with a 128 by 64 matrix into a zero accumulator, read at (q, j): the sum over the
    128 shared coordinates. -/
theorem mmB9_apply {φ₁ φ₂ : FTy} (lhs : FVec Ideal S4096x128 φ₁) (rhs : FVec Ideal S128x64 φ₂) (q : Fin 4096) (j : Fin 64) :
    matmul dot_S4096x128_S128x64_S4096x64_1_0_0_1_n_n none lhs rhs (constant S4096x64 .f32 0x00000000#32) (ix2 q j)
      = ∑ i : Fin 128, lhs (ix2 q i) * rhs (ix2 i j) := by
  refine (Ideal.matmul_constant_zero_apply dot_S4096x128_S128x64_S4096x64_1_0_0_1_n_n none lhs rhs (ix2 q j)).trans ?_
  rw [← Equiv.sum_comp (contrEquiv1 dot_S4096x128_S128x64_S4096x64_1_0_0_1_n_n 128 rfl rfl).symm]
  refine Finset.sum_congr rfl fun i _ => ?_
  have hl : dot_S4096x128_S128x64_S4096x64_1_0_0_1_n_n.lhsIdx (ix2 q j) ((contrEquiv1 dot_S4096x128_S128x64_S4096x64_1_0_0_1_n_n 128 rfl rfl).symm i) = ix2 q i := by
    funext a; apply Fin.ext
    match a with
    | ⟨0, _⟩ => rfl
    | ⟨1, _⟩ => exact (DotDims.lhsIdx_val_of_single _ rfl _ _).trans (contrEquiv1_symm_val _ 128 rfl rfl i)
  have hr : dot_S4096x128_S128x64_S4096x64_1_0_0_1_n_n.rhsIdx (ix2 q j) ((contrEquiv1 dot_S4096x128_S128x64_S4096x64_1_0_0_1_n_n 128 rfl rfl).symm i) = ix2 i j := by
    funext a; apply Fin.ext
    match a with
    | ⟨0, _⟩ => exact (DotDims.rhsIdx_val_of_single _ rfl _ _).trans (contrEquiv1_symm_val _ 128 rfl rfl i)
    | ⟨1, _⟩ => rfl
  rw [hl, hr]

/-- One row of 64 laid along each of 4096 rows, read at (q, k), is the row at k. -/
theorem bcastA9_apply (x : S1x64.Idx → EReal) (h : S1x64.Broadcasts S4096x64) (q : Fin 4096) (k : Fin 64) :
    broadcastTo S4096x64 x h (ix2 q k) = x (ix2 0 k) :=
  broadcastTo_apply x h (ix2 q k) (ix2 0 k) fun a => by
    match a with
    | ⟨0, _⟩ => rfl
    | ⟨1, _⟩ => rfl

/-- One row of 128 laid along each of 4096 rows, read at (q, j), is the row at j. -/
theorem bcastB9_apply (x : S1x128.Idx → EReal) (h : S1x128.Broadcasts S4096x128) (q : Fin 4096) (j : Fin 128) :
    broadcastTo S4096x128 x h (ix2 q j) = x (ix2 0 j) :=
  broadcastTo_apply x h (ix2 q j) (ix2 0 j) fun a => by
    match a with
    | ⟨0, _⟩ => rfl
    | ⟨1, _⟩ => rfl

/-- A reciprocal square root at an index is that of the element. -/
theorem rsqrt9_apply {s : Shape} {φ : FTy} (a : FVec Ideal s φ) (i : s.Idx) : rsqrt a i = Ideal.rsqrt (a i) := rfl

/-- The first normalisation's scaled factor at row q of a block, feature j: the combined features against column j
    of the first matrix, plus the bias, less the mean, times the reciprocal root of the offset variance, times the gain. -/
theorem k9_pay2_apply (X_2 : Vec Ideal S1x64 .f32) (X_0 X_1 : Vec Ideal S4096x64 .f32) (X_3 : Vec Ideal S64x128 .f32)
    (X_4 X_5 X_6 X_7 : Vec Ideal S1x128 .f32) (q : Fin 4096) (j : Fin 128) :
    k9_pay2 X_2 X_0 X_1 X_3 X_4 X_5 X_6 X_7 (ix2 q j)
      = ((∑ i : Fin 64, ((Spec.cOne + X_2 (ix2 0 i)) * X_0 (ix2 q i) + X_1 (ix2 q i)) * X_3 (ix2 i j)) + X_4 (ix2 0 j) - X_5 (ix2 0 j))
          * Ideal.rsqrt (X_6 (ix2 0 j) + Spec.cEps) * X_7 (ix2 0 j) := by
  unfold k9_pay2
  simp only [shapeCast_self, mulf_apply, addf_apply, subf_apply, truncf_apply, broadcast_apply, rsqrt9_apply,
    bcastB9_apply, bcastA9_apply, mmA9_apply]
  rfl

/-- The first normalisation's offset at any row of a block, feature j. -/
theorem k9_pay3_apply (X_8 : Vec Ideal S1x128 .f32) (q : Fin 4096) (j : Fin 128) :
    k9_pay3 X_8 (ix2 q j) = X_8 (ix2 0 j) := by
  unfold k9_pay3
  simp only [shapeCast_self, bcastB9_apply]

/-- The output at row q of a block, feature k, from the first normalisation's two factors P and Q: their sum clipped at
    zero against column k of the second matrix, plus the bias, normalised, clipped, plus the input. -/
theorem k9_pay1_apply (P Q : FVec Ideal S4096x128 .f32) (X_9 : Vec Ideal S128x64 .f32) (X_10 X_11 X_12 X_13 X_14 : Vec Ideal S1x64 .f32)
    (X_0 : Vec Ideal S4096x64 .f32) (q : Fin 4096) (k : Fin 64) :
    k9_pay1 P Q X_9 X_10 X_11 X_12 X_13 X_14 X_0 (ix2 q k)
      = max (((∑ j : Fin 128, max (P (ix2 q j) + Q (ix2 q j)) 0 * X_9 (ix2 j k)) + X_10 (ix2 0 k) - X_11 (ix2 0 k))
          * Ideal.rsqrt (X_12 (ix2 0 k) + Spec.cEps) * X_13 (ix2 0 k) + X_14 (ix2 0 k)) 0 + X_0 (ix2 q k) := by
  unfold k9_pay1
  simp only [shapeCast_self, mulf_apply, addf_apply, subf_apply, maximumf_apply, truncf_apply, broadcast_apply, rsqrt9_apply,
    bcastA9_apply, mmB9_apply]
  have hz : (FloatOps.ofBits FTy.f32 0x00000000#32 : Ideal FTy.f32) = (0 : EReal) := Ideal.ofBits_zero_f32
  rw [hz]
  rfl

/-! ## The blocks read at an index -/

/-- The block indices of the fifteen input windows, decided over the sixteen points: the two arrays of 65536 rows move
    with the point, every other array is one block. -/
theorem idx9_0 : ∀ t : Fin cfg9.N, win9_0.index t (0 : Fin 2) = t.val ∧ win9_0.index t (1 : Fin 2) = 0 :=
  (by decide +kernel : ∀ t : Fin grid9.N, _)
theorem idx9_1 : ∀ t : Fin cfg9.N, win9_1.index t (0 : Fin 2) = t.val ∧ win9_1.index t (1 : Fin 2) = 0 :=
  (by decide +kernel : ∀ t : Fin grid9.N, _)
theorem idx9_2 : ∀ t : Fin cfg9.N, win9_2.index t (0 : Fin 2) = 0 ∧ win9_2.index t (1 : Fin 2) = 0 :=
  (by decide +kernel : ∀ t : Fin grid9.N, _)
theorem idx9_3 : ∀ t : Fin cfg9.N, win9_3.index t (0 : Fin 2) = 0 ∧ win9_3.index t (1 : Fin 2) = 0 :=
  (by decide +kernel : ∀ t : Fin grid9.N, _)
theorem idx9_4 : ∀ t : Fin cfg9.N, win9_4.index t (0 : Fin 2) = 0 ∧ win9_4.index t (1 : Fin 2) = 0 :=
  (by decide +kernel : ∀ t : Fin grid9.N, _)
theorem idx9_5 : ∀ t : Fin cfg9.N, win9_5.index t (0 : Fin 2) = 0 ∧ win9_5.index t (1 : Fin 2) = 0 :=
  (by decide +kernel : ∀ t : Fin grid9.N, _)
theorem idx9_6 : ∀ t : Fin cfg9.N, win9_6.index t (0 : Fin 2) = 0 ∧ win9_6.index t (1 : Fin 2) = 0 :=
  (by decide +kernel : ∀ t : Fin grid9.N, _)
theorem idx9_7 : ∀ t : Fin cfg9.N, win9_7.index t (0 : Fin 2) = 0 ∧ win9_7.index t (1 : Fin 2) = 0 :=
  (by decide +kernel : ∀ t : Fin grid9.N, _)
theorem idx9_8 : ∀ t : Fin cfg9.N, win9_8.index t (0 : Fin 2) = 0 ∧ win9_8.index t (1 : Fin 2) = 0 :=
  (by decide +kernel : ∀ t : Fin grid9.N, _)
theorem idx9_9 : ∀ t : Fin cfg9.N, win9_9.index t (0 : Fin 2) = 0 ∧ win9_9.index t (1 : Fin 2) = 0 :=
  (by decide +kernel : ∀ t : Fin grid9.N, _)
theorem idx9_10 : ∀ t : Fin cfg9.N, win9_10.index t (0 : Fin 2) = 0 ∧ win9_10.index t (1 : Fin 2) = 0 :=
  (by decide +kernel : ∀ t : Fin grid9.N, _)
theorem idx9_11 : ∀ t : Fin cfg9.N, win9_11.index t (0 : Fin 2) = 0 ∧ win9_11.index t (1 : Fin 2) = 0 :=
  (by decide +kernel : ∀ t : Fin grid9.N, _)
theorem idx9_12 : ∀ t : Fin cfg9.N, win9_12.index t (0 : Fin 2) = 0 ∧ win9_12.index t (1 : Fin 2) = 0 :=
  (by decide +kernel : ∀ t : Fin grid9.N, _)
theorem idx9_13 : ∀ t : Fin cfg9.N, win9_13.index t (0 : Fin 2) = 0 ∧ win9_13.index t (1 : Fin 2) = 0 :=
  (by decide +kernel : ∀ t : Fin grid9.N, _)
theorem idx9_14 : ∀ t : Fin cfg9.N, win9_14.index t (0 : Fin 2) = 0 ∧ win9_14.index t (1 : Fin 2) = 0 :=
  (by decide +kernel : ∀ t : Fin grid9.N, _)

/-- Window 0's block at the point of row r holds, at place r % 4096, row r of its array. -/
theorem rows9_0 (A : S65536x64.Idx → Elt Ideal .f32) (r : Fin 65536) (k i : Fin 64) :
    ((cfg9.win 0).blk (pt9 (ix2 r k))).view.read (Elt Ideal) A (ix2 ⟨r.val % 4096, Nat.mod_lt _ (by decide)⟩ i) = A (ix2 r i) := by
  obtain ⟨e0, e1⟩ := idx9_0 (pt9 (ix2 r k))
  have hp : (pt9 (ix2 r k)).val = r.val / 4096 := rfl
  show A (((cfg9.win 0).blk (pt9 (ix2 r k))).view.emb (ix2 ⟨r.val % 4096, Nat.mod_lt _ (by decide)⟩ i)) = A (ix2 r i)
  refine congrArg A (funext fun a => Fin.ext ?_)
  match a with
  | ⟨0, _⟩ => show win9_0.index (pt9 (ix2 r k)) (0 : Fin 2) * 4096 + 1 * (r.val % 4096) = r.val; omega
  | ⟨1, _⟩ => show win9_0.index (pt9 (ix2 r k)) (1 : Fin 2) * 64 + 1 * i.val = i.val; omega

/-- Window 1's block at the point of row r holds, at place r % 4096, row r of its array. -/
theorem rows9_1 (A : S65536x64.Idx → Elt Ideal .f32) (r : Fin 65536) (k i : Fin 64) :
    ((cfg9.win 1).blk (pt9 (ix2 r k))).view.read (Elt Ideal) A (ix2 ⟨r.val % 4096, Nat.mod_lt _ (by decide)⟩ i) = A (ix2 r i) := by
  obtain ⟨e0, e1⟩ := idx9_1 (pt9 (ix2 r k))
  have hp : (pt9 (ix2 r k)).val = r.val / 4096 := rfl
  show A (((cfg9.win 1).blk (pt9 (ix2 r k))).view.emb (ix2 ⟨r.val % 4096, Nat.mod_lt _ (by decide)⟩ i)) = A (ix2 r i)
  refine congrArg A (funext fun a => Fin.ext ?_)
  match a with
  | ⟨0, _⟩ => show win9_1.index (pt9 (ix2 r k)) (0 : Fin 2) * 4096 + 1 * (r.val % 4096) = r.val; omega
  | ⟨1, _⟩ => show win9_1.index (pt9 (ix2 r k)) (1 : Fin 2) * 64 + 1 * i.val = i.val; omega

theorem whole9_2 (t : Fin cfg9.N) (A : S1x64.Idx → Elt Ideal .f32) : ((cfg9.win 2).blk t).view.read (Elt Ideal) A = A := by
  obtain ⟨e0, e1⟩ := idx9_2 t
  funext y
  show A (((cfg9.win 2).blk t).view.emb y) = A y
  refine congrArg A (funext fun a => Fin.ext ?_)
  match a with
  | ⟨0, _⟩ => show win9_2.index t (0 : Fin 2) * 1 + 1 * (y 0).val = (y 0).val; omega
  | ⟨1, _⟩ => show win9_2.index t (1 : Fin 2) * 64 + 1 * (y 1).val = (y 1).val; omega

theorem whole9_3 (t : Fin cfg9.N) (A : S64x128.Idx → Elt Ideal .f32) : ((cfg9.win 3).blk t).view.read (Elt Ideal) A = A := by
  obtain ⟨e0, e1⟩ := idx9_3 t
  funext y
  show A (((cfg9.win 3).blk t).view.emb y) = A y
  refine congrArg A (funext fun a => Fin.ext ?_)
  match a with
  | ⟨0, _⟩ => show win9_3.index t (0 : Fin 2) * 64 + 1 * (y 0).val = (y 0).val; omega
  | ⟨1, _⟩ => show win9_3.index t (1 : Fin 2) * 128 + 1 * (y 1).val = (y 1).val; omega

theorem whole9_4 (t : Fin cfg9.N) (A : S1x128.Idx → Elt Ideal .f32) : ((cfg9.win 4).blk t).view.read (Elt Ideal) A = A := by
  obtain ⟨e0, e1⟩ := idx9_4 t
  funext y
  show A (((cfg9.win 4).blk t).view.emb y) = A y
  refine congrArg A (funext fun a => Fin.ext ?_)
  match a with
  | ⟨0, _⟩ => show win9_4.index t (0 : Fin 2) * 1 + 1 * (y 0).val = (y 0).val; omega
  | ⟨1, _⟩ => show win9_4.index t (1 : Fin 2) * 128 + 1 * (y 1).val = (y 1).val; omega

theorem whole9_5 (t : Fin cfg9.N) (A : S1x128.Idx → Elt Ideal .f32) : ((cfg9.win 5).blk t).view.read (Elt Ideal) A = A := by
  obtain ⟨e0, e1⟩ := idx9_5 t
  funext y
  show A (((cfg9.win 5).blk t).view.emb y) = A y
  refine congrArg A (funext fun a => Fin.ext ?_)
  match a with
  | ⟨0, _⟩ => show win9_5.index t (0 : Fin 2) * 1 + 1 * (y 0).val = (y 0).val; omega
  | ⟨1, _⟩ => show win9_5.index t (1 : Fin 2) * 128 + 1 * (y 1).val = (y 1).val; omega

theorem whole9_6 (t : Fin cfg9.N) (A : S1x128.Idx → Elt Ideal .f32) : ((cfg9.win 6).blk t).view.read (Elt Ideal) A = A := by
  obtain ⟨e0, e1⟩ := idx9_6 t
  funext y
  show A (((cfg9.win 6).blk t).view.emb y) = A y
  refine congrArg A (funext fun a => Fin.ext ?_)
  match a with
  | ⟨0, _⟩ => show win9_6.index t (0 : Fin 2) * 1 + 1 * (y 0).val = (y 0).val; omega
  | ⟨1, _⟩ => show win9_6.index t (1 : Fin 2) * 128 + 1 * (y 1).val = (y 1).val; omega

theorem whole9_7 (t : Fin cfg9.N) (A : S1x128.Idx → Elt Ideal .f32) : ((cfg9.win 7).blk t).view.read (Elt Ideal) A = A := by
  obtain ⟨e0, e1⟩ := idx9_7 t
  funext y
  show A (((cfg9.win 7).blk t).view.emb y) = A y
  refine congrArg A (funext fun a => Fin.ext ?_)
  match a with
  | ⟨0, _⟩ => show win9_7.index t (0 : Fin 2) * 1 + 1 * (y 0).val = (y 0).val; omega
  | ⟨1, _⟩ => show win9_7.index t (1 : Fin 2) * 128 + 1 * (y 1).val = (y 1).val; omega

theorem whole9_8 (t : Fin cfg9.N) (A : S1x128.Idx → Elt Ideal .f32) : ((cfg9.win 8).blk t).view.read (Elt Ideal) A = A := by
  obtain ⟨e0, e1⟩ := idx9_8 t
  funext y
  show A (((cfg9.win 8).blk t).view.emb y) = A y
  refine congrArg A (funext fun a => Fin.ext ?_)
  match a with
  | ⟨0, _⟩ => show win9_8.index t (0 : Fin 2) * 1 + 1 * (y 0).val = (y 0).val; omega
  | ⟨1, _⟩ => show win9_8.index t (1 : Fin 2) * 128 + 1 * (y 1).val = (y 1).val; omega

theorem whole9_9 (t : Fin cfg9.N) (A : S128x64.Idx → Elt Ideal .f32) : ((cfg9.win 9).blk t).view.read (Elt Ideal) A = A := by
  obtain ⟨e0, e1⟩ := idx9_9 t
  funext y
  show A (((cfg9.win 9).blk t).view.emb y) = A y
  refine congrArg A (funext fun a => Fin.ext ?_)
  match a with
  | ⟨0, _⟩ => show win9_9.index t (0 : Fin 2) * 128 + 1 * (y 0).val = (y 0).val; omega
  | ⟨1, _⟩ => show win9_9.index t (1 : Fin 2) * 64 + 1 * (y 1).val = (y 1).val; omega

theorem whole9_10 (t : Fin cfg9.N) (A : S1x64.Idx → Elt Ideal .f32) : ((cfg9.win 10).blk t).view.read (Elt Ideal) A = A := by
  obtain ⟨e0, e1⟩ := idx9_10 t
  funext y
  show A (((cfg9.win 10).blk t).view.emb y) = A y
  refine congrArg A (funext fun a => Fin.ext ?_)
  match a with
  | ⟨0, _⟩ => show win9_10.index t (0 : Fin 2) * 1 + 1 * (y 0).val = (y 0).val; omega
  | ⟨1, _⟩ => show win9_10.index t (1 : Fin 2) * 64 + 1 * (y 1).val = (y 1).val; omega

theorem whole9_11 (t : Fin cfg9.N) (A : S1x64.Idx → Elt Ideal .f32) : ((cfg9.win 11).blk t).view.read (Elt Ideal) A = A := by
  obtain ⟨e0, e1⟩ := idx9_11 t
  funext y
  show A (((cfg9.win 11).blk t).view.emb y) = A y
  refine congrArg A (funext fun a => Fin.ext ?_)
  match a with
  | ⟨0, _⟩ => show win9_11.index t (0 : Fin 2) * 1 + 1 * (y 0).val = (y 0).val; omega
  | ⟨1, _⟩ => show win9_11.index t (1 : Fin 2) * 64 + 1 * (y 1).val = (y 1).val; omega

theorem whole9_12 (t : Fin cfg9.N) (A : S1x64.Idx → Elt Ideal .f32) : ((cfg9.win 12).blk t).view.read (Elt Ideal) A = A := by
  obtain ⟨e0, e1⟩ := idx9_12 t
  funext y
  show A (((cfg9.win 12).blk t).view.emb y) = A y
  refine congrArg A (funext fun a => Fin.ext ?_)
  match a with
  | ⟨0, _⟩ => show win9_12.index t (0 : Fin 2) * 1 + 1 * (y 0).val = (y 0).val; omega
  | ⟨1, _⟩ => show win9_12.index t (1 : Fin 2) * 64 + 1 * (y 1).val = (y 1).val; omega

theorem whole9_13 (t : Fin cfg9.N) (A : S1x64.Idx → Elt Ideal .f32) : ((cfg9.win 13).blk t).view.read (Elt Ideal) A = A := by
  obtain ⟨e0, e1⟩ := idx9_13 t
  funext y
  show A (((cfg9.win 13).blk t).view.emb y) = A y
  refine congrArg A (funext fun a => Fin.ext ?_)
  match a with
  | ⟨0, _⟩ => show win9_13.index t (0 : Fin 2) * 1 + 1 * (y 0).val = (y 0).val; omega
  | ⟨1, _⟩ => show win9_13.index t (1 : Fin 2) * 64 + 1 * (y 1).val = (y 1).val; omega

theorem whole9_14 (t : Fin cfg9.N) (A : S1x64.Idx → Elt Ideal .f32) : ((cfg9.win 14).blk t).view.read (Elt Ideal) A = A := by
  obtain ⟨e0, e1⟩ := idx9_14 t
  funext y
  show A (((cfg9.win 14).blk t).view.emb y) = A y
  refine congrArg A (funext fun a => Fin.ext ?_)
  match a with
  | ⟨0, _⟩ => show win9_14.index t (0 : Fin 2) * 1 + 1 * (y 0).val = (y 0).val; omega
  | ⟨1, _⟩ => show win9_14.index t (1 : Fin 2) * 64 + 1 * (y 1).val = (y 1).val; omega

/-! ## The output array -/

theorem zeros9 : (![0, 0] : Fin 2 → Nat) = fun _ => 0 := funext fun a => by fin_cases a <;> rfl

/-- What the body leaves in the output block is its one store's payload, each load reading its whole buffer. -/
theorem out9_15_eq (x_0 : Vec Ideal S4096x64 .f32) (x_1 : Vec Ideal S4096x64 .f32) (x_2 : Vec Ideal S1x64 .f32) (x_3 : Vec Ideal S64x128 .f32) (x_4 : Vec Ideal S1x128 .f32) (x_5 : Vec Ideal S1x128 .f32) (x_6 : Vec Ideal S1x128 .f32) (x_7 : Vec Ideal S1x128 .f32) (x_8 : Vec Ideal S1x128 .f32) (x_9 : Vec Ideal S128x64 .f32) (x_10 : Vec Ideal S1x64 .f32) (x_11 : Vec Ideal S1x64 .f32) (x_12 : Vec Ideal S1x64 .f32) (x_13 : Vec Ideal S1x64 .f32) (x_14 : Vec Ideal S1x64 .f32) :
    out9_15 x_0 x_1 x_2 x_3 x_4 x_5 x_6 x_7 x_8 x_9 x_10 x_11 x_12 x_13 x_14 = k9_pay1 (k9_pay2 x_2 x_0 x_1 x_3 x_4 x_5 x_6 x_7) (k9_pay3 x_8) x_9 x_10 x_11 x_12 x_13 x_14 x_0 := by
  unfold out9_15
  rw [View.canon_unit_zero zeros9]
  simp only [View.ld_unit_zero (S := S4096x64) zeros9, View.ld_unit_zero (S := S1x64) zeros9, View.ld_unit_zero (S := S64x128) zeros9,
    View.ld_unit_zero (S := S1x128) zeros9, View.ld_unit_zero (S := S128x64) zeros9]

theorem loc9_ix2 (r : Fin 65536) (k : Fin 64) : loc9 (ix2 r k) = ix2 ⟨r.val % 4096, Nat.mod_lt _ (by decide)⟩ k := rfl

variable (V : (c : Dev nD) → (b : Ref sig .tc) → Buf (Elt Ideal) ((c : Thread nD τ).loc b))

set_option maxHeartbeats 4000000 in
/-- The output array after the region: the second normalisation of the layer's second linear map, clipped at zero, plus
    the layer's input — all read off the arrays as the region finds them. -/
theorem val9_15 (c : Dev nD) :
    Spec.cur2 ((dat9 V c).arrAt 15 cfg9.N : S65536x64.Idx → EReal)
      = fun r k => Spec.relu (Spec.norm (Spec.z2 (Spec.relu (Spec.norm (Spec.z1 (Spec.cur2 (V c (Pipeline.arrRef spec9 2) : S1x64.Idx → EReal)) (Spec.cur2 (V c (Pipeline.arrRef spec9 0) : S65536x64.Idx → EReal)) (Spec.cur2 (V c (Pipeline.arrRef spec9 1) : S65536x64.Idx → EReal)) (Spec.cur2 (V c (Pipeline.arrRef spec9 3) : S64x128.Idx → EReal)) (Spec.cur2 (V c (Pipeline.arrRef spec9 4) : S1x128.Idx → EReal))) (Spec.cur2 (V c (Pipeline.arrRef spec9 5) : S1x128.Idx → EReal)) (Spec.cur2 (V c (Pipeline.arrRef spec9 6) : S1x128.Idx → EReal)) (Spec.cur2 (V c (Pipeline.arrRef spec9 7) : S1x128.Idx → EReal)) (Spec.cur2 (V c (Pipeline.arrRef spec9 8) : S1x128.Idx → EReal)))) (Spec.cur2 (V c (Pipeline.arrRef spec9 9) : S128x64.Idx → EReal)) (Spec.cur2 (V c (Pipeline.arrRef spec9 10) : S1x64.Idx → EReal))) (Spec.cur2 (V c (Pipeline.arrRef spec9 11) : S1x64.Idx → EReal)) (Spec.cur2 (V c (Pipeline.arrRef spec9 12) : S1x64.Idx → EReal)) (Spec.cur2 (V c (Pipeline.arrRef spec9 13) : S1x64.Idx → EReal)) (Spec.cur2 (V c (Pipeline.arrRef spec9 14) : S1x64.Idx → EReal))) r k + (Spec.cur2 (V c (Pipeline.arrRef spec9 0) : S65536x64.Idx → EReal)) r k := by
  have hfin : (dat9 V c).arrAt 15 cfg9.N = _ := final9_15 V c
  rw [hfin]
  funext r k
  simp only [Spec.cur2]
  rw [G9_15_apply]
  rw [whole9_2, whole9_3, whole9_4, whole9_5, whole9_6, whole9_7, whole9_8, whole9_9, whole9_10, whole9_11, whole9_12, whole9_13, whole9_14]
  generalize hX_0 : (((cfg9.win 0).blk (pt9 (ix2 r k))).view.read (Elt Ideal) (V c (Pipeline.arrRef spec9 0)) : Vec Ideal S4096x64 .f32) = X_0
  generalize hX_1 : (((cfg9.win 1).blk (pt9 (ix2 r k))).view.read (Elt Ideal) (V c (Pipeline.arrRef spec9 1)) : Vec Ideal S4096x64 .f32) = X_1
  have hr_0 : ∀ i : Fin 64, X_0 (ix2 ⟨r.val % 4096, Nat.mod_lt _ (by decide)⟩ i) = (V c (Pipeline.arrRef spec9 0) : S65536x64.Idx → EReal) (ix2 r i) :=
    fun i => by rw [← hX_0]; exact rows9_0 _ r k i
  have hr_1 : ∀ i : Fin 64, X_1 (ix2 ⟨r.val % 4096, Nat.mod_lt _ (by decide)⟩ i) = (V c (Pipeline.arrRef spec9 1) : S65536x64.Idx → EReal) (ix2 r i) :=
    fun i => by rw [← hX_1]; exact rows9_1 _ r k i
  rw [out9_15_eq, loc9_ix2, k9_pay1_apply]
  simp only [k9_pay2_apply, k9_pay3_apply, hr_0, hr_1]
  simp only [Spec.relu, Spec.norm, Spec.z2, Spec.z1, Spec.lin, Spec.combine, Spec.cur2]

end Cert.KernelIdeal.Val

end
-- ==== Proof.KI.Fin10.lean ====
/- The two statistics' arrays after a layer's first statistics pass: each is written back once, at the last point,
   whole, so it ends holding what the body stored there from the totals of the running sums. -/
import proofs.«159011_j9938554322955_1_alg».proof.Proof.KI.Reg10
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The last point is a point of the grid. -/
theorem h15_10 : 15 < cfg10.N := by rw [show cfg10.N = 16 from N_10]; decide

/-- The two outputs' one block sits at block index zero on both axes, at every point. -/
theorem idx10_5 : ∀ t : Fin cfg10.N, win10_5.index t (0 : Fin 2) = 0 ∧ win10_5.index t (1 : Fin 2) = 0 :=
  (by decide +kernel : ∀ t : Fin grid10.N, _)
theorem idx10_6 : ∀ t : Fin cfg10.N, win10_6.index t (0 : Fin 2) = 0 ∧ win10_6.index t (1 : Fin 2) = 0 :=
  (by decide +kernel : ∀ t : Fin grid10.N, _)

/-! ## The mean's array after the region -/

/-- What the mean's array holds after the region: the mean stored from the totals, the sums after the last point. -/
noncomputable def G10_5 (c : Dev nD) : S1x128.Idx → Elt F .f32 := oM10 (accS10 V c 15 h15_10)

/-- What the last point writes back is that array's one block. -/
theorem flushed10_5_eq (c : Dev nD) (t : Fin cfg10.N) (hf : (cfg10.win 5).flush t = true) :
    (dat10 V c).flushed 5 t = ((cfg10.win 5).blk t).view.read (Elt F) (G10_5 V c) := by
  have hN : t.val < 16 := lt_of_lt_of_eq t.isLt (show cfg10.N = 16 from N_10)
  have ht : t.val = 15 := by have := (flush10_5 t).mp hf; omega
  show (cfg10.win 5).cut (grid10.coords t) ((dat10 V c).after 5 t) = _
  rw [after10_5]
  obtain ⟨n, hn⟩ := t
  dsimp only at ht
  subst ht
  obtain ⟨e0, e1⟩ := idx10_5 ⟨15, hn⟩
  funext j
  show (oM10 (accS10 V c 15 hn)) j = G10_5 V c (((cfg10.win 5).blk ⟨15, hn⟩).view.emb j)
  unfold G10_5
  refine congrArg _ ?_
  funext a; apply Fin.ext
  match a with
  | ⟨0, _⟩ => show (j 0).val = win10_5.index ⟨15, hn⟩ (0 : Fin 2) * 1 + 1 * (j 0).val; omega
  | ⟨1, _⟩ => show (j 1).val = win10_5.index ⟨15, hn⟩ (1 : Fin 2) * 128 + 1 * (j 1).val; omega

/-- An index of the array is in a point's block iff each coordinate is in the block's range on its axis. -/
theorem mem_blk10_5 (t : Fin cfg10.N) (i : S1x128.Idx) :
    i ∈ ((cfg10.win 5).blk t).view.set ↔ ∀ a : Fin 2, win10_5.index t a * S1x128.size a ≤ (i a).val ∧ (i a).val < win10_5.index t a * S1x128.size a + S1x128.size a := by
  show i ∈ ((View.whole main_v229_0).slice (win10_5.rect t)).set ↔ _
  rw [View.set_slice_whole, Rect.mem_set_unit]
  exact Iff.rfl

/-- The last point's block is the whole array. -/
theorem cover10_5 (i : S1x128.Idx) : ∃ t : Fin cfg10.N, (cfg10.win 5).flush t = true ∧ i ∈ ((cfg10.win 5).blk t).view.set := by
  refine ⟨t10_15, (flush10_5 t10_15).mpr rfl, ?_⟩
  rw [mem_blk10_5]
  obtain ⟨e0, e1⟩ := idx10_5 t10_15
  have h0 : (i 0).val < 1 := (i 0).isLt
  have h1 : (i 1).val < 128 := (i 1).isLt
  intro a
  match a with
  | ⟨0, _⟩ => show win10_5.index t10_15 (0 : Fin 2) * 1 ≤ (i 0).val ∧ (i 0).val < win10_5.index t10_15 (0 : Fin 2) * 1 + 1; omega
  | ⟨1, _⟩ => show win10_5.index t10_15 (1 : Fin 2) * 128 ≤ (i 1).val ∧ (i 1).val < win10_5.index t10_15 (1 : Fin 2) * 128 + 128; omega

/-- The mean's array after the region, whole. -/
theorem final10_5 (c : Dev nD) : (dat10 V c).arrAt 5 cfg10.N = G10_5 V c :=
  (dat10 V c).arrAt_eq_of_cover 5 (G10_5 V c) (fun t hf => flushed10_5_eq V c t hf) cover10_5

/-! ## The variance's array after the region -/

/-- What the variance's array holds after the region: the variance stored from the totals, the sums after the last point. -/
noncomputable def G10_6 (c : Dev nD) : S1x128.Idx → Elt F .f32 := oV10 (accS10 V c 15 h15_10) (accQ10 V c 15 h15_10)

/-- What the last point writes back is that array's one block. -/
theorem flushed10_6_eq (c : Dev nD) (t : Fin cfg10.N) (hf : (cfg10.win 6).flush t = true) :
    (dat10 V c).flushed 6 t = ((cfg10.win 6).blk t).view.read (Elt F) (G10_6 V c) := by
  have hN : t.val < 16 := lt_of_lt_of_eq t.isLt (show cfg10.N = 16 from N_10)
  have ht : t.val = 15 := by have := (flush10_6 t).mp hf; omega
  show (cfg10.win 6).cut (grid10.coords t) ((dat10 V c).after 6 t) = _
  rw [after10_6]
  obtain ⟨n, hn⟩ := t
  dsimp only at ht
  subst ht
  obtain ⟨e0, e1⟩ := idx10_6 ⟨15, hn⟩
  funext j
  show (oV10 (accS10 V c 15 hn) (accQ10 V c 15 h15_10)) j = G10_6 V c (((cfg10.win 6).blk ⟨15, hn⟩).view.emb j)
  unfold G10_6
  refine congrArg _ ?_
  funext a; apply Fin.ext
  match a with
  | ⟨0, _⟩ => show (j 0).val = win10_6.index ⟨15, hn⟩ (0 : Fin 2) * 1 + 1 * (j 0).val; omega
  | ⟨1, _⟩ => show (j 1).val = win10_6.index ⟨15, hn⟩ (1 : Fin 2) * 128 + 1 * (j 1).val; omega

/-- An index of the array is in a point's block iff each coordinate is in the block's range on its axis. -/
theorem mem_blk10_6 (t : Fin cfg10.N) (i : S1x128.Idx) :
    i ∈ ((cfg10.win 6).blk t).view.set ↔ ∀ a : Fin 2, win10_6.index t a * S1x128.size a ≤ (i a).val ∧ (i a).val < win10_6.index t a * S1x128.size a + S1x128.size a := by
  show i ∈ ((View.whole main_v229_1).slice (win10_6.rect t)).set ↔ _
  rw [View.set_slice_whole, Rect.mem_set_unit]
  exact Iff.rfl

/-- The last point's block is the whole array. -/
theorem cover10_6 (i : S1x128.Idx) : ∃ t : Fin cfg10.N, (cfg10.win 6).flush t = true ∧ i ∈ ((cfg10.win 6).blk t).view.set := by
  refine ⟨t10_15, (flush10_6 t10_15).mpr rfl, ?_⟩
  rw [mem_blk10_6]
  obtain ⟨e0, e1⟩ := idx10_6 t10_15
  have h0 : (i 0).val < 1 := (i 0).isLt
  have h1 : (i 1).val < 128 := (i 1).isLt
  intro a
  match a with
  | ⟨0, _⟩ => show win10_6.index t10_15 (0 : Fin 2) * 1 ≤ (i 0).val ∧ (i 0).val < win10_6.index t10_15 (0 : Fin 2) * 1 + 1; omega
  | ⟨1, _⟩ => show win10_6.index t10_15 (1 : Fin 2) * 128 ≤ (i 1).val ∧ (i 1).val < win10_6.index t10_15 (1 : Fin 2) * 128 + 128; omega

/-- The variance's array after the region, whole. -/
theorem final10_6 (c : Dev nD) : (dat10 V c).arrAt 6 cfg10.N = G10_6 V c :=
  (dat10 V c).arrAt_eq_of_cover 6 (G10_6 V c) (fun t hf => flushed10_6_eq V c t hf) cover10_6

end Cert.KernelIdeal.Hand

end
-- ==== Proof.KI.Pay10.lean ====
/- A first statistics pass, block by block, at the extended reals: what each stored value is at an index. The carried
   sums receive the block's column sums of the first linear map z and of z · z; both start at zero; and the last block's
   stores are S · 2⁻¹⁶ and Q · 2⁻¹⁶ − (S · 2⁻¹⁶)². -/
import proofs.«159011_j9938554322955_1_alg».proof.Proof.KI.Pay1Lib

noncomputable section

namespace Cert.KernelIdeal.Val

open Cert.KernelIdeal Cert.KernelIdeal.Gen
open Idealize.ShloMosaic Idealize.ShloMosaic.ValueIdx
open scoped BigOperators

/-! ### The payloads at an index -/

/-- The block's first linear map as the program computes it. -/
theorem pay6_10_apply (e : Vec Ideal S1x64 .f32) (x a : Vec Ideal S4096x64 .f32) (W : Vec Ideal S64x128 .f32)
    (b : Vec Ideal S1x128 .f32) (y : Fin 4096) (j : Fin 128) :
    k10_pay6 e x a W b (ix2 y j) = zblk1 e x a W b y j := by
  unfold k10_pay6
  simp only [shapeCast_self, mulf_apply, addf_apply, truncf_apply, broadcast_apply, row128_apply, row64_apply, mmA_apply]
  rfl

/-- The carried sum starts at zero. -/
theorem pay4_10_apply (p : Fin 1) (j : Fin 128) : k10_pay4 (F := Ideal) (ix2 p j) = 0 := by
  unfold k10_pay4
  simp only [shapeCast_self, broadcast_apply]
  exact scalar_zero

/-- The carried sum of squares starts at zero. -/
theorem pay5_10_apply (p : Fin 1) (j : Fin 128) : k10_pay5 (F := Ideal) (ix2 p j) = 0 := by
  unfold k10_pay5
  simp only [shapeCast_self, broadcast_apply]
  exact scalar_zero

/-- The carried sum S receives the block's column sum of z. -/
theorem pay7_10_apply (e : Vec Ideal S1x64 .f32) (x a : Vec Ideal S4096x64 .f32) (W : Vec Ideal S64x128 .f32)
    (b : Vec Ideal S1x128 .f32) (S : Vec Ideal S1x128 .f32) (p : Fin 1) (j : Fin 128) :
    k10_pay7 e x a W b S (ix2 p j) = S (ix2 p j) + ∑ y : Fin 4096, zblk1 e x a W b y j := by
  unfold k10_pay7
  simp only [shapeCast_self, addf_apply, cast128_apply]
  refine congrArg (S (ix2 p j) + ·) ?_
  refine (colsum128_apply (k10_pay6 e x a W b) _ _ j).trans ?_
  exact Finset.sum_congr rfl fun y _ => pay6_10_apply e x a W b y j

/-- The carried sum Q receives the block's column sum of z · z. -/
theorem pay8_10_apply (e : Vec Ideal S1x64 .f32) (x a : Vec Ideal S4096x64 .f32) (W : Vec Ideal S64x128 .f32)
    (b : Vec Ideal S1x128 .f32) (Q : Vec Ideal S1x128 .f32) (p : Fin 1) (j : Fin 128) :
    k10_pay8 e x a W b Q (ix2 p j) = Q (ix2 p j) + ∑ y : Fin 4096, zblk1 e x a W b y j * zblk1 e x a W b y j := by
  unfold k10_pay8
  simp only [addf_apply, cast128_apply]
  refine congrArg (Q (ix2 p j) + ·) ?_
  refine (colsum128_apply (mulf (k10_pay6 e x a W b) (k10_pay6 e x a W b)) _ _ j).trans ?_
  refine Finset.sum_congr rfl fun y _ => ?_
  rw [mulf_apply, pay6_10_apply]

/-- The same through the store's identity cast. -/
theorem pay1_8_10_apply (e : Vec Ideal S1x64 .f32) (x a : Vec Ideal S4096x64 .f32) (W : Vec Ideal S64x128 .f32)
    (b : Vec Ideal S1x128 .f32) (Q : Vec Ideal S1x128 .f32) (p : Fin 1) (j : Fin 128) :
    k10_pay1 (k10_pay8 e x a W b Q) (ix2 p j)
      = Q (ix2 p j) + ∑ y : Fin 4096, zblk1 e x a W b y j * zblk1 e x a W b y j := by
  unfold k10_pay1
  simp only [shapeCast_self]
  exact pay8_10_apply e x a W b Q p j

/-- The identity cast in front of the store of Q. -/
theorem pay1_10_apply (v : FVec Ideal S1x128 .f32) : k10_pay1 v = v := by
  unfold k10_pay1
  simp only [shapeCast_self]

/-- The last block's first store: the sum times 2⁻¹⁶. -/
theorem pay2_10_apply (S : Vec Ideal S1x128 .f32) (p : Fin 1) (j : Fin 128) :
    k10_pay2 S (ix2 p j) = S (ix2 p j) * Ideal.ofBits .f32 Spec.wInvN := by
  unfold k10_pay2
  simp only [mulf_apply, broadcast_apply]
  rfl

/-- The last block's second store: the sum of squares times 2⁻¹⁶, minus the square of the first store. -/
theorem pay3_10_apply (S Q : Vec Ideal S1x128 .f32) (p : Fin 1) (j : Fin 128) :
    k10_pay3 S Q (ix2 p j)
      = Q (ix2 p j) * Ideal.ofBits .f32 Spec.wInvN
        - (S (ix2 p j) * Ideal.ofBits .f32 Spec.wInvN) * (S (ix2 p j) * Ideal.ofBits .f32 Spec.wInvN) := by
  unfold k10_pay3
  simp only [mulf_apply, subf_apply, broadcast_apply, pay2_10_apply]
  rfl

end Cert.KernelIdeal.Val

end
-- ==== Proof.KI.Val10.lean ====
/- A layer's first statistics pass at the extended reals. The sixteen points of the grid each add, to two running sums
   that start at zero, the column sums of z and of z · z over their block of 4096 nodes, z being the layer's first linear
   map of the combined features; the last point stores the total of z times 2⁻¹⁶ and the total of z · z times 2⁻¹⁶ minus
   the square of the first. Blocks are consecutive rows of the arrays, so the totals are the sums over all 65536 nodes,
   and on real data the two stored rows are the mean and the variance of z. -/
import proofs.«159011_j9938554322955_1_alg».proof.Proof.KI.Fin10
import proofs.«159011_j9938554322955_1_alg».proof.Proof.KI.Pay10
import proofs.«159011_j9938554322955_1_alg».proof.Proof.Math.Spec
import proofs.«159011_j9938554322955_1_alg».proof.Proof.Math.Real
import proofs.«159011_j9938554322955_1_alg».proof.Proof.LibStats

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! ### Blocks are rows of the arrays -/

/-- The printed index maps over the grid: the features and the neighbour sums move one block of rows per point; the
    offset, the matrix and the bias stay. -/
theorem idxIn10_0 : ∀ t : Fin cfg10.N, win10_0.index t (0 : Fin 2) = t.val ∧ win10_0.index t (1 : Fin 2) = 0 :=
  (by decide +kernel : ∀ t : Fin grid10.N, _)
theorem idxIn10_1 : ∀ t : Fin cfg10.N, win10_1.index t (0 : Fin 2) = t.val ∧ win10_1.index t (1 : Fin 2) = 0 :=
  (by decide +kernel : ∀ t : Fin grid10.N, _)
theorem idxIn10_2 : ∀ t : Fin cfg10.N, win10_2.index t (0 : Fin 2) = 0 ∧ win10_2.index t (1 : Fin 2) = 0 :=
  (by decide +kernel : ∀ t : Fin grid10.N, _)
theorem idxIn10_3 : ∀ t : Fin cfg10.N, win10_3.index t (0 : Fin 2) = 0 ∧ win10_3.index t (1 : Fin 2) = 0 :=
  (by decide +kernel : ∀ t : Fin grid10.N, _)
theorem idxIn10_4 : ∀ t : Fin cfg10.N, win10_4.index t (0 : Fin 2) = 0 ∧ win10_4.index t (1 : Fin 2) = 0 :=
  (by decide +kernel : ∀ t : Fin grid10.N, _)

/-- Row y of the features' block at point t is row 4096 · t + y of the array. -/
theorem blk10_0 (c : Dev nD) (t : Fin cfg10.N) (y : Fin 4096) (k : Fin 64) :
    (iblk10 V c 0 t : Vec Ideal S4096x64 .f32) (ix2 y k)
      = Spec.cur2 (V c main_v209) ⟨4096 * t.val + y.val, by have := lt_of_lt_of_eq t.isLt (show cfg10.N = 16 from N_10); omega⟩ k := by
  obtain ⟨e0, e1⟩ := idxIn10_0 t
  show V c main_v209 (((cfg10.win 0).blk t).view.emb (ix2 y k)) = V c main_v209 (ix2 _ k)
  refine congrArg (V c main_v209) ?_
  funext a; apply Fin.ext
  match a with
  | ⟨0, _⟩ => show win10_0.index t (0 : Fin 2) * 4096 + 1 * y.val = 4096 * t.val + y.val; omega
  | ⟨1, _⟩ => show win10_0.index t (1 : Fin 2) * 64 + 1 * k.val = k.val; omega

/-- Row y of the neighbour sums' block at point t is row 4096 · t + y of the array. -/
theorem blk10_1 (c : Dev nD) (t : Fin cfg10.N) (y : Fin 4096) (k : Fin 64) :
    (iblk10 V c 1 t : Vec Ideal S4096x64 .f32) (ix2 y k)
      = Spec.cur2 (V c main_v219) ⟨4096 * t.val + y.val, by have := lt_of_lt_of_eq t.isLt (show cfg10.N = 16 from N_10); omega⟩ k := by
  obtain ⟨e0, e1⟩ := idxIn10_1 t
  show V c main_v219 (((cfg10.win 1).blk t).view.emb (ix2 y k)) = V c main_v219 (ix2 _ k)
  refine congrArg (V c main_v219) ?_
  funext a; apply Fin.ext
  match a with
  | ⟨0, _⟩ => show win10_1.index t (0 : Fin 2) * 4096 + 1 * y.val = 4096 * t.val + y.val; omega
  | ⟨1, _⟩ => show win10_1.index t (1 : Fin 2) * 64 + 1 * k.val = k.val; omega

/-- The offset's block is its whole array, at every point. -/
theorem blk10_2 (c : Dev nD) (t : Fin cfg10.N) :
    Spec.cur2 (iblk10 V c 2 t : Vec Ideal S1x64 .f32) = Spec.cur2 (V c main_v227) := by
  obtain ⟨e0, e1⟩ := idxIn10_2 t
  funext r k
  show V c main_v227 (((cfg10.win 2).blk t).view.emb (ix2 r k)) = V c main_v227 (ix2 r k)
  refine congrArg (V c main_v227) ?_
  funext a; apply Fin.ext
  match a with
  | ⟨0, _⟩ => show win10_2.index t (0 : Fin 2) * 1 + 1 * r.val = r.val; omega
  | ⟨1, _⟩ => show win10_2.index t (1 : Fin 2) * 64 + 1 * k.val = k.val; omega

/-- The matrix's block is its whole array, at every point. -/
theorem blk10_3 (c : Dev nD) (t : Fin cfg10.N) :
    Spec.cur2 (iblk10 V c 3 t : Vec Ideal S64x128 .f32) = Spec.cur2 (V c main_v223) := by
  obtain ⟨e0, e1⟩ := idxIn10_3 t
  funext r k
  show V c main_v223 (((cfg10.win 3).blk t).view.emb (ix2 r k)) = V c main_v223 (ix2 r k)
  refine congrArg (V c main_v223) ?_
  funext a; apply Fin.ext
  match a with
  | ⟨0, _⟩ => show win10_3.index t (0 : Fin 2) * 64 + 1 * r.val = r.val; omega
  | ⟨1, _⟩ => show win10_3.index t (1 : Fin 2) * 128 + 1 * k.val = k.val; omega

/-- The bias's block is its whole array, at every point. -/
theorem blk10_4 (c : Dev nD) (t : Fin cfg10.N) :
    Spec.cur2 (iblk10 V c 4 t : Vec Ideal S1x128 .f32) = Spec.cur2 (V c main_v228) := by
  obtain ⟨e0, e1⟩ := idxIn10_4 t
  funext r k
  show V c main_v228 (((cfg10.win 4).blk t).view.emb (ix2 r k)) = V c main_v228 (ix2 r k)
  refine congrArg (V c main_v228) ?_
  funext a; apply Fin.ext
  match a with
  | ⟨0, _⟩ => show win10_4.index t (0 : Fin 2) * 1 + 1 * r.val = r.val; omega
  | ⟨1, _⟩ => show win10_4.index t (1 : Fin 2) * 128 + 1 * k.val = k.val; omega

/-! ### The first linear map on all nodes, and its block sums -/

/-- The layer's first linear map on all 65536 nodes, from the arrays the region finds. -/
noncomputable def zAll10 (c : Dev nD) : Fin 65536 → Fin 128 → EReal :=
  Spec.z1 (Spec.cur2 (V c main_v227)) (Spec.cur2 (V c main_v209)) (Spec.cur2 (V c main_v219)) (Spec.cur2 (V c main_v223)) (Spec.cur2 (V c main_v228))

/-- Row y of block t's linear map is row 4096 · t + y of the whole one. -/
theorem zblk10_at (c : Dev nD) (t : Fin cfg10.N) (y : Fin 4096) (j : Fin 128) :
    zblk1 (iblk10 V c 2 t) (iblk10 V c 0 t) (iblk10 V c 1 t) (iblk10 V c 3 t) (iblk10 V c 4 t) y j
      = zAll10 V c ⟨4096 * t.val + y.val, by have := lt_of_lt_of_eq t.isLt (show cfg10.N = 16 from N_10); omega⟩ j := by
  refine (zblk1_eq_z1 (iblk10 V c 2 t) (iblk10 V c 0 t) (iblk10 V c 1 t) (iblk10 V c 3 t) (iblk10 V c 4 t) (Spec.cur2 (V c main_v209)) (Spec.cur2 (V c main_v219)) y _
    (fun k => blk10_0 V c t y k) (fun k => blk10_1 V c t y k) j).trans ?_
  unfold zAll10
  rw [blk10_2 V c t, blk10_3 V c t, blk10_4 V c t]

/-- Block s's column sum of z at column j (zero past the grid). -/
noncomputable def colZ10 (c : Dev nD) (j : Fin 128) (s : ℕ) : EReal :=
  if h : s < 16 then ∑ y : Fin 4096, zAll10 V c ⟨4096 * s + y.val, by omega⟩ j else 0
/-- Block s's column sum of z · z at column j (zero past the grid). -/
noncomputable def colZZ10 (c : Dev nD) (j : Fin 128) (s : ℕ) : EReal :=
  if h : s < 16 then ∑ y : Fin 4096, zAll10 V c ⟨4096 * s + y.val, by omega⟩ j * zAll10 V c ⟨4096 * s + y.val, by omega⟩ j else 0

theorem sumZ10_at (c : Dev nD) (t : Fin cfg10.N) (j : Fin 128) :
    ∑ y : Fin 4096, zblk1 (iblk10 V c 2 t) (iblk10 V c 0 t) (iblk10 V c 1 t) (iblk10 V c 3 t) (iblk10 V c 4 t) y j = colZ10 V c j t.val := by
  have hN : t.val < 16 := lt_of_lt_of_eq t.isLt (show cfg10.N = 16 from N_10)
  unfold colZ10; rw [dif_pos hN]
  exact Finset.sum_congr rfl fun y _ => zblk10_at V c t y j

theorem sumZZ10_at (c : Dev nD) (t : Fin cfg10.N) (j : Fin 128) :
    ∑ y : Fin 4096, zblk1 (iblk10 V c 2 t) (iblk10 V c 0 t) (iblk10 V c 1 t) (iblk10 V c 3 t) (iblk10 V c 4 t) y j * zblk1 (iblk10 V c 2 t) (iblk10 V c 0 t) (iblk10 V c 1 t) (iblk10 V c 3 t) (iblk10 V c 4 t) y j = colZZ10 V c j t.val := by
  have hN : t.val < 16 := lt_of_lt_of_eq t.isLt (show cfg10.N = 16 from N_10)
  unfold colZZ10; rw [dif_pos hN]
  exact Finset.sum_congr rfl fun y _ => by rw [zblk10_at V c t y j]

/-! ### The running sums, closed -/

/-- After point n the first scratch row holds the column sums of z over the blocks up to n. -/
theorem accS10_val (c : Dev nD) (p : Fin 1) (j : Fin 128) :
    ∀ (n : ℕ) (hn : n < cfg10.N), accS10 V c n hn (ix2 p j) = ∑ s ∈ Finset.range (n + 1), colZ10 V c j s
  | 0, hn => by
    show sS10 (iblk10 V c 0 ⟨0, hn⟩) (iblk10 V c 1 ⟨0, hn⟩) (iblk10 V c 2 ⟨0, hn⟩) (iblk10 V c 3 ⟨0, hn⟩) (iblk10 V c 4 ⟨0, hn⟩) zS10 (ix2 p j) = _
    unfold sS10 zS10
    rw [pay7_10_apply, pay4_10_apply, zero_add, sumZ10_at V c ⟨0, hn⟩ j, Finset.sum_range_succ, Finset.sum_range_zero, zero_add]
  | n + 1, hn => by
    show sS10 (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩)
      (accS10 V c n (Nat.lt_of_succ_lt hn)) (ix2 p j) = _
    unfold sS10
    rw [pay7_10_apply, accS10_val c p j n (Nat.lt_of_succ_lt hn), sumZ10_at V c ⟨n + 1, hn⟩ j, Finset.sum_range_succ _ (n + 1)]

/-- After point n the second scratch row holds the column sums of z · z over the blocks up to n. -/
theorem accQ10_val (c : Dev nD) (p : Fin 1) (j : Fin 128) :
    ∀ (n : ℕ) (hn : n < cfg10.N), accQ10 V c n hn (ix2 p j) = ∑ s ∈ Finset.range (n + 1), colZZ10 V c j s
  | 0, hn => by
    show sQ10 (iblk10 V c 0 ⟨0, hn⟩) (iblk10 V c 1 ⟨0, hn⟩) (iblk10 V c 2 ⟨0, hn⟩) (iblk10 V c 3 ⟨0, hn⟩) (iblk10 V c 4 ⟨0, hn⟩) zQ10 (ix2 p j) = _
    unfold sQ10 zQ10
    rw [pay1_8_10_apply, pay5_10_apply, zero_add, sumZZ10_at V c ⟨0, hn⟩ j, Finset.sum_range_succ, Finset.sum_range_zero, zero_add]
  | n + 1, hn => by
    show sQ10 (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩)
      (accQ10 V c n (Nat.lt_of_succ_lt hn)) (ix2 p j) = _
    unfold sQ10
    rw [pay1_8_10_apply, accQ10_val c p j n (Nat.lt_of_succ_lt hn), sumZZ10_at V c ⟨n + 1, hn⟩ j, Finset.sum_range_succ _ (n + 1)]

/-! ### The two statistics -/

/-- The mean's array after the region is the mean of z over all nodes. -/
theorem val10_5 (c : Dev nD) :
    Spec.cur2 ((dat10 V c).arrAt 5 cfg10.N) = Spec.mean (zAll10 V c) := by
  funext p j
  refine (congrFun (final10_5 V c) (ix2 p j)).trans ?_
  unfold G10_5 oM10
  rw [pay2_10_apply, accS10_val V c p j 15 h15_10]
  exact Spec.mean_kernel_form_range (zAll10 V c) j (colZ10 V c j) (fun t ht => dif_pos ht)

/-- On real data the variance's array after the region is the variance of z over all nodes. -/
theorem val10_6 (c : Dev nD)
    (he : ∀ i k, Cert.Lib.IsReal (Spec.cur2 (V c main_v227) i k)) (hx : ∀ r k, Cert.Lib.IsReal (Spec.cur2 (V c main_v209) r k))
    (hagg : ∀ r k, Cert.Lib.IsReal (Spec.cur2 (V c main_v219) r k)) (hW : ∀ k j, Cert.Lib.IsReal (Spec.cur2 (V c main_v223) k j))
    (hb : ∀ i j, Cert.Lib.IsReal (Spec.cur2 (V c main_v228) i j)) :
    Spec.cur2 ((dat10 V c).arrAt 6 cfg10.N) = Spec.var (zAll10 V c) := by
  funext p j
  refine (congrFun (final10_6 V c) (ix2 p j)).trans ?_
  unfold G10_6 oV10
  rw [pay3_10_apply, accS10_val V c p j 15 h15_10, accQ10_val V c p j 15 h15_10]
  exact Spec.var_kernel_form_range (zAll10 V c) (Spec.isReal_z1 he hx hagg hW hb) j (colZ10 V c j) (colZZ10 V c j)
    (fun t ht => dif_pos ht) (fun t ht => dif_pos ht)

end Cert.KernelIdeal.Val

end
-- ==== Proof.KI.Pay11.lean ====
/- A second statistics pass, block by block, at the extended reals: what each stored value is at an index. The carried
   sums receive the block's column sums of the second linear map and of its square; both start at zero; and the last
   block's stores are S · 2⁻¹⁶ and Q · 2⁻¹⁶ − (S · 2⁻¹⁶)². -/
import proofs.«159011_j9938554322955_1_alg».proof.Proof.KI.Pay2Lib

noncomputable section

namespace Cert.KernelIdeal.Val

open Cert.KernelIdeal Cert.KernelIdeal.Gen
open Idealize.ShloMosaic Idealize.ShloMosaic.ValueIdx
open scoped BigOperators

/-! ### The payloads at an index -/

/-- The first linear map less the mean, times the reciprocal root of the offset variance. -/
theorem pay8_11_apply (e : Vec Ideal S1x64 .f32) (x a : Vec Ideal S4096x64 .f32) (W1 : Vec Ideal S64x128 .f32)
    (b1 m1 v1 : Vec Ideal S1x128 .f32) (y : Fin 4096) (j : Fin 128) :
    k11_pay8 e x a W1 b1 m1 v1 (ix2 y j)
      = (zblk1 e x a W1 b1 y j - m1 (ix2 0 j)) * Ideal.rsqrt (v1 (ix2 0 j) + Spec.cEps) := by
  unfold k11_pay8
  simp only [shapeCast_self, mulf_apply, addf_apply, subf_apply, truncf_apply, broadcast_apply, rsqrt_apply,
    row128_apply, row64_apply, mmA_apply]
  rfl

/-- The gain laid along the rows. -/
theorem pay9_11_apply (g1 : Vec Ideal S1x128 .f32) (y : Fin 4096) (j : Fin 128) :
    k11_pay9 g1 (ix2 y j) = g1 (ix2 0 j) := by
  unfold k11_pay9
  simp only [shapeCast_self, row128_apply]

/-- The second linear map from any two factors P and G of the normalised first one. -/
theorem pay1_11_apply (P G : FVec Ideal S4096x128 .f32) (be1 : Vec Ideal S1x128 .f32) (W2 : Vec Ideal S128x64 .f32)
    (b2 : Vec Ideal S1x64 .f32) (y : Fin 4096) (q : Fin 64) :
    k11_pay1 P G be1 W2 b2 (ix2 y q)
      = (∑ i : Fin 128, max (P (ix2 y i) * G (ix2 y i) + be1 (ix2 0 i)) 0 * W2 (ix2 i q)) + b2 (ix2 0 q) := by
  unfold k11_pay1
  simp only [shapeCast_self, mulf_apply, addf_apply, maximumf_apply, truncf_apply, broadcast_apply,
    row128_apply, row64_apply, mmB_apply, scalar_zero]

/-- The block's second linear map as the program computes it. -/
theorem pay1_8_9_11_apply (e : Vec Ideal S1x64 .f32) (x a : Vec Ideal S4096x64 .f32) (W1 : Vec Ideal S64x128 .f32)
    (b1 m1 v1 g1 be1 : Vec Ideal S1x128 .f32) (W2 : Vec Ideal S128x64 .f32) (b2 : Vec Ideal S1x64 .f32)
    (y : Fin 4096) (q : Fin 64) :
    k11_pay1 (k11_pay8 e x a W1 b1 m1 v1) (k11_pay9 g1) be1 W2 b2 (ix2 y q)
      = z2blk e x a W1 b1 m1 v1 g1 be1 W2 b2 y q := by
  rw [pay1_11_apply, z2blk_apply]
  simp only [pay8_11_apply, pay9_11_apply]

/-- The carried sum starts at zero. -/
theorem pay6_11_apply (p : Fin 1) (q : Fin 64) : k11_pay6 (F := Ideal) (ix2 p q) = 0 := by
  unfold k11_pay6
  simp only [shapeCast_self, broadcast_apply]
  exact scalar_zero

/-- The carried sum of squares starts at zero. -/
theorem pay7_11_apply (p : Fin 1) (q : Fin 64) : k11_pay7 (F := Ideal) (ix2 p q) = 0 := by
  unfold k11_pay7
  simp only [shapeCast_self, broadcast_apply]
  exact scalar_zero

/-- The carried sum s receives the block's column sum of the second linear map. -/
theorem pay2_11_apply (P G : FVec Ideal S4096x128 .f32) (be1 : Vec Ideal S1x128 .f32) (W2 : Vec Ideal S128x64 .f32)
    (b2 : Vec Ideal S1x64 .f32) (s : Vec Ideal S1x64 .f32) (p : Fin 1) (q : Fin 64) :
    k11_pay2 P G be1 W2 b2 s (ix2 p q) = s (ix2 p q) + ∑ y : Fin 4096, k11_pay1 P G be1 W2 b2 (ix2 y q) := by
  unfold k11_pay2
  simp only [shapeCast_self, addf_apply, cast64_apply]
  exact congrArg (s (ix2 p q) + ·) (colsum64_apply (k11_pay1 P G be1 W2 b2) _ _ q)

/-- The carried sum s receives the block's column sum of the square of the second linear map. -/
theorem pay3_11_apply (P G : FVec Ideal S4096x128 .f32) (be1 : Vec Ideal S1x128 .f32) (W2 : Vec Ideal S128x64 .f32)
    (b2 : Vec Ideal S1x64 .f32) (s : Vec Ideal S1x64 .f32) (p : Fin 1) (q : Fin 64) :
    k11_pay3 P G be1 W2 b2 s (ix2 p q)
      = s (ix2 p q) + ∑ y : Fin 4096, k11_pay1 P G be1 W2 b2 (ix2 y q) * k11_pay1 P G be1 W2 b2 (ix2 y q) := by
  unfold k11_pay3
  simp only [shapeCast_self, addf_apply, cast64_apply]
  refine congrArg (s (ix2 p q) + ·) ?_
  refine (colsum64_apply (mulf (k11_pay1 P G be1 W2 b2) (k11_pay1 P G be1 W2 b2)) _ _ q).trans ?_
  exact Finset.sum_congr rfl fun y _ => mulf_apply _ _ _

/-- The composed forms: the carried sums receive the block's column sums of the second linear map and of its square. -/
theorem pay2_z2blk_11 (e : Vec Ideal S1x64 .f32) (x a : Vec Ideal S4096x64 .f32) (W1 : Vec Ideal S64x128 .f32)
    (b1 m1 v1 g1 be1 : Vec Ideal S1x128 .f32) (W2 : Vec Ideal S128x64 .f32) (b2 : Vec Ideal S1x64 .f32)
    (s : Vec Ideal S1x64 .f32) (p : Fin 1) (q : Fin 64) :
    k11_pay2 (k11_pay8 e x a W1 b1 m1 v1) (k11_pay9 g1) be1 W2 b2 s (ix2 p q)
      = s (ix2 p q) + ∑ y : Fin 4096, z2blk e x a W1 b1 m1 v1 g1 be1 W2 b2 y q := by
  rw [pay2_11_apply]
  exact congrArg (s (ix2 p q) + ·) (Finset.sum_congr rfl fun y _ => pay1_8_9_11_apply e x a W1 b1 m1 v1 g1 be1 W2 b2 y q)

theorem pay3_z2blk_11 (e : Vec Ideal S1x64 .f32) (x a : Vec Ideal S4096x64 .f32) (W1 : Vec Ideal S64x128 .f32)
    (b1 m1 v1 g1 be1 : Vec Ideal S1x128 .f32) (W2 : Vec Ideal S128x64 .f32) (b2 : Vec Ideal S1x64 .f32)
    (s : Vec Ideal S1x64 .f32) (p : Fin 1) (q : Fin 64) :
    k11_pay3 (k11_pay8 e x a W1 b1 m1 v1) (k11_pay9 g1) be1 W2 b2 s (ix2 p q)
      = s (ix2 p q) + ∑ y : Fin 4096,
          z2blk e x a W1 b1 m1 v1 g1 be1 W2 b2 y q * z2blk e x a W1 b1 m1 v1 g1 be1 W2 b2 y q := by
  rw [pay3_11_apply]
  exact congrArg (s (ix2 p q) + ·) (Finset.sum_congr rfl fun y _ => by
    rw [pay1_8_9_11_apply e x a W1 b1 m1 v1 g1 be1 W2 b2 y q])

/-- The last block's first store: the sum times 2⁻¹⁶. -/
theorem pay4_11_apply (s : Vec Ideal S1x64 .f32) (p : Fin 1) (q : Fin 64) :
    k11_pay4 s (ix2 p q) = s (ix2 p q) * Ideal.ofBits .f32 Spec.wInvN := by
  unfold k11_pay4
  simp only [mulf_apply, broadcast_apply]
  rfl

/-- The last block's second store: the sum of squares times 2⁻¹⁶, minus the square of the first store. -/
theorem pay5_11_apply (s qq : Vec Ideal S1x64 .f32) (p : Fin 1) (q : Fin 64) :
    k11_pay5 s qq (ix2 p q)
      = qq (ix2 p q) * Ideal.ofBits .f32 Spec.wInvN - k11_pay4 s (ix2 p q) * k11_pay4 s (ix2 p q) := by
  unfold k11_pay5
  simp only [mulf_apply, subf_apply, broadcast_apply]
  rfl

/-- The same with the first store spelt out. -/
theorem pay5_11_apply' (s qq : Vec Ideal S1x64 .f32) (p : Fin 1) (q : Fin 64) :
    k11_pay5 s qq (ix2 p q)
      = qq (ix2 p q) * Ideal.ofBits .f32 Spec.wInvN
        - (s (ix2 p q) * Ideal.ofBits .f32 Spec.wInvN) * (s (ix2 p q) * Ideal.ofBits .f32 Spec.wInvN) := by
  rw [pay5_11_apply, pay4_11_apply]

end Cert.KernelIdeal.Val

end
-- ==== Proof.KI.Val11.lean ====
import proofs.«159011_j9938554322955_1_alg».proof.Proof.KI.Reg11
import proofs.«159011_j9938554322955_1_alg».proof.Proof.KI.Pay11
import proofs.«159011_j9938554322955_1_alg».proof.Proof.Math.Real
import proofs.«159011_j9938554322955_1_alg».proof.Proof.LibStats

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Lib (IsReal)
open scoped BigOperators

/-! # The second statistics kernel of a layer, on the extended reals

The region's two output arrays are the mean and the variance, over all 65536 nodes, of the layer's second linear map
Z2 — the first linear map normalised by the mean and variance the region is ENTERED with, clipped at zero, mapped to 64
features. The running sums after sixteen points are the sums over the sixteen blocks of the blocks' column sums; a block's
row y at point t is row 4096 t + y of the whole arrays; and S * 2^(-16), Q * 2^(-16) - (S * 2^(-16))^2 are the mean and,
on real data, the variance. -/

variable (V : (c : Dev nD) → (b : Ref sig .tc) → Buf (Elt Ideal) ((c : Thread nD τ).loc b))

/-- The layer's second linear map from the arrays the region is entered with. -/
noncomputable def Z2_11 (c : Dev nD) : Fin 65536 → Fin 64 → EReal :=
  Spec.z2 (Spec.relu (Spec.norm (Spec.z1 (Spec.cur2 (V c main_v245 : Vec Ideal S1x64 .f32)) (Spec.cur2 (V c main_v209 : Vec Ideal S65536x64 .f32)) (Spec.cur2 (V c main_v219 : Vec Ideal S65536x64 .f32)) (Spec.cur2 (V c main_v233 : Vec Ideal S64x128 .f32)) (Spec.cur2 (V c main_v246 : Vec Ideal S1x128 .f32)))
    (Spec.cur2 (V c main_v229_0 : Vec Ideal S1x128 .f32)) (Spec.cur2 (V c main_v229_1 : Vec Ideal S1x128 .f32)) (Spec.cur2 (V c main_v247 : Vec Ideal S1x128 .f32)) (Spec.cur2 (V c main_v248 : Vec Ideal S1x128 .f32)))) (Spec.cur2 (V c main_v241 : Vec Ideal S128x64 .f32)) (Spec.cur2 (V c main_v249 : Vec Ideal S1x64 .f32))

/-! ## The windows' index maps, decided over the grid -/

theorem idx11_0 : ∀ t : Fin cfg11.N, win11_0.index t (0 : Fin 2) = t.val ∧ win11_0.index t (1 : Fin 2) = 0 :=
  (by decide +kernel : ∀ t : Fin grid11.N, win11_0.index t (0 : Fin 2) = t.val ∧ win11_0.index t (1 : Fin 2) = 0)
theorem idx11_1 : ∀ t : Fin cfg11.N, win11_1.index t (0 : Fin 2) = t.val ∧ win11_1.index t (1 : Fin 2) = 0 :=
  (by decide +kernel : ∀ t : Fin grid11.N, win11_1.index t (0 : Fin 2) = t.val ∧ win11_1.index t (1 : Fin 2) = 0)
theorem idx11_2 : ∀ t : Fin cfg11.N, win11_2.index t (0 : Fin 2) = 0 ∧ win11_2.index t (1 : Fin 2) = 0 :=
  (by decide +kernel : ∀ t : Fin grid11.N, win11_2.index t (0 : Fin 2) = 0 ∧ win11_2.index t (1 : Fin 2) = 0)
theorem idx11_3 : ∀ t : Fin cfg11.N, win11_3.index t (0 : Fin 2) = 0 ∧ win11_3.index t (1 : Fin 2) = 0 :=
  (by decide +kernel : ∀ t : Fin grid11.N, win11_3.index t (0 : Fin 2) = 0 ∧ win11_3.index t (1 : Fin 2) = 0)
theorem idx11_4 : ∀ t : Fin cfg11.N, win11_4.index t (0 : Fin 2) = 0 ∧ win11_4.index t (1 : Fin 2) = 0 :=
  (by decide +kernel : ∀ t : Fin grid11.N, win11_4.index t (0 : Fin 2) = 0 ∧ win11_4.index t (1 : Fin 2) = 0)
theorem idx11_5 : ∀ t : Fin cfg11.N, win11_5.index t (0 : Fin 2) = 0 ∧ win11_5.index t (1 : Fin 2) = 0 :=
  (by decide +kernel : ∀ t : Fin grid11.N, win11_5.index t (0 : Fin 2) = 0 ∧ win11_5.index t (1 : Fin 2) = 0)
theorem idx11_6 : ∀ t : Fin cfg11.N, win11_6.index t (0 : Fin 2) = 0 ∧ win11_6.index t (1 : Fin 2) = 0 :=
  (by decide +kernel : ∀ t : Fin grid11.N, win11_6.index t (0 : Fin 2) = 0 ∧ win11_6.index t (1 : Fin 2) = 0)
theorem idx11_7 : ∀ t : Fin cfg11.N, win11_7.index t (0 : Fin 2) = 0 ∧ win11_7.index t (1 : Fin 2) = 0 :=
  (by decide +kernel : ∀ t : Fin grid11.N, win11_7.index t (0 : Fin 2) = 0 ∧ win11_7.index t (1 : Fin 2) = 0)
theorem idx11_8 : ∀ t : Fin cfg11.N, win11_8.index t (0 : Fin 2) = 0 ∧ win11_8.index t (1 : Fin 2) = 0 :=
  (by decide +kernel : ∀ t : Fin grid11.N, win11_8.index t (0 : Fin 2) = 0 ∧ win11_8.index t (1 : Fin 2) = 0)
theorem idx11_9 : ∀ t : Fin cfg11.N, win11_9.index t (0 : Fin 2) = 0 ∧ win11_9.index t (1 : Fin 2) = 0 :=
  (by decide +kernel : ∀ t : Fin grid11.N, win11_9.index t (0 : Fin 2) = 0 ∧ win11_9.index t (1 : Fin 2) = 0)
theorem idx11_10 : ∀ t : Fin cfg11.N, win11_10.index t (0 : Fin 2) = 0 ∧ win11_10.index t (1 : Fin 2) = 0 :=
  (by decide +kernel : ∀ t : Fin grid11.N, win11_10.index t (0 : Fin 2) = 0 ∧ win11_10.index t (1 : Fin 2) = 0)

/-! ## The blocks read off the arrays -/

/-- Row y of window 0's block at point t is row 4096 t + y of its array. -/
theorem blk11_0 (c : Dev nD) (t : Fin cfg11.N) (y : Fin 4096) (r : Fin 65536) (hr : r.val = 4096 * t.val + y.val) (k : Fin 64) :
    (iblk11 V c 0 t : Vec Ideal S4096x64 .f32) (ix2 y k) = Spec.cur2 (V c main_v209 : Vec Ideal S65536x64 .f32) r k := by
  obtain ⟨e0, e1⟩ := idx11_0 t
  show V c main_v209 (((cfg11.win 0).blk t).view.emb (ix2 y k)) = V c main_v209 (ix2 r k)
  refine congrArg _ ?_
  funext a; apply Fin.ext
  match a with
  | ⟨0, _⟩ => show win11_0.index t (0 : Fin 2) * 4096 + 1 * y.val = r.val; rw [e0, hr]; omega
  | ⟨1, _⟩ => show win11_0.index t (1 : Fin 2) * 64 + 1 * k.val = k.val; rw [e1]; omega
/-- Row y of window 1's block at point t is row 4096 t + y of its array. -/
theorem blk11_1 (c : Dev nD) (t : Fin cfg11.N) (y : Fin 4096) (r : Fin 65536) (hr : r.val = 4096 * t.val + y.val) (k : Fin 64) :
    (iblk11 V c 1 t : Vec Ideal S4096x64 .f32) (ix2 y k) = Spec.cur2 (V c main_v219 : Vec Ideal S65536x64 .f32) r k := by
  obtain ⟨e0, e1⟩ := idx11_1 t
  show V c main_v219 (((cfg11.win 1).blk t).view.emb (ix2 y k)) = V c main_v219 (ix2 r k)
  refine congrArg _ ?_
  funext a; apply Fin.ext
  match a with
  | ⟨0, _⟩ => show win11_1.index t (0 : Fin 2) * 4096 + 1 * y.val = r.val; rw [e0, hr]; omega
  | ⟨1, _⟩ => show win11_1.index t (1 : Fin 2) * 64 + 1 * k.val = k.val; rw [e1]; omega
/-- Window 2's block is its whole array at every point. -/
theorem blk11_2 (c : Dev nD) (t : Fin cfg11.N) : (iblk11 V c 2 t : Vec Ideal S1x64 .f32) = (V c main_v245 : Vec Ideal S1x64 .f32) := by
  obtain ⟨e0, e1⟩ := idx11_2 t
  funext j
  show V c main_v245 (((cfg11.win 2).blk t).view.emb j) = V c main_v245 j
  refine congrArg _ ?_
  funext a; apply Fin.ext
  match a with
  | ⟨0, _⟩ => show win11_2.index t (0 : Fin 2) * 1 + 1 * (j 0).val = (j 0).val; rw [e0]; omega
  | ⟨1, _⟩ => show win11_2.index t (1 : Fin 2) * 64 + 1 * (j 1).val = (j 1).val; rw [e1]; omega
/-- Window 3's block is its whole array at every point. -/
theorem blk11_3 (c : Dev nD) (t : Fin cfg11.N) : (iblk11 V c 3 t : Vec Ideal S64x128 .f32) = (V c main_v233 : Vec Ideal S64x128 .f32) := by
  obtain ⟨e0, e1⟩ := idx11_3 t
  funext j
  show V c main_v233 (((cfg11.win 3).blk t).view.emb j) = V c main_v233 j
  refine congrArg _ ?_
  funext a; apply Fin.ext
  match a with
  | ⟨0, _⟩ => show win11_3.index t (0 : Fin 2) * 64 + 1 * (j 0).val = (j 0).val; rw [e0]; omega
  | ⟨1, _⟩ => show win11_3.index t (1 : Fin 2) * 128 + 1 * (j 1).val = (j 1).val; rw [e1]; omega
/-- Window 4's block is its whole array at every point. -/
theorem blk11_4 (c : Dev nD) (t : Fin cfg11.N) : (iblk11 V c 4 t : Vec Ideal S1x128 .f32) = (V c main_v246 : Vec Ideal S1x128 .f32) := by
  obtain ⟨e0, e1⟩ := idx11_4 t
  funext j
  show V c main_v246 (((cfg11.win 4).blk t).view.emb j) = V c main_v246 j
  refine congrArg _ ?_
  funext a; apply Fin.ext
  match a with
  | ⟨0, _⟩ => show win11_4.index t (0 : Fin 2) * 1 + 1 * (j 0).val = (j 0).val; rw [e0]; omega
  | ⟨1, _⟩ => show win11_4.index t (1 : Fin 2) * 128 + 1 * (j 1).val = (j 1).val; rw [e1]; omega
/-- Window 5's block is its whole array at every point. -/
theorem blk11_5 (c : Dev nD) (t : Fin cfg11.N) : (iblk11 V c 5 t : Vec Ideal S1x128 .f32) = (V c main_v229_0 : Vec Ideal S1x128 .f32) := by
  obtain ⟨e0, e1⟩ := idx11_5 t
  funext j
  show V c main_v229_0 (((cfg11.win 5).blk t).view.emb j) = V c main_v229_0 j
  refine congrArg _ ?_
  funext a; apply Fin.ext
  match a with
  | ⟨0, _⟩ => show win11_5.index t (0 : Fin 2) * 1 + 1 * (j 0).val = (j 0).val; rw [e0]; omega
  | ⟨1, _⟩ => show win11_5.index t (1 : Fin 2) * 128 + 1 * (j 1).val = (j 1).val; rw [e1]; omega
/-- Window 6's block is its whole array at every point. -/
theorem blk11_6 (c : Dev nD) (t : Fin cfg11.N) : (iblk11 V c 6 t : Vec Ideal S1x128 .f32) = (V c main_v229_1 : Vec Ideal S1x128 .f32) := by
  obtain ⟨e0, e1⟩ := idx11_6 t
  funext j
  show V c main_v229_1 (((cfg11.win 6).blk t).view.emb j) = V c main_v229_1 j
  refine congrArg _ ?_
  funext a; apply Fin.ext
  match a with
  | ⟨0, _⟩ => show win11_6.index t (0 : Fin 2) * 1 + 1 * (j 0).val = (j 0).val; rw [e0]; omega
  | ⟨1, _⟩ => show win11_6.index t (1 : Fin 2) * 128 + 1 * (j 1).val = (j 1).val; rw [e1]; omega
/-- Window 7's block is its whole array at every point. -/
theorem blk11_7 (c : Dev nD) (t : Fin cfg11.N) : (iblk11 V c 7 t : Vec Ideal S1x128 .f32) = (V c main_v247 : Vec Ideal S1x128 .f32) := by
  obtain ⟨e0, e1⟩ := idx11_7 t
  funext j
  show V c main_v247 (((cfg11.win 7).blk t).view.emb j) = V c main_v247 j
  refine congrArg _ ?_
  funext a; apply Fin.ext
  match a with
  | ⟨0, _⟩ => show win11_7.index t (0 : Fin 2) * 1 + 1 * (j 0).val = (j 0).val; rw [e0]; omega
  | ⟨1, _⟩ => show win11_7.index t (1 : Fin 2) * 128 + 1 * (j 1).val = (j 1).val; rw [e1]; omega
/-- Window 8's block is its whole array at every point. -/
theorem blk11_8 (c : Dev nD) (t : Fin cfg11.N) : (iblk11 V c 8 t : Vec Ideal S1x128 .f32) = (V c main_v248 : Vec Ideal S1x128 .f32) := by
  obtain ⟨e0, e1⟩ := idx11_8 t
  funext j
  show V c main_v248 (((cfg11.win 8).blk t).view.emb j) = V c main_v248 j
  refine congrArg _ ?_
  funext a; apply Fin.ext
  match a with
  | ⟨0, _⟩ => show win11_8.index t (0 : Fin 2) * 1 + 1 * (j 0).val = (j 0).val; rw [e0]; omega
  | ⟨1, _⟩ => show win11_8.index t (1 : Fin 2) * 128 + 1 * (j 1).val = (j 1).val; rw [e1]; omega
/-- Window 9's block is its whole array at every point. -/
theorem blk11_9 (c : Dev nD) (t : Fin cfg11.N) : (iblk11 V c 9 t : Vec Ideal S128x64 .f32) = (V c main_v241 : Vec Ideal S128x64 .f32) := by
  obtain ⟨e0, e1⟩ := idx11_9 t
  funext j
  show V c main_v241 (((cfg11.win 9).blk t).view.emb j) = V c main_v241 j
  refine congrArg _ ?_
  funext a; apply Fin.ext
  match a with
  | ⟨0, _⟩ => show win11_9.index t (0 : Fin 2) * 128 + 1 * (j 0).val = (j 0).val; rw [e0]; omega
  | ⟨1, _⟩ => show win11_9.index t (1 : Fin 2) * 64 + 1 * (j 1).val = (j 1).val; rw [e1]; omega
/-- Window 10's block is its whole array at every point. -/
theorem blk11_10 (c : Dev nD) (t : Fin cfg11.N) : (iblk11 V c 10 t : Vec Ideal S1x64 .f32) = (V c main_v249 : Vec Ideal S1x64 .f32) := by
  obtain ⟨e0, e1⟩ := idx11_10 t
  funext j
  show V c main_v249 (((cfg11.win 10).blk t).view.emb j) = V c main_v249 j
  refine congrArg _ ?_
  funext a; apply Fin.ext
  match a with
  | ⟨0, _⟩ => show win11_10.index t (0 : Fin 2) * 1 + 1 * (j 0).val = (j 0).val; rw [e0]; omega
  | ⟨1, _⟩ => show win11_10.index t (1 : Fin 2) * 64 + 1 * (j 1).val = (j 1).val; rw [e1]; omega

/-! ## The blocks' column sums, and the running sums as sums over the points -/

/-- Block s's column sum of the second linear map at feature q (zero past the grid). -/
noncomputable def B11 (c : Dev nD) (q : Fin 64) (s : ℕ) : EReal :=
  if h : s < cfg11.N then ∑ y : Fin 4096, z2blk (iblk11 V c 2 ⟨s, h⟩) (iblk11 V c 0 ⟨s, h⟩) (iblk11 V c 1 ⟨s, h⟩) (iblk11 V c 3 ⟨s, h⟩) (iblk11 V c 4 ⟨s, h⟩) (iblk11 V c 5 ⟨s, h⟩) (iblk11 V c 6 ⟨s, h⟩) (iblk11 V c 7 ⟨s, h⟩) (iblk11 V c 8 ⟨s, h⟩) (iblk11 V c 9 ⟨s, h⟩) (iblk11 V c 10 ⟨s, h⟩) y q else 0
/-- Block s's column sum of its square. -/
noncomputable def C11 (c : Dev nD) (q : Fin 64) (s : ℕ) : EReal :=
  if h : s < cfg11.N then ∑ y : Fin 4096, z2blk (iblk11 V c 2 ⟨s, h⟩) (iblk11 V c 0 ⟨s, h⟩) (iblk11 V c 1 ⟨s, h⟩) (iblk11 V c 3 ⟨s, h⟩) (iblk11 V c 4 ⟨s, h⟩) (iblk11 V c 5 ⟨s, h⟩) (iblk11 V c 6 ⟨s, h⟩) (iblk11 V c 7 ⟨s, h⟩) (iblk11 V c 8 ⟨s, h⟩) (iblk11 V c 9 ⟨s, h⟩) (iblk11 V c 10 ⟨s, h⟩) y q * z2blk (iblk11 V c 2 ⟨s, h⟩) (iblk11 V c 0 ⟨s, h⟩) (iblk11 V c 1 ⟨s, h⟩) (iblk11 V c 3 ⟨s, h⟩) (iblk11 V c 4 ⟨s, h⟩) (iblk11 V c 5 ⟨s, h⟩) (iblk11 V c 6 ⟨s, h⟩) (iblk11 V c 7 ⟨s, h⟩) (iblk11 V c 8 ⟨s, h⟩) (iblk11 V c 9 ⟨s, h⟩) (iblk11 V c 10 ⟨s, h⟩) y q else 0

/-- After position n the two running sums are the sums of the first n + 1 blocks' column sums. -/
theorem sums11_apply (c : Dev nD) (q : Fin 64) : ∀ (n : ℕ) (h : n < cfg11.N),
    (sums11 V c n h).1 (ix2 0 q) = ∑ s ∈ Finset.range (n + 1), B11 V c q s
    ∧ (sums11 V c n h).2 (ix2 0 q) = ∑ s ∈ Finset.range (n + 1), C11 V c q s
  | 0, h => by
    have hB : B11 V c q 0 = ∑ y : Fin 4096, z2blk (iblk11 V c 2 ⟨0, h⟩) (iblk11 V c 0 ⟨0, h⟩) (iblk11 V c 1 ⟨0, h⟩) (iblk11 V c 3 ⟨0, h⟩) (iblk11 V c 4 ⟨0, h⟩) (iblk11 V c 5 ⟨0, h⟩) (iblk11 V c 6 ⟨0, h⟩) (iblk11 V c 7 ⟨0, h⟩) (iblk11 V c 8 ⟨0, h⟩) (iblk11 V c 9 ⟨0, h⟩) (iblk11 V c 10 ⟨0, h⟩) y q := dif_pos h
    have hC : C11 V c q 0 = ∑ y : Fin 4096, z2blk (iblk11 V c 2 ⟨0, h⟩) (iblk11 V c 0 ⟨0, h⟩) (iblk11 V c 1 ⟨0, h⟩) (iblk11 V c 3 ⟨0, h⟩) (iblk11 V c 4 ⟨0, h⟩) (iblk11 V c 5 ⟨0, h⟩) (iblk11 V c 6 ⟨0, h⟩) (iblk11 V c 7 ⟨0, h⟩) (iblk11 V c 8 ⟨0, h⟩) (iblk11 V c 9 ⟨0, h⟩) (iblk11 V c 10 ⟨0, h⟩) y q * z2blk (iblk11 V c 2 ⟨0, h⟩) (iblk11 V c 0 ⟨0, h⟩) (iblk11 V c 1 ⟨0, h⟩) (iblk11 V c 3 ⟨0, h⟩) (iblk11 V c 4 ⟨0, h⟩) (iblk11 V c 5 ⟨0, h⟩) (iblk11 V c 6 ⟨0, h⟩) (iblk11 V c 7 ⟨0, h⟩) (iblk11 V c 8 ⟨0, h⟩) (iblk11 V c 9 ⟨0, h⟩) (iblk11 V c 10 ⟨0, h⟩) y q := dif_pos h
    constructor
    · refine (pay2_z2blk_11 (iblk11 V c 2 ⟨0, h⟩) (iblk11 V c 0 ⟨0, h⟩) (iblk11 V c 1 ⟨0, h⟩) (iblk11 V c 3 ⟨0, h⟩) (iblk11 V c 4 ⟨0, h⟩) (iblk11 V c 5 ⟨0, h⟩) (iblk11 V c 6 ⟨0, h⟩) (iblk11 V c 7 ⟨0, h⟩) (iblk11 V c 8 ⟨0, h⟩) (iblk11 V c 9 ⟨0, h⟩) (iblk11 V c 10 ⟨0, h⟩) (k11_pay6 (F := Ideal)) 0 q).trans ?_
      rw [pay6_11_apply, zero_add, Finset.sum_range_one, hB]
    · refine (pay3_z2blk_11 (iblk11 V c 2 ⟨0, h⟩) (iblk11 V c 0 ⟨0, h⟩) (iblk11 V c 1 ⟨0, h⟩) (iblk11 V c 3 ⟨0, h⟩) (iblk11 V c 4 ⟨0, h⟩) (iblk11 V c 5 ⟨0, h⟩) (iblk11 V c 6 ⟨0, h⟩) (iblk11 V c 7 ⟨0, h⟩) (iblk11 V c 8 ⟨0, h⟩) (iblk11 V c 9 ⟨0, h⟩) (iblk11 V c 10 ⟨0, h⟩) (k11_pay7 (F := Ideal)) 0 q).trans ?_
      rw [pay7_11_apply, zero_add, Finset.sum_range_one, hC]
  | n + 1, h => by
    obtain ⟨ih1, ih2⟩ := sums11_apply c q n (Nat.lt_of_succ_lt h)
    have hB : B11 V c q (n + 1) = ∑ y : Fin 4096, z2blk (iblk11 V c 2 ⟨n + 1, h⟩) (iblk11 V c 0 ⟨n + 1, h⟩) (iblk11 V c 1 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) y q := dif_pos h
    have hC : C11 V c q (n + 1) = ∑ y : Fin 4096, z2blk (iblk11 V c 2 ⟨n + 1, h⟩) (iblk11 V c 0 ⟨n + 1, h⟩) (iblk11 V c 1 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) y q * z2blk (iblk11 V c 2 ⟨n + 1, h⟩) (iblk11 V c 0 ⟨n + 1, h⟩) (iblk11 V c 1 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) y q := dif_pos h
    constructor
    · refine (pay2_z2blk_11 (iblk11 V c 2 ⟨n + 1, h⟩) (iblk11 V c 0 ⟨n + 1, h⟩) (iblk11 V c 1 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (sums11 V c n (Nat.lt_of_succ_lt h)).1 0 q).trans ?_
      rw [ih1, Finset.sum_range_succ _ (n + 1), hB]
    · refine (pay3_z2blk_11 (iblk11 V c 2 ⟨n + 1, h⟩) (iblk11 V c 0 ⟨n + 1, h⟩) (iblk11 V c 1 ⟨n + 1, h⟩) (iblk11 V c 3 ⟨n + 1, h⟩) (iblk11 V c 4 ⟨n + 1, h⟩) (iblk11 V c 5 ⟨n + 1, h⟩) (iblk11 V c 6 ⟨n + 1, h⟩) (iblk11 V c 7 ⟨n + 1, h⟩) (iblk11 V c 8 ⟨n + 1, h⟩) (iblk11 V c 9 ⟨n + 1, h⟩) (iblk11 V c 10 ⟨n + 1, h⟩) (sums11 V c n (Nat.lt_of_succ_lt h)).2 0 q).trans ?_
      rw [ih2, Finset.sum_range_succ _ (n + 1), hC]

/-- A block's second linear map at row y is the whole one at row 4096 t + y. -/
theorem z2blk11_eq (c : Dev nD) (t : ℕ) (ht : t < 16) (y : Fin 4096) (q : Fin 64) :
    z2blk (iblk11 V c 2 ⟨t, lt_of_lt_of_eq ht (show 16 = cfg11.N from N_11.symm)⟩) (iblk11 V c 0 ⟨t, lt_of_lt_of_eq ht (show 16 = cfg11.N from N_11.symm)⟩) (iblk11 V c 1 ⟨t, lt_of_lt_of_eq ht (show 16 = cfg11.N from N_11.symm)⟩) (iblk11 V c 3 ⟨t, lt_of_lt_of_eq ht (show 16 = cfg11.N from N_11.symm)⟩) (iblk11 V c 4 ⟨t, lt_of_lt_of_eq ht (show 16 = cfg11.N from N_11.symm)⟩) (iblk11 V c 5 ⟨t, lt_of_lt_of_eq ht (show 16 = cfg11.N from N_11.symm)⟩) (iblk11 V c 6 ⟨t, lt_of_lt_of_eq ht (show 16 = cfg11.N from N_11.symm)⟩) (iblk11 V c 7 ⟨t, lt_of_lt_of_eq ht (show 16 = cfg11.N from N_11.symm)⟩) (iblk11 V c 8 ⟨t, lt_of_lt_of_eq ht (show 16 = cfg11.N from N_11.symm)⟩) (iblk11 V c 9 ⟨t, lt_of_lt_of_eq ht (show 16 = cfg11.N from N_11.symm)⟩) (iblk11 V c 10 ⟨t, lt_of_lt_of_eq ht (show 16 = cfg11.N from N_11.symm)⟩) y q = Z2_11 V c ⟨4096 * t + y.val, by omega⟩ q := by
  rw [blk11_2 V c, blk11_3 V c, blk11_4 V c, blk11_5 V c, blk11_6 V c, blk11_7 V c, blk11_8 V c, blk11_9 V c, blk11_10 V c]
  exact z2blk_eq_z2 _ _ _ _ _ _ _ _ _ _ _ _ _ y ⟨4096 * t + y.val, by omega⟩
    (fun k => blk11_0 V c _ y _ rfl k) (fun k => blk11_1 V c _ y _ rfl k) q

theorem hB11 (c : Dev nD) (q : Fin 64) (t : ℕ) (ht : t < 16) :
    B11 V c q t = ∑ y : Fin 4096, Z2_11 V c ⟨4096 * t + y.val, by omega⟩ q := by
  unfold B11
  rw [dif_pos (lt_of_lt_of_eq ht (show 16 = cfg11.N from N_11.symm))]
  exact Finset.sum_congr rfl fun y _ => z2blk11_eq V c t ht y q

theorem hC11 (c : Dev nD) (q : Fin 64) (t : ℕ) (ht : t < 16) :
    C11 V c q t = ∑ y : Fin 4096, Z2_11 V c ⟨4096 * t + y.val, by omega⟩ q * Z2_11 V c ⟨4096 * t + y.val, by omega⟩ q := by
  unfold C11
  rw [dif_pos (lt_of_lt_of_eq ht (show 16 = cfg11.N from N_11.symm))]
  exact Finset.sum_congr rfl fun y _ => by rw [z2blk11_eq V c t ht y q]

/-! ## The two output arrays -/

/-- The region's first output array is the mean of the second linear map over all nodes. -/
theorem val11_11 (c : Dev nD) :
    Spec.cur2 (n0 := 1) (n1 := 64) ((dat11 V c).arrAt ⟨11, Nat.le_of_ble_eq_true rfl⟩ cfg11.N) = Spec.mean (Z2_11 V c) := by
  funext p q
  obtain rfl : p = 0 := Subsingleton.elim _ _
  rw [final11_11]
  show k11_pay4 (total11 V c).1 (ix2 0 q) = _
  rw [pay4_11_apply, (sums11_apply V c q 15 _).1]
  exact Spec.mean_kernel_form_range (Z2_11 V c) q (B11 V c q) (hB11 V c q)

/-- On real data its second output array is the variance. -/
theorem val11_12 (c : Dev nD) (hz : ∀ r j, IsReal (Z2_11 V c r j)) :
    Spec.cur2 (n0 := 1) (n1 := 64) ((dat11 V c).arrAt ⟨12, Nat.le_of_ble_eq_true rfl⟩ cfg11.N) = Spec.var (Z2_11 V c) := by
  funext p q
  obtain rfl : p = 0 := Subsingleton.elim _ _
  rw [final11_12]
  show k11_pay5 (total11 V c).1 (total11 V c).2 (ix2 0 q) = _
  rw [pay5_11_apply', (sums11_apply V c q 15 _).1, (sums11_apply V c q 15 _).2]
  exact Spec.var_kernel_form_range (Z2_11 V c) hz q (B11 V c q) (C11 V c q) (hB11 V c q) (hC11 V c q)

/-- The second linear map is real when the arrays the region is entered with are, the entry variance being a nonnegative real. -/
theorem isReal_Z2_11 (c : Dev nD)
    (he : ∀ i k, IsReal (Spec.cur2 (V c main_v245 : Vec Ideal S1x64 .f32) i k)) (hx : ∀ r k, IsReal (Spec.cur2 (V c main_v209 : Vec Ideal S65536x64 .f32) r k)) (hagg : ∀ r k, IsReal (Spec.cur2 (V c main_v219 : Vec Ideal S65536x64 .f32) r k))
    (hW1 : ∀ k j, IsReal (Spec.cur2 (V c main_v233 : Vec Ideal S64x128 .f32) k j)) (hb1 : ∀ i j, IsReal (Spec.cur2 (V c main_v246 : Vec Ideal S1x128 .f32) i j))
    (hm1 : ∀ i j, IsReal (Spec.cur2 (V c main_v229_0 : Vec Ideal S1x128 .f32) i j)) (hv1 : ∀ i j, ∃ r : ℝ, 0 ≤ r ∧ Spec.cur2 (V c main_v229_1 : Vec Ideal S1x128 .f32) i j = (r : EReal))
    (hg1 : ∀ i j, IsReal (Spec.cur2 (V c main_v247 : Vec Ideal S1x128 .f32) i j)) (hbe1 : ∀ i j, IsReal (Spec.cur2 (V c main_v248 : Vec Ideal S1x128 .f32) i j))
    (hW2 : ∀ k j, IsReal (Spec.cur2 (V c main_v241 : Vec Ideal S128x64 .f32) k j)) (hb2 : ∀ i j, IsReal (Spec.cur2 (V c main_v249 : Vec Ideal S1x64 .f32) i j)) :
    ∀ r j, IsReal (Z2_11 V c r j) :=
  Spec.isReal_z2 (Spec.isReal_relu (Spec.isReal_norm_of (Spec.isReal_z1 he hx hagg hW1 hb1) hm1 hv1 hg1 hbe1)) hW2 hb2

/-- Both outputs at once, from the realness of the entry arrays. -/
theorem val11 (c : Dev nD)
    (he : ∀ i k, IsReal (Spec.cur2 (V c main_v245 : Vec Ideal S1x64 .f32) i k)) (hx : ∀ r k, IsReal (Spec.cur2 (V c main_v209 : Vec Ideal S65536x64 .f32) r k)) (hagg : ∀ r k, IsReal (Spec.cur2 (V c main_v219 : Vec Ideal S65536x64 .f32) r k))
    (hW1 : ∀ k j, IsReal (Spec.cur2 (V c main_v233 : Vec Ideal S64x128 .f32) k j)) (hb1 : ∀ i j, IsReal (Spec.cur2 (V c main_v246 : Vec Ideal S1x128 .f32) i j))
    (hm1 : ∀ i j, IsReal (Spec.cur2 (V c main_v229_0 : Vec Ideal S1x128 .f32) i j)) (hv1 : ∀ i j, ∃ r : ℝ, 0 ≤ r ∧ Spec.cur2 (V c main_v229_1 : Vec Ideal S1x128 .f32) i j = (r : EReal))
    (hg1 : ∀ i j, IsReal (Spec.cur2 (V c main_v247 : Vec Ideal S1x128 .f32) i j)) (hbe1 : ∀ i j, IsReal (Spec.cur2 (V c main_v248 : Vec Ideal S1x128 .f32) i j))
    (hW2 : ∀ k j, IsReal (Spec.cur2 (V c main_v241 : Vec Ideal S128x64 .f32) k j)) (hb2 : ∀ i j, IsReal (Spec.cur2 (V c main_v249 : Vec Ideal S1x64 .f32) i j)) :
    Spec.cur2 (n0 := 1) (n1 := 64) ((dat11 V c).arrAt ⟨11, Nat.le_of_ble_eq_true rfl⟩ cfg11.N) = Spec.mean (Z2_11 V c)
    ∧ Spec.cur2 (n0 := 1) (n1 := 64) ((dat11 V c).arrAt ⟨12, Nat.le_of_ble_eq_true rfl⟩ cfg11.N) = Spec.var (Z2_11 V c) :=
  ⟨val11_11 V c, val11_12 V c (isReal_Z2_11 V c he hx hagg hW1 hb1 hm1 hv1 hg1 hbe1 hW2 hb2)⟩

end Cert.KernelIdeal.Val

end
-- ==== Proof.KI.Val12.lean ====
/- What a region that finishes a layer leaves in its output array, at the extended reals: the second half of a layer as the
   specification states it, as a function of the arrays the region finds. The body's two matrix products are sums
   over the shared coordinate, its two casts to a shorter format are the identity, and every other step acts entry
   by entry; a block's row q at point t is row 4096·t + q of the array, and a one-row array is read whole at every
   point. No entry needs to be finite: the two sides are the same arrangement of the same operations. -/
import proofs.«159011_j9938554322955_1_alg».proof.Proof.KI.Reg12
import proofs.«159011_j9938554322955_1_alg».proof.Proof.Math.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ## The body's operations read at an index -/

/-- A product of a 4096 by 64 block with a 64 by 128 matrix into a zero accumulator, read at (q, j): the sum over the
    64 shared coordinates. -/
theorem mmA12_apply {φ₁ φ₂ : FTy} (lhs : FVec Ideal S4096x64 φ₁) (rhs : FVec Ideal S64x128 φ₂) (q : Fin 4096) (j : Fin 128) :
    matmul dot_S4096x64_S64x128_S4096x128_1_0_0_1_n_n none lhs rhs (constant S4096x128 .f32 0x00000000#32) (ix2 q j)
      = ∑ i : Fin 64, lhs (ix2 q i) * rhs (ix2 i j) := by
  refine (Ideal.matmul_constant_zero_apply dot_S4096x64_S64x128_S4096x128_1_0_0_1_n_n none lhs rhs (ix2 q j)).trans ?_
  rw [← Equiv.sum_comp (contrEquiv1 dot_S4096x64_S64x128_S4096x128_1_0_0_1_n_n 64 rfl rfl).symm]
  refine Finset.sum_congr rfl fun i _ => ?_
  have hl : dot_S4096x64_S64x128_S4096x128_1_0_0_1_n_n.lhsIdx (ix2 q j) ((contrEquiv1 dot_S4096x64_S64x128_S4096x128_1_0_0_1_n_n 64 rfl rfl).symm i) = ix2 q i := by
    funext a; apply Fin.ext
    match a with
    | ⟨0, _⟩ => rfl
    | ⟨1, _⟩ => exact (DotDims.lhsIdx_val_of_single _ rfl _ _).trans (contrEquiv1_symm_val _ 64 rfl rfl i)
  have hr : dot_S4096x64_S64x128_S4096x128_1_0_0_1_n_n.rhsIdx (ix2 q j) ((contrEquiv1 dot_S4096x64_S64x128_S4096x128_1_0_0_1_n_n 64 rfl rfl).symm i) = ix2 i j := by
    funext a; apply Fin.ext
    match a with
    | ⟨0, _⟩ => exact (DotDims.rhsIdx_val_of_single _ rfl _ _).trans (contrEquiv1_symm_val _ 64 rfl rfl i)
    | ⟨1, _⟩ => rfl
  rw [hl, hr]

/-- A product of a 4096 by 128 block with a 128 by 64 matrix into a zero accumulator, read at (q, j): the sum over the
    128 shared coordinates. -/
theorem mmB12_apply {φ₁ φ₂ : FTy} (lhs : FVec Ideal S4096x128 φ₁) (rhs : FVec Ideal S128x64 φ₂) (q : Fin 4096) (j : Fin 64) :
    matmul dot_S4096x128_S128x64_S4096x64_1_0_0_1_n_n none lhs rhs (constant S4096x64 .f32 0x00000000#32) (ix2 q j)
      = ∑ i : Fin 128, lhs (ix2 q i) * rhs (ix2 i j) := by
  refine (Ideal.matmul_constant_zero_apply dot_S4096x128_S128x64_S4096x64_1_0_0_1_n_n none lhs rhs (ix2 q j)).trans ?_
  rw [← Equiv.sum_comp (contrEquiv1 dot_S4096x128_S128x64_S4096x64_1_0_0_1_n_n 128 rfl rfl).symm]
  refine Finset.sum_congr rfl fun i _ => ?_
  have hl : dot_S4096x128_S128x64_S4096x64_1_0_0_1_n_n.lhsIdx (ix2 q j) ((contrEquiv1 dot_S4096x128_S128x64_S4096x64_1_0_0_1_n_n 128 rfl rfl).symm i) = ix2 q i := by
    funext a; apply Fin.ext
    match a with
    | ⟨0, _⟩ => rfl
    | ⟨1, _⟩ => exact (DotDims.lhsIdx_val_of_single _ rfl _ _).trans (contrEquiv1_symm_val _ 128 rfl rfl i)
  have hr : dot_S4096x128_S128x64_S4096x64_1_0_0_1_n_n.rhsIdx (ix2 q j) ((contrEquiv1 dot_S4096x128_S128x64_S4096x64_1_0_0_1_n_n 128 rfl rfl).symm i) = ix2 i j := by
    funext a; apply Fin.ext
    match a with
    | ⟨0, _⟩ => exact (DotDims.rhsIdx_val_of_single _ rfl _ _).trans (contrEquiv1_symm_val _ 128 rfl rfl i)
    | ⟨1, _⟩ => rfl
  rw [hl, hr]

/-- One row of 64 laid along each of 4096 rows, read at (q, k), is the row at k. -/
theorem bcastA12_apply (x : S1x64.Idx → EReal) (h : S1x64.Broadcasts S4096x64) (q : Fin 4096) (k : Fin 64) :
    broadcastTo S4096x64 x h (ix2 q k) = x (ix2 0 k) :=
  broadcastTo_apply x h (ix2 q k) (ix2 0 k) fun a => by
    match a with
    | ⟨0, _⟩ => rfl
    | ⟨1, _⟩ => rfl

/-- One row of 128 laid along each of 4096 rows, read at (q, j), is the row at j. -/
theorem bcastB12_apply (x : S1x128.Idx → EReal) (h : S1x128.Broadcasts S4096x128) (q : Fin 4096) (j : Fin 128) :
    broadcastTo S4096x128 x h (ix2 q j) = x (ix2 0 j) :=
  broadcastTo_apply x h (ix2 q j) (ix2 0 j) fun a => by
    match a with
    | ⟨0, _⟩ => rfl
    | ⟨1, _⟩ => rfl

/-- A reciprocal square root at an index is that of the element. -/
theorem rsqrt12_apply {s : Shape} {φ : FTy} (a : FVec Ideal s φ) (i : s.Idx) : rsqrt a i = Ideal.rsqrt (a i) := rfl

/-- The first normalisation's scaled factor at row q of a block, feature j: the combined features against column j
    of the first matrix, plus the bias, less the mean, times the reciprocal root of the offset variance, times the gain. -/
theorem k12_pay2_apply (X_2 : Vec Ideal S1x64 .f32) (X_0 X_1 : Vec Ideal S4096x64 .f32) (X_3 : Vec Ideal S64x128 .f32)
    (X_4 X_5 X_6 X_7 : Vec Ideal S1x128 .f32) (q : Fin 4096) (j : Fin 128) :
    k12_pay2 X_2 X_0 X_1 X_3 X_4 X_5 X_6 X_7 (ix2 q j)
      = ((∑ i : Fin 64, ((Spec.cOne + X_2 (ix2 0 i)) * X_0 (ix2 q i) + X_1 (ix2 q i)) * X_3 (ix2 i j)) + X_4 (ix2 0 j) - X_5 (ix2 0 j))
          * Ideal.rsqrt (X_6 (ix2 0 j) + Spec.cEps) * X_7 (ix2 0 j) := by
  unfold k12_pay2
  simp only [shapeCast_self, mulf_apply, addf_apply, subf_apply, truncf_apply, broadcast_apply, rsqrt12_apply,
    bcastB12_apply, bcastA12_apply, mmA12_apply]
  rfl

/-- The first normalisation's offset at any row of a block, feature j. -/
theorem k12_pay3_apply (X_8 : Vec Ideal S1x128 .f32) (q : Fin 4096) (j : Fin 128) :
    k12_pay3 X_8 (ix2 q j) = X_8 (ix2 0 j) := by
  unfold k12_pay3
  simp only [shapeCast_self, bcastB12_apply]

/-- The output at row q of a block, feature k, from the first normalisation's two factors P and Q: their sum clipped at
    zero against column k of the second matrix, plus the bias, normalised, clipped, plus the input. -/
theorem k12_pay1_apply (P Q : FVec Ideal S4096x128 .f32) (X_9 : Vec Ideal S128x64 .f32) (X_10 X_11 X_12 X_13 X_14 : Vec Ideal S1x64 .f32)
    (X_0 : Vec Ideal S4096x64 .f32) (q : Fin 4096) (k : Fin 64) :
    k12_pay1 P Q X_9 X_10 X_11 X_12 X_13 X_14 X_0 (ix2 q k)
      = max (((∑ j : Fin 128, max (P (ix2 q j) + Q (ix2 q j)) 0 * X_9 (ix2 j k)) + X_10 (ix2 0 k) - X_11 (ix2 0 k))
          * Ideal.rsqrt (X_12 (ix2 0 k) + Spec.cEps) * X_13 (ix2 0 k) + X_14 (ix2 0 k)) 0 + X_0 (ix2 q k) := by
  unfold k12_pay1
  simp only [shapeCast_self, mulf_apply, addf_apply, subf_apply, maximumf_apply, truncf_apply, broadcast_apply, rsqrt12_apply,
    bcastA12_apply, mmB12_apply]
  have hz : (FloatOps.ofBits FTy.f32 0x00000000#32 : Ideal FTy.f32) = (0 : EReal) := Ideal.ofBits_zero_f32
  rw [hz]
  rfl

/-! ## The blocks read at an index -/

/-- The block indices of the fifteen input windows, decided over the sixteen points: the two arrays of 65536 rows move
    with the point, every other array is one block. -/
theorem idx12_0 : ∀ t : Fin cfg12.N, win12_0.index t (0 : Fin 2) = t.val ∧ win12_0.index t (1 : Fin 2) = 0 :=
  (by decide +kernel : ∀ t : Fin grid12.N, _)
theorem idx12_1 : ∀ t : Fin cfg12.N, win12_1.index t (0 : Fin 2) = t.val ∧ win12_1.index t (1 : Fin 2) = 0 :=
  (by decide +kernel : ∀ t : Fin grid12.N, _)
theorem idx12_2 : ∀ t : Fin cfg12.N, win12_2.index t (0 : Fin 2) = 0 ∧ win12_2.index t (1 : Fin 2) = 0 :=
  (by decide +kernel : ∀ t : Fin grid12.N, _)
theorem idx12_3 : ∀ t : Fin cfg12.N, win12_3.index t (0 : Fin 2) = 0 ∧ win12_3.index t (1 : Fin 2) = 0 :=
  (by decide +kernel : ∀ t : Fin grid12.N, _)
theorem idx12_4 : ∀ t : Fin cfg12.N, win12_4.index t (0 : Fin 2) = 0 ∧ win12_4.index t (1 : Fin 2) = 0 :=
  (by decide +kernel : ∀ t : Fin grid12.N, _)
theorem idx12_5 : ∀ t : Fin cfg12.N, win12_5.index t (0 : Fin 2) = 0 ∧ win12_5.index t (1 : Fin 2) = 0 :=
  (by decide +kernel : ∀ t : Fin grid12.N, _)
theorem idx12_6 : ∀ t : Fin cfg12.N, win12_6.index t (0 : Fin 2) = 0 ∧ win12_6.index t (1 : Fin 2) = 0 :=
  (by decide +kernel : ∀ t : Fin grid12.N, _)
theorem idx12_7 : ∀ t : Fin cfg12.N, win12_7.index t (0 : Fin 2) = 0 ∧ win12_7.index t (1 : Fin 2) = 0 :=
  (by decide +kernel : ∀ t : Fin grid12.N, _)
theorem idx12_8 : ∀ t : Fin cfg12.N, win12_8.index t (0 : Fin 2) = 0 ∧ win12_8.index t (1 : Fin 2) = 0 :=
  (by decide +kernel : ∀ t : Fin grid12.N, _)
theorem idx12_9 : ∀ t : Fin cfg12.N, win12_9.index t (0 : Fin 2) = 0 ∧ win12_9.index t (1 : Fin 2) = 0 :=
  (by decide +kernel : ∀ t : Fin grid12.N, _)
theorem idx12_10 : ∀ t : Fin cfg12.N, win12_10.index t (0 : Fin 2) = 0 ∧ win12_10.index t (1 : Fin 2) = 0 :=
  (by decide +kernel : ∀ t : Fin grid12.N, _)
theorem idx12_11 : ∀ t : Fin cfg12.N, win12_11.index t (0 : Fin 2) = 0 ∧ win12_11.index t (1 : Fin 2) = 0 :=
  (by decide +kernel : ∀ t : Fin grid12.N, _)
theorem idx12_12 : ∀ t : Fin cfg12.N, win12_12.index t (0 : Fin 2) = 0 ∧ win12_12.index t (1 : Fin 2) = 0 :=
  (by decide +kernel : ∀ t : Fin grid12.N, _)
theorem idx12_13 : ∀ t : Fin cfg12.N, win12_13.index t (0 : Fin 2) = 0 ∧ win12_13.index t (1 : Fin 2) = 0 :=
  (by decide +kernel : ∀ t : Fin grid12.N, _)
theorem idx12_14 : ∀ t : Fin cfg12.N, win12_14.index t (0 : Fin 2) = 0 ∧ win12_14.index t (1 : Fin 2) = 0 :=
  (by decide +kernel : ∀ t : Fin grid12.N, _)

/-- Window 0's block at the point of row r holds, at place r % 4096, row r of its array. -/
theorem rows12_0 (A : S65536x64.Idx → Elt Ideal .f32) (r : Fin 65536) (k i : Fin 64) :
    ((cfg12.win 0).blk (pt12 (ix2 r k))).view.read (Elt Ideal) A (ix2 ⟨r.val % 4096, Nat.mod_lt _ (by decide)⟩ i) = A (ix2 r i) := by
  obtain ⟨e0, e1⟩ := idx12_0 (pt12 (ix2 r k))
  have hp : (pt12 (ix2 r k)).val = r.val / 4096 := rfl
  show A (((cfg12.win 0).blk (pt12 (ix2 r k))).view.emb (ix2 ⟨r.val % 4096, Nat.mod_lt _ (by decide)⟩ i)) = A (ix2 r i)
  refine congrArg A (funext fun a => Fin.ext ?_)
  match a with
  | ⟨0, _⟩ => show win12_0.index (pt12 (ix2 r k)) (0 : Fin 2) * 4096 + 1 * (r.val % 4096) = r.val; omega
  | ⟨1, _⟩ => show win12_0.index (pt12 (ix2 r k)) (1 : Fin 2) * 64 + 1 * i.val = i.val; omega

/-- Window 1's block at the point of row r holds, at place r % 4096, row r of its array. -/
theorem rows12_1 (A : S65536x64.Idx → Elt Ideal .f32) (r : Fin 65536) (k i : Fin 64) :
    ((cfg12.win 1).blk (pt12 (ix2 r k))).view.read (Elt Ideal) A (ix2 ⟨r.val % 4096, Nat.mod_lt _ (by decide)⟩ i) = A (ix2 r i) := by
  obtain ⟨e0, e1⟩ := idx12_1 (pt12 (ix2 r k))
  have hp : (pt12 (ix2 r k)).val = r.val / 4096 := rfl
  show A (((cfg12.win 1).blk (pt12 (ix2 r k))).view.emb (ix2 ⟨r.val % 4096, Nat.mod_lt _ (by decide)⟩ i)) = A (ix2 r i)
  refine congrArg A (funext fun a => Fin.ext ?_)
  match a with
  | ⟨0, _⟩ => show win12_1.index (pt12 (ix2 r k)) (0 : Fin 2) * 4096 + 1 * (r.val % 4096) = r.val; omega
  | ⟨1, _⟩ => show win12_1.index (pt12 (ix2 r k)) (1 : Fin 2) * 64 + 1 * i.val = i.val; omega

theorem whole12_2 (t : Fin cfg12.N) (A : S1x64.Idx → Elt Ideal .f32) : ((cfg12.win 2).blk t).view.read (Elt Ideal) A = A := by
  obtain ⟨e0, e1⟩ := idx12_2 t
  funext y
  show A (((cfg12.win 2).blk t).view.emb y) = A y
  refine congrArg A (funext fun a => Fin.ext ?_)
  match a with
  | ⟨0, _⟩ => show win12_2.index t (0 : Fin 2) * 1 + 1 * (y 0).val = (y 0).val; omega
  | ⟨1, _⟩ => show win12_2.index t (1 : Fin 2) * 64 + 1 * (y 1).val = (y 1).val; omega

theorem whole12_3 (t : Fin cfg12.N) (A : S64x128.Idx → Elt Ideal .f32) : ((cfg12.win 3).blk t).view.read (Elt Ideal) A = A := by
  obtain ⟨e0, e1⟩ := idx12_3 t
  funext y
  show A (((cfg12.win 3).blk t).view.emb y) = A y
  refine congrArg A (funext fun a => Fin.ext ?_)
  match a with
  | ⟨0, _⟩ => show win12_3.index t (0 : Fin 2) * 64 + 1 * (y 0).val = (y 0).val; omega
  | ⟨1, _⟩ => show win12_3.index t (1 : Fin 2) * 128 + 1 * (y 1).val = (y 1).val; omega

theorem whole12_4 (t : Fin cfg12.N) (A : S1x128.Idx → Elt Ideal .f32) : ((cfg12.win 4).blk t).view.read (Elt Ideal) A = A := by
  obtain ⟨e0, e1⟩ := idx12_4 t
  funext y
  show A (((cfg12.win 4).blk t).view.emb y) = A y
  refine congrArg A (funext fun a => Fin.ext ?_)
  match a with
  | ⟨0, _⟩ => show win12_4.index t (0 : Fin 2) * 1 + 1 * (y 0).val = (y 0).val; omega
  | ⟨1, _⟩ => show win12_4.index t (1 : Fin 2) * 128 + 1 * (y 1).val = (y 1).val; omega

theorem whole12_5 (t : Fin cfg12.N) (A : S1x128.Idx → Elt Ideal .f32) : ((cfg12.win 5).blk t).view.read (Elt Ideal) A = A := by
  obtain ⟨e0, e1⟩ := idx12_5 t
  funext y
  show A (((cfg12.win 5).blk t).view.emb y) = A y
  refine congrArg A (funext fun a => Fin.ext ?_)
  match a with
  | ⟨0, _⟩ => show win12_5.index t (0 : Fin 2) * 1 + 1 * (y 0).val = (y 0).val; omega
  | ⟨1, _⟩ => show win12_5.index t (1 : Fin 2) * 128 + 1 * (y 1).val = (y 1).val; omega

theorem whole12_6 (t : Fin cfg12.N) (A : S1x128.Idx → Elt Ideal .f32) : ((cfg12.win 6).blk t).view.read (Elt Ideal) A = A := by
  obtain ⟨e0, e1⟩ := idx12_6 t
  funext y
  show A (((cfg12.win 6).blk t).view.emb y) = A y
  refine congrArg A (funext fun a => Fin.ext ?_)
  match a with
  | ⟨0, _⟩ => show win12_6.index t (0 : Fin 2) * 1 + 1 * (y 0).val = (y 0).val; omega
  | ⟨1, _⟩ => show win12_6.index t (1 : Fin 2) * 128 + 1 * (y 1).val = (y 1).val; omega

theorem whole12_7 (t : Fin cfg12.N) (A : S1x128.Idx → Elt Ideal .f32) : ((cfg12.win 7).blk t).view.read (Elt Ideal) A = A := by
  obtain ⟨e0, e1⟩ := idx12_7 t
  funext y
  show A (((cfg12.win 7).blk t).view.emb y) = A y
  refine congrArg A (funext fun a => Fin.ext ?_)
  match a with
  | ⟨0, _⟩ => show win12_7.index t (0 : Fin 2) * 1 + 1 * (y 0).val = (y 0).val; omega
  | ⟨1, _⟩ => show win12_7.index t (1 : Fin 2) * 128 + 1 * (y 1).val = (y 1).val; omega

theorem whole12_8 (t : Fin cfg12.N) (A : S1x128.Idx → Elt Ideal .f32) : ((cfg12.win 8).blk t).view.read (Elt Ideal) A = A := by
  obtain ⟨e0, e1⟩ := idx12_8 t
  funext y
  show A (((cfg12.win 8).blk t).view.emb y) = A y
  refine congrArg A (funext fun a => Fin.ext ?_)
  match a with
  | ⟨0, _⟩ => show win12_8.index t (0 : Fin 2) * 1 + 1 * (y 0).val = (y 0).val; omega
  | ⟨1, _⟩ => show win12_8.index t (1 : Fin 2) * 128 + 1 * (y 1).val = (y 1).val; omega

theorem whole12_9 (t : Fin cfg12.N) (A : S128x64.Idx → Elt Ideal .f32) : ((cfg12.win 9).blk t).view.read (Elt Ideal) A = A := by
  obtain ⟨e0, e1⟩ := idx12_9 t
  funext y
  show A (((cfg12.win 9).blk t).view.emb y) = A y
  refine congrArg A (funext fun a => Fin.ext ?_)
  match a with
  | ⟨0, _⟩ => show win12_9.index t (0 : Fin 2) * 128 + 1 * (y 0).val = (y 0).val; omega
  | ⟨1, _⟩ => show win12_9.index t (1 : Fin 2) * 64 + 1 * (y 1).val = (y 1).val; omega

theorem whole12_10 (t : Fin cfg12.N) (A : S1x64.Idx → Elt Ideal .f32) : ((cfg12.win 10).blk t).view.read (Elt Ideal) A = A := by
  obtain ⟨e0, e1⟩ := idx12_10 t
  funext y
  show A (((cfg12.win 10).blk t).view.emb y) = A y
  refine congrArg A (funext fun a => Fin.ext ?_)
  match a with
  | ⟨0, _⟩ => show win12_10.index t (0 : Fin 2) * 1 + 1 * (y 0).val = (y 0).val; omega
  | ⟨1, _⟩ => show win12_10.index t (1 : Fin 2) * 64 + 1 * (y 1).val = (y 1).val; omega

theorem whole12_11 (t : Fin cfg12.N) (A : S1x64.Idx → Elt Ideal .f32) : ((cfg12.win 11).blk t).view.read (Elt Ideal) A = A := by
  obtain ⟨e0, e1⟩ := idx12_11 t
  funext y
  show A (((cfg12.win 11).blk t).view.emb y) = A y
  refine congrArg A (funext fun a => Fin.ext ?_)
  match a with
  | ⟨0, _⟩ => show win12_11.index t (0 : Fin 2) * 1 + 1 * (y 0).val = (y 0).val; omega
  | ⟨1, _⟩ => show win12_11.index t (1 : Fin 2) * 64 + 1 * (y 1).val = (y 1).val; omega

theorem whole12_12 (t : Fin cfg12.N) (A : S1x64.Idx → Elt Ideal .f32) : ((cfg12.win 12).blk t).view.read (Elt Ideal) A = A := by
  obtain ⟨e0, e1⟩ := idx12_12 t
  funext y
  show A (((cfg12.win 12).blk t).view.emb y) = A y
  refine congrArg A (funext fun a => Fin.ext ?_)
  match a with
  | ⟨0, _⟩ => show win12_12.index t (0 : Fin 2) * 1 + 1 * (y 0).val = (y 0).val; omega
  | ⟨1, _⟩ => show win12_12.index t (1 : Fin 2) * 64 + 1 * (y 1).val = (y 1).val; omega

theorem whole12_13 (t : Fin cfg12.N) (A : S1x64.Idx → Elt Ideal .f32) : ((cfg12.win 13).blk t).view.read (Elt Ideal) A = A := by
  obtain ⟨e0, e1⟩ := idx12_13 t
  funext y
  show A (((cfg12.win 13).blk t).view.emb y) = A y
  refine congrArg A (funext fun a => Fin.ext ?_)
  match a with
  | ⟨0, _⟩ => show win12_13.index t (0 : Fin 2) * 1 + 1 * (y 0).val = (y 0).val; omega
  | ⟨1, _⟩ => show win12_13.index t (1 : Fin 2) * 64 + 1 * (y 1).val = (y 1).val; omega

theorem whole12_14 (t : Fin cfg12.N) (A : S1x64.Idx → Elt Ideal .f32) : ((cfg12.win 14).blk t).view.read (Elt Ideal) A = A := by
  obtain ⟨e0, e1⟩ := idx12_14 t
  funext y
  show A (((cfg12.win 14).blk t).view.emb y) = A y
  refine congrArg A (funext fun a => Fin.ext ?_)
  match a with
  | ⟨0, _⟩ => show win12_14.index t (0 : Fin 2) * 1 + 1 * (y 0).val = (y 0).val; omega
  | ⟨1, _⟩ => show win12_14.index t (1 : Fin 2) * 64 + 1 * (y 1).val = (y 1).val; omega

/-! ## The output array -/

theorem zeros12 : (![0, 0] : Fin 2 → Nat) = fun _ => 0 := funext fun a => by fin_cases a <;> rfl

/-- What the body leaves in the output block is its one store's payload, each load reading its whole buffer. -/
theorem out12_15_eq (x_0 : Vec Ideal S4096x64 .f32) (x_1 : Vec Ideal S4096x64 .f32) (x_2 : Vec Ideal S1x64 .f32) (x_3 : Vec Ideal S64x128 .f32) (x_4 : Vec Ideal S1x128 .f32) (x_5 : Vec Ideal S1x128 .f32) (x_6 : Vec Ideal S1x128 .f32) (x_7 : Vec Ideal S1x128 .f32) (x_8 : Vec Ideal S1x128 .f32) (x_9 : Vec Ideal S128x64 .f32) (x_10 : Vec Ideal S1x64 .f32) (x_11 : Vec Ideal S1x64 .f32) (x_12 : Vec Ideal S1x64 .f32) (x_13 : Vec Ideal S1x64 .f32) (x_14 : Vec Ideal S1x64 .f32) :
    out12_15 x_0 x_1 x_2 x_3 x_4 x_5 x_6 x_7 x_8 x_9 x_10 x_11 x_12 x_13 x_14 = k12_pay1 (k12_pay2 x_2 x_0 x_1 x_3 x_4 x_5 x_6 x_7) (k12_pay3 x_8) x_9 x_10 x_11 x_12 x_13 x_14 x_0 := by
  unfold out12_15
  rw [View.canon_unit_zero zeros12]
  simp only [View.ld_unit_zero (S := S4096x64) zeros12, View.ld_unit_zero (S := S1x64) zeros12, View.ld_unit_zero (S := S64x128) zeros12,
    View.ld_unit_zero (S := S1x128) zeros12, View.ld_unit_zero (S := S128x64) zeros12]

theorem loc12_ix2 (r : Fin 65536) (k : Fin 64) : loc12 (ix2 r k) = ix2 ⟨r.val % 4096, Nat.mod_lt _ (by decide)⟩ k := rfl

variable (V : (c : Dev nD) → (b : Ref sig .tc) → Buf (Elt Ideal) ((c : Thread nD τ).loc b))

set_option maxHeartbeats 4000000 in
/-- The output array after the region: the second normalisation of the layer's second linear map, clipped at zero, plus
    the layer's input — all read off the arrays as the region finds them. -/
theorem val12_15 (c : Dev nD) :
    Spec.cur2 ((dat12 V c).arrAt 15 cfg12.N : S65536x64.Idx → EReal)
      = fun r k => Spec.relu (Spec.norm (Spec.z2 (Spec.relu (Spec.norm (Spec.z1 (Spec.cur2 (V c (Pipeline.arrRef spec12 2) : S1x64.Idx → EReal)) (Spec.cur2 (V c (Pipeline.arrRef spec12 0) : S65536x64.Idx → EReal)) (Spec.cur2 (V c (Pipeline.arrRef spec12 1) : S65536x64.Idx → EReal)) (Spec.cur2 (V c (Pipeline.arrRef spec12 3) : S64x128.Idx → EReal)) (Spec.cur2 (V c (Pipeline.arrRef spec12 4) : S1x128.Idx → EReal))) (Spec.cur2 (V c (Pipeline.arrRef spec12 5) : S1x128.Idx → EReal)) (Spec.cur2 (V c (Pipeline.arrRef spec12 6) : S1x128.Idx → EReal)) (Spec.cur2 (V c (Pipeline.arrRef spec12 7) : S1x128.Idx → EReal)) (Spec.cur2 (V c (Pipeline.arrRef spec12 8) : S1x128.Idx → EReal)))) (Spec.cur2 (V c (Pipeline.arrRef spec12 9) : S128x64.Idx → EReal)) (Spec.cur2 (V c (Pipeline.arrRef spec12 10) : S1x64.Idx → EReal))) (Spec.cur2 (V c (Pipeline.arrRef spec12 11) : S1x64.Idx → EReal)) (Spec.cur2 (V c (Pipeline.arrRef spec12 12) : S1x64.Idx → EReal)) (Spec.cur2 (V c (Pipeline.arrRef spec12 13) : S1x64.Idx → EReal)) (Spec.cur2 (V c (Pipeline.arrRef spec12 14) : S1x64.Idx → EReal))) r k + (Spec.cur2 (V c (Pipeline.arrRef spec12 0) : S65536x64.Idx → EReal)) r k := by
  have hfin : (dat12 V c).arrAt 15 cfg12.N = _ := final12_15 V c
  rw [hfin]
  funext r k
  simp only [Spec.cur2]
  rw [G12_15_apply]
  rw [whole12_2, whole12_3, whole12_4, whole12_5, whole12_6, whole12_7, whole12_8, whole12_9, whole12_10, whole12_11, whole12_12, whole12_13, whole12_14]
  generalize hX_0 : (((cfg12.win 0).blk (pt12 (ix2 r k))).view.read (Elt Ideal) (V c (Pipeline.arrRef spec12 0)) : Vec Ideal S4096x64 .f32) = X_0
  generalize hX_1 : (((cfg12.win 1).blk (pt12 (ix2 r k))).view.read (Elt Ideal) (V c (Pipeline.arrRef spec12 1)) : Vec Ideal S4096x64 .f32) = X_1
  have hr_0 : ∀ i : Fin 64, X_0 (ix2 ⟨r.val % 4096, Nat.mod_lt _ (by decide)⟩ i) = (V c (Pipeline.arrRef spec12 0) : S65536x64.Idx → EReal) (ix2 r i) :=
    fun i => by rw [← hX_0]; exact rows12_0 _ r k i
  have hr_1 : ∀ i : Fin 64, X_1 (ix2 ⟨r.val % 4096, Nat.mod_lt _ (by decide)⟩ i) = (V c (Pipeline.arrRef spec12 1) : S65536x64.Idx → EReal) (ix2 r i) :=
    fun i => by rw [← hX_1]; exact rows12_1 _ r k i
  rw [out12_15_eq, loc12_ix2, k12_pay1_apply]
  simp only [k12_pay2_apply, k12_pay3_apply, hr_0, hr_1]
  simp only [Spec.relu, Spec.norm, Spec.z2, Spec.z1, Spec.lin, Spec.combine, Spec.cur2]

end Cert.KernelIdeal.Val

end
-- ==== Proof.KI.Fin13.lean ====
import proofs.«159011_j9938554322955_1_alg».proof.Proof.KI.Reg13
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The output array after the region, as one function of the entry arrays -/

open Idealize.ShloMosaic.ValueIdx

theorem hz13 : (![0, 0] : Fin 2 → Nat) = fun _ => 0 := funext fun a => by fin_cases a <;> rfl

/-- Rows 4096·q to 4096·q + 4095 of the node features, as a block. -/
noncomputable def rows13 (X : S65536x64.Idx → Elt F .f32) (q : Fin 16) : Vec F S4096x64 .f32 :=
  fun y => X (ix2 (⟨4096 * q.val + (y 0).val, by have h0 := idx2_lt0 y; have hq := q.isLt; omega⟩ : Fin 65536)
    (⟨(y 1).val, idx2_lt1 y⟩ : Fin 64))

/-- What the output array ends holding: at row r, the body's payload of the block of 4096 rows containing r, of the
    weight matrix and of the bias row, read at r's place in the block. -/
noncomputable def G13_3 (X : S65536x64.Idx → Elt F .f32) (W : S64x256.Idx → Elt F .f32) (B : S1x256.Idx → Elt F .f32) :
    S65536x256.Idx → Elt F .f32 :=
  fun i => k13_pay1 (rows13 X ⟨(i 0).val / 4096, by have h0 := idx2_lt0 i; omega⟩) W B
    (ix2 (⟨(i 0).val % 4096, Nat.mod_lt _ (by decide)⟩ : Fin 4096) (⟨(i 1).val, idx2_lt1 i⟩ : Fin 256))

/-- At a row inside block q the closed form is the payload of block q. -/
theorem G13_3_block (X : S65536x64.Idx → Elt F .f32) (W : S64x256.Idx → Elt F .f32) (B : S1x256.Idx → Elt F .f32)
    (q : Fin 16) (p : Fin 4096) (k : Fin 256) (h : 4096 * q.val + p.val < 65536) :
    G13_3 X W B (ix2 (⟨4096 * q.val + p.val, h⟩ : Fin 65536) k) = k13_pay1 (rows13 X q) W B (ix2 p k) := by
  have hq := q.isLt
  have hp := p.isLt
  have e1 : ∀ h1, (⟨(4096 * q.val + p.val) / 4096, h1⟩ : Fin 16) = q := fun _ => Fin.ext (by show (4096 * q.val + p.val) / 4096 = q.val; omega)
  have e2 : ∀ h2, (⟨(4096 * q.val + p.val) % 4096, h2⟩ : Fin 4096) = p := fun _ => Fin.ext (by show (4096 * q.val + p.val) % 4096 = p.val; omega)
  show k13_pay1 (rows13 X ⟨(4096 * q.val + p.val) / 4096, _⟩) W B (ix2 (⟨(4096 * q.val + p.val) % 4096, _⟩ : Fin 4096) (⟨k.val, _⟩ : Fin 256)) = _
  rw [e1, e2]

/-- The printed index maps, decided over the grid: the node features and the output move together, one block of 4096
    rows per point; the weight matrix and the bias row stay at block 0. -/
theorem idx_facts13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

/-- What point t writes back is block t of the closed form of the entry arrays. -/
theorem flushed13_3_eq (c : Dev nD) (t : Fin cfg13.N) :
    (dat13 V c).flushed 3 t
      = ((cfg13.win 3).blk t).view.read (Elt F) (G13_3 (V c main_v277) (V c main_arg14) (V c main_v278)) := by
  show (cfg13.win 3).cut (grid13.coords t) ((dat13 V c).after 3 t) = _
  rw [after13_3]
  unfold out13_3
  rw [View.canon_unit_zero hz13]
  simp only [View.ld_unit_zero (S := S4096x64) hz13, View.ld_unit_zero (S := S64x256) hz13, View.ld_unit_zero (S := S1x256) hz13]
  obtain ⟨e00, e01, e10, e11, e20, e21, e30, e31⟩ := idx_facts13 t
  have ht : t.val < 16 := lt_of_lt_of_eq t.isLt N_13
  -- the features' block at t is rows 4096·t …; the weight and bias blocks are the whole arrays
  have hx : iblk13 V c 0 t = rows13 (V c main_v277) ⟨t.val, ht⟩ := by
    funext y
    show V c main_v277 (((cfg13.win 0).blk t).view.emb y) = V c main_v277 _
    congr 1
    funext a; apply Fin.ext
    match a with
    | ⟨0, _⟩ => show win13_0.index t (0 : Fin 2) * 4096 + 1 * (y 0).val = 4096 * t.val + (y 0).val; omega
    | ⟨1, _⟩ => show win13_0.index t (1 : Fin 2) * 64 + 1 * (y 1).val = (y 1).val; omega
  have hw : iblk13 V c 1 t = V c main_arg14 := by
    funext y
    show V c main_arg14 (((cfg13.win 1).blk t).view.emb y) = V c main_arg14 y
    congr 1
    funext a; apply Fin.ext
    match a with
    | ⟨0, _⟩ => show win13_1.index t (0 : Fin 2) * 64 + 1 * (y 0).val = (y 0).val; omega
    | ⟨1, _⟩ => show win13_1.index t (1 : Fin 2) * 256 + 1 * (y 1).val = (y 1).val; omega
  have hb : iblk13 V c 2 t = V c main_v278 := by
    funext y
    show V c main_v278 (((cfg13.win 2).blk t).view.emb y) = V c main_v278 y
    congr 1
    funext a; apply Fin.ext
    match a with
    | ⟨0, _⟩ => show win13_2.index t (0 : Fin 2) * 1 + 1 * (y 0).val = (y 0).val; omega
    | ⟨1, _⟩ => show win13_2.index t (1 : Fin 2) * 256 + 1 * (y 1).val = (y 1).val; omega
  rw [hx, hw, hb]
  funext j
  have hj0 : (j 0).val < 4096 := (j 0).isLt
  have hj1 : (j 1).val < 256 := (j 1).isLt
  have hrow : 4096 * t.val + (j 0).val < 65536 := by omega
  have hemb : ((cfg13.win 3).blk t).view.emb j
      = ix2 (⟨4096 * t.val + (j 0).val, hrow⟩ : Fin 65536) (⟨(j 1).val, hj1⟩ : Fin 256) := by
    funext a; apply Fin.ext
    match a with
    | ⟨0, _⟩ => show win13_3.index t (0 : Fin 2) * 4096 + 1 * (j 0).val = 4096 * t.val + (j 0).val; omega
    | ⟨1, _⟩ => show win13_3.index t (1 : Fin 2) * 256 + 1 * (j 1).val = (j 1).val; omega
  show k13_pay1 (rows13 (V c main_v277) ⟨t.val, ht⟩) (V c main_arg14) (V c main_v278) j
      = G13_3 (V c main_v277) (V c main_arg14) (V c main_v278) (((cfg13.win 3).blk t).view.emb j)
  rw [hemb, G13_3_block (V c main_v277) (V c main_arg14) (V c main_v278) ⟨t.val, ht⟩ ⟨(j 0).val, hj0⟩ ⟨(j 1).val, hj1⟩ hrow]
  exact congrArg (k13_pay1 (rows13 (V c main_v277) ⟨t.val, ht⟩) (V c main_arg14) (V c main_v278))
    (funext fun a => match a with | ⟨0, _⟩ => rfl | ⟨1, _⟩ => rfl)

/-- An index of the output array is in point t's block iff each coordinate is in the block's range on its axis. -/
theorem mem_blk13_3 (t : Fin cfg13.N) (i : S65536x256.Idx) :
    i ∈ ((cfg13.win 3).blk t).view.set ↔ ∀ a : Fin 2, win13_3.index t a * S4096x256.size a ≤ (i a).val
      ∧ (i a).val < win13_3.index t a * S4096x256.size a + S4096x256.size a := by
  show i ∈ ((View.whole main_v279).slice (win13_3.rect t)).set ↔ _
  rw [View.set_slice_whole, Rect.mem_set_unit]
  exact Iff.rfl

/-- Every row is in the block of the point numbered by its quotient by 4096. -/
theorem covered13_3 (i : S65536x256.Idx) :
    ∃ t : Fin cfg13.N, (cfg13.win 3).flush t = true ∧ i ∈ ((cfg13.win 3).blk t).view.set := by
  have hi0 := idx2_lt0 i
  have hi1 := idx2_lt1 i
  have hN : (i 0).val / 4096 < cfg13.N := by show _ < grid13.N; rw [N_13]; omega
  refine ⟨⟨(i 0).val / 4096, hN⟩, flush13_3 _, ?_⟩
  rw [mem_blk13_3]
  obtain ⟨-, -, -, -, -, -, e30, e31⟩ := idx_facts13 ⟨(i 0).val / 4096, hN⟩
  have e30' : win13_3.index ⟨(i 0).val / 4096, hN⟩ (0 : Fin 2) = (i 0).val / 4096 := e30
  intro a
  match a with
  | ⟨0, _⟩ =>
    show win13_3.index ⟨(i 0).val / 4096, hN⟩ (0 : Fin 2) * 4096 ≤ (i 0).val
      ∧ (i 0).val < win13_3.index ⟨(i 0).val / 4096, hN⟩ (0 : Fin 2) * 4096 + 4096
    omega
  | ⟨1, _⟩ =>
    show win13_3.index ⟨(i 0).val / 4096, hN⟩ (1 : Fin 2) * 256 ≤ (i 1).val
      ∧ (i 1).val < win13_3.index ⟨(i 0).val / 4096, hN⟩ (1 : Fin 2) * 256 + 256
    omega

/-- The output array after the region is the closed form of the three entry arrays. -/
theorem final13_3 (c : Dev nD) :
    (dat13 V c).arrAt ⟨3, by decide⟩ cfg13.N = G13_3 (V c main_v277) (V c main_arg14) (V c main_v278) :=
  (dat13 V c).arrAt_eq_of_cover 3 _ (fun t _ => flushed13_3_eq V c t) covered13_3

end Cert.KernelIdeal.Hand

end
-- ==== Proof.KI.Val13.lean ====
import proofs.«159011_j9938554322955_1_alg».proof.Proof.KI.Fin13
import proofs.«159011_j9938554322955_1_alg».proof.Proof.Math.Spec
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! # The final projection on the extended reals: its output array is row r against column j, plus bias j -/

/-- The final body's payload at (p, q): row p of the features against column q of the weights, plus bias q. The casts
    of the two factors to the short format are the identity on extended reals, and the product accumulates into zero. -/
theorem k13_pay1_apply (x0 : Vec Ideal S4096x64 .f32) (x1 : Vec Ideal S64x256 .f32) (x2 : Vec Ideal S1x256 .f32)
    (p : Fin 4096) (q : Fin 256) :
    k13_pay1 x0 x1 x2 (ix2 p q) = (∑ k : Fin 64, x0 (ix2 p k) * x1 (ix2 k q)) + x2 (ix2 (0 : Fin 1) q) := by
  unfold k13_pay1
  rw [addf_apply, shapeCast_self, shapeCast_self, broadcastTo_1b_ab_apply x2 broadcasts_S1x256_S4096x256 p q]
  refine congrArg (· + x2 (ix2 (0 : Fin 1) q)) ?_
  simp only [matmul]
  refine (Ideal.matmul_constant_zero_apply dot_S4096x64_S64x256_S4096x256_1_0_0_1_n_n none _ _ (ix2 p q)).trans ?_
  rw [← Equiv.sum_comp (contrEquiv1 dot_S4096x64_S64x256_S4096x256_1_0_0_1_n_n 64 rfl rfl).symm]
  refine Finset.sum_congr rfl fun k _ => ?_
  rw [truncf_apply, truncf_apply]
  have hl : dot_S4096x64_S64x256_S4096x256_1_0_0_1_n_n.lhsIdx (ix2 p q)
      ((contrEquiv1 dot_S4096x64_S64x256_S4096x256_1_0_0_1_n_n 64 rfl rfl).symm k) = ix2 p k := by
    funext a; apply Fin.ext
    match a with
    | ⟨0, _⟩ => rfl
    | ⟨1, _⟩ =>
      exact (DotDims.lhsIdx_val_of_single dot_S4096x64_S64x256_S4096x256_1_0_0_1_n_n (cl := 1) rfl _ _).trans
        (contrEquiv1_symm_val dot_S4096x64_S64x256_S4096x256_1_0_0_1_n_n 64 rfl rfl k)
  have hr : dot_S4096x64_S64x256_S4096x256_1_0_0_1_n_n.rhsIdx (ix2 p q)
      ((contrEquiv1 dot_S4096x64_S64x256_S4096x256_1_0_0_1_n_n 64 rfl rfl).symm k) = ix2 k q := by
    funext a; apply Fin.ext
    match a with
    | ⟨0, _⟩ =>
      exact (DotDims.rhsIdx_val_of_single dot_S4096x64_S64x256_S4096x256_1_0_0_1_n_n (cr := 0) rfl _ _).trans
        (contrEquiv1_symm_val dot_S4096x64_S64x256_S4096x256_1_0_0_1_n_n 64 rfl rfl k)
    | ⟨1, _⟩ => rfl
  rw [hl, hr]

/-- The closed form of the region's output at row r, feature j: every row lies in the block numbered by its quotient
    by 4096, at the place given by its remainder. -/
theorem G13_3_apply (X : S65536x64.Idx → EReal) (W : S64x256.Idx → EReal) (B : S1x256.Idx → EReal)
    (r : Fin 65536) (j : Fin 256) :
    G13_3 (F := Ideal) X W B (ix2 r j) = (∑ k : Fin 64, X (ix2 r k) * W (ix2 k j)) + B (ix2 (0 : Fin 1) j) := by
  have hr := r.isLt
  have hq : r.val / 4096 < 16 := by omega
  have hp : r.val % 4096 < 4096 := Nat.mod_lt _ (by decide)
  have hrow : 4096 * (r.val / 4096) + r.val % 4096 < 65536 := by omega
  have er : r = (⟨4096 * (r.val / 4096) + r.val % 4096, hrow⟩ : Fin 65536) := Fin.ext (by show r.val = 4096 * (r.val / 4096) + r.val % 4096; omega)
  refine (congrArg (fun x => G13_3 (F := Ideal) X W B (ix2 x j)) er).trans ?_
  show G13_3 (F := Ideal) X W B (ix2 (⟨4096 * (r.val / 4096) + r.val % 4096, hrow⟩ : Fin 65536) j) = _
  refine (G13_3_block (F := Ideal) X W B ⟨r.val / 4096, hq⟩ ⟨r.val % 4096, hp⟩ j hrow).trans ?_
  refine (k13_pay1_apply (rows13 (F := Ideal) X ⟨r.val / 4096, hq⟩) W B ⟨r.val % 4096, hp⟩ j).trans ?_
  have hx : ∀ k : Fin 64, rows13 (F := Ideal) X ⟨r.val / 4096, hq⟩ (ix2 (⟨r.val % 4096, hp⟩ : Fin 4096) k) = X (ix2 r k) := by
    intro k
    unfold rows13
    refine congrArg X (funext fun a => ?_)
    match a with
    | ⟨0, _⟩ => exact Fin.ext (by show 4096 * (r.val / 4096) + r.val % 4096 = r.val; omega)
    | ⟨1, _⟩ => rfl
  refine congrArg (· + B (ix2 (0 : Fin 1) j)) (Finset.sum_congr rfl fun k _ => ?_)
  rw [hx k]

/-- What the final region leaves in its output array: the final projection of the three entry arrays. -/
theorem val13_3 (c : Dev nD) :
    Spec.cur2 ((dat13 V c).arrAt ⟨3, Nat.lt_succ_self 3⟩ cfg13.N : S65536x256.Idx → EReal)
      = Spec.final (Spec.cur2 (V c main_v277 : S65536x64.Idx → EReal)) (Spec.cur2 (V c main_arg14 : S64x256.Idx → EReal))
          (Spec.cur2 (V c main_v278 : S1x256.Idx → EReal)) := by
  rw [final13_3 V c]
  funext r j
  exact G13_3_apply (V c main_v277) (V c main_arg14) (V c main_v278) r j

end Cert.KernelIdeal.Val

end
-- ==== Proof.KI.NetVal.lean ====
/- The program's result on one device is the network of its arguments: the run of NetAll.lean with what each of the
   fourteen passes leaves supplied by the passes' own value statements. -/
import proofs.«159011_j9938554322955_1_alg».proof.Proof.KI.NetAll
import proofs.«159011_j9938554322955_1_alg».proof.Proof.KI.Val0
import proofs.«159011_j9938554322955_1_alg».proof.Proof.KI.Val1
import proofs.«159011_j9938554322955_1_alg».proof.Proof.KI.Val2
import proofs.«159011_j9938554322955_1_alg».proof.Proof.KI.Val3
import proofs.«159011_j9938554322955_1_alg».proof.Proof.KI.Val4
import proofs.«159011_j9938554322955_1_alg».proof.Proof.KI.Val5
import proofs.«159011_j9938554322955_1_alg».proof.Proof.KI.Val6
import proofs.«159011_j9938554322955_1_alg».proof.Proof.KI.Val7
import proofs.«159011_j9938554322955_1_alg».proof.Proof.KI.Val8
import proofs.«159011_j9938554322955_1_alg».proof.Proof.KI.Val9
import proofs.«159011_j9938554322955_1_alg».proof.Proof.KI.Val10
import proofs.«159011_j9938554322955_1_alg».proof.Proof.KI.Val11
import proofs.«159011_j9938554322955_1_alg».proof.Proof.KI.Val12
import proofs.«159011_j9938554322955_1_alg».proof.Proof.KI.Val13

set_option maxRecDepth 4628

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Lib (IsReal)

variable (m : (ℓ : Loc nD τ sig) → Buf (Elt Ideal) ℓ) (ρ : Dev nD → PrngReg) (c : Dev nD)

/-- Under the precondition, the program's result at slab b, row q, feature j is the network's value at node 4096 b + q,
    feature j. -/
theorem kernel_netM [Cert.Pre_finite_inputs.Facts] (hpre : Cert.Pre_KernelIdeal m) (b : Fin 16) (q : Fin 4096) (j : Fin 256) :
    (W29 m ρ c (Proc.devRef .tc main_v280) : S16x4096x256.Idx → EReal) (ix3 b q j)
      = netM m c ⟨4096 * b.val + q.val, by omega⟩ j :=
  net_of m ρ c hpre (val0_3 (V1 m ρ) c)
    ⟨val1_5 (V3 m ρ) c, val1_6 (V3 m ρ) c, val2_11 (V5 m ρ) c, val2_12 (V5 m ρ) c, val3_15 (V7 m ρ) c⟩
    ⟨val4_5 (V9 m ρ) c, val4_6 (V9 m ρ) c, val5_11 (V11 m ρ) c, val5_12 (V11 m ρ) c, val6_15 (V13 m ρ) c⟩
    ⟨val7_5 (V15 m ρ) c, val7_6 (V15 m ρ) c, val8_11 (V17 m ρ) c, val8_12 (V17 m ρ) c, val9_15 (V19 m ρ) c⟩
    ⟨val10_5 (V21 m ρ) c, val10_6 (V21 m ρ) c, val11_11 (V23 m ρ) c, val11_12 (V23 m ρ) c, val12_15 (V25 m ρ) c⟩
    (val13_3 (V27 m ρ) c) b q j

/-- The same with the network spelt over the sixteen arguments. -/
theorem kernel_net [Cert.Pre_finite_inputs.Facts] (hpre : Cert.Pre_KernelIdeal m) (b : Fin 16) (q : Fin 4096) (j : Fin 256) :
    (W29 m ρ c (Proc.devRef .tc main_v280) : S16x4096x256.Idx → EReal) (ix3 b q j)
      = Cert.Spec.netS (m ((c : Thread nD τ).loc main_arg0) : S2x1048576.Idx → BitVec 32) (m ((c : Thread nD τ).loc main_arg2) : S65536x1.Idx → EReal)
          (m ((c : Thread nD τ).loc main_arg3) : S1x64.Idx → EReal) (m ((c : Thread nD τ).loc main_arg4) : S64.Idx → EReal)
          (m ((c : Thread nD τ).loc main_arg5) : S4.Idx → EReal) (m ((c : Thread nD τ).loc main_arg6) : S4x64x128.Idx → EReal)
          (m ((c : Thread nD τ).loc main_arg7) : S4x128.Idx → EReal) (m ((c : Thread nD τ).loc main_arg8) : S4x128.Idx → EReal)
          (m ((c : Thread nD τ).loc main_arg9) : S4x128.Idx → EReal) (m ((c : Thread nD τ).loc main_arg10) : S4x128x64.Idx → EReal)
          (m ((c : Thread nD τ).loc main_arg11) : S4x64.Idx → EReal) (m ((c : Thread nD τ).loc main_arg12) : S4x64.Idx → EReal)
          (m ((c : Thread nD τ).loc main_arg13) : S4x64.Idx → EReal) (m ((c : Thread nD τ).loc main_arg14) : S64x256.Idx → EReal)
          (m ((c : Thread nD τ).loc main_arg15) : S256.Idx → EReal) ⟨4096 * b.val + q.val, by omega⟩ j :=
  kernel_netM m ρ c hpre b q j

end Cert.KernelIdeal.Val

end
-- ==== Proof.Ref.Val.lean ====
/- The reference's result read as the network of Math/Net.lean. Each kind of array operation the reference uses is
   first read at one entry over arbitrary operands: the product of an [M, K] array with a [K, N] array is a sum over
   the K shared positions; a sum down the rows from an initial value is that value plus the sum over the rows; a vector
   laid along the rows reads the vector; one member of a stack of parameters reads the stack at that member; the
   regrouping of 65536 rows as 16 blocks of 4096 reads row 4096·b + q. The stages of the network are then written as
   the reference composes them — the column means and variances (the variance divides by 65536 less a correction that
   is zero, under a guard that compares that divisor with zero and so holds), the normalisation, the clipping at zero,
   the linear maps, the combination of a node's features with its neighbours' sums — and each is shown equal to the
   corresponding function of Math/Spec.lean. Four layers between the first stage and the last map give the whole
   result. The statistics, the normalisation, the clipping and the linear maps are written once, at a width N, and
   used at the widths 64 and 128. Only identities valid on all extended reals are used (0 + x = x, x − 0 = x), so nothing is assumed of the
   arguments. -/
import proofs.«159011_j9938554322955_1_alg».proof.Proof.Math.Net
import proofs.«159011_j9938554322955_1_alg».proof.Proof.Gen.ReferenceIdeal
import Idealize.ShloMosaic.Lib.IdealHost
import Idealize.ShloMosaic.Lib.KernelVsHost
import Idealize.ShloMosaic.Lib.Pipeline.Value

noncomputable section

namespace Cert.ReferenceIdeal.Val

open Idealize.ShloMosaic Idealize.ShloMosaic.ValueIdx
open Cert.Spec (unc2 vec1 cur2_unc2 unc2_cur2 stepS netS)
open scoped BigOperators

/-! ## The product of an [M, K] array with a [K, N] array, read at an entry -/

theorem dotPlain_apply {M K N : Nat} (l : FVec Ideal ⟨2, ![M, K]⟩ .f32) (r : FVec Ideal ⟨2, ![K, N]⟩ .f32)
    (i : Fin M) (j : Fin N) :
    Host.dotGeneral (DotDims.plain M K N) none l r (ix2 i j) = ∑ k : Fin K, l (ix2 i k) * r (ix2 k j) := by
  show FloatOps.dotGeneral (DotDims.plain M K N) none .single l r (ix2 i j) = _
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have e1 : (DotDims.plain M K N).lhsIdx (ix2 i j) ((contrEquiv1 (DotDims.plain M K N) K hr hs).symm k) = ix2 i k := by
    funext a
    apply Fin.ext
    match a with
    | ⟨0, _⟩ => rfl
    | ⟨1, _⟩ => rfl
  have e2 : (DotDims.plain M K N).rhsIdx (ix2 i j) ((contrEquiv1 (DotDims.plain M K N) K hr hs).symm k) = ix2 k j := by
    funext a
    apply Fin.ext
    match a with
    | ⟨0, _⟩ => rfl
    | ⟨1, _⟩ => rfl
  rw [e1, e2]

/-! ## The sum down the rows of an [M, N] array, read at a column -/

theorem reduceRows_apply {M N : Nat} (x : FVec Ideal ⟨2, ![M, N]⟩ .f32) (init : FVec Ideal ⟨0, ![]⟩ .f32)
    (h' : (⟨2, ![M, N]⟩ : Shape).ReducesTo [0] ⟨1, ![N]⟩) (hu : 0 < (⟨0, ![]⟩ : Shape).numel) (j : Fin N) :
    Host.reduceAdd x init h' hu (ix1 j) = init ix0 + ∑ r : Fin M, x (ix2 r j) := by
  have h : (⟨2, ![M, N]⟩ : Shape).Reduces [0] ⟨1, ![N]⟩ := ⟨h'.1, Nat.one_pos, h'.2⟩
  rw [hostReduceAdd_apply, Ideal.hostReduceAdd_single h' h]
  congr 1
  · exact congrArg init (eq_ix0 _)
  · refine Finset.sum_congr rfl fun r _ => congrArg x ?_
    funext a
    apply Fin.ext
    match a with
    | ⟨0, _⟩ => rfl
    | ⟨1, _⟩ => rfl

/-! ## Broadcasts read at an entry -/

/-- A vector of N entries laid along each of M rows, through its one-row form. -/
theorem rowBcast_apply {M N : Nat} {α : Type} (h1 : (⟨1, ![N]⟩ : Shape).BroadcastsInDim ⟨2, ![1, N]⟩ ![1])
    (h2 : (⟨2, ![1, N]⟩ : Shape).BroadcastsInDim ⟨2, ![M, N]⟩ ![0, 1]) (v : (⟨1, ![N]⟩ : Shape).Idx → α)
    (r : Fin M) (j : Fin N) :
    broadcastInDim ⟨2, ![M, N]⟩ ![0, 1] h2 (broadcastInDim ⟨2, ![1, N]⟩ ![1] h1 v) (ix2 r j) = v (ix1 j) := by
  rw [broadcastInDim_oneRow_apply]
  refine broadcastInDim_apply ![1] h1 v _ (ix1 j) ?_
  intro a
  match a with
  | ⟨0, _⟩ =>
    show j.val = if N = 1 then 0 else j.val
    split
    · have := j.isLt; omega
    · rfl

/-- A vector of N entries as a one-row array. -/
theorem oneRow_apply {N : Nat} {α : Type} (h1 : (⟨1, ![N]⟩ : Shape).BroadcastsInDim ⟨2, ![1, N]⟩ ![1])
    (v : (⟨1, ![N]⟩ : Shape).Idx → α) (r : Fin 1) (j : Fin N) :
    broadcastInDim ⟨2, ![1, N]⟩ ![1] h1 v (ix2 r j) = v (ix1 j) := by
  refine broadcastInDim_apply ![1] h1 v _ (ix1 j) ?_
  intro a
  match a with
  | ⟨0, _⟩ =>
    show j.val = if N = 1 then 0 else j.val
    split
    · have := j.isLt; omega
    · rfl

/-! ## One member of a stack of parameters -/

/-- Member i of a stack of R scalars. -/
theorem member0_apply {R : Nat} {α : Type} (i : Nat) (hi : i < R) (a : (⟨1, ![R]⟩ : Shape).Idx → α)
    (hs : (⟨1, ![R]⟩ : Shape).Slices ![i] ⟨1, ![1]⟩) (hc : (⟨1, ![1]⟩ : Shape).ShapeCasts ⟨0, ![]⟩)
    (u : (⟨0, ![]⟩ : Shape).Idx) :
    shapeCast ⟨0, ![]⟩ (extractStridedSlice ⟨1, ![1]⟩ ![i] a hs) hc u = a (ix1 ⟨i, hi⟩) := by
  rw [shapeCast_apply _ hc u (ix1 (0 : Fin 1)) (by
    rw [Shape.rowMajor_val_one]
    exact (Fin.val_eq_zero _).symm)]
  refine extractStridedSlice_apply ![i] a hs _ (ix1 ⟨i, hi⟩) ?_
  intro b
  match b with
  | ⟨0, _⟩ => rfl

/-- Member i of a stack of R vectors of N entries. -/
theorem member1_apply {R N : Nat} {α : Type} (i : Nat) (hi : i < R) (a : (⟨2, ![R, N]⟩ : Shape).Idx → α)
    (hs : (⟨2, ![R, N]⟩ : Shape).Slices ![i, 0] ⟨2, ![1, N]⟩) (hc : (⟨2, ![1, N]⟩ : Shape).ShapeCasts ⟨1, ![N]⟩)
    (j : Fin N) :
    shapeCast ⟨1, ![N]⟩ (extractStridedSlice ⟨2, ![1, N]⟩ ![i, 0] a hs) hc (ix1 j) = a (ix2 ⟨i, hi⟩ j) := by
  rw [shapeCast_apply _ hc (ix1 j) (ix2 (0 : Fin 1) j) (by
    rw [Shape.rowMajor_val_two, Shape.rowMajor_val_one]
    show 0 * N + j.val = j.val
    rw [Nat.zero_mul, Nat.zero_add])]
  refine extractStridedSlice_apply ![i, 0] a hs _ (ix2 ⟨i, hi⟩ j) ?_
  intro b
  match b with
  | ⟨0, _⟩ => rfl
  | ⟨1, _⟩ => show j.val = 0 + j.val; rw [Nat.zero_add]

/-- Member i of a stack of R matrices of shape [K, N]. -/
theorem member2_apply {R K N : Nat} {α : Type} (i : Nat) (hi : i < R) (a : (⟨3, ![R, K, N]⟩ : Shape).Idx → α)
    (hs : (⟨3, ![R, K, N]⟩ : Shape).Slices ![i, 0, 0] ⟨3, ![1, K, N]⟩)
    (hc : (⟨3, ![1, K, N]⟩ : Shape).ShapeCasts ⟨2, ![K, N]⟩) (k : Fin K) (j : Fin N) :
    shapeCast ⟨2, ![K, N]⟩ (extractStridedSlice ⟨3, ![1, K, N]⟩ ![i, 0, 0] a hs) hc (ix2 k j) = a (ix3 ⟨i, hi⟩ k j) := by
  rw [shapeCast_apply _ hc (ix2 k j) (ix3 (0 : Fin 1) k j) (by
    rw [Shape.rowMajor_val_three, Shape.rowMajor_val_two]
    show (0 * K + k.val) * N + j.val = k.val * N + j.val
    rw [Nat.zero_mul, Nat.zero_add])]
  refine extractStridedSlice_apply ![i, 0, 0] a hs _ (ix3 ⟨i, hi⟩ k j) ?_
  intro b
  match b with
  | ⟨0, _⟩ => rfl
  | ⟨1, _⟩ => show k.val = 0 + k.val; rw [Nat.zero_add]
  | ⟨2, _⟩ => show j.val = 0 + j.val; rw [Nat.zero_add]

/-! ## The result's three-axis form: row 4096·b + q of the [65536, 256] array is entry (b, q) -/

theorem blocks_apply {α : Type} (y : (⟨2, ![65536, 256]⟩ : Shape).Idx → α)
    (h : (⟨2, ![65536, 256]⟩ : Shape).ShapeCasts ⟨3, ![16, 4096, 256]⟩) (b : Fin 16) (q : Fin 4096) (j : Fin 256) :
    shapeCast ⟨3, ![16, 4096, 256]⟩ y h (ix3 b q j)
      = y (ix2 ⟨4096 * b.val + q.val, by have := b.isLt; have := q.isLt; omega⟩ j) := by
  refine shapeCast_apply y h _ _ ?_
  rw [Shape.rowMajor_val_two, Shape.rowMajor_val_three]
  show (4096 * b.val + q.val) * 256 + j.val = (b.val * 4096 + q.val) * 256 + j.val
  omega

/-! ## Constants -/

/-- The single-precision word of 65536 is the number 65536. -/
theorem cN_eq : Spec.cN = ((65536 : ℝ) : EReal) := by
  show Ideal.ofBits .f32 0x47800000#32 = ((65536 : ℝ) : EReal)
  simp [Ideal.ofBits, Ideal.ieee, -EReal.coe_mul]
  norm_num

theorem cN_pos : (0 : EReal) < Spec.cN := by
  rw [cN_eq]
  exact EReal.coe_pos.mpr (by norm_num)

/-- The integer zero converted to a float is zero. -/
theorem sitofp_zero32 : (FloatOps.sitofp (F := Ideal) .f32 (0#32 : BitVec 32) : EReal) = 0 := by
  show ((((0#32 : BitVec 32).toInt : ℤ) : ℝ) : EReal) = 0
  simp

/-! ## The reference's stages over abstract operands -/

open Cert.ReferenceIdeal.Facts₀

/-- The divisor of the variance: 65536 less the correction 0 converted to a float. -/
noncomputable def ddofN : FVec Ideal S_ .f32 :=
  subf (constant S_ .f32 0x47800000#32) (sitofp .f32 (constantI S_ 32 0#32))

theorem ddofN_apply (u : S_.Idx) : ddofN u = Spec.cN := by
  show Ideal.ofBits .f32 0x47800000#32 - FloatOps.sitofp (F := Ideal) .f32 (0#32 : BitVec 32) = Spec.cN
  rw [sitofp_zero32, sub_zero]
  rfl

/-- The guard of the variance compares the divisor with zero: it holds. -/
theorem guard_one (u : S_.Idx) : cmpf .ogt ddofN (constant (F := Ideal) S_ .f32 0x00000000#32) u = 1#1 := by
  show Ideal.cmp .ogt (ddofN u) (Ideal.ofBits .f32 0x00000000#32) = 1#1
  rw [ddofN_apply, Ideal.ofBits_zero_f32]
  simp [Ideal.cmp, cN_pos]

/-! ### The statistics, the normalisation and the clipping at any width N -/

/-- The shape relations the stages of width N use; the program states each of them at widths 64 and 128. -/
structure WFacts (N : Nat) : Prop where
  row : (⟨1, ![N]⟩ : Shape).BroadcastsInDim ⟨2, ![1, N]⟩ ![1]
  rows : (⟨2, ![1, N]⟩ : Shape).BroadcastsInDim ⟨2, ![65536, N]⟩ ![0, 1]
  s1 : (⟨0, ![]⟩ : Shape).BroadcastsInDim ⟨1, ![N]⟩ ![]
  s1r : (⟨0, ![]⟩ : Shape).BroadcastsInDim ⟨2, ![1, N]⟩ ![]
  s2 : (⟨0, ![]⟩ : Shape).BroadcastsInDim ⟨2, ![65536, N]⟩ ![]
  red : (⟨2, ![65536, N]⟩ : Shape).ReducesTo [0] ⟨1, ![N]⟩

/-- The relations at width 128. -/
theorem w128 : WFacts 128 :=
  ⟨bcast_S128_S1x128_1, bcast_S1x128_S65536x128_0_1, bcast_S_S128, bcast_S_S1x128, bcast_S_S65536x128,
    reducesTo_S65536x128_S128_d0⟩

/-- The relations at width 64. -/
theorem w64 : WFacts 64 :=
  ⟨bcast_S64_S1x64_1, bcast_S1x64_S65536x64_0_1, bcast_S_S64, bcast_S_S1x64, bcast_S_S65536x64,
    reducesTo_S65536x64_S64_d0⟩

/-- An array of 65536 rows of N features. -/
noncomputable abbrev Mat (N : Nat) : Type := FVec Ideal ⟨2, ![65536, N]⟩ .f32
/-- A vector of N features. -/
noncomputable abbrev Vec (N : Nat) : Type := FVec Ideal ⟨1, ![N]⟩ .f32

section Width

variable {N : Nat} (w : WFacts N)

/-- A vector of N entries laid along every row. -/
noncomputable def bRow (v : Vec N) : Mat N :=
  broadcastInDim ⟨2, ![65536, N]⟩ ![0, 1] w.rows (broadcastInDim ⟨2, ![1, N]⟩ ![1] w.row v)

theorem bRow_apply (v : Vec N) (r : Fin 65536) (j : Fin N) : bRow w v (ix2 r j) = v (ix1 j) :=
  rowBcast_apply _ _ v r j

/-- The column means as the reference computes them: the column sums from zero, divided by the constant 65536. -/
noncomputable def meanT (z : Mat N) : Vec N :=
  Host.divf (Host.reduceAdd z (constant S_ .f32 0x00000000#32) w.red h_S_)
    (broadcastInDim ⟨1, ![N]⟩ ![] w.s1 (constant S_ .f32 0x47800000#32))

theorem meanT_apply (z : Mat N) (j : Fin N) : meanT w z (ix1 j) = Spec.mean (Spec.cur2 z) 0 j := by
  unfold meanT
  rw [hostDivf_apply, reduceRows_apply, broadcastInDim_scalar_apply]
  show Ideal.div (Ideal.ofBits .f32 0x00000000#32 + ∑ r : Fin 65536, z (ix2 r j)) (Ideal.ofBits .f32 0x47800000#32) = _
  rw [Ideal.ofBits_zero_f32, zero_add]
  rfl

theorem meanT_vec1 (z : Mat N) : vec1 (meanT w z) = Spec.mean (Spec.cur2 z) :=
  funext fun _ => funext fun j => meanT_apply w z j

/-- The column means inside the variance, kept as a one-row array. -/
noncomputable def meanRow (z : Mat N) : FVec Ideal ⟨2, ![1, N]⟩ .f32 :=
  Host.divf
    (broadcastInDim ⟨2, ![1, N]⟩ ![1] w.row (Host.reduceAdd z (constant S_ .f32 0x00000000#32) w.red h_S_))
    (broadcastInDim ⟨2, ![1, N]⟩ ![] w.s1r (constant S_ .f32 0x47800000#32))

theorem meanRow_apply (z : Mat N) (j : Fin N) : meanRow w z (ix2 (0 : Fin 1) j) = Spec.mean (Spec.cur2 z) 0 j := by
  unfold meanRow
  rw [hostDivf_apply, oneRow_apply, reduceRows_apply, broadcastInDim_scalar_apply]
  show Ideal.div (Ideal.ofBits .f32 0x00000000#32 + ∑ r : Fin 65536, z (ix2 r j)) (Ideal.ofBits .f32 0x47800000#32) = _
  rw [Ideal.ofBits_zero_f32, zero_add]
  rfl

/-- The squared deviations from the column means. -/
noncomputable def devSq (z : Mat N) : Mat N :=
  mulf (subf z (broadcastInDim ⟨2, ![65536, N]⟩ ![0, 1] w.rows (meanRow w z)))
    (subf z (broadcastInDim ⟨2, ![65536, N]⟩ ![0, 1] w.rows (meanRow w z)))

theorem devSq_apply (z : Mat N) (r : Fin 65536) (j : Fin N) :
    devSq w z (ix2 r j)
      = (Spec.cur2 z r j - Spec.mean (Spec.cur2 z) 0 j) * (Spec.cur2 z r j - Spec.mean (Spec.cur2 z) 0 j) := by
  unfold devSq
  rw [mulf_apply, subf_apply, broadcastInDim_oneRow_apply, meanRow_apply]
  rfl

/-- The variance as the reference computes it: the sum of the squared deviations from zero, divided by 65536 less the
    correction 0, guarded by the comparison of that divisor with zero. -/
noncomputable def varT (z : Mat N) : Vec N :=
  select (broadcastInDim ⟨1, ![N]⟩ ![] w.s1 (cmpf .ogt ddofN (constant (F := Ideal) S_ .f32 0x00000000#32)))
    (Host.divf (Host.reduceAdd (devSq w z) (constant S_ .f32 0x00000000#32) w.red h_S_)
      (broadcastInDim ⟨1, ![N]⟩ ![] w.s1 ddofN))
    (broadcastInDim ⟨1, ![N]⟩ ![] w.s1 (id (constant (F := Ideal) S_ .f32 0x7FC00000#32)))

theorem varT_apply (z : Mat N) (j : Fin N) : varT w z (ix1 j) = Spec.var (Spec.cur2 z) 0 j := by
  unfold varT
  rw [select_apply, broadcastInDim_scalar_apply, guard_one, select_one, hostDivf_apply, reduceRows_apply,
    broadcastInDim_scalar_apply, ddofN_apply]
  show Ideal.div (Ideal.ofBits .f32 0x00000000#32 + ∑ r : Fin 65536, devSq w z (ix2 r j)) Spec.cN = _
  rw [Ideal.ofBits_zero_f32, zero_add]
  exact congrArg (fun s => Ideal.div s Spec.cN) (Finset.sum_congr rfl fun r _ => devSq_apply w z r j)

theorem varT_vec1 (z : Mat N) : vec1 (varT w z) = Spec.var (Spec.cur2 z) :=
  funext fun _ => funext fun j => varT_apply w z j

/-- The normalisation as the reference computes it. -/
noncomputable def normT (z : Mat N) (mu va g be : Vec N) : Mat N :=
  addf
    (mulf
      (mulf (subf z (bRow w mu))
        (bRow w (Host.rsqrt (addf va (broadcastInDim ⟨1, ![N]⟩ ![] w.s1 (constant S_ .f32 0x3727C5AC#32))))))
      (bRow w g))
    (bRow w be)

theorem normT_cur2 (z : Mat N) (mu va g be : Vec N) :
    Spec.cur2 (normT w z mu va g be) = Spec.norm (Spec.cur2 z) (vec1 mu) (vec1 va) (vec1 g) (vec1 be) := by
  funext r j
  show normT w z mu va g be (ix2 r j) = _
  unfold normT
  rw [addf_apply, mulf_apply, mulf_apply, subf_apply, bRow_apply, bRow_apply, bRow_apply, bRow_apply]
  rfl

/-- Clipping at zero as the reference computes it: the maximum with the zero array. -/
noncomputable def reluT (a : Mat N) : Mat N :=
  maximumf a (broadcastInDim ⟨2, ![65536, N]⟩ ![] w.s2 (constant S_ .f32 0x00000000#32))

theorem reluT_cur2 (a : Mat N) : Spec.cur2 (reluT w a) = Spec.relu (Spec.cur2 a) := by
  funext r j
  show reluT w a (ix2 r j) = max (a (ix2 r j)) 0
  unfold reluT
  rw [maximumf_apply]
  show max (a (ix2 r j)) (Ideal.ofBits .f32 0x00000000#32) = _
  rw [Ideal.ofBits_zero_f32]

/-- A linear map with a bias, K features to N, as the reference computes it: the product, plus the bias along the rows. -/
noncomputable def linT {K : Nat} (d : DotDims ⟨2, ![65536, K]⟩ ⟨2, ![K, N]⟩ ⟨2, ![65536, N]⟩) (h : Mat K)
    (W : FVec Ideal ⟨2, ![K, N]⟩ .f32) (b : Vec N) : Mat N :=
  addf (Host.dotGeneral d none h W) (bRow w b)

theorem linT_cur2 {K : Nat} (d : DotDims ⟨2, ![65536, K]⟩ ⟨2, ![K, N]⟩ ⟨2, ![65536, N]⟩)
    (hd : d = DotDims.plain 65536 K N) (h : Mat K) (W : FVec Ideal ⟨2, ![K, N]⟩ .f32) (b : Vec N) :
    Spec.cur2 (linT w d h W b) = Spec.lin (Spec.cur2 h) (Spec.cur2 W) (vec1 b) := by
  subst hd
  funext r j
  show linT w (DotDims.plain 65536 K N) h W b (ix2 r j) = _
  unfold linT
  rw [addf_apply, bRow_apply, dotPlain_apply]
  rfl

end Width

/-- The relations of the last map's bias, of width 256. -/
theorem rows256 : (⟨1, ![256]⟩ : Shape).BroadcastsInDim ⟨2, ![1, 256]⟩ ![1]
    ∧ (⟨2, ![1, 256]⟩ : Shape).BroadcastsInDim ⟨2, ![65536, 256]⟩ ![0, 1] :=
  ⟨bcast_S256_S1x256_1, bcast_S1x256_S65536x256_0_1⟩

/-! ### The stages of a layer -/

/-- The first stage: one scalar per node times a row of 64 weights, plus a bias. -/
noncomputable def embedT (x : FVec Ideal S65536x1 .f32) (w : FVec Ideal S1x64 .f32) (b : Vec 64) : Mat 64 :=
  linT w64 dot_S65536x1_S1x64_S65536x64_1_0_0_1_n_n x w b

theorem embedT_cur2 (x : FVec Ideal S65536x1 .f32) (w : FVec Ideal S1x64 .f32) (b : Vec 64) :
    Spec.cur2 (embedT x w b) = Spec.embed (Spec.cur2 x) (Spec.cur2 w) (vec1 b) := by
  unfold embedT
  rw [linT_cur2 w64 dot_S65536x1_S1x64_S65536x64_1_0_0_1_n_n rfl]
  funext r k
  show (∑ q : Fin 1, x (ix2 r q) * w (ix2 q k)) + b (ix1 k) = _
  rw [Fin.sum_univ_one]
  rfl

/-- A scalar as a one-row table of 64 equal entries. -/
noncomputable def scal (e : FVec Ideal S_ .f32) : Fin 1 → Fin 64 → EReal := fun _ _ => e ix0

/-- A node's own features scaled by one plus a scalar, plus the neighbour sums. -/
noncomputable def combineT (e : FVec Ideal S_ .f32) (x agg : Mat 64) : Mat 64 :=
  addf (mulf (broadcastInDim S65536x64 ![] bcast_S_S65536x64 (addf (constant S_ .f32 0x3F800000#32) e)) x) agg

theorem combineT_cur2 (e : FVec Ideal S_ .f32) (x agg : Mat 64) :
    Spec.cur2 (combineT e x agg) = Spec.combine (scal e) (Spec.cur2 x) (Spec.cur2 agg) := by
  funext r k
  show combineT e x agg (ix2 r k) = _
  unfold combineT
  rw [addf_apply, mulf_apply, broadcastInDim_scalar_apply, addf_apply]
  rfl

/-- The hidden activations: the first linear map's output normalised by its own statistics, then clipped. -/
noncomputable def a1T (z : Mat 128) (g be : Vec 128) : Mat 128 :=
  reluT w128 (normT w128 z (meanT w128 z) (varT w128 z) g be)

theorem a1T_cur2 (z : Mat 128) (g be : Vec 128) : Spec.cur2 (a1T z g be) = Spec.a1 (Spec.cur2 z) (vec1 g) (vec1 be) := by
  unfold a1T
  rw [reluT_cur2, normT_cur2, meanT_vec1, varT_vec1]
  rfl

/-- A layer's output: the second linear map's output normalised by its own statistics, clipped, plus the input. -/
noncomputable def outT (x z : Mat 64) (g be : Vec 64) : Mat 64 :=
  addf (reluT w64 (normT w64 z (meanT w64 z) (varT w64 z) g be)) x

theorem outT_cur2 (x z : Mat 64) (g be : Vec 64) :
    Spec.cur2 (outT x z g be) = Spec.out (Spec.cur2 x) (Spec.cur2 z) (vec1 g) (vec1 be) := by
  funext r k
  show outT x z g be (ix2 r k) = _
  unfold outT
  rw [addf_apply]
  show Spec.cur2 (reluT w64 (normT w64 z (meanT w64 z) (varT w64 z) g be)) r k + Spec.cur2 x r k = _
  rw [reluT_cur2, normT_cur2, meanT_vec1, varT_vec1]
  rfl

/-- One whole layer as the reference computes it. -/
noncomputable def layerT (e : FVec Ideal S_ .f32) (x agg : Mat 64) (W1 : FVec Ideal S64x128 .f32) (b1 g1 be1 : Vec 128)
    (W2 : FVec Ideal S128x64 .f32) (b2 g2 be2 : Vec 64) : Mat 64 :=
  outT x
    (linT w64 dot_S65536x128_S128x64_S65536x64_1_0_0_1_n_n
      (a1T (linT w128 dot_S65536x64_S64x128_S65536x128_1_0_0_1_n_n (combineT e x agg) W1 b1) g1 be1) W2 b2)
    g2 be2

theorem layerT_cur2 (e : FVec Ideal S_ .f32) (x agg : Mat 64) (W1 : FVec Ideal S64x128 .f32) (b1 g1 be1 : Vec 128)
    (W2 : FVec Ideal S128x64 .f32) (b2 g2 be2 : Vec 64) :
    Spec.cur2 (layerT e x agg W1 b1 g1 be1 W2 b2 g2 be2)
      = Spec.layer (scal e) (Spec.cur2 x) (Spec.cur2 agg) (Spec.cur2 W1) (vec1 b1) (vec1 g1) (vec1 be1)
          (Spec.cur2 W2) (vec1 b2) (vec1 g2) (vec1 be2) := by
  unfold layerT
  rw [outT_cur2, linT_cur2 w64 dot_S65536x128_S128x64_S65536x64_1_0_0_1_n_n rfl, a1T_cur2,
    linT_cur2 w128 dot_S65536x64_S64x128_S65536x128_1_0_0_1_n_n rfl, combineT_cur2]
  rfl

/-- The last stage: the map to 256 features, then the rows regrouped in 16 blocks of 4096. -/
noncomputable def finalT (x : Mat 64) (Wf : FVec Ideal S64x256 .f32) (bf : Vec 256) : FVec Ideal S16x4096x256 .f32 :=
  shapeCast S16x4096x256
    (addf (Host.dotGeneral dot_S65536x64_S64x256_S65536x256_1_0_0_1_n_n none x Wf)
      (broadcastInDim S65536x256 ![0, 1] bcast_S1x256_S65536x256_0_1 (broadcastInDim S1x256 ![1] bcast_S256_S1x256_1 bf)))
    shapeCasts_S65536x256_S16x4096x256

theorem finalT_apply (x : Mat 64) (Wf : FVec Ideal S64x256 .f32) (bf : Vec 256) (b : Fin 16) (q : Fin 4096)
    (j : Fin 256) :
    finalT x Wf bf (ix3 b q j)
      = Spec.final (Spec.cur2 x) (Spec.cur2 Wf) (vec1 bf)
          ⟨4096 * b.val + q.val, by have := b.isLt; have := q.isLt; omega⟩ j := by
  unfold finalT
  rw [blocks_apply, addf_apply, rowBcast_apply]
  show Host.dotGeneral (DotDims.plain 65536 64 256) none x Wf (ix2 _ j) + bf (ix1 j) = _
  rw [dotPlain_apply]
  rfl

/-! ## The stacked parameters' members -/

theorem slices1 {R : Nat} (i : Fin R) : (⟨1, ![R]⟩ : Shape).Slices ![i.val] ⟨1, ![1]⟩ :=
  ⟨rfl, fun a => by
    match a with
    | ⟨0, _⟩ => show i.val + 1 ≤ R; exact i.isLt⟩

theorem slices2 {R N : Nat} (i : Fin R) : (⟨2, ![R, N]⟩ : Shape).Slices ![i.val, 0] ⟨2, ![1, N]⟩ :=
  ⟨rfl, fun a => by
    match a with
    | ⟨0, _⟩ => show i.val + 1 ≤ R; exact i.isLt
    | ⟨1, _⟩ => show 0 + N ≤ N; omega⟩

theorem slices3 {R K N : Nat} (i : Fin R) : (⟨3, ![R, K, N]⟩ : Shape).Slices ![i.val, 0, 0] ⟨3, ![1, K, N]⟩ :=
  ⟨rfl, fun a => by
    match a with
    | ⟨0, _⟩ => show i.val + 1 ≤ R; exact i.isLt
    | ⟨1, _⟩ => show 0 + K ≤ K; omega
    | ⟨2, _⟩ => show 0 + N ≤ N; omega⟩

/-- Member i of the four scalars. -/
noncomputable def epsM (p : FVec Ideal S4 .f32) (i : Fin 4) : FVec Ideal S_ .f32 :=
  shapeCast S_ (extractStridedSlice S1 ![i.val] p (slices1 i)) shapeCasts_S1_S_

theorem epsM_scal (p : FVec Ideal S4 .f32) (i : Fin 4) : scal (epsM p i) = fun _ _ => p (ix1 i) :=
  funext fun _ => funext fun _ => member0_apply i.val i.isLt p (slices1 i) shapeCasts_S1_S_ ix0

/-- Member i of four vectors of N entries. -/
noncomputable def vecM {N : Nat} (hc : (⟨2, ![1, N]⟩ : Shape).ShapeCasts ⟨1, ![N]⟩) (p : FVec Ideal ⟨2, ![4, N]⟩ .f32) (i : Fin 4) :
    Vec N :=
  shapeCast ⟨1, ![N]⟩ (extractStridedSlice ⟨2, ![1, N]⟩ ![i.val, 0] p (slices2 i)) hc

theorem vecM_vec1 {N : Nat} (hc : (⟨2, ![1, N]⟩ : Shape).ShapeCasts ⟨1, ![N]⟩) (p : FVec Ideal ⟨2, ![4, N]⟩ .f32)
    (i : Fin 4) : vec1 (vecM hc p i) = fun _ j => p (ix2 i j) :=
  funext fun _ => funext fun j => member1_apply i.val i.isLt p (slices2 i) hc j

/-- Member i of four [K, N] matrices. -/
noncomputable def matM {K N : Nat} (hc : (⟨3, ![1, K, N]⟩ : Shape).ShapeCasts ⟨2, ![K, N]⟩) (p : FVec Ideal ⟨3, ![4, K, N]⟩ .f32)
    (i : Fin 4) : FVec Ideal ⟨2, ![K, N]⟩ .f32 :=
  shapeCast ⟨2, ![K, N]⟩ (extractStridedSlice ⟨3, ![1, K, N]⟩ ![i.val, 0, 0] p (slices3 i)) hc

theorem matM_cur2 {K N : Nat} (hc : (⟨3, ![1, K, N]⟩ : Shape).ShapeCasts ⟨2, ![K, N]⟩)
    (p : FVec Ideal ⟨3, ![4, K, N]⟩ .f32) (i : Fin 4) : Spec.cur2 (matM hc p i) = fun k j => p (ix3 i k j) :=
  funext fun k => funext fun j => member2_apply i.val i.isLt p (slices3 i) hc k j

/-! ## The gather's and the scatter's dimension numbers are those of Math/Agg.lean -/

theorem scatter_eq : scatter_S65536x64_S1048576x1_S1048576x64_1_0_0_1 = Cert.Hand.scatterRows := rfl

theorem gather_eq : gather_S65536x64_S1048576x1_S1048576x64_1_0_n_n_0_1_164 = Cert.Hand.gatherRows := rfl

/-! ## The network over the sixteen arguments -/

section Net

variable (ei : IVec S2x1048576 32) (xin : FVec Ideal S65536x1 .f32) (win : FVec Ideal S1x64 .f32) (bin : Vec 64)
  (eps : FVec Ideal S4 .f32) (W1s : FVec Ideal S4x64x128 .f32) (b1s g1s be1s : FVec Ideal S4x128 .f32)
  (W2s : FVec Ideal S4x128x64 .f32) (b2s g2s be2s : FVec Ideal S4x64 .f32)
  (Wf : FVec Ideal S64x256 .f32) (bf : Vec 256)

/-- Layer i of the reference applied to an array of features: the layer's members of the stacked parameters, and the
    neighbour sums of the features. -/
noncomputable def stepT (i : Fin 4) (x : Mat 64) : Mat 64 :=
  layerT (epsM eps i) x (Cert.Hand.aggOf ei x) (matM shapeCasts_S1x64x128_S64x128 W1s i)
    (vecM shapeCasts_S1x128_S128 b1s i) (vecM shapeCasts_S1x128_S128 g1s i) (vecM shapeCasts_S1x128_S128 be1s i)
    (matM shapeCasts_S1x128x64_S128x64 W2s i) (vecM shapeCasts_S1x64_S64 b2s i) (vecM shapeCasts_S1x64_S64 g2s i)
    (vecM shapeCasts_S1x64_S64 be2s i)

theorem stepT_cur2 (i : Fin 4) (x : Mat 64) :
    Spec.cur2 (stepT ei eps W1s b1s g1s be1s W2s b2s g2s be2s i x)
      = stepS ei eps W1s b1s g1s be1s W2s b2s g2s be2s i (Spec.cur2 x) := by
  unfold stepT stepS
  rw [layerT_cur2, epsM_scal, matM_cur2, vecM_vec1, vecM_vec1, vecM_vec1, matM_cur2, vecM_vec1, vecM_vec1, vecM_vec1,
    unc2_cur2]

/-- The reference's whole computation over the contents of its arguments. -/
noncomputable def netT : FVec Ideal S16x4096x256 .f32 :=
  finalT
    (stepT ei eps W1s b1s g1s be1s W2s b2s g2s be2s 3
      (stepT ei eps W1s b1s g1s be1s W2s b2s g2s be2s 2
        (stepT ei eps W1s b1s g1s be1s W2s b2s g2s be2s 1
          (stepT ei eps W1s b1s g1s be1s W2s b2s g2s be2s 0 (embedT xin win bin)))))
    Wf bf

/-- The reference's result at block b, row q, column j is the network at row 4096·b + q, column j. Nothing is assumed
    of the arguments: every identity used (0 + x = x, x − 0 = x, the guard's comparison of constants) holds on all
    extended reals. -/
theorem netT_apply (b : Fin 16) (q : Fin 4096) (j : Fin 256) :
    netT ei xin win bin eps W1s b1s g1s be1s W2s b2s g2s be2s Wf bf (ix3 b q j)
      = netS ei xin win bin eps W1s b1s g1s be1s W2s b2s g2s be2s Wf bf
          ⟨4096 * b.val + q.val, by have := b.isLt; have := q.isLt; omega⟩ j := by
  unfold netT netS
  rw [finalT_apply, stepT_cur2, stepT_cur2, stepT_cur2, stepT_cur2, embedT_cur2]

end Net

end Cert.ReferenceIdeal.Val

end
-- ==== Proof.Ref.ValTie0.lean ====
/- Layer 0 of the reference, value by value, is the layer of Ref/Val.lean: the layer's members of the stacked
   parameters, the neighbour sums of its input, the first linear map of the combined features, the hidden activations,
   the second linear map, and the output. Each identification holds by unfolding the definitions on both sides. -/
import proofs.«159011_j9938554322955_1_alg».proof.Proof.Ref.Val
import proofs.«159011_j9938554322955_1_alg».proof.Proof.Ref.Stages

noncomputable section

namespace Cert.ReferenceIdeal.Val

open Idealize.ShloMosaic Idealize.ShloMosaic.ValueIdx
open Cert.ReferenceIdeal.Facts₀
open Cert.ReferenceIdeal.Hand Idealize.ShloMosaic.TcCoe Idealize.SL.Sem Idealize.ShloMosaic.StableHlo

/-- The layer these identifications are about. -/
noncomputable abbrev lay_L0 : Fin 4 := 0

section Tie

variable (V0 : Valuation τ sig (Elt Ideal))

theorem tie_eps_L0 : res_main_v19 V0 = epsM (V0 (Proc.devRef .tc main_arg5)) lay_L0 := rfl
theorem tie_W1_L0 : res_main_v25 V0 = matM shapeCasts_S1x64x128_S64x128 (V0 (Proc.devRef .tc main_arg6)) lay_L0 := rfl
theorem tie_b1_L0 : res_main_v28 V0 = vecM shapeCasts_S1x128_S128 (V0 (Proc.devRef .tc main_arg7)) lay_L0 := rfl
theorem tie_g1_L0 : res_main_v33 V0 = vecM shapeCasts_S1x128_S128 (V0 (Proc.devRef .tc main_arg8)) lay_L0 := rfl
theorem tie_be1_L0 : res_main_v35 V0 = vecM shapeCasts_S1x128_S128 (V0 (Proc.devRef .tc main_arg9)) lay_L0 := rfl
theorem tie_W2_L0 : res_main_v57 V0 = matM shapeCasts_S1x128x64_S128x64 (V0 (Proc.devRef .tc main_arg10)) lay_L0 := rfl
theorem tie_b2_L0 : res_main_v60 V0 = vecM shapeCasts_S1x64_S64 (V0 (Proc.devRef .tc main_arg11)) lay_L0 := rfl
theorem tie_g2_L0 : res_main_v65 V0 = vecM shapeCasts_S1x64_S64 (V0 (Proc.devRef .tc main_arg12)) lay_L0 := rfl
theorem tie_be2_L0 : res_main_v67 V0 = vecM shapeCasts_S1x64_S64 (V0 (Proc.devRef .tc main_arg13)) lay_L0 := rfl
theorem tie_agg_L0 : res_main_v17 V0 = Cert.Hand.aggOf (V0 (Proc.devRef .tc main_arg0)) (res_main_v7 V0) := by
  unfold res_main_v17 res_main_v14
  rw [scatter_eq, gather_eq]
  rfl
theorem tie_z1_L0 :
    res_main_v31 V0
      = linT w128 dot_S65536x64_S64x128_S65536x128_1_0_0_1_n_n (combineT (res_main_v19 V0) (res_main_v7 V0) (res_main_v17 V0)) (res_main_v25 V0) (res_main_v28 V0) := rfl
theorem tie_a1_L0 : res_main_v55 V0 = a1T (res_main_v31 V0) (res_main_v33 V0) (res_main_v35 V0) := rfl
theorem tie_z2_L0 :
    res_main_v63 V0 = linT w64 dot_S65536x128_S128x64_S65536x64_1_0_0_1_n_n (res_main_v55 V0) (res_main_v57 V0) (res_main_v60 V0) := rfl
theorem tie_out_L0 : res_main_v88 V0 = outT (res_main_v7 V0) (res_main_v63 V0) (res_main_v65 V0) (res_main_v67 V0) := rfl

/-- The layer's output is the layer of Ref/Val.lean applied to the layer's input. -/
theorem tie_layer_L0 :
    res_main_v88 V0 = stepT (V0 (Proc.devRef .tc main_arg0)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) lay_L0 (res_main_v7 V0) := by
  rw [tie_out_L0, tie_z2_L0, tie_a1_L0, tie_z1_L0, tie_eps_L0, tie_W1_L0, tie_b1_L0, tie_g1_L0, tie_be1_L0, tie_W2_L0,
    tie_b2_L0, tie_g2_L0, tie_be2_L0, tie_agg_L0]
  rfl

end Tie

end Cert.ReferenceIdeal.Val

end
-- ==== Proof.Ref.ValTie1.lean ====
/- Layer 1 of the reference, value by value, is the layer of Ref/Val.lean: the layer's members of the stacked
   parameters, the neighbour sums of its input, the first linear map of the combined features, the hidden activations,
   the second linear map, and the output. Each identification holds by unfolding the definitions on both sides. -/
import proofs.«159011_j9938554322955_1_alg».proof.Proof.Ref.Val
import proofs.«159011_j9938554322955_1_alg».proof.Proof.Ref.Stages

noncomputable section

namespace Cert.ReferenceIdeal.Val

open Idealize.ShloMosaic Idealize.ShloMosaic.ValueIdx
open Cert.ReferenceIdeal.Facts₀
open Cert.ReferenceIdeal.Hand Idealize.ShloMosaic.TcCoe Idealize.SL.Sem Idealize.ShloMosaic.StableHlo

/-- The layer these identifications are about. -/
noncomputable abbrev lay_L1 : Fin 4 := 1

section Tie

variable (V0 : Valuation τ sig (Elt Ideal))

theorem tie_eps_L1 : res_main_v100 V0 = epsM (V0 (Proc.devRef .tc main_arg5)) lay_L1 := rfl
theorem tie_W1_L1 : res_main_v106 V0 = matM shapeCasts_S1x64x128_S64x128 (V0 (Proc.devRef .tc main_arg6)) lay_L1 := rfl
theorem tie_b1_L1 : res_main_v109 V0 = vecM shapeCasts_S1x128_S128 (V0 (Proc.devRef .tc main_arg7)) lay_L1 := rfl
theorem tie_g1_L1 : res_main_v114 V0 = vecM shapeCasts_S1x128_S128 (V0 (Proc.devRef .tc main_arg8)) lay_L1 := rfl
theorem tie_be1_L1 : res_main_v116 V0 = vecM shapeCasts_S1x128_S128 (V0 (Proc.devRef .tc main_arg9)) lay_L1 := rfl
theorem tie_W2_L1 : res_main_v138 V0 = matM shapeCasts_S1x128x64_S128x64 (V0 (Proc.devRef .tc main_arg10)) lay_L1 := rfl
theorem tie_b2_L1 : res_main_v141 V0 = vecM shapeCasts_S1x64_S64 (V0 (Proc.devRef .tc main_arg11)) lay_L1 := rfl
theorem tie_g2_L1 : res_main_v146 V0 = vecM shapeCasts_S1x64_S64 (V0 (Proc.devRef .tc main_arg12)) lay_L1 := rfl
theorem tie_be2_L1 : res_main_v148 V0 = vecM shapeCasts_S1x64_S64 (V0 (Proc.devRef .tc main_arg13)) lay_L1 := rfl
theorem tie_agg_L1 : res_main_v98 V0 = Cert.Hand.aggOf (V0 (Proc.devRef .tc main_arg0)) (res_main_v88 V0) := by
  unfold res_main_v98 res_main_v95
  rw [scatter_eq, gather_eq]
  rfl
theorem tie_z1_L1 :
    res_main_v112 V0
      = linT w128 dot_S65536x64_S64x128_S65536x128_1_0_0_1_n_n (combineT (res_main_v100 V0) (res_main_v88 V0) (res_main_v98 V0)) (res_main_v106 V0) (res_main_v109 V0) := rfl
theorem tie_a1_L1 : res_main_v136 V0 = a1T (res_main_v112 V0) (res_main_v114 V0) (res_main_v116 V0) := rfl
theorem tie_z2_L1 :
    res_main_v144 V0 = linT w64 dot_S65536x128_S128x64_S65536x64_1_0_0_1_n_n (res_main_v136 V0) (res_main_v138 V0) (res_main_v141 V0) := rfl
theorem tie_out_L1 : res_main_v169 V0 = outT (res_main_v88 V0) (res_main_v144 V0) (res_main_v146 V0) (res_main_v148 V0) := rfl

/-- The layer's output is the layer of Ref/Val.lean applied to the layer's input. -/
theorem tie_layer_L1 :
    res_main_v169 V0 = stepT (V0 (Proc.devRef .tc main_arg0)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) lay_L1 (res_main_v88 V0) := by
  rw [tie_out_L1, tie_z2_L1, tie_a1_L1, tie_z1_L1, tie_eps_L1, tie_W1_L1, tie_b1_L1, tie_g1_L1, tie_be1_L1, tie_W2_L1,
    tie_b2_L1, tie_g2_L1, tie_be2_L1, tie_agg_L1]
  rfl

end Tie

end Cert.ReferenceIdeal.Val

end
-- ==== Proof.Ref.ValTie2.lean ====
/- Layer 2 of the reference, value by value, is the layer of Ref/Val.lean: the layer's members of the stacked
   parameters, the neighbour sums of its input, the first linear map of the combined features, the hidden activations,
   the second linear map, and the output. Each identification holds by unfolding the definitions on both sides. -/
import proofs.«159011_j9938554322955_1_alg».proof.Proof.Ref.Val
import proofs.«159011_j9938554322955_1_alg».proof.Proof.Ref.Stages

noncomputable section

namespace Cert.ReferenceIdeal.Val

open Idealize.ShloMosaic Idealize.ShloMosaic.ValueIdx
open Cert.ReferenceIdeal.Facts₀
open Cert.ReferenceIdeal.Hand Idealize.ShloMosaic.TcCoe Idealize.SL.Sem Idealize.ShloMosaic.StableHlo

/-- The layer these identifications are about. -/
noncomputable abbrev lay_L2 : Fin 4 := 2

section Tie

variable (V0 : Valuation τ sig (Elt Ideal))

theorem tie_eps_L2 : res_main_v181 V0 = epsM (V0 (Proc.devRef .tc main_arg5)) lay_L2 := rfl
theorem tie_W1_L2 : res_main_v187 V0 = matM shapeCasts_S1x64x128_S64x128 (V0 (Proc.devRef .tc main_arg6)) lay_L2 := rfl
theorem tie_b1_L2 : res_main_v190 V0 = vecM shapeCasts_S1x128_S128 (V0 (Proc.devRef .tc main_arg7)) lay_L2 := rfl
theorem tie_g1_L2 : res_main_v195 V0 = vecM shapeCasts_S1x128_S128 (V0 (Proc.devRef .tc main_arg8)) lay_L2 := rfl
theorem tie_be1_L2 : res_main_v197 V0 = vecM shapeCasts_S1x128_S128 (V0 (Proc.devRef .tc main_arg9)) lay_L2 := rfl
theorem tie_W2_L2 : res_main_v219 V0 = matM shapeCasts_S1x128x64_S128x64 (V0 (Proc.devRef .tc main_arg10)) lay_L2 := rfl
theorem tie_b2_L2 : res_main_v222 V0 = vecM shapeCasts_S1x64_S64 (V0 (Proc.devRef .tc main_arg11)) lay_L2 := rfl
theorem tie_g2_L2 : res_main_v227 V0 = vecM shapeCasts_S1x64_S64 (V0 (Proc.devRef .tc main_arg12)) lay_L2 := rfl
theorem tie_be2_L2 : res_main_v229 V0 = vecM shapeCasts_S1x64_S64 (V0 (Proc.devRef .tc main_arg13)) lay_L2 := rfl
theorem tie_agg_L2 : res_main_v179 V0 = Cert.Hand.aggOf (V0 (Proc.devRef .tc main_arg0)) (res_main_v169 V0) := by
  unfold res_main_v179 res_main_v176
  rw [scatter_eq, gather_eq]
  rfl
theorem tie_z1_L2 :
    res_main_v193 V0
      = linT w128 dot_S65536x64_S64x128_S65536x128_1_0_0_1_n_n (combineT (res_main_v181 V0) (res_main_v169 V0) (res_main_v179 V0)) (res_main_v187 V0) (res_main_v190 V0) := rfl
theorem tie_a1_L2 : res_main_v217 V0 = a1T (res_main_v193 V0) (res_main_v195 V0) (res_main_v197 V0) := rfl
theorem tie_z2_L2 :
    res_main_v225 V0 = linT w64 dot_S65536x128_S128x64_S65536x64_1_0_0_1_n_n (res_main_v217 V0) (res_main_v219 V0) (res_main_v222 V0) := rfl
theorem tie_out_L2 : res_main_v250 V0 = outT (res_main_v169 V0) (res_main_v225 V0) (res_main_v227 V0) (res_main_v229 V0) := rfl

/-- The layer's output is the layer of Ref/Val.lean applied to the layer's input. -/
theorem tie_layer_L2 :
    res_main_v250 V0 = stepT (V0 (Proc.devRef .tc main_arg0)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) lay_L2 (res_main_v169 V0) := by
  rw [tie_out_L2, tie_z2_L2, tie_a1_L2, tie_z1_L2, tie_eps_L2, tie_W1_L2, tie_b1_L2, tie_g1_L2, tie_be1_L2, tie_W2_L2,
    tie_b2_L2, tie_g2_L2, tie_be2_L2, tie_agg_L2]
  rfl

end Tie

end Cert.ReferenceIdeal.Val

end
-- ==== Proof.Ref.ValTie3.lean ====
/- Layer 3 of the reference, value by value, is the layer of Ref/Val.lean: the layer's members of the stacked
   parameters, the neighbour sums of its input, the first linear map of the combined features, the hidden activations,
   the second linear map, and the output. Each identification holds by unfolding the definitions on both sides. -/
import proofs.«159011_j9938554322955_1_alg».proof.Proof.Ref.Val
import proofs.«159011_j9938554322955_1_alg».proof.Proof.Ref.Stages

noncomputable section

namespace Cert.ReferenceIdeal.Val

open Idealize.ShloMosaic Idealize.ShloMosaic.ValueIdx
open Cert.ReferenceIdeal.Facts₀
open Cert.ReferenceIdeal.Hand Idealize.ShloMosaic.TcCoe Idealize.SL.Sem Idealize.ShloMosaic.StableHlo

/-- The layer these identifications are about. -/
noncomputable abbrev lay_L3 : Fin 4 := 3

section Tie

variable (V0 : Valuation τ sig (Elt Ideal))

theorem tie_eps_L3 : res_main_v262 V0 = epsM (V0 (Proc.devRef .tc main_arg5)) lay_L3 := rfl
theorem tie_W1_L3 : res_main_v268 V0 = matM shapeCasts_S1x64x128_S64x128 (V0 (Proc.devRef .tc main_arg6)) lay_L3 := rfl
theorem tie_b1_L3 : res_main_v271 V0 = vecM shapeCasts_S1x128_S128 (V0 (Proc.devRef .tc main_arg7)) lay_L3 := rfl
theorem tie_g1_L3 : res_main_v276 V0 = vecM shapeCasts_S1x128_S128 (V0 (Proc.devRef .tc main_arg8)) lay_L3 := rfl
theorem tie_be1_L3 : res_main_v278 V0 = vecM shapeCasts_S1x128_S128 (V0 (Proc.devRef .tc main_arg9)) lay_L3 := rfl
theorem tie_W2_L3 : res_main_v300 V0 = matM shapeCasts_S1x128x64_S128x64 (V0 (Proc.devRef .tc main_arg10)) lay_L3 := rfl
theorem tie_b2_L3 : res_main_v303 V0 = vecM shapeCasts_S1x64_S64 (V0 (Proc.devRef .tc main_arg11)) lay_L3 := rfl
theorem tie_g2_L3 : res_main_v308 V0 = vecM shapeCasts_S1x64_S64 (V0 (Proc.devRef .tc main_arg12)) lay_L3 := rfl
theorem tie_be2_L3 : res_main_v310 V0 = vecM shapeCasts_S1x64_S64 (V0 (Proc.devRef .tc main_arg13)) lay_L3 := rfl
theorem tie_agg_L3 : res_main_v260 V0 = Cert.Hand.aggOf (V0 (Proc.devRef .tc main_arg0)) (res_main_v250 V0) := by
  unfold res_main_v260 res_main_v257
  rw [scatter_eq, gather_eq]
  rfl
theorem tie_z1_L3 :
    res_main_v274 V0
      = linT w128 dot_S65536x64_S64x128_S65536x128_1_0_0_1_n_n (combineT (res_main_v262 V0) (res_main_v250 V0) (res_main_v260 V0)) (res_main_v268 V0) (res_main_v271 V0) := rfl
theorem tie_a1_L3 : res_main_v298 V0 = a1T (res_main_v274 V0) (res_main_v276 V0) (res_main_v278 V0) := rfl
theorem tie_z2_L3 :
    res_main_v306 V0 = linT w64 dot_S65536x128_S128x64_S65536x64_1_0_0_1_n_n (res_main_v298 V0) (res_main_v300 V0) (res_main_v303 V0) := rfl
theorem tie_out_L3 : res_main_v331 V0 = outT (res_main_v250 V0) (res_main_v306 V0) (res_main_v308 V0) (res_main_v310 V0) := rfl

/-- The layer's output is the layer of Ref/Val.lean applied to the layer's input. -/
theorem tie_layer_L3 :
    res_main_v331 V0 = stepT (V0 (Proc.devRef .tc main_arg0)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) lay_L3 (res_main_v250 V0) := by
  rw [tie_out_L3, tie_z2_L3, tie_a1_L3, tie_z1_L3, tie_eps_L3, tie_W1_L3, tie_b1_L3, tie_g1_L3, tie_be1_L3, tie_W2_L3,
    tie_b2_L3, tie_g2_L3, tie_be2_L3, tie_agg_L3]
  rfl

end Tie

end Cert.ReferenceIdeal.Val

end
-- ==== Proof.Ref.ValResult.lean ====
/- The reference's result term is the network of Math/Net.lean: its first stage, its four layers and its last map
   are the stages of Ref/Val.lean over the contents of the arguments, so the result read at block b, row q, column j
   is the network at row 4096·b + q, column j. -/
import proofs.«159011_j9938554322955_1_alg».proof.Proof.Ref.ValTie0
import proofs.«159011_j9938554322955_1_alg».proof.Proof.Ref.ValTie1
import proofs.«159011_j9938554322955_1_alg».proof.Proof.Ref.ValTie2
import proofs.«159011_j9938554322955_1_alg».proof.Proof.Ref.ValTie3

noncomputable section

namespace Cert.ReferenceIdeal.Val

open Idealize.ShloMosaic Idealize.ShloMosaic.ValueIdx
open Cert.Spec (vec1 netS)
open Cert.ReferenceIdeal.Hand Idealize.ShloMosaic.TcCoe Idealize.SL.Sem Idealize.ShloMosaic.StableHlo

section Tie

variable (V0 : Valuation τ sig (Elt Ideal))

theorem tie_embed : res_main_v7 V0 = embedT (V0 (Proc.devRef .tc main_arg2)) (V0 (Proc.devRef .tc main_arg3)) (V0 (Proc.devRef .tc main_arg4)) := rfl

theorem tie_final : res_main_v336 V0 = finalT (res_main_v331 V0) (V0 (Proc.devRef .tc main_arg14)) (V0 (Proc.devRef .tc main_arg15)) := rfl

/-- The reference's last value is the whole computation of Ref/Val.lean over the contents of the arguments. -/
theorem res_eq_netT :
    res_main_v336 V0
      = netT (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))
          (V0 (Proc.devRef .tc main_arg11)) (V0 (Proc.devRef .tc main_arg12)) (V0 (Proc.devRef .tc main_arg13)) (V0 (Proc.devRef .tc main_arg14)) (V0 (Proc.devRef .tc main_arg15)) := by
  rw [tie_final, tie_layer_L3, tie_layer_L2, tie_layer_L1, tie_layer_L0, tie_embed]
  rfl

end Tie

section Result

variable (m : (ℓ : Loc nD τ sig) → Buf (Elt Ideal) ℓ) (c : Dev nD)

/-- The network over what the arguments hold at launch on device c. -/
noncomputable def netOf : Fin 65536 → Fin 256 → EReal :=
  netS (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

/-- The reference's result term, read at block b, row q, column j, is the network at row 4096·b + q, column j.
    Nothing is assumed of the arguments. -/
theorem refTerm_read (b : Fin 16) (q : Fin 4096) (j : Fin 256) :
    refTerm m c (ix3 b q j)
      = netOf m c ⟨4096 * b.val + q.val, by have := b.isLt; have := q.isLt; omega⟩ j := by
  rw [refTerm_eq, res_eq_netT]
  exact netT_apply _ _ _ _ _ _ _ _ _ _ _ _ _ _ _ b q j

end Result

end Cert.ReferenceIdeal.Val

end
-- ==== Proof.Bridge.lean ====
/- The two programs compute one function. On a device, the kernel's result array read at block b, row q, column j is
   the network of Math/Net.lean over what the kernel's arguments hold, at row 4096·b + q, column j: its statistics are
   sums over sixteen blocks of 4096 rows and a variance taken as the mean of the squares less the square of the mean,
   which on real data are the mean and the mean squared deviation of the network. The reference's result read at the
   same place is the same network over what the reference's arguments hold. From memories that agree on the arguments
   the two arrays are therefore equal, entry by entry. -/
import proofs.«159011_j9938554322955_1_alg».proof.Defs
import proofs.«159011_j9938554322955_1_alg».proof.Proof.KI.NetVal
import proofs.«159011_j9938554322955_1_alg».proof.Proof.Ref.ValResult

noncomputable section

namespace Cert.Proof.Bridge

open Idealize.ShloMosaic Idealize.ShloMosaic.TcCoe Idealize.ShloMosaic.ValueIdx Idealize.SL.Sem

/-- From memories that agree on the sixteen arguments, under the precondition, the reference's result term on a
    device is the array the kernel's run leaves in its result buffer there. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    [Cert.Pre_finite_inputs.Facts] (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (c : Dev Cert.ReferenceIdeal.nD) :
    Cert.ReferenceIdeal.Hand.refTerm m' c = Cert.KernelIdeal.Hand.W29 m ρ c (Proc.devRef .tc Cert.KernelIdeal.main_v280) := by
  funext i
  obtain ⟨b, q, j, rfl⟩ : ∃ (b : Fin 16) (q : Fin 4096) (j : Fin 256), i = ix3 b q j := ⟨i 0, i 1, i 2, eq_ix3 i⟩
  obtain ⟨h0, h1, h2, h3, h4, h5, h6, h7, h8, h9, h10, h11, h12, h13, h14, h15⟩ := hagree c
  refine (Cert.ReferenceIdeal.Val.refTerm_read m' c b q j).trans (Eq.trans ?_ (Cert.KernelIdeal.Val.kernel_net m ρ c hpre b q j).symm)
  unfold Cert.ReferenceIdeal.Val.netOf
  rw [h0, h2, h3, h4, h5, h6, h7, h8, h9, h10, h11, h12, h13, h14, h15]

end Cert.Proof.Bridge

end
-- ==== Proof.lean ====
/- Both programs compute a four-layer graph network on 65536 nodes with 64 features per node (Math/Spec.lean,
   Math/Net.lean). A first stage spreads one scalar per node over the features. Each layer adds to (1 + e) times a
   node's features the sum of its in-neighbours' features, maps them linearly to 128 features, normalises every feature
   by its mean and variance over all nodes, clips at zero, maps back to 64 features, normalises and clips again, and
   adds the layer's input. A last linear map gives 256 features, and the 65536 rows are regrouped as 16 blocks of 4096.

   The reference computes each mean as the sum over the nodes divided by 65536, and each variance as the mean squared
   deviation from that mean. The kernel walks the nodes in sixteen blocks of 4096, accumulating per feature the sum
   and the sum of squares; it multiplies by 2⁻¹⁶ where the reference divides by 65536 (one number on every extended
   real), and takes the variance as the mean of the squares less the square of the mean. Two laws join the two sides:
   a sum over the 65536 nodes is the sum over the sixteen blocks of the sums within each block; and, on real data, the
   mean of the squares less the square of the mean is the mean squared deviation. The precondition makes every entry
   of every float argument a real number, every stage of the network then stays real, and so the second law applies
   at every normalisation. The neighbour sums are the same gather-and-add of the same edge array on both sides. Hence,
   from memories that agree on the arguments, both programs end with equal results, entry by entry, and with their
   arguments unchanged; the kernel's text read over bit patterns runs as well and leaves its arguments unchanged. -/
import proofs.«159011_j9938554322955_1_alg».proof.Defs
import proofs.«159011_j9938554322955_1_alg».proof.Proof.Gen.Kernel
import proofs.«159011_j9938554322955_1_alg».proof.Proof.Gen.KernelIdeal
import proofs.«159011_j9938554322955_1_alg».proof.Proof.Gen.ReferenceIdeal
import proofs.«159011_j9938554322955_1_alg».proof.Proof.Gen.Pre_finite_inputs
import proofs.«159011_j9938554322955_1_alg».proof.Proof.KB.Run
import proofs.«159011_j9938554322955_1_alg».proof.Proof.KI.Run
import proofs.«159011_j9938554322955_1_alg».proof.Proof.Ref.Run
import proofs.«159011_j9938554322955_1_alg».proof.Proof.Bridge

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Hand.frame (F := Bits) m ρ

/-- The kernel over the extended reals runs and leaves its arguments unchanged. -/
theorem frame_ki : Cert.frame_KernelIdeal := fun m ρ _ => Cert.KernelIdeal.Hand.frame (F := Ideal) m ρ

/-- The reference over the extended reals runs and leaves its arguments unchanged. -/
theorem frame_ri : Cert.frame_ReferenceIdeal := fun m ρ _ => Cert.ReferenceIdeal.Hand.frame m ρ

/-- Over the extended reals, from memories that agree on the arguments, both programs run, end with equal results and
    leave their arguments unchanged. -/
theorem algebraic : Cert.algebraic_KernelIdeal_ReferenceIdeal := fun m ρ m' ρ' hpre hagree =>
  ⟨fun c => Cert.KernelIdeal.Hand.W29 m ρ c (Proc.devRef .tc Cert.KernelIdeal.main_v280),
    Cert.KernelIdeal.Hand.run_result m ρ,
    (θ_run Cert.ReferenceIdeal.defs _ _).mono
      (fun _ h c => ⟨(h c).1.trans (Cert.Proof.Bridge.result_eq m ρ m' hpre hagree c), (h c).2⟩)
      (Cert.ReferenceIdeal.Hand.run m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
